-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v576) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S87381x300 : Shape := ⟨2, ![87381, 300]⟩
abbrev S300x150 : Shape := ⟨2, ![300, 150]⟩
abbrev S150 : Shape := ⟨1, ![150]⟩
abbrev S150x150 : Shape := ⟨2, ![150, 150]⟩
abbrev S_ : Shape := ⟨0, ![]⟩

class Facts : Prop where
  bcast_S_S87381x300 : S_.BroadcastsInDim S87381x300 (![] : Fin 0 → Fin S87381x300.rank)
  reducesTo_S87381x300_S_d0_1 : S87381x300.ReducesTo [0, 1] S_
  h_S_ : 0 < S_.numel
  bcast_S_S300x150 : S_.BroadcastsInDim S300x150 (![] : Fin 0 → Fin S300x150.rank)
  reducesTo_S300x150_S_d0_1 : S300x150.ReducesTo [0, 1] S_
  bcast_S_S150 : S_.BroadcastsInDim S150 (![] : Fin 0 → Fin S150.rank)
  reducesTo_S150_S_d0 : S150.ReducesTo [0] S_
  bcast_S_S150x150 : S_.BroadcastsInDim S150x150 (![] : Fin 0 → Fin S150x150.rank)
  reducesTo_S150x150_S_d0_1 : S150x150.ReducesTo [0, 1] S_

variable [Facts]

def fn_part4 {F : FTy → Type} [FloatOps F] (main_arg14 : FVec F S150 .f32) (main_arg15 : FVec F S150x150 .f32) (main_arg16 : FVec F S150 .f32) (main_v63 : IVec S_ 1) (main_v67 : IVec S_ 1) : IVec S_ 1 :=
  let main_v68 : IVec S_ 1 := andi main_v63 main_v67
  let main_v69 : FVec F S150 .f32 := Host.absf main_arg14
  let main_cst_26 : FVec F S_ .f32 := constant S_ .f32 0x7F800000#32
  let main_v70 : FVec F S150 .f32 := broadcastInDim S150 ![] bcast_S_S150 main_cst_26
  let main_v71 : IVec S150 1 := cmpf .olt main_v69 main_v70
  let main_c_27 : IVec S_ 1 := constantI S_ 1 1#1
  let main_v72 : IVec S_ 1 := (fun x v => Host.reduce IntOp.andi x v reducesTo_S150_S_d0 h_S_) main_v71 main_c_27
  let main_v73 : IVec S_ 1 := andi main_v68 main_v72
  let main_v74 : FVec F S150x150 .f32 := Host.absf main_arg15
  let main_cst_28 : FVec F S_ .f32 := constant S_ .f32 0x7F800000#32
  let main_v75 : FVec F S150x150 .f32 := broadcastInDim S150x150 ![] bcast_S_S150x150 main_cst_28
  let main_v76 : IVec S150x150 1 := cmpf .olt main_v74 main_v75
  let main_c_29 : IVec S_ 1 := constantI S_ 1 1#1
  let main_v77 : IVec S_ 1 := (fun x v => Host.reduce IntOp.andi x v reducesTo_S150x150_S_d0_1 h_S_) main_v76 main_c_29
  let main_v78 : IVec S_ 1 := andi main_v73 main_v77
  let main_v79 : FVec F S150 .f32 := Host.absf main_arg16
  let main_cst_30 : FVec F S_ .f32 := constant S_ .f32 0x7F800000#32
  let main_v80 : FVec F S150 .f32 := broadcastInDim S150 ![] bcast_S_S150 main_cst_30
  let main_v81 : IVec S150 1 := cmpf .olt main_v79 main_v80
  let main_c_31 : IVec S_ 1 := constantI S_ 1 1#1
  let main_v82 : IVec S_ 1 := (fun x v => Host.reduce IntOp.andi x v reducesTo_S150_S_d0 h_S_) main_v81 main_c_31
  let main_v83 : IVec S_ 1 := andi main_v78 main_v82
  main_v83

def fn_part3 {F : FTy → Type} [FloatOps F] (main_arg11 : FVec F S150x150 .f32) (main_arg12 : FVec F S150 .f32) (main_arg13 : FVec F S150x150 .f32) (main_arg14 : FVec F S150 .f32) (main_arg15 : FVec F S150x150 .f32) (main_arg16 : FVec F S150 .f32) (main_v48 : IVec S_ 1) (main_v49 : FVec F S150 .f32) (main_v50 : FVec F S150 .f32) : IVec S_ 1 :=
  let main_v51 : IVec S150 1 := cmpf .olt main_v49 main_v50
  let main_c_19 : IVec S_ 1 := constantI S_ 1 1#1
  let main_v52 : IVec S_ 1 := (fun x v => Host.reduce IntOp.andi x v reducesTo_S150_S_d0 h_S_) main_v51 main_c_19
  let main_v53 : IVec S_ 1 := andi main_v48 main_v52
  let main_v54 : FVec F S150x150 .f32 := Host.absf main_arg11
  let main_cst_20 : FVec F S_ .f32 := constant S_ .f32 0x7F800000#32
  let main_v55 : FVec F S150x150 .f32 := broadcastInDim S150x150 ![] bcast_S_S150x150 main_cst_20
  let main_v56 : IVec S150x150 1 := cmpf .olt main_v54 main_v55
  let main_c_21 : IVec S_ 1 := constantI S_ 1 1#1
  let main_v57 : IVec S_ 1 := (fun x v => Host.reduce IntOp.andi x v reducesTo_S150x150_S_d0_1 h_S_) main_v56 main_c_21
  let main_v58 : IVec S_ 1 := andi main_v53 main_v57
  let main_v59 : FVec F S150 .f32 := Host.absf main_arg12
  let main_cst_22 : FVec F S_ .f32 := constant S_ .f32 0x7F800000#32
  let main_v60 : FVec F S150 .f32 := broadcastInDim S150 ![] bcast_S_S150 main_cst_22
  let main_v61 : IVec S150 1 := cmpf .olt main_v59 main_v60
  let main_c_23 : IVec S_ 1 := constantI S_ 1 1#1
  let main_v62 : IVec S_ 1 := (fun x v => Host.reduce IntOp.andi x v reducesTo_S150_S_d0 h_S_) main_v61 main_c_23
  let main_v63 : IVec S_ 1 := andi main_v58 main_v62
  let main_v64 : FVec F S150x150 .f32 := Host.absf main_arg13
  let main_cst_24 : FVec F S_ .f32 := constant S_ .f32 0x7F800000#32
  let main_v65 : FVec F S150x150 .f32 := broadcastInDim S150x150 ![] bcast_S_S150x150 main_cst_24
  let main_v66 : IVec S150x150 1 := cmpf .olt main_v64 main_v65
  let main_c_25 : IVec S_ 1 := constantI S_ 1 1#1
  let main_v67 : IVec S_ 1 := (fun x v => Host.reduce IntOp.andi x v reducesTo_S150x150_S_d0_1 h_S_) main_v66 main_c_25
  fn_part4 (F := F) main_arg14 main_arg15 main_arg16 main_v63 main_v67

def fn_part2 {F : FTy → Type} [FloatOps F] (main_arg7 : FVec F S300x150 .f32) (main_arg8 : FVec F S150 .f32) (main_arg9 : FVec F S150x150 .f32) (main_arg10 : FVec F S150 .f32) (main_arg11 : FVec F S150x150 .f32) (main_arg12 : FVec F S150 .f32) (main_arg13 : FVec F S150x150 .f32) (main_arg14 : FVec F S150 .f32) (main_arg15 : FVec F S150x150 .f32) (main_arg16 : FVec F S150 .f32) (main_v33 : IVec S_ 1) : IVec S_ 1 :=
  let main_v34 : FVec F S300x150 .f32 := Host.absf main_arg7
  let main_cst_12 : FVec F S_ .f32 := constant S_ .f32 0x7F800000#32
  let main_v35 : FVec F S300x150 .f32 := broadcastInDim S300x150 ![] bcast_S_S300x150 main_cst_12
  let main_v36 : IVec S300x150 1 := cmpf .olt main_v34 main_v35
  let main_c_13 : IVec S_ 1 := constantI S_ 1 1#1
  let main_v37 : IVec S_ 1 := (fun x v => Host.reduce IntOp.andi x v reducesTo_S300x150_S_d0_1 h_S_) main_v36 main_c_13
  let main_v38 : IVec S_ 1 := andi main_v33 main_v37
  let main_v39 : FVec F S150 .f32 := Host.absf main_arg8
  let main_cst_14 : FVec F S_ .f32 := constant S_ .f32 0x7F800000#32
  let main_v40 : FVec F S150 .f32 := broadcastInDim S150 ![] bcast_S_S150 main_cst_14
  let main_v41 : IVec S150 1 := cmpf .olt main_v39 main_v40
  let main_c_15 : IVec S_ 1 := constantI S_ 1 1#1
  let main_v42 : IVec S_ 1 := (fun x v => Host.reduce IntOp.andi x v reducesTo_S150_S_d0 h_S_) main_v41 main_c_15
  let main_v43 : IVec S_ 1 := andi main_v38 main_v42
  let main_v44 : FVec F S150x150 .f32 := Host.absf main_arg9
  let main_cst_16 : FVec F S_ .f32 := constant S_ .f32 0x7F800000#32
  let main_v45 : FVec F S150x150 .f32 := broadcastInDim S150x150 ![] bcast_S_S150x150 main_cst_16
  let main_v46 : IVec S150x150 1 := cmpf .olt main_v44 main_v45
  let main_c_17 : IVec S_ 1 := constantI S_ 1 1#1
  let main_v47 : IVec S_ 1 := (fun x v => Host.reduce IntOp.andi x v reducesTo_S150x150_S_d0_1 h_S_) main_v46 main_c_17
  let main_v48 : IVec S_ 1 := andi main_v43 main_v47
  let main_v49 : FVec F S150 .f32 := Host.absf main_arg10
  let main_cst_18 : FVec F S_ .f32 := constant S_ .f32 0x7F800000#32
  let main_v50 : FVec F S150 .f32 := broadcastInDim S150 ![] bcast_S_S150 main_cst_18
  fn_part3 (F := F) main_arg11 main_arg12 main_arg13 main_arg14 main_arg15 main_arg16 main_v48 main_v49 main_v50

def fn_part1 {F : FTy → Type} [FloatOps F] (main_arg4 : FVec F S150 .f32) (main_arg5 : FVec F S300x150 .f32) (main_arg6 : FVec F S150 .f32) (main_arg7 : FVec F S300x150 .f32) (main_arg8 : FVec F S150 .f32) (main_arg9 : FVec F S150x150 .f32) (main_arg10 : FVec F S150 .f32) (main_arg11 : FVec F S150x150 .f32) (main_arg12 : FVec F S150 .f32) (main_arg13 : FVec F S150x150 .f32) (main_arg14 : FVec F S150 .f32) (main_arg15 : FVec F S150x150 .f32) (main_arg16 : FVec F S150 .f32) (main_v13 : IVec S_ 1) (main_v16 : IVec S300x150 1) : IVec S_ 1 :=
  let main_c_5 : IVec S_ 1 := constantI S_ 1 1#1
  let main_v17 : IVec S_ 1 := (fun x v => Host.reduce IntOp.andi x v reducesTo_S300x150_S_d0_1 h_S_) main_v16 main_c_5
  let main_v18 : IVec S_ 1 := andi main_v13 main_v17
  let main_v19 : FVec F S150 .f32 := Host.absf main_arg4
  let main_cst_6 : FVec F S_ .f32 := constant S_ .f32 0x7F800000#32
  let main_v20 : FVec F S150 .f32 := broadcastInDim S150 ![] bcast_S_S150 main_cst_6
  let main_v21 : IVec S150 1 := cmpf .olt main_v19 main_v20
  let main_c_7 : IVec S_ 1 := constantI S_ 1 1#1
  let main_v22 : IVec S_ 1 := (fun x v => Host.reduce IntOp.andi x v reducesTo_S150_S_d0 h_S_) main_v21 main_c_7
  let main_v23 : IVec S_ 1 := andi main_v18 main_v22
  let main_v24 : FVec F S300x150 .f32 := Host.absf main_arg5
  let main_cst_8 : FVec F S_ .f32 := constant S_ .f32 0x7F800000#32
  let main_v25 : FVec F S300x150 .f32 := broadcastInDim S300x150 ![] bcast_S_S300x150 main_cst_8
  let main_v26 : IVec S300x150 1 := cmpf .olt main_v24 main_v25
  let main_c_9 : IVec S_ 1 := constantI S_ 1 1#1
  let main_v27 : IVec S_ 1 := (fun x v => Host.reduce IntOp.andi x v reducesTo_S300x150_S_d0_1 h_S_) main_v26 main_c_9
  let main_v28 : IVec S_ 1 := andi main_v23 main_v27
  let main_v29 : FVec F S150 .f32 := Host.absf main_arg6
  let main_cst_10 : FVec F S_ .f32 := constant S_ .f32 0x7F800000#32
  let main_v30 : FVec F S150 .f32 := broadcastInDim S150 ![] bcast_S_S150 main_cst_10
  let main_v31 : IVec S150 1 := cmpf .olt main_v29 main_v30
  let main_c_11 : IVec S_ 1 := constantI S_ 1 1#1
  let main_v32 : IVec S_ 1 := (fun x v => Host.reduce IntOp.andi x v reducesTo_S150_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S87381x300 .f32) (main_arg1 : FVec F S300x150 .f32) (main_arg2 : FVec F S150 .f32) (main_arg3 : FVec F S300x150 .f32) (main_arg4 : FVec F S150 .f32) (main_arg5 : FVec F S300x150 .f32) (main_arg6 : FVec F S150 .f32) (main_arg7 : FVec F S300x150 .f32) (main_arg8 : FVec F S150 .f32) (main_arg9 : FVec F S150x150 .f32) (main_arg10 : FVec F S150 .f32) (main_arg11 : FVec F S150x150 .f32) (main_arg12 : FVec F S150 .f32) (main_arg13 : FVec F S150x150 .f32) (main_arg14 : FVec F S150 .f32) (main_arg15 : FVec F S150x150 .f32) (main_arg16 : FVec F S150 .f32) : IVec S_ 1 :=
  let main_v0 : FVec F S87381x300 .f32 := Host.absf main_arg0
  let main_cst : FVec F S_ .f32 := constant S_ .f32 0x7F800000#32
  let main_v1 : FVec F S87381x300 .f32 := broadcastInDim S87381x300 ![] bcast_S_S87381x300 main_cst
  let main_v2 : IVec S87381x300 1 := cmpf .olt main_v0 main_v1
  let main_c : IVec S_ 1 := constantI S_ 1 1#1
  let main_v3 : IVec S_ 1 := (fun x v => Host.reduce IntOp.andi x v reducesTo_S87381x300_S_d0_1 h_S_) main_v2 main_c
  let main_v4 : FVec F S300x150 .f32 := Host.absf main_arg1
  let main_cst_0 : FVec F S_ .f32 := constant S_ .f32 0x7F800000#32
  let main_v5 : FVec F S300x150 .f32 := broadcastInDim S300x150 ![] bcast_S_S300x150 main_cst_0
  let main_v6 : IVec S300x150 1 := cmpf .olt main_v4 main_v5
  let main_c_1 : IVec S_ 1 := constantI S_ 1 1#1
  let main_v7 : IVec S_ 1 := (fun x v => Host.reduce IntOp.andi x v reducesTo_S300x150_S_d0_1 h_S_) main_v6 main_c_1
  let main_v8 : IVec S_ 1 := andi main_v3 main_v7
  let main_v9 : FVec F S150 .f32 := Host.absf main_arg2
  let main_cst_2 : FVec F S_ .f32 := constant S_ .f32 0x7F800000#32
  let main_v10 : FVec F S150 .f32 := broadcastInDim S150 ![] bcast_S_S150 main_cst_2
  let main_v11 : IVec S150 1 := cmpf .olt main_v9 main_v10
  let main_c_3 : IVec S_ 1 := constantI S_ 1 1#1
  let main_v12 : IVec S_ 1 := (fun x v => Host.reduce IntOp.andi x v reducesTo_S150_S_d0 h_S_) main_v11 main_c_3
  let main_v13 : IVec S_ 1 := andi main_v8 main_v12
  let main_v14 : FVec F S300x150 .f32 := Host.absf main_arg3
  let main_cst_4 : FVec F S_ .f32 := constant S_ .f32 0x7F800000#32
  let main_v15 : FVec F S300x150 .f32 := broadcastInDim S300x150 ![] bcast_S_S300x150 main_cst_4
  let main_v16 : IVec S300x150 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S87381x300 : Shape := ⟨2, ![87381, 300]⟩
abbrev S300x150 : Shape := ⟨2, ![300, 150]⟩
abbrev S150 : Shape := ⟨1, ![150]⟩
abbrev S150x150 : Shape := ⟨2, ![150, 150]⟩
abbrev S1x150 : Shape := ⟨2, ![1, 150]⟩
abbrev S65536x300 : Shape := ⟨2, ![65536, 300]⟩
abbrev S65536x150 : Shape := ⟨2, ![65536, 150]⟩
abbrev S2048x300 : Shape := ⟨2, ![2048, 300]⟩
abbrev S2048x150 : Shape := ⟨2, ![2048, 150]⟩
abbrev S16384x300 : Shape := ⟨2, ![16384, 300]⟩
abbrev S16384x4x150 : Shape := ⟨3, ![16384, 4, 150]⟩
abbrev S16384x150 : Shape := ⟨2, ![16384, 150]⟩
abbrev S512x300 : Shape := ⟨2, ![512, 300]⟩
abbrev S512x4x150 : Shape := ⟨3, ![512, 4, 150]⟩
abbrev S512x150 : Shape := ⟨2, ![512, 150]⟩
abbrev S1x1x150 : Shape := ⟨3, ![1, 1, 150]⟩
abbrev S512x1x150 : Shape := ⟨3, ![512, 1, 150]⟩
abbrev S4096x300 : Shape := ⟨2, ![4096, 300]⟩
abbrev S4096x4x150 : Shape := ⟨3, ![4096, 4, 150]⟩
abbrev S4096x150 : Shape := ⟨2, ![4096, 150]⟩
abbrev S1024x300 : Shape := ⟨2, ![1024, 300]⟩
abbrev S1024x4x150 : Shape := ⟨3, ![1024, 4, 150]⟩
abbrev S1024x150 : Shape := ⟨2, ![1024, 150]⟩
abbrev S256x300 : Shape := ⟨2, ![256, 300]⟩
abbrev S256x4x150 : Shape := ⟨3, ![256, 4, 150]⟩
abbrev S256x150 : Shape := ⟨2, ![256, 150]⟩
abbrev S256x1x150 : Shape := ⟨3, ![256, 1, 150]⟩
abbrev S64x300 : Shape := ⟨2, ![64, 300]⟩
abbrev S64x4x150 : Shape := ⟨3, ![64, 4, 150]⟩
abbrev S64x150 : Shape := ⟨2, ![64, 150]⟩
abbrev S64x1x150 : Shape := ⟨3, ![64, 1, 150]⟩
abbrev S16x300 : Shape := ⟨2, ![16, 300]⟩
abbrev S16x4x150 : Shape := ⟨3, ![16, 4, 150]⟩
abbrev S16x150 : Shape := ⟨2, ![16, 150]⟩
abbrev S16x1x150 : Shape := ⟨3, ![16, 1, 150]⟩
abbrev S4x300 : Shape := ⟨2, ![4, 300]⟩
abbrev S4x4x150 : Shape := ⟨3, ![4, 4, 150]⟩
abbrev S4x150 : Shape := ⟨2, ![4, 150]⟩
abbrev S4x1x150 : Shape := ⟨3, ![4, 1, 150]⟩
abbrev S1x300 : Shape := ⟨2, ![1, 300]⟩
abbrev S1x4x150 : Shape := ⟨3, ![1, 4, 150]⟩
abbrev S87381x150 : Shape := ⟨2, ![87381, 150]⟩

abbrev nBuf : Space → Nat
  | .hbm => 69
  | .vmem => 198
  | .smem => 0
  | _ => 0

abbrev vmemTy0_0 (i : Nat) : BufTy := match i % 128 with
  | 0 => ⟨S2048x300, .f32⟩
  | 1 => ⟨S2048x300, .f32⟩
  | 2 => ⟨S300x150, .f32⟩
  | 3 => ⟨S1x150, .f32⟩
  | 4 => ⟨S300x150, .f32⟩
  | 5 => ⟨S1x150, .f32⟩
  | 6 => ⟨S300x150, .f32⟩
  | 7 => ⟨S1x150, .f32⟩
  | 8 => ⟨S1x150, .f32⟩
  | 9 => ⟨S1x150, .f32⟩
  | 10 => ⟨S1x150, .f32⟩
  | 11 => ⟨S2048x150, .f32⟩
  | 12 => ⟨S2048x150, .f32⟩
  | 13 => ⟨S2048x150, .f32⟩
  | 14 => ⟨S2048x150, .f32⟩
  | 15 => ⟨S512x300, .f32⟩
  | 16 => ⟨S512x300, .f32⟩
  | 17 => ⟨S512x4x150, .f32⟩
  | 18 => ⟨S512x4x150, .f32⟩
  | 19 => ⟨S512x4x150, .f32⟩
  | 20 => ⟨S512x4x150, .f32⟩
  | 21 => ⟨S300x150, .f32⟩
  | 22 => ⟨S1x150, .f32⟩
  | 23 => ⟨S300x150, .f32⟩
  | 24 => ⟨S1x150, .f32⟩
  | 25 => ⟨S300x150, .f32⟩
  | 26 => ⟨S1x150, .f32⟩
  | 27 => ⟨S300x150, .f32⟩
  | 28 => ⟨S1x150, .f32⟩
  | 29 => ⟨S150x150, .f32⟩
  | 30 => ⟨S1x150, .f32⟩
  | 31 => ⟨S150x150, .f32⟩
  | 32 => ⟨S1x150, .f32⟩
  | 33 => ⟨S150x150, .f32⟩
  | 34 => ⟨S1x150, .f32⟩
  | 35 => ⟨S150x150, .f32⟩
  | 36 => ⟨S1x150, .f32⟩
  | 37 => ⟨S512x150, .f32⟩
  | 38 => ⟨S512x150, .f32⟩
  | 39 => ⟨S512x150, .f32⟩
  | 40 => ⟨S512x150, .f32⟩
  | 41 => ⟨S512x300, .f32⟩
  | 42 => ⟨S512x300, .f32⟩
  | 43 => ⟨S512x4x150, .f32⟩
  | 44 => ⟨S512x4x150, .f32⟩
  | 45 => ⟨S512x4x150, .f32⟩
  | 46 => ⟨S512x4x150, .f32⟩
  | 47 => ⟨S300x150, .f32⟩
  | 48 => ⟨S1x150, .f32⟩
  | 49 => ⟨S300x150, .f32⟩
  | 50 => ⟨S1x150, .f32⟩
  | 51 => ⟨S300x150, .f32⟩
  | 52 => ⟨S1x150, .f32⟩
  | 53 => ⟨S300x150, .f32⟩
  | 54 => ⟨S1x150, .f32⟩
  | 55 => ⟨S150x150, .f32⟩
  | 56 => ⟨S1x150, .f32⟩
  | 57 => ⟨S150x150, .f32⟩
  | 58 => ⟨S1x150, .f32⟩
  | 59 => ⟨S150x150, .f32⟩
  | 60 => ⟨S1x150, .f32⟩
  | 61 => ⟨S150x150, .f32⟩
  | 62 => ⟨S1x150, .f32⟩
  | 63 => ⟨S512x150, .f32⟩
  | 64 => ⟨S512x150, .f32⟩
  | 65 => ⟨S512x150, .f32⟩
  | 66 => ⟨S512x150, .f32⟩
  | 67 => ⟨S512x300, .f32⟩
  | 68 => ⟨S512x300, .f32⟩
  | 69 => ⟨S512x4x150, .f32⟩
  | 70 => ⟨S512x4x150, .f32⟩
  | 71 => ⟨S512x4x150, .f32⟩
  | 72 => ⟨S512x4x150, .f32⟩
  | 73 => ⟨S300x150, .f32⟩
  | 74 => ⟨S1x150, .f32⟩
  | 75 => ⟨S300x150, .f32⟩
  | 76 => ⟨S1x150, .f32⟩
  | 77 => ⟨S300x150, .f32⟩
  | 78 => ⟨S1x150, .f32⟩
  | 79 => ⟨S300x150, .f32⟩
  | 80 => ⟨S1x150, .f32⟩
  | 81 => ⟨S150x150, .f32⟩
  | 82 => ⟨S1x150, .f32⟩
  | 83 => ⟨S150x150, .f32⟩
  | 84 => ⟨S1x150, .f32⟩
  | 85 => ⟨S150x150, .f32⟩
  | 86 => ⟨S1x150, .f32⟩
  | 87 => ⟨S150x150, .f32⟩
  | 88 => ⟨S1x150, .f32⟩
  | 89 => ⟨S512x150, .f32⟩
  | 90 => ⟨S512x150, .f32⟩
  | 91 => ⟨S512x150, .f32⟩
  | 92 => ⟨S512x150, .f32⟩
  | 93 => ⟨S256x300, .f32⟩
  | 94 => ⟨S256x4x150, .f32⟩
  | 95 => ⟨S256x4x150, .f32⟩
  | 96 => ⟨S300x150, .f32⟩
  | 97 => ⟨S1x150, .f32⟩
  | 98 => ⟨S300x150, .f32⟩
  | 99 => ⟨S1x150, .f32⟩
  | 100 => ⟨S300x150, .f32⟩
  | 101 => ⟨S1x150, .f32⟩
  | 102 => ⟨S300x150, .f32⟩
  | 103 => ⟨S1x150, .f32⟩
  | 104 => ⟨S150x150, .f32⟩
  | 105 => ⟨S1x150, .f32⟩
  | 106 => ⟨S150x150, .f32⟩
  | 107 => ⟨S1x150, .f32⟩
  | 108 => ⟨S150x150, .f32⟩
  | 109 => ⟨S1x150, .f32⟩
  | 110 => ⟨S150x150, .f32⟩
  | 111 => ⟨S1x150, .f32⟩
  | 112 => ⟨S256x150, .f32⟩
  | 113 => ⟨S256x150, .f32⟩
  | 114 => ⟨S64x300, .f32⟩
  | 115 => ⟨S64x4x150, .f32⟩
  | 116 => ⟨S64x4x150, .f32⟩
  | 117 => ⟨S300x150, .f32⟩
  | 118 => ⟨S1x150, .f32⟩
  | 119 => ⟨S300x150, .f32⟩
  | 120 => ⟨S1x150, .f32⟩
  | 121 => ⟨S300x150, .f32⟩
  | 122 => ⟨S1x150, .f32⟩
  | 123 => ⟨S300x150, .f32⟩
  | 124 => ⟨S1x150, .f32⟩
  | 125 => ⟨S150x150, .f32⟩
  | 126 => ⟨S1x150, .f32⟩
  | 127 => ⟨S150x150, .f32⟩
  | _ => ⟨S87381x300, .f32⟩

abbrev vmemTy0_1 (i : Nat) : BufTy := match i % 128 with
  | 0 => ⟨S1x150, .f32⟩
  | 1 => ⟨S150x150, .f32⟩
  | 2 => ⟨S1x150, .f32⟩
  | 3 => ⟨S150x150, .f32⟩
  | 4 => ⟨S1x150, .f32⟩
  | 5 => ⟨S64x150, .f32⟩
  | 6 => ⟨S64x150, .f32⟩
  | 7 => ⟨S16x300, .f32⟩
  | 8 => ⟨S16x4x150, .f32⟩
  | 9 => ⟨S16x4x150, .f32⟩
  | 10 => ⟨S300x150, .f32⟩
  | 11 => ⟨S1x150, .f32⟩
  | 12 => ⟨S300x150, .f32⟩
  | 13 => ⟨S1x150, .f32⟩
  | 14 => ⟨S300x150, .f32⟩
  | 15 => ⟨S1x150, .f32⟩
  | 16 => ⟨S300x150, .f32⟩
  | 17 => ⟨S1x150, .f32⟩
  | 18 => ⟨S150x150, .f32⟩
  | 19 => ⟨S1x150, .f32⟩
  | 20 => ⟨S150x150, .f32⟩
  | 21 => ⟨S1x150, .f32⟩
  | 22 => ⟨S150x150, .f32⟩
  | 23 => ⟨S1x150, .f32⟩
  | 24 => ⟨S150x150, .f32⟩
  | 25 => ⟨S1x150, .f32⟩
  | 26 => ⟨S16x150, .f32⟩
  | 27 => ⟨S16x150, .f32⟩
  | 28 => ⟨S4x300, .f32⟩
  | 29 => ⟨S4x4x150, .f32⟩
  | 30 => ⟨S4x4x150, .f32⟩
  | 31 => ⟨S300x150, .f32⟩
  | 32 => ⟨S1x150, .f32⟩
  | 33 => ⟨S300x150, .f32⟩
  | 34 => ⟨S1x150, .f32⟩
  | 35 => ⟨S300x150, .f32⟩
  | 36 => ⟨S1x150, .f32⟩
  | 37 => ⟨S300x150, .f32⟩
  | 38 => ⟨S1x150, .f32⟩
  | 39 => ⟨S150x150, .f32⟩
  | 40 => ⟨S1x150, .f32⟩
  | 41 => ⟨S150x150, .f32⟩
  | 42 => ⟨S1x150, .f32⟩
  | 43 => ⟨S150x150, .f32⟩
  | 44 => ⟨S1x150, .f32⟩
  | 45 => ⟨S150x150, .f32⟩
  | 46 => ⟨S1x150, .f32⟩
  | 47 => ⟨S4x150, .f32⟩
  | 48 => ⟨S4x150, .f32⟩
  | 49 => ⟨S1x300, .f32⟩
  | 50 => ⟨S1x4x150, .f32⟩
  | 51 => ⟨S1x4x150, .f32⟩
  | 52 => ⟨S300x150, .f32⟩
  | 53 => ⟨S1x150, .f32⟩
  | 54 => ⟨S300x150, .f32⟩
  | 55 => ⟨S1x150, .f32⟩
  | 56 => ⟨S300x150, .f32⟩
  | 57 => ⟨S1x150, .f32⟩
  | 58 => ⟨S300x150, .f32⟩
  | 59 => ⟨S1x150, .f32⟩
  | 60 => ⟨S150x150, .f32⟩
  | 61 => ⟨S1x150, .f32⟩
  | 62 => ⟨S150x150, .f32⟩
  | 63 => ⟨S1x150, .f32⟩
  | 64 => ⟨S150x150, .f32⟩
  | 65 => ⟨S1x150, .f32⟩
  | 66 => ⟨S150x150, .f32⟩
  | 67 => ⟨S1x150, .f32⟩
  | 68 => ⟨S1x150, .f32⟩
  | 69 => ⟨S1x150, .f32⟩
  | _ => ⟨S87381x300, .f32⟩

abbrev vmemTy (i : Nat) : BufTy := match i / 128 with
  | 0 => vmemTy0_0 i
  | 1 => vmemTy0_1 i
  | _ => ⟨S87381x300, .f32⟩

abbrev bufTy : (tb : Table) → Fin (tcTables nBuf tb) → BufTy
  | .hbm, ⟨0, _⟩ => ⟨S87381x300, .f32⟩
  | .hbm, ⟨1, _⟩ => ⟨S300x150, .f32⟩
  | .hbm, ⟨2, _⟩ => ⟨S150, .f32⟩
  | .hbm, ⟨3, _⟩ => ⟨S300x150, .f32⟩
  | .hbm, ⟨4, _⟩ => ⟨S150, .f32⟩
  | .hbm, ⟨5, _⟩ => ⟨S300x150, .f32⟩
  | .hbm, ⟨6, _⟩ => ⟨S150, .f32⟩
  | .hbm, ⟨7, _⟩ => ⟨S300x150, .f32⟩
  | .hbm, ⟨8, _⟩ => ⟨S150, .f32⟩
  | .hbm, ⟨9, _⟩ => ⟨S150x150, .f32⟩
  | .hbm, ⟨10, _⟩ => ⟨S150, .f32⟩
  | .hbm, ⟨11, _⟩ => ⟨S150x150, .f32⟩
  | .hbm, ⟨12, _⟩ => ⟨S150, .f32⟩
  | .hbm, ⟨13, _⟩ => ⟨S150x150, .f32⟩
  | .hbm, ⟨14, _⟩ => ⟨S150, .f32⟩
  | .hbm, ⟨15, _⟩ => ⟨S150x150, .f32⟩
  | .hbm, ⟨16, _⟩ => ⟨S150, .f32⟩
  | .hbm, ⟨17, _⟩ => ⟨S1x150, .f32⟩
  | .hbm, ⟨18, _⟩ => ⟨S1x150, .f32⟩
  | .hbm, ⟨19, _⟩ => ⟨S1x150, .f32⟩
  | .hbm, ⟨20, _⟩ => ⟨S1x150, .f32⟩
  | .hbm, ⟨21, _⟩ => ⟨S1x150, .f32⟩
  | .hbm, ⟨22, _⟩ => ⟨S1x150, .f32⟩
  | .hbm, ⟨23, _⟩ => ⟨S1x150, .f32⟩
  | .hbm, ⟨24, _⟩ => ⟨S1x150, .f32⟩
  | .hbm, ⟨25, _⟩ => ⟨S65536x300, .f32⟩
  | .hbm, ⟨26, _⟩ => ⟨S65536x150, .f32⟩
  | .hbm, ⟨27, _⟩ => ⟨S65536x150, .f32⟩
  | .hbm, ⟨28, _⟩ => ⟨S16384x300, .f32⟩
  | .hbm, ⟨29, _⟩ => ⟨S16384x4x150, .f32⟩
  | .hbm, ⟨30, _⟩ => ⟨S16384x4x150, .f32⟩
  | .hbm, ⟨31, _⟩ => ⟨S16384x150, .f32⟩
  | .hbm, ⟨32, _⟩ => ⟨S16384x150, .f32⟩
  | .hbm, ⟨33, _⟩ => ⟨S4096x300, .f32⟩
  | .hbm, ⟨34, _⟩ => ⟨S4096x4x150, .f32⟩
  | .hbm, ⟨35, _⟩ => ⟨S4096x4x150, .f32⟩
  | .hbm, ⟨36, _⟩ => ⟨S4096x150, .f32⟩
  | .hbm, ⟨37, _⟩ => ⟨S4096x150, .f32⟩
  | .hbm, ⟨38, _⟩ => ⟨S1024x300, .f32⟩
  | .hbm, ⟨39, _⟩ => ⟨S1024x4x150, .f32⟩
  | .hbm, ⟨40, _⟩ => ⟨S1024x4x150, .f32⟩
  | .hbm, ⟨41, _⟩ => ⟨S1024x150, .f32⟩
  | .hbm, ⟨42, _⟩ => ⟨S1024x150, .f32⟩
  | .hbm, ⟨43, _⟩ => ⟨S256x300, .f32⟩
  | .hbm, ⟨44, _⟩ => ⟨S256x4x150, .f32⟩
  | .hbm, ⟨45, _⟩ => ⟨S256x4x150, .f32⟩
  | .hbm, ⟨46, _⟩ => ⟨S256x150, .f32⟩
  | .hbm, ⟨47, _⟩ => ⟨S256x150, .f32⟩
  | .hbm, ⟨48, _⟩ => ⟨S64x300, .f32⟩
  | .hbm, ⟨49, _⟩ => ⟨S64x4x150, .f32⟩
  | .hbm, ⟨50, _⟩ => ⟨S64x4x150, .f32⟩
  | .hbm, ⟨51, _⟩ => ⟨S64x150, .f32⟩
  | .hbm, ⟨52, _⟩ => ⟨S64x150, .f32⟩
  | .hbm, ⟨53, _⟩ => ⟨S16x300, .f32⟩
  | .hbm, ⟨54, _⟩ => ⟨S16x4x150, .f32⟩
  | .hbm, ⟨55, _⟩ => ⟨S16x4x150, .f32⟩
  | .hbm, ⟨56, _⟩ => ⟨S16x150, .f32⟩
  | .hbm, ⟨57, _⟩ => ⟨S16x150, .f32⟩
  | .hbm, ⟨58, _⟩ => ⟨S4x300, .f32⟩
  | .hbm, ⟨59, _⟩ => ⟨S4x4x150, .f32⟩
  | .hbm, ⟨60, _⟩ => ⟨S4x4x150, .f32⟩
  | .hbm, ⟨61, _⟩ => ⟨S4x150, .f32⟩
  | .hbm, ⟨62, _⟩ => ⟨S4x150, .f32⟩
  | .hbm, ⟨63, _⟩ => ⟨S1x300, .f32⟩
  | .hbm, ⟨64, _⟩ => ⟨S1x4x150, .f32⟩
  | .hbm, ⟨65, _⟩ => ⟨S1x4x150, .f32⟩
  | .hbm, ⟨66, _⟩ => ⟨S1x150, .f32⟩
  | .hbm, ⟨67, _⟩ => ⟨S1x150, .f32⟩
  | .hbm, ⟨68, _⟩ => ⟨S87381x150, .f32⟩
  | .local _ .vmem, ⟨i, _⟩ => vmemTy i
  | _, _ => ⟨S87381x300, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 198 → Bool
  | ⟨i, _⟩ => dmaSemScopedAt i

abbrev sig : RefSig :=
  ofTc nBuf bufTy 0 198 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9_0 : Ref sig .tc := ⟨.hbm, 26, rfl⟩
abbrev main_v9_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13_0 : Ref sig .tc := ⟨.hbm, 31, rfl⟩
abbrev main_v13_1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17_0 : Ref sig .tc := ⟨.hbm, 36, rfl⟩
abbrev main_v17_1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21_0 : Ref sig .tc := ⟨.hbm, 41, rfl⟩
abbrev main_v21_1 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25_0 : Ref sig .tc := ⟨.hbm, 46, rfl⟩
abbrev main_v25_1 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29_0 : Ref sig .tc := ⟨.hbm, 51, rfl⟩
abbrev main_v29_1 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33_0 : Ref sig .tc := ⟨.hbm, 56, rfl⟩
abbrev main_v33_1 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37_0 : Ref sig .tc := ⟨.hbm, 61, rfl⟩
abbrev main_v37_1 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41_0 : Ref sig .tc := ⟨.hbm, 66, rfl⟩
abbrev main_v41_1 : Ref sig .tc := ⟨.hbm, 67, rfl⟩
abbrev main_v42 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg10_0 : Ref sig .tc := ⟨.vmem, 28, rfl⟩
abbrev cc1_stg11_0 : Ref sig .tc := ⟨.vmem, 29, rfl⟩
abbrev cc1_stg12_0 : Ref sig .tc := ⟨.vmem, 30, rfl⟩
abbrev cc1_stg13_0 : Ref sig .tc := ⟨.vmem, 31, rfl⟩
abbrev cc1_stg14_0 : Ref sig .tc := ⟨.vmem, 32, rfl⟩
abbrev cc1_stg15_0 : Ref sig .tc := ⟨.vmem, 33, rfl⟩
abbrev cc1_stg16_0 : Ref sig .tc := ⟨.vmem, 34, rfl⟩
abbrev cc1_stg17_0 : Ref sig .tc := ⟨.vmem, 35, rfl⟩
abbrev cc1_stg18_0 : Ref sig .tc := ⟨.vmem, 36, rfl⟩
abbrev cc1_stg19_0 : Ref sig .tc := ⟨.vmem, 37, rfl⟩
abbrev cc1_stg19_1 : Ref sig .tc := ⟨.vmem, 38, rfl⟩
abbrev cc1_stg20_0 : Ref sig .tc := ⟨.vmem, 39, rfl⟩
abbrev cc1_stg20_1 : Ref sig .tc := ⟨.vmem, 40, rfl⟩
abbrev cc2_stg0_0 : Ref sig .tc := ⟨.vmem, 41, rfl⟩
abbrev cc2_stg0_1 : Ref sig .tc := ⟨.vmem, 42, rfl⟩
abbrev cc2_stg1_0 : Ref sig .tc := ⟨.vmem, 43, rfl⟩
abbrev cc2_stg1_1 : Ref sig .tc := ⟨.vmem, 44, rfl⟩
abbrev cc2_stg2_0 : Ref sig .tc := ⟨.vmem, 45, rfl⟩
abbrev cc2_stg2_1 : Ref sig .tc := ⟨.vmem, 46, rfl⟩
abbrev cc2_stg3_0 : Ref sig .tc := ⟨.vmem, 47, rfl⟩
abbrev cc2_stg4_0 : Ref sig .tc := ⟨.vmem, 48, rfl⟩
abbrev cc2_stg5_0 : Ref sig .tc := ⟨.vmem, 49, rfl⟩
abbrev cc2_stg6_0 : Ref sig .tc := ⟨.vmem, 50, rfl⟩
abbrev cc2_stg7_0 : Ref sig .tc := ⟨.vmem, 51, rfl⟩
abbrev cc2_stg8_0 : Ref sig .tc := ⟨.vmem, 52, rfl⟩
abbrev cc2_stg9_0 : Ref sig .tc := ⟨.vmem, 53, rfl⟩
abbrev cc2_stg10_0 : Ref sig .tc := ⟨.vmem, 54, rfl⟩
abbrev cc2_stg11_0 : Ref sig .tc := ⟨.vmem, 55, rfl⟩
abbrev cc2_stg12_0 : Ref sig .tc := ⟨.vmem, 56, rfl⟩
abbrev cc2_stg13_0 : Ref sig .tc := ⟨.vmem, 57, rfl⟩
abbrev cc2_stg14_0 : Ref sig .tc := ⟨.vmem, 58, rfl⟩
abbrev cc2_stg15_0 : Ref sig .tc := ⟨.vmem, 59, rfl⟩
abbrev cc2_stg16_0 : Ref sig .tc := ⟨.vmem, 60, rfl⟩
abbrev cc2_stg17_0 : Ref sig .tc := ⟨.vmem, 61, rfl⟩
abbrev cc2_stg18_0 : Ref sig .tc := ⟨.vmem, 62, rfl⟩
abbrev cc2_stg19_0 : Ref sig .tc := ⟨.vmem, 63, rfl⟩
abbrev cc2_stg19_1 : Ref sig .tc := ⟨.vmem, 64, rfl⟩
abbrev cc2_stg20_0 : Ref sig .tc := ⟨.vmem, 65, rfl⟩
abbrev cc2_stg20_1 : Ref sig .tc := ⟨.vmem, 66, rfl⟩
abbrev cc3_stg0_0 : Ref sig .tc := ⟨.vmem, 67, rfl⟩
abbrev cc3_stg0_1 : Ref sig .tc := ⟨.vmem, 68, rfl⟩
abbrev cc3_stg1_0 : Ref sig .tc := ⟨.vmem, 69, rfl⟩
abbrev cc3_stg1_1 : Ref sig .tc := ⟨.vmem, 70, rfl⟩
abbrev cc3_stg2_0 : Ref sig .tc := ⟨.vmem, 71, rfl⟩
abbrev cc3_stg2_1 : Ref sig .tc := ⟨.vmem, 72, rfl⟩
abbrev cc3_stg3_0 : Ref sig .tc := ⟨.vmem, 73, rfl⟩
abbrev cc3_stg4_0 : Ref sig .tc := ⟨.vmem, 74, rfl⟩
abbrev cc3_stg5_0 : Ref sig .tc := ⟨.vmem, 75, rfl⟩
abbrev cc3_stg6_0 : Ref sig .tc := ⟨.vmem, 76, rfl⟩
abbrev cc3_stg7_0 : Ref sig .tc := ⟨.vmem, 77, rfl⟩
abbrev cc3_stg8_0 : Ref sig .tc := ⟨.vmem, 78, rfl⟩
abbrev cc3_stg9_0 : Ref sig .tc := ⟨.vmem, 79, rfl⟩
abbrev cc3_stg10_0 : Ref sig .tc := ⟨.vmem, 80, rfl⟩
abbrev cc3_stg11_0 : Ref sig .tc := ⟨.vmem, 81, rfl⟩
abbrev cc3_stg12_0 : Ref sig .tc := ⟨.vmem, 82, rfl⟩
abbrev cc3_stg13_0 : Ref sig .tc := ⟨.vmem, 83, rfl⟩
abbrev cc3_stg14_0 : Ref sig .tc := ⟨.vmem, 84, rfl⟩
abbrev cc3_stg15_0 : Ref sig .tc := ⟨.vmem, 85, rfl⟩
abbrev cc3_stg16_0 : Ref sig .tc := ⟨.vmem, 86, rfl⟩
abbrev cc3_stg17_0 : Ref sig .tc := ⟨.vmem, 87, rfl⟩
abbrev cc3_stg18_0 : Ref sig .tc := ⟨.vmem, 88, rfl⟩
abbrev cc3_stg19_0 : Ref sig .tc := ⟨.vmem, 89, rfl⟩
abbrev cc3_stg19_1 : Ref sig .tc := ⟨.vmem, 90, rfl⟩
abbrev cc3_stg20_0 : Ref sig .tc := ⟨.vmem, 91, rfl⟩
abbrev cc3_stg20_1 : Ref sig .tc := ⟨.vmem, 92, rfl⟩
abbrev cc4_stg0_0 : Ref sig .tc := ⟨.vmem, 93, rfl⟩
abbrev cc4_stg1_0 : Ref sig .tc := ⟨.vmem, 94, rfl⟩
abbrev cc4_stg2_0 : Ref sig .tc := ⟨.vmem, 95, rfl⟩
abbrev cc4_stg3_0 : Ref sig .tc := ⟨.vmem, 96, rfl⟩
abbrev cc4_stg4_0 : Ref sig .tc := ⟨.vmem, 97, rfl⟩
abbrev cc4_stg5_0 : Ref sig .tc := ⟨.vmem, 98, rfl⟩
abbrev cc4_stg6_0 : Ref sig .tc := ⟨.vmem, 99, rfl⟩
abbrev cc4_stg7_0 : Ref sig .tc := ⟨.vmem, 100, rfl⟩
abbrev cc4_stg8_0 : Ref sig .tc := ⟨.vmem, 101, rfl⟩
abbrev cc4_stg9_0 : Ref sig .tc := ⟨.vmem, 102, rfl⟩
abbrev cc4_stg10_0 : Ref sig .tc := ⟨.vmem, 103, rfl⟩
abbrev cc4_stg11_0 : Ref sig .tc := ⟨.vmem, 104, rfl⟩
abbrev cc4_stg12_0 : Ref sig .tc := ⟨.vmem, 105, rfl⟩
abbrev cc4_stg13_0 : Ref sig .tc := ⟨.vmem, 106, rfl⟩
abbrev cc4_stg14_0 : Ref sig .tc := ⟨.vmem, 107, rfl⟩
abbrev cc4_stg15_0 : Ref sig .tc := ⟨.vmem, 108, rfl⟩
abbrev cc4_stg16_0 : Ref sig .tc := ⟨.vmem, 109, rfl⟩
abbrev cc4_stg17_0 : Ref sig .tc := ⟨.vmem, 110, rfl⟩
abbrev cc4_stg18_0 : Ref sig .tc := ⟨.vmem, 111, rfl⟩
abbrev cc4_stg19_0 : Ref sig .tc := ⟨.vmem, 112, rfl⟩
abbrev cc4_stg20_0 : Ref sig .tc := ⟨.vmem, 113, rfl⟩
abbrev cc5_stg0_0 : Ref sig .tc := ⟨.vmem, 114, rfl⟩
abbrev cc5_stg1_0 : Ref sig .tc := ⟨.vmem, 115, rfl⟩
abbrev cc5_stg2_0 : Ref sig .tc := ⟨.vmem, 116, rfl⟩
abbrev cc5_stg3_0 : Ref sig .tc := ⟨.vmem, 117, rfl⟩
abbrev cc5_stg4_0 : Ref sig .tc := ⟨.vmem, 118, rfl⟩
abbrev cc5_stg5_0 : Ref sig .tc := ⟨.vmem, 119, rfl⟩
abbrev cc5_stg6_0 : Ref sig .tc := ⟨.vmem, 120, rfl⟩
abbrev cc5_stg7_0 : Ref sig .tc := ⟨.vmem, 121, rfl⟩
abbrev cc5_stg8_0 : Ref sig .tc := ⟨.vmem, 122, rfl⟩
abbrev cc5_stg9_0 : Ref sig .tc := ⟨.vmem, 123, rfl⟩
abbrev cc5_stg10_0 : Ref sig .tc := ⟨.vmem, 124, rfl⟩
abbrev cc5_stg11_0 : Ref sig .tc := ⟨.vmem, 125, rfl⟩
abbrev cc5_stg12_0 : Ref sig .tc := ⟨.vmem, 126, rfl⟩
abbrev cc5_stg13_0 : Ref sig .tc := ⟨.vmem, 127, rfl⟩
abbrev cc5_stg14_0 : Ref sig .tc := ⟨.vmem, 128, rfl⟩
abbrev cc5_stg15_0 : Ref sig .tc := ⟨.vmem, 129, rfl⟩
abbrev cc5_stg16_0 : Ref sig .tc := ⟨.vmem, 130, rfl⟩
abbrev cc5_stg17_0 : Ref sig .tc := ⟨.vmem, 131, rfl⟩
abbrev cc5_stg18_0 : Ref sig .tc := ⟨.vmem, 132, rfl⟩
abbrev cc5_stg19_0 : Ref sig .tc := ⟨.vmem, 133, rfl⟩
abbrev cc5_stg20_0 : Ref sig .tc := ⟨.vmem, 134, rfl⟩
abbrev cc6_stg0_0 : Ref sig .tc := ⟨.vmem, 135, rfl⟩
abbrev cc6_stg1_0 : Ref sig .tc := ⟨.vmem, 136, rfl⟩
abbrev cc6_stg2_0 : Ref sig .tc := ⟨.vmem, 137, rfl⟩
abbrev cc6_stg3_0 : Ref sig .tc := ⟨.vmem, 138, rfl⟩
abbrev cc6_stg4_0 : Ref sig .tc := ⟨.vmem, 139, rfl⟩
abbrev cc6_stg5_0 : Ref sig .tc := ⟨.vmem, 140, rfl⟩
abbrev cc6_stg6_0 : Ref sig .tc := ⟨.vmem, 141, rfl⟩
abbrev cc6_stg7_0 : Ref sig .tc := ⟨.vmem, 142, rfl⟩
abbrev cc6_stg8_0 : Ref sig .tc := ⟨.vmem, 143, rfl⟩
abbrev cc6_stg9_0 : Ref sig .tc := ⟨.vmem, 144, rfl⟩
abbrev cc6_stg10_0 : Ref sig .tc := ⟨.vmem, 145, rfl⟩
abbrev cc6_stg11_0 : Ref sig .tc := ⟨.vmem, 146, rfl⟩
abbrev cc6_stg12_0 : Ref sig .tc := ⟨.vmem, 147, rfl⟩
abbrev cc6_stg13_0 : Ref sig .tc := ⟨.vmem, 148, rfl⟩
abbrev cc6_stg14_0 : Ref sig .tc := ⟨.vmem, 149, rfl⟩
abbrev cc6_stg15_0 : Ref sig .tc := ⟨.vmem, 150, rfl⟩
abbrev cc6_stg16_0 : Ref sig .tc := ⟨.vmem, 151, rfl⟩
abbrev cc6_stg17_0 : Ref sig .tc := ⟨.vmem, 152, rfl⟩
abbrev cc6_stg18_0 : Ref sig .tc := ⟨.vmem, 153, rfl⟩
abbrev cc6_stg19_0 : Ref sig .tc := ⟨.vmem, 154, rfl⟩
abbrev cc6_stg20_0 : Ref sig .tc := ⟨.vmem, 155, rfl⟩
abbrev cc7_stg0_0 : Ref sig .tc := ⟨.vmem, 156, rfl⟩
abbrev cc7_stg1_0 : Ref sig .tc := ⟨.vmem, 157, rfl⟩
abbrev cc7_stg2_0 : Ref sig .tc := ⟨.vmem, 158, rfl⟩
abbrev cc7_stg3_0 : Ref sig .tc := ⟨.vmem, 159, rfl⟩
abbrev cc7_stg4_0 : Ref sig .tc := ⟨.vmem, 160, rfl⟩
abbrev cc7_stg5_0 : Ref sig .tc := ⟨.vmem, 161, rfl⟩
abbrev cc7_stg6_0 : Ref sig .tc := ⟨.vmem, 162, rfl⟩
abbrev cc7_stg7_0 : Ref sig .tc := ⟨.vmem, 163, rfl⟩
abbrev cc7_stg8_0 : Ref sig .tc := ⟨.vmem, 164, rfl⟩
abbrev cc7_stg9_0 : Ref sig .tc := ⟨.vmem, 165, rfl⟩
abbrev cc7_stg10_0 : Ref sig .tc := ⟨.vmem, 166, rfl⟩
abbrev cc7_stg11_0 : Ref sig .tc := ⟨.vmem, 167, rfl⟩
abbrev cc7_stg12_0 : Ref sig .tc := ⟨.vmem, 168, rfl⟩
abbrev cc7_stg13_0 : Ref sig .tc := ⟨.vmem, 169, rfl⟩
abbrev cc7_stg14_0 : Ref sig .tc := ⟨.vmem, 170, rfl⟩
abbrev cc7_stg15_0 : Ref sig .tc := ⟨.vmem, 171, rfl⟩
abbrev cc7_stg16_0 : Ref sig .tc := ⟨.vmem, 172, rfl⟩
abbrev cc7_stg17_0 : Ref sig .tc := ⟨.vmem, 173, rfl⟩
abbrev cc7_stg18_0 : Ref sig .tc := ⟨.vmem, 174, rfl⟩
abbrev cc7_stg19_0 : Ref sig .tc := ⟨.vmem, 175, rfl⟩
abbrev cc7_stg20_0 : Ref sig .tc := ⟨.vmem, 176, rfl⟩
abbrev cc8_stg0_0 : Ref sig .tc := ⟨.vmem, 177, rfl⟩
abbrev cc8_stg1_0 : Ref sig .tc := ⟨.vmem, 178, rfl⟩
abbrev cc8_stg2_0 : Ref sig .tc := ⟨.vmem, 179, rfl⟩
abbrev cc8_stg3_0 : Ref sig .tc := ⟨.vmem, 180, rfl⟩
abbrev cc8_stg4_0 : Ref sig .tc := ⟨.vmem, 181, rfl⟩
abbrev cc8_stg5_0 : Ref sig .tc := ⟨.vmem, 182, rfl⟩
abbrev cc8_stg6_0 : Ref sig .tc := ⟨.vmem, 183, rfl⟩
abbrev cc8_stg7_0 : Ref sig .tc := ⟨.vmem, 184, rfl⟩
abbrev cc8_stg8_0 : Ref sig .tc := ⟨.vmem, 185, rfl⟩
abbrev cc8_stg9_0 : Ref sig .tc := ⟨.vmem, 186, rfl⟩
abbrev cc8_stg10_0 : Ref sig .tc := ⟨.vmem, 187, rfl⟩
abbrev cc8_stg11_0 : Ref sig .tc := ⟨.vmem, 188, rfl⟩
abbrev cc8_stg12_0 : Ref sig .tc := ⟨.vmem, 189, rfl⟩
abbrev cc8_stg13_0 : Ref sig .tc := ⟨.vmem, 190, rfl⟩
abbrev cc8_stg14_0 : Ref sig .tc := ⟨.vmem, 191, rfl⟩
abbrev cc8_stg15_0 : Ref sig .tc := ⟨.vmem, 192, rfl⟩
abbrev cc8_stg16_0 : Ref sig .tc := ⟨.vmem, 193, rfl⟩
abbrev cc8_stg17_0 : Ref sig .tc := ⟨.vmem, 194, rfl⟩
abbrev cc8_stg18_0 : Ref sig .tc := ⟨.vmem, 195, rfl⟩
abbrev cc8_stg19_0 : Ref sig .tc := ⟨.vmem, 196, rfl⟩
abbrev cc8_stg20_0 : Ref sig .tc := ⟨.vmem, 197, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem10_0 : DmaSem sig := 28
abbrev cc1_sem11_0 : DmaSem sig := 29
abbrev cc1_sem12_0 : DmaSem sig := 30
abbrev cc1_sem13_0 : DmaSem sig := 31
abbrev cc1_sem14_0 : DmaSem sig := 32
abbrev cc1_sem15_0 : DmaSem sig := 33
abbrev cc1_sem16_0 : DmaSem sig := 34
abbrev cc1_sem17_0 : DmaSem sig := 35
abbrev cc1_sem18_0 : DmaSem sig := 36
abbrev cc1_sem19_0 : DmaSem sig := 37
abbrev cc1_sem19_1 : DmaSem sig := 38
abbrev cc1_sem20_0 : DmaSem sig := 39
abbrev cc1_sem20_1 : DmaSem sig := 40
abbrev cc2_sem0_0 : DmaSem sig := 41
abbrev cc2_sem0_1 : DmaSem sig := 42
abbrev cc2_sem1_0 : DmaSem sig := 43
abbrev cc2_sem1_1 : DmaSem sig := 44
abbrev cc2_sem2_0 : DmaSem sig := 45
abbrev cc2_sem2_1 : DmaSem sig := 46
abbrev cc2_sem3_0 : DmaSem sig := 47
abbrev cc2_sem4_0 : DmaSem sig := 48
abbrev cc2_sem5_0 : DmaSem sig := 49
abbrev cc2_sem6_0 : DmaSem sig := 50
abbrev cc2_sem7_0 : DmaSem sig := 51
abbrev cc2_sem8_0 : DmaSem sig := 52
abbrev cc2_sem9_0 : DmaSem sig := 53
abbrev cc2_sem10_0 : DmaSem sig := 54
abbrev cc2_sem11_0 : DmaSem sig := 55
abbrev cc2_sem12_0 : DmaSem sig := 56
abbrev cc2_sem13_0 : DmaSem sig := 57
abbrev cc2_sem14_0 : DmaSem sig := 58
abbrev cc2_sem15_0 : DmaSem sig := 59
abbrev cc2_sem16_0 : DmaSem sig := 60
abbrev cc2_sem17_0 : DmaSem sig := 61
abbrev cc2_sem18_0 : DmaSem sig := 62
abbrev cc2_sem19_0 : DmaSem sig := 63
abbrev cc2_sem19_1 : DmaSem sig := 64
abbrev cc2_sem20_0 : DmaSem sig := 65
abbrev cc2_sem20_1 : DmaSem sig := 66
abbrev cc3_sem0_0 : DmaSem sig := 67
abbrev cc3_sem0_1 : DmaSem sig := 68
abbrev cc3_sem1_0 : DmaSem sig := 69
abbrev cc3_sem1_1 : DmaSem sig := 70
abbrev cc3_sem2_0 : DmaSem sig := 71
abbrev cc3_sem2_1 : DmaSem sig := 72
abbrev cc3_sem3_0 : DmaSem sig := 73
abbrev cc3_sem4_0 : DmaSem sig := 74
abbrev cc3_sem5_0 : DmaSem sig := 75
abbrev cc3_sem6_0 : DmaSem sig := 76
abbrev cc3_sem7_0 : DmaSem sig := 77
abbrev cc3_sem8_0 : DmaSem sig := 78
abbrev cc3_sem9_0 : DmaSem sig := 79
abbrev cc3_sem10_0 : DmaSem sig := 80
abbrev cc3_sem11_0 : DmaSem sig := 81
abbrev cc3_sem12_0 : DmaSem sig := 82
abbrev cc3_sem13_0 : DmaSem sig := 83
abbrev cc3_sem14_0 : DmaSem sig := 84
abbrev cc3_sem15_0 : DmaSem sig := 85
abbrev cc3_sem16_0 : DmaSem sig := 86
abbrev cc3_sem17_0 : DmaSem sig := 87
abbrev cc3_sem18_0 : DmaSem sig := 88
abbrev cc3_sem19_0 : DmaSem sig := 89
abbrev cc3_sem19_1 : DmaSem sig := 90
abbrev cc3_sem20_0 : DmaSem sig := 91
abbrev cc3_sem20_1 : DmaSem sig := 92
abbrev cc4_sem0_0 : DmaSem sig := 93
abbrev cc4_sem1_0 : DmaSem sig := 94
abbrev cc4_sem2_0 : DmaSem sig := 95
abbrev cc4_sem3_0 : DmaSem sig := 96
abbrev cc4_sem4_0 : DmaSem sig := 97
abbrev cc4_sem5_0 : DmaSem sig := 98
abbrev cc4_sem6_0 : DmaSem sig := 99
abbrev cc4_sem7_0 : DmaSem sig := 100
abbrev cc4_sem8_0 : DmaSem sig := 101
abbrev cc4_sem9_0 : DmaSem sig := 102
abbrev cc4_sem10_0 : DmaSem sig := 103
abbrev cc4_sem11_0 : DmaSem sig := 104
abbrev cc4_sem12_0 : DmaSem sig := 105
abbrev cc4_sem13_0 : DmaSem sig := 106
abbrev cc4_sem14_0 : DmaSem sig := 107
abbrev cc4_sem15_0 : DmaSem sig := 108
abbrev cc4_sem16_0 : DmaSem sig := 109
abbrev cc4_sem17_0 : DmaSem sig := 110
abbrev cc4_sem18_0 : DmaSem sig := 111
abbrev cc4_sem19_0 : DmaSem sig := 112
abbrev cc4_sem20_0 : DmaSem sig := 113
abbrev cc5_sem0_0 : DmaSem sig := 114
abbrev cc5_sem1_0 : DmaSem sig := 115
abbrev cc5_sem2_0 : DmaSem sig := 116
abbrev cc5_sem3_0 : DmaSem sig := 117
abbrev cc5_sem4_0 : DmaSem sig := 118
abbrev cc5_sem5_0 : DmaSem sig := 119
abbrev cc5_sem6_0 : DmaSem sig := 120
abbrev cc5_sem7_0 : DmaSem sig := 121
abbrev cc5_sem8_0 : DmaSem sig := 122
abbrev cc5_sem9_0 : DmaSem sig := 123
abbrev cc5_sem10_0 : DmaSem sig := 124
abbrev cc5_sem11_0 : DmaSem sig := 125
abbrev cc5_sem12_0 : DmaSem sig := 126
abbrev cc5_sem13_0 : DmaSem sig := 127
abbrev cc5_sem14_0 : DmaSem sig := 128
abbrev cc5_sem15_0 : DmaSem sig := 129
abbrev cc5_sem16_0 : DmaSem sig := 130
abbrev cc5_sem17_0 : DmaSem sig := 131
abbrev cc5_sem18_0 : DmaSem sig := 132
abbrev cc5_sem19_0 : DmaSem sig := 133
abbrev cc5_sem20_0 : DmaSem sig := 134
abbrev cc6_sem0_0 : DmaSem sig := 135
abbrev cc6_sem1_0 : DmaSem sig := 136
abbrev cc6_sem2_0 : DmaSem sig := 137
abbrev cc6_sem3_0 : DmaSem sig := 138
abbrev cc6_sem4_0 : DmaSem sig := 139
abbrev cc6_sem5_0 : DmaSem sig := 140
abbrev cc6_sem6_0 : DmaSem sig := 141
abbrev cc6_sem7_0 : DmaSem sig := 142
abbrev cc6_sem8_0 : DmaSem sig := 143
abbrev cc6_sem9_0 : DmaSem sig := 144
abbrev cc6_sem10_0 : DmaSem sig := 145
abbrev cc6_sem11_0 : DmaSem sig := 146
abbrev cc6_sem12_0 : DmaSem sig := 147
abbrev cc6_sem13_0 : DmaSem sig := 148
abbrev cc6_sem14_0 : DmaSem sig := 149
abbrev cc6_sem15_0 : DmaSem sig := 150
abbrev cc6_sem16_0 : DmaSem sig := 151
abbrev cc6_sem17_0 : DmaSem sig := 152
abbrev cc6_sem18_0 : DmaSem sig := 153
abbrev cc6_sem19_0 : DmaSem sig := 154
abbrev cc6_sem20_0 : DmaSem sig := 155
abbrev cc7_sem0_0 : DmaSem sig := 156
abbrev cc7_sem1_0 : DmaSem sig := 157
abbrev cc7_sem2_0 : DmaSem sig := 158
abbrev cc7_sem3_0 : DmaSem sig := 159
abbrev cc7_sem4_0 : DmaSem sig := 160
abbrev cc7_sem5_0 : DmaSem sig := 161
abbrev cc7_sem6_0 : DmaSem sig := 162
abbrev cc7_sem7_0 : DmaSem sig := 163
abbrev cc7_sem8_0 : DmaSem sig := 164
abbrev cc7_sem9_0 : DmaSem sig := 165
abbrev cc7_sem10_0 : DmaSem sig := 166
abbrev cc7_sem11_0 : DmaSem sig := 167
abbrev cc7_sem12_0 : DmaSem sig := 168
abbrev cc7_sem13_0 : DmaSem sig := 169
abbrev cc7_sem14_0 : DmaSem sig := 170
abbrev cc7_sem15_0 : DmaSem sig := 171
abbrev cc7_sem16_0 : DmaSem sig := 172
abbrev cc7_sem17_0 : DmaSem sig := 173
abbrev cc7_sem18_0 : DmaSem sig := 174
abbrev cc7_sem19_0 : DmaSem sig := 175
abbrev cc7_sem20_0 : DmaSem sig := 176
abbrev cc8_sem0_0 : DmaSem sig := 177
abbrev cc8_sem1_0 : DmaSem sig := 178
abbrev cc8_sem2_0 : DmaSem sig := 179
abbrev cc8_sem3_0 : DmaSem sig := 180
abbrev cc8_sem4_0 : DmaSem sig := 181
abbrev cc8_sem5_0 : DmaSem sig := 182
abbrev cc8_sem6_0 : DmaSem sig := 183
abbrev cc8_sem7_0 : DmaSem sig := 184
abbrev cc8_sem8_0 : DmaSem sig := 185
abbrev cc8_sem9_0 : DmaSem sig := 186
abbrev cc8_sem10_0 : DmaSem sig := 187
abbrev cc8_sem11_0 : DmaSem sig := 188
abbrev cc8_sem12_0 : DmaSem sig := 189
abbrev cc8_sem13_0 : DmaSem sig := 190
abbrev cc8_sem14_0 : DmaSem sig := 191
abbrev cc8_sem15_0 : DmaSem sig := 192
abbrev cc8_sem16_0 : DmaSem sig := 193
abbrev cc8_sem17_0 : DmaSem sig := 194
abbrev cc8_sem18_0 : DmaSem sig := 195
abbrev cc8_sem19_0 : DmaSem sig := 196
abbrev cc8_sem20_0 : DmaSem sig := 197

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S300x150 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x150 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S300x150 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x150 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S300x150 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x150 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x150 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x150 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x150 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2048x150 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x150 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_20 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x300 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x4x150 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x4x150 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S300x150 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x150 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S300x150 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x150 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S300x150 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x150 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S300x150 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x150 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S150x150 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x150 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S150x150 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x150 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S150x150 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x150 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S150x150 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S1x150 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 2 → Memref sig .tc .vmem S512x150 .f32 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true]

abbrev stage1_20 : Fin 2 → Memref sig .tc .vmem S512x150 .f32 := fun | 0 => Memref.whole cc1_stg20_0 | 1 => Memref.whole cc1_stg20_1 | ⟨_ + 2, h⟩ => absurd h (Nat.not_lt.2 (Nat.le_add_left _ _))
abbrev sem1_20 : Fin 2 → DmaSem sig := fun | 0 => cc1_sem20_0 | 1 => cc1_sem20_1 | ⟨_ + 2, h⟩ => absurd h (Nat.not_lt.2 (Nat.le_add_left _ _))
abbrev reads1_20 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_17 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_18 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_19 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_20 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x300 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x4x150 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x4x150 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S300x150 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x150 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S300x150 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x150 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S300x150 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x150 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S300x150 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x150 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S150x150 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x150 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S150x150 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S1x150 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S150x150 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 1 → Memref sig .tc .vmem S1x150 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev stage2_17 : Fin 1 → Memref sig .tc .vmem S150x150 .f32 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))
abbrev reads2_17 : Fin grid2.rank → Bool := ![false]

abbrev stage2_18 : Fin 1 → Memref sig .tc .vmem S1x150 .f32 := fun | 0 => Memref.whole cc2_stg18_0 | ⟨_ + 1, h⟩ => absurd h (Nat.not_lt.2 (Nat.le_add_left _ _))
abbrev sem2_18 : Fin 1 → DmaSem sig := fun | 0 => cc2_sem18_0 | ⟨_ + 1, h⟩ => absurd h (Nat.not_lt.2 (Nat.le_add_left _ _))
abbrev reads2_18 : Fin grid2.rank → Bool := ![false]

abbrev stage2_19 : Fin 2 → Memref sig .tc .vmem S512x150 .f32 := fun | 0 => Memref.whole cc2_stg19_0 | 1 => Memref.whole cc2_stg19_1 | ⟨_ + 2, h⟩ => absurd h (Nat.not_lt.2 (Nat.le_add_left _ _))
abbrev sem2_19 : Fin 2 → DmaSem sig := fun | 0 => cc2_sem19_0 | 1 => cc2_sem19_1 | ⟨_ + 2, h⟩ => absurd h (Nat.not_lt.2 (Nat.le_add_left _ _))
abbrev reads2_19 : Fin grid2.rank → Bool := ![true]

abbrev stage2_20 : Fin 2 → Memref sig .tc .vmem S512x150 .f32 := fun | 0 => Memref.whole cc2_stg20_0 | 1 => Memref.whole cc2_stg20_1 | ⟨_ + 2, h⟩ => absurd h (Nat.not_lt.2 (Nat.le_add_left _ _))
abbrev sem2_20 : Fin 2 → DmaSem sig := fun | 0 => cc2_sem20_0 | 1 => cc2_sem20_1 | ⟨_ + 2, h⟩ => absurd h (Nat.not_lt.2 (Nat.le_add_left _ _))
abbrev reads2_20 : Fin grid2.rank → Bool := ![true]

abbrev grid3 : Pipeline.Grid := ⟨1, ![2], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_15 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_16 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_17 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_18 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_19 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_20 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x300 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x4x150 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S512x4x150 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S300x150 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x150 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S300x150 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x150 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S300x150 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x150 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S300x150 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x150 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S150x150 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x150 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S150x150 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 1 → Memref sig .tc .vmem S1x150 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false]

abbrev stage3_15 : Fin 1 → Memref sig .tc .vmem S150x150 .f32 := fun | 0 => Memref.whole cc3_stg15_0 | ⟨_ + 1, h⟩ => absurd h (Nat.not_lt.2 (Nat.le_add_left _ _))
abbrev sem3_15 : Fin 1 → DmaSem sig := fun | 0 => cc3_sem15_0 | ⟨_ + 1, h⟩ => absurd h (Nat.not_lt.2 (Nat.le_add_left _ _))
abbrev reads3_15 : Fin grid3.rank → Bool := ![false]

abbrev stage3_16 : Fin 1 → Memref sig .tc .vmem S1x150 .f32 := fun | 0 => Memref.whole cc3_stg16_0 | ⟨_ + 1, h⟩ => absurd h (Nat.not_lt.2 (Nat.le_add_left _ _))
abbrev sem3_16 : Fin 1 → DmaSem sig := fun | 0 => cc3_sem16_0 | ⟨_ + 1, h⟩ => absurd h (Nat.not_lt.2 (Nat.le_add_left _ _))
abbrev reads3_16 : Fin grid3.rank → Bool := ![false]

abbrev stage3_17 : Fin 1 → Memref sig .tc .vmem S150x150 .f32 := fun | 0 => Memref.whole cc3_stg17_0 | ⟨_ + 1, h⟩ => absurd h (Nat.not_lt.2 (Nat.le_add_left _ _))
abbrev sem3_17 : Fin 1 → DmaSem sig := fun | 0 => cc3_sem17_0 | ⟨_ + 1, h⟩ => absurd h (Nat.not_lt.2 (Nat.le_add_left _ _))
abbrev reads3_17 : Fin grid3.rank → Bool := ![false]

abbrev stage3_18 : Fin 1 → Memref sig .tc .vmem S1x150 .f32 := fun | 0 => Memref.whole cc3_stg18_0 | ⟨_ + 1, h⟩ => absurd h (Nat.not_lt.2 (Nat.le_add_left _ _))
abbrev sem3_18 : Fin 1 → DmaSem sig := fun | 0 => cc3_sem18_0 | ⟨_ + 1, h⟩ => absurd h (Nat.not_lt.2 (Nat.le_add_left _ _))
abbrev reads3_18 : Fin grid3.rank → Bool := ![false]

abbrev stage3_19 : Fin 2 → Memref sig .tc .vmem S512x150 .f32 := fun | 0 => Memref.whole cc3_stg19_0 | 1 => Memref.whole cc3_stg19_1 | ⟨_ + 2, h⟩ => absurd h (Nat.not_lt.2 (Nat.le_add_left _ _))
abbrev sem3_19 : Fin 2 → DmaSem sig := fun | 0 => cc3_sem19_0 | 1 => cc3_sem19_1 | ⟨_ + 2, h⟩ => absurd h (Nat.not_lt.2 (Nat.le_add_left _ _))
abbrev reads3_19 : Fin grid3.rank → Bool := ![true]

abbrev stage3_20 : Fin 2 → Memref sig .tc .vmem S512x150 .f32 := fun | 0 => Memref.whole cc3_stg20_0 | 1 => Memref.whole cc3_stg20_1 | ⟨_ + 2, h⟩ => absurd h (Nat.not_lt.2 (Nat.le_add_left _ _))
abbrev sem3_20 : Fin 2 → DmaSem sig := fun | 0 => cc3_sem20_0 | 1 => cc3_sem20_1 | ⟨_ + 2, h⟩ => absurd h (Nat.not_lt.2 (Nat.le_add_left _ _))
abbrev reads3_20 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_13 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_14 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_15 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_16 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_17 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_18 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_19 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_20 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S256x300 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S256x4x150 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true]

abbrev stage4_2 : Fin 1 → Memref sig .tc .vmem S256x4x150 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true]

abbrev stage4_3 : Fin 1 → Memref sig .tc .vmem S300x150 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x150 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S300x150 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x150 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S300x150 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x150 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S300x150 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x150 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S150x150 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S1x150 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

abbrev stage4_13 : Fin 1 → Memref sig .tc .vmem S150x150 .f32 := fun | 0 => Memref.whole cc4_stg13_0 | ⟨_ + 1, h⟩ => absurd h (Nat.not_lt.2 (Nat.le_add_left _ _))
abbrev sem4_13 : Fin 1 → DmaSem sig := fun | 0 => cc4_sem13_0 | ⟨_ + 1, h⟩ => absurd h (Nat.not_lt.2 (Nat.le_add_left _ _))
abbrev reads4_13 : Fin grid4.rank → Bool := ![false]

abbrev stage4_14 : Fin 1 → Memref sig .tc .vmem S1x150 .f32 := fun | 0 => Memref.whole cc4_stg14_0 | ⟨_ + 1, h⟩ => absurd h (Nat.not_lt.2 (Nat.le_add_left _ _))
abbrev sem4_14 : Fin 1 → DmaSem sig := fun | 0 => cc4_sem14_0 | ⟨_ + 1, h⟩ => absurd h (Nat.not_lt.2 (Nat.le_add_left _ _))
abbrev reads4_14 : Fin grid4.rank → Bool := ![false]

abbrev stage4_15 : Fin 1 → Memref sig .tc .vmem S150x150 .f32 := fun | 0 => Memref.whole cc4_stg15_0 | ⟨_ + 1, h⟩ => absurd h (Nat.not_lt.2 (Nat.le_add_left _ _))
abbrev sem4_15 : Fin 1 → DmaSem sig := fun | 0 => cc4_sem15_0 | ⟨_ + 1, h⟩ => absurd h (Nat.not_lt.2 (Nat.le_add_left _ _))
abbrev reads4_15 : Fin grid4.rank → Bool := ![false]

abbrev stage4_16 : Fin 1 → Memref sig .tc .vmem S1x150 .f32 := fun | 0 => Memref.whole cc4_stg16_0 | ⟨_ + 1, h⟩ => absurd h (Nat.not_lt.2 (Nat.le_add_left _ _))
abbrev sem4_16 : Fin 1 → DmaSem sig := fun | 0 => cc4_sem16_0 | ⟨_ + 1, h⟩ => absurd h (Nat.not_lt.2 (Nat.le_add_left _ _))
abbrev reads4_16 : Fin grid4.rank → Bool := ![false]

abbrev stage4_17 : Fin 1 → Memref sig .tc .vmem S150x150 .f32 := fun | 0 => Memref.whole cc4_stg17_0 | ⟨_ + 1, h⟩ => absurd h (Nat.not_lt.2 (Nat.le_add_left _ _))
abbrev sem4_17 : Fin 1 → DmaSem sig := fun | 0 => cc4_sem17_0 | ⟨_ + 1, h⟩ => absurd h (Nat.not_lt.2 (Nat.le_add_left _ _))
abbrev reads4_17 : Fin grid4.rank → Bool := ![false]

abbrev stage4_18 : Fin 1 → Memref sig .tc .vmem S1x150 .f32 := fun | 0 => Memref.whole cc4_stg18_0 | ⟨_ + 1, h⟩ => absurd h (Nat.not_lt.2 (Nat.le_add_left _ _))
abbrev sem4_18 : Fin 1 → DmaSem sig := fun | 0 => cc4_sem18_0 | ⟨_ + 1, h⟩ => absurd h (Nat.not_lt.2 (Nat.le_add_left _ _))
abbrev reads4_18 : Fin grid4.rank → Bool := ![false]

abbrev stage4_19 : Fin 1 → Memref sig .tc .vmem S256x150 .f32 := fun | 0 => Memref.whole cc4_stg19_0 | ⟨_ + 1, h⟩ => absurd h (Nat.not_lt.2 (Nat.le_add_left _ _))
abbrev sem4_19 : Fin 1 → DmaSem sig := fun | 0 => cc4_sem19_0 | ⟨_ + 1, h⟩ => absurd h (Nat.not_lt.2 (Nat.le_add_left _ _))
abbrev reads4_19 : Fin grid4.rank → Bool := ![true]

abbrev stage4_20 : Fin 1 → Memref sig .tc .vmem S256x150 .f32 := fun | 0 => Memref.whole cc4_stg20_0 | ⟨_ + 1, h⟩ => absurd h (Nat.not_lt.2 (Nat.le_add_left _ _))
abbrev sem4_20 : Fin 1 → DmaSem sig := fun | 0 => cc4_sem20_0 | ⟨_ + 1, h⟩ => absurd h (Nat.not_lt.2 (Nat.le_add_left _ _))
abbrev reads4_20 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_11 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_12 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_13 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_14 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_15 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_16 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_17 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_18 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_19 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_20 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S64x300 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S64x4x150 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true]

abbrev stage5_2 : Fin 1 → Memref sig .tc .vmem S64x4x150 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true]

abbrev stage5_3 : Fin 1 → Memref sig .tc .vmem S300x150 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x150 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S300x150 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x150 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S300x150 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x150 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S300x150 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S1x150 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev stage5_11 : Fin 1 → Memref sig .tc .vmem S150x150 .f32 := fun | 0 => Memref.whole cc5_stg11_0 | ⟨_ + 1, h⟩ => absurd h (Nat.not_lt.2 (Nat.le_add_left _ _))
abbrev sem5_11 : Fin 1 → DmaSem sig := fun | 0 => cc5_sem11_0 | ⟨_ + 1, h⟩ => absurd h (Nat.not_lt.2 (Nat.le_add_left _ _))
abbrev reads5_11 : Fin grid5.rank → Bool := ![false]

abbrev stage5_12 : Fin 1 → Memref sig .tc .vmem S1x150 .f32 := fun | 0 => Memref.whole cc5_stg12_0 | ⟨_ + 1, h⟩ => absurd h (Nat.not_lt.2 (Nat.le_add_left _ _))
abbrev sem5_12 : Fin 1 → DmaSem sig := fun | 0 => cc5_sem12_0 | ⟨_ + 1, h⟩ => absurd h (Nat.not_lt.2 (Nat.le_add_left _ _))
abbrev reads5_12 : Fin grid5.rank → Bool := ![false]

abbrev stage5_13 : Fin 1 → Memref sig .tc .vmem S150x150 .f32 := fun | 0 => Memref.whole cc5_stg13_0 | ⟨_ + 1, h⟩ => absurd h (Nat.not_lt.2 (Nat.le_add_left _ _))
abbrev sem5_13 : Fin 1 → DmaSem sig := fun | 0 => cc5_sem13_0 | ⟨_ + 1, h⟩ => absurd h (Nat.not_lt.2 (Nat.le_add_left _ _))
abbrev reads5_13 : Fin grid5.rank → Bool := ![false]

abbrev stage5_14 : Fin 1 → Memref sig .tc .vmem S1x150 .f32 := fun | 0 => Memref.whole cc5_stg14_0 | ⟨_ + 1, h⟩ => absurd h (Nat.not_lt.2 (Nat.le_add_left _ _))
abbrev sem5_14 : Fin 1 → DmaSem sig := fun | 0 => cc5_sem14_0 | ⟨_ + 1, h⟩ => absurd h (Nat.not_lt.2 (Nat.le_add_left _ _))
abbrev reads5_14 : Fin grid5.rank → Bool := ![false]

abbrev stage5_15 : Fin 1 → Memref sig .tc .vmem S150x150 .f32 := fun | 0 => Memref.whole cc5_stg15_0 | ⟨_ + 1, h⟩ => absurd h (Nat.not_lt.2 (Nat.le_add_left _ _))
abbrev sem5_15 : Fin 1 → DmaSem sig := fun | 0 => cc5_sem15_0 | ⟨_ + 1, h⟩ => absurd h (Nat.not_lt.2 (Nat.le_add_left _ _))
abbrev reads5_15 : Fin grid5.rank → Bool := ![false]

abbrev stage5_16 : Fin 1 → Memref sig .tc .vmem S1x150 .f32 := fun | 0 => Memref.whole cc5_stg16_0 | ⟨_ + 1, h⟩ => absurd h (Nat.not_lt.2 (Nat.le_add_left _ _))
abbrev sem5_16 : Fin 1 → DmaSem sig := fun | 0 => cc5_sem16_0 | ⟨_ + 1, h⟩ => absurd h (Nat.not_lt.2 (Nat.le_add_left _ _))
abbrev reads5_16 : Fin grid5.rank → Bool := ![false]

abbrev stage5_17 : Fin 1 → Memref sig .tc .vmem S150x150 .f32 := fun | 0 => Memref.whole cc5_stg17_0 | ⟨_ + 1, h⟩ => absurd h (Nat.not_lt.2 (Nat.le_add_left _ _))
abbrev sem5_17 : Fin 1 → DmaSem sig := fun | 0 => cc5_sem17_0 | ⟨_ + 1, h⟩ => absurd h (Nat.not_lt.2 (Nat.le_add_left _ _))
abbrev reads5_17 : Fin grid5.rank → Bool := ![false]

abbrev stage5_18 : Fin 1 → Memref sig .tc .vmem S1x150 .f32 := fun | 0 => Memref.whole cc5_stg18_0 | ⟨_ + 1, h⟩ => absurd h (Nat.not_lt.2 (Nat.le_add_left _ _))
abbrev sem5_18 : Fin 1 → DmaSem sig := fun | 0 => cc5_sem18_0 | ⟨_ + 1, h⟩ => absurd h (Nat.not_lt.2 (Nat.le_add_left _ _))
abbrev reads5_18 : Fin grid5.rank → Bool := ![false]

abbrev stage5_19 : Fin 1 → Memref sig .tc .vmem S64x150 .f32 := fun | 0 => Memref.whole cc5_stg19_0 | ⟨_ + 1, h⟩ => absurd h (Nat.not_lt.2 (Nat.le_add_left _ _))
abbrev sem5_19 : Fin 1 → DmaSem sig := fun | 0 => cc5_sem19_0 | ⟨_ + 1, h⟩ => absurd h (Nat.not_lt.2 (Nat.le_add_left _ _))
abbrev reads5_19 : Fin grid5.rank → Bool := ![true]

abbrev stage5_20 : Fin 1 → Memref sig .tc .vmem S64x150 .f32 := fun | 0 => Memref.whole cc5_stg20_0 | ⟨_ + 1, h⟩ => absurd h (Nat.not_lt.2 (Nat.le_add_left _ _))
abbrev sem5_20 : Fin 1 → DmaSem sig := fun | 0 => cc5_sem20_0 | ⟨_ + 1, h⟩ => absurd h (Nat.not_lt.2 (Nat.le_add_left _ _))
abbrev reads5_20 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_2 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_11 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_12 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_13 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_14 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_15 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_16 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_17 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_18 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_19 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_20 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S16x300 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S16x4x150 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true]

abbrev stage6_2 : Fin 1 → Memref sig .tc .vmem S16x4x150 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true]

abbrev stage6_3 : Fin 1 → Memref sig .tc .vmem S300x150 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x150 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S300x150 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x150 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S300x150 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x150 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S300x150 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 1 → Memref sig .tc .vmem S1x150 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

abbrev stage6_11 : Fin 1 → Memref sig .tc .vmem S150x150 .f32 := fun | 0 => Memref.whole cc6_stg11_0 | ⟨_ + 1, h⟩ => absurd h (Nat.not_lt.2 (Nat.le_add_left _ _))
abbrev sem6_11 : Fin 1 → DmaSem sig := fun | 0 => cc6_sem11_0 | ⟨_ + 1, h⟩ => absurd h (Nat.not_lt.2 (Nat.le_add_left _ _))
abbrev reads6_11 : Fin grid6.rank → Bool := ![false]

abbrev stage6_12 : Fin 1 → Memref sig .tc .vmem S1x150 .f32 := fun | 0 => Memref.whole cc6_stg12_0 | ⟨_ + 1, h⟩ => absurd h (Nat.not_lt.2 (Nat.le_add_left _ _))
abbrev sem6_12 : Fin 1 → DmaSem sig := fun | 0 => cc6_sem12_0 | ⟨_ + 1, h⟩ => absurd h (Nat.not_lt.2 (Nat.le_add_left _ _))
abbrev reads6_12 : Fin grid6.rank → Bool := ![false]

abbrev stage6_13 : Fin 1 → Memref sig .tc .vmem S150x150 .f32 := fun | 0 => Memref.whole cc6_stg13_0 | ⟨_ + 1, h⟩ => absurd h (Nat.not_lt.2 (Nat.le_add_left _ _))
abbrev sem6_13 : Fin 1 → DmaSem sig := fun | 0 => cc6_sem13_0 | ⟨_ + 1, h⟩ => absurd h (Nat.not_lt.2 (Nat.le_add_left _ _))
abbrev reads6_13 : Fin grid6.rank → Bool := ![false]

abbrev stage6_14 : Fin 1 → Memref sig .tc .vmem S1x150 .f32 := fun | 0 => Memref.whole cc6_stg14_0 | ⟨_ + 1, h⟩ => absurd h (Nat.not_lt.2 (Nat.le_add_left _ _))
abbrev sem6_14 : Fin 1 → DmaSem sig := fun | 0 => cc6_sem14_0 | ⟨_ + 1, h⟩ => absurd h (Nat.not_lt.2 (Nat.le_add_left _ _))
abbrev reads6_14 : Fin grid6.rank → Bool := ![false]

abbrev stage6_15 : Fin 1 → Memref sig .tc .vmem S150x150 .f32 := fun | 0 => Memref.whole cc6_stg15_0 | ⟨_ + 1, h⟩ => absurd h (Nat.not_lt.2 (Nat.le_add_left _ _))
abbrev sem6_15 : Fin 1 → DmaSem sig := fun | 0 => cc6_sem15_0 | ⟨_ + 1, h⟩ => absurd h (Nat.not_lt.2 (Nat.le_add_left _ _))
abbrev reads6_15 : Fin grid6.rank → Bool := ![false]

abbrev stage6_16 : Fin 1 → Memref sig .tc .vmem S1x150 .f32 := fun | 0 => Memref.whole cc6_stg16_0 | ⟨_ + 1, h⟩ => absurd h (Nat.not_lt.2 (Nat.le_add_left _ _))
abbrev sem6_16 : Fin 1 → DmaSem sig := fun | 0 => cc6_sem16_0 | ⟨_ + 1, h⟩ => absurd h (Nat.not_lt.2 (Nat.le_add_left _ _))
abbrev reads6_16 : Fin grid6.rank → Bool := ![false]

abbrev stage6_17 : Fin 1 → Memref sig .tc .vmem S150x150 .f32 := fun | 0 => Memref.whole cc6_stg17_0 | ⟨_ + 1, h⟩ => absurd h (Nat.not_lt.2 (Nat.le_add_left _ _))
abbrev sem6_17 : Fin 1 → DmaSem sig := fun | 0 => cc6_sem17_0 | ⟨_ + 1, h⟩ => absurd h (Nat.not_lt.2 (Nat.le_add_left _ _))
abbrev reads6_17 : Fin grid6.rank → Bool := ![false]

abbrev stage6_18 : Fin 1 → Memref sig .tc .vmem S1x150 .f32 := fun | 0 => Memref.whole cc6_stg18_0 | ⟨_ + 1, h⟩ => absurd h (Nat.not_lt.2 (Nat.le_add_left _ _))
abbrev sem6_18 : Fin 1 → DmaSem sig := fun | 0 => cc6_sem18_0 | ⟨_ + 1, h⟩ => absurd h (Nat.not_lt.2 (Nat.le_add_left _ _))
abbrev reads6_18 : Fin grid6.rank → Bool := ![false]

abbrev stage6_19 : Fin 1 → Memref sig .tc .vmem S16x150 .f32 := fun | 0 => Memref.whole cc6_stg19_0 | ⟨_ + 1, h⟩ => absurd h (Nat.not_lt.2 (Nat.le_add_left _ _))
abbrev sem6_19 : Fin 1 → DmaSem sig := fun | 0 => cc6_sem19_0 | ⟨_ + 1, h⟩ => absurd h (Nat.not_lt.2 (Nat.le_add_left _ _))
abbrev reads6_19 : Fin grid6.rank → Bool := ![true]

abbrev stage6_20 : Fin 1 → Memref sig .tc .vmem S16x150 .f32 := fun | 0 => Memref.whole cc6_stg20_0 | ⟨_ + 1, h⟩ => absurd h (Nat.not_lt.2 (Nat.le_add_left _ _))
abbrev sem6_20 : Fin 1 → DmaSem sig := fun | 0 => cc6_sem20_0 | ⟨_ + 1, h⟩ => absurd h (Nat.not_lt.2 (Nat.le_add_left _ _))
abbrev reads6_20 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_2 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_10 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_11 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_12 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_13 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_14 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_15 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_16 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_17 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_18 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_19 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_20 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S4x300 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S4x4x150 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![true]

abbrev stage7_2 : Fin 1 → Memref sig .tc .vmem S4x4x150 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![true]

abbrev stage7_3 : Fin 1 → Memref sig .tc .vmem S300x150 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x150 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S300x150 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x150 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S300x150 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S1x150 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 1 → Memref sig .tc .vmem S300x150 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false]

abbrev stage7_10 : Fin 1 → Memref sig .tc .vmem S1x150 .f32 := fun | 0 => Memref.whole cc7_stg10_0 | ⟨_ + 1, h⟩ => absurd h (Nat.not_lt.2 (Nat.le_add_left _ _))
abbrev sem7_10 : Fin 1 → DmaSem sig := fun | 0 => cc7_sem10_0 | ⟨_ + 1, h⟩ => absurd h (Nat.not_lt.2 (Nat.le_add_left _ _))
abbrev reads7_10 : Fin grid7.rank → Bool := ![false]

abbrev stage7_11 : Fin 1 → Memref sig .tc .vmem S150x150 .f32 := fun | 0 => Memref.whole cc7_stg11_0 | ⟨_ + 1, h⟩ => absurd h (Nat.not_lt.2 (Nat.le_add_left _ _))
abbrev sem7_11 : Fin 1 → DmaSem sig := fun | 0 => cc7_sem11_0 | ⟨_ + 1, h⟩ => absurd h (Nat.not_lt.2 (Nat.le_add_left _ _))
abbrev reads7_11 : Fin grid7.rank → Bool := ![false]

abbrev stage7_12 : Fin 1 → Memref sig .tc .vmem S1x150 .f32 := fun | 0 => Memref.whole cc7_stg12_0 | ⟨_ + 1, h⟩ => absurd h (Nat.not_lt.2 (Nat.le_add_left _ _))
abbrev sem7_12 : Fin 1 → DmaSem sig := fun | 0 => cc7_sem12_0 | ⟨_ + 1, h⟩ => absurd h (Nat.not_lt.2 (Nat.le_add_left _ _))
abbrev reads7_12 : Fin grid7.rank → Bool := ![false]

abbrev stage7_13 : Fin 1 → Memref sig .tc .vmem S150x150 .f32 := fun | 0 => Memref.whole cc7_stg13_0 | ⟨_ + 1, h⟩ => absurd h (Nat.not_lt.2 (Nat.le_add_left _ _))
abbrev sem7_13 : Fin 1 → DmaSem sig := fun | 0 => cc7_sem13_0 | ⟨_ + 1, h⟩ => absurd h (Nat.not_lt.2 (Nat.le_add_left _ _))
abbrev reads7_13 : Fin grid7.rank → Bool := ![false]

abbrev stage7_14 : Fin 1 → Memref sig .tc .vmem S1x150 .f32 := fun | 0 => Memref.whole cc7_stg14_0 | ⟨_ + 1, h⟩ => absurd h (Nat.not_lt.2 (Nat.le_add_left _ _))
abbrev sem7_14 : Fin 1 → DmaSem sig := fun | 0 => cc7_sem14_0 | ⟨_ + 1, h⟩ => absurd h (Nat.not_lt.2 (Nat.le_add_left _ _))
abbrev reads7_14 : Fin grid7.rank → Bool := ![false]

abbrev stage7_15 : Fin 1 → Memref sig .tc .vmem S150x150 .f32 := fun | 0 => Memref.whole cc7_stg15_0 | ⟨_ + 1, h⟩ => absurd h (Nat.not_lt.2 (Nat.le_add_left _ _))
abbrev sem7_15 : Fin 1 → DmaSem sig := fun | 0 => cc7_sem15_0 | ⟨_ + 1, h⟩ => absurd h (Nat.not_lt.2 (Nat.le_add_left _ _))
abbrev reads7_15 : Fin grid7.rank → Bool := ![false]

abbrev stage7_16 : Fin 1 → Memref sig .tc .vmem S1x150 .f32 := fun | 0 => Memref.whole cc7_stg16_0 | ⟨_ + 1, h⟩ => absurd h (Nat.not_lt.2 (Nat.le_add_left _ _))
abbrev sem7_16 : Fin 1 → DmaSem sig := fun | 0 => cc7_sem16_0 | ⟨_ + 1, h⟩ => absurd h (Nat.not_lt.2 (Nat.le_add_left _ _))
abbrev reads7_16 : Fin grid7.rank → Bool := ![false]

abbrev stage7_17 : Fin 1 → Memref sig .tc .vmem S150x150 .f32 := fun | 0 => Memref.whole cc7_stg17_0 | ⟨_ + 1, h⟩ => absurd h (Nat.not_lt.2 (Nat.le_add_left _ _))
abbrev sem7_17 : Fin 1 → DmaSem sig := fun | 0 => cc7_sem17_0 | ⟨_ + 1, h⟩ => absurd h (Nat.not_lt.2 (Nat.le_add_left _ _))
abbrev reads7_17 : Fin grid7.rank → Bool := ![false]

abbrev stage7_18 : Fin 1 → Memref sig .tc .vmem S1x150 .f32 := fun | 0 => Memref.whole cc7_stg18_0 | ⟨_ + 1, h⟩ => absurd h (Nat.not_lt.2 (Nat.le_add_left _ _))
abbrev sem7_18 : Fin 1 → DmaSem sig := fun | 0 => cc7_sem18_0 | ⟨_ + 1, h⟩ => absurd h (Nat.not_lt.2 (Nat.le_add_left _ _))
abbrev reads7_18 : Fin grid7.rank → Bool := ![false]

abbrev stage7_19 : Fin 1 → Memref sig .tc .vmem S4x150 .f32 := fun | 0 => Memref.whole cc7_stg19_0 | ⟨_ + 1, h⟩ => absurd h (Nat.not_lt.2 (Nat.le_add_left _ _))
abbrev sem7_19 : Fin 1 → DmaSem sig := fun | 0 => cc7_sem19_0 | ⟨_ + 1, h⟩ => absurd h (Nat.not_lt.2 (Nat.le_add_left _ _))
abbrev reads7_19 : Fin grid7.rank → Bool := ![true]

abbrev stage7_20 : Fin 1 → Memref sig .tc .vmem S4x150 .f32 := fun | 0 => Memref.whole cc7_stg20_0 | ⟨_ + 1, h⟩ => absurd h (Nat.not_lt.2 (Nat.le_add_left _ _))
abbrev sem7_20 : Fin 1 → DmaSem sig := fun | 0 => cc7_sem20_0 | ⟨_ + 1, h⟩ => absurd h (Nat.not_lt.2 (Nat.le_add_left _ _))
abbrev reads7_20 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_2 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_9 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_10 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_11 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_12 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_13 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_14 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_15 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_16 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_17 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_18 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_19 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_20 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 1 → Memref sig .tc .vmem S1x300 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true]

abbrev stage8_1 : Fin 1 → Memref sig .tc .vmem S1x4x150 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![true]

abbrev stage8_2 : Fin 1 → Memref sig .tc .vmem S1x4x150 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![true]

abbrev stage8_3 : Fin 1 → Memref sig .tc .vmem S300x150 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x150 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S300x150 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x150 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S300x150 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .vmem S1x150 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev stage8_9 : Fin 1 → Memref sig .tc .vmem S300x150 .f32 := fun | 0 => Memref.whole cc8_stg9_0 | ⟨_ + 1, h⟩ => absurd h (Nat.not_lt.2 (Nat.le_add_left _ _))
abbrev sem8_9 : Fin 1 → DmaSem sig := fun | 0 => cc8_sem9_0 | ⟨_ + 1, h⟩ => absurd h (Nat.not_lt.2 (Nat.le_add_left _ _))
abbrev reads8_9 : Fin grid8.rank → Bool := ![false]

abbrev stage8_10 : Fin 1 → Memref sig .tc .vmem S1x150 .f32 := fun | 0 => Memref.whole cc8_stg10_0 | ⟨_ + 1, h⟩ => absurd h (Nat.not_lt.2 (Nat.le_add_left _ _))
abbrev sem8_10 : Fin 1 → DmaSem sig := fun | 0 => cc8_sem10_0 | ⟨_ + 1, h⟩ => absurd h (Nat.not_lt.2 (Nat.le_add_left _ _))
abbrev reads8_10 : Fin grid8.rank → Bool := ![false]

abbrev stage8_11 : Fin 1 → Memref sig .tc .vmem S150x150 .f32 := fun | 0 => Memref.whole cc8_stg11_0 | ⟨_ + 1, h⟩ => absurd h (Nat.not_lt.2 (Nat.le_add_left _ _))
abbrev sem8_11 : Fin 1 → DmaSem sig := fun | 0 => cc8_sem11_0 | ⟨_ + 1, h⟩ => absurd h (Nat.not_lt.2 (Nat.le_add_left _ _))
abbrev reads8_11 : Fin grid8.rank → Bool := ![false]

abbrev stage8_12 : Fin 1 → Memref sig .tc .vmem S1x150 .f32 := fun | 0 => Memref.whole cc8_stg12_0 | ⟨_ + 1, h⟩ => absurd h (Nat.not_lt.2 (Nat.le_add_left _ _))
abbrev sem8_12 : Fin 1 → DmaSem sig := fun | 0 => cc8_sem12_0 | ⟨_ + 1, h⟩ => absurd h (Nat.not_lt.2 (Nat.le_add_left _ _))
abbrev reads8_12 : Fin grid8.rank → Bool := ![false]

abbrev stage8_13 : Fin 1 → Memref sig .tc .vmem S150x150 .f32 := fun | 0 => Memref.whole cc8_stg13_0 | ⟨_ + 1, h⟩ => absurd h (Nat.not_lt.2 (Nat.le_add_left _ _))
abbrev sem8_13 : Fin 1 → DmaSem sig := fun | 0 => cc8_sem13_0 | ⟨_ + 1, h⟩ => absurd h (Nat.not_lt.2 (Nat.le_add_left _ _))
abbrev reads8_13 : Fin grid8.rank → Bool := ![false]

abbrev stage8_14 : Fin 1 → Memref sig .tc .vmem S1x150 .f32 := fun | 0 => Memref.whole cc8_stg14_0 | ⟨_ + 1, h⟩ => absurd h (Nat.not_lt.2 (Nat.le_add_left _ _))
abbrev sem8_14 : Fin 1 → DmaSem sig := fun | 0 => cc8_sem14_0 | ⟨_ + 1, h⟩ => absurd h (Nat.not_lt.2 (Nat.le_add_left _ _))
abbrev reads8_14 : Fin grid8.rank → Bool := ![false]

abbrev stage8_15 : Fin 1 → Memref sig .tc .vmem S150x150 .f32 := fun | 0 => Memref.whole cc8_stg15_0 | ⟨_ + 1, h⟩ => absurd h (Nat.not_lt.2 (Nat.le_add_left _ _))
abbrev sem8_15 : Fin 1 → DmaSem sig := fun | 0 => cc8_sem15_0 | ⟨_ + 1, h⟩ => absurd h (Nat.not_lt.2 (Nat.le_add_left _ _))
abbrev reads8_15 : Fin grid8.rank → Bool := ![false]

abbrev stage8_16 : Fin 1 → Memref sig .tc .vmem S1x150 .f32 := fun | 0 => Memref.whole cc8_stg16_0 | ⟨_ + 1, h⟩ => absurd h (Nat.not_lt.2 (Nat.le_add_left _ _))
abbrev sem8_16 : Fin 1 → DmaSem sig := fun | 0 => cc8_sem16_0 | ⟨_ + 1, h⟩ => absurd h (Nat.not_lt.2 (Nat.le_add_left _ _))
abbrev reads8_16 : Fin grid8.rank → Bool := ![false]

abbrev stage8_17 : Fin 1 → Memref sig .tc .vmem S150x150 .f32 := fun | 0 => Memref.whole cc8_stg17_0 | ⟨_ + 1, h⟩ => absurd h (Nat.not_lt.2 (Nat.le_add_left _ _))
abbrev sem8_17 : Fin 1 → DmaSem sig := fun | 0 => cc8_sem17_0 | ⟨_ + 1, h⟩ => absurd h (Nat.not_lt.2 (Nat.le_add_left _ _))
abbrev reads8_17 : Fin grid8.rank → Bool := ![false]

abbrev stage8_18 : Fin 1 → Memref sig .tc .vmem S1x150 .f32 := fun | 0 => Memref.whole cc8_stg18_0 | ⟨_ + 1, h⟩ => absurd h (Nat.not_lt.2 (Nat.le_add_left _ _))
abbrev sem8_18 : Fin 1 → DmaSem sig := fun | 0 => cc8_sem18_0 | ⟨_ + 1, h⟩ => absurd h (Nat.not_lt.2 (Nat.le_add_left _ _))
abbrev reads8_18 : Fin grid8.rank → Bool := ![false]

abbrev stage8_19 : Fin 1 → Memref sig .tc .vmem S1x150 .f32 := fun | 0 => Memref.whole cc8_stg19_0 | ⟨_ + 1, h⟩ => absurd h (Nat.not_lt.2 (Nat.le_add_left _ _))
abbrev sem8_19 : Fin 1 → DmaSem sig := fun | 0 => cc8_sem19_0 | ⟨_ + 1, h⟩ => absurd h (Nat.not_lt.2 (Nat.le_add_left _ _))
abbrev reads8_19 : Fin grid8.rank → Bool := ![true]

abbrev stage8_20 : Fin 1 → Memref sig .tc .vmem S1x150 .f32 := fun | 0 => Memref.whole cc8_stg20_0 | ⟨_ + 1, h⟩ => absurd h (Nat.not_lt.2 (Nat.le_add_left _ _))
abbrev sem8_20 : Fin 1 → DmaSem sig := fun | 0 => cc8_sem20_0 | ⟨_ + 1, h⟩ => absurd h (Nat.not_lt.2 (Nat.le_add_left _ _))
abbrev reads8_20 : Fin grid8.rank → Bool := ![true]

class K0.Facts₀ : Prop where
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x300.size a ≤ S65536x300.size a
  hwx0_0 : ∀ i : grid0.Coords, EltTy.bits .f32 = 32 ∨ (Rect.block (s := S65536x300) S2048x300.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S300x150.size a ≤ S300x150.size a
  hwx0_1 : ∀ i : grid0.Coords, EltTy.bits .f32 = 32 ∨ (Rect.block (s := S300x150) S300x150.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x150.size a ≤ S1x150.size a
  hwx0_2 : ∀ i : grid0.Coords, EltTy.bits .f32 = 32 ∨ (Rect.block (s := S1x150) S1x150.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S300x150.size a ≤ S300x150.size a
  hwx0_3 : ∀ i : grid0.Coords, EltTy.bits .f32 = 32 ∨ (Rect.block (s := S300x150) S300x150.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x150.size a ≤ S1x150.size a
  hwx0_4 : ∀ i : grid0.Coords, EltTy.bits .f32 = 32 ∨ (Rect.block (s := S1x150) S1x150.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S300x150.size a ≤ S300x150.size a
  hwx0_5 : ∀ i : grid0.Coords, EltTy.bits .f32 = 32 ∨ (Rect.block (s := S300x150) S300x150.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x150.size a ≤ S1x150.size a
  hwx0_6 : ∀ i : grid0.Coords, EltTy.bits .f32 = 32 ∨ (Rect.block (s := S1x150) S1x150.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x150.size a ≤ S1x150.size a
  hwx0_7 : ∀ i : grid0.Coords, EltTy.bits .f32 = 32 ∨ (Rect.block (s := S1x150) S1x150.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x150.size a ≤ S1x150.size a
  hwx0_8 : ∀ i : grid0.Coords, EltTy.bits .f32 = 32 ∨ (Rect.block (s := S1x150) S1x150.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x150.size a ≤ S1x150.size a
  hwx0_9 : ∀ i : grid0.Coords, EltTy.bits .f32 = 32 ∨ (Rect.block (s := S1x150) S1x150.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x150.size a ≤ S65536x150.size a
  hwx0_10 : ∀ i : grid0.Coords, EltTy.bits .f32 = 32 ∨ (Rect.block (s := S65536x150) S2048x150.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x150.size a ≤ S65536x150.size a
  hwx0_11 : ∀ i : grid0.Coords, EltTy.bits .f32 = 32 ∨ (Rect.block (s := S65536x150) S2048x150.size (cc0_transform_11 i) (hinb0_11 i)).WholeWords (EltTy.packing .f32)

class K1.Facts₀ : Prop where
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x300.size a ≤ S16384x300.size a
  hwx1_0 : ∀ i : grid1.Coords, EltTy.bits .f32 = 32 ∨ (Rect.block (s := S16384x300) S512x300.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4x150.size a ≤ S16384x4x150.size a
  hwx1_1 : ∀ i : grid1.Coords, EltTy.bits .f32 = 32 ∨ (Rect.block (s := S16384x4x150) S512x4x150.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x4x150.size a ≤ S16384x4x150.size a
  hwx1_2 : ∀ i : grid1.Coords, EltTy.bits .f32 = 32 ∨ (Rect.block (s := S16384x4x150) S512x4x150.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S300x150.size a ≤ S300x150.size a
  hwx1_3 : ∀ i : grid1.Coords, EltTy.bits .f32 = 32 ∨ (Rect.block (s := S300x150) S300x150.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x150.size a ≤ S1x150.size a
  hwx1_4 : ∀ i : grid1.Coords, EltTy.bits .f32 = 32 ∨ (Rect.block (s := S1x150) S1x150.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S300x150.size a ≤ S300x150.size a
  hwx1_5 : ∀ i : grid1.Coords, EltTy.bits .f32 = 32 ∨ (Rect.block (s := S300x150) S300x150.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x150.size a ≤ S1x150.size a
  hwx1_6 : ∀ i : grid1.Coords, EltTy.bits .f32 = 32 ∨ (Rect.block (s := S1x150) S1x150.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S300x150.size a ≤ S300x150.size a
  hwx1_7 : ∀ i : grid1.Coords, EltTy.bits .f32 = 32 ∨ (Rect.block (s := S300x150) S300x150.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x150.size a ≤ S1x150.size a
  hwx1_8 : ∀ i : grid1.Coords, EltTy.bits .f32 = 32 ∨ (Rect.block (s := S1x150) S1x150.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S300x150.size a ≤ S300x150.size a
  hwx1_9 : ∀ i : grid1.Coords, EltTy.bits .f32 = 32 ∨ (Rect.block (s := S300x150) S300x150.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x150.size a ≤ S1x150.size a
  hwx1_10 : ∀ i : grid1.Coords, EltTy.bits .f32 = 32 ∨ (Rect.block (s := S1x150) S1x150.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S150x150.size a ≤ S150x150.size a
  hwx1_11 : ∀ i : grid1.Coords, EltTy.bits .f32 = 32 ∨ (Rect.block (s := S150x150) S150x150.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x150.size a ≤ S1x150.size a
  hwx1_12 : ∀ i : grid1.Coords, EltTy.bits .f32 = 32 ∨ (Rect.block (s := S1x150) S1x150.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S150x150.size a ≤ S150x150.size a
  hwx1_13 : ∀ i : grid1.Coords, EltTy.bits .f32 = 32 ∨ (Rect.block (s := S150x150) S150x150.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x150.size a ≤ S1x150.size a
  hwx1_14 : ∀ i : grid1.Coords, EltTy.bits .f32 = 32 ∨ (Rect.block (s := S1x150) S1x150.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S150x150.size a ≤ S150x150.size a
  hwx1_15 : ∀ i : grid1.Coords, EltTy.bits .f32 = 32 ∨ (Rect.block (s := S150x150) S150x150.size (cc1_transform_15 i) (hinb1_15 i)).WholeWords (EltTy.packing .f32)
  hstage1_16 : ∀ j, (stage1_16 j).IsWhole
  nbuf1_16 : grid1.bufCount reads1_16 true = 1
  hreads1_16 : ∀ i i' : grid1.Coords, (∀ a, reads1_16 a = true → i a = i' a) → cc1_transform_16 i = cc1_transform_16 i'
  hinb1_16 : ∀ (i : grid1.Coords) a, (cc1_transform_16 i a + 1) * S1x150.size a ≤ S1x150.size a
  hwx1_16 : ∀ i : grid1.Coords, EltTy.bits .f32 = 32 ∨ (Rect.block (s := S1x150) S1x150.size (cc1_transform_16 i) (hinb1_16 i)).WholeWords (EltTy.packing .f32)
  hstage1_17 : ∀ j, (stage1_17 j).IsWhole
  nbuf1_17 : grid1.bufCount reads1_17 true = 1
  hreads1_17 : ∀ i i' : grid1.Coords, (∀ a, reads1_17 a = true → i a = i' a) → cc1_transform_17 i = cc1_transform_17 i'
  hinb1_17 : ∀ (i : grid1.Coords) a, (cc1_transform_17 i a + 1) * S150x150.size a ≤ S150x150.size a
  hwx1_17 : ∀ i : grid1.Coords, EltTy.bits .f32 = 32 ∨ (Rect.block (s := S150x150) S150x150.size (cc1_transform_17 i) (hinb1_17 i)).WholeWords (EltTy.packing .f32)
  hstage1_18 : ∀ j, (stage1_18 j).IsWhole
  nbuf1_18 : grid1.bufCount reads1_18 true = 1
  hreads1_18 : ∀ i i' : grid1.Coords, (∀ a, reads1_18 a = true → i a = i' a) → cc1_transform_18 i = cc1_transform_18 i'
  hinb1_18 : ∀ (i : grid1.Coords) a, (cc1_transform_18 i a + 1) * S1x150.size a ≤ S1x150.size a
  hwx1_18 : ∀ i : grid1.Coords, EltTy.bits .f32 = 32 ∨ (Rect.block (s := S1x150) S1x150.size (cc1_transform_18 i) (hinb1_18 i)).WholeWords (EltTy.packing .f32)
  hstage1_19 : ∀ j, (stage1_19 j).IsWhole
  nbuf1_19 : grid1.bufCount reads1_19 false = 2
  hreads1_19 : ∀ i i' : grid1.Coords, (∀ a, reads1_19 a = true → i a = i' a) → cc1_transform_19 i = cc1_transform_19 i'
  hinb1_19 : ∀ (i : grid1.Coords) a, (cc1_transform_19 i a + 1) * S512x150.size a ≤ S16384x150.size a
  hwx1_19 : ∀ i : grid1.Coords, EltTy.bits .f32 = 32 ∨ (Rect.block (s := S16384x150) S512x150.size (cc1_transform_19 i) (hinb1_19 i)).WholeWords (EltTy.packing .f32)
  hstage1_20 : ∀ j, (stage1_20 j).IsWhole
  nbuf1_20 : grid1.bufCount reads1_20 false = 2
  hreads1_20 : ∀ i i' : grid1.Coords, (∀ a, reads1_20 a = true → i a = i' a) → cc1_transform_20 i = cc1_transform_20 i'
  hinb1_20 : ∀ (i : grid1.Coords) a, (cc1_transform_20 i a + 1) * S512x150.size a ≤ S16384x150.size a
  hwx1_20 : ∀ i : grid1.Coords, EltTy.bits .f32 = 32 ∨ (Rect.block (s := S16384x150) S512x150.size (cc1_transform_20 i) (hinb1_20 i)).WholeWords (EltTy.packing .f32)

class K2.Facts₀ : Prop where
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x300.size a ≤ S4096x300.size a
  hwx2_0 : ∀ i : grid2.Coords, EltTy.bits .f32 = 32 ∨ (Rect.block (s := S4096x300) S512x300.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x4x150.size a ≤ S4096x4x150.size a
  hwx2_1 : ∀ i : grid2.Coords, EltTy.bits .f32 = 32 ∨ (Rect.block (s := S4096x4x150) S512x4x150.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x4x150.size a ≤ S4096x4x150.size a
  hwx2_2 : ∀ i : grid2.Coords, EltTy.bits .f32 = 32 ∨ (Rect.block (s := S4096x4x150) S512x4x150.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S300x150.size a ≤ S300x150.size a
  hwx2_3 : ∀ i : grid2.Coords, EltTy.bits .f32 = 32 ∨ (Rect.block (s := S300x150) S300x150.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x150.size a ≤ S1x150.size a
  hwx2_4 : ∀ i : grid2.Coords, EltTy.bits .f32 = 32 ∨ (Rect.block (s := S1x150) S1x150.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S300x150.size a ≤ S300x150.size a
  hwx2_5 : ∀ i : grid2.Coords, EltTy.bits .f32 = 32 ∨ (Rect.block (s := S300x150) S300x150.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x150.size a ≤ S1x150.size a
  hwx2_6 : ∀ i : grid2.Coords, EltTy.bits .f32 = 32 ∨ (Rect.block (s := S1x150) S1x150.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S300x150.size a ≤ S300x150.size a
  hwx2_7 : ∀ i : grid2.Coords, EltTy.bits .f32 = 32 ∨ (Rect.block (s := S300x150) S300x150.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x150.size a ≤ S1x150.size a
  hwx2_8 : ∀ i : grid2.Coords, EltTy.bits .f32 = 32 ∨ (Rect.block (s := S1x150) S1x150.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S300x150.size a ≤ S300x150.size a
  hwx2_9 : ∀ i : grid2.Coords, EltTy.bits .f32 = 32 ∨ (Rect.block (s := S300x150) S300x150.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x150.size a ≤ S1x150.size a
  hwx2_10 : ∀ i : grid2.Coords, EltTy.bits .f32 = 32 ∨ (Rect.block (s := S1x150) S1x150.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S150x150.size a ≤ S150x150.size a
  hwx2_11 : ∀ i : grid2.Coords, EltTy.bits .f32 = 32 ∨ (Rect.block (s := S150x150) S150x150.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x150.size a ≤ S1x150.size a
  hwx2_12 : ∀ i : grid2.Coords, EltTy.bits .f32 = 32 ∨ (Rect.block (s := S1x150) S1x150.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S150x150.size a ≤ S150x150.size a
  hwx2_13 : ∀ i : grid2.Coords, EltTy.bits .f32 = 32 ∨ (Rect.block (s := S150x150) S150x150.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S1x150.size a ≤ S1x150.size a
  hwx2_14 : ∀ i : grid2.Coords, EltTy.bits .f32 = 32 ∨ (Rect.block (s := S1x150) S1x150.size (cc2_transform_14 i) (hinb2_14 i)).WholeWords (EltTy.packing .f32)
  hstage2_15 : ∀ j, (stage2_15 j).IsWhole
  nbuf2_15 : grid2.bufCount reads2_15 true = 1
  hreads2_15 : ∀ i i' : grid2.Coords, (∀ a, reads2_15 a = true → i a = i' a) → cc2_transform_15 i = cc2_transform_15 i'
  hinb2_15 : ∀ (i : grid2.Coords) a, (cc2_transform_15 i a + 1) * S150x150.size a ≤ S150x150.size a
  hwx2_15 : ∀ i : grid2.Coords, EltTy.bits .f32 = 32 ∨ (Rect.block (s := S150x150) S150x150.size (cc2_transform_15 i) (hinb2_15 i)).WholeWords (EltTy.packing .f32)
  hstage2_16 : ∀ j, (stage2_16 j).IsWhole
  nbuf2_16 : grid2.bufCount reads2_16 true = 1
  hreads2_16 : ∀ i i' : grid2.Coords, (∀ a, reads2_16 a = true → i a = i' a) → cc2_transform_16 i = cc2_transform_16 i'
  hinb2_16 : ∀ (i : grid2.Coords) a, (cc2_transform_16 i a + 1) * S1x150.size a ≤ S1x150.size a
  hwx2_16 : ∀ i : grid2.Coords, EltTy.bits .f32 = 32 ∨ (Rect.block (s := S1x150) S1x150.size (cc2_transform_16 i) (hinb2_16 i)).WholeWords (EltTy.packing .f32)
  hstage2_17 : ∀ j, (stage2_17 j).IsWhole
  nbuf2_17 : grid2.bufCount reads2_17 true = 1
  hreads2_17 : ∀ i i' : grid2.Coords, (∀ a, reads2_17 a = true → i a = i' a) → cc2_transform_17 i = cc2_transform_17 i'
  hinb2_17 : ∀ (i : grid2.Coords) a, (cc2_transform_17 i a + 1) * S150x150.size a ≤ S150x150.size a
  hwx2_17 : ∀ i : grid2.Coords, EltTy.bits .f32 = 32 ∨ (Rect.block (s := S150x150) S150x150.size (cc2_transform_17 i) (hinb2_17 i)).WholeWords (EltTy.packing .f32)
  hstage2_18 : ∀ j, (stage2_18 j).IsWhole
  nbuf2_18 : grid2.bufCount reads2_18 true = 1
  hreads2_18 : ∀ i i' : grid2.Coords, (∀ a, reads2_18 a = true → i a = i' a) → cc2_transform_18 i = cc2_transform_18 i'
  hinb2_18 : ∀ (i : grid2.Coords) a, (cc2_transform_18 i a + 1) * S1x150.size a ≤ S1x150.size a
  hwx2_18 : ∀ i : grid2.Coords, EltTy.bits .f32 = 32 ∨ (Rect.block (s := S1x150) S1x150.size (cc2_transform_18 i) (hinb2_18 i)).WholeWords (EltTy.packing .f32)
  hstage2_19 : ∀ j, (stage2_19 j).IsWhole
  nbuf2_19 : grid2.bufCount reads2_19 false = 2
  hreads2_19 : ∀ i i' : grid2.Coords, (∀ a, reads2_19 a = true → i a = i' a) → cc2_transform_19 i = cc2_transform_19 i'
  hinb2_19 : ∀ (i : grid2.Coords) a, (cc2_transform_19 i a + 1) * S512x150.size a ≤ S4096x150.size a
  hwx2_19 : ∀ i : grid2.Coords, EltTy.bits .f32 = 32 ∨ (Rect.block (s := S4096x150) S512x150.size (cc2_transform_19 i) (hinb2_19 i)).WholeWords (EltTy.packing .f32)
  hstage2_20 : ∀ j, (stage2_20 j).IsWhole
  nbuf2_20 : grid2.bufCount reads2_20 false = 2
  hreads2_20 : ∀ i i' : grid2.Coords, (∀ a, reads2_20 a = true → i a = i' a) → cc2_transform_20 i = cc2_transform_20 i'
  hinb2_20 : ∀ (i : grid2.Coords) a, (cc2_transform_20 i a + 1) * S512x150.size a ≤ S4096x150.size a
  hwx2_20 : ∀ i : grid2.Coords, EltTy.bits .f32 = 32 ∨ (Rect.block (s := S4096x150) S512x150.size (cc2_transform_20 i) (hinb2_20 i)).WholeWords (EltTy.packing .f32)

class K3.Facts₀ : Prop where
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x300.size a ≤ S1024x300.size a
  hwx3_0 : ∀ i : grid3.Coords, EltTy.bits .f32 = 32 ∨ (Rect.block (s := S1024x300) S512x300.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x4x150.size a ≤ S1024x4x150.size a
  hwx3_1 : ∀ i : grid3.Coords, EltTy.bits .f32 = 32 ∨ (Rect.block (s := S1024x4x150) S512x4x150.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x4x150.size a ≤ S1024x4x150.size a
  hwx3_2 : ∀ i : grid3.Coords, EltTy.bits .f32 = 32 ∨ (Rect.block (s := S1024x4x150) S512x4x150.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S300x150.size a ≤ S300x150.size a
  hwx3_3 : ∀ i : grid3.Coords, EltTy.bits .f32 = 32 ∨ (Rect.block (s := S300x150) S300x150.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x150.size a ≤ S1x150.size a
  hwx3_4 : ∀ i : grid3.Coords, EltTy.bits .f32 = 32 ∨ (Rect.block (s := S1x150) S1x150.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S300x150.size a ≤ S300x150.size a
  hwx3_5 : ∀ i : grid3.Coords, EltTy.bits .f32 = 32 ∨ (Rect.block (s := S300x150) S300x150.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x150.size a ≤ S1x150.size a
  hwx3_6 : ∀ i : grid3.Coords, EltTy.bits .f32 = 32 ∨ (Rect.block (s := S1x150) S1x150.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S300x150.size a ≤ S300x150.size a
  hwx3_7 : ∀ i : grid3.Coords, EltTy.bits .f32 = 32 ∨ (Rect.block (s := S300x150) S300x150.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x150.size a ≤ S1x150.size a
  hwx3_8 : ∀ i : grid3.Coords, EltTy.bits .f32 = 32 ∨ (Rect.block (s := S1x150) S1x150.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S300x150.size a ≤ S300x150.size a
  hwx3_9 : ∀ i : grid3.Coords, EltTy.bits .f32 = 32 ∨ (Rect.block (s := S300x150) S300x150.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x150.size a ≤ S1x150.size a
  hwx3_10 : ∀ i : grid3.Coords, EltTy.bits .f32 = 32 ∨ (Rect.block (s := S1x150) S1x150.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S150x150.size a ≤ S150x150.size a
  hwx3_11 : ∀ i : grid3.Coords, EltTy.bits .f32 = 32 ∨ (Rect.block (s := S150x150) S150x150.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S1x150.size a ≤ S1x150.size a
  hwx3_12 : ∀ i : grid3.Coords, EltTy.bits .f32 = 32 ∨ (Rect.block (s := S1x150) S1x150.size (cc3_transform_12 i) (hinb3_12 i)).WholeWords (EltTy.packing .f32)
  hstage3_13 : ∀ j, (stage3_13 j).IsWhole
  nbuf3_13 : grid3.bufCount reads3_13 true = 1
  hreads3_13 : ∀ i i' : grid3.Coords, (∀ a, reads3_13 a = true → i a = i' a) → cc3_transform_13 i = cc3_transform_13 i'
  hinb3_13 : ∀ (i : grid3.Coords) a, (cc3_transform_13 i a + 1) * S150x150.size a ≤ S150x150.size a
  hwx3_13 : ∀ i : grid3.Coords, EltTy.bits .f32 = 32 ∨ (Rect.block (s := S150x150) S150x150.size (cc3_transform_13 i) (hinb3_13 i)).WholeWords (EltTy.packing .f32)
  hstage3_14 : ∀ j, (stage3_14 j).IsWhole
  nbuf3_14 : grid3.bufCount reads3_14 true = 1
  hreads3_14 : ∀ i i' : grid3.Coords, (∀ a, reads3_14 a = true → i a = i' a) → cc3_transform_14 i = cc3_transform_14 i'
  hinb3_14 : ∀ (i : grid3.Coords) a, (cc3_transform_14 i a + 1) * S1x150.size a ≤ S1x150.size a
  hwx3_14 : ∀ i : grid3.Coords, EltTy.bits .f32 = 32 ∨ (Rect.block (s := S1x150) S1x150.size (cc3_transform_14 i) (hinb3_14 i)).WholeWords (EltTy.packing .f32)
  hstage3_15 : ∀ j, (stage3_15 j).IsWhole
  nbuf3_15 : grid3.bufCount reads3_15 true = 1
  hreads3_15 : ∀ i i' : grid3.Coords, (∀ a, reads3_15 a = true → i a = i' a) → cc3_transform_15 i = cc3_transform_15 i'
  hinb3_15 : ∀ (i : grid3.Coords) a, (cc3_transform_15 i a + 1) * S150x150.size a ≤ S150x150.size a
  hwx3_15 : ∀ i : grid3.Coords, EltTy.bits .f32 = 32 ∨ (Rect.block (s := S150x150) S150x150.size (cc3_transform_15 i) (hinb3_15 i)).WholeWords (EltTy.packing .f32)
  hstage3_16 : ∀ j, (stage3_16 j).IsWhole
  nbuf3_16 : grid3.bufCount reads3_16 true = 1
  hreads3_16 : ∀ i i' : grid3.Coords, (∀ a, reads3_16 a = true → i a = i' a) → cc3_transform_16 i = cc3_transform_16 i'
  hinb3_16 : ∀ (i : grid3.Coords) a, (cc3_transform_16 i a + 1) * S1x150.size a ≤ S1x150.size a
  hwx3_16 : ∀ i : grid3.Coords, EltTy.bits .f32 = 32 ∨ (Rect.block (s := S1x150) S1x150.size (cc3_transform_16 i) (hinb3_16 i)).WholeWords (EltTy.packing .f32)
  hstage3_17 : ∀ j, (stage3_17 j).IsWhole
  nbuf3_17 : grid3.bufCount reads3_17 true = 1
  hreads3_17 : ∀ i i' : grid3.Coords, (∀ a, reads3_17 a = true → i a = i' a) → cc3_transform_17 i = cc3_transform_17 i'
  hinb3_17 : ∀ (i : grid3.Coords) a, (cc3_transform_17 i a + 1) * S150x150.size a ≤ S150x150.size a
  hwx3_17 : ∀ i : grid3.Coords, EltTy.bits .f32 = 32 ∨ (Rect.block (s := S150x150) S150x150.size (cc3_transform_17 i) (hinb3_17 i)).WholeWords (EltTy.packing .f32)
  hstage3_18 : ∀ j, (stage3_18 j).IsWhole
  nbuf3_18 : grid3.bufCount reads3_18 true = 1
  hreads3_18 : ∀ i i' : grid3.Coords, (∀ a, reads3_18 a = true → i a = i' a) → cc3_transform_18 i = cc3_transform_18 i'
  hinb3_18 : ∀ (i : grid3.Coords) a, (cc3_transform_18 i a + 1) * S1x150.size a ≤ S1x150.size a
  hwx3_18 : ∀ i : grid3.Coords, EltTy.bits .f32 = 32 ∨ (Rect.block (s := S1x150) S1x150.size (cc3_transform_18 i) (hinb3_18 i)).WholeWords (EltTy.packing .f32)
  hstage3_19 : ∀ j, (stage3_19 j).IsWhole
  nbuf3_19 : grid3.bufCount reads3_19 false = 2
  hreads3_19 : ∀ i i' : grid3.Coords, (∀ a, reads3_19 a = true → i a = i' a) → cc3_transform_19 i = cc3_transform_19 i'
  hinb3_19 : ∀ (i : grid3.Coords) a, (cc3_transform_19 i a + 1) * S512x150.size a ≤ S1024x150.size a
  hwx3_19 : ∀ i : grid3.Coords, EltTy.bits .f32 = 32 ∨ (Rect.block (s := S1024x150) S512x150.size (cc3_transform_19 i) (hinb3_19 i)).WholeWords (EltTy.packing .f32)
  hstage3_20 : ∀ j, (stage3_20 j).IsWhole
  nbuf3_20 : grid3.bufCount reads3_20 false = 2
  hreads3_20 : ∀ i i' : grid3.Coords, (∀ a, reads3_20 a = true → i a = i' a) → cc3_transform_20 i = cc3_transform_20 i'
  hinb3_20 : ∀ (i : grid3.Coords) a, (cc3_transform_20 i a + 1) * S512x150.size a ≤ S1024x150.size a
  hwx3_20 : ∀ i : grid3.Coords, EltTy.bits .f32 = 32 ∨ (Rect.block (s := S1024x150) S512x150.size (cc3_transform_20 i) (hinb3_20 i)).WholeWords (EltTy.packing .f32)

class K4.Facts₀ : Prop where
  hrank4 : 0 < grid4.rank
  hstage4_0 : ∀ j, (stage4_0 j).IsWhole
  nbuf4_0 : grid4.bufCount reads4_0 false = 1
  hreads4_0 : ∀ i i' : grid4.Coords, (∀ a, reads4_0 a = true → i a = i' a) → cc4_transform_0 i = cc4_transform_0 i'
  hinb4_0 : ∀ (i : grid4.Coords) a, (cc4_transform_0 i a + 1) * S256x300.size a ≤ S256x300.size a
  hwx4_0 : ∀ i : grid4.Coords, EltTy.bits .f32 = 32 ∨ (Rect.block (s := S256x300) S256x300.size (cc4_transform_0 i) (hinb4_0 i)).WholeWords (EltTy.packing .f32)
  hstage4_1 : ∀ j, (stage4_1 j).IsWhole
  nbuf4_1 : grid4.bufCount reads4_1 false = 1
  hreads4_1 : ∀ i i' : grid4.Coords, (∀ a, reads4_1 a = true → i a = i' a) → cc4_transform_1 i = cc4_transform_1 i'
  hinb4_1 : ∀ (i : grid4.Coords) a, (cc4_transform_1 i a + 1) * S256x4x150.size a ≤ S256x4x150.size a
  hwx4_1 : ∀ i : grid4.Coords, EltTy.bits .f32 = 32 ∨ (Rect.block (s := S256x4x150) S256x4x150.size (cc4_transform_1 i) (hinb4_1 i)).WholeWords (EltTy.packing .f32)
  hstage4_2 : ∀ j, (stage4_2 j).IsWhole
  nbuf4_2 : grid4.bufCount reads4_2 false = 1
  hreads4_2 : ∀ i i' : grid4.Coords, (∀ a, reads4_2 a = true → i a = i' a) → cc4_transform_2 i = cc4_transform_2 i'
  hinb4_2 : ∀ (i : grid4.Coords) a, (cc4_transform_2 i a + 1) * S256x4x150.size a ≤ S256x4x150.size a
  hwx4_2 : ∀ i : grid4.Coords, EltTy.bits .f32 = 32 ∨ (Rect.block (s := S256x4x150) S256x4x150.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S300x150.size a ≤ S300x150.size a
  hwx4_3 : ∀ i : grid4.Coords, EltTy.bits .f32 = 32 ∨ (Rect.block (s := S300x150) S300x150.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x150.size a ≤ S1x150.size a
  hwx4_4 : ∀ i : grid4.Coords, EltTy.bits .f32 = 32 ∨ (Rect.block (s := S1x150) S1x150.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S300x150.size a ≤ S300x150.size a
  hwx4_5 : ∀ i : grid4.Coords, EltTy.bits .f32 = 32 ∨ (Rect.block (s := S300x150) S300x150.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x150.size a ≤ S1x150.size a
  hwx4_6 : ∀ i : grid4.Coords, EltTy.bits .f32 = 32 ∨ (Rect.block (s := S1x150) S1x150.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S300x150.size a ≤ S300x150.size a
  hwx4_7 : ∀ i : grid4.Coords, EltTy.bits .f32 = 32 ∨ (Rect.block (s := S300x150) S300x150.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x150.size a ≤ S1x150.size a
  hwx4_8 : ∀ i : grid4.Coords, EltTy.bits .f32 = 32 ∨ (Rect.block (s := S1x150) S1x150.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S300x150.size a ≤ S300x150.size a
  hwx4_9 : ∀ i : grid4.Coords, EltTy.bits .f32 = 32 ∨ (Rect.block (s := S300x150) S300x150.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x150.size a ≤ S1x150.size a
  hwx4_10 : ∀ i : grid4.Coords, EltTy.bits .f32 = 32 ∨ (Rect.block (s := S1x150) S1x150.size (cc4_transform_10 i) (hinb4_10 i)).WholeWords (EltTy.packing .f32)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S150x150.size a ≤ S150x150.size a
  hwx4_11 : ∀ i : grid4.Coords, EltTy.bits .f32 = 32 ∨ (Rect.block (s := S150x150) S150x150.size (cc4_transform_11 i) (hinb4_11 i)).WholeWords (EltTy.packing .f32)
  hstage4_12 : ∀ j, (stage4_12 j).IsWhole
  nbuf4_12 : grid4.bufCount reads4_12 true = 1
  hreads4_12 : ∀ i i' : grid4.Coords, (∀ a, reads4_12 a = true → i a = i' a) → cc4_transform_12 i = cc4_transform_12 i'
  hinb4_12 : ∀ (i : grid4.Coords) a, (cc4_transform_12 i a + 1) * S1x150.size a ≤ S1x150.size a
  hwx4_12 : ∀ i : grid4.Coords, EltTy.bits .f32 = 32 ∨ (Rect.block (s := S1x150) S1x150.size (cc4_transform_12 i) (hinb4_12 i)).WholeWords (EltTy.packing .f32)
  hstage4_13 : ∀ j, (stage4_13 j).IsWhole
  nbuf4_13 : grid4.bufCount reads4_13 true = 1
  hreads4_13 : ∀ i i' : grid4.Coords, (∀ a, reads4_13 a = true → i a = i' a) → cc4_transform_13 i = cc4_transform_13 i'
  hinb4_13 : ∀ (i : grid4.Coords) a, (cc4_transform_13 i a + 1) * S150x150.size a ≤ S150x150.size a
  hwx4_13 : ∀ i : grid4.Coords, EltTy.bits .f32 = 32 ∨ (Rect.block (s := S150x150) S150x150.size (cc4_transform_13 i) (hinb4_13 i)).WholeWords (EltTy.packing .f32)
  hstage4_14 : ∀ j, (stage4_14 j).IsWhole
  nbuf4_14 : grid4.bufCount reads4_14 true = 1
  hreads4_14 : ∀ i i' : grid4.Coords, (∀ a, reads4_14 a = true → i a = i' a) → cc4_transform_14 i = cc4_transform_14 i'
  hinb4_14 : ∀ (i : grid4.Coords) a, (cc4_transform_14 i a + 1) * S1x150.size a ≤ S1x150.size a
  hwx4_14 : ∀ i : grid4.Coords, EltTy.bits .f32 = 32 ∨ (Rect.block (s := S1x150) S1x150.size (cc4_transform_14 i) (hinb4_14 i)).WholeWords (EltTy.packing .f32)
  hstage4_15 : ∀ j, (stage4_15 j).IsWhole
  nbuf4_15 : grid4.bufCount reads4_15 true = 1
  hreads4_15 : ∀ i i' : grid4.Coords, (∀ a, reads4_15 a = true → i a = i' a) → cc4_transform_15 i = cc4_transform_15 i'
  hinb4_15 : ∀ (i : grid4.Coords) a, (cc4_transform_15 i a + 1) * S150x150.size a ≤ S150x150.size a
  hwx4_15 : ∀ i : grid4.Coords, EltTy.bits .f32 = 32 ∨ (Rect.block (s := S150x150) S150x150.size (cc4_transform_15 i) (hinb4_15 i)).WholeWords (EltTy.packing .f32)
  hstage4_16 : ∀ j, (stage4_16 j).IsWhole
  nbuf4_16 : grid4.bufCount reads4_16 true = 1
  hreads4_16 : ∀ i i' : grid4.Coords, (∀ a, reads4_16 a = true → i a = i' a) → cc4_transform_16 i = cc4_transform_16 i'
  hinb4_16 : ∀ (i : grid4.Coords) a, (cc4_transform_16 i a + 1) * S1x150.size a ≤ S1x150.size a
  hwx4_16 : ∀ i : grid4.Coords, EltTy.bits .f32 = 32 ∨ (Rect.block (s := S1x150) S1x150.size (cc4_transform_16 i) (hinb4_16 i)).WholeWords (EltTy.packing .f32)
  hstage4_17 : ∀ j, (stage4_17 j).IsWhole
  nbuf4_17 : grid4.bufCount reads4_17 true = 1
  hreads4_17 : ∀ i i' : grid4.Coords, (∀ a, reads4_17 a = true → i a = i' a) → cc4_transform_17 i = cc4_transform_17 i'
  hinb4_17 : ∀ (i : grid4.Coords) a, (cc4_transform_17 i a + 1) * S150x150.size a ≤ S150x150.size a
  hwx4_17 : ∀ i : grid4.Coords, EltTy.bits .f32 = 32 ∨ (Rect.block (s := S150x150) S150x150.size (cc4_transform_17 i) (hinb4_17 i)).WholeWords (EltTy.packing .f32)
  hstage4_18 : ∀ j, (stage4_18 j).IsWhole
  nbuf4_18 : grid4.bufCount reads4_18 true = 1
  hreads4_18 : ∀ i i' : grid4.Coords, (∀ a, reads4_18 a = true → i a = i' a) → cc4_transform_18 i = cc4_transform_18 i'
  hinb4_18 : ∀ (i : grid4.Coords) a, (cc4_transform_18 i a + 1) * S1x150.size a ≤ S1x150.size a
  hwx4_18 : ∀ i : grid4.Coords, EltTy.bits .f32 = 32 ∨ (Rect.block (s := S1x150) S1x150.size (cc4_transform_18 i) (hinb4_18 i)).WholeWords (EltTy.packing .f32)
  hstage4_19 : ∀ j, (stage4_19 j).IsWhole
  nbuf4_19 : grid4.bufCount reads4_19 false = 1
  hreads4_19 : ∀ i i' : grid4.Coords, (∀ a, reads4_19 a = true → i a = i' a) → cc4_transform_19 i = cc4_transform_19 i'
  hinb4_19 : ∀ (i : grid4.Coords) a, (cc4_transform_19 i a + 1) * S256x150.size a ≤ S256x150.size a
  hwx4_19 : ∀ i : grid4.Coords, EltTy.bits .f32 = 32 ∨ (Rect.block (s := S256x150) S256x150.size (cc4_transform_19 i) (hinb4_19 i)).WholeWords (EltTy.packing .f32)
  hstage4_20 : ∀ j, (stage4_20 j).IsWhole
  nbuf4_20 : grid4.bufCount reads4_20 false = 1
  hreads4_20 : ∀ i i' : grid4.Coords, (∀ a, reads4_20 a = true → i a = i' a) → cc4_transform_20 i = cc4_transform_20 i'
  hinb4_20 : ∀ (i : grid4.Coords) a, (cc4_transform_20 i a + 1) * S256x150.size a ≤ S256x150.size a
  hwx4_20 : ∀ i : grid4.Coords, EltTy.bits .f32 = 32 ∨ (Rect.block (s := S256x150) S256x150.size (cc4_transform_20 i) (hinb4_20 i)).WholeWords (EltTy.packing .f32)

class K5.Facts₀ : Prop where
  hrank5 : 0 < grid5.rank
  hstage5_0 : ∀ j, (stage5_0 j).IsWhole
  nbuf5_0 : grid5.bufCount reads5_0 false = 1
  hreads5_0 : ∀ i i' : grid5.Coords, (∀ a, reads5_0 a = true → i a = i' a) → cc5_transform_0 i = cc5_transform_0 i'
  hinb5_0 : ∀ (i : grid5.Coords) a, (cc5_transform_0 i a + 1) * S64x300.size a ≤ S64x300.size a
  hwx5_0 : ∀ i : grid5.Coords, EltTy.bits .f32 = 32 ∨ (Rect.block (s := S64x300) S64x300.size (cc5_transform_0 i) (hinb5_0 i)).WholeWords (EltTy.packing .f32)
  hstage5_1 : ∀ j, (stage5_1 j).IsWhole
  nbuf5_1 : grid5.bufCount reads5_1 false = 1
  hreads5_1 : ∀ i i' : grid5.Coords, (∀ a, reads5_1 a = true → i a = i' a) → cc5_transform_1 i = cc5_transform_1 i'
  hinb5_1 : ∀ (i : grid5.Coords) a, (cc5_transform_1 i a + 1) * S64x4x150.size a ≤ S64x4x150.size a
  hwx5_1 : ∀ i : grid5.Coords, EltTy.bits .f32 = 32 ∨ (Rect.block (s := S64x4x150) S64x4x150.size (cc5_transform_1 i) (hinb5_1 i)).WholeWords (EltTy.packing .f32)
  hstage5_2 : ∀ j, (stage5_2 j).IsWhole
  nbuf5_2 : grid5.bufCount reads5_2 false = 1
  hreads5_2 : ∀ i i' : grid5.Coords, (∀ a, reads5_2 a = true → i a = i' a) → cc5_transform_2 i = cc5_transform_2 i'
  hinb5_2 : ∀ (i : grid5.Coords) a, (cc5_transform_2 i a + 1) * S64x4x150.size a ≤ S64x4x150.size a
  hwx5_2 : ∀ i : grid5.Coords, EltTy.bits .f32 = 32 ∨ (Rect.block (s := S64x4x150) S64x4x150.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S300x150.size a ≤ S300x150.size a
  hwx5_3 : ∀ i : grid5.Coords, EltTy.bits .f32 = 32 ∨ (Rect.block (s := S300x150) S300x150.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x150.size a ≤ S1x150.size a
  hwx5_4 : ∀ i : grid5.Coords, EltTy.bits .f32 = 32 ∨ (Rect.block (s := S1x150) S1x150.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S300x150.size a ≤ S300x150.size a
  hwx5_5 : ∀ i : grid5.Coords, EltTy.bits .f32 = 32 ∨ (Rect.block (s := S300x150) S300x150.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x150.size a ≤ S1x150.size a
  hwx5_6 : ∀ i : grid5.Coords, EltTy.bits .f32 = 32 ∨ (Rect.block (s := S1x150) S1x150.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S300x150.size a ≤ S300x150.size a
  hwx5_7 : ∀ i : grid5.Coords, EltTy.bits .f32 = 32 ∨ (Rect.block (s := S300x150) S300x150.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x150.size a ≤ S1x150.size a
  hwx5_8 : ∀ i : grid5.Coords, EltTy.bits .f32 = 32 ∨ (Rect.block (s := S1x150) S1x150.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S300x150.size a ≤ S300x150.size a
  hwx5_9 : ∀ i : grid5.Coords, EltTy.bits .f32 = 32 ∨ (Rect.block (s := S300x150) S300x150.size (cc5_transform_9 i) (hinb5_9 i)).WholeWords (EltTy.packing .f32)
  hstage5_10 : ∀ j, (stage5_10 j).IsWhole
  nbuf5_10 : grid5.bufCount reads5_10 true = 1
  hreads5_10 : ∀ i i' : grid5.Coords, (∀ a, reads5_10 a = true → i a = i' a) → cc5_transform_10 i = cc5_transform_10 i'
  hinb5_10 : ∀ (i : grid5.Coords) a, (cc5_transform_10 i a + 1) * S1x150.size a ≤ S1x150.size a
  hwx5_10 : ∀ i : grid5.Coords, EltTy.bits .f32 = 32 ∨ (Rect.block (s := S1x150) S1x150.size (cc5_transform_10 i) (hinb5_10 i)).WholeWords (EltTy.packing .f32)
  hstage5_11 : ∀ j, (stage5_11 j).IsWhole
  nbuf5_11 : grid5.bufCount reads5_11 true = 1
  hreads5_11 : ∀ i i' : grid5.Coords, (∀ a, reads5_11 a = true → i a = i' a) → cc5_transform_11 i = cc5_transform_11 i'
  hinb5_11 : ∀ (i : grid5.Coords) a, (cc5_transform_11 i a + 1) * S150x150.size a ≤ S150x150.size a
  hwx5_11 : ∀ i : grid5.Coords, EltTy.bits .f32 = 32 ∨ (Rect.block (s := S150x150) S150x150.size (cc5_transform_11 i) (hinb5_11 i)).WholeWords (EltTy.packing .f32)
  hstage5_12 : ∀ j, (stage5_12 j).IsWhole
  nbuf5_12 : grid5.bufCount reads5_12 true = 1
  hreads5_12 : ∀ i i' : grid5.Coords, (∀ a, reads5_12 a = true → i a = i' a) → cc5_transform_12 i = cc5_transform_12 i'
  hinb5_12 : ∀ (i : grid5.Coords) a, (cc5_transform_12 i a + 1) * S1x150.size a ≤ S1x150.size a
  hwx5_12 : ∀ i : grid5.Coords, EltTy.bits .f32 = 32 ∨ (Rect.block (s := S1x150) S1x150.size (cc5_transform_12 i) (hinb5_12 i)).WholeWords (EltTy.packing .f32)
  hstage5_13 : ∀ j, (stage5_13 j).IsWhole
  nbuf5_13 : grid5.bufCount reads5_13 true = 1
  hreads5_13 : ∀ i i' : grid5.Coords, (∀ a, reads5_13 a = true → i a = i' a) → cc5_transform_13 i = cc5_transform_13 i'
  hinb5_13 : ∀ (i : grid5.Coords) a, (cc5_transform_13 i a + 1) * S150x150.size a ≤ S150x150.size a
  hwx5_13 : ∀ i : grid5.Coords, EltTy.bits .f32 = 32 ∨ (Rect.block (s := S150x150) S150x150.size (cc5_transform_13 i) (hinb5_13 i)).WholeWords (EltTy.packing .f32)
  hstage5_14 : ∀ j, (stage5_14 j).IsWhole
  nbuf5_14 : grid5.bufCount reads5_14 true = 1
  hreads5_14 : ∀ i i' : grid5.Coords, (∀ a, reads5_14 a = true → i a = i' a) → cc5_transform_14 i = cc5_transform_14 i'
  hinb5_14 : ∀ (i : grid5.Coords) a, (cc5_transform_14 i a + 1) * S1x150.size a ≤ S1x150.size a
  hwx5_14 : ∀ i : grid5.Coords, EltTy.bits .f32 = 32 ∨ (Rect.block (s := S1x150) S1x150.size (cc5_transform_14 i) (hinb5_14 i)).WholeWords (EltTy.packing .f32)
  hstage5_15 : ∀ j, (stage5_15 j).IsWhole
  nbuf5_15 : grid5.bufCount reads5_15 true = 1
  hreads5_15 : ∀ i i' : grid5.Coords, (∀ a, reads5_15 a = true → i a = i' a) → cc5_transform_15 i = cc5_transform_15 i'
  hinb5_15 : ∀ (i : grid5.Coords) a, (cc5_transform_15 i a + 1) * S150x150.size a ≤ S150x150.size a
  hwx5_15 : ∀ i : grid5.Coords, EltTy.bits .f32 = 32 ∨ (Rect.block (s := S150x150) S150x150.size (cc5_transform_15 i) (hinb5_15 i)).WholeWords (EltTy.packing .f32)
  hstage5_16 : ∀ j, (stage5_16 j).IsWhole
  nbuf5_16 : grid5.bufCount reads5_16 true = 1
  hreads5_16 : ∀ i i' : grid5.Coords, (∀ a, reads5_16 a = true → i a = i' a) → cc5_transform_16 i = cc5_transform_16 i'
  hinb5_16 : ∀ (i : grid5.Coords) a, (cc5_transform_16 i a + 1) * S1x150.size a ≤ S1x150.size a
  hwx5_16 : ∀ i : grid5.Coords, EltTy.bits .f32 = 32 ∨ (Rect.block (s := S1x150) S1x150.size (cc5_transform_16 i) (hinb5_16 i)).WholeWords (EltTy.packing .f32)
  hstage5_17 : ∀ j, (stage5_17 j).IsWhole
  nbuf5_17 : grid5.bufCount reads5_17 true = 1
  hreads5_17 : ∀ i i' : grid5.Coords, (∀ a, reads5_17 a = true → i a = i' a) → cc5_transform_17 i = cc5_transform_17 i'
  hinb5_17 : ∀ (i : grid5.Coords) a, (cc5_transform_17 i a + 1) * S150x150.size a ≤ S150x150.size a
  hwx5_17 : ∀ i : grid5.Coords, EltTy.bits .f32 = 32 ∨ (Rect.block (s := S150x150) S150x150.size (cc5_transform_17 i) (hinb5_17 i)).WholeWords (EltTy.packing .f32)
  hstage5_18 : ∀ j, (stage5_18 j).IsWhole
  nbuf5_18 : grid5.bufCount reads5_18 true = 1
  hreads5_18 : ∀ i i' : grid5.Coords, (∀ a, reads5_18 a = true → i a = i' a) → cc5_transform_18 i = cc5_transform_18 i'
  hinb5_18 : ∀ (i : grid5.Coords) a, (cc5_transform_18 i a + 1) * S1x150.size a ≤ S1x150.size a
  hwx5_18 : ∀ i : grid5.Coords, EltTy.bits .f32 = 32 ∨ (Rect.block (s := S1x150) S1x150.size (cc5_transform_18 i) (hinb5_18 i)).WholeWords (EltTy.packing .f32)
  hstage5_19 : ∀ j, (stage5_19 j).IsWhole
  nbuf5_19 : grid5.bufCount reads5_19 false = 1
  hreads5_19 : ∀ i i' : grid5.Coords, (∀ a, reads5_19 a = true → i a = i' a) → cc5_transform_19 i = cc5_transform_19 i'
  hinb5_19 : ∀ (i : grid5.Coords) a, (cc5_transform_19 i a + 1) * S64x150.size a ≤ S64x150.size a
  hwx5_19 : ∀ i : grid5.Coords, EltTy.bits .f32 = 32 ∨ (Rect.block (s := S64x150) S64x150.size (cc5_transform_19 i) (hinb5_19 i)).WholeWords (EltTy.packing .f32)
  hstage5_20 : ∀ j, (stage5_20 j).IsWhole
  nbuf5_20 : grid5.bufCount reads5_20 false = 1
  hreads5_20 : ∀ i i' : grid5.Coords, (∀ a, reads5_20 a = true → i a = i' a) → cc5_transform_20 i = cc5_transform_20 i'
  hinb5_20 : ∀ (i : grid5.Coords) a, (cc5_transform_20 i a + 1) * S64x150.size a ≤ S64x150.size a
  hwx5_20 : ∀ i : grid5.Coords, EltTy.bits .f32 = 32 ∨ (Rect.block (s := S64x150) S64x150.size (cc5_transform_20 i) (hinb5_20 i)).WholeWords (EltTy.packing .f32)

class K6.Facts₀ : Prop where
  hrank6 : 0 < grid6.rank
  hstage6_0 : ∀ j, (stage6_0 j).IsWhole
  nbuf6_0 : grid6.bufCount reads6_0 false = 1
  hreads6_0 : ∀ i i' : grid6.Coords, (∀ a, reads6_0 a = true → i a = i' a) → cc6_transform_0 i = cc6_transform_0 i'
  hinb6_0 : ∀ (i : grid6.Coords) a, (cc6_transform_0 i a + 1) * S16x300.size a ≤ S16x300.size a
  hwx6_0 : ∀ i : grid6.Coords, EltTy.bits .f32 = 32 ∨ (Rect.block (s := S16x300) S16x300.size (cc6_transform_0 i) (hinb6_0 i)).WholeWords (EltTy.packing .f32)
  hstage6_1 : ∀ j, (stage6_1 j).IsWhole
  nbuf6_1 : grid6.bufCount reads6_1 false = 1
  hreads6_1 : ∀ i i' : grid6.Coords, (∀ a, reads6_1 a = true → i a = i' a) → cc6_transform_1 i = cc6_transform_1 i'
  hinb6_1 : ∀ (i : grid6.Coords) a, (cc6_transform_1 i a + 1) * S16x4x150.size a ≤ S16x4x150.size a
  hwx6_1 : ∀ i : grid6.Coords, EltTy.bits .f32 = 32 ∨ (Rect.block (s := S16x4x150) S16x4x150.size (cc6_transform_1 i) (hinb6_1 i)).WholeWords (EltTy.packing .f32)
  hstage6_2 : ∀ j, (stage6_2 j).IsWhole
  nbuf6_2 : grid6.bufCount reads6_2 false = 1
  hreads6_2 : ∀ i i' : grid6.Coords, (∀ a, reads6_2 a = true → i a = i' a) → cc6_transform_2 i = cc6_transform_2 i'
  hinb6_2 : ∀ (i : grid6.Coords) a, (cc6_transform_2 i a + 1) * S16x4x150.size a ≤ S16x4x150.size a
  hwx6_2 : ∀ i : grid6.Coords, EltTy.bits .f32 = 32 ∨ (Rect.block (s := S16x4x150) S16x4x150.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S300x150.size a ≤ S300x150.size a
  hwx6_3 : ∀ i : grid6.Coords, EltTy.bits .f32 = 32 ∨ (Rect.block (s := S300x150) S300x150.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x150.size a ≤ S1x150.size a
  hwx6_4 : ∀ i : grid6.Coords, EltTy.bits .f32 = 32 ∨ (Rect.block (s := S1x150) S1x150.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S300x150.size a ≤ S300x150.size a
  hwx6_5 : ∀ i : grid6.Coords, EltTy.bits .f32 = 32 ∨ (Rect.block (s := S300x150) S300x150.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x150.size a ≤ S1x150.size a
  hwx6_6 : ∀ i : grid6.Coords, EltTy.bits .f32 = 32 ∨ (Rect.block (s := S1x150) S1x150.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S300x150.size a ≤ S300x150.size a
  hwx6_7 : ∀ i : grid6.Coords, EltTy.bits .f32 = 32 ∨ (Rect.block (s := S300x150) S300x150.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x150.size a ≤ S1x150.size a
  hwx6_8 : ∀ i : grid6.Coords, EltTy.bits .f32 = 32 ∨ (Rect.block (s := S1x150) S1x150.size (cc6_transform_8 i) (hinb6_8 i)).WholeWords (EltTy.packing .f32)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S300x150.size a ≤ S300x150.size a
  hwx6_9 : ∀ i : grid6.Coords, EltTy.bits .f32 = 32 ∨ (Rect.block (s := S300x150) S300x150.size (cc6_transform_9 i) (hinb6_9 i)).WholeWords (EltTy.packing .f32)
  hstage6_10 : ∀ j, (stage6_10 j).IsWhole
  nbuf6_10 : grid6.bufCount reads6_10 true = 1
  hreads6_10 : ∀ i i' : grid6.Coords, (∀ a, reads6_10 a = true → i a = i' a) → cc6_transform_10 i = cc6_transform_10 i'
  hinb6_10 : ∀ (i : grid6.Coords) a, (cc6_transform_10 i a + 1) * S1x150.size a ≤ S1x150.size a
  hwx6_10 : ∀ i : grid6.Coords, EltTy.bits .f32 = 32 ∨ (Rect.block (s := S1x150) S1x150.size (cc6_transform_10 i) (hinb6_10 i)).WholeWords (EltTy.packing .f32)
  hstage6_11 : ∀ j, (stage6_11 j).IsWhole
  nbuf6_11 : grid6.bufCount reads6_11 true = 1
  hreads6_11 : ∀ i i' : grid6.Coords, (∀ a, reads6_11 a = true → i a = i' a) → cc6_transform_11 i = cc6_transform_11 i'
  hinb6_11 : ∀ (i : grid6.Coords) a, (cc6_transform_11 i a + 1) * S150x150.size a ≤ S150x150.size a
  hwx6_11 : ∀ i : grid6.Coords, EltTy.bits .f32 = 32 ∨ (Rect.block (s := S150x150) S150x150.size (cc6_transform_11 i) (hinb6_11 i)).WholeWords (EltTy.packing .f32)
  hstage6_12 : ∀ j, (stage6_12 j).IsWhole
  nbuf6_12 : grid6.bufCount reads6_12 true = 1
  hreads6_12 : ∀ i i' : grid6.Coords, (∀ a, reads6_12 a = true → i a = i' a) → cc6_transform_12 i = cc6_transform_12 i'
  hinb6_12 : ∀ (i : grid6.Coords) a, (cc6_transform_12 i a + 1) * S1x150.size a ≤ S1x150.size a
  hwx6_12 : ∀ i : grid6.Coords, EltTy.bits .f32 = 32 ∨ (Rect.block (s := S1x150) S1x150.size (cc6_transform_12 i) (hinb6_12 i)).WholeWords (EltTy.packing .f32)
  hstage6_13 : ∀ j, (stage6_13 j).IsWhole
  nbuf6_13 : grid6.bufCount reads6_13 true = 1
  hreads6_13 : ∀ i i' : grid6.Coords, (∀ a, reads6_13 a = true → i a = i' a) → cc6_transform_13 i = cc6_transform_13 i'
  hinb6_13 : ∀ (i : grid6.Coords) a, (cc6_transform_13 i a + 1) * S150x150.size a ≤ S150x150.size a
  hwx6_13 : ∀ i : grid6.Coords, EltTy.bits .f32 = 32 ∨ (Rect.block (s := S150x150) S150x150.size (cc6_transform_13 i) (hinb6_13 i)).WholeWords (EltTy.packing .f32)
  hstage6_14 : ∀ j, (stage6_14 j).IsWhole
  nbuf6_14 : grid6.bufCount reads6_14 true = 1
  hreads6_14 : ∀ i i' : grid6.Coords, (∀ a, reads6_14 a = true → i a = i' a) → cc6_transform_14 i = cc6_transform_14 i'
  hinb6_14 : ∀ (i : grid6.Coords) a, (cc6_transform_14 i a + 1) * S1x150.size a ≤ S1x150.size a
  hwx6_14 : ∀ i : grid6.Coords, EltTy.bits .f32 = 32 ∨ (Rect.block (s := S1x150) S1x150.size (cc6_transform_14 i) (hinb6_14 i)).WholeWords (EltTy.packing .f32)
  hstage6_15 : ∀ j, (stage6_15 j).IsWhole
  nbuf6_15 : grid6.bufCount reads6_15 true = 1
  hreads6_15 : ∀ i i' : grid6.Coords, (∀ a, reads6_15 a = true → i a = i' a) → cc6_transform_15 i = cc6_transform_15 i'
  hinb6_15 : ∀ (i : grid6.Coords) a, (cc6_transform_15 i a + 1) * S150x150.size a ≤ S150x150.size a
  hwx6_15 : ∀ i : grid6.Coords, EltTy.bits .f32 = 32 ∨ (Rect.block (s := S150x150) S150x150.size (cc6_transform_15 i) (hinb6_15 i)).WholeWords (EltTy.packing .f32)
  hstage6_16 : ∀ j, (stage6_16 j).IsWhole
  nbuf6_16 : grid6.bufCount reads6_16 true = 1
  hreads6_16 : ∀ i i' : grid6.Coords, (∀ a, reads6_16 a = true → i a = i' a) → cc6_transform_16 i = cc6_transform_16 i'
  hinb6_16 : ∀ (i : grid6.Coords) a, (cc6_transform_16 i a + 1) * S1x150.size a ≤ S1x150.size a
  hwx6_16 : ∀ i : grid6.Coords, EltTy.bits .f32 = 32 ∨ (Rect.block (s := S1x150) S1x150.size (cc6_transform_16 i) (hinb6_16 i)).WholeWords (EltTy.packing .f32)
  hstage6_17 : ∀ j, (stage6_17 j).IsWhole
  nbuf6_17 : grid6.bufCount reads6_17 true = 1
  hreads6_17 : ∀ i i' : grid6.Coords, (∀ a, reads6_17 a = true → i a = i' a) → cc6_transform_17 i = cc6_transform_17 i'
  hinb6_17 : ∀ (i : grid6.Coords) a, (cc6_transform_17 i a + 1) * S150x150.size a ≤ S150x150.size a
  hwx6_17 : ∀ i : grid6.Coords, EltTy.bits .f32 = 32 ∨ (Rect.block (s := S150x150) S150x150.size (cc6_transform_17 i) (hinb6_17 i)).WholeWords (EltTy.packing .f32)
  hstage6_18 : ∀ j, (stage6_18 j).IsWhole
  nbuf6_18 : grid6.bufCount reads6_18 true = 1
  hreads6_18 : ∀ i i' : grid6.Coords, (∀ a, reads6_18 a = true → i a = i' a) → cc6_transform_18 i = cc6_transform_18 i'
  hinb6_18 : ∀ (i : grid6.Coords) a, (cc6_transform_18 i a + 1) * S1x150.size a ≤ S1x150.size a
  hwx6_18 : ∀ i : grid6.Coords, EltTy.bits .f32 = 32 ∨ (Rect.block (s := S1x150) S1x150.size (cc6_transform_18 i) (hinb6_18 i)).WholeWords (EltTy.packing .f32)
  hstage6_19 : ∀ j, (stage6_19 j).IsWhole
  nbuf6_19 : grid6.bufCount reads6_19 false = 1
  hreads6_19 : ∀ i i' : grid6.Coords, (∀ a, reads6_19 a = true → i a = i' a) → cc6_transform_19 i = cc6_transform_19 i'
  hinb6_19 : ∀ (i : grid6.Coords) a, (cc6_transform_19 i a + 1) * S16x150.size a ≤ S16x150.size a
  hwx6_19 : ∀ i : grid6.Coords, EltTy.bits .f32 = 32 ∨ (Rect.block (s := S16x150) S16x150.size (cc6_transform_19 i) (hinb6_19 i)).WholeWords (EltTy.packing .f32)
  hstage6_20 : ∀ j, (stage6_20 j).IsWhole
  nbuf6_20 : grid6.bufCount reads6_20 false = 1
  hreads6_20 : ∀ i i' : grid6.Coords, (∀ a, reads6_20 a = true → i a = i' a) → cc6_transform_20 i = cc6_transform_20 i'
  hinb6_20 : ∀ (i : grid6.Coords) a, (cc6_transform_20 i a + 1) * S16x150.size a ≤ S16x150.size a
  hwx6_20 : ∀ i : grid6.Coords, EltTy.bits .f32 = 32 ∨ (Rect.block (s := S16x150) S16x150.size (cc6_transform_20 i) (hinb6_20 i)).WholeWords (EltTy.packing .f32)

class K7.Facts₀ : Prop where
  hrank7 : 0 < grid7.rank
  hstage7_0 : ∀ j, (stage7_0 j).IsWhole
  nbuf7_0 : grid7.bufCount reads7_0 false = 1
  hreads7_0 : ∀ i i' : grid7.Coords, (∀ a, reads7_0 a = true → i a = i' a) → cc7_transform_0 i = cc7_transform_0 i'
  hinb7_0 : ∀ (i : grid7.Coords) a, (cc7_transform_0 i a + 1) * S4x300.size a ≤ S4x300.size a
  hwx7_0 : ∀ i : grid7.Coords, EltTy.bits .f32 = 32 ∨ (Rect.block (s := S4x300) S4x300.size (cc7_transform_0 i) (hinb7_0 i)).WholeWords (EltTy.packing .f32)
  hstage7_1 : ∀ j, (stage7_1 j).IsWhole
  nbuf7_1 : grid7.bufCount reads7_1 false = 1
  hreads7_1 : ∀ i i' : grid7.Coords, (∀ a, reads7_1 a = true → i a = i' a) → cc7_transform_1 i = cc7_transform_1 i'
  hinb7_1 : ∀ (i : grid7.Coords) a, (cc7_transform_1 i a + 1) * S4x4x150.size a ≤ S4x4x150.size a
  hwx7_1 : ∀ i : grid7.Coords, EltTy.bits .f32 = 32 ∨ (Rect.block (s := S4x4x150) S4x4x150.size (cc7_transform_1 i) (hinb7_1 i)).WholeWords (EltTy.packing .f32)
  hstage7_2 : ∀ j, (stage7_2 j).IsWhole
  nbuf7_2 : grid7.bufCount reads7_2 false = 1
  hreads7_2 : ∀ i i' : grid7.Coords, (∀ a, reads7_2 a = true → i a = i' a) → cc7_transform_2 i = cc7_transform_2 i'
  hinb7_2 : ∀ (i : grid7.Coords) a, (cc7_transform_2 i a + 1) * S4x4x150.size a ≤ S4x4x150.size a
  hwx7_2 : ∀ i : grid7.Coords, EltTy.bits .f32 = 32 ∨ (Rect.block (s := S4x4x150) S4x4x150.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S300x150.size a ≤ S300x150.size a
  hwx7_3 : ∀ i : grid7.Coords, EltTy.bits .f32 = 32 ∨ (Rect.block (s := S300x150) S300x150.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x150.size a ≤ S1x150.size a
  hwx7_4 : ∀ i : grid7.Coords, EltTy.bits .f32 = 32 ∨ (Rect.block (s := S1x150) S1x150.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S300x150.size a ≤ S300x150.size a
  hwx7_5 : ∀ i : grid7.Coords, EltTy.bits .f32 = 32 ∨ (Rect.block (s := S300x150) S300x150.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x150.size a ≤ S1x150.size a
  hwx7_6 : ∀ i : grid7.Coords, EltTy.bits .f32 = 32 ∨ (Rect.block (s := S1x150) S1x150.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S300x150.size a ≤ S300x150.size a
  hwx7_7 : ∀ i : grid7.Coords, EltTy.bits .f32 = 32 ∨ (Rect.block (s := S300x150) S300x150.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S1x150.size a ≤ S1x150.size a
  hwx7_8 : ∀ i : grid7.Coords, EltTy.bits .f32 = 32 ∨ (Rect.block (s := S1x150) S1x150.size (cc7_transform_8 i) (hinb7_8 i)).WholeWords (EltTy.packing .f32)
  hstage7_9 : ∀ j, (stage7_9 j).IsWhole
  nbuf7_9 : grid7.bufCount reads7_9 true = 1
  hreads7_9 : ∀ i i' : grid7.Coords, (∀ a, reads7_9 a = true → i a = i' a) → cc7_transform_9 i = cc7_transform_9 i'
  hinb7_9 : ∀ (i : grid7.Coords) a, (cc7_transform_9 i a + 1) * S300x150.size a ≤ S300x150.size a
  hwx7_9 : ∀ i : grid7.Coords, EltTy.bits .f32 = 32 ∨ (Rect.block (s := S300x150) S300x150.size (cc7_transform_9 i) (hinb7_9 i)).WholeWords (EltTy.packing .f32)
  hstage7_10 : ∀ j, (stage7_10 j).IsWhole
  nbuf7_10 : grid7.bufCount reads7_10 true = 1
  hreads7_10 : ∀ i i' : grid7.Coords, (∀ a, reads7_10 a = true → i a = i' a) → cc7_transform_10 i = cc7_transform_10 i'
  hinb7_10 : ∀ (i : grid7.Coords) a, (cc7_transform_10 i a + 1) * S1x150.size a ≤ S1x150.size a
  hwx7_10 : ∀ i : grid7.Coords, EltTy.bits .f32 = 32 ∨ (Rect.block (s := S1x150) S1x150.size (cc7_transform_10 i) (hinb7_10 i)).WholeWords (EltTy.packing .f32)
  hstage7_11 : ∀ j, (stage7_11 j).IsWhole
  nbuf7_11 : grid7.bufCount reads7_11 true = 1
  hreads7_11 : ∀ i i' : grid7.Coords, (∀ a, reads7_11 a = true → i a = i' a) → cc7_transform_11 i = cc7_transform_11 i'
  hinb7_11 : ∀ (i : grid7.Coords) a, (cc7_transform_11 i a + 1) * S150x150.size a ≤ S150x150.size a
  hwx7_11 : ∀ i : grid7.Coords, EltTy.bits .f32 = 32 ∨ (Rect.block (s := S150x150) S150x150.size (cc7_transform_11 i) (hinb7_11 i)).WholeWords (EltTy.packing .f32)
  hstage7_12 : ∀ j, (stage7_12 j).IsWhole
  nbuf7_12 : grid7.bufCount reads7_12 true = 1
  hreads7_12 : ∀ i i' : grid7.Coords, (∀ a, reads7_12 a = true → i a = i' a) → cc7_transform_12 i = cc7_transform_12 i'
  hinb7_12 : ∀ (i : grid7.Coords) a, (cc7_transform_12 i a + 1) * S1x150.size a ≤ S1x150.size a
  hwx7_12 : ∀ i : grid7.Coords, EltTy.bits .f32 = 32 ∨ (Rect.block (s := S1x150) S1x150.size (cc7_transform_12 i) (hinb7_12 i)).WholeWords (EltTy.packing .f32)
  hstage7_13 : ∀ j, (stage7_13 j).IsWhole
  nbuf7_13 : grid7.bufCount reads7_13 true = 1
  hreads7_13 : ∀ i i' : grid7.Coords, (∀ a, reads7_13 a = true → i a = i' a) → cc7_transform_13 i = cc7_transform_13 i'
  hinb7_13 : ∀ (i : grid7.Coords) a, (cc7_transform_13 i a + 1) * S150x150.size a ≤ S150x150.size a
  hwx7_13 : ∀ i : grid7.Coords, EltTy.bits .f32 = 32 ∨ (Rect.block (s := S150x150) S150x150.size (cc7_transform_13 i) (hinb7_13 i)).WholeWords (EltTy.packing .f32)
  hstage7_14 : ∀ j, (stage7_14 j).IsWhole
  nbuf7_14 : grid7.bufCount reads7_14 true = 1
  hreads7_14 : ∀ i i' : grid7.Coords, (∀ a, reads7_14 a = true → i a = i' a) → cc7_transform_14 i = cc7_transform_14 i'
  hinb7_14 : ∀ (i : grid7.Coords) a, (cc7_transform_14 i a + 1) * S1x150.size a ≤ S1x150.size a
  hwx7_14 : ∀ i : grid7.Coords, EltTy.bits .f32 = 32 ∨ (Rect.block (s := S1x150) S1x150.size (cc7_transform_14 i) (hinb7_14 i)).WholeWords (EltTy.packing .f32)
  hstage7_15 : ∀ j, (stage7_15 j).IsWhole
  nbuf7_15 : grid7.bufCount reads7_15 true = 1
  hreads7_15 : ∀ i i' : grid7.Coords, (∀ a, reads7_15 a = true → i a = i' a) → cc7_transform_15 i = cc7_transform_15 i'
  hinb7_15 : ∀ (i : grid7.Coords) a, (cc7_transform_15 i a + 1) * S150x150.size a ≤ S150x150.size a
  hwx7_15 : ∀ i : grid7.Coords, EltTy.bits .f32 = 32 ∨ (Rect.block (s := S150x150) S150x150.size (cc7_transform_15 i) (hinb7_15 i)).WholeWords (EltTy.packing .f32)
  hstage7_16 : ∀ j, (stage7_16 j).IsWhole
  nbuf7_16 : grid7.bufCount reads7_16 true = 1
  hreads7_16 : ∀ i i' : grid7.Coords, (∀ a, reads7_16 a = true → i a = i' a) → cc7_transform_16 i = cc7_transform_16 i'
  hinb7_16 : ∀ (i : grid7.Coords) a, (cc7_transform_16 i a + 1) * S1x150.size a ≤ S1x150.size a
  hwx7_16 : ∀ i : grid7.Coords, EltTy.bits .f32 = 32 ∨ (Rect.block (s := S1x150) S1x150.size (cc7_transform_16 i) (hinb7_16 i)).WholeWords (EltTy.packing .f32)
  hstage7_17 : ∀ j, (stage7_17 j).IsWhole
  nbuf7_17 : grid7.bufCount reads7_17 true = 1
  hreads7_17 : ∀ i i' : grid7.Coords, (∀ a, reads7_17 a = true → i a = i' a) → cc7_transform_17 i = cc7_transform_17 i'
  hinb7_17 : ∀ (i : grid7.Coords) a, (cc7_transform_17 i a + 1) * S150x150.size a ≤ S150x150.size a
  hwx7_17 : ∀ i : grid7.Coords, EltTy.bits .f32 = 32 ∨ (Rect.block (s := S150x150) S150x150.size (cc7_transform_17 i) (hinb7_17 i)).WholeWords (EltTy.packing .f32)
  hstage7_18 : ∀ j, (stage7_18 j).IsWhole
  nbuf7_18 : grid7.bufCount reads7_18 true = 1
  hreads7_18 : ∀ i i' : grid7.Coords, (∀ a, reads7_18 a = true → i a = i' a) → cc7_transform_18 i = cc7_transform_18 i'
  hinb7_18 : ∀ (i : grid7.Coords) a, (cc7_transform_18 i a + 1) * S1x150.size a ≤ S1x150.size a
  hwx7_18 : ∀ i : grid7.Coords, EltTy.bits .f32 = 32 ∨ (Rect.block (s := S1x150) S1x150.size (cc7_transform_18 i) (hinb7_18 i)).WholeWords (EltTy.packing .f32)
  hstage7_19 : ∀ j, (stage7_19 j).IsWhole
  nbuf7_19 : grid7.bufCount reads7_19 false = 1
  hreads7_19 : ∀ i i' : grid7.Coords, (∀ a, reads7_19 a = true → i a = i' a) → cc7_transform_19 i = cc7_transform_19 i'
  hinb7_19 : ∀ (i : grid7.Coords) a, (cc7_transform_19 i a + 1) * S4x150.size a ≤ S4x150.size a
  hwx7_19 : ∀ i : grid7.Coords, EltTy.bits .f32 = 32 ∨ (Rect.block (s := S4x150) S4x150.size (cc7_transform_19 i) (hinb7_19 i)).WholeWords (EltTy.packing .f32)
  hstage7_20 : ∀ j, (stage7_20 j).IsWhole
  nbuf7_20 : grid7.bufCount reads7_20 false = 1
  hreads7_20 : ∀ i i' : grid7.Coords, (∀ a, reads7_20 a = true → i a = i' a) → cc7_transform_20 i = cc7_transform_20 i'
  hinb7_20 : ∀ (i : grid7.Coords) a, (cc7_transform_20 i a + 1) * S4x150.size a ≤ S4x150.size a
  hwx7_20 : ∀ i : grid7.Coords, EltTy.bits .f32 = 32 ∨ (Rect.block (s := S4x150) S4x150.size (cc7_transform_20 i) (hinb7_20 i)).WholeWords (EltTy.packing .f32)

class K8.Facts₀ : Prop where
  hrank8 : 0 < grid8.rank
  hstage8_0 : ∀ j, (stage8_0 j).IsWhole
  nbuf8_0 : grid8.bufCount reads8_0 false = 1
  hreads8_0 : ∀ i i' : grid8.Coords, (∀ a, reads8_0 a = true → i a = i' a) → cc8_transform_0 i = cc8_transform_0 i'
  hinb8_0 : ∀ (i : grid8.Coords) a, (cc8_transform_0 i a + 1) * S1x300.size a ≤ S1x300.size a
  hwx8_0 : ∀ i : grid8.Coords, EltTy.bits .f32 = 32 ∨ (Rect.block (s := S1x300) S1x300.size (cc8_transform_0 i) (hinb8_0 i)).WholeWords (EltTy.packing .f32)
  hstage8_1 : ∀ j, (stage8_1 j).IsWhole
  nbuf8_1 : grid8.bufCount reads8_1 false = 1
  hreads8_1 : ∀ i i' : grid8.Coords, (∀ a, reads8_1 a = true → i a = i' a) → cc8_transform_1 i = cc8_transform_1 i'
  hinb8_1 : ∀ (i : grid8.Coords) a, (cc8_transform_1 i a + 1) * S1x4x150.size a ≤ S1x4x150.size a
  hwx8_1 : ∀ i : grid8.Coords, EltTy.bits .f32 = 32 ∨ (Rect.block (s := S1x4x150) S1x4x150.size (cc8_transform_1 i) (hinb8_1 i)).WholeWords (EltTy.packing .f32)
  hstage8_2 : ∀ j, (stage8_2 j).IsWhole
  nbuf8_2 : grid8.bufCount reads8_2 false = 1
  hreads8_2 : ∀ i i' : grid8.Coords, (∀ a, reads8_2 a = true → i a = i' a) → cc8_transform_2 i = cc8_transform_2 i'
  hinb8_2 : ∀ (i : grid8.Coords) a, (cc8_transform_2 i a + 1) * S1x4x150.size a ≤ S1x4x150.size a
  hwx8_2 : ∀ i : grid8.Coords, EltTy.bits .f32 = 32 ∨ (Rect.block (s := S1x4x150) S1x4x150.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S300x150.size a ≤ S300x150.size a
  hwx8_3 : ∀ i : grid8.Coords, EltTy.bits .f32 = 32 ∨ (Rect.block (s := S300x150) S300x150.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x150.size a ≤ S1x150.size a
  hwx8_4 : ∀ i : grid8.Coords, EltTy.bits .f32 = 32 ∨ (Rect.block (s := S1x150) S1x150.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S300x150.size a ≤ S300x150.size a
  hwx8_5 : ∀ i : grid8.Coords, EltTy.bits .f32 = 32 ∨ (Rect.block (s := S300x150) S300x150.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x150.size a ≤ S1x150.size a
  hwx8_6 : ∀ i : grid8.Coords, EltTy.bits .f32 = 32 ∨ (Rect.block (s := S1x150) S1x150.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S300x150.size a ≤ S300x150.size a
  hwx8_7 : ∀ i : grid8.Coords, EltTy.bits .f32 = 32 ∨ (Rect.block (s := S300x150) S300x150.size (cc8_transform_7 i) (hinb8_7 i)).WholeWords (EltTy.packing .f32)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S1x150.size a ≤ S1x150.size a
  hwx8_8 : ∀ i : grid8.Coords, EltTy.bits .f32 = 32 ∨ (Rect.block (s := S1x150) S1x150.size (cc8_transform_8 i) (hinb8_8 i)).WholeWords (EltTy.packing .f32)
  hstage8_9 : ∀ j, (stage8_9 j).IsWhole
  nbuf8_9 : grid8.bufCount reads8_9 true = 1
  hreads8_9 : ∀ i i' : grid8.Coords, (∀ a, reads8_9 a = true → i a = i' a) → cc8_transform_9 i = cc8_transform_9 i'
  hinb8_9 : ∀ (i : grid8.Coords) a, (cc8_transform_9 i a + 1) * S300x150.size a ≤ S300x150.size a
  hwx8_9 : ∀ i : grid8.Coords, EltTy.bits .f32 = 32 ∨ (Rect.block (s := S300x150) S300x150.size (cc8_transform_9 i) (hinb8_9 i)).WholeWords (EltTy.packing .f32)
  hstage8_10 : ∀ j, (stage8_10 j).IsWhole
  nbuf8_10 : grid8.bufCount reads8_10 true = 1
  hreads8_10 : ∀ i i' : grid8.Coords, (∀ a, reads8_10 a = true → i a = i' a) → cc8_transform_10 i = cc8_transform_10 i'
  hinb8_10 : ∀ (i : grid8.Coords) a, (cc8_transform_10 i a + 1) * S1x150.size a ≤ S1x150.size a
  hwx8_10 : ∀ i : grid8.Coords, EltTy.bits .f32 = 32 ∨ (Rect.block (s := S1x150) S1x150.size (cc8_transform_10 i) (hinb8_10 i)).WholeWords (EltTy.packing .f32)
  hstage8_11 : ∀ j, (stage8_11 j).IsWhole
  nbuf8_11 : grid8.bufCount reads8_11 true = 1
  hreads8_11 : ∀ i i' : grid8.Coords, (∀ a, reads8_11 a = true → i a = i' a) → cc8_transform_11 i = cc8_transform_11 i'
  hinb8_11 : ∀ (i : grid8.Coords) a, (cc8_transform_11 i a + 1) * S150x150.size a ≤ S150x150.size a
  hwx8_11 : ∀ i : grid8.Coords, EltTy.bits .f32 = 32 ∨ (Rect.block (s := S150x150) S150x150.size (cc8_transform_11 i) (hinb8_11 i)).WholeWords (EltTy.packing .f32)
  hstage8_12 : ∀ j, (stage8_12 j).IsWhole
  nbuf8_12 : grid8.bufCount reads8_12 true = 1
  hreads8_12 : ∀ i i' : grid8.Coords, (∀ a, reads8_12 a = true → i a = i' a) → cc8_transform_12 i = cc8_transform_12 i'
  hinb8_12 : ∀ (i : grid8.Coords) a, (cc8_transform_12 i a + 1) * S1x150.size a ≤ S1x150.size a
  hwx8_12 : ∀ i : grid8.Coords, EltTy.bits .f32 = 32 ∨ (Rect.block (s := S1x150) S1x150.size (cc8_transform_12 i) (hinb8_12 i)).WholeWords (EltTy.packing .f32)
  hstage8_13 : ∀ j, (stage8_13 j).IsWhole
  nbuf8_13 : grid8.bufCount reads8_13 true = 1
  hreads8_13 : ∀ i i' : grid8.Coords, (∀ a, reads8_13 a = true → i a = i' a) → cc8_transform_13 i = cc8_transform_13 i'
  hinb8_13 : ∀ (i : grid8.Coords) a, (cc8_transform_13 i a + 1) * S150x150.size a ≤ S150x150.size a
  hwx8_13 : ∀ i : grid8.Coords, EltTy.bits .f32 = 32 ∨ (Rect.block (s := S150x150) S150x150.size (cc8_transform_13 i) (hinb8_13 i)).WholeWords (EltTy.packing .f32)
  hstage8_14 : ∀ j, (stage8_14 j).IsWhole
  nbuf8_14 : grid8.bufCount reads8_14 true = 1
  hreads8_14 : ∀ i i' : grid8.Coords, (∀ a, reads8_14 a = true → i a = i' a) → cc8_transform_14 i = cc8_transform_14 i'
  hinb8_14 : ∀ (i : grid8.Coords) a, (cc8_transform_14 i a + 1) * S1x150.size a ≤ S1x150.size a
  hwx8_14 : ∀ i : grid8.Coords, EltTy.bits .f32 = 32 ∨ (Rect.block (s := S1x150) S1x150.size (cc8_transform_14 i) (hinb8_14 i)).WholeWords (EltTy.packing .f32)
  hstage8_15 : ∀ j, (stage8_15 j).IsWhole
  nbuf8_15 : grid8.bufCount reads8_15 true = 1
  hreads8_15 : ∀ i i' : grid8.Coords, (∀ a, reads8_15 a = true → i a = i' a) → cc8_transform_15 i = cc8_transform_15 i'
  hinb8_15 : ∀ (i : grid8.Coords) a, (cc8_transform_15 i a + 1) * S150x150.size a ≤ S150x150.size a
  hwx8_15 : ∀ i : grid8.Coords, EltTy.bits .f32 = 32 ∨ (Rect.block (s := S150x150) S150x150.size (cc8_transform_15 i) (hinb8_15 i)).WholeWords (EltTy.packing .f32)
  hstage8_16 : ∀ j, (stage8_16 j).IsWhole
  nbuf8_16 : grid8.bufCount reads8_16 true = 1
  hreads8_16 : ∀ i i' : grid8.Coords, (∀ a, reads8_16 a = true → i a = i' a) → cc8_transform_16 i = cc8_transform_16 i'
  hinb8_16 : ∀ (i : grid8.Coords) a, (cc8_transform_16 i a + 1) * S1x150.size a ≤ S1x150.size a
  hwx8_16 : ∀ i : grid8.Coords, EltTy.bits .f32 = 32 ∨ (Rect.block (s := S1x150) S1x150.size (cc8_transform_16 i) (hinb8_16 i)).WholeWords (EltTy.packing .f32)
  hstage8_17 : ∀ j, (stage8_17 j).IsWhole
  nbuf8_17 : grid8.bufCount reads8_17 true = 1
  hreads8_17 : ∀ i i' : grid8.Coords, (∀ a, reads8_17 a = true → i a = i' a) → cc8_transform_17 i = cc8_transform_17 i'
  hinb8_17 : ∀ (i : grid8.Coords) a, (cc8_transform_17 i a + 1) * S150x150.size a ≤ S150x150.size a
  hwx8_17 : ∀ i : grid8.Coords, EltTy.bits .f32 = 32 ∨ (Rect.block (s := S150x150) S150x150.size (cc8_transform_17 i) (hinb8_17 i)).WholeWords (EltTy.packing .f32)
  hstage8_18 : ∀ j, (stage8_18 j).IsWhole
  nbuf8_18 : grid8.bufCount reads8_18 true = 1
  hreads8_18 : ∀ i i' : grid8.Coords, (∀ a, reads8_18 a = true → i a = i' a) → cc8_transform_18 i = cc8_transform_18 i'
  hinb8_18 : ∀ (i : grid8.Coords) a, (cc8_transform_18 i a + 1) * S1x150.size a ≤ S1x150.size a
  hwx8_18 : ∀ i : grid8.Coords, EltTy.bits .f32 = 32 ∨ (Rect.block (s := S1x150) S1x150.size (cc8_transform_18 i) (hinb8_18 i)).WholeWords (EltTy.packing .f32)
  hstage8_19 : ∀ j, (stage8_19 j).IsWhole
  nbuf8_19 : grid8.bufCount reads8_19 false = 1
  hreads8_19 : ∀ i i' : grid8.Coords, (∀ a, reads8_19 a = true → i a = i' a) → cc8_transform_19 i = cc8_transform_19 i'
  hinb8_19 : ∀ (i : grid8.Coords) a, (cc8_transform_19 i a + 1) * S1x150.size a ≤ S1x150.size a
  hwx8_19 : ∀ i : grid8.Coords, EltTy.bits .f32 = 32 ∨ (Rect.block (s := S1x150) S1x150.size (cc8_transform_19 i) (hinb8_19 i)).WholeWords (EltTy.packing .f32)
  hstage8_20 : ∀ j, (stage8_20 j).IsWhole
  nbuf8_20 : grid8.bufCount reads8_20 false = 1
  hreads8_20 : ∀ i i' : grid8.Coords, (∀ a, reads8_20 a = true → i a = i' a) → cc8_transform_20 i = cc8_transform_20 i'
  hinb8_20 : ∀ (i : grid8.Coords) a, (cc8_transform_20 i a + 1) * S1x150.size a ≤ S1x150.size a
  hwx8_20 : ∀ i : grid8.Coords, EltTy.bits .f32 = 32 ∨ (Rect.block (s := S1x150) S1x150.size (cc8_transform_20 i) (hinb8_20 i)).WholeWords (EltTy.packing .f32)

class Shapes1.Facts₀ : Prop where
  shapeCasts_S150_S1x150 : S150.ShapeCasts S1x150
  slices_S87381x300_S65536x300_0_0 : S87381x300.Slices ![0, 0] S65536x300
  inb_S2048x300_S2048x300_0_0 : ∀ a, (![0, 0] : Fin 2 → Nat) a + S2048x300.size a ≤ S2048x300.size a
  h_S2048x300 : 0 < S2048x300.numel
  shapeCasts_S2048x300_S2048x300 : S2048x300.ShapeCasts S2048x300
  bitsLt_bf16_f32 : FTy.bits .bf16 < FTy.bits .f32
  inb_S300x150_S300x150_0_0 : ∀ a, (![0, 0] : Fin 2 → Nat) a + S300x150.size a ≤ S300x150.size a
  h_S300x150 : 0 < S300x150.numel
  inb_S1x150_S1x150_0_0 : ∀ a, (![0, 0] : Fin 2 → Nat) a + S1x150.size a ≤ S1x150.size a
  h_S1x150 : 0 < S1x150.numel
  shapeCasts_S1x150_S1x150 : S1x150.ShapeCasts S1x150
  broadcasts_S1x150_S2048x150 : S1x150.Broadcasts S2048x150
  inb_S2048x150_S2048x150_0_0 : ∀ a, (![0, 0] : Fin 2 → Nat) a + S2048x150.size a ≤ S2048x150.size a
  h_S2048x150 : 0 < S2048x150.numel
  slices_S87381x300_S16384x300_65536_0 : S87381x300.Slices ![65536, 0] S16384x300
  shapeCasts_S65536x150_S16384x4x150 : S65536x150.ShapeCasts S16384x4x150
  inb_S512x300_S512x300_0_0 : ∀ a, (![0, 0] : Fin 2 → Nat) a + S512x300.size a ≤ S512x300.size a
  h_S512x300 : 0 < S512x300.numel
  shapeCasts_S512x300_S512x300 : S512x300.ShapeCasts S512x300
  inb_S512x4x150_S512x4x150_0_0_0 : ∀ a, (![0, 0, 0] : Fin 3 → Nat) a + S512x4x150.size a ≤ S512x4x150.size a
  h_S512x4x150 : 0 < S512x4x150.numel
  shapeCasts_S512x4x150_S512x4x150 : S512x4x150.ShapeCasts S512x4x150
  reduces_S512x4x150_S512x150 : S512x4x150.Reduces [1] S512x150
  shapeCasts_S512x4x150_S2048x150 : S512x4x150.ShapeCasts S2048x150
  inb_S150x150_S150x150_0_0 : ∀ a, (![0, 0] : Fin 2 → Nat) a + S150x150.size a ≤ S150x150.size a
  h_S150x150 : 0 < S150x150.numel
  shapeCasts_S2048x150_S512x4x150 : S2048x150.ShapeCasts S512x4x150
  shapeCasts_S1x150_S1x1x150 : S1x150.ShapeCasts S1x1x150
  broadcasts_S1x1x150_S512x4x150 : S1x1x150.Broadcasts S512x4x150
  broadcasts_S1x150_S512x150 : S1x150.Broadcasts S512x150
  shapeCasts_S512x150_S512x1x150 : S512x150.ShapeCasts S512x1x150
  broadcasts_S512x1x150_S512x4x150 : S512x1x150.Broadcasts S512x4x150
  inb_S512x150_S512x150_0_0 : ∀ a, (![0, 0] : Fin 2 → Nat) a + S512x150.size a ≤ S512x150.size a
  h_S512x150 : 0 < S512x150.numel
  slices_S87381x300_S4096x300_81920_0 : S87381x300.Slices ![81920, 0] S4096x300
  shapeCasts_S16384x150_S4096x4x150 : S16384x150.ShapeCasts S4096x4x150
  slices_S87381x300_S1024x300_86016_0 : S87381x300.Slices ![86016, 0] S1024x300
  shapeCasts_S4096x150_S1024x4x150 : S4096x150.ShapeCasts S1024x4x150
  slices_S87381x300_S256x300_87040_0 : S87381x300.Slices ![87040, 0] S256x300
  shapeCasts_S1024x150_S256x4x150 : S1024x150.ShapeCasts S256x4x150
  inb_S256x300_S256x300_0_0 : ∀ a, (![0, 0] : Fin 2 → Nat) a + S256x300.size a ≤ S256x300.size a
  h_S256x300 : 0 < S256x300.numel
  shapeCasts_S256x300_S256x300 : S256x300.ShapeCasts S256x300
  inb_S256x4x150_S256x4x150_0_0_0 : ∀ a, (![0, 0, 0] : Fin 3 → Nat) a + S256x4x150.size a ≤ S256x4x150.size a
  h_S256x4x150 : 0 < S256x4x150.numel
  shapeCasts_S256x4x150_S256x4x150 : S256x4x150.ShapeCasts S256x4x150
  reduces_S256x4x150_S256x150 : S256x4x150.Reduces [1] S256x150
  shapeCasts_S256x4x150_S1024x150 : S256x4x150.ShapeCasts S1024x150
  broadcasts_S1x1x150_S256x4x150 : S1x1x150.Broadcasts S256x4x150
  broadcasts_S1x150_S256x150 : S1x150.Broadcasts S256x150
  shapeCasts_S256x150_S256x1x150 : S256x150.ShapeCasts S256x1x150
  broadcasts_S256x1x150_S256x4x150 : S256x1x150.Broadcasts S256x4x150
  inb_S256x150_S256x150_0_0 : ∀ a, (![0, 0] : Fin 2 → Nat) a + S256x150.size a ≤ S256x150.size a
  h_S256x150 : 0 < S256x150.numel
  slices_S87381x300_S64x300_87296_0 : S87381x300.Slices ![87296, 0] S64x300
  shapeCasts_S256x150_S64x4x150 : S256x150.ShapeCasts S64x4x150
  inb_S64x300_S64x300_0_0 : ∀ a, (![0, 0] : Fin 2 → Nat) a + S64x300.size a ≤ S64x300.size a
  h_S64x300 : 0 < S64x300.numel
  shapeCasts_S64x300_S64x300 : S64x300.ShapeCasts S64x300
  inb_S64x4x150_S64x4x150_0_0_0 : ∀ a, (![0, 0, 0] : Fin 3 → Nat) a + S64x4x150.size a ≤ S64x4x150.size a
  h_S64x4x150 : 0 < S64x4x150.numel
  shapeCasts_S64x4x150_S64x4x150 : S64x4x150.ShapeCasts S64x4x150
  reduces_S64x4x150_S64x150 : S64x4x150.Reduces [1] S64x150
  shapeCasts_S64x4x150_S256x150 : S64x4x150.ShapeCasts S256x150
  broadcasts_S1x1x150_S64x4x150 : S1x1x150.Broadcasts S64x4x150
  broadcasts_S1x150_S64x150 : S1x150.Broadcasts S64x150
  shapeCasts_S64x150_S64x1x150 : S64x150.ShapeCasts S64x1x150
  broadcasts_S64x1x150_S64x4x150 : S64x1x150.Broadcasts S64x4x150
  inb_S64x150_S64x150_0_0 : ∀ a, (![0, 0] : Fin 2 → Nat) a + S64x150.size a ≤ S64x150.size a
  h_S64x150 : 0 < S64x150.numel
  slices_S87381x300_S16x300_87360_0 : S87381x300.Slices ![87360, 0] S16x300
  shapeCasts_S64x150_S16x4x150 : S64x150.ShapeCasts S16x4x150
  inb_S16x300_S16x300_0_0 : ∀ a, (![0, 0] : Fin 2 → Nat) a + S16x300.size a ≤ S16x300.size a
  h_S16x300 : 0 < S16x300.numel
  shapeCasts_S16x300_S16x300 : S16x300.ShapeCasts S16x300
  inb_S16x4x150_S16x4x150_0_0_0 : ∀ a, (![0, 0, 0] : Fin 3 → Nat) a + S16x4x150.size a ≤ S16x4x150.size a
  h_S16x4x150 : 0 < S16x4x150.numel
  shapeCasts_S16x4x150_S16x4x150 : S16x4x150.ShapeCasts S16x4x150
  reduces_S16x4x150_S16x150 : S16x4x150.Reduces [1] S16x150
  shapeCasts_S16x4x150_S64x150 : S16x4x150.ShapeCasts S64x150
  broadcasts_S1x1x150_S16x4x150 : S1x1x150.Broadcasts S16x4x150
  broadcasts_S1x150_S16x150 : S1x150.Broadcasts S16x150
  shapeCasts_S16x150_S16x1x150 : S16x150.ShapeCasts S16x1x150
  broadcasts_S16x1x150_S16x4x150 : S16x1x150.Broadcasts S16x4x150
  inb_S16x150_S16x150_0_0 : ∀ a, (![0, 0] : Fin 2 → Nat) a + S16x150.size a ≤ S16x150.size a
  h_S16x150 : 0 < S16x150.numel
  slices_S87381x300_S4x300_87376_0 : S87381x300.Slices ![87376, 0] S4x300
  shapeCasts_S16x150_S4x4x150 : S16x150.ShapeCasts S4x4x150
  inb_S4x300_S4x300_0_0 : ∀ a, (![0, 0] : Fin 2 → Nat) a + S4x300.size a ≤ S4x300.size a
  h_S4x300 : 0 < S4x300.numel
  shapeCasts_S4x300_S4x300 : S4x300.ShapeCasts S4x300
  inb_S4x4x150_S4x4x150_0_0_0 : ∀ a, (![0, 0, 0] : Fin 3 → Nat) a + S4x4x150.size a ≤ S4x4x150.size a
  h_S4x4x150 : 0 < S4x4x150.numel
  shapeCasts_S4x4x150_S4x4x150 : S4x4x150.ShapeCasts S4x4x150
  reduces_S4x4x150_S4x150 : S4x4x150.Reduces [1] S4x150
  shapeCasts_S4x4x150_S16x150 : S4x4x150.ShapeCasts S16x150
  broadcasts_S1x1x150_S4x4x150 : S1x1x150.Broadcasts S4x4x150
  broadcasts_S1x150_S4x150 : S1x150.Broadcasts S4x150
  shapeCasts_S4x150_S4x1x150 : S4x150.ShapeCasts S4x1x150
  broadcasts_S4x1x150_S4x4x150 : S4x1x150.Broadcasts S4x4x150
  inb_S4x150_S4x150_0_0 : ∀ a, (![0, 0] : Fin 2 → Nat) a + S4x150.size a ≤ S4x150.size a
  h_S4x150 : 0 < S4x150.numel
  slices_S87381x300_S1x300_87380_0 : S87381x300.Slices ![87380, 0] S1x300
  shapeCasts_S4x150_S1x4x150 : S4x150.ShapeCasts S1x4x150
  inb_S1x300_S1x300_0_0 : ∀ a, (![0, 0] : Fin 2 → Nat) a + S1x300.size a ≤ S1x300.size a
  h_S1x300 : 0 < S1x300.numel
  shapeCasts_S1x300_S1x300 : S1x300.ShapeCasts S1x300
  inb_S1x4x150_S1x4x150_0_0_0 : ∀ a, (![0, 0, 0] : Fin 3 → Nat) a + S1x4x150.size a ≤ S1x4x150.size a
  h_S1x4x150 : 0 < S1x4x150.numel
  shapeCasts_S1x4x150_S1x4x150 : S1x4x150.ShapeCasts S1x4x150
  reduces_S1x4x150_S1x150 : S1x4x150.Reduces [1] S1x150
  shapeCasts_S1x4x150_S4x150 : S1x4x150.ShapeCasts S4x150
  broadcasts_S1x1x150_S1x4x150 : S1x1x150.Broadcasts S1x4x150
  concatenates_S65536x150_S16384x150_S4096x150_S1024x150_S256x150_S64x150_S16x150_S4x150_S1x150_S87381x150_d0 : Shape.Concatenates [S65536x150, S16384x150, S4096x150, S1024x150, S256x150, S64x150, S16x150, S4x150, S1x150] S87381x150 0
  dot_S2048x300_S300x150_S2048x150_1_0_0_1_n_n_wf : DotDims.WF S2048x300 S300x150 S2048x150 [1] [0] [0] [1] [] []
  dot_S2048x150_S150x150_S2048x150_1_0_0_1_n_n_wf : DotDims.WF S2048x150 S150x150 S2048x150 [1] [0] [0] [1] [] []
  dot_S512x300_S300x150_S512x150_1_0_0_1_n_n_wf : DotDims.WF S512x300 S300x150 S512x150 [1] [0] [0] [1] [] []
  dot_S512x150_S150x150_S512x150_1_0_0_1_n_n_wf : DotDims.WF S512x150 S150x150 S512x150 [1] [0] [0] [1] [] []
  dot_S1024x150_S150x150_S1024x150_1_0_0_1_n_n_wf : DotDims.WF S1024x150 S150x150 S1024x150 [1] [0] [0] [1] [] []
  dot_S256x300_S300x150_S256x150_1_0_0_1_n_n_wf : DotDims.WF S256x300 S300x150 S256x150 [1] [0] [0] [1] [] []
  dot_S256x150_S150x150_S256x150_1_0_0_1_n_n_wf : DotDims.WF S256x150 S150x150 S256x150 [1] [0] [0] [1] [] []
  dot_S64x300_S300x150_S64x150_1_0_0_1_n_n_wf : DotDims.WF S64x300 S300x150 S64x150 [1] [0] [0] [1] [] []
  dot_S64x150_S150x150_S64x150_1_0_0_1_n_n_wf : DotDims.WF S64x150 S150x150 S64x150 [1] [0] [0] [1] [] []
  dot_S16x300_S300x150_S16x150_1_0_0_1_n_n_wf : DotDims.WF S16x300 S300x150 S16x150 [1] [0] [0] [1] [] []
  dot_S16x150_S150x150_S16x150_1_0_0_1_n_n_wf : DotDims.WF S16x150 S150x150 S16x150 [1] [0] [0] [1] [] []
  dot_S4x300_S300x150_S4x150_1_0_0_1_n_n_wf : DotDims.WF S4x300 S300x150 S4x150 [1] [0] [0] [1] [] []
  dot_S4x150_S150x150_S4x150_1_0_0_1_n_n_wf : DotDims.WF S4x150 S150x150 S4x150 [1] [0] [0] [1] [] []
  dot_S1x300_S300x150_S1x150_1_0_0_1_n_n_wf : DotDims.WF S1x300 S300x150 S1x150 [1] [0] [0] [1] [] []
  dot_S1x150_S150x150_S1x150_1_0_0_1_n_n_wf : DotDims.WF S1x150 S150x150 S1x150 [1] [0] [0] [1] [] []

class Facts₀ : Prop where
  k0 : K0.Facts₀
  k1 : K1.Facts₀
  k2 : K2.Facts₀
  k3 : K3.Facts₀
  k4 : K4.Facts₀
  k5 : K5.Facts₀
  k6 : K6.Facts₀
  k7 : K7.Facts₀
  k8 : K8.Facts₀
  shapes1 : Shapes1.Facts₀
attribute [instance] Facts₀.k0 Facts₀.k1 Facts₀.k2 Facts₀.k3 Facts₀.k4 Facts₀.k5 Facts₀.k6 Facts₀.k7 Facts₀.k8 Facts₀.shapes1

variable [Facts₀]

def dot_S2048x300_S300x150_S2048x150_1_0_0_1_n_n : DotDims S2048x300 S300x150 S2048x150 where
  lhsContracting := [1]
  rhsContracting := [0]
  lhsNonContracting := [0]
  rhsNonContracting := [1]
  lhsBatch := []
  rhsBatch := []
  wf := dot_S2048x300_S300x150_S2048x150_1_0_0_1_n_n_wf
def dot_S2048x150_S150x150_S2048x150_1_0_0_1_n_n : DotDims S2048x150 S150x150 S2048x150 where
  lhsContracting := [1]
  rhsContracting := [0]
  lhsNonContracting := [0]
  rhsNonContracting := [1]
  lhsBatch := []
  rhsBatch := []
  wf := dot_S2048x150_S150x150_S2048x150_1_0_0_1_n_n_wf
def dot_S512x300_S300x150_S512x150_1_0_0_1_n_n : DotDims S512x300 S300x150 S512x150 where
  lhsContracting := [1]
  rhsContracting := [0]
  lhsNonContracting := [0]
  rhsNonContracting := [1]
  lhsBatch := []
  rhsBatch := []
  wf := dot_S512x300_S300x150_S512x150_1_0_0_1_n_n_wf
def dot_S512x150_S150x150_S512x150_1_0_0_1_n_n : DotDims S512x150 S150x150 S512x150 where
  lhsContracting := [1]
  rhsContracting := [0]
  lhsNonContracting := [0]
  rhsNonContracting := [1]
  lhsBatch := []
  rhsBatch := []
  wf := dot_S512x150_S150x150_S512x150_1_0_0_1_n_n_wf
def dot_S1024x150_S150x150_S1024x150_1_0_0_1_n_n : DotDims S1024x150 S150x150 S1024x150 where
  lhsContracting := [1]
  rhsContracting := [0]
  lhsNonContracting := [0]
  rhsNonContracting := [1]
  lhsBatch := []
  rhsBatch := []
  wf := dot_S1024x150_S150x150_S1024x150_1_0_0_1_n_n_wf
def dot_S256x300_S300x150_S256x150_1_0_0_1_n_n : DotDims S256x300 S300x150 S256x150 where
  lhsContracting := [1]
  rhsContracting := [0]
  lhsNonContracting := [0]
  rhsNonContracting := [1]
  lhsBatch := []
  rhsBatch := []
  wf := dot_S256x300_S300x150_S256x150_1_0_0_1_n_n_wf
def dot_S256x150_S150x150_S256x150_1_0_0_1_n_n : DotDims S256x150 S150x150 S256x150 where
  lhsContracting := [1]
  rhsContracting := [0]
  lhsNonContracting := [0]
  rhsNonContracting := [1]
  lhsBatch := []
  rhsBatch := []
  wf := dot_S256x150_S150x150_S256x150_1_0_0_1_n_n_wf
def dot_S64x300_S300x150_S64x150_1_0_0_1_n_n : DotDims S64x300 S300x150 S64x150 where
  lhsContracting := [1]
  rhsContracting := [0]
  lhsNonContracting := [0]
  rhsNonContracting := [1]
  lhsBatch := []
  rhsBatch := []
  wf := dot_S64x300_S300x150_S64x150_1_0_0_1_n_n_wf
def dot_S64x150_S150x150_S64x150_1_0_0_1_n_n : DotDims S64x150 S150x150 S64x150 where
  lhsContracting := [1]
  rhsContracting := [0]
  lhsNonContracting := [0]
  rhsNonContracting := [1]
  lhsBatch := []
  rhsBatch := []
  wf := dot_S64x150_S150x150_S64x150_1_0_0_1_n_n_wf
def dot_S16x300_S300x150_S16x150_1_0_0_1_n_n : DotDims S16x300 S300x150 S16x150 where
  lhsContracting := [1]
  rhsContracting := [0]
  lhsNonContracting := [0]
  rhsNonContracting := [1]
  lhsBatch := []
  rhsBatch := []
  wf := dot_S16x300_S300x150_S16x150_1_0_0_1_n_n_wf
def dot_S16x150_S150x150_S16x150_1_0_0_1_n_n : DotDims S16x150 S150x150 S16x150 where
  lhsContracting := [1]
  rhsContracting := [0]
  lhsNonContracting := [0]
  rhsNonContracting := [1]
  lhsBatch := []
  rhsBatch := []
  wf := dot_S16x150_S150x150_S16x150_1_0_0_1_n_n_wf
def dot_S4x300_S300x150_S4x150_1_0_0_1_n_n : DotDims S4x300 S300x150 S4x150 where
  lhsContracting := [1]
  rhsContracting := [0]
  lhsNonContracting := [0]
  rhsNonContracting := [1]
  lhsBatch := []
  rhsBatch := []
  wf := dot_S4x300_S300x150_S4x150_1_0_0_1_n_n_wf
def dot_S4x150_S150x150_S4x150_1_0_0_1_n_n : DotDims S4x150 S150x150 S4x150 where
  lhsContracting := [1]
  rhsContracting := [0]
  lhsNonContracting := [0]
  rhsNonContracting := [1]
  lhsBatch := []
  rhsBatch := []
  wf := dot_S4x150_S150x150_S4x150_1_0_0_1_n_n_wf
def dot_S1x300_S300x150_S1x150_1_0_0_1_n_n : DotDims S1x300 S300x150 S1x150 where
  lhsContracting := [1]
  rhsContracting := [0]
  lhsNonContracting := [0]
  rhsNonContracting := [1]
  lhsBatch := []
  rhsBatch := []
  wf := dot_S1x300_S300x150_S1x150_1_0_0_1_n_n_wf
def dot_S1x150_S150x150_S1x150_1_0_0_1_n_n : DotDims S1x150 S150x150 S1x150 where
  lhsContracting := [1]
  rhsContracting := [0]
  lhsNonContracting := [0]
  rhsNonContracting := [1]
  lhsBatch := []
  rhsBatch := []
  wf := dot_S1x150_S150x150_S1x150_1_0_0_1_n_n_wf

abbrev win0_0 : Pipeline.Window sig grid0 :=
  Pipeline.Window.ofSpec (Memref.whole main_v8) S2048x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S300x150.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x150.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S300x150.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x150.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S300x150.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x150.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x150.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x150.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S1x150.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9_0) S2048x150.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v9_1) S2048x150.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v10) S512x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S512x4x150.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S512x4x150.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S300x150.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v0) S1x150.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg3) S300x150.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v1) S1x150.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg5) S300x150.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v2) S1x150.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg7) S300x150.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v3) S1x150.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg9) S150x150.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v4) S1x150.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_arg11) S150x150.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v5) S1x150.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_arg13) S150x150.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_v6) S1x150.size cc1_transform_16 reads1_16 false true 1 stage1_16 sem1_16
    hrank1 hreads1_16 hinb1_16 nbuf1_16 (Memref.isWhole_whole _) hwx1_16 hstage1_16

abbrev win1_17 : Pipeline.Window sig grid1 :=
  Pipeline.Window.ofSpec (Memref.whole main_arg15) S150x150.size cc1_transform_17 reads1_17 false true 1 stage1_17 sem1_17
    hrank1 hreads1_17 hinb1_17 nbuf1_17 (Memref.isWhole_whole _) hwx1_17 hstage1_17

abbrev win1_18 : Pipeline.Window sig grid1 :=
  Pipeline.Window.ofSpec (Memref.whole main_v7) S1x150.size cc1_transform_18 reads1_18 false true 1 stage1_18 sem1_18
    hrank1 hreads1_18 hinb1_18 nbuf1_18 (Memref.isWhole_whole _) hwx1_18 hstage1_18

abbrev win1_19 : Pipeline.Window sig grid1 :=
  Pipeline.Window.ofSpec (Memref.whole main_v13_0) S512x150.size cc1_transform_19 reads1_19 true false 2 stage1_19 sem1_19
    hrank1 hreads1_19 hinb1_19 nbuf1_19 (Memref.isWhole_whole _) hwx1_19 hstage1_19

abbrev win1_20 : Pipeline.Window sig grid1 :=
  Pipeline.Window.ofSpec (Memref.whole main_v13_1) S512x150.size cc1_transform_20 reads1_20 true false 2 stage1_20 sem1_20
    hrank1 hreads1_20 hinb1_20 nbuf1_20 (Memref.isWhole_whole _) hwx1_20 hstage1_20

abbrev win1 : Fin 21 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | 18 => win1_18 | 19 => win1_19 | 20 => win1_20 | ⟨_ + 21, h⟩ => absurd h (Nat.not_lt.2 (Nat.le_add_left _ _))
abbrev spec1 : Fin 21 → Pipeline.WinSpec sig grid1.rank := fun w => (win1 w).toWinSpec

abbrev win2_0 : Pipeline.Window sig grid2 :=
  Pipeline.Window.ofSpec (Memref.whole main_v14) S512x300.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S512x4x150.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S512x4x150.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg1) S300x150.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v0) S1x150.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg3) S300x150.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v1) S1x150.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg5) S300x150.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v2) S1x150.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg7) S300x150.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v3) S1x150.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_arg9) S150x150.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v4) S1x150.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_arg11) S150x150.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v5) S1x150.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_arg13) S150x150.size cc2_transform_15 reads2_15 false true 1 stage2_15 sem2_15
    hrank2 hreads2_15 hinb2_15 nbuf2_15 (Memref.isWhole_whole _) hwx2_15 hstage2_15

abbrev win2_16 : Pipeline.Window sig grid2 :=
  Pipeline.Window.ofSpec (Memref.whole main_v6) S1x150.size cc2_transform_16 reads2_16 false true 1 stage2_16 sem2_16
    hrank2 hreads2_16 hinb2_16 nbuf2_16 (Memref.isWhole_whole _) hwx2_16 hstage2_16

abbrev win2_17 : Pipeline.Window sig grid2 :=
  Pipeline.Window.ofSpec (Memref.whole main_arg15) S150x150.size cc2_transform_17 reads2_17 false true 1 stage2_17 sem2_17
    hrank2 hreads2_17 hinb2_17 nbuf2_17 (Memref.isWhole_whole _) hwx2_17 hstage2_17

abbrev win2_18 : Pipeline.Window sig grid2 :=
  Pipeline.Window.ofSpec (Memref.whole main_v7) S1x150.size cc2_transform_18 reads2_18 false true 1 stage2_18 sem2_18
    hrank2 hreads2_18 hinb2_18 nbuf2_18 (Memref.isWhole_whole _) hwx2_18 hstage2_18

abbrev win2_19 : Pipeline.Window sig grid2 :=
  Pipeline.Window.ofSpec (Memref.whole main_v17_0) S512x150.size cc2_transform_19 reads2_19 true false 2 stage2_19 sem2_19
    hrank2 hreads2_19 hinb2_19 nbuf2_19 (Memref.isWhole_whole _) hwx2_19 hstage2_19

abbrev win2_20 : Pipeline.Window sig grid2 :=
  Pipeline.Window.ofSpec (Memref.whole main_v17_1) S512x150.size cc2_transform_20 reads2_20 true false 2 stage2_20 sem2_20
    hrank2 hreads2_20 hinb2_20 nbuf2_20 (Memref.isWhole_whole _) hwx2_20 hstage2_20

abbrev win2 : Fin 21 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | 17 => win2_17 | 18 => win2_18 | 19 => win2_19 | 20 => win2_20 | ⟨_ + 21, h⟩ => absurd h (Nat.not_lt.2 (Nat.le_add_left _ _))
abbrev spec2 : Fin 21 → Pipeline.WinSpec sig grid2.rank := fun w => (win2 w).toWinSpec

abbrev win3_0 : Pipeline.Window sig grid3 :=
  Pipeline.Window.ofSpec (Memref.whole main_v18) S512x300.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v19) S512x4x150.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v20) S512x4x150.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg1) S300x150.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v0) S1x150.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg3) S300x150.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v1) S1x150.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg5) S300x150.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v2) S1x150.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_arg7) S300x150.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v3) S1x150.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_arg9) S150x150.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v4) S1x150.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_arg11) S150x150.size cc3_transform_13 reads3_13 false true 1 stage3_13 sem3_13
    hrank3 hreads3_13 hinb3_13 nbuf3_13 (Memref.isWhole_whole _) hwx3_13 hstage3_13

abbrev win3_14 : Pipeline.Window sig grid3 :=
  Pipeline.Window.ofSpec (Memref.whole main_v5) S1x150.size cc3_transform_14 reads3_14 false true 1 stage3_14 sem3_14
    hrank3 hreads3_14 hinb3_14 nbuf3_14 (Memref.isWhole_whole _) hwx3_14 hstage3_14

abbrev win3_15 : Pipeline.Window sig grid3 :=
  Pipeline.Window.ofSpec (Memref.whole main_arg13) S150x150.size cc3_transform_15 reads3_15 false true 1 stage3_15 sem3_15
    hrank3 hreads3_15 hinb3_15 nbuf3_15 (Memref.isWhole_whole _) hwx3_15 hstage3_15

abbrev win3_16 : Pipeline.Window sig grid3 :=
  Pipeline.Window.ofSpec (Memref.whole main_v6) S1x150.size cc3_transform_16 reads3_16 false true 1 stage3_16 sem3_16
    hrank3 hreads3_16 hinb3_16 nbuf3_16 (Memref.isWhole_whole _) hwx3_16 hstage3_16

abbrev win3_17 : Pipeline.Window sig grid3 :=
  Pipeline.Window.ofSpec (Memref.whole main_arg15) S150x150.size cc3_transform_17 reads3_17 false true 1 stage3_17 sem3_17
    hrank3 hreads3_17 hinb3_17 nbuf3_17 (Memref.isWhole_whole _) hwx3_17 hstage3_17

abbrev win3_18 : Pipeline.Window sig grid3 :=
  Pipeline.Window.ofSpec (Memref.whole main_v7) S1x150.size cc3_transform_18 reads3_18 false true 1 stage3_18 sem3_18
    hrank3 hreads3_18 hinb3_18 nbuf3_18 (Memref.isWhole_whole _) hwx3_18 hstage3_18

abbrev win3_19 : Pipeline.Window sig grid3 :=
  Pipeline.Window.ofSpec (Memref.whole main_v21_0) S512x150.size cc3_transform_19 reads3_19 true false 2 stage3_19 sem3_19
    hrank3 hreads3_19 hinb3_19 nbuf3_19 (Memref.isWhole_whole _) hwx3_19 hstage3_19

abbrev win3_20 : Pipeline.Window sig grid3 :=
  Pipeline.Window.ofSpec (Memref.whole main_v21_1) S512x150.size cc3_transform_20 reads3_20 true false 2 stage3_20 sem3_20
    hrank3 hreads3_20 hinb3_20 nbuf3_20 (Memref.isWhole_whole _) hwx3_20 hstage3_20

abbrev win3 : Fin 21 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | 15 => win3_15 | 16 => win3_16 | 17 => win3_17 | 18 => win3_18 | 19 => win3_19 | 20 => win3_20 | ⟨_ + 21, h⟩ => absurd h (Nat.not_lt.2 (Nat.le_add_left _ _))
abbrev spec3 : Fin 21 → Pipeline.WinSpec sig grid3.rank := fun w => (win3 w).toWinSpec

abbrev win4_0 : Pipeline.Window sig grid4 :=
  Pipeline.Window.ofSpec (Memref.whole main_v22) S256x300.size cc4_transform_0 reads4_0 false false 1 stage4_0 sem4_0
    hrank4 hreads4_0 hinb4_0 nbuf4_0 (Memref.isWhole_whole _) hwx4_0 hstage4_0

abbrev win4_1 : Pipeline.Window sig grid4 :=
  Pipeline.Window.ofSpec (Memref.whole main_v23) S256x4x150.size cc4_transform_1 reads4_1 false false 1 stage4_1 sem4_1
    hrank4 hreads4_1 hinb4_1 nbuf4_1 (Memref.isWhole_whole _) hwx4_1 hstage4_1

abbrev win4_2 : Pipeline.Window sig grid4 :=
  Pipeline.Window.ofSpec (Memref.whole main_v24) S256x4x150.size cc4_transform_2 reads4_2 false false 1 stage4_2 sem4_2
    hrank4 hreads4_2 hinb4_2 nbuf4_2 (Memref.isWhole_whole _) hwx4_2 hstage4_2

abbrev win4_3 : Pipeline.Window sig grid4 :=
  Pipeline.Window.ofSpec (Memref.whole main_arg1) S300x150.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v0) S1x150.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg3) S300x150.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v1) S1x150.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg5) S300x150.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v2) S1x150.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_arg7) S300x150.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v3) S1x150.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_arg9) S150x150.size cc4_transform_11 reads4_11 false true 1 stage4_11 sem4_11
    hrank4 hreads4_11 hinb4_11 nbuf4_11 (Memref.isWhole_whole _) hwx4_11 hstage4_11

abbrev win4_12 : Pipeline.Window sig grid4 :=
  Pipeline.Window.ofSpec (Memref.whole main_v4) S1x150.size cc4_transform_12 reads4_12 false true 1 stage4_12 sem4_12
    hrank4 hreads4_12 hinb4_12 nbuf4_12 (Memref.isWhole_whole _) hwx4_12 hstage4_12

abbrev win4_13 : Pipeline.Window sig grid4 :=
  Pipeline.Window.ofSpec (Memref.whole main_arg11) S150x150.size cc4_transform_13 reads4_13 false true 1 stage4_13 sem4_13
    hrank4 hreads4_13 hinb4_13 nbuf4_13 (Memref.isWhole_whole _) hwx4_13 hstage4_13

abbrev win4_14 : Pipeline.Window sig grid4 :=
  Pipeline.Window.ofSpec (Memref.whole main_v5) S1x150.size cc4_transform_14 reads4_14 false true 1 stage4_14 sem4_14
    hrank4 hreads4_14 hinb4_14 nbuf4_14 (Memref.isWhole_whole _) hwx4_14 hstage4_14

abbrev win4_15 : Pipeline.Window sig grid4 :=
  Pipeline.Window.ofSpec (Memref.whole main_arg13) S150x150.size cc4_transform_15 reads4_15 false true 1 stage4_15 sem4_15
    hrank4 hreads4_15 hinb4_15 nbuf4_15 (Memref.isWhole_whole _) hwx4_15 hstage4_15

abbrev win4_16 : Pipeline.Window sig grid4 :=
  Pipeline.Window.ofSpec (Memref.whole main_v6) S1x150.size cc4_transform_16 reads4_16 false true 1 stage4_16 sem4_16
    hrank4 hreads4_16 hinb4_16 nbuf4_16 (Memref.isWhole_whole _) hwx4_16 hstage4_16

abbrev win4_17 : Pipeline.Window sig grid4 :=
  Pipeline.Window.ofSpec (Memref.whole main_arg15) S150x150.size cc4_transform_17 reads4_17 false true 1 stage4_17 sem4_17
    hrank4 hreads4_17 hinb4_17 nbuf4_17 (Memref.isWhole_whole _) hwx4_17 hstage4_17

abbrev win4_18 : Pipeline.Window sig grid4 :=
  Pipeline.Window.ofSpec (Memref.whole main_v7) S1x150.size cc4_transform_18 reads4_18 false true 1 stage4_18 sem4_18
    hrank4 hreads4_18 hinb4_18 nbuf4_18 (Memref.isWhole_whole _) hwx4_18 hstage4_18

abbrev win4_19 : Pipeline.Window sig grid4 :=
  Pipeline.Window.ofSpec (Memref.whole main_v25_0) S256x150.size cc4_transform_19 reads4_19 true false 1 stage4_19 sem4_19
    hrank4 hreads4_19 hinb4_19 nbuf4_19 (Memref.isWhole_whole _) hwx4_19 hstage4_19

abbrev win4_20 : Pipeline.Window sig grid4 :=
  Pipeline.Window.ofSpec (Memref.whole main_v25_1) S256x150.size cc4_transform_20 reads4_20 true false 1 stage4_20 sem4_20
    hrank4 hreads4_20 hinb4_20 nbuf4_20 (Memref.isWhole_whole _) hwx4_20 hstage4_20

abbrev win4 : Fin 21 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | 14 => win4_14 | 15 => win4_15 | 16 => win4_16 | 17 => win4_17 | 18 => win4_18 | 19 => win4_19 | 20 => win4_20 | ⟨_ + 21, h⟩ => absurd h (Nat.not_lt.2 (Nat.le_add_left _ _))
abbrev spec4 : Fin 21 → Pipeline.WinSpec sig grid4.rank := fun w => (win4 w).toWinSpec

abbrev win5_0 : Pipeline.Window sig grid5 :=
  Pipeline.Window.ofSpec (Memref.whole main_v26) S64x300.size cc5_transform_0 reads5_0 false false 1 stage5_0 sem5_0
    hrank5 hreads5_0 hinb5_0 nbuf5_0 (Memref.isWhole_whole _) hwx5_0 hstage5_0

abbrev win5_1 : Pipeline.Window sig grid5 :=
  Pipeline.Window.ofSpec (Memref.whole main_v27) S64x4x150.size cc5_transform_1 reads5_1 false false 1 stage5_1 sem5_1
    hrank5 hreads5_1 hinb5_1 nbuf5_1 (Memref.isWhole_whole _) hwx5_1 hstage5_1

abbrev win5_2 : Pipeline.Window sig grid5 :=
  Pipeline.Window.ofSpec (Memref.whole main_v28) S64x4x150.size cc5_transform_2 reads5_2 false false 1 stage5_2 sem5_2
    hrank5 hreads5_2 hinb5_2 nbuf5_2 (Memref.isWhole_whole _) hwx5_2 hstage5_2

abbrev win5_3 : Pipeline.Window sig grid5 :=
  Pipeline.Window.ofSpec (Memref.whole main_arg1) S300x150.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v0) S1x150.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg3) S300x150.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v1) S1x150.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_arg5) S300x150.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v2) S1x150.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_arg7) S300x150.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v3) S1x150.size cc5_transform_10 reads5_10 false true 1 stage5_10 sem5_10
    hrank5 hreads5_10 hinb5_10 nbuf5_10 (Memref.isWhole_whole _) hwx5_10 hstage5_10

abbrev win5_11 : Pipeline.Window sig grid5 :=
  Pipeline.Window.ofSpec (Memref.whole main_arg9) S150x150.size cc5_transform_11 reads5_11 false true 1 stage5_11 sem5_11
    hrank5 hreads5_11 hinb5_11 nbuf5_11 (Memref.isWhole_whole _) hwx5_11 hstage5_11

abbrev win5_12 : Pipeline.Window sig grid5 :=
  Pipeline.Window.ofSpec (Memref.whole main_v4) S1x150.size cc5_transform_12 reads5_12 false true 1 stage5_12 sem5_12
    hrank5 hreads5_12 hinb5_12 nbuf5_12 (Memref.isWhole_whole _) hwx5_12 hstage5_12

abbrev win5_13 : Pipeline.Window sig grid5 :=
  Pipeline.Window.ofSpec (Memref.whole main_arg11) S150x150.size cc5_transform_13 reads5_13 false true 1 stage5_13 sem5_13
    hrank5 hreads5_13 hinb5_13 nbuf5_13 (Memref.isWhole_whole _) hwx5_13 hstage5_13

abbrev win5_14 : Pipeline.Window sig grid5 :=
  Pipeline.Window.ofSpec (Memref.whole main_v5) S1x150.size cc5_transform_14 reads5_14 false true 1 stage5_14 sem5_14
    hrank5 hreads5_14 hinb5_14 nbuf5_14 (Memref.isWhole_whole _) hwx5_14 hstage5_14

abbrev win5_15 : Pipeline.Window sig grid5 :=
  Pipeline.Window.ofSpec (Memref.whole main_arg13) S150x150.size cc5_transform_15 reads5_15 false true 1 stage5_15 sem5_15
    hrank5 hreads5_15 hinb5_15 nbuf5_15 (Memref.isWhole_whole _) hwx5_15 hstage5_15

abbrev win5_16 : Pipeline.Window sig grid5 :=
  Pipeline.Window.ofSpec (Memref.whole main_v6) S1x150.size cc5_transform_16 reads5_16 false true 1 stage5_16 sem5_16
    hrank5 hreads5_16 hinb5_16 nbuf5_16 (Memref.isWhole_whole _) hwx5_16 hstage5_16

abbrev win5_17 : Pipeline.Window sig grid5 :=
  Pipeline.Window.ofSpec (Memref.whole main_arg15) S150x150.size cc5_transform_17 reads5_17 false true 1 stage5_17 sem5_17
    hrank5 hreads5_17 hinb5_17 nbuf5_17 (Memref.isWhole_whole _) hwx5_17 hstage5_17

abbrev win5_18 : Pipeline.Window sig grid5 :=
  Pipeline.Window.ofSpec (Memref.whole main_v7) S1x150.size cc5_transform_18 reads5_18 false true 1 stage5_18 sem5_18
    hrank5 hreads5_18 hinb5_18 nbuf5_18 (Memref.isWhole_whole _) hwx5_18 hstage5_18

abbrev win5_19 : Pipeline.Window sig grid5 :=
  Pipeline.Window.ofSpec (Memref.whole main_v29_0) S64x150.size cc5_transform_19 reads5_19 true false 1 stage5_19 sem5_19
    hrank5 hreads5_19 hinb5_19 nbuf5_19 (Memref.isWhole_whole _) hwx5_19 hstage5_19

abbrev win5_20 : Pipeline.Window sig grid5 :=
  Pipeline.Window.ofSpec (Memref.whole main_v29_1) S64x150.size cc5_transform_20 reads5_20 true false 1 stage5_20 sem5_20
    hrank5 hreads5_20 hinb5_20 nbuf5_20 (Memref.isWhole_whole _) hwx5_20 hstage5_20

abbrev win5 : Fin 21 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | 11 => win5_11 | 12 => win5_12 | 13 => win5_13 | 14 => win5_14 | 15 => win5_15 | 16 => win5_16 | 17 => win5_17 | 18 => win5_18 | 19 => win5_19 | 20 => win5_20 | ⟨_ + 21, h⟩ => absurd h (Nat.not_lt.2 (Nat.le_add_left _ _))
abbrev spec5 : Fin 21 → Pipeline.WinSpec sig grid5.rank := fun w => (win5 w).toWinSpec

abbrev win6_0 : Pipeline.Window sig grid6 :=
  Pipeline.Window.ofSpec (Memref.whole main_v30) S16x300.size cc6_transform_0 reads6_0 false false 1 stage6_0 sem6_0
    hrank6 hreads6_0 hinb6_0 nbuf6_0 (Memref.isWhole_whole _) hwx6_0 hstage6_0

abbrev win6_1 : Pipeline.Window sig grid6 :=
  Pipeline.Window.ofSpec (Memref.whole main_v31) S16x4x150.size cc6_transform_1 reads6_1 false false 1 stage6_1 sem6_1
    hrank6 hreads6_1 hinb6_1 nbuf6_1 (Memref.isWhole_whole _) hwx6_1 hstage6_1

abbrev win6_2 : Pipeline.Window sig grid6 :=
  Pipeline.Window.ofSpec (Memref.whole main_v32) S16x4x150.size cc6_transform_2 reads6_2 false false 1 stage6_2 sem6_2
    hrank6 hreads6_2 hinb6_2 nbuf6_2 (Memref.isWhole_whole _) hwx6_2 hstage6_2

abbrev win6_3 : Pipeline.Window sig grid6 :=
  Pipeline.Window.ofSpec (Memref.whole main_arg1) S300x150.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v0) S1x150.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg3) S300x150.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v1) S1x150.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_arg5) S300x150.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v2) S1x150.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_arg7) S300x150.size cc6_transform_9 reads6_9 false true 1 stage6_9 sem6_9
    hrank6 hreads6_9 hinb6_9 nbuf6_9 (Memref.isWhole_whole _) hwx6_9 hstage6_9

abbrev win6_10 : Pipeline.Window sig grid6 :=
  Pipeline.Window.ofSpec (Memref.whole main_v3) S1x150.size cc6_transform_10 reads6_10 false true 1 stage6_10 sem6_10
    hrank6 hreads6_10 hinb6_10 nbuf6_10 (Memref.isWhole_whole _) hwx6_10 hstage6_10

abbrev win6_11 : Pipeline.Window sig grid6 :=
  Pipeline.Window.ofSpec (Memref.whole main_arg9) S150x150.size cc6_transform_11 reads6_11 false true 1 stage6_11 sem6_11
    hrank6 hreads6_11 hinb6_11 nbuf6_11 (Memref.isWhole_whole _) hwx6_11 hstage6_11

abbrev win6_12 : Pipeline.Window sig grid6 :=
  Pipeline.Window.ofSpec (Memref.whole main_v4) S1x150.size cc6_transform_12 reads6_12 false true 1 stage6_12 sem6_12
    hrank6 hreads6_12 hinb6_12 nbuf6_12 (Memref.isWhole_whole _) hwx6_12 hstage6_12

abbrev win6_13 : Pipeline.Window sig grid6 :=
  Pipeline.Window.ofSpec (Memref.whole main_arg11) S150x150.size cc6_transform_13 reads6_13 false true 1 stage6_13 sem6_13
    hrank6 hreads6_13 hinb6_13 nbuf6_13 (Memref.isWhole_whole _) hwx6_13 hstage6_13

abbrev win6_14 : Pipeline.Window sig grid6 :=
  Pipeline.Window.ofSpec (Memref.whole main_v5) S1x150.size cc6_transform_14 reads6_14 false true 1 stage6_14 sem6_14
    hrank6 hreads6_14 hinb6_14 nbuf6_14 (Memref.isWhole_whole _) hwx6_14 hstage6_14

abbrev win6_15 : Pipeline.Window sig grid6 :=
  Pipeline.Window.ofSpec (Memref.whole main_arg13) S150x150.size cc6_transform_15 reads6_15 false true 1 stage6_15 sem6_15
    hrank6 hreads6_15 hinb6_15 nbuf6_15 (Memref.isWhole_whole _) hwx6_15 hstage6_15

abbrev win6_16 : Pipeline.Window sig grid6 :=
  Pipeline.Window.ofSpec (Memref.whole main_v6) S1x150.size cc6_transform_16 reads6_16 false true 1 stage6_16 sem6_16
    hrank6 hreads6_16 hinb6_16 nbuf6_16 (Memref.isWhole_whole _) hwx6_16 hstage6_16

abbrev win6_17 : Pipeline.Window sig grid6 :=
  Pipeline.Window.ofSpec (Memref.whole main_arg15) S150x150.size cc6_transform_17 reads6_17 false true 1 stage6_17 sem6_17
    hrank6 hreads6_17 hinb6_17 nbuf6_17 (Memref.isWhole_whole _) hwx6_17 hstage6_17

abbrev win6_18 : Pipeline.Window sig grid6 :=
  Pipeline.Window.ofSpec (Memref.whole main_v7) S1x150.size cc6_transform_18 reads6_18 false true 1 stage6_18 sem6_18
    hrank6 hreads6_18 hinb6_18 nbuf6_18 (Memref.isWhole_whole _) hwx6_18 hstage6_18

abbrev win6_19 : Pipeline.Window sig grid6 :=
  Pipeline.Window.ofSpec (Memref.whole main_v33_0) S16x150.size cc6_transform_19 reads6_19 true false 1 stage6_19 sem6_19
    hrank6 hreads6_19 hinb6_19 nbuf6_19 (Memref.isWhole_whole _) hwx6_19 hstage6_19

abbrev win6_20 : Pipeline.Window sig grid6 :=
  Pipeline.Window.ofSpec (Memref.whole main_v33_1) S16x150.size cc6_transform_20 reads6_20 true false 1 stage6_20 sem6_20
    hrank6 hreads6_20 hinb6_20 nbuf6_20 (Memref.isWhole_whole _) hwx6_20 hstage6_20

abbrev win6 : Fin 21 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | 11 => win6_11 | 12 => win6_12 | 13 => win6_13 | 14 => win6_14 | 15 => win6_15 | 16 => win6_16 | 17 => win6_17 | 18 => win6_18 | 19 => win6_19 | 20 => win6_20 | ⟨_ + 21, h⟩ => absurd h (Nat.not_lt.2 (Nat.le_add_left _ _))
abbrev spec6 : Fin 21 → Pipeline.WinSpec sig grid6.rank := fun w => (win6 w).toWinSpec

abbrev win7_0 : Pipeline.Window sig grid7 :=
  Pipeline.Window.ofSpec (Memref.whole main_v34) S4x300.size cc7_transform_0 reads7_0 false false 1 stage7_0 sem7_0
    hrank7 hreads7_0 hinb7_0 nbuf7_0 (Memref.isWhole_whole _) hwx7_0 hstage7_0

abbrev win7_1 : Pipeline.Window sig grid7 :=
  Pipeline.Window.ofSpec (Memref.whole main_v35) S4x4x150.size cc7_transform_1 reads7_1 false false 1 stage7_1 sem7_1
    hrank7 hreads7_1 hinb7_1 nbuf7_1 (Memref.isWhole_whole _) hwx7_1 hstage7_1

abbrev win7_2 : Pipeline.Window sig grid7 :=
  Pipeline.Window.ofSpec (Memref.whole main_v36) S4x4x150.size cc7_transform_2 reads7_2 false false 1 stage7_2 sem7_2
    hrank7 hreads7_2 hinb7_2 nbuf7_2 (Memref.isWhole_whole _) hwx7_2 hstage7_2

abbrev win7_3 : Pipeline.Window sig grid7 :=
  Pipeline.Window.ofSpec (Memref.whole main_arg1) S300x150.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v0) S1x150.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_arg3) S300x150.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v1) S1x150.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_arg5) S300x150.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v2) S1x150.size cc7_transform_8 reads7_8 false true 1 stage7_8 sem7_8
    hrank7 hreads7_8 hinb7_8 nbuf7_8 (Memref.isWhole_whole _) hwx7_8 hstage7_8

abbrev win7_9 : Pipeline.Window sig grid7 :=
  Pipeline.Window.ofSpec (Memref.whole main_arg7) S300x150.size cc7_transform_9 reads7_9 false true 1 stage7_9 sem7_9
    hrank7 hreads7_9 hinb7_9 nbuf7_9 (Memref.isWhole_whole _) hwx7_9 hstage7_9

abbrev win7_10 : Pipeline.Window sig grid7 :=
  Pipeline.Window.ofSpec (Memref.whole main_v3) S1x150.size cc7_transform_10 reads7_10 false true 1 stage7_10 sem7_10
    hrank7 hreads7_10 hinb7_10 nbuf7_10 (Memref.isWhole_whole _) hwx7_10 hstage7_10

abbrev win7_11 : Pipeline.Window sig grid7 :=
  Pipeline.Window.ofSpec (Memref.whole main_arg9) S150x150.size cc7_transform_11 reads7_11 false true 1 stage7_11 sem7_11
    hrank7 hreads7_11 hinb7_11 nbuf7_11 (Memref.isWhole_whole _) hwx7_11 hstage7_11

abbrev win7_12 : Pipeline.Window sig grid7 :=
  Pipeline.Window.ofSpec (Memref.whole main_v4) S1x150.size cc7_transform_12 reads7_12 false true 1 stage7_12 sem7_12
    hrank7 hreads7_12 hinb7_12 nbuf7_12 (Memref.isWhole_whole _) hwx7_12 hstage7_12

abbrev win7_13 : Pipeline.Window sig grid7 :=
  Pipeline.Window.ofSpec (Memref.whole main_arg11) S150x150.size cc7_transform_13 reads7_13 false true 1 stage7_13 sem7_13
    hrank7 hreads7_13 hinb7_13 nbuf7_13 (Memref.isWhole_whole _) hwx7_13 hstage7_13

abbrev win7_14 : Pipeline.Window sig grid7 :=
  Pipeline.Window.ofSpec (Memref.whole main_v5) S1x150.size cc7_transform_14 reads7_14 false true 1 stage7_14 sem7_14
    hrank7 hreads7_14 hinb7_14 nbuf7_14 (Memref.isWhole_whole _) hwx7_14 hstage7_14

abbrev win7_15 : Pipeline.Window sig grid7 :=
  Pipeline.Window.ofSpec (Memref.whole main_arg13) S150x150.size cc7_transform_15 reads7_15 false true 1 stage7_15 sem7_15
    hrank7 hreads7_15 hinb7_15 nbuf7_15 (Memref.isWhole_whole _) hwx7_15 hstage7_15

abbrev win7_16 : Pipeline.Window sig grid7 :=
  Pipeline.Window.ofSpec (Memref.whole main_v6) S1x150.size cc7_transform_16 reads7_16 false true 1 stage7_16 sem7_16
    hrank7 hreads7_16 hinb7_16 nbuf7_16 (Memref.isWhole_whole _) hwx7_16 hstage7_16

abbrev win7_17 : Pipeline.Window sig grid7 :=
  Pipeline.Window.ofSpec (Memref.whole main_arg15) S150x150.size cc7_transform_17 reads7_17 false true 1 stage7_17 sem7_17
    hrank7 hreads7_17 hinb7_17 nbuf7_17 (Memref.isWhole_whole _) hwx7_17 hstage7_17

abbrev win7_18 : Pipeline.Window sig grid7 :=
  Pipeline.Window.ofSpec (Memref.whole main_v7) S1x150.size cc7_transform_18 reads7_18 false true 1 stage7_18 sem7_18
    hrank7 hreads7_18 hinb7_18 nbuf7_18 (Memref.isWhole_whole _) hwx7_18 hstage7_18

abbrev win7_19 : Pipeline.Window sig grid7 :=
  Pipeline.Window.ofSpec (Memref.whole main_v37_0) S4x150.size cc7_transform_19 reads7_19 true false 1 stage7_19 sem7_19
    hrank7 hreads7_19 hinb7_19 nbuf7_19 (Memref.isWhole_whole _) hwx7_19 hstage7_19

abbrev win7_20 : Pipeline.Window sig grid7 :=
  Pipeline.Window.ofSpec (Memref.whole main_v37_1) S4x150.size cc7_transform_20 reads7_20 true false 1 stage7_20 sem7_20
    hrank7 hreads7_20 hinb7_20 nbuf7_20 (Memref.isWhole_whole _) hwx7_20 hstage7_20

abbrev win7 : Fin 21 → Pipeline.Window sig grid7 := fun | 0 => win7_0 | 1 => win7_1 | 2 => win7_2 | 3 => win7_3 | 4 => win7_4 | 5 => win7_5 | 6 => win7_6 | 7 => win7_7 | 8 => win7_8 | 9 => win7_9 | 10 => win7_10 | 11 => win7_11 | 12 => win7_12 | 13 => win7_13 | 14 => win7_14 | 15 => win7_15 | 16 => win7_16 | 17 => win7_17 | 18 => win7_18 | 19 => win7_19 | 20 => win7_20 | ⟨_ + 21, h⟩ => absurd h (Nat.not_lt.2 (Nat.le_add_left _ _))
abbrev spec7 : Fin 21 → Pipeline.WinSpec sig grid7.rank := fun w => (win7 w).toWinSpec

abbrev win8_0 : Pipeline.Window sig grid8 :=
  Pipeline.Window.ofSpec (Memref.whole main_v38) S1x300.size cc8_transform_0 reads8_0 false false 1 stage8_0 sem8_0
    hrank8 hreads8_0 hinb8_0 nbuf8_0 (Memref.isWhole_whole _) hwx8_0 hstage8_0

abbrev win8_1 : Pipeline.Window sig grid8 :=
  Pipeline.Window.ofSpec (Memref.whole main_v39) S1x4x150.size cc8_transform_1 reads8_1 false false 1 stage8_1 sem8_1
    hrank8 hreads8_1 hinb8_1 nbuf8_1 (Memref.isWhole_whole _) hwx8_1 hstage8_1

abbrev win8_2 : Pipeline.Window sig grid8 :=
  Pipeline.Window.ofSpec (Memref.whole main_v40) S1x4x150.size cc8_transform_2 reads8_2 false false 1 stage8_2 sem8_2
    hrank8 hreads8_2 hinb8_2 nbuf8_2 (Memref.isWhole_whole _) hwx8_2 hstage8_2

abbrev win8_3 : Pipeline.Window sig grid8 :=
  Pipeline.Window.ofSpec (Memref.whole main_arg1) S300x150.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v0) S1x150.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_arg3) S300x150.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v1) S1x150.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_arg5) S300x150.size cc8_transform_7 reads8_7 false true 1 stage8_7 sem8_7
    hrank8 hreads8_7 hinb8_7 nbuf8_7 (Memref.isWhole_whole _) hwx8_7 hstage8_7

abbrev win8_8 : Pipeline.Window sig grid8 :=
  Pipeline.Window.ofSpec (Memref.whole main_v2) S1x150.size cc8_transform_8 reads8_8 false true 1 stage8_8 sem8_8
    hrank8 hreads8_8 hinb8_8 nbuf8_8 (Memref.isWhole_whole _) hwx8_8 hstage8_8

abbrev win8_9 : Pipeline.Window sig grid8 :=
  Pipeline.Window.ofSpec (Memref.whole main_arg7) S300x150.size cc8_transform_9 reads8_9 false true 1 stage8_9 sem8_9
    hrank8 hreads8_9 hinb8_9 nbuf8_9 (Memref.isWhole_whole _) hwx8_9 hstage8_9

abbrev win8_10 : Pipeline.Window sig grid8 :=
  Pipeline.Window.ofSpec (Memref.whole main_v3) S1x150.size cc8_transform_10 reads8_10 false true 1 stage8_10 sem8_10
    hrank8 hreads8_10 hinb8_10 nbuf8_10 (Memref.isWhole_whole _) hwx8_10 hstage8_10

abbrev win8_11 : Pipeline.Window sig grid8 :=
  Pipeline.Window.ofSpec (Memref.whole main_arg9) S150x150.size cc8_transform_11 reads8_11 false true 1 stage8_11 sem8_11
    hrank8 hreads8_11 hinb8_11 nbuf8_11 (Memref.isWhole_whole _) hwx8_11 hstage8_11

abbrev win8_12 : Pipeline.Window sig grid8 :=
  Pipeline.Window.ofSpec (Memref.whole main_v4) S1x150.size cc8_transform_12 reads8_12 false true 1 stage8_12 sem8_12
    hrank8 hreads8_12 hinb8_12 nbuf8_12 (Memref.isWhole_whole _) hwx8_12 hstage8_12

abbrev win8_13 : Pipeline.Window sig grid8 :=
  Pipeline.Window.ofSpec (Memref.whole main_arg11) S150x150.size cc8_transform_13 reads8_13 false true 1 stage8_13 sem8_13
    hrank8 hreads8_13 hinb8_13 nbuf8_13 (Memref.isWhole_whole _) hwx8_13 hstage8_13

abbrev win8_14 : Pipeline.Window sig grid8 :=
  Pipeline.Window.ofSpec (Memref.whole main_v5) S1x150.size cc8_transform_14 reads8_14 false true 1 stage8_14 sem8_14
    hrank8 hreads8_14 hinb8_14 nbuf8_14 (Memref.isWhole_whole _) hwx8_14 hstage8_14

abbrev win8_15 : Pipeline.Window sig grid8 :=
  Pipeline.Window.ofSpec (Memref.whole main_arg13) S150x150.size cc8_transform_15 reads8_15 false true 1 stage8_15 sem8_15
    hrank8 hreads8_15 hinb8_15 nbuf8_15 (Memref.isWhole_whole _) hwx8_15 hstage8_15

abbrev win8_16 : Pipeline.Window sig grid8 :=
  Pipeline.Window.ofSpec (Memref.whole main_v6) S1x150.size cc8_transform_16 reads8_16 false true 1 stage8_16 sem8_16
    hrank8 hreads8_16 hinb8_16 nbuf8_16 (Memref.isWhole_whole _) hwx8_16 hstage8_16

abbrev win8_17 : Pipeline.Window sig grid8 :=
  Pipeline.Window.ofSpec (Memref.whole main_arg15) S150x150.size cc8_transform_17 reads8_17 false true 1 stage8_17 sem8_17
    hrank8 hreads8_17 hinb8_17 nbuf8_17 (Memref.isWhole_whole _) hwx8_17 hstage8_17

abbrev win8_18 : Pipeline.Window sig grid8 :=
  Pipeline.Window.ofSpec (Memref.whole main_v7) S1x150.size cc8_transform_18 reads8_18 false true 1 stage8_18 sem8_18
    hrank8 hreads8_18 hinb8_18 nbuf8_18 (Memref.isWhole_whole _) hwx8_18 hstage8_18

abbrev win8_19 : Pipeline.Window sig grid8 :=
  Pipeline.Window.ofSpec (Memref.whole main_v41_0) S1x150.size cc8_transform_19 reads8_19 true false 1 stage8_19 sem8_19
    hrank8 hreads8_19 hinb8_19 nbuf8_19 (Memref.isWhole_whole _) hwx8_19 hstage8_19

abbrev win8_20 : Pipeline.Window sig grid8 :=
  Pipeline.Window.ofSpec (Memref.whole main_v41_1) S1x150.size cc8_transform_20 reads8_20 true false 1 stage8_20 sem8_20
    hrank8 hreads8_20 hinb8_20 nbuf8_20 (Memref.isWhole_whole _) hwx8_20 hstage8_20

abbrev win8 : Fin 21 → Pipeline.Window sig grid8 := fun | 0 => win8_0 | 1 => win8_1 | 2 => win8_2 | 3 => win8_3 | 4 => win8_4 | 5 => win8_5 | 6 => win8_6 | 7 => win8_7 | 8 => win8_8 | 9 => win8_9 | 10 => win8_10 | 11 => win8_11 | 12 => win8_12 | 13 => win8_13 | 14 => win8_14 | 15 => win8_15 | 16 => win8_16 | 17 => win8_17 | 18 => win8_18 | 19 => win8_19 | 20 => win8_20 | ⟨_ + 21, h⟩ => absurd h (Nat.not_lt.2 (Nat.le_add_left _ _))
abbrev spec8 : Fin 21 → Pipeline.WinSpec sig grid8.rank := fun w => (win8 w).toWinSpec

class Facts : Prop extends Facts₀ where

variable [Facts]
-- ==== ReferenceIdeal.lean ====
abbrev S87381x300 : Shape := ⟨2, ![87381, 300]⟩
abbrev S300x150 : Shape := ⟨2, ![300, 150]⟩
abbrev S150 : Shape := ⟨1, ![150]⟩
abbrev S150x150 : Shape := ⟨2, ![150, 150]⟩
abbrev S65536x300 : Shape := ⟨2, ![65536, 300]⟩
abbrev S_ : Shape := ⟨0, ![]⟩
abbrev S65536x150 : Shape := ⟨2, ![65536, 150]⟩
abbrev S1x150 : Shape := ⟨2, ![1, 150]⟩
abbrev S16384x300 : Shape := ⟨2, ![16384, 300]⟩
abbrev S16384x4x150 : Shape := ⟨3, ![16384, 4, 150]⟩
abbrev S16384x150 : Shape := ⟨2, ![16384, 150]⟩
abbrev S1x1x150 : Shape := ⟨3, ![1, 1, 150]⟩
abbrev S16384x1x150 : Shape := ⟨3, ![16384, 1, 150]⟩
abbrev S4096x300 : Shape := ⟨2, ![4096, 300]⟩
abbrev S4096x4x150 : Shape := ⟨3, ![4096, 4, 150]⟩
abbrev S4096x150 : Shape := ⟨2, ![4096, 150]⟩
abbrev S4096x1x150 : Shape := ⟨3, ![4096, 1, 150]⟩
abbrev S1024x300 : Shape := ⟨2, ![1024, 300]⟩
abbrev S1024x4x150 : Shape := ⟨3, ![1024, 4, 150]⟩
abbrev S1024x150 : Shape := ⟨2, ![1024, 150]⟩
abbrev S1024x1x150 : Shape := ⟨3, ![1024, 1, 150]⟩
abbrev S256x300 : Shape := ⟨2, ![256, 300]⟩
abbrev S256x4x150 : Shape := ⟨3, ![256, 4, 150]⟩
abbrev S256x150 : Shape := ⟨2, ![256, 150]⟩
abbrev S256x1x150 : Shape := ⟨3, ![256, 1, 150]⟩
abbrev S64x300 : Shape := ⟨2, ![64, 300]⟩
abbrev S64x4x150 : Shape := ⟨3, ![64, 4, 150]⟩
abbrev S64x150 : Shape := ⟨2, ![64, 150]⟩
abbrev S64x1x150 : Shape := ⟨3, ![64, 1, 150]⟩
abbrev S16x300 : Shape := ⟨2, ![16, 300]⟩
abbrev S16x4x150 : Shape := ⟨3, ![16, 4, 150]⟩
abbrev S16x150 : Shape := ⟨2, ![16, 150]⟩
abbrev S16x1x150 : Shape := ⟨3, ![16, 1, 150]⟩
abbrev S4x300 : Shape := ⟨2, ![4, 300]⟩
abbrev S4x4x150 : Shape := ⟨3, ![4, 4, 150]⟩
abbrev S4x150 : Shape := ⟨2, ![4, 150]⟩
abbrev S4x1x150 : Shape := ⟨3, ![4, 1, 150]⟩
abbrev S1x300 : Shape := ⟨2, ![1, 300]⟩
abbrev S1x4x150 : Shape := ⟨3, ![1, 4, 150]⟩
abbrev S87381x150 : Shape := ⟨2, ![87381, 150]⟩

abbrev nBuf : Space → Nat
  | .hbm => 664
  | .vmem => 0
  | .smem => 0
  | _ => 0

abbrev hbmTy0_0 (i : Nat) : BufTy := match i % 128 with
  | 0 => ⟨S87381x300, .f32⟩
  | 1 => ⟨S300x150, .f32⟩
  | 2 => ⟨S150, .f32⟩
  | 3 => ⟨S300x150, .f32⟩
  | 4 => ⟨S150, .f32⟩
  | 5 => ⟨S300x150, .f32⟩
  | 6 => ⟨S150, .f32⟩
  | 7 => ⟨S300x150, .f32⟩
  | 8 => ⟨S150, .f32⟩
  | 9 => ⟨S150x150, .f32⟩
  | 10 => ⟨S150, .f32⟩
  | 11 => ⟨S150x150, .f32⟩
  | 12 => ⟨S150, .f32⟩
  | 13 => ⟨S150x150, .f32⟩
  | 14 => ⟨S150, .f32⟩
  | 15 => ⟨S150x150, .f32⟩
  | 16 => ⟨S150, .f32⟩
  | 17 => ⟨S65536x300, .f32⟩
  | 18 => ⟨S_, .f32⟩
  | 19 => ⟨S65536x150, .f32⟩
  | 20 => ⟨S_, .f32⟩
  | 21 => ⟨S65536x150, .f32⟩
  | 22 => ⟨S65536x150, .f32⟩
  | 23 => ⟨S1x150, .f32⟩
  | 24 => ⟨S65536x150, .f32⟩
  | 25 => ⟨S65536x150, .f32⟩
  | 26 => ⟨S65536x150, .f32⟩
  | 27 => ⟨S65536x150, .f32⟩
  | 28 => ⟨S1x150, .f32⟩
  | 29 => ⟨S65536x150, .f32⟩
  | 30 => ⟨S65536x150, .f32⟩
  | 31 => ⟨S65536x150, .f32⟩
  | 32 => ⟨S65536x150, .f32⟩
  | 33 => ⟨S_, .f32⟩
  | 34 => ⟨S65536x150, .f32⟩
  | 35 => ⟨S65536x150, .f32⟩
  | 36 => ⟨S_, .f32⟩
  | 37 => ⟨S65536x150, .f32⟩
  | 38 => ⟨S65536x150, .f32⟩
  | 39 => ⟨S65536x150, .f32⟩
  | 40 => ⟨S1x150, .f32⟩
  | 41 => ⟨S65536x150, .f32⟩
  | 42 => ⟨S65536x150, .f32⟩
  | 43 => ⟨S65536x150, .f32⟩
  | 44 => ⟨S65536x150, .f32⟩
  | 45 => ⟨S1x150, .f32⟩
  | 46 => ⟨S65536x150, .f32⟩
  | 47 => ⟨S65536x150, .f32⟩
  | 48 => ⟨S65536x150, .f32⟩
  | 49 => ⟨S65536x150, .f32⟩
  | 50 => ⟨S_, .f32⟩
  | 51 => ⟨S65536x150, .f32⟩
  | 52 => ⟨S65536x150, .f32⟩
  | 53 => ⟨S_, .f32⟩
  | 54 => ⟨S65536x150, .f32⟩
  | 55 => ⟨S65536x150, .f32⟩
  | 56 => ⟨S65536x150, .f32⟩
  | 57 => ⟨S1x150, .f32⟩
  | 58 => ⟨S65536x150, .f32⟩
  | 59 => ⟨S65536x150, .f32⟩
  | 60 => ⟨S65536x150, .f32⟩
  | 61 => ⟨S65536x150, .f32⟩
  | 62 => ⟨S1x150, .f32⟩
  | 63 => ⟨S65536x150, .f32⟩
  | 64 => ⟨S65536x150, .f32⟩
  | 65 => ⟨S65536x150, .f32⟩
  | 66 => ⟨S65536x150, .f32⟩
  | 67 => ⟨S65536x150, .f32⟩
  | 68 => ⟨S65536x150, .f32⟩
  | 69 => ⟨S65536x150, .f32⟩
  | 70 => ⟨S16384x300, .f32⟩
  | 71 => ⟨S16384x4x150, .f32⟩
  | 72 => ⟨S16384x4x150, .f32⟩
  | 73 => ⟨S_, .f32⟩
  | 74 => ⟨S16384x150, .f32⟩
  | 75 => ⟨S16384x4x150, .f32⟩
  | 76 => ⟨S1x1x150, .f32⟩
  | 77 => ⟨S16384x4x150, .f32⟩
  | 78 => ⟨S16384x4x150, .f32⟩
  | 79 => ⟨S16384x150, .f32⟩
  | 80 => ⟨S1x150, .f32⟩
  | 81 => ⟨S16384x150, .f32⟩
  | 82 => ⟨S16384x150, .f32⟩
  | 83 => ⟨S16384x1x150, .f32⟩
  | 84 => ⟨S16384x4x150, .f32⟩
  | 85 => ⟨S16384x4x150, .f32⟩
  | 86 => ⟨S16384x4x150, .f32⟩
  | 87 => ⟨S16384x4x150, .f32⟩
  | 88 => ⟨S_, .f32⟩
  | 89 => ⟨S16384x4x150, .f32⟩
  | 90 => ⟨S16384x4x150, .f32⟩
  | 91 => ⟨S_, .f32⟩
  | 92 => ⟨S16384x4x150, .f32⟩
  | 93 => ⟨S16384x4x150, .f32⟩
  | 94 => ⟨S16384x4x150, .f32⟩
  | 95 => ⟨S_, .f32⟩
  | 96 => ⟨S16384x150, .f32⟩
  | 97 => ⟨S16384x150, .f32⟩
  | 98 => ⟨S1x150, .f32⟩
  | 99 => ⟨S16384x150, .f32⟩
  | 100 => ⟨S16384x150, .f32⟩
  | 101 => ⟨S16384x150, .f32⟩
  | 102 => ⟨S16384x150, .f32⟩
  | 103 => ⟨S1x150, .f32⟩
  | 104 => ⟨S16384x150, .f32⟩
  | 105 => ⟨S16384x150, .f32⟩
  | 106 => ⟨S16384x150, .f32⟩
  | 107 => ⟨S16384x150, .f32⟩
  | 108 => ⟨S_, .f32⟩
  | 109 => ⟨S16384x150, .f32⟩
  | 110 => ⟨S16384x150, .f32⟩
  | 111 => ⟨S_, .f32⟩
  | 112 => ⟨S16384x150, .f32⟩
  | 113 => ⟨S16384x150, .f32⟩
  | 114 => ⟨S16384x150, .f32⟩
  | 115 => ⟨S1x150, .f32⟩
  | 116 => ⟨S16384x150, .f32⟩
  | 117 => ⟨S16384x150, .f32⟩
  | 118 => ⟨S16384x150, .f32⟩
  | 119 => ⟨S16384x150, .f32⟩
  | 120 => ⟨S1x150, .f32⟩
  | 121 => ⟨S16384x150, .f32⟩
  | 122 => ⟨S16384x150, .f32⟩
  | 123 => ⟨S16384x150, .f32⟩
  | 124 => ⟨S16384x150, .f32⟩
  | 125 => ⟨S_, .f32⟩
  | 126 => ⟨S16384x150, .f32⟩
  | 127 => ⟨S16384x150, .f32⟩
  | _ => ⟨S87381x300, .f32⟩

abbrev hbmTy0_1 (i : Nat) : BufTy := match i % 128 with
  | 0 => ⟨S_, .f32⟩
  | 1 => ⟨S16384x150, .f32⟩
  | 2 => ⟨S16384x150, .f32⟩
  | 3 => ⟨S16384x150, .f32⟩
  | 4 => ⟨S1x150, .f32⟩
  | 5 => ⟨S16384x150, .f32⟩
  | 6 => ⟨S16384x150, .f32⟩
  | 7 => ⟨S16384x150, .f32⟩
  | 8 => ⟨S16384x150, .f32⟩
  | 9 => ⟨S1x150, .f32⟩
  | 10 => ⟨S16384x150, .f32⟩
  | 11 => ⟨S16384x150, .f32⟩
  | 12 => ⟨S16384x150, .f32⟩
  | 13 => ⟨S16384x150, .f32⟩
  | 14 => ⟨S16384x150, .f32⟩
  | 15 => ⟨S16384x150, .f32⟩
  | 16 => ⟨S16384x150, .f32⟩
  | 17 => ⟨S4096x300, .f32⟩
  | 18 => ⟨S4096x4x150, .f32⟩
  | 19 => ⟨S4096x4x150, .f32⟩
  | 20 => ⟨S_, .f32⟩
  | 21 => ⟨S4096x150, .f32⟩
  | 22 => ⟨S4096x4x150, .f32⟩
  | 23 => ⟨S1x1x150, .f32⟩
  | 24 => ⟨S4096x4x150, .f32⟩
  | 25 => ⟨S4096x4x150, .f32⟩
  | 26 => ⟨S4096x150, .f32⟩
  | 27 => ⟨S1x150, .f32⟩
  | 28 => ⟨S4096x150, .f32⟩
  | 29 => ⟨S4096x150, .f32⟩
  | 30 => ⟨S4096x1x150, .f32⟩
  | 31 => ⟨S4096x4x150, .f32⟩
  | 32 => ⟨S4096x4x150, .f32⟩
  | 33 => ⟨S4096x4x150, .f32⟩
  | 34 => ⟨S4096x4x150, .f32⟩
  | 35 => ⟨S_, .f32⟩
  | 36 => ⟨S4096x4x150, .f32⟩
  | 37 => ⟨S4096x4x150, .f32⟩
  | 38 => ⟨S_, .f32⟩
  | 39 => ⟨S4096x4x150, .f32⟩
  | 40 => ⟨S4096x4x150, .f32⟩
  | 41 => ⟨S4096x4x150, .f32⟩
  | 42 => ⟨S_, .f32⟩
  | 43 => ⟨S4096x150, .f32⟩
  | 44 => ⟨S4096x150, .f32⟩
  | 45 => ⟨S1x150, .f32⟩
  | 46 => ⟨S4096x150, .f32⟩
  | 47 => ⟨S4096x150, .f32⟩
  | 48 => ⟨S4096x150, .f32⟩
  | 49 => ⟨S4096x150, .f32⟩
  | 50 => ⟨S1x150, .f32⟩
  | 51 => ⟨S4096x150, .f32⟩
  | 52 => ⟨S4096x150, .f32⟩
  | 53 => ⟨S4096x150, .f32⟩
  | 54 => ⟨S4096x150, .f32⟩
  | 55 => ⟨S_, .f32⟩
  | 56 => ⟨S4096x150, .f32⟩
  | 57 => ⟨S4096x150, .f32⟩
  | 58 => ⟨S_, .f32⟩
  | 59 => ⟨S4096x150, .f32⟩
  | 60 => ⟨S4096x150, .f32⟩
  | 61 => ⟨S4096x150, .f32⟩
  | 62 => ⟨S1x150, .f32⟩
  | 63 => ⟨S4096x150, .f32⟩
  | 64 => ⟨S4096x150, .f32⟩
  | 65 => ⟨S4096x150, .f32⟩
  | 66 => ⟨S4096x150, .f32⟩
  | 67 => ⟨S1x150, .f32⟩
  | 68 => ⟨S4096x150, .f32⟩
  | 69 => ⟨S4096x150, .f32⟩
  | 70 => ⟨S4096x150, .f32⟩
  | 71 => ⟨S4096x150, .f32⟩
  | 72 => ⟨S_, .f32⟩
  | 73 => ⟨S4096x150, .f32⟩
  | 74 => ⟨S4096x150, .f32⟩
  | 75 => ⟨S_, .f32⟩
  | 76 => ⟨S4096x150, .f32⟩
  | 77 => ⟨S4096x150, .f32⟩
  | 78 => ⟨S4096x150, .f32⟩
  | 79 => ⟨S1x150, .f32⟩
  | 80 => ⟨S4096x150, .f32⟩
  | 81 => ⟨S4096x150, .f32⟩
  | 82 => ⟨S4096x150, .f32⟩
  | 83 => ⟨S4096x150, .f32⟩
  | 84 => ⟨S1x150, .f32⟩
  | 85 => ⟨S4096x150, .f32⟩
  | 86 => ⟨S4096x150, .f32⟩
  | 87 => ⟨S4096x150, .f32⟩
  | 88 => ⟨S4096x150, .f32⟩
  | 89 => ⟨S4096x150, .f32⟩
  | 90 => ⟨S4096x150, .f32⟩
  | 91 => ⟨S4096x150, .f32⟩
  | 92 => ⟨S1024x300, .f32⟩
  | 93 => ⟨S1024x4x150, .f32⟩
  | 94 => ⟨S1024x4x150, .f32⟩
  | 95 => ⟨S_, .f32⟩
  | 96 => ⟨S1024x150, .f32⟩
  | 97 => ⟨S1024x4x150, .f32⟩
  | 98 => ⟨S1x1x150, .f32⟩
  | 99 => ⟨S1024x4x150, .f32⟩
  | 100 => ⟨S1024x4x150, .f32⟩
  | 101 => ⟨S1024x150, .f32⟩
  | 102 => ⟨S1x150, .f32⟩
  | 103 => ⟨S1024x150, .f32⟩
  | 104 => ⟨S1024x150, .f32⟩
  | 105 => ⟨S1024x1x150, .f32⟩
  | 106 => ⟨S1024x4x150, .f32⟩
  | 107 => ⟨S1024x4x150, .f32⟩
  | 108 => ⟨S1024x4x150, .f32⟩
  | 109 => ⟨S1024x4x150, .f32⟩
  | 110 => ⟨S_, .f32⟩
  | 111 => ⟨S1024x4x150, .f32⟩
  | 112 => ⟨S1024x4x150, .f32⟩
  | 113 => ⟨S_, .f32⟩
  | 114 => ⟨S1024x4x150, .f32⟩
  | 115 => ⟨S1024x4x150, .f32⟩
  | 116 => ⟨S1024x4x150, .f32⟩
  | 117 => ⟨S_, .f32⟩
  | 118 => ⟨S1024x150, .f32⟩
  | 119 => ⟨S1024x150, .f32⟩
  | 120 => ⟨S1x150, .f32⟩
  | 121 => ⟨S1024x150, .f32⟩
  | 122 => ⟨S1024x150, .f32⟩
  | 123 => ⟨S1024x150, .f32⟩
  | 124 => ⟨S1024x150, .f32⟩
  | 125 => ⟨S1x150, .f32⟩
  | 126 => ⟨S1024x150, .f32⟩
  | 127 => ⟨S1024x150, .f32⟩
  | _ => ⟨S87381x300, .f32⟩

abbrev hbmTy0_2 (i : Nat) : BufTy := match i % 128 with
  | 0 => ⟨S1024x150, .f32⟩
  | 1 => ⟨S1024x150, .f32⟩
  | 2 => ⟨S_, .f32⟩
  | 3 => ⟨S1024x150, .f32⟩
  | 4 => ⟨S1024x150, .f32⟩
  | 5 => ⟨S_, .f32⟩
  | 6 => ⟨S1024x150, .f32⟩
  | 7 => ⟨S1024x150, .f32⟩
  | 8 => ⟨S1024x150, .f32⟩
  | 9 => ⟨S1x150, .f32⟩
  | 10 => ⟨S1024x150, .f32⟩
  | 11 => ⟨S1024x150, .f32⟩
  | 12 => ⟨S1024x150, .f32⟩
  | 13 => ⟨S1024x150, .f32⟩
  | 14 => ⟨S1x150, .f32⟩
  | 15 => ⟨S1024x150, .f32⟩
  | 16 => ⟨S1024x150, .f32⟩
  | 17 => ⟨S1024x150, .f32⟩
  | 18 => ⟨S1024x150, .f32⟩
  | 19 => ⟨S_, .f32⟩
  | 20 => ⟨S1024x150, .f32⟩
  | 21 => ⟨S1024x150, .f32⟩
  | 22 => ⟨S_, .f32⟩
  | 23 => ⟨S1024x150, .f32⟩
  | 24 => ⟨S1024x150, .f32⟩
  | 25 => ⟨S1024x150, .f32⟩
  | 26 => ⟨S1x150, .f32⟩
  | 27 => ⟨S1024x150, .f32⟩
  | 28 => ⟨S1024x150, .f32⟩
  | 29 => ⟨S1024x150, .f32⟩
  | 30 => ⟨S1024x150, .f32⟩
  | 31 => ⟨S1x150, .f32⟩
  | 32 => ⟨S1024x150, .f32⟩
  | 33 => ⟨S1024x150, .f32⟩
  | 34 => ⟨S1024x150, .f32⟩
  | 35 => ⟨S1024x150, .f32⟩
  | 36 => ⟨S1024x150, .f32⟩
  | 37 => ⟨S1024x150, .f32⟩
  | 38 => ⟨S1024x150, .f32⟩
  | 39 => ⟨S256x300, .f32⟩
  | 40 => ⟨S256x4x150, .f32⟩
  | 41 => ⟨S256x4x150, .f32⟩
  | 42 => ⟨S_, .f32⟩
  | 43 => ⟨S256x150, .f32⟩
  | 44 => ⟨S256x4x150, .f32⟩
  | 45 => ⟨S1x1x150, .f32⟩
  | 46 => ⟨S256x4x150, .f32⟩
  | 47 => ⟨S256x4x150, .f32⟩
  | 48 => ⟨S256x150, .f32⟩
  | 49 => ⟨S1x150, .f32⟩
  | 50 => ⟨S256x150, .f32⟩
  | 51 => ⟨S256x150, .f32⟩
  | 52 => ⟨S256x1x150, .f32⟩
  | 53 => ⟨S256x4x150, .f32⟩
  | 54 => ⟨S256x4x150, .f32⟩
  | 55 => ⟨S256x4x150, .f32⟩
  | 56 => ⟨S256x4x150, .f32⟩
  | 57 => ⟨S_, .f32⟩
  | 58 => ⟨S256x4x150, .f32⟩
  | 59 => ⟨S256x4x150, .f32⟩
  | 60 => ⟨S_, .f32⟩
  | 61 => ⟨S256x4x150, .f32⟩
  | 62 => ⟨S256x4x150, .f32⟩
  | 63 => ⟨S256x4x150, .f32⟩
  | 64 => ⟨S_, .f32⟩
  | 65 => ⟨S256x150, .f32⟩
  | 66 => ⟨S256x150, .f32⟩
  | 67 => ⟨S1x150, .f32⟩
  | 68 => ⟨S256x150, .f32⟩
  | 69 => ⟨S256x150, .f32⟩
  | 70 => ⟨S256x150, .f32⟩
  | 71 => ⟨S256x150, .f32⟩
  | 72 => ⟨S1x150, .f32⟩
  | 73 => ⟨S256x150, .f32⟩
  | 74 => ⟨S256x150, .f32⟩
  | 75 => ⟨S256x150, .f32⟩
  | 76 => ⟨S256x150, .f32⟩
  | 77 => ⟨S_, .f32⟩
  | 78 => ⟨S256x150, .f32⟩
  | 79 => ⟨S256x150, .f32⟩
  | 80 => ⟨S_, .f32⟩
  | 81 => ⟨S256x150, .f32⟩
  | 82 => ⟨S256x150, .f32⟩
  | 83 => ⟨S256x150, .f32⟩
  | 84 => ⟨S1x150, .f32⟩
  | 85 => ⟨S256x150, .f32⟩
  | 86 => ⟨S256x150, .f32⟩
  | 87 => ⟨S256x150, .f32⟩
  | 88 => ⟨S256x150, .f32⟩
  | 89 => ⟨S1x150, .f32⟩
  | 90 => ⟨S256x150, .f32⟩
  | 91 => ⟨S256x150, .f32⟩
  | 92 => ⟨S256x150, .f32⟩
  | 93 => ⟨S256x150, .f32⟩
  | 94 => ⟨S_, .f32⟩
  | 95 => ⟨S256x150, .f32⟩
  | 96 => ⟨S256x150, .f32⟩
  | 97 => ⟨S_, .f32⟩
  | 98 => ⟨S256x150, .f32⟩
  | 99 => ⟨S256x150, .f32⟩
  | 100 => ⟨S256x150, .f32⟩
  | 101 => ⟨S1x150, .f32⟩
  | 102 => ⟨S256x150, .f32⟩
  | 103 => ⟨S256x150, .f32⟩
  | 104 => ⟨S256x150, .f32⟩
  | 105 => ⟨S256x150, .f32⟩
  | 106 => ⟨S1x150, .f32⟩
  | 107 => ⟨S256x150, .f32⟩
  | 108 => ⟨S256x150, .f32⟩
  | 109 => ⟨S256x150, .f32⟩
  | 110 => ⟨S256x150, .f32⟩
  | 111 => ⟨S256x150, .f32⟩
  | 112 => ⟨S256x150, .f32⟩
  | 113 => ⟨S256x150, .f32⟩
  | 114 => ⟨S64x300, .f32⟩
  | 115 => ⟨S64x4x150, .f32⟩
  | 116 => ⟨S64x4x150, .f32⟩
  | 117 => ⟨S_, .f32⟩
  | 118 => ⟨S64x150, .f32⟩
  | 119 => ⟨S64x4x150, .f32⟩
  | 120 => ⟨S1x1x150, .f32⟩
  | 121 => ⟨S64x4x150, .f32⟩
  | 122 => ⟨S64x4x150, .f32⟩
  | 123 => ⟨S64x150, .f32⟩
  | 124 => ⟨S1x150, .f32⟩
  | 125 => ⟨S64x150, .f32⟩
  | 126 => ⟨S64x150, .f32⟩
  | 127 => ⟨S64x1x150, .f32⟩
  | _ => ⟨S87381x300, .f32⟩

abbrev hbmTy0_3 (i : Nat) : BufTy := match i % 128 with
  | 0 => ⟨S64x4x150, .f32⟩
  | 1 => ⟨S64x4x150, .f32⟩
  | 2 => ⟨S64x4x150, .f32⟩
  | 3 => ⟨S64x4x150, .f32⟩
  | 4 => ⟨S_, .f32⟩
  | 5 => ⟨S64x4x150, .f32⟩
  | 6 => ⟨S64x4x150, .f32⟩
  | 7 => ⟨S_, .f32⟩
  | 8 => ⟨S64x4x150, .f32⟩
  | 9 => ⟨S64x4x150, .f32⟩
  | 10 => ⟨S64x4x150, .f32⟩
  | 11 => ⟨S_, .f32⟩
  | 12 => ⟨S64x150, .f32⟩
  | 13 => ⟨S64x150, .f32⟩
  | 14 => ⟨S1x150, .f32⟩
  | 15 => ⟨S64x150, .f32⟩
  | 16 => ⟨S64x150, .f32⟩
  | 17 => ⟨S64x150, .f32⟩
  | 18 => ⟨S64x150, .f32⟩
  | 19 => ⟨S1x150, .f32⟩
  | 20 => ⟨S64x150, .f32⟩
  | 21 => ⟨S64x150, .f32⟩
  | 22 => ⟨S64x150, .f32⟩
  | 23 => ⟨S64x150, .f32⟩
  | 24 => ⟨S_, .f32⟩
  | 25 => ⟨S64x150, .f32⟩
  | 26 => ⟨S64x150, .f32⟩
  | 27 => ⟨S_, .f32⟩
  | 28 => ⟨S64x150, .f32⟩
  | 29 => ⟨S64x150, .f32⟩
  | 30 => ⟨S64x150, .f32⟩
  | 31 => ⟨S1x150, .f32⟩
  | 32 => ⟨S64x150, .f32⟩
  | 33 => ⟨S64x150, .f32⟩
  | 34 => ⟨S64x150, .f32⟩
  | 35 => ⟨S64x150, .f32⟩
  | 36 => ⟨S1x150, .f32⟩
  | 37 => ⟨S64x150, .f32⟩
  | 38 => ⟨S64x150, .f32⟩
  | 39 => ⟨S64x150, .f32⟩
  | 40 => ⟨S64x150, .f32⟩
  | 41 => ⟨S_, .f32⟩
  | 42 => ⟨S64x150, .f32⟩
  | 43 => ⟨S64x150, .f32⟩
  | 44 => ⟨S_, .f32⟩
  | 45 => ⟨S64x150, .f32⟩
  | 46 => ⟨S64x150, .f32⟩
  | 47 => ⟨S64x150, .f32⟩
  | 48 => ⟨S1x150, .f32⟩
  | 49 => ⟨S64x150, .f32⟩
  | 50 => ⟨S64x150, .f32⟩
  | 51 => ⟨S64x150, .f32⟩
  | 52 => ⟨S64x150, .f32⟩
  | 53 => ⟨S1x150, .f32⟩
  | 54 => ⟨S64x150, .f32⟩
  | 55 => ⟨S64x150, .f32⟩
  | 56 => ⟨S64x150, .f32⟩
  | 57 => ⟨S64x150, .f32⟩
  | 58 => ⟨S64x150, .f32⟩
  | 59 => ⟨S64x150, .f32⟩
  | 60 => ⟨S64x150, .f32⟩
  | 61 => ⟨S16x300, .f32⟩
  | 62 => ⟨S16x4x150, .f32⟩
  | 63 => ⟨S16x4x150, .f32⟩
  | 64 => ⟨S_, .f32⟩
  | 65 => ⟨S16x150, .f32⟩
  | 66 => ⟨S16x4x150, .f32⟩
  | 67 => ⟨S1x1x150, .f32⟩
  | 68 => ⟨S16x4x150, .f32⟩
  | 69 => ⟨S16x4x150, .f32⟩
  | 70 => ⟨S16x150, .f32⟩
  | 71 => ⟨S1x150, .f32⟩
  | 72 => ⟨S16x150, .f32⟩
  | 73 => ⟨S16x150, .f32⟩
  | 74 => ⟨S16x1x150, .f32⟩
  | 75 => ⟨S16x4x150, .f32⟩
  | 76 => ⟨S16x4x150, .f32⟩
  | 77 => ⟨S16x4x150, .f32⟩
  | 78 => ⟨S16x4x150, .f32⟩
  | 79 => ⟨S_, .f32⟩
  | 80 => ⟨S16x4x150, .f32⟩
  | 81 => ⟨S16x4x150, .f32⟩
  | 82 => ⟨S_, .f32⟩
  | 83 => ⟨S16x4x150, .f32⟩
  | 84 => ⟨S16x4x150, .f32⟩
  | 85 => ⟨S16x4x150, .f32⟩
  | 86 => ⟨S_, .f32⟩
  | 87 => ⟨S16x150, .f32⟩
  | 88 => ⟨S16x150, .f32⟩
  | 89 => ⟨S1x150, .f32⟩
  | 90 => ⟨S16x150, .f32⟩
  | 91 => ⟨S16x150, .f32⟩
  | 92 => ⟨S16x150, .f32⟩
  | 93 => ⟨S16x150, .f32⟩
  | 94 => ⟨S1x150, .f32⟩
  | 95 => ⟨S16x150, .f32⟩
  | 96 => ⟨S16x150, .f32⟩
  | 97 => ⟨S16x150, .f32⟩
  | 98 => ⟨S16x150, .f32⟩
  | 99 => ⟨S_, .f32⟩
  | 100 => ⟨S16x150, .f32⟩
  | 101 => ⟨S16x150, .f32⟩
  | 102 => ⟨S_, .f32⟩
  | 103 => ⟨S16x150, .f32⟩
  | 104 => ⟨S16x150, .f32⟩
  | 105 => ⟨S16x150, .f32⟩
  | 106 => ⟨S1x150, .f32⟩
  | 107 => ⟨S16x150, .f32⟩
  | 108 => ⟨S16x150, .f32⟩
  | 109 => ⟨S16x150, .f32⟩
  | 110 => ⟨S16x150, .f32⟩
  | 111 => ⟨S1x150, .f32⟩
  | 112 => ⟨S16x150, .f32⟩
  | 113 => ⟨S16x150, .f32⟩
  | 114 => ⟨S16x150, .f32⟩
  | 115 => ⟨S16x150, .f32⟩
  | 116 => ⟨S_, .f32⟩
  | 117 => ⟨S16x150, .f32⟩
  | 118 => ⟨S16x150, .f32⟩
  | 119 => ⟨S_, .f32⟩
  | 120 => ⟨S16x150, .f32⟩
  | 121 => ⟨S16x150, .f32⟩
  | 122 => ⟨S16x150, .f32⟩
  | 123 => ⟨S1x150, .f32⟩
  | 124 => ⟨S16x150, .f32⟩
  | 125 => ⟨S16x150, .f32⟩
  | 126 => ⟨S16x150, .f32⟩
  | 127 => ⟨S16x150, .f32⟩
  | _ => ⟨S87381x300, .f32⟩

abbrev hbmTy0_4 (i : Nat) : BufTy := match i % 128 with
  | 0 => ⟨S1x150, .f32⟩
  | 1 => ⟨S16x150, .f32⟩
  | 2 => ⟨S16x150, .f32⟩
  | 3 => ⟨S16x150, .f32⟩
  | 4 => ⟨S16x150, .f32⟩
  | 5 => ⟨S16x150, .f32⟩
  | 6 => ⟨S16x150, .f32⟩
  | 7 => ⟨S16x150, .f32⟩
  | 8 => ⟨S4x300, .f32⟩
  | 9 => ⟨S4x4x150, .f32⟩
  | 10 => ⟨S4x4x150, .f32⟩
  | 11 => ⟨S_, .f32⟩
  | 12 => ⟨S4x150, .f32⟩
  | 13 => ⟨S4x4x150, .f32⟩
  | 14 => ⟨S1x1x150, .f32⟩
  | 15 => ⟨S4x4x150, .f32⟩
  | 16 => ⟨S4x4x150, .f32⟩
  | 17 => ⟨S4x150, .f32⟩
  | 18 => ⟨S1x150, .f32⟩
  | 19 => ⟨S4x150, .f32⟩
  | 20 => ⟨S4x150, .f32⟩
  | 21 => ⟨S4x1x150, .f32⟩
  | 22 => ⟨S4x4x150, .f32⟩
  | 23 => ⟨S4x4x150, .f32⟩
  | 24 => ⟨S4x4x150, .f32⟩
  | 25 => ⟨S4x4x150, .f32⟩
  | 26 => ⟨S_, .f32⟩
  | 27 => ⟨S4x4x150, .f32⟩
  | 28 => ⟨S4x4x150, .f32⟩
  | 29 => ⟨S_, .f32⟩
  | 30 => ⟨S4x4x150, .f32⟩
  | 31 => ⟨S4x4x150, .f32⟩
  | 32 => ⟨S4x4x150, .f32⟩
  | 33 => ⟨S_, .f32⟩
  | 34 => ⟨S4x150, .f32⟩
  | 35 => ⟨S4x150, .f32⟩
  | 36 => ⟨S1x150, .f32⟩
  | 37 => ⟨S4x150, .f32⟩
  | 38 => ⟨S4x150, .f32⟩
  | 39 => ⟨S4x150, .f32⟩
  | 40 => ⟨S4x150, .f32⟩
  | 41 => ⟨S1x150, .f32⟩
  | 42 => ⟨S4x150, .f32⟩
  | 43 => ⟨S4x150, .f32⟩
  | 44 => ⟨S4x150, .f32⟩
  | 45 => ⟨S4x150, .f32⟩
  | 46 => ⟨S_, .f32⟩
  | 47 => ⟨S4x150, .f32⟩
  | 48 => ⟨S4x150, .f32⟩
  | 49 => ⟨S_, .f32⟩
  | 50 => ⟨S4x150, .f32⟩
  | 51 => ⟨S4x150, .f32⟩
  | 52 => ⟨S4x150, .f32⟩
  | 53 => ⟨S1x150, .f32⟩
  | 54 => ⟨S4x150, .f32⟩
  | 55 => ⟨S4x150, .f32⟩
  | 56 => ⟨S4x150, .f32⟩
  | 57 => ⟨S4x150, .f32⟩
  | 58 => ⟨S1x150, .f32⟩
  | 59 => ⟨S4x150, .f32⟩
  | 60 => ⟨S4x150, .f32⟩
  | 61 => ⟨S4x150, .f32⟩
  | 62 => ⟨S4x150, .f32⟩
  | 63 => ⟨S_, .f32⟩
  | 64 => ⟨S4x150, .f32⟩
  | 65 => ⟨S4x150, .f32⟩
  | 66 => ⟨S_, .f32⟩
  | 67 => ⟨S4x150, .f32⟩
  | 68 => ⟨S4x150, .f32⟩
  | 69 => ⟨S4x150, .f32⟩
  | 70 => ⟨S1x150, .f32⟩
  | 71 => ⟨S4x150, .f32⟩
  | 72 => ⟨S4x150, .f32⟩
  | 73 => ⟨S4x150, .f32⟩
  | 74 => ⟨S4x150, .f32⟩
  | 75 => ⟨S1x150, .f32⟩
  | 76 => ⟨S4x150, .f32⟩
  | 77 => ⟨S4x150, .f32⟩
  | 78 => ⟨S4x150, .f32⟩
  | 79 => ⟨S4x150, .f32⟩
  | 80 => ⟨S4x150, .f32⟩
  | 81 => ⟨S4x150, .f32⟩
  | 82 => ⟨S4x150, .f32⟩
  | 83 => ⟨S1x300, .f32⟩
  | 84 => ⟨S1x4x150, .f32⟩
  | 85 => ⟨S1x4x150, .f32⟩
  | 86 => ⟨S_, .f32⟩
  | 87 => ⟨S1x150, .f32⟩
  | 88 => ⟨S1x4x150, .f32⟩
  | 89 => ⟨S1x1x150, .f32⟩
  | 90 => ⟨S1x4x150, .f32⟩
  | 91 => ⟨S1x4x150, .f32⟩
  | 92 => ⟨S1x150, .f32⟩
  | 93 => ⟨S1x150, .f32⟩
  | 94 => ⟨S1x150, .f32⟩
  | 95 => ⟨S1x1x150, .f32⟩
  | 96 => ⟨S1x4x150, .f32⟩
  | 97 => ⟨S1x4x150, .f32⟩
  | 98 => ⟨S1x4x150, .f32⟩
  | 99 => ⟨S1x4x150, .f32⟩
  | 100 => ⟨S_, .f32⟩
  | 101 => ⟨S1x4x150, .f32⟩
  | 102 => ⟨S1x4x150, .f32⟩
  | 103 => ⟨S_, .f32⟩
  | 104 => ⟨S1x4x150, .f32⟩
  | 105 => ⟨S1x4x150, .f32⟩
  | 106 => ⟨S1x4x150, .f32⟩
  | 107 => ⟨S_, .f32⟩
  | 108 => ⟨S1x150, .f32⟩
  | 109 => ⟨S1x150, .f32⟩
  | 110 => ⟨S1x150, .f32⟩
  | 111 => ⟨S1x150, .f32⟩
  | 112 => ⟨S1x150, .f32⟩
  | 113 => ⟨S1x150, .f32⟩
  | 114 => ⟨S1x150, .f32⟩
  | 115 => ⟨S1x150, .f32⟩
  | 116 => ⟨S1x150, .f32⟩
  | 117 => ⟨S1x150, .f32⟩
  | 118 => ⟨S_, .f32⟩
  | 119 => ⟨S1x150, .f32⟩
  | 120 => ⟨S1x150, .f32⟩
  | 121 => ⟨S_, .f32⟩
  | 122 => ⟨S1x150, .f32⟩
  | 123 => ⟨S1x150, .f32⟩
  | 124 => ⟨S1x150, .f32⟩
  | 125 => ⟨S1x150, .f32⟩
  | 126 => ⟨S1x150, .f32⟩
  | 127 => ⟨S1x150, .f32⟩
  | _ => ⟨S87381x300, .f32⟩

abbrev hbmTy0_5 (i : Nat) : BufTy := match i % 128 with
  | 0 => ⟨S1x150, .f32⟩
  | 1 => ⟨S1x150, .f32⟩
  | 2 => ⟨S1x150, .f32⟩
  | 3 => ⟨S1x150, .f32⟩
  | 4 => ⟨S1x150, .f32⟩
  | 5 => ⟨S_, .f32⟩
  | 6 => ⟨S1x150, .f32⟩
  | 7 => ⟨S1x150, .f32⟩
  | 8 => ⟨S_, .f32⟩
  | 9 => ⟨S1x150, .f32⟩
  | 10 => ⟨S1x150, .f32⟩
  | 11 => ⟨S1x150, .f32⟩
  | 12 => ⟨S1x150, .f32⟩
  | 13 => ⟨S1x150, .f32⟩
  | 14 => ⟨S1x150, .f32⟩
  | 15 => ⟨S1x150, .f32⟩
  | 16 => ⟨S1x150, .f32⟩
  | 17 => ⟨S1x150, .f32⟩
  | 18 => ⟨S1x150, .f32⟩
  | 19 => ⟨S1x150, .f32⟩
  | 20 => ⟨S1x150, .f32⟩
  | 21 => ⟨S1x150, .f32⟩
  | 22 => ⟨S1x150, .f32⟩
  | 23 => ⟨S87381x150, .f32⟩
  | _ => ⟨S87381x300, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S87381x300, .f32⟩

abbrev bufTy : (tb : Table) → Fin (tcTables nBuf tb) → BufTy
  | .hbm, ⟨i, _⟩ => hbmTy i
  | _, _ => ⟨S87381x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_cst_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_v15 : Ref sig .tc := ⟨.hbm, 35, rfl⟩
abbrev main_cst_2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_3 : Ref sig .tc := ⟨.hbm, 50, rfl⟩
abbrev main_v29 : Ref sig .tc := ⟨.hbm, 51, rfl⟩
abbrev main_v30 : Ref sig .tc := ⟨.hbm, 52, rfl⟩
abbrev main_cst_4 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_5 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_6 : Ref sig .tc := ⟨.hbm, 88, rfl⟩
abbrev main_v64 : Ref sig .tc := ⟨.hbm, 89, rfl⟩
abbrev main_v65 : Ref sig .tc := ⟨.hbm, 90, rfl⟩
abbrev main_cst_7 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_8 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_9 : Ref sig .tc := ⟨.hbm, 108, rfl⟩
abbrev main_v81 : Ref sig .tc := ⟨.hbm, 109, rfl⟩
abbrev main_v82 : Ref sig .tc := ⟨.hbm, 110, rfl⟩
abbrev main_cst_10 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_cst_11 : Ref sig .tc := ⟨.hbm, 125, rfl⟩
abbrev main_v96 : Ref sig .tc := ⟨.hbm, 126, rfl⟩
abbrev main_v97 : Ref sig .tc := ⟨.hbm, 127, rfl⟩
abbrev main_cst_12 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_cst_13 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_cst_14 : Ref sig .tc := ⟨.hbm, 163, rfl⟩
abbrev main_v131 : Ref sig .tc := ⟨.hbm, 164, rfl⟩
abbrev main_v132 : Ref sig .tc := ⟨.hbm, 165, rfl⟩
abbrev main_cst_15 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_cst_16 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_cst_17 : Ref sig .tc := ⟨.hbm, 183, rfl⟩
abbrev main_v148 : Ref sig .tc := ⟨.hbm, 184, rfl⟩
abbrev main_v149 : Ref sig .tc := ⟨.hbm, 185, rfl⟩
abbrev main_cst_18 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_cst_19 : Ref sig .tc := ⟨.hbm, 200, rfl⟩
abbrev main_v163 : Ref sig .tc := ⟨.hbm, 201, rfl⟩
abbrev main_v164 : Ref sig .tc := ⟨.hbm, 202, rfl⟩
abbrev main_cst_20 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_cst_21 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩
abbrev main_v197 : Ref sig .tc := ⟨.hbm, 237, rfl⟩
abbrev main_cst_22 : Ref sig .tc := ⟨.hbm, 238, rfl⟩
abbrev main_v198 : Ref sig .tc := ⟨.hbm, 239, rfl⟩
abbrev main_v199 : Ref sig .tc := ⟨.hbm, 240, rfl⟩
abbrev main_cst_23 : Ref sig .tc := ⟨.hbm, 241, rfl⟩
abbrev main_v200 : Ref sig .tc := ⟨.hbm, 242, rfl⟩
abbrev main_v201 : Ref sig .tc := ⟨.hbm, 243, rfl⟩
abbrev main_v202 : Ref sig .tc := ⟨.hbm, 244, rfl⟩
abbrev main_cst_24 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev main_v208 : Ref sig .tc := ⟨.hbm, 251, rfl⟩
abbrev main_v209 : Ref sig .tc := ⟨.hbm, 252, rfl⟩
abbrev main_v210 : Ref sig .tc := ⟨.hbm, 253, rfl⟩
abbrev main_v211 : Ref sig .tc := ⟨.hbm, 254, rfl⟩
abbrev main_v212 : Ref sig .tc := ⟨.hbm, 255, rfl⟩
abbrev main_v213 : Ref sig .tc := ⟨.hbm, 256, rfl⟩
abbrev main_v214 : Ref sig .tc := ⟨.hbm, 257, rfl⟩
abbrev main_cst_25 : Ref sig .tc := ⟨.hbm, 258, rfl⟩
abbrev main_v215 : Ref sig .tc := ⟨.hbm, 259, rfl⟩
abbrev main_v216 : Ref sig .tc := ⟨.hbm, 260, rfl⟩
abbrev main_cst_26 : Ref sig .tc := ⟨.hbm, 261, rfl⟩
abbrev main_v217 : Ref sig .tc := ⟨.hbm, 262, rfl⟩
abbrev main_v218 : Ref sig .tc := ⟨.hbm, 263, rfl⟩
abbrev main_v219 : Ref sig .tc := ⟨.hbm, 264, rfl⟩
abbrev main_v220 : Ref sig .tc := ⟨.hbm, 265, rfl⟩
abbrev main_v221 : Ref sig .tc := ⟨.hbm, 266, rfl⟩
abbrev main_v222 : Ref sig .tc := ⟨.hbm, 267, rfl⟩
abbrev main_v223 : Ref sig .tc := ⟨.hbm, 268, rfl⟩
abbrev main_v224 : Ref sig .tc := ⟨.hbm, 269, rfl⟩
abbrev main_v225 : Ref sig .tc := ⟨.hbm, 270, rfl⟩
abbrev main_v226 : Ref sig .tc := ⟨.hbm, 271, rfl⟩
abbrev main_v227 : Ref sig .tc := ⟨.hbm, 272, rfl⟩
abbrev main_v228 : Ref sig .tc := ⟨.hbm, 273, rfl⟩
abbrev main_v229 : Ref sig .tc := ⟨.hbm, 274, rfl⟩
abbrev main_cst_27 : Ref sig .tc := ⟨.hbm, 275, rfl⟩
abbrev main_v230 : Ref sig .tc := ⟨.hbm, 276, rfl⟩
abbrev main_v231 : Ref sig .tc := ⟨.hbm, 277, rfl⟩
abbrev main_cst_28 : Ref sig .tc := ⟨.hbm, 278, rfl⟩
abbrev main_v232 : Ref sig .tc := ⟨.hbm, 279, rfl⟩
abbrev main_v233 : Ref sig .tc := ⟨.hbm, 280, rfl⟩
abbrev main_v234 : Ref sig .tc := ⟨.hbm, 281, rfl⟩
abbrev main_v235 : Ref sig .tc := ⟨.hbm, 282, rfl⟩
abbrev main_v236 : Ref sig .tc := ⟨.hbm, 283, rfl⟩
abbrev main_v237 : Ref sig .tc := ⟨.hbm, 284, rfl⟩
abbrev main_v238 : Ref sig .tc := ⟨.hbm, 285, rfl⟩
abbrev main_v239 : Ref sig .tc := ⟨.hbm, 286, rfl⟩
abbrev main_v240 : Ref sig .tc := ⟨.hbm, 287, rfl⟩
abbrev main_v241 : Ref sig .tc := ⟨.hbm, 288, rfl⟩
abbrev main_v242 : Ref sig .tc := ⟨.hbm, 289, rfl⟩
abbrev main_v243 : Ref sig .tc := ⟨.hbm, 290, rfl⟩
abbrev main_v244 : Ref sig .tc := ⟨.hbm, 291, rfl⟩
abbrev main_v245 : Ref sig .tc := ⟨.hbm, 292, rfl⟩
abbrev main_v246 : Ref sig .tc := ⟨.hbm, 293, rfl⟩
abbrev main_v247 : Ref sig .tc := ⟨.hbm, 294, rfl⟩
abbrev main_v248 : Ref sig .tc := ⟨.hbm, 295, rfl⟩
abbrev main_v249 : Ref sig .tc := ⟨.hbm, 296, rfl⟩
abbrev main_v250 : Ref sig .tc := ⟨.hbm, 297, rfl⟩
abbrev main_cst_29 : Ref sig .tc := ⟨.hbm, 298, rfl⟩
abbrev main_v251 : Ref sig .tc := ⟨.hbm, 299, rfl⟩
abbrev main_v252 : Ref sig .tc := ⟨.hbm, 300, rfl⟩
abbrev main_v253 : Ref sig .tc := ⟨.hbm, 301, rfl⟩
abbrev main_v254 : Ref sig .tc := ⟨.hbm, 302, rfl⟩
abbrev main_v255 : Ref sig .tc := ⟨.hbm, 303, rfl⟩
abbrev main_v256 : Ref sig .tc := ⟨.hbm, 304, rfl⟩
abbrev main_v257 : Ref sig .tc := ⟨.hbm, 305, rfl⟩
abbrev main_v258 : Ref sig .tc := ⟨.hbm, 306, rfl⟩
abbrev main_v259 : Ref sig .tc := ⟨.hbm, 307, rfl⟩
abbrev main_v260 : Ref sig .tc := ⟨.hbm, 308, rfl⟩
abbrev main_v261 : Ref sig .tc := ⟨.hbm, 309, rfl⟩
abbrev main_v262 : Ref sig .tc := ⟨.hbm, 310, rfl⟩
abbrev main_v263 : Ref sig .tc := ⟨.hbm, 311, rfl⟩
abbrev main_v264 : Ref sig .tc := ⟨.hbm, 312, rfl⟩
abbrev main_cst_30 : Ref sig .tc := ⟨.hbm, 313, rfl⟩
abbrev main_v265 : Ref sig .tc := ⟨.hbm, 314, rfl⟩
abbrev main_v266 : Ref sig .tc := ⟨.hbm, 315, rfl⟩
abbrev main_cst_31 : Ref sig .tc := ⟨.hbm, 316, rfl⟩
abbrev main_v267 : Ref sig .tc := ⟨.hbm, 317, rfl⟩
abbrev main_v268 : Ref sig .tc := ⟨.hbm, 318, rfl⟩
abbrev main_v269 : Ref sig .tc := ⟨.hbm, 319, rfl⟩
abbrev main_cst_32 : Ref sig .tc := ⟨.hbm, 320, rfl⟩
abbrev main_v270 : Ref sig .tc := ⟨.hbm, 321, rfl⟩
abbrev main_v271 : Ref sig .tc := ⟨.hbm, 322, rfl⟩
abbrev main_v272 : Ref sig .tc := ⟨.hbm, 323, rfl⟩
abbrev main_v273 : Ref sig .tc := ⟨.hbm, 324, rfl⟩
abbrev main_v274 : Ref sig .tc := ⟨.hbm, 325, rfl⟩
abbrev main_v275 : Ref sig .tc := ⟨.hbm, 326, rfl⟩
abbrev main_v276 : Ref sig .tc := ⟨.hbm, 327, rfl⟩
abbrev main_v277 : Ref sig .tc := ⟨.hbm, 328, rfl⟩
abbrev main_v278 : Ref sig .tc := ⟨.hbm, 329, rfl⟩
abbrev main_v279 : Ref sig .tc := ⟨.hbm, 330, rfl⟩
abbrev main_v280 : Ref sig .tc := ⟨.hbm, 331, rfl⟩
abbrev main_v281 : Ref sig .tc := ⟨.hbm, 332, rfl⟩
abbrev main_cst_33 : Ref sig .tc := ⟨.hbm, 333, rfl⟩
abbrev main_v282 : Ref sig .tc := ⟨.hbm, 334, rfl⟩
abbrev main_v283 : Ref sig .tc := ⟨.hbm, 335, rfl⟩
abbrev main_cst_34 : Ref sig .tc := ⟨.hbm, 336, rfl⟩
abbrev main_v284 : Ref sig .tc := ⟨.hbm, 337, rfl⟩
abbrev main_v285 : Ref sig .tc := ⟨.hbm, 338, rfl⟩
abbrev main_v286 : Ref sig .tc := ⟨.hbm, 339, rfl⟩
abbrev main_v287 : Ref sig .tc := ⟨.hbm, 340, rfl⟩
abbrev main_v288 : Ref sig .tc := ⟨.hbm, 341, rfl⟩
abbrev main_v289 : Ref sig .tc := ⟨.hbm, 342, rfl⟩
abbrev main_v290 : Ref sig .tc := ⟨.hbm, 343, rfl⟩
abbrev main_v291 : Ref sig .tc := ⟨.hbm, 344, rfl⟩
abbrev main_v292 : Ref sig .tc := ⟨.hbm, 345, rfl⟩
abbrev main_v293 : Ref sig .tc := ⟨.hbm, 346, rfl⟩
abbrev main_v294 : Ref sig .tc := ⟨.hbm, 347, rfl⟩
abbrev main_v295 : Ref sig .tc := ⟨.hbm, 348, rfl⟩
abbrev main_v296 : Ref sig .tc := ⟨.hbm, 349, rfl⟩
abbrev main_cst_35 : Ref sig .tc := ⟨.hbm, 350, rfl⟩
abbrev main_v297 : Ref sig .tc := ⟨.hbm, 351, rfl⟩
abbrev main_v298 : Ref sig .tc := ⟨.hbm, 352, rfl⟩
abbrev main_cst_36 : Ref sig .tc := ⟨.hbm, 353, rfl⟩
abbrev main_v299 : Ref sig .tc := ⟨.hbm, 354, rfl⟩
abbrev main_v300 : Ref sig .tc := ⟨.hbm, 355, rfl⟩
abbrev main_v301 : Ref sig .tc := ⟨.hbm, 356, rfl⟩
abbrev main_v302 : Ref sig .tc := ⟨.hbm, 357, rfl⟩
abbrev main_v303 : Ref sig .tc := ⟨.hbm, 358, rfl⟩
abbrev main_v304 : Ref sig .tc := ⟨.hbm, 359, rfl⟩
abbrev main_v305 : Ref sig .tc := ⟨.hbm, 360, rfl⟩
abbrev main_v306 : Ref sig .tc := ⟨.hbm, 361, rfl⟩
abbrev main_v307 : Ref sig .tc := ⟨.hbm, 362, rfl⟩
abbrev main_v308 : Ref sig .tc := ⟨.hbm, 363, rfl⟩
abbrev main_v309 : Ref sig .tc := ⟨.hbm, 364, rfl⟩
abbrev main_v310 : Ref sig .tc := ⟨.hbm, 365, rfl⟩
abbrev main_v311 : Ref sig .tc := ⟨.hbm, 366, rfl⟩
abbrev main_v312 : Ref sig .tc := ⟨.hbm, 367, rfl⟩
abbrev main_v313 : Ref sig .tc := ⟨.hbm, 368, rfl⟩
abbrev main_v314 : Ref sig .tc := ⟨.hbm, 369, rfl⟩
abbrev main_v315 : Ref sig .tc := ⟨.hbm, 370, rfl⟩
abbrev main_v316 : Ref sig .tc := ⟨.hbm, 371, rfl⟩
abbrev main_v317 : Ref sig .tc := ⟨.hbm, 372, rfl⟩
abbrev main_cst_37 : Ref sig .tc := ⟨.hbm, 373, rfl⟩
abbrev main_v318 : Ref sig .tc := ⟨.hbm, 374, rfl⟩
abbrev main_v319 : Ref sig .tc := ⟨.hbm, 375, rfl⟩
abbrev main_v320 : Ref sig .tc := ⟨.hbm, 376, rfl⟩
abbrev main_v321 : Ref sig .tc := ⟨.hbm, 377, rfl⟩
abbrev main_v322 : Ref sig .tc := ⟨.hbm, 378, rfl⟩
abbrev main_v323 : Ref sig .tc := ⟨.hbm, 379, rfl⟩
abbrev main_v324 : Ref sig .tc := ⟨.hbm, 380, rfl⟩
abbrev main_v325 : Ref sig .tc := ⟨.hbm, 381, rfl⟩
abbrev main_v326 : Ref sig .tc := ⟨.hbm, 382, rfl⟩
abbrev main_v327 : Ref sig .tc := ⟨.hbm, 383, rfl⟩
abbrev main_v328 : Ref sig .tc := ⟨.hbm, 384, rfl⟩
abbrev main_v329 : Ref sig .tc := ⟨.hbm, 385, rfl⟩
abbrev main_v330 : Ref sig .tc := ⟨.hbm, 386, rfl⟩
abbrev main_v331 : Ref sig .tc := ⟨.hbm, 387, rfl⟩
abbrev main_cst_38 : Ref sig .tc := ⟨.hbm, 388, rfl⟩
abbrev main_v332 : Ref sig .tc := ⟨.hbm, 389, rfl⟩
abbrev main_v333 : Ref sig .tc := ⟨.hbm, 390, rfl⟩
abbrev main_cst_39 : Ref sig .tc := ⟨.hbm, 391, rfl⟩
abbrev main_v334 : Ref sig .tc := ⟨.hbm, 392, rfl⟩
abbrev main_v335 : Ref sig .tc := ⟨.hbm, 393, rfl⟩
abbrev main_v336 : Ref sig .tc := ⟨.hbm, 394, rfl⟩
abbrev main_cst_40 : Ref sig .tc := ⟨.hbm, 395, rfl⟩
abbrev main_v337 : Ref sig .tc := ⟨.hbm, 396, rfl⟩
abbrev main_v338 : Ref sig .tc := ⟨.hbm, 397, rfl⟩
abbrev main_v339 : Ref sig .tc := ⟨.hbm, 398, rfl⟩
abbrev main_v340 : Ref sig .tc := ⟨.hbm, 399, rfl⟩
abbrev main_v341 : Ref sig .tc := ⟨.hbm, 400, rfl⟩
abbrev main_v342 : Ref sig .tc := ⟨.hbm, 401, rfl⟩
abbrev main_v343 : Ref sig .tc := ⟨.hbm, 402, rfl⟩
abbrev main_v344 : Ref sig .tc := ⟨.hbm, 403, rfl⟩
abbrev main_v345 : Ref sig .tc := ⟨.hbm, 404, rfl⟩
abbrev main_v346 : Ref sig .tc := ⟨.hbm, 405, rfl⟩
abbrev main_v347 : Ref sig .tc := ⟨.hbm, 406, rfl⟩
abbrev main_v348 : Ref sig .tc := ⟨.hbm, 407, rfl⟩
abbrev main_cst_41 : Ref sig .tc := ⟨.hbm, 408, rfl⟩
abbrev main_v349 : Ref sig .tc := ⟨.hbm, 409, rfl⟩
abbrev main_v350 : Ref sig .tc := ⟨.hbm, 410, rfl⟩
abbrev main_cst_42 : Ref sig .tc := ⟨.hbm, 411, rfl⟩
abbrev main_v351 : Ref sig .tc := ⟨.hbm, 412, rfl⟩
abbrev main_v352 : Ref sig .tc := ⟨.hbm, 413, rfl⟩
abbrev main_v353 : Ref sig .tc := ⟨.hbm, 414, rfl⟩
abbrev main_v354 : Ref sig .tc := ⟨.hbm, 415, rfl⟩
abbrev main_v355 : Ref sig .tc := ⟨.hbm, 416, rfl⟩
abbrev main_v356 : Ref sig .tc := ⟨.hbm, 417, rfl⟩
abbrev main_v357 : Ref sig .tc := ⟨.hbm, 418, rfl⟩
abbrev main_v358 : Ref sig .tc := ⟨.hbm, 419, rfl⟩
abbrev main_v359 : Ref sig .tc := ⟨.hbm, 420, rfl⟩
abbrev main_v360 : Ref sig .tc := ⟨.hbm, 421, rfl⟩
abbrev main_v361 : Ref sig .tc := ⟨.hbm, 422, rfl⟩
abbrev main_v362 : Ref sig .tc := ⟨.hbm, 423, rfl⟩
abbrev main_v363 : Ref sig .tc := ⟨.hbm, 424, rfl⟩
abbrev main_cst_43 : Ref sig .tc := ⟨.hbm, 425, rfl⟩
abbrev main_v364 : Ref sig .tc := ⟨.hbm, 426, rfl⟩
abbrev main_v365 : Ref sig .tc := ⟨.hbm, 427, rfl⟩
abbrev main_cst_44 : Ref sig .tc := ⟨.hbm, 428, rfl⟩
abbrev main_v366 : Ref sig .tc := ⟨.hbm, 429, rfl⟩
abbrev main_v367 : Ref sig .tc := ⟨.hbm, 430, rfl⟩
abbrev main_v368 : Ref sig .tc := ⟨.hbm, 431, rfl⟩
abbrev main_v369 : Ref sig .tc := ⟨.hbm, 432, rfl⟩
abbrev main_v370 : Ref sig .tc := ⟨.hbm, 433, rfl⟩
abbrev main_v371 : Ref sig .tc := ⟨.hbm, 434, rfl⟩
abbrev main_v372 : Ref sig .tc := ⟨.hbm, 435, rfl⟩
abbrev main_v373 : Ref sig .tc := ⟨.hbm, 436, rfl⟩
abbrev main_v374 : Ref sig .tc := ⟨.hbm, 437, rfl⟩
abbrev main_v375 : Ref sig .tc := ⟨.hbm, 438, rfl⟩
abbrev main_v376 : Ref sig .tc := ⟨.hbm, 439, rfl⟩
abbrev main_v377 : Ref sig .tc := ⟨.hbm, 440, rfl⟩
abbrev main_v378 : Ref sig .tc := ⟨.hbm, 441, rfl⟩
abbrev main_v379 : Ref sig .tc := ⟨.hbm, 442, rfl⟩
abbrev main_v380 : Ref sig .tc := ⟨.hbm, 443, rfl⟩
abbrev main_v381 : Ref sig .tc := ⟨.hbm, 444, rfl⟩
abbrev main_v382 : Ref sig .tc := ⟨.hbm, 445, rfl⟩
abbrev main_v383 : Ref sig .tc := ⟨.hbm, 446, rfl⟩
abbrev main_v384 : Ref sig .tc := ⟨.hbm, 447, rfl⟩
abbrev main_cst_45 : Ref sig .tc := ⟨.hbm, 448, rfl⟩
abbrev main_v385 : Ref sig .tc := ⟨.hbm, 449, rfl⟩
abbrev main_v386 : Ref sig .tc := ⟨.hbm, 450, rfl⟩
abbrev main_v387 : Ref sig .tc := ⟨.hbm, 451, rfl⟩
abbrev main_v388 : Ref sig .tc := ⟨.hbm, 452, rfl⟩
abbrev main_v389 : Ref sig .tc := ⟨.hbm, 453, rfl⟩
abbrev main_v390 : Ref sig .tc := ⟨.hbm, 454, rfl⟩
abbrev main_v391 : Ref sig .tc := ⟨.hbm, 455, rfl⟩
abbrev main_v392 : Ref sig .tc := ⟨.hbm, 456, rfl⟩
abbrev main_v393 : Ref sig .tc := ⟨.hbm, 457, rfl⟩
abbrev main_v394 : Ref sig .tc := ⟨.hbm, 458, rfl⟩
abbrev main_v395 : Ref sig .tc := ⟨.hbm, 459, rfl⟩
abbrev main_v396 : Ref sig .tc := ⟨.hbm, 460, rfl⟩
abbrev main_v397 : Ref sig .tc := ⟨.hbm, 461, rfl⟩
abbrev main_v398 : Ref sig .tc := ⟨.hbm, 462, rfl⟩
abbrev main_cst_46 : Ref sig .tc := ⟨.hbm, 463, rfl⟩
abbrev main_v399 : Ref sig .tc := ⟨.hbm, 464, rfl⟩
abbrev main_v400 : Ref sig .tc := ⟨.hbm, 465, rfl⟩
abbrev main_cst_47 : Ref sig .tc := ⟨.hbm, 466, rfl⟩
abbrev main_v401 : Ref sig .tc := ⟨.hbm, 467, rfl⟩
abbrev main_v402 : Ref sig .tc := ⟨.hbm, 468, rfl⟩
abbrev main_v403 : Ref sig .tc := ⟨.hbm, 469, rfl⟩
abbrev main_cst_48 : Ref sig .tc := ⟨.hbm, 470, rfl⟩
abbrev main_v404 : Ref sig .tc := ⟨.hbm, 471, rfl⟩
abbrev main_v405 : Ref sig .tc := ⟨.hbm, 472, rfl⟩
abbrev main_v406 : Ref sig .tc := ⟨.hbm, 473, rfl⟩
abbrev main_v407 : Ref sig .tc := ⟨.hbm, 474, rfl⟩
abbrev main_v408 : Ref sig .tc := ⟨.hbm, 475, rfl⟩
abbrev main_v409 : Ref sig .tc := ⟨.hbm, 476, rfl⟩
abbrev main_v410 : Ref sig .tc := ⟨.hbm, 477, rfl⟩
abbrev main_v411 : Ref sig .tc := ⟨.hbm, 478, rfl⟩
abbrev main_v412 : Ref sig .tc := ⟨.hbm, 479, rfl⟩
abbrev main_v413 : Ref sig .tc := ⟨.hbm, 480, rfl⟩
abbrev main_v414 : Ref sig .tc := ⟨.hbm, 481, rfl⟩
abbrev main_v415 : Ref sig .tc := ⟨.hbm, 482, rfl⟩
abbrev main_cst_49 : Ref sig .tc := ⟨.hbm, 483, rfl⟩
abbrev main_v416 : Ref sig .tc := ⟨.hbm, 484, rfl⟩
abbrev main_v417 : Ref sig .tc := ⟨.hbm, 485, rfl⟩
abbrev main_cst_50 : Ref sig .tc := ⟨.hbm, 486, rfl⟩
abbrev main_v418 : Ref sig .tc := ⟨.hbm, 487, rfl⟩
abbrev main_v419 : Ref sig .tc := ⟨.hbm, 488, rfl⟩
abbrev main_v420 : Ref sig .tc := ⟨.hbm, 489, rfl⟩
abbrev main_v421 : Ref sig .tc := ⟨.hbm, 490, rfl⟩
abbrev main_v422 : Ref sig .tc := ⟨.hbm, 491, rfl⟩
abbrev main_v423 : Ref sig .tc := ⟨.hbm, 492, rfl⟩
abbrev main_v424 : Ref sig .tc := ⟨.hbm, 493, rfl⟩
abbrev main_v425 : Ref sig .tc := ⟨.hbm, 494, rfl⟩
abbrev main_v426 : Ref sig .tc := ⟨.hbm, 495, rfl⟩
abbrev main_v427 : Ref sig .tc := ⟨.hbm, 496, rfl⟩
abbrev main_v428 : Ref sig .tc := ⟨.hbm, 497, rfl⟩
abbrev main_v429 : Ref sig .tc := ⟨.hbm, 498, rfl⟩
abbrev main_v430 : Ref sig .tc := ⟨.hbm, 499, rfl⟩
abbrev main_cst_51 : Ref sig .tc := ⟨.hbm, 500, rfl⟩
abbrev main_v431 : Ref sig .tc := ⟨.hbm, 501, rfl⟩
abbrev main_v432 : Ref sig .tc := ⟨.hbm, 502, rfl⟩
abbrev main_cst_52 : Ref sig .tc := ⟨.hbm, 503, rfl⟩
abbrev main_v433 : Ref sig .tc := ⟨.hbm, 504, rfl⟩
abbrev main_v434 : Ref sig .tc := ⟨.hbm, 505, rfl⟩
abbrev main_v435 : Ref sig .tc := ⟨.hbm, 506, rfl⟩
abbrev main_v436 : Ref sig .tc := ⟨.hbm, 507, rfl⟩
abbrev main_v437 : Ref sig .tc := ⟨.hbm, 508, rfl⟩
abbrev main_v438 : Ref sig .tc := ⟨.hbm, 509, rfl⟩
abbrev main_v439 : Ref sig .tc := ⟨.hbm, 510, rfl⟩
abbrev main_v440 : Ref sig .tc := ⟨.hbm, 511, rfl⟩
abbrev main_v441 : Ref sig .tc := ⟨.hbm, 512, rfl⟩
abbrev main_v442 : Ref sig .tc := ⟨.hbm, 513, rfl⟩
abbrev main_v443 : Ref sig .tc := ⟨.hbm, 514, rfl⟩
abbrev main_v444 : Ref sig .tc := ⟨.hbm, 515, rfl⟩
abbrev main_v445 : Ref sig .tc := ⟨.hbm, 516, rfl⟩
abbrev main_v446 : Ref sig .tc := ⟨.hbm, 517, rfl⟩
abbrev main_v447 : Ref sig .tc := ⟨.hbm, 518, rfl⟩
abbrev main_v448 : Ref sig .tc := ⟨.hbm, 519, rfl⟩
abbrev main_v449 : Ref sig .tc := ⟨.hbm, 520, rfl⟩
abbrev main_v450 : Ref sig .tc := ⟨.hbm, 521, rfl⟩
abbrev main_v451 : Ref sig .tc := ⟨.hbm, 522, rfl⟩
abbrev main_cst_53 : Ref sig .tc := ⟨.hbm, 523, rfl⟩
abbrev main_v452 : Ref sig .tc := ⟨.hbm, 524, rfl⟩
abbrev main_v453 : Ref sig .tc := ⟨.hbm, 525, rfl⟩
abbrev main_v454 : Ref sig .tc := ⟨.hbm, 526, rfl⟩
abbrev main_v455 : Ref sig .tc := ⟨.hbm, 527, rfl⟩
abbrev main_v456 : Ref sig .tc := ⟨.hbm, 528, rfl⟩
abbrev main_v457 : Ref sig .tc := ⟨.hbm, 529, rfl⟩
abbrev main_v458 : Ref sig .tc := ⟨.hbm, 530, rfl⟩
abbrev main_v459 : Ref sig .tc := ⟨.hbm, 531, rfl⟩
abbrev main_v460 : Ref sig .tc := ⟨.hbm, 532, rfl⟩
abbrev main_v461 : Ref sig .tc := ⟨.hbm, 533, rfl⟩
abbrev main_v462 : Ref sig .tc := ⟨.hbm, 534, rfl⟩
abbrev main_v463 : Ref sig .tc := ⟨.hbm, 535, rfl⟩
abbrev main_v464 : Ref sig .tc := ⟨.hbm, 536, rfl⟩
abbrev main_v465 : Ref sig .tc := ⟨.hbm, 537, rfl⟩
abbrev main_cst_54 : Ref sig .tc := ⟨.hbm, 538, rfl⟩
abbrev main_v466 : Ref sig .tc := ⟨.hbm, 539, rfl⟩
abbrev main_v467 : Ref sig .tc := ⟨.hbm, 540, rfl⟩
abbrev main_cst_55 : Ref sig .tc := ⟨.hbm, 541, rfl⟩
abbrev main_v468 : Ref sig .tc := ⟨.hbm, 542, rfl⟩
abbrev main_v469 : Ref sig .tc := ⟨.hbm, 543, rfl⟩
abbrev main_v470 : Ref sig .tc := ⟨.hbm, 544, rfl⟩
abbrev main_cst_56 : Ref sig .tc := ⟨.hbm, 545, rfl⟩
abbrev main_v471 : Ref sig .tc := ⟨.hbm, 546, rfl⟩
abbrev main_v472 : Ref sig .tc := ⟨.hbm, 547, rfl⟩
abbrev main_v473 : Ref sig .tc := ⟨.hbm, 548, rfl⟩
abbrev main_v474 : Ref sig .tc := ⟨.hbm, 549, rfl⟩
abbrev main_v475 : Ref sig .tc := ⟨.hbm, 550, rfl⟩
abbrev main_v476 : Ref sig .tc := ⟨.hbm, 551, rfl⟩
abbrev main_v477 : Ref sig .tc := ⟨.hbm, 552, rfl⟩
abbrev main_v478 : Ref sig .tc := ⟨.hbm, 553, rfl⟩
abbrev main_v479 : Ref sig .tc := ⟨.hbm, 554, rfl⟩
abbrev main_v480 : Ref sig .tc := ⟨.hbm, 555, rfl⟩
abbrev main_v481 : Ref sig .tc := ⟨.hbm, 556, rfl⟩
abbrev main_v482 : Ref sig .tc := ⟨.hbm, 557, rfl⟩
abbrev main_cst_57 : Ref sig .tc := ⟨.hbm, 558, rfl⟩
abbrev main_v483 : Ref sig .tc := ⟨.hbm, 559, rfl⟩
abbrev main_v484 : Ref sig .tc := ⟨.hbm, 560, rfl⟩
abbrev main_cst_58 : Ref sig .tc := ⟨.hbm, 561, rfl⟩
abbrev main_v485 : Ref sig .tc := ⟨.hbm, 562, rfl⟩
abbrev main_v486 : Ref sig .tc := ⟨.hbm, 563, rfl⟩
abbrev main_v487 : Ref sig .tc := ⟨.hbm, 564, rfl⟩
abbrev main_v488 : Ref sig .tc := ⟨.hbm, 565, rfl⟩
abbrev main_v489 : Ref sig .tc := ⟨.hbm, 566, rfl⟩
abbrev main_v490 : Ref sig .tc := ⟨.hbm, 567, rfl⟩
abbrev main_v491 : Ref sig .tc := ⟨.hbm, 568, rfl⟩
abbrev main_v492 : Ref sig .tc := ⟨.hbm, 569, rfl⟩
abbrev main_v493 : Ref sig .tc := ⟨.hbm, 570, rfl⟩
abbrev main_v494 : Ref sig .tc := ⟨.hbm, 571, rfl⟩
abbrev main_v495 : Ref sig .tc := ⟨.hbm, 572, rfl⟩
abbrev main_v496 : Ref sig .tc := ⟨.hbm, 573, rfl⟩
abbrev main_v497 : Ref sig .tc := ⟨.hbm, 574, rfl⟩
abbrev main_cst_59 : Ref sig .tc := ⟨.hbm, 575, rfl⟩
abbrev main_v498 : Ref sig .tc := ⟨.hbm, 576, rfl⟩
abbrev main_v499 : Ref sig .tc := ⟨.hbm, 577, rfl⟩
abbrev main_cst_60 : Ref sig .tc := ⟨.hbm, 578, rfl⟩
abbrev main_v500 : Ref sig .tc := ⟨.hbm, 579, rfl⟩
abbrev main_v501 : Ref sig .tc := ⟨.hbm, 580, rfl⟩
abbrev main_v502 : Ref sig .tc := ⟨.hbm, 581, rfl⟩
abbrev main_v503 : Ref sig .tc := ⟨.hbm, 582, rfl⟩
abbrev main_v504 : Ref sig .tc := ⟨.hbm, 583, rfl⟩
abbrev main_v505 : Ref sig .tc := ⟨.hbm, 584, rfl⟩
abbrev main_v506 : Ref sig .tc := ⟨.hbm, 585, rfl⟩
abbrev main_v507 : Ref sig .tc := ⟨.hbm, 586, rfl⟩
abbrev main_v508 : Ref sig .tc := ⟨.hbm, 587, rfl⟩
abbrev main_v509 : Ref sig .tc := ⟨.hbm, 588, rfl⟩
abbrev main_v510 : Ref sig .tc := ⟨.hbm, 589, rfl⟩
abbrev main_v511 : Ref sig .tc := ⟨.hbm, 590, rfl⟩
abbrev main_v512 : Ref sig .tc := ⟨.hbm, 591, rfl⟩
abbrev main_v513 : Ref sig .tc := ⟨.hbm, 592, rfl⟩
abbrev main_v514 : Ref sig .tc := ⟨.hbm, 593, rfl⟩
abbrev main_v515 : Ref sig .tc := ⟨.hbm, 594, rfl⟩
abbrev main_v516 : Ref sig .tc := ⟨.hbm, 595, rfl⟩
abbrev main_v517 : Ref sig .tc := ⟨.hbm, 596, rfl⟩
abbrev main_v518 : Ref sig .tc := ⟨.hbm, 597, rfl⟩
abbrev main_cst_61 : Ref sig .tc := ⟨.hbm, 598, rfl⟩
abbrev main_v519 : Ref sig .tc := ⟨.hbm, 599, rfl⟩
abbrev main_v520 : Ref sig .tc := ⟨.hbm, 600, rfl⟩
abbrev main_v521 : Ref sig .tc := ⟨.hbm, 601, rfl⟩
abbrev main_v522 : Ref sig .tc := ⟨.hbm, 602, rfl⟩
abbrev main_v523 : Ref sig .tc := ⟨.hbm, 603, rfl⟩
abbrev main_v524 : Ref sig .tc := ⟨.hbm, 604, rfl⟩
abbrev main_v525 : Ref sig .tc := ⟨.hbm, 605, rfl⟩
abbrev main_v526 : Ref sig .tc := ⟨.hbm, 606, rfl⟩
abbrev main_v527 : Ref sig .tc := ⟨.hbm, 607, rfl⟩
abbrev main_v528 : Ref sig .tc := ⟨.hbm, 608, rfl⟩
abbrev main_v529 : Ref sig .tc := ⟨.hbm, 609, rfl⟩
abbrev main_v530 : Ref sig .tc := ⟨.hbm, 610, rfl⟩
abbrev main_v531 : Ref sig .tc := ⟨.hbm, 611, rfl⟩
abbrev main_cst_62 : Ref sig .tc := ⟨.hbm, 612, rfl⟩
abbrev main_v532 : Ref sig .tc := ⟨.hbm, 613, rfl⟩
abbrev main_v533 : Ref sig .tc := ⟨.hbm, 614, rfl⟩
abbrev main_cst_63 : Ref sig .tc := ⟨.hbm, 615, rfl⟩
abbrev main_v534 : Ref sig .tc := ⟨.hbm, 616, rfl⟩
abbrev main_v535 : Ref sig .tc := ⟨.hbm, 617, rfl⟩
abbrev main_v536 : Ref sig .tc := ⟨.hbm, 618, rfl⟩
abbrev main_cst_64 : Ref sig .tc := ⟨.hbm, 619, rfl⟩
abbrev main_v537 : Ref sig .tc := ⟨.hbm, 620, rfl⟩
abbrev main_v538 : Ref sig .tc := ⟨.hbm, 621, rfl⟩
abbrev main_v539 : Ref sig .tc := ⟨.hbm, 622, rfl⟩
abbrev main_v540 : Ref sig .tc := ⟨.hbm, 623, rfl⟩
abbrev main_v541 : Ref sig .tc := ⟨.hbm, 624, rfl⟩
abbrev main_v542 : Ref sig .tc := ⟨.hbm, 625, rfl⟩
abbrev main_v543 : Ref sig .tc := ⟨.hbm, 626, rfl⟩
abbrev main_v544 : Ref sig .tc := ⟨.hbm, 627, rfl⟩
abbrev main_v545 : Ref sig .tc := ⟨.hbm, 628, rfl⟩
abbrev main_v546 : Ref sig .tc := ⟨.hbm, 629, rfl⟩
abbrev main_cst_65 : Ref sig .tc := ⟨.hbm, 630, rfl⟩
abbrev main_v547 : Ref sig .tc := ⟨.hbm, 631, rfl⟩
abbrev main_v548 : Ref sig .tc := ⟨.hbm, 632, rfl⟩
abbrev main_cst_66 : Ref sig .tc := ⟨.hbm, 633, rfl⟩
abbrev main_v549 : Ref sig .tc := ⟨.hbm, 634, rfl⟩
abbrev main_v550 : Ref sig .tc := ⟨.hbm, 635, rfl⟩
abbrev main_v551 : Ref sig .tc := ⟨.hbm, 636, rfl⟩
abbrev main_v552 : Ref sig .tc := ⟨.hbm, 637, rfl⟩
abbrev main_v553 : Ref sig .tc := ⟨.hbm, 638, rfl⟩
abbrev main_v554 : Ref sig .tc := ⟨.hbm, 639, rfl⟩
abbrev main_v555 : Ref sig .tc := ⟨.hbm, 640, rfl⟩
abbrev main_v556 : Ref sig .tc := ⟨.hbm, 641, rfl⟩
abbrev main_v557 : Ref sig .tc := ⟨.hbm, 642, rfl⟩
abbrev main_v558 : Ref sig .tc := ⟨.hbm, 643, rfl⟩
abbrev main_v559 : Ref sig .tc := ⟨.hbm, 644, rfl⟩
abbrev main_cst_67 : Ref sig .tc := ⟨.hbm, 645, rfl⟩
abbrev main_v560 : Ref sig .tc := ⟨.hbm, 646, rfl⟩
abbrev main_v561 : Ref sig .tc := ⟨.hbm, 647, rfl⟩
abbrev main_cst_68 : Ref sig .tc := ⟨.hbm, 648, rfl⟩
abbrev main_v562 : Ref sig .tc := ⟨.hbm, 649, rfl⟩
abbrev main_v563 : Ref sig .tc := ⟨.hbm, 650, rfl⟩
abbrev main_v564 : Ref sig .tc := ⟨.hbm, 651, rfl⟩
abbrev main_v565 : Ref sig .tc := ⟨.hbm, 652, rfl⟩
abbrev main_v566 : Ref sig .tc := ⟨.hbm, 653, rfl⟩
abbrev main_v567 : Ref sig .tc := ⟨.hbm, 654, rfl⟩
abbrev main_v568 : Ref sig .tc := ⟨.hbm, 655, rfl⟩
abbrev main_v569 : Ref sig .tc := ⟨.hbm, 656, rfl⟩
abbrev main_v570 : Ref sig .tc := ⟨.hbm, 657, rfl⟩
abbrev main_v571 : Ref sig .tc := ⟨.hbm, 658, rfl⟩
abbrev main_v572 : Ref sig .tc := ⟨.hbm, 659, rfl⟩
abbrev main_v573 : Ref sig .tc := ⟨.hbm, 660, rfl⟩
abbrev main_v574 : Ref sig .tc := ⟨.hbm, 661, rfl⟩
abbrev main_v575 : Ref sig .tc := ⟨.hbm, 662, rfl⟩
abbrev main_v576 : Ref sig .tc := ⟨.hbm, 663, rfl⟩

abbrev nD : Nat := 1
abbrev τ : Topo := Topo.v7x

variable {F : FTy → Type} [FloatOps F]

class Facts₀ : Prop where
  slices_S87381x300_S65536x300_0_0 : S87381x300.Slices ![0, 0] S65536x300
  bcast_S_S65536x150 : S_.BroadcastsInDim S65536x150 (![] : Fin 0 → Fin S65536x150.rank)
  bcast_S150_S1x150_1 : S150.BroadcastsInDim S1x150 (![1] : Fin 1 → Fin S1x150.rank)
  bcast_S1x150_S65536x150_0_1 : S1x150.BroadcastsInDim S65536x150 (![0, 1] : Fin 2 → Fin S65536x150.rank)
  slices_S87381x300_S16384x300_65536_0 : S87381x300.Slices ![65536, 0] S16384x300
  shapeCasts_S65536x150_S16384x4x150 : S65536x150.ShapeCasts S16384x4x150
  reducesTo_S16384x4x150_S16384x150_d1 : S16384x4x150.ReducesTo [1] S16384x150
  h_S_ : 0 < S_.numel
  bcast_S150_S1x1x150_2 : S150.BroadcastsInDim S1x1x150 (![2] : Fin 1 → Fin S1x1x150.rank)
  bcast_S1x1x150_S16384x4x150_0_1_2 : S1x1x150.BroadcastsInDim S16384x4x150 (![0, 1, 2] : Fin 3 → Fin S16384x4x150.rank)
  bcast_S1x150_S16384x150_0_1 : S1x150.BroadcastsInDim S16384x150 (![0, 1] : Fin 2 → Fin S16384x150.rank)
  bcast_S16384x150_S16384x1x150_0_2 : S16384x150.BroadcastsInDim S16384x1x150 (![0, 2] : Fin 2 → Fin S16384x1x150.rank)
  bcast_S16384x1x150_S16384x4x150_0_1_2 : S16384x1x150.BroadcastsInDim S16384x4x150 (![0, 1, 2] : Fin 3 → Fin S16384x4x150.rank)
  bcast_S_S16384x4x150 : S_.BroadcastsInDim S16384x4x150 (![] : Fin 0 → Fin S16384x4x150.rank)
  bcast_S_S16384x150 : S_.BroadcastsInDim S16384x150 (![] : Fin 0 → Fin S16384x150.rank)
  slices_S87381x300_S4096x300_81920_0 : S87381x300.Slices ![81920, 0] S4096x300
  shapeCasts_S16384x150_S4096x4x150 : S16384x150.ShapeCasts S4096x4x150
  reducesTo_S4096x4x150_S4096x150_d1 : S4096x4x150.ReducesTo [1] S4096x150
  bcast_S1x1x150_S4096x4x150_0_1_2 : S1x1x150.BroadcastsInDim S4096x4x150 (![0, 1, 2] : Fin 3 → Fin S4096x4x150.rank)
  bcast_S1x150_S4096x150_0_1 : S1x150.BroadcastsInDim S4096x150 (![0, 1] : Fin 2 → Fin S4096x150.rank)
  bcast_S4096x150_S4096x1x150_0_2 : S4096x150.BroadcastsInDim S4096x1x150 (![0, 2] : Fin 2 → Fin S4096x1x150.rank)
  bcast_S4096x1x150_S4096x4x150_0_1_2 : S4096x1x150.BroadcastsInDim S4096x4x150 (![0, 1, 2] : Fin 3 → Fin S4096x4x150.rank)
  bcast_S_S4096x4x150 : S_.BroadcastsInDim S4096x4x150 (![] : Fin 0 → Fin S4096x4x150.rank)
  bcast_S_S4096x150 : S_.BroadcastsInDim S4096x150 (![] : Fin 0 → Fin S4096x150.rank)
  slices_S87381x300_S1024x300_86016_0 : S87381x300.Slices ![86016, 0] S1024x300
  shapeCasts_S4096x150_S1024x4x150 : S4096x150.ShapeCasts S1024x4x150
  reducesTo_S1024x4x150_S1024x150_d1 : S1024x4x150.ReducesTo [1] S1024x150
  bcast_S1x1x150_S1024x4x150_0_1_2 : S1x1x150.BroadcastsInDim S1024x4x150 (![0, 1, 2] : Fin 3 → Fin S1024x4x150.rank)
  bcast_S1x150_S1024x150_0_1 : S1x150.BroadcastsInDim S1024x150 (![0, 1] : Fin 2 → Fin S1024x150.rank)
  bcast_S1024x150_S1024x1x150_0_2 : S1024x150.BroadcastsInDim S1024x1x150 (![0, 2] : Fin 2 → Fin S1024x1x150.rank)
  bcast_S1024x1x150_S1024x4x150_0_1_2 : S1024x1x150.BroadcastsInDim S1024x4x150 (![0, 1, 2] : Fin 3 → Fin S1024x4x150.rank)
  bcast_S_S1024x4x150 : S_.BroadcastsInDim S1024x4x150 (![] : Fin 0 → Fin S1024x4x150.rank)
  bcast_S_S1024x150 : S_.BroadcastsInDim S1024x150 (![] : Fin 0 → Fin S1024x150.rank)
  slices_S87381x300_S256x300_87040_0 : S87381x300.Slices ![87040, 0] S256x300
  shapeCasts_S1024x150_S256x4x150 : S1024x150.ShapeCasts S256x4x150
  reducesTo_S256x4x150_S256x150_d1 : S256x4x150.ReducesTo [1] S256x150
  bcast_S1x1x150_S256x4x150_0_1_2 : S1x1x150.BroadcastsInDim S256x4x150 (![0, 1, 2] : Fin 3 → Fin S256x4x150.rank)
  bcast_S1x150_S256x150_0_1 : S1x150.BroadcastsInDim S256x150 (![0, 1] : Fin 2 → Fin S256x150.rank)
  bcast_S256x150_S256x1x150_0_2 : S256x150.BroadcastsInDim S256x1x150 (![0, 2] : Fin 2 → Fin S256x1x150.rank)
  bcast_S256x1x150_S256x4x150_0_1_2 : S256x1x150.BroadcastsInDim S256x4x150 (![0, 1, 2] : Fin 3 → Fin S256x4x150.rank)
  bcast_S_S256x4x150 : S_.BroadcastsInDim S256x4x150 (![] : Fin 0 → Fin S256x4x150.rank)
  bcast_S_S256x150 : S_.BroadcastsInDim S256x150 (![] : Fin 0 → Fin S256x150.rank)
  slices_S87381x300_S64x300_87296_0 : S87381x300.Slices ![87296, 0] S64x300
  shapeCasts_S256x150_S64x4x150 : S256x150.ShapeCasts S64x4x150
  reducesTo_S64x4x150_S64x150_d1 : S64x4x150.ReducesTo [1] S64x150
  bcast_S1x1x150_S64x4x150_0_1_2 : S1x1x150.BroadcastsInDim S64x4x150 (![0, 1, 2] : Fin 3 → Fin S64x4x150.rank)
  bcast_S1x150_S64x150_0_1 : S1x150.BroadcastsInDim S64x150 (![0, 1] : Fin 2 → Fin S64x150.rank)
  bcast_S64x150_S64x1x150_0_2 : S64x150.BroadcastsInDim S64x1x150 (![0, 2] : Fin 2 → Fin S64x1x150.rank)
  bcast_S64x1x150_S64x4x150_0_1_2 : S64x1x150.BroadcastsInDim S64x4x150 (![0, 1, 2] : Fin 3 → Fin S64x4x150.rank)
  bcast_S_S64x4x150 : S_.BroadcastsInDim S64x4x150 (![] : Fin 0 → Fin S64x4x150.rank)
  bcast_S_S64x150 : S_.BroadcastsInDim S64x150 (![] : Fin 0 → Fin S64x150.rank)
  slices_S87381x300_S16x300_87360_0 : S87381x300.Slices ![87360, 0] S16x300
  shapeCasts_S64x150_S16x4x150 : S64x150.ShapeCasts S16x4x150
  reducesTo_S16x4x150_S16x150_d1 : S16x4x150.ReducesTo [1] S16x150
  bcast_S1x1x150_S16x4x150_0_1_2 : S1x1x150.BroadcastsInDim S16x4x150 (![0, 1, 2] : Fin 3 → Fin S16x4x150.rank)
  bcast_S1x150_S16x150_0_1 : S1x150.BroadcastsInDim S16x150 (![0, 1] : Fin 2 → Fin S16x150.rank)
  bcast_S16x150_S16x1x150_0_2 : S16x150.BroadcastsInDim S16x1x150 (![0, 2] : Fin 2 → Fin S16x1x150.rank)
  bcast_S16x1x150_S16x4x150_0_1_2 : S16x1x150.BroadcastsInDim S16x4x150 (![0, 1, 2] : Fin 3 → Fin S16x4x150.rank)
  bcast_S_S16x4x150 : S_.BroadcastsInDim S16x4x150 (![] : Fin 0 → Fin S16x4x150.rank)
  bcast_S_S16x150 : S_.BroadcastsInDim S16x150 (![] : Fin 0 → Fin S16x150.rank)
  slices_S87381x300_S4x300_87376_0 : S87381x300.Slices ![87376, 0] S4x300
  shapeCasts_S16x150_S4x4x150 : S16x150.ShapeCasts S4x4x150
  reducesTo_S4x4x150_S4x150_d1 : S4x4x150.ReducesTo [1] S4x150
  bcast_S1x1x150_S4x4x150_0_1_2 : S1x1x150.BroadcastsInDim S4x4x150 (![0, 1, 2] : Fin 3 → Fin S4x4x150.rank)
  bcast_S1x150_S4x150_0_1 : S1x150.BroadcastsInDim S4x150 (![0, 1] : Fin 2 → Fin S4x150.rank)
  bcast_S4x150_S4x1x150_0_2 : S4x150.BroadcastsInDim S4x1x150 (![0, 2] : Fin 2 → Fin S4x1x150.rank)
  bcast_S4x1x150_S4x4x150_0_1_2 : S4x1x150.BroadcastsInDim S4x4x150 (![0, 1, 2] : Fin 3 → Fin S4x4x150.rank)
  bcast_S_S4x4x150 : S_.BroadcastsInDim S4x4x150 (![] : Fin 0 → Fin S4x4x150.rank)
  bcast_S_S4x150 : S_.BroadcastsInDim S4x150 (![] : Fin 0 → Fin S4x150.rank)
  slices_S87381x300_S1x300_87380_0 : S87381x300.Slices ![87380, 0] S1x300
  shapeCasts_S4x150_S1x4x150 : S4x150.ShapeCasts S1x4x150
  reducesTo_S1x4x150_S1x150_d1 : S1x4x150.ReducesTo [1] S1x150
  bcast_S1x1x150_S1x4x150_0_1_2 : S1x1x150.BroadcastsInDim S1x4x150 (![0, 1, 2] : Fin 3 → Fin S1x4x150.rank)
  bcast_S1x150_S1x1x150_0_2 : S1x150.BroadcastsInDim S1x1x150 (![0, 2] : Fin 2 → Fin S1x1x150.rank)
  bcast_S_S1x4x150 : S_.BroadcastsInDim S1x4x150 (![] : Fin 0 → Fin S1x4x150.rank)
  bcast_S_S1x150 : S_.BroadcastsInDim S1x150 (![] : Fin 0 → Fin S1x150.rank)
  concatenates_S65536x150_S16384x150_S4096x150_S1024x150_S256x150_S64x150_S16x150_S4x150_S1x150_S87381x150_d0 : Shape.Concatenates [S65536x150, S16384x150, S4096x150, S1024x150, S256x150, S64x150, S16x150, S4x150, S1x150] S87381x150 0
  dot_S65536x300_S300x150_S65536x150_1_0_0_1_n_n_wf : DotDims.WF S65536x300 S300x150 S65536x150 [1] [0] [0] [1] [] []
  dot_S65536x150_S150x150_S65536x150_1_0_0_1_n_n_wf : DotDims.WF S65536x150 S150x150 S65536x150 [1] [0] [0] [1] [] []
  dot_S16384x4x150_S150x150_S16384x4x150_2_0_01_1_n_n_wf : DotDims.WF S16384x4x150 S150x150 S16384x4x150 [2] [0] [0, 1] [1] [] []
  dot_S16384x300_S300x150_S16384x150_1_0_0_1_n_n_wf : DotDims.WF S16384x300 S300x150 S16384x150 [1] [0] [0] [1] [] []
  dot_S16384x150_S150x150_S16384x150_1_0_0_1_n_n_wf : DotDims.WF S16384x150 S150x150 S16384x150 [1] [0] [0] [1] [] []
  dot_S4096x4x150_S150x150_S4096x4x150_2_0_01_1_n_n_wf : DotDims.WF S4096x4x150 S150x150 S4096x4x150 [2] [0] [0, 1] [1] [] []
  dot_S4096x300_S300x150_S4096x150_1_0_0_1_n_n_wf : DotDims.WF S4096x300 S300x150 S4096x150 [1] [0] [0] [1] [] []
  dot_S4096x150_S150x150_S4096x150_1_0_0_1_n_n_wf : DotDims.WF S4096x150 S150x150 S4096x150 [1] [0] [0] [1] [] []
  dot_S1024x4x150_S150x150_S1024x4x150_2_0_01_1_n_n_wf : DotDims.WF S1024x4x150 S150x150 S1024x4x150 [2] [0] [0, 1] [1] [] []
  dot_S1024x300_S300x150_S1024x150_1_0_0_1_n_n_wf : DotDims.WF S1024x300 S300x150 S1024x150 [1] [0] [0] [1] [] []
  dot_S1024x150_S150x150_S1024x150_1_0_0_1_n_n_wf : DotDims.WF S1024x150 S150x150 S1024x150 [1] [0] [0] [1] [] []
  dot_S256x4x150_S150x150_S256x4x150_2_0_01_1_n_n_wf : DotDims.WF S256x4x150 S150x150 S256x4x150 [2] [0] [0, 1] [1] [] []
  dot_S256x300_S300x150_S256x150_1_0_0_1_n_n_wf : DotDims.WF S256x300 S300x150 S256x150 [1] [0] [0] [1] [] []
  dot_S256x150_S150x150_S256x150_1_0_0_1_n_n_wf : DotDims.WF S256x150 S150x150 S256x150 [1] [0] [0] [1] [] []
  dot_S64x4x150_S150x150_S64x4x150_2_0_01_1_n_n_wf : DotDims.WF S64x4x150 S150x150 S64x4x150 [2] [0] [0, 1] [1] [] []
  dot_S64x300_S300x150_S64x150_1_0_0_1_n_n_wf : DotDims.WF S64x300 S300x150 S64x150 [1] [0] [0] [1] [] []
  dot_S64x150_S150x150_S64x150_1_0_0_1_n_n_wf : DotDims.WF S64x150 S150x150 S64x150 [1] [0] [0] [1] [] []
  dot_S16x4x150_S150x150_S16x4x150_2_0_01_1_n_n_wf : DotDims.WF S16x4x150 S150x150 S16x4x150 [2] [0] [0, 1] [1] [] []
  dot_S16x300_S300x150_S16x150_1_0_0_1_n_n_wf : DotDims.WF S16x300 S300x150 S16x150 [1] [0] [0] [1] [] []
  dot_S16x150_S150x150_S16x150_1_0_0_1_n_n_wf : DotDims.WF S16x150 S150x150 S16x150 [1] [0] [0] [1] [] []
  dot_S4x4x150_S150x150_S4x4x150_2_0_01_1_n_n_wf : DotDims.WF S4x4x150 S150x150 S4x4x150 [2] [0] [0, 1] [1] [] []
  dot_S4x300_S300x150_S4x150_1_0_0_1_n_n_wf : DotDims.WF S4x300 S300x150 S4x150 [1] [0] [0] [1] [] []
  dot_S4x150_S150x150_S4x150_1_0_0_1_n_n_wf : DotDims.WF S4x150 S150x150 S4x150 [1] [0] [0] [1] [] []
  dot_S1x4x150_S150x150_S1x4x150_2_0_01_1_n_n_wf : DotDims.WF S1x4x150 S150x150 S1x4x150 [2] [0] [0, 1] [1] [] []
  dot_S1x300_S300x150_S1x150_1_0_0_1_n_n_wf : DotDims.WF S1x300 S300x150 S1x150 [1] [0] [0] [1] [] []
  dot_S1x150_S150x150_S1x150_1_0_0_1_n_n_wf : DotDims.WF S1x150 S150x150 S1x150 [1] [0] [0] [1] [] []

variable [Facts₀]

def dot_S65536x300_S300x150_S65536x150_1_0_0_1_n_n : DotDims S65536x300 S300x150 S65536x150 where
  lhsContracting := [1]
  rhsContracting := [0]
  lhsNonContracting := [0]
  rhsNonContracting := [1]
  lhsBatch := []
  rhsBatch := []
  wf := dot_S65536x300_S300x150_S65536x150_1_0_0_1_n_n_wf
def dot_S65536x150_S150x150_S65536x150_1_0_0_1_n_n : DotDims S65536x150 S150x150 S65536x150 where
  lhsContracting := [1]
  rhsContracting := [0]
  lhsNonContracting := [0]
  rhsNonContracting := [1]
  lhsBatch := []
  rhsBatch := []
  wf := dot_S65536x150_S150x150_S65536x150_1_0_0_1_n_n_wf
def dot_S16384x4x150_S150x150_S16384x4x150_2_0_01_1_n_n : DotDims S16384x4x150 S150x150 S16384x4x150 where
  lhsContracting := [2]
  rhsContracting := [0]
  lhsNonContracting := [0, 1]
  rhsNonContracting := [1]
  lhsBatch := []
  rhsBatch := []
  wf := dot_S16384x4x150_S150x150_S16384x4x150_2_0_01_1_n_n_wf
def dot_S16384x300_S300x150_S16384x150_1_0_0_1_n_n : DotDims S16384x300 S300x150 S16384x150 where
  lhsContracting := [1]
  rhsContracting := [0]
  lhsNonContracting := [0]
  rhsNonContracting := [1]
  lhsBatch := []
  rhsBatch := []
  wf := dot_S16384x300_S300x150_S16384x150_1_0_0_1_n_n_wf
def dot_S16384x150_S150x150_S16384x150_1_0_0_1_n_n : DotDims S16384x150 S150x150 S16384x150 where
  lhsContracting := [1]
  rhsContracting := [0]
  lhsNonContracting := [0]
  rhsNonContracting := [1]
  lhsBatch := []
  rhsBatch := []
  wf := dot_S16384x150_S150x150_S16384x150_1_0_0_1_n_n_wf
def dot_S4096x4x150_S150x150_S4096x4x150_2_0_01_1_n_n : DotDims S4096x4x150 S150x150 S4096x4x150 where
  lhsContracting := [2]
  rhsContracting := [0]
  lhsNonContracting := [0, 1]
  rhsNonContracting := [1]
  lhsBatch := []
  rhsBatch := []
  wf := dot_S4096x4x150_S150x150_S4096x4x150_2_0_01_1_n_n_wf
def dot_S4096x300_S300x150_S4096x150_1_0_0_1_n_n : DotDims S4096x300 S300x150 S4096x150 where
  lhsContracting := [1]
  rhsContracting := [0]
  lhsNonContracting := [0]
  rhsNonContracting := [1]
  lhsBatch := []
  rhsBatch := []
  wf := dot_S4096x300_S300x150_S4096x150_1_0_0_1_n_n_wf
def dot_S4096x150_S150x150_S4096x150_1_0_0_1_n_n : DotDims S4096x150 S150x150 S4096x150 where
  lhsContracting := [1]
  rhsContracting := [0]
  lhsNonContracting := [0]
  rhsNonContracting := [1]
  lhsBatch := []
  rhsBatch := []
  wf := dot_S4096x150_S150x150_S4096x150_1_0_0_1_n_n_wf
def dot_S1024x4x150_S150x150_S1024x4x150_2_0_01_1_n_n : DotDims S1024x4x150 S150x150 S1024x4x150 where
  lhsContracting := [2]
  rhsContracting := [0]
  lhsNonContracting := [0, 1]
  rhsNonContracting := [1]
  lhsBatch := []
  rhsBatch := []
  wf := dot_S1024x4x150_S150x150_S1024x4x150_2_0_01_1_n_n_wf
def dot_S1024x300_S300x150_S1024x150_1_0_0_1_n_n : DotDims S1024x300 S300x150 S1024x150 where
  lhsContracting := [1]
  rhsContracting := [0]
  lhsNonContracting := [0]
  rhsNonContracting := [1]
  lhsBatch := []
  rhsBatch := []
  wf := dot_S1024x300_S300x150_S1024x150_1_0_0_1_n_n_wf
def dot_S1024x150_S150x150_S1024x150_1_0_0_1_n_n : DotDims S1024x150 S150x150 S1024x150 where
  lhsContracting := [1]
  rhsContracting := [0]
  lhsNonContracting := [0]
  rhsNonContracting := [1]
  lhsBatch := []
  rhsBatch := []
  wf := dot_S1024x150_S150x150_S1024x150_1_0_0_1_n_n_wf
def dot_S256x4x150_S150x150_S256x4x150_2_0_01_1_n_n : DotDims S256x4x150 S150x150 S256x4x150 where
  lhsContracting := [2]
  rhsContracting := [0]
  lhsNonContracting := [0, 1]
  rhsNonContracting := [1]
  lhsBatch := []
  rhsBatch := []
  wf := dot_S256x4x150_S150x150_S256x4x150_2_0_01_1_n_n_wf
def dot_S256x300_S300x150_S256x150_1_0_0_1_n_n : DotDims S256x300 S300x150 S256x150 where
  lhsContracting := [1]
  rhsContracting := [0]
  lhsNonContracting := [0]
  rhsNonContracting := [1]
  lhsBatch := []
  rhsBatch := []
  wf := dot_S256x300_S300x150_S256x150_1_0_0_1_n_n_wf
def dot_S256x150_S150x150_S256x150_1_0_0_1_n_n : DotDims S256x150 S150x150 S256x150 where
  lhsContracting := [1]
  rhsContracting := [0]
  lhsNonContracting := [0]
  rhsNonContracting := [1]
  lhsBatch := []
  rhsBatch := []
  wf := dot_S256x150_S150x150_S256x150_1_0_0_1_n_n_wf
def dot_S64x4x150_S150x150_S64x4x150_2_0_01_1_n_n : DotDims S64x4x150 S150x150 S64x4x150 where
  lhsContracting := [2]
  rhsContracting := [0]
  lhsNonContracting := [0, 1]
  rhsNonContracting := [1]
  lhsBatch := []
  rhsBatch := []
  wf := dot_S64x4x150_S150x150_S64x4x150_2_0_01_1_n_n_wf
def dot_S64x300_S300x150_S64x150_1_0_0_1_n_n : DotDims S64x300 S300x150 S64x150 where
  lhsContracting := [1]
  rhsContracting := [0]
  lhsNonContracting := [0]
  rhsNonContracting := [1]
  lhsBatch := []
  rhsBatch := []
  wf := dot_S64x300_S300x150_S64x150_1_0_0_1_n_n_wf
def dot_S64x150_S150x150_S64x150_1_0_0_1_n_n : DotDims S64x150 S150x150 S64x150 where
  lhsContracting := [1]
  rhsContracting := [0]
  lhsNonContracting := [0]
  rhsNonContracting := [1]
  lhsBatch := []
  rhsBatch := []
  wf := dot_S64x150_S150x150_S64x150_1_0_0_1_n_n_wf
def dot_S16x4x150_S150x150_S16x4x150_2_0_01_1_n_n : DotDims S16x4x150 S150x150 S16x4x150 where
  lhsContracting := [2]
  rhsContracting := [0]
  lhsNonContracting := [0, 1]
  rhsNonContracting := [1]
  lhsBatch := []
  rhsBatch := []
  wf := dot_S16x4x150_S150x150_S16x4x150_2_0_01_1_n_n_wf
def dot_S16x300_S300x150_S16x150_1_0_0_1_n_n : DotDims S16x300 S300x150 S16x150 where
  lhsContracting := [1]
  rhsContracting := [0]
  lhsNonContracting := [0]
  rhsNonContracting := [1]
  lhsBatch := []
  rhsBatch := []
  wf := dot_S16x300_S300x150_S16x150_1_0_0_1_n_n_wf
def dot_S16x150_S150x150_S16x150_1_0_0_1_n_n : DotDims S16x150 S150x150 S16x150 where
  lhsContracting := [1]
  rhsContracting := [0]
  lhsNonContracting := [0]
  rhsNonContracting := [1]
  lhsBatch := []
  rhsBatch := []
  wf := dot_S16x150_S150x150_S16x150_1_0_0_1_n_n_wf
def dot_S4x4x150_S150x150_S4x4x150_2_0_01_1_n_n : DotDims S4x4x150 S150x150 S4x4x150 where
  lhsContracting := [2]
  rhsContracting := [0]
  lhsNonContracting := [0, 1]
  rhsNonContracting := [1]
  lhsBatch := []
  rhsBatch := []
  wf := dot_S4x4x150_S150x150_S4x4x150_2_0_01_1_n_n_wf
def dot_S4x300_S300x150_S4x150_1_0_0_1_n_n : DotDims S4x300 S300x150 S4x150 where
  lhsContracting := [1]
  rhsContracting := [0]
  lhsNonContracting := [0]
  rhsNonContracting := [1]
  lhsBatch := []
  rhsBatch := []
  wf := dot_S4x300_S300x150_S4x150_1_0_0_1_n_n_wf
def dot_S4x150_S150x150_S4x150_1_0_0_1_n_n : DotDims S4x150 S150x150 S4x150 where
  lhsContracting := [1]
  rhsContracting := [0]
  lhsNonContracting := [0]
  rhsNonContracting := [1]
  lhsBatch := []
  rhsBatch := []
  wf := dot_S4x150_S150x150_S4x150_1_0_0_1_n_n_wf
def dot_S1x4x150_S150x150_S1x4x150_2_0_01_1_n_n : DotDims S1x4x150 S150x150 S1x4x150 where
  lhsContracting := [2]
  rhsContracting := [0]
  lhsNonContracting := [0, 1]
  rhsNonContracting := [1]
  lhsBatch := []
  rhsBatch := []
  wf := dot_S1x4x150_S150x150_S1x4x150_2_0_01_1_n_n_wf
def dot_S1x300_S300x150_S1x150_1_0_0_1_n_n : DotDims S1x300 S300x150 S1x150 where
  lhsContracting := [1]
  rhsContracting := [0]
  lhsNonContracting := [0]
  rhsNonContracting := [1]
  lhsBatch := []
  rhsBatch := []
  wf := dot_S1x300_S300x150_S1x150_1_0_0_1_n_n_wf
def dot_S1x150_S150x150_S1x150_1_0_0_1_n_n : DotDims S1x150 S150x150 S1x150 where
  lhsContracting := [1]
  rhsContracting := [0]
  lhsNonContracting := [0]
  rhsNonContracting := [1]
  lhsBatch := []
  rhsBatch := []
  wf := dot_S1x150_S150x150_S1x150_1_0_0_1_n_n_wf

class Facts : Prop extends Facts₀ where

variable [Facts]
-- ==== Proof.KBRegion0.lean ====
/-
  Region 0 of the program (the leaf level), at any contents V of the buffers when the region is entered.
  A window's block at a grid point is the part of its array the point's index map selects. The body reads every input
  block whole, and writes each of its two output blocks whole and once: the hidden states, then the memory cells, each a
  pure function of the input blocks. So after the body each input's staging buffer still holds its block and each
  output's holds that function of the input blocks; this is the step the pipeline's launch theorem asks of a body.
-/
import proofs.«167239_j63453846831535_1_alg».proof.Proof.Gen.Kernel.Launch
import proofs.«167239_j63453846831535_1_alg».proof.Proof.Gen.Kernel.Skeleton
import proofs.«167239_j63453846831535_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Tree

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the point fetched it or an
    earlier one did (its index has not moved since), for any proof data over these arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the point fetched it or an
    earlier one did (its index has not moved since), for any proof data over these arrays whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the point fetched it or an
    earlier one did (its index has not moved since), for any proof data over these arrays whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether the point fetched it or an
    earlier one did (its index has not moved since), for any proof data over these arrays whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, whether the point fetched it or an
    earlier one did (its index has not moved since), for any proof data over these arrays whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, whether the point fetched it or an
    earlier one did (its index has not moved since), for any proof data over these arrays whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, whether the point fetched it or an
    earlier one did (its index has not moved since), for any proof data over these arrays whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, whether the point fetched it or an
    earlier one did (its index has not moved since), for any proof data over these arrays whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, whether the point fetched it or an
    earlier one did (its index has not moved since), for any proof data over these arrays whose body leaves the block in place. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9's current staging buffer holds its block at every point, whether the point fetched it or an
    earlier one did (its index has not moved since), for any proof data over these arrays whose body leaves the block in place. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is through a buffer's whole rectangle -/

abbrev r0_S2048x300 : Rect S2048x300 := Rect.unit (s := S2048x300) ![0, 0] S2048x300.size inb_S2048x300_S2048x300_0_0
abbrev r0_S300x150 : Rect S300x150 := Rect.unit (s := S300x150) ![0, 0] S300x150.size inb_S300x150_S300x150_0_0
abbrev r0_S1x150 : Rect S1x150 := Rect.unit (s := S1x150) ![0, 0] S1x150.size inb_S1x150_S1x150_0_0
abbrev r0_S2048x150 : Rect S2048x150 := Rect.unit (s := S2048x150) ![0, 0] S2048x150.size inb_S2048x150_S2048x150_0_0

/-! ## What the body leaves in each output window's buffer -/

/-- Output window 10's staging buffer after the body (the hidden states), from the input windows' blocks. -/
def out0_10 (x0 : Vec F S2048x300 .f32) (x1 : Vec F S300x150 .f32) (x2 : Vec F S1x150 .f32) (x3 : Vec F S300x150 .f32) (x4 : Vec F S1x150 .f32) (x5 : Vec F S300x150 .f32) (x6 : Vec F S1x150 .f32) (x7 : Vec F S1x150 .f32) (x8 : Vec F S1x150 .f32) (x9 : Vec F S1x150 .f32) : Vec F S2048x150 .f32 :=
  View.canon [⟨r0_S2048x150, k0_pay2 (k0_pay4 (View.ld x0 r0_S2048x300) (View.ld x1 r0_S300x150) (View.ld x2 r0_S1x150) (View.ld x7 r0_S1x150)) (k0_pay5 (View.ld x0 r0_S2048x300) (View.ld x5 r0_S300x150) (View.ld x6 r0_S1x150) (View.ld x9 r0_S1x150)) (k0_pay6 (View.ld x0 r0_S2048x300) (View.ld x3 r0_S300x150) (View.ld x4 r0_S1x150)) (k0_pay7 (View.ld x8 r0_S1x150))⟩]

/-- Its one store is through the whole rectangle, so it covers the buffer. -/
theorem cover0_10 (p0 : Vec F S2048x150 .f32) (y : S2048x150.Idx) :
    ∃ pc ∈ ([⟨r0_S2048x150, p0⟩] : List (View.Piece (Elt F) S2048x150 .f32)), y ∈ pc.1.set :=
  View.cover_of_tiled [⟨r0_S2048x150, p0⟩] S2048x150.size (by rfl) y

/-- Output window 11's staging buffer after the body (the memory cells), from the input windows' blocks. -/
def out0_11 (x0 : Vec F S2048x300 .f32) (x1 : Vec F S300x150 .f32) (x2 : Vec F S1x150 .f32) (x3 : Vec F S300x150 .f32) (x4 : Vec F S1x150 .f32) (x5 : Vec F S300x150 .f32) (x6 : Vec F S1x150 .f32) (x7 : Vec F S1x150 .f32) (x8 : Vec F S1x150 .f32) (x9 : Vec F S1x150 .f32) : Vec F S2048x150 .f32 :=
  View.canon [⟨r0_S2048x150, k0_pay1 (k0_pay4 (View.ld x0 r0_S2048x300) (View.ld x1 r0_S300x150) (View.ld x2 r0_S1x150) (View.ld x7 r0_S1x150)) (k0_pay6 (View.ld x0 r0_S2048x300) (View.ld x3 r0_S300x150) (View.ld x4 r0_S1x150)) (k0_pay7 (View.ld x8 r0_S1x150))⟩]

/-- Its one store is through the whole rectangle, so it covers the buffer. -/
theorem cover0_11 (p0 : Vec F S2048x150 .f32) (y : S2048x150.Idx) :
    ∃ pc ∈ ([⟨r0_S2048x150, p0⟩] : List (View.Piece (Elt F) S2048x150 .f32)), y ∈ pc.1.set :=
  View.cover_of_tiled [⟨r0_S2048x150, p0⟩] S2048x150.size (by rfl) y

/-! ## The body's triple -/

set_option maxHeartbeats 4000000 in
/-- The kernel body on whole staging memrefs, the inputs' at contents xW and the outputs' at anything, runs to a
    continuation that holds the inputs' as they were and each output's at its function of the inputs'. -/
theorem sound_kernel0 (c : Dev nD) (E : Set ℕ) (i : grid0.Coords) (arg1 : Memref sig .tc .vmem S2048x300 .f32) (harg1 : arg1.IsWhole) (arg2 : Memref sig .tc .vmem S300x150 .f32) (harg2 : arg2.IsWhole) (arg3 : Memref sig .tc .vmem S1x150 .f32) (harg3 : arg3.IsWhole) (arg4 : Memref sig .tc .vmem S300x150 .f32) (harg4 : arg4.IsWhole) (arg5 : Memref sig .tc .vmem S1x150 .f32) (harg5 : arg5.IsWhole) (arg6 : Memref sig .tc .vmem S300x150 .f32) (harg6 : arg6.IsWhole) (arg7 : Memref sig .tc .vmem S1x150 .f32) (harg7 : arg7.IsWhole) (arg8 : Memref sig .tc .vmem S1x150 .f32) (harg8 : arg8.IsWhole) (arg9 : Memref sig .tc .vmem S1x150 .f32) (harg9 : arg9.IsWhole) (arg10 : Memref sig .tc .vmem S1x150 .f32) (harg10 : arg10.IsWhole) (arg11 : Memref sig .tc .vmem S2048x150 .f32) (harg11 : arg11.IsWhole) (arg12 : Memref sig .tc .vmem S2048x150 .f32) (harg12 : arg12.IsWhole)
    (x0 : Vec F S2048x300 .f32) (x1 : Vec F S300x150 .f32) (x2 : Vec F S1x150 .f32) (x3 : Vec F S300x150 .f32) (x4 : Vec F S1x150 .f32) (x5 : Vec F S300x150 .f32) (x6 : Vec F S1x150 .f32) (x7 : Vec F S1x150 .f32) (x8 : Vec F S1x150 .f32) (x9 : Vec F S1x150 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out0_10 x0 x1 x2 x3 x4 x5 x6 x7 x8 x9) ∗ owns (c : Thread nD τ) arg12 fullShare (out0_11 x0 x1 x2 x3 x4 x5 x6 x7 x8 x9)) -∗ K ⟨⟩))
      ⊢ wp frame (wpE (defs₀ (F := F)) Variants.none c none) E (cc0__leaf_kernel i arg1 harg1 arg2 harg2 arg3 harg3 arg4 harg4 arg5 harg5 arg6 harg6 arg7 harg7 arg8 harg8 arg9 harg9 arg10 harg10 arg11 harg11 arg12 harg12) K := by
  simp only [cc0__leaf_kernel_eq_skeleton]; unfold cc0__leaf_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (cover0_10 _)
  iexists _; isplitr
  swap; · iexact H11
  ipureintro
  exact View.read_writes_eq_canon _ _ _ (cover0_11 _)

/-! ## The pipeline's proof data -/

/-- The proof data of this pipeline on core c: the arrays as the region finds them; after the body at point t each
    input's buffer at its block and each output's at its function of the input blocks; nothing owed, full shares, and
    the invariant that carries only what the body does not touch. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

/-! ## The body obligation, at a generic point -/

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

set_option maxHeartbeats 4000000 in
/-- The body at any point: the inputs' memrefs hold their blocks, so the triple above applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Tree

end
-- ==== Proof.KBRegion1.lean ====
/-
  Region 1 of the program (the internal level of 16384 nodes), at any contents V of the buffers when the region is entered.
  A window's block at a grid point is the part of its array the point's index map selects. The body reads every input
  block whole, and writes each of its two output blocks whole and once: the hidden states, then the memory cells, each a
  pure function of the input blocks. So after the body each input's staging buffer still holds its block and each
  output's holds that function of the input blocks; this is the step the pipeline's launch theorem asks of a body.
-/
import proofs.«167239_j63453846831535_1_alg».proof.Proof.Gen.Kernel.Launch
import proofs.«167239_j63453846831535_1_alg».proof.Proof.Gen.Kernel.Skeleton
import proofs.«167239_j63453846831535_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Tree

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the point fetched it or an
    earlier one did (its index has not moved since), for any proof data over these arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether the point fetched it or an
    earlier one did (its index has not moved since), for any proof data over these arrays whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether the point fetched it or an
    earlier one did (its index has not moved since), for any proof data over these arrays whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether the point fetched it or an
    earlier one did (its index has not moved since), for any proof data over these arrays whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether the point fetched it or an
    earlier one did (its index has not moved since), for any proof data over these arrays whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, whether the point fetched it or an
    earlier one did (its index has not moved since), for any proof data over these arrays whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, whether the point fetched it or an
    earlier one did (its index has not moved since), for any proof data over these arrays whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, whether the point fetched it or an
    earlier one did (its index has not moved since), for any proof data over these arrays whose body leaves the block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, whether the point fetched it or an
    earlier one did (its index has not moved since), for any proof data over these arrays whose body leaves the block in place. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's current staging buffer holds its block at every point, whether the point fetched it or an
    earlier one did (its index has not moved since), for any proof data over these arrays whose body leaves the block in place. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-- Input window 10's current staging buffer holds its block at every point, whether the point fetched it or an
    earlier one did (its index has not moved since), for any proof data over these arrays whose body leaves the block in place. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-- Input window 11's current staging buffer holds its block at every point, whether the point fetched it or an
    earlier one did (its index has not moved since), for any proof data over these arrays whose body leaves the block in place. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

/-- Input window 12's current staging buffer holds its block at every point, whether the point fetched it or an
    earlier one did (its index has not moved since), for any proof data over these arrays whose body leaves the block in place. -/
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)

/-- Input window 13's current staging buffer holds its block at every point, whether the point fetched it or an
    earlier one did (its index has not moved since), for any proof data over these arrays whose body leaves the block in place. -/
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)

/-- Input window 14's current staging buffer holds its block at every point, whether the point fetched it or an
    earlier one did (its index has not moved since), for any proof data over these arrays whose body leaves the block in place. -/
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)

/-- Input window 15's current staging buffer holds its block at every point, whether the point fetched it or an
    earlier one did (its index has not moved since), for any proof data over these arrays whose body leaves the block in place. -/
theorem before1_15_of {c : Dev nD} (dat : Dat τ (Elt F) Unit ℕ (UR sig nD τ) ℕ cfg1 c) (hA : dat.A 15 = V c (Pipeline.arrRef spec1 15))
    (hafter : ∀ t, dat.after 15 t = iblk1 V c 15 t) (t : Fin cfg1.N) (d) : dat.before 15 t d = iblk1 V c 15 t :=
  (dat.before_in_eq_fetched 15 rfl (fun _ => rfl) (fun _ _ _ => rfl) (fun t => by rw [hafter]; unfold Dat.blockOf iblk1; rw [hA]; try rfl) t d).trans
    (by unfold Dat.fetched Dat.blockOf iblk1; rw [hA]; try rfl)

/-- Input window 16's current staging buffer holds its block at every point, whether the point fetched it or an
    earlier one did (its index has not moved since), for any proof data over these arrays whose body leaves the block in place. -/
theorem before1_16_of {c : Dev nD} (dat : Dat τ (Elt F) Unit ℕ (UR sig nD τ) ℕ cfg1 c) (hA : dat.A 16 = V c (Pipeline.arrRef spec1 16))
    (hafter : ∀ t, dat.after 16 t = iblk1 V c 16 t) (t : Fin cfg1.N) (d) : dat.before 16 t d = iblk1 V c 16 t :=
  (dat.before_in_eq_fetched 16 rfl (fun _ => rfl) (fun _ _ _ => rfl) (fun t => by rw [hafter]; unfold Dat.blockOf iblk1; rw [hA]; try rfl) t d).trans
    (by unfold Dat.fetched Dat.blockOf iblk1; rw [hA]; try rfl)

/-- Input window 17's current staging buffer holds its block at every point, whether the point fetched it or an
    earlier one did (its index has not moved since), for any proof data over these arrays whose body leaves the block in place. -/
theorem before1_17_of {c : Dev nD} (dat : Dat τ (Elt F) Unit ℕ (UR sig nD τ) ℕ cfg1 c) (hA : dat.A 17 = V c (Pipeline.arrRef spec1 17))
    (hafter : ∀ t, dat.after 17 t = iblk1 V c 17 t) (t : Fin cfg1.N) (d) : dat.before 17 t d = iblk1 V c 17 t :=
  (dat.before_in_eq_fetched 17 rfl (fun _ => rfl) (fun _ _ _ => rfl) (fun t => by rw [hafter]; unfold Dat.blockOf iblk1; rw [hA]; try rfl) t d).trans
    (by unfold Dat.fetched Dat.blockOf iblk1; rw [hA]; try rfl)

/-- Input window 18's current staging buffer holds its block at every point, whether the point fetched it or an
    earlier one did (its index has not moved since), for any proof data over these arrays whose body leaves the block in place. -/
theorem before1_18_of {c : Dev nD} (dat : Dat τ (Elt F) Unit ℕ (UR sig nD τ) ℕ cfg1 c) (hA : dat.A 18 = V c (Pipeline.arrRef spec1 18))
    (hafter : ∀ t, dat.after 18 t = iblk1 V c 18 t) (t : Fin cfg1.N) (d) : dat.before 18 t d = iblk1 V c 18 t :=
  (dat.before_in_eq_fetched 18 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is through a buffer's whole rectangle -/

abbrev r1_S512x300 : Rect S512x300 := Rect.unit (s := S512x300) ![0, 0] S512x300.size inb_S512x300_S512x300_0_0
abbrev r1_S512x4x150 : Rect S512x4x150 := Rect.unit (s := S512x4x150) ![0, 0, 0] S512x4x150.size inb_S512x4x150_S512x4x150_0_0_0
abbrev r1_S300x150 : Rect S300x150 := Rect.unit (s := S300x150) ![0, 0] S300x150.size inb_S300x150_S300x150_0_0
abbrev r1_S1x150 : Rect S1x150 := Rect.unit (s := S1x150) ![0, 0] S1x150.size inb_S1x150_S1x150_0_0
abbrev r1_S150x150 : Rect S150x150 := Rect.unit (s := S150x150) ![0, 0] S150x150.size inb_S150x150_S150x150_0_0
abbrev r1_S512x150 : Rect S512x150 := Rect.unit (s := S512x150) ![0, 0] S512x150.size inb_S512x150_S512x150_0_0

/-! ## What the body leaves in each output window's buffer -/

/-- Output window 19's staging buffer after the body (the hidden states), from the input windows' blocks. -/
def out1_19 (x0 : Vec F S512x300 .f32) (x1 : Vec F S512x4x150 .f32) (x2 : Vec F S512x4x150 .f32) (x3 : Vec F S300x150 .f32) (x4 : Vec F S1x150 .f32) (x5 : Vec F S300x150 .f32) (x6 : Vec F S1x150 .f32) (x7 : Vec F S300x150 .f32) (x8 : Vec F S1x150 .f32) (x9 : Vec F S300x150 .f32) (x10 : Vec F S1x150 .f32) (x11 : Vec F S150x150 .f32) (x12 : Vec F S1x150 .f32) (x13 : Vec F S150x150 .f32) (x14 : Vec F S1x150 .f32) (x15 : Vec F S150x150 .f32) (x16 : Vec F S1x150 .f32) (x17 : Vec F S150x150 .f32) (x18 : Vec F S1x150 .f32) : Vec F S512x150 .f32 :=
  View.canon [⟨r1_S512x150, k1_pay2 (k1_pay5 (View.ld x1 r1_S512x4x150)) (k1_pay6 (View.ld x0 r1_S512x300) (View.ld x1 r1_S512x4x150) (View.ld x2 r1_S512x4x150) (View.ld x13 r1_S150x150) (View.ld x14 r1_S1x150) (View.ld x5 r1_S300x150) (View.ld x6 r1_S1x150)) (k1_pay8 (k1_pay5 (View.ld x1 r1_S512x4x150)) (k1_pay7 (View.ld x0 r1_S512x300) (View.ld x3 r1_S300x150)) (View.ld x4 r1_S1x150) (View.ld x11 r1_S150x150) (View.ld x12 r1_S1x150)) (k1_pay9 (k1_pay4 (View.ld x0 r1_S512x300)) (k1_pay5 (View.ld x1 r1_S512x4x150)) (View.ld x9 r1_S300x150) (View.ld x10 r1_S1x150) (View.ld x17 r1_S150x150) (View.ld x18 r1_S1x150)) (k1_pay10 (k1_pay4 (View.ld x0 r1_S512x300)) (View.ld x7 r1_S300x150) (View.ld x8 r1_S1x150)) (View.ld x15 r1_S150x150) (View.ld x16 r1_S1x150)⟩]

/-- Its one store is through the whole rectangle, so it covers the buffer. -/
theorem cover1_19 (p0 : Vec F S512x150 .f32) (y : S512x150.Idx) :
    ∃ pc ∈ ([⟨r1_S512x150, p0⟩] : List (View.Piece (Elt F) S512x150 .f32)), y ∈ pc.1.set :=
  View.cover_of_tiled [⟨r1_S512x150, p0⟩] S512x150.size (by rfl) y

/-- Output window 20's staging buffer after the body (the memory cells), from the input windows' blocks. -/
def out1_20 (x0 : Vec F S512x300 .f32) (x1 : Vec F S512x4x150 .f32) (x2 : Vec F S512x4x150 .f32) (x3 : Vec F S300x150 .f32) (x4 : Vec F S1x150 .f32) (x5 : Vec F S300x150 .f32) (x6 : Vec F S1x150 .f32) (x7 : Vec F S300x150 .f32) (x8 : Vec F S1x150 .f32) (x9 : Vec F S300x150 .f32) (x10 : Vec F S1x150 .f32) (x11 : Vec F S150x150 .f32) (x12 : Vec F S1x150 .f32) (x13 : Vec F S150x150 .f32) (x14 : Vec F S1x150 .f32) (x15 : Vec F S150x150 .f32) (x16 : Vec F S1x150 .f32) (x17 : Vec F S150x150 .f32) (x18 : Vec F S1x150 .f32) : Vec F S512x150 .f32 :=
  View.canon [⟨r1_S512x150, k1_pay1 (k1_pay5 (View.ld x1 r1_S512x4x150)) (k1_pay6 (View.ld x0 r1_S512x300) (View.ld x1 r1_S512x4x150) (View.ld x2 r1_S512x4x150) (View.ld x13 r1_S150x150) (View.ld x14 r1_S1x150) (View.ld x5 r1_S300x150) (View.ld x6 r1_S1x150)) (k1_pay8 (k1_pay5 (View.ld x1 r1_S512x4x150)) (k1_pay7 (View.ld x0 r1_S512x300) (View.ld x3 r1_S300x150)) (View.ld x4 r1_S1x150) (View.ld x11 r1_S150x150) (View.ld x12 r1_S1x150)) (k1_pay10 (k1_pay4 (View.ld x0 r1_S512x300)) (View.ld x7 r1_S300x150) (View.ld x8 r1_S1x150)) (View.ld x15 r1_S150x150) (View.ld x16 r1_S1x150)⟩]

/-- Its one store is through the whole rectangle, so it covers the buffer. -/
theorem cover1_20 (p0 : Vec F S512x150 .f32) (y : S512x150.Idx) :
    ∃ pc ∈ ([⟨r1_S512x150, p0⟩] : List (View.Piece (Elt F) S512x150 .f32)), y ∈ pc.1.set :=
  View.cover_of_tiled [⟨r1_S512x150, p0⟩] S512x150.size (by rfl) y

/-! ## The body's triple -/

set_option maxHeartbeats 4000000 in
/-- The kernel body on whole staging memrefs, the inputs' at contents xW and the outputs' at anything, runs to a
    continuation that holds the inputs' as they were and each output's at its function of the inputs'. -/
theorem sound_kernel1 (c : Dev nD) (E : Set ℕ) (i : grid1.Coords) (arg1 : Memref sig .tc .vmem S512x300 .f32) (harg1 : arg1.IsWhole) (arg2 : Memref sig .tc .vmem S512x4x150 .f32) (harg2 : arg2.IsWhole) (arg3 : Memref sig .tc .vmem S512x4x150 .f32) (harg3 : arg3.IsWhole) (arg4 : Memref sig .tc .vmem S300x150 .f32) (harg4 : arg4.IsWhole) (arg5 : Memref sig .tc .vmem S1x150 .f32) (harg5 : arg5.IsWhole) (arg6 : Memref sig .tc .vmem S300x150 .f32) (harg6 : arg6.IsWhole) (arg7 : Memref sig .tc .vmem S1x150 .f32) (harg7 : arg7.IsWhole) (arg8 : Memref sig .tc .vmem S300x150 .f32) (harg8 : arg8.IsWhole) (arg9 : Memref sig .tc .vmem S1x150 .f32) (harg9 : arg9.IsWhole) (arg10 : Memref sig .tc .vmem S300x150 .f32) (harg10 : arg10.IsWhole) (arg11 : Memref sig .tc .vmem S1x150 .f32) (harg11 : arg11.IsWhole) (arg12 : Memref sig .tc .vmem S150x150 .f32) (harg12 : arg12.IsWhole) (arg13 : Memref sig .tc .vmem S1x150 .f32) (harg13 : arg13.IsWhole) (arg14 : Memref sig .tc .vmem S150x150 .f32) (harg14 : arg14.IsWhole) (arg15 : Memref sig .tc .vmem S1x150 .f32) (harg15 : arg15.IsWhole) (arg16 : Memref sig .tc .vmem S150x150 .f32) (harg16 : arg16.IsWhole) (arg17 : Memref sig .tc .vmem S1x150 .f32) (harg17 : arg17.IsWhole) (arg18 : Memref sig .tc .vmem S150x150 .f32) (harg18 : arg18.IsWhole) (arg19 : Memref sig .tc .vmem S1x150 .f32) (harg19 : arg19.IsWhole) (arg20 : Memref sig .tc .vmem S512x150 .f32) (harg20 : arg20.IsWhole) (arg21 : Memref sig .tc .vmem S512x150 .f32) (harg21 : arg21.IsWhole)
    (x0 : Vec F S512x300 .f32) (x1 : Vec F S512x4x150 .f32) (x2 : Vec F S512x4x150 .f32) (x3 : Vec F S300x150 .f32) (x4 : Vec F S1x150 .f32) (x5 : Vec F S300x150 .f32) (x6 : Vec F S1x150 .f32) (x7 : Vec F S300x150 .f32) (x8 : Vec F S1x150 .f32) (x9 : Vec F S300x150 .f32) (x10 : Vec F S1x150 .f32) (x11 : Vec F S150x150 .f32) (x12 : Vec F S1x150 .f32) (x13 : Vec F S150x150 .f32) (x14 : Vec F S1x150 .f32) (x15 : Vec F S150x150 .f32) (x16 : Vec F S1x150 .f32) (x17 : Vec F S150x150 .f32) (x18 : Vec F S1x150 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare (out1_19 x0 x1 x2 x3 x4 x5 x6 x7 x8 x9 x10 x11 x12 x13 x14 x15 x16 x17 x18) ∗ owns (c : Thread nD τ) arg21 fullShare (out1_20 x0 x1 x2 x3 x4 x5 x6 x7 x8 x9 x10 x11 x12 x13 x14 x15 x16 x17 x18)) -∗ K ⟨⟩))
      ⊢ wp frame (wpE (defs₀ (F := F)) Variants.none c none) E (cc1__internal_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc1__internal_kernel_eq_skeleton]; unfold cc1__internal_kernel_skel
  simp only [k1_part1_eq_skeleton]; unfold k1_part1_skel
  simp only [k1_part2_eq_skeleton]; unfold k1_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, Hk⟩
  subst hf0 hf1 hf2 hf3 hf4 hf5 hf6 hf7 hf8 hf9 hf10 hf11 hf12 hf13 hf14 hf15 hf16 hf17 hf18
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists _; isplitr
    swap; · iexact H19
    ipureintro
    exact View.read_writes_eq_canon _ _ _ (cover1_19 _)
  iexists _; isplitr
  swap; · iexact H20
  ipureintro
  exact View.read_writes_eq_canon _ _ _ (cover1_20 _)

/-! ## The pipeline's proof data -/

/-- The proof data of this pipeline on core c: the arrays as the region finds them; after the body at point t each
    input's buffer at its block and each output's at its function of the input blocks; nothing owed, full shares, and
    the invariant that carries only what the body does not touch. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => iblk1 V c 17 t
    | ⟨18, _⟩ => iblk1 V c 18 t
    | ⟨19, _⟩ => out1_19 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t)
    | ⟨20, _⟩ => out1_20 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t)
    | ⟨n + 21, h⟩ => absurd h (Nat.not_lt.mpr (Nat.le_add_left 21 n))
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = iblk1 V c 15 t := by dsimp only [dat1]
theorem after1_16 (c : Dev nD) (t : Fin cfg1.N) : (dat1 V c).after 16 t = iblk1 V c 16 t := by dsimp only [dat1]
theorem after1_17 (c : Dev nD) (t : Fin cfg1.N) : (dat1 V c).after 17 t = iblk1 V c 17 t := by dsimp only [dat1]
theorem after1_18 (c : Dev nD) (t : Fin cfg1.N) : (dat1 V c).after 18 t = iblk1 V c 18 t := by dsimp only [dat1]
theorem after1_19 (c : Dev nD) (t : Fin cfg1.N) : (dat1 V c).after 19 t = out1_19 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) := by dsimp only [dat1]
theorem after1_20 (c : Dev nD) (t : Fin cfg1.N) : (dat1 V c).after 20 t = out1_20 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d
theorem before1_15 (c : Dev nD) (t : Fin cfg1.N) (d) : (dat1 V c).before 15 t d = iblk1 V c 15 t :=
  before1_15_of V (dat1 V c) (A_eq1 V c 15) (after1_15 V c) t d
theorem before1_16 (c : Dev nD) (t : Fin cfg1.N) (d) : (dat1 V c).before 16 t d = iblk1 V c 16 t :=
  before1_16_of V (dat1 V c) (A_eq1 V c 16) (after1_16 V c) t d
theorem before1_17 (c : Dev nD) (t : Fin cfg1.N) (d) : (dat1 V c).before 17 t d = iblk1 V c 17 t :=
  before1_17_of V (dat1 V c) (A_eq1 V c 17) (after1_17 V c) t d
theorem before1_18 (c : Dev nD) (t : Fin cfg1.N) (d) : (dat1 V c).before 18 t d = iblk1 V c 18 t :=
  before1_18_of V (dat1 V c) (A_eq1 V c 18) (after1_18 V c) t d

/-! ## The body obligation, at a generic point -/

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d))
    ∗ (∃ d, owns (c : Thread nD τ) (st1_17 t) fullShare ((dat1 V c).before 17 t d))
    ∗ (∃ d, owns (c : Thread nD τ) (st1_18 t) fullShare ((dat1 V c).before 18 t d))
    ∗ (∃ d, owns (c : Thread nD τ) (st1_19 t) fullShare ((dat1 V c).before 19 t d))
    ∗ (∃ d, owns (c : Thread nD τ) (st1_20 t) fullShare ((dat1 V c).before 20 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t)
    ∗ owns (c : Thread nD τ) (st1_17 t) fullShare ((dat1 V c).after 17 t)
    ∗ owns (c : Thread nD τ) (st1_18 t) fullShare ((dat1 V c).after 18 t)
    ∗ owns (c : Thread nD τ) (st1_19 t) fullShare ((dat1 V c).after 19 t)
    ∗ owns (c : Thread nD τ) (st1_20 t) fullShare ((dat1 V c).after 20 t))

set_option maxHeartbeats 4000000 in
/-- The body at any point: the inputs' memrefs hold their blocks, so the triple above applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15, before1_16, before1_17, before1_18]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17, after1_18, after1_19, after1_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (sound_kernel1 c Set.univ _ _ _ _ _ _ _ _ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Tree

end
-- ==== Proof.KBRegion2.lean ====
/-
  Region 2 of the program (the internal level of 4096 nodes), at any contents V of the buffers when the region is entered.
  A window's block at a grid point is the part of its array the point's index map selects. The body reads every input
  block whole, and writes each of its two output blocks whole and once: the hidden states, then the memory cells, each a
  pure function of the input blocks. So after the body each input's staging buffer still holds its block and each
  output's holds that function of the input blocks; this is the step the pipeline's launch theorem asks of a body.
-/
import proofs.«167239_j63453846831535_1_alg».proof.Proof.Gen.Kernel.Launch
import proofs.«167239_j63453846831535_1_alg».proof.Proof.Gen.Kernel.Skeleton
import proofs.«167239_j63453846831535_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Tree

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether the point fetched it or an
    earlier one did (its index has not moved since), for any proof data over these arrays whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether the point fetched it or an
    earlier one did (its index has not moved since), for any proof data over these arrays whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether the point fetched it or an
    earlier one did (its index has not moved since), for any proof data over these arrays whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, whether the point fetched it or an
    earlier one did (its index has not moved since), for any proof data over these arrays whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, whether the point fetched it or an
    earlier one did (its index has not moved since), for any proof data over these arrays whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, whether the point fetched it or an
    earlier one did (its index has not moved since), for any proof data over these arrays whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, whether the point fetched it or an
    earlier one did (its index has not moved since), for any proof data over these arrays whose body leaves the block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, whether the point fetched it or an
    earlier one did (its index has not moved since), for any proof data over these arrays whose body leaves the block in place. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, whether the point fetched it or an
    earlier one did (its index has not moved since), for any proof data over these arrays whose body leaves the block in place. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- Input window 9's current staging buffer holds its block at every point, whether the point fetched it or an
    earlier one did (its index has not moved since), for any proof data over these arrays whose body leaves the block in place. -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-- Input window 10's current staging buffer holds its block at every point, whether the point fetched it or an
    earlier one did (its index has not moved since), for any proof data over these arrays whose body leaves the block in place. -/
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)

/-- Input window 11's current staging buffer holds its block at every point, whether the point fetched it or an
    earlier one did (its index has not moved since), for any proof data over these arrays whose body leaves the block in place. -/
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)

/-- Input window 12's current staging buffer holds its block at every point, whether the point fetched it or an
    earlier one did (its index has not moved since), for any proof data over these arrays whose body leaves the block in place. -/
theorem before2_12_of {c : Dev nD} (dat : Dat τ (Elt F) Unit ℕ (UR sig nD τ) ℕ cfg2 c) (hA : dat.A 12 = V c (Pipeline.arrRef spec2 12))
    (hafter : ∀ t, dat.after 12 t = iblk2 V c 12 t) (t : Fin cfg2.N) (d) : dat.before 12 t d = iblk2 V c 12 t :=
  (dat.before_in_eq_fetched 12 rfl (fun _ => rfl) (fun _ _ _ => rfl) (fun t => by rw [hafter]; unfold Dat.blockOf iblk2; rw [hA]; try rfl) t d).trans
    (by unfold Dat.fetched Dat.blockOf iblk2; rw [hA]; try rfl)

/-- Input window 13's current staging buffer holds its block at every point, whether the point fetched it or an
    earlier one did (its index has not moved since), for any proof data over these arrays whose body leaves the block in place. -/
theorem before2_13_of {c : Dev nD} (dat : Dat τ (Elt F) Unit ℕ (UR sig nD τ) ℕ cfg2 c) (hA : dat.A 13 = V c (Pipeline.arrRef spec2 13))
    (hafter : ∀ t, dat.after 13 t = iblk2 V c 13 t) (t : Fin cfg2.N) (d) : dat.before 13 t d = iblk2 V c 13 t :=
  (dat.before_in_eq_fetched 13 rfl (fun _ => rfl) (fun _ _ _ => rfl) (fun t => by rw [hafter]; unfold Dat.blockOf iblk2; rw [hA]; try rfl) t d).trans
    (by unfold Dat.fetched Dat.blockOf iblk2; rw [hA]; try rfl)

/-- Input window 14's current staging buffer holds its block at every point, whether the point fetched it or an
    earlier one did (its index has not moved since), for any proof data over these arrays whose body leaves the block in place. -/
theorem before2_14_of {c : Dev nD} (dat : Dat τ (Elt F) Unit ℕ (UR sig nD τ) ℕ cfg2 c) (hA : dat.A 14 = V c (Pipeline.arrRef spec2 14))
    (hafter : ∀ t, dat.after 14 t = iblk2 V c 14 t) (t : Fin cfg2.N) (d) : dat.before 14 t d = iblk2 V c 14 t :=
  (dat.before_in_eq_fetched 14 rfl (fun _ => rfl) (fun _ _ _ => rfl) (fun t => by rw [hafter]; unfold Dat.blockOf iblk2; rw [hA]; try rfl) t d).trans
    (by unfold Dat.fetched Dat.blockOf iblk2; rw [hA]; try rfl)

/-- Input window 15's current staging buffer holds its block at every point, whether the point fetched it or an
    earlier one did (its index has not moved since), for any proof data over these arrays whose body leaves the block in place. -/
theorem before2_15_of {c : Dev nD} (dat : Dat τ (Elt F) Unit ℕ (UR sig nD τ) ℕ cfg2 c) (hA : dat.A 15 = V c (Pipeline.arrRef spec2 15))
    (hafter : ∀ t, dat.after 15 t = iblk2 V c 15 t) (t : Fin cfg2.N) (d) : dat.before 15 t d = iblk2 V c 15 t :=
  (dat.before_in_eq_fetched 15 rfl (fun _ => rfl) (fun _ _ _ => rfl) (fun t => by rw [hafter]; unfold Dat.blockOf iblk2; rw [hA]; try rfl) t d).trans
    (by unfold Dat.fetched Dat.blockOf iblk2; rw [hA]; try rfl)

/-- Input window 16's current staging buffer holds its block at every point, whether the point fetched it or an
    earlier one did (its index has not moved since), for any proof data over these arrays whose body leaves the block in place. -/
theorem before2_16_of {c : Dev nD} (dat : Dat τ (Elt F) Unit ℕ (UR sig nD τ) ℕ cfg2 c) (hA : dat.A 16 = V c (Pipeline.arrRef spec2 16))
    (hafter : ∀ t, dat.after 16 t = iblk2 V c 16 t) (t : Fin cfg2.N) (d) : dat.before 16 t d = iblk2 V c 16 t :=
  (dat.before_in_eq_fetched 16 rfl (fun _ => rfl) (fun _ _ _ => rfl) (fun t => by rw [hafter]; unfold Dat.blockOf iblk2; rw [hA]; try rfl) t d).trans
    (by unfold Dat.fetched Dat.blockOf iblk2; rw [hA]; try rfl)

/-- Input window 17's current staging buffer holds its block at every point, whether the point fetched it or an
    earlier one did (its index has not moved since), for any proof data over these arrays whose body leaves the block in place. -/
theorem before2_17_of {c : Dev nD} (dat : Dat τ (Elt F) Unit ℕ (UR sig nD τ) ℕ cfg2 c) (hA : dat.A 17 = V c (Pipeline.arrRef spec2 17))
    (hafter : ∀ t, dat.after 17 t = iblk2 V c 17 t) (t : Fin cfg2.N) (d) : dat.before 17 t d = iblk2 V c 17 t :=
  (dat.before_in_eq_fetched 17 rfl (fun _ => rfl) (fun _ _ _ => rfl) (fun t => by rw [hafter]; unfold Dat.blockOf iblk2; rw [hA]; try rfl) t d).trans
    (by unfold Dat.fetched Dat.blockOf iblk2; rw [hA]; try rfl)

/-- Input window 18's current staging buffer holds its block at every point, whether the point fetched it or an
    earlier one did (its index has not moved since), for any proof data over these arrays whose body leaves the block in place. -/
theorem before2_18_of {c : Dev nD} (dat : Dat τ (Elt F) Unit ℕ (UR sig nD τ) ℕ cfg2 c) (hA : dat.A 18 = V c (Pipeline.arrRef spec2 18))
    (hafter : ∀ t, dat.after 18 t = iblk2 V c 18 t) (t : Fin cfg2.N) (d) : dat.before 18 t d = iblk2 V c 18 t :=
  (dat.before_in_eq_fetched 18 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is through a buffer's whole rectangle -/

abbrev r2_S512x300 : Rect S512x300 := Rect.unit (s := S512x300) ![0, 0] S512x300.size inb_S512x300_S512x300_0_0
abbrev r2_S512x4x150 : Rect S512x4x150 := Rect.unit (s := S512x4x150) ![0, 0, 0] S512x4x150.size inb_S512x4x150_S512x4x150_0_0_0
abbrev r2_S300x150 : Rect S300x150 := Rect.unit (s := S300x150) ![0, 0] S300x150.size inb_S300x150_S300x150_0_0
abbrev r2_S1x150 : Rect S1x150 := Rect.unit (s := S1x150) ![0, 0] S1x150.size inb_S1x150_S1x150_0_0
abbrev r2_S150x150 : Rect S150x150 := Rect.unit (s := S150x150) ![0, 0] S150x150.size inb_S150x150_S150x150_0_0
abbrev r2_S512x150 : Rect S512x150 := Rect.unit (s := S512x150) ![0, 0] S512x150.size inb_S512x150_S512x150_0_0

/-! ## What the body leaves in each output window's buffer -/

/-- Output window 19's staging buffer after the body (the hidden states), from the input windows' blocks. -/
def out2_19 (x0 : Vec F S512x300 .f32) (x1 : Vec F S512x4x150 .f32) (x2 : Vec F S512x4x150 .f32) (x3 : Vec F S300x150 .f32) (x4 : Vec F S1x150 .f32) (x5 : Vec F S300x150 .f32) (x6 : Vec F S1x150 .f32) (x7 : Vec F S300x150 .f32) (x8 : Vec F S1x150 .f32) (x9 : Vec F S300x150 .f32) (x10 : Vec F S1x150 .f32) (x11 : Vec F S150x150 .f32) (x12 : Vec F S1x150 .f32) (x13 : Vec F S150x150 .f32) (x14 : Vec F S1x150 .f32) (x15 : Vec F S150x150 .f32) (x16 : Vec F S1x150 .f32) (x17 : Vec F S150x150 .f32) (x18 : Vec F S1x150 .f32) : Vec F S512x150 .f32 :=
  View.canon [⟨r2_S512x150, k2_pay2 (k2_pay5 (View.ld x1 r2_S512x4x150)) (k2_pay6 (View.ld x0 r2_S512x300) (View.ld x1 r2_S512x4x150) (View.ld x2 r2_S512x4x150) (View.ld x13 r2_S150x150) (View.ld x14 r2_S1x150) (View.ld x5 r2_S300x150) (View.ld x6 r2_S1x150)) (k2_pay8 (k2_pay5 (View.ld x1 r2_S512x4x150)) (k2_pay7 (View.ld x0 r2_S512x300) (View.ld x3 r2_S300x150)) (View.ld x4 r2_S1x150) (View.ld x11 r2_S150x150) (View.ld x12 r2_S1x150)) (k2_pay9 (k2_pay4 (View.ld x0 r2_S512x300)) (k2_pay5 (View.ld x1 r2_S512x4x150)) (View.ld x9 r2_S300x150) (View.ld x10 r2_S1x150) (View.ld x17 r2_S150x150) (View.ld x18 r2_S1x150)) (k2_pay10 (k2_pay4 (View.ld x0 r2_S512x300)) (View.ld x7 r2_S300x150) (View.ld x8 r2_S1x150)) (View.ld x15 r2_S150x150) (View.ld x16 r2_S1x150)⟩]

/-- Its one store is through the whole rectangle, so it covers the buffer. -/
theorem cover2_19 (p0 : Vec F S512x150 .f32) (y : S512x150.Idx) :
    ∃ pc ∈ ([⟨r2_S512x150, p0⟩] : List (View.Piece (Elt F) S512x150 .f32)), y ∈ pc.1.set :=
  View.cover_of_tiled [⟨r2_S512x150, p0⟩] S512x150.size (by rfl) y

/-- Output window 20's staging buffer after the body (the memory cells), from the input windows' blocks. -/
def out2_20 (x0 : Vec F S512x300 .f32) (x1 : Vec F S512x4x150 .f32) (x2 : Vec F S512x4x150 .f32) (x3 : Vec F S300x150 .f32) (x4 : Vec F S1x150 .f32) (x5 : Vec F S300x150 .f32) (x6 : Vec F S1x150 .f32) (x7 : Vec F S300x150 .f32) (x8 : Vec F S1x150 .f32) (x9 : Vec F S300x150 .f32) (x10 : Vec F S1x150 .f32) (x11 : Vec F S150x150 .f32) (x12 : Vec F S1x150 .f32) (x13 : Vec F S150x150 .f32) (x14 : Vec F S1x150 .f32) (x15 : Vec F S150x150 .f32) (x16 : Vec F S1x150 .f32) (x17 : Vec F S150x150 .f32) (x18 : Vec F S1x150 .f32) : Vec F S512x150 .f32 :=
  View.canon [⟨r2_S512x150, k2_pay1 (k2_pay5 (View.ld x1 r2_S512x4x150)) (k2_pay6 (View.ld x0 r2_S512x300) (View.ld x1 r2_S512x4x150) (View.ld x2 r2_S512x4x150) (View.ld x13 r2_S150x150) (View.ld x14 r2_S1x150) (View.ld x5 r2_S300x150) (View.ld x6 r2_S1x150)) (k2_pay8 (k2_pay5 (View.ld x1 r2_S512x4x150)) (k2_pay7 (View.ld x0 r2_S512x300) (View.ld x3 r2_S300x150)) (View.ld x4 r2_S1x150) (View.ld x11 r2_S150x150) (View.ld x12 r2_S1x150)) (k2_pay10 (k2_pay4 (View.ld x0 r2_S512x300)) (View.ld x7 r2_S300x150) (View.ld x8 r2_S1x150)) (View.ld x15 r2_S150x150) (View.ld x16 r2_S1x150)⟩]

/-- Its one store is through the whole rectangle, so it covers the buffer. -/
theorem cover2_20 (p0 : Vec F S512x150 .f32) (y : S512x150.Idx) :
    ∃ pc ∈ ([⟨r2_S512x150, p0⟩] : List (View.Piece (Elt F) S512x150 .f32)), y ∈ pc.1.set :=
  View.cover_of_tiled [⟨r2_S512x150, p0⟩] S512x150.size (by rfl) y

/-! ## The body's triple -/

set_option maxHeartbeats 4000000 in
/-- The kernel body on whole staging memrefs, the inputs' at contents xW and the outputs' at anything, runs to a
    continuation that holds the inputs' as they were and each output's at its function of the inputs'. -/
theorem sound_kernel2 (c : Dev nD) (E : Set ℕ) (i : grid2.Coords) (arg1 : Memref sig .tc .vmem S512x300 .f32) (harg1 : arg1.IsWhole) (arg2 : Memref sig .tc .vmem S512x4x150 .f32) (harg2 : arg2.IsWhole) (arg3 : Memref sig .tc .vmem S512x4x150 .f32) (harg3 : arg3.IsWhole) (arg4 : Memref sig .tc .vmem S300x150 .f32) (harg4 : arg4.IsWhole) (arg5 : Memref sig .tc .vmem S1x150 .f32) (harg5 : arg5.IsWhole) (arg6 : Memref sig .tc .vmem S300x150 .f32) (harg6 : arg6.IsWhole) (arg7 : Memref sig .tc .vmem S1x150 .f32) (harg7 : arg7.IsWhole) (arg8 : Memref sig .tc .vmem S300x150 .f32) (harg8 : arg8.IsWhole) (arg9 : Memref sig .tc .vmem S1x150 .f32) (harg9 : arg9.IsWhole) (arg10 : Memref sig .tc .vmem S300x150 .f32) (harg10 : arg10.IsWhole) (arg11 : Memref sig .tc .vmem S1x150 .f32) (harg11 : arg11.IsWhole) (arg12 : Memref sig .tc .vmem S150x150 .f32) (harg12 : arg12.IsWhole) (arg13 : Memref sig .tc .vmem S1x150 .f32) (harg13 : arg13.IsWhole) (arg14 : Memref sig .tc .vmem S150x150 .f32) (harg14 : arg14.IsWhole) (arg15 : Memref sig .tc .vmem S1x150 .f32) (harg15 : arg15.IsWhole) (arg16 : Memref sig .tc .vmem S150x150 .f32) (harg16 : arg16.IsWhole) (arg17 : Memref sig .tc .vmem S1x150 .f32) (harg17 : arg17.IsWhole) (arg18 : Memref sig .tc .vmem S150x150 .f32) (harg18 : arg18.IsWhole) (arg19 : Memref sig .tc .vmem S1x150 .f32) (harg19 : arg19.IsWhole) (arg20 : Memref sig .tc .vmem S512x150 .f32) (harg20 : arg20.IsWhole) (arg21 : Memref sig .tc .vmem S512x150 .f32) (harg21 : arg21.IsWhole)
    (x0 : Vec F S512x300 .f32) (x1 : Vec F S512x4x150 .f32) (x2 : Vec F S512x4x150 .f32) (x3 : Vec F S300x150 .f32) (x4 : Vec F S1x150 .f32) (x5 : Vec F S300x150 .f32) (x6 : Vec F S1x150 .f32) (x7 : Vec F S300x150 .f32) (x8 : Vec F S1x150 .f32) (x9 : Vec F S300x150 .f32) (x10 : Vec F S1x150 .f32) (x11 : Vec F S150x150 .f32) (x12 : Vec F S1x150 .f32) (x13 : Vec F S150x150 .f32) (x14 : Vec F S1x150 .f32) (x15 : Vec F S150x150 .f32) (x16 : Vec F S1x150 .f32) (x17 : Vec F S150x150 .f32) (x18 : Vec F S1x150 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare (out2_19 x0 x1 x2 x3 x4 x5 x6 x7 x8 x9 x10 x11 x12 x13 x14 x15 x16 x17 x18) ∗ owns (c : Thread nD τ) arg21 fullShare (out2_20 x0 x1 x2 x3 x4 x5 x6 x7 x8 x9 x10 x11 x12 x13 x14 x15 x16 x17 x18)) -∗ K ⟨⟩))
      ⊢ wp frame (wpE (defs₀ (F := F)) Variants.none c none) E (cc2__internal_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc2__internal_kernel_eq_skeleton]; unfold cc2__internal_kernel_skel
  simp only [k2_part1_eq_skeleton]; unfold k2_part1_skel
  simp only [k2_part2_eq_skeleton]; unfold k2_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, Hk⟩
  subst hf0 hf1 hf2 hf3 hf4 hf5 hf6 hf7 hf8 hf9 hf10 hf11 hf12 hf13 hf14 hf15 hf16 hf17 hf18
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists _; isplitr
    swap; · iexact H19
    ipureintro
    exact View.read_writes_eq_canon _ _ _ (cover2_19 _)
  iexists _; isplitr
  swap; · iexact H20
  ipureintro
  exact View.read_writes_eq_canon _ _ _ (cover2_20 _)

/-! ## The pipeline's proof data -/

/-- The proof data of this pipeline on core c: the arrays as the region finds them; after the body at point t each
    input's buffer at its block and each output's at its function of the input blocks; nothing owed, full shares, and
    the invariant that carries only what the body does not touch. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => iblk2 V c 14 t
    | ⟨15, _⟩ => iblk2 V c 15 t
    | ⟨16, _⟩ => iblk2 V c 16 t
    | ⟨17, _⟩ => iblk2 V c 17 t
    | ⟨18, _⟩ => iblk2 V c 18 t
    | ⟨19, _⟩ => out2_19 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t)
    | ⟨20, _⟩ => out2_20 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t)
    | ⟨n + 21, h⟩ => absurd h (Nat.not_lt.mpr (Nat.le_add_left 21 n))
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = iblk2 V c 12 t := by dsimp only [dat2]
theorem after2_13 (c : Dev nD) (t : Fin cfg2.N) : (dat2 V c).after 13 t = iblk2 V c 13 t := by dsimp only [dat2]
theorem after2_14 (c : Dev nD) (t : Fin cfg2.N) : (dat2 V c).after 14 t = iblk2 V c 14 t := by dsimp only [dat2]
theorem after2_15 (c : Dev nD) (t : Fin cfg2.N) : (dat2 V c).after 15 t = iblk2 V c 15 t := by dsimp only [dat2]
theorem after2_16 (c : Dev nD) (t : Fin cfg2.N) : (dat2 V c).after 16 t = iblk2 V c 16 t := by dsimp only [dat2]
theorem after2_17 (c : Dev nD) (t : Fin cfg2.N) : (dat2 V c).after 17 t = iblk2 V c 17 t := by dsimp only [dat2]
theorem after2_18 (c : Dev nD) (t : Fin cfg2.N) : (dat2 V c).after 18 t = iblk2 V c 18 t := by dsimp only [dat2]
theorem after2_19 (c : Dev nD) (t : Fin cfg2.N) : (dat2 V c).after 19 t = out2_19 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) := by dsimp only [dat2]
theorem after2_20 (c : Dev nD) (t : Fin cfg2.N) : (dat2 V c).after 20 t = out2_20 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d
theorem before2_11 (c : Dev nD) (t : Fin cfg2.N) (d) : (dat2 V c).before 11 t d = iblk2 V c 11 t :=
  before2_11_of V (dat2 V c) (A_eq2 V c 11) (after2_11 V c) t d
theorem before2_12 (c : Dev nD) (t : Fin cfg2.N) (d) : (dat2 V c).before 12 t d = iblk2 V c 12 t :=
  before2_12_of V (dat2 V c) (A_eq2 V c 12) (after2_12 V c) t d
theorem before2_13 (c : Dev nD) (t : Fin cfg2.N) (d) : (dat2 V c).before 13 t d = iblk2 V c 13 t :=
  before2_13_of V (dat2 V c) (A_eq2 V c 13) (after2_13 V c) t d
theorem before2_14 (c : Dev nD) (t : Fin cfg2.N) (d) : (dat2 V c).before 14 t d = iblk2 V c 14 t :=
  before2_14_of V (dat2 V c) (A_eq2 V c 14) (after2_14 V c) t d
theorem before2_15 (c : Dev nD) (t : Fin cfg2.N) (d) : (dat2 V c).before 15 t d = iblk2 V c 15 t :=
  before2_15_of V (dat2 V c) (A_eq2 V c 15) (after2_15 V c) t d
theorem before2_16 (c : Dev nD) (t : Fin cfg2.N) (d) : (dat2 V c).before 16 t d = iblk2 V c 16 t :=
  before2_16_of V (dat2 V c) (A_eq2 V c 16) (after2_16 V c) t d
theorem before2_17 (c : Dev nD) (t : Fin cfg2.N) (d) : (dat2 V c).before 17 t d = iblk2 V c 17 t :=
  before2_17_of V (dat2 V c) (A_eq2 V c 17) (after2_17 V c) t d
theorem before2_18 (c : Dev nD) (t : Fin cfg2.N) (d) : (dat2 V c).before 18 t d = iblk2 V c 18 t :=
  before2_18_of V (dat2 V c) (A_eq2 V c 18) (after2_18 V c) t d

/-! ## The body obligation, at a generic point -/

/-- What the body is called with at point t, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d))
    ∗ (∃ d, owns (c : Thread nD τ) (st2_13 t) fullShare ((dat2 V c).before 13 t d))
    ∗ (∃ d, owns (c : Thread nD τ) (st2_14 t) fullShare ((dat2 V c).before 14 t d))
    ∗ (∃ d, owns (c : Thread nD τ) (st2_15 t) fullShare ((dat2 V c).before 15 t d))
    ∗ (∃ d, owns (c : Thread nD τ) (st2_16 t) fullShare ((dat2 V c).before 16 t d))
    ∗ (∃ d, owns (c : Thread nD τ) (st2_17 t) fullShare ((dat2 V c).before 17 t d))
    ∗ (∃ d, owns (c : Thread nD τ) (st2_18 t) fullShare ((dat2 V c).before 18 t d))
    ∗ (∃ d, owns (c : Thread nD τ) (st2_19 t) fullShare ((dat2 V c).before 19 t d))
    ∗ (∃ d, owns (c : Thread nD τ) (st2_20 t) fullShare ((dat2 V c).before 20 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t)
    ∗ owns (c : Thread nD τ) (st2_13 t) fullShare ((dat2 V c).after 13 t)
    ∗ owns (c : Thread nD τ) (st2_14 t) fullShare ((dat2 V c).after 14 t)
    ∗ owns (c : Thread nD τ) (st2_15 t) fullShare ((dat2 V c).after 15 t)
    ∗ owns (c : Thread nD τ) (st2_16 t) fullShare ((dat2 V c).after 16 t)
    ∗ owns (c : Thread nD τ) (st2_17 t) fullShare ((dat2 V c).after 17 t)
    ∗ owns (c : Thread nD τ) (st2_18 t) fullShare ((dat2 V c).after 18 t)
    ∗ owns (c : Thread nD τ) (st2_19 t) fullShare ((dat2 V c).after 19 t)
    ∗ owns (c : Thread nD τ) (st2_20 t) fullShare ((dat2 V c).after 20 t))

set_option maxHeartbeats 4000000 in
/-- The body at any point: the inputs' memrefs hold their blocks, so the triple above applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11, before2_12, before2_13, before2_14, before2_15, before2_16, before2_17, before2_18]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12, after2_13, after2_14, after2_15, after2_16, after2_17, after2_18, after2_19, after2_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (sound_kernel2 c Set.univ _ _ _ _ _ _ _ _ _ _ _ _ _ _ _ _ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Tree

end
-- ==== Proof.KBRegion3.lean ====
/-
  Region 3 of the program (the internal level of 1024 nodes), at any contents V of the buffers when the region is entered.
  A window's block at a grid point is the part of its array the point's index map selects. The body reads every input
  block whole, and writes each of its two output blocks whole and once: the hidden states, then the memory cells, each a
  pure function of the input blocks. So after the body each input's staging buffer still holds its block and each
  output's holds that function of the input blocks; this is the step the pipeline's launch theorem asks of a body.
-/
import proofs.«167239_j63453846831535_1_alg».proof.Proof.Gen.Kernel.Launch
import proofs.«167239_j63453846831535_1_alg».proof.Proof.Gen.Kernel.Skeleton
import proofs.«167239_j63453846831535_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Tree

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether the point fetched it or an
    earlier one did (its index has not moved since), for any proof data over these arrays whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, whether the point fetched it or an
    earlier one did (its index has not moved since), for any proof data over these arrays whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, whether the point fetched it or an
    earlier one did (its index has not moved since), for any proof data over these arrays whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, whether the point fetched it or an
    earlier one did (its index has not moved since), for any proof data over these arrays whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, whether the point fetched it or an
    earlier one did (its index has not moved since), for any proof data over these arrays whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, whether the point fetched it or an
    earlier one did (its index has not moved since), for any proof data over these arrays whose body leaves the block in place. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, whether the point fetched it or an
    earlier one did (its index has not moved since), for any proof data over these arrays whose body leaves the block in place. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7's current staging buffer holds its block at every point, whether the point fetched it or an
    earlier one did (its index has not moved since), for any proof data over these arrays whose body leaves the block in place. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- Input window 8's current staging buffer holds its block at every point, whether the point fetched it or an
    earlier one did (its index has not moved since), for any proof data over these arrays whose body leaves the block in place. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-- Input window 9's current staging buffer holds its block at every point, whether the point fetched it or an
    earlier one did (its index has not moved since), for any proof data over these arrays whose body leaves the block in place. -/
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)

/-- Input window 10's current staging buffer holds its block at every point, whether the point fetched it or an
    earlier one did (its index has not moved since), for any proof data over these arrays whose body leaves the block in place. -/
theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)

/-- Input window 11's current staging buffer holds its block at every point, whether the point fetched it or an
    earlier one did (its index has not moved since), for any proof data over these arrays whose body leaves the block in place. -/
theorem before3_11_of {c : Dev nD} (dat : Dat τ (Elt F) Unit ℕ (UR sig nD τ) ℕ cfg3 c) (hA : dat.A 11 = V c (Pipeline.arrRef spec3 11))
    (hafter : ∀ t, dat.after 11 t = iblk3 V c 11 t) (t : Fin cfg3.N) (d) : dat.before 11 t d = iblk3 V c 11 t :=
  (dat.before_in_eq_fetched 11 rfl (fun _ => rfl) (fun _ _ _ => rfl) (fun t => by rw [hafter]; unfold Dat.blockOf iblk3; rw [hA]; try rfl) t d).trans
    (by unfold Dat.fetched Dat.blockOf iblk3; rw [hA]; try rfl)

/-- Input window 12's current staging buffer holds its block at every point, whether the point fetched it or an
    earlier one did (its index has not moved since), for any proof data over these arrays whose body leaves the block in place. -/
theorem before3_12_of {c : Dev nD} (dat : Dat τ (Elt F) Unit ℕ (UR sig nD τ) ℕ cfg3 c) (hA : dat.A 12 = V c (Pipeline.arrRef spec3 12))
    (hafter : ∀ t, dat.after 12 t = iblk3 V c 12 t) (t : Fin cfg3.N) (d) : dat.before 12 t d = iblk3 V c 12 t :=
  (dat.before_in_eq_fetched 12 rfl (fun _ => rfl) (fun _ _ _ => rfl) (fun t => by rw [hafter]; unfold Dat.blockOf iblk3; rw [hA]; try rfl) t d).trans
    (by unfold Dat.fetched Dat.blockOf iblk3; rw [hA]; try rfl)

/-- Input window 13's current staging buffer holds its block at every point, whether the point fetched it or an
    earlier one did (its index has not moved since), for any proof data over these arrays whose body leaves the block in place. -/
theorem before3_13_of {c : Dev nD} (dat : Dat τ (Elt F) Unit ℕ (UR sig nD τ) ℕ cfg3 c) (hA : dat.A 13 = V c (Pipeline.arrRef spec3 13))
    (hafter : ∀ t, dat.after 13 t = iblk3 V c 13 t) (t : Fin cfg3.N) (d) : dat.before 13 t d = iblk3 V c 13 t :=
  (dat.before_in_eq_fetched 13 rfl (fun _ => rfl) (fun _ _ _ => rfl) (fun t => by rw [hafter]; unfold Dat.blockOf iblk3; rw [hA]; try rfl) t d).trans
    (by unfold Dat.fetched Dat.blockOf iblk3; rw [hA]; try rfl)

/-- Input window 14's current staging buffer holds its block at every point, whether the point fetched it or an
    earlier one did (its index has not moved since), for any proof data over these arrays whose body leaves the block in place. -/
theorem before3_14_of {c : Dev nD} (dat : Dat τ (Elt F) Unit ℕ (UR sig nD τ) ℕ cfg3 c) (hA : dat.A 14 = V c (Pipeline.arrRef spec3 14))
    (hafter : ∀ t, dat.after 14 t = iblk3 V c 14 t) (t : Fin cfg3.N) (d) : dat.before 14 t d = iblk3 V c 14 t :=
  (dat.before_in_eq_fetched 14 rfl (fun _ => rfl) (fun _ _ _ => rfl) (fun t => by rw [hafter]; unfold Dat.blockOf iblk3; rw [hA]; try rfl) t d).trans
    (by unfold Dat.fetched Dat.blockOf iblk3; rw [hA]; try rfl)

/-- Input window 15's current staging buffer holds its block at every point, whether the point fetched it or an
    earlier one did (its index has not moved since), for any proof data over these arrays whose body leaves the block in place. -/
theorem before3_15_of {c : Dev nD} (dat : Dat τ (Elt F) Unit ℕ (UR sig nD τ) ℕ cfg3 c) (hA : dat.A 15 = V c (Pipeline.arrRef spec3 15))
    (hafter : ∀ t, dat.after 15 t = iblk3 V c 15 t) (t : Fin cfg3.N) (d) : dat.before 15 t d = iblk3 V c 15 t :=
  (dat.before_in_eq_fetched 15 rfl (fun _ => rfl) (fun _ _ _ => rfl) (fun t => by rw [hafter]; unfold Dat.blockOf iblk3; rw [hA]; try rfl) t d).trans
    (by unfold Dat.fetched Dat.blockOf iblk3; rw [hA]; try rfl)

/-- Input window 16's current staging buffer holds its block at every point, whether the point fetched it or an
    earlier one did (its index has not moved since), for any proof data over these arrays whose body leaves the block in place. -/
theorem before3_16_of {c : Dev nD} (dat : Dat τ (Elt F) Unit ℕ (UR sig nD τ) ℕ cfg3 c) (hA : dat.A 16 = V c (Pipeline.arrRef spec3 16))
    (hafter : ∀ t, dat.after 16 t = iblk3 V c 16 t) (t : Fin cfg3.N) (d) : dat.before 16 t d = iblk3 V c 16 t :=
  (dat.before_in_eq_fetched 16 rfl (fun _ => rfl) (fun _ _ _ => rfl) (fun t => by rw [hafter]; unfold Dat.blockOf iblk3; rw [hA]; try rfl) t d).trans
    (by unfold Dat.fetched Dat.blockOf iblk3; rw [hA]; try rfl)

/-- Input window 17's current staging buffer holds its block at every point, whether the point fetched it or an
    earlier one did (its index has not moved since), for any proof data over these arrays whose body leaves the block in place. -/
theorem before3_17_of {c : Dev nD} (dat : Dat τ (Elt F) Unit ℕ (UR sig nD τ) ℕ cfg3 c) (hA : dat.A 17 = V c (Pipeline.arrRef spec3 17))
    (hafter : ∀ t, dat.after 17 t = iblk3 V c 17 t) (t : Fin cfg3.N) (d) : dat.before 17 t d = iblk3 V c 17 t :=
  (dat.before_in_eq_fetched 17 rfl (fun _ => rfl) (fun _ _ _ => rfl) (fun t => by rw [hafter]; unfold Dat.blockOf iblk3; rw [hA]; try rfl) t d).trans
    (by unfold Dat.fetched Dat.blockOf iblk3; rw [hA]; try rfl)

/-- Input window 18's current staging buffer holds its block at every point, whether the point fetched it or an
    earlier one did (its index has not moved since), for any proof data over these arrays whose body leaves the block in place. -/
theorem before3_18_of {c : Dev nD} (dat : Dat τ (Elt F) Unit ℕ (UR sig nD τ) ℕ cfg3 c) (hA : dat.A 18 = V c (Pipeline.arrRef spec3 18))
    (hafter : ∀ t, dat.after 18 t = iblk3 V c 18 t) (t : Fin cfg3.N) (d) : dat.before 18 t d = iblk3 V c 18 t :=
  (dat.before_in_eq_fetched 18 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and store is through a buffer's whole rectangle -/

abbrev r3_S512x300 : Rect S512x300 := Rect.unit (s := S512x300) ![0, 0] S512x300.size inb_S512x300_S512x300_0_0
abbrev r3_S512x4x150 : Rect S512x4x150 := Rect.unit (s := S512x4x150) ![0, 0, 0] S512x4x150.size inb_S512x4x150_S512x4x150_0_0_0
abbrev r3_S300x150 : Rect S300x150 := Rect.unit (s := S300x150) ![0, 0] S300x150.size inb_S300x150_S300x150_0_0
abbrev r3_S1x150 : Rect S1x150 := Rect.unit (s := S1x150) ![0, 0] S1x150.size inb_S1x150_S1x150_0_0
abbrev r3_S150x150 : Rect S150x150 := Rect.unit (s := S150x150) ![0, 0] S150x150.size inb_S150x150_S150x150_0_0
abbrev r3_S512x150 : Rect S512x150 := Rect.unit (s := S512x150) ![0, 0] S512x150.size inb_S512x150_S512x150_0_0

/-! ## What the body leaves in each output window's buffer -/

/-- Output window 19's staging buffer after the body (the hidden states), from the input windows' blocks. -/
def out3_19 (x0 : Vec F S512x300 .f32) (x1 : Vec F S512x4x150 .f32) (x2 : Vec F S512x4x150 .f32) (x3 : Vec F S300x150 .f32) (x4 : Vec F S1x150 .f32) (x5 : Vec F S300x150 .f32) (x6 : Vec F S1x150 .f32) (x7 : Vec F S300x150 .f32) (x8 : Vec F S1x150 .f32) (x9 : Vec F S300x150 .f32) (x10 : Vec F S1x150 .f32) (x11 : Vec F S150x150 .f32) (x12 : Vec F S1x150 .f32) (x13 : Vec F S150x150 .f32) (x14 : Vec F S1x150 .f32) (x15 : Vec F S150x150 .f32) (x16 : Vec F S1x150 .f32) (x17 : Vec F S150x150 .f32) (x18 : Vec F S1x150 .f32) : Vec F S512x150 .f32 :=
  View.canon [⟨r3_S512x150, k3_pay2 (k3_pay5 (View.ld x1 r3_S512x4x150)) (k3_pay6 (View.ld x0 r3_S512x300) (View.ld x1 r3_S512x4x150) (View.ld x2 r3_S512x4x150) (View.ld x13 r3_S150x150) (View.ld x14 r3_S1x150) (View.ld x5 r3_S300x150) (View.ld x6 r3_S1x150)) (k3_pay8 (k3_pay5 (View.ld x1 r3_S512x4x150)) (k3_pay7 (View.ld x0 r3_S512x300) (View.ld x3 r3_S300x150)) (View.ld x4 r3_S1x150) (View.ld x11 r3_S150x150) (View.ld x12 r3_S1x150)) (k3_pay9 (k3_pay4 (View.ld x0 r3_S512x300)) (k3_pay5 (View.ld x1 r3_S512x4x150)) (View.ld x9 r3_S300x150) (View.ld x10 r3_S1x150) (View.ld x17 r3_S150x150) (View.ld x18 r3_S1x150)) (k3_pay10 (k3_pay4 (View.ld x0 r3_S512x300)) (View.ld x7 r3_S300x150) (View.ld x8 r3_S1x150)) (View.ld x15 r3_S150x150) (View.ld x16 r3_S1x150)⟩]

/-- Its one store is through the whole rectangle, so it covers the buffer. -/
theorem cover3_19 (p0 : Vec F S512x150 .f32) (y : S512x150.Idx) :
    ∃ pc ∈ ([⟨r3_S512x150, p0⟩] : List (View.Piece (Elt F) S512x150 .f32)), y ∈ pc.1.set :=
  View.cover_of_tiled [⟨r3_S512x150, p0⟩] S512x150.size (by rfl) y

/-- Output window 20's staging buffer after the body (the memory cells), from the input windows' blocks. -/
def out3_20 (x0 : Vec F S512x300 .f32) (x1 : Vec F S512x4x150 .f32) (x2 : Vec F S512x4x150 .f32) (x3 : Vec F S300x150 .f32) (x4 : Vec F S1x150 .f32) (x5 : Vec F S300x150 .f32) (x6 : Vec F S1x150 .f32) (x7 : Vec F S300x150 .f32) (x8 : Vec F S1x150 .f32) (x9 : Vec F S300x150 .f32) (x10 : Vec F S1x150 .f32) (x11 : Vec F S150x150 .f32) (x12 : Vec F S1x150 .f32) (x13 : Vec F S150x150 .f32) (x14 : Vec F S1x150 .f32) (x15 : Vec F S150x150 .f32) (x16 : Vec F S1x150 .f32) (x17 : Vec F S150x150 .f32) (x18 : Vec F S1x150 .f32) : Vec F S512x150 .f32 :=
  View.canon [⟨r3_S512x150, k3_pay1 (k3_pay5 (View.ld x1 r3_S512x4x150)) (k3_pay6 (View.ld x0 r3_S512x300) (View.ld x1 r3_S512x4x150) (View.ld x2 r3_S512x4x150) (View.ld x13 r3_S150x150) (View.ld x14 r3_S1x150) (View.ld x5 r3_S300x150) (View.ld x6 r3_S1x150)) (k3_pay8 (k3_pay5 (View.ld x1 r3_S512x4x150)) (k3_pay7 (View.ld x0 r3_S512x300) (View.ld x3 r3_S300x150)) (View.ld x4 r3_S1x150) (View.ld x11 r3_S150x150) (View.ld x12 r3_S1x150)) (k3_pay10 (k3_pay4 (View.ld x0 r3_S512x300)) (View.ld x7 r3_S300x150) (View.ld x8 r3_S1x150)) (View.ld x15 r3_S150x150) (View.ld x16 r3_S1x150)⟩]

/-- Its one store is through the whole rectangle, so it covers the buffer. -/
theorem cover3_20 (p0 : Vec F S512x150 .f32) (y : S512x150.Idx) :
    ∃ pc ∈ ([⟨r3_S512x150, p0⟩] : List (View.Piece (Elt F) S512x150 .f32)), y ∈ pc.1.set :=
  View.cover_of_tiled [⟨r3_S512x150, p0⟩] S512x150.size (by rfl) y

/-! ## The body's triple -/

set_option maxHeartbeats 4000000 in
/-- The kernel body on whole staging memrefs, the inputs' at contents xW and the outputs' at anything, runs to a
    continuation that holds the inputs' as they were and each output's at its function of the inputs'. -/
theorem sound_kernel3 (c : Dev nD) (E : Set ℕ) (i : grid3.Coords) (arg1 : Memref sig .tc .vmem S512x300 .f32) (harg1 : arg1.IsWhole) (arg2 : Memref sig .tc .vmem S512x4x150 .f32) (harg2 : arg2.IsWhole) (arg3 : Memref sig .tc .vmem S512x4x150 .f32) (harg3 : arg3.IsWhole) (arg4 : Memref sig .tc .vmem S300x150 .f32) (harg4 : arg4.IsWhole) (arg5 : Memref sig .tc .vmem S1x150 .f32) (harg5 : arg5.IsWhole) (arg6 : Memref sig .tc .vmem S300x150 .f32) (harg6 : arg6.IsWhole) (arg7 : Memref sig .tc .vmem S1x150 .f32) (harg7 : arg7.IsWhole) (arg8 : Memref sig .tc .vmem S300x150 .f32) (harg8 : arg8.IsWhole) (arg9 : Memref sig .tc .vmem S1x150 .f32) (harg9 : arg9.IsWhole) (arg10 : Memref sig .tc .vmem S300x150 .f32) (harg10 : arg10.IsWhole) (arg11 : Memref sig .tc .vmem S1x150 .f32) (harg11 : arg11.IsWhole) (arg12 : Memref sig .tc .vmem S150x150 .f32) (harg12 : arg12.IsWhole) (arg13 : Memref sig .tc .vmem S1x150 .f32) (harg13 : arg13.IsWhole) (arg14 : Memref sig .tc .vmem S150x150 .f32) (harg14 : arg14.IsWhole) (arg15 : Memref sig .tc .vmem S1x150 .f32) (harg15 : arg15.IsWhole) (arg16 : Memref sig .tc .vmem S150x150 .f32) (harg16 : arg16.IsWhole) (arg17 : Memref sig .tc .vmem S1x150 .f32) (harg17 : arg17.IsWhole) (arg18 : Memref sig .tc .vmem S150x150 .f32) (harg18 : arg18.IsWhole) (arg19 : Memref sig .tc .vmem S1x150 .f32) (harg19 : arg19.IsWhole) (arg20 : Memref sig .tc .vmem S512x150 .f32) (harg20 : arg20.IsWhole) (arg21 : Memref sig .tc .vmem S512x150 .f32) (harg21 : arg21.IsWhole)
    (x0 : Vec F S512x300 .f32) (x1 : Vec F S512x4x150 .f32) (x2 : Vec F S512x4x150 .f32) (x3 : Vec F S300x150 .f32) (x4 : Vec F S1x150 .f32) (x5 : Vec F S300x150 .f32) (x6 : Vec F S1x150 .f32) (x7 : Vec F S300x150 .f32) (x8 : Vec F S1x150 .f32) (x9 : Vec F S300x150 .f32) (x10 : Vec F S1x150 .f32) (x11 : Vec F S150x150 .f32) (x12 : Vec F S1x150 .f32) (x13 : Vec F S150x150 .f32) (x14 : Vec F S1x150 .f32) (x15 : Vec F S150x150 .f32) (x16 : Vec F S1x150 .f32) (x17 : Vec F S150x150 .f32) (x18 : Vec F S1x150 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare (out3_19 x0 x1 x2 x3 x4 x5 x6 x7 x8 x9 x10 x11 x12 x13 x14 x15 x16 x17 x18) ∗ owns (c : Thread nD τ) arg21 fullShare (out3_20 x0 x1 x2 x3 x4 x5 x6 x7 x8 x9 x10 x11 x12 x13 x14 x15 x16 x17 x18)) -∗ K ⟨⟩))
      ⊢ wp frame (wpE (defs₀ (F := F)) Variants.none c none) E (cc3__internal_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc3__internal_kernel_eq_skeleton]; unfold cc3__internal_kernel_skel
  simp only [k3_part1_eq_skeleton]; unfold k3_part1_skel
  simp only [k3_part2_eq_skeleton]; unfold k3_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, Hk⟩
  subst hf0 hf1 hf2 hf3 hf4 hf5 hf6 hf7 hf8 hf9 hf10 hf11 hf12 hf13 hf14 hf15 hf16 hf17 hf18
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists _; isplitr
    swap; · iexact H19
    ipureintro
    exact View.read_writes_eq_canon _ _ _ (cover3_19 _)
  iexists _; isplitr
  swap; · iexact H20
  ipureintro
  exact View.read_writes_eq_canon _ _ _ (cover3_20 _)

/-! ## The pipeline's proof data -/

/-- The proof data of this pipeline on core c: the arrays as the region finds them; after the body at point t each
    input's buffer at its block and each output's at its function of the input blocks; nothing owed, full shares, and
    the invariant that carries only what the body does not touch. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => iblk3 V c 12 t
    | ⟨13, _⟩ => iblk3 V c 13 t
    | ⟨14, _⟩ => iblk3 V c 14 t
    | ⟨15, _⟩ => iblk3 V c 15 t
    | ⟨16, _⟩ => iblk3 V c 16 t
    | ⟨17, _⟩ => iblk3 V c 17 t
    | ⟨18, _⟩ => iblk3 V c 18 t
    | ⟨19, _⟩ => out3_19 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) (iblk3 V c 17 t) (iblk3 V c 18 t)
    | ⟨20, _⟩ => out3_20 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) (iblk3 V c 17 t) (iblk3 V c 18 t)
    | ⟨n + 21, h⟩ => absurd h (Nat.not_lt.mpr (Nat.le_add_left 21 n))
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = iblk3 V c 11 t := by dsimp only [dat3]
theorem after3_12 (c : Dev nD) (t : Fin cfg3.N) : (dat3 V c).after 12 t = iblk3 V c 12 t := by dsimp only [dat3]
theorem after3_13 (c : Dev nD) (t : Fin cfg3.N) : (dat3 V c).after 13 t = iblk3 V c 13 t := by dsimp only [dat3]
theorem after3_14 (c : Dev nD) (t : Fin cfg3.N) : (dat3 V c).after 14 t = iblk3 V c 14 t := by dsimp only [dat3]
theorem after3_15 (c : Dev nD) (t : Fin cfg3.N) : (dat3 V c).after 15 t = iblk3 V c 15 t := by dsimp only [dat3]
theorem after3_16 (c : Dev nD) (t : Fin cfg3.N) : (dat3 V c).after 16 t = iblk3 V c 16 t := by dsimp only [dat3]
theorem after3_17 (c : Dev nD) (t : Fin cfg3.N) : (dat3 V c).after 17 t = iblk3 V c 17 t := by dsimp only [dat3]
theorem after3_18 (c : Dev nD) (t : Fin cfg3.N) : (dat3 V c).after 18 t = iblk3 V c 18 t := by dsimp only [dat3]
theorem after3_19 (c : Dev nD) (t : Fin cfg3.N) : (dat3 V c).after 19 t = out3_19 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) (iblk3 V c 17 t) (iblk3 V c 18 t) := by dsimp only [dat3]
theorem after3_20 (c : Dev nD) (t : Fin cfg3.N) : (dat3 V c).after 20 t = out3_20 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) (iblk3 V c 17 t) (iblk3 V c 18 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d
theorem before3_11 (c : Dev nD) (t : Fin cfg3.N) (d) : (dat3 V c).before 11 t d = iblk3 V c 11 t :=
  before3_11_of V (dat3 V c) (A_eq3 V c 11) (after3_11 V c) t d
theorem before3_12 (c : Dev nD) (t : Fin cfg3.N) (d) : (dat3 V c).before 12 t d = iblk3 V c 12 t :=
  before3_12_of V (dat3 V c) (A_eq3 V c 12) (after3_12 V c) t d
theorem before3_13 (c : Dev nD) (t : Fin cfg3.N) (d) : (dat3 V c).before 13 t d = iblk3 V c 13 t :=
  before3_13_of V (dat3 V c) (A_eq3 V c 13) (after3_13 V c) t d
theorem before3_14 (c : Dev nD) (t : Fin cfg3.N) (d) : (dat3 V c).before 14 t d = iblk3 V c 14 t :=
  before3_14_of V (dat3 V c) (A_eq3 V c 14) (after3_14 V c) t d
theorem before3_15 (c : Dev nD) (t : Fin cfg3.N) (d) : (dat3 V c).before 15 t d = iblk3 V c 15 t :=
  before3_15_of V (dat3 V c) (A_eq3 V c 15) (after3_15 V c) t d
theorem before3_16 (c : Dev nD) (t : Fin cfg3.N) (d) : (dat3 V c).before 16 t d = iblk3 V c 16 t :=
  before3_16_of V (dat3 V c) (A_eq3 V c 16) (after3_16 V c) t d
theorem before3_17 (c : Dev nD) (t : Fin cfg3.N) (d) : (dat3 V c).before 17 t d = iblk3 V c 17 t :=
  before3_17_of V (dat3 V c) (A_eq3 V c 17) (after3_17 V c) t d
theorem before3_18 (c : Dev nD) (t : Fin cfg3.N) (d) : (dat3 V c).before 18 t d = iblk3 V c 18 t :=
  before3_18_of V (dat3 V c) (A_eq3 V c 18) (after3_18 V c) t d

/-! ## The body obligation, at a generic point -/

/-- What the body is called with at point t, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d))
    ∗ (∃ d, owns (c : Thread nD τ) (st3_12 t) fullShare ((dat3 V c).before 12 t d))
    ∗ (∃ d, owns (c : Thread nD τ) (st3_13 t) fullShare ((dat3 V c).before 13 t d))
    ∗ (∃ d, owns (c : Thread nD τ) (st3_14 t) fullShare ((dat3 V c).before 14 t d))
    ∗ (∃ d, owns (c : Thread nD τ) (st3_15 t) fullShare ((dat3 V c).before 15 t d))
    ∗ (∃ d, owns (c : Thread nD τ) (st3_16 t) fullShare ((dat3 V c).before 16 t d))
    ∗ (∃ d, owns (c : Thread nD τ) (st3_17 t) fullShare ((dat3 V c).before 17 t d))
    ∗ (∃ d, owns (c : Thread nD τ) (st3_18 t) fullShare ((dat3 V c).before 18 t d))
    ∗ (∃ d, owns (c : Thread nD τ) (st3_19 t) fullShare ((dat3 V c).before 19 t d))
    ∗ (∃ d, owns (c : Thread nD τ) (st3_20 t) fullShare ((dat3 V c).before 20 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t)
    ∗ owns (c : Thread nD τ) (st3_12 t) fullShare ((dat3 V c).after 12 t)
    ∗ owns (c : Thread nD τ) (st3_13 t) fullShare ((dat3 V c).after 13 t)
    ∗ owns (c : Thread nD τ) (st3_14 t) fullShare ((dat3 V c).after 14 t)
    ∗ owns (c : Thread nD τ) (st3_15 t) fullShare ((dat3 V c).after 15 t)
    ∗ owns (c : Thread nD τ) (st3_16 t) fullShare ((dat3 V c).after 16 t)
    ∗ owns (c : Thread nD τ) (st3_17 t) fullShare ((dat3 V c).after 17 t)
    ∗ owns (c : Thread nD τ) (st3_18 t) fullShare ((dat3 V c).after 18 t)
    ∗ owns (c : Thread nD τ) (st3_19 t) fullShare ((dat3 V c).after 19 t)
    ∗ owns (c : Thread nD τ) (st3_20 t) fullShare ((dat3 V c).after 20 t))

set_option maxHeartbeats 4000000 in
/-- The body at any point: the inputs' memrefs hold their blocks, so the triple above applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10, before3_11, before3_12, before3_13, before3_14, before3_15, before3_16, before3_17, before3_18]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11, after3_12, after3_13, after3_14, after3_15, after3_16, after3_17, after3_18, after3_19, after3_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (sound_kernel3 c Set.univ _ _ _ _ _ _ _ _ _ _ _ _ _ _ _ _ _ _ _ _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) (iblk3 V c 17 t) (iblk3 V c 18 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Tree

end
-- ==== Proof.KBRegion4.lean ====
/-
  Region 4 of the program (the internal level of 256 nodes), at any contents V of the buffers when the region is entered.
  A window's block at a grid point is the part of its array the point's index map selects. The body reads every input
  block whole, and writes each of its two output blocks whole and once: the hidden states, then the memory cells, each a
  pure function of the input blocks. So after the body each input's staging buffer still holds its block and each
  output's holds that function of the input blocks; this is the step the pipeline's launch theorem asks of a body.
-/
import proofs.«167239_j63453846831535_1_alg».proof.Proof.Gen.Kernel.Launch
import proofs.«167239_j63453846831535_1_alg».proof.Proof.Gen.Kernel.Skeleton
import proofs.«167239_j63453846831535_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Tree

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, whether the point fetched it or an
    earlier one did (its index has not moved since), for any proof data over these arrays whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, whether the point fetched it or an
    earlier one did (its index has not moved since), for any proof data over these arrays whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, whether the point fetched it or an
    earlier one did (its index has not moved since), for any proof data over these arrays whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, whether the point fetched it or an
    earlier one did (its index has not moved since), for any proof data over these arrays whose body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, whether the point fetched it or an
    earlier one did (its index has not moved since), for any proof data over these arrays whose body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, whether the point fetched it or an
    earlier one did (its index has not moved since), for any proof data over these arrays whose body leaves the block in place. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's current staging buffer holds its block at every point, whether the point fetched it or an
    earlier one did (its index has not moved since), for any proof data over these arrays whose body leaves the block in place. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-- Input window 7's current staging buffer holds its block at every point, whether the point fetched it or an
    earlier one did (its index has not moved since), for any proof data over these arrays whose body leaves the block in place. -/
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

/-- Input window 8's current staging buffer holds its block at every point, whether the point fetched it or an
    earlier one did (its index has not moved since), for any proof data over these arrays whose body leaves the block in place. -/
theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)

/-- Input window 9's current staging buffer holds its block at every point, whether the point fetched it or an
    earlier one did (its index has not moved since), for any proof data over these arrays whose body leaves the block in place. -/
theorem before4_9_of {c : Dev nD} (dat : Dat τ (Elt F) Unit ℕ (UR sig nD τ) ℕ cfg4 c) (hA : dat.A 9 = V c (Pipeline.arrRef spec4 9))
    (hafter : ∀ t, dat.after 9 t = iblk4 V c 9 t) (t : Fin cfg4.N) (d) : dat.before 9 t d = iblk4 V c 9 t :=
  (dat.before_in_eq_fetched 9 rfl (fun _ => rfl) (fun _ _ _ => rfl) (fun t => by rw [hafter]; unfold Dat.blockOf iblk4; rw [hA]; try rfl) t d).trans
    (by unfold Dat.fetched Dat.blockOf iblk4; rw [hA]; try rfl)

/-- Input window 10's current staging buffer holds its block at every point, whether the point fetched it or an
    earlier one did (its index has not moved since), for any proof data over these arrays whose body leaves the block in place. -/
theorem before4_10_of {c : Dev nD} (dat : Dat τ (Elt F) Unit ℕ (UR sig nD τ) ℕ cfg4 c) (hA : dat.A 10 = V c (Pipeline.arrRef spec4 10))
    (hafter : ∀ t, dat.after 10 t = iblk4 V c 10 t) (t : Fin cfg4.N) (d) : dat.before 10 t d = iblk4 V c 10 t :=
  (dat.before_in_eq_fetched 10 rfl (fun _ => rfl) (fun _ _ _ => rfl) (fun t => by rw [hafter]; unfold Dat.blockOf iblk4; rw [hA]; try rfl) t d).trans
    (by unfold Dat.fetched Dat.blockOf iblk4; rw [hA]; try rfl)

/-- Input window 11's current staging buffer holds its block at every point, whether the point fetched it or an
    earlier one did (its index has not moved since), for any proof data over these arrays whose body leaves the block in place. -/
theorem before4_11_of {c : Dev nD} (dat : Dat τ (Elt F) Unit ℕ (UR sig nD τ) ℕ cfg4 c) (hA : dat.A 11 = V c (Pipeline.arrRef spec4 11))
    (hafter : ∀ t, dat.after 11 t = iblk4 V c 11 t) (t : Fin cfg4.N) (d) : dat.before 11 t d = iblk4 V c 11 t :=
  (dat.before_in_eq_fetched 11 rfl (fun _ => rfl) (fun _ _ _ => rfl) (fun t => by rw [hafter]; unfold Dat.blockOf iblk4; rw [hA]; try rfl) t d).trans
    (by unfold Dat.fetched Dat.blockOf iblk4; rw [hA]; try rfl)

/-- Input window 12's current staging buffer holds its block at every point, whether the point fetched it or an
    earlier one did (its index has not moved since), for any proof data over these arrays whose body leaves the block in place. -/
theorem before4_12_of {c : Dev nD} (dat : Dat τ (Elt F) Unit ℕ (UR sig nD τ) ℕ cfg4 c) (hA : dat.A 12 = V c (Pipeline.arrRef spec4 12))
    (hafter : ∀ t, dat.after 12 t = iblk4 V c 12 t) (t : Fin cfg4.N) (d) : dat.before 12 t d = iblk4 V c 12 t :=
  (dat.before_in_eq_fetched 12 rfl (fun _ => rfl) (fun _ _ _ => rfl) (fun t => by rw [hafter]; unfold Dat.blockOf iblk4; rw [hA]; try rfl) t d).trans
    (by unfold Dat.fetched Dat.blockOf iblk4; rw [hA]; try rfl)

/-- Input window 13's current staging buffer holds its block at every point, whether the point fetched it or an
    earlier one did (its index has not moved since), for any proof data over these arrays whose body leaves the block in place. -/
theorem before4_13_of {c : Dev nD} (dat : Dat τ (Elt F) Unit ℕ (UR sig nD τ) ℕ cfg4 c) (hA : dat.A 13 = V c (Pipeline.arrRef spec4 13))
    (hafter : ∀ t, dat.after 13 t = iblk4 V c 13 t) (t : Fin cfg4.N) (d) : dat.before 13 t d = iblk4 V c 13 t :=
  (dat.before_in_eq_fetched 13 rfl (fun _ => rfl) (fun _ _ _ => rfl) (fun t => by rw [hafter]; unfold Dat.blockOf iblk4; rw [hA]; try rfl) t d).trans
    (by unfold Dat.fetched Dat.blockOf iblk4; rw [hA]; try rfl)

/-- Input window 14's current staging buffer holds its block at every point, whether the point fetched it or an
    earlier one did (its index has not moved since), for any proof data over these arrays whose body leaves the block in place. -/
theorem before4_14_of {c : Dev nD} (dat : Dat τ (Elt F) Unit ℕ (UR sig nD τ) ℕ cfg4 c) (hA : dat.A 14 = V c (Pipeline.arrRef spec4 14))
    (hafter : ∀ t, dat.after 14 t = iblk4 V c 14 t) (t : Fin cfg4.N) (d) : dat.before 14 t d = iblk4 V c 14 t :=
  (dat.before_in_eq_fetched 14 rfl (fun _ => rfl) (fun _ _ _ => rfl) (fun t => by rw [hafter]; unfold Dat.blockOf iblk4; rw [hA]; try rfl) t d).trans
    (by unfold Dat.fetched Dat.blockOf iblk4; rw [hA]; try rfl)

/-- Input window 15's current staging buffer holds its block at every point, whether the point fetched it or an
    earlier one did (its index has not moved since), for any proof data over these arrays whose body leaves the block in place. -/
theorem before4_15_of {c : Dev nD} (dat : Dat τ (Elt F) Unit ℕ (UR sig nD τ) ℕ cfg4 c) (hA : dat.A 15 = V c (Pipeline.arrRef spec4 15))
    (hafter : ∀ t, dat.after 15 t = iblk4 V c 15 t) (t : Fin cfg4.N) (d) : dat.before 15 t d = iblk4 V c 15 t :=
  (dat.before_in_eq_fetched 15 rfl (fun _ => rfl) (fun _ _ _ => rfl) (fun t => by rw [hafter]; unfold Dat.blockOf iblk4; rw [hA]; try rfl) t d).trans
    (by unfold Dat.fetched Dat.blockOf iblk4; rw [hA]; try rfl)

/-- Input window 16's current staging buffer holds its block at every point, whether the point fetched it or an
    earlier one did (its index has not moved since), for any proof data over these arrays whose body leaves the block in place. -/
theorem before4_16_of {c : Dev nD} (dat : Dat τ (Elt F) Unit ℕ (UR sig nD τ) ℕ cfg4 c) (hA : dat.A 16 = V c (Pipeline.arrRef spec4 16))
    (hafter : ∀ t, dat.after 16 t = iblk4 V c 16 t) (t : Fin cfg4.N) (d) : dat.before 16 t d = iblk4 V c 16 t :=
  (dat.before_in_eq_fetched 16 rfl (fun _ => rfl) (fun _ _ _ => rfl) (fun t => by rw [hafter]; unfold Dat.blockOf iblk4; rw [hA]; try rfl) t d).trans
    (by unfold Dat.fetched Dat.blockOf iblk4; rw [hA]; try rfl)

/-- Input window 17's current staging buffer holds its block at every point, whether the point fetched it or an
    earlier one did (its index has not moved since), for any proof data over these arrays whose body leaves the block in place. -/
theorem before4_17_of {c : Dev nD} (dat : Dat τ (Elt F) Unit ℕ (UR sig nD τ) ℕ cfg4 c) (hA : dat.A 17 = V c (Pipeline.arrRef spec4 17))
    (hafter : ∀ t, dat.after 17 t = iblk4 V c 17 t) (t : Fin cfg4.N) (d) : dat.before 17 t d = iblk4 V c 17 t :=
  (dat.before_in_eq_fetched 17 rfl (fun _ => rfl) (fun _ _ _ => rfl) (fun t => by rw [hafter]; unfold Dat.blockOf iblk4; rw [hA]; try rfl) t d).trans
    (by unfold Dat.fetched Dat.blockOf iblk4; rw [hA]; try rfl)

/-- Input window 18's current staging buffer holds its block at every point, whether the point fetched it or an
    earlier one did (its index has not moved since), for any proof data over these arrays whose body leaves the block in place. -/
theorem before4_18_of {c : Dev nD} (dat : Dat τ (Elt F) Unit ℕ (UR sig nD τ) ℕ cfg4 c) (hA : dat.A 18 = V c (Pipeline.arrRef spec4 18))
    (hafter : ∀ t, dat.after 18 t = iblk4 V c 18 t) (t : Fin cfg4.N) (d) : dat.before 18 t d = iblk4 V c 18 t :=
  (dat.before_in_eq_fetched 18 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and store is through a buffer's whole rectangle -/

abbrev r4_S256x300 : Rect S256x300 := Rect.unit (s := S256x300) ![0, 0] S256x300.size inb_S256x300_S256x300_0_0
abbrev r4_S256x4x150 : Rect S256x4x150 := Rect.unit (s := S256x4x150) ![0, 0, 0] S256x4x150.size inb_S256x4x150_S256x4x150_0_0_0
abbrev r4_S300x150 : Rect S300x150 := Rect.unit (s := S300x150) ![0, 0] S300x150.size inb_S300x150_S300x150_0_0
abbrev r4_S1x150 : Rect S1x150 := Rect.unit (s := S1x150) ![0, 0] S1x150.size inb_S1x150_S1x150_0_0
abbrev r4_S150x150 : Rect S150x150 := Rect.unit (s := S150x150) ![0, 0] S150x150.size inb_S150x150_S150x150_0_0
abbrev r4_S256x150 : Rect S256x150 := Rect.unit (s := S256x150) ![0, 0] S256x150.size inb_S256x150_S256x150_0_0

/-! ## What the body leaves in each output window's buffer -/

/-- Output window 19's staging buffer after the body (the hidden states), from the input windows' blocks. -/
def out4_19 (x0 : Vec F S256x300 .f32) (x1 : Vec F S256x4x150 .f32) (x2 : Vec F S256x4x150 .f32) (x3 : Vec F S300x150 .f32) (x4 : Vec F S1x150 .f32) (x5 : Vec F S300x150 .f32) (x6 : Vec F S1x150 .f32) (x7 : Vec F S300x150 .f32) (x8 : Vec F S1x150 .f32) (x9 : Vec F S300x150 .f32) (x10 : Vec F S1x150 .f32) (x11 : Vec F S150x150 .f32) (x12 : Vec F S1x150 .f32) (x13 : Vec F S150x150 .f32) (x14 : Vec F S1x150 .f32) (x15 : Vec F S150x150 .f32) (x16 : Vec F S1x150 .f32) (x17 : Vec F S150x150 .f32) (x18 : Vec F S1x150 .f32) : Vec F S256x150 .f32 :=
  View.canon [⟨r4_S256x150, k4_pay2 (k4_pay5 (View.ld x1 r4_S256x4x150)) (k4_pay6 (View.ld x0 r4_S256x300) (View.ld x1 r4_S256x4x150) (View.ld x2 r4_S256x4x150) (View.ld x13 r4_S150x150) (View.ld x14 r4_S1x150) (View.ld x5 r4_S300x150) (View.ld x6 r4_S1x150)) (k4_pay8 (k4_pay5 (View.ld x1 r4_S256x4x150)) (k4_pay7 (View.ld x0 r4_S256x300) (View.ld x3 r4_S300x150)) (View.ld x4 r4_S1x150) (View.ld x11 r4_S150x150) (View.ld x12 r4_S1x150)) (k4_pay9 (k4_pay4 (View.ld x0 r4_S256x300)) (k4_pay5 (View.ld x1 r4_S256x4x150)) (View.ld x9 r4_S300x150) (View.ld x10 r4_S1x150) (View.ld x17 r4_S150x150) (View.ld x18 r4_S1x150)) (k4_pay10 (k4_pay4 (View.ld x0 r4_S256x300)) (View.ld x7 r4_S300x150) (View.ld x8 r4_S1x150)) (View.ld x15 r4_S150x150) (View.ld x16 r4_S1x150)⟩]

/-- Its one store is through the whole rectangle, so it covers the buffer. -/
theorem cover4_19 (p0 : Vec F S256x150 .f32) (y : S256x150.Idx) :
    ∃ pc ∈ ([⟨r4_S256x150, p0⟩] : List (View.Piece (Elt F) S256x150 .f32)), y ∈ pc.1.set :=
  View.cover_of_tiled [⟨r4_S256x150, p0⟩] S256x150.size (by rfl) y

/-- Output window 20's staging buffer after the body (the memory cells), from the input windows' blocks. -/
def out4_20 (x0 : Vec F S256x300 .f32) (x1 : Vec F S256x4x150 .f32) (x2 : Vec F S256x4x150 .f32) (x3 : Vec F S300x150 .f32) (x4 : Vec F S1x150 .f32) (x5 : Vec F S300x150 .f32) (x6 : Vec F S1x150 .f32) (x7 : Vec F S300x150 .f32) (x8 : Vec F S1x150 .f32) (x9 : Vec F S300x150 .f32) (x10 : Vec F S1x150 .f32) (x11 : Vec F S150x150 .f32) (x12 : Vec F S1x150 .f32) (x13 : Vec F S150x150 .f32) (x14 : Vec F S1x150 .f32) (x15 : Vec F S150x150 .f32) (x16 : Vec F S1x150 .f32) (x17 : Vec F S150x150 .f32) (x18 : Vec F S1x150 .f32) : Vec F S256x150 .f32 :=
  View.canon [⟨r4_S256x150, k4_pay1 (k4_pay5 (View.ld x1 r4_S256x4x150)) (k4_pay6 (View.ld x0 r4_S256x300) (View.ld x1 r4_S256x4x150) (View.ld x2 r4_S256x4x150) (View.ld x13 r4_S150x150) (View.ld x14 r4_S1x150) (View.ld x5 r4_S300x150) (View.ld x6 r4_S1x150)) (k4_pay8 (k4_pay5 (View.ld x1 r4_S256x4x150)) (k4_pay7 (View.ld x0 r4_S256x300) (View.ld x3 r4_S300x150)) (View.ld x4 r4_S1x150) (View.ld x11 r4_S150x150) (View.ld x12 r4_S1x150)) (k4_pay10 (k4_pay4 (View.ld x0 r4_S256x300)) (View.ld x7 r4_S300x150) (View.ld x8 r4_S1x150)) (View.ld x15 r4_S150x150) (View.ld x16 r4_S1x150)⟩]

/-- Its one store is through the whole rectangle, so it covers the buffer. -/
theorem cover4_20 (p0 : Vec F S256x150 .f32) (y : S256x150.Idx) :
    ∃ pc ∈ ([⟨r4_S256x150, p0⟩] : List (View.Piece (Elt F) S256x150 .f32)), y ∈ pc.1.set :=
  View.cover_of_tiled [⟨r4_S256x150, p0⟩] S256x150.size (by rfl) y

/-! ## The body's triple -/

set_option maxHeartbeats 4000000 in
/-- The kernel body on whole staging memrefs, the inputs' at contents xW and the outputs' at anything, runs to a
    continuation that holds the inputs' as they were and each output's at its function of the inputs'. -/
theorem sound_kernel4 (c : Dev nD) (E : Set ℕ) (i : grid4.Coords) (arg1 : Memref sig .tc .vmem S256x300 .f32) (harg1 : arg1.IsWhole) (arg2 : Memref sig .tc .vmem S256x4x150 .f32) (harg2 : arg2.IsWhole) (arg3 : Memref sig .tc .vmem S256x4x150 .f32) (harg3 : arg3.IsWhole) (arg4 : Memref sig .tc .vmem S300x150 .f32) (harg4 : arg4.IsWhole) (arg5 : Memref sig .tc .vmem S1x150 .f32) (harg5 : arg5.IsWhole) (arg6 : Memref sig .tc .vmem S300x150 .f32) (harg6 : arg6.IsWhole) (arg7 : Memref sig .tc .vmem S1x150 .f32) (harg7 : arg7.IsWhole) (arg8 : Memref sig .tc .vmem S300x150 .f32) (harg8 : arg8.IsWhole) (arg9 : Memref sig .tc .vmem S1x150 .f32) (harg9 : arg9.IsWhole) (arg10 : Memref sig .tc .vmem S300x150 .f32) (harg10 : arg10.IsWhole) (arg11 : Memref sig .tc .vmem S1x150 .f32) (harg11 : arg11.IsWhole) (arg12 : Memref sig .tc .vmem S150x150 .f32) (harg12 : arg12.IsWhole) (arg13 : Memref sig .tc .vmem S1x150 .f32) (harg13 : arg13.IsWhole) (arg14 : Memref sig .tc .vmem S150x150 .f32) (harg14 : arg14.IsWhole) (arg15 : Memref sig .tc .vmem S1x150 .f32) (harg15 : arg15.IsWhole) (arg16 : Memref sig .tc .vmem S150x150 .f32) (harg16 : arg16.IsWhole) (arg17 : Memref sig .tc .vmem S1x150 .f32) (harg17 : arg17.IsWhole) (arg18 : Memref sig .tc .vmem S150x150 .f32) (harg18 : arg18.IsWhole) (arg19 : Memref sig .tc .vmem S1x150 .f32) (harg19 : arg19.IsWhole) (arg20 : Memref sig .tc .vmem S256x150 .f32) (harg20 : arg20.IsWhole) (arg21 : Memref sig .tc .vmem S256x150 .f32) (harg21 : arg21.IsWhole)
    (x0 : Vec F S256x300 .f32) (x1 : Vec F S256x4x150 .f32) (x2 : Vec F S256x4x150 .f32) (x3 : Vec F S300x150 .f32) (x4 : Vec F S1x150 .f32) (x5 : Vec F S300x150 .f32) (x6 : Vec F S1x150 .f32) (x7 : Vec F S300x150 .f32) (x8 : Vec F S1x150 .f32) (x9 : Vec F S300x150 .f32) (x10 : Vec F S1x150 .f32) (x11 : Vec F S150x150 .f32) (x12 : Vec F S1x150 .f32) (x13 : Vec F S150x150 .f32) (x14 : Vec F S1x150 .f32) (x15 : Vec F S150x150 .f32) (x16 : Vec F S1x150 .f32) (x17 : Vec F S150x150 .f32) (x18 : Vec F S1x150 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare (out4_19 x0 x1 x2 x3 x4 x5 x6 x7 x8 x9 x10 x11 x12 x13 x14 x15 x16 x17 x18) ∗ owns (c : Thread nD τ) arg21 fullShare (out4_20 x0 x1 x2 x3 x4 x5 x6 x7 x8 x9 x10 x11 x12 x13 x14 x15 x16 x17 x18)) -∗ K ⟨⟩))
      ⊢ wp frame (wpE (defs₀ (F := F)) Variants.none c none) E (cc4__internal_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc4__internal_kernel_eq_skeleton]; unfold cc4__internal_kernel_skel
  simp only [k4_part1_eq_skeleton]; unfold k4_part1_skel
  simp only [k4_part2_eq_skeleton]; unfold k4_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, Hk⟩
  subst hf0 hf1 hf2 hf3 hf4 hf5 hf6 hf7 hf8 hf9 hf10 hf11 hf12 hf13 hf14 hf15 hf16 hf17 hf18
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists _; isplitr
    swap; · iexact H19
    ipureintro
    exact View.read_writes_eq_canon _ _ _ (cover4_19 _)
  iexists _; isplitr
  swap; · iexact H20
  ipureintro
  exact View.read_writes_eq_canon _ _ _ (cover4_20 _)

/-! ## The pipeline's proof data -/

/-- The proof data of this pipeline on core c: the arrays as the region finds them; after the body at point t each
    input's buffer at its block and each output's at its function of the input blocks; nothing owed, full shares, and
    the invariant that carries only what the body does not touch. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => iblk4 V c 10 t
    | ⟨11, _⟩ => iblk4 V c 11 t
    | ⟨12, _⟩ => iblk4 V c 12 t
    | ⟨13, _⟩ => iblk4 V c 13 t
    | ⟨14, _⟩ => iblk4 V c 14 t
    | ⟨15, _⟩ => iblk4 V c 15 t
    | ⟨16, _⟩ => iblk4 V c 16 t
    | ⟨17, _⟩ => iblk4 V c 17 t
    | ⟨18, _⟩ => iblk4 V c 18 t
    | ⟨19, _⟩ => out4_19 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t) (iblk4 V c 17 t) (iblk4 V c 18 t)
    | ⟨20, _⟩ => out4_20 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t) (iblk4 V c 17 t) (iblk4 V c 18 t)
    | ⟨n + 21, h⟩ => absurd h (Nat.not_lt.mpr (Nat.le_add_left 21 n))
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = iblk4 V c 9 t := by dsimp only [dat4]
theorem after4_10 (c : Dev nD) (t : Fin cfg4.N) : (dat4 V c).after 10 t = iblk4 V c 10 t := by dsimp only [dat4]
theorem after4_11 (c : Dev nD) (t : Fin cfg4.N) : (dat4 V c).after 11 t = iblk4 V c 11 t := by dsimp only [dat4]
theorem after4_12 (c : Dev nD) (t : Fin cfg4.N) : (dat4 V c).after 12 t = iblk4 V c 12 t := by dsimp only [dat4]
theorem after4_13 (c : Dev nD) (t : Fin cfg4.N) : (dat4 V c).after 13 t = iblk4 V c 13 t := by dsimp only [dat4]
theorem after4_14 (c : Dev nD) (t : Fin cfg4.N) : (dat4 V c).after 14 t = iblk4 V c 14 t := by dsimp only [dat4]
theorem after4_15 (c : Dev nD) (t : Fin cfg4.N) : (dat4 V c).after 15 t = iblk4 V c 15 t := by dsimp only [dat4]
theorem after4_16 (c : Dev nD) (t : Fin cfg4.N) : (dat4 V c).after 16 t = iblk4 V c 16 t := by dsimp only [dat4]
theorem after4_17 (c : Dev nD) (t : Fin cfg4.N) : (dat4 V c).after 17 t = iblk4 V c 17 t := by dsimp only [dat4]
theorem after4_18 (c : Dev nD) (t : Fin cfg4.N) : (dat4 V c).after 18 t = iblk4 V c 18 t := by dsimp only [dat4]
theorem after4_19 (c : Dev nD) (t : Fin cfg4.N) : (dat4 V c).after 19 t = out4_19 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t) (iblk4 V c 17 t) (iblk4 V c 18 t) := by dsimp only [dat4]
theorem after4_20 (c : Dev nD) (t : Fin cfg4.N) : (dat4 V c).after 20 t = out4_20 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t) (iblk4 V c 17 t) (iblk4 V c 18 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d
theorem before4_9 (c : Dev nD) (t : Fin cfg4.N) (d) : (dat4 V c).before 9 t d = iblk4 V c 9 t :=
  before4_9_of V (dat4 V c) (A_eq4 V c 9) (after4_9 V c) t d
theorem before4_10 (c : Dev nD) (t : Fin cfg4.N) (d) : (dat4 V c).before 10 t d = iblk4 V c 10 t :=
  before4_10_of V (dat4 V c) (A_eq4 V c 10) (after4_10 V c) t d
theorem before4_11 (c : Dev nD) (t : Fin cfg4.N) (d) : (dat4 V c).before 11 t d = iblk4 V c 11 t :=
  before4_11_of V (dat4 V c) (A_eq4 V c 11) (after4_11 V c) t d
theorem before4_12 (c : Dev nD) (t : Fin cfg4.N) (d) : (dat4 V c).before 12 t d = iblk4 V c 12 t :=
  before4_12_of V (dat4 V c) (A_eq4 V c 12) (after4_12 V c) t d
theorem before4_13 (c : Dev nD) (t : Fin cfg4.N) (d) : (dat4 V c).before 13 t d = iblk4 V c 13 t :=
  before4_13_of V (dat4 V c) (A_eq4 V c 13) (after4_13 V c) t d
theorem before4_14 (c : Dev nD) (t : Fin cfg4.N) (d) : (dat4 V c).before 14 t d = iblk4 V c 14 t :=
  before4_14_of V (dat4 V c) (A_eq4 V c 14) (after4_14 V c) t d
theorem before4_15 (c : Dev nD) (t : Fin cfg4.N) (d) : (dat4 V c).before 15 t d = iblk4 V c 15 t :=
  before4_15_of V (dat4 V c) (A_eq4 V c 15) (after4_15 V c) t d
theorem before4_16 (c : Dev nD) (t : Fin cfg4.N) (d) : (dat4 V c).before 16 t d = iblk4 V c 16 t :=
  before4_16_of V (dat4 V c) (A_eq4 V c 16) (after4_16 V c) t d
theorem before4_17 (c : Dev nD) (t : Fin cfg4.N) (d) : (dat4 V c).before 17 t d = iblk4 V c 17 t :=
  before4_17_of V (dat4 V c) (A_eq4 V c 17) (after4_17 V c) t d
theorem before4_18 (c : Dev nD) (t : Fin cfg4.N) (d) : (dat4 V c).before 18 t d = iblk4 V c 18 t :=
  before4_18_of V (dat4 V c) (A_eq4 V c 18) (after4_18 V c) t d

/-! ## The body obligation, at a generic point -/

/-- What the body is called with at point t, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d))
    ∗ (∃ d, owns (c : Thread nD τ) (st4_10 t) fullShare ((dat4 V c).before 10 t d))
    ∗ (∃ d, owns (c : Thread nD τ) (st4_11 t) fullShare ((dat4 V c).before 11 t d))
    ∗ (∃ d, owns (c : Thread nD τ) (st4_12 t) fullShare ((dat4 V c).before 12 t d))
    ∗ (∃ d, owns (c : Thread nD τ) (st4_13 t) fullShare ((dat4 V c).before 13 t d))
    ∗ (∃ d, owns (c : Thread nD τ) (st4_14 t) fullShare ((dat4 V c).before 14 t d))
    ∗ (∃ d, owns (c : Thread nD τ) (st4_15 t) fullShare ((dat4 V c).before 15 t d))
    ∗ (∃ d, owns (c : Thread nD τ) (st4_16 t) fullShare ((dat4 V c).before 16 t d))
    ∗ (∃ d, owns (c : Thread nD τ) (st4_17 t) fullShare ((dat4 V c).before 17 t d))
    ∗ (∃ d, owns (c : Thread nD τ) (st4_18 t) fullShare ((dat4 V c).before 18 t d))
    ∗ (∃ d, owns (c : Thread nD τ) (st4_19 t) fullShare ((dat4 V c).before 19 t d))
    ∗ (∃ d, owns (c : Thread nD τ) (st4_20 t) fullShare ((dat4 V c).before 20 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t)
    ∗ owns (c : Thread nD τ) (st4_10 t) fullShare ((dat4 V c).after 10 t)
    ∗ owns (c : Thread nD τ) (st4_11 t) fullShare ((dat4 V c).after 11 t)
    ∗ owns (c : Thread nD τ) (st4_12 t) fullShare ((dat4 V c).after 12 t)
    ∗ owns (c : Thread nD τ) (st4_13 t) fullShare ((dat4 V c).after 13 t)
    ∗ owns (c : Thread nD τ) (st4_14 t) fullShare ((dat4 V c).after 14 t)
    ∗ owns (c : Thread nD τ) (st4_15 t) fullShare ((dat4 V c).after 15 t)
    ∗ owns (c : Thread nD τ) (st4_16 t) fullShare ((dat4 V c).after 16 t)
    ∗ owns (c : Thread nD τ) (st4_17 t) fullShare ((dat4 V c).after 17 t)
    ∗ owns (c : Thread nD τ) (st4_18 t) fullShare ((dat4 V c).after 18 t)
    ∗ owns (c : Thread nD τ) (st4_19 t) fullShare ((dat4 V c).after 19 t)
    ∗ owns (c : Thread nD τ) (st4_20 t) fullShare ((dat4 V c).after 20 t))

set_option maxHeartbeats 4000000 in
/-- The body at any point: the inputs' memrefs hold their blocks, so the triple above applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8, before4_9, before4_10, before4_11, before4_12, before4_13, before4_14, before4_15, before4_16, before4_17, before4_18]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9, after4_10, after4_11, after4_12, after4_13, after4_14, after4_15, after4_16, after4_17, after4_18, after4_19, after4_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (sound_kernel4 c Set.univ _ _ _ _ _ _ _ _ _ _ _ _ _ _ _ _ _ _ _ _ _ _ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t) (iblk4 V c 17 t) (iblk4 V c 18 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Tree

end
-- ==== Proof.KBRegion5.lean ====
/-
  Region 5 of the program (the internal level of 64 nodes), at any contents V of the buffers when the region is entered.
  A window's block at a grid point is the part of its array the point's index map selects. The body reads every input
  block whole, and writes each of its two output blocks whole and once: the hidden states, then the memory cells, each a
  pure function of the input blocks. So after the body each input's staging buffer still holds its block and each
  output's holds that function of the input blocks; this is the step the pipeline's launch theorem asks of a body.
-/
import proofs.«167239_j63453846831535_1_alg».proof.Proof.Gen.Kernel.Launch
import proofs.«167239_j63453846831535_1_alg».proof.Proof.Gen.Kernel.Skeleton
import proofs.«167239_j63453846831535_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Tree

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, whether the point fetched it or an
    earlier one did (its index has not moved since), for any proof data over these arrays whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, whether the point fetched it or an
    earlier one did (its index has not moved since), for any proof data over these arrays whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, whether the point fetched it or an
    earlier one did (its index has not moved since), for any proof data over these arrays whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, whether the point fetched it or an
    earlier one did (its index has not moved since), for any proof data over these arrays whose body leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, whether the point fetched it or an
    earlier one did (its index has not moved since), for any proof data over these arrays whose body leaves the block in place. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, whether the point fetched it or an
    earlier one did (its index has not moved since), for any proof data over these arrays whose body leaves the block in place. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6's current staging buffer holds its block at every point, whether the point fetched it or an
    earlier one did (its index has not moved since), for any proof data over these arrays whose body leaves the block in place. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-- Input window 7's current staging buffer holds its block at every point, whether the point fetched it or an
    earlier one did (its index has not moved since), for any proof data over these arrays whose body leaves the block in place. -/
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

/-- Input window 8's current staging buffer holds its block at every point, whether the point fetched it or an
    earlier one did (its index has not moved since), for any proof data over these arrays whose body leaves the block in place. -/
theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)

/-- Input window 9's current staging buffer holds its block at every point, whether the point fetched it or an
    earlier one did (its index has not moved since), for any proof data over these arrays whose body leaves the block in place. -/
theorem before5_9_of {c : Dev nD} (dat : Dat τ (Elt F) Unit ℕ (UR sig nD τ) ℕ cfg5 c) (hA : dat.A 9 = V c (Pipeline.arrRef spec5 9))
    (hafter : ∀ t, dat.after 9 t = iblk5 V c 9 t) (t : Fin cfg5.N) (d) : dat.before 9 t d = iblk5 V c 9 t :=
  (dat.before_in_eq_fetched 9 rfl (fun _ => rfl) (fun _ _ _ => rfl) (fun t => by rw [hafter]; unfold Dat.blockOf iblk5; rw [hA]; try rfl) t d).trans
    (by unfold Dat.fetched Dat.blockOf iblk5; rw [hA]; try rfl)

/-- Input window 10's current staging buffer holds its block at every point, whether the point fetched it or an
    earlier one did (its index has not moved since), for any proof data over these arrays whose body leaves the block in place. -/
theorem before5_10_of {c : Dev nD} (dat : Dat τ (Elt F) Unit ℕ (UR sig nD τ) ℕ cfg5 c) (hA : dat.A 10 = V c (Pipeline.arrRef spec5 10))
    (hafter : ∀ t, dat.after 10 t = iblk5 V c 10 t) (t : Fin cfg5.N) (d) : dat.before 10 t d = iblk5 V c 10 t :=
  (dat.before_in_eq_fetched 10 rfl (fun _ => rfl) (fun _ _ _ => rfl) (fun t => by rw [hafter]; unfold Dat.blockOf iblk5; rw [hA]; try rfl) t d).trans
    (by unfold Dat.fetched Dat.blockOf iblk5; rw [hA]; try rfl)

/-- Input window 11's current staging buffer holds its block at every point, whether the point fetched it or an
    earlier one did (its index has not moved since), for any proof data over these arrays whose body leaves the block in place. -/
theorem before5_11_of {c : Dev nD} (dat : Dat τ (Elt F) Unit ℕ (UR sig nD τ) ℕ cfg5 c) (hA : dat.A 11 = V c (Pipeline.arrRef spec5 11))
    (hafter : ∀ t, dat.after 11 t = iblk5 V c 11 t) (t : Fin cfg5.N) (d) : dat.before 11 t d = iblk5 V c 11 t :=
  (dat.before_in_eq_fetched 11 rfl (fun _ => rfl) (fun _ _ _ => rfl) (fun t => by rw [hafter]; unfold Dat.blockOf iblk5; rw [hA]; try rfl) t d).trans
    (by unfold Dat.fetched Dat.blockOf iblk5; rw [hA]; try rfl)

/-- Input window 12's current staging buffer holds its block at every point, whether the point fetched it or an
    earlier one did (its index has not moved since), for any proof data over these arrays whose body leaves the block in place. -/
theorem before5_12_of {c : Dev nD} (dat : Dat τ (Elt F) Unit ℕ (UR sig nD τ) ℕ cfg5 c) (hA : dat.A 12 = V c (Pipeline.arrRef spec5 12))
    (hafter : ∀ t, dat.after 12 t = iblk5 V c 12 t) (t : Fin cfg5.N) (d) : dat.before 12 t d = iblk5 V c 12 t :=
  (dat.before_in_eq_fetched 12 rfl (fun _ => rfl) (fun _ _ _ => rfl) (fun t => by rw [hafter]; unfold Dat.blockOf iblk5; rw [hA]; try rfl) t d).trans
    (by unfold Dat.fetched Dat.blockOf iblk5; rw [hA]; try rfl)

/-- Input window 13's current staging buffer holds its block at every point, whether the point fetched it or an
    earlier one did (its index has not moved since), for any proof data over these arrays whose body leaves the block in place. -/
theorem before5_13_of {c : Dev nD} (dat : Dat τ (Elt F) Unit ℕ (UR sig nD τ) ℕ cfg5 c) (hA : dat.A 13 = V c (Pipeline.arrRef spec5 13))
    (hafter : ∀ t, dat.after 13 t = iblk5 V c 13 t) (t : Fin cfg5.N) (d) : dat.before 13 t d = iblk5 V c 13 t :=
  (dat.before_in_eq_fetched 13 rfl (fun _ => rfl) (fun _ _ _ => rfl) (fun t => by rw [hafter]; unfold Dat.blockOf iblk5; rw [hA]; try rfl) t d).trans
    (by unfold Dat.fetched Dat.blockOf iblk5; rw [hA]; try rfl)

/-- Input window 14's current staging buffer holds its block at every point, whether the point fetched it or an
    earlier one did (its index has not moved since), for any proof data over these arrays whose body leaves the block in place. -/
theorem before5_14_of {c : Dev nD} (dat : Dat τ (Elt F) Unit ℕ (UR sig nD τ) ℕ cfg5 c) (hA : dat.A 14 = V c (Pipeline.arrRef spec5 14))
    (hafter : ∀ t, dat.after 14 t = iblk5 V c 14 t) (t : Fin cfg5.N) (d) : dat.before 14 t d = iblk5 V c 14 t :=
  (dat.before_in_eq_fetched 14 rfl (fun _ => rfl) (fun _ _ _ => rfl) (fun t => by rw [hafter]; unfold Dat.blockOf iblk5; rw [hA]; try rfl) t d).trans
    (by unfold Dat.fetched Dat.blockOf iblk5; rw [hA]; try rfl)

/-- Input window 15's current staging buffer holds its block at every point, whether the point fetched it or an
    earlier one did (its index has not moved since), for any proof data over these arrays whose body leaves the block in place. -/
theorem before5_15_of {c : Dev nD} (dat : Dat τ (Elt F) Unit ℕ (UR sig nD τ) ℕ cfg5 c) (hA : dat.A 15 = V c (Pipeline.arrRef spec5 15))
    (hafter : ∀ t, dat.after 15 t = iblk5 V c 15 t) (t : Fin cfg5.N) (d) : dat.before 15 t d = iblk5 V c 15 t :=
  (dat.before_in_eq_fetched 15 rfl (fun _ => rfl) (fun _ _ _ => rfl) (fun t => by rw [hafter]; unfold Dat.blockOf iblk5; rw [hA]; try rfl) t d).trans
    (by unfold Dat.fetched Dat.blockOf iblk5; rw [hA]; try rfl)

/-- Input window 16's current staging buffer holds its block at every point, whether the point fetched it or an
    earlier one did (its index has not moved since), for any proof data over these arrays whose body leaves the block in place. -/
theorem before5_16_of {c : Dev nD} (dat : Dat τ (Elt F) Unit ℕ (UR sig nD τ) ℕ cfg5 c) (hA : dat.A 16 = V c (Pipeline.arrRef spec5 16))
    (hafter : ∀ t, dat.after 16 t = iblk5 V c 16 t) (t : Fin cfg5.N) (d) : dat.before 16 t d = iblk5 V c 16 t :=
  (dat.before_in_eq_fetched 16 rfl (fun _ => rfl) (fun _ _ _ => rfl) (fun t => by rw [hafter]; unfold Dat.blockOf iblk5; rw [hA]; try rfl) t d).trans
    (by unfold Dat.fetched Dat.blockOf iblk5; rw [hA]; try rfl)

/-- Input window 17's current staging buffer holds its block at every point, whether the point fetched it or an
    earlier one did (its index has not moved since), for any proof data over these arrays whose body leaves the block in place. -/
theorem before5_17_of {c : Dev nD} (dat : Dat τ (Elt F) Unit ℕ (UR sig nD τ) ℕ cfg5 c) (hA : dat.A 17 = V c (Pipeline.arrRef spec5 17))
    (hafter : ∀ t, dat.after 17 t = iblk5 V c 17 t) (t : Fin cfg5.N) (d) : dat.before 17 t d = iblk5 V c 17 t :=
  (dat.before_in_eq_fetched 17 rfl (fun _ => rfl) (fun _ _ _ => rfl) (fun t => by rw [hafter]; unfold Dat.blockOf iblk5; rw [hA]; try rfl) t d).trans
    (by unfold Dat.fetched Dat.blockOf iblk5; rw [hA]; try rfl)

/-- Input window 18's current staging buffer holds its block at every point, whether the point fetched it or an
    earlier one did (its index has not moved since), for any proof data over these arrays whose body leaves the block in place. -/
theorem before5_18_of {c : Dev nD} (dat : Dat τ (Elt F) Unit ℕ (UR sig nD τ) ℕ cfg5 c) (hA : dat.A 18 = V c (Pipeline.arrRef spec5 18))
    (hafter : ∀ t, dat.after 18 t = iblk5 V c 18 t) (t : Fin cfg5.N) (d) : dat.before 18 t d = iblk5 V c 18 t :=
  (dat.before_in_eq_fetched 18 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and store is through a buffer's whole rectangle -/

abbrev r5_S64x300 : Rect S64x300 := Rect.unit (s := S64x300) ![0, 0] S64x300.size inb_S64x300_S64x300_0_0
abbrev r5_S64x4x150 : Rect S64x4x150 := Rect.unit (s := S64x4x150) ![0, 0, 0] S64x4x150.size inb_S64x4x150_S64x4x150_0_0_0
abbrev r5_S300x150 : Rect S300x150 := Rect.unit (s := S300x150) ![0, 0] S300x150.size inb_S300x150_S300x150_0_0
abbrev r5_S1x150 : Rect S1x150 := Rect.unit (s := S1x150) ![0, 0] S1x150.size inb_S1x150_S1x150_0_0
abbrev r5_S150x150 : Rect S150x150 := Rect.unit (s := S150x150) ![0, 0] S150x150.size inb_S150x150_S150x150_0_0
abbrev r5_S64x150 : Rect S64x150 := Rect.unit (s := S64x150) ![0, 0] S64x150.size inb_S64x150_S64x150_0_0

/-! ## What the body leaves in each output window's buffer -/

/-- Output window 19's staging buffer after the body (the hidden states), from the input windows' blocks. -/
def out5_19 (x0 : Vec F S64x300 .f32) (x1 : Vec F S64x4x150 .f32) (x2 : Vec F S64x4x150 .f32) (x3 : Vec F S300x150 .f32) (x4 : Vec F S1x150 .f32) (x5 : Vec F S300x150 .f32) (x6 : Vec F S1x150 .f32) (x7 : Vec F S300x150 .f32) (x8 : Vec F S1x150 .f32) (x9 : Vec F S300x150 .f32) (x10 : Vec F S1x150 .f32) (x11 : Vec F S150x150 .f32) (x12 : Vec F S1x150 .f32) (x13 : Vec F S150x150 .f32) (x14 : Vec F S1x150 .f32) (x15 : Vec F S150x150 .f32) (x16 : Vec F S1x150 .f32) (x17 : Vec F S150x150 .f32) (x18 : Vec F S1x150 .f32) : Vec F S64x150 .f32 :=
  View.canon [⟨r5_S64x150, k5_pay2 (k5_pay5 (View.ld x1 r5_S64x4x150)) (k5_pay6 (View.ld x0 r5_S64x300) (View.ld x1 r5_S64x4x150) (View.ld x2 r5_S64x4x150) (View.ld x13 r5_S150x150) (View.ld x14 r5_S1x150) (View.ld x5 r5_S300x150) (View.ld x6 r5_S1x150)) (k5_pay8 (k5_pay5 (View.ld x1 r5_S64x4x150)) (k5_pay7 (View.ld x0 r5_S64x300) (View.ld x3 r5_S300x150)) (View.ld x4 r5_S1x150) (View.ld x11 r5_S150x150) (View.ld x12 r5_S1x150)) (k5_pay9 (k5_pay4 (View.ld x0 r5_S64x300)) (k5_pay5 (View.ld x1 r5_S64x4x150)) (View.ld x9 r5_S300x150) (View.ld x10 r5_S1x150) (View.ld x17 r5_S150x150) (View.ld x18 r5_S1x150)) (k5_pay10 (k5_pay4 (View.ld x0 r5_S64x300)) (View.ld x7 r5_S300x150) (View.ld x8 r5_S1x150)) (View.ld x15 r5_S150x150) (View.ld x16 r5_S1x150)⟩]

/-- Its one store is through the whole rectangle, so it covers the buffer. -/
theorem cover5_19 (p0 : Vec F S64x150 .f32) (y : S64x150.Idx) :
    ∃ pc ∈ ([⟨r5_S64x150, p0⟩] : List (View.Piece (Elt F) S64x150 .f32)), y ∈ pc.1.set :=
  View.cover_of_tiled [⟨r5_S64x150, p0⟩] S64x150.size (by rfl) y

/-- Output window 20's staging buffer after the body (the memory cells), from the input windows' blocks. -/
def out5_20 (x0 : Vec F S64x300 .f32) (x1 : Vec F S64x4x150 .f32) (x2 : Vec F S64x4x150 .f32) (x3 : Vec F S300x150 .f32) (x4 : Vec F S1x150 .f32) (x5 : Vec F S300x150 .f32) (x6 : Vec F S1x150 .f32) (x7 : Vec F S300x150 .f32) (x8 : Vec F S1x150 .f32) (x9 : Vec F S300x150 .f32) (x10 : Vec F S1x150 .f32) (x11 : Vec F S150x150 .f32) (x12 : Vec F S1x150 .f32) (x13 : Vec F S150x150 .f32) (x14 : Vec F S1x150 .f32) (x15 : Vec F S150x150 .f32) (x16 : Vec F S1x150 .f32) (x17 : Vec F S150x150 .f32) (x18 : Vec F S1x150 .f32) : Vec F S64x150 .f32 :=
  View.canon [⟨r5_S64x150, k5_pay1 (k5_pay5 (View.ld x1 r5_S64x4x150)) (k5_pay6 (View.ld x0 r5_S64x300) (View.ld x1 r5_S64x4x150) (View.ld x2 r5_S64x4x150) (View.ld x13 r5_S150x150) (View.ld x14 r5_S1x150) (View.ld x5 r5_S300x150) (View.ld x6 r5_S1x150)) (k5_pay8 (k5_pay5 (View.ld x1 r5_S64x4x150)) (k5_pay7 (View.ld x0 r5_S64x300) (View.ld x3 r5_S300x150)) (View.ld x4 r5_S1x150) (View.ld x11 r5_S150x150) (View.ld x12 r5_S1x150)) (k5_pay10 (k5_pay4 (View.ld x0 r5_S64x300)) (View.ld x7 r5_S300x150) (View.ld x8 r5_S1x150)) (View.ld x15 r5_S150x150) (View.ld x16 r5_S1x150)⟩]

/-- Its one store is through the whole rectangle, so it covers the buffer. -/
theorem cover5_20 (p0 : Vec F S64x150 .f32) (y : S64x150.Idx) :
    ∃ pc ∈ ([⟨r5_S64x150, p0⟩] : List (View.Piece (Elt F) S64x150 .f32)), y ∈ pc.1.set :=
  View.cover_of_tiled [⟨r5_S64x150, p0⟩] S64x150.size (by rfl) y

/-! ## The body's triple -/

set_option maxHeartbeats 4000000 in
/-- The kernel body on whole staging memrefs, the inputs' at contents xW and the outputs' at anything, runs to a
    continuation that holds the inputs' as they were and each output's at its function of the inputs'. -/
theorem sound_kernel5 (c : Dev nD) (E : Set ℕ) (i : grid5.Coords) (arg1 : Memref sig .tc .vmem S64x300 .f32) (harg1 : arg1.IsWhole) (arg2 : Memref sig .tc .vmem S64x4x150 .f32) (harg2 : arg2.IsWhole) (arg3 : Memref sig .tc .vmem S64x4x150 .f32) (harg3 : arg3.IsWhole) (arg4 : Memref sig .tc .vmem S300x150 .f32) (harg4 : arg4.IsWhole) (arg5 : Memref sig .tc .vmem S1x150 .f32) (harg5 : arg5.IsWhole) (arg6 : Memref sig .tc .vmem S300x150 .f32) (harg6 : arg6.IsWhole) (arg7 : Memref sig .tc .vmem S1x150 .f32) (harg7 : arg7.IsWhole) (arg8 : Memref sig .tc .vmem S300x150 .f32) (harg8 : arg8.IsWhole) (arg9 : Memref sig .tc .vmem S1x150 .f32) (harg9 : arg9.IsWhole) (arg10 : Memref sig .tc .vmem S300x150 .f32) (harg10 : arg10.IsWhole) (arg11 : Memref sig .tc .vmem S1x150 .f32) (harg11 : arg11.IsWhole) (arg12 : Memref sig .tc .vmem S150x150 .f32) (harg12 : arg12.IsWhole) (arg13 : Memref sig .tc .vmem S1x150 .f32) (harg13 : arg13.IsWhole) (arg14 : Memref sig .tc .vmem S150x150 .f32) (harg14 : arg14.IsWhole) (arg15 : Memref sig .tc .vmem S1x150 .f32) (harg15 : arg15.IsWhole) (arg16 : Memref sig .tc .vmem S150x150 .f32) (harg16 : arg16.IsWhole) (arg17 : Memref sig .tc .vmem S1x150 .f32) (harg17 : arg17.IsWhole) (arg18 : Memref sig .tc .vmem S150x150 .f32) (harg18 : arg18.IsWhole) (arg19 : Memref sig .tc .vmem S1x150 .f32) (harg19 : arg19.IsWhole) (arg20 : Memref sig .tc .vmem S64x150 .f32) (harg20 : arg20.IsWhole) (arg21 : Memref sig .tc .vmem S64x150 .f32) (harg21 : arg21.IsWhole)
    (x0 : Vec F S64x300 .f32) (x1 : Vec F S64x4x150 .f32) (x2 : Vec F S64x4x150 .f32) (x3 : Vec F S300x150 .f32) (x4 : Vec F S1x150 .f32) (x5 : Vec F S300x150 .f32) (x6 : Vec F S1x150 .f32) (x7 : Vec F S300x150 .f32) (x8 : Vec F S1x150 .f32) (x9 : Vec F S300x150 .f32) (x10 : Vec F S1x150 .f32) (x11 : Vec F S150x150 .f32) (x12 : Vec F S1x150 .f32) (x13 : Vec F S150x150 .f32) (x14 : Vec F S1x150 .f32) (x15 : Vec F S150x150 .f32) (x16 : Vec F S1x150 .f32) (x17 : Vec F S150x150 .f32) (x18 : Vec F S1x150 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare (out5_19 x0 x1 x2 x3 x4 x5 x6 x7 x8 x9 x10 x11 x12 x13 x14 x15 x16 x17 x18) ∗ owns (c : Thread nD τ) arg21 fullShare (out5_20 x0 x1 x2 x3 x4 x5 x6 x7 x8 x9 x10 x11 x12 x13 x14 x15 x16 x17 x18)) -∗ K ⟨⟩))
      ⊢ wp frame (wpE (defs₀ (F := F)) Variants.none c none) E (cc5__internal_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc5__internal_kernel_eq_skeleton]; unfold cc5__internal_kernel_skel
  simp only [k5_part1_eq_skeleton]; unfold k5_part1_skel
  simp only [k5_part2_eq_skeleton]; unfold k5_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, Hk⟩
  subst hf0 hf1 hf2 hf3 hf4 hf5 hf6 hf7 hf8 hf9 hf10 hf11 hf12 hf13 hf14 hf15 hf16 hf17 hf18
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists _; isplitr
    swap; · iexact H19
    ipureintro
    exact View.read_writes_eq_canon _ _ _ (cover5_19 _)
  iexists _; isplitr
  swap; · iexact H20
  ipureintro
  exact View.read_writes_eq_canon _ _ _ (cover5_20 _)

/-! ## The pipeline's proof data -/

/-- The proof data of this pipeline on core c: the arrays as the region finds them; after the body at point t each
    input's buffer at its block and each output's at its function of the input blocks; nothing owed, full shares, and
    the invariant that carries only what the body does not touch. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => iblk5 V c 9 t
    | ⟨10, _⟩ => iblk5 V c 10 t
    | ⟨11, _⟩ => iblk5 V c 11 t
    | ⟨12, _⟩ => iblk5 V c 12 t
    | ⟨13, _⟩ => iblk5 V c 13 t
    | ⟨14, _⟩ => iblk5 V c 14 t
    | ⟨15, _⟩ => iblk5 V c 15 t
    | ⟨16, _⟩ => iblk5 V c 16 t
    | ⟨17, _⟩ => iblk5 V c 17 t
    | ⟨18, _⟩ => iblk5 V c 18 t
    | ⟨19, _⟩ => out5_19 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (iblk5 V c 11 t) (iblk5 V c 12 t) (iblk5 V c 13 t) (iblk5 V c 14 t) (iblk5 V c 15 t) (iblk5 V c 16 t) (iblk5 V c 17 t) (iblk5 V c 18 t)
    | ⟨20, _⟩ => out5_20 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (iblk5 V c 11 t) (iblk5 V c 12 t) (iblk5 V c 13 t) (iblk5 V c 14 t) (iblk5 V c 15 t) (iblk5 V c 16 t) (iblk5 V c 17 t) (iblk5 V c 18 t)
    | ⟨n + 21, h⟩ => absurd h (Nat.not_lt.mpr (Nat.le_add_left 21 n))
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = iblk5 V c 9 t := by dsimp only [dat5]
theorem after5_10 (c : Dev nD) (t : Fin cfg5.N) : (dat5 V c).after 10 t = iblk5 V c 10 t := by dsimp only [dat5]
theorem after5_11 (c : Dev nD) (t : Fin cfg5.N) : (dat5 V c).after 11 t = iblk5 V c 11 t := by dsimp only [dat5]
theorem after5_12 (c : Dev nD) (t : Fin cfg5.N) : (dat5 V c).after 12 t = iblk5 V c 12 t := by dsimp only [dat5]
theorem after5_13 (c : Dev nD) (t : Fin cfg5.N) : (dat5 V c).after 13 t = iblk5 V c 13 t := by dsimp only [dat5]
theorem after5_14 (c : Dev nD) (t : Fin cfg5.N) : (dat5 V c).after 14 t = iblk5 V c 14 t := by dsimp only [dat5]
theorem after5_15 (c : Dev nD) (t : Fin cfg5.N) : (dat5 V c).after 15 t = iblk5 V c 15 t := by dsimp only [dat5]
theorem after5_16 (c : Dev nD) (t : Fin cfg5.N) : (dat5 V c).after 16 t = iblk5 V c 16 t := by dsimp only [dat5]
theorem after5_17 (c : Dev nD) (t : Fin cfg5.N) : (dat5 V c).after 17 t = iblk5 V c 17 t := by dsimp only [dat5]
theorem after5_18 (c : Dev nD) (t : Fin cfg5.N) : (dat5 V c).after 18 t = iblk5 V c 18 t := by dsimp only [dat5]
theorem after5_19 (c : Dev nD) (t : Fin cfg5.N) : (dat5 V c).after 19 t = out5_19 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (iblk5 V c 11 t) (iblk5 V c 12 t) (iblk5 V c 13 t) (iblk5 V c 14 t) (iblk5 V c 15 t) (iblk5 V c 16 t) (iblk5 V c 17 t) (iblk5 V c 18 t) := by dsimp only [dat5]
theorem after5_20 (c : Dev nD) (t : Fin cfg5.N) : (dat5 V c).after 20 t = out5_20 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (iblk5 V c 11 t) (iblk5 V c 12 t) (iblk5 V c 13 t) (iblk5 V c 14 t) (iblk5 V c 15 t) (iblk5 V c 16 t) (iblk5 V c 17 t) (iblk5 V c 18 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
theorem before5_8 (c : Dev nD) (t : Fin cfg5.N) (d) : (dat5 V c).before 8 t d = iblk5 V c 8 t :=
  before5_8_of V (dat5 V c) (A_eq5 V c 8) (after5_8 V c) t d
theorem before5_9 (c : Dev nD) (t : Fin cfg5.N) (d) : (dat5 V c).before 9 t d = iblk5 V c 9 t :=
  before5_9_of V (dat5 V c) (A_eq5 V c 9) (after5_9 V c) t d
theorem before5_10 (c : Dev nD) (t : Fin cfg5.N) (d) : (dat5 V c).before 10 t d = iblk5 V c 10 t :=
  before5_10_of V (dat5 V c) (A_eq5 V c 10) (after5_10 V c) t d
theorem before5_11 (c : Dev nD) (t : Fin cfg5.N) (d) : (dat5 V c).before 11 t d = iblk5 V c 11 t :=
  before5_11_of V (dat5 V c) (A_eq5 V c 11) (after5_11 V c) t d
theorem before5_12 (c : Dev nD) (t : Fin cfg5.N) (d) : (dat5 V c).before 12 t d = iblk5 V c 12 t :=
  before5_12_of V (dat5 V c) (A_eq5 V c 12) (after5_12 V c) t d
theorem before5_13 (c : Dev nD) (t : Fin cfg5.N) (d) : (dat5 V c).before 13 t d = iblk5 V c 13 t :=
  before5_13_of V (dat5 V c) (A_eq5 V c 13) (after5_13 V c) t d
theorem before5_14 (c : Dev nD) (t : Fin cfg5.N) (d) : (dat5 V c).before 14 t d = iblk5 V c 14 t :=
  before5_14_of V (dat5 V c) (A_eq5 V c 14) (after5_14 V c) t d
theorem before5_15 (c : Dev nD) (t : Fin cfg5.N) (d) : (dat5 V c).before 15 t d = iblk5 V c 15 t :=
  before5_15_of V (dat5 V c) (A_eq5 V c 15) (after5_15 V c) t d
theorem before5_16 (c : Dev nD) (t : Fin cfg5.N) (d) : (dat5 V c).before 16 t d = iblk5 V c 16 t :=
  before5_16_of V (dat5 V c) (A_eq5 V c 16) (after5_16 V c) t d
theorem before5_17 (c : Dev nD) (t : Fin cfg5.N) (d) : (dat5 V c).before 17 t d = iblk5 V c 17 t :=
  before5_17_of V (dat5 V c) (A_eq5 V c 17) (after5_17 V c) t d
theorem before5_18 (c : Dev nD) (t : Fin cfg5.N) (d) : (dat5 V c).before 18 t d = iblk5 V c 18 t :=
  before5_18_of V (dat5 V c) (A_eq5 V c 18) (after5_18 V c) t d

/-! ## The body obligation, at a generic point -/

/-- What the body is called with at point t, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d))
    ∗ (∃ d, owns (c : Thread nD τ) (st5_10 t) fullShare ((dat5 V c).before 10 t d))
    ∗ (∃ d, owns (c : Thread nD τ) (st5_11 t) fullShare ((dat5 V c).before 11 t d))
    ∗ (∃ d, owns (c : Thread nD τ) (st5_12 t) fullShare ((dat5 V c).before 12 t d))
    ∗ (∃ d, owns (c : Thread nD τ) (st5_13 t) fullShare ((dat5 V c).before 13 t d))
    ∗ (∃ d, owns (c : Thread nD τ) (st5_14 t) fullShare ((dat5 V c).before 14 t d))
    ∗ (∃ d, owns (c : Thread nD τ) (st5_15 t) fullShare ((dat5 V c).before 15 t d))
    ∗ (∃ d, owns (c : Thread nD τ) (st5_16 t) fullShare ((dat5 V c).before 16 t d))
    ∗ (∃ d, owns (c : Thread nD τ) (st5_17 t) fullShare ((dat5 V c).before 17 t d))
    ∗ (∃ d, owns (c : Thread nD τ) (st5_18 t) fullShare ((dat5 V c).before 18 t d))
    ∗ (∃ d, owns (c : Thread nD τ) (st5_19 t) fullShare ((dat5 V c).before 19 t d))
    ∗ (∃ d, owns (c : Thread nD τ) (st5_20 t) fullShare ((dat5 V c).before 20 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t)
    ∗ owns (c : Thread nD τ) (st5_10 t) fullShare ((dat5 V c).after 10 t)
    ∗ owns (c : Thread nD τ) (st5_11 t) fullShare ((dat5 V c).after 11 t)
    ∗ owns (c : Thread nD τ) (st5_12 t) fullShare ((dat5 V c).after 12 t)
    ∗ owns (c : Thread nD τ) (st5_13 t) fullShare ((dat5 V c).after 13 t)
    ∗ owns (c : Thread nD τ) (st5_14 t) fullShare ((dat5 V c).after 14 t)
    ∗ owns (c : Thread nD τ) (st5_15 t) fullShare ((dat5 V c).after 15 t)
    ∗ owns (c : Thread nD τ) (st5_16 t) fullShare ((dat5 V c).after 16 t)
    ∗ owns (c : Thread nD τ) (st5_17 t) fullShare ((dat5 V c).after 17 t)
    ∗ owns (c : Thread nD τ) (st5_18 t) fullShare ((dat5 V c).after 18 t)
    ∗ owns (c : Thread nD τ) (st5_19 t) fullShare ((dat5 V c).after 19 t)
    ∗ owns (c : Thread nD τ) (st5_20 t) fullShare ((dat5 V c).after 20 t))

set_option maxHeartbeats 4000000 in
/-- The body at any point: the inputs' memrefs hold their blocks, so the triple above applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8, before5_9, before5_10, before5_11, before5_12, before5_13, before5_14, before5_15, before5_16, before5_17, before5_18]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9, after5_10, after5_11, after5_12, after5_13, after5_14, after5_15, after5_16, after5_17, after5_18, after5_19, after5_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (sound_kernel5 c Set.univ _ _ _ _ _ _ _ _ _ _ _ _ _ _ _ _ _ _ _ _ _ _ _ _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (iblk5 V c 11 t) (iblk5 V c 12 t) (iblk5 V c 13 t) (iblk5 V c 14 t) (iblk5 V c 15 t) (iblk5 V c 16 t) (iblk5 V c 17 t) (iblk5 V c 18 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Tree

end
-- ==== Proof.KBRegion6.lean ====
/-
  Region 6 of the program (the internal level of 16 nodes), at any contents V of the buffers when the region is entered.
  A window's block at a grid point is the part of its array the point's index map selects. The body reads every input
  block whole, and writes each of its two output blocks whole and once: the hidden states, then the memory cells, each a
  pure function of the input blocks. So after the body each input's staging buffer still holds its block and each
  output's holds that function of the input blocks; this is the step the pipeline's launch theorem asks of a body.
-/
import proofs.«167239_j63453846831535_1_alg».proof.Proof.Gen.Kernel.Launch
import proofs.«167239_j63453846831535_1_alg».proof.Proof.Gen.Kernel.Skeleton
import proofs.«167239_j63453846831535_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Tree

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, whether the point fetched it or an
    earlier one did (its index has not moved since), for any proof data over these arrays whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, whether the point fetched it or an
    earlier one did (its index has not moved since), for any proof data over these arrays whose body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, whether the point fetched it or an
    earlier one did (its index has not moved since), for any proof data over these arrays whose body leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, whether the point fetched it or an
    earlier one did (its index has not moved since), for any proof data over these arrays whose body leaves the block in place. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, whether the point fetched it or an
    earlier one did (its index has not moved since), for any proof data over these arrays whose body leaves the block in place. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5's current staging buffer holds its block at every point, whether the point fetched it or an
    earlier one did (its index has not moved since), for any proof data over these arrays whose body leaves the block in place. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-- Input window 6's current staging buffer holds its block at every point, whether the point fetched it or an
    earlier one did (its index has not moved since), for any proof data over these arrays whose body leaves the block in place. -/
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

/-- Input window 7's current staging buffer holds its block at every point, whether the point fetched it or an
    earlier one did (its index has not moved since), for any proof data over these arrays whose body leaves the block in place. -/
theorem before6_7_of {c : Dev nD} (dat : Dat τ (Elt F) Unit ℕ (UR sig nD τ) ℕ cfg6 c) (hA : dat.A 7 = V c (Pipeline.arrRef spec6 7))
    (hafter : ∀ t, dat.after 7 t = iblk6 V c 7 t) (t : Fin cfg6.N) (d) : dat.before 7 t d = iblk6 V c 7 t :=
  (dat.before_in_eq_fetched 7 rfl (fun _ => rfl) (fun _ _ _ => rfl) (fun t => by rw [hafter]; unfold Dat.blockOf iblk6; rw [hA]; try rfl) t d).trans
    (by unfold Dat.fetched Dat.blockOf iblk6; rw [hA]; try rfl)

/-- Input window 8's current staging buffer holds its block at every point, whether the point fetched it or an
    earlier one did (its index has not moved since), for any proof data over these arrays whose body leaves the block in place. -/
theorem before6_8_of {c : Dev nD} (dat : Dat τ (Elt F) Unit ℕ (UR sig nD τ) ℕ cfg6 c) (hA : dat.A 8 = V c (Pipeline.arrRef spec6 8))
    (hafter : ∀ t, dat.after 8 t = iblk6 V c 8 t) (t : Fin cfg6.N) (d) : dat.before 8 t d = iblk6 V c 8 t :=
  (dat.before_in_eq_fetched 8 rfl (fun _ => rfl) (fun _ _ _ => rfl) (fun t => by rw [hafter]; unfold Dat.blockOf iblk6; rw [hA]; try rfl) t d).trans
    (by unfold Dat.fetched Dat.blockOf iblk6; rw [hA]; try rfl)

/-- Input window 9's current staging buffer holds its block at every point, whether the point fetched it or an
    earlier one did (its index has not moved since), for any proof data over these arrays whose body leaves the block in place. -/
theorem before6_9_of {c : Dev nD} (dat : Dat τ (Elt F) Unit ℕ (UR sig nD τ) ℕ cfg6 c) (hA : dat.A 9 = V c (Pipeline.arrRef spec6 9))
    (hafter : ∀ t, dat.after 9 t = iblk6 V c 9 t) (t : Fin cfg6.N) (d) : dat.before 9 t d = iblk6 V c 9 t :=
  (dat.before_in_eq_fetched 9 rfl (fun _ => rfl) (fun _ _ _ => rfl) (fun t => by rw [hafter]; unfold Dat.blockOf iblk6; rw [hA]; try rfl) t d).trans
    (by unfold Dat.fetched Dat.blockOf iblk6; rw [hA]; try rfl)

/-- Input window 10's current staging buffer holds its block at every point, whether the point fetched it or an
    earlier one did (its index has not moved since), for any proof data over these arrays whose body leaves the block in place. -/
theorem before6_10_of {c : Dev nD} (dat : Dat τ (Elt F) Unit ℕ (UR sig nD τ) ℕ cfg6 c) (hA : dat.A 10 = V c (Pipeline.arrRef spec6 10))
    (hafter : ∀ t, dat.after 10 t = iblk6 V c 10 t) (t : Fin cfg6.N) (d) : dat.before 10 t d = iblk6 V c 10 t :=
  (dat.before_in_eq_fetched 10 rfl (fun _ => rfl) (fun _ _ _ => rfl) (fun t => by rw [hafter]; unfold Dat.blockOf iblk6; rw [hA]; try rfl) t d).trans
    (by unfold Dat.fetched Dat.blockOf iblk6; rw [hA]; try rfl)

/-- Input window 11's current staging buffer holds its block at every point, whether the point fetched it or an
    earlier one did (its index has not moved since), for any proof data over these arrays whose body leaves the block in place. -/
theorem before6_11_of {c : Dev nD} (dat : Dat τ (Elt F) Unit ℕ (UR sig nD τ) ℕ cfg6 c) (hA : dat.A 11 = V c (Pipeline.arrRef spec6 11))
    (hafter : ∀ t, dat.after 11 t = iblk6 V c 11 t) (t : Fin cfg6.N) (d) : dat.before 11 t d = iblk6 V c 11 t :=
  (dat.before_in_eq_fetched 11 rfl (fun _ => rfl) (fun _ _ _ => rfl) (fun t => by rw [hafter]; unfold Dat.blockOf iblk6; rw [hA]; try rfl) t d).trans
    (by unfold Dat.fetched Dat.blockOf iblk6; rw [hA]; try rfl)

/-- Input window 12's current staging buffer holds its block at every point, whether the point fetched it or an
    earlier one did (its index has not moved since), for any proof data over these arrays whose body leaves the block in place. -/
theorem before6_12_of {c : Dev nD} (dat : Dat τ (Elt F) Unit ℕ (UR sig nD τ) ℕ cfg6 c) (hA : dat.A 12 = V c (Pipeline.arrRef spec6 12))
    (hafter : ∀ t, dat.after 12 t = iblk6 V c 12 t) (t : Fin cfg6.N) (d) : dat.before 12 t d = iblk6 V c 12 t :=
  (dat.before_in_eq_fetched 12 rfl (fun _ => rfl) (fun _ _ _ => rfl) (fun t => by rw [hafter]; unfold Dat.blockOf iblk6; rw [hA]; try rfl) t d).trans
    (by unfold Dat.fetched Dat.blockOf iblk6; rw [hA]; try rfl)

/-- Input window 13's current staging buffer holds its block at every point, whether the point fetched it or an
    earlier one did (its index has not moved since), for any proof data over these arrays whose body leaves the block in place. -/
theorem before6_13_of {c : Dev nD} (dat : Dat τ (Elt F) Unit ℕ (UR sig nD τ) ℕ cfg6 c) (hA : dat.A 13 = V c (Pipeline.arrRef spec6 13))
    (hafter : ∀ t, dat.after 13 t = iblk6 V c 13 t) (t : Fin cfg6.N) (d) : dat.before 13 t d = iblk6 V c 13 t :=
  (dat.before_in_eq_fetched 13 rfl (fun _ => rfl) (fun _ _ _ => rfl) (fun t => by rw [hafter]; unfold Dat.blockOf iblk6; rw [hA]; try rfl) t d).trans
    (by unfold Dat.fetched Dat.blockOf iblk6; rw [hA]; try rfl)

/-- Input window 14's current staging buffer holds its block at every point, whether the point fetched it or an
    earlier one did (its index has not moved since), for any proof data over these arrays whose body leaves the block in place. -/
theorem before6_14_of {c : Dev nD} (dat : Dat τ (Elt F) Unit ℕ (UR sig nD τ) ℕ cfg6 c) (hA : dat.A 14 = V c (Pipeline.arrRef spec6 14))
    (hafter : ∀ t, dat.after 14 t = iblk6 V c 14 t) (t : Fin cfg6.N) (d) : dat.before 14 t d = iblk6 V c 14 t :=
  (dat.before_in_eq_fetched 14 rfl (fun _ => rfl) (fun _ _ _ => rfl) (fun t => by rw [hafter]; unfold Dat.blockOf iblk6; rw [hA]; try rfl) t d).trans
    (by unfold Dat.fetched Dat.blockOf iblk6; rw [hA]; try rfl)

/-- Input window 15's current staging buffer holds its block at every point, whether the point fetched it or an
    earlier one did (its index has not moved since), for any proof data over these arrays whose body leaves the block in place. -/
theorem before6_15_of {c : Dev nD} (dat : Dat τ (Elt F) Unit ℕ (UR sig nD τ) ℕ cfg6 c) (hA : dat.A 15 = V c (Pipeline.arrRef spec6 15))
    (hafter : ∀ t, dat.after 15 t = iblk6 V c 15 t) (t : Fin cfg6.N) (d) : dat.before 15 t d = iblk6 V c 15 t :=
  (dat.before_in_eq_fetched 15 rfl (fun _ => rfl) (fun _ _ _ => rfl) (fun t => by rw [hafter]; unfold Dat.blockOf iblk6; rw [hA]; try rfl) t d).trans
    (by unfold Dat.fetched Dat.blockOf iblk6; rw [hA]; try rfl)

/-- Input window 16's current staging buffer holds its block at every point, whether the point fetched it or an
    earlier one did (its index has not moved since), for any proof data over these arrays whose body leaves the block in place. -/
theorem before6_16_of {c : Dev nD} (dat : Dat τ (Elt F) Unit ℕ (UR sig nD τ) ℕ cfg6 c) (hA : dat.A 16 = V c (Pipeline.arrRef spec6 16))
    (hafter : ∀ t, dat.after 16 t = iblk6 V c 16 t) (t : Fin cfg6.N) (d) : dat.before 16 t d = iblk6 V c 16 t :=
  (dat.before_in_eq_fetched 16 rfl (fun _ => rfl) (fun _ _ _ => rfl) (fun t => by rw [hafter]; unfold Dat.blockOf iblk6; rw [hA]; try rfl) t d).trans
    (by unfold Dat.fetched Dat.blockOf iblk6; rw [hA]; try rfl)

/-- Input window 17's current staging buffer holds its block at every point, whether the point fetched it or an
    earlier one did (its index has not moved since), for any proof data over these arrays whose body leaves the block in place. -/
theorem before6_17_of {c : Dev nD} (dat : Dat τ (Elt F) Unit ℕ (UR sig nD τ) ℕ cfg6 c) (hA : dat.A 17 = V c (Pipeline.arrRef spec6 17))
    (hafter : ∀ t, dat.after 17 t = iblk6 V c 17 t) (t : Fin cfg6.N) (d) : dat.before 17 t d = iblk6 V c 17 t :=
  (dat.before_in_eq_fetched 17 rfl (fun _ => rfl) (fun _ _ _ => rfl) (fun t => by rw [hafter]; unfold Dat.blockOf iblk6; rw [hA]; try rfl) t d).trans
    (by unfold Dat.fetched Dat.blockOf iblk6; rw [hA]; try rfl)

/-- Input window 18's current staging buffer holds its block at every point, whether the point fetched it or an
    earlier one did (its index has not moved since), for any proof data over these arrays whose body leaves the block in place. -/
theorem before6_18_of {c : Dev nD} (dat : Dat τ (Elt F) Unit ℕ (UR sig nD τ) ℕ cfg6 c) (hA : dat.A 18 = V c (Pipeline.arrRef spec6 18))
    (hafter : ∀ t, dat.after 18 t = iblk6 V c 18 t) (t : Fin cfg6.N) (d) : dat.before 18 t d = iblk6 V c 18 t :=
  (dat.before_in_eq_fetched 18 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and store is through a buffer's whole rectangle -/

abbrev r6_S16x300 : Rect S16x300 := Rect.unit (s := S16x300) ![0, 0] S16x300.size inb_S16x300_S16x300_0_0
abbrev r6_S16x4x150 : Rect S16x4x150 := Rect.unit (s := S16x4x150) ![0, 0, 0] S16x4x150.size inb_S16x4x150_S16x4x150_0_0_0
abbrev r6_S300x150 : Rect S300x150 := Rect.unit (s := S300x150) ![0, 0] S300x150.size inb_S300x150_S300x150_0_0
abbrev r6_S1x150 : Rect S1x150 := Rect.unit (s := S1x150) ![0, 0] S1x150.size inb_S1x150_S1x150_0_0
abbrev r6_S150x150 : Rect S150x150 := Rect.unit (s := S150x150) ![0, 0] S150x150.size inb_S150x150_S150x150_0_0
abbrev r6_S16x150 : Rect S16x150 := Rect.unit (s := S16x150) ![0, 0] S16x150.size inb_S16x150_S16x150_0_0

/-! ## What the body leaves in each output window's buffer -/

/-- Output window 19's staging buffer after the body (the hidden states), from the input windows' blocks. -/
def out6_19 (x0 : Vec F S16x300 .f32) (x1 : Vec F S16x4x150 .f32) (x2 : Vec F S16x4x150 .f32) (x3 : Vec F S300x150 .f32) (x4 : Vec F S1x150 .f32) (x5 : Vec F S300x150 .f32) (x6 : Vec F S1x150 .f32) (x7 : Vec F S300x150 .f32) (x8 : Vec F S1x150 .f32) (x9 : Vec F S300x150 .f32) (x10 : Vec F S1x150 .f32) (x11 : Vec F S150x150 .f32) (x12 : Vec F S1x150 .f32) (x13 : Vec F S150x150 .f32) (x14 : Vec F S1x150 .f32) (x15 : Vec F S150x150 .f32) (x16 : Vec F S1x150 .f32) (x17 : Vec F S150x150 .f32) (x18 : Vec F S1x150 .f32) : Vec F S16x150 .f32 :=
  View.canon [⟨r6_S16x150, k6_pay2 (k6_pay5 (View.ld x1 r6_S16x4x150)) (k6_pay6 (View.ld x0 r6_S16x300) (View.ld x1 r6_S16x4x150) (View.ld x2 r6_S16x4x150) (View.ld x13 r6_S150x150) (View.ld x14 r6_S1x150) (View.ld x5 r6_S300x150) (View.ld x6 r6_S1x150)) (k6_pay8 (k6_pay5 (View.ld x1 r6_S16x4x150)) (k6_pay7 (View.ld x0 r6_S16x300) (View.ld x3 r6_S300x150)) (View.ld x4 r6_S1x150) (View.ld x11 r6_S150x150) (View.ld x12 r6_S1x150)) (k6_pay9 (k6_pay4 (View.ld x0 r6_S16x300)) (k6_pay5 (View.ld x1 r6_S16x4x150)) (View.ld x9 r6_S300x150) (View.ld x10 r6_S1x150) (View.ld x17 r6_S150x150) (View.ld x18 r6_S1x150)) (k6_pay10 (k6_pay4 (View.ld x0 r6_S16x300)) (View.ld x7 r6_S300x150) (View.ld x8 r6_S1x150)) (View.ld x15 r6_S150x150) (View.ld x16 r6_S1x150)⟩]

/-- Its one store is through the whole rectangle, so it covers the buffer. -/
theorem cover6_19 (p0 : Vec F S16x150 .f32) (y : S16x150.Idx) :
    ∃ pc ∈ ([⟨r6_S16x150, p0⟩] : List (View.Piece (Elt F) S16x150 .f32)), y ∈ pc.1.set :=
  View.cover_of_tiled [⟨r6_S16x150, p0⟩] S16x150.size (by rfl) y

/-- Output window 20's staging buffer after the body (the memory cells), from the input windows' blocks. -/
def out6_20 (x0 : Vec F S16x300 .f32) (x1 : Vec F S16x4x150 .f32) (x2 : Vec F S16x4x150 .f32) (x3 : Vec F S300x150 .f32) (x4 : Vec F S1x150 .f32) (x5 : Vec F S300x150 .f32) (x6 : Vec F S1x150 .f32) (x7 : Vec F S300x150 .f32) (x8 : Vec F S1x150 .f32) (x9 : Vec F S300x150 .f32) (x10 : Vec F S1x150 .f32) (x11 : Vec F S150x150 .f32) (x12 : Vec F S1x150 .f32) (x13 : Vec F S150x150 .f32) (x14 : Vec F S1x150 .f32) (x15 : Vec F S150x150 .f32) (x16 : Vec F S1x150 .f32) (x17 : Vec F S150x150 .f32) (x18 : Vec F S1x150 .f32) : Vec F S16x150 .f32 :=
  View.canon [⟨r6_S16x150, k6_pay1 (k6_pay5 (View.ld x1 r6_S16x4x150)) (k6_pay6 (View.ld x0 r6_S16x300) (View.ld x1 r6_S16x4x150) (View.ld x2 r6_S16x4x150) (View.ld x13 r6_S150x150) (View.ld x14 r6_S1x150) (View.ld x5 r6_S300x150) (View.ld x6 r6_S1x150)) (k6_pay8 (k6_pay5 (View.ld x1 r6_S16x4x150)) (k6_pay7 (View.ld x0 r6_S16x300) (View.ld x3 r6_S300x150)) (View.ld x4 r6_S1x150) (View.ld x11 r6_S150x150) (View.ld x12 r6_S1x150)) (k6_pay10 (k6_pay4 (View.ld x0 r6_S16x300)) (View.ld x7 r6_S300x150) (View.ld x8 r6_S1x150)) (View.ld x15 r6_S150x150) (View.ld x16 r6_S1x150)⟩]

/-- Its one store is through the whole rectangle, so it covers the buffer. -/
theorem cover6_20 (p0 : Vec F S16x150 .f32) (y : S16x150.Idx) :
    ∃ pc ∈ ([⟨r6_S16x150, p0⟩] : List (View.Piece (Elt F) S16x150 .f32)), y ∈ pc.1.set :=
  View.cover_of_tiled [⟨r6_S16x150, p0⟩] S16x150.size (by rfl) y

/-! ## The body's triple -/

set_option maxHeartbeats 4000000 in
/-- The kernel body on whole staging memrefs, the inputs' at contents xW and the outputs' at anything, runs to a
    continuation that holds the inputs' as they were and each output's at its function of the inputs'. -/
theorem sound_kernel6 (c : Dev nD) (E : Set ℕ) (i : grid6.Coords) (arg1 : Memref sig .tc .vmem S16x300 .f32) (harg1 : arg1.IsWhole) (arg2 : Memref sig .tc .vmem S16x4x150 .f32) (harg2 : arg2.IsWhole) (arg3 : Memref sig .tc .vmem S16x4x150 .f32) (harg3 : arg3.IsWhole) (arg4 : Memref sig .tc .vmem S300x150 .f32) (harg4 : arg4.IsWhole) (arg5 : Memref sig .tc .vmem S1x150 .f32) (harg5 : arg5.IsWhole) (arg6 : Memref sig .tc .vmem S300x150 .f32) (harg6 : arg6.IsWhole) (arg7 : Memref sig .tc .vmem S1x150 .f32) (harg7 : arg7.IsWhole) (arg8 : Memref sig .tc .vmem S300x150 .f32) (harg8 : arg8.IsWhole) (arg9 : Memref sig .tc .vmem S1x150 .f32) (harg9 : arg9.IsWhole) (arg10 : Memref sig .tc .vmem S300x150 .f32) (harg10 : arg10.IsWhole) (arg11 : Memref sig .tc .vmem S1x150 .f32) (harg11 : arg11.IsWhole) (arg12 : Memref sig .tc .vmem S150x150 .f32) (harg12 : arg12.IsWhole) (arg13 : Memref sig .tc .vmem S1x150 .f32) (harg13 : arg13.IsWhole) (arg14 : Memref sig .tc .vmem S150x150 .f32) (harg14 : arg14.IsWhole) (arg15 : Memref sig .tc .vmem S1x150 .f32) (harg15 : arg15.IsWhole) (arg16 : Memref sig .tc .vmem S150x150 .f32) (harg16 : arg16.IsWhole) (arg17 : Memref sig .tc .vmem S1x150 .f32) (harg17 : arg17.IsWhole) (arg18 : Memref sig .tc .vmem S150x150 .f32) (harg18 : arg18.IsWhole) (arg19 : Memref sig .tc .vmem S1x150 .f32) (harg19 : arg19.IsWhole) (arg20 : Memref sig .tc .vmem S16x150 .f32) (harg20 : arg20.IsWhole) (arg21 : Memref sig .tc .vmem S16x150 .f32) (harg21 : arg21.IsWhole)
    (x0 : Vec F S16x300 .f32) (x1 : Vec F S16x4x150 .f32) (x2 : Vec F S16x4x150 .f32) (x3 : Vec F S300x150 .f32) (x4 : Vec F S1x150 .f32) (x5 : Vec F S300x150 .f32) (x6 : Vec F S1x150 .f32) (x7 : Vec F S300x150 .f32) (x8 : Vec F S1x150 .f32) (x9 : Vec F S300x150 .f32) (x10 : Vec F S1x150 .f32) (x11 : Vec F S150x150 .f32) (x12 : Vec F S1x150 .f32) (x13 : Vec F S150x150 .f32) (x14 : Vec F S1x150 .f32) (x15 : Vec F S150x150 .f32) (x16 : Vec F S1x150 .f32) (x17 : Vec F S150x150 .f32) (x18 : Vec F S1x150 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare (out6_19 x0 x1 x2 x3 x4 x5 x6 x7 x8 x9 x10 x11 x12 x13 x14 x15 x16 x17 x18) ∗ owns (c : Thread nD τ) arg21 fullShare (out6_20 x0 x1 x2 x3 x4 x5 x6 x7 x8 x9 x10 x11 x12 x13 x14 x15 x16 x17 x18)) -∗ K ⟨⟩))
      ⊢ wp frame (wpE (defs₀ (F := F)) Variants.none c none) E (cc6__internal_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc6__internal_kernel_eq_skeleton]; unfold cc6__internal_kernel_skel
  simp only [k6_part1_eq_skeleton]; unfold k6_part1_skel
  simp only [k6_part2_eq_skeleton]; unfold k6_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, Hk⟩
  subst hf0 hf1 hf2 hf3 hf4 hf5 hf6 hf7 hf8 hf9 hf10 hf11 hf12 hf13 hf14 hf15 hf16 hf17 hf18
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists _; isplitr
    swap; · iexact H19
    ipureintro
    exact View.read_writes_eq_canon _ _ _ (cover6_19 _)
  iexists _; isplitr
  swap; · iexact H20
  ipureintro
  exact View.read_writes_eq_canon _ _ _ (cover6_20 _)

/-! ## The pipeline's proof data -/

/-- The proof data of this pipeline on core c: the arrays as the region finds them; after the body at point t each
    input's buffer at its block and each output's at its function of the input blocks; nothing owed, full shares, and
    the invariant that carries only what the body does not touch. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => iblk6 V c 8 t
    | ⟨9, _⟩ => iblk6 V c 9 t
    | ⟨10, _⟩ => iblk6 V c 10 t
    | ⟨11, _⟩ => iblk6 V c 11 t
    | ⟨12, _⟩ => iblk6 V c 12 t
    | ⟨13, _⟩ => iblk6 V c 13 t
    | ⟨14, _⟩ => iblk6 V c 14 t
    | ⟨15, _⟩ => iblk6 V c 15 t
    | ⟨16, _⟩ => iblk6 V c 16 t
    | ⟨17, _⟩ => iblk6 V c 17 t
    | ⟨18, _⟩ => iblk6 V c 18 t
    | ⟨19, _⟩ => out6_19 (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t) (iblk6 V c 14 t) (iblk6 V c 15 t) (iblk6 V c 16 t) (iblk6 V c 17 t) (iblk6 V c 18 t)
    | ⟨20, _⟩ => out6_20 (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t) (iblk6 V c 14 t) (iblk6 V c 15 t) (iblk6 V c 16 t) (iblk6 V c 17 t) (iblk6 V c 18 t)
    | ⟨n + 21, h⟩ => absurd h (Nat.not_lt.mpr (Nat.le_add_left 21 n))
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) : (dat6 V c).after 8 t = iblk6 V c 8 t := by dsimp only [dat6]
theorem after6_9 (c : Dev nD) (t : Fin cfg6.N) : (dat6 V c).after 9 t = iblk6 V c 9 t := by dsimp only [dat6]
theorem after6_10 (c : Dev nD) (t : Fin cfg6.N) : (dat6 V c).after 10 t = iblk6 V c 10 t := by dsimp only [dat6]
theorem after6_11 (c : Dev nD) (t : Fin cfg6.N) : (dat6 V c).after 11 t = iblk6 V c 11 t := by dsimp only [dat6]
theorem after6_12 (c : Dev nD) (t : Fin cfg6.N) : (dat6 V c).after 12 t = iblk6 V c 12 t := by dsimp only [dat6]
theorem after6_13 (c : Dev nD) (t : Fin cfg6.N) : (dat6 V c).after 13 t = iblk6 V c 13 t := by dsimp only [dat6]
theorem after6_14 (c : Dev nD) (t : Fin cfg6.N) : (dat6 V c).after 14 t = iblk6 V c 14 t := by dsimp only [dat6]
theorem after6_15 (c : Dev nD) (t : Fin cfg6.N) : (dat6 V c).after 15 t = iblk6 V c 15 t := by dsimp only [dat6]
theorem after6_16 (c : Dev nD) (t : Fin cfg6.N) : (dat6 V c).after 16 t = iblk6 V c 16 t := by dsimp only [dat6]
theorem after6_17 (c : Dev nD) (t : Fin cfg6.N) : (dat6 V c).after 17 t = iblk6 V c 17 t := by dsimp only [dat6]
theorem after6_18 (c : Dev nD) (t : Fin cfg6.N) : (dat6 V c).after 18 t = iblk6 V c 18 t := by dsimp only [dat6]
theorem after6_19 (c : Dev nD) (t : Fin cfg6.N) : (dat6 V c).after 19 t = out6_19 (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t) (iblk6 V c 14 t) (iblk6 V c 15 t) (iblk6 V c 16 t) (iblk6 V c 17 t) (iblk6 V c 18 t) := by dsimp only [dat6]
theorem after6_20 (c : Dev nD) (t : Fin cfg6.N) : (dat6 V c).after 20 t = out6_20 (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t) (iblk6 V c 14 t) (iblk6 V c 15 t) (iblk6 V c 16 t) (iblk6 V c 17 t) (iblk6 V c 18 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d
theorem before6_7 (c : Dev nD) (t : Fin cfg6.N) (d) : (dat6 V c).before 7 t d = iblk6 V c 7 t :=
  before6_7_of V (dat6 V c) (A_eq6 V c 7) (after6_7 V c) t d
theorem before6_8 (c : Dev nD) (t : Fin cfg6.N) (d) : (dat6 V c).before 8 t d = iblk6 V c 8 t :=
  before6_8_of V (dat6 V c) (A_eq6 V c 8) (after6_8 V c) t d
theorem before6_9 (c : Dev nD) (t : Fin cfg6.N) (d) : (dat6 V c).before 9 t d = iblk6 V c 9 t :=
  before6_9_of V (dat6 V c) (A_eq6 V c 9) (after6_9 V c) t d
theorem before6_10 (c : Dev nD) (t : Fin cfg6.N) (d) : (dat6 V c).before 10 t d = iblk6 V c 10 t :=
  before6_10_of V (dat6 V c) (A_eq6 V c 10) (after6_10 V c) t d
theorem before6_11 (c : Dev nD) (t : Fin cfg6.N) (d) : (dat6 V c).before 11 t d = iblk6 V c 11 t :=
  before6_11_of V (dat6 V c) (A_eq6 V c 11) (after6_11 V c) t d
theorem before6_12 (c : Dev nD) (t : Fin cfg6.N) (d) : (dat6 V c).before 12 t d = iblk6 V c 12 t :=
  before6_12_of V (dat6 V c) (A_eq6 V c 12) (after6_12 V c) t d
theorem before6_13 (c : Dev nD) (t : Fin cfg6.N) (d) : (dat6 V c).before 13 t d = iblk6 V c 13 t :=
  before6_13_of V (dat6 V c) (A_eq6 V c 13) (after6_13 V c) t d
theorem before6_14 (c : Dev nD) (t : Fin cfg6.N) (d) : (dat6 V c).before 14 t d = iblk6 V c 14 t :=
  before6_14_of V (dat6 V c) (A_eq6 V c 14) (after6_14 V c) t d
theorem before6_15 (c : Dev nD) (t : Fin cfg6.N) (d) : (dat6 V c).before 15 t d = iblk6 V c 15 t :=
  before6_15_of V (dat6 V c) (A_eq6 V c 15) (after6_15 V c) t d
theorem before6_16 (c : Dev nD) (t : Fin cfg6.N) (d) : (dat6 V c).before 16 t d = iblk6 V c 16 t :=
  before6_16_of V (dat6 V c) (A_eq6 V c 16) (after6_16 V c) t d
theorem before6_17 (c : Dev nD) (t : Fin cfg6.N) (d) : (dat6 V c).before 17 t d = iblk6 V c 17 t :=
  before6_17_of V (dat6 V c) (A_eq6 V c 17) (after6_17 V c) t d
theorem before6_18 (c : Dev nD) (t : Fin cfg6.N) (d) : (dat6 V c).before 18 t d = iblk6 V c 18 t :=
  before6_18_of V (dat6 V c) (A_eq6 V c 18) (after6_18 V c) t d

/-! ## The body obligation, at a generic point -/

/-- What the body is called with at point t, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d))
    ∗ (∃ d, owns (c : Thread nD τ) (st6_8 t) fullShare ((dat6 V c).before 8 t d))
    ∗ (∃ d, owns (c : Thread nD τ) (st6_9 t) fullShare ((dat6 V c).before 9 t d))
    ∗ (∃ d, owns (c : Thread nD τ) (st6_10 t) fullShare ((dat6 V c).before 10 t d))
    ∗ (∃ d, owns (c : Thread nD τ) (st6_11 t) fullShare ((dat6 V c).before 11 t d))
    ∗ (∃ d, owns (c : Thread nD τ) (st6_12 t) fullShare ((dat6 V c).before 12 t d))
    ∗ (∃ d, owns (c : Thread nD τ) (st6_13 t) fullShare ((dat6 V c).before 13 t d))
    ∗ (∃ d, owns (c : Thread nD τ) (st6_14 t) fullShare ((dat6 V c).before 14 t d))
    ∗ (∃ d, owns (c : Thread nD τ) (st6_15 t) fullShare ((dat6 V c).before 15 t d))
    ∗ (∃ d, owns (c : Thread nD τ) (st6_16 t) fullShare ((dat6 V c).before 16 t d))
    ∗ (∃ d, owns (c : Thread nD τ) (st6_17 t) fullShare ((dat6 V c).before 17 t d))
    ∗ (∃ d, owns (c : Thread nD τ) (st6_18 t) fullShare ((dat6 V c).before 18 t d))
    ∗ (∃ d, owns (c : Thread nD τ) (st6_19 t) fullShare ((dat6 V c).before 19 t d))
    ∗ (∃ d, owns (c : Thread nD τ) (st6_20 t) fullShare ((dat6 V c).before 20 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t)
    ∗ owns (c : Thread nD τ) (st6_8 t) fullShare ((dat6 V c).after 8 t)
    ∗ owns (c : Thread nD τ) (st6_9 t) fullShare ((dat6 V c).after 9 t)
    ∗ owns (c : Thread nD τ) (st6_10 t) fullShare ((dat6 V c).after 10 t)
    ∗ owns (c : Thread nD τ) (st6_11 t) fullShare ((dat6 V c).after 11 t)
    ∗ owns (c : Thread nD τ) (st6_12 t) fullShare ((dat6 V c).after 12 t)
    ∗ owns (c : Thread nD τ) (st6_13 t) fullShare ((dat6 V c).after 13 t)
    ∗ owns (c : Thread nD τ) (st6_14 t) fullShare ((dat6 V c).after 14 t)
    ∗ owns (c : Thread nD τ) (st6_15 t) fullShare ((dat6 V c).after 15 t)
    ∗ owns (c : Thread nD τ) (st6_16 t) fullShare ((dat6 V c).after 16 t)
    ∗ owns (c : Thread nD τ) (st6_17 t) fullShare ((dat6 V c).after 17 t)
    ∗ owns (c : Thread nD τ) (st6_18 t) fullShare ((dat6 V c).after 18 t)
    ∗ owns (c : Thread nD τ) (st6_19 t) fullShare ((dat6 V c).after 19 t)
    ∗ owns (c : Thread nD τ) (st6_20 t) fullShare ((dat6 V c).after 20 t))

set_option maxHeartbeats 4000000 in
/-- The body at any point: the inputs' memrefs hold their blocks, so the triple above applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6, before6_7, before6_8, before6_9, before6_10, before6_11, before6_12, before6_13, before6_14, before6_15, before6_16, before6_17, before6_18]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7, after6_8, after6_9, after6_10, after6_11, after6_12, after6_13, after6_14, after6_15, after6_16, after6_17, after6_18, after6_19, after6_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (sound_kernel6 c Set.univ _ _ _ _ _ _ _ _ _ _ _ _ _ _ _ _ _ _ _ _ _ _ _ _ _ _ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t) (iblk6 V c 14 t) (iblk6 V c 15 t) (iblk6 V c 16 t) (iblk6 V c 17 t) (iblk6 V c 18 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Tree

end
-- ==== Proof.KBRegion7.lean ====
/-
  Region 7 of the program (the internal level of 4 nodes), at any contents V of the buffers when the region is entered.
  A window's block at a grid point is the part of its array the point's index map selects. The body reads every input
  block whole, and writes each of its two output blocks whole and once: the hidden states, then the memory cells, each a
  pure function of the input blocks. So after the body each input's staging buffer still holds its block and each
  output's holds that function of the input blocks; this is the step the pipeline's launch theorem asks of a body.
-/
import proofs.«167239_j63453846831535_1_alg».proof.Proof.Gen.Kernel.Launch
import proofs.«167239_j63453846831535_1_alg».proof.Proof.Gen.Kernel.Skeleton
import proofs.«167239_j63453846831535_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Tree

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, whether the point fetched it or an
    earlier one did (its index has not moved since), for any proof data over these arrays whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, whether the point fetched it or an
    earlier one did (its index has not moved since), for any proof data over these arrays whose body leaves the block in place. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, whether the point fetched it or an
    earlier one did (its index has not moved since), for any proof data over these arrays whose body leaves the block in place. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, whether the point fetched it or an
    earlier one did (its index has not moved since), for any proof data over these arrays whose body leaves the block in place. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, whether the point fetched it or an
    earlier one did (its index has not moved since), for any proof data over these arrays whose body leaves the block in place. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5's current staging buffer holds its block at every point, whether the point fetched it or an
    earlier one did (its index has not moved since), for any proof data over these arrays whose body leaves the block in place. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-- Input window 6's current staging buffer holds its block at every point, whether the point fetched it or an
    earlier one did (its index has not moved since), for any proof data over these arrays whose body leaves the block in place. -/
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)

/-- Input window 7's current staging buffer holds its block at every point, whether the point fetched it or an
    earlier one did (its index has not moved since), for any proof data over these arrays whose body leaves the block in place. -/
theorem before7_7_of {c : Dev nD} (dat : Dat τ (Elt F) Unit ℕ (UR sig nD τ) ℕ cfg7 c) (hA : dat.A 7 = V c (Pipeline.arrRef spec7 7))
    (hafter : ∀ t, dat.after 7 t = iblk7 V c 7 t) (t : Fin cfg7.N) (d) : dat.before 7 t d = iblk7 V c 7 t :=
  (dat.before_in_eq_fetched 7 rfl (fun _ => rfl) (fun _ _ _ => rfl) (fun t => by rw [hafter]; unfold Dat.blockOf iblk7; rw [hA]; try rfl) t d).trans
    (by unfold Dat.fetched Dat.blockOf iblk7; rw [hA]; try rfl)

/-- Input window 8's current staging buffer holds its block at every point, whether the point fetched it or an
    earlier one did (its index has not moved since), for any proof data over these arrays whose body leaves the block in place. -/
theorem before7_8_of {c : Dev nD} (dat : Dat τ (Elt F) Unit ℕ (UR sig nD τ) ℕ cfg7 c) (hA : dat.A 8 = V c (Pipeline.arrRef spec7 8))
    (hafter : ∀ t, dat.after 8 t = iblk7 V c 8 t) (t : Fin cfg7.N) (d) : dat.before 8 t d = iblk7 V c 8 t :=
  (dat.before_in_eq_fetched 8 rfl (fun _ => rfl) (fun _ _ _ => rfl) (fun t => by rw [hafter]; unfold Dat.blockOf iblk7; rw [hA]; try rfl) t d).trans
    (by unfold Dat.fetched Dat.blockOf iblk7; rw [hA]; try rfl)

/-- Input window 9's current staging buffer holds its block at every point, whether the point fetched it or an
    earlier one did (its index has not moved since), for any proof data over these arrays whose body leaves the block in place. -/
theorem before7_9_of {c : Dev nD} (dat : Dat τ (Elt F) Unit ℕ (UR sig nD τ) ℕ cfg7 c) (hA : dat.A 9 = V c (Pipeline.arrRef spec7 9))
    (hafter : ∀ t, dat.after 9 t = iblk7 V c 9 t) (t : Fin cfg7.N) (d) : dat.before 9 t d = iblk7 V c 9 t :=
  (dat.before_in_eq_fetched 9 rfl (fun _ => rfl) (fun _ _ _ => rfl) (fun t => by rw [hafter]; unfold Dat.blockOf iblk7; rw [hA]; try rfl) t d).trans
    (by unfold Dat.fetched Dat.blockOf iblk7; rw [hA]; try rfl)

/-- Input window 10's current staging buffer holds its block at every point, whether the point fetched it or an
    earlier one did (its index has not moved since), for any proof data over these arrays whose body leaves the block in place. -/
theorem before7_10_of {c : Dev nD} (dat : Dat τ (Elt F) Unit ℕ (UR sig nD τ) ℕ cfg7 c) (hA : dat.A 10 = V c (Pipeline.arrRef spec7 10))
    (hafter : ∀ t, dat.after 10 t = iblk7 V c 10 t) (t : Fin cfg7.N) (d) : dat.before 10 t d = iblk7 V c 10 t :=
  (dat.before_in_eq_fetched 10 rfl (fun _ => rfl) (fun _ _ _ => rfl) (fun t => by rw [hafter]; unfold Dat.blockOf iblk7; rw [hA]; try rfl) t d).trans
    (by unfold Dat.fetched Dat.blockOf iblk7; rw [hA]; try rfl)

/-- Input window 11's current staging buffer holds its block at every point, whether the point fetched it or an
    earlier one did (its index has not moved since), for any proof data over these arrays whose body leaves the block in place. -/
theorem before7_11_of {c : Dev nD} (dat : Dat τ (Elt F) Unit ℕ (UR sig nD τ) ℕ cfg7 c) (hA : dat.A 11 = V c (Pipeline.arrRef spec7 11))
    (hafter : ∀ t, dat.after 11 t = iblk7 V c 11 t) (t : Fin cfg7.N) (d) : dat.before 11 t d = iblk7 V c 11 t :=
  (dat.before_in_eq_fetched 11 rfl (fun _ => rfl) (fun _ _ _ => rfl) (fun t => by rw [hafter]; unfold Dat.blockOf iblk7; rw [hA]; try rfl) t d).trans
    (by unfold Dat.fetched Dat.blockOf iblk7; rw [hA]; try rfl)

/-- Input window 12's current staging buffer holds its block at every point, whether the point fetched it or an
    earlier one did (its index has not moved since), for any proof data over these arrays whose body leaves the block in place. -/
theorem before7_12_of {c : Dev nD} (dat : Dat τ (Elt F) Unit ℕ (UR sig nD τ) ℕ cfg7 c) (hA : dat.A 12 = V c (Pipeline.arrRef spec7 12))
    (hafter : ∀ t, dat.after 12 t = iblk7 V c 12 t) (t : Fin cfg7.N) (d) : dat.before 12 t d = iblk7 V c 12 t :=
  (dat.before_in_eq_fetched 12 rfl (fun _ => rfl) (fun _ _ _ => rfl) (fun t => by rw [hafter]; unfold Dat.blockOf iblk7; rw [hA]; try rfl) t d).trans
    (by unfold Dat.fetched Dat.blockOf iblk7; rw [hA]; try rfl)

/-- Input window 13's current staging buffer holds its block at every point, whether the point fetched it or an
    earlier one did (its index has not moved since), for any proof data over these arrays whose body leaves the block in place. -/
theorem before7_13_of {c : Dev nD} (dat : Dat τ (Elt F) Unit ℕ (UR sig nD τ) ℕ cfg7 c) (hA : dat.A 13 = V c (Pipeline.arrRef spec7 13))
    (hafter : ∀ t, dat.after 13 t = iblk7 V c 13 t) (t : Fin cfg7.N) (d) : dat.before 13 t d = iblk7 V c 13 t :=
  (dat.before_in_eq_fetched 13 rfl (fun _ => rfl) (fun _ _ _ => rfl) (fun t => by rw [hafter]; unfold Dat.blockOf iblk7; rw [hA]; try rfl) t d).trans
    (by unfold Dat.fetched Dat.blockOf iblk7; rw [hA]; try rfl)

/-- Input window 14's current staging buffer holds its block at every point, whether the point fetched it or an
    earlier one did (its index has not moved since), for any proof data over these arrays whose body leaves the block in place. -/
theorem before7_14_of {c : Dev nD} (dat : Dat τ (Elt F) Unit ℕ (UR sig nD τ) ℕ cfg7 c) (hA : dat.A 14 = V c (Pipeline.arrRef spec7 14))
    (hafter : ∀ t, dat.after 14 t = iblk7 V c 14 t) (t : Fin cfg7.N) (d) : dat.before 14 t d = iblk7 V c 14 t :=
  (dat.before_in_eq_fetched 14 rfl (fun _ => rfl) (fun _ _ _ => rfl) (fun t => by rw [hafter]; unfold Dat.blockOf iblk7; rw [hA]; try rfl) t d).trans
    (by unfold Dat.fetched Dat.blockOf iblk7; rw [hA]; try rfl)

/-- Input window 15's current staging buffer holds its block at every point, whether the point fetched it or an
    earlier one did (its index has not moved since), for any proof data over these arrays whose body leaves the block in place. -/
theorem before7_15_of {c : Dev nD} (dat : Dat τ (Elt F) Unit ℕ (UR sig nD τ) ℕ cfg7 c) (hA : dat.A 15 = V c (Pipeline.arrRef spec7 15))
    (hafter : ∀ t, dat.after 15 t = iblk7 V c 15 t) (t : Fin cfg7.N) (d) : dat.before 15 t d = iblk7 V c 15 t :=
  (dat.before_in_eq_fetched 15 rfl (fun _ => rfl) (fun _ _ _ => rfl) (fun t => by rw [hafter]; unfold Dat.blockOf iblk7; rw [hA]; try rfl) t d).trans
    (by unfold Dat.fetched Dat.blockOf iblk7; rw [hA]; try rfl)

/-- Input window 16's current staging buffer holds its block at every point, whether the point fetched it or an
    earlier one did (its index has not moved since), for any proof data over these arrays whose body leaves the block in place. -/
theorem before7_16_of {c : Dev nD} (dat : Dat τ (Elt F) Unit ℕ (UR sig nD τ) ℕ cfg7 c) (hA : dat.A 16 = V c (Pipeline.arrRef spec7 16))
    (hafter : ∀ t, dat.after 16 t = iblk7 V c 16 t) (t : Fin cfg7.N) (d) : dat.before 16 t d = iblk7 V c 16 t :=
  (dat.before_in_eq_fetched 16 rfl (fun _ => rfl) (fun _ _ _ => rfl) (fun t => by rw [hafter]; unfold Dat.blockOf iblk7; rw [hA]; try rfl) t d).trans
    (by unfold Dat.fetched Dat.blockOf iblk7; rw [hA]; try rfl)

/-- Input window 17's current staging buffer holds its block at every point, whether the point fetched it or an
    earlier one did (its index has not moved since), for any proof data over these arrays whose body leaves the block in place. -/
theorem before7_17_of {c : Dev nD} (dat : Dat τ (Elt F) Unit ℕ (UR sig nD τ) ℕ cfg7 c) (hA : dat.A 17 = V c (Pipeline.arrRef spec7 17))
    (hafter : ∀ t, dat.after 17 t = iblk7 V c 17 t) (t : Fin cfg7.N) (d) : dat.before 17 t d = iblk7 V c 17 t :=
  (dat.before_in_eq_fetched 17 rfl (fun _ => rfl) (fun _ _ _ => rfl) (fun t => by rw [hafter]; unfold Dat.blockOf iblk7; rw [hA]; try rfl) t d).trans
    (by unfold Dat.fetched Dat.blockOf iblk7; rw [hA]; try rfl)

/-- Input window 18's current staging buffer holds its block at every point, whether the point fetched it or an
    earlier one did (its index has not moved since), for any proof data over these arrays whose body leaves the block in place. -/
theorem before7_18_of {c : Dev nD} (dat : Dat τ (Elt F) Unit ℕ (UR sig nD τ) ℕ cfg7 c) (hA : dat.A 18 = V c (Pipeline.arrRef spec7 18))
    (hafter : ∀ t, dat.after 18 t = iblk7 V c 18 t) (t : Fin cfg7.N) (d) : dat.before 18 t d = iblk7 V c 18 t :=
  (dat.before_in_eq_fetched 18 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: every load and store is through a buffer's whole rectangle -/

abbrev r7_S4x300 : Rect S4x300 := Rect.unit (s := S4x300) ![0, 0] S4x300.size inb_S4x300_S4x300_0_0
abbrev r7_S4x4x150 : Rect S4x4x150 := Rect.unit (s := S4x4x150) ![0, 0, 0] S4x4x150.size inb_S4x4x150_S4x4x150_0_0_0
abbrev r7_S300x150 : Rect S300x150 := Rect.unit (s := S300x150) ![0, 0] S300x150.size inb_S300x150_S300x150_0_0
abbrev r7_S1x150 : Rect S1x150 := Rect.unit (s := S1x150) ![0, 0] S1x150.size inb_S1x150_S1x150_0_0
abbrev r7_S150x150 : Rect S150x150 := Rect.unit (s := S150x150) ![0, 0] S150x150.size inb_S150x150_S150x150_0_0
abbrev r7_S4x150 : Rect S4x150 := Rect.unit (s := S4x150) ![0, 0] S4x150.size inb_S4x150_S4x150_0_0

/-! ## What the body leaves in each output window's buffer -/

/-- Output window 19's staging buffer after the body (the hidden states), from the input windows' blocks. -/
def out7_19 (x0 : Vec F S4x300 .f32) (x1 : Vec F S4x4x150 .f32) (x2 : Vec F S4x4x150 .f32) (x3 : Vec F S300x150 .f32) (x4 : Vec F S1x150 .f32) (x5 : Vec F S300x150 .f32) (x6 : Vec F S1x150 .f32) (x7 : Vec F S300x150 .f32) (x8 : Vec F S1x150 .f32) (x9 : Vec F S300x150 .f32) (x10 : Vec F S1x150 .f32) (x11 : Vec F S150x150 .f32) (x12 : Vec F S1x150 .f32) (x13 : Vec F S150x150 .f32) (x14 : Vec F S1x150 .f32) (x15 : Vec F S150x150 .f32) (x16 : Vec F S1x150 .f32) (x17 : Vec F S150x150 .f32) (x18 : Vec F S1x150 .f32) : Vec F S4x150 .f32 :=
  View.canon [⟨r7_S4x150, k7_pay2 (k7_pay5 (View.ld x1 r7_S4x4x150)) (k7_pay6 (View.ld x0 r7_S4x300) (View.ld x1 r7_S4x4x150) (View.ld x2 r7_S4x4x150) (View.ld x13 r7_S150x150) (View.ld x14 r7_S1x150) (View.ld x5 r7_S300x150) (View.ld x6 r7_S1x150)) (k7_pay8 (k7_pay5 (View.ld x1 r7_S4x4x150)) (k7_pay7 (View.ld x0 r7_S4x300) (View.ld x3 r7_S300x150)) (View.ld x4 r7_S1x150) (View.ld x11 r7_S150x150) (View.ld x12 r7_S1x150)) (k7_pay9 (k7_pay4 (View.ld x0 r7_S4x300)) (k7_pay5 (View.ld x1 r7_S4x4x150)) (View.ld x9 r7_S300x150) (View.ld x10 r7_S1x150) (View.ld x17 r7_S150x150) (View.ld x18 r7_S1x150)) (k7_pay10 (k7_pay4 (View.ld x0 r7_S4x300)) (View.ld x7 r7_S300x150) (View.ld x8 r7_S1x150)) (View.ld x15 r7_S150x150) (View.ld x16 r7_S1x150)⟩]

/-- Its one store is through the whole rectangle, so it covers the buffer. -/
theorem cover7_19 (p0 : Vec F S4x150 .f32) (y : S4x150.Idx) :
    ∃ pc ∈ ([⟨r7_S4x150, p0⟩] : List (View.Piece (Elt F) S4x150 .f32)), y ∈ pc.1.set :=
  View.cover_of_tiled [⟨r7_S4x150, p0⟩] S4x150.size (by rfl) y

/-- Output window 20's staging buffer after the body (the memory cells), from the input windows' blocks. -/
def out7_20 (x0 : Vec F S4x300 .f32) (x1 : Vec F S4x4x150 .f32) (x2 : Vec F S4x4x150 .f32) (x3 : Vec F S300x150 .f32) (x4 : Vec F S1x150 .f32) (x5 : Vec F S300x150 .f32) (x6 : Vec F S1x150 .f32) (x7 : Vec F S300x150 .f32) (x8 : Vec F S1x150 .f32) (x9 : Vec F S300x150 .f32) (x10 : Vec F S1x150 .f32) (x11 : Vec F S150x150 .f32) (x12 : Vec F S1x150 .f32) (x13 : Vec F S150x150 .f32) (x14 : Vec F S1x150 .f32) (x15 : Vec F S150x150 .f32) (x16 : Vec F S1x150 .f32) (x17 : Vec F S150x150 .f32) (x18 : Vec F S1x150 .f32) : Vec F S4x150 .f32 :=
  View.canon [⟨r7_S4x150, k7_pay1 (k7_pay5 (View.ld x1 r7_S4x4x150)) (k7_pay6 (View.ld x0 r7_S4x300) (View.ld x1 r7_S4x4x150) (View.ld x2 r7_S4x4x150) (View.ld x13 r7_S150x150) (View.ld x14 r7_S1x150) (View.ld x5 r7_S300x150) (View.ld x6 r7_S1x150)) (k7_pay8 (k7_pay5 (View.ld x1 r7_S4x4x150)) (k7_pay7 (View.ld x0 r7_S4x300) (View.ld x3 r7_S300x150)) (View.ld x4 r7_S1x150) (View.ld x11 r7_S150x150) (View.ld x12 r7_S1x150)) (k7_pay10 (k7_pay4 (View.ld x0 r7_S4x300)) (View.ld x7 r7_S300x150) (View.ld x8 r7_S1x150)) (View.ld x15 r7_S150x150) (View.ld x16 r7_S1x150)⟩]

/-- Its one store is through the whole rectangle, so it covers the buffer. -/
theorem cover7_20 (p0 : Vec F S4x150 .f32) (y : S4x150.Idx) :
    ∃ pc ∈ ([⟨r7_S4x150, p0⟩] : List (View.Piece (Elt F) S4x150 .f32)), y ∈ pc.1.set :=
  View.cover_of_tiled [⟨r7_S4x150, p0⟩] S4x150.size (by rfl) y

/-! ## The body's triple -/

set_option maxHeartbeats 4000000 in
/-- The kernel body on whole staging memrefs, the inputs' at contents xW and the outputs' at anything, runs to a
    continuation that holds the inputs' as they were and each output's at its function of the inputs'. -/
theorem sound_kernel7 (c : Dev nD) (E : Set ℕ) (i : grid7.Coords) (arg1 : Memref sig .tc .vmem S4x300 .f32) (harg1 : arg1.IsWhole) (arg2 : Memref sig .tc .vmem S4x4x150 .f32) (harg2 : arg2.IsWhole) (arg3 : Memref sig .tc .vmem S4x4x150 .f32) (harg3 : arg3.IsWhole) (arg4 : Memref sig .tc .vmem S300x150 .f32) (harg4 : arg4.IsWhole) (arg5 : Memref sig .tc .vmem S1x150 .f32) (harg5 : arg5.IsWhole) (arg6 : Memref sig .tc .vmem S300x150 .f32) (harg6 : arg6.IsWhole) (arg7 : Memref sig .tc .vmem S1x150 .f32) (harg7 : arg7.IsWhole) (arg8 : Memref sig .tc .vmem S300x150 .f32) (harg8 : arg8.IsWhole) (arg9 : Memref sig .tc .vmem S1x150 .f32) (harg9 : arg9.IsWhole) (arg10 : Memref sig .tc .vmem S300x150 .f32) (harg10 : arg10.IsWhole) (arg11 : Memref sig .tc .vmem S1x150 .f32) (harg11 : arg11.IsWhole) (arg12 : Memref sig .tc .vmem S150x150 .f32) (harg12 : arg12.IsWhole) (arg13 : Memref sig .tc .vmem S1x150 .f32) (harg13 : arg13.IsWhole) (arg14 : Memref sig .tc .vmem S150x150 .f32) (harg14 : arg14.IsWhole) (arg15 : Memref sig .tc .vmem S1x150 .f32) (harg15 : arg15.IsWhole) (arg16 : Memref sig .tc .vmem S150x150 .f32) (harg16 : arg16.IsWhole) (arg17 : Memref sig .tc .vmem S1x150 .f32) (harg17 : arg17.IsWhole) (arg18 : Memref sig .tc .vmem S150x150 .f32) (harg18 : arg18.IsWhole) (arg19 : Memref sig .tc .vmem S1x150 .f32) (harg19 : arg19.IsWhole) (arg20 : Memref sig .tc .vmem S4x150 .f32) (harg20 : arg20.IsWhole) (arg21 : Memref sig .tc .vmem S4x150 .f32) (harg21 : arg21.IsWhole)
    (x0 : Vec F S4x300 .f32) (x1 : Vec F S4x4x150 .f32) (x2 : Vec F S4x4x150 .f32) (x3 : Vec F S300x150 .f32) (x4 : Vec F S1x150 .f32) (x5 : Vec F S300x150 .f32) (x6 : Vec F S1x150 .f32) (x7 : Vec F S300x150 .f32) (x8 : Vec F S1x150 .f32) (x9 : Vec F S300x150 .f32) (x10 : Vec F S1x150 .f32) (x11 : Vec F S150x150 .f32) (x12 : Vec F S1x150 .f32) (x13 : Vec F S150x150 .f32) (x14 : Vec F S1x150 .f32) (x15 : Vec F S150x150 .f32) (x16 : Vec F S1x150 .f32) (x17 : Vec F S150x150 .f32) (x18 : Vec F S1x150 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare (out7_19 x0 x1 x2 x3 x4 x5 x6 x7 x8 x9 x10 x11 x12 x13 x14 x15 x16 x17 x18) ∗ owns (c : Thread nD τ) arg21 fullShare (out7_20 x0 x1 x2 x3 x4 x5 x6 x7 x8 x9 x10 x11 x12 x13 x14 x15 x16 x17 x18)) -∗ K ⟨⟩))
      ⊢ wp frame (wpE (defs₀ (F := F)) Variants.none c none) E (cc7__internal_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc7__internal_kernel_eq_skeleton]; unfold cc7__internal_kernel_skel
  simp only [k7_part1_eq_skeleton]; unfold k7_part1_skel
  simp only [k7_part2_eq_skeleton]; unfold k7_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, Hk⟩
  subst hf0 hf1 hf2 hf3 hf4 hf5 hf6 hf7 hf8 hf9 hf10 hf11 hf12 hf13 hf14 hf15 hf16 hf17 hf18
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists _; isplitr
    swap; · iexact H19
    ipureintro
    exact View.read_writes_eq_canon _ _ _ (cover7_19 _)
  iexists _; isplitr
  swap; · iexact H20
  ipureintro
  exact View.read_writes_eq_canon _ _ _ (cover7_20 _)

/-! ## The pipeline's proof data -/

/-- The proof data of this pipeline on core c: the arrays as the region finds them; after the body at point t each
    input's buffer at its block and each output's at its function of the input blocks; nothing owed, full shares, and
    the invariant that carries only what the body does not touch. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => iblk7 V c 8 t
    | ⟨9, _⟩ => iblk7 V c 9 t
    | ⟨10, _⟩ => iblk7 V c 10 t
    | ⟨11, _⟩ => iblk7 V c 11 t
    | ⟨12, _⟩ => iblk7 V c 12 t
    | ⟨13, _⟩ => iblk7 V c 13 t
    | ⟨14, _⟩ => iblk7 V c 14 t
    | ⟨15, _⟩ => iblk7 V c 15 t
    | ⟨16, _⟩ => iblk7 V c 16 t
    | ⟨17, _⟩ => iblk7 V c 17 t
    | ⟨18, _⟩ => iblk7 V c 18 t
    | ⟨19, _⟩ => out7_19 (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) (iblk7 V c 10 t) (iblk7 V c 11 t) (iblk7 V c 12 t) (iblk7 V c 13 t) (iblk7 V c 14 t) (iblk7 V c 15 t) (iblk7 V c 16 t) (iblk7 V c 17 t) (iblk7 V c 18 t)
    | ⟨20, _⟩ => out7_20 (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) (iblk7 V c 10 t) (iblk7 V c 11 t) (iblk7 V c 12 t) (iblk7 V c 13 t) (iblk7 V c 14 t) (iblk7 V c 15 t) (iblk7 V c 16 t) (iblk7 V c 17 t) (iblk7 V c 18 t)
    | ⟨n + 21, h⟩ => absurd h (Nat.not_lt.mpr (Nat.le_add_left 21 n))
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = iblk7 V c 7 t := by dsimp only [dat7]
theorem after7_8 (c : Dev nD) (t : Fin cfg7.N) : (dat7 V c).after 8 t = iblk7 V c 8 t := by dsimp only [dat7]
theorem after7_9 (c : Dev nD) (t : Fin cfg7.N) : (dat7 V c).after 9 t = iblk7 V c 9 t := by dsimp only [dat7]
theorem after7_10 (c : Dev nD) (t : Fin cfg7.N) : (dat7 V c).after 10 t = iblk7 V c 10 t := by dsimp only [dat7]
theorem after7_11 (c : Dev nD) (t : Fin cfg7.N) : (dat7 V c).after 11 t = iblk7 V c 11 t := by dsimp only [dat7]
theorem after7_12 (c : Dev nD) (t : Fin cfg7.N) : (dat7 V c).after 12 t = iblk7 V c 12 t := by dsimp only [dat7]
theorem after7_13 (c : Dev nD) (t : Fin cfg7.N) : (dat7 V c).after 13 t = iblk7 V c 13 t := by dsimp only [dat7]
theorem after7_14 (c : Dev nD) (t : Fin cfg7.N) : (dat7 V c).after 14 t = iblk7 V c 14 t := by dsimp only [dat7]
theorem after7_15 (c : Dev nD) (t : Fin cfg7.N) : (dat7 V c).after 15 t = iblk7 V c 15 t := by dsimp only [dat7]
theorem after7_16 (c : Dev nD) (t : Fin cfg7.N) : (dat7 V c).after 16 t = iblk7 V c 16 t := by dsimp only [dat7]
theorem after7_17 (c : Dev nD) (t : Fin cfg7.N) : (dat7 V c).after 17 t = iblk7 V c 17 t := by dsimp only [dat7]
theorem after7_18 (c : Dev nD) (t : Fin cfg7.N) : (dat7 V c).after 18 t = iblk7 V c 18 t := by dsimp only [dat7]
theorem after7_19 (c : Dev nD) (t : Fin cfg7.N) : (dat7 V c).after 19 t = out7_19 (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) (iblk7 V c 10 t) (iblk7 V c 11 t) (iblk7 V c 12 t) (iblk7 V c 13 t) (iblk7 V c 14 t) (iblk7 V c 15 t) (iblk7 V c 16 t) (iblk7 V c 17 t) (iblk7 V c 18 t) := by dsimp only [dat7]
theorem after7_20 (c : Dev nD) (t : Fin cfg7.N) : (dat7 V c).after 20 t = out7_20 (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) (iblk7 V c 10 t) (iblk7 V c 11 t) (iblk7 V c 12 t) (iblk7 V c 13 t) (iblk7 V c 14 t) (iblk7 V c 15 t) (iblk7 V c 16 t) (iblk7 V c 17 t) (iblk7 V c 18 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d
theorem before7_7 (c : Dev nD) (t : Fin cfg7.N) (d) : (dat7 V c).before 7 t d = iblk7 V c 7 t :=
  before7_7_of V (dat7 V c) (A_eq7 V c 7) (after7_7 V c) t d
theorem before7_8 (c : Dev nD) (t : Fin cfg7.N) (d) : (dat7 V c).before 8 t d = iblk7 V c 8 t :=
  before7_8_of V (dat7 V c) (A_eq7 V c 8) (after7_8 V c) t d
theorem before7_9 (c : Dev nD) (t : Fin cfg7.N) (d) : (dat7 V c).before 9 t d = iblk7 V c 9 t :=
  before7_9_of V (dat7 V c) (A_eq7 V c 9) (after7_9 V c) t d
theorem before7_10 (c : Dev nD) (t : Fin cfg7.N) (d) : (dat7 V c).before 10 t d = iblk7 V c 10 t :=
  before7_10_of V (dat7 V c) (A_eq7 V c 10) (after7_10 V c) t d
theorem before7_11 (c : Dev nD) (t : Fin cfg7.N) (d) : (dat7 V c).before 11 t d = iblk7 V c 11 t :=
  before7_11_of V (dat7 V c) (A_eq7 V c 11) (after7_11 V c) t d
theorem before7_12 (c : Dev nD) (t : Fin cfg7.N) (d) : (dat7 V c).before 12 t d = iblk7 V c 12 t :=
  before7_12_of V (dat7 V c) (A_eq7 V c 12) (after7_12 V c) t d
theorem before7_13 (c : Dev nD) (t : Fin cfg7.N) (d) : (dat7 V c).before 13 t d = iblk7 V c 13 t :=
  before7_13_of V (dat7 V c) (A_eq7 V c 13) (after7_13 V c) t d
theorem before7_14 (c : Dev nD) (t : Fin cfg7.N) (d) : (dat7 V c).before 14 t d = iblk7 V c 14 t :=
  before7_14_of V (dat7 V c) (A_eq7 V c 14) (after7_14 V c) t d
theorem before7_15 (c : Dev nD) (t : Fin cfg7.N) (d) : (dat7 V c).before 15 t d = iblk7 V c 15 t :=
  before7_15_of V (dat7 V c) (A_eq7 V c 15) (after7_15 V c) t d
theorem before7_16 (c : Dev nD) (t : Fin cfg7.N) (d) : (dat7 V c).before 16 t d = iblk7 V c 16 t :=
  before7_16_of V (dat7 V c) (A_eq7 V c 16) (after7_16 V c) t d
theorem before7_17 (c : Dev nD) (t : Fin cfg7.N) (d) : (dat7 V c).before 17 t d = iblk7 V c 17 t :=
  before7_17_of V (dat7 V c) (A_eq7 V c 17) (after7_17 V c) t d
theorem before7_18 (c : Dev nD) (t : Fin cfg7.N) (d) : (dat7 V c).before 18 t d = iblk7 V c 18 t :=
  before7_18_of V (dat7 V c) (A_eq7 V c 18) (after7_18 V c) t d

/-! ## The body obligation, at a generic point -/

/-- What the body is called with at point t, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d))
    ∗ (∃ d, owns (c : Thread nD τ) (st7_8 t) fullShare ((dat7 V c).before 8 t d))
    ∗ (∃ d, owns (c : Thread nD τ) (st7_9 t) fullShare ((dat7 V c).before 9 t d))
    ∗ (∃ d, owns (c : Thread nD τ) (st7_10 t) fullShare ((dat7 V c).before 10 t d))
    ∗ (∃ d, owns (c : Thread nD τ) (st7_11 t) fullShare ((dat7 V c).before 11 t d))
    ∗ (∃ d, owns (c : Thread nD τ) (st7_12 t) fullShare ((dat7 V c).before 12 t d))
    ∗ (∃ d, owns (c : Thread nD τ) (st7_13 t) fullShare ((dat7 V c).before 13 t d))
    ∗ (∃ d, owns (c : Thread nD τ) (st7_14 t) fullShare ((dat7 V c).before 14 t d))
    ∗ (∃ d, owns (c : Thread nD τ) (st7_15 t) fullShare ((dat7 V c).before 15 t d))
    ∗ (∃ d, owns (c : Thread nD τ) (st7_16 t) fullShare ((dat7 V c).before 16 t d))
    ∗ (∃ d, owns (c : Thread nD τ) (st7_17 t) fullShare ((dat7 V c).before 17 t d))
    ∗ (∃ d, owns (c : Thread nD τ) (st7_18 t) fullShare ((dat7 V c).before 18 t d))
    ∗ (∃ d, owns (c : Thread nD τ) (st7_19 t) fullShare ((dat7 V c).before 19 t d))
    ∗ (∃ d, owns (c : Thread nD τ) (st7_20 t) fullShare ((dat7 V c).before 20 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t)
    ∗ owns (c : Thread nD τ) (st7_8 t) fullShare ((dat7 V c).after 8 t)
    ∗ owns (c : Thread nD τ) (st7_9 t) fullShare ((dat7 V c).after 9 t)
    ∗ owns (c : Thread nD τ) (st7_10 t) fullShare ((dat7 V c).after 10 t)
    ∗ owns (c : Thread nD τ) (st7_11 t) fullShare ((dat7 V c).after 11 t)
    ∗ owns (c : Thread nD τ) (st7_12 t) fullShare ((dat7 V c).after 12 t)
    ∗ owns (c : Thread nD τ) (st7_13 t) fullShare ((dat7 V c).after 13 t)
    ∗ owns (c : Thread nD τ) (st7_14 t) fullShare ((dat7 V c).after 14 t)
    ∗ owns (c : Thread nD τ) (st7_15 t) fullShare ((dat7 V c).after 15 t)
    ∗ owns (c : Thread nD τ) (st7_16 t) fullShare ((dat7 V c).after 16 t)
    ∗ owns (c : Thread nD τ) (st7_17 t) fullShare ((dat7 V c).after 17 t)
    ∗ owns (c : Thread nD τ) (st7_18 t) fullShare ((dat7 V c).after 18 t)
    ∗ owns (c : Thread nD τ) (st7_19 t) fullShare ((dat7 V c).after 19 t)
    ∗ owns (c : Thread nD τ) (st7_20 t) fullShare ((dat7 V c).after 20 t))

set_option maxHeartbeats 4000000 in
/-- The body at any point: the inputs' memrefs hold their blocks, so the triple above applies; the invariant and the
    core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6, before7_7, before7_8, before7_9, before7_10, before7_11, before7_12, before7_13, before7_14, before7_15, before7_16, before7_17, before7_18]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7, after7_8, after7_9, after7_10, after7_11, after7_12, after7_13, after7_14, after7_15, after7_16, after7_17, after7_18, after7_19, after7_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (sound_kernel7 c Set.univ _ _ _ _ _ _ _ _ _ _ _ _ _ _ _ _ _ _ _ _ _ _ _ _ _ _ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) (iblk7 V c 10 t) (iblk7 V c 11 t) (iblk7 V c 12 t) (iblk7 V c 13 t) (iblk7 V c 14 t) (iblk7 V c 15 t) (iblk7 V c 16 t) (iblk7 V c 17 t) (iblk7 V c 18 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Tree

end
-- ==== Proof.KBRegion8.lean ====
/-
  Region 8 of the program (the internal level of 1 nodes), at any contents V of the buffers when the region is entered.
  A window's block at a grid point is the part of its array the point's index map selects. The body reads every input
  block whole, and writes each of its two output blocks whole and once: the hidden states, then the memory cells, each a
  pure function of the input blocks. So after the body each input's staging buffer still holds its block and each
  output's holds that function of the input blocks; this is the step the pipeline's launch theorem asks of a body.
-/
import proofs.«167239_j63453846831535_1_alg».proof.Proof.Gen.Kernel.Launch
import proofs.«167239_j63453846831535_1_alg».proof.Proof.Gen.Kernel.Skeleton
import proofs.«167239_j63453846831535_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Tree

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, whether the point fetched it or an
    earlier one did (its index has not moved since), for any proof data over these arrays whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, whether the point fetched it or an
    earlier one did (its index has not moved since), for any proof data over these arrays whose body leaves the block in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, whether the point fetched it or an
    earlier one did (its index has not moved since), for any proof data over these arrays whose body leaves the block in place. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current staging buffer holds its block at every point, whether the point fetched it or an
    earlier one did (its index has not moved since), for any proof data over these arrays whose body leaves the block in place. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's current staging buffer holds its block at every point, whether the point fetched it or an
    earlier one did (its index has not moved since), for any proof data over these arrays whose body leaves the block in place. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- Input window 5's current staging buffer holds its block at every point, whether the point fetched it or an
    earlier one did (its index has not moved since), for any proof data over these arrays whose body leaves the block in place. -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-- Input window 6's current staging buffer holds its block at every point, whether the point fetched it or an
    earlier one did (its index has not moved since), for any proof data over these arrays whose body leaves the block in place. -/
theorem before8_6_of {c : Dev nD} (dat : Dat τ (Elt F) Unit ℕ (UR sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)

/-- Input window 7's current staging buffer holds its block at every point, whether the point fetched it or an
    earlier one did (its index has not moved since), for any proof data over these arrays whose body leaves the block in place. -/
theorem before8_7_of {c : Dev nD} (dat : Dat τ (Elt F) Unit ℕ (UR sig nD τ) ℕ cfg8 c) (hA : dat.A 7 = V c (Pipeline.arrRef spec8 7))
    (hafter : ∀ t, dat.after 7 t = iblk8 V c 7 t) (t : Fin cfg8.N) (d) : dat.before 7 t d = iblk8 V c 7 t :=
  (dat.before_in_eq_fetched 7 rfl (fun _ => rfl) (fun _ _ _ => rfl) (fun t => by rw [hafter]; unfold Dat.blockOf iblk8; rw [hA]; try rfl) t d).trans
    (by unfold Dat.fetched Dat.blockOf iblk8; rw [hA]; try rfl)

/-- Input window 8's current staging buffer holds its block at every point, whether the point fetched it or an
    earlier one did (its index has not moved since), for any proof data over these arrays whose body leaves the block in place. -/
theorem before8_8_of {c : Dev nD} (dat : Dat τ (Elt F) Unit ℕ (UR sig nD τ) ℕ cfg8 c) (hA : dat.A 8 = V c (Pipeline.arrRef spec8 8))
    (hafter : ∀ t, dat.after 8 t = iblk8 V c 8 t) (t : Fin cfg8.N) (d) : dat.before 8 t d = iblk8 V c 8 t :=
  (dat.before_in_eq_fetched 8 rfl (fun _ => rfl) (fun _ _ _ => rfl) (fun t => by rw [hafter]; unfold Dat.blockOf iblk8; rw [hA]; try rfl) t d).trans
    (by unfold Dat.fetched Dat.blockOf iblk8; rw [hA]; try rfl)

/-- Input window 9's current staging buffer holds its block at every point, whether the point fetched it or an
    earlier one did (its index has not moved since), for any proof data over these arrays whose body leaves the block in place. -/
theorem before8_9_of {c : Dev nD} (dat : Dat τ (Elt F) Unit ℕ (UR sig nD τ) ℕ cfg8 c) (hA : dat.A 9 = V c (Pipeline.arrRef spec8 9))
    (hafter : ∀ t, dat.after 9 t = iblk8 V c 9 t) (t : Fin cfg8.N) (d) : dat.before 9 t d = iblk8 V c 9 t :=
  (dat.before_in_eq_fetched 9 rfl (fun _ => rfl) (fun _ _ _ => rfl) (fun t => by rw [hafter]; unfold Dat.blockOf iblk8; rw [hA]; try rfl) t d).trans
    (by unfold Dat.fetched Dat.blockOf iblk8; rw [hA]; try rfl)

/-- Input window 10's current staging buffer holds its block at every point, whether the point fetched it or an
    earlier one did (its index has not moved since), for any proof data over these arrays whose body leaves the block in place. -/
theorem before8_10_of {c : Dev nD} (dat : Dat τ (Elt F) Unit ℕ (UR sig nD τ) ℕ cfg8 c) (hA : dat.A 10 = V c (Pipeline.arrRef spec8 10))
    (hafter : ∀ t, dat.after 10 t = iblk8 V c 10 t) (t : Fin cfg8.N) (d) : dat.before 10 t d = iblk8 V c 10 t :=
  (dat.before_in_eq_fetched 10 rfl (fun _ => rfl) (fun _ _ _ => rfl) (fun t => by rw [hafter]; unfold Dat.blockOf iblk8; rw [hA]; try rfl) t d).trans
    (by unfold Dat.fetched Dat.blockOf iblk8; rw [hA]; try rfl)

/-- Input window 11's current staging buffer holds its block at every point, whether the point fetched it or an
    earlier one did (its index has not moved since), for any proof data over these arrays whose body leaves the block in place. -/
theorem before8_11_of {c : Dev nD} (dat : Dat τ (Elt F) Unit ℕ (UR sig nD τ) ℕ cfg8 c) (hA : dat.A 11 = V c (Pipeline.arrRef spec8 11))
    (hafter : ∀ t, dat.after 11 t = iblk8 V c 11 t) (t : Fin cfg8.N) (d) : dat.before 11 t d = iblk8 V c 11 t :=
  (dat.before_in_eq_fetched 11 rfl (fun _ => rfl) (fun _ _ _ => rfl) (fun t => by rw [hafter]; unfold Dat.blockOf iblk8; rw [hA]; try rfl) t d).trans
    (by unfold Dat.fetched Dat.blockOf iblk8; rw [hA]; try rfl)

/-- Input window 12's current staging buffer holds its block at every point, whether the point fetched it or an
    earlier one did (its index has not moved since), for any proof data over these arrays whose body leaves the block in place. -/
theorem before8_12_of {c : Dev nD} (dat : Dat τ (Elt F) Unit ℕ (UR sig nD τ) ℕ cfg8 c) (hA : dat.A 12 = V c (Pipeline.arrRef spec8 12))
    (hafter : ∀ t, dat.after 12 t = iblk8 V c 12 t) (t : Fin cfg8.N) (d) : dat.before 12 t d = iblk8 V c 12 t :=
  (dat.before_in_eq_fetched 12 rfl (fun _ => rfl) (fun _ _ _ => rfl) (fun t => by rw [hafter]; unfold Dat.blockOf iblk8; rw [hA]; try rfl) t d).trans
    (by unfold Dat.fetched Dat.blockOf iblk8; rw [hA]; try rfl)

/-- Input window 13's current staging buffer holds its block at every point, whether the point fetched it or an
    earlier one did (its index has not moved since), for any proof data over these arrays whose body leaves the block in place. -/
theorem before8_13_of {c : Dev nD} (dat : Dat τ (Elt F) Unit ℕ (UR sig nD τ) ℕ cfg8 c) (hA : dat.A 13 = V c (Pipeline.arrRef spec8 13))
    (hafter : ∀ t, dat.after 13 t = iblk8 V c 13 t) (t : Fin cfg8.N) (d) : dat.before 13 t d = iblk8 V c 13 t :=
  (dat.before_in_eq_fetched 13 rfl (fun _ => rfl) (fun _ _ _ => rfl) (fun t => by rw [hafter]; unfold Dat.blockOf iblk8; rw [hA]; try rfl) t d).trans
    (by unfold Dat.fetched Dat.blockOf iblk8; rw [hA]; try rfl)

/-- Input window 14's current staging buffer holds its block at every point, whether the point fetched it or an
    earlier one did (its index has not moved since), for any proof data over these arrays whose body leaves the block in place. -/
theorem before8_14_of {c : Dev nD} (dat : Dat τ (Elt F) Unit ℕ (UR sig nD τ) ℕ cfg8 c) (hA : dat.A 14 = V c (Pipeline.arrRef spec8 14))
    (hafter : ∀ t, dat.after 14 t = iblk8 V c 14 t) (t : Fin cfg8.N) (d) : dat.before 14 t d = iblk8 V c 14 t :=
  (dat.before_in_eq_fetched 14 rfl (fun _ => rfl) (fun _ _ _ => rfl) (fun t => by rw [hafter]; unfold Dat.blockOf iblk8; rw [hA]; try rfl) t d).trans
    (by unfold Dat.fetched Dat.blockOf iblk8; rw [hA]; try rfl)

/-- Input window 15's current staging buffer holds its block at every point, whether the point fetched it or an
    earlier one did (its index has not moved since), for any proof data over these arrays whose body leaves the block in place. -/
theorem before8_15_of {c : Dev nD} (dat : Dat τ (Elt F) Unit ℕ (UR sig nD τ) ℕ cfg8 c) (hA : dat.A 15 = V c (Pipeline.arrRef spec8 15))
    (hafter : ∀ t, dat.after 15 t = iblk8 V c 15 t) (t : Fin cfg8.N) (d) : dat.before 15 t d = iblk8 V c 15 t :=
  (dat.before_in_eq_fetched 15 rfl (fun _ => rfl) (fun _ _ _ => rfl) (fun t => by rw [hafter]; unfold Dat.blockOf iblk8; rw [hA]; try rfl) t d).trans
    (by unfold Dat.fetched Dat.blockOf iblk8; rw [hA]; try rfl)

/-- Input window 16's current staging buffer holds its block at every point, whether the point fetched it or an
    earlier one did (its index has not moved since), for any proof data over these arrays whose body leaves the block in place. -/
theorem before8_16_of {c : Dev nD} (dat : Dat τ (Elt F) Unit ℕ (UR sig nD τ) ℕ cfg8 c) (hA : dat.A 16 = V c (Pipeline.arrRef spec8 16))
    (hafter : ∀ t, dat.after 16 t = iblk8 V c 16 t) (t : Fin cfg8.N) (d) : dat.before 16 t d = iblk8 V c 16 t :=
  (dat.before_in_eq_fetched 16 rfl (fun _ => rfl) (fun _ _ _ => rfl) (fun t => by rw [hafter]; unfold Dat.blockOf iblk8; rw [hA]; try rfl) t d).trans
    (by unfold Dat.fetched Dat.blockOf iblk8; rw [hA]; try rfl)

/-- Input window 17's current staging buffer holds its block at every point, whether the point fetched it or an
    earlier one did (its index has not moved since), for any proof data over these arrays whose body leaves the block in place. -/
theorem before8_17_of {c : Dev nD} (dat : Dat τ (Elt F) Unit ℕ (UR sig nD τ) ℕ cfg8 c) (hA : dat.A 17 = V c (Pipeline.arrRef spec8 17))
    (hafter : ∀ t, dat.after 17 t = iblk8 V c 17 t) (t : Fin cfg8.N) (d) : dat.before 17 t d = iblk8 V c 17 t :=
  (dat.before_in_eq_fetched 17 rfl (fun _ => rfl) (fun _ _ _ => rfl) (fun t => by rw [hafter]; unfold Dat.blockOf iblk8; rw [hA]; try rfl) t d).trans
    (by unfold Dat.fetched Dat.blockOf iblk8; rw [hA]; try rfl)

/-- Input window 18's current staging buffer holds its block at every point, whether the point fetched it or an
    earlier one did (its index has not moved since), for any proof data over these arrays whose body leaves the block in place. -/
theorem before8_18_of {c : Dev nD} (dat : Dat τ (Elt F) Unit ℕ (UR sig nD τ) ℕ cfg8 c) (hA : dat.A 18 = V c (Pipeline.arrRef spec8 18))
    (hafter : ∀ t, dat.after 18 t = iblk8 V c 18 t) (t : Fin cfg8.N) (d) : dat.before 18 t d = iblk8 V c 18 t :=
  (dat.before_in_eq_fetched 18 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: every load and store is through a buffer's whole rectangle -/

abbrev r8_S1x300 : Rect S1x300 := Rect.unit (s := S1x300) ![0, 0] S1x300.size inb_S1x300_S1x300_0_0
abbrev r8_S1x4x150 : Rect S1x4x150 := Rect.unit (s := S1x4x150) ![0, 0, 0] S1x4x150.size inb_S1x4x150_S1x4x150_0_0_0
abbrev r8_S300x150 : Rect S300x150 := Rect.unit (s := S300x150) ![0, 0] S300x150.size inb_S300x150_S300x150_0_0
abbrev r8_S1x150 : Rect S1x150 := Rect.unit (s := S1x150) ![0, 0] S1x150.size inb_S1x150_S1x150_0_0
abbrev r8_S150x150 : Rect S150x150 := Rect.unit (s := S150x150) ![0, 0] S150x150.size inb_S150x150_S150x150_0_0

/-! ## What the body leaves in each output window's buffer -/

/-- Output window 19's staging buffer after the body (the hidden states), from the input windows' blocks. -/
def out8_19 (x0 : Vec F S1x300 .f32) (x1 : Vec F S1x4x150 .f32) (x2 : Vec F S1x4x150 .f32) (x3 : Vec F S300x150 .f32) (x4 : Vec F S1x150 .f32) (x5 : Vec F S300x150 .f32) (x6 : Vec F S1x150 .f32) (x7 : Vec F S300x150 .f32) (x8 : Vec F S1x150 .f32) (x9 : Vec F S300x150 .f32) (x10 : Vec F S1x150 .f32) (x11 : Vec F S150x150 .f32) (x12 : Vec F S1x150 .f32) (x13 : Vec F S150x150 .f32) (x14 : Vec F S1x150 .f32) (x15 : Vec F S150x150 .f32) (x16 : Vec F S1x150 .f32) (x17 : Vec F S150x150 .f32) (x18 : Vec F S1x150 .f32) : Vec F S1x150 .f32 :=
  View.canon [⟨r8_S1x150, k8_pay2 (k8_pay6 (View.ld x0 r8_S1x300) (View.ld x1 r8_S1x4x150) (View.ld x2 r8_S1x4x150) (View.ld x13 r8_S150x150) (View.ld x14 r8_S1x150) (View.ld x5 r8_S300x150) (View.ld x6 r8_S1x150)) (k8_pay8 (k8_pay5 (View.ld x1 r8_S1x4x150)) (k8_pay7 (View.ld x0 r8_S1x300) (View.ld x3 r8_S300x150)) (View.ld x4 r8_S1x150) (View.ld x11 r8_S150x150) (View.ld x12 r8_S1x150)) (k8_pay9 (k8_pay4 (View.ld x0 r8_S1x300)) (k8_pay5 (View.ld x1 r8_S1x4x150)) (View.ld x9 r8_S300x150) (View.ld x10 r8_S1x150) (View.ld x17 r8_S150x150) (View.ld x18 r8_S1x150)) (k8_pay10 (k8_pay4 (View.ld x0 r8_S1x300)) (k8_pay5 (View.ld x1 r8_S1x4x150)) (View.ld x7 r8_S300x150) (View.ld x8 r8_S1x150) (View.ld x15 r8_S150x150)) (View.ld x16 r8_S1x150)⟩]

/-- Its one store is through the whole rectangle, so it covers the buffer. -/
theorem cover8_19 (p0 : Vec F S1x150 .f32) (y : S1x150.Idx) :
    ∃ pc ∈ ([⟨r8_S1x150, p0⟩] : List (View.Piece (Elt F) S1x150 .f32)), y ∈ pc.1.set :=
  View.cover_of_tiled [⟨r8_S1x150, p0⟩] S1x150.size (by rfl) y

/-- Output window 20's staging buffer after the body (the memory cells), from the input windows' blocks. -/
def out8_20 (x0 : Vec F S1x300 .f32) (x1 : Vec F S1x4x150 .f32) (x2 : Vec F S1x4x150 .f32) (x3 : Vec F S300x150 .f32) (x4 : Vec F S1x150 .f32) (x5 : Vec F S300x150 .f32) (x6 : Vec F S1x150 .f32) (x7 : Vec F S300x150 .f32) (x8 : Vec F S1x150 .f32) (x9 : Vec F S300x150 .f32) (x10 : Vec F S1x150 .f32) (x11 : Vec F S150x150 .f32) (x12 : Vec F S1x150 .f32) (x13 : Vec F S150x150 .f32) (x14 : Vec F S1x150 .f32) (x15 : Vec F S150x150 .f32) (x16 : Vec F S1x150 .f32) (x17 : Vec F S150x150 .f32) (x18 : Vec F S1x150 .f32) : Vec F S1x150 .f32 :=
  View.canon [⟨r8_S1x150, k8_pay1 (k8_pay6 (View.ld x0 r8_S1x300) (View.ld x1 r8_S1x4x150) (View.ld x2 r8_S1x4x150) (View.ld x13 r8_S150x150) (View.ld x14 r8_S1x150) (View.ld x5 r8_S300x150) (View.ld x6 r8_S1x150)) (k8_pay8 (k8_pay5 (View.ld x1 r8_S1x4x150)) (k8_pay7 (View.ld x0 r8_S1x300) (View.ld x3 r8_S300x150)) (View.ld x4 r8_S1x150) (View.ld x11 r8_S150x150) (View.ld x12 r8_S1x150)) (k8_pay10 (k8_pay4 (View.ld x0 r8_S1x300)) (k8_pay5 (View.ld x1 r8_S1x4x150)) (View.ld x7 r8_S300x150) (View.ld x8 r8_S1x150) (View.ld x15 r8_S150x150)) (View.ld x16 r8_S1x150)⟩]

/-- Its one store is through the whole rectangle, so it covers the buffer. -/
theorem cover8_20 (p0 : Vec F S1x150 .f32) (y : S1x150.Idx) :
    ∃ pc ∈ ([⟨r8_S1x150, p0⟩] : List (View.Piece (Elt F) S1x150 .f32)), y ∈ pc.1.set :=
  View.cover_of_tiled [⟨r8_S1x150, p0⟩] S1x150.size (by rfl) y

/-! ## The body's triple -/

set_option maxHeartbeats 4000000 in
/-- The kernel body on whole staging memrefs, the inputs' at contents xW and the outputs' at anything, runs to a
    continuation that holds the inputs' as they were and each output's at its function of the inputs'. -/
theorem sound_kernel8 (c : Dev nD) (E : Set ℕ) (i : grid8.Coords) (arg1 : Memref sig .tc .vmem S1x300 .f32) (harg1 : arg1.IsWhole) (arg2 : Memref sig .tc .vmem S1x4x150 .f32) (harg2 : arg2.IsWhole) (arg3 : Memref sig .tc .vmem S1x4x150 .f32) (harg3 : arg3.IsWhole) (arg4 : Memref sig .tc .vmem S300x150 .f32) (harg4 : arg4.IsWhole) (arg5 : Memref sig .tc .vmem S1x150 .f32) (harg5 : arg5.IsWhole) (arg6 : Memref sig .tc .vmem S300x150 .f32) (harg6 : arg6.IsWhole) (arg7 : Memref sig .tc .vmem S1x150 .f32) (harg7 : arg7.IsWhole) (arg8 : Memref sig .tc .vmem S300x150 .f32) (harg8 : arg8.IsWhole) (arg9 : Memref sig .tc .vmem S1x150 .f32) (harg9 : arg9.IsWhole) (arg10 : Memref sig .tc .vmem S300x150 .f32) (harg10 : arg10.IsWhole) (arg11 : Memref sig .tc .vmem S1x150 .f32) (harg11 : arg11.IsWhole) (arg12 : Memref sig .tc .vmem S150x150 .f32) (harg12 : arg12.IsWhole) (arg13 : Memref sig .tc .vmem S1x150 .f32) (harg13 : arg13.IsWhole) (arg14 : Memref sig .tc .vmem S150x150 .f32) (harg14 : arg14.IsWhole) (arg15 : Memref sig .tc .vmem S1x150 .f32) (harg15 : arg15.IsWhole) (arg16 : Memref sig .tc .vmem S150x150 .f32) (harg16 : arg16.IsWhole) (arg17 : Memref sig .tc .vmem S1x150 .f32) (harg17 : arg17.IsWhole) (arg18 : Memref sig .tc .vmem S150x150 .f32) (harg18 : arg18.IsWhole) (arg19 : Memref sig .tc .vmem S1x150 .f32) (harg19 : arg19.IsWhole) (arg20 : Memref sig .tc .vmem S1x150 .f32) (harg20 : arg20.IsWhole) (arg21 : Memref sig .tc .vmem S1x150 .f32) (harg21 : arg21.IsWhole)
    (x0 : Vec F S1x300 .f32) (x1 : Vec F S1x4x150 .f32) (x2 : Vec F S1x4x150 .f32) (x3 : Vec F S300x150 .f32) (x4 : Vec F S1x150 .f32) (x5 : Vec F S300x150 .f32) (x6 : Vec F S1x150 .f32) (x7 : Vec F S300x150 .f32) (x8 : Vec F S1x150 .f32) (x9 : Vec F S300x150 .f32) (x10 : Vec F S1x150 .f32) (x11 : Vec F S150x150 .f32) (x12 : Vec F S1x150 .f32) (x13 : Vec F S150x150 .f32) (x14 : Vec F S1x150 .f32) (x15 : Vec F S150x150 .f32) (x16 : Vec F S1x150 .f32) (x17 : Vec F S150x150 .f32) (x18 : Vec F S1x150 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare (out8_19 x0 x1 x2 x3 x4 x5 x6 x7 x8 x9 x10 x11 x12 x13 x14 x15 x16 x17 x18) ∗ owns (c : Thread nD τ) arg21 fullShare (out8_20 x0 x1 x2 x3 x4 x5 x6 x7 x8 x9 x10 x11 x12 x13 x14 x15 x16 x17 x18)) -∗ K ⟨⟩))
      ⊢ wp frame (wpE (defs₀ (F := F)) Variants.none c none) E (cc8__internal_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc8__internal_kernel_eq_skeleton]; unfold cc8__internal_kernel_skel
  simp only [k8_part1_eq_skeleton]; unfold k8_part1_skel
  simp only [k8_part2_eq_skeleton]; unfold k8_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, Hk⟩
  subst hf0 hf1 hf2 hf3 hf4 hf5 hf6 hf7 hf8 hf9 hf10 hf11 hf12 hf13 hf14 hf15 hf16 hf17 hf18
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists _; isplitr
    swap; · iexact H19
    ipureintro
    exact View.read_writes_eq_canon _ _ _ (cover8_19 _)
  iexists _; isplitr
  swap; · iexact H20
  ipureintro
  exact View.read_writes_eq_canon _ _ _ (cover8_20 _)

/-! ## The pipeline's proof data -/

/-- The proof data of this pipeline on core c: the arrays as the region finds them; after the body at point t each
    input's buffer at its block and each output's at its function of the input blocks; nothing owed, full shares, and
    the invariant that carries only what the body does not touch. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => iblk8 V c 8 t
    | ⟨9, _⟩ => iblk8 V c 9 t
    | ⟨10, _⟩ => iblk8 V c 10 t
    | ⟨11, _⟩ => iblk8 V c 11 t
    | ⟨12, _⟩ => iblk8 V c 12 t
    | ⟨13, _⟩ => iblk8 V c 13 t
    | ⟨14, _⟩ => iblk8 V c 14 t
    | ⟨15, _⟩ => iblk8 V c 15 t
    | ⟨16, _⟩ => iblk8 V c 16 t
    | ⟨17, _⟩ => iblk8 V c 17 t
    | ⟨18, _⟩ => iblk8 V c 18 t
    | ⟨19, _⟩ => out8_19 (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) (iblk8 V c 11 t) (iblk8 V c 12 t) (iblk8 V c 13 t) (iblk8 V c 14 t) (iblk8 V c 15 t) (iblk8 V c 16 t) (iblk8 V c 17 t) (iblk8 V c 18 t)
    | ⟨20, _⟩ => out8_20 (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) (iblk8 V c 11 t) (iblk8 V c 12 t) (iblk8 V c 13 t) (iblk8 V c 14 t) (iblk8 V c 15 t) (iblk8 V c 16 t) (iblk8 V c 17 t) (iblk8 V c 18 t)
    | ⟨n + 21, h⟩ => absurd h (Nat.not_lt.mpr (Nat.le_add_left 21 n))
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t = iblk8 V c 7 t := by dsimp only [dat8]
theorem after8_8 (c : Dev nD) (t : Fin cfg8.N) : (dat8 V c).after 8 t = iblk8 V c 8 t := by dsimp only [dat8]
theorem after8_9 (c : Dev nD) (t : Fin cfg8.N) : (dat8 V c).after 9 t = iblk8 V c 9 t := by dsimp only [dat8]
theorem after8_10 (c : Dev nD) (t : Fin cfg8.N) : (dat8 V c).after 10 t = iblk8 V c 10 t := by dsimp only [dat8]
theorem after8_11 (c : Dev nD) (t : Fin cfg8.N) : (dat8 V c).after 11 t = iblk8 V c 11 t := by dsimp only [dat8]
theorem after8_12 (c : Dev nD) (t : Fin cfg8.N) : (dat8 V c).after 12 t = iblk8 V c 12 t := by dsimp only [dat8]
theorem after8_13 (c : Dev nD) (t : Fin cfg8.N) : (dat8 V c).after 13 t = iblk8 V c 13 t := by dsimp only [dat8]
theorem after8_14 (c : Dev nD) (t : Fin cfg8.N) : (dat8 V c).after 14 t = iblk8 V c 14 t := by dsimp only [dat8]
theorem after8_15 (c : Dev nD) (t : Fin cfg8.N) : (dat8 V c).after 15 t = iblk8 V c 15 t := by dsimp only [dat8]
theorem after8_16 (c : Dev nD) (t : Fin cfg8.N) : (dat8 V c).after 16 t = iblk8 V c 16 t := by dsimp only [dat8]
theorem after8_17 (c : Dev nD) (t : Fin cfg8.N) : (dat8 V c).after 17 t = iblk8 V c 17 t := by dsimp only [dat8]
theorem after8_18 (c : Dev nD) (t : Fin cfg8.N) : (dat8 V c).after 18 t = iblk8 V c 18 t := by dsimp only [dat8]
theorem after8_19 (c : Dev nD) (t : Fin cfg8.N) : (dat8 V c).after 19 t = out8_19 (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) (iblk8 V c 11 t) (iblk8 V c 12 t) (iblk8 V c 13 t) (iblk8 V c 14 t) (iblk8 V c 15 t) (iblk8 V c 16 t) (iblk8 V c 17 t) (iblk8 V c 18 t) := by dsimp only [dat8]
theorem after8_20 (c : Dev nD) (t : Fin cfg8.N) : (dat8 V c).after 20 t = out8_20 (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) (iblk8 V c 11 t) (iblk8 V c 12 t) (iblk8 V c 13 t) (iblk8 V c 14 t) (iblk8 V c 15 t) (iblk8 V c 16 t) (iblk8 V c 17 t) (iblk8 V c 18 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d
theorem before8_6 (c : Dev nD) (t : Fin cfg8.N) (d) : (dat8 V c).before 6 t d = iblk8 V c 6 t :=
  before8_6_of V (dat8 V c) (A_eq8 V c 6) (after8_6 V c) t d
theorem before8_7 (c : Dev nD) (t : Fin cfg8.N) (d) : (dat8 V c).before 7 t d = iblk8 V c 7 t :=
  before8_7_of V (dat8 V c) (A_eq8 V c 7) (after8_7 V c) t d
theorem before8_8 (c : Dev nD) (t : Fin cfg8.N) (d) : (dat8 V c).before 8 t d = iblk8 V c 8 t :=
  before8_8_of V (dat8 V c) (A_eq8 V c 8) (after8_8 V c) t d
theorem before8_9 (c : Dev nD) (t : Fin cfg8.N) (d) : (dat8 V c).before 9 t d = iblk8 V c 9 t :=
  before8_9_of V (dat8 V c) (A_eq8 V c 9) (after8_9 V c) t d
theorem before8_10 (c : Dev nD) (t : Fin cfg8.N) (d) : (dat8 V c).before 10 t d = iblk8 V c 10 t :=
  before8_10_of V (dat8 V c) (A_eq8 V c 10) (after8_10 V c) t d
theorem before8_11 (c : Dev nD) (t : Fin cfg8.N) (d) : (dat8 V c).before 11 t d = iblk8 V c 11 t :=
  before8_11_of V (dat8 V c) (A_eq8 V c 11) (after8_11 V c) t d
theorem before8_12 (c : Dev nD) (t : Fin cfg8.N) (d) : (dat8 V c).before 12 t d = iblk8 V c 12 t :=
  before8_12_of V (dat8 V c) (A_eq8 V c 12) (after8_12 V c) t d
theorem before8_13 (c : Dev nD) (t : Fin cfg8.N) (d) : (dat8 V c).before 13 t d = iblk8 V c 13 t :=
  before8_13_of V (dat8 V c) (A_eq8 V c 13) (after8_13 V c) t d
theorem before8_14 (c : Dev nD) (t : Fin cfg8.N) (d) : (dat8 V c).before 14 t d = iblk8 V c 14 t :=
  before8_14_of V (dat8 V c) (A_eq8 V c 14) (after8_14 V c) t d
theorem before8_15 (c : Dev nD) (t : Fin cfg8.N) (d) : (dat8 V c).before 15 t d = iblk8 V c 15 t :=
  before8_15_of V (dat8 V c) (A_eq8 V c 15) (after8_15 V c) t d
theorem before8_16 (c : Dev nD) (t : Fin cfg8.N) (d) : (dat8 V c).before 16 t d = iblk8 V c 16 t :=
  before8_16_of V (dat8 V c) (A_eq8 V c 16) (after8_16 V c) t d
theorem before8_17 (c : Dev nD) (t : Fin cfg8.N) (d) : (dat8 V c).before 17 t d = iblk8 V c 17 t :=
  before8_17_of V (dat8 V c) (A_eq8 V c 17) (after8_17 V c) t d
theorem before8_18 (c : Dev nD) (t : Fin cfg8.N) (d) : (dat8 V c).before 18 t d = iblk8 V c 18 t :=
  before8_18_of V (dat8 V c) (A_eq8 V c 18) (after8_18 V c) t d

/-! ## The body obligation, at a generic point -/

/-- What the body is called with at point t, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d))
    ∗ (∃ d, owns (c : Thread nD τ) (st8_8 t) fullShare ((dat8 V c).before 8 t d))
    ∗ (∃ d, owns (c : Thread nD τ) (st8_9 t) fullShare ((dat8 V c).before 9 t d))
    ∗ (∃ d, owns (c : Thread nD τ) (st8_10 t) fullShare ((dat8 V c).before 10 t d))
    ∗ (∃ d, owns (c : Thread nD τ) (st8_11 t) fullShare ((dat8 V c).before 11 t d))
    ∗ (∃ d, owns (c : Thread nD τ) (st8_12 t) fullShare ((dat8 V c).before 12 t d))
    ∗ (∃ d, owns (c : Thread nD τ) (st8_13 t) fullShare ((dat8 V c).before 13 t d))
    ∗ (∃ d, owns (c : Thread nD τ) (st8_14 t) fullShare ((dat8 V c).before 14 t d))
    ∗ (∃ d, owns (c : Thread nD τ) (st8_15 t) fullShare ((dat8 V c).before 15 t d))
    ∗ (∃ d, owns (c : Thread nD τ) (st8_16 t) fullShare ((dat8 V c).before 16 t d))
    ∗ (∃ d, owns (c : Thread nD τ) (st8_17 t) fullShare ((dat8 V c).before 17 t d))
    ∗ (∃ d, owns (c : Thread nD τ) (st8_18 t) fullShare ((dat8 V c).before 18 t d))
    ∗ (∃ d, owns (c : Thread nD τ) (st8_19 t) fullShare ((dat8 V c).before 19 t d))
    ∗ (∃ d, owns (c : Thread nD τ) (st8_20 t) fullShare ((dat8 V c).before 20 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t)
    ∗ owns (c : Thread nD τ) (st8_8 t) fullShare ((dat8 V c).after 8 t)
    ∗ owns (c : Thread nD τ) (st8_9 t) fullShare ((dat8 V c).after 9 t)
    ∗ owns (c : Thread nD τ) (st8_10 t) fullShare ((dat8 V c).after 10 t)
    ∗ owns (c : Thread nD τ) (st8_11 t) fullShare ((dat8 V c).after 11 t)
    ∗ owns (c : Thread nD τ) (st8_12 t) fullShare ((dat8 V c).after 12 t)
    ∗ owns (c : Thread nD τ) (st8_13 t) fullShare ((dat8 V c).after 13 t)
    ∗ owns (c : Thread nD τ) (st8_14 t) fullShare ((dat8 V c).after 14 t)
    ∗ owns (c : Thread nD τ) (st8_15 t) fullShare ((dat8 V c).after 15 t)
    ∗ owns (c : Thread nD τ) (st8_16 t) fullShare ((dat8 V c).after 16 t)
    ∗ owns (c : Thread nD τ) (st8_17 t) fullShare ((dat8 V c).after 17 t)
    ∗ owns (c : Thread nD τ) (st8_18 t) fullShare ((dat8 V c).after 18 t)
    ∗ owns (c : Thread nD τ) (st8_19 t) fullShare ((dat8 V c).after 19 t)
    ∗ owns (c : Thread nD τ) (st8_20 t) fullShare ((dat8 V c).after 20 t))

set_option maxHeartbeats 4000000 in
/-- The body at any point: the inputs' memrefs hold their blocks, so the triple above applies; the invariant and the
    core's dues pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5, before8_6, before8_7, before8_8, before8_9, before8_10, before8_11, before8_12, before8_13, before8_14, before8_15, before8_16, before8_17, before8_18]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7, after8_8, after8_9, after8_10, after8_11, after8_12, after8_13, after8_14, after8_15, after8_16, after8_17, after8_18, after8_19, after8_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (sound_kernel8 c Set.univ _ _ _ _ _ _ _ _ _ _ _ _ _ _ _ _ _ _ _ _ _ _ _ _ _ _ _ _ _ _ _ _ _ _ _ _ _ _ _ _ _ _ _ (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) (iblk8 V c 11 t) (iblk8 V c 12 t) (iblk8 V c 13 t) (iblk8 V c 14 t) (iblk8 V c 15 t) (iblk8 V c 16 t) (iblk8 V c 17 t) (iblk8 V c 18 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Tree

end
-- ==== Proof.KBRun.lean ====
/-
  The whole program as a run: ten stretches of host operations alternating with the nine regions. The contents of
  every buffer between two items are named by a fold from the launch memory: a host stretch applies its operations,
  a region replaces its windows' arrays by what its write-backs leave (an input array as entered, an output array block
  by block at what the body stored) and leaves every other buffer alone. Each region is then one segment of the
  launch theorem for several regions, entered with every buffer at the fold's contents before it and left at the
  contents after it; the run ends with every buffer at the last contents of the fold, from which both the
  unchanged arguments and the result array are read.
-/
import proofs.«167239_j63453846831535_1_alg».proof.Proof.KBRegion0
import proofs.«167239_j63453846831535_1_alg».proof.Proof.KBRegion1
import proofs.«167239_j63453846831535_1_alg».proof.Proof.KBRegion2
import proofs.«167239_j63453846831535_1_alg».proof.Proof.KBRegion3
import proofs.«167239_j63453846831535_1_alg».proof.Proof.KBRegion4
import proofs.«167239_j63453846831535_1_alg».proof.Proof.KBRegion5
import proofs.«167239_j63453846831535_1_alg».proof.Proof.KBRegion6
import proofs.«167239_j63453846831535_1_alg».proof.Proof.KBRegion7
import proofs.«167239_j63453846831535_1_alg».proof.Proof.KBRegion8
import proofs.«167239_j63453846831535_1_alg».proof.Proof.Gen.Kernel.Regions

set_option maxRecDepth 16384

noncomputable section

namespace Cert.Kernel.Tree

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core c's buffers at launch. -/
abbrev W0 : Dev nD → Valuation τ sig (Elt F) := fun c b => (s₀ m ρ).mem ((c : Dev nD), b)

/-- After host stretch 0: region 0's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its windows' arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A host stretch keeps every buffer it does not write. -/
theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h
set_option maxHeartbeats 2000000 in
/-- A region keeps every buffer but its two output arrays: an input window's array ends as entered. -/
theorem W2_keep (c : Dev nD) (r : Ref sig .tc) (h1 : r ≠ main_v9_0) (h2 : r ≠ main_v9_1) :
    W2 m ρ c (Proc.devRef .tc r) = W1 m ρ c (Proc.devRef .tc r) := by
  by_cases hw : ∃ w, Pipeline.arrRef spec0 w = r
  · obtain ⟨w, rfl⟩ := hw
    rw [W2_arr]
    match w, h1, h2 with
    | ⟨0, _⟩, _, _ => exact ((dat0 (V1 m ρ) c).arrAt_in 0 rfl _).trans (A_eq0 (V1 m ρ) c 0)
    | ⟨1, _⟩, _, _ => exact ((dat0 (V1 m ρ) c).arrAt_in 1 rfl _).trans (A_eq0 (V1 m ρ) c 1)
    | ⟨2, _⟩, _, _ => exact ((dat0 (V1 m ρ) c).arrAt_in 2 rfl _).trans (A_eq0 (V1 m ρ) c 2)
    | ⟨3, _⟩, _, _ => exact ((dat0 (V1 m ρ) c).arrAt_in 3 rfl _).trans (A_eq0 (V1 m ρ) c 3)
    | ⟨4, _⟩, _, _ => exact ((dat0 (V1 m ρ) c).arrAt_in 4 rfl _).trans (A_eq0 (V1 m ρ) c 4)
    | ⟨5, _⟩, _, _ => exact ((dat0 (V1 m ρ) c).arrAt_in 5 rfl _).trans (A_eq0 (V1 m ρ) c 5)
    | ⟨6, _⟩, _, _ => exact ((dat0 (V1 m ρ) c).arrAt_in 6 rfl _).trans (A_eq0 (V1 m ρ) c 6)
    | ⟨7, _⟩, _, _ => exact ((dat0 (V1 m ρ) c).arrAt_in 7 rfl _).trans (A_eq0 (V1 m ρ) c 7)
    | ⟨8, _⟩, _, _ => exact ((dat0 (V1 m ρ) c).arrAt_in 8 rfl _).trans (A_eq0 (V1 m ρ) c 8)
    | ⟨9, _⟩, _, _ => exact ((dat0 (V1 m ρ) c).arrAt_in 9 rfl _).trans (A_eq0 (V1 m ρ) c 9)
    | ⟨10, _⟩, h1, _ => exact absurd rfl h1
    | ⟨11, _⟩, _, h2 => exact absurd rfl h2
  · exact W2_of_ne m ρ c r (fun w e => hw ⟨w, e⟩)

/-- After host stretch 1: region 1's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its windows' arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A host stretch keeps every buffer it does not write. -/
theorem W3_keep (c : Dev nD) (r : Ref sig .tc) (h : r ∉ hostOps1_W) :
    W3 m ρ c (Proc.devRef .tc r) = W2 m ρ c (Proc.devRef .tc r) :=
  StableHlo.after_of_writes_sub hostOps1 _ hostOps1_writes h
set_option maxHeartbeats 2000000 in
/-- A region keeps every buffer but its two output arrays: an input window's array ends as entered. -/
theorem W4_keep (c : Dev nD) (r : Ref sig .tc) (h1 : r ≠ main_v13_0) (h2 : r ≠ main_v13_1) :
    W4 m ρ c (Proc.devRef .tc r) = W3 m ρ c (Proc.devRef .tc r) := by
  by_cases hw : ∃ w, Pipeline.arrRef spec1 w = r
  · obtain ⟨w, rfl⟩ := hw
    rw [W4_arr]
    match w, h1, h2 with
    | ⟨0, _⟩, _, _ => exact ((dat1 (V3 m ρ) c).arrAt_in 0 rfl _).trans (A_eq1 (V3 m ρ) c 0)
    | ⟨1, _⟩, _, _ => exact ((dat1 (V3 m ρ) c).arrAt_in 1 rfl _).trans (A_eq1 (V3 m ρ) c 1)
    | ⟨2, _⟩, _, _ => exact ((dat1 (V3 m ρ) c).arrAt_in 2 rfl _).trans (A_eq1 (V3 m ρ) c 2)
    | ⟨3, _⟩, _, _ => exact ((dat1 (V3 m ρ) c).arrAt_in 3 rfl _).trans (A_eq1 (V3 m ρ) c 3)
    | ⟨4, _⟩, _, _ => exact ((dat1 (V3 m ρ) c).arrAt_in 4 rfl _).trans (A_eq1 (V3 m ρ) c 4)
    | ⟨5, _⟩, _, _ => exact ((dat1 (V3 m ρ) c).arrAt_in 5 rfl _).trans (A_eq1 (V3 m ρ) c 5)
    | ⟨6, _⟩, _, _ => exact ((dat1 (V3 m ρ) c).arrAt_in 6 rfl _).trans (A_eq1 (V3 m ρ) c 6)
    | ⟨7, _⟩, _, _ => exact ((dat1 (V3 m ρ) c).arrAt_in 7 rfl _).trans (A_eq1 (V3 m ρ) c 7)
    | ⟨8, _⟩, _, _ => exact ((dat1 (V3 m ρ) c).arrAt_in 8 rfl _).trans (A_eq1 (V3 m ρ) c 8)
    | ⟨9, _⟩, _, _ => exact ((dat1 (V3 m ρ) c).arrAt_in 9 rfl _).trans (A_eq1 (V3 m ρ) c 9)
    | ⟨10, _⟩, _, _ => exact ((dat1 (V3 m ρ) c).arrAt_in 10 rfl _).trans (A_eq1 (V3 m ρ) c 10)
    | ⟨11, _⟩, _, _ => exact ((dat1 (V3 m ρ) c).arrAt_in 11 rfl _).trans (A_eq1 (V3 m ρ) c 11)
    | ⟨12, _⟩, _, _ => exact ((dat1 (V3 m ρ) c).arrAt_in 12 rfl _).trans (A_eq1 (V3 m ρ) c 12)
    | ⟨13, _⟩, _, _ => exact ((dat1 (V3 m ρ) c).arrAt_in 13 rfl _).trans (A_eq1 (V3 m ρ) c 13)
    | ⟨14, _⟩, _, _ => exact ((dat1 (V3 m ρ) c).arrAt_in 14 rfl _).trans (A_eq1 (V3 m ρ) c 14)
    | ⟨15, _⟩, _, _ => exact ((dat1 (V3 m ρ) c).arrAt_in 15 rfl _).trans (A_eq1 (V3 m ρ) c 15)
    | ⟨16, _⟩, _, _ => exact ((dat1 (V3 m ρ) c).arrAt_in 16 rfl _).trans (A_eq1 (V3 m ρ) c 16)
    | ⟨17, _⟩, _, _ => exact ((dat1 (V3 m ρ) c).arrAt_in 17 rfl _).trans (A_eq1 (V3 m ρ) c 17)
    | ⟨18, _⟩, _, _ => exact ((dat1 (V3 m ρ) c).arrAt_in 18 rfl _).trans (A_eq1 (V3 m ρ) c 18)
    | ⟨19, _⟩, h1, _ => exact absurd rfl h1
    | ⟨20, _⟩, _, h2 => exact absurd rfl h2
    | ⟨n + 21, h⟩, _, _ => exact absurd h (Nat.not_lt.mpr (Nat.le_add_left 21 n))
  · exact W4_of_ne m ρ c r (fun w e => hw ⟨w, e⟩)

/-- After host stretch 2: region 2's entry. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its windows' arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A host stretch keeps every buffer it does not write. -/
theorem W5_keep (c : Dev nD) (r : Ref sig .tc) (h : r ∉ hostOps2_W) :
    W5 m ρ c (Proc.devRef .tc r) = W4 m ρ c (Proc.devRef .tc r) :=
  StableHlo.after_of_writes_sub hostOps2 _ hostOps2_writes h
set_option maxHeartbeats 2000000 in
/-- A region keeps every buffer but its two output arrays: an input window's array ends as entered. -/
theorem W6_keep (c : Dev nD) (r : Ref sig .tc) (h1 : r ≠ main_v17_0) (h2 : r ≠ main_v17_1) :
    W6 m ρ c (Proc.devRef .tc r) = W5 m ρ c (Proc.devRef .tc r) := by
  by_cases hw : ∃ w, Pipeline.arrRef spec2 w = r
  · obtain ⟨w, rfl⟩ := hw
    rw [W6_arr]
    match w, h1, h2 with
    | ⟨0, _⟩, _, _ => exact ((dat2 (V5 m ρ) c).arrAt_in 0 rfl _).trans (A_eq2 (V5 m ρ) c 0)
    | ⟨1, _⟩, _, _ => exact ((dat2 (V5 m ρ) c).arrAt_in 1 rfl _).trans (A_eq2 (V5 m ρ) c 1)
    | ⟨2, _⟩, _, _ => exact ((dat2 (V5 m ρ) c).arrAt_in 2 rfl _).trans (A_eq2 (V5 m ρ) c 2)
    | ⟨3, _⟩, _, _ => exact ((dat2 (V5 m ρ) c).arrAt_in 3 rfl _).trans (A_eq2 (V5 m ρ) c 3)
    | ⟨4, _⟩, _, _ => exact ((dat2 (V5 m ρ) c).arrAt_in 4 rfl _).trans (A_eq2 (V5 m ρ) c 4)
    | ⟨5, _⟩, _, _ => exact ((dat2 (V5 m ρ) c).arrAt_in 5 rfl _).trans (A_eq2 (V5 m ρ) c 5)
    | ⟨6, _⟩, _, _ => exact ((dat2 (V5 m ρ) c).arrAt_in 6 rfl _).trans (A_eq2 (V5 m ρ) c 6)
    | ⟨7, _⟩, _, _ => exact ((dat2 (V5 m ρ) c).arrAt_in 7 rfl _).trans (A_eq2 (V5 m ρ) c 7)
    | ⟨8, _⟩, _, _ => exact ((dat2 (V5 m ρ) c).arrAt_in 8 rfl _).trans (A_eq2 (V5 m ρ) c 8)
    | ⟨9, _⟩, _, _ => exact ((dat2 (V5 m ρ) c).arrAt_in 9 rfl _).trans (A_eq2 (V5 m ρ) c 9)
    | ⟨10, _⟩, _, _ => exact ((dat2 (V5 m ρ) c).arrAt_in 10 rfl _).trans (A_eq2 (V5 m ρ) c 10)
    | ⟨11, _⟩, _, _ => exact ((dat2 (V5 m ρ) c).arrAt_in 11 rfl _).trans (A_eq2 (V5 m ρ) c 11)
    | ⟨12, _⟩, _, _ => exact ((dat2 (V5 m ρ) c).arrAt_in 12 rfl _).trans (A_eq2 (V5 m ρ) c 12)
    | ⟨13, _⟩, _, _ => exact ((dat2 (V5 m ρ) c).arrAt_in 13 rfl _).trans (A_eq2 (V5 m ρ) c 13)
    | ⟨14, _⟩, _, _ => exact ((dat2 (V5 m ρ) c).arrAt_in 14 rfl _).trans (A_eq2 (V5 m ρ) c 14)
    | ⟨15, _⟩, _, _ => exact ((dat2 (V5 m ρ) c).arrAt_in 15 rfl _).trans (A_eq2 (V5 m ρ) c 15)
    | ⟨16, _⟩, _, _ => exact ((dat2 (V5 m ρ) c).arrAt_in 16 rfl _).trans (A_eq2 (V5 m ρ) c 16)
    | ⟨17, _⟩, _, _ => exact ((dat2 (V5 m ρ) c).arrAt_in 17 rfl _).trans (A_eq2 (V5 m ρ) c 17)
    | ⟨18, _⟩, _, _ => exact ((dat2 (V5 m ρ) c).arrAt_in 18 rfl _).trans (A_eq2 (V5 m ρ) c 18)
    | ⟨19, _⟩, h1, _ => exact absurd rfl h1
    | ⟨20, _⟩, _, h2 => exact absurd rfl h2
    | ⟨n + 21, h⟩, _, _ => exact absurd h (Nat.not_lt.mpr (Nat.le_add_left 21 n))
  · exact W6_of_ne m ρ c r (fun w e => hw ⟨w, e⟩)

/-- After host stretch 3: region 3's entry. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit: its windows' arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- A host stretch keeps every buffer it does not write. -/
theorem W7_keep (c : Dev nD) (r : Ref sig .tc) (h : r ∉ hostOps3_W) :
    W7 m ρ c (Proc.devRef .tc r) = W6 m ρ c (Proc.devRef .tc r) :=
  StableHlo.after_of_writes_sub hostOps3 _ hostOps3_writes h
set_option maxHeartbeats 2000000 in
/-- A region keeps every buffer but its two output arrays: an input window's array ends as entered. -/
theorem W8_keep (c : Dev nD) (r : Ref sig .tc) (h1 : r ≠ main_v21_0) (h2 : r ≠ main_v21_1) :
    W8 m ρ c (Proc.devRef .tc r) = W7 m ρ c (Proc.devRef .tc r) := by
  by_cases hw : ∃ w, Pipeline.arrRef spec3 w = r
  · obtain ⟨w, rfl⟩ := hw
    rw [W8_arr]
    match w, h1, h2 with
    | ⟨0, _⟩, _, _ => exact ((dat3 (V7 m ρ) c).arrAt_in 0 rfl _).trans (A_eq3 (V7 m ρ) c 0)
    | ⟨1, _⟩, _, _ => exact ((dat3 (V7 m ρ) c).arrAt_in 1 rfl _).trans (A_eq3 (V7 m ρ) c 1)
    | ⟨2, _⟩, _, _ => exact ((dat3 (V7 m ρ) c).arrAt_in 2 rfl _).trans (A_eq3 (V7 m ρ) c 2)
    | ⟨3, _⟩, _, _ => exact ((dat3 (V7 m ρ) c).arrAt_in 3 rfl _).trans (A_eq3 (V7 m ρ) c 3)
    | ⟨4, _⟩, _, _ => exact ((dat3 (V7 m ρ) c).arrAt_in 4 rfl _).trans (A_eq3 (V7 m ρ) c 4)
    | ⟨5, _⟩, _, _ => exact ((dat3 (V7 m ρ) c).arrAt_in 5 rfl _).trans (A_eq3 (V7 m ρ) c 5)
    | ⟨6, _⟩, _, _ => exact ((dat3 (V7 m ρ) c).arrAt_in 6 rfl _).trans (A_eq3 (V7 m ρ) c 6)
    | ⟨7, _⟩, _, _ => exact ((dat3 (V7 m ρ) c).arrAt_in 7 rfl _).trans (A_eq3 (V7 m ρ) c 7)
    | ⟨8, _⟩, _, _ => exact ((dat3 (V7 m ρ) c).arrAt_in 8 rfl _).trans (A_eq3 (V7 m ρ) c 8)
    | ⟨9, _⟩, _, _ => exact ((dat3 (V7 m ρ) c).arrAt_in 9 rfl _).trans (A_eq3 (V7 m ρ) c 9)
    | ⟨10, _⟩, _, _ => exact ((dat3 (V7 m ρ) c).arrAt_in 10 rfl _).trans (A_eq3 (V7 m ρ) c 10)
    | ⟨11, _⟩, _, _ => exact ((dat3 (V7 m ρ) c).arrAt_in 11 rfl _).trans (A_eq3 (V7 m ρ) c 11)
    | ⟨12, _⟩, _, _ => exact ((dat3 (V7 m ρ) c).arrAt_in 12 rfl _).trans (A_eq3 (V7 m ρ) c 12)
    | ⟨13, _⟩, _, _ => exact ((dat3 (V7 m ρ) c).arrAt_in 13 rfl _).trans (A_eq3 (V7 m ρ) c 13)
    | ⟨14, _⟩, _, _ => exact ((dat3 (V7 m ρ) c).arrAt_in 14 rfl _).trans (A_eq3 (V7 m ρ) c 14)
    | ⟨15, _⟩, _, _ => exact ((dat3 (V7 m ρ) c).arrAt_in 15 rfl _).trans (A_eq3 (V7 m ρ) c 15)
    | ⟨16, _⟩, _, _ => exact ((dat3 (V7 m ρ) c).arrAt_in 16 rfl _).trans (A_eq3 (V7 m ρ) c 16)
    | ⟨17, _⟩, _, _ => exact ((dat3 (V7 m ρ) c).arrAt_in 17 rfl _).trans (A_eq3 (V7 m ρ) c 17)
    | ⟨18, _⟩, _, _ => exact ((dat3 (V7 m ρ) c).arrAt_in 18 rfl _).trans (A_eq3 (V7 m ρ) c 18)
    | ⟨19, _⟩, h1, _ => exact absurd rfl h1
    | ⟨20, _⟩, _, h2 => exact absurd rfl h2
    | ⟨n + 21, h⟩, _, _ => exact absurd h (Nat.not_lt.mpr (Nat.le_add_left 21 n))
  · exact W8_of_ne m ρ c r (fun w e => hw ⟨w, e⟩)

/-- After host stretch 4: region 4's entry. -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- At region 4's exit: its windows' arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- A host stretch keeps every buffer it does not write. -/
theorem W9_keep (c : Dev nD) (r : Ref sig .tc) (h : r ∉ hostOps4_W) :
    W9 m ρ c (Proc.devRef .tc r) = W8 m ρ c (Proc.devRef .tc r) :=
  StableHlo.after_of_writes_sub hostOps4 _ hostOps4_writes h
set_option maxHeartbeats 2000000 in
/-- A region keeps every buffer but its two output arrays: an input window's array ends as entered. -/
theorem W10_keep (c : Dev nD) (r : Ref sig .tc) (h1 : r ≠ main_v25_0) (h2 : r ≠ main_v25_1) :
    W10 m ρ c (Proc.devRef .tc r) = W9 m ρ c (Proc.devRef .tc r) := by
  by_cases hw : ∃ w, Pipeline.arrRef spec4 w = r
  · obtain ⟨w, rfl⟩ := hw
    rw [W10_arr]
    match w, h1, h2 with
    | ⟨0, _⟩, _, _ => exact ((dat4 (V9 m ρ) c).arrAt_in 0 rfl _).trans (A_eq4 (V9 m ρ) c 0)
    | ⟨1, _⟩, _, _ => exact ((dat4 (V9 m ρ) c).arrAt_in 1 rfl _).trans (A_eq4 (V9 m ρ) c 1)
    | ⟨2, _⟩, _, _ => exact ((dat4 (V9 m ρ) c).arrAt_in 2 rfl _).trans (A_eq4 (V9 m ρ) c 2)
    | ⟨3, _⟩, _, _ => exact ((dat4 (V9 m ρ) c).arrAt_in 3 rfl _).trans (A_eq4 (V9 m ρ) c 3)
    | ⟨4, _⟩, _, _ => exact ((dat4 (V9 m ρ) c).arrAt_in 4 rfl _).trans (A_eq4 (V9 m ρ) c 4)
    | ⟨5, _⟩, _, _ => exact ((dat4 (V9 m ρ) c).arrAt_in 5 rfl _).trans (A_eq4 (V9 m ρ) c 5)
    | ⟨6, _⟩, _, _ => exact ((dat4 (V9 m ρ) c).arrAt_in 6 rfl _).trans (A_eq4 (V9 m ρ) c 6)
    | ⟨7, _⟩, _, _ => exact ((dat4 (V9 m ρ) c).arrAt_in 7 rfl _).trans (A_eq4 (V9 m ρ) c 7)
    | ⟨8, _⟩, _, _ => exact ((dat4 (V9 m ρ) c).arrAt_in 8 rfl _).trans (A_eq4 (V9 m ρ) c 8)
    | ⟨9, _⟩, _, _ => exact ((dat4 (V9 m ρ) c).arrAt_in 9 rfl _).trans (A_eq4 (V9 m ρ) c 9)
    | ⟨10, _⟩, _, _ => exact ((dat4 (V9 m ρ) c).arrAt_in 10 rfl _).trans (A_eq4 (V9 m ρ) c 10)
    | ⟨11, _⟩, _, _ => exact ((dat4 (V9 m ρ) c).arrAt_in 11 rfl _).trans (A_eq4 (V9 m ρ) c 11)
    | ⟨12, _⟩, _, _ => exact ((dat4 (V9 m ρ) c).arrAt_in 12 rfl _).trans (A_eq4 (V9 m ρ) c 12)
    | ⟨13, _⟩, _, _ => exact ((dat4 (V9 m ρ) c).arrAt_in 13 rfl _).trans (A_eq4 (V9 m ρ) c 13)
    | ⟨14, _⟩, _, _ => exact ((dat4 (V9 m ρ) c).arrAt_in 14 rfl _).trans (A_eq4 (V9 m ρ) c 14)
    | ⟨15, _⟩, _, _ => exact ((dat4 (V9 m ρ) c).arrAt_in 15 rfl _).trans (A_eq4 (V9 m ρ) c 15)
    | ⟨16, _⟩, _, _ => exact ((dat4 (V9 m ρ) c).arrAt_in 16 rfl _).trans (A_eq4 (V9 m ρ) c 16)
    | ⟨17, _⟩, _, _ => exact ((dat4 (V9 m ρ) c).arrAt_in 17 rfl _).trans (A_eq4 (V9 m ρ) c 17)
    | ⟨18, _⟩, _, _ => exact ((dat4 (V9 m ρ) c).arrAt_in 18 rfl _).trans (A_eq4 (V9 m ρ) c 18)
    | ⟨19, _⟩, h1, _ => exact absurd rfl h1
    | ⟨20, _⟩, _, h2 => exact absurd rfl h2
    | ⟨n + 21, h⟩, _, _ => exact absurd h (Nat.not_lt.mpr (Nat.le_add_left 21 n))
  · exact W10_of_ne m ρ c r (fun w e => hw ⟨w, e⟩)

/-- After host stretch 5: region 5's entry. -/
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
/-- At region 5's exit: its windows' arrays at what the pipeline leaves, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- A host stretch keeps every buffer it does not write. -/
theorem W11_keep (c : Dev nD) (r : Ref sig .tc) (h : r ∉ hostOps5_W) :
    W11 m ρ c (Proc.devRef .tc r) = W10 m ρ c (Proc.devRef .tc r) :=
  StableHlo.after_of_writes_sub hostOps5 _ hostOps5_writes h
set_option maxHeartbeats 2000000 in
/-- A region keeps every buffer but its two output arrays: an input window's array ends as entered. -/
theorem W12_keep (c : Dev nD) (r : Ref sig .tc) (h1 : r ≠ main_v29_0) (h2 : r ≠ main_v29_1) :
    W12 m ρ c (Proc.devRef .tc r) = W11 m ρ c (Proc.devRef .tc r) := by
  by_cases hw : ∃ w, Pipeline.arrRef spec5 w = r
  · obtain ⟨w, rfl⟩ := hw
    rw [W12_arr]
    match w, h1, h2 with
    | ⟨0, _⟩, _, _ => exact ((dat5 (V11 m ρ) c).arrAt_in 0 rfl _).trans (A_eq5 (V11 m ρ) c 0)
    | ⟨1, _⟩, _, _ => exact ((dat5 (V11 m ρ) c).arrAt_in 1 rfl _).trans (A_eq5 (V11 m ρ) c 1)
    | ⟨2, _⟩, _, _ => exact ((dat5 (V11 m ρ) c).arrAt_in 2 rfl _).trans (A_eq5 (V11 m ρ) c 2)
    | ⟨3, _⟩, _, _ => exact ((dat5 (V11 m ρ) c).arrAt_in 3 rfl _).trans (A_eq5 (V11 m ρ) c 3)
    | ⟨4, _⟩, _, _ => exact ((dat5 (V11 m ρ) c).arrAt_in 4 rfl _).trans (A_eq5 (V11 m ρ) c 4)
    | ⟨5, _⟩, _, _ => exact ((dat5 (V11 m ρ) c).arrAt_in 5 rfl _).trans (A_eq5 (V11 m ρ) c 5)
    | ⟨6, _⟩, _, _ => exact ((dat5 (V11 m ρ) c).arrAt_in 6 rfl _).trans (A_eq5 (V11 m ρ) c 6)
    | ⟨7, _⟩, _, _ => exact ((dat5 (V11 m ρ) c).arrAt_in 7 rfl _).trans (A_eq5 (V11 m ρ) c 7)
    | ⟨8, _⟩, _, _ => exact ((dat5 (V11 m ρ) c).arrAt_in 8 rfl _).trans (A_eq5 (V11 m ρ) c 8)
    | ⟨9, _⟩, _, _ => exact ((dat5 (V11 m ρ) c).arrAt_in 9 rfl _).trans (A_eq5 (V11 m ρ) c 9)
    | ⟨10, _⟩, _, _ => exact ((dat5 (V11 m ρ) c).arrAt_in 10 rfl _).trans (A_eq5 (V11 m ρ) c 10)
    | ⟨11, _⟩, _, _ => exact ((dat5 (V11 m ρ) c).arrAt_in 11 rfl _).trans (A_eq5 (V11 m ρ) c 11)
    | ⟨12, _⟩, _, _ => exact ((dat5 (V11 m ρ) c).arrAt_in 12 rfl _).trans (A_eq5 (V11 m ρ) c 12)
    | ⟨13, _⟩, _, _ => exact ((dat5 (V11 m ρ) c).arrAt_in 13 rfl _).trans (A_eq5 (V11 m ρ) c 13)
    | ⟨14, _⟩, _, _ => exact ((dat5 (V11 m ρ) c).arrAt_in 14 rfl _).trans (A_eq5 (V11 m ρ) c 14)
    | ⟨15, _⟩, _, _ => exact ((dat5 (V11 m ρ) c).arrAt_in 15 rfl _).trans (A_eq5 (V11 m ρ) c 15)
    | ⟨16, _⟩, _, _ => exact ((dat5 (V11 m ρ) c).arrAt_in 16 rfl _).trans (A_eq5 (V11 m ρ) c 16)
    | ⟨17, _⟩, _, _ => exact ((dat5 (V11 m ρ) c).arrAt_in 17 rfl _).trans (A_eq5 (V11 m ρ) c 17)
    | ⟨18, _⟩, _, _ => exact ((dat5 (V11 m ρ) c).arrAt_in 18 rfl _).trans (A_eq5 (V11 m ρ) c 18)
    | ⟨19, _⟩, h1, _ => exact absurd rfl h1
    | ⟨20, _⟩, _, h2 => exact absurd rfl h2
    | ⟨n + 21, h⟩, _, _ => exact absurd h (Nat.not_lt.mpr (Nat.le_add_left 21 n))
  · exact W12_of_ne m ρ c r (fun w e => hw ⟨w, e⟩)

/-- After host stretch 6: region 6's entry. -/
abbrev W13 : Dev nD → Valuation τ sig (Elt F) := fun c => StableHlo.after hostOps6 (W12 m ρ c)
abbrev V13 : (c : Dev nD) → (b : Ref sig .tc) → Buf (Elt F) ((c : Thread nD τ).loc b) := fun c b => W13 m ρ c b
/-- At region 6's exit: its windows' arrays at what the pipeline leaves, every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev V14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)
/-- A host stretch keeps every buffer it does not write. -/
theorem W13_keep (c : Dev nD) (r : Ref sig .tc) (h : r ∉ hostOps6_W) :
    W13 m ρ c (Proc.devRef .tc r) = W12 m ρ c (Proc.devRef .tc r) :=
  StableHlo.after_of_writes_sub hostOps6 _ hostOps6_writes h
set_option maxHeartbeats 2000000 in
/-- A region keeps every buffer but its two output arrays: an input window's array ends as entered. -/
theorem W14_keep (c : Dev nD) (r : Ref sig .tc) (h1 : r ≠ main_v33_0) (h2 : r ≠ main_v33_1) :
    W14 m ρ c (Proc.devRef .tc r) = W13 m ρ c (Proc.devRef .tc r) := by
  by_cases hw : ∃ w, Pipeline.arrRef spec6 w = r
  · obtain ⟨w, rfl⟩ := hw
    rw [W14_arr]
    match w, h1, h2 with
    | ⟨0, _⟩, _, _ => exact ((dat6 (V13 m ρ) c).arrAt_in 0 rfl _).trans (A_eq6 (V13 m ρ) c 0)
    | ⟨1, _⟩, _, _ => exact ((dat6 (V13 m ρ) c).arrAt_in 1 rfl _).trans (A_eq6 (V13 m ρ) c 1)
    | ⟨2, _⟩, _, _ => exact ((dat6 (V13 m ρ) c).arrAt_in 2 rfl _).trans (A_eq6 (V13 m ρ) c 2)
    | ⟨3, _⟩, _, _ => exact ((dat6 (V13 m ρ) c).arrAt_in 3 rfl _).trans (A_eq6 (V13 m ρ) c 3)
    | ⟨4, _⟩, _, _ => exact ((dat6 (V13 m ρ) c).arrAt_in 4 rfl _).trans (A_eq6 (V13 m ρ) c 4)
    | ⟨5, _⟩, _, _ => exact ((dat6 (V13 m ρ) c).arrAt_in 5 rfl _).trans (A_eq6 (V13 m ρ) c 5)
    | ⟨6, _⟩, _, _ => exact ((dat6 (V13 m ρ) c).arrAt_in 6 rfl _).trans (A_eq6 (V13 m ρ) c 6)
    | ⟨7, _⟩, _, _ => exact ((dat6 (V13 m ρ) c).arrAt_in 7 rfl _).trans (A_eq6 (V13 m ρ) c 7)
    | ⟨8, _⟩, _, _ => exact ((dat6 (V13 m ρ) c).arrAt_in 8 rfl _).trans (A_eq6 (V13 m ρ) c 8)
    | ⟨9, _⟩, _, _ => exact ((dat6 (V13 m ρ) c).arrAt_in 9 rfl _).trans (A_eq6 (V13 m ρ) c 9)
    | ⟨10, _⟩, _, _ => exact ((dat6 (V13 m ρ) c).arrAt_in 10 rfl _).trans (A_eq6 (V13 m ρ) c 10)
    | ⟨11, _⟩, _, _ => exact ((dat6 (V13 m ρ) c).arrAt_in 11 rfl _).trans (A_eq6 (V13 m ρ) c 11)
    | ⟨12, _⟩, _, _ => exact ((dat6 (V13 m ρ) c).arrAt_in 12 rfl _).trans (A_eq6 (V13 m ρ) c 12)
    | ⟨13, _⟩, _, _ => exact ((dat6 (V13 m ρ) c).arrAt_in 13 rfl _).trans (A_eq6 (V13 m ρ) c 13)
    | ⟨14, _⟩, _, _ => exact ((dat6 (V13 m ρ) c).arrAt_in 14 rfl _).trans (A_eq6 (V13 m ρ) c 14)
    | ⟨15, _⟩, _, _ => exact ((dat6 (V13 m ρ) c).arrAt_in 15 rfl _).trans (A_eq6 (V13 m ρ) c 15)
    | ⟨16, _⟩, _, _ => exact ((dat6 (V13 m ρ) c).arrAt_in 16 rfl _).trans (A_eq6 (V13 m ρ) c 16)
    | ⟨17, _⟩, _, _ => exact ((dat6 (V13 m ρ) c).arrAt_in 17 rfl _).trans (A_eq6 (V13 m ρ) c 17)
    | ⟨18, _⟩, _, _ => exact ((dat6 (V13 m ρ) c).arrAt_in 18 rfl _).trans (A_eq6 (V13 m ρ) c 18)
    | ⟨19, _⟩, h1, _ => exact absurd rfl h1
    | ⟨20, _⟩, _, h2 => exact absurd rfl h2
    | ⟨n + 21, h⟩, _, _ => exact absurd h (Nat.not_lt.mpr (Nat.le_add_left 21 n))
  · exact W14_of_ne m ρ c r (fun w e => hw ⟨w, e⟩)

/-- After host stretch 7: region 7's entry. -/
abbrev W15 : Dev nD → Valuation τ sig (Elt F) := fun c => StableHlo.after hostOps7 (W14 m ρ c)
abbrev V15 : (c : Dev nD) → (b : Ref sig .tc) → Buf (Elt F) ((c : Thread nD τ).loc b) := fun c b => W15 m ρ c b
/-- At region 7's exit: its windows' arrays at what the pipeline leaves, every other buffer as entered. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
abbrev V16 : (c : Dev nD) → (b : Ref sig .tc) → Buf (Elt F) ((c : Thread nD τ).loc b) := fun c b => W16 m ρ c b
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)
/-- A host stretch keeps every buffer it does not write. -/
theorem W15_keep (c : Dev nD) (r : Ref sig .tc) (h : r ∉ hostOps7_W) :
    W15 m ρ c (Proc.devRef .tc r) = W14 m ρ c (Proc.devRef .tc r) :=
  StableHlo.after_of_writes_sub hostOps7 _ hostOps7_writes h
set_option maxHeartbeats 2000000 in
/-- A region keeps every buffer but its two output arrays: an input window's array ends as entered. -/
theorem W16_keep (c : Dev nD) (r : Ref sig .tc) (h1 : r ≠ main_v37_0) (h2 : r ≠ main_v37_1) :
    W16 m ρ c (Proc.devRef .tc r) = W15 m ρ c (Proc.devRef .tc r) := by
  by_cases hw : ∃ w, Pipeline.arrRef spec7 w = r
  · obtain ⟨w, rfl⟩ := hw
    rw [W16_arr]
    match w, h1, h2 with
    | ⟨0, _⟩, _, _ => exact ((dat7 (V15 m ρ) c).arrAt_in 0 rfl _).trans (A_eq7 (V15 m ρ) c 0)
    | ⟨1, _⟩, _, _ => exact ((dat7 (V15 m ρ) c).arrAt_in 1 rfl _).trans (A_eq7 (V15 m ρ) c 1)
    | ⟨2, _⟩, _, _ => exact ((dat7 (V15 m ρ) c).arrAt_in 2 rfl _).trans (A_eq7 (V15 m ρ) c 2)
    | ⟨3, _⟩, _, _ => exact ((dat7 (V15 m ρ) c).arrAt_in 3 rfl _).trans (A_eq7 (V15 m ρ) c 3)
    | ⟨4, _⟩, _, _ => exact ((dat7 (V15 m ρ) c).arrAt_in 4 rfl _).trans (A_eq7 (V15 m ρ) c 4)
    | ⟨5, _⟩, _, _ => exact ((dat7 (V15 m ρ) c).arrAt_in 5 rfl _).trans (A_eq7 (V15 m ρ) c 5)
    | ⟨6, _⟩, _, _ => exact ((dat7 (V15 m ρ) c).arrAt_in 6 rfl _).trans (A_eq7 (V15 m ρ) c 6)
    | ⟨7, _⟩, _, _ => exact ((dat7 (V15 m ρ) c).arrAt_in 7 rfl _).trans (A_eq7 (V15 m ρ) c 7)
    | ⟨8, _⟩, _, _ => exact ((dat7 (V15 m ρ) c).arrAt_in 8 rfl _).trans (A_eq7 (V15 m ρ) c 8)
    | ⟨9, _⟩, _, _ => exact ((dat7 (V15 m ρ) c).arrAt_in 9 rfl _).trans (A_eq7 (V15 m ρ) c 9)
    | ⟨10, _⟩, _, _ => exact ((dat7 (V15 m ρ) c).arrAt_in 10 rfl _).trans (A_eq7 (V15 m ρ) c 10)
    | ⟨11, _⟩, _, _ => exact ((dat7 (V15 m ρ) c).arrAt_in 11 rfl _).trans (A_eq7 (V15 m ρ) c 11)
    | ⟨12, _⟩, _, _ => exact ((dat7 (V15 m ρ) c).arrAt_in 12 rfl _).trans (A_eq7 (V15 m ρ) c 12)
    | ⟨13, _⟩, _, _ => exact ((dat7 (V15 m ρ) c).arrAt_in 13 rfl _).trans (A_eq7 (V15 m ρ) c 13)
    | ⟨14, _⟩, _, _ => exact ((dat7 (V15 m ρ) c).arrAt_in 14 rfl _).trans (A_eq7 (V15 m ρ) c 14)
    | ⟨15, _⟩, _, _ => exact ((dat7 (V15 m ρ) c).arrAt_in 15 rfl _).trans (A_eq7 (V15 m ρ) c 15)
    | ⟨16, _⟩, _, _ => exact ((dat7 (V15 m ρ) c).arrAt_in 16 rfl _).trans (A_eq7 (V15 m ρ) c 16)
    | ⟨17, _⟩, _, _ => exact ((dat7 (V15 m ρ) c).arrAt_in 17 rfl _).trans (A_eq7 (V15 m ρ) c 17)
    | ⟨18, _⟩, _, _ => exact ((dat7 (V15 m ρ) c).arrAt_in 18 rfl _).trans (A_eq7 (V15 m ρ) c 18)
    | ⟨19, _⟩, h1, _ => exact absurd rfl h1
    | ⟨20, _⟩, _, h2 => exact absurd rfl h2
    | ⟨n + 21, h⟩, _, _ => exact absurd h (Nat.not_lt.mpr (Nat.le_add_left 21 n))
  · exact W16_of_ne m ρ c r (fun w e => hw ⟨w, e⟩)

/-- After host stretch 8: region 8's entry. -/
abbrev W17 : Dev nD → Valuation τ sig (Elt F) := fun c => StableHlo.after hostOps8 (W16 m ρ c)
abbrev V17 : (c : Dev nD) → (b : Ref sig .tc) → Buf (Elt F) ((c : Thread nD τ).loc b) := fun c b => W17 m ρ c b
/-- At region 8's exit: its windows' arrays at what the pipeline leaves, every other buffer as entered. -/
def W18 (c : Dev nD) : Valuation τ sig (Elt F) :=
  Pipeline.withArrays spec8 c (W17 m ρ c) fun w => (dat8 (V17 m ρ) c).arrAt w cfg8.N
theorem W18_arr (c : Dev nD) (w : Fin cfg8.W) :
    W18 m ρ c (Proc.devRef .tc (Pipeline.arrRef spec8 w)) = (dat8 (V17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
abbrev V18 : (c : Dev nD) → (b : Ref sig .tc) → Buf (Elt F) ((c : Thread nD τ).loc b) := fun c b => W18 m ρ c b
theorem hF8 (c : Dev nD) (w : Fin cfg8.W) : (dat8 (V17 m ρ) c).arrAt w cfg8.N = V18 m ρ c (Pipeline.arrRef spec8 w) :=
  (W18_arr m ρ c w).symm
theorem hrest8 (c : Dev nD) : ∀ b, b ∉ Finset.univ.image (Pipeline.arrRef spec8) → V18 m ρ c b = V17 m ρ c b :=
  fun b hb => W18_of_ne m ρ c b fun w e => hb (Finset.mem_image.mpr ⟨w, Finset.mem_univ _, e⟩)
/-- A host stretch keeps every buffer it does not write. -/
theorem W17_keep (c : Dev nD) (r : Ref sig .tc) (h : r ∉ hostOps8_W) :
    W17 m ρ c (Proc.devRef .tc r) = W16 m ρ c (Proc.devRef .tc r) :=
  StableHlo.after_of_writes_sub hostOps8 _ hostOps8_writes h
set_option maxHeartbeats 2000000 in
/-- A region keeps every buffer but its two output arrays: an input window's array ends as entered. -/
theorem W18_keep (c : Dev nD) (r : Ref sig .tc) (h1 : r ≠ main_v41_0) (h2 : r ≠ main_v41_1) :
    W18 m ρ c (Proc.devRef .tc r) = W17 m ρ c (Proc.devRef .tc r) := by
  by_cases hw : ∃ w, Pipeline.arrRef spec8 w = r
  · obtain ⟨w, rfl⟩ := hw
    rw [W18_arr]
    match w, h1, h2 with
    | ⟨0, _⟩, _, _ => exact ((dat8 (V17 m ρ) c).arrAt_in 0 rfl _).trans (A_eq8 (V17 m ρ) c 0)
    | ⟨1, _⟩, _, _ => exact ((dat8 (V17 m ρ) c).arrAt_in 1 rfl _).trans (A_eq8 (V17 m ρ) c 1)
    | ⟨2, _⟩, _, _ => exact ((dat8 (V17 m ρ) c).arrAt_in 2 rfl _).trans (A_eq8 (V17 m ρ) c 2)
    | ⟨3, _⟩, _, _ => exact ((dat8 (V17 m ρ) c).arrAt_in 3 rfl _).trans (A_eq8 (V17 m ρ) c 3)
    | ⟨4, _⟩, _, _ => exact ((dat8 (V17 m ρ) c).arrAt_in 4 rfl _).trans (A_eq8 (V17 m ρ) c 4)
    | ⟨5, _⟩, _, _ => exact ((dat8 (V17 m ρ) c).arrAt_in 5 rfl _).trans (A_eq8 (V17 m ρ) c 5)
    | ⟨6, _⟩, _, _ => exact ((dat8 (V17 m ρ) c).arrAt_in 6 rfl _).trans (A_eq8 (V17 m ρ) c 6)
    | ⟨7, _⟩, _, _ => exact ((dat8 (V17 m ρ) c).arrAt_in 7 rfl _).trans (A_eq8 (V17 m ρ) c 7)
    | ⟨8, _⟩, _, _ => exact ((dat8 (V17 m ρ) c).arrAt_in 8 rfl _).trans (A_eq8 (V17 m ρ) c 8)
    | ⟨9, _⟩, _, _ => exact ((dat8 (V17 m ρ) c).arrAt_in 9 rfl _).trans (A_eq8 (V17 m ρ) c 9)
    | ⟨10, _⟩, _, _ => exact ((dat8 (V17 m ρ) c).arrAt_in 10 rfl _).trans (A_eq8 (V17 m ρ) c 10)
    | ⟨11, _⟩, _, _ => exact ((dat8 (V17 m ρ) c).arrAt_in 11 rfl _).trans (A_eq8 (V17 m ρ) c 11)
    | ⟨12, _⟩, _, _ => exact ((dat8 (V17 m ρ) c).arrAt_in 12 rfl _).trans (A_eq8 (V17 m ρ) c 12)
    | ⟨13, _⟩, _, _ => exact ((dat8 (V17 m ρ) c).arrAt_in 13 rfl _).trans (A_eq8 (V17 m ρ) c 13)
    | ⟨14, _⟩, _, _ => exact ((dat8 (V17 m ρ) c).arrAt_in 14 rfl _).trans (A_eq8 (V17 m ρ) c 14)
    | ⟨15, _⟩, _, _ => exact ((dat8 (V17 m ρ) c).arrAt_in 15 rfl _).trans (A_eq8 (V17 m ρ) c 15)
    | ⟨16, _⟩, _, _ => exact ((dat8 (V17 m ρ) c).arrAt_in 16 rfl _).trans (A_eq8 (V17 m ρ) c 16)
    | ⟨17, _⟩, _, _ => exact ((dat8 (V17 m ρ) c).arrAt_in 17 rfl _).trans (A_eq8 (V17 m ρ) c 17)
    | ⟨18, _⟩, _, _ => exact ((dat8 (V17 m ρ) c).arrAt_in 18 rfl _).trans (A_eq8 (V17 m ρ) c 18)
    | ⟨19, _⟩, h1, _ => exact absurd rfl h1
    | ⟨20, _⟩, _, h2 => exact absurd rfl h2
    | ⟨n + 21, h⟩, _, _ => exact absurd h (Nat.not_lt.mpr (Nat.le_add_left 21 n))
  · exact W18_of_ne m ρ c r (fun w e => hw ⟨w, e⟩)

/-- After the last host stretch: the program's end. -/
abbrev W19 : Dev nD → Valuation τ sig (Elt F) := fun c => StableHlo.after hostOps9 (W18 m ρ c)
theorem W19_keep (c : Dev nD) (r : Ref sig .tc) (h : r ∉ hostOps9_W) :
    W19 m ρ c (Proc.devRef .tc r) = W18 m ρ c (Proc.devRef .tc r) :=
  StableHlo.after_of_writes_sub hostOps9 _ hostOps9_writes h

/-- A buffer no item writes ends at its launch contents. -/
theorem W19_launch (c : Dev nD) (r : Ref sig .tc)
    (g0 : r ∉ hostOps0_W) (g1 : r ∉ hostOps1_W) (g2 : r ∉ hostOps2_W) (g3 : r ∉ hostOps3_W) (g4 : r ∉ hostOps4_W) (g5 : r ∉ hostOps5_W) (g6 : r ∉ hostOps6_W) (g7 : r ∉ hostOps7_W) (g8 : r ∉ hostOps8_W) (g9 : r ∉ hostOps9_W)
    (a0 : r ≠ main_v9_0) (b0 : r ≠ main_v9_1) (a1 : r ≠ main_v13_0) (b1 : r ≠ main_v13_1) (a2 : r ≠ main_v17_0) (b2 : r ≠ main_v17_1) (a3 : r ≠ main_v21_0) (b3 : r ≠ main_v21_1) (a4 : r ≠ main_v25_0) (b4 : r ≠ main_v25_1) (a5 : r ≠ main_v29_0) (b5 : r ≠ main_v29_1) (a6 : r ≠ main_v33_0) (b6 : r ≠ main_v33_1) (a7 : r ≠ main_v37_0) (b7 : r ≠ main_v37_1) (a8 : r ≠ main_v41_0) (b8 : r ≠ main_v41_1) :
    W19 m ρ c (Proc.devRef .tc r) = m ((c : Thread nD τ).loc r) :=
  (W19_keep m ρ c r g9).trans <|
  (W18_keep m ρ c r a8 b8).trans <| (W17_keep m ρ c r g8).trans <|
  (W16_keep m ρ c r a7 b7).trans <| (W15_keep m ρ c r g7).trans <|
  (W14_keep m ρ c r a6 b6).trans <| (W13_keep m ρ c r g6).trans <|
  (W12_keep m ρ c r a5 b5).trans <| (W11_keep m ρ c r g5).trans <|
  (W10_keep m ρ c r a4 b4).trans <| (W9_keep m ρ c r g4).trans <|
  (W8_keep m ρ c r a3 b3).trans <| (W7_keep m ρ c r g3).trans <|
  (W6_keep m ρ c r a2 b2).trans <| (W5_keep m ρ c r g2).trans <|
  (W4_keep m ρ c r a1 b1).trans <| (W3_keep m ρ c r g1).trans <|
  (W2_keep m ρ c r a0 b0).trans <| (W1_keep m ρ c r g0).trans <|
  rfl

/-! ## The proof data family and the thread state -/

/-- Every pipeline's proof data, each at its region's entry contents. -/
def pdats : (p : Fin 9) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c
abbrev 𝒱₀ : Variants := Variants.none
abbrev L : GSem nD τ sig → Finset Unit := fun _ => ∅
abbrev lv : GSem nD τ sig → Unit → ℕ := fun _ _ => 0
/-- What rides beside the buffers through every segment: the core's generator register at some state, and its dues, none. -/
abbrev R (c : Dev nD) : sProp 𝕄 := iprop((∃ r, prngReg c r) ∗ ∃ W, owes (c : Thread nD τ) (0 : CellTallies nD τ sig Unit) W)
/-- A host stretch as a segment from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W19 m ρ c) ∗ ∃ r, prngReg c r)

/-! ## The regions as segments -/

set_option backward.isDefEq.respectTransparency.types false in
/-- Region 0 over the thread state: entered from every buffer at the contents before it, left at the contents after it.
    Its windows' arrays are split out of the buffers at entry and put back at what the pipeline leaves at exit. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every buffer at the contents before it, left at the contents after it.
    Its windows' arrays are split out of the buffers at entry and put back at what the pipeline leaves at exit. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every buffer at the contents before it, left at the contents after it.
    Its windows' arrays are split out of the buffers at entry and put back at what the pipeline leaves at exit. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every buffer at the contents before it, left at the contents after it.
    Its windows' arrays are split out of the buffers at entry and put back at what the pipeline leaves at exit. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every buffer at the contents before it, left at the contents after it.
    Its windows' arrays are split out of the buffers at entry and put back at what the pipeline leaves at exit. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every buffer at the contents before it, left at the contents after it.
    Its windows' arrays are split out of the buffers at entry and put back at what the pipeline leaves at exit. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every buffer at the contents before it, left at the contents after it.
    Its windows' arrays are split out of the buffers at entry and put back at what the pipeline leaves at exit. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every buffer at the contents before it, left at the contents after it.
    Its windows' arrays are split out of the buffers at entry and put back at what the pipeline leaves at exit. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: entered from every buffer at the contents before it, left at the contents after it.
    Its windows' arrays are split out of the buffers at entry and put back at what the pipeline leaves at exit. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec8 c (V17 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V17 m ρ c) (V18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)) ]

set_option backward.isDefEq.respectTransparency.types false in
/-- Every weakly fair execution of the program from memory m terminates, nothing faulting, with every buffer at the
    fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W19 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W19 m ρ c) ∗ R c)
        ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h => h)

end Cert.Kernel.Tree

end
-- ==== Proof.KBFrame.lean ====
/-
  The arguments end as launched. No host operation writes an argument array and no region's output array is one, so
  the fold of buffer contents through the program, read at an argument, walks back to the launch memory; the run's
  last contents at the seventeen arguments are therefore the launch contents.
-/
import proofs.«167239_j63453846831535_1_alg».proof.Proof.KBRun

set_option maxRecDepth 16384

noncomputable section

namespace Cert.Kernel.Tree

open Cert.Kernel Cert.Kernel.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem W19_main_arg0 (c : Dev nD) : W19 m ρ c (Proc.devRef .tc main_arg0) = m ((c : Thread nD τ).loc main_arg0) :=
  W19_launch m ρ c main_arg0 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W19_main_arg1 (c : Dev nD) : W19 m ρ c (Proc.devRef .tc main_arg1) = m ((c : Thread nD τ).loc main_arg1) :=
  W19_launch m ρ c main_arg1 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W19_main_arg2 (c : Dev nD) : W19 m ρ c (Proc.devRef .tc main_arg2) = m ((c : Thread nD τ).loc main_arg2) :=
  W19_launch m ρ c main_arg2 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W19_main_arg3 (c : Dev nD) : W19 m ρ c (Proc.devRef .tc main_arg3) = m ((c : Thread nD τ).loc main_arg3) :=
  W19_launch m ρ c main_arg3 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W19_main_arg4 (c : Dev nD) : W19 m ρ c (Proc.devRef .tc main_arg4) = m ((c : Thread nD τ).loc main_arg4) :=
  W19_launch m ρ c main_arg4 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W19_main_arg5 (c : Dev nD) : W19 m ρ c (Proc.devRef .tc main_arg5) = m ((c : Thread nD τ).loc main_arg5) :=
  W19_launch m ρ c main_arg5 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W19_main_arg6 (c : Dev nD) : W19 m ρ c (Proc.devRef .tc main_arg6) = m ((c : Thread nD τ).loc main_arg6) :=
  W19_launch m ρ c main_arg6 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W19_main_arg7 (c : Dev nD) : W19 m ρ c (Proc.devRef .tc main_arg7) = m ((c : Thread nD τ).loc main_arg7) :=
  W19_launch m ρ c main_arg7 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W19_main_arg8 (c : Dev nD) : W19 m ρ c (Proc.devRef .tc main_arg8) = m ((c : Thread nD τ).loc main_arg8) :=
  W19_launch m ρ c main_arg8 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W19_main_arg9 (c : Dev nD) : W19 m ρ c (Proc.devRef .tc main_arg9) = m ((c : Thread nD τ).loc main_arg9) :=
  W19_launch m ρ c main_arg9 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W19_main_arg10 (c : Dev nD) : W19 m ρ c (Proc.devRef .tc main_arg10) = m ((c : Thread nD τ).loc main_arg10) :=
  W19_launch m ρ c main_arg10 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W19_main_arg11 (c : Dev nD) : W19 m ρ c (Proc.devRef .tc main_arg11) = m ((c : Thread nD τ).loc main_arg11) :=
  W19_launch m ρ c main_arg11 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W19_main_arg12 (c : Dev nD) : W19 m ρ c (Proc.devRef .tc main_arg12) = m ((c : Thread nD τ).loc main_arg12) :=
  W19_launch m ρ c main_arg12 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W19_main_arg13 (c : Dev nD) : W19 m ρ c (Proc.devRef .tc main_arg13) = m ((c : Thread nD τ).loc main_arg13) :=
  W19_launch m ρ c main_arg13 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W19_main_arg14 (c : Dev nD) : W19 m ρ c (Proc.devRef .tc main_arg14) = m ((c : Thread nD τ).loc main_arg14) :=
  W19_launch m ρ c main_arg14 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W19_main_arg15 (c : Dev nD) : W19 m ρ c (Proc.devRef .tc main_arg15) = m ((c : Thread nD τ).loc main_arg15) :=
  W19_launch m ρ c main_arg15 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W19_main_arg16 (c : Dev nD) : W19 m ρ c (Proc.devRef .tc main_arg16) = m ((c : Thread nD τ).loc main_arg16) :=
  W19_launch m ρ c main_arg16 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)

/-- Every weakly fair execution terminates, nothing faulting, and every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c _ (mem_uc main_arg0 (by decide))).trans (W19_main_arg0 m ρ c),
     (h c _ (mem_uc main_arg1 (by decide))).trans (W19_main_arg1 m ρ c),
     (h c _ (mem_uc main_arg2 (by decide))).trans (W19_main_arg2 m ρ c),
     (h c _ (mem_uc main_arg3 (by decide))).trans (W19_main_arg3 m ρ c),
     (h c _ (mem_uc main_arg4 (by decide))).trans (W19_main_arg4 m ρ c),
     (h c _ (mem_uc main_arg5 (by decide))).trans (W19_main_arg5 m ρ c),
     (h c _ (mem_uc main_arg6 (by decide))).trans (W19_main_arg6 m ρ c),
     (h c _ (mem_uc main_arg7 (by decide))).trans (W19_main_arg7 m ρ c),
     (h c _ (mem_uc main_arg8 (by decide))).trans (W19_main_arg8 m ρ c),
     (h c _ (mem_uc main_arg9 (by decide))).trans (W19_main_arg9 m ρ c),
     (h c _ (mem_uc main_arg10 (by decide))).trans (W19_main_arg10 m ρ c),
     (h c _ (mem_uc main_arg11 (by decide))).trans (W19_main_arg11 m ρ c),
     (h c _ (mem_uc main_arg12 (by decide))).trans (W19_main_arg12 m ρ c),
     (h c _ (mem_uc main_arg13 (by decide))).trans (W19_main_arg13 m ρ c),
     (h c _ (mem_uc main_arg14 (by decide))).trans (W19_main_arg14 m ρ c),
     (h c _ (mem_uc main_arg15 (by decide))).trans (W19_main_arg15 m ρ c),
     (h c _ (mem_uc main_arg16 (by decide))).trans (W19_main_arg16 m ρ c)⟩)
    (run_all m ρ)

end Cert.Kernel.Tree

end
-- ==== Proof.KIRegion0.lean ====
/-
  Region 0 of the program (the leaf level), at any contents V of the buffers when the region is entered.
  A window's block at a grid point is the part of its array the point's index map selects. The body reads every input
  block whole, and writes each of its two output blocks whole and once: the hidden states, then the memory cells, each a
  pure function of the input blocks. So after the body each input's staging buffer still holds its block and each
  output's holds that function of the input blocks; this is the step the pipeline's launch theorem asks of a body.
-/
import proofs.«167239_j63453846831535_1_alg».proof.Proof.Gen.KernelIdeal.Launch
import proofs.«167239_j63453846831535_1_alg».proof.Proof.Gen.KernelIdeal.Skeleton
import proofs.«167239_j63453846831535_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Tree

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the point fetched it or an
    earlier one did (its index has not moved since), for any proof data over these arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the point fetched it or an
    earlier one did (its index has not moved since), for any proof data over these arrays whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the point fetched it or an
    earlier one did (its index has not moved since), for any proof data over these arrays whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether the point fetched it or an
    earlier one did (its index has not moved since), for any proof data over these arrays whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, whether the point fetched it or an
    earlier one did (its index has not moved since), for any proof data over these arrays whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, whether the point fetched it or an
    earlier one did (its index has not moved since), for any proof data over these arrays whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, whether the point fetched it or an
    earlier one did (its index has not moved since), for any proof data over these arrays whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, whether the point fetched it or an
    earlier one did (its index has not moved since), for any proof data over these arrays whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, whether the point fetched it or an
    earlier one did (its index has not moved since), for any proof data over these arrays whose body leaves the block in place. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9's current staging buffer holds its block at every point, whether the point fetched it or an
    earlier one did (its index has not moved since), for any proof data over these arrays whose body leaves the block in place. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is through a buffer's whole rectangle -/

abbrev r0_S2048x300 : Rect S2048x300 := Rect.unit (s := S2048x300) ![0, 0] S2048x300.size inb_S2048x300_S2048x300_0_0
abbrev r0_S300x150 : Rect S300x150 := Rect.unit (s := S300x150) ![0, 0] S300x150.size inb_S300x150_S300x150_0_0
abbrev r0_S1x150 : Rect S1x150 := Rect.unit (s := S1x150) ![0, 0] S1x150.size inb_S1x150_S1x150_0_0
abbrev r0_S2048x150 : Rect S2048x150 := Rect.unit (s := S2048x150) ![0, 0] S2048x150.size inb_S2048x150_S2048x150_0_0

/-! ## What the body leaves in each output window's buffer -/

/-- Output window 10's staging buffer after the body (the hidden states), from the input windows' blocks. -/
def out0_10 (x0 : Vec F S2048x300 .f32) (x1 : Vec F S300x150 .f32) (x2 : Vec F S1x150 .f32) (x3 : Vec F S300x150 .f32) (x4 : Vec F S1x150 .f32) (x5 : Vec F S300x150 .f32) (x6 : Vec F S1x150 .f32) (x7 : Vec F S1x150 .f32) (x8 : Vec F S1x150 .f32) (x9 : Vec F S1x150 .f32) : Vec F S2048x150 .f32 :=
  View.canon [⟨r0_S2048x150, k0_pay2 (k0_pay4 (View.ld x0 r0_S2048x300) (View.ld x1 r0_S300x150) (View.ld x2 r0_S1x150) (View.ld x7 r0_S1x150)) (k0_pay5 (View.ld x0 r0_S2048x300) (View.ld x5 r0_S300x150) (View.ld x6 r0_S1x150) (View.ld x9 r0_S1x150)) (k0_pay6 (View.ld x0 r0_S2048x300) (View.ld x3 r0_S300x150) (View.ld x4 r0_S1x150)) (k0_pay7 (View.ld x8 r0_S1x150))⟩]

/-- Its one store is through the whole rectangle, so it covers the buffer. -/
theorem cover0_10 (p0 : Vec F S2048x150 .f32) (y : S2048x150.Idx) :
    ∃ pc ∈ ([⟨r0_S2048x150, p0⟩] : List (View.Piece (Elt F) S2048x150 .f32)), y ∈ pc.1.set :=
  View.cover_of_tiled [⟨r0_S2048x150, p0⟩] S2048x150.size (by rfl) y

/-- Output window 11's staging buffer after the body (the memory cells), from the input windows' blocks. -/
def out0_11 (x0 : Vec F S2048x300 .f32) (x1 : Vec F S300x150 .f32) (x2 : Vec F S1x150 .f32) (x3 : Vec F S300x150 .f32) (x4 : Vec F S1x150 .f32) (x5 : Vec F S300x150 .f32) (x6 : Vec F S1x150 .f32) (x7 : Vec F S1x150 .f32) (x8 : Vec F S1x150 .f32) (x9 : Vec F S1x150 .f32) : Vec F S2048x150 .f32 :=
  View.canon [⟨r0_S2048x150, k0_pay1 (k0_pay4 (View.ld x0 r0_S2048x300) (View.ld x1 r0_S300x150) (View.ld x2 r0_S1x150) (View.ld x7 r0_S1x150)) (k0_pay6 (View.ld x0 r0_S2048x300) (View.ld x3 r0_S300x150) (View.ld x4 r0_S1x150)) (k0_pay7 (View.ld x8 r0_S1x150))⟩]

/-- Its one store is through the whole rectangle, so it covers the buffer. -/
theorem cover0_11 (p0 : Vec F S2048x150 .f32) (y : S2048x150.Idx) :
    ∃ pc ∈ ([⟨r0_S2048x150, p0⟩] : List (View.Piece (Elt F) S2048x150 .f32)), y ∈ pc.1.set :=
  View.cover_of_tiled [⟨r0_S2048x150, p0⟩] S2048x150.size (by rfl) y

/-! ## The body's triple -/

set_option maxHeartbeats 4000000 in
/-- The kernel body on whole staging memrefs, the inputs' at contents xW and the outputs' at anything, runs to a
    continuation that holds the inputs' as they were and each output's at its function of the inputs'. -/
theorem sound_kernel0 (c : Dev nD) (E : Set ℕ) (i : grid0.Coords) (arg1 : Memref sig .tc .vmem S2048x300 .f32) (harg1 : arg1.IsWhole) (arg2 : Memref sig .tc .vmem S300x150 .f32) (harg2 : arg2.IsWhole) (arg3 : Memref sig .tc .vmem S1x150 .f32) (harg3 : arg3.IsWhole) (arg4 : Memref sig .tc .vmem S300x150 .f32) (harg4 : arg4.IsWhole) (arg5 : Memref sig .tc .vmem S1x150 .f32) (harg5 : arg5.IsWhole) (arg6 : Memref sig .tc .vmem S300x150 .f32) (harg6 : arg6.IsWhole) (arg7 : Memref sig .tc .vmem S1x150 .f32) (harg7 : arg7.IsWhole) (arg8 : Memref sig .tc .vmem S1x150 .f32) (harg8 : arg8.IsWhole) (arg9 : Memref sig .tc .vmem S1x150 .f32) (harg9 : arg9.IsWhole) (arg10 : Memref sig .tc .vmem S1x150 .f32) (harg10 : arg10.IsWhole) (arg11 : Memref sig .tc .vmem S2048x150 .f32) (harg11 : arg11.IsWhole) (arg12 : Memref sig .tc .vmem S2048x150 .f32) (harg12 : arg12.IsWhole)
    (x0 : Vec F S2048x300 .f32) (x1 : Vec F S300x150 .f32) (x2 : Vec F S1x150 .f32) (x3 : Vec F S300x150 .f32) (x4 : Vec F S1x150 .f32) (x5 : Vec F S300x150 .f32) (x6 : Vec F S1x150 .f32) (x7 : Vec F S1x150 .f32) (x8 : Vec F S1x150 .f32) (x9 : Vec F S1x150 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out0_10 x0 x1 x2 x3 x4 x5 x6 x7 x8 x9) ∗ owns (c : Thread nD τ) arg12 fullShare (out0_11 x0 x1 x2 x3 x4 x5 x6 x7 x8 x9)) -∗ K ⟨⟩))
      ⊢ wp frame (wpE (defs₀ (F := F)) Variants.none c none) E (cc0__leaf_kernel i arg1 harg1 arg2 harg2 arg3 harg3 arg4 harg4 arg5 harg5 arg6 harg6 arg7 harg7 arg8 harg8 arg9 harg9 arg10 harg10 arg11 harg11 arg12 harg12) K := by
  simp only [cc0__leaf_kernel_eq_skeleton]; unfold cc0__leaf_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (cover0_10 _)
  iexists _; isplitr
  swap; · iexact H11
  ipureintro
  exact View.read_writes_eq_canon _ _ _ (cover0_11 _)

/-! ## The pipeline's proof data -/

/-- The proof data of this pipeline on core c: the arrays as the region finds them; after the body at point t each
    input's buffer at its block and each output's at its function of the input blocks; nothing owed, full shares, and
    the invariant that carries only what the body does not touch. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

/-! ## The body obligation, at a generic point -/

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

set_option maxHeartbeats 4000000 in
/-- The body at any point: the inputs' memrefs hold their blocks, so the triple above applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Tree

end
-- ==== Proof.KIRegion1.lean ====
/-
  Region 1 of the program (the internal level of 16384 nodes), at any contents V of the buffers when the region is entered.
  A window's block at a grid point is the part of its array the point's index map selects. The body reads every input
  block whole, and writes each of its two output blocks whole and once: the hidden states, then the memory cells, each a
  pure function of the input blocks. So after the body each input's staging buffer still holds its block and each
  output's holds that function of the input blocks; this is the step the pipeline's launch theorem asks of a body.
-/
import proofs.«167239_j63453846831535_1_alg».proof.Proof.Gen.KernelIdeal.Launch
import proofs.«167239_j63453846831535_1_alg».proof.Proof.Gen.KernelIdeal.Skeleton
import proofs.«167239_j63453846831535_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Tree

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the point fetched it or an
    earlier one did (its index has not moved since), for any proof data over these arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether the point fetched it or an
    earlier one did (its index has not moved since), for any proof data over these arrays whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether the point fetched it or an
    earlier one did (its index has not moved since), for any proof data over these arrays whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether the point fetched it or an
    earlier one did (its index has not moved since), for any proof data over these arrays whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether the point fetched it or an
    earlier one did (its index has not moved since), for any proof data over these arrays whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, whether the point fetched it or an
    earlier one did (its index has not moved since), for any proof data over these arrays whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, whether the point fetched it or an
    earlier one did (its index has not moved since), for any proof data over these arrays whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, whether the point fetched it or an
    earlier one did (its index has not moved since), for any proof data over these arrays whose body leaves the block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, whether the point fetched it or an
    earlier one did (its index has not moved since), for any proof data over these arrays whose body leaves the block in place. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's current staging buffer holds its block at every point, whether the point fetched it or an
    earlier one did (its index has not moved since), for any proof data over these arrays whose body leaves the block in place. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-- Input window 10's current staging buffer holds its block at every point, whether the point fetched it or an
    earlier one did (its index has not moved since), for any proof data over these arrays whose body leaves the block in place. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-- Input window 11's current staging buffer holds its block at every point, whether the point fetched it or an
    earlier one did (its index has not moved since), for any proof data over these arrays whose body leaves the block in place. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

/-- Input window 12's current staging buffer holds its block at every point, whether the point fetched it or an
    earlier one did (its index has not moved since), for any proof data over these arrays whose body leaves the block in place. -/
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)

/-- Input window 13's current staging buffer holds its block at every point, whether the point fetched it or an
    earlier one did (its index has not moved since), for any proof data over these arrays whose body leaves the block in place. -/
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)

/-- Input window 14's current staging buffer holds its block at every point, whether the point fetched it or an
    earlier one did (its index has not moved since), for any proof data over these arrays whose body leaves the block in place. -/
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)

/-- Input window 15's current staging buffer holds its block at every point, whether the point fetched it or an
    earlier one did (its index has not moved since), for any proof data over these arrays whose body leaves the block in place. -/
theorem before1_15_of {c : Dev nD} (dat : Dat τ (Elt F) Unit ℕ (UR sig nD τ) ℕ cfg1 c) (hA : dat.A 15 = V c (Pipeline.arrRef spec1 15))
    (hafter : ∀ t, dat.after 15 t = iblk1 V c 15 t) (t : Fin cfg1.N) (d) : dat.before 15 t d = iblk1 V c 15 t :=
  (dat.before_in_eq_fetched 15 rfl (fun _ => rfl) (fun _ _ _ => rfl) (fun t => by rw [hafter]; unfold Dat.blockOf iblk1; rw [hA]; try rfl) t d).trans
    (by unfold Dat.fetched Dat.blockOf iblk1; rw [hA]; try rfl)

/-- Input window 16's current staging buffer holds its block at every point, whether the point fetched it or an
    earlier one did (its index has not moved since), for any proof data over these arrays whose body leaves the block in place. -/
theorem before1_16_of {c : Dev nD} (dat : Dat τ (Elt F) Unit ℕ (UR sig nD τ) ℕ cfg1 c) (hA : dat.A 16 = V c (Pipeline.arrRef spec1 16))
    (hafter : ∀ t, dat.after 16 t = iblk1 V c 16 t) (t : Fin cfg1.N) (d) : dat.before 16 t d = iblk1 V c 16 t :=
  (dat.before_in_eq_fetched 16 rfl (fun _ => rfl) (fun _ _ _ => rfl) (fun t => by rw [hafter]; unfold Dat.blockOf iblk1; rw [hA]; try rfl) t d).trans
    (by unfold Dat.fetched Dat.blockOf iblk1; rw [hA]; try rfl)

/-- Input window 17's current staging buffer holds its block at every point, whether the point fetched it or an
    earlier one did (its index has not moved since), for any proof data over these arrays whose body leaves the block in place. -/
theorem before1_17_of {c : Dev nD} (dat : Dat τ (Elt F) Unit ℕ (UR sig nD τ) ℕ cfg1 c) (hA : dat.A 17 = V c (Pipeline.arrRef spec1 17))
    (hafter : ∀ t, dat.after 17 t = iblk1 V c 17 t) (t : Fin cfg1.N) (d) : dat.before 17 t d = iblk1 V c 17 t :=
  (dat.before_in_eq_fetched 17 rfl (fun _ => rfl) (fun _ _ _ => rfl) (fun t => by rw [hafter]; unfold Dat.blockOf iblk1; rw [hA]; try rfl) t d).trans
    (by unfold Dat.fetched Dat.blockOf iblk1; rw [hA]; try rfl)

/-- Input window 18's current staging buffer holds its block at every point, whether the point fetched it or an
    earlier one did (its index has not moved since), for any proof data over these arrays whose body leaves the block in place. -/
theorem before1_18_of {c : Dev nD} (dat : Dat τ (Elt F) Unit ℕ (UR sig nD τ) ℕ cfg1 c) (hA : dat.A 18 = V c (Pipeline.arrRef spec1 18))
    (hafter : ∀ t, dat.after 18 t = iblk1 V c 18 t) (t : Fin cfg1.N) (d) : dat.before 18 t d = iblk1 V c 18 t :=
  (dat.before_in_eq_fetched 18 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is through a buffer's whole rectangle -/

abbrev r1_S512x300 : Rect S512x300 := Rect.unit (s := S512x300) ![0, 0] S512x300.size inb_S512x300_S512x300_0_0
abbrev r1_S512x4x150 : Rect S512x4x150 := Rect.unit (s := S512x4x150) ![0, 0, 0] S512x4x150.size inb_S512x4x150_S512x4x150_0_0_0
abbrev r1_S300x150 : Rect S300x150 := Rect.unit (s := S300x150) ![0, 0] S300x150.size inb_S300x150_S300x150_0_0
abbrev r1_S1x150 : Rect S1x150 := Rect.unit (s := S1x150) ![0, 0] S1x150.size inb_S1x150_S1x150_0_0
abbrev r1_S150x150 : Rect S150x150 := Rect.unit (s := S150x150) ![0, 0] S150x150.size inb_S150x150_S150x150_0_0
abbrev r1_S512x150 : Rect S512x150 := Rect.unit (s := S512x150) ![0, 0] S512x150.size inb_S512x150_S512x150_0_0

/-! ## What the body leaves in each output window's buffer -/

/-- Output window 19's staging buffer after the body (the hidden states), from the input windows' blocks. -/
def out1_19 (x0 : Vec F S512x300 .f32) (x1 : Vec F S512x4x150 .f32) (x2 : Vec F S512x4x150 .f32) (x3 : Vec F S300x150 .f32) (x4 : Vec F S1x150 .f32) (x5 : Vec F S300x150 .f32) (x6 : Vec F S1x150 .f32) (x7 : Vec F S300x150 .f32) (x8 : Vec F S1x150 .f32) (x9 : Vec F S300x150 .f32) (x10 : Vec F S1x150 .f32) (x11 : Vec F S150x150 .f32) (x12 : Vec F S1x150 .f32) (x13 : Vec F S150x150 .f32) (x14 : Vec F S1x150 .f32) (x15 : Vec F S150x150 .f32) (x16 : Vec F S1x150 .f32) (x17 : Vec F S150x150 .f32) (x18 : Vec F S1x150 .f32) : Vec F S512x150 .f32 :=
  View.canon [⟨r1_S512x150, k1_pay2 (k1_pay5 (View.ld x1 r1_S512x4x150)) (k1_pay6 (View.ld x0 r1_S512x300) (View.ld x1 r1_S512x4x150) (View.ld x2 r1_S512x4x150) (View.ld x13 r1_S150x150) (View.ld x14 r1_S1x150) (View.ld x5 r1_S300x150) (View.ld x6 r1_S1x150)) (k1_pay8 (k1_pay5 (View.ld x1 r1_S512x4x150)) (k1_pay7 (View.ld x0 r1_S512x300) (View.ld x3 r1_S300x150)) (View.ld x4 r1_S1x150) (View.ld x11 r1_S150x150) (View.ld x12 r1_S1x150)) (k1_pay9 (k1_pay4 (View.ld x0 r1_S512x300)) (k1_pay5 (View.ld x1 r1_S512x4x150)) (View.ld x9 r1_S300x150) (View.ld x10 r1_S1x150) (View.ld x17 r1_S150x150) (View.ld x18 r1_S1x150)) (k1_pay10 (k1_pay4 (View.ld x0 r1_S512x300)) (View.ld x7 r1_S300x150) (View.ld x8 r1_S1x150)) (View.ld x15 r1_S150x150) (View.ld x16 r1_S1x150)⟩]

/-- Its one store is through the whole rectangle, so it covers the buffer. -/
theorem cover1_19 (p0 : Vec F S512x150 .f32) (y : S512x150.Idx) :
    ∃ pc ∈ ([⟨r1_S512x150, p0⟩] : List (View.Piece (Elt F) S512x150 .f32)), y ∈ pc.1.set :=
  View.cover_of_tiled [⟨r1_S512x150, p0⟩] S512x150.size (by rfl) y

/-- Output window 20's staging buffer after the body (the memory cells), from the input windows' blocks. -/
def out1_20 (x0 : Vec F S512x300 .f32) (x1 : Vec F S512x4x150 .f32) (x2 : Vec F S512x4x150 .f32) (x3 : Vec F S300x150 .f32) (x4 : Vec F S1x150 .f32) (x5 : Vec F S300x150 .f32) (x6 : Vec F S1x150 .f32) (x7 : Vec F S300x150 .f32) (x8 : Vec F S1x150 .f32) (x9 : Vec F S300x150 .f32) (x10 : Vec F S1x150 .f32) (x11 : Vec F S150x150 .f32) (x12 : Vec F S1x150 .f32) (x13 : Vec F S150x150 .f32) (x14 : Vec F S1x150 .f32) (x15 : Vec F S150x150 .f32) (x16 : Vec F S1x150 .f32) (x17 : Vec F S150x150 .f32) (x18 : Vec F S1x150 .f32) : Vec F S512x150 .f32 :=
  View.canon [⟨r1_S512x150, k1_pay1 (k1_pay5 (View.ld x1 r1_S512x4x150)) (k1_pay6 (View.ld x0 r1_S512x300) (View.ld x1 r1_S512x4x150) (View.ld x2 r1_S512x4x150) (View.ld x13 r1_S150x150) (View.ld x14 r1_S1x150) (View.ld x5 r1_S300x150) (View.ld x6 r1_S1x150)) (k1_pay8 (k1_pay5 (View.ld x1 r1_S512x4x150)) (k1_pay7 (View.ld x0 r1_S512x300) (View.ld x3 r1_S300x150)) (View.ld x4 r1_S1x150) (View.ld x11 r1_S150x150) (View.ld x12 r1_S1x150)) (k1_pay10 (k1_pay4 (View.ld x0 r1_S512x300)) (View.ld x7 r1_S300x150) (View.ld x8 r1_S1x150)) (View.ld x15 r1_S150x150) (View.ld x16 r1_S1x150)⟩]

/-- Its one store is through the whole rectangle, so it covers the buffer. -/
theorem cover1_20 (p0 : Vec F S512x150 .f32) (y : S512x150.Idx) :
    ∃ pc ∈ ([⟨r1_S512x150, p0⟩] : List (View.Piece (Elt F) S512x150 .f32)), y ∈ pc.1.set :=
  View.cover_of_tiled [⟨r1_S512x150, p0⟩] S512x150.size (by rfl) y

/-! ## The body's triple -/

set_option maxHeartbeats 4000000 in
/-- The kernel body on whole staging memrefs, the inputs' at contents xW and the outputs' at anything, runs to a
    continuation that holds the inputs' as they were and each output's at its function of the inputs'. -/
theorem sound_kernel1 (c : Dev nD) (E : Set ℕ) (i : grid1.Coords) (arg1 : Memref sig .tc .vmem S512x300 .f32) (harg1 : arg1.IsWhole) (arg2 : Memref sig .tc .vmem S512x4x150 .f32) (harg2 : arg2.IsWhole) (arg3 : Memref sig .tc .vmem S512x4x150 .f32) (harg3 : arg3.IsWhole) (arg4 : Memref sig .tc .vmem S300x150 .f32) (harg4 : arg4.IsWhole) (arg5 : Memref sig .tc .vmem S1x150 .f32) (harg5 : arg5.IsWhole) (arg6 : Memref sig .tc .vmem S300x150 .f32) (harg6 : arg6.IsWhole) (arg7 : Memref sig .tc .vmem S1x150 .f32) (harg7 : arg7.IsWhole) (arg8 : Memref sig .tc .vmem S300x150 .f32) (harg8 : arg8.IsWhole) (arg9 : Memref sig .tc .vmem S1x150 .f32) (harg9 : arg9.IsWhole) (arg10 : Memref sig .tc .vmem S300x150 .f32) (harg10 : arg10.IsWhole) (arg11 : Memref sig .tc .vmem S1x150 .f32) (harg11 : arg11.IsWhole) (arg12 : Memref sig .tc .vmem S150x150 .f32) (harg12 : arg12.IsWhole) (arg13 : Memref sig .tc .vmem S1x150 .f32) (harg13 : arg13.IsWhole) (arg14 : Memref sig .tc .vmem S150x150 .f32) (harg14 : arg14.IsWhole) (arg15 : Memref sig .tc .vmem S1x150 .f32) (harg15 : arg15.IsWhole) (arg16 : Memref sig .tc .vmem S150x150 .f32) (harg16 : arg16.IsWhole) (arg17 : Memref sig .tc .vmem S1x150 .f32) (harg17 : arg17.IsWhole) (arg18 : Memref sig .tc .vmem S150x150 .f32) (harg18 : arg18.IsWhole) (arg19 : Memref sig .tc .vmem S1x150 .f32) (harg19 : arg19.IsWhole) (arg20 : Memref sig .tc .vmem S512x150 .f32) (harg20 : arg20.IsWhole) (arg21 : Memref sig .tc .vmem S512x150 .f32) (harg21 : arg21.IsWhole)
    (x0 : Vec F S512x300 .f32) (x1 : Vec F S512x4x150 .f32) (x2 : Vec F S512x4x150 .f32) (x3 : Vec F S300x150 .f32) (x4 : Vec F S1x150 .f32) (x5 : Vec F S300x150 .f32) (x6 : Vec F S1x150 .f32) (x7 : Vec F S300x150 .f32) (x8 : Vec F S1x150 .f32) (x9 : Vec F S300x150 .f32) (x10 : Vec F S1x150 .f32) (x11 : Vec F S150x150 .f32) (x12 : Vec F S1x150 .f32) (x13 : Vec F S150x150 .f32) (x14 : Vec F S1x150 .f32) (x15 : Vec F S150x150 .f32) (x16 : Vec F S1x150 .f32) (x17 : Vec F S150x150 .f32) (x18 : Vec F S1x150 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare (out1_19 x0 x1 x2 x3 x4 x5 x6 x7 x8 x9 x10 x11 x12 x13 x14 x15 x16 x17 x18) ∗ owns (c : Thread nD τ) arg21 fullShare (out1_20 x0 x1 x2 x3 x4 x5 x6 x7 x8 x9 x10 x11 x12 x13 x14 x15 x16 x17 x18)) -∗ K ⟨⟩))
      ⊢ wp frame (wpE (defs₀ (F := F)) Variants.none c none) E (cc1__internal_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc1__internal_kernel_eq_skeleton]; unfold cc1__internal_kernel_skel
  simp only [k1_part1_eq_skeleton]; unfold k1_part1_skel
  simp only [k1_part2_eq_skeleton]; unfold k1_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, Hk⟩
  subst hf0 hf1 hf2 hf3 hf4 hf5 hf6 hf7 hf8 hf9 hf10 hf11 hf12 hf13 hf14 hf15 hf16 hf17 hf18
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists _; isplitr
    swap; · iexact H19
    ipureintro
    exact View.read_writes_eq_canon _ _ _ (cover1_19 _)
  iexists _; isplitr
  swap; · iexact H20
  ipureintro
  exact View.read_writes_eq_canon _ _ _ (cover1_20 _)

/-! ## The pipeline's proof data -/

/-- The proof data of this pipeline on core c: the arrays as the region finds them; after the body at point t each
    input's buffer at its block and each output's at its function of the input blocks; nothing owed, full shares, and
    the invariant that carries only what the body does not touch. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => iblk1 V c 17 t
    | ⟨18, _⟩ => iblk1 V c 18 t
    | ⟨19, _⟩ => out1_19 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t)
    | ⟨20, _⟩ => out1_20 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t)
    | ⟨n + 21, h⟩ => absurd h (Nat.not_lt.mpr (Nat.le_add_left 21 n))
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = iblk1 V c 15 t := by dsimp only [dat1]
theorem after1_16 (c : Dev nD) (t : Fin cfg1.N) : (dat1 V c).after 16 t = iblk1 V c 16 t := by dsimp only [dat1]
theorem after1_17 (c : Dev nD) (t : Fin cfg1.N) : (dat1 V c).after 17 t = iblk1 V c 17 t := by dsimp only [dat1]
theorem after1_18 (c : Dev nD) (t : Fin cfg1.N) : (dat1 V c).after 18 t = iblk1 V c 18 t := by dsimp only [dat1]
theorem after1_19 (c : Dev nD) (t : Fin cfg1.N) : (dat1 V c).after 19 t = out1_19 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) := by dsimp only [dat1]
theorem after1_20 (c : Dev nD) (t : Fin cfg1.N) : (dat1 V c).after 20 t = out1_20 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d
theorem before1_15 (c : Dev nD) (t : Fin cfg1.N) (d) : (dat1 V c).before 15 t d = iblk1 V c 15 t :=
  before1_15_of V (dat1 V c) (A_eq1 V c 15) (after1_15 V c) t d
theorem before1_16 (c : Dev nD) (t : Fin cfg1.N) (d) : (dat1 V c).before 16 t d = iblk1 V c 16 t :=
  before1_16_of V (dat1 V c) (A_eq1 V c 16) (after1_16 V c) t d
theorem before1_17 (c : Dev nD) (t : Fin cfg1.N) (d) : (dat1 V c).before 17 t d = iblk1 V c 17 t :=
  before1_17_of V (dat1 V c) (A_eq1 V c 17) (after1_17 V c) t d
theorem before1_18 (c : Dev nD) (t : Fin cfg1.N) (d) : (dat1 V c).before 18 t d = iblk1 V c 18 t :=
  before1_18_of V (dat1 V c) (A_eq1 V c 18) (after1_18 V c) t d

/-! ## The body obligation, at a generic point -/

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d))
    ∗ (∃ d, owns (c : Thread nD τ) (st1_17 t) fullShare ((dat1 V c).before 17 t d))
    ∗ (∃ d, owns (c : Thread nD τ) (st1_18 t) fullShare ((dat1 V c).before 18 t d))
    ∗ (∃ d, owns (c : Thread nD τ) (st1_19 t) fullShare ((dat1 V c).before 19 t d))
    ∗ (∃ d, owns (c : Thread nD τ) (st1_20 t) fullShare ((dat1 V c).before 20 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t)
    ∗ owns (c : Thread nD τ) (st1_17 t) fullShare ((dat1 V c).after 17 t)
    ∗ owns (c : Thread nD τ) (st1_18 t) fullShare ((dat1 V c).after 18 t)
    ∗ owns (c : Thread nD τ) (st1_19 t) fullShare ((dat1 V c).after 19 t)
    ∗ owns (c : Thread nD τ) (st1_20 t) fullShare ((dat1 V c).after 20 t))

set_option maxHeartbeats 4000000 in
/-- The body at any point: the inputs' memrefs hold their blocks, so the triple above applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15, before1_16, before1_17, before1_18]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17, after1_18, after1_19, after1_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (sound_kernel1 c Set.univ _ _ _ _ _ _ _ _ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Tree

end
-- ==== Proof.KIRegion2.lean ====
/-
  Region 2 of the program (the internal level of 4096 nodes), at any contents V of the buffers when the region is entered.
  A window's block at a grid point is the part of its array the point's index map selects. The body reads every input
  block whole, and writes each of its two output blocks whole and once: the hidden states, then the memory cells, each a
  pure function of the input blocks. So after the body each input's staging buffer still holds its block and each
  output's holds that function of the input blocks; this is the step the pipeline's launch theorem asks of a body.
-/
import proofs.«167239_j63453846831535_1_alg».proof.Proof.Gen.KernelIdeal.Launch
import proofs.«167239_j63453846831535_1_alg».proof.Proof.Gen.KernelIdeal.Skeleton
import proofs.«167239_j63453846831535_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Tree

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether the point fetched it or an
    earlier one did (its index has not moved since), for any proof data over these arrays whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether the point fetched it or an
    earlier one did (its index has not moved since), for any proof data over these arrays whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether the point fetched it or an
    earlier one did (its index has not moved since), for any proof data over these arrays whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, whether the point fetched it or an
    earlier one did (its index has not moved since), for any proof data over these arrays whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, whether the point fetched it or an
    earlier one did (its index has not moved since), for any proof data over these arrays whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, whether the point fetched it or an
    earlier one did (its index has not moved since), for any proof data over these arrays whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, whether the point fetched it or an
    earlier one did (its index has not moved since), for any proof data over these arrays whose body leaves the block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, whether the point fetched it or an
    earlier one did (its index has not moved since), for any proof data over these arrays whose body leaves the block in place. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, whether the point fetched it or an
    earlier one did (its index has not moved since), for any proof data over these arrays whose body leaves the block in place. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- Input window 9's current staging buffer holds its block at every point, whether the point fetched it or an
    earlier one did (its index has not moved since), for any proof data over these arrays whose body leaves the block in place. -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-- Input window 10's current staging buffer holds its block at every point, whether the point fetched it or an
    earlier one did (its index has not moved since), for any proof data over these arrays whose body leaves the block in place. -/
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)

/-- Input window 11's current staging buffer holds its block at every point, whether the point fetched it or an
    earlier one did (its index has not moved since), for any proof data over these arrays whose body leaves the block in place. -/
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)

/-- Input window 12's current staging buffer holds its block at every point, whether the point fetched it or an
    earlier one did (its index has not moved since), for any proof data over these arrays whose body leaves the block in place. -/
theorem before2_12_of {c : Dev nD} (dat : Dat τ (Elt F) Unit ℕ (UR sig nD τ) ℕ cfg2 c) (hA : dat.A 12 = V c (Pipeline.arrRef spec2 12))
    (hafter : ∀ t, dat.after 12 t = iblk2 V c 12 t) (t : Fin cfg2.N) (d) : dat.before 12 t d = iblk2 V c 12 t :=
  (dat.before_in_eq_fetched 12 rfl (fun _ => rfl) (fun _ _ _ => rfl) (fun t => by rw [hafter]; unfold Dat.blockOf iblk2; rw [hA]; try rfl) t d).trans
    (by unfold Dat.fetched Dat.blockOf iblk2; rw [hA]; try rfl)

/-- Input window 13's current staging buffer holds its block at every point, whether the point fetched it or an
    earlier one did (its index has not moved since), for any proof data over these arrays whose body leaves the block in place. -/
theorem before2_13_of {c : Dev nD} (dat : Dat τ (Elt F) Unit ℕ (UR sig nD τ) ℕ cfg2 c) (hA : dat.A 13 = V c (Pipeline.arrRef spec2 13))
    (hafter : ∀ t, dat.after 13 t = iblk2 V c 13 t) (t : Fin cfg2.N) (d) : dat.before 13 t d = iblk2 V c 13 t :=
  (dat.before_in_eq_fetched 13 rfl (fun _ => rfl) (fun _ _ _ => rfl) (fun t => by rw [hafter]; unfold Dat.blockOf iblk2; rw [hA]; try rfl) t d).trans
    (by unfold Dat.fetched Dat.blockOf iblk2; rw [hA]; try rfl)

/-- Input window 14's current staging buffer holds its block at every point, whether the point fetched it or an
    earlier one did (its index has not moved since), for any proof data over these arrays whose body leaves the block in place. -/
theorem before2_14_of {c : Dev nD} (dat : Dat τ (Elt F) Unit ℕ (UR sig nD τ) ℕ cfg2 c) (hA : dat.A 14 = V c (Pipeline.arrRef spec2 14))
    (hafter : ∀ t, dat.after 14 t = iblk2 V c 14 t) (t : Fin cfg2.N) (d) : dat.before 14 t d = iblk2 V c 14 t :=
  (dat.before_in_eq_fetched 14 rfl (fun _ => rfl) (fun _ _ _ => rfl) (fun t => by rw [hafter]; unfold Dat.blockOf iblk2; rw [hA]; try rfl) t d).trans
    (by unfold Dat.fetched Dat.blockOf iblk2; rw [hA]; try rfl)

/-- Input window 15's current staging buffer holds its block at every point, whether the point fetched it or an
    earlier one did (its index has not moved since), for any proof data over these arrays whose body leaves the block in place. -/
theorem before2_15_of {c : Dev nD} (dat : Dat τ (Elt F) Unit ℕ (UR sig nD τ) ℕ cfg2 c) (hA : dat.A 15 = V c (Pipeline.arrRef spec2 15))
    (hafter : ∀ t, dat.after 15 t = iblk2 V c 15 t) (t : Fin cfg2.N) (d) : dat.before 15 t d = iblk2 V c 15 t :=
  (dat.before_in_eq_fetched 15 rfl (fun _ => rfl) (fun _ _ _ => rfl) (fun t => by rw [hafter]; unfold Dat.blockOf iblk2; rw [hA]; try rfl) t d).trans
    (by unfold Dat.fetched Dat.blockOf iblk2; rw [hA]; try rfl)

/-- Input window 16's current staging buffer holds its block at every point, whether the point fetched it or an
    earlier one did (its index has not moved since), for any proof data over these arrays whose body leaves the block in place. -/
theorem before2_16_of {c : Dev nD} (dat : Dat τ (Elt F) Unit ℕ (UR sig nD τ) ℕ cfg2 c) (hA : dat.A 16 = V c (Pipeline.arrRef spec2 16))
    (hafter : ∀ t, dat.after 16 t = iblk2 V c 16 t) (t : Fin cfg2.N) (d) : dat.before 16 t d = iblk2 V c 16 t :=
  (dat.before_in_eq_fetched 16 rfl (fun _ => rfl) (fun _ _ _ => rfl) (fun t => by rw [hafter]; unfold Dat.blockOf iblk2; rw [hA]; try rfl) t d).trans
    (by unfold Dat.fetched Dat.blockOf iblk2; rw [hA]; try rfl)

/-- Input window 17's current staging buffer holds its block at every point, whether the point fetched it or an
    earlier one did (its index has not moved since), for any proof data over these arrays whose body leaves the block in place. -/
theorem before2_17_of {c : Dev nD} (dat : Dat τ (Elt F) Unit ℕ (UR sig nD τ) ℕ cfg2 c) (hA : dat.A 17 = V c (Pipeline.arrRef spec2 17))
    (hafter : ∀ t, dat.after 17 t = iblk2 V c 17 t) (t : Fin cfg2.N) (d) : dat.before 17 t d = iblk2 V c 17 t :=
  (dat.before_in_eq_fetched 17 rfl (fun _ => rfl) (fun _ _ _ => rfl) (fun t => by rw [hafter]; unfold Dat.blockOf iblk2; rw [hA]; try rfl) t d).trans
    (by unfold Dat.fetched Dat.blockOf iblk2; rw [hA]; try rfl)

/-- Input window 18's current staging buffer holds its block at every point, whether the point fetched it or an
    earlier one did (its index has not moved since), for any proof data over these arrays whose body leaves the block in place. -/
theorem before2_18_of {c : Dev nD} (dat : Dat τ (Elt F) Unit ℕ (UR sig nD τ) ℕ cfg2 c) (hA : dat.A 18 = V c (Pipeline.arrRef spec2 18))
    (hafter : ∀ t, dat.after 18 t = iblk2 V c 18 t) (t : Fin cfg2.N) (d) : dat.before 18 t d = iblk2 V c 18 t :=
  (dat.before_in_eq_fetched 18 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is through a buffer's whole rectangle -/

abbrev r2_S512x300 : Rect S512x300 := Rect.unit (s := S512x300) ![0, 0] S512x300.size inb_S512x300_S512x300_0_0
abbrev r2_S512x4x150 : Rect S512x4x150 := Rect.unit (s := S512x4x150) ![0, 0, 0] S512x4x150.size inb_S512x4x150_S512x4x150_0_0_0
abbrev r2_S300x150 : Rect S300x150 := Rect.unit (s := S300x150) ![0, 0] S300x150.size inb_S300x150_S300x150_0_0
abbrev r2_S1x150 : Rect S1x150 := Rect.unit (s := S1x150) ![0, 0] S1x150.size inb_S1x150_S1x150_0_0
abbrev r2_S150x150 : Rect S150x150 := Rect.unit (s := S150x150) ![0, 0] S150x150.size inb_S150x150_S150x150_0_0
abbrev r2_S512x150 : Rect S512x150 := Rect.unit (s := S512x150) ![0, 0] S512x150.size inb_S512x150_S512x150_0_0

/-! ## What the body leaves in each output window's buffer -/

/-- Output window 19's staging buffer after the body (the hidden states), from the input windows' blocks. -/
def out2_19 (x0 : Vec F S512x300 .f32) (x1 : Vec F S512x4x150 .f32) (x2 : Vec F S512x4x150 .f32) (x3 : Vec F S300x150 .f32) (x4 : Vec F S1x150 .f32) (x5 : Vec F S300x150 .f32) (x6 : Vec F S1x150 .f32) (x7 : Vec F S300x150 .f32) (x8 : Vec F S1x150 .f32) (x9 : Vec F S300x150 .f32) (x10 : Vec F S1x150 .f32) (x11 : Vec F S150x150 .f32) (x12 : Vec F S1x150 .f32) (x13 : Vec F S150x150 .f32) (x14 : Vec F S1x150 .f32) (x15 : Vec F S150x150 .f32) (x16 : Vec F S1x150 .f32) (x17 : Vec F S150x150 .f32) (x18 : Vec F S1x150 .f32) : Vec F S512x150 .f32 :=
  View.canon [⟨r2_S512x150, k2_pay2 (k2_pay5 (View.ld x1 r2_S512x4x150)) (k2_pay6 (View.ld x0 r2_S512x300) (View.ld x1 r2_S512x4x150) (View.ld x2 r2_S512x4x150) (View.ld x13 r2_S150x150) (View.ld x14 r2_S1x150) (View.ld x5 r2_S300x150) (View.ld x6 r2_S1x150)) (k2_pay8 (k2_pay5 (View.ld x1 r2_S512x4x150)) (k2_pay7 (View.ld x0 r2_S512x300) (View.ld x3 r2_S300x150)) (View.ld x4 r2_S1x150) (View.ld x11 r2_S150x150) (View.ld x12 r2_S1x150)) (k2_pay9 (k2_pay4 (View.ld x0 r2_S512x300)) (k2_pay5 (View.ld x1 r2_S512x4x150)) (View.ld x9 r2_S300x150) (View.ld x10 r2_S1x150) (View.ld x17 r2_S150x150) (View.ld x18 r2_S1x150)) (k2_pay10 (k2_pay4 (View.ld x0 r2_S512x300)) (View.ld x7 r2_S300x150) (View.ld x8 r2_S1x150)) (View.ld x15 r2_S150x150) (View.ld x16 r2_S1x150)⟩]

/-- Its one store is through the whole rectangle, so it covers the buffer. -/
theorem cover2_19 (p0 : Vec F S512x150 .f32) (y : S512x150.Idx) :
    ∃ pc ∈ ([⟨r2_S512x150, p0⟩] : List (View.Piece (Elt F) S512x150 .f32)), y ∈ pc.1.set :=
  View.cover_of_tiled [⟨r2_S512x150, p0⟩] S512x150.size (by rfl) y

/-- Output window 20's staging buffer after the body (the memory cells), from the input windows' blocks. -/
def out2_20 (x0 : Vec F S512x300 .f32) (x1 : Vec F S512x4x150 .f32) (x2 : Vec F S512x4x150 .f32) (x3 : Vec F S300x150 .f32) (x4 : Vec F S1x150 .f32) (x5 : Vec F S300x150 .f32) (x6 : Vec F S1x150 .f32) (x7 : Vec F S300x150 .f32) (x8 : Vec F S1x150 .f32) (x9 : Vec F S300x150 .f32) (x10 : Vec F S1x150 .f32) (x11 : Vec F S150x150 .f32) (x12 : Vec F S1x150 .f32) (x13 : Vec F S150x150 .f32) (x14 : Vec F S1x150 .f32) (x15 : Vec F S150x150 .f32) (x16 : Vec F S1x150 .f32) (x17 : Vec F S150x150 .f32) (x18 : Vec F S1x150 .f32) : Vec F S512x150 .f32 :=
  View.canon [⟨r2_S512x150, k2_pay1 (k2_pay5 (View.ld x1 r2_S512x4x150)) (k2_pay6 (View.ld x0 r2_S512x300) (View.ld x1 r2_S512x4x150) (View.ld x2 r2_S512x4x150) (View.ld x13 r2_S150x150) (View.ld x14 r2_S1x150) (View.ld x5 r2_S300x150) (View.ld x6 r2_S1x150)) (k2_pay8 (k2_pay5 (View.ld x1 r2_S512x4x150)) (k2_pay7 (View.ld x0 r2_S512x300) (View.ld x3 r2_S300x150)) (View.ld x4 r2_S1x150) (View.ld x11 r2_S150x150) (View.ld x12 r2_S1x150)) (k2_pay10 (k2_pay4 (View.ld x0 r2_S512x300)) (View.ld x7 r2_S300x150) (View.ld x8 r2_S1x150)) (View.ld x15 r2_S150x150) (View.ld x16 r2_S1x150)⟩]

/-- Its one store is through the whole rectangle, so it covers the buffer. -/
theorem cover2_20 (p0 : Vec F S512x150 .f32) (y : S512x150.Idx) :
    ∃ pc ∈ ([⟨r2_S512x150, p0⟩] : List (View.Piece (Elt F) S512x150 .f32)), y ∈ pc.1.set :=
  View.cover_of_tiled [⟨r2_S512x150, p0⟩] S512x150.size (by rfl) y

/-! ## The body's triple -/

set_option maxHeartbeats 4000000 in
/-- The kernel body on whole staging memrefs, the inputs' at contents xW and the outputs' at anything, runs to a
    continuation that holds the inputs' as they were and each output's at its function of the inputs'. -/
theorem sound_kernel2 (c : Dev nD) (E : Set ℕ) (i : grid2.Coords) (arg1 : Memref sig .tc .vmem S512x300 .f32) (harg1 : arg1.IsWhole) (arg2 : Memref sig .tc .vmem S512x4x150 .f32) (harg2 : arg2.IsWhole) (arg3 : Memref sig .tc .vmem S512x4x150 .f32) (harg3 : arg3.IsWhole) (arg4 : Memref sig .tc .vmem S300x150 .f32) (harg4 : arg4.IsWhole) (arg5 : Memref sig .tc .vmem S1x150 .f32) (harg5 : arg5.IsWhole) (arg6 : Memref sig .tc .vmem S300x150 .f32) (harg6 : arg6.IsWhole) (arg7 : Memref sig .tc .vmem S1x150 .f32) (harg7 : arg7.IsWhole) (arg8 : Memref sig .tc .vmem S300x150 .f32) (harg8 : arg8.IsWhole) (arg9 : Memref sig .tc .vmem S1x150 .f32) (harg9 : arg9.IsWhole) (arg10 : Memref sig .tc .vmem S300x150 .f32) (harg10 : arg10.IsWhole) (arg11 : Memref sig .tc .vmem S1x150 .f32) (harg11 : arg11.IsWhole) (arg12 : Memref sig .tc .vmem S150x150 .f32) (harg12 : arg12.IsWhole) (arg13 : Memref sig .tc .vmem S1x150 .f32) (harg13 : arg13.IsWhole) (arg14 : Memref sig .tc .vmem S150x150 .f32) (harg14 : arg14.IsWhole) (arg15 : Memref sig .tc .vmem S1x150 .f32) (harg15 : arg15.IsWhole) (arg16 : Memref sig .tc .vmem S150x150 .f32) (harg16 : arg16.IsWhole) (arg17 : Memref sig .tc .vmem S1x150 .f32) (harg17 : arg17.IsWhole) (arg18 : Memref sig .tc .vmem S150x150 .f32) (harg18 : arg18.IsWhole) (arg19 : Memref sig .tc .vmem S1x150 .f32) (harg19 : arg19.IsWhole) (arg20 : Memref sig .tc .vmem S512x150 .f32) (harg20 : arg20.IsWhole) (arg21 : Memref sig .tc .vmem S512x150 .f32) (harg21 : arg21.IsWhole)
    (x0 : Vec F S512x300 .f32) (x1 : Vec F S512x4x150 .f32) (x2 : Vec F S512x4x150 .f32) (x3 : Vec F S300x150 .f32) (x4 : Vec F S1x150 .f32) (x5 : Vec F S300x150 .f32) (x6 : Vec F S1x150 .f32) (x7 : Vec F S300x150 .f32) (x8 : Vec F S1x150 .f32) (x9 : Vec F S300x150 .f32) (x10 : Vec F S1x150 .f32) (x11 : Vec F S150x150 .f32) (x12 : Vec F S1x150 .f32) (x13 : Vec F S150x150 .f32) (x14 : Vec F S1x150 .f32) (x15 : Vec F S150x150 .f32) (x16 : Vec F S1x150 .f32) (x17 : Vec F S150x150 .f32) (x18 : Vec F S1x150 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare (out2_19 x0 x1 x2 x3 x4 x5 x6 x7 x8 x9 x10 x11 x12 x13 x14 x15 x16 x17 x18) ∗ owns (c : Thread nD τ) arg21 fullShare (out2_20 x0 x1 x2 x3 x4 x5 x6 x7 x8 x9 x10 x11 x12 x13 x14 x15 x16 x17 x18)) -∗ K ⟨⟩))
      ⊢ wp frame (wpE (defs₀ (F := F)) Variants.none c none) E (cc2__internal_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc2__internal_kernel_eq_skeleton]; unfold cc2__internal_kernel_skel
  simp only [k2_part1_eq_skeleton]; unfold k2_part1_skel
  simp only [k2_part2_eq_skeleton]; unfold k2_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, Hk⟩
  subst hf0 hf1 hf2 hf3 hf4 hf5 hf6 hf7 hf8 hf9 hf10 hf11 hf12 hf13 hf14 hf15 hf16 hf17 hf18
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists _; isplitr
    swap; · iexact H19
    ipureintro
    exact View.read_writes_eq_canon _ _ _ (cover2_19 _)
  iexists _; isplitr
  swap; · iexact H20
  ipureintro
  exact View.read_writes_eq_canon _ _ _ (cover2_20 _)

/-! ## The pipeline's proof data -/

/-- The proof data of this pipeline on core c: the arrays as the region finds them; after the body at point t each
    input's buffer at its block and each output's at its function of the input blocks; nothing owed, full shares, and
    the invariant that carries only what the body does not touch. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => iblk2 V c 14 t
    | ⟨15, _⟩ => iblk2 V c 15 t
    | ⟨16, _⟩ => iblk2 V c 16 t
    | ⟨17, _⟩ => iblk2 V c 17 t
    | ⟨18, _⟩ => iblk2 V c 18 t
    | ⟨19, _⟩ => out2_19 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t)
    | ⟨20, _⟩ => out2_20 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t)
    | ⟨n + 21, h⟩ => absurd h (Nat.not_lt.mpr (Nat.le_add_left 21 n))
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = iblk2 V c 12 t := by dsimp only [dat2]
theorem after2_13 (c : Dev nD) (t : Fin cfg2.N) : (dat2 V c).after 13 t = iblk2 V c 13 t := by dsimp only [dat2]
theorem after2_14 (c : Dev nD) (t : Fin cfg2.N) : (dat2 V c).after 14 t = iblk2 V c 14 t := by dsimp only [dat2]
theorem after2_15 (c : Dev nD) (t : Fin cfg2.N) : (dat2 V c).after 15 t = iblk2 V c 15 t := by dsimp only [dat2]
theorem after2_16 (c : Dev nD) (t : Fin cfg2.N) : (dat2 V c).after 16 t = iblk2 V c 16 t := by dsimp only [dat2]
theorem after2_17 (c : Dev nD) (t : Fin cfg2.N) : (dat2 V c).after 17 t = iblk2 V c 17 t := by dsimp only [dat2]
theorem after2_18 (c : Dev nD) (t : Fin cfg2.N) : (dat2 V c).after 18 t = iblk2 V c 18 t := by dsimp only [dat2]
theorem after2_19 (c : Dev nD) (t : Fin cfg2.N) : (dat2 V c).after 19 t = out2_19 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) := by dsimp only [dat2]
theorem after2_20 (c : Dev nD) (t : Fin cfg2.N) : (dat2 V c).after 20 t = out2_20 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d
theorem before2_11 (c : Dev nD) (t : Fin cfg2.N) (d) : (dat2 V c).before 11 t d = iblk2 V c 11 t :=
  before2_11_of V (dat2 V c) (A_eq2 V c 11) (after2_11 V c) t d
theorem before2_12 (c : Dev nD) (t : Fin cfg2.N) (d) : (dat2 V c).before 12 t d = iblk2 V c 12 t :=
  before2_12_of V (dat2 V c) (A_eq2 V c 12) (after2_12 V c) t d
theorem before2_13 (c : Dev nD) (t : Fin cfg2.N) (d) : (dat2 V c).before 13 t d = iblk2 V c 13 t :=
  before2_13_of V (dat2 V c) (A_eq2 V c 13) (after2_13 V c) t d
theorem before2_14 (c : Dev nD) (t : Fin cfg2.N) (d) : (dat2 V c).before 14 t d = iblk2 V c 14 t :=
  before2_14_of V (dat2 V c) (A_eq2 V c 14) (after2_14 V c) t d
theorem before2_15 (c : Dev nD) (t : Fin cfg2.N) (d) : (dat2 V c).before 15 t d = iblk2 V c 15 t :=
  before2_15_of V (dat2 V c) (A_eq2 V c 15) (after2_15 V c) t d
theorem before2_16 (c : Dev nD) (t : Fin cfg2.N) (d) : (dat2 V c).before 16 t d = iblk2 V c 16 t :=
  before2_16_of V (dat2 V c) (A_eq2 V c 16) (after2_16 V c) t d
theorem before2_17 (c : Dev nD) (t : Fin cfg2.N) (d) : (dat2 V c).before 17 t d = iblk2 V c 17 t :=
  before2_17_of V (dat2 V c) (A_eq2 V c 17) (after2_17 V c) t d
theorem before2_18 (c : Dev nD) (t : Fin cfg2.N) (d) : (dat2 V c).before 18 t d = iblk2 V c 18 t :=
  before2_18_of V (dat2 V c) (A_eq2 V c 18) (after2_18 V c) t d

/-! ## The body obligation, at a generic point -/

/-- What the body is called with at point t, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d))
    ∗ (∃ d, owns (c : Thread nD τ) (st2_13 t) fullShare ((dat2 V c).before 13 t d))
    ∗ (∃ d, owns (c : Thread nD τ) (st2_14 t) fullShare ((dat2 V c).before 14 t d))
    ∗ (∃ d, owns (c : Thread nD τ) (st2_15 t) fullShare ((dat2 V c).before 15 t d))
    ∗ (∃ d, owns (c : Thread nD τ) (st2_16 t) fullShare ((dat2 V c).before 16 t d))
    ∗ (∃ d, owns (c : Thread nD τ) (st2_17 t) fullShare ((dat2 V c).before 17 t d))
    ∗ (∃ d, owns (c : Thread nD τ) (st2_18 t) fullShare ((dat2 V c).before 18 t d))
    ∗ (∃ d, owns (c : Thread nD τ) (st2_19 t) fullShare ((dat2 V c).before 19 t d))
    ∗ (∃ d, owns (c : Thread nD τ) (st2_20 t) fullShare ((dat2 V c).before 20 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t)
    ∗ owns (c : Thread nD τ) (st2_13 t) fullShare ((dat2 V c).after 13 t)
    ∗ owns (c : Thread nD τ) (st2_14 t) fullShare ((dat2 V c).after 14 t)
    ∗ owns (c : Thread nD τ) (st2_15 t) fullShare ((dat2 V c).after 15 t)
    ∗ owns (c : Thread nD τ) (st2_16 t) fullShare ((dat2 V c).after 16 t)
    ∗ owns (c : Thread nD τ) (st2_17 t) fullShare ((dat2 V c).after 17 t)
    ∗ owns (c : Thread nD τ) (st2_18 t) fullShare ((dat2 V c).after 18 t)
    ∗ owns (c : Thread nD τ) (st2_19 t) fullShare ((dat2 V c).after 19 t)
    ∗ owns (c : Thread nD τ) (st2_20 t) fullShare ((dat2 V c).after 20 t))

set_option maxHeartbeats 4000000 in
/-- The body at any point: the inputs' memrefs hold their blocks, so the triple above applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11, before2_12, before2_13, before2_14, before2_15, before2_16, before2_17, before2_18]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12, after2_13, after2_14, after2_15, after2_16, after2_17, after2_18, after2_19, after2_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (sound_kernel2 c Set.univ _ _ _ _ _ _ _ _ _ _ _ _ _ _ _ _ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Tree

end
-- ==== Proof.KIRegion3.lean ====
/-
  Region 3 of the program (the internal level of 1024 nodes), at any contents V of the buffers when the region is entered.
  A window's block at a grid point is the part of its array the point's index map selects. The body reads every input
  block whole, and writes each of its two output blocks whole and once: the hidden states, then the memory cells, each a
  pure function of the input blocks. So after the body each input's staging buffer still holds its block and each
  output's holds that function of the input blocks; this is the step the pipeline's launch theorem asks of a body.
-/
import proofs.«167239_j63453846831535_1_alg».proof.Proof.Gen.KernelIdeal.Launch
import proofs.«167239_j63453846831535_1_alg».proof.Proof.Gen.KernelIdeal.Skeleton
import proofs.«167239_j63453846831535_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Tree

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether the point fetched it or an
    earlier one did (its index has not moved since), for any proof data over these arrays whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, whether the point fetched it or an
    earlier one did (its index has not moved since), for any proof data over these arrays whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, whether the point fetched it or an
    earlier one did (its index has not moved since), for any proof data over these arrays whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, whether the point fetched it or an
    earlier one did (its index has not moved since), for any proof data over these arrays whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, whether the point fetched it or an
    earlier one did (its index has not moved since), for any proof data over these arrays whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, whether the point fetched it or an
    earlier one did (its index has not moved since), for any proof data over these arrays whose body leaves the block in place. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, whether the point fetched it or an
    earlier one did (its index has not moved since), for any proof data over these arrays whose body leaves the block in place. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7's current staging buffer holds its block at every point, whether the point fetched it or an
    earlier one did (its index has not moved since), for any proof data over these arrays whose body leaves the block in place. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- Input window 8's current staging buffer holds its block at every point, whether the point fetched it or an
    earlier one did (its index has not moved since), for any proof data over these arrays whose body leaves the block in place. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-- Input window 9's current staging buffer holds its block at every point, whether the point fetched it or an
    earlier one did (its index has not moved since), for any proof data over these arrays whose body leaves the block in place. -/
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)

/-- Input window 10's current staging buffer holds its block at every point, whether the point fetched it or an
    earlier one did (its index has not moved since), for any proof data over these arrays whose body leaves the block in place. -/
theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)

/-- Input window 11's current staging buffer holds its block at every point, whether the point fetched it or an
    earlier one did (its index has not moved since), for any proof data over these arrays whose body leaves the block in place. -/
theorem before3_11_of {c : Dev nD} (dat : Dat τ (Elt F) Unit ℕ (UR sig nD τ) ℕ cfg3 c) (hA : dat.A 11 = V c (Pipeline.arrRef spec3 11))
    (hafter : ∀ t, dat.after 11 t = iblk3 V c 11 t) (t : Fin cfg3.N) (d) : dat.before 11 t d = iblk3 V c 11 t :=
  (dat.before_in_eq_fetched 11 rfl (fun _ => rfl) (fun _ _ _ => rfl) (fun t => by rw [hafter]; unfold Dat.blockOf iblk3; rw [hA]; try rfl) t d).trans
    (by unfold Dat.fetched Dat.blockOf iblk3; rw [hA]; try rfl)

/-- Input window 12's current staging buffer holds its block at every point, whether the point fetched it or an
    earlier one did (its index has not moved since), for any proof data over these arrays whose body leaves the block in place. -/
theorem before3_12_of {c : Dev nD} (dat : Dat τ (Elt F) Unit ℕ (UR sig nD τ) ℕ cfg3 c) (hA : dat.A 12 = V c (Pipeline.arrRef spec3 12))
    (hafter : ∀ t, dat.after 12 t = iblk3 V c 12 t) (t : Fin cfg3.N) (d) : dat.before 12 t d = iblk3 V c 12 t :=
  (dat.before_in_eq_fetched 12 rfl (fun _ => rfl) (fun _ _ _ => rfl) (fun t => by rw [hafter]; unfold Dat.blockOf iblk3; rw [hA]; try rfl) t d).trans
    (by unfold Dat.fetched Dat.blockOf iblk3; rw [hA]; try rfl)

/-- Input window 13's current staging buffer holds its block at every point, whether the point fetched it or an
    earlier one did (its index has not moved since), for any proof data over these arrays whose body leaves the block in place. -/
theorem before3_13_of {c : Dev nD} (dat : Dat τ (Elt F) Unit ℕ (UR sig nD τ) ℕ cfg3 c) (hA : dat.A 13 = V c (Pipeline.arrRef spec3 13))
    (hafter : ∀ t, dat.after 13 t = iblk3 V c 13 t) (t : Fin cfg3.N) (d) : dat.before 13 t d = iblk3 V c 13 t :=
  (dat.before_in_eq_fetched 13 rfl (fun _ => rfl) (fun _ _ _ => rfl) (fun t => by rw [hafter]; unfold Dat.blockOf iblk3; rw [hA]; try rfl) t d).trans
    (by unfold Dat.fetched Dat.blockOf iblk3; rw [hA]; try rfl)

/-- Input window 14's current staging buffer holds its block at every point, whether the point fetched it or an
    earlier one did (its index has not moved since), for any proof data over these arrays whose body leaves the block in place. -/
theorem before3_14_of {c : Dev nD} (dat : Dat τ (Elt F) Unit ℕ (UR sig nD τ) ℕ cfg3 c) (hA : dat.A 14 = V c (Pipeline.arrRef spec3 14))
    (hafter : ∀ t, dat.after 14 t = iblk3 V c 14 t) (t : Fin cfg3.N) (d) : dat.before 14 t d = iblk3 V c 14 t :=
  (dat.before_in_eq_fetched 14 rfl (fun _ => rfl) (fun _ _ _ => rfl) (fun t => by rw [hafter]; unfold Dat.blockOf iblk3; rw [hA]; try rfl) t d).trans
    (by unfold Dat.fetched Dat.blockOf iblk3; rw [hA]; try rfl)

/-- Input window 15's current staging buffer holds its block at every point, whether the point fetched it or an
    earlier one did (its index has not moved since), for any proof data over these arrays whose body leaves the block in place. -/
theorem before3_15_of {c : Dev nD} (dat : Dat τ (Elt F) Unit ℕ (UR sig nD τ) ℕ cfg3 c) (hA : dat.A 15 = V c (Pipeline.arrRef spec3 15))
    (hafter : ∀ t, dat.after 15 t = iblk3 V c 15 t) (t : Fin cfg3.N) (d) : dat.before 15 t d = iblk3 V c 15 t :=
  (dat.before_in_eq_fetched 15 rfl (fun _ => rfl) (fun _ _ _ => rfl) (fun t => by rw [hafter]; unfold Dat.blockOf iblk3; rw [hA]; try rfl) t d).trans
    (by unfold Dat.fetched Dat.blockOf iblk3; rw [hA]; try rfl)

/-- Input window 16's current staging buffer holds its block at every point, whether the point fetched it or an
    earlier one did (its index has not moved since), for any proof data over these arrays whose body leaves the block in place. -/
theorem before3_16_of {c : Dev nD} (dat : Dat τ (Elt F) Unit ℕ (UR sig nD τ) ℕ cfg3 c) (hA : dat.A 16 = V c (Pipeline.arrRef spec3 16))
    (hafter : ∀ t, dat.after 16 t = iblk3 V c 16 t) (t : Fin cfg3.N) (d) : dat.before 16 t d = iblk3 V c 16 t :=
  (dat.before_in_eq_fetched 16 rfl (fun _ => rfl) (fun _ _ _ => rfl) (fun t => by rw [hafter]; unfold Dat.blockOf iblk3; rw [hA]; try rfl) t d).trans
    (by unfold Dat.fetched Dat.blockOf iblk3; rw [hA]; try rfl)

/-- Input window 17's current staging buffer holds its block at every point, whether the point fetched it or an
    earlier one did (its index has not moved since), for any proof data over these arrays whose body leaves the block in place. -/
theorem before3_17_of {c : Dev nD} (dat : Dat τ (Elt F) Unit ℕ (UR sig nD τ) ℕ cfg3 c) (hA : dat.A 17 = V c (Pipeline.arrRef spec3 17))
    (hafter : ∀ t, dat.after 17 t = iblk3 V c 17 t) (t : Fin cfg3.N) (d) : dat.before 17 t d = iblk3 V c 17 t :=
  (dat.before_in_eq_fetched 17 rfl (fun _ => rfl) (fun _ _ _ => rfl) (fun t => by rw [hafter]; unfold Dat.blockOf iblk3; rw [hA]; try rfl) t d).trans
    (by unfold Dat.fetched Dat.blockOf iblk3; rw [hA]; try rfl)

/-- Input window 18's current staging buffer holds its block at every point, whether the point fetched it or an
    earlier one did (its index has not moved since), for any proof data over these arrays whose body leaves the block in place. -/
theorem before3_18_of {c : Dev nD} (dat : Dat τ (Elt F) Unit ℕ (UR sig nD τ) ℕ cfg3 c) (hA : dat.A 18 = V c (Pipeline.arrRef spec3 18))
    (hafter : ∀ t, dat.after 18 t = iblk3 V c 18 t) (t : Fin cfg3.N) (d) : dat.before 18 t d = iblk3 V c 18 t :=
  (dat.before_in_eq_fetched 18 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and store is through a buffer's whole rectangle -/

abbrev r3_S512x300 : Rect S512x300 := Rect.unit (s := S512x300) ![0, 0] S512x300.size inb_S512x300_S512x300_0_0
abbrev r3_S512x4x150 : Rect S512x4x150 := Rect.unit (s := S512x4x150) ![0, 0, 0] S512x4x150.size inb_S512x4x150_S512x4x150_0_0_0
abbrev r3_S300x150 : Rect S300x150 := Rect.unit (s := S300x150) ![0, 0] S300x150.size inb_S300x150_S300x150_0_0
abbrev r3_S1x150 : Rect S1x150 := Rect.unit (s := S1x150) ![0, 0] S1x150.size inb_S1x150_S1x150_0_0
abbrev r3_S150x150 : Rect S150x150 := Rect.unit (s := S150x150) ![0, 0] S150x150.size inb_S150x150_S150x150_0_0
abbrev r3_S512x150 : Rect S512x150 := Rect.unit (s := S512x150) ![0, 0] S512x150.size inb_S512x150_S512x150_0_0

/-! ## What the body leaves in each output window's buffer -/

/-- Output window 19's staging buffer after the body (the hidden states), from the input windows' blocks. -/
def out3_19 (x0 : Vec F S512x300 .f32) (x1 : Vec F S512x4x150 .f32) (x2 : Vec F S512x4x150 .f32) (x3 : Vec F S300x150 .f32) (x4 : Vec F S1x150 .f32) (x5 : Vec F S300x150 .f32) (x6 : Vec F S1x150 .f32) (x7 : Vec F S300x150 .f32) (x8 : Vec F S1x150 .f32) (x9 : Vec F S300x150 .f32) (x10 : Vec F S1x150 .f32) (x11 : Vec F S150x150 .f32) (x12 : Vec F S1x150 .f32) (x13 : Vec F S150x150 .f32) (x14 : Vec F S1x150 .f32) (x15 : Vec F S150x150 .f32) (x16 : Vec F S1x150 .f32) (x17 : Vec F S150x150 .f32) (x18 : Vec F S1x150 .f32) : Vec F S512x150 .f32 :=
  View.canon [⟨r3_S512x150, k3_pay2 (k3_pay5 (View.ld x1 r3_S512x4x150)) (k3_pay6 (View.ld x0 r3_S512x300) (View.ld x1 r3_S512x4x150) (View.ld x2 r3_S512x4x150) (View.ld x13 r3_S150x150) (View.ld x14 r3_S1x150) (View.ld x5 r3_S300x150) (View.ld x6 r3_S1x150)) (k3_pay8 (k3_pay5 (View.ld x1 r3_S512x4x150)) (k3_pay7 (View.ld x0 r3_S512x300) (View.ld x3 r3_S300x150)) (View.ld x4 r3_S1x150) (View.ld x11 r3_S150x150) (View.ld x12 r3_S1x150)) (k3_pay9 (k3_pay4 (View.ld x0 r3_S512x300)) (k3_pay5 (View.ld x1 r3_S512x4x150)) (View.ld x9 r3_S300x150) (View.ld x10 r3_S1x150) (View.ld x17 r3_S150x150) (View.ld x18 r3_S1x150)) (k3_pay10 (k3_pay4 (View.ld x0 r3_S512x300)) (View.ld x7 r3_S300x150) (View.ld x8 r3_S1x150)) (View.ld x15 r3_S150x150) (View.ld x16 r3_S1x150)⟩]

/-- Its one store is through the whole rectangle, so it covers the buffer. -/
theorem cover3_19 (p0 : Vec F S512x150 .f32) (y : S512x150.Idx) :
    ∃ pc ∈ ([⟨r3_S512x150, p0⟩] : List (View.Piece (Elt F) S512x150 .f32)), y ∈ pc.1.set :=
  View.cover_of_tiled [⟨r3_S512x150, p0⟩] S512x150.size (by rfl) y

/-- Output window 20's staging buffer after the body (the memory cells), from the input windows' blocks. -/
def out3_20 (x0 : Vec F S512x300 .f32) (x1 : Vec F S512x4x150 .f32) (x2 : Vec F S512x4x150 .f32) (x3 : Vec F S300x150 .f32) (x4 : Vec F S1x150 .f32) (x5 : Vec F S300x150 .f32) (x6 : Vec F S1x150 .f32) (x7 : Vec F S300x150 .f32) (x8 : Vec F S1x150 .f32) (x9 : Vec F S300x150 .f32) (x10 : Vec F S1x150 .f32) (x11 : Vec F S150x150 .f32) (x12 : Vec F S1x150 .f32) (x13 : Vec F S150x150 .f32) (x14 : Vec F S1x150 .f32) (x15 : Vec F S150x150 .f32) (x16 : Vec F S1x150 .f32) (x17 : Vec F S150x150 .f32) (x18 : Vec F S1x150 .f32) : Vec F S512x150 .f32 :=
  View.canon [⟨r3_S512x150, k3_pay1 (k3_pay5 (View.ld x1 r3_S512x4x150)) (k3_pay6 (View.ld x0 r3_S512x300) (View.ld x1 r3_S512x4x150) (View.ld x2 r3_S512x4x150) (View.ld x13 r3_S150x150) (View.ld x14 r3_S1x150) (View.ld x5 r3_S300x150) (View.ld x6 r3_S1x150)) (k3_pay8 (k3_pay5 (View.ld x1 r3_S512x4x150)) (k3_pay7 (View.ld x0 r3_S512x300) (View.ld x3 r3_S300x150)) (View.ld x4 r3_S1x150) (View.ld x11 r3_S150x150) (View.ld x12 r3_S1x150)) (k3_pay10 (k3_pay4 (View.ld x0 r3_S512x300)) (View.ld x7 r3_S300x150) (View.ld x8 r3_S1x150)) (View.ld x15 r3_S150x150) (View.ld x16 r3_S1x150)⟩]

/-- Its one store is through the whole rectangle, so it covers the buffer. -/
theorem cover3_20 (p0 : Vec F S512x150 .f32) (y : S512x150.Idx) :
    ∃ pc ∈ ([⟨r3_S512x150, p0⟩] : List (View.Piece (Elt F) S512x150 .f32)), y ∈ pc.1.set :=
  View.cover_of_tiled [⟨r3_S512x150, p0⟩] S512x150.size (by rfl) y

/-! ## The body's triple -/

set_option maxHeartbeats 4000000 in
/-- The kernel body on whole staging memrefs, the inputs' at contents xW and the outputs' at anything, runs to a
    continuation that holds the inputs' as they were and each output's at its function of the inputs'. -/
theorem sound_kernel3 (c : Dev nD) (E : Set ℕ) (i : grid3.Coords) (arg1 : Memref sig .tc .vmem S512x300 .f32) (harg1 : arg1.IsWhole) (arg2 : Memref sig .tc .vmem S512x4x150 .f32) (harg2 : arg2.IsWhole) (arg3 : Memref sig .tc .vmem S512x4x150 .f32) (harg3 : arg3.IsWhole) (arg4 : Memref sig .tc .vmem S300x150 .f32) (harg4 : arg4.IsWhole) (arg5 : Memref sig .tc .vmem S1x150 .f32) (harg5 : arg5.IsWhole) (arg6 : Memref sig .tc .vmem S300x150 .f32) (harg6 : arg6.IsWhole) (arg7 : Memref sig .tc .vmem S1x150 .f32) (harg7 : arg7.IsWhole) (arg8 : Memref sig .tc .vmem S300x150 .f32) (harg8 : arg8.IsWhole) (arg9 : Memref sig .tc .vmem S1x150 .f32) (harg9 : arg9.IsWhole) (arg10 : Memref sig .tc .vmem S300x150 .f32) (harg10 : arg10.IsWhole) (arg11 : Memref sig .tc .vmem S1x150 .f32) (harg11 : arg11.IsWhole) (arg12 : Memref sig .tc .vmem S150x150 .f32) (harg12 : arg12.IsWhole) (arg13 : Memref sig .tc .vmem S1x150 .f32) (harg13 : arg13.IsWhole) (arg14 : Memref sig .tc .vmem S150x150 .f32) (harg14 : arg14.IsWhole) (arg15 : Memref sig .tc .vmem S1x150 .f32) (harg15 : arg15.IsWhole) (arg16 : Memref sig .tc .vmem S150x150 .f32) (harg16 : arg16.IsWhole) (arg17 : Memref sig .tc .vmem S1x150 .f32) (harg17 : arg17.IsWhole) (arg18 : Memref sig .tc .vmem S150x150 .f32) (harg18 : arg18.IsWhole) (arg19 : Memref sig .tc .vmem S1x150 .f32) (harg19 : arg19.IsWhole) (arg20 : Memref sig .tc .vmem S512x150 .f32) (harg20 : arg20.IsWhole) (arg21 : Memref sig .tc .vmem S512x150 .f32) (harg21 : arg21.IsWhole)
    (x0 : Vec F S512x300 .f32) (x1 : Vec F S512x4x150 .f32) (x2 : Vec F S512x4x150 .f32) (x3 : Vec F S300x150 .f32) (x4 : Vec F S1x150 .f32) (x5 : Vec F S300x150 .f32) (x6 : Vec F S1x150 .f32) (x7 : Vec F S300x150 .f32) (x8 : Vec F S1x150 .f32) (x9 : Vec F S300x150 .f32) (x10 : Vec F S1x150 .f32) (x11 : Vec F S150x150 .f32) (x12 : Vec F S1x150 .f32) (x13 : Vec F S150x150 .f32) (x14 : Vec F S1x150 .f32) (x15 : Vec F S150x150 .f32) (x16 : Vec F S1x150 .f32) (x17 : Vec F S150x150 .f32) (x18 : Vec F S1x150 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare (out3_19 x0 x1 x2 x3 x4 x5 x6 x7 x8 x9 x10 x11 x12 x13 x14 x15 x16 x17 x18) ∗ owns (c : Thread nD τ) arg21 fullShare (out3_20 x0 x1 x2 x3 x4 x5 x6 x7 x8 x9 x10 x11 x12 x13 x14 x15 x16 x17 x18)) -∗ K ⟨⟩))
      ⊢ wp frame (wpE (defs₀ (F := F)) Variants.none c none) E (cc3__internal_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc3__internal_kernel_eq_skeleton]; unfold cc3__internal_kernel_skel
  simp only [k3_part1_eq_skeleton]; unfold k3_part1_skel
  simp only [k3_part2_eq_skeleton]; unfold k3_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, Hk⟩
  subst hf0 hf1 hf2 hf3 hf4 hf5 hf6 hf7 hf8 hf9 hf10 hf11 hf12 hf13 hf14 hf15 hf16 hf17 hf18
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists _; isplitr
    swap; · iexact H19
    ipureintro
    exact View.read_writes_eq_canon _ _ _ (cover3_19 _)
  iexists _; isplitr
  swap; · iexact H20
  ipureintro
  exact View.read_writes_eq_canon _ _ _ (cover3_20 _)

/-! ## The pipeline's proof data -/

/-- The proof data of this pipeline on core c: the arrays as the region finds them; after the body at point t each
    input's buffer at its block and each output's at its function of the input blocks; nothing owed, full shares, and
    the invariant that carries only what the body does not touch. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => iblk3 V c 12 t
    | ⟨13, _⟩ => iblk3 V c 13 t
    | ⟨14, _⟩ => iblk3 V c 14 t
    | ⟨15, _⟩ => iblk3 V c 15 t
    | ⟨16, _⟩ => iblk3 V c 16 t
    | ⟨17, _⟩ => iblk3 V c 17 t
    | ⟨18, _⟩ => iblk3 V c 18 t
    | ⟨19, _⟩ => out3_19 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) (iblk3 V c 17 t) (iblk3 V c 18 t)
    | ⟨20, _⟩ => out3_20 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) (iblk3 V c 17 t) (iblk3 V c 18 t)
    | ⟨n + 21, h⟩ => absurd h (Nat.not_lt.mpr (Nat.le_add_left 21 n))
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = iblk3 V c 11 t := by dsimp only [dat3]
theorem after3_12 (c : Dev nD) (t : Fin cfg3.N) : (dat3 V c).after 12 t = iblk3 V c 12 t := by dsimp only [dat3]
theorem after3_13 (c : Dev nD) (t : Fin cfg3.N) : (dat3 V c).after 13 t = iblk3 V c 13 t := by dsimp only [dat3]
theorem after3_14 (c : Dev nD) (t : Fin cfg3.N) : (dat3 V c).after 14 t = iblk3 V c 14 t := by dsimp only [dat3]
theorem after3_15 (c : Dev nD) (t : Fin cfg3.N) : (dat3 V c).after 15 t = iblk3 V c 15 t := by dsimp only [dat3]
theorem after3_16 (c : Dev nD) (t : Fin cfg3.N) : (dat3 V c).after 16 t = iblk3 V c 16 t := by dsimp only [dat3]
theorem after3_17 (c : Dev nD) (t : Fin cfg3.N) : (dat3 V c).after 17 t = iblk3 V c 17 t := by dsimp only [dat3]
theorem after3_18 (c : Dev nD) (t : Fin cfg3.N) : (dat3 V c).after 18 t = iblk3 V c 18 t := by dsimp only [dat3]
theorem after3_19 (c : Dev nD) (t : Fin cfg3.N) : (dat3 V c).after 19 t = out3_19 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) (iblk3 V c 17 t) (iblk3 V c 18 t) := by dsimp only [dat3]
theorem after3_20 (c : Dev nD) (t : Fin cfg3.N) : (dat3 V c).after 20 t = out3_20 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) (iblk3 V c 17 t) (iblk3 V c 18 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d
theorem before3_11 (c : Dev nD) (t : Fin cfg3.N) (d) : (dat3 V c).before 11 t d = iblk3 V c 11 t :=
  before3_11_of V (dat3 V c) (A_eq3 V c 11) (after3_11 V c) t d
theorem before3_12 (c : Dev nD) (t : Fin cfg3.N) (d) : (dat3 V c).before 12 t d = iblk3 V c 12 t :=
  before3_12_of V (dat3 V c) (A_eq3 V c 12) (after3_12 V c) t d
theorem before3_13 (c : Dev nD) (t : Fin cfg3.N) (d) : (dat3 V c).before 13 t d = iblk3 V c 13 t :=
  before3_13_of V (dat3 V c) (A_eq3 V c 13) (after3_13 V c) t d
theorem before3_14 (c : Dev nD) (t : Fin cfg3.N) (d) : (dat3 V c).before 14 t d = iblk3 V c 14 t :=
  before3_14_of V (dat3 V c) (A_eq3 V c 14) (after3_14 V c) t d
theorem before3_15 (c : Dev nD) (t : Fin cfg3.N) (d) : (dat3 V c).before 15 t d = iblk3 V c 15 t :=
  before3_15_of V (dat3 V c) (A_eq3 V c 15) (after3_15 V c) t d
theorem before3_16 (c : Dev nD) (t : Fin cfg3.N) (d) : (dat3 V c).before 16 t d = iblk3 V c 16 t :=
  before3_16_of V (dat3 V c) (A_eq3 V c 16) (after3_16 V c) t d
theorem before3_17 (c : Dev nD) (t : Fin cfg3.N) (d) : (dat3 V c).before 17 t d = iblk3 V c 17 t :=
  before3_17_of V (dat3 V c) (A_eq3 V c 17) (after3_17 V c) t d
theorem before3_18 (c : Dev nD) (t : Fin cfg3.N) (d) : (dat3 V c).before 18 t d = iblk3 V c 18 t :=
  before3_18_of V (dat3 V c) (A_eq3 V c 18) (after3_18 V c) t d

/-! ## The body obligation, at a generic point -/

/-- What the body is called with at point t, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d))
    ∗ (∃ d, owns (c : Thread nD τ) (st3_12 t) fullShare ((dat3 V c).before 12 t d))
    ∗ (∃ d, owns (c : Thread nD τ) (st3_13 t) fullShare ((dat3 V c).before 13 t d))
    ∗ (∃ d, owns (c : Thread nD τ) (st3_14 t) fullShare ((dat3 V c).before 14 t d))
    ∗ (∃ d, owns (c : Thread nD τ) (st3_15 t) fullShare ((dat3 V c).before 15 t d))
    ∗ (∃ d, owns (c : Thread nD τ) (st3_16 t) fullShare ((dat3 V c).before 16 t d))
    ∗ (∃ d, owns (c : Thread nD τ) (st3_17 t) fullShare ((dat3 V c).before 17 t d))
    ∗ (∃ d, owns (c : Thread nD τ) (st3_18 t) fullShare ((dat3 V c).before 18 t d))
    ∗ (∃ d, owns (c : Thread nD τ) (st3_19 t) fullShare ((dat3 V c).before 19 t d))
    ∗ (∃ d, owns (c : Thread nD τ) (st3_20 t) fullShare ((dat3 V c).before 20 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t)
    ∗ owns (c : Thread nD τ) (st3_12 t) fullShare ((dat3 V c).after 12 t)
    ∗ owns (c : Thread nD τ) (st3_13 t) fullShare ((dat3 V c).after 13 t)
    ∗ owns (c : Thread nD τ) (st3_14 t) fullShare ((dat3 V c).after 14 t)
    ∗ owns (c : Thread nD τ) (st3_15 t) fullShare ((dat3 V c).after 15 t)
    ∗ owns (c : Thread nD τ) (st3_16 t) fullShare ((dat3 V c).after 16 t)
    ∗ owns (c : Thread nD τ) (st3_17 t) fullShare ((dat3 V c).after 17 t)
    ∗ owns (c : Thread nD τ) (st3_18 t) fullShare ((dat3 V c).after 18 t)
    ∗ owns (c : Thread nD τ) (st3_19 t) fullShare ((dat3 V c).after 19 t)
    ∗ owns (c : Thread nD τ) (st3_20 t) fullShare ((dat3 V c).after 20 t))

set_option maxHeartbeats 4000000 in
/-- The body at any point: the inputs' memrefs hold their blocks, so the triple above applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10, before3_11, before3_12, before3_13, before3_14, before3_15, before3_16, before3_17, before3_18]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11, after3_12, after3_13, after3_14, after3_15, after3_16, after3_17, after3_18, after3_19, after3_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (sound_kernel3 c Set.univ _ _ _ _ _ _ _ _ _ _ _ _ _ _ _ _ _ _ _ _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) (iblk3 V c 17 t) (iblk3 V c 18 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Tree

end
-- ==== Proof.KIRegion4.lean ====
/-
  Region 4 of the program (the internal level of 256 nodes), at any contents V of the buffers when the region is entered.
  A window's block at a grid point is the part of its array the point's index map selects. The body reads every input
  block whole, and writes each of its two output blocks whole and once: the hidden states, then the memory cells, each a
  pure function of the input blocks. So after the body each input's staging buffer still holds its block and each
  output's holds that function of the input blocks; this is the step the pipeline's launch theorem asks of a body.
-/
import proofs.«167239_j63453846831535_1_alg».proof.Proof.Gen.KernelIdeal.Launch
import proofs.«167239_j63453846831535_1_alg».proof.Proof.Gen.KernelIdeal.Skeleton
import proofs.«167239_j63453846831535_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Tree

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, whether the point fetched it or an
    earlier one did (its index has not moved since), for any proof data over these arrays whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, whether the point fetched it or an
    earlier one did (its index has not moved since), for any proof data over these arrays whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, whether the point fetched it or an
    earlier one did (its index has not moved since), for any proof data over these arrays whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, whether the point fetched it or an
    earlier one did (its index has not moved since), for any proof data over these arrays whose body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, whether the point fetched it or an
    earlier one did (its index has not moved since), for any proof data over these arrays whose body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, whether the point fetched it or an
    earlier one did (its index has not moved since), for any proof data over these arrays whose body leaves the block in place. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's current staging buffer holds its block at every point, whether the point fetched it or an
    earlier one did (its index has not moved since), for any proof data over these arrays whose body leaves the block in place. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-- Input window 7's current staging buffer holds its block at every point, whether the point fetched it or an
    earlier one did (its index has not moved since), for any proof data over these arrays whose body leaves the block in place. -/
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

/-- Input window 8's current staging buffer holds its block at every point, whether the point fetched it or an
    earlier one did (its index has not moved since), for any proof data over these arrays whose body leaves the block in place. -/
theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)

/-- Input window 9's current staging buffer holds its block at every point, whether the point fetched it or an
    earlier one did (its index has not moved since), for any proof data over these arrays whose body leaves the block in place. -/
theorem before4_9_of {c : Dev nD} (dat : Dat τ (Elt F) Unit ℕ (UR sig nD τ) ℕ cfg4 c) (hA : dat.A 9 = V c (Pipeline.arrRef spec4 9))
    (hafter : ∀ t, dat.after 9 t = iblk4 V c 9 t) (t : Fin cfg4.N) (d) : dat.before 9 t d = iblk4 V c 9 t :=
  (dat.before_in_eq_fetched 9 rfl (fun _ => rfl) (fun _ _ _ => rfl) (fun t => by rw [hafter]; unfold Dat.blockOf iblk4; rw [hA]; try rfl) t d).trans
    (by unfold Dat.fetched Dat.blockOf iblk4; rw [hA]; try rfl)

/-- Input window 10's current staging buffer holds its block at every point, whether the point fetched it or an
    earlier one did (its index has not moved since), for any proof data over these arrays whose body leaves the block in place. -/
theorem before4_10_of {c : Dev nD} (dat : Dat τ (Elt F) Unit ℕ (UR sig nD τ) ℕ cfg4 c) (hA : dat.A 10 = V c (Pipeline.arrRef spec4 10))
    (hafter : ∀ t, dat.after 10 t = iblk4 V c 10 t) (t : Fin cfg4.N) (d) : dat.before 10 t d = iblk4 V c 10 t :=
  (dat.before_in_eq_fetched 10 rfl (fun _ => rfl) (fun _ _ _ => rfl) (fun t => by rw [hafter]; unfold Dat.blockOf iblk4; rw [hA]; try rfl) t d).trans
    (by unfold Dat.fetched Dat.blockOf iblk4; rw [hA]; try rfl)

/-- Input window 11's current staging buffer holds its block at every point, whether the point fetched it or an
    earlier one did (its index has not moved since), for any proof data over these arrays whose body leaves the block in place. -/
theorem before4_11_of {c : Dev nD} (dat : Dat τ (Elt F) Unit ℕ (UR sig nD τ) ℕ cfg4 c) (hA : dat.A 11 = V c (Pipeline.arrRef spec4 11))
    (hafter : ∀ t, dat.after 11 t = iblk4 V c 11 t) (t : Fin cfg4.N) (d) : dat.before 11 t d = iblk4 V c 11 t :=
  (dat.before_in_eq_fetched 11 rfl (fun _ => rfl) (fun _ _ _ => rfl) (fun t => by rw [hafter]; unfold Dat.blockOf iblk4; rw [hA]; try rfl) t d).trans
    (by unfold Dat.fetched Dat.blockOf iblk4; rw [hA]; try rfl)

/-- Input window 12's current staging buffer holds its block at every point, whether the point fetched it or an
    earlier one did (its index has not moved since), for any proof data over these arrays whose body leaves the block in place. -/
theorem before4_12_of {c : Dev nD} (dat : Dat τ (Elt F) Unit ℕ (UR sig nD τ) ℕ cfg4 c) (hA : dat.A 12 = V c (Pipeline.arrRef spec4 12))
    (hafter : ∀ t, dat.after 12 t = iblk4 V c 12 t) (t : Fin cfg4.N) (d) : dat.before 12 t d = iblk4 V c 12 t :=
  (dat.before_in_eq_fetched 12 rfl (fun _ => rfl) (fun _ _ _ => rfl) (fun t => by rw [hafter]; unfold Dat.blockOf iblk4; rw [hA]; try rfl) t d).trans
    (by unfold Dat.fetched Dat.blockOf iblk4; rw [hA]; try rfl)

/-- Input window 13's current staging buffer holds its block at every point, whether the point fetched it or an
    earlier one did (its index has not moved since), for any proof data over these arrays whose body leaves the block in place. -/
theorem before4_13_of {c : Dev nD} (dat : Dat τ (Elt F) Unit ℕ (UR sig nD τ) ℕ cfg4 c) (hA : dat.A 13 = V c (Pipeline.arrRef spec4 13))
    (hafter : ∀ t, dat.after 13 t = iblk4 V c 13 t) (t : Fin cfg4.N) (d) : dat.before 13 t d = iblk4 V c 13 t :=
  (dat.before_in_eq_fetched 13 rfl (fun _ => rfl) (fun _ _ _ => rfl) (fun t => by rw [hafter]; unfold Dat.blockOf iblk4; rw [hA]; try rfl) t d).trans
    (by unfold Dat.fetched Dat.blockOf iblk4; rw [hA]; try rfl)

/-- Input window 14's current staging buffer holds its block at every point, whether the point fetched it or an
    earlier one did (its index has not moved since), for any proof data over these arrays whose body leaves the block in place. -/
theorem before4_14_of {c : Dev nD} (dat : Dat τ (Elt F) Unit ℕ (UR sig nD τ) ℕ cfg4 c) (hA : dat.A 14 = V c (Pipeline.arrRef spec4 14))
    (hafter : ∀ t, dat.after 14 t = iblk4 V c 14 t) (t : Fin cfg4.N) (d) : dat.before 14 t d = iblk4 V c 14 t :=
  (dat.before_in_eq_fetched 14 rfl (fun _ => rfl) (fun _ _ _ => rfl) (fun t => by rw [hafter]; unfold Dat.blockOf iblk4; rw [hA]; try rfl) t d).trans
    (by unfold Dat.fetched Dat.blockOf iblk4; rw [hA]; try rfl)

/-- Input window 15's current staging buffer holds its block at every point, whether the point fetched it or an
    earlier one did (its index has not moved since), for any proof data over these arrays whose body leaves the block in place. -/
theorem before4_15_of {c : Dev nD} (dat : Dat τ (Elt F) Unit ℕ (UR sig nD τ) ℕ cfg4 c) (hA : dat.A 15 = V c (Pipeline.arrRef spec4 15))
    (hafter : ∀ t, dat.after 15 t = iblk4 V c 15 t) (t : Fin cfg4.N) (d) : dat.before 15 t d = iblk4 V c 15 t :=
  (dat.before_in_eq_fetched 15 rfl (fun _ => rfl) (fun _ _ _ => rfl) (fun t => by rw [hafter]; unfold Dat.blockOf iblk4; rw [hA]; try rfl) t d).trans
    (by unfold Dat.fetched Dat.blockOf iblk4; rw [hA]; try rfl)

/-- Input window 16's current staging buffer holds its block at every point, whether the point fetched it or an
    earlier one did (its index has not moved since), for any proof data over these arrays whose body leaves the block in place. -/
theorem before4_16_of {c : Dev nD} (dat : Dat τ (Elt F) Unit ℕ (UR sig nD τ) ℕ cfg4 c) (hA : dat.A 16 = V c (Pipeline.arrRef spec4 16))
    (hafter : ∀ t, dat.after 16 t = iblk4 V c 16 t) (t : Fin cfg4.N) (d) : dat.before 16 t d = iblk4 V c 16 t :=
  (dat.before_in_eq_fetched 16 rfl (fun _ => rfl) (fun _ _ _ => rfl) (fun t => by rw [hafter]; unfold Dat.blockOf iblk4; rw [hA]; try rfl) t d).trans
    (by unfold Dat.fetched Dat.blockOf iblk4; rw [hA]; try rfl)

/-- Input window 17's current staging buffer holds its block at every point, whether the point fetched it or an
    earlier one did (its index has not moved since), for any proof data over these arrays whose body leaves the block in place. -/
theorem before4_17_of {c : Dev nD} (dat : Dat τ (Elt F) Unit ℕ (UR sig nD τ) ℕ cfg4 c) (hA : dat.A 17 = V c (Pipeline.arrRef spec4 17))
    (hafter : ∀ t, dat.after 17 t = iblk4 V c 17 t) (t : Fin cfg4.N) (d) : dat.before 17 t d = iblk4 V c 17 t :=
  (dat.before_in_eq_fetched 17 rfl (fun _ => rfl) (fun _ _ _ => rfl) (fun t => by rw [hafter]; unfold Dat.blockOf iblk4; rw [hA]; try rfl) t d).trans
    (by unfold Dat.fetched Dat.blockOf iblk4; rw [hA]; try rfl)

/-- Input window 18's current staging buffer holds its block at every point, whether the point fetched it or an
    earlier one did (its index has not moved since), for any proof data over these arrays whose body leaves the block in place. -/
theorem before4_18_of {c : Dev nD} (dat : Dat τ (Elt F) Unit ℕ (UR sig nD τ) ℕ cfg4 c) (hA : dat.A 18 = V c (Pipeline.arrRef spec4 18))
    (hafter : ∀ t, dat.after 18 t = iblk4 V c 18 t) (t : Fin cfg4.N) (d) : dat.before 18 t d = iblk4 V c 18 t :=
  (dat.before_in_eq_fetched 18 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and store is through a buffer's whole rectangle -/

abbrev r4_S256x300 : Rect S256x300 := Rect.unit (s := S256x300) ![0, 0] S256x300.size inb_S256x300_S256x300_0_0
abbrev r4_S256x4x150 : Rect S256x4x150 := Rect.unit (s := S256x4x150) ![0, 0, 0] S256x4x150.size inb_S256x4x150_S256x4x150_0_0_0
abbrev r4_S300x150 : Rect S300x150 := Rect.unit (s := S300x150) ![0, 0] S300x150.size inb_S300x150_S300x150_0_0
abbrev r4_S1x150 : Rect S1x150 := Rect.unit (s := S1x150) ![0, 0] S1x150.size inb_S1x150_S1x150_0_0
abbrev r4_S150x150 : Rect S150x150 := Rect.unit (s := S150x150) ![0, 0] S150x150.size inb_S150x150_S150x150_0_0
abbrev r4_S256x150 : Rect S256x150 := Rect.unit (s := S256x150) ![0, 0] S256x150.size inb_S256x150_S256x150_0_0

/-! ## What the body leaves in each output window's buffer -/

/-- Output window 19's staging buffer after the body (the hidden states), from the input windows' blocks. -/
def out4_19 (x0 : Vec F S256x300 .f32) (x1 : Vec F S256x4x150 .f32) (x2 : Vec F S256x4x150 .f32) (x3 : Vec F S300x150 .f32) (x4 : Vec F S1x150 .f32) (x5 : Vec F S300x150 .f32) (x6 : Vec F S1x150 .f32) (x7 : Vec F S300x150 .f32) (x8 : Vec F S1x150 .f32) (x9 : Vec F S300x150 .f32) (x10 : Vec F S1x150 .f32) (x11 : Vec F S150x150 .f32) (x12 : Vec F S1x150 .f32) (x13 : Vec F S150x150 .f32) (x14 : Vec F S1x150 .f32) (x15 : Vec F S150x150 .f32) (x16 : Vec F S1x150 .f32) (x17 : Vec F S150x150 .f32) (x18 : Vec F S1x150 .f32) : Vec F S256x150 .f32 :=
  View.canon [⟨r4_S256x150, k4_pay2 (k4_pay5 (View.ld x1 r4_S256x4x150)) (k4_pay6 (View.ld x0 r4_S256x300) (View.ld x1 r4_S256x4x150) (View.ld x2 r4_S256x4x150) (View.ld x13 r4_S150x150) (View.ld x14 r4_S1x150) (View.ld x5 r4_S300x150) (View.ld x6 r4_S1x150)) (k4_pay8 (k4_pay5 (View.ld x1 r4_S256x4x150)) (k4_pay7 (View.ld x0 r4_S256x300) (View.ld x3 r4_S300x150)) (View.ld x4 r4_S1x150) (View.ld x11 r4_S150x150) (View.ld x12 r4_S1x150)) (k4_pay9 (k4_pay4 (View.ld x0 r4_S256x300)) (k4_pay5 (View.ld x1 r4_S256x4x150)) (View.ld x9 r4_S300x150) (View.ld x10 r4_S1x150) (View.ld x17 r4_S150x150) (View.ld x18 r4_S1x150)) (k4_pay10 (k4_pay4 (View.ld x0 r4_S256x300)) (View.ld x7 r4_S300x150) (View.ld x8 r4_S1x150)) (View.ld x15 r4_S150x150) (View.ld x16 r4_S1x150)⟩]

/-- Its one store is through the whole rectangle, so it covers the buffer. -/
theorem cover4_19 (p0 : Vec F S256x150 .f32) (y : S256x150.Idx) :
    ∃ pc ∈ ([⟨r4_S256x150, p0⟩] : List (View.Piece (Elt F) S256x150 .f32)), y ∈ pc.1.set :=
  View.cover_of_tiled [⟨r4_S256x150, p0⟩] S256x150.size (by rfl) y

/-- Output window 20's staging buffer after the body (the memory cells), from the input windows' blocks. -/
def out4_20 (x0 : Vec F S256x300 .f32) (x1 : Vec F S256x4x150 .f32) (x2 : Vec F S256x4x150 .f32) (x3 : Vec F S300x150 .f32) (x4 : Vec F S1x150 .f32) (x5 : Vec F S300x150 .f32) (x6 : Vec F S1x150 .f32) (x7 : Vec F S300x150 .f32) (x8 : Vec F S1x150 .f32) (x9 : Vec F S300x150 .f32) (x10 : Vec F S1x150 .f32) (x11 : Vec F S150x150 .f32) (x12 : Vec F S1x150 .f32) (x13 : Vec F S150x150 .f32) (x14 : Vec F S1x150 .f32) (x15 : Vec F S150x150 .f32) (x16 : Vec F S1x150 .f32) (x17 : Vec F S150x150 .f32) (x18 : Vec F S1x150 .f32) : Vec F S256x150 .f32 :=
  View.canon [⟨r4_S256x150, k4_pay1 (k4_pay5 (View.ld x1 r4_S256x4x150)) (k4_pay6 (View.ld x0 r4_S256x300) (View.ld x1 r4_S256x4x150) (View.ld x2 r4_S256x4x150) (View.ld x13 r4_S150x150) (View.ld x14 r4_S1x150) (View.ld x5 r4_S300x150) (View.ld x6 r4_S1x150)) (k4_pay8 (k4_pay5 (View.ld x1 r4_S256x4x150)) (k4_pay7 (View.ld x0 r4_S256x300) (View.ld x3 r4_S300x150)) (View.ld x4 r4_S1x150) (View.ld x11 r4_S150x150) (View.ld x12 r4_S1x150)) (k4_pay10 (k4_pay4 (View.ld x0 r4_S256x300)) (View.ld x7 r4_S300x150) (View.ld x8 r4_S1x150)) (View.ld x15 r4_S150x150) (View.ld x16 r4_S1x150)⟩]

/-- Its one store is through the whole rectangle, so it covers the buffer. -/
theorem cover4_20 (p0 : Vec F S256x150 .f32) (y : S256x150.Idx) :
    ∃ pc ∈ ([⟨r4_S256x150, p0⟩] : List (View.Piece (Elt F) S256x150 .f32)), y ∈ pc.1.set :=
  View.cover_of_tiled [⟨r4_S256x150, p0⟩] S256x150.size (by rfl) y

/-! ## The body's triple -/

set_option maxHeartbeats 4000000 in
/-- The kernel body on whole staging memrefs, the inputs' at contents xW and the outputs' at anything, runs to a
    continuation that holds the inputs' as they were and each output's at its function of the inputs'. -/
theorem sound_kernel4 (c : Dev nD) (E : Set ℕ) (i : grid4.Coords) (arg1 : Memref sig .tc .vmem S256x300 .f32) (harg1 : arg1.IsWhole) (arg2 : Memref sig .tc .vmem S256x4x150 .f32) (harg2 : arg2.IsWhole) (arg3 : Memref sig .tc .vmem S256x4x150 .f32) (harg3 : arg3.IsWhole) (arg4 : Memref sig .tc .vmem S300x150 .f32) (harg4 : arg4.IsWhole) (arg5 : Memref sig .tc .vmem S1x150 .f32) (harg5 : arg5.IsWhole) (arg6 : Memref sig .tc .vmem S300x150 .f32) (harg6 : arg6.IsWhole) (arg7 : Memref sig .tc .vmem S1x150 .f32) (harg7 : arg7.IsWhole) (arg8 : Memref sig .tc .vmem S300x150 .f32) (harg8 : arg8.IsWhole) (arg9 : Memref sig .tc .vmem S1x150 .f32) (harg9 : arg9.IsWhole) (arg10 : Memref sig .tc .vmem S300x150 .f32) (harg10 : arg10.IsWhole) (arg11 : Memref sig .tc .vmem S1x150 .f32) (harg11 : arg11.IsWhole) (arg12 : Memref sig .tc .vmem S150x150 .f32) (harg12 : arg12.IsWhole) (arg13 : Memref sig .tc .vmem S1x150 .f32) (harg13 : arg13.IsWhole) (arg14 : Memref sig .tc .vmem S150x150 .f32) (harg14 : arg14.IsWhole) (arg15 : Memref sig .tc .vmem S1x150 .f32) (harg15 : arg15.IsWhole) (arg16 : Memref sig .tc .vmem S150x150 .f32) (harg16 : arg16.IsWhole) (arg17 : Memref sig .tc .vmem S1x150 .f32) (harg17 : arg17.IsWhole) (arg18 : Memref sig .tc .vmem S150x150 .f32) (harg18 : arg18.IsWhole) (arg19 : Memref sig .tc .vmem S1x150 .f32) (harg19 : arg19.IsWhole) (arg20 : Memref sig .tc .vmem S256x150 .f32) (harg20 : arg20.IsWhole) (arg21 : Memref sig .tc .vmem S256x150 .f32) (harg21 : arg21.IsWhole)
    (x0 : Vec F S256x300 .f32) (x1 : Vec F S256x4x150 .f32) (x2 : Vec F S256x4x150 .f32) (x3 : Vec F S300x150 .f32) (x4 : Vec F S1x150 .f32) (x5 : Vec F S300x150 .f32) (x6 : Vec F S1x150 .f32) (x7 : Vec F S300x150 .f32) (x8 : Vec F S1x150 .f32) (x9 : Vec F S300x150 .f32) (x10 : Vec F S1x150 .f32) (x11 : Vec F S150x150 .f32) (x12 : Vec F S1x150 .f32) (x13 : Vec F S150x150 .f32) (x14 : Vec F S1x150 .f32) (x15 : Vec F S150x150 .f32) (x16 : Vec F S1x150 .f32) (x17 : Vec F S150x150 .f32) (x18 : Vec F S1x150 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare (out4_19 x0 x1 x2 x3 x4 x5 x6 x7 x8 x9 x10 x11 x12 x13 x14 x15 x16 x17 x18) ∗ owns (c : Thread nD τ) arg21 fullShare (out4_20 x0 x1 x2 x3 x4 x5 x6 x7 x8 x9 x10 x11 x12 x13 x14 x15 x16 x17 x18)) -∗ K ⟨⟩))
      ⊢ wp frame (wpE (defs₀ (F := F)) Variants.none c none) E (cc4__internal_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc4__internal_kernel_eq_skeleton]; unfold cc4__internal_kernel_skel
  simp only [k4_part1_eq_skeleton]; unfold k4_part1_skel
  simp only [k4_part2_eq_skeleton]; unfold k4_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, Hk⟩
  subst hf0 hf1 hf2 hf3 hf4 hf5 hf6 hf7 hf8 hf9 hf10 hf11 hf12 hf13 hf14 hf15 hf16 hf17 hf18
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists _; isplitr
    swap; · iexact H19
    ipureintro
    exact View.read_writes_eq_canon _ _ _ (cover4_19 _)
  iexists _; isplitr
  swap; · iexact H20
  ipureintro
  exact View.read_writes_eq_canon _ _ _ (cover4_20 _)

/-! ## The pipeline's proof data -/

/-- The proof data of this pipeline on core c: the arrays as the region finds them; after the body at point t each
    input's buffer at its block and each output's at its function of the input blocks; nothing owed, full shares, and
    the invariant that carries only what the body does not touch. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => iblk4 V c 10 t
    | ⟨11, _⟩ => iblk4 V c 11 t
    | ⟨12, _⟩ => iblk4 V c 12 t
    | ⟨13, _⟩ => iblk4 V c 13 t
    | ⟨14, _⟩ => iblk4 V c 14 t
    | ⟨15, _⟩ => iblk4 V c 15 t
    | ⟨16, _⟩ => iblk4 V c 16 t
    | ⟨17, _⟩ => iblk4 V c 17 t
    | ⟨18, _⟩ => iblk4 V c 18 t
    | ⟨19, _⟩ => out4_19 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t) (iblk4 V c 17 t) (iblk4 V c 18 t)
    | ⟨20, _⟩ => out4_20 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t) (iblk4 V c 17 t) (iblk4 V c 18 t)
    | ⟨n + 21, h⟩ => absurd h (Nat.not_lt.mpr (Nat.le_add_left 21 n))
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = iblk4 V c 9 t := by dsimp only [dat4]
theorem after4_10 (c : Dev nD) (t : Fin cfg4.N) : (dat4 V c).after 10 t = iblk4 V c 10 t := by dsimp only [dat4]
theorem after4_11 (c : Dev nD) (t : Fin cfg4.N) : (dat4 V c).after 11 t = iblk4 V c 11 t := by dsimp only [dat4]
theorem after4_12 (c : Dev nD) (t : Fin cfg4.N) : (dat4 V c).after 12 t = iblk4 V c 12 t := by dsimp only [dat4]
theorem after4_13 (c : Dev nD) (t : Fin cfg4.N) : (dat4 V c).after 13 t = iblk4 V c 13 t := by dsimp only [dat4]
theorem after4_14 (c : Dev nD) (t : Fin cfg4.N) : (dat4 V c).after 14 t = iblk4 V c 14 t := by dsimp only [dat4]
theorem after4_15 (c : Dev nD) (t : Fin cfg4.N) : (dat4 V c).after 15 t = iblk4 V c 15 t := by dsimp only [dat4]
theorem after4_16 (c : Dev nD) (t : Fin cfg4.N) : (dat4 V c).after 16 t = iblk4 V c 16 t := by dsimp only [dat4]
theorem after4_17 (c : Dev nD) (t : Fin cfg4.N) : (dat4 V c).after 17 t = iblk4 V c 17 t := by dsimp only [dat4]
theorem after4_18 (c : Dev nD) (t : Fin cfg4.N) : (dat4 V c).after 18 t = iblk4 V c 18 t := by dsimp only [dat4]
theorem after4_19 (c : Dev nD) (t : Fin cfg4.N) : (dat4 V c).after 19 t = out4_19 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t) (iblk4 V c 17 t) (iblk4 V c 18 t) := by dsimp only [dat4]
theorem after4_20 (c : Dev nD) (t : Fin cfg4.N) : (dat4 V c).after 20 t = out4_20 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t) (iblk4 V c 17 t) (iblk4 V c 18 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d
theorem before4_9 (c : Dev nD) (t : Fin cfg4.N) (d) : (dat4 V c).before 9 t d = iblk4 V c 9 t :=
  before4_9_of V (dat4 V c) (A_eq4 V c 9) (after4_9 V c) t d
theorem before4_10 (c : Dev nD) (t : Fin cfg4.N) (d) : (dat4 V c).before 10 t d = iblk4 V c 10 t :=
  before4_10_of V (dat4 V c) (A_eq4 V c 10) (after4_10 V c) t d
theorem before4_11 (c : Dev nD) (t : Fin cfg4.N) (d) : (dat4 V c).before 11 t d = iblk4 V c 11 t :=
  before4_11_of V (dat4 V c) (A_eq4 V c 11) (after4_11 V c) t d
theorem before4_12 (c : Dev nD) (t : Fin cfg4.N) (d) : (dat4 V c).before 12 t d = iblk4 V c 12 t :=
  before4_12_of V (dat4 V c) (A_eq4 V c 12) (after4_12 V c) t d
theorem before4_13 (c : Dev nD) (t : Fin cfg4.N) (d) : (dat4 V c).before 13 t d = iblk4 V c 13 t :=
  before4_13_of V (dat4 V c) (A_eq4 V c 13) (after4_13 V c) t d
theorem before4_14 (c : Dev nD) (t : Fin cfg4.N) (d) : (dat4 V c).before 14 t d = iblk4 V c 14 t :=
  before4_14_of V (dat4 V c) (A_eq4 V c 14) (after4_14 V c) t d
theorem before4_15 (c : Dev nD) (t : Fin cfg4.N) (d) : (dat4 V c).before 15 t d = iblk4 V c 15 t :=
  before4_15_of V (dat4 V c) (A_eq4 V c 15) (after4_15 V c) t d
theorem before4_16 (c : Dev nD) (t : Fin cfg4.N) (d) : (dat4 V c).before 16 t d = iblk4 V c 16 t :=
  before4_16_of V (dat4 V c) (A_eq4 V c 16) (after4_16 V c) t d
theorem before4_17 (c : Dev nD) (t : Fin cfg4.N) (d) : (dat4 V c).before 17 t d = iblk4 V c 17 t :=
  before4_17_of V (dat4 V c) (A_eq4 V c 17) (after4_17 V c) t d
theorem before4_18 (c : Dev nD) (t : Fin cfg4.N) (d) : (dat4 V c).before 18 t d = iblk4 V c 18 t :=
  before4_18_of V (dat4 V c) (A_eq4 V c 18) (after4_18 V c) t d

/-! ## The body obligation, at a generic point -/

/-- What the body is called with at point t, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d))
    ∗ (∃ d, owns (c : Thread nD τ) (st4_10 t) fullShare ((dat4 V c).before 10 t d))
    ∗ (∃ d, owns (c : Thread nD τ) (st4_11 t) fullShare ((dat4 V c).before 11 t d))
    ∗ (∃ d, owns (c : Thread nD τ) (st4_12 t) fullShare ((dat4 V c).before 12 t d))
    ∗ (∃ d, owns (c : Thread nD τ) (st4_13 t) fullShare ((dat4 V c).before 13 t d))
    ∗ (∃ d, owns (c : Thread nD τ) (st4_14 t) fullShare ((dat4 V c).before 14 t d))
    ∗ (∃ d, owns (c : Thread nD τ) (st4_15 t) fullShare ((dat4 V c).before 15 t d))
    ∗ (∃ d, owns (c : Thread nD τ) (st4_16 t) fullShare ((dat4 V c).before 16 t d))
    ∗ (∃ d, owns (c : Thread nD τ) (st4_17 t) fullShare ((dat4 V c).before 17 t d))
    ∗ (∃ d, owns (c : Thread nD τ) (st4_18 t) fullShare ((dat4 V c).before 18 t d))
    ∗ (∃ d, owns (c : Thread nD τ) (st4_19 t) fullShare ((dat4 V c).before 19 t d))
    ∗ (∃ d, owns (c : Thread nD τ) (st4_20 t) fullShare ((dat4 V c).before 20 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t)
    ∗ owns (c : Thread nD τ) (st4_10 t) fullShare ((dat4 V c).after 10 t)
    ∗ owns (c : Thread nD τ) (st4_11 t) fullShare ((dat4 V c).after 11 t)
    ∗ owns (c : Thread nD τ) (st4_12 t) fullShare ((dat4 V c).after 12 t)
    ∗ owns (c : Thread nD τ) (st4_13 t) fullShare ((dat4 V c).after 13 t)
    ∗ owns (c : Thread nD τ) (st4_14 t) fullShare ((dat4 V c).after 14 t)
    ∗ owns (c : Thread nD τ) (st4_15 t) fullShare ((dat4 V c).after 15 t)
    ∗ owns (c : Thread nD τ) (st4_16 t) fullShare ((dat4 V c).after 16 t)
    ∗ owns (c : Thread nD τ) (st4_17 t) fullShare ((dat4 V c).after 17 t)
    ∗ owns (c : Thread nD τ) (st4_18 t) fullShare ((dat4 V c).after 18 t)
    ∗ owns (c : Thread nD τ) (st4_19 t) fullShare ((dat4 V c).after 19 t)
    ∗ owns (c : Thread nD τ) (st4_20 t) fullShare ((dat4 V c).after 20 t))

set_option maxHeartbeats 4000000 in
/-- The body at any point: the inputs' memrefs hold their blocks, so the triple above applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8, before4_9, before4_10, before4_11, before4_12, before4_13, before4_14, before4_15, before4_16, before4_17, before4_18]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9, after4_10, after4_11, after4_12, after4_13, after4_14, after4_15, after4_16, after4_17, after4_18, after4_19, after4_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (sound_kernel4 c Set.univ _ _ _ _ _ _ _ _ _ _ _ _ _ _ _ _ _ _ _ _ _ _ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t) (iblk4 V c 17 t) (iblk4 V c 18 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Tree

end
-- ==== Proof.KIRegion5.lean ====
/-
  Region 5 of the program (the internal level of 64 nodes), at any contents V of the buffers when the region is entered.
  A window's block at a grid point is the part of its array the point's index map selects. The body reads every input
  block whole, and writes each of its two output blocks whole and once: the hidden states, then the memory cells, each a
  pure function of the input blocks. So after the body each input's staging buffer still holds its block and each
  output's holds that function of the input blocks; this is the step the pipeline's launch theorem asks of a body.
-/
import proofs.«167239_j63453846831535_1_alg».proof.Proof.Gen.KernelIdeal.Launch
import proofs.«167239_j63453846831535_1_alg».proof.Proof.Gen.KernelIdeal.Skeleton
import proofs.«167239_j63453846831535_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Tree

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, whether the point fetched it or an
    earlier one did (its index has not moved since), for any proof data over these arrays whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, whether the point fetched it or an
    earlier one did (its index has not moved since), for any proof data over these arrays whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, whether the point fetched it or an
    earlier one did (its index has not moved since), for any proof data over these arrays whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, whether the point fetched it or an
    earlier one did (its index has not moved since), for any proof data over these arrays whose body leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, whether the point fetched it or an
    earlier one did (its index has not moved since), for any proof data over these arrays whose body leaves the block in place. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, whether the point fetched it or an
    earlier one did (its index has not moved since), for any proof data over these arrays whose body leaves the block in place. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6's current staging buffer holds its block at every point, whether the point fetched it or an
    earlier one did (its index has not moved since), for any proof data over these arrays whose body leaves the block in place. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-- Input window 7's current staging buffer holds its block at every point, whether the point fetched it or an
    earlier one did (its index has not moved since), for any proof data over these arrays whose body leaves the block in place. -/
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

/-- Input window 8's current staging buffer holds its block at every point, whether the point fetched it or an
    earlier one did (its index has not moved since), for any proof data over these arrays whose body leaves the block in place. -/
theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)

/-- Input window 9's current staging buffer holds its block at every point, whether the point fetched it or an
    earlier one did (its index has not moved since), for any proof data over these arrays whose body leaves the block in place. -/
theorem before5_9_of {c : Dev nD} (dat : Dat τ (Elt F) Unit ℕ (UR sig nD τ) ℕ cfg5 c) (hA : dat.A 9 = V c (Pipeline.arrRef spec5 9))
    (hafter : ∀ t, dat.after 9 t = iblk5 V c 9 t) (t : Fin cfg5.N) (d) : dat.before 9 t d = iblk5 V c 9 t :=
  (dat.before_in_eq_fetched 9 rfl (fun _ => rfl) (fun _ _ _ => rfl) (fun t => by rw [hafter]; unfold Dat.blockOf iblk5; rw [hA]; try rfl) t d).trans
    (by unfold Dat.fetched Dat.blockOf iblk5; rw [hA]; try rfl)

/-- Input window 10's current staging buffer holds its block at every point, whether the point fetched it or an
    earlier one did (its index has not moved since), for any proof data over these arrays whose body leaves the block in place. -/
theorem before5_10_of {c : Dev nD} (dat : Dat τ (Elt F) Unit ℕ (UR sig nD τ) ℕ cfg5 c) (hA : dat.A 10 = V c (Pipeline.arrRef spec5 10))
    (hafter : ∀ t, dat.after 10 t = iblk5 V c 10 t) (t : Fin cfg5.N) (d) : dat.before 10 t d = iblk5 V c 10 t :=
  (dat.before_in_eq_fetched 10 rfl (fun _ => rfl) (fun _ _ _ => rfl) (fun t => by rw [hafter]; unfold Dat.blockOf iblk5; rw [hA]; try rfl) t d).trans
    (by unfold Dat.fetched Dat.blockOf iblk5; rw [hA]; try rfl)

/-- Input window 11's current staging buffer holds its block at every point, whether the point fetched it or an
    earlier one did (its index has not moved since), for any proof data over these arrays whose body leaves the block in place. -/
theorem before5_11_of {c : Dev nD} (dat : Dat τ (Elt F) Unit ℕ (UR sig nD τ) ℕ cfg5 c) (hA : dat.A 11 = V c (Pipeline.arrRef spec5 11))
    (hafter : ∀ t, dat.after 11 t = iblk5 V c 11 t) (t : Fin cfg5.N) (d) : dat.before 11 t d = iblk5 V c 11 t :=
  (dat.before_in_eq_fetched 11 rfl (fun _ => rfl) (fun _ _ _ => rfl) (fun t => by rw [hafter]; unfold Dat.blockOf iblk5; rw [hA]; try rfl) t d).trans
    (by unfold Dat.fetched Dat.blockOf iblk5; rw [hA]; try rfl)

/-- Input window 12's current staging buffer holds its block at every point, whether the point fetched it or an
    earlier one did (its index has not moved since), for any proof data over these arrays whose body leaves the block in place. -/
theorem before5_12_of {c : Dev nD} (dat : Dat τ (Elt F) Unit ℕ (UR sig nD τ) ℕ cfg5 c) (hA : dat.A 12 = V c (Pipeline.arrRef spec5 12))
    (hafter : ∀ t, dat.after 12 t = iblk5 V c 12 t) (t : Fin cfg5.N) (d) : dat.before 12 t d = iblk5 V c 12 t :=
  (dat.before_in_eq_fetched 12 rfl (fun _ => rfl) (fun _ _ _ => rfl) (fun t => by rw [hafter]; unfold Dat.blockOf iblk5; rw [hA]; try rfl) t d).trans
    (by unfold Dat.fetched Dat.blockOf iblk5; rw [hA]; try rfl)

/-- Input window 13's current staging buffer holds its block at every point, whether the point fetched it or an
    earlier one did (its index has not moved since), for any proof data over these arrays whose body leaves the block in place. -/
theorem before5_13_of {c : Dev nD} (dat : Dat τ (Elt F) Unit ℕ (UR sig nD τ) ℕ cfg5 c) (hA : dat.A 13 = V c (Pipeline.arrRef spec5 13))
    (hafter : ∀ t, dat.after 13 t = iblk5 V c 13 t) (t : Fin cfg5.N) (d) : dat.before 13 t d = iblk5 V c 13 t :=
  (dat.before_in_eq_fetched 13 rfl (fun _ => rfl) (fun _ _ _ => rfl) (fun t => by rw [hafter]; unfold Dat.blockOf iblk5; rw [hA]; try rfl) t d).trans
    (by unfold Dat.fetched Dat.blockOf iblk5; rw [hA]; try rfl)

/-- Input window 14's current staging buffer holds its block at every point, whether the point fetched it or an
    earlier one did (its index has not moved since), for any proof data over these arrays whose body leaves the block in place. -/
theorem before5_14_of {c : Dev nD} (dat : Dat τ (Elt F) Unit ℕ (UR sig nD τ) ℕ cfg5 c) (hA : dat.A 14 = V c (Pipeline.arrRef spec5 14))
    (hafter : ∀ t, dat.after 14 t = iblk5 V c 14 t) (t : Fin cfg5.N) (d) : dat.before 14 t d = iblk5 V c 14 t :=
  (dat.before_in_eq_fetched 14 rfl (fun _ => rfl) (fun _ _ _ => rfl) (fun t => by rw [hafter]; unfold Dat.blockOf iblk5; rw [hA]; try rfl) t d).trans
    (by unfold Dat.fetched Dat.blockOf iblk5; rw [hA]; try rfl)

/-- Input window 15's current staging buffer holds its block at every point, whether the point fetched it or an
    earlier one did (its index has not moved since), for any proof data over these arrays whose body leaves the block in place. -/
theorem before5_15_of {c : Dev nD} (dat : Dat τ (Elt F) Unit ℕ (UR sig nD τ) ℕ cfg5 c) (hA : dat.A 15 = V c (Pipeline.arrRef spec5 15))
    (hafter : ∀ t, dat.after 15 t = iblk5 V c 15 t) (t : Fin cfg5.N) (d) : dat.before 15 t d = iblk5 V c 15 t :=
  (dat.before_in_eq_fetched 15 rfl (fun _ => rfl) (fun _ _ _ => rfl) (fun t => by rw [hafter]; unfold Dat.blockOf iblk5; rw [hA]; try rfl) t d).trans
    (by unfold Dat.fetched Dat.blockOf iblk5; rw [hA]; try rfl)

/-- Input window 16's current staging buffer holds its block at every point, whether the point fetched it or an
    earlier one did (its index has not moved since), for any proof data over these arrays whose body leaves the block in place. -/
theorem before5_16_of {c : Dev nD} (dat : Dat τ (Elt F) Unit ℕ (UR sig nD τ) ℕ cfg5 c) (hA : dat.A 16 = V c (Pipeline.arrRef spec5 16))
    (hafter : ∀ t, dat.after 16 t = iblk5 V c 16 t) (t : Fin cfg5.N) (d) : dat.before 16 t d = iblk5 V c 16 t :=
  (dat.before_in_eq_fetched 16 rfl (fun _ => rfl) (fun _ _ _ => rfl) (fun t => by rw [hafter]; unfold Dat.blockOf iblk5; rw [hA]; try rfl) t d).trans
    (by unfold Dat.fetched Dat.blockOf iblk5; rw [hA]; try rfl)

/-- Input window 17's current staging buffer holds its block at every point, whether the point fetched it or an
    earlier one did (its index has not moved since), for any proof data over these arrays whose body leaves the block in place. -/
theorem before5_17_of {c : Dev nD} (dat : Dat τ (Elt F) Unit ℕ (UR sig nD τ) ℕ cfg5 c) (hA : dat.A 17 = V c (Pipeline.arrRef spec5 17))
    (hafter : ∀ t, dat.after 17 t = iblk5 V c 17 t) (t : Fin cfg5.N) (d) : dat.before 17 t d = iblk5 V c 17 t :=
  (dat.before_in_eq_fetched 17 rfl (fun _ => rfl) (fun _ _ _ => rfl) (fun t => by rw [hafter]; unfold Dat.blockOf iblk5; rw [hA]; try rfl) t d).trans
    (by unfold Dat.fetched Dat.blockOf iblk5; rw [hA]; try rfl)

/-- Input window 18's current staging buffer holds its block at every point, whether the point fetched it or an
    earlier one did (its index has not moved since), for any proof data over these arrays whose body leaves the block in place. -/
theorem before5_18_of {c : Dev nD} (dat : Dat τ (Elt F) Unit ℕ (UR sig nD τ) ℕ cfg5 c) (hA : dat.A 18 = V c (Pipeline.arrRef spec5 18))
    (hafter : ∀ t, dat.after 18 t = iblk5 V c 18 t) (t : Fin cfg5.N) (d) : dat.before 18 t d = iblk5 V c 18 t :=
  (dat.before_in_eq_fetched 18 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and store is through a buffer's whole rectangle -/

abbrev r5_S64x300 : Rect S64x300 := Rect.unit (s := S64x300) ![0, 0] S64x300.size inb_S64x300_S64x300_0_0
abbrev r5_S64x4x150 : Rect S64x4x150 := Rect.unit (s := S64x4x150) ![0, 0, 0] S64x4x150.size inb_S64x4x150_S64x4x150_0_0_0
abbrev r5_S300x150 : Rect S300x150 := Rect.unit (s := S300x150) ![0, 0] S300x150.size inb_S300x150_S300x150_0_0
abbrev r5_S1x150 : Rect S1x150 := Rect.unit (s := S1x150) ![0, 0] S1x150.size inb_S1x150_S1x150_0_0
abbrev r5_S150x150 : Rect S150x150 := Rect.unit (s := S150x150) ![0, 0] S150x150.size inb_S150x150_S150x150_0_0
abbrev r5_S64x150 : Rect S64x150 := Rect.unit (s := S64x150) ![0, 0] S64x150.size inb_S64x150_S64x150_0_0

/-! ## What the body leaves in each output window's buffer -/

/-- Output window 19's staging buffer after the body (the hidden states), from the input windows' blocks. -/
def out5_19 (x0 : Vec F S64x300 .f32) (x1 : Vec F S64x4x150 .f32) (x2 : Vec F S64x4x150 .f32) (x3 : Vec F S300x150 .f32) (x4 : Vec F S1x150 .f32) (x5 : Vec F S300x150 .f32) (x6 : Vec F S1x150 .f32) (x7 : Vec F S300x150 .f32) (x8 : Vec F S1x150 .f32) (x9 : Vec F S300x150 .f32) (x10 : Vec F S1x150 .f32) (x11 : Vec F S150x150 .f32) (x12 : Vec F S1x150 .f32) (x13 : Vec F S150x150 .f32) (x14 : Vec F S1x150 .f32) (x15 : Vec F S150x150 .f32) (x16 : Vec F S1x150 .f32) (x17 : Vec F S150x150 .f32) (x18 : Vec F S1x150 .f32) : Vec F S64x150 .f32 :=
  View.canon [⟨r5_S64x150, k5_pay2 (k5_pay5 (View.ld x1 r5_S64x4x150)) (k5_pay6 (View.ld x0 r5_S64x300) (View.ld x1 r5_S64x4x150) (View.ld x2 r5_S64x4x150) (View.ld x13 r5_S150x150) (View.ld x14 r5_S1x150) (View.ld x5 r5_S300x150) (View.ld x6 r5_S1x150)) (k5_pay8 (k5_pay5 (View.ld x1 r5_S64x4x150)) (k5_pay7 (View.ld x0 r5_S64x300) (View.ld x3 r5_S300x150)) (View.ld x4 r5_S1x150) (View.ld x11 r5_S150x150) (View.ld x12 r5_S1x150)) (k5_pay9 (k5_pay4 (View.ld x0 r5_S64x300)) (k5_pay5 (View.ld x1 r5_S64x4x150)) (View.ld x9 r5_S300x150) (View.ld x10 r5_S1x150) (View.ld x17 r5_S150x150) (View.ld x18 r5_S1x150)) (k5_pay10 (k5_pay4 (View.ld x0 r5_S64x300)) (View.ld x7 r5_S300x150) (View.ld x8 r5_S1x150)) (View.ld x15 r5_S150x150) (View.ld x16 r5_S1x150)⟩]

/-- Its one store is through the whole rectangle, so it covers the buffer. -/
theorem cover5_19 (p0 : Vec F S64x150 .f32) (y : S64x150.Idx) :
    ∃ pc ∈ ([⟨r5_S64x150, p0⟩] : List (View.Piece (Elt F) S64x150 .f32)), y ∈ pc.1.set :=
  View.cover_of_tiled [⟨r5_S64x150, p0⟩] S64x150.size (by rfl) y

/-- Output window 20's staging buffer after the body (the memory cells), from the input windows' blocks. -/
def out5_20 (x0 : Vec F S64x300 .f32) (x1 : Vec F S64x4x150 .f32) (x2 : Vec F S64x4x150 .f32) (x3 : Vec F S300x150 .f32) (x4 : Vec F S1x150 .f32) (x5 : Vec F S300x150 .f32) (x6 : Vec F S1x150 .f32) (x7 : Vec F S300x150 .f32) (x8 : Vec F S1x150 .f32) (x9 : Vec F S300x150 .f32) (x10 : Vec F S1x150 .f32) (x11 : Vec F S150x150 .f32) (x12 : Vec F S1x150 .f32) (x13 : Vec F S150x150 .f32) (x14 : Vec F S1x150 .f32) (x15 : Vec F S150x150 .f32) (x16 : Vec F S1x150 .f32) (x17 : Vec F S150x150 .f32) (x18 : Vec F S1x150 .f32) : Vec F S64x150 .f32 :=
  View.canon [⟨r5_S64x150, k5_pay1 (k5_pay5 (View.ld x1 r5_S64x4x150)) (k5_pay6 (View.ld x0 r5_S64x300) (View.ld x1 r5_S64x4x150) (View.ld x2 r5_S64x4x150) (View.ld x13 r5_S150x150) (View.ld x14 r5_S1x150) (View.ld x5 r5_S300x150) (View.ld x6 r5_S1x150)) (k5_pay8 (k5_pay5 (View.ld x1 r5_S64x4x150)) (k5_pay7 (View.ld x0 r5_S64x300) (View.ld x3 r5_S300x150)) (View.ld x4 r5_S1x150) (View.ld x11 r5_S150x150) (View.ld x12 r5_S1x150)) (k5_pay10 (k5_pay4 (View.ld x0 r5_S64x300)) (View.ld x7 r5_S300x150) (View.ld x8 r5_S1x150)) (View.ld x15 r5_S150x150) (View.ld x16 r5_S1x150)⟩]

/-- Its one store is through the whole rectangle, so it covers the buffer. -/
theorem cover5_20 (p0 : Vec F S64x150 .f32) (y : S64x150.Idx) :
    ∃ pc ∈ ([⟨r5_S64x150, p0⟩] : List (View.Piece (Elt F) S64x150 .f32)), y ∈ pc.1.set :=
  View.cover_of_tiled [⟨r5_S64x150, p0⟩] S64x150.size (by rfl) y

/-! ## The body's triple -/

set_option maxHeartbeats 4000000 in
/-- The kernel body on whole staging memrefs, the inputs' at contents xW and the outputs' at anything, runs to a
    continuation that holds the inputs' as they were and each output's at its function of the inputs'. -/
theorem sound_kernel5 (c : Dev nD) (E : Set ℕ) (i : grid5.Coords) (arg1 : Memref sig .tc .vmem S64x300 .f32) (harg1 : arg1.IsWhole) (arg2 : Memref sig .tc .vmem S64x4x150 .f32) (harg2 : arg2.IsWhole) (arg3 : Memref sig .tc .vmem S64x4x150 .f32) (harg3 : arg3.IsWhole) (arg4 : Memref sig .tc .vmem S300x150 .f32) (harg4 : arg4.IsWhole) (arg5 : Memref sig .tc .vmem S1x150 .f32) (harg5 : arg5.IsWhole) (arg6 : Memref sig .tc .vmem S300x150 .f32) (harg6 : arg6.IsWhole) (arg7 : Memref sig .tc .vmem S1x150 .f32) (harg7 : arg7.IsWhole) (arg8 : Memref sig .tc .vmem S300x150 .f32) (harg8 : arg8.IsWhole) (arg9 : Memref sig .tc .vmem S1x150 .f32) (harg9 : arg9.IsWhole) (arg10 : Memref sig .tc .vmem S300x150 .f32) (harg10 : arg10.IsWhole) (arg11 : Memref sig .tc .vmem S1x150 .f32) (harg11 : arg11.IsWhole) (arg12 : Memref sig .tc .vmem S150x150 .f32) (harg12 : arg12.IsWhole) (arg13 : Memref sig .tc .vmem S1x150 .f32) (harg13 : arg13.IsWhole) (arg14 : Memref sig .tc .vmem S150x150 .f32) (harg14 : arg14.IsWhole) (arg15 : Memref sig .tc .vmem S1x150 .f32) (harg15 : arg15.IsWhole) (arg16 : Memref sig .tc .vmem S150x150 .f32) (harg16 : arg16.IsWhole) (arg17 : Memref sig .tc .vmem S1x150 .f32) (harg17 : arg17.IsWhole) (arg18 : Memref sig .tc .vmem S150x150 .f32) (harg18 : arg18.IsWhole) (arg19 : Memref sig .tc .vmem S1x150 .f32) (harg19 : arg19.IsWhole) (arg20 : Memref sig .tc .vmem S64x150 .f32) (harg20 : arg20.IsWhole) (arg21 : Memref sig .tc .vmem S64x150 .f32) (harg21 : arg21.IsWhole)
    (x0 : Vec F S64x300 .f32) (x1 : Vec F S64x4x150 .f32) (x2 : Vec F S64x4x150 .f32) (x3 : Vec F S300x150 .f32) (x4 : Vec F S1x150 .f32) (x5 : Vec F S300x150 .f32) (x6 : Vec F S1x150 .f32) (x7 : Vec F S300x150 .f32) (x8 : Vec F S1x150 .f32) (x9 : Vec F S300x150 .f32) (x10 : Vec F S1x150 .f32) (x11 : Vec F S150x150 .f32) (x12 : Vec F S1x150 .f32) (x13 : Vec F S150x150 .f32) (x14 : Vec F S1x150 .f32) (x15 : Vec F S150x150 .f32) (x16 : Vec F S1x150 .f32) (x17 : Vec F S150x150 .f32) (x18 : Vec F S1x150 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare (out5_19 x0 x1 x2 x3 x4 x5 x6 x7 x8 x9 x10 x11 x12 x13 x14 x15 x16 x17 x18) ∗ owns (c : Thread nD τ) arg21 fullShare (out5_20 x0 x1 x2 x3 x4 x5 x6 x7 x8 x9 x10 x11 x12 x13 x14 x15 x16 x17 x18)) -∗ K ⟨⟩))
      ⊢ wp frame (wpE (defs₀ (F := F)) Variants.none c none) E (cc5__internal_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc5__internal_kernel_eq_skeleton]; unfold cc5__internal_kernel_skel
  simp only [k5_part1_eq_skeleton]; unfold k5_part1_skel
  simp only [k5_part2_eq_skeleton]; unfold k5_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, Hk⟩
  subst hf0 hf1 hf2 hf3 hf4 hf5 hf6 hf7 hf8 hf9 hf10 hf11 hf12 hf13 hf14 hf15 hf16 hf17 hf18
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists _; isplitr
    swap; · iexact H19
    ipureintro
    exact View.read_writes_eq_canon _ _ _ (cover5_19 _)
  iexists _; isplitr
  swap; · iexact H20
  ipureintro
  exact View.read_writes_eq_canon _ _ _ (cover5_20 _)

/-! ## The pipeline's proof data -/

/-- The proof data of this pipeline on core c: the arrays as the region finds them; after the body at point t each
    input's buffer at its block and each output's at its function of the input blocks; nothing owed, full shares, and
    the invariant that carries only what the body does not touch. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => iblk5 V c 9 t
    | ⟨10, _⟩ => iblk5 V c 10 t
    | ⟨11, _⟩ => iblk5 V c 11 t
    | ⟨12, _⟩ => iblk5 V c 12 t
    | ⟨13, _⟩ => iblk5 V c 13 t
    | ⟨14, _⟩ => iblk5 V c 14 t
    | ⟨15, _⟩ => iblk5 V c 15 t
    | ⟨16, _⟩ => iblk5 V c 16 t
    | ⟨17, _⟩ => iblk5 V c 17 t
    | ⟨18, _⟩ => iblk5 V c 18 t
    | ⟨19, _⟩ => out5_19 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (iblk5 V c 11 t) (iblk5 V c 12 t) (iblk5 V c 13 t) (iblk5 V c 14 t) (iblk5 V c 15 t) (iblk5 V c 16 t) (iblk5 V c 17 t) (iblk5 V c 18 t)
    | ⟨20, _⟩ => out5_20 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (iblk5 V c 11 t) (iblk5 V c 12 t) (iblk5 V c 13 t) (iblk5 V c 14 t) (iblk5 V c 15 t) (iblk5 V c 16 t) (iblk5 V c 17 t) (iblk5 V c 18 t)
    | ⟨n + 21, h⟩ => absurd h (Nat.not_lt.mpr (Nat.le_add_left 21 n))
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = iblk5 V c 9 t := by dsimp only [dat5]
theorem after5_10 (c : Dev nD) (t : Fin cfg5.N) : (dat5 V c).after 10 t = iblk5 V c 10 t := by dsimp only [dat5]
theorem after5_11 (c : Dev nD) (t : Fin cfg5.N) : (dat5 V c).after 11 t = iblk5 V c 11 t := by dsimp only [dat5]
theorem after5_12 (c : Dev nD) (t : Fin cfg5.N) : (dat5 V c).after 12 t = iblk5 V c 12 t := by dsimp only [dat5]
theorem after5_13 (c : Dev nD) (t : Fin cfg5.N) : (dat5 V c).after 13 t = iblk5 V c 13 t := by dsimp only [dat5]
theorem after5_14 (c : Dev nD) (t : Fin cfg5.N) : (dat5 V c).after 14 t = iblk5 V c 14 t := by dsimp only [dat5]
theorem after5_15 (c : Dev nD) (t : Fin cfg5.N) : (dat5 V c).after 15 t = iblk5 V c 15 t := by dsimp only [dat5]
theorem after5_16 (c : Dev nD) (t : Fin cfg5.N) : (dat5 V c).after 16 t = iblk5 V c 16 t := by dsimp only [dat5]
theorem after5_17 (c : Dev nD) (t : Fin cfg5.N) : (dat5 V c).after 17 t = iblk5 V c 17 t := by dsimp only [dat5]
theorem after5_18 (c : Dev nD) (t : Fin cfg5.N) : (dat5 V c).after 18 t = iblk5 V c 18 t := by dsimp only [dat5]
theorem after5_19 (c : Dev nD) (t : Fin cfg5.N) : (dat5 V c).after 19 t = out5_19 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (iblk5 V c 11 t) (iblk5 V c 12 t) (iblk5 V c 13 t) (iblk5 V c 14 t) (iblk5 V c 15 t) (iblk5 V c 16 t) (iblk5 V c 17 t) (iblk5 V c 18 t) := by dsimp only [dat5]
theorem after5_20 (c : Dev nD) (t : Fin cfg5.N) : (dat5 V c).after 20 t = out5_20 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (iblk5 V c 11 t) (iblk5 V c 12 t) (iblk5 V c 13 t) (iblk5 V c 14 t) (iblk5 V c 15 t) (iblk5 V c 16 t) (iblk5 V c 17 t) (iblk5 V c 18 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
theorem before5_8 (c : Dev nD) (t : Fin cfg5.N) (d) : (dat5 V c).before 8 t d = iblk5 V c 8 t :=
  before5_8_of V (dat5 V c) (A_eq5 V c 8) (after5_8 V c) t d
theorem before5_9 (c : Dev nD) (t : Fin cfg5.N) (d) : (dat5 V c).before 9 t d = iblk5 V c 9 t :=
  before5_9_of V (dat5 V c) (A_eq5 V c 9) (after5_9 V c) t d
theorem before5_10 (c : Dev nD) (t : Fin cfg5.N) (d) : (dat5 V c).before 10 t d = iblk5 V c 10 t :=
  before5_10_of V (dat5 V c) (A_eq5 V c 10) (after5_10 V c) t d
theorem before5_11 (c : Dev nD) (t : Fin cfg5.N) (d) : (dat5 V c).before 11 t d = iblk5 V c 11 t :=
  before5_11_of V (dat5 V c) (A_eq5 V c 11) (after5_11 V c) t d
theorem before5_12 (c : Dev nD) (t : Fin cfg5.N) (d) : (dat5 V c).before 12 t d = iblk5 V c 12 t :=
  before5_12_of V (dat5 V c) (A_eq5 V c 12) (after5_12 V c) t d
theorem before5_13 (c : Dev nD) (t : Fin cfg5.N) (d) : (dat5 V c).before 13 t d = iblk5 V c 13 t :=
  before5_13_of V (dat5 V c) (A_eq5 V c 13) (after5_13 V c) t d
theorem before5_14 (c : Dev nD) (t : Fin cfg5.N) (d) : (dat5 V c).before 14 t d = iblk5 V c 14 t :=
  before5_14_of V (dat5 V c) (A_eq5 V c 14) (after5_14 V c) t d
theorem before5_15 (c : Dev nD) (t : Fin cfg5.N) (d) : (dat5 V c).before 15 t d = iblk5 V c 15 t :=
  before5_15_of V (dat5 V c) (A_eq5 V c 15) (after5_15 V c) t d
theorem before5_16 (c : Dev nD) (t : Fin cfg5.N) (d) : (dat5 V c).before 16 t d = iblk5 V c 16 t :=
  before5_16_of V (dat5 V c) (A_eq5 V c 16) (after5_16 V c) t d
theorem before5_17 (c : Dev nD) (t : Fin cfg5.N) (d) : (dat5 V c).before 17 t d = iblk5 V c 17 t :=
  before5_17_of V (dat5 V c) (A_eq5 V c 17) (after5_17 V c) t d
theorem before5_18 (c : Dev nD) (t : Fin cfg5.N) (d) : (dat5 V c).before 18 t d = iblk5 V c 18 t :=
  before5_18_of V (dat5 V c) (A_eq5 V c 18) (after5_18 V c) t d

/-! ## The body obligation, at a generic point -/

/-- What the body is called with at point t, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d))
    ∗ (∃ d, owns (c : Thread nD τ) (st5_10 t) fullShare ((dat5 V c).before 10 t d))
    ∗ (∃ d, owns (c : Thread nD τ) (st5_11 t) fullShare ((dat5 V c).before 11 t d))
    ∗ (∃ d, owns (c : Thread nD τ) (st5_12 t) fullShare ((dat5 V c).before 12 t d))
    ∗ (∃ d, owns (c : Thread nD τ) (st5_13 t) fullShare ((dat5 V c).before 13 t d))
    ∗ (∃ d, owns (c : Thread nD τ) (st5_14 t) fullShare ((dat5 V c).before 14 t d))
    ∗ (∃ d, owns (c : Thread nD τ) (st5_15 t) fullShare ((dat5 V c).before 15 t d))
    ∗ (∃ d, owns (c : Thread nD τ) (st5_16 t) fullShare ((dat5 V c).before 16 t d))
    ∗ (∃ d, owns (c : Thread nD τ) (st5_17 t) fullShare ((dat5 V c).before 17 t d))
    ∗ (∃ d, owns (c : Thread nD τ) (st5_18 t) fullShare ((dat5 V c).before 18 t d))
    ∗ (∃ d, owns (c : Thread nD τ) (st5_19 t) fullShare ((dat5 V c).before 19 t d))
    ∗ (∃ d, owns (c : Thread nD τ) (st5_20 t) fullShare ((dat5 V c).before 20 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t)
    ∗ owns (c : Thread nD τ) (st5_10 t) fullShare ((dat5 V c).after 10 t)
    ∗ owns (c : Thread nD τ) (st5_11 t) fullShare ((dat5 V c).after 11 t)
    ∗ owns (c : Thread nD τ) (st5_12 t) fullShare ((dat5 V c).after 12 t)
    ∗ owns (c : Thread nD τ) (st5_13 t) fullShare ((dat5 V c).after 13 t)
    ∗ owns (c : Thread nD τ) (st5_14 t) fullShare ((dat5 V c).after 14 t)
    ∗ owns (c : Thread nD τ) (st5_15 t) fullShare ((dat5 V c).after 15 t)
    ∗ owns (c : Thread nD τ) (st5_16 t) fullShare ((dat5 V c).after 16 t)
    ∗ owns (c : Thread nD τ) (st5_17 t) fullShare ((dat5 V c).after 17 t)
    ∗ owns (c : Thread nD τ) (st5_18 t) fullShare ((dat5 V c).after 18 t)
    ∗ owns (c : Thread nD τ) (st5_19 t) fullShare ((dat5 V c).after 19 t)
    ∗ owns (c : Thread nD τ) (st5_20 t) fullShare ((dat5 V c).after 20 t))

set_option maxHeartbeats 4000000 in
/-- The body at any point: the inputs' memrefs hold their blocks, so the triple above applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8, before5_9, before5_10, before5_11, before5_12, before5_13, before5_14, before5_15, before5_16, before5_17, before5_18]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9, after5_10, after5_11, after5_12, after5_13, after5_14, after5_15, after5_16, after5_17, after5_18, after5_19, after5_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (sound_kernel5 c Set.univ _ _ _ _ _ _ _ _ _ _ _ _ _ _ _ _ _ _ _ _ _ _ _ _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (iblk5 V c 11 t) (iblk5 V c 12 t) (iblk5 V c 13 t) (iblk5 V c 14 t) (iblk5 V c 15 t) (iblk5 V c 16 t) (iblk5 V c 17 t) (iblk5 V c 18 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Tree

end
-- ==== Proof.KIRegion6.lean ====
/-
  Region 6 of the program (the internal level of 16 nodes), at any contents V of the buffers when the region is entered.
  A window's block at a grid point is the part of its array the point's index map selects. The body reads every input
  block whole, and writes each of its two output blocks whole and once: the hidden states, then the memory cells, each a
  pure function of the input blocks. So after the body each input's staging buffer still holds its block and each
  output's holds that function of the input blocks; this is the step the pipeline's launch theorem asks of a body.
-/
import proofs.«167239_j63453846831535_1_alg».proof.Proof.Gen.KernelIdeal.Launch
import proofs.«167239_j63453846831535_1_alg».proof.Proof.Gen.KernelIdeal.Skeleton
import proofs.«167239_j63453846831535_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Tree

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, whether the point fetched it or an
    earlier one did (its index has not moved since), for any proof data over these arrays whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, whether the point fetched it or an
    earlier one did (its index has not moved since), for any proof data over these arrays whose body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, whether the point fetched it or an
    earlier one did (its index has not moved since), for any proof data over these arrays whose body leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, whether the point fetched it or an
    earlier one did (its index has not moved since), for any proof data over these arrays whose body leaves the block in place. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, whether the point fetched it or an
    earlier one did (its index has not moved since), for any proof data over these arrays whose body leaves the block in place. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5's current staging buffer holds its block at every point, whether the point fetched it or an
    earlier one did (its index has not moved since), for any proof data over these arrays whose body leaves the block in place. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-- Input window 6's current staging buffer holds its block at every point, whether the point fetched it or an
    earlier one did (its index has not moved since), for any proof data over these arrays whose body leaves the block in place. -/
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

/-- Input window 7's current staging buffer holds its block at every point, whether the point fetched it or an
    earlier one did (its index has not moved since), for any proof data over these arrays whose body leaves the block in place. -/
theorem before6_7_of {c : Dev nD} (dat : Dat τ (Elt F) Unit ℕ (UR sig nD τ) ℕ cfg6 c) (hA : dat.A 7 = V c (Pipeline.arrRef spec6 7))
    (hafter : ∀ t, dat.after 7 t = iblk6 V c 7 t) (t : Fin cfg6.N) (d) : dat.before 7 t d = iblk6 V c 7 t :=
  (dat.before_in_eq_fetched 7 rfl (fun _ => rfl) (fun _ _ _ => rfl) (fun t => by rw [hafter]; unfold Dat.blockOf iblk6; rw [hA]; try rfl) t d).trans
    (by unfold Dat.fetched Dat.blockOf iblk6; rw [hA]; try rfl)

/-- Input window 8's current staging buffer holds its block at every point, whether the point fetched it or an
    earlier one did (its index has not moved since), for any proof data over these arrays whose body leaves the block in place. -/
theorem before6_8_of {c : Dev nD} (dat : Dat τ (Elt F) Unit ℕ (UR sig nD τ) ℕ cfg6 c) (hA : dat.A 8 = V c (Pipeline.arrRef spec6 8))
    (hafter : ∀ t, dat.after 8 t = iblk6 V c 8 t) (t : Fin cfg6.N) (d) : dat.before 8 t d = iblk6 V c 8 t :=
  (dat.before_in_eq_fetched 8 rfl (fun _ => rfl) (fun _ _ _ => rfl) (fun t => by rw [hafter]; unfold Dat.blockOf iblk6; rw [hA]; try rfl) t d).trans
    (by unfold Dat.fetched Dat.blockOf iblk6; rw [hA]; try rfl)

/-- Input window 9's current staging buffer holds its block at every point, whether the point fetched it or an
    earlier one did (its index has not moved since), for any proof data over these arrays whose body leaves the block in place. -/
theorem before6_9_of {c : Dev nD} (dat : Dat τ (Elt F) Unit ℕ (UR sig nD τ) ℕ cfg6 c) (hA : dat.A 9 = V c (Pipeline.arrRef spec6 9))
    (hafter : ∀ t, dat.after 9 t = iblk6 V c 9 t) (t : Fin cfg6.N) (d) : dat.before 9 t d = iblk6 V c 9 t :=
  (dat.before_in_eq_fetched 9 rfl (fun _ => rfl) (fun _ _ _ => rfl) (fun t => by rw [hafter]; unfold Dat.blockOf iblk6; rw [hA]; try rfl) t d).trans
    (by unfold Dat.fetched Dat.blockOf iblk6; rw [hA]; try rfl)

/-- Input window 10's current staging buffer holds its block at every point, whether the point fetched it or an
    earlier one did (its index has not moved since), for any proof data over these arrays whose body leaves the block in place. -/
theorem before6_10_of {c : Dev nD} (dat : Dat τ (Elt F) Unit ℕ (UR sig nD τ) ℕ cfg6 c) (hA : dat.A 10 = V c (Pipeline.arrRef spec6 10))
    (hafter : ∀ t, dat.after 10 t = iblk6 V c 10 t) (t : Fin cfg6.N) (d) : dat.before 10 t d = iblk6 V c 10 t :=
  (dat.before_in_eq_fetched 10 rfl (fun _ => rfl) (fun _ _ _ => rfl) (fun t => by rw [hafter]; unfold Dat.blockOf iblk6; rw [hA]; try rfl) t d).trans
    (by unfold Dat.fetched Dat.blockOf iblk6; rw [hA]; try rfl)

/-- Input window 11's current staging buffer holds its block at every point, whether the point fetched it or an
    earlier one did (its index has not moved since), for any proof data over these arrays whose body leaves the block in place. -/
theorem before6_11_of {c : Dev nD} (dat : Dat τ (Elt F) Unit ℕ (UR sig nD τ) ℕ cfg6 c) (hA : dat.A 11 = V c (Pipeline.arrRef spec6 11))
    (hafter : ∀ t, dat.after 11 t = iblk6 V c 11 t) (t : Fin cfg6.N) (d) : dat.before 11 t d = iblk6 V c 11 t :=
  (dat.before_in_eq_fetched 11 rfl (fun _ => rfl) (fun _ _ _ => rfl) (fun t => by rw [hafter]; unfold Dat.blockOf iblk6; rw [hA]; try rfl) t d).trans
    (by unfold Dat.fetched Dat.blockOf iblk6; rw [hA]; try rfl)

/-- Input window 12's current staging buffer holds its block at every point, whether the point fetched it or an
    earlier one did (its index has not moved since), for any proof data over these arrays whose body leaves the block in place. -/
theorem before6_12_of {c : Dev nD} (dat : Dat τ (Elt F) Unit ℕ (UR sig nD τ) ℕ cfg6 c) (hA : dat.A 12 = V c (Pipeline.arrRef spec6 12))
    (hafter : ∀ t, dat.after 12 t = iblk6 V c 12 t) (t : Fin cfg6.N) (d) : dat.before 12 t d = iblk6 V c 12 t :=
  (dat.before_in_eq_fetched 12 rfl (fun _ => rfl) (fun _ _ _ => rfl) (fun t => by rw [hafter]; unfold Dat.blockOf iblk6; rw [hA]; try rfl) t d).trans
    (by unfold Dat.fetched Dat.blockOf iblk6; rw [hA]; try rfl)

/-- Input window 13's current staging buffer holds its block at every point, whether the point fetched it or an
    earlier one did (its index has not moved since), for any proof data over these arrays whose body leaves the block in place. -/
theorem before6_13_of {c : Dev nD} (dat : Dat τ (Elt F) Unit ℕ (UR sig nD τ) ℕ cfg6 c) (hA : dat.A 13 = V c (Pipeline.arrRef spec6 13))
    (hafter : ∀ t, dat.after 13 t = iblk6 V c 13 t) (t : Fin cfg6.N) (d) : dat.before 13 t d = iblk6 V c 13 t :=
  (dat.before_in_eq_fetched 13 rfl (fun _ => rfl) (fun _ _ _ => rfl) (fun t => by rw [hafter]; unfold Dat.blockOf iblk6; rw [hA]; try rfl) t d).trans
    (by unfold Dat.fetched Dat.blockOf iblk6; rw [hA]; try rfl)

/-- Input window 14's current staging buffer holds its block at every point, whether the point fetched it or an
    earlier one did (its index has not moved since), for any proof data over these arrays whose body leaves the block in place. -/
theorem before6_14_of {c : Dev nD} (dat : Dat τ (Elt F) Unit ℕ (UR sig nD τ) ℕ cfg6 c) (hA : dat.A 14 = V c (Pipeline.arrRef spec6 14))
    (hafter : ∀ t, dat.after 14 t = iblk6 V c 14 t) (t : Fin cfg6.N) (d) : dat.before 14 t d = iblk6 V c 14 t :=
  (dat.before_in_eq_fetched 14 rfl (fun _ => rfl) (fun _ _ _ => rfl) (fun t => by rw [hafter]; unfold Dat.blockOf iblk6; rw [hA]; try rfl) t d).trans
    (by unfold Dat.fetched Dat.blockOf iblk6; rw [hA]; try rfl)

/-- Input window 15's current staging buffer holds its block at every point, whether the point fetched it or an
    earlier one did (its index has not moved since), for any proof data over these arrays whose body leaves the block in place. -/
theorem before6_15_of {c : Dev nD} (dat : Dat τ (Elt F) Unit ℕ (UR sig nD τ) ℕ cfg6 c) (hA : dat.A 15 = V c (Pipeline.arrRef spec6 15))
    (hafter : ∀ t, dat.after 15 t = iblk6 V c 15 t) (t : Fin cfg6.N) (d) : dat.before 15 t d = iblk6 V c 15 t :=
  (dat.before_in_eq_fetched 15 rfl (fun _ => rfl) (fun _ _ _ => rfl) (fun t => by rw [hafter]; unfold Dat.blockOf iblk6; rw [hA]; try rfl) t d).trans
    (by unfold Dat.fetched Dat.blockOf iblk6; rw [hA]; try rfl)

/-- Input window 16's current staging buffer holds its block at every point, whether the point fetched it or an
    earlier one did (its index has not moved since), for any proof data over these arrays whose body leaves the block in place. -/
theorem before6_16_of {c : Dev nD} (dat : Dat τ (Elt F) Unit ℕ (UR sig nD τ) ℕ cfg6 c) (hA : dat.A 16 = V c (Pipeline.arrRef spec6 16))
    (hafter : ∀ t, dat.after 16 t = iblk6 V c 16 t) (t : Fin cfg6.N) (d) : dat.before 16 t d = iblk6 V c 16 t :=
  (dat.before_in_eq_fetched 16 rfl (fun _ => rfl) (fun _ _ _ => rfl) (fun t => by rw [hafter]; unfold Dat.blockOf iblk6; rw [hA]; try rfl) t d).trans
    (by unfold Dat.fetched Dat.blockOf iblk6; rw [hA]; try rfl)

/-- Input window 17's current staging buffer holds its block at every point, whether the point fetched it or an
    earlier one did (its index has not moved since), for any proof data over these arrays whose body leaves the block in place. -/
theorem before6_17_of {c : Dev nD} (dat : Dat τ (Elt F) Unit ℕ (UR sig nD τ) ℕ cfg6 c) (hA : dat.A 17 = V c (Pipeline.arrRef spec6 17))
    (hafter : ∀ t, dat.after 17 t = iblk6 V c 17 t) (t : Fin cfg6.N) (d) : dat.before 17 t d = iblk6 V c 17 t :=
  (dat.before_in_eq_fetched 17 rfl (fun _ => rfl) (fun _ _ _ => rfl) (fun t => by rw [hafter]; unfold Dat.blockOf iblk6; rw [hA]; try rfl) t d).trans
    (by unfold Dat.fetched Dat.blockOf iblk6; rw [hA]; try rfl)

/-- Input window 18's current staging buffer holds its block at every point, whether the point fetched it or an
    earlier one did (its index has not moved since), for any proof data over these arrays whose body leaves the block in place. -/
theorem before6_18_of {c : Dev nD} (dat : Dat τ (Elt F) Unit ℕ (UR sig nD τ) ℕ cfg6 c) (hA : dat.A 18 = V c (Pipeline.arrRef spec6 18))
    (hafter : ∀ t, dat.after 18 t = iblk6 V c 18 t) (t : Fin cfg6.N) (d) : dat.before 18 t d = iblk6 V c 18 t :=
  (dat.before_in_eq_fetched 18 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and store is through a buffer's whole rectangle -/

abbrev r6_S16x300 : Rect S16x300 := Rect.unit (s := S16x300) ![0, 0] S16x300.size inb_S16x300_S16x300_0_0
abbrev r6_S16x4x150 : Rect S16x4x150 := Rect.unit (s := S16x4x150) ![0, 0, 0] S16x4x150.size inb_S16x4x150_S16x4x150_0_0_0
abbrev r6_S300x150 : Rect S300x150 := Rect.unit (s := S300x150) ![0, 0] S300x150.size inb_S300x150_S300x150_0_0
abbrev r6_S1x150 : Rect S1x150 := Rect.unit (s := S1x150) ![0, 0] S1x150.size inb_S1x150_S1x150_0_0
abbrev r6_S150x150 : Rect S150x150 := Rect.unit (s := S150x150) ![0, 0] S150x150.size inb_S150x150_S150x150_0_0
abbrev r6_S16x150 : Rect S16x150 := Rect.unit (s := S16x150) ![0, 0] S16x150.size inb_S16x150_S16x150_0_0

/-! ## What the body leaves in each output window's buffer -/

/-- Output window 19's staging buffer after the body (the hidden states), from the input windows' blocks. -/
def out6_19 (x0 : Vec F S16x300 .f32) (x1 : Vec F S16x4x150 .f32) (x2 : Vec F S16x4x150 .f32) (x3 : Vec F S300x150 .f32) (x4 : Vec F S1x150 .f32) (x5 : Vec F S300x150 .f32) (x6 : Vec F S1x150 .f32) (x7 : Vec F S300x150 .f32) (x8 : Vec F S1x150 .f32) (x9 : Vec F S300x150 .f32) (x10 : Vec F S1x150 .f32) (x11 : Vec F S150x150 .f32) (x12 : Vec F S1x150 .f32) (x13 : Vec F S150x150 .f32) (x14 : Vec F S1x150 .f32) (x15 : Vec F S150x150 .f32) (x16 : Vec F S1x150 .f32) (x17 : Vec F S150x150 .f32) (x18 : Vec F S1x150 .f32) : Vec F S16x150 .f32 :=
  View.canon [⟨r6_S16x150, k6_pay2 (k6_pay5 (View.ld x1 r6_S16x4x150)) (k6_pay6 (View.ld x0 r6_S16x300) (View.ld x1 r6_S16x4x150) (View.ld x2 r6_S16x4x150) (View.ld x13 r6_S150x150) (View.ld x14 r6_S1x150) (View.ld x5 r6_S300x150) (View.ld x6 r6_S1x150)) (k6_pay8 (k6_pay5 (View.ld x1 r6_S16x4x150)) (k6_pay7 (View.ld x0 r6_S16x300) (View.ld x3 r6_S300x150)) (View.ld x4 r6_S1x150) (View.ld x11 r6_S150x150) (View.ld x12 r6_S1x150)) (k6_pay9 (k6_pay4 (View.ld x0 r6_S16x300)) (k6_pay5 (View.ld x1 r6_S16x4x150)) (View.ld x9 r6_S300x150) (View.ld x10 r6_S1x150) (View.ld x17 r6_S150x150) (View.ld x18 r6_S1x150)) (k6_pay10 (k6_pay4 (View.ld x0 r6_S16x300)) (View.ld x7 r6_S300x150) (View.ld x8 r6_S1x150)) (View.ld x15 r6_S150x150) (View.ld x16 r6_S1x150)⟩]

/-- Its one store is through the whole rectangle, so it covers the buffer. -/
theorem cover6_19 (p0 : Vec F S16x150 .f32) (y : S16x150.Idx) :
    ∃ pc ∈ ([⟨r6_S16x150, p0⟩] : List (View.Piece (Elt F) S16x150 .f32)), y ∈ pc.1.set :=
  View.cover_of_tiled [⟨r6_S16x150, p0⟩] S16x150.size (by rfl) y

/-- Output window 20's staging buffer after the body (the memory cells), from the input windows' blocks. -/
def out6_20 (x0 : Vec F S16x300 .f32) (x1 : Vec F S16x4x150 .f32) (x2 : Vec F S16x4x150 .f32) (x3 : Vec F S300x150 .f32) (x4 : Vec F S1x150 .f32) (x5 : Vec F S300x150 .f32) (x6 : Vec F S1x150 .f32) (x7 : Vec F S300x150 .f32) (x8 : Vec F S1x150 .f32) (x9 : Vec F S300x150 .f32) (x10 : Vec F S1x150 .f32) (x11 : Vec F S150x150 .f32) (x12 : Vec F S1x150 .f32) (x13 : Vec F S150x150 .f32) (x14 : Vec F S1x150 .f32) (x15 : Vec F S150x150 .f32) (x16 : Vec F S1x150 .f32) (x17 : Vec F S150x150 .f32) (x18 : Vec F S1x150 .f32) : Vec F S16x150 .f32 :=
  View.canon [⟨r6_S16x150, k6_pay1 (k6_pay5 (View.ld x1 r6_S16x4x150)) (k6_pay6 (View.ld x0 r6_S16x300) (View.ld x1 r6_S16x4x150) (View.ld x2 r6_S16x4x150) (View.ld x13 r6_S150x150) (View.ld x14 r6_S1x150) (View.ld x5 r6_S300x150) (View.ld x6 r6_S1x150)) (k6_pay8 (k6_pay5 (View.ld x1 r6_S16x4x150)) (k6_pay7 (View.ld x0 r6_S16x300) (View.ld x3 r6_S300x150)) (View.ld x4 r6_S1x150) (View.ld x11 r6_S150x150) (View.ld x12 r6_S1x150)) (k6_pay10 (k6_pay4 (View.ld x0 r6_S16x300)) (View.ld x7 r6_S300x150) (View.ld x8 r6_S1x150)) (View.ld x15 r6_S150x150) (View.ld x16 r6_S1x150)⟩]

/-- Its one store is through the whole rectangle, so it covers the buffer. -/
theorem cover6_20 (p0 : Vec F S16x150 .f32) (y : S16x150.Idx) :
    ∃ pc ∈ ([⟨r6_S16x150, p0⟩] : List (View.Piece (Elt F) S16x150 .f32)), y ∈ pc.1.set :=
  View.cover_of_tiled [⟨r6_S16x150, p0⟩] S16x150.size (by rfl) y

/-! ## The body's triple -/

set_option maxHeartbeats 4000000 in
/-- The kernel body on whole staging memrefs, the inputs' at contents xW and the outputs' at anything, runs to a
    continuation that holds the inputs' as they were and each output's at its function of the inputs'. -/
theorem sound_kernel6 (c : Dev nD) (E : Set ℕ) (i : grid6.Coords) (arg1 : Memref sig .tc .vmem S16x300 .f32) (harg1 : arg1.IsWhole) (arg2 : Memref sig .tc .vmem S16x4x150 .f32) (harg2 : arg2.IsWhole) (arg3 : Memref sig .tc .vmem S16x4x150 .f32) (harg3 : arg3.IsWhole) (arg4 : Memref sig .tc .vmem S300x150 .f32) (harg4 : arg4.IsWhole) (arg5 : Memref sig .tc .vmem S1x150 .f32) (harg5 : arg5.IsWhole) (arg6 : Memref sig .tc .vmem S300x150 .f32) (harg6 : arg6.IsWhole) (arg7 : Memref sig .tc .vmem S1x150 .f32) (harg7 : arg7.IsWhole) (arg8 : Memref sig .tc .vmem S300x150 .f32) (harg8 : arg8.IsWhole) (arg9 : Memref sig .tc .vmem S1x150 .f32) (harg9 : arg9.IsWhole) (arg10 : Memref sig .tc .vmem S300x150 .f32) (harg10 : arg10.IsWhole) (arg11 : Memref sig .tc .vmem S1x150 .f32) (harg11 : arg11.IsWhole) (arg12 : Memref sig .tc .vmem S150x150 .f32) (harg12 : arg12.IsWhole) (arg13 : Memref sig .tc .vmem S1x150 .f32) (harg13 : arg13.IsWhole) (arg14 : Memref sig .tc .vmem S150x150 .f32) (harg14 : arg14.IsWhole) (arg15 : Memref sig .tc .vmem S1x150 .f32) (harg15 : arg15.IsWhole) (arg16 : Memref sig .tc .vmem S150x150 .f32) (harg16 : arg16.IsWhole) (arg17 : Memref sig .tc .vmem S1x150 .f32) (harg17 : arg17.IsWhole) (arg18 : Memref sig .tc .vmem S150x150 .f32) (harg18 : arg18.IsWhole) (arg19 : Memref sig .tc .vmem S1x150 .f32) (harg19 : arg19.IsWhole) (arg20 : Memref sig .tc .vmem S16x150 .f32) (harg20 : arg20.IsWhole) (arg21 : Memref sig .tc .vmem S16x150 .f32) (harg21 : arg21.IsWhole)
    (x0 : Vec F S16x300 .f32) (x1 : Vec F S16x4x150 .f32) (x2 : Vec F S16x4x150 .f32) (x3 : Vec F S300x150 .f32) (x4 : Vec F S1x150 .f32) (x5 : Vec F S300x150 .f32) (x6 : Vec F S1x150 .f32) (x7 : Vec F S300x150 .f32) (x8 : Vec F S1x150 .f32) (x9 : Vec F S300x150 .f32) (x10 : Vec F S1x150 .f32) (x11 : Vec F S150x150 .f32) (x12 : Vec F S1x150 .f32) (x13 : Vec F S150x150 .f32) (x14 : Vec F S1x150 .f32) (x15 : Vec F S150x150 .f32) (x16 : Vec F S1x150 .f32) (x17 : Vec F S150x150 .f32) (x18 : Vec F S1x150 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare (out6_19 x0 x1 x2 x3 x4 x5 x6 x7 x8 x9 x10 x11 x12 x13 x14 x15 x16 x17 x18) ∗ owns (c : Thread nD τ) arg21 fullShare (out6_20 x0 x1 x2 x3 x4 x5 x6 x7 x8 x9 x10 x11 x12 x13 x14 x15 x16 x17 x18)) -∗ K ⟨⟩))
      ⊢ wp frame (wpE (defs₀ (F := F)) Variants.none c none) E (cc6__internal_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc6__internal_kernel_eq_skeleton]; unfold cc6__internal_kernel_skel
  simp only [k6_part1_eq_skeleton]; unfold k6_part1_skel
  simp only [k6_part2_eq_skeleton]; unfold k6_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, Hk⟩
  subst hf0 hf1 hf2 hf3 hf4 hf5 hf6 hf7 hf8 hf9 hf10 hf11 hf12 hf13 hf14 hf15 hf16 hf17 hf18
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists _; isplitr
    swap; · iexact H19
    ipureintro
    exact View.read_writes_eq_canon _ _ _ (cover6_19 _)
  iexists _; isplitr
  swap; · iexact H20
  ipureintro
  exact View.read_writes_eq_canon _ _ _ (cover6_20 _)

/-! ## The pipeline's proof data -/

/-- The proof data of this pipeline on core c: the arrays as the region finds them; after the body at point t each
    input's buffer at its block and each output's at its function of the input blocks; nothing owed, full shares, and
    the invariant that carries only what the body does not touch. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => iblk6 V c 8 t
    | ⟨9, _⟩ => iblk6 V c 9 t
    | ⟨10, _⟩ => iblk6 V c 10 t
    | ⟨11, _⟩ => iblk6 V c 11 t
    | ⟨12, _⟩ => iblk6 V c 12 t
    | ⟨13, _⟩ => iblk6 V c 13 t
    | ⟨14, _⟩ => iblk6 V c 14 t
    | ⟨15, _⟩ => iblk6 V c 15 t
    | ⟨16, _⟩ => iblk6 V c 16 t
    | ⟨17, _⟩ => iblk6 V c 17 t
    | ⟨18, _⟩ => iblk6 V c 18 t
    | ⟨19, _⟩ => out6_19 (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t) (iblk6 V c 14 t) (iblk6 V c 15 t) (iblk6 V c 16 t) (iblk6 V c 17 t) (iblk6 V c 18 t)
    | ⟨20, _⟩ => out6_20 (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t) (iblk6 V c 14 t) (iblk6 V c 15 t) (iblk6 V c 16 t) (iblk6 V c 17 t) (iblk6 V c 18 t)
    | ⟨n + 21, h⟩ => absurd h (Nat.not_lt.mpr (Nat.le_add_left 21 n))
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) : (dat6 V c).after 8 t = iblk6 V c 8 t := by dsimp only [dat6]
theorem after6_9 (c : Dev nD) (t : Fin cfg6.N) : (dat6 V c).after 9 t = iblk6 V c 9 t := by dsimp only [dat6]
theorem after6_10 (c : Dev nD) (t : Fin cfg6.N) : (dat6 V c).after 10 t = iblk6 V c 10 t := by dsimp only [dat6]
theorem after6_11 (c : Dev nD) (t : Fin cfg6.N) : (dat6 V c).after 11 t = iblk6 V c 11 t := by dsimp only [dat6]
theorem after6_12 (c : Dev nD) (t : Fin cfg6.N) : (dat6 V c).after 12 t = iblk6 V c 12 t := by dsimp only [dat6]
theorem after6_13 (c : Dev nD) (t : Fin cfg6.N) : (dat6 V c).after 13 t = iblk6 V c 13 t := by dsimp only [dat6]
theorem after6_14 (c : Dev nD) (t : Fin cfg6.N) : (dat6 V c).after 14 t = iblk6 V c 14 t := by dsimp only [dat6]
theorem after6_15 (c : Dev nD) (t : Fin cfg6.N) : (dat6 V c).after 15 t = iblk6 V c 15 t := by dsimp only [dat6]
theorem after6_16 (c : Dev nD) (t : Fin cfg6.N) : (dat6 V c).after 16 t = iblk6 V c 16 t := by dsimp only [dat6]
theorem after6_17 (c : Dev nD) (t : Fin cfg6.N) : (dat6 V c).after 17 t = iblk6 V c 17 t := by dsimp only [dat6]
theorem after6_18 (c : Dev nD) (t : Fin cfg6.N) : (dat6 V c).after 18 t = iblk6 V c 18 t := by dsimp only [dat6]
theorem after6_19 (c : Dev nD) (t : Fin cfg6.N) : (dat6 V c).after 19 t = out6_19 (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t) (iblk6 V c 14 t) (iblk6 V c 15 t) (iblk6 V c 16 t) (iblk6 V c 17 t) (iblk6 V c 18 t) := by dsimp only [dat6]
theorem after6_20 (c : Dev nD) (t : Fin cfg6.N) : (dat6 V c).after 20 t = out6_20 (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t) (iblk6 V c 14 t) (iblk6 V c 15 t) (iblk6 V c 16 t) (iblk6 V c 17 t) (iblk6 V c 18 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d
theorem before6_7 (c : Dev nD) (t : Fin cfg6.N) (d) : (dat6 V c).before 7 t d = iblk6 V c 7 t :=
  before6_7_of V (dat6 V c) (A_eq6 V c 7) (after6_7 V c) t d
theorem before6_8 (c : Dev nD) (t : Fin cfg6.N) (d) : (dat6 V c).before 8 t d = iblk6 V c 8 t :=
  before6_8_of V (dat6 V c) (A_eq6 V c 8) (after6_8 V c) t d
theorem before6_9 (c : Dev nD) (t : Fin cfg6.N) (d) : (dat6 V c).before 9 t d = iblk6 V c 9 t :=
  before6_9_of V (dat6 V c) (A_eq6 V c 9) (after6_9 V c) t d
theorem before6_10 (c : Dev nD) (t : Fin cfg6.N) (d) : (dat6 V c).before 10 t d = iblk6 V c 10 t :=
  before6_10_of V (dat6 V c) (A_eq6 V c 10) (after6_10 V c) t d
theorem before6_11 (c : Dev nD) (t : Fin cfg6.N) (d) : (dat6 V c).before 11 t d = iblk6 V c 11 t :=
  before6_11_of V (dat6 V c) (A_eq6 V c 11) (after6_11 V c) t d
theorem before6_12 (c : Dev nD) (t : Fin cfg6.N) (d) : (dat6 V c).before 12 t d = iblk6 V c 12 t :=
  before6_12_of V (dat6 V c) (A_eq6 V c 12) (after6_12 V c) t d
theorem before6_13 (c : Dev nD) (t : Fin cfg6.N) (d) : (dat6 V c).before 13 t d = iblk6 V c 13 t :=
  before6_13_of V (dat6 V c) (A_eq6 V c 13) (after6_13 V c) t d
theorem before6_14 (c : Dev nD) (t : Fin cfg6.N) (d) : (dat6 V c).before 14 t d = iblk6 V c 14 t :=
  before6_14_of V (dat6 V c) (A_eq6 V c 14) (after6_14 V c) t d
theorem before6_15 (c : Dev nD) (t : Fin cfg6.N) (d) : (dat6 V c).before 15 t d = iblk6 V c 15 t :=
  before6_15_of V (dat6 V c) (A_eq6 V c 15) (after6_15 V c) t d
theorem before6_16 (c : Dev nD) (t : Fin cfg6.N) (d) : (dat6 V c).before 16 t d = iblk6 V c 16 t :=
  before6_16_of V (dat6 V c) (A_eq6 V c 16) (after6_16 V c) t d
theorem before6_17 (c : Dev nD) (t : Fin cfg6.N) (d) : (dat6 V c).before 17 t d = iblk6 V c 17 t :=
  before6_17_of V (dat6 V c) (A_eq6 V c 17) (after6_17 V c) t d
theorem before6_18 (c : Dev nD) (t : Fin cfg6.N) (d) : (dat6 V c).before 18 t d = iblk6 V c 18 t :=
  before6_18_of V (dat6 V c) (A_eq6 V c 18) (after6_18 V c) t d

/-! ## The body obligation, at a generic point -/

/-- What the body is called with at point t, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d))
    ∗ (∃ d, owns (c : Thread nD τ) (st6_8 t) fullShare ((dat6 V c).before 8 t d))
    ∗ (∃ d, owns (c : Thread nD τ) (st6_9 t) fullShare ((dat6 V c).before 9 t d))
    ∗ (∃ d, owns (c : Thread nD τ) (st6_10 t) fullShare ((dat6 V c).before 10 t d))
    ∗ (∃ d, owns (c : Thread nD τ) (st6_11 t) fullShare ((dat6 V c).before 11 t d))
    ∗ (∃ d, owns (c : Thread nD τ) (st6_12 t) fullShare ((dat6 V c).before 12 t d))
    ∗ (∃ d, owns (c : Thread nD τ) (st6_13 t) fullShare ((dat6 V c).before 13 t d))
    ∗ (∃ d, owns (c : Thread nD τ) (st6_14 t) fullShare ((dat6 V c).before 14 t d))
    ∗ (∃ d, owns (c : Thread nD τ) (st6_15 t) fullShare ((dat6 V c).before 15 t d))
    ∗ (∃ d, owns (c : Thread nD τ) (st6_16 t) fullShare ((dat6 V c).before 16 t d))
    ∗ (∃ d, owns (c : Thread nD τ) (st6_17 t) fullShare ((dat6 V c).before 17 t d))
    ∗ (∃ d, owns (c : Thread nD τ) (st6_18 t) fullShare ((dat6 V c).before 18 t d))
    ∗ (∃ d, owns (c : Thread nD τ) (st6_19 t) fullShare ((dat6 V c).before 19 t d))
    ∗ (∃ d, owns (c : Thread nD τ) (st6_20 t) fullShare ((dat6 V c).before 20 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t)
    ∗ owns (c : Thread nD τ) (st6_8 t) fullShare ((dat6 V c).after 8 t)
    ∗ owns (c : Thread nD τ) (st6_9 t) fullShare ((dat6 V c).after 9 t)
    ∗ owns (c : Thread nD τ) (st6_10 t) fullShare ((dat6 V c).after 10 t)
    ∗ owns (c : Thread nD τ) (st6_11 t) fullShare ((dat6 V c).after 11 t)
    ∗ owns (c : Thread nD τ) (st6_12 t) fullShare ((dat6 V c).after 12 t)
    ∗ owns (c : Thread nD τ) (st6_13 t) fullShare ((dat6 V c).after 13 t)
    ∗ owns (c : Thread nD τ) (st6_14 t) fullShare ((dat6 V c).after 14 t)
    ∗ owns (c : Thread nD τ) (st6_15 t) fullShare ((dat6 V c).after 15 t)
    ∗ owns (c : Thread nD τ) (st6_16 t) fullShare ((dat6 V c).after 16 t)
    ∗ owns (c : Thread nD τ) (st6_17 t) fullShare ((dat6 V c).after 17 t)
    ∗ owns (c : Thread nD τ) (st6_18 t) fullShare ((dat6 V c).after 18 t)
    ∗ owns (c : Thread nD τ) (st6_19 t) fullShare ((dat6 V c).after 19 t)
    ∗ owns (c : Thread nD τ) (st6_20 t) fullShare ((dat6 V c).after 20 t))

set_option maxHeartbeats 4000000 in
/-- The body at any point: the inputs' memrefs hold their blocks, so the triple above applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6, before6_7, before6_8, before6_9, before6_10, before6_11, before6_12, before6_13, before6_14, before6_15, before6_16, before6_17, before6_18]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7, after6_8, after6_9, after6_10, after6_11, after6_12, after6_13, after6_14, after6_15, after6_16, after6_17, after6_18, after6_19, after6_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (sound_kernel6 c Set.univ _ _ _ _ _ _ _ _ _ _ _ _ _ _ _ _ _ _ _ _ _ _ _ _ _ _ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t) (iblk6 V c 14 t) (iblk6 V c 15 t) (iblk6 V c 16 t) (iblk6 V c 17 t) (iblk6 V c 18 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Tree

end
-- ==== Proof.KIRegion7.lean ====
/-
  Region 7 of the program (the internal level of 4 nodes), at any contents V of the buffers when the region is entered.
  A window's block at a grid point is the part of its array the point's index map selects. The body reads every input
  block whole, and writes each of its two output blocks whole and once: the hidden states, then the memory cells, each a
  pure function of the input blocks. So after the body each input's staging buffer still holds its block and each
  output's holds that function of the input blocks; this is the step the pipeline's launch theorem asks of a body.
-/
import proofs.«167239_j63453846831535_1_alg».proof.Proof.Gen.KernelIdeal.Launch
import proofs.«167239_j63453846831535_1_alg».proof.Proof.Gen.KernelIdeal.Skeleton
import proofs.«167239_j63453846831535_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Tree

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, whether the point fetched it or an
    earlier one did (its index has not moved since), for any proof data over these arrays whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, whether the point fetched it or an
    earlier one did (its index has not moved since), for any proof data over these arrays whose body leaves the block in place. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, whether the point fetched it or an
    earlier one did (its index has not moved since), for any proof data over these arrays whose body leaves the block in place. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, whether the point fetched it or an
    earlier one did (its index has not moved since), for any proof data over these arrays whose body leaves the block in place. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, whether the point fetched it or an
    earlier one did (its index has not moved since), for any proof data over these arrays whose body leaves the block in place. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5's current staging buffer holds its block at every point, whether the point fetched it or an
    earlier one did (its index has not moved since), for any proof data over these arrays whose body leaves the block in place. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-- Input window 6's current staging buffer holds its block at every point, whether the point fetched it or an
    earlier one did (its index has not moved since), for any proof data over these arrays whose body leaves the block in place. -/
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)

/-- Input window 7's current staging buffer holds its block at every point, whether the point fetched it or an
    earlier one did (its index has not moved since), for any proof data over these arrays whose body leaves the block in place. -/
theorem before7_7_of {c : Dev nD} (dat : Dat τ (Elt F) Unit ℕ (UR sig nD τ) ℕ cfg7 c) (hA : dat.A 7 = V c (Pipeline.arrRef spec7 7))
    (hafter : ∀ t, dat.after 7 t = iblk7 V c 7 t) (t : Fin cfg7.N) (d) : dat.before 7 t d = iblk7 V c 7 t :=
  (dat.before_in_eq_fetched 7 rfl (fun _ => rfl) (fun _ _ _ => rfl) (fun t => by rw [hafter]; unfold Dat.blockOf iblk7; rw [hA]; try rfl) t d).trans
    (by unfold Dat.fetched Dat.blockOf iblk7; rw [hA]; try rfl)

/-- Input window 8's current staging buffer holds its block at every point, whether the point fetched it or an
    earlier one did (its index has not moved since), for any proof data over these arrays whose body leaves the block in place. -/
theorem before7_8_of {c : Dev nD} (dat : Dat τ (Elt F) Unit ℕ (UR sig nD τ) ℕ cfg7 c) (hA : dat.A 8 = V c (Pipeline.arrRef spec7 8))
    (hafter : ∀ t, dat.after 8 t = iblk7 V c 8 t) (t : Fin cfg7.N) (d) : dat.before 8 t d = iblk7 V c 8 t :=
  (dat.before_in_eq_fetched 8 rfl (fun _ => rfl) (fun _ _ _ => rfl) (fun t => by rw [hafter]; unfold Dat.blockOf iblk7; rw [hA]; try rfl) t d).trans
    (by unfold Dat.fetched Dat.blockOf iblk7; rw [hA]; try rfl)

/-- Input window 9's current staging buffer holds its block at every point, whether the point fetched it or an
    earlier one did (its index has not moved since), for any proof data over these arrays whose body leaves the block in place. -/
theorem before7_9_of {c : Dev nD} (dat : Dat τ (Elt F) Unit ℕ (UR sig nD τ) ℕ cfg7 c) (hA : dat.A 9 = V c (Pipeline.arrRef spec7 9))
    (hafter : ∀ t, dat.after 9 t = iblk7 V c 9 t) (t : Fin cfg7.N) (d) : dat.before 9 t d = iblk7 V c 9 t :=
  (dat.before_in_eq_fetched 9 rfl (fun _ => rfl) (fun _ _ _ => rfl) (fun t => by rw [hafter]; unfold Dat.blockOf iblk7; rw [hA]; try rfl) t d).trans
    (by unfold Dat.fetched Dat.blockOf iblk7; rw [hA]; try rfl)

/-- Input window 10's current staging buffer holds its block at every point, whether the point fetched it or an
    earlier one did (its index has not moved since), for any proof data over these arrays whose body leaves the block in place. -/
theorem before7_10_of {c : Dev nD} (dat : Dat τ (Elt F) Unit ℕ (UR sig nD τ) ℕ cfg7 c) (hA : dat.A 10 = V c (Pipeline.arrRef spec7 10))
    (hafter : ∀ t, dat.after 10 t = iblk7 V c 10 t) (t : Fin cfg7.N) (d) : dat.before 10 t d = iblk7 V c 10 t :=
  (dat.before_in_eq_fetched 10 rfl (fun _ => rfl) (fun _ _ _ => rfl) (fun t => by rw [hafter]; unfold Dat.blockOf iblk7; rw [hA]; try rfl) t d).trans
    (by unfold Dat.fetched Dat.blockOf iblk7; rw [hA]; try rfl)

/-- Input window 11's current staging buffer holds its block at every point, whether the point fetched it or an
    earlier one did (its index has not moved since), for any proof data over these arrays whose body leaves the block in place. -/
theorem before7_11_of {c : Dev nD} (dat : Dat τ (Elt F) Unit ℕ (UR sig nD τ) ℕ cfg7 c) (hA : dat.A 11 = V c (Pipeline.arrRef spec7 11))
    (hafter : ∀ t, dat.after 11 t = iblk7 V c 11 t) (t : Fin cfg7.N) (d) : dat.before 11 t d = iblk7 V c 11 t :=
  (dat.before_in_eq_fetched 11 rfl (fun _ => rfl) (fun _ _ _ => rfl) (fun t => by rw [hafter]; unfold Dat.blockOf iblk7; rw [hA]; try rfl) t d).trans
    (by unfold Dat.fetched Dat.blockOf iblk7; rw [hA]; try rfl)

/-- Input window 12's current staging buffer holds its block at every point, whether the point fetched it or an
    earlier one did (its index has not moved since), for any proof data over these arrays whose body leaves the block in place. -/
theorem before7_12_of {c : Dev nD} (dat : Dat τ (Elt F) Unit ℕ (UR sig nD τ) ℕ cfg7 c) (hA : dat.A 12 = V c (Pipeline.arrRef spec7 12))
    (hafter : ∀ t, dat.after 12 t = iblk7 V c 12 t) (t : Fin cfg7.N) (d) : dat.before 12 t d = iblk7 V c 12 t :=
  (dat.before_in_eq_fetched 12 rfl (fun _ => rfl) (fun _ _ _ => rfl) (fun t => by rw [hafter]; unfold Dat.blockOf iblk7; rw [hA]; try rfl) t d).trans
    (by unfold Dat.fetched Dat.blockOf iblk7; rw [hA]; try rfl)

/-- Input window 13's current staging buffer holds its block at every point, whether the point fetched it or an
    earlier one did (its index has not moved since), for any proof data over these arrays whose body leaves the block in place. -/
theorem before7_13_of {c : Dev nD} (dat : Dat τ (Elt F) Unit ℕ (UR sig nD τ) ℕ cfg7 c) (hA : dat.A 13 = V c (Pipeline.arrRef spec7 13))
    (hafter : ∀ t, dat.after 13 t = iblk7 V c 13 t) (t : Fin cfg7.N) (d) : dat.before 13 t d = iblk7 V c 13 t :=
  (dat.before_in_eq_fetched 13 rfl (fun _ => rfl) (fun _ _ _ => rfl) (fun t => by rw [hafter]; unfold Dat.blockOf iblk7; rw [hA]; try rfl) t d).trans
    (by unfold Dat.fetched Dat.blockOf iblk7; rw [hA]; try rfl)

/-- Input window 14's current staging buffer holds its block at every point, whether the point fetched it or an
    earlier one did (its index has not moved since), for any proof data over these arrays whose body leaves the block in place. -/
theorem before7_14_of {c : Dev nD} (dat : Dat τ (Elt F) Unit ℕ (UR sig nD τ) ℕ cfg7 c) (hA : dat.A 14 = V c (Pipeline.arrRef spec7 14))
    (hafter : ∀ t, dat.after 14 t = iblk7 V c 14 t) (t : Fin cfg7.N) (d) : dat.before 14 t d = iblk7 V c 14 t :=
  (dat.before_in_eq_fetched 14 rfl (fun _ => rfl) (fun _ _ _ => rfl) (fun t => by rw [hafter]; unfold Dat.blockOf iblk7; rw [hA]; try rfl) t d).trans
    (by unfold Dat.fetched Dat.blockOf iblk7; rw [hA]; try rfl)

/-- Input window 15's current staging buffer holds its block at every point, whether the point fetched it or an
    earlier one did (its index has not moved since), for any proof data over these arrays whose body leaves the block in place. -/
theorem before7_15_of {c : Dev nD} (dat : Dat τ (Elt F) Unit ℕ (UR sig nD τ) ℕ cfg7 c) (hA : dat.A 15 = V c (Pipeline.arrRef spec7 15))
    (hafter : ∀ t, dat.after 15 t = iblk7 V c 15 t) (t : Fin cfg7.N) (d) : dat.before 15 t d = iblk7 V c 15 t :=
  (dat.before_in_eq_fetched 15 rfl (fun _ => rfl) (fun _ _ _ => rfl) (fun t => by rw [hafter]; unfold Dat.blockOf iblk7; rw [hA]; try rfl) t d).trans
    (by unfold Dat.fetched Dat.blockOf iblk7; rw [hA]; try rfl)

/-- Input window 16's current staging buffer holds its block at every point, whether the point fetched it or an
    earlier one did (its index has not moved since), for any proof data over these arrays whose body leaves the block in place. -/
theorem before7_16_of {c : Dev nD} (dat : Dat τ (Elt F) Unit ℕ (UR sig nD τ) ℕ cfg7 c) (hA : dat.A 16 = V c (Pipeline.arrRef spec7 16))
    (hafter : ∀ t, dat.after 16 t = iblk7 V c 16 t) (t : Fin cfg7.N) (d) : dat.before 16 t d = iblk7 V c 16 t :=
  (dat.before_in_eq_fetched 16 rfl (fun _ => rfl) (fun _ _ _ => rfl) (fun t => by rw [hafter]; unfold Dat.blockOf iblk7; rw [hA]; try rfl) t d).trans
    (by unfold Dat.fetched Dat.blockOf iblk7; rw [hA]; try rfl)

/-- Input window 17's current staging buffer holds its block at every point, whether the point fetched it or an
    earlier one did (its index has not moved since), for any proof data over these arrays whose body leaves the block in place. -/
theorem before7_17_of {c : Dev nD} (dat : Dat τ (Elt F) Unit ℕ (UR sig nD τ) ℕ cfg7 c) (hA : dat.A 17 = V c (Pipeline.arrRef spec7 17))
    (hafter : ∀ t, dat.after 17 t = iblk7 V c 17 t) (t : Fin cfg7.N) (d) : dat.before 17 t d = iblk7 V c 17 t :=
  (dat.before_in_eq_fetched 17 rfl (fun _ => rfl) (fun _ _ _ => rfl) (fun t => by rw [hafter]; unfold Dat.blockOf iblk7; rw [hA]; try rfl) t d).trans
    (by unfold Dat.fetched Dat.blockOf iblk7; rw [hA]; try rfl)

/-- Input window 18's current staging buffer holds its block at every point, whether the point fetched it or an
    earlier one did (its index has not moved since), for any proof data over these arrays whose body leaves the block in place. -/
theorem before7_18_of {c : Dev nD} (dat : Dat τ (Elt F) Unit ℕ (UR sig nD τ) ℕ cfg7 c) (hA : dat.A 18 = V c (Pipeline.arrRef spec7 18))
    (hafter : ∀ t, dat.after 18 t = iblk7 V c 18 t) (t : Fin cfg7.N) (d) : dat.before 18 t d = iblk7 V c 18 t :=
  (dat.before_in_eq_fetched 18 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: every load and store is through a buffer's whole rectangle -/

abbrev r7_S4x300 : Rect S4x300 := Rect.unit (s := S4x300) ![0, 0] S4x300.size inb_S4x300_S4x300_0_0
abbrev r7_S4x4x150 : Rect S4x4x150 := Rect.unit (s := S4x4x150) ![0, 0, 0] S4x4x150.size inb_S4x4x150_S4x4x150_0_0_0
abbrev r7_S300x150 : Rect S300x150 := Rect.unit (s := S300x150) ![0, 0] S300x150.size inb_S300x150_S300x150_0_0
abbrev r7_S1x150 : Rect S1x150 := Rect.unit (s := S1x150) ![0, 0] S1x150.size inb_S1x150_S1x150_0_0
abbrev r7_S150x150 : Rect S150x150 := Rect.unit (s := S150x150) ![0, 0] S150x150.size inb_S150x150_S150x150_0_0
abbrev r7_S4x150 : Rect S4x150 := Rect.unit (s := S4x150) ![0, 0] S4x150.size inb_S4x150_S4x150_0_0

/-! ## What the body leaves in each output window's buffer -/

/-- Output window 19's staging buffer after the body (the hidden states), from the input windows' blocks. -/
def out7_19 (x0 : Vec F S4x300 .f32) (x1 : Vec F S4x4x150 .f32) (x2 : Vec F S4x4x150 .f32) (x3 : Vec F S300x150 .f32) (x4 : Vec F S1x150 .f32) (x5 : Vec F S300x150 .f32) (x6 : Vec F S1x150 .f32) (x7 : Vec F S300x150 .f32) (x8 : Vec F S1x150 .f32) (x9 : Vec F S300x150 .f32) (x10 : Vec F S1x150 .f32) (x11 : Vec F S150x150 .f32) (x12 : Vec F S1x150 .f32) (x13 : Vec F S150x150 .f32) (x14 : Vec F S1x150 .f32) (x15 : Vec F S150x150 .f32) (x16 : Vec F S1x150 .f32) (x17 : Vec F S150x150 .f32) (x18 : Vec F S1x150 .f32) : Vec F S4x150 .f32 :=
  View.canon [⟨r7_S4x150, k7_pay2 (k7_pay5 (View.ld x1 r7_S4x4x150)) (k7_pay6 (View.ld x0 r7_S4x300) (View.ld x1 r7_S4x4x150) (View.ld x2 r7_S4x4x150) (View.ld x13 r7_S150x150) (View.ld x14 r7_S1x150) (View.ld x5 r7_S300x150) (View.ld x6 r7_S1x150)) (k7_pay8 (k7_pay5 (View.ld x1 r7_S4x4x150)) (k7_pay7 (View.ld x0 r7_S4x300) (View.ld x3 r7_S300x150)) (View.ld x4 r7_S1x150) (View.ld x11 r7_S150x150) (View.ld x12 r7_S1x150)) (k7_pay9 (k7_pay4 (View.ld x0 r7_S4x300)) (k7_pay5 (View.ld x1 r7_S4x4x150)) (View.ld x9 r7_S300x150) (View.ld x10 r7_S1x150) (View.ld x17 r7_S150x150) (View.ld x18 r7_S1x150)) (k7_pay10 (k7_pay4 (View.ld x0 r7_S4x300)) (View.ld x7 r7_S300x150) (View.ld x8 r7_S1x150)) (View.ld x15 r7_S150x150) (View.ld x16 r7_S1x150)⟩]

/-- Its one store is through the whole rectangle, so it covers the buffer. -/
theorem cover7_19 (p0 : Vec F S4x150 .f32) (y : S4x150.Idx) :
    ∃ pc ∈ ([⟨r7_S4x150, p0⟩] : List (View.Piece (Elt F) S4x150 .f32)), y ∈ pc.1.set :=
  View.cover_of_tiled [⟨r7_S4x150, p0⟩] S4x150.size (by rfl) y

/-- Output window 20's staging buffer after the body (the memory cells), from the input windows' blocks. -/
def out7_20 (x0 : Vec F S4x300 .f32) (x1 : Vec F S4x4x150 .f32) (x2 : Vec F S4x4x150 .f32) (x3 : Vec F S300x150 .f32) (x4 : Vec F S1x150 .f32) (x5 : Vec F S300x150 .f32) (x6 : Vec F S1x150 .f32) (x7 : Vec F S300x150 .f32) (x8 : Vec F S1x150 .f32) (x9 : Vec F S300x150 .f32) (x10 : Vec F S1x150 .f32) (x11 : Vec F S150x150 .f32) (x12 : Vec F S1x150 .f32) (x13 : Vec F S150x150 .f32) (x14 : Vec F S1x150 .f32) (x15 : Vec F S150x150 .f32) (x16 : Vec F S1x150 .f32) (x17 : Vec F S150x150 .f32) (x18 : Vec F S1x150 .f32) : Vec F S4x150 .f32 :=
  View.canon [⟨r7_S4x150, k7_pay1 (k7_pay5 (View.ld x1 r7_S4x4x150)) (k7_pay6 (View.ld x0 r7_S4x300) (View.ld x1 r7_S4x4x150) (View.ld x2 r7_S4x4x150) (View.ld x13 r7_S150x150) (View.ld x14 r7_S1x150) (View.ld x5 r7_S300x150) (View.ld x6 r7_S1x150)) (k7_pay8 (k7_pay5 (View.ld x1 r7_S4x4x150)) (k7_pay7 (View.ld x0 r7_S4x300) (View.ld x3 r7_S300x150)) (View.ld x4 r7_S1x150) (View.ld x11 r7_S150x150) (View.ld x12 r7_S1x150)) (k7_pay10 (k7_pay4 (View.ld x0 r7_S4x300)) (View.ld x7 r7_S300x150) (View.ld x8 r7_S1x150)) (View.ld x15 r7_S150x150) (View.ld x16 r7_S1x150)⟩]

/-- Its one store is through the whole rectangle, so it covers the buffer. -/
theorem cover7_20 (p0 : Vec F S4x150 .f32) (y : S4x150.Idx) :
    ∃ pc ∈ ([⟨r7_S4x150, p0⟩] : List (View.Piece (Elt F) S4x150 .f32)), y ∈ pc.1.set :=
  View.cover_of_tiled [⟨r7_S4x150, p0⟩] S4x150.size (by rfl) y

/-! ## The body's triple -/

set_option maxHeartbeats 4000000 in
/-- The kernel body on whole staging memrefs, the inputs' at contents xW and the outputs' at anything, runs to a
    continuation that holds the inputs' as they were and each output's at its function of the inputs'. -/
theorem sound_kernel7 (c : Dev nD) (E : Set ℕ) (i : grid7.Coords) (arg1 : Memref sig .tc .vmem S4x300 .f32) (harg1 : arg1.IsWhole) (arg2 : Memref sig .tc .vmem S4x4x150 .f32) (harg2 : arg2.IsWhole) (arg3 : Memref sig .tc .vmem S4x4x150 .f32) (harg3 : arg3.IsWhole) (arg4 : Memref sig .tc .vmem S300x150 .f32) (harg4 : arg4.IsWhole) (arg5 : Memref sig .tc .vmem S1x150 .f32) (harg5 : arg5.IsWhole) (arg6 : Memref sig .tc .vmem S300x150 .f32) (harg6 : arg6.IsWhole) (arg7 : Memref sig .tc .vmem S1x150 .f32) (harg7 : arg7.IsWhole) (arg8 : Memref sig .tc .vmem S300x150 .f32) (harg8 : arg8.IsWhole) (arg9 : Memref sig .tc .vmem S1x150 .f32) (harg9 : arg9.IsWhole) (arg10 : Memref sig .tc .vmem S300x150 .f32) (harg10 : arg10.IsWhole) (arg11 : Memref sig .tc .vmem S1x150 .f32) (harg11 : arg11.IsWhole) (arg12 : Memref sig .tc .vmem S150x150 .f32) (harg12 : arg12.IsWhole) (arg13 : Memref sig .tc .vmem S1x150 .f32) (harg13 : arg13.IsWhole) (arg14 : Memref sig .tc .vmem S150x150 .f32) (harg14 : arg14.IsWhole) (arg15 : Memref sig .tc .vmem S1x150 .f32) (harg15 : arg15.IsWhole) (arg16 : Memref sig .tc .vmem S150x150 .f32) (harg16 : arg16.IsWhole) (arg17 : Memref sig .tc .vmem S1x150 .f32) (harg17 : arg17.IsWhole) (arg18 : Memref sig .tc .vmem S150x150 .f32) (harg18 : arg18.IsWhole) (arg19 : Memref sig .tc .vmem S1x150 .f32) (harg19 : arg19.IsWhole) (arg20 : Memref sig .tc .vmem S4x150 .f32) (harg20 : arg20.IsWhole) (arg21 : Memref sig .tc .vmem S4x150 .f32) (harg21 : arg21.IsWhole)
    (x0 : Vec F S4x300 .f32) (x1 : Vec F S4x4x150 .f32) (x2 : Vec F S4x4x150 .f32) (x3 : Vec F S300x150 .f32) (x4 : Vec F S1x150 .f32) (x5 : Vec F S300x150 .f32) (x6 : Vec F S1x150 .f32) (x7 : Vec F S300x150 .f32) (x8 : Vec F S1x150 .f32) (x9 : Vec F S300x150 .f32) (x10 : Vec F S1x150 .f32) (x11 : Vec F S150x150 .f32) (x12 : Vec F S1x150 .f32) (x13 : Vec F S150x150 .f32) (x14 : Vec F S1x150 .f32) (x15 : Vec F S150x150 .f32) (x16 : Vec F S1x150 .f32) (x17 : Vec F S150x150 .f32) (x18 : Vec F S1x150 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare (out7_19 x0 x1 x2 x3 x4 x5 x6 x7 x8 x9 x10 x11 x12 x13 x14 x15 x16 x17 x18) ∗ owns (c : Thread nD τ) arg21 fullShare (out7_20 x0 x1 x2 x3 x4 x5 x6 x7 x8 x9 x10 x11 x12 x13 x14 x15 x16 x17 x18)) -∗ K ⟨⟩))
      ⊢ wp frame (wpE (defs₀ (F := F)) Variants.none c none) E (cc7__internal_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc7__internal_kernel_eq_skeleton]; unfold cc7__internal_kernel_skel
  simp only [k7_part1_eq_skeleton]; unfold k7_part1_skel
  simp only [k7_part2_eq_skeleton]; unfold k7_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, Hk⟩
  subst hf0 hf1 hf2 hf3 hf4 hf5 hf6 hf7 hf8 hf9 hf10 hf11 hf12 hf13 hf14 hf15 hf16 hf17 hf18
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists _; isplitr
    swap; · iexact H19
    ipureintro
    exact View.read_writes_eq_canon _ _ _ (cover7_19 _)
  iexists _; isplitr
  swap; · iexact H20
  ipureintro
  exact View.read_writes_eq_canon _ _ _ (cover7_20 _)

/-! ## The pipeline's proof data -/

/-- The proof data of this pipeline on core c: the arrays as the region finds them; after the body at point t each
    input's buffer at its block and each output's at its function of the input blocks; nothing owed, full shares, and
    the invariant that carries only what the body does not touch. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => iblk7 V c 8 t
    | ⟨9, _⟩ => iblk7 V c 9 t
    | ⟨10, _⟩ => iblk7 V c 10 t
    | ⟨11, _⟩ => iblk7 V c 11 t
    | ⟨12, _⟩ => iblk7 V c 12 t
    | ⟨13, _⟩ => iblk7 V c 13 t
    | ⟨14, _⟩ => iblk7 V c 14 t
    | ⟨15, _⟩ => iblk7 V c 15 t
    | ⟨16, _⟩ => iblk7 V c 16 t
    | ⟨17, _⟩ => iblk7 V c 17 t
    | ⟨18, _⟩ => iblk7 V c 18 t
    | ⟨19, _⟩ => out7_19 (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) (iblk7 V c 10 t) (iblk7 V c 11 t) (iblk7 V c 12 t) (iblk7 V c 13 t) (iblk7 V c 14 t) (iblk7 V c 15 t) (iblk7 V c 16 t) (iblk7 V c 17 t) (iblk7 V c 18 t)
    | ⟨20, _⟩ => out7_20 (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) (iblk7 V c 10 t) (iblk7 V c 11 t) (iblk7 V c 12 t) (iblk7 V c 13 t) (iblk7 V c 14 t) (iblk7 V c 15 t) (iblk7 V c 16 t) (iblk7 V c 17 t) (iblk7 V c 18 t)
    | ⟨n + 21, h⟩ => absurd h (Nat.not_lt.mpr (Nat.le_add_left 21 n))
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = iblk7 V c 7 t := by dsimp only [dat7]
theorem after7_8 (c : Dev nD) (t : Fin cfg7.N) : (dat7 V c).after 8 t = iblk7 V c 8 t := by dsimp only [dat7]
theorem after7_9 (c : Dev nD) (t : Fin cfg7.N) : (dat7 V c).after 9 t = iblk7 V c 9 t := by dsimp only [dat7]
theorem after7_10 (c : Dev nD) (t : Fin cfg7.N) : (dat7 V c).after 10 t = iblk7 V c 10 t := by dsimp only [dat7]
theorem after7_11 (c : Dev nD) (t : Fin cfg7.N) : (dat7 V c).after 11 t = iblk7 V c 11 t := by dsimp only [dat7]
theorem after7_12 (c : Dev nD) (t : Fin cfg7.N) : (dat7 V c).after 12 t = iblk7 V c 12 t := by dsimp only [dat7]
theorem after7_13 (c : Dev nD) (t : Fin cfg7.N) : (dat7 V c).after 13 t = iblk7 V c 13 t := by dsimp only [dat7]
theorem after7_14 (c : Dev nD) (t : Fin cfg7.N) : (dat7 V c).after 14 t = iblk7 V c 14 t := by dsimp only [dat7]
theorem after7_15 (c : Dev nD) (t : Fin cfg7.N) : (dat7 V c).after 15 t = iblk7 V c 15 t := by dsimp only [dat7]
theorem after7_16 (c : Dev nD) (t : Fin cfg7.N) : (dat7 V c).after 16 t = iblk7 V c 16 t := by dsimp only [dat7]
theorem after7_17 (c : Dev nD) (t : Fin cfg7.N) : (dat7 V c).after 17 t = iblk7 V c 17 t := by dsimp only [dat7]
theorem after7_18 (c : Dev nD) (t : Fin cfg7.N) : (dat7 V c).after 18 t = iblk7 V c 18 t := by dsimp only [dat7]
theorem after7_19 (c : Dev nD) (t : Fin cfg7.N) : (dat7 V c).after 19 t = out7_19 (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) (iblk7 V c 10 t) (iblk7 V c 11 t) (iblk7 V c 12 t) (iblk7 V c 13 t) (iblk7 V c 14 t) (iblk7 V c 15 t) (iblk7 V c 16 t) (iblk7 V c 17 t) (iblk7 V c 18 t) := by dsimp only [dat7]
theorem after7_20 (c : Dev nD) (t : Fin cfg7.N) : (dat7 V c).after 20 t = out7_20 (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) (iblk7 V c 10 t) (iblk7 V c 11 t) (iblk7 V c 12 t) (iblk7 V c 13 t) (iblk7 V c 14 t) (iblk7 V c 15 t) (iblk7 V c 16 t) (iblk7 V c 17 t) (iblk7 V c 18 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d
theorem before7_7 (c : Dev nD) (t : Fin cfg7.N) (d) : (dat7 V c).before 7 t d = iblk7 V c 7 t :=
  before7_7_of V (dat7 V c) (A_eq7 V c 7) (after7_7 V c) t d
theorem before7_8 (c : Dev nD) (t : Fin cfg7.N) (d) : (dat7 V c).before 8 t d = iblk7 V c 8 t :=
  before7_8_of V (dat7 V c) (A_eq7 V c 8) (after7_8 V c) t d
theorem before7_9 (c : Dev nD) (t : Fin cfg7.N) (d) : (dat7 V c).before 9 t d = iblk7 V c 9 t :=
  before7_9_of V (dat7 V c) (A_eq7 V c 9) (after7_9 V c) t d
theorem before7_10 (c : Dev nD) (t : Fin cfg7.N) (d) : (dat7 V c).before 10 t d = iblk7 V c 10 t :=
  before7_10_of V (dat7 V c) (A_eq7 V c 10) (after7_10 V c) t d
theorem before7_11 (c : Dev nD) (t : Fin cfg7.N) (d) : (dat7 V c).before 11 t d = iblk7 V c 11 t :=
  before7_11_of V (dat7 V c) (A_eq7 V c 11) (after7_11 V c) t d
theorem before7_12 (c : Dev nD) (t : Fin cfg7.N) (d) : (dat7 V c).before 12 t d = iblk7 V c 12 t :=
  before7_12_of V (dat7 V c) (A_eq7 V c 12) (after7_12 V c) t d
theorem before7_13 (c : Dev nD) (t : Fin cfg7.N) (d) : (dat7 V c).before 13 t d = iblk7 V c 13 t :=
  before7_13_of V (dat7 V c) (A_eq7 V c 13) (after7_13 V c) t d
theorem before7_14 (c : Dev nD) (t : Fin cfg7.N) (d) : (dat7 V c).before 14 t d = iblk7 V c 14 t :=
  before7_14_of V (dat7 V c) (A_eq7 V c 14) (after7_14 V c) t d
theorem before7_15 (c : Dev nD) (t : Fin cfg7.N) (d) : (dat7 V c).before 15 t d = iblk7 V c 15 t :=
  before7_15_of V (dat7 V c) (A_eq7 V c 15) (after7_15 V c) t d
theorem before7_16 (c : Dev nD) (t : Fin cfg7.N) (d) : (dat7 V c).before 16 t d = iblk7 V c 16 t :=
  before7_16_of V (dat7 V c) (A_eq7 V c 16) (after7_16 V c) t d
theorem before7_17 (c : Dev nD) (t : Fin cfg7.N) (d) : (dat7 V c).before 17 t d = iblk7 V c 17 t :=
  before7_17_of V (dat7 V c) (A_eq7 V c 17) (after7_17 V c) t d
theorem before7_18 (c : Dev nD) (t : Fin cfg7.N) (d) : (dat7 V c).before 18 t d = iblk7 V c 18 t :=
  before7_18_of V (dat7 V c) (A_eq7 V c 18) (after7_18 V c) t d

/-! ## The body obligation, at a generic point -/

/-- What the body is called with at point t, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d))
    ∗ (∃ d, owns (c : Thread nD τ) (st7_8 t) fullShare ((dat7 V c).before 8 t d))
    ∗ (∃ d, owns (c : Thread nD τ) (st7_9 t) fullShare ((dat7 V c).before 9 t d))
    ∗ (∃ d, owns (c : Thread nD τ) (st7_10 t) fullShare ((dat7 V c).before 10 t d))
    ∗ (∃ d, owns (c : Thread nD τ) (st7_11 t) fullShare ((dat7 V c).before 11 t d))
    ∗ (∃ d, owns (c : Thread nD τ) (st7_12 t) fullShare ((dat7 V c).before 12 t d))
    ∗ (∃ d, owns (c : Thread nD τ) (st7_13 t) fullShare ((dat7 V c).before 13 t d))
    ∗ (∃ d, owns (c : Thread nD τ) (st7_14 t) fullShare ((dat7 V c).before 14 t d))
    ∗ (∃ d, owns (c : Thread nD τ) (st7_15 t) fullShare ((dat7 V c).before 15 t d))
    ∗ (∃ d, owns (c : Thread nD τ) (st7_16 t) fullShare ((dat7 V c).before 16 t d))
    ∗ (∃ d, owns (c : Thread nD τ) (st7_17 t) fullShare ((dat7 V c).before 17 t d))
    ∗ (∃ d, owns (c : Thread nD τ) (st7_18 t) fullShare ((dat7 V c).before 18 t d))
    ∗ (∃ d, owns (c : Thread nD τ) (st7_19 t) fullShare ((dat7 V c).before 19 t d))
    ∗ (∃ d, owns (c : Thread nD τ) (st7_20 t) fullShare ((dat7 V c).before 20 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t)
    ∗ owns (c : Thread nD τ) (st7_8 t) fullShare ((dat7 V c).after 8 t)
    ∗ owns (c : Thread nD τ) (st7_9 t) fullShare ((dat7 V c).after 9 t)
    ∗ owns (c : Thread nD τ) (st7_10 t) fullShare ((dat7 V c).after 10 t)
    ∗ owns (c : Thread nD τ) (st7_11 t) fullShare ((dat7 V c).after 11 t)
    ∗ owns (c : Thread nD τ) (st7_12 t) fullShare ((dat7 V c).after 12 t)
    ∗ owns (c : Thread nD τ) (st7_13 t) fullShare ((dat7 V c).after 13 t)
    ∗ owns (c : Thread nD τ) (st7_14 t) fullShare ((dat7 V c).after 14 t)
    ∗ owns (c : Thread nD τ) (st7_15 t) fullShare ((dat7 V c).after 15 t)
    ∗ owns (c : Thread nD τ) (st7_16 t) fullShare ((dat7 V c).after 16 t)
    ∗ owns (c : Thread nD τ) (st7_17 t) fullShare ((dat7 V c).after 17 t)
    ∗ owns (c : Thread nD τ) (st7_18 t) fullShare ((dat7 V c).after 18 t)
    ∗ owns (c : Thread nD τ) (st7_19 t) fullShare ((dat7 V c).after 19 t)
    ∗ owns (c : Thread nD τ) (st7_20 t) fullShare ((dat7 V c).after 20 t))

set_option maxHeartbeats 4000000 in
/-- The body at any point: the inputs' memrefs hold their blocks, so the triple above applies; the invariant and the
    core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6, before7_7, before7_8, before7_9, before7_10, before7_11, before7_12, before7_13, before7_14, before7_15, before7_16, before7_17, before7_18]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7, after7_8, after7_9, after7_10, after7_11, after7_12, after7_13, after7_14, after7_15, after7_16, after7_17, after7_18, after7_19, after7_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (sound_kernel7 c Set.univ _ _ _ _ _ _ _ _ _ _ _ _ _ _ _ _ _ _ _ _ _ _ _ _ _ _ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) (iblk7 V c 10 t) (iblk7 V c 11 t) (iblk7 V c 12 t) (iblk7 V c 13 t) (iblk7 V c 14 t) (iblk7 V c 15 t) (iblk7 V c 16 t) (iblk7 V c 17 t) (iblk7 V c 18 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Tree

end
-- ==== Proof.KIRegion8.lean ====
/-
  Region 8 of the program (the internal level of 1 nodes), at any contents V of the buffers when the region is entered.
  A window's block at a grid point is the part of its array the point's index map selects. The body reads every input
  block whole, and writes each of its two output blocks whole and once: the hidden states, then the memory cells, each a
  pure function of the input blocks. So after the body each input's staging buffer still holds its block and each
  output's holds that function of the input blocks; this is the step the pipeline's launch theorem asks of a body.
-/
import proofs.«167239_j63453846831535_1_alg».proof.Proof.Gen.KernelIdeal.Launch
import proofs.«167239_j63453846831535_1_alg».proof.Proof.Gen.KernelIdeal.Skeleton
import proofs.«167239_j63453846831535_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Tree

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, whether the point fetched it or an
    earlier one did (its index has not moved since), for any proof data over these arrays whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, whether the point fetched it or an
    earlier one did (its index has not moved since), for any proof data over these arrays whose body leaves the block in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, whether the point fetched it or an
    earlier one did (its index has not moved since), for any proof data over these arrays whose body leaves the block in place. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current staging buffer holds its block at every point, whether the point fetched it or an
    earlier one did (its index has not moved since), for any proof data over these arrays whose body leaves the block in place. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's current staging buffer holds its block at every point, whether the point fetched it or an
    earlier one did (its index has not moved since), for any proof data over these arrays whose body leaves the block in place. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- Input window 5's current staging buffer holds its block at every point, whether the point fetched it or an
    earlier one did (its index has not moved since), for any proof data over these arrays whose body leaves the block in place. -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-- Input window 6's current staging buffer holds its block at every point, whether the point fetched it or an
    earlier one did (its index has not moved since), for any proof data over these arrays whose body leaves the block in place. -/
theorem before8_6_of {c : Dev nD} (dat : Dat τ (Elt F) Unit ℕ (UR sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)

/-- Input window 7's current staging buffer holds its block at every point, whether the point fetched it or an
    earlier one did (its index has not moved since), for any proof data over these arrays whose body leaves the block in place. -/
theorem before8_7_of {c : Dev nD} (dat : Dat τ (Elt F) Unit ℕ (UR sig nD τ) ℕ cfg8 c) (hA : dat.A 7 = V c (Pipeline.arrRef spec8 7))
    (hafter : ∀ t, dat.after 7 t = iblk8 V c 7 t) (t : Fin cfg8.N) (d) : dat.before 7 t d = iblk8 V c 7 t :=
  (dat.before_in_eq_fetched 7 rfl (fun _ => rfl) (fun _ _ _ => rfl) (fun t => by rw [hafter]; unfold Dat.blockOf iblk8; rw [hA]; try rfl) t d).trans
    (by unfold Dat.fetched Dat.blockOf iblk8; rw [hA]; try rfl)

/-- Input window 8's current staging buffer holds its block at every point, whether the point fetched it or an
    earlier one did (its index has not moved since), for any proof data over these arrays whose body leaves the block in place. -/
theorem before8_8_of {c : Dev nD} (dat : Dat τ (Elt F) Unit ℕ (UR sig nD τ) ℕ cfg8 c) (hA : dat.A 8 = V c (Pipeline.arrRef spec8 8))
    (hafter : ∀ t, dat.after 8 t = iblk8 V c 8 t) (t : Fin cfg8.N) (d) : dat.before 8 t d = iblk8 V c 8 t :=
  (dat.before_in_eq_fetched 8 rfl (fun _ => rfl) (fun _ _ _ => rfl) (fun t => by rw [hafter]; unfold Dat.blockOf iblk8; rw [hA]; try rfl) t d).trans
    (by unfold Dat.fetched Dat.blockOf iblk8; rw [hA]; try rfl)

/-- Input window 9's current staging buffer holds its block at every point, whether the point fetched it or an
    earlier one did (its index has not moved since), for any proof data over these arrays whose body leaves the block in place. -/
theorem before8_9_of {c : Dev nD} (dat : Dat τ (Elt F) Unit ℕ (UR sig nD τ) ℕ cfg8 c) (hA : dat.A 9 = V c (Pipeline.arrRef spec8 9))
    (hafter : ∀ t, dat.after 9 t = iblk8 V c 9 t) (t : Fin cfg8.N) (d) : dat.before 9 t d = iblk8 V c 9 t :=
  (dat.before_in_eq_fetched 9 rfl (fun _ => rfl) (fun _ _ _ => rfl) (fun t => by rw [hafter]; unfold Dat.blockOf iblk8; rw [hA]; try rfl) t d).trans
    (by unfold Dat.fetched Dat.blockOf iblk8; rw [hA]; try rfl)

/-- Input window 10's current staging buffer holds its block at every point, whether the point fetched it or an
    earlier one did (its index has not moved since), for any proof data over these arrays whose body leaves the block in place. -/
theorem before8_10_of {c : Dev nD} (dat : Dat τ (Elt F) Unit ℕ (UR sig nD τ) ℕ cfg8 c) (hA : dat.A 10 = V c (Pipeline.arrRef spec8 10))
    (hafter : ∀ t, dat.after 10 t = iblk8 V c 10 t) (t : Fin cfg8.N) (d) : dat.before 10 t d = iblk8 V c 10 t :=
  (dat.before_in_eq_fetched 10 rfl (fun _ => rfl) (fun _ _ _ => rfl) (fun t => by rw [hafter]; unfold Dat.blockOf iblk8; rw [hA]; try rfl) t d).trans
    (by unfold Dat.fetched Dat.blockOf iblk8; rw [hA]; try rfl)

/-- Input window 11's current staging buffer holds its block at every point, whether the point fetched it or an
    earlier one did (its index has not moved since), for any proof data over these arrays whose body leaves the block in place. -/
theorem before8_11_of {c : Dev nD} (dat : Dat τ (Elt F) Unit ℕ (UR sig nD τ) ℕ cfg8 c) (hA : dat.A 11 = V c (Pipeline.arrRef spec8 11))
    (hafter : ∀ t, dat.after 11 t = iblk8 V c 11 t) (t : Fin cfg8.N) (d) : dat.before 11 t d = iblk8 V c 11 t :=
  (dat.before_in_eq_fetched 11 rfl (fun _ => rfl) (fun _ _ _ => rfl) (fun t => by rw [hafter]; unfold Dat.blockOf iblk8; rw [hA]; try rfl) t d).trans
    (by unfold Dat.fetched Dat.blockOf iblk8; rw [hA]; try rfl)

/-- Input window 12's current staging buffer holds its block at every point, whether the point fetched it or an
    earlier one did (its index has not moved since), for any proof data over these arrays whose body leaves the block in place. -/
theorem before8_12_of {c : Dev nD} (dat : Dat τ (Elt F) Unit ℕ (UR sig nD τ) ℕ cfg8 c) (hA : dat.A 12 = V c (Pipeline.arrRef spec8 12))
    (hafter : ∀ t, dat.after 12 t = iblk8 V c 12 t) (t : Fin cfg8.N) (d) : dat.before 12 t d = iblk8 V c 12 t :=
  (dat.before_in_eq_fetched 12 rfl (fun _ => rfl) (fun _ _ _ => rfl) (fun t => by rw [hafter]; unfold Dat.blockOf iblk8; rw [hA]; try rfl) t d).trans
    (by unfold Dat.fetched Dat.blockOf iblk8; rw [hA]; try rfl)

/-- Input window 13's current staging buffer holds its block at every point, whether the point fetched it or an
    earlier one did (its index has not moved since), for any proof data over these arrays whose body leaves the block in place. -/
theorem before8_13_of {c : Dev nD} (dat : Dat τ (Elt F) Unit ℕ (UR sig nD τ) ℕ cfg8 c) (hA : dat.A 13 = V c (Pipeline.arrRef spec8 13))
    (hafter : ∀ t, dat.after 13 t = iblk8 V c 13 t) (t : Fin cfg8.N) (d) : dat.before 13 t d = iblk8 V c 13 t :=
  (dat.before_in_eq_fetched 13 rfl (fun _ => rfl) (fun _ _ _ => rfl) (fun t => by rw [hafter]; unfold Dat.blockOf iblk8; rw [hA]; try rfl) t d).trans
    (by unfold Dat.fetched Dat.blockOf iblk8; rw [hA]; try rfl)

/-- Input window 14's current staging buffer holds its block at every point, whether the point fetched it or an
    earlier one did (its index has not moved since), for any proof data over these arrays whose body leaves the block in place. -/
theorem before8_14_of {c : Dev nD} (dat : Dat τ (Elt F) Unit ℕ (UR sig nD τ) ℕ cfg8 c) (hA : dat.A 14 = V c (Pipeline.arrRef spec8 14))
    (hafter : ∀ t, dat.after 14 t = iblk8 V c 14 t) (t : Fin cfg8.N) (d) : dat.before 14 t d = iblk8 V c 14 t :=
  (dat.before_in_eq_fetched 14 rfl (fun _ => rfl) (fun _ _ _ => rfl) (fun t => by rw [hafter]; unfold Dat.blockOf iblk8; rw [hA]; try rfl) t d).trans
    (by unfold Dat.fetched Dat.blockOf iblk8; rw [hA]; try rfl)

/-- Input window 15's current staging buffer holds its block at every point, whether the point fetched it or an
    earlier one did (its index has not moved since), for any proof data over these arrays whose body leaves the block in place. -/
theorem before8_15_of {c : Dev nD} (dat : Dat τ (Elt F) Unit ℕ (UR sig nD τ) ℕ cfg8 c) (hA : dat.A 15 = V c (Pipeline.arrRef spec8 15))
    (hafter : ∀ t, dat.after 15 t = iblk8 V c 15 t) (t : Fin cfg8.N) (d) : dat.before 15 t d = iblk8 V c 15 t :=
  (dat.before_in_eq_fetched 15 rfl (fun _ => rfl) (fun _ _ _ => rfl) (fun t => by rw [hafter]; unfold Dat.blockOf iblk8; rw [hA]; try rfl) t d).trans
    (by unfold Dat.fetched Dat.blockOf iblk8; rw [hA]; try rfl)

/-- Input window 16's current staging buffer holds its block at every point, whether the point fetched it or an
    earlier one did (its index has not moved since), for any proof data over these arrays whose body leaves the block in place. -/
theorem before8_16_of {c : Dev nD} (dat : Dat τ (Elt F) Unit ℕ (UR sig nD τ) ℕ cfg8 c) (hA : dat.A 16 = V c (Pipeline.arrRef spec8 16))
    (hafter : ∀ t, dat.after 16 t = iblk8 V c 16 t) (t : Fin cfg8.N) (d) : dat.before 16 t d = iblk8 V c 16 t :=
  (dat.before_in_eq_fetched 16 rfl (fun _ => rfl) (fun _ _ _ => rfl) (fun t => by rw [hafter]; unfold Dat.blockOf iblk8; rw [hA]; try rfl) t d).trans
    (by unfold Dat.fetched Dat.blockOf iblk8; rw [hA]; try rfl)

/-- Input window 17's current staging buffer holds its block at every point, whether the point fetched it or an
    earlier one did (its index has not moved since), for any proof data over these arrays whose body leaves the block in place. -/
theorem before8_17_of {c : Dev nD} (dat : Dat τ (Elt F) Unit ℕ (UR sig nD τ) ℕ cfg8 c) (hA : dat.A 17 = V c (Pipeline.arrRef spec8 17))
    (hafter : ∀ t, dat.after 17 t = iblk8 V c 17 t) (t : Fin cfg8.N) (d) : dat.before 17 t d = iblk8 V c 17 t :=
  (dat.before_in_eq_fetched 17 rfl (fun _ => rfl) (fun _ _ _ => rfl) (fun t => by rw [hafter]; unfold Dat.blockOf iblk8; rw [hA]; try rfl) t d).trans
    (by unfold Dat.fetched Dat.blockOf iblk8; rw [hA]; try rfl)

/-- Input window 18's current staging buffer holds its block at every point, whether the point fetched it or an
    earlier one did (its index has not moved since), for any proof data over these arrays whose body leaves the block in place. -/
theorem before8_18_of {c : Dev nD} (dat : Dat τ (Elt F) Unit ℕ (UR sig nD τ) ℕ cfg8 c) (hA : dat.A 18 = V c (Pipeline.arrRef spec8 18))
    (hafter : ∀ t, dat.after 18 t = iblk8 V c 18 t) (t : Fin cfg8.N) (d) : dat.before 18 t d = iblk8 V c 18 t :=
  (dat.before_in_eq_fetched 18 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: every load and store is through a buffer's whole rectangle -/

abbrev r8_S1x300 : Rect S1x300 := Rect.unit (s := S1x300) ![0, 0] S1x300.size inb_S1x300_S1x300_0_0
abbrev r8_S1x4x150 : Rect S1x4x150 := Rect.unit (s := S1x4x150) ![0, 0, 0] S1x4x150.size inb_S1x4x150_S1x4x150_0_0_0
abbrev r8_S300x150 : Rect S300x150 := Rect.unit (s := S300x150) ![0, 0] S300x150.size inb_S300x150_S300x150_0_0
abbrev r8_S1x150 : Rect S1x150 := Rect.unit (s := S1x150) ![0, 0] S1x150.size inb_S1x150_S1x150_0_0
abbrev r8_S150x150 : Rect S150x150 := Rect.unit (s := S150x150) ![0, 0] S150x150.size inb_S150x150_S150x150_0_0

/-! ## What the body leaves in each output window's buffer -/

/-- Output window 19's staging buffer after the body (the hidden states), from the input windows' blocks. -/
def out8_19 (x0 : Vec F S1x300 .f32) (x1 : Vec F S1x4x150 .f32) (x2 : Vec F S1x4x150 .f32) (x3 : Vec F S300x150 .f32) (x4 : Vec F S1x150 .f32) (x5 : Vec F S300x150 .f32) (x6 : Vec F S1x150 .f32) (x7 : Vec F S300x150 .f32) (x8 : Vec F S1x150 .f32) (x9 : Vec F S300x150 .f32) (x10 : Vec F S1x150 .f32) (x11 : Vec F S150x150 .f32) (x12 : Vec F S1x150 .f32) (x13 : Vec F S150x150 .f32) (x14 : Vec F S1x150 .f32) (x15 : Vec F S150x150 .f32) (x16 : Vec F S1x150 .f32) (x17 : Vec F S150x150 .f32) (x18 : Vec F S1x150 .f32) : Vec F S1x150 .f32 :=
  View.canon [⟨r8_S1x150, k8_pay2 (k8_pay6 (View.ld x0 r8_S1x300) (View.ld x1 r8_S1x4x150) (View.ld x2 r8_S1x4x150) (View.ld x13 r8_S150x150) (View.ld x14 r8_S1x150) (View.ld x5 r8_S300x150) (View.ld x6 r8_S1x150)) (k8_pay8 (k8_pay5 (View.ld x1 r8_S1x4x150)) (k8_pay7 (View.ld x0 r8_S1x300) (View.ld x3 r8_S300x150)) (View.ld x4 r8_S1x150) (View.ld x11 r8_S150x150) (View.ld x12 r8_S1x150)) (k8_pay9 (k8_pay4 (View.ld x0 r8_S1x300)) (k8_pay5 (View.ld x1 r8_S1x4x150)) (View.ld x9 r8_S300x150) (View.ld x10 r8_S1x150) (View.ld x17 r8_S150x150) (View.ld x18 r8_S1x150)) (k8_pay10 (k8_pay4 (View.ld x0 r8_S1x300)) (k8_pay5 (View.ld x1 r8_S1x4x150)) (View.ld x7 r8_S300x150) (View.ld x8 r8_S1x150) (View.ld x15 r8_S150x150)) (View.ld x16 r8_S1x150)⟩]

/-- Its one store is through the whole rectangle, so it covers the buffer. -/
theorem cover8_19 (p0 : Vec F S1x150 .f32) (y : S1x150.Idx) :
    ∃ pc ∈ ([⟨r8_S1x150, p0⟩] : List (View.Piece (Elt F) S1x150 .f32)), y ∈ pc.1.set :=
  View.cover_of_tiled [⟨r8_S1x150, p0⟩] S1x150.size (by rfl) y

/-- Output window 20's staging buffer after the body (the memory cells), from the input windows' blocks. -/
def out8_20 (x0 : Vec F S1x300 .f32) (x1 : Vec F S1x4x150 .f32) (x2 : Vec F S1x4x150 .f32) (x3 : Vec F S300x150 .f32) (x4 : Vec F S1x150 .f32) (x5 : Vec F S300x150 .f32) (x6 : Vec F S1x150 .f32) (x7 : Vec F S300x150 .f32) (x8 : Vec F S1x150 .f32) (x9 : Vec F S300x150 .f32) (x10 : Vec F S1x150 .f32) (x11 : Vec F S150x150 .f32) (x12 : Vec F S1x150 .f32) (x13 : Vec F S150x150 .f32) (x14 : Vec F S1x150 .f32) (x15 : Vec F S150x150 .f32) (x16 : Vec F S1x150 .f32) (x17 : Vec F S150x150 .f32) (x18 : Vec F S1x150 .f32) : Vec F S1x150 .f32 :=
  View.canon [⟨r8_S1x150, k8_pay1 (k8_pay6 (View.ld x0 r8_S1x300) (View.ld x1 r8_S1x4x150) (View.ld x2 r8_S1x4x150) (View.ld x13 r8_S150x150) (View.ld x14 r8_S1x150) (View.ld x5 r8_S300x150) (View.ld x6 r8_S1x150)) (k8_pay8 (k8_pay5 (View.ld x1 r8_S1x4x150)) (k8_pay7 (View.ld x0 r8_S1x300) (View.ld x3 r8_S300x150)) (View.ld x4 r8_S1x150) (View.ld x11 r8_S150x150) (View.ld x12 r8_S1x150)) (k8_pay10 (k8_pay4 (View.ld x0 r8_S1x300)) (k8_pay5 (View.ld x1 r8_S1x4x150)) (View.ld x7 r8_S300x150) (View.ld x8 r8_S1x150) (View.ld x15 r8_S150x150)) (View.ld x16 r8_S1x150)⟩]

/-- Its one store is through the whole rectangle, so it covers the buffer. -/
theorem cover8_20 (p0 : Vec F S1x150 .f32) (y : S1x150.Idx) :
    ∃ pc ∈ ([⟨r8_S1x150, p0⟩] : List (View.Piece (Elt F) S1x150 .f32)), y ∈ pc.1.set :=
  View.cover_of_tiled [⟨r8_S1x150, p0⟩] S1x150.size (by rfl) y

/-! ## The body's triple -/

set_option maxHeartbeats 4000000 in
/-- The kernel body on whole staging memrefs, the inputs' at contents xW and the outputs' at anything, runs to a
    continuation that holds the inputs' as they were and each output's at its function of the inputs'. -/
theorem sound_kernel8 (c : Dev nD) (E : Set ℕ) (i : grid8.Coords) (arg1 : Memref sig .tc .vmem S1x300 .f32) (harg1 : arg1.IsWhole) (arg2 : Memref sig .tc .vmem S1x4x150 .f32) (harg2 : arg2.IsWhole) (arg3 : Memref sig .tc .vmem S1x4x150 .f32) (harg3 : arg3.IsWhole) (arg4 : Memref sig .tc .vmem S300x150 .f32) (harg4 : arg4.IsWhole) (arg5 : Memref sig .tc .vmem S1x150 .f32) (harg5 : arg5.IsWhole) (arg6 : Memref sig .tc .vmem S300x150 .f32) (harg6 : arg6.IsWhole) (arg7 : Memref sig .tc .vmem S1x150 .f32) (harg7 : arg7.IsWhole) (arg8 : Memref sig .tc .vmem S300x150 .f32) (harg8 : arg8.IsWhole) (arg9 : Memref sig .tc .vmem S1x150 .f32) (harg9 : arg9.IsWhole) (arg10 : Memref sig .tc .vmem S300x150 .f32) (harg10 : arg10.IsWhole) (arg11 : Memref sig .tc .vmem S1x150 .f32) (harg11 : arg11.IsWhole) (arg12 : Memref sig .tc .vmem S150x150 .f32) (harg12 : arg12.IsWhole) (arg13 : Memref sig .tc .vmem S1x150 .f32) (harg13 : arg13.IsWhole) (arg14 : Memref sig .tc .vmem S150x150 .f32) (harg14 : arg14.IsWhole) (arg15 : Memref sig .tc .vmem S1x150 .f32) (harg15 : arg15.IsWhole) (arg16 : Memref sig .tc .vmem S150x150 .f32) (harg16 : arg16.IsWhole) (arg17 : Memref sig .tc .vmem S1x150 .f32) (harg17 : arg17.IsWhole) (arg18 : Memref sig .tc .vmem S150x150 .f32) (harg18 : arg18.IsWhole) (arg19 : Memref sig .tc .vmem S1x150 .f32) (harg19 : arg19.IsWhole) (arg20 : Memref sig .tc .vmem S1x150 .f32) (harg20 : arg20.IsWhole) (arg21 : Memref sig .tc .vmem S1x150 .f32) (harg21 : arg21.IsWhole)
    (x0 : Vec F S1x300 .f32) (x1 : Vec F S1x4x150 .f32) (x2 : Vec F S1x4x150 .f32) (x3 : Vec F S300x150 .f32) (x4 : Vec F S1x150 .f32) (x5 : Vec F S300x150 .f32) (x6 : Vec F S1x150 .f32) (x7 : Vec F S300x150 .f32) (x8 : Vec F S1x150 .f32) (x9 : Vec F S300x150 .f32) (x10 : Vec F S1x150 .f32) (x11 : Vec F S150x150 .f32) (x12 : Vec F S1x150 .f32) (x13 : Vec F S150x150 .f32) (x14 : Vec F S1x150 .f32) (x15 : Vec F S150x150 .f32) (x16 : Vec F S1x150 .f32) (x17 : Vec F S150x150 .f32) (x18 : Vec F S1x150 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare (out8_19 x0 x1 x2 x3 x4 x5 x6 x7 x8 x9 x10 x11 x12 x13 x14 x15 x16 x17 x18) ∗ owns (c : Thread nD τ) arg21 fullShare (out8_20 x0 x1 x2 x3 x4 x5 x6 x7 x8 x9 x10 x11 x12 x13 x14 x15 x16 x17 x18)) -∗ K ⟨⟩))
      ⊢ wp frame (wpE (defs₀ (F := F)) Variants.none c none) E (cc8__internal_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc8__internal_kernel_eq_skeleton]; unfold cc8__internal_kernel_skel
  simp only [k8_part1_eq_skeleton]; unfold k8_part1_skel
  simp only [k8_part2_eq_skeleton]; unfold k8_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, Hk⟩
  subst hf0 hf1 hf2 hf3 hf4 hf5 hf6 hf7 hf8 hf9 hf10 hf11 hf12 hf13 hf14 hf15 hf16 hf17 hf18
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists _; isplitr
    swap; · iexact H19
    ipureintro
    exact View.read_writes_eq_canon _ _ _ (cover8_19 _)
  iexists _; isplitr
  swap; · iexact H20
  ipureintro
  exact View.read_writes_eq_canon _ _ _ (cover8_20 _)

/-! ## The pipeline's proof data -/

/-- The proof data of this pipeline on core c: the arrays as the region finds them; after the body at point t each
    input's buffer at its block and each output's at its function of the input blocks; nothing owed, full shares, and
    the invariant that carries only what the body does not touch. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => iblk8 V c 8 t
    | ⟨9, _⟩ => iblk8 V c 9 t
    | ⟨10, _⟩ => iblk8 V c 10 t
    | ⟨11, _⟩ => iblk8 V c 11 t
    | ⟨12, _⟩ => iblk8 V c 12 t
    | ⟨13, _⟩ => iblk8 V c 13 t
    | ⟨14, _⟩ => iblk8 V c 14 t
    | ⟨15, _⟩ => iblk8 V c 15 t
    | ⟨16, _⟩ => iblk8 V c 16 t
    | ⟨17, _⟩ => iblk8 V c 17 t
    | ⟨18, _⟩ => iblk8 V c 18 t
    | ⟨19, _⟩ => out8_19 (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) (iblk8 V c 11 t) (iblk8 V c 12 t) (iblk8 V c 13 t) (iblk8 V c 14 t) (iblk8 V c 15 t) (iblk8 V c 16 t) (iblk8 V c 17 t) (iblk8 V c 18 t)
    | ⟨20, _⟩ => out8_20 (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) (iblk8 V c 11 t) (iblk8 V c 12 t) (iblk8 V c 13 t) (iblk8 V c 14 t) (iblk8 V c 15 t) (iblk8 V c 16 t) (iblk8 V c 17 t) (iblk8 V c 18 t)
    | ⟨n + 21, h⟩ => absurd h (Nat.not_lt.mpr (Nat.le_add_left 21 n))
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t = iblk8 V c 7 t := by dsimp only [dat8]
theorem after8_8 (c : Dev nD) (t : Fin cfg8.N) : (dat8 V c).after 8 t = iblk8 V c 8 t := by dsimp only [dat8]
theorem after8_9 (c : Dev nD) (t : Fin cfg8.N) : (dat8 V c).after 9 t = iblk8 V c 9 t := by dsimp only [dat8]
theorem after8_10 (c : Dev nD) (t : Fin cfg8.N) : (dat8 V c).after 10 t = iblk8 V c 10 t := by dsimp only [dat8]
theorem after8_11 (c : Dev nD) (t : Fin cfg8.N) : (dat8 V c).after 11 t = iblk8 V c 11 t := by dsimp only [dat8]
theorem after8_12 (c : Dev nD) (t : Fin cfg8.N) : (dat8 V c).after 12 t = iblk8 V c 12 t := by dsimp only [dat8]
theorem after8_13 (c : Dev nD) (t : Fin cfg8.N) : (dat8 V c).after 13 t = iblk8 V c 13 t := by dsimp only [dat8]
theorem after8_14 (c : Dev nD) (t : Fin cfg8.N) : (dat8 V c).after 14 t = iblk8 V c 14 t := by dsimp only [dat8]
theorem after8_15 (c : Dev nD) (t : Fin cfg8.N) : (dat8 V c).after 15 t = iblk8 V c 15 t := by dsimp only [dat8]
theorem after8_16 (c : Dev nD) (t : Fin cfg8.N) : (dat8 V c).after 16 t = iblk8 V c 16 t := by dsimp only [dat8]
theorem after8_17 (c : Dev nD) (t : Fin cfg8.N) : (dat8 V c).after 17 t = iblk8 V c 17 t := by dsimp only [dat8]
theorem after8_18 (c : Dev nD) (t : Fin cfg8.N) : (dat8 V c).after 18 t = iblk8 V c 18 t := by dsimp only [dat8]
theorem after8_19 (c : Dev nD) (t : Fin cfg8.N) : (dat8 V c).after 19 t = out8_19 (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) (iblk8 V c 11 t) (iblk8 V c 12 t) (iblk8 V c 13 t) (iblk8 V c 14 t) (iblk8 V c 15 t) (iblk8 V c 16 t) (iblk8 V c 17 t) (iblk8 V c 18 t) := by dsimp only [dat8]
theorem after8_20 (c : Dev nD) (t : Fin cfg8.N) : (dat8 V c).after 20 t = out8_20 (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) (iblk8 V c 11 t) (iblk8 V c 12 t) (iblk8 V c 13 t) (iblk8 V c 14 t) (iblk8 V c 15 t) (iblk8 V c 16 t) (iblk8 V c 17 t) (iblk8 V c 18 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d
theorem before8_6 (c : Dev nD) (t : Fin cfg8.N) (d) : (dat8 V c).before 6 t d = iblk8 V c 6 t :=
  before8_6_of V (dat8 V c) (A_eq8 V c 6) (after8_6 V c) t d
theorem before8_7 (c : Dev nD) (t : Fin cfg8.N) (d) : (dat8 V c).before 7 t d = iblk8 V c 7 t :=
  before8_7_of V (dat8 V c) (A_eq8 V c 7) (after8_7 V c) t d
theorem before8_8 (c : Dev nD) (t : Fin cfg8.N) (d) : (dat8 V c).before 8 t d = iblk8 V c 8 t :=
  before8_8_of V (dat8 V c) (A_eq8 V c 8) (after8_8 V c) t d
theorem before8_9 (c : Dev nD) (t : Fin cfg8.N) (d) : (dat8 V c).before 9 t d = iblk8 V c 9 t :=
  before8_9_of V (dat8 V c) (A_eq8 V c 9) (after8_9 V c) t d
theorem before8_10 (c : Dev nD) (t : Fin cfg8.N) (d) : (dat8 V c).before 10 t d = iblk8 V c 10 t :=
  before8_10_of V (dat8 V c) (A_eq8 V c 10) (after8_10 V c) t d
theorem before8_11 (c : Dev nD) (t : Fin cfg8.N) (d) : (dat8 V c).before 11 t d = iblk8 V c 11 t :=
  before8_11_of V (dat8 V c) (A_eq8 V c 11) (after8_11 V c) t d
theorem before8_12 (c : Dev nD) (t : Fin cfg8.N) (d) : (dat8 V c).before 12 t d = iblk8 V c 12 t :=
  before8_12_of V (dat8 V c) (A_eq8 V c 12) (after8_12 V c) t d
theorem before8_13 (c : Dev nD) (t : Fin cfg8.N) (d) : (dat8 V c).before 13 t d = iblk8 V c 13 t :=
  before8_13_of V (dat8 V c) (A_eq8 V c 13) (after8_13 V c) t d
theorem before8_14 (c : Dev nD) (t : Fin cfg8.N) (d) : (dat8 V c).before 14 t d = iblk8 V c 14 t :=
  before8_14_of V (dat8 V c) (A_eq8 V c 14) (after8_14 V c) t d
theorem before8_15 (c : Dev nD) (t : Fin cfg8.N) (d) : (dat8 V c).before 15 t d = iblk8 V c 15 t :=
  before8_15_of V (dat8 V c) (A_eq8 V c 15) (after8_15 V c) t d
theorem before8_16 (c : Dev nD) (t : Fin cfg8.N) (d) : (dat8 V c).before 16 t d = iblk8 V c 16 t :=
  before8_16_of V (dat8 V c) (A_eq8 V c 16) (after8_16 V c) t d
theorem before8_17 (c : Dev nD) (t : Fin cfg8.N) (d) : (dat8 V c).before 17 t d = iblk8 V c 17 t :=
  before8_17_of V (dat8 V c) (A_eq8 V c 17) (after8_17 V c) t d
theorem before8_18 (c : Dev nD) (t : Fin cfg8.N) (d) : (dat8 V c).before 18 t d = iblk8 V c 18 t :=
  before8_18_of V (dat8 V c) (A_eq8 V c 18) (after8_18 V c) t d

/-! ## The body obligation, at a generic point -/

/-- What the body is called with at point t, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d))
    ∗ (∃ d, owns (c : Thread nD τ) (st8_8 t) fullShare ((dat8 V c).before 8 t d))
    ∗ (∃ d, owns (c : Thread nD τ) (st8_9 t) fullShare ((dat8 V c).before 9 t d))
    ∗ (∃ d, owns (c : Thread nD τ) (st8_10 t) fullShare ((dat8 V c).before 10 t d))
    ∗ (∃ d, owns (c : Thread nD τ) (st8_11 t) fullShare ((dat8 V c).before 11 t d))
    ∗ (∃ d, owns (c : Thread nD τ) (st8_12 t) fullShare ((dat8 V c).before 12 t d))
    ∗ (∃ d, owns (c : Thread nD τ) (st8_13 t) fullShare ((dat8 V c).before 13 t d))
    ∗ (∃ d, owns (c : Thread nD τ) (st8_14 t) fullShare ((dat8 V c).before 14 t d))
    ∗ (∃ d, owns (c : Thread nD τ) (st8_15 t) fullShare ((dat8 V c).before 15 t d))
    ∗ (∃ d, owns (c : Thread nD τ) (st8_16 t) fullShare ((dat8 V c).before 16 t d))
    ∗ (∃ d, owns (c : Thread nD τ) (st8_17 t) fullShare ((dat8 V c).before 17 t d))
    ∗ (∃ d, owns (c : Thread nD τ) (st8_18 t) fullShare ((dat8 V c).before 18 t d))
    ∗ (∃ d, owns (c : Thread nD τ) (st8_19 t) fullShare ((dat8 V c).before 19 t d))
    ∗ (∃ d, owns (c : Thread nD τ) (st8_20 t) fullShare ((dat8 V c).before 20 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t)
    ∗ owns (c : Thread nD τ) (st8_8 t) fullShare ((dat8 V c).after 8 t)
    ∗ owns (c : Thread nD τ) (st8_9 t) fullShare ((dat8 V c).after 9 t)
    ∗ owns (c : Thread nD τ) (st8_10 t) fullShare ((dat8 V c).after 10 t)
    ∗ owns (c : Thread nD τ) (st8_11 t) fullShare ((dat8 V c).after 11 t)
    ∗ owns (c : Thread nD τ) (st8_12 t) fullShare ((dat8 V c).after 12 t)
    ∗ owns (c : Thread nD τ) (st8_13 t) fullShare ((dat8 V c).after 13 t)
    ∗ owns (c : Thread nD τ) (st8_14 t) fullShare ((dat8 V c).after 14 t)
    ∗ owns (c : Thread nD τ) (st8_15 t) fullShare ((dat8 V c).after 15 t)
    ∗ owns (c : Thread nD τ) (st8_16 t) fullShare ((dat8 V c).after 16 t)
    ∗ owns (c : Thread nD τ) (st8_17 t) fullShare ((dat8 V c).after 17 t)
    ∗ owns (c : Thread nD τ) (st8_18 t) fullShare ((dat8 V c).after 18 t)
    ∗ owns (c : Thread nD τ) (st8_19 t) fullShare ((dat8 V c).after 19 t)
    ∗ owns (c : Thread nD τ) (st8_20 t) fullShare ((dat8 V c).after 20 t))

set_option maxHeartbeats 4000000 in
/-- The body at any point: the inputs' memrefs hold their blocks, so the triple above applies; the invariant and the
    core's dues pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5, before8_6, before8_7, before8_8, before8_9, before8_10, before8_11, before8_12, before8_13, before8_14, before8_15, before8_16, before8_17, before8_18]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7, after8_8, after8_9, after8_10, after8_11, after8_12, after8_13, after8_14, after8_15, after8_16, after8_17, after8_18, after8_19, after8_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (sound_kernel8 c Set.univ _ _ _ _ _ _ _ _ _ _ _ _ _ _ _ _ _ _ _ _ _ _ _ _ _ _ _ _ _ _ _ _ _ _ _ _ _ _ _ _ _ _ _ (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) (iblk8 V c 11 t) (iblk8 V c 12 t) (iblk8 V c 13 t) (iblk8 V c 14 t) (iblk8 V c 15 t) (iblk8 V c 16 t) (iblk8 V c 17 t) (iblk8 V c 18 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Tree

end
-- ==== Proof.KIRun.lean ====
/-
  The whole program as a run: ten stretches of host operations alternating with the nine regions. The contents of
  every buffer between two items are named by a fold from the launch memory: a host stretch applies its operations,
  a region replaces its windows' arrays by what its write-backs leave (an input array as entered, an output array block
  by block at what the body stored) and leaves every other buffer alone. Each region is then one segment of the
  launch theorem for several regions, entered with every buffer at the fold's contents before it and left at the
  contents after it; the run ends with every buffer at the last contents of the fold, from which both the
  unchanged arguments and the result array are read.
-/
import proofs.«167239_j63453846831535_1_alg».proof.Proof.KIRegion0
import proofs.«167239_j63453846831535_1_alg».proof.Proof.KIRegion1
import proofs.«167239_j63453846831535_1_alg».proof.Proof.KIRegion2
import proofs.«167239_j63453846831535_1_alg».proof.Proof.KIRegion3
import proofs.«167239_j63453846831535_1_alg».proof.Proof.KIRegion4
import proofs.«167239_j63453846831535_1_alg».proof.Proof.KIRegion5
import proofs.«167239_j63453846831535_1_alg».proof.Proof.KIRegion6
import proofs.«167239_j63453846831535_1_alg».proof.Proof.KIRegion7
import proofs.«167239_j63453846831535_1_alg».proof.Proof.KIRegion8
import proofs.«167239_j63453846831535_1_alg».proof.Proof.Gen.KernelIdeal.Regions

set_option maxRecDepth 16384

noncomputable section

namespace Cert.KernelIdeal.Tree

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core c's buffers at launch. -/
abbrev W0 : Dev nD → Valuation τ sig (Elt F) := fun c b => (s₀ m ρ).mem ((c : Dev nD), b)

/-- After host stretch 0: region 0's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its windows' arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A host stretch keeps every buffer it does not write. -/
theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h
set_option maxHeartbeats 2000000 in
/-- A region keeps every buffer but its two output arrays: an input window's array ends as entered. -/
theorem W2_keep (c : Dev nD) (r : Ref sig .tc) (h1 : r ≠ main_v9_0) (h2 : r ≠ main_v9_1) :
    W2 m ρ c (Proc.devRef .tc r) = W1 m ρ c (Proc.devRef .tc r) := by
  by_cases hw : ∃ w, Pipeline.arrRef spec0 w = r
  · obtain ⟨w, rfl⟩ := hw
    rw [W2_arr]
    match w, h1, h2 with
    | ⟨0, _⟩, _, _ => exact ((dat0 (V1 m ρ) c).arrAt_in 0 rfl _).trans (A_eq0 (V1 m ρ) c 0)
    | ⟨1, _⟩, _, _ => exact ((dat0 (V1 m ρ) c).arrAt_in 1 rfl _).trans (A_eq0 (V1 m ρ) c 1)
    | ⟨2, _⟩, _, _ => exact ((dat0 (V1 m ρ) c).arrAt_in 2 rfl _).trans (A_eq0 (V1 m ρ) c 2)
    | ⟨3, _⟩, _, _ => exact ((dat0 (V1 m ρ) c).arrAt_in 3 rfl _).trans (A_eq0 (V1 m ρ) c 3)
    | ⟨4, _⟩, _, _ => exact ((dat0 (V1 m ρ) c).arrAt_in 4 rfl _).trans (A_eq0 (V1 m ρ) c 4)
    | ⟨5, _⟩, _, _ => exact ((dat0 (V1 m ρ) c).arrAt_in 5 rfl _).trans (A_eq0 (V1 m ρ) c 5)
    | ⟨6, _⟩, _, _ => exact ((dat0 (V1 m ρ) c).arrAt_in 6 rfl _).trans (A_eq0 (V1 m ρ) c 6)
    | ⟨7, _⟩, _, _ => exact ((dat0 (V1 m ρ) c).arrAt_in 7 rfl _).trans (A_eq0 (V1 m ρ) c 7)
    | ⟨8, _⟩, _, _ => exact ((dat0 (V1 m ρ) c).arrAt_in 8 rfl _).trans (A_eq0 (V1 m ρ) c 8)
    | ⟨9, _⟩, _, _ => exact ((dat0 (V1 m ρ) c).arrAt_in 9 rfl _).trans (A_eq0 (V1 m ρ) c 9)
    | ⟨10, _⟩, h1, _ => exact absurd rfl h1
    | ⟨11, _⟩, _, h2 => exact absurd rfl h2
  · exact W2_of_ne m ρ c r (fun w e => hw ⟨w, e⟩)

/-- After host stretch 1: region 1's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its windows' arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A host stretch keeps every buffer it does not write. -/
theorem W3_keep (c : Dev nD) (r : Ref sig .tc) (h : r ∉ hostOps1_W) :
    W3 m ρ c (Proc.devRef .tc r) = W2 m ρ c (Proc.devRef .tc r) :=
  StableHlo.after_of_writes_sub hostOps1 _ hostOps1_writes h
set_option maxHeartbeats 2000000 in
/-- A region keeps every buffer but its two output arrays: an input window's array ends as entered. -/
theorem W4_keep (c : Dev nD) (r : Ref sig .tc) (h1 : r ≠ main_v13_0) (h2 : r ≠ main_v13_1) :
    W4 m ρ c (Proc.devRef .tc r) = W3 m ρ c (Proc.devRef .tc r) := by
  by_cases hw : ∃ w, Pipeline.arrRef spec1 w = r
  · obtain ⟨w, rfl⟩ := hw
    rw [W4_arr]
    match w, h1, h2 with
    | ⟨0, _⟩, _, _ => exact ((dat1 (V3 m ρ) c).arrAt_in 0 rfl _).trans (A_eq1 (V3 m ρ) c 0)
    | ⟨1, _⟩, _, _ => exact ((dat1 (V3 m ρ) c).arrAt_in 1 rfl _).trans (A_eq1 (V3 m ρ) c 1)
    | ⟨2, _⟩, _, _ => exact ((dat1 (V3 m ρ) c).arrAt_in 2 rfl _).trans (A_eq1 (V3 m ρ) c 2)
    | ⟨3, _⟩, _, _ => exact ((dat1 (V3 m ρ) c).arrAt_in 3 rfl _).trans (A_eq1 (V3 m ρ) c 3)
    | ⟨4, _⟩, _, _ => exact ((dat1 (V3 m ρ) c).arrAt_in 4 rfl _).trans (A_eq1 (V3 m ρ) c 4)
    | ⟨5, _⟩, _, _ => exact ((dat1 (V3 m ρ) c).arrAt_in 5 rfl _).trans (A_eq1 (V3 m ρ) c 5)
    | ⟨6, _⟩, _, _ => exact ((dat1 (V3 m ρ) c).arrAt_in 6 rfl _).trans (A_eq1 (V3 m ρ) c 6)
    | ⟨7, _⟩, _, _ => exact ((dat1 (V3 m ρ) c).arrAt_in 7 rfl _).trans (A_eq1 (V3 m ρ) c 7)
    | ⟨8, _⟩, _, _ => exact ((dat1 (V3 m ρ) c).arrAt_in 8 rfl _).trans (A_eq1 (V3 m ρ) c 8)
    | ⟨9, _⟩, _, _ => exact ((dat1 (V3 m ρ) c).arrAt_in 9 rfl _).trans (A_eq1 (V3 m ρ) c 9)
    | ⟨10, _⟩, _, _ => exact ((dat1 (V3 m ρ) c).arrAt_in 10 rfl _).trans (A_eq1 (V3 m ρ) c 10)
    | ⟨11, _⟩, _, _ => exact ((dat1 (V3 m ρ) c).arrAt_in 11 rfl _).trans (A_eq1 (V3 m ρ) c 11)
    | ⟨12, _⟩, _, _ => exact ((dat1 (V3 m ρ) c).arrAt_in 12 rfl _).trans (A_eq1 (V3 m ρ) c 12)
    | ⟨13, _⟩, _, _ => exact ((dat1 (V3 m ρ) c).arrAt_in 13 rfl _).trans (A_eq1 (V3 m ρ) c 13)
    | ⟨14, _⟩, _, _ => exact ((dat1 (V3 m ρ) c).arrAt_in 14 rfl _).trans (A_eq1 (V3 m ρ) c 14)
    | ⟨15, _⟩, _, _ => exact ((dat1 (V3 m ρ) c).arrAt_in 15 rfl _).trans (A_eq1 (V3 m ρ) c 15)
    | ⟨16, _⟩, _, _ => exact ((dat1 (V3 m ρ) c).arrAt_in 16 rfl _).trans (A_eq1 (V3 m ρ) c 16)
    | ⟨17, _⟩, _, _ => exact ((dat1 (V3 m ρ) c).arrAt_in 17 rfl _).trans (A_eq1 (V3 m ρ) c 17)
    | ⟨18, _⟩, _, _ => exact ((dat1 (V3 m ρ) c).arrAt_in 18 rfl _).trans (A_eq1 (V3 m ρ) c 18)
    | ⟨19, _⟩, h1, _ => exact absurd rfl h1
    | ⟨20, _⟩, _, h2 => exact absurd rfl h2
    | ⟨n + 21, h⟩, _, _ => exact absurd h (Nat.not_lt.mpr (Nat.le_add_left 21 n))
  · exact W4_of_ne m ρ c r (fun w e => hw ⟨w, e⟩)

/-- After host stretch 2: region 2's entry. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its windows' arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A host stretch keeps every buffer it does not write. -/
theorem W5_keep (c : Dev nD) (r : Ref sig .tc) (h : r ∉ hostOps2_W) :
    W5 m ρ c (Proc.devRef .tc r) = W4 m ρ c (Proc.devRef .tc r) :=
  StableHlo.after_of_writes_sub hostOps2 _ hostOps2_writes h
set_option maxHeartbeats 2000000 in
/-- A region keeps every buffer but its two output arrays: an input window's array ends as entered. -/
theorem W6_keep (c : Dev nD) (r : Ref sig .tc) (h1 : r ≠ main_v17_0) (h2 : r ≠ main_v17_1) :
    W6 m ρ c (Proc.devRef .tc r) = W5 m ρ c (Proc.devRef .tc r) := by
  by_cases hw : ∃ w, Pipeline.arrRef spec2 w = r
  · obtain ⟨w, rfl⟩ := hw
    rw [W6_arr]
    match w, h1, h2 with
    | ⟨0, _⟩, _, _ => exact ((dat2 (V5 m ρ) c).arrAt_in 0 rfl _).trans (A_eq2 (V5 m ρ) c 0)
    | ⟨1, _⟩, _, _ => exact ((dat2 (V5 m ρ) c).arrAt_in 1 rfl _).trans (A_eq2 (V5 m ρ) c 1)
    | ⟨2, _⟩, _, _ => exact ((dat2 (V5 m ρ) c).arrAt_in 2 rfl _).trans (A_eq2 (V5 m ρ) c 2)
    | ⟨3, _⟩, _, _ => exact ((dat2 (V5 m ρ) c).arrAt_in 3 rfl _).trans (A_eq2 (V5 m ρ) c 3)
    | ⟨4, _⟩, _, _ => exact ((dat2 (V5 m ρ) c).arrAt_in 4 rfl _).trans (A_eq2 (V5 m ρ) c 4)
    | ⟨5, _⟩, _, _ => exact ((dat2 (V5 m ρ) c).arrAt_in 5 rfl _).trans (A_eq2 (V5 m ρ) c 5)
    | ⟨6, _⟩, _, _ => exact ((dat2 (V5 m ρ) c).arrAt_in 6 rfl _).trans (A_eq2 (V5 m ρ) c 6)
    | ⟨7, _⟩, _, _ => exact ((dat2 (V5 m ρ) c).arrAt_in 7 rfl _).trans (A_eq2 (V5 m ρ) c 7)
    | ⟨8, _⟩, _, _ => exact ((dat2 (V5 m ρ) c).arrAt_in 8 rfl _).trans (A_eq2 (V5 m ρ) c 8)
    | ⟨9, _⟩, _, _ => exact ((dat2 (V5 m ρ) c).arrAt_in 9 rfl _).trans (A_eq2 (V5 m ρ) c 9)
    | ⟨10, _⟩, _, _ => exact ((dat2 (V5 m ρ) c).arrAt_in 10 rfl _).trans (A_eq2 (V5 m ρ) c 10)
    | ⟨11, _⟩, _, _ => exact ((dat2 (V5 m ρ) c).arrAt_in 11 rfl _).trans (A_eq2 (V5 m ρ) c 11)
    | ⟨12, _⟩, _, _ => exact ((dat2 (V5 m ρ) c).arrAt_in 12 rfl _).trans (A_eq2 (V5 m ρ) c 12)
    | ⟨13, _⟩, _, _ => exact ((dat2 (V5 m ρ) c).arrAt_in 13 rfl _).trans (A_eq2 (V5 m ρ) c 13)
    | ⟨14, _⟩, _, _ => exact ((dat2 (V5 m ρ) c).arrAt_in 14 rfl _).trans (A_eq2 (V5 m ρ) c 14)
    | ⟨15, _⟩, _, _ => exact ((dat2 (V5 m ρ) c).arrAt_in 15 rfl _).trans (A_eq2 (V5 m ρ) c 15)
    | ⟨16, _⟩, _, _ => exact ((dat2 (V5 m ρ) c).arrAt_in 16 rfl _).trans (A_eq2 (V5 m ρ) c 16)
    | ⟨17, _⟩, _, _ => exact ((dat2 (V5 m ρ) c).arrAt_in 17 rfl _).trans (A_eq2 (V5 m ρ) c 17)
    | ⟨18, _⟩, _, _ => exact ((dat2 (V5 m ρ) c).arrAt_in 18 rfl _).trans (A_eq2 (V5 m ρ) c 18)
    | ⟨19, _⟩, h1, _ => exact absurd rfl h1
    | ⟨20, _⟩, _, h2 => exact absurd rfl h2
    | ⟨n + 21, h⟩, _, _ => exact absurd h (Nat.not_lt.mpr (Nat.le_add_left 21 n))
  · exact W6_of_ne m ρ c r (fun w e => hw ⟨w, e⟩)

/-- After host stretch 3: region 3's entry. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit: its windows' arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- A host stretch keeps every buffer it does not write. -/
theorem W7_keep (c : Dev nD) (r : Ref sig .tc) (h : r ∉ hostOps3_W) :
    W7 m ρ c (Proc.devRef .tc r) = W6 m ρ c (Proc.devRef .tc r) :=
  StableHlo.after_of_writes_sub hostOps3 _ hostOps3_writes h
set_option maxHeartbeats 2000000 in
/-- A region keeps every buffer but its two output arrays: an input window's array ends as entered. -/
theorem W8_keep (c : Dev nD) (r : Ref sig .tc) (h1 : r ≠ main_v21_0) (h2 : r ≠ main_v21_1) :
    W8 m ρ c (Proc.devRef .tc r) = W7 m ρ c (Proc.devRef .tc r) := by
  by_cases hw : ∃ w, Pipeline.arrRef spec3 w = r
  · obtain ⟨w, rfl⟩ := hw
    rw [W8_arr]
    match w, h1, h2 with
    | ⟨0, _⟩, _, _ => exact ((dat3 (V7 m ρ) c).arrAt_in 0 rfl _).trans (A_eq3 (V7 m ρ) c 0)
    | ⟨1, _⟩, _, _ => exact ((dat3 (V7 m ρ) c).arrAt_in 1 rfl _).trans (A_eq3 (V7 m ρ) c 1)
    | ⟨2, _⟩, _, _ => exact ((dat3 (V7 m ρ) c).arrAt_in 2 rfl _).trans (A_eq3 (V7 m ρ) c 2)
    | ⟨3, _⟩, _, _ => exact ((dat3 (V7 m ρ) c).arrAt_in 3 rfl _).trans (A_eq3 (V7 m ρ) c 3)
    | ⟨4, _⟩, _, _ => exact ((dat3 (V7 m ρ) c).arrAt_in 4 rfl _).trans (A_eq3 (V7 m ρ) c 4)
    | ⟨5, _⟩, _, _ => exact ((dat3 (V7 m ρ) c).arrAt_in 5 rfl _).trans (A_eq3 (V7 m ρ) c 5)
    | ⟨6, _⟩, _, _ => exact ((dat3 (V7 m ρ) c).arrAt_in 6 rfl _).trans (A_eq3 (V7 m ρ) c 6)
    | ⟨7, _⟩, _, _ => exact ((dat3 (V7 m ρ) c).arrAt_in 7 rfl _).trans (A_eq3 (V7 m ρ) c 7)
    | ⟨8, _⟩, _, _ => exact ((dat3 (V7 m ρ) c).arrAt_in 8 rfl _).trans (A_eq3 (V7 m ρ) c 8)
    | ⟨9, _⟩, _, _ => exact ((dat3 (V7 m ρ) c).arrAt_in 9 rfl _).trans (A_eq3 (V7 m ρ) c 9)
    | ⟨10, _⟩, _, _ => exact ((dat3 (V7 m ρ) c).arrAt_in 10 rfl _).trans (A_eq3 (V7 m ρ) c 10)
    | ⟨11, _⟩, _, _ => exact ((dat3 (V7 m ρ) c).arrAt_in 11 rfl _).trans (A_eq3 (V7 m ρ) c 11)
    | ⟨12, _⟩, _, _ => exact ((dat3 (V7 m ρ) c).arrAt_in 12 rfl _).trans (A_eq3 (V7 m ρ) c 12)
    | ⟨13, _⟩, _, _ => exact ((dat3 (V7 m ρ) c).arrAt_in 13 rfl _).trans (A_eq3 (V7 m ρ) c 13)
    | ⟨14, _⟩, _, _ => exact ((dat3 (V7 m ρ) c).arrAt_in 14 rfl _).trans (A_eq3 (V7 m ρ) c 14)
    | ⟨15, _⟩, _, _ => exact ((dat3 (V7 m ρ) c).arrAt_in 15 rfl _).trans (A_eq3 (V7 m ρ) c 15)
    | ⟨16, _⟩, _, _ => exact ((dat3 (V7 m ρ) c).arrAt_in 16 rfl _).trans (A_eq3 (V7 m ρ) c 16)
    | ⟨17, _⟩, _, _ => exact ((dat3 (V7 m ρ) c).arrAt_in 17 rfl _).trans (A_eq3 (V7 m ρ) c 17)
    | ⟨18, _⟩, _, _ => exact ((dat3 (V7 m ρ) c).arrAt_in 18 rfl _).trans (A_eq3 (V7 m ρ) c 18)
    | ⟨19, _⟩, h1, _ => exact absurd rfl h1
    | ⟨20, _⟩, _, h2 => exact absurd rfl h2
    | ⟨n + 21, h⟩, _, _ => exact absurd h (Nat.not_lt.mpr (Nat.le_add_left 21 n))
  · exact W8_of_ne m ρ c r (fun w e => hw ⟨w, e⟩)

/-- After host stretch 4: region 4's entry. -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- At region 4's exit: its windows' arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- A host stretch keeps every buffer it does not write. -/
theorem W9_keep (c : Dev nD) (r : Ref sig .tc) (h : r ∉ hostOps4_W) :
    W9 m ρ c (Proc.devRef .tc r) = W8 m ρ c (Proc.devRef .tc r) :=
  StableHlo.after_of_writes_sub hostOps4 _ hostOps4_writes h
set_option maxHeartbeats 2000000 in
/-- A region keeps every buffer but its two output arrays: an input window's array ends as entered. -/
theorem W10_keep (c : Dev nD) (r : Ref sig .tc) (h1 : r ≠ main_v25_0) (h2 : r ≠ main_v25_1) :
    W10 m ρ c (Proc.devRef .tc r) = W9 m ρ c (Proc.devRef .tc r) := by
  by_cases hw : ∃ w, Pipeline.arrRef spec4 w = r
  · obtain ⟨w, rfl⟩ := hw
    rw [W10_arr]
    match w, h1, h2 with
    | ⟨0, _⟩, _, _ => exact ((dat4 (V9 m ρ) c).arrAt_in 0 rfl _).trans (A_eq4 (V9 m ρ) c 0)
    | ⟨1, _⟩, _, _ => exact ((dat4 (V9 m ρ) c).arrAt_in 1 rfl _).trans (A_eq4 (V9 m ρ) c 1)
    | ⟨2, _⟩, _, _ => exact ((dat4 (V9 m ρ) c).arrAt_in 2 rfl _).trans (A_eq4 (V9 m ρ) c 2)
    | ⟨3, _⟩, _, _ => exact ((dat4 (V9 m ρ) c).arrAt_in 3 rfl _).trans (A_eq4 (V9 m ρ) c 3)
    | ⟨4, _⟩, _, _ => exact ((dat4 (V9 m ρ) c).arrAt_in 4 rfl _).trans (A_eq4 (V9 m ρ) c 4)
    | ⟨5, _⟩, _, _ => exact ((dat4 (V9 m ρ) c).arrAt_in 5 rfl _).trans (A_eq4 (V9 m ρ) c 5)
    | ⟨6, _⟩, _, _ => exact ((dat4 (V9 m ρ) c).arrAt_in 6 rfl _).trans (A_eq4 (V9 m ρ) c 6)
    | ⟨7, _⟩, _, _ => exact ((dat4 (V9 m ρ) c).arrAt_in 7 rfl _).trans (A_eq4 (V9 m ρ) c 7)
    | ⟨8, _⟩, _, _ => exact ((dat4 (V9 m ρ) c).arrAt_in 8 rfl _).trans (A_eq4 (V9 m ρ) c 8)
    | ⟨9, _⟩, _, _ => exact ((dat4 (V9 m ρ) c).arrAt_in 9 rfl _).trans (A_eq4 (V9 m ρ) c 9)
    | ⟨10, _⟩, _, _ => exact ((dat4 (V9 m ρ) c).arrAt_in 10 rfl _).trans (A_eq4 (V9 m ρ) c 10)
    | ⟨11, _⟩, _, _ => exact ((dat4 (V9 m ρ) c).arrAt_in 11 rfl _).trans (A_eq4 (V9 m ρ) c 11)
    | ⟨12, _⟩, _, _ => exact ((dat4 (V9 m ρ) c).arrAt_in 12 rfl _).trans (A_eq4 (V9 m ρ) c 12)
    | ⟨13, _⟩, _, _ => exact ((dat4 (V9 m ρ) c).arrAt_in 13 rfl _).trans (A_eq4 (V9 m ρ) c 13)
    | ⟨14, _⟩, _, _ => exact ((dat4 (V9 m ρ) c).arrAt_in 14 rfl _).trans (A_eq4 (V9 m ρ) c 14)
    | ⟨15, _⟩, _, _ => exact ((dat4 (V9 m ρ) c).arrAt_in 15 rfl _).trans (A_eq4 (V9 m ρ) c 15)
    | ⟨16, _⟩, _, _ => exact ((dat4 (V9 m ρ) c).arrAt_in 16 rfl _).trans (A_eq4 (V9 m ρ) c 16)
    | ⟨17, _⟩, _, _ => exact ((dat4 (V9 m ρ) c).arrAt_in 17 rfl _).trans (A_eq4 (V9 m ρ) c 17)
    | ⟨18, _⟩, _, _ => exact ((dat4 (V9 m ρ) c).arrAt_in 18 rfl _).trans (A_eq4 (V9 m ρ) c 18)
    | ⟨19, _⟩, h1, _ => exact absurd rfl h1
    | ⟨20, _⟩, _, h2 => exact absurd rfl h2
    | ⟨n + 21, h⟩, _, _ => exact absurd h (Nat.not_lt.mpr (Nat.le_add_left 21 n))
  · exact W10_of_ne m ρ c r (fun w e => hw ⟨w, e⟩)

/-- After host stretch 5: region 5's entry. -/
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
/-- At region 5's exit: its windows' arrays at what the pipeline leaves, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- A host stretch keeps every buffer it does not write. -/
theorem W11_keep (c : Dev nD) (r : Ref sig .tc) (h : r ∉ hostOps5_W) :
    W11 m ρ c (Proc.devRef .tc r) = W10 m ρ c (Proc.devRef .tc r) :=
  StableHlo.after_of_writes_sub hostOps5 _ hostOps5_writes h
set_option maxHeartbeats 2000000 in
/-- A region keeps every buffer but its two output arrays: an input window's array ends as entered. -/
theorem W12_keep (c : Dev nD) (r : Ref sig .tc) (h1 : r ≠ main_v29_0) (h2 : r ≠ main_v29_1) :
    W12 m ρ c (Proc.devRef .tc r) = W11 m ρ c (Proc.devRef .tc r) := by
  by_cases hw : ∃ w, Pipeline.arrRef spec5 w = r
  · obtain ⟨w, rfl⟩ := hw
    rw [W12_arr]
    match w, h1, h2 with
    | ⟨0, _⟩, _, _ => exact ((dat5 (V11 m ρ) c).arrAt_in 0 rfl _).trans (A_eq5 (V11 m ρ) c 0)
    | ⟨1, _⟩, _, _ => exact ((dat5 (V11 m ρ) c).arrAt_in 1 rfl _).trans (A_eq5 (V11 m ρ) c 1)
    | ⟨2, _⟩, _, _ => exact ((dat5 (V11 m ρ) c).arrAt_in 2 rfl _).trans (A_eq5 (V11 m ρ) c 2)
    | ⟨3, _⟩, _, _ => exact ((dat5 (V11 m ρ) c).arrAt_in 3 rfl _).trans (A_eq5 (V11 m ρ) c 3)
    | ⟨4, _⟩, _, _ => exact ((dat5 (V11 m ρ) c).arrAt_in 4 rfl _).trans (A_eq5 (V11 m ρ) c 4)
    | ⟨5, _⟩, _, _ => exact ((dat5 (V11 m ρ) c).arrAt_in 5 rfl _).trans (A_eq5 (V11 m ρ) c 5)
    | ⟨6, _⟩, _, _ => exact ((dat5 (V11 m ρ) c).arrAt_in 6 rfl _).trans (A_eq5 (V11 m ρ) c 6)
    | ⟨7, _⟩, _, _ => exact ((dat5 (V11 m ρ) c).arrAt_in 7 rfl _).trans (A_eq5 (V11 m ρ) c 7)
    | ⟨8, _⟩, _, _ => exact ((dat5 (V11 m ρ) c).arrAt_in 8 rfl _).trans (A_eq5 (V11 m ρ) c 8)
    | ⟨9, _⟩, _, _ => exact ((dat5 (V11 m ρ) c).arrAt_in 9 rfl _).trans (A_eq5 (V11 m ρ) c 9)
    | ⟨10, _⟩, _, _ => exact ((dat5 (V11 m ρ) c).arrAt_in 10 rfl _).trans (A_eq5 (V11 m ρ) c 10)
    | ⟨11, _⟩, _, _ => exact ((dat5 (V11 m ρ) c).arrAt_in 11 rfl _).trans (A_eq5 (V11 m ρ) c 11)
    | ⟨12, _⟩, _, _ => exact ((dat5 (V11 m ρ) c).arrAt_in 12 rfl _).trans (A_eq5 (V11 m ρ) c 12)
    | ⟨13, _⟩, _, _ => exact ((dat5 (V11 m ρ) c).arrAt_in 13 rfl _).trans (A_eq5 (V11 m ρ) c 13)
    | ⟨14, _⟩, _, _ => exact ((dat5 (V11 m ρ) c).arrAt_in 14 rfl _).trans (A_eq5 (V11 m ρ) c 14)
    | ⟨15, _⟩, _, _ => exact ((dat5 (V11 m ρ) c).arrAt_in 15 rfl _).trans (A_eq5 (V11 m ρ) c 15)
    | ⟨16, _⟩, _, _ => exact ((dat5 (V11 m ρ) c).arrAt_in 16 rfl _).trans (A_eq5 (V11 m ρ) c 16)
    | ⟨17, _⟩, _, _ => exact ((dat5 (V11 m ρ) c).arrAt_in 17 rfl _).trans (A_eq5 (V11 m ρ) c 17)
    | ⟨18, _⟩, _, _ => exact ((dat5 (V11 m ρ) c).arrAt_in 18 rfl _).trans (A_eq5 (V11 m ρ) c 18)
    | ⟨19, _⟩, h1, _ => exact absurd rfl h1
    | ⟨20, _⟩, _, h2 => exact absurd rfl h2
    | ⟨n + 21, h⟩, _, _ => exact absurd h (Nat.not_lt.mpr (Nat.le_add_left 21 n))
  · exact W12_of_ne m ρ c r (fun w e => hw ⟨w, e⟩)

/-- After host stretch 6: region 6's entry. -/
abbrev W13 : Dev nD → Valuation τ sig (Elt F) := fun c => StableHlo.after hostOps6 (W12 m ρ c)
abbrev V13 : (c : Dev nD) → (b : Ref sig .tc) → Buf (Elt F) ((c : Thread nD τ).loc b) := fun c b => W13 m ρ c b
/-- At region 6's exit: its windows' arrays at what the pipeline leaves, every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev V14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)
/-- A host stretch keeps every buffer it does not write. -/
theorem W13_keep (c : Dev nD) (r : Ref sig .tc) (h : r ∉ hostOps6_W) :
    W13 m ρ c (Proc.devRef .tc r) = W12 m ρ c (Proc.devRef .tc r) :=
  StableHlo.after_of_writes_sub hostOps6 _ hostOps6_writes h
set_option maxHeartbeats 2000000 in
/-- A region keeps every buffer but its two output arrays: an input window's array ends as entered. -/
theorem W14_keep (c : Dev nD) (r : Ref sig .tc) (h1 : r ≠ main_v33_0) (h2 : r ≠ main_v33_1) :
    W14 m ρ c (Proc.devRef .tc r) = W13 m ρ c (Proc.devRef .tc r) := by
  by_cases hw : ∃ w, Pipeline.arrRef spec6 w = r
  · obtain ⟨w, rfl⟩ := hw
    rw [W14_arr]
    match w, h1, h2 with
    | ⟨0, _⟩, _, _ => exact ((dat6 (V13 m ρ) c).arrAt_in 0 rfl _).trans (A_eq6 (V13 m ρ) c 0)
    | ⟨1, _⟩, _, _ => exact ((dat6 (V13 m ρ) c).arrAt_in 1 rfl _).trans (A_eq6 (V13 m ρ) c 1)
    | ⟨2, _⟩, _, _ => exact ((dat6 (V13 m ρ) c).arrAt_in 2 rfl _).trans (A_eq6 (V13 m ρ) c 2)
    | ⟨3, _⟩, _, _ => exact ((dat6 (V13 m ρ) c).arrAt_in 3 rfl _).trans (A_eq6 (V13 m ρ) c 3)
    | ⟨4, _⟩, _, _ => exact ((dat6 (V13 m ρ) c).arrAt_in 4 rfl _).trans (A_eq6 (V13 m ρ) c 4)
    | ⟨5, _⟩, _, _ => exact ((dat6 (V13 m ρ) c).arrAt_in 5 rfl _).trans (A_eq6 (V13 m ρ) c 5)
    | ⟨6, _⟩, _, _ => exact ((dat6 (V13 m ρ) c).arrAt_in 6 rfl _).trans (A_eq6 (V13 m ρ) c 6)
    | ⟨7, _⟩, _, _ => exact ((dat6 (V13 m ρ) c).arrAt_in 7 rfl _).trans (A_eq6 (V13 m ρ) c 7)
    | ⟨8, _⟩, _, _ => exact ((dat6 (V13 m ρ) c).arrAt_in 8 rfl _).trans (A_eq6 (V13 m ρ) c 8)
    | ⟨9, _⟩, _, _ => exact ((dat6 (V13 m ρ) c).arrAt_in 9 rfl _).trans (A_eq6 (V13 m ρ) c 9)
    | ⟨10, _⟩, _, _ => exact ((dat6 (V13 m ρ) c).arrAt_in 10 rfl _).trans (A_eq6 (V13 m ρ) c 10)
    | ⟨11, _⟩, _, _ => exact ((dat6 (V13 m ρ) c).arrAt_in 11 rfl _).trans (A_eq6 (V13 m ρ) c 11)
    | ⟨12, _⟩, _, _ => exact ((dat6 (V13 m ρ) c).arrAt_in 12 rfl _).trans (A_eq6 (V13 m ρ) c 12)
    | ⟨13, _⟩, _, _ => exact ((dat6 (V13 m ρ) c).arrAt_in 13 rfl _).trans (A_eq6 (V13 m ρ) c 13)
    | ⟨14, _⟩, _, _ => exact ((dat6 (V13 m ρ) c).arrAt_in 14 rfl _).trans (A_eq6 (V13 m ρ) c 14)
    | ⟨15, _⟩, _, _ => exact ((dat6 (V13 m ρ) c).arrAt_in 15 rfl _).trans (A_eq6 (V13 m ρ) c 15)
    | ⟨16, _⟩, _, _ => exact ((dat6 (V13 m ρ) c).arrAt_in 16 rfl _).trans (A_eq6 (V13 m ρ) c 16)
    | ⟨17, _⟩, _, _ => exact ((dat6 (V13 m ρ) c).arrAt_in 17 rfl _).trans (A_eq6 (V13 m ρ) c 17)
    | ⟨18, _⟩, _, _ => exact ((dat6 (V13 m ρ) c).arrAt_in 18 rfl _).trans (A_eq6 (V13 m ρ) c 18)
    | ⟨19, _⟩, h1, _ => exact absurd rfl h1
    | ⟨20, _⟩, _, h2 => exact absurd rfl h2
    | ⟨n + 21, h⟩, _, _ => exact absurd h (Nat.not_lt.mpr (Nat.le_add_left 21 n))
  · exact W14_of_ne m ρ c r (fun w e => hw ⟨w, e⟩)

/-- After host stretch 7: region 7's entry. -/
abbrev W15 : Dev nD → Valuation τ sig (Elt F) := fun c => StableHlo.after hostOps7 (W14 m ρ c)
abbrev V15 : (c : Dev nD) → (b : Ref sig .tc) → Buf (Elt F) ((c : Thread nD τ).loc b) := fun c b => W15 m ρ c b
/-- At region 7's exit: its windows' arrays at what the pipeline leaves, every other buffer as entered. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
abbrev V16 : (c : Dev nD) → (b : Ref sig .tc) → Buf (Elt F) ((c : Thread nD τ).loc b) := fun c b => W16 m ρ c b
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)
/-- A host stretch keeps every buffer it does not write. -/
theorem W15_keep (c : Dev nD) (r : Ref sig .tc) (h : r ∉ hostOps7_W) :
    W15 m ρ c (Proc.devRef .tc r) = W14 m ρ c (Proc.devRef .tc r) :=
  StableHlo.after_of_writes_sub hostOps7 _ hostOps7_writes h
set_option maxHeartbeats 2000000 in
/-- A region keeps every buffer but its two output arrays: an input window's array ends as entered. -/
theorem W16_keep (c : Dev nD) (r : Ref sig .tc) (h1 : r ≠ main_v37_0) (h2 : r ≠ main_v37_1) :
    W16 m ρ c (Proc.devRef .tc r) = W15 m ρ c (Proc.devRef .tc r) := by
  by_cases hw : ∃ w, Pipeline.arrRef spec7 w = r
  · obtain ⟨w, rfl⟩ := hw
    rw [W16_arr]
    match w, h1, h2 with
    | ⟨0, _⟩, _, _ => exact ((dat7 (V15 m ρ) c).arrAt_in 0 rfl _).trans (A_eq7 (V15 m ρ) c 0)
    | ⟨1, _⟩, _, _ => exact ((dat7 (V15 m ρ) c).arrAt_in 1 rfl _).trans (A_eq7 (V15 m ρ) c 1)
    | ⟨2, _⟩, _, _ => exact ((dat7 (V15 m ρ) c).arrAt_in 2 rfl _).trans (A_eq7 (V15 m ρ) c 2)
    | ⟨3, _⟩, _, _ => exact ((dat7 (V15 m ρ) c).arrAt_in 3 rfl _).trans (A_eq7 (V15 m ρ) c 3)
    | ⟨4, _⟩, _, _ => exact ((dat7 (V15 m ρ) c).arrAt_in 4 rfl _).trans (A_eq7 (V15 m ρ) c 4)
    | ⟨5, _⟩, _, _ => exact ((dat7 (V15 m ρ) c).arrAt_in 5 rfl _).trans (A_eq7 (V15 m ρ) c 5)
    | ⟨6, _⟩, _, _ => exact ((dat7 (V15 m ρ) c).arrAt_in 6 rfl _).trans (A_eq7 (V15 m ρ) c 6)
    | ⟨7, _⟩, _, _ => exact ((dat7 (V15 m ρ) c).arrAt_in 7 rfl _).trans (A_eq7 (V15 m ρ) c 7)
    | ⟨8, _⟩, _, _ => exact ((dat7 (V15 m ρ) c).arrAt_in 8 rfl _).trans (A_eq7 (V15 m ρ) c 8)
    | ⟨9, _⟩, _, _ => exact ((dat7 (V15 m ρ) c).arrAt_in 9 rfl _).trans (A_eq7 (V15 m ρ) c 9)
    | ⟨10, _⟩, _, _ => exact ((dat7 (V15 m ρ) c).arrAt_in 10 rfl _).trans (A_eq7 (V15 m ρ) c 10)
    | ⟨11, _⟩, _, _ => exact ((dat7 (V15 m ρ) c).arrAt_in 11 rfl _).trans (A_eq7 (V15 m ρ) c 11)
    | ⟨12, _⟩, _, _ => exact ((dat7 (V15 m ρ) c).arrAt_in 12 rfl _).trans (A_eq7 (V15 m ρ) c 12)
    | ⟨13, _⟩, _, _ => exact ((dat7 (V15 m ρ) c).arrAt_in 13 rfl _).trans (A_eq7 (V15 m ρ) c 13)
    | ⟨14, _⟩, _, _ => exact ((dat7 (V15 m ρ) c).arrAt_in 14 rfl _).trans (A_eq7 (V15 m ρ) c 14)
    | ⟨15, _⟩, _, _ => exact ((dat7 (V15 m ρ) c).arrAt_in 15 rfl _).trans (A_eq7 (V15 m ρ) c 15)
    | ⟨16, _⟩, _, _ => exact ((dat7 (V15 m ρ) c).arrAt_in 16 rfl _).trans (A_eq7 (V15 m ρ) c 16)
    | ⟨17, _⟩, _, _ => exact ((dat7 (V15 m ρ) c).arrAt_in 17 rfl _).trans (A_eq7 (V15 m ρ) c 17)
    | ⟨18, _⟩, _, _ => exact ((dat7 (V15 m ρ) c).arrAt_in 18 rfl _).trans (A_eq7 (V15 m ρ) c 18)
    | ⟨19, _⟩, h1, _ => exact absurd rfl h1
    | ⟨20, _⟩, _, h2 => exact absurd rfl h2
    | ⟨n + 21, h⟩, _, _ => exact absurd h (Nat.not_lt.mpr (Nat.le_add_left 21 n))
  · exact W16_of_ne m ρ c r (fun w e => hw ⟨w, e⟩)

/-- After host stretch 8: region 8's entry. -/
abbrev W17 : Dev nD → Valuation τ sig (Elt F) := fun c => StableHlo.after hostOps8 (W16 m ρ c)
abbrev V17 : (c : Dev nD) → (b : Ref sig .tc) → Buf (Elt F) ((c : Thread nD τ).loc b) := fun c b => W17 m ρ c b
/-- At region 8's exit: its windows' arrays at what the pipeline leaves, every other buffer as entered. -/
def W18 (c : Dev nD) : Valuation τ sig (Elt F) :=
  Pipeline.withArrays spec8 c (W17 m ρ c) fun w => (dat8 (V17 m ρ) c).arrAt w cfg8.N
theorem W18_arr (c : Dev nD) (w : Fin cfg8.W) :
    W18 m ρ c (Proc.devRef .tc (Pipeline.arrRef spec8 w)) = (dat8 (V17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
abbrev V18 : (c : Dev nD) → (b : Ref sig .tc) → Buf (Elt F) ((c : Thread nD τ).loc b) := fun c b => W18 m ρ c b
theorem hF8 (c : Dev nD) (w : Fin cfg8.W) : (dat8 (V17 m ρ) c).arrAt w cfg8.N = V18 m ρ c (Pipeline.arrRef spec8 w) :=
  (W18_arr m ρ c w).symm
theorem hrest8 (c : Dev nD) : ∀ b, b ∉ Finset.univ.image (Pipeline.arrRef spec8) → V18 m ρ c b = V17 m ρ c b :=
  fun b hb => W18_of_ne m ρ c b fun w e => hb (Finset.mem_image.mpr ⟨w, Finset.mem_univ _, e⟩)
/-- A host stretch keeps every buffer it does not write. -/
theorem W17_keep (c : Dev nD) (r : Ref sig .tc) (h : r ∉ hostOps8_W) :
    W17 m ρ c (Proc.devRef .tc r) = W16 m ρ c (Proc.devRef .tc r) :=
  StableHlo.after_of_writes_sub hostOps8 _ hostOps8_writes h
set_option maxHeartbeats 2000000 in
/-- A region keeps every buffer but its two output arrays: an input window's array ends as entered. -/
theorem W18_keep (c : Dev nD) (r : Ref sig .tc) (h1 : r ≠ main_v41_0) (h2 : r ≠ main_v41_1) :
    W18 m ρ c (Proc.devRef .tc r) = W17 m ρ c (Proc.devRef .tc r) := by
  by_cases hw : ∃ w, Pipeline.arrRef spec8 w = r
  · obtain ⟨w, rfl⟩ := hw
    rw [W18_arr]
    match w, h1, h2 with
    | ⟨0, _⟩, _, _ => exact ((dat8 (V17 m ρ) c).arrAt_in 0 rfl _).trans (A_eq8 (V17 m ρ) c 0)
    | ⟨1, _⟩, _, _ => exact ((dat8 (V17 m ρ) c).arrAt_in 1 rfl _).trans (A_eq8 (V17 m ρ) c 1)
    | ⟨2, _⟩, _, _ => exact ((dat8 (V17 m ρ) c).arrAt_in 2 rfl _).trans (A_eq8 (V17 m ρ) c 2)
    | ⟨3, _⟩, _, _ => exact ((dat8 (V17 m ρ) c).arrAt_in 3 rfl _).trans (A_eq8 (V17 m ρ) c 3)
    | ⟨4, _⟩, _, _ => exact ((dat8 (V17 m ρ) c).arrAt_in 4 rfl _).trans (A_eq8 (V17 m ρ) c 4)
    | ⟨5, _⟩, _, _ => exact ((dat8 (V17 m ρ) c).arrAt_in 5 rfl _).trans (A_eq8 (V17 m ρ) c 5)
    | ⟨6, _⟩, _, _ => exact ((dat8 (V17 m ρ) c).arrAt_in 6 rfl _).trans (A_eq8 (V17 m ρ) c 6)
    | ⟨7, _⟩, _, _ => exact ((dat8 (V17 m ρ) c).arrAt_in 7 rfl _).trans (A_eq8 (V17 m ρ) c 7)
    | ⟨8, _⟩, _, _ => exact ((dat8 (V17 m ρ) c).arrAt_in 8 rfl _).trans (A_eq8 (V17 m ρ) c 8)
    | ⟨9, _⟩, _, _ => exact ((dat8 (V17 m ρ) c).arrAt_in 9 rfl _).trans (A_eq8 (V17 m ρ) c 9)
    | ⟨10, _⟩, _, _ => exact ((dat8 (V17 m ρ) c).arrAt_in 10 rfl _).trans (A_eq8 (V17 m ρ) c 10)
    | ⟨11, _⟩, _, _ => exact ((dat8 (V17 m ρ) c).arrAt_in 11 rfl _).trans (A_eq8 (V17 m ρ) c 11)
    | ⟨12, _⟩, _, _ => exact ((dat8 (V17 m ρ) c).arrAt_in 12 rfl _).trans (A_eq8 (V17 m ρ) c 12)
    | ⟨13, _⟩, _, _ => exact ((dat8 (V17 m ρ) c).arrAt_in 13 rfl _).trans (A_eq8 (V17 m ρ) c 13)
    | ⟨14, _⟩, _, _ => exact ((dat8 (V17 m ρ) c).arrAt_in 14 rfl _).trans (A_eq8 (V17 m ρ) c 14)
    | ⟨15, _⟩, _, _ => exact ((dat8 (V17 m ρ) c).arrAt_in 15 rfl _).trans (A_eq8 (V17 m ρ) c 15)
    | ⟨16, _⟩, _, _ => exact ((dat8 (V17 m ρ) c).arrAt_in 16 rfl _).trans (A_eq8 (V17 m ρ) c 16)
    | ⟨17, _⟩, _, _ => exact ((dat8 (V17 m ρ) c).arrAt_in 17 rfl _).trans (A_eq8 (V17 m ρ) c 17)
    | ⟨18, _⟩, _, _ => exact ((dat8 (V17 m ρ) c).arrAt_in 18 rfl _).trans (A_eq8 (V17 m ρ) c 18)
    | ⟨19, _⟩, h1, _ => exact absurd rfl h1
    | ⟨20, _⟩, _, h2 => exact absurd rfl h2
    | ⟨n + 21, h⟩, _, _ => exact absurd h (Nat.not_lt.mpr (Nat.le_add_left 21 n))
  · exact W18_of_ne m ρ c r (fun w e => hw ⟨w, e⟩)

/-- After the last host stretch: the program's end. -/
abbrev W19 : Dev nD → Valuation τ sig (Elt F) := fun c => StableHlo.after hostOps9 (W18 m ρ c)
theorem W19_keep (c : Dev nD) (r : Ref sig .tc) (h : r ∉ hostOps9_W) :
    W19 m ρ c (Proc.devRef .tc r) = W18 m ρ c (Proc.devRef .tc r) :=
  StableHlo.after_of_writes_sub hostOps9 _ hostOps9_writes h

/-- A buffer no item writes ends at its launch contents. -/
theorem W19_launch (c : Dev nD) (r : Ref sig .tc)
    (g0 : r ∉ hostOps0_W) (g1 : r ∉ hostOps1_W) (g2 : r ∉ hostOps2_W) (g3 : r ∉ hostOps3_W) (g4 : r ∉ hostOps4_W) (g5 : r ∉ hostOps5_W) (g6 : r ∉ hostOps6_W) (g7 : r ∉ hostOps7_W) (g8 : r ∉ hostOps8_W) (g9 : r ∉ hostOps9_W)
    (a0 : r ≠ main_v9_0) (b0 : r ≠ main_v9_1) (a1 : r ≠ main_v13_0) (b1 : r ≠ main_v13_1) (a2 : r ≠ main_v17_0) (b2 : r ≠ main_v17_1) (a3 : r ≠ main_v21_0) (b3 : r ≠ main_v21_1) (a4 : r ≠ main_v25_0) (b4 : r ≠ main_v25_1) (a5 : r ≠ main_v29_0) (b5 : r ≠ main_v29_1) (a6 : r ≠ main_v33_0) (b6 : r ≠ main_v33_1) (a7 : r ≠ main_v37_0) (b7 : r ≠ main_v37_1) (a8 : r ≠ main_v41_0) (b8 : r ≠ main_v41_1) :
    W19 m ρ c (Proc.devRef .tc r) = m ((c : Thread nD τ).loc r) :=
  (W19_keep m ρ c r g9).trans <|
  (W18_keep m ρ c r a8 b8).trans <| (W17_keep m ρ c r g8).trans <|
  (W16_keep m ρ c r a7 b7).trans <| (W15_keep m ρ c r g7).trans <|
  (W14_keep m ρ c r a6 b6).trans <| (W13_keep m ρ c r g6).trans <|
  (W12_keep m ρ c r a5 b5).trans <| (W11_keep m ρ c r g5).trans <|
  (W10_keep m ρ c r a4 b4).trans <| (W9_keep m ρ c r g4).trans <|
  (W8_keep m ρ c r a3 b3).trans <| (W7_keep m ρ c r g3).trans <|
  (W6_keep m ρ c r a2 b2).trans <| (W5_keep m ρ c r g2).trans <|
  (W4_keep m ρ c r a1 b1).trans <| (W3_keep m ρ c r g1).trans <|
  (W2_keep m ρ c r a0 b0).trans <| (W1_keep m ρ c r g0).trans <|
  rfl

/-! ## The proof data family and the thread state -/

/-- Every pipeline's proof data, each at its region's entry contents. -/
def pdats : (p : Fin 9) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c
abbrev 𝒱₀ : Variants := Variants.none
abbrev L : GSem nD τ sig → Finset Unit := fun _ => ∅
abbrev lv : GSem nD τ sig → Unit → ℕ := fun _ _ => 0
/-- What rides beside the buffers through every segment: the core's generator register at some state, and its dues, none. -/
abbrev R (c : Dev nD) : sProp 𝕄 := iprop((∃ r, prngReg c r) ∗ ∃ W, owes (c : Thread nD τ) (0 : CellTallies nD τ sig Unit) W)
/-- A host stretch as a segment from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W19 m ρ c) ∗ ∃ r, prngReg c r)

/-! ## The regions as segments -/

set_option backward.isDefEq.respectTransparency.types false in
/-- Region 0 over the thread state: entered from every buffer at the contents before it, left at the contents after it.
    Its windows' arrays are split out of the buffers at entry and put back at what the pipeline leaves at exit. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every buffer at the contents before it, left at the contents after it.
    Its windows' arrays are split out of the buffers at entry and put back at what the pipeline leaves at exit. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every buffer at the contents before it, left at the contents after it.
    Its windows' arrays are split out of the buffers at entry and put back at what the pipeline leaves at exit. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every buffer at the contents before it, left at the contents after it.
    Its windows' arrays are split out of the buffers at entry and put back at what the pipeline leaves at exit. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every buffer at the contents before it, left at the contents after it.
    Its windows' arrays are split out of the buffers at entry and put back at what the pipeline leaves at exit. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every buffer at the contents before it, left at the contents after it.
    Its windows' arrays are split out of the buffers at entry and put back at what the pipeline leaves at exit. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every buffer at the contents before it, left at the contents after it.
    Its windows' arrays are split out of the buffers at entry and put back at what the pipeline leaves at exit. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every buffer at the contents before it, left at the contents after it.
    Its windows' arrays are split out of the buffers at entry and put back at what the pipeline leaves at exit. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: entered from every buffer at the contents before it, left at the contents after it.
    Its windows' arrays are split out of the buffers at entry and put back at what the pipeline leaves at exit. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec8 c (V17 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V17 m ρ c) (V18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)) ]

set_option backward.isDefEq.respectTransparency.types false in
/-- Every weakly fair execution of the program from memory m terminates, nothing faulting, with every buffer at the
    fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W19 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W19 m ρ c) ∗ R c)
        ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h => h)

end Cert.KernelIdeal.Tree

end
-- ==== Proof.KIFrame.lean ====
/-
  The arguments end as launched. No host operation writes an argument array and no region's output array is one, so
  the fold of buffer contents through the program, read at an argument, walks back to the launch memory; the run's
  last contents at the seventeen arguments are therefore the launch contents.
-/
import proofs.«167239_j63453846831535_1_alg».proof.Proof.KIRun

set_option maxRecDepth 16384

noncomputable section

namespace Cert.KernelIdeal.Tree

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem W19_main_arg0 (c : Dev nD) : W19 m ρ c (Proc.devRef .tc main_arg0) = m ((c : Thread nD τ).loc main_arg0) :=
  W19_launch m ρ c main_arg0 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W19_main_arg1 (c : Dev nD) : W19 m ρ c (Proc.devRef .tc main_arg1) = m ((c : Thread nD τ).loc main_arg1) :=
  W19_launch m ρ c main_arg1 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W19_main_arg2 (c : Dev nD) : W19 m ρ c (Proc.devRef .tc main_arg2) = m ((c : Thread nD τ).loc main_arg2) :=
  W19_launch m ρ c main_arg2 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W19_main_arg3 (c : Dev nD) : W19 m ρ c (Proc.devRef .tc main_arg3) = m ((c : Thread nD τ).loc main_arg3) :=
  W19_launch m ρ c main_arg3 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W19_main_arg4 (c : Dev nD) : W19 m ρ c (Proc.devRef .tc main_arg4) = m ((c : Thread nD τ).loc main_arg4) :=
  W19_launch m ρ c main_arg4 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W19_main_arg5 (c : Dev nD) : W19 m ρ c (Proc.devRef .tc main_arg5) = m ((c : Thread nD τ).loc main_arg5) :=
  W19_launch m ρ c main_arg5 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W19_main_arg6 (c : Dev nD) : W19 m ρ c (Proc.devRef .tc main_arg6) = m ((c : Thread nD τ).loc main_arg6) :=
  W19_launch m ρ c main_arg6 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W19_main_arg7 (c : Dev nD) : W19 m ρ c (Proc.devRef .tc main_arg7) = m ((c : Thread nD τ).loc main_arg7) :=
  W19_launch m ρ c main_arg7 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W19_main_arg8 (c : Dev nD) : W19 m ρ c (Proc.devRef .tc main_arg8) = m ((c : Thread nD τ).loc main_arg8) :=
  W19_launch m ρ c main_arg8 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W19_main_arg9 (c : Dev nD) : W19 m ρ c (Proc.devRef .tc main_arg9) = m ((c : Thread nD τ).loc main_arg9) :=
  W19_launch m ρ c main_arg9 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W19_main_arg10 (c : Dev nD) : W19 m ρ c (Proc.devRef .tc main_arg10) = m ((c : Thread nD τ).loc main_arg10) :=
  W19_launch m ρ c main_arg10 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W19_main_arg11 (c : Dev nD) : W19 m ρ c (Proc.devRef .tc main_arg11) = m ((c : Thread nD τ).loc main_arg11) :=
  W19_launch m ρ c main_arg11 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W19_main_arg12 (c : Dev nD) : W19 m ρ c (Proc.devRef .tc main_arg12) = m ((c : Thread nD τ).loc main_arg12) :=
  W19_launch m ρ c main_arg12 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W19_main_arg13 (c : Dev nD) : W19 m ρ c (Proc.devRef .tc main_arg13) = m ((c : Thread nD τ).loc main_arg13) :=
  W19_launch m ρ c main_arg13 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W19_main_arg14 (c : Dev nD) : W19 m ρ c (Proc.devRef .tc main_arg14) = m ((c : Thread nD τ).loc main_arg14) :=
  W19_launch m ρ c main_arg14 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W19_main_arg15 (c : Dev nD) : W19 m ρ c (Proc.devRef .tc main_arg15) = m ((c : Thread nD τ).loc main_arg15) :=
  W19_launch m ρ c main_arg15 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W19_main_arg16 (c : Dev nD) : W19 m ρ c (Proc.devRef .tc main_arg16) = m ((c : Thread nD τ).loc main_arg16) :=
  W19_launch m ρ c main_arg16 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)

/-- Every weakly fair execution terminates, nothing faulting, and every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c _ (mem_uc main_arg0 (by decide))).trans (W19_main_arg0 m ρ c),
     (h c _ (mem_uc main_arg1 (by decide))).trans (W19_main_arg1 m ρ c),
     (h c _ (mem_uc main_arg2 (by decide))).trans (W19_main_arg2 m ρ c),
     (h c _ (mem_uc main_arg3 (by decide))).trans (W19_main_arg3 m ρ c),
     (h c _ (mem_uc main_arg4 (by decide))).trans (W19_main_arg4 m ρ c),
     (h c _ (mem_uc main_arg5 (by decide))).trans (W19_main_arg5 m ρ c),
     (h c _ (mem_uc main_arg6 (by decide))).trans (W19_main_arg6 m ρ c),
     (h c _ (mem_uc main_arg7 (by decide))).trans (W19_main_arg7 m ρ c),
     (h c _ (mem_uc main_arg8 (by decide))).trans (W19_main_arg8 m ρ c),
     (h c _ (mem_uc main_arg9 (by decide))).trans (W19_main_arg9 m ρ c),
     (h c _ (mem_uc main_arg10 (by decide))).trans (W19_main_arg10 m ρ c),
     (h c _ (mem_uc main_arg11 (by decide))).trans (W19_main_arg11 m ρ c),
     (h c _ (mem_uc main_arg12 (by decide))).trans (W19_main_arg12 m ρ c),
     (h c _ (mem_uc main_arg13 (by decide))).trans (W19_main_arg13 m ρ c),
     (h c _ (mem_uc main_arg14 (by decide))).trans (W19_main_arg14 m ρ c),
     (h c _ (mem_uc main_arg15 (by decide))).trans (W19_main_arg15 m ρ c),
     (h c _ (mem_uc main_arg16 (by decide))).trans (W19_main_arg16 m ρ c)⟩)
    (run_all m ρ)

end Cert.KernelIdeal.Tree

end
-- ==== Proof.TreeSpec.lean ====
/-
  One level of the child-sum tree recurrence on the extended reals, and the nine levels of a complete 4-ary
  forest whose nodes are stored leaves first (65536 leaves, then 16384, 4096, 1024, 256, 64, 16, 4 and 1 node).

  A node with input row x (300 numbers) and children (h_k, c_k), k < 4, has
      s   = h_0 + h_1 + h_2 + h_3
      f_k = σ((h_k · W_fh + b_fh) + (x · W_fx + b_fx))
      i   = σ(((x · W_ix + b_ix) + s · W_ih) + b_ih)        and likewise o (from W_ox, W_oh)
      u   = tanh(((x · W_ux + b_ux) + s · W_uh) + b_uh)
      c   = i * u + (f_0 * c_0 + f_1 * c_1 + f_2 * c_2 + f_3 * c_3)
      h   = o * tanh c
  where σ z = 1 / (1 + e^(-z)) and a product with a matrix is the sum over the contracted axis. A leaf has no
  children: i = σ((x · W_ix + b_ix) + b_ih), likewise o and u, c = i * u, h = o * tanh c. The children of node r of
  one level are nodes 4r, 4r+1, 4r+2, 4r+3 of the level below. Every sum is written in the order above, so that no
  law of the extended reals beyond the shape of the terms is needed to recognise it.
-/
import Idealize.ShloMosaic.PureOps.Ideal

noncomputable section

namespace Cert.TreeSpec

open Idealize.ShloMosaic

/-- The eight weight matrices and eight bias rows of the recurrence. -/
structure Params where
  Wix : Fin 300 → Fin 150 → EReal
  bix : Fin 150 → EReal
  Wfx : Fin 300 → Fin 150 → EReal
  bfx : Fin 150 → EReal
  Wux : Fin 300 → Fin 150 → EReal
  bux : Fin 150 → EReal
  Wox : Fin 300 → Fin 150 → EReal
  box : Fin 150 → EReal
  Wih : Fin 150 → Fin 150 → EReal
  bih : Fin 150 → EReal
  Wfh : Fin 150 → Fin 150 → EReal
  bfh : Fin 150 → EReal
  Wuh : Fin 150 → Fin 150 → EReal
  buh : Fin 150 → EReal
  Woh : Fin 150 → Fin 150 → EReal
  boh : Fin 150 → EReal

/-- Row r of x against column p of W: the sum over the contracted axis. -/
def lin {n K M : ℕ} (x : Fin n → Fin K → EReal) (W : Fin K → Fin M → EReal) (r : Fin n) (p : Fin M) : EReal :=
  ∑ k : Fin K, x r k * W k p

variable (P : Params)

/-! ## A leaf level -/

/-- The memory cell of leaf r at coordinate p: i * u. -/
def leafC {n : ℕ} (x : Fin n → Fin 300 → EReal) (r : Fin n) (p : Fin 150) : EReal :=
  Ideal.logistic (lin x P.Wix r p + P.bix p + P.bih p) * Ideal.tanh (lin x P.Wux r p + P.bux p + P.buh p)

/-- The hidden state of leaf r at coordinate p: o * tanh c. -/
def leafH {n : ℕ} (x : Fin n → Fin 300 → EReal) (r : Fin n) (p : Fin 150) : EReal :=
  Ideal.logistic (lin x P.Wox r p + P.box p + P.boh p) * Ideal.tanh (leafC P x r p)

/-! ## An internal level -/

/-- The sum of the four children's hidden states. -/
def hsum {n : ℕ} (ch : Fin n → Fin 4 → Fin 150 → EReal) (r : Fin n) (p : Fin 150) : EReal :=
  ∑ k : Fin 4, ch r k p

/-- Child k's forget gate at node r, coordinate p. -/
def fgate {n : ℕ} (x : Fin n → Fin 300 → EReal) (ch : Fin n → Fin 4 → Fin 150 → EReal)
    (r : Fin n) (k : Fin 4) (p : Fin 150) : EReal :=
  Ideal.logistic (((∑ j : Fin 150, ch r k j * P.Wfh j p) + P.bfh p) + (lin x P.Wfx r p + P.bfx p))

/-- The children's memory cells, each weighted by its forget gate, summed. -/
def fsum {n : ℕ} (x : Fin n → Fin 300 → EReal) (ch cc : Fin n → Fin 4 → Fin 150 → EReal)
    (r : Fin n) (p : Fin 150) : EReal :=
  ∑ k : Fin 4, fgate P x ch r k p * cc r k p

/-- The memory cell of internal node r at coordinate p: i * u + the gated children's cells. -/
def intC {n : ℕ} (x : Fin n → Fin 300 → EReal) (ch cc : Fin n → Fin 4 → Fin 150 → EReal)
    (r : Fin n) (p : Fin 150) : EReal :=
  Ideal.logistic (lin x P.Wix r p + P.bix p + lin (hsum ch) P.Wih r p + P.bih p)
      * Ideal.tanh (lin x P.Wux r p + P.bux p + lin (hsum ch) P.Wuh r p + P.buh p)
    + fsum P x ch cc r p

/-- The hidden state of internal node r at coordinate p: o * tanh c. -/
def intH {n : ℕ} (x : Fin n → Fin 300 → EReal) (ch cc : Fin n → Fin 4 → Fin 150 → EReal)
    (r : Fin n) (p : Fin 150) : EReal :=
  Ideal.logistic (lin x P.Wox r p + P.box p + lin (hsum ch) P.Woh r p + P.boh p)
    * Ideal.tanh (intC P x ch cc r p)

/-! ## The nine levels -/

/-- Rows off, off+1, …, off+n-1 of the input matrix: one level's inputs. -/
def rows (E : Fin 87381 → Fin 300 → EReal) (off n : ℕ) (h : off + n ≤ 87381) : Fin n → Fin 300 → EReal :=
  fun r k => E ⟨off + r.val, by have := r.isLt; omega⟩ k

/-- The level below regrouped by parent: child k of node r is node 4r + k. -/
def kids {m n : ℕ} (hm : m = 4 * n) (a : Fin m → Fin 150 → EReal) : Fin n → Fin 4 → Fin 150 → EReal :=
  fun r k p => a ⟨4 * r.val + k.val, by have := r.isLt; have := k.isLt; omega⟩ p

/-- One level's hidden states and memory cells. -/
structure Level (n : ℕ) where
  h : Fin n → Fin 150 → EReal
  c : Fin n → Fin 150 → EReal

variable (E : Fin 87381 → Fin 300 → EReal)

/-- The leaves: rows 0 … 65535. -/
def level0 : Level 65536 :=
  ⟨leafH P (rows E 0 65536 (by norm_num)), leafC P (rows E 0 65536 (by norm_num))⟩

/-- A level of n nodes on rows off …, above a level of m = 4n nodes. -/
def above {m : ℕ} (n off : ℕ) (hoff : off + n ≤ 87381) (hm : m = 4 * n) (L : Level m) : Level n :=
  ⟨intH P (rows E off n hoff) (kids hm L.h) (kids hm L.c), intC P (rows E off n hoff) (kids hm L.h) (kids hm L.c)⟩

def level1 : Level 16384 := above P E 16384 65536 (by norm_num) (by norm_num) (level0 P E)
def level2 : Level 4096 := above P E 4096 81920 (by norm_num) (by norm_num) (level1 P E)
def level3 : Level 1024 := above P E 1024 86016 (by norm_num) (by norm_num) (level2 P E)
def level4 : Level 256 := above P E 256 87040 (by norm_num) (by norm_num) (level3 P E)
def level5 : Level 64 := above P E 64 87296 (by norm_num) (by norm_num) (level4 P E)
def level6 : Level 16 := above P E 16 87360 (by norm_num) (by norm_num) (level5 P E)
def level7 : Level 4 := above P E 4 87376 (by norm_num) (by norm_num) (level6 P E)
def level8 : Level 1 := above P E 1 87380 (by norm_num) (by norm_num) (level7 P E)

end Cert.TreeSpec

end
-- ==== Proof.TreeSpecArr.lean ====
/-
  The recurrence's parameters and input matrix read off arrays: the coordinate functions of the sixteen weight
  and bias arrays, with a bias given either as a vector of 150 numbers or as a 1 x 150 row, and of the
  87381 x 300 input matrix.
-/
import Idealize.ShloMosaic.Lib.ValueIdx
import proofs.«167239_j63453846831535_1_alg».proof.Proof.TreeSpec

noncomputable section

namespace Cert.TreeSpec

open Idealize.ShloMosaic Idealize.ShloMosaic.ValueIdx

/-- A 300 x 150 or 150 x 150 array as a function of its two coordinates. -/
def mat {a b : ℕ} (w : (⟨2, ![a, b]⟩ : Shape).Idx → EReal) : Fin a → Fin b → EReal := fun k p => w (ix2 k p)

/-- A vector of 150 numbers as a function of its coordinate. -/
def vec (v : (⟨1, ![150]⟩ : Shape).Idx → EReal) : Fin 150 → EReal := fun p => v (ix1 p)

/-- A 1 x 150 row as a function of its column. -/
def row (v : (⟨2, ![1, 150]⟩ : Shape).Idx → EReal) : Fin 150 → EReal := fun p => v (ix2 0 p)

/-- The parameters from the sixteen arrays in the programs' argument order, each bias a vector. -/
def paramsOfVecs
    (wix : (⟨2, ![300, 150]⟩ : Shape).Idx → EReal) (bix : (⟨1, ![150]⟩ : Shape).Idx → EReal)
    (wfx : (⟨2, ![300, 150]⟩ : Shape).Idx → EReal) (bfx : (⟨1, ![150]⟩ : Shape).Idx → EReal)
    (wux : (⟨2, ![300, 150]⟩ : Shape).Idx → EReal) (bux : (⟨1, ![150]⟩ : Shape).Idx → EReal)
    (wox : (⟨2, ![300, 150]⟩ : Shape).Idx → EReal) (box : (⟨1, ![150]⟩ : Shape).Idx → EReal)
    (wih : (⟨2, ![150, 150]⟩ : Shape).Idx → EReal) (bih : (⟨1, ![150]⟩ : Shape).Idx → EReal)
    (wfh : (⟨2, ![150, 150]⟩ : Shape).Idx → EReal) (bfh : (⟨1, ![150]⟩ : Shape).Idx → EReal)
    (wuh : (⟨2, ![150, 150]⟩ : Shape).Idx → EReal) (buh : (⟨1, ![150]⟩ : Shape).Idx → EReal)
    (woh : (⟨2, ![150, 150]⟩ : Shape).Idx → EReal) (boh : (⟨1, ![150]⟩ : Shape).Idx → EReal) : Params :=
  ⟨mat wix, vec bix, mat wfx, vec bfx, mat wux, vec bux, mat wox, vec box,
   mat wih, vec bih, mat wfh, vec bfh, mat wuh, vec buh, mat woh, vec boh⟩

/-- The same parameters, each bias a 1 x 150 row. -/
def paramsOfRows
    (wix : (⟨2, ![300, 150]⟩ : Shape).Idx → EReal) (bix : (⟨2, ![1, 150]⟩ : Shape).Idx → EReal)
    (wfx : (⟨2, ![300, 150]⟩ : Shape).Idx → EReal) (bfx : (⟨2, ![1, 150]⟩ : Shape).Idx → EReal)
    (wux : (⟨2, ![300, 150]⟩ : Shape).Idx → EReal) (bux : (⟨2, ![1, 150]⟩ : Shape).Idx → EReal)
    (wox : (⟨2, ![300, 150]⟩ : Shape).Idx → EReal) (box : (⟨2, ![1, 150]⟩ : Shape).Idx → EReal)
    (wih : (⟨2, ![150, 150]⟩ : Shape).Idx → EReal) (bih : (⟨2, ![1, 150]⟩ : Shape).Idx → EReal)
    (wfh : (⟨2, ![150, 150]⟩ : Shape).Idx → EReal) (bfh : (⟨2, ![1, 150]⟩ : Shape).Idx → EReal)
    (wuh : (⟨2, ![150, 150]⟩ : Shape).Idx → EReal) (buh : (⟨2, ![1, 150]⟩ : Shape).Idx → EReal)
    (woh : (⟨2, ![150, 150]⟩ : Shape).Idx → EReal) (boh : (⟨2, ![1, 150]⟩ : Shape).Idx → EReal) : Params :=
  ⟨mat wix, row bix, mat wfx, row bfx, mat wux, row bux, mat wox, row box,
   mat wih, row bih, mat wfh, row bfh, mat wuh, row buh, mat woh, row boh⟩

/-- The input matrix as a function of its row and column. -/
def embsOf (e : (⟨2, ![87381, 300]⟩ : Shape).Idx → EReal) : Fin 87381 → Fin 300 → EReal := mat e

/-- A tile of n input rows as a function of its row and column. -/
def tile2 {n b : ℕ} (x : (⟨2, ![n, b]⟩ : Shape).Idx → EReal) : Fin n → Fin b → EReal := mat x

/-- A tile of n nodes' four children as a function of node, child and coordinate. -/
def tile3 {n : ℕ} (x : (⟨3, ![n, 4, 150]⟩ : Shape).Idx → EReal) : Fin n → Fin 4 → Fin 150 → EReal :=
  fun r k p => x (ix3 r k p)

end Cert.TreeSpec

end
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibHostRead.lean ====
/-
  A reference program's host operations read at an index, on the extended reals, over literal-shape patterns.

  A reference that normalises over a batch, takes squared distances to a family of centres and projects on a family
  of directions is spelt, on the host, with five kinds of operation besides the elementwise ones:
    • a one-axis sum (`reduce` with an `add` body from a zero word): along the columns or the rows of an `[a, b]`
      array, or along the last axis of an `[a, b, c]` array — at a result index it is the sum of the operand over the
      dropped coordinate;
    • `broadcast_in_dim`: a vector turned into a one-row or one-column matrix and that matrix repeated over the other
      axis, a matrix given a unit middle or leading axis and repeated along it, a literal scalar repeated everywhere —
      at a result index each reads the operand at the coordinates it keeps;
    • a matrix transpose, a rotation of three axes, and two arrays stacked along the leading axis;
    • `dot_general` contracting the columns of an `[B, D]` matrix with the last axis of an `[N, K, D]` array into
      `[B, N, K]` — at `(p, q, j)` the sum over `d` of `l (p, d) * r (q, j, d)`;
    • the host's negation, exponential and reciprocal square root, elementwise.
  Every extent is generic and every shape fact is a hypothesis, so the lemmas apply to any program's records.
-/
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost

namespace Hmu.Lib

open Idealize.ShloMosaic Idealize.ShloMosaic.ValueIdx

variable {a b c k : ℕ}

/-! ## The host's elementwise operations at an index -/

/-- The host's negation at an index negates the element. -/
theorem hostNegf_apply {s : Shape} {φ : FTy} (x : FVec Ideal s φ) (i : s.Idx) : Host.negf x i = -(x i) := rfl
/-- The host's exponential at an index is the extended exponential of the element. -/
theorem hostExp_apply {s : Shape} {φ : FTy} (x : FVec Ideal s φ) (i : s.Idx) : Host.exp x i = Ideal.exp (x i) := rfl
/-- The host's reciprocal square root at an index is the extended one of the element. -/
theorem hostRsqrt_apply {s : Shape} {φ : FTy} (x : FVec Ideal s φ) (i : s.Idx) : Host.rsqrt x i = Ideal.rsqrt (x i) := rfl

/-! ## The index a one-axis reduction reads: the result index with the dropped coordinate put back -/

/-- Over the columns of an `[a, b]` array: row `r` with the column `j` put back is `(r, j)`. -/
theorem lift_ab_axis1 (h : Shape.Reduces ⟨2, ![a, b]⟩ [1] ⟨1, ![a]⟩) (r : Fin a) (j : Fin b) :
    h.lift (ix1 r) j = ix2 r j := by
  funext d
  apply Fin.ext
  match d with
  | ⟨0, _⟩ => rfl
  | ⟨1, _⟩ => rfl

/-- Over the rows of an `[a, b]` array: column `j` with the row `r` put back is `(r, j)`. -/
theorem lift_ab_axis0 (h : Shape.Reduces ⟨2, ![a, b]⟩ [0] ⟨1, ![b]⟩) (j : Fin b) (r : Fin a) :
    h.lift (ix1 j) r = ix2 r j := by
  funext d
  apply Fin.ext
  match d with
  | ⟨0, _⟩ => rfl
  | ⟨1, _⟩ => rfl

/-- Over the last axis of an `[a, b, c]` array: `(p, q)` with the last coordinate `j` put back is `(p, q, j)`. -/
theorem lift_abc_axis2 (h : Shape.Reduces ⟨3, ![a, b, c]⟩ [2] ⟨2, ![a, b]⟩) (p : Fin a) (q : Fin b) (j : Fin c) :
    h.lift (ix2 p q) j = ix3 p q j := by
  funext d
  apply Fin.ext
  match d with
  | ⟨0, _⟩ => rfl
  | ⟨1, _⟩ => rfl
  | ⟨2, _⟩ => rfl

/-! ## The host's sum along one axis from the zero word -/

/-- The host's sum of an `[a, b]` array along its columns, from the zero word: at row `r` the row's sum. -/
theorem hostReduceAdd_ab_axis1_apply {u : Shape} (x : FVec Ideal ⟨2, ![a, b]⟩ .f32)
    (h' : Shape.ReducesTo ⟨2, ![a, b]⟩ [1] ⟨1, ![a]⟩) (hu : 0 < u.numel) (r : Fin a) :
    Host.reduceAdd x (constant u .f32 0x00000000#32) h' hu (ix1 r) = ∑ j : Fin b, x (ix2 r j) := by
  have h : Shape.Reduces ⟨2, ![a, b]⟩ [1] ⟨1, ![a]⟩ := ⟨h'.1, Nat.one_pos, h'.2⟩
  refine (hostReduceAdd_apply x _ h' hu (ix1 r)).trans ?_
  refine (Ideal.hostReduceAdd_single h' h x _ (ix1 r)).trans ?_
  show Ideal.ofBits .f32 0x00000000#32 + _ = _
  rw [Ideal.ofBits_zero_f32, zero_add]
  exact Finset.sum_congr rfl fun j _ => congrArg x (lift_ab_axis1 h r j)

/-- The host's sum of an `[a, b]` array along its rows, from the zero word: at column `j` the column's sum. -/
theorem hostReduceAdd_ab_axis0_apply {u : Shape} (x : FVec Ideal ⟨2, ![a, b]⟩ .f32)
    (h' : Shape.ReducesTo ⟨2, ![a, b]⟩ [0] ⟨1, ![b]⟩) (hu : 0 < u.numel) (j : Fin b) :
    Host.reduceAdd x (constant u .f32 0x00000000#32) h' hu (ix1 j) = ∑ r : Fin a, x (ix2 r j) := by
  have h : Shape.Reduces ⟨2, ![a, b]⟩ [0] ⟨1, ![b]⟩ := ⟨h'.1, Nat.one_pos, h'.2⟩
  refine (hostReduceAdd_apply x _ h' hu (ix1 j)).trans ?_
  refine (Ideal.hostReduceAdd_single h' h x _ (ix1 j)).trans ?_
  show Ideal.ofBits .f32 0x00000000#32 + _ = _
  rw [Ideal.ofBits_zero_f32, zero_add]
  exact Finset.sum_congr rfl fun r _ => congrArg x (lift_ab_axis0 h j r)

/-- The host's sum of an `[a, b, c]` array along its last axis, from the zero word: at `(p, q)` the sum over the last
    coordinate. -/
theorem hostReduceAdd_abc_axis2_apply {u : Shape} (x : FVec Ideal ⟨3, ![a, b, c]⟩ .f32)
    (h' : Shape.ReducesTo ⟨3, ![a, b, c]⟩ [2] ⟨2, ![a, b]⟩) (hu : 0 < u.numel) (p : Fin a) (q : Fin b) :
    Host.reduceAdd x (constant u .f32 0x00000000#32) h' hu (ix2 p q) = ∑ j : Fin c, x (ix3 p q j) := by
  have h : Shape.Reduces ⟨3, ![a, b, c]⟩ [2] ⟨2, ![a, b]⟩ := ⟨h'.1, Nat.two_pos, h'.2⟩
  refine (hostReduceAdd_apply x _ h' hu (ix2 p q)).trans ?_
  refine (Ideal.hostReduceAdd_single h' h x _ (ix2 p q)).trans ?_
  show Ideal.ofBits .f32 0x00000000#32 + _ = _
  rw [Ideal.ofBits_zero_f32, zero_add]
  exact Finset.sum_congr rfl fun j _ => congrArg x (lift_abc_axis2 h p q j)

/-! ## `broadcast_in_dim` at an index -/

section Broadcast
variable {α : Type}

/-- A literal scalar repeated over any shape reads the literal's value everywhere. -/
theorem bcast_const_apply {T : Shape} (w : BitVec 32) (h : (⟨0, ![]⟩ : Shape).BroadcastsInDim T ![]) (j : T.Idx) :
    broadcastInDim T ![] h (constant (F := Ideal) ⟨0, ![]⟩ .f32 w) j = Ideal.ofBits .f32 w :=
  broadcastInDim_scalar_apply h _ j

/-- A vector `[a]` as the column `[a, 1]`: "(r, u) ↦ r". -/
theorem bcast_a_a1_apply (x : (⟨1, ![a]⟩ : Shape).Idx → α)
    (h : (⟨1, ![a]⟩ : Shape).BroadcastsInDim ⟨2, ![a, 1]⟩ (![0] : Fin 1 → Fin 2)) (r : Fin a) (u : Fin 1) :
    broadcastInDim ⟨2, ![a, 1]⟩ ![0] h x (ix2 r u) = x (ix1 r) := by
  refine broadcastInDim_apply _ h x _ (ix1 r) fun ax => ?_
  match ax with
  | ⟨0, _⟩ =>
    show r.val = if a = 1 then 0 else r.val
    split
    · have := r.isLt; omega
    · rfl

/-- A column `[a, 1]` repeated over `[a, b]`: `(r, j) ↦ (r, 0)`. -/
theorem bcast_a1_ab_apply (x : (⟨2, ![a, 1]⟩ : Shape).Idx → α)
    (h : (⟨2, ![a, 1]⟩ : Shape).BroadcastsInDim ⟨2, ![a, b]⟩ (![0, 1] : Fin 2 → Fin 2)) (r : Fin a) (j : Fin b) :
    broadcastInDim ⟨2, ![a, b]⟩ ![0, 1] h x (ix2 r j) = x (ix2 r (0 : Fin 1)) := by
  refine broadcastInDim_apply _ h x _ (ix2 r (0 : Fin 1)) fun ax => ?_
  match ax with
  | ⟨0, _⟩ =>
    show r.val = if a = 1 then 0 else r.val
    split
    · have := r.isLt; omega
    · rfl
  | ⟨1, _⟩ => rfl

/-- A vector `[b]` as the row `[1, b]`: "(u, j) ↦ j". -/
theorem bcast_b_1b_apply (x : (⟨1, ![b]⟩ : Shape).Idx → α)
    (h : (⟨1, ![b]⟩ : Shape).BroadcastsInDim ⟨2, ![1, b]⟩ (![1] : Fin 1 → Fin 2)) (u : Fin 1) (j : Fin b) :
    broadcastInDim ⟨2, ![1, b]⟩ ![1] h x (ix2 u j) = x (ix1 j) := by
  refine broadcastInDim_apply _ h x _ (ix1 j) fun ax => ?_
  match ax with
  | ⟨0, _⟩ =>
    show j.val = if b = 1 then 0 else j.val
    split
    · have := j.isLt; omega
    · rfl

/-- A row `[1, b]` repeated over `[a, b]`: `(r, j) ↦ (0, j)`. -/
theorem bcast_1b_ab_apply (x : (⟨2, ![1, b]⟩ : Shape).Idx → α)
    (h : (⟨2, ![1, b]⟩ : Shape).BroadcastsInDim ⟨2, ![a, b]⟩ (![0, 1] : Fin 2 → Fin 2)) (r : Fin a) (j : Fin b) :
    broadcastInDim ⟨2, ![a, b]⟩ ![0, 1] h x (ix2 r j) = x (ix2 (0 : Fin 1) j) := by
  refine broadcastInDim_apply _ h x _ (ix2 (0 : Fin 1) j) fun ax => ?_
  match ax with
  | ⟨0, _⟩ => rfl
  | ⟨1, _⟩ =>
    show j.val = if b = 1 then 0 else j.val
    split
    · have := j.isLt; omega
    · rfl

/-- A matrix `[a, c]` given a unit middle axis `[a, 1, c]`: `(p, u, q) ↦ (p, q)`. -/
theorem bcast_ac_a1c_apply (x : (⟨2, ![a, c]⟩ : Shape).Idx → α)
    (h : (⟨2, ![a, c]⟩ : Shape).BroadcastsInDim ⟨3, ![a, 1, c]⟩ (![0, 2] : Fin 2 → Fin 3)) (p : Fin a) (u : Fin 1)
    (q : Fin c) : broadcastInDim ⟨3, ![a, 1, c]⟩ ![0, 2] h x (ix3 p u q) = x (ix2 p q) := by
  refine broadcastInDim_apply _ h x _ (ix2 p q) fun ax => ?_
  match ax with
  | ⟨0, _⟩ =>
    show p.val = if a = 1 then 0 else p.val
    split
    · have := p.isLt; omega
    · rfl
  | ⟨1, _⟩ =>
    show q.val = if c = 1 then 0 else q.val
    split
    · have := q.isLt; omega
    · rfl

/-- An `[a, 1, c]` array repeated along its middle axis over `[a, k, c]`: `(p, j, q) ↦ (p, 0, q)`. -/
theorem bcast_a1c_akc_apply (x : (⟨3, ![a, 1, c]⟩ : Shape).Idx → α)
    (h : (⟨3, ![a, 1, c]⟩ : Shape).BroadcastsInDim ⟨3, ![a, k, c]⟩ (![0, 1, 2] : Fin 3 → Fin 3)) (p : Fin a) (j : Fin k)
    (q : Fin c) : broadcastInDim ⟨3, ![a, k, c]⟩ ![0, 1, 2] h x (ix3 p j q) = x (ix3 p (0 : Fin 1) q) := by
  refine broadcastInDim_apply _ h x _ (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if c = 1 then 0 else q.val
    split
    · have := q.isLt; omega
    · rfl

/-- A matrix `[b, k]` given a unit leading axis `[1, b, k]`: `(u, q, j) ↦ (q, j)`. -/
theorem bcast_bk_1bk_apply (x : (⟨2, ![b, k]⟩ : Shape).Idx → α)
    (h : (⟨2, ![b, k]⟩ : Shape).BroadcastsInDim ⟨3, ![1, b, k]⟩ (![1, 2] : Fin 2 → Fin 3)) (u : Fin 1) (q : Fin b)
    (j : Fin k) : broadcastInDim ⟨3, ![1, b, k]⟩ ![1, 2] h x (ix3 u q j) = x (ix2 q j) := by
  refine broadcastInDim_apply _ h x _ (ix2 q j) fun ax => ?_
  match ax with
  | ⟨0, _⟩ =>
    show q.val = if b = 1 then 0 else q.val
    split
    · have := q.isLt; omega
    · rfl
  | ⟨1, _⟩ =>
    show j.val = if k = 1 then 0 else j.val
    split
    · have := j.isLt; omega
    · rfl

/-- A `[1, b, k]` array repeated along its leading axis over `[a, b, k]`: `(p, q, j) ↦ (0, q, j)`. -/
theorem bcast_1bk_abk_apply (x : (⟨3, ![1, b, k]⟩ : Shape).Idx → α)
    (h : (⟨3, ![1, b, k]⟩ : Shape).BroadcastsInDim ⟨3, ![a, b, k]⟩ (![0, 1, 2] : Fin 3 → Fin 3)) (p : Fin a) (q : Fin b)
    (j : Fin k) : broadcastInDim ⟨3, ![a, b, k]⟩ ![0, 1, 2] h x (ix3 p q j) = x (ix3 (0 : Fin 1) q j) := by
  refine broadcastInDim_apply _ h x _ (ix3 (0 : Fin 1) q j) fun ax => ?_
  match ax with
  | ⟨0, _⟩ => rfl
  | ⟨1, _⟩ =>
    show q.val = if b = 1 then 0 else q.val
    split
    · have := q.isLt; omega
    · rfl
  | ⟨2, _⟩ =>
    show j.val = if k = 1 then 0 else j.val
    split
    · have := j.isLt; omega
    · rfl

/-- A per-row vector `[a]` spread over `[a, b]` through the column `[a, 1]`: "(r, j) ↦ r". -/
theorem bcastRows_apply (x : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (r : Fin a) (j : Fin b) :
    broadcastInDim ⟨2, ![a, b]⟩ ![0, 1] h2 (broadcastInDim ⟨2, ![a, 1]⟩ ![0] h1 x) (ix2 r j) = x (ix1 r) :=
  (bcast_a1_ab_apply _ h2 r j).trans (bcast_a_a1_apply x h1 r 0)

/-- A per-column vector `[b]` spread over `[a, b]` through the row `[1, b]`: "(r, j) ↦ j". -/
theorem bcastCols_apply (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (r : Fin a) (j : Fin b) :
    broadcastInDim ⟨2, ![a, b]⟩ ![0, 1] h2 (broadcastInDim ⟨2, ![1, b]⟩ ![1] h1 x) (ix2 r j) = x (ix1 j) :=
  (bcast_1b_ab_apply _ h2 r j).trans (bcast_b_1b_apply x h1 0 j)

/-- A matrix `[a, c]` repeated `k` times along a new middle axis, through `[a, 1, c]`: `(p, j, q) ↦ (p, q)`. -/
theorem bcastMiddle_apply (x : (⟨2, ![a, c]⟩ : Shape).Idx → α)
    (h1 : (⟨2, ![a, c]⟩ : Shape).BroadcastsInDim ⟨3, ![a, 1, c]⟩ (![0, 2] : Fin 2 → Fin 3))
    (h2 : (⟨3, ![a, 1, c]⟩ : Shape).BroadcastsInDim ⟨3, ![a, k, c]⟩ (![0, 1, 2] : Fin 3 → Fin 3)) (p : Fin a) (j : Fin k)
    (q : Fin c) :
    broadcastInDim ⟨3, ![a, k, c]⟩ ![0, 1, 2] h2 (broadcastInDim ⟨3, ![a, 1, c]⟩ ![0, 2] h1 x) (ix3 p j q) = x (ix2 p q) :=
  (bcast_a1c_akc_apply _ h2 p j q).trans (bcast_ac_a1c_apply x h1 p 0 q)

/-- A matrix `[b, k]` repeated `a` times along a new leading axis, through `[1, b, k]`: `(p, q, j) ↦ (q, j)`. -/
theorem bcastLeading_apply (x : (⟨2, ![b, k]⟩ : Shape).Idx → α)
    (h1 : (⟨2, ![b, k]⟩ : Shape).BroadcastsInDim ⟨3, ![1, b, k]⟩ (![1, 2] : Fin 2 → Fin 3))
    (h2 : (⟨3, ![1, b, k]⟩ : Shape).BroadcastsInDim ⟨3, ![a, b, k]⟩ (![0, 1, 2] : Fin 3 → Fin 3)) (p : Fin a) (q : Fin b)
    (j : Fin k) :
    broadcastInDim ⟨3, ![a, b, k]⟩ ![0, 1, 2] h2 (broadcastInDim ⟨3, ![1, b, k]⟩ ![1, 2] h1 x) (ix3 p q j) = x (ix2 q j) :=
  (bcast_1bk_abk_apply _ h2 p q j).trans (bcast_bk_1bk_apply x h1 0 q j)

end Broadcast

/-! ## A transpose that rotates the axes, and two pieces stacked along the leading axis -/

section Layout
variable {α : Type} {m mt : ℕ}

/-- An `[a, b, c]` array with its axes rotated to `[b, c, a]` (permutation `[1, 2, 0]`) reads, at `(j, q, p)`, the
    operand at `(p, j, q)`. -/
theorem transpose_ix3_120_apply (x : (⟨3, ![a, b, c]⟩ : Shape).Idx → α)
    (h : (⟨3, ![a, b, c]⟩ : Shape).Transposes [1, 2, 0] ⟨3, ![b, c, a]⟩) (j : Fin b) (q : Fin c) (p : Fin a) :
    transpose ⟨3, ![b, c, a]⟩ [1, 2, 0] x h (ix3 j q p) = x (ix3 p j q) :=
  transpose_apply _ x h _ _ fun e => match e with | ⟨0, _⟩ => rfl | ⟨1, _⟩ => rfl | ⟨2, _⟩ => rfl

/-- One slab `[1, a, b]` stacked on `m` slabs `[m, a, b]` along the leading axis: slab `0` of the stack is the
    first piece. -/
theorem concat_1ab_mab_head_apply (x₁ : (⟨3, ![1, a, b]⟩ : Shape).Idx → α) (x₂ : (⟨3, ![m, a, b]⟩ : Shape).Idx → α)
    (h : Shape.Concatenates [⟨3, ![1, a, b]⟩, ⟨3, ![m, a, b]⟩] ⟨3, ![mt, a, b]⟩ 0) (s : Fin mt) (hs : s.val = 0)
    (p : Fin a) (q : Fin b) :
    concatenate ⟨3, ![mt, a, b]⟩ 0 [⟨⟨3, ![1, a, b]⟩, x₁⟩, ⟨⟨3, ![m, a, b]⟩, x₂⟩] h (ix3 s p q) = x₁ (ix3 (0 : Fin 1) p q) :=
  concatenate_pair_apply_left (0 : Fin 3) x₁ x₂ h (ix3 s p q) rfl (ix3 (0 : Fin 1) p q) fun e =>
    match e with | ⟨0, _⟩ => hs.symm | ⟨1, _⟩ => rfl | ⟨2, _⟩ => rfl

/-- … and slab `j + 1` of the stack is slab `j` of the second piece. -/
theorem concat_1ab_mab_tail_apply (x₁ : (⟨3, ![1, a, b]⟩ : Shape).Idx → α) (x₂ : (⟨3, ![m, a, b]⟩ : Shape).Idx → α)
    (h : Shape.Concatenates [⟨3, ![1, a, b]⟩, ⟨3, ![m, a, b]⟩] ⟨3, ![mt, a, b]⟩ 0) (s : Fin mt) (j : Fin m)
    (hs : s.val = j.val + 1) (p : Fin a) (q : Fin b) :
    concatenate ⟨3, ![mt, a, b]⟩ 0 [⟨⟨3, ![1, a, b]⟩, x₁⟩, ⟨⟨3, ![m, a, b]⟩, x₂⟩] h (ix3 s p q) = x₂ (ix3 j p q) :=
  concatenate_pair_apply_right (0 : Fin 3) x₁ x₂ h (ix3 s p q) rfl rfl (ix3 j p q)
    (fun e he => match e, he with | ⟨0, _⟩, he => absurd rfl he | ⟨1, _⟩, _ => rfl | ⟨2, _⟩, _ => rfl)
    hs.symm

end Layout

/-! ## A matrix against a stack of direction families: `[B, D] × [N, K, D] → [B, N, K]` -/

section Dot
variable {B D N K : ℕ}

/-- The dimension numbers "contract the left operand's columns with the right operand's last axis, no batch axis",
    over any extents; the shape conditions are the caller's fact. -/
def dotBDxNKD (B D N K : ℕ)
    (wf : DotDims.WF ⟨2, ![B, D]⟩ ⟨3, ![N, K, D]⟩ ⟨3, ![B, N, K]⟩ [1] [2] [0] [0, 1] [] []) :
    DotDims ⟨2, ![B, D]⟩ ⟨3, ![N, K, D]⟩ ⟨3, ![B, N, K]⟩ where
  lhsContracting := [1]
  rhsContracting := [2]
  lhsNonContracting := [0]
  rhsNonContracting := [0, 1]
  lhsBatch := []
  rhsBatch := []
  wf := wf

variable (wf : DotDims.WF ⟨2, ![B, D]⟩ ⟨3, ![N, K, D]⟩ ⟨3, ![B, N, K]⟩ [1] [2] [0] [0, 1] [] [])

/-- The left operand's index at output entry `(p, q, j)` and contracted coordinate `d` is `(p, d)`. -/
theorem dotBDxNKD_lhsIdx (p : Fin B) (q : Fin N) (j : Fin K) (d : Fin D) :
    (dotBDxNKD B D N K wf).lhsIdx (ix3 p q j) ((contrEquiv1 (dotBDxNKD B D N K wf) D rfl rfl).symm d) = ix2 p d := by
  have hk := contrEquiv1_symm_val (dotBDxNKD B D N K wf) D rfl rfl d
  funext ax
  apply Fin.ext
  match ax with
  | ⟨0, _⟩ => rfl
  | ⟨1, _⟩ => exact ((dotBDxNKD B D N K wf).lhsIdx_val_of_single (cl := 1) rfl _ _).trans hk

/-- The right operand's index at output entry `(p, q, j)` and contracted coordinate `d` is `(q, j, d)`. -/
theorem dotBDxNKD_rhsIdx (p : Fin B) (q : Fin N) (j : Fin K) (d : Fin D) :
    (dotBDxNKD B D N K wf).rhsIdx (ix3 p q j) ((contrEquiv1 (dotBDxNKD B D N K wf) D rfl rfl).symm d) = ix3 q j d := by
  have hk := contrEquiv1_symm_val (dotBDxNKD B D N K wf) D rfl rfl d
  funext ax
  apply Fin.ext
  match ax with
  | ⟨0, _⟩ => rfl
  | ⟨1, _⟩ => rfl
  | ⟨2, _⟩ => exact ((dotBDxNKD B D N K wf).rhsIdx_val_of_single (cr := 2) rfl _ _).trans hk

/-- The host's `dot_general` with these dimension numbers, read at `(p, q, j)`: the sum over the contracted coordinate
    of the left operand's row `p` against the right operand's fibre `(q, j)`. -/
theorem dotBDxNKD_apply {φ₁ φ₂ : FTy} (l : FVec Ideal ⟨2, ![B, D]⟩ φ₁) (r : FVec Ideal ⟨3, ![N, K, D]⟩ φ₂)
    (prec : Option ContractPrecision) (sched : HostSchedule) (p : Fin B) (q : Fin N) (j : Fin K) :
    FloatOps.dotGeneral (dotBDxNKD B D N K wf) prec sched l r (ix3 p q j) = ∑ d : Fin D, l (ix2 p d) * r (ix3 q j d) := by
  refine (Ideal.dotGeneral_apply (dotBDxNKD B D N K wf) prec sched l r (ix3 p q j)).trans ?_
  rw [← Equiv.sum_comp (contrEquiv1 (dotBDxNKD B D N K wf) D rfl rfl).symm]
  refine Finset.sum_congr rfl fun d _ => ?_
  rw [dotBDxNKD_lhsIdx, dotBDxNKD_rhsIdx]

end Dot

end Hmu.Lib
-- ==== Proof.LibTreeHost.lean ====
/-
  The host operations of a child-sum recurrence over a 4-ary forest, read at an index on the extended reals.

  Besides plain matrix products and row biases, one level of the recurrence spells on the host:
    • a sum along the MIDDLE axis of an `[a, b, c]` array (the children of a node), from the zero word — at `(p, q)`
      the sum over `j` of the operand at `(p, j, q)`;
    • a vector `[c]` given two unit leading axes `[1, 1, c]` and repeated over `[a, k, c]` — at `(p, j, q)` the
      vector at `q`;
    • `dot_general` contracting the last axis of an `[A, K, D]` array with the rows of a `[D, P]` matrix into
      `[A, K, P]` — at `(p, j, q)` the sum over `d` of `l (p, j, d) * r (d, q)`;
    • an `[m, c]` matrix regrouped row-major as `[n, k, c]` — at `(r, j, q)` the matrix at row `r * k + j`;
    • the logistic function written `1 / (1 + e^(-z))` with the ones literal scalars repeated over the shape;
    • a matrix product whose left operand is the zero word repeated: zero.
  Every extent is generic and every shape fact is a hypothesis, so the lemmas apply to any program's records.
-/
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost
import proofs.«167239_j63453846831535_1_alg».proof.Proof.LibPlainDot
import proofs.«167239_j63453846831535_1_alg».proof.Proof.LibHostRead

namespace TreeHost.Lib

open Idealize.ShloMosaic Idealize.ShloMosaic.ValueIdx

variable {a b c k : ℕ}

/-! ## A sum along the middle axis -/

/-- Over the middle axis of an `[a, b, c]` array: `(p, q)` with the middle coordinate `j` put back is `(p, j, q)`. -/
theorem lift_abc_axis1 (h : Shape.Reduces ⟨3, ![a, b, c]⟩ [1] ⟨2, ![a, c]⟩) (p : Fin a) (q : Fin c) (j : Fin b) :
    h.lift (ix2 p q) j = ix3 p j q := by
  funext d
  apply Fin.ext
  match d with
  | ⟨0, _⟩ => rfl
  | ⟨1, _⟩ => rfl
  | ⟨2, _⟩ => rfl

/-- The host's sum of an `[a, b, c]` array along its middle axis, from the zero word: at `(p, q)` the sum over the
    middle coordinate. -/
theorem hostReduceAdd_abc_axis1_apply {u : Shape} (x : FVec Ideal ⟨3, ![a, b, c]⟩ .f32)
    (h' : Shape.ReducesTo ⟨3, ![a, b, c]⟩ [1] ⟨2, ![a, c]⟩) (hu : 0 < u.numel) (p : Fin a) (q : Fin c) :
    Host.reduceAdd x (constant u .f32 0x00000000#32) h' hu (ix2 p q) = ∑ j : Fin b, x (ix3 p j q) := by
  have h : Shape.Reduces ⟨3, ![a, b, c]⟩ [1] ⟨2, ![a, c]⟩ := ⟨h'.1, Nat.two_pos, h'.2⟩
  refine (hostReduceAdd_apply x _ h' hu (ix2 p q)).trans ?_
  refine (Ideal.hostReduceAdd_single h' h x _ (ix2 p q)).trans ?_
  show Ideal.ofBits .f32 0x00000000#32 + _ = _
  rw [Ideal.ofBits_zero_f32, zero_add]
  exact Finset.sum_congr rfl fun j _ => congrArg x (lift_abc_axis1 h p q j)

/-! ## A vector repeated over the two leading axes of a rank-3 array -/

section Broadcast
variable {α : Type}

/-- A vector `[c]` given two unit leading axes `[1, 1, c]`: `(u, v, q) ↦ q`. -/
theorem bcast_c_11c_apply (x : (⟨1, ![c]⟩ : Shape).Idx → α)
    (h : (⟨1, ![c]⟩ : Shape).BroadcastsInDim ⟨3, ![1, 1, c]⟩ (![2] : Fin 1 → Fin 3)) (u v : Fin 1) (q : Fin c) :
    broadcastInDim ⟨3, ![1, 1, c]⟩ ![2] h x (ix3 u v q) = x (ix1 q) := by
  refine broadcastInDim_apply _ h x _ (ix1 q) fun ax => ?_
  match ax with
  | ⟨0, _⟩ =>
    show q.val = if c = 1 then 0 else q.val
    split
    · have := q.isLt; omega
    · rfl

/-- A `[1, 1, c]` array repeated along its two leading axes over `[a, k, c]`: `(p, j, q) ↦ (0, 0, q)`. -/
theorem bcast_11c_akc_apply (x : (⟨3, ![1, 1, c]⟩ : Shape).Idx → α)
    (h : (⟨3, ![1, 1, c]⟩ : Shape).BroadcastsInDim ⟨3, ![a, k, c]⟩ (![0, 1, 2] : Fin 3 → Fin 3)) (p : Fin a) (j : Fin k)
    (q : Fin c) : broadcastInDim ⟨3, ![a, k, c]⟩ ![0, 1, 2] h x (ix3 p j q) = x (ix3 (0 : Fin 1) (0 : Fin 1) q) := by
  refine broadcastInDim_apply _ h x _ (ix3 (0 : Fin 1) (0 : Fin 1) q) fun ax => ?_
  match ax with
  | ⟨0, _⟩ => rfl
  | ⟨1, _⟩ => rfl
  | ⟨2, _⟩ =>
    show q.val = if c = 1 then 0 else q.val
    split
    · have := q.isLt; omega
    · rfl

/-- A per-coordinate vector `[c]` spread over `[a, k, c]` through `[1, 1, c]`: `(p, j, q) ↦ q`. -/
theorem bcastLast_apply (x : (⟨1, ![c]⟩ : Shape).Idx → α)
    (h1 : (⟨1, ![c]⟩ : Shape).BroadcastsInDim ⟨3, ![1, 1, c]⟩ (![2] : Fin 1 → Fin 3))
    (h2 : (⟨3, ![1, 1, c]⟩ : Shape).BroadcastsInDim ⟨3, ![a, k, c]⟩ (![0, 1, 2] : Fin 3 → Fin 3)) (p : Fin a) (j : Fin k)
    (q : Fin c) :
    broadcastInDim ⟨3, ![a, k, c]⟩ ![0, 1, 2] h2 (broadcastInDim ⟨3, ![1, 1, c]⟩ ![2] h1 x) (ix3 p j q) = x (ix1 q) :=
  (bcast_11c_akc_apply _ h2 p j q).trans (bcast_c_11c_apply x h1 0 0 q)

end Broadcast

/-! ## A stack of row families against a matrix: `[A, K, D] × [D, P] → [A, K, P]` -/

section Dot
variable {A K D P : ℕ}

/-- The dimension numbers "contract the left operand's last axis with the right operand's rows, no batch axis",
    over any extents; the shape conditions are the caller's fact. -/
def dotAKDxDP (A K D P : ℕ)
    (wf : DotDims.WF ⟨3, ![A, K, D]⟩ ⟨2, ![D, P]⟩ ⟨3, ![A, K, P]⟩ [2] [0] [0, 1] [1] [] []) :
    DotDims ⟨3, ![A, K, D]⟩ ⟨2, ![D, P]⟩ ⟨3, ![A, K, P]⟩ where
  lhsContracting := [2]
  rhsContracting := [0]
  lhsNonContracting := [0, 1]
  rhsNonContracting := [1]
  lhsBatch := []
  rhsBatch := []
  wf := wf

variable (wf : DotDims.WF ⟨3, ![A, K, D]⟩ ⟨2, ![D, P]⟩ ⟨3, ![A, K, P]⟩ [2] [0] [0, 1] [1] [] [])

/-- The left operand's index at output entry `(p, j, q)` and contracted coordinate `d` is `(p, j, d)`. -/
theorem dotAKDxDP_lhsIdx (p : Fin A) (j : Fin K) (q : Fin P) (d : Fin D) :
    (dotAKDxDP A K D P wf).lhsIdx (ix3 p j q) ((contrEquiv1 (dotAKDxDP A K D P wf) D rfl rfl).symm d) = ix3 p j d := by
  have hk := contrEquiv1_symm_val (dotAKDxDP A K D P wf) D rfl rfl d
  funext ax
  apply Fin.ext
  match ax with
  | ⟨0, _⟩ => rfl
  | ⟨1, _⟩ => rfl
  | ⟨2, _⟩ => exact ((dotAKDxDP A K D P wf).lhsIdx_val_of_single (cl := 2) rfl _ _).trans hk

/-- The right operand's index at output entry `(p, j, q)` and contracted coordinate `d` is `(d, q)`. -/
theorem dotAKDxDP_rhsIdx (p : Fin A) (j : Fin K) (q : Fin P) (d : Fin D) :
    (dotAKDxDP A K D P wf).rhsIdx (ix3 p j q) ((contrEquiv1 (dotAKDxDP A K D P wf) D rfl rfl).symm d) = ix2 d q := by
  have hk := contrEquiv1_symm_val (dotAKDxDP A K D P wf) D rfl rfl d
  funext ax
  apply Fin.ext
  match ax with
  | ⟨0, _⟩ => exact ((dotAKDxDP A K D P wf).rhsIdx_val_of_single (cr := 0) rfl _ _).trans hk
  | ⟨1, _⟩ => rfl

/-- The host's `dot_general` with these dimension numbers, read at `(p, j, q)`: the sum over the contracted coordinate
    of the left operand's fibre `(p, j)` against the right operand's column `q`. -/
theorem dotAKDxDP_apply {φ₁ φ₂ : FTy} (l : FVec Ideal ⟨3, ![A, K, D]⟩ φ₁) (r : FVec Ideal ⟨2, ![D, P]⟩ φ₂)
    (prec : Option ContractPrecision) (sched : HostSchedule) (p : Fin A) (j : Fin K) (q : Fin P) :
    FloatOps.dotGeneral (dotAKDxDP A K D P wf) prec sched l r (ix3 p j q) = ∑ d : Fin D, l (ix3 p j d) * r (ix2 d q) := by
  refine (Ideal.dotGeneral_apply (dotAKDxDP A K D P wf) prec sched l r (ix3 p j q)).trans ?_
  rw [← Equiv.sum_comp (contrEquiv1 (dotAKDxDP A K D P wf) D rfl rfl).symm]
  refine Finset.sum_congr rfl fun d _ => ?_
  rw [dotAKDxDP_lhsIdx, dotAKDxDP_rhsIdx]

end Dot

/-! ## A matrix regrouped by blocks of consecutive rows -/

/-- An `[m, c]` matrix regrouped row-major as `[n, k, c]` reads, at `(r, j, q)`, the matrix at row `r * k + j`. -/
theorem shapeCast_mc_nkc_apply {α : Type} {m n : ℕ} (x : (⟨2, ![m, c]⟩ : Shape).Idx → α)
    (h : (⟨2, ![m, c]⟩ : Shape).ShapeCasts ⟨3, ![n, k, c]⟩) (r : Fin n) (j : Fin k) (q : Fin c) (i : Fin m)
    (hi : i.val = r.val * k + j.val) : shapeCast ⟨3, ![n, k, c]⟩ x h (ix3 r j q) = x (ix2 i q) :=
  shapeCast_apply x h _ _ (by
    rw [Shape.rowMajor_val_two, Shape.rowMajor_val_three]
    show i.val * c + q.val = (r.val * k + j.val) * c + q.val
    rw [hi])

/-! ## The logistic function as the host spells it, and a product with the zero matrix -/

/-- `1 / (1 + e^(-z))` with each one a literal scalar repeated over the shape: at an index, the logistic function of
    the element. -/
theorem hostLogistic_apply {T : Shape} (h : (⟨0, ![]⟩ : Shape).BroadcastsInDim T ![]) (z : FVec Ideal T .f32) (i : T.Idx) :
    Host.divf (broadcastInDim T ![] h (constant (F := Ideal) ⟨0, ![]⟩ .f32 0x3F800000#32))
        (addf (broadcastInDim T ![] h (constant (F := Ideal) ⟨0, ![]⟩ .f32 0x3F800000#32)) (Host.exp (Host.negf z))) i
      = Ideal.logistic (z i) := by
  show Ideal.div (broadcastInDim T ![] h (constant (F := Ideal) ⟨0, ![]⟩ .f32 0x3F800000#32) i)
      (broadcastInDim T ![] h (constant (F := Ideal) ⟨0, ![]⟩ .f32 0x3F800000#32) i + Ideal.exp (-(z i))) = _
  rw [Hmu.Lib.bcast_const_apply, Ideal.ofBits_one_f32]
  rfl

/-- The zero word repeated over an `[M, K]` matrix, multiplied by any `[K, N]` matrix, is zero at every entry. -/
theorem zero_dotGeneral_apply {M K N : ℕ} (h : (⟨0, ![]⟩ : Shape).BroadcastsInDim ⟨2, ![M, K]⟩ ![])
    (w : FVec Ideal ⟨2, ![K, N]⟩ .f32) (prec : Option ContractPrecision) (sched : HostSchedule) (p : Fin M) (q : Fin N) :
    FloatOps.dotGeneral (DotDims.plain M K N) prec sched
        (broadcastInDim ⟨2, ![M, K]⟩ ![] h (constant (F := Ideal) ⟨0, ![]⟩ .f32 0x00000000#32)) w (ix2 p q) = 0 := by
  refine (Gcn.Lib.plain_dotGeneral_apply _ w prec sched p q).trans ?_
  refine Finset.sum_eq_zero fun j _ => ?_
  rw [Hmu.Lib.bcast_const_apply, Ideal.ofBits_zero_f32, zero_mul]

end TreeHost.Lib
-- ==== Proof.KIEntry.lean ====
/-
  What each region finds in its input arrays. Its rows of the input matrix are a slice of the first argument; its
  weight matrices are the arguments themselves and its bias rows the bias vectors laid as rows, none of them written
  by anything before; and the children's arrays of an internal level are the two output arrays of the level below,
  regrouped so that children 4r, 4r+1, 4r+2, 4r+3 stand under parent r.
-/
import proofs.«167239_j63453846831535_1_alg».proof.Proof.KIRun
import proofs.«167239_j63453846831535_1_alg».proof.Proof.TreeSpecArr
import proofs.«167239_j63453846831535_1_alg».proof.Proof.LibTreeHost
import Idealize.ShloMosaic.Lib.StableHlo.Run
import Idealize.ShloMosaic.Lib.Pipeline.Value
import Idealize.ShloMosaic.Lib.ValueIdx

set_option maxRecDepth 16384

noncomputable section

namespace Cert.KernelIdeal.Tree

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- The recurrence's parameters, from core c's launch memory. -/
abbrev Pm (c : Dev nD) : Cert.TreeSpec.Params :=
  Cert.TreeSpec.paramsOfVecs (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
/-- The input matrix, from core c's launch memory. -/
abbrev Em (c : Dev nD) : Fin 87381 → Fin 300 → EReal := Cert.TreeSpec.embsOf (m ((c : Thread nD τ).loc main_arg0))

/-! ## Region 0 -/

theorem entry0_x (c : Dev nD) (r : Fin 65536) (k : Fin 300) :
    (W1 m ρ c (Proc.devRef .tc main_v8) : S65536x300.Idx → Elt Ideal .f32) (ix2 r k)
      = Cert.TreeSpec.rows (Em m c) 0 65536 (by norm_num) r k := by
  have e : W1 m ρ c (Proc.devRef .tc main_v8)
      = extractStridedSlice S65536x300 ![0, 0] (W0 m ρ c (Proc.devRef .tc main_arg0)) slices_S87381x300_S65536x300_0_0 := by
    show StableHlo.after hostOps0 (W0 m ρ c) (Proc.devRef .tc main_v8) = _
    after_results <;> rfl
  rw [e, show W0 m ρ c (Proc.devRef .tc main_arg0) = m ((c : Thread nD τ).loc main_arg0) from rfl]
  exact extractStridedSlice_apply _ _ _ _ (ix2 ⟨0 + r.val, by have := r.isLt; omega⟩ k) (fun a => by
    match a with
    | ⟨0, _⟩ => rfl
    | ⟨1, _⟩ => simp)

theorem entry0_Wix (c : Dev nD) (k : Fin 300) (p : Fin 150) :
    (W1 m ρ c (Proc.devRef .tc main_arg1) : S300x150.Idx → Elt Ideal .f32) (ix2 k p) = (Pm m c).Wix k p := by
  rw [show W1 m ρ c (Proc.devRef .tc main_arg1) = m ((c : Thread nD τ).loc main_arg1) from (W1_keep m ρ c main_arg1 (by decide))]
  rfl

theorem entry0_Wux (c : Dev nD) (k : Fin 300) (p : Fin 150) :
    (W1 m ρ c (Proc.devRef .tc main_arg5) : S300x150.Idx → Elt Ideal .f32) (ix2 k p) = (Pm m c).Wux k p := by
  rw [show W1 m ρ c (Proc.devRef .tc main_arg5) = m ((c : Thread nD τ).loc main_arg5) from (W1_keep m ρ c main_arg5 (by decide))]
  rfl

theorem entry0_Wox (c : Dev nD) (k : Fin 300) (p : Fin 150) :
    (W1 m ρ c (Proc.devRef .tc main_arg7) : S300x150.Idx → Elt Ideal .f32) (ix2 k p) = (Pm m c).Wox k p := by
  rw [show W1 m ρ c (Proc.devRef .tc main_arg7) = m ((c : Thread nD τ).loc main_arg7) from (W1_keep m ρ c main_arg7 (by decide))]
  rfl

theorem entry0_bix (c : Dev nD) (p : Fin 150) :
    (W1 m ρ c (Proc.devRef .tc main_v0) : S1x150.Idx → Elt Ideal .f32) (ix2 0 p) = (Pm m c).bix p := by
  have e : W1 m ρ c (Proc.devRef .tc main_v0) = shapeCast S1x150 (W0 m ρ c (Proc.devRef .tc main_arg2)) shapeCasts_S150_S1x150 := by
    show StableHlo.after hostOps0 (W0 m ρ c) (Proc.devRef .tc main_v0) = _
    after_results <;> rfl
  rw [show W1 m ρ c (Proc.devRef .tc main_v0) = W1 m ρ c (Proc.devRef .tc main_v0) from rfl, e]
  exact shapeCast_apply _ _ (ix2 0 p) (ix1 p) (by rw [Shape.rowMajor_val_one, Shape.rowMajor_val_two]; simp)

theorem entry0_bux (c : Dev nD) (p : Fin 150) :
    (W1 m ρ c (Proc.devRef .tc main_v2) : S1x150.Idx → Elt Ideal .f32) (ix2 0 p) = (Pm m c).bux p := by
  have e : W1 m ρ c (Proc.devRef .tc main_v2) = shapeCast S1x150 (W0 m ρ c (Proc.devRef .tc main_arg6)) shapeCasts_S150_S1x150 := by
    show StableHlo.after hostOps0 (W0 m ρ c) (Proc.devRef .tc main_v2) = _
    after_results <;> rfl
  rw [show W1 m ρ c (Proc.devRef .tc main_v2) = W1 m ρ c (Proc.devRef .tc main_v2) from rfl, e]
  exact shapeCast_apply _ _ (ix2 0 p) (ix1 p) (by rw [Shape.rowMajor_val_one, Shape.rowMajor_val_two]; simp)

theorem entry0_box (c : Dev nD) (p : Fin 150) :
    (W1 m ρ c (Proc.devRef .tc main_v3) : S1x150.Idx → Elt Ideal .f32) (ix2 0 p) = (Pm m c).box p := by
  have e : W1 m ρ c (Proc.devRef .tc main_v3) = shapeCast S1x150 (W0 m ρ c (Proc.devRef .tc main_arg8)) shapeCasts_S150_S1x150 := by
    show StableHlo.after hostOps0 (W0 m ρ c) (Proc.devRef .tc main_v3) = _
    after_results <;> rfl
  rw [show W1 m ρ c (Proc.devRef .tc main_v3) = W1 m ρ c (Proc.devRef .tc main_v3) from rfl, e]
  exact shapeCast_apply _ _ (ix2 0 p) (ix1 p) (by rw [Shape.rowMajor_val_one, Shape.rowMajor_val_two]; simp)

theorem entry0_bih (c : Dev nD) (p : Fin 150) :
    (W1 m ρ c (Proc.devRef .tc main_v4) : S1x150.Idx → Elt Ideal .f32) (ix2 0 p) = (Pm m c).bih p := by
  have e : W1 m ρ c (Proc.devRef .tc main_v4) = shapeCast S1x150 (W0 m ρ c (Proc.devRef .tc main_arg10)) shapeCasts_S150_S1x150 := by
    show StableHlo.after hostOps0 (W0 m ρ c) (Proc.devRef .tc main_v4) = _
    after_results <;> rfl
  rw [show W1 m ρ c (Proc.devRef .tc main_v4) = W1 m ρ c (Proc.devRef .tc main_v4) from rfl, e]
  exact shapeCast_apply _ _ (ix2 0 p) (ix1 p) (by rw [Shape.rowMajor_val_one, Shape.rowMajor_val_two]; simp)

theorem entry0_buh (c : Dev nD) (p : Fin 150) :
    (W1 m ρ c (Proc.devRef .tc main_v6) : S1x150.Idx → Elt Ideal .f32) (ix2 0 p) = (Pm m c).buh p := by
  have e : W1 m ρ c (Proc.devRef .tc main_v6) = shapeCast S1x150 (W0 m ρ c (Proc.devRef .tc main_arg14)) shapeCasts_S150_S1x150 := by
    show StableHlo.after hostOps0 (W0 m ρ c) (Proc.devRef .tc main_v6) = _
    after_results <;> rfl
  rw [show W1 m ρ c (Proc.devRef .tc main_v6) = W1 m ρ c (Proc.devRef .tc main_v6) from rfl, e]
  exact shapeCast_apply _ _ (ix2 0 p) (ix1 p) (by rw [Shape.rowMajor_val_one, Shape.rowMajor_val_two]; simp)

theorem entry0_boh (c : Dev nD) (p : Fin 150) :
    (W1 m ρ c (Proc.devRef .tc main_v7) : S1x150.Idx → Elt Ideal .f32) (ix2 0 p) = (Pm m c).boh p := by
  have e : W1 m ρ c (Proc.devRef .tc main_v7) = shapeCast S1x150 (W0 m ρ c (Proc.devRef .tc main_arg16)) shapeCasts_S150_S1x150 := by
    show StableHlo.after hostOps0 (W0 m ρ c) (Proc.devRef .tc main_v7) = _
    after_results <;> rfl
  rw [show W1 m ρ c (Proc.devRef .tc main_v7) = W1 m ρ c (Proc.devRef .tc main_v7) from rfl, e]
  exact shapeCast_apply _ _ (ix2 0 p) (ix1 p) (by rw [Shape.rowMajor_val_one, Shape.rowMajor_val_two]; simp)

/-! ## Region 1 -/

theorem entry1_x (c : Dev nD) (r : Fin 16384) (k : Fin 300) :
    (W3 m ρ c (Proc.devRef .tc main_v10) : S16384x300.Idx → Elt Ideal .f32) (ix2 r k)
      = Cert.TreeSpec.rows (Em m c) 65536 16384 (by norm_num) r k := by
  have e : W3 m ρ c (Proc.devRef .tc main_v10)
      = extractStridedSlice S16384x300 ![65536, 0] (W2 m ρ c (Proc.devRef .tc main_arg0)) slices_S87381x300_S16384x300_65536_0 := by
    show StableHlo.after hostOps1 (W2 m ρ c) (Proc.devRef .tc main_v10) = _
    after_results <;> rfl
  rw [e, show W2 m ρ c (Proc.devRef .tc main_arg0) = m ((c : Thread nD τ).loc main_arg0) from ((W2_keep m ρ c main_arg0 (by decide) (by decide)).trans (W1_keep m ρ c main_arg0 (by decide)))]
  exact extractStridedSlice_apply _ _ _ _ (ix2 ⟨65536 + r.val, by have := r.isLt; omega⟩ k) (fun a => by
    match a with
    | ⟨0, _⟩ => rfl
    | ⟨1, _⟩ => simp)

theorem entry1_Wix (c : Dev nD) (k : Fin 300) (p : Fin 150) :
    (W3 m ρ c (Proc.devRef .tc main_arg1) : S300x150.Idx → Elt Ideal .f32) (ix2 k p) = (Pm m c).Wix k p := by
  rw [show W3 m ρ c (Proc.devRef .tc main_arg1) = m ((c : Thread nD τ).loc main_arg1) from ((W3_keep m ρ c main_arg1 (by decide)).trans ((W2_keep m ρ c main_arg1 (by decide) (by decide)).trans (W1_keep m ρ c main_arg1 (by decide))))]
  rfl

theorem entry1_Wfx (c : Dev nD) (k : Fin 300) (p : Fin 150) :
    (W3 m ρ c (Proc.devRef .tc main_arg3) : S300x150.Idx → Elt Ideal .f32) (ix2 k p) = (Pm m c).Wfx k p := by
  rw [show W3 m ρ c (Proc.devRef .tc main_arg3) = m ((c : Thread nD τ).loc main_arg3) from ((W3_keep m ρ c main_arg3 (by decide)).trans ((W2_keep m ρ c main_arg3 (by decide) (by decide)).trans (W1_keep m ρ c main_arg3 (by decide))))]
  rfl

theorem entry1_Wux (c : Dev nD) (k : Fin 300) (p : Fin 150) :
    (W3 m ρ c (Proc.devRef .tc main_arg5) : S300x150.Idx → Elt Ideal .f32) (ix2 k p) = (Pm m c).Wux k p := by
  rw [show W3 m ρ c (Proc.devRef .tc main_arg5) = m ((c : Thread nD τ).loc main_arg5) from ((W3_keep m ρ c main_arg5 (by decide)).trans ((W2_keep m ρ c main_arg5 (by decide) (by decide)).trans (W1_keep m ρ c main_arg5 (by decide))))]
  rfl

theorem entry1_Wox (c : Dev nD) (k : Fin 300) (p : Fin 150) :
    (W3 m ρ c (Proc.devRef .tc main_arg7) : S300x150.Idx → Elt Ideal .f32) (ix2 k p) = (Pm m c).Wox k p := by
  rw [show W3 m ρ c (Proc.devRef .tc main_arg7) = m ((c : Thread nD τ).loc main_arg7) from ((W3_keep m ρ c main_arg7 (by decide)).trans ((W2_keep m ρ c main_arg7 (by decide) (by decide)).trans (W1_keep m ρ c main_arg7 (by decide))))]
  rfl

theorem entry1_Wih (c : Dev nD) (k : Fin 150) (p : Fin 150) :
    (W3 m ρ c (Proc.devRef .tc main_arg9) : S150x150.Idx → Elt Ideal .f32) (ix2 k p) = (Pm m c).Wih k p := by
  rw [show W3 m ρ c (Proc.devRef .tc main_arg9) = m ((c : Thread nD τ).loc main_arg9) from ((W3_keep m ρ c main_arg9 (by decide)).trans ((W2_keep m ρ c main_arg9 (by decide) (by decide)).trans (W1_keep m ρ c main_arg9 (by decide))))]
  rfl

theorem entry1_Wfh (c : Dev nD) (k : Fin 150) (p : Fin 150) :
    (W3 m ρ c (Proc.devRef .tc main_arg11) : S150x150.Idx → Elt Ideal .f32) (ix2 k p) = (Pm m c).Wfh k p := by
  rw [show W3 m ρ c (Proc.devRef .tc main_arg11) = m ((c : Thread nD τ).loc main_arg11) from ((W3_keep m ρ c main_arg11 (by decide)).trans ((W2_keep m ρ c main_arg11 (by decide) (by decide)).trans (W1_keep m ρ c main_arg11 (by decide))))]
  rfl

theorem entry1_Wuh (c : Dev nD) (k : Fin 150) (p : Fin 150) :
    (W3 m ρ c (Proc.devRef .tc main_arg13) : S150x150.Idx → Elt Ideal .f32) (ix2 k p) = (Pm m c).Wuh k p := by
  rw [show W3 m ρ c (Proc.devRef .tc main_arg13) = m ((c : Thread nD τ).loc main_arg13) from ((W3_keep m ρ c main_arg13 (by decide)).trans ((W2_keep m ρ c main_arg13 (by decide) (by decide)).trans (W1_keep m ρ c main_arg13 (by decide))))]
  rfl

theorem entry1_Woh (c : Dev nD) (k : Fin 150) (p : Fin 150) :
    (W3 m ρ c (Proc.devRef .tc main_arg15) : S150x150.Idx → Elt Ideal .f32) (ix2 k p) = (Pm m c).Woh k p := by
  rw [show W3 m ρ c (Proc.devRef .tc main_arg15) = m ((c : Thread nD τ).loc main_arg15) from ((W3_keep m ρ c main_arg15 (by decide)).trans ((W2_keep m ρ c main_arg15 (by decide) (by decide)).trans (W1_keep m ρ c main_arg15 (by decide))))]
  rfl

theorem entry1_bix (c : Dev nD) (p : Fin 150) :
    (W3 m ρ c (Proc.devRef .tc main_v0) : S1x150.Idx → Elt Ideal .f32) (ix2 0 p) = (Pm m c).bix p := by
  have e : W1 m ρ c (Proc.devRef .tc main_v0) = shapeCast S1x150 (W0 m ρ c (Proc.devRef .tc main_arg2)) shapeCasts_S150_S1x150 := by
    show StableHlo.after hostOps0 (W0 m ρ c) (Proc.devRef .tc main_v0) = _
    after_results <;> rfl
  rw [show W3 m ρ c (Proc.devRef .tc main_v0) = W1 m ρ c (Proc.devRef .tc main_v0) from ((W3_keep m ρ c main_v0 (by decide)).trans (W2_keep m ρ c main_v0 (by decide) (by decide))), e]
  exact shapeCast_apply _ _ (ix2 0 p) (ix1 p) (by rw [Shape.rowMajor_val_one, Shape.rowMajor_val_two]; simp)

theorem entry1_bfx (c : Dev nD) (p : Fin 150) :
    (W3 m ρ c (Proc.devRef .tc main_v1) : S1x150.Idx → Elt Ideal .f32) (ix2 0 p) = (Pm m c).bfx p := by
  have e : W1 m ρ c (Proc.devRef .tc main_v1) = shapeCast S1x150 (W0 m ρ c (Proc.devRef .tc main_arg4)) shapeCasts_S150_S1x150 := by
    show StableHlo.after hostOps0 (W0 m ρ c) (Proc.devRef .tc main_v1) = _
    after_results <;> rfl
  rw [show W3 m ρ c (Proc.devRef .tc main_v1) = W1 m ρ c (Proc.devRef .tc main_v1) from ((W3_keep m ρ c main_v1 (by decide)).trans (W2_keep m ρ c main_v1 (by decide) (by decide))), e]
  exact shapeCast_apply _ _ (ix2 0 p) (ix1 p) (by rw [Shape.rowMajor_val_one, Shape.rowMajor_val_two]; simp)

theorem entry1_bux (c : Dev nD) (p : Fin 150) :
    (W3 m ρ c (Proc.devRef .tc main_v2) : S1x150.Idx → Elt Ideal .f32) (ix2 0 p) = (Pm m c).bux p := by
  have e : W1 m ρ c (Proc.devRef .tc main_v2) = shapeCast S1x150 (W0 m ρ c (Proc.devRef .tc main_arg6)) shapeCasts_S150_S1x150 := by
    show StableHlo.after hostOps0 (W0 m ρ c) (Proc.devRef .tc main_v2) = _
    after_results <;> rfl
  rw [show W3 m ρ c (Proc.devRef .tc main_v2) = W1 m ρ c (Proc.devRef .tc main_v2) from ((W3_keep m ρ c main_v2 (by decide)).trans (W2_keep m ρ c main_v2 (by decide) (by decide))), e]
  exact shapeCast_apply _ _ (ix2 0 p) (ix1 p) (by rw [Shape.rowMajor_val_one, Shape.rowMajor_val_two]; simp)

theorem entry1_box (c : Dev nD) (p : Fin 150) :
    (W3 m ρ c (Proc.devRef .tc main_v3) : S1x150.Idx → Elt Ideal .f32) (ix2 0 p) = (Pm m c).box p := by
  have e : W1 m ρ c (Proc.devRef .tc main_v3) = shapeCast S1x150 (W0 m ρ c (Proc.devRef .tc main_arg8)) shapeCasts_S150_S1x150 := by
    show StableHlo.after hostOps0 (W0 m ρ c) (Proc.devRef .tc main_v3) = _
    after_results <;> rfl
  rw [show W3 m ρ c (Proc.devRef .tc main_v3) = W1 m ρ c (Proc.devRef .tc main_v3) from ((W3_keep m ρ c main_v3 (by decide)).trans (W2_keep m ρ c main_v3 (by decide) (by decide))), e]
  exact shapeCast_apply _ _ (ix2 0 p) (ix1 p) (by rw [Shape.rowMajor_val_one, Shape.rowMajor_val_two]; simp)

theorem entry1_bih (c : Dev nD) (p : Fin 150) :
    (W3 m ρ c (Proc.devRef .tc main_v4) : S1x150.Idx → Elt Ideal .f32) (ix2 0 p) = (Pm m c).bih p := by
  have e : W1 m ρ c (Proc.devRef .tc main_v4) = shapeCast S1x150 (W0 m ρ c (Proc.devRef .tc main_arg10)) shapeCasts_S150_S1x150 := by
    show StableHlo.after hostOps0 (W0 m ρ c) (Proc.devRef .tc main_v4) = _
    after_results <;> rfl
  rw [show W3 m ρ c (Proc.devRef .tc main_v4) = W1 m ρ c (Proc.devRef .tc main_v4) from ((W3_keep m ρ c main_v4 (by decide)).trans (W2_keep m ρ c main_v4 (by decide) (by decide))), e]
  exact shapeCast_apply _ _ (ix2 0 p) (ix1 p) (by rw [Shape.rowMajor_val_one, Shape.rowMajor_val_two]; simp)

theorem entry1_bfh (c : Dev nD) (p : Fin 150) :
    (W3 m ρ c (Proc.devRef .tc main_v5) : S1x150.Idx → Elt Ideal .f32) (ix2 0 p) = (Pm m c).bfh p := by
  have e : W1 m ρ c (Proc.devRef .tc main_v5) = shapeCast S1x150 (W0 m ρ c (Proc.devRef .tc main_arg12)) shapeCasts_S150_S1x150 := by
    show StableHlo.after hostOps0 (W0 m ρ c) (Proc.devRef .tc main_v5) = _
    after_results <;> rfl
  rw [show W3 m ρ c (Proc.devRef .tc main_v5) = W1 m ρ c (Proc.devRef .tc main_v5) from ((W3_keep m ρ c main_v5 (by decide)).trans (W2_keep m ρ c main_v5 (by decide) (by decide))), e]
  exact shapeCast_apply _ _ (ix2 0 p) (ix1 p) (by rw [Shape.rowMajor_val_one, Shape.rowMajor_val_two]; simp)

theorem entry1_buh (c : Dev nD) (p : Fin 150) :
    (W3 m ρ c (Proc.devRef .tc main_v6) : S1x150.Idx → Elt Ideal .f32) (ix2 0 p) = (Pm m c).buh p := by
  have e : W1 m ρ c (Proc.devRef .tc main_v6) = shapeCast S1x150 (W0 m ρ c (Proc.devRef .tc main_arg14)) shapeCasts_S150_S1x150 := by
    show StableHlo.after hostOps0 (W0 m ρ c) (Proc.devRef .tc main_v6) = _
    after_results <;> rfl
  rw [show W3 m ρ c (Proc.devRef .tc main_v6) = W1 m ρ c (Proc.devRef .tc main_v6) from ((W3_keep m ρ c main_v6 (by decide)).trans (W2_keep m ρ c main_v6 (by decide) (by decide))), e]
  exact shapeCast_apply _ _ (ix2 0 p) (ix1 p) (by rw [Shape.rowMajor_val_one, Shape.rowMajor_val_two]; simp)

theorem entry1_boh (c : Dev nD) (p : Fin 150) :
    (W3 m ρ c (Proc.devRef .tc main_v7) : S1x150.Idx → Elt Ideal .f32) (ix2 0 p) = (Pm m c).boh p := by
  have e : W1 m ρ c (Proc.devRef .tc main_v7) = shapeCast S1x150 (W0 m ρ c (Proc.devRef .tc main_arg16)) shapeCasts_S150_S1x150 := by
    show StableHlo.after hostOps0 (W0 m ρ c) (Proc.devRef .tc main_v7) = _
    after_results <;> rfl
  rw [show W3 m ρ c (Proc.devRef .tc main_v7) = W1 m ρ c (Proc.devRef .tc main_v7) from ((W3_keep m ρ c main_v7 (by decide)).trans (W2_keep m ρ c main_v7 (by decide) (by decide))), e]
  exact shapeCast_apply _ _ (ix2 0 p) (ix1 p) (by rw [Shape.rowMajor_val_one, Shape.rowMajor_val_two]; simp)

/-- The hidden states of the level below, regrouped by parent, are region 0's output array at row 4r + k. -/
theorem entry1_ch (c : Dev nD) (r : Fin 16384) (k : Fin 4) (q : Fin 150) :
    (W3 m ρ c (Proc.devRef .tc main_v11) : S16384x4x150.Idx → Elt Ideal .f32) (ix3 r k q)
      = (W2 m ρ c (Proc.devRef .tc main_v9_0) : S65536x150.Idx → Elt Ideal .f32) (ix2 ⟨r.val * 4 + k.val, by have := r.isLt; have := k.isLt; omega⟩ q) := by
  have e : W3 m ρ c (Proc.devRef .tc main_v11)
      = shapeCast S16384x4x150 (W2 m ρ c (Proc.devRef .tc main_v9_0)) shapeCasts_S65536x150_S16384x4x150 := by
    show StableHlo.after hostOps1 (W2 m ρ c) (Proc.devRef .tc main_v11) = _
    after_results <;> rfl
  rw [e]
  exact TreeHost.Lib.shapeCast_mc_nkc_apply _ _ r k q _ rfl

/-- The memory cells of the level below, regrouped by parent, are region 0's output array at row 4r + k. -/
theorem entry1_cc (c : Dev nD) (r : Fin 16384) (k : Fin 4) (q : Fin 150) :
    (W3 m ρ c (Proc.devRef .tc main_v12) : S16384x4x150.Idx → Elt Ideal .f32) (ix3 r k q)
      = (W2 m ρ c (Proc.devRef .tc main_v9_1) : S65536x150.Idx → Elt Ideal .f32) (ix2 ⟨r.val * 4 + k.val, by have := r.isLt; have := k.isLt; omega⟩ q) := by
  have e : W3 m ρ c (Proc.devRef .tc main_v12)
      = shapeCast S16384x4x150 (W2 m ρ c (Proc.devRef .tc main_v9_1)) shapeCasts_S65536x150_S16384x4x150 := by
    show StableHlo.after hostOps1 (W2 m ρ c) (Proc.devRef .tc main_v12) = _
    after_results <;> rfl
  rw [e]
  exact TreeHost.Lib.shapeCast_mc_nkc_apply _ _ r k q _ rfl

/-! ## Region 2 -/

theorem entry2_x (c : Dev nD) (r : Fin 4096) (k : Fin 300) :
    (W5 m ρ c (Proc.devRef .tc main_v14) : S4096x300.Idx → Elt Ideal .f32) (ix2 r k)
      = Cert.TreeSpec.rows (Em m c) 81920 4096 (by norm_num) r k := by
  have e : W5 m ρ c (Proc.devRef .tc main_v14)
      = extractStridedSlice S4096x300 ![81920, 0] (W4 m ρ c (Proc.devRef .tc main_arg0)) slices_S87381x300_S4096x300_81920_0 := by
    show StableHlo.after hostOps2 (W4 m ρ c) (Proc.devRef .tc main_v14) = _
    after_results <;> rfl
  rw [e, show W4 m ρ c (Proc.devRef .tc main_arg0) = m ((c : Thread nD τ).loc main_arg0) from ((W4_keep m ρ c main_arg0 (by decide) (by decide)).trans ((W3_keep m ρ c main_arg0 (by decide)).trans ((W2_keep m ρ c main_arg0 (by decide) (by decide)).trans (W1_keep m ρ c main_arg0 (by decide)))))]
  exact extractStridedSlice_apply _ _ _ _ (ix2 ⟨81920 + r.val, by have := r.isLt; omega⟩ k) (fun a => by
    match a with
    | ⟨0, _⟩ => rfl
    | ⟨1, _⟩ => simp)

theorem entry2_Wix (c : Dev nD) (k : Fin 300) (p : Fin 150) :
    (W5 m ρ c (Proc.devRef .tc main_arg1) : S300x150.Idx → Elt Ideal .f32) (ix2 k p) = (Pm m c).Wix k p := by
  rw [show W5 m ρ c (Proc.devRef .tc main_arg1) = m ((c : Thread nD τ).loc main_arg1) from ((W5_keep m ρ c main_arg1 (by decide)).trans ((W4_keep m ρ c main_arg1 (by decide) (by decide)).trans ((W3_keep m ρ c main_arg1 (by decide)).trans ((W2_keep m ρ c main_arg1 (by decide) (by decide)).trans (W1_keep m ρ c main_arg1 (by decide))))))]
  rfl

theorem entry2_Wfx (c : Dev nD) (k : Fin 300) (p : Fin 150) :
    (W5 m ρ c (Proc.devRef .tc main_arg3) : S300x150.Idx → Elt Ideal .f32) (ix2 k p) = (Pm m c).Wfx k p := by
  rw [show W5 m ρ c (Proc.devRef .tc main_arg3) = m ((c : Thread nD τ).loc main_arg3) from ((W5_keep m ρ c main_arg3 (by decide)).trans ((W4_keep m ρ c main_arg3 (by decide) (by decide)).trans ((W3_keep m ρ c main_arg3 (by decide)).trans ((W2_keep m ρ c main_arg3 (by decide) (by decide)).trans (W1_keep m ρ c main_arg3 (by decide))))))]
  rfl

theorem entry2_Wux (c : Dev nD) (k : Fin 300) (p : Fin 150) :
    (W5 m ρ c (Proc.devRef .tc main_arg5) : S300x150.Idx → Elt Ideal .f32) (ix2 k p) = (Pm m c).Wux k p := by
  rw [show W5 m ρ c (Proc.devRef .tc main_arg5) = m ((c : Thread nD τ).loc main_arg5) from ((W5_keep m ρ c main_arg5 (by decide)).trans ((W4_keep m ρ c main_arg5 (by decide) (by decide)).trans ((W3_keep m ρ c main_arg5 (by decide)).trans ((W2_keep m ρ c main_arg5 (by decide) (by decide)).trans (W1_keep m ρ c main_arg5 (by decide))))))]
  rfl

theorem entry2_Wox (c : Dev nD) (k : Fin 300) (p : Fin 150) :
    (W5 m ρ c (Proc.devRef .tc main_arg7) : S300x150.Idx → Elt Ideal .f32) (ix2 k p) = (Pm m c).Wox k p := by
  rw [show W5 m ρ c (Proc.devRef .tc main_arg7) = m ((c : Thread nD τ).loc main_arg7) from ((W5_keep m ρ c main_arg7 (by decide)).trans ((W4_keep m ρ c main_arg7 (by decide) (by decide)).trans ((W3_keep m ρ c main_arg7 (by decide)).trans ((W2_keep m ρ c main_arg7 (by decide) (by decide)).trans (W1_keep m ρ c main_arg7 (by decide))))))]
  rfl

theorem entry2_Wih (c : Dev nD) (k : Fin 150) (p : Fin 150) :
    (W5 m ρ c (Proc.devRef .tc main_arg9) : S150x150.Idx → Elt Ideal .f32) (ix2 k p) = (Pm m c).Wih k p := by
  rw [show W5 m ρ c (Proc.devRef .tc main_arg9) = m ((c : Thread nD τ).loc main_arg9) from ((W5_keep m ρ c main_arg9 (by decide)).trans ((W4_keep m ρ c main_arg9 (by decide) (by decide)).trans ((W3_keep m ρ c main_arg9 (by decide)).trans ((W2_keep m ρ c main_arg9 (by decide) (by decide)).trans (W1_keep m ρ c main_arg9 (by decide))))))]
  rfl

theorem entry2_Wfh (c : Dev nD) (k : Fin 150) (p : Fin 150) :
    (W5 m ρ c (Proc.devRef .tc main_arg11) : S150x150.Idx → Elt Ideal .f32) (ix2 k p) = (Pm m c).Wfh k p := by
  rw [show W5 m ρ c (Proc.devRef .tc main_arg11) = m ((c : Thread nD τ).loc main_arg11) from ((W5_keep m ρ c main_arg11 (by decide)).trans ((W4_keep m ρ c main_arg11 (by decide) (by decide)).trans ((W3_keep m ρ c main_arg11 (by decide)).trans ((W2_keep m ρ c main_arg11 (by decide) (by decide)).trans (W1_keep m ρ c main_arg11 (by decide))))))]
  rfl

theorem entry2_Wuh (c : Dev nD) (k : Fin 150) (p : Fin 150) :
    (W5 m ρ c (Proc.devRef .tc main_arg13) : S150x150.Idx → Elt Ideal .f32) (ix2 k p) = (Pm m c).Wuh k p := by
  rw [show W5 m ρ c (Proc.devRef .tc main_arg13) = m ((c : Thread nD τ).loc main_arg13) from ((W5_keep m ρ c main_arg13 (by decide)).trans ((W4_keep m ρ c main_arg13 (by decide) (by decide)).trans ((W3_keep m ρ c main_arg13 (by decide)).trans ((W2_keep m ρ c main_arg13 (by decide) (by decide)).trans (W1_keep m ρ c main_arg13 (by decide))))))]
  rfl

theorem entry2_Woh (c : Dev nD) (k : Fin 150) (p : Fin 150) :
    (W5 m ρ c (Proc.devRef .tc main_arg15) : S150x150.Idx → Elt Ideal .f32) (ix2 k p) = (Pm m c).Woh k p := by
  rw [show W5 m ρ c (Proc.devRef .tc main_arg15) = m ((c : Thread nD τ).loc main_arg15) from ((W5_keep m ρ c main_arg15 (by decide)).trans ((W4_keep m ρ c main_arg15 (by decide) (by decide)).trans ((W3_keep m ρ c main_arg15 (by decide)).trans ((W2_keep m ρ c main_arg15 (by decide) (by decide)).trans (W1_keep m ρ c main_arg15 (by decide))))))]
  rfl

theorem entry2_bix (c : Dev nD) (p : Fin 150) :
    (W5 m ρ c (Proc.devRef .tc main_v0) : S1x150.Idx → Elt Ideal .f32) (ix2 0 p) = (Pm m c).bix p := by
  have e : W1 m ρ c (Proc.devRef .tc main_v0) = shapeCast S1x150 (W0 m ρ c (Proc.devRef .tc main_arg2)) shapeCasts_S150_S1x150 := by
    show StableHlo.after hostOps0 (W0 m ρ c) (Proc.devRef .tc main_v0) = _
    after_results <;> rfl
  rw [show W5 m ρ c (Proc.devRef .tc main_v0) = W1 m ρ c (Proc.devRef .tc main_v0) from ((W5_keep m ρ c main_v0 (by decide)).trans ((W4_keep m ρ c main_v0 (by decide) (by decide)).trans ((W3_keep m ρ c main_v0 (by decide)).trans (W2_keep m ρ c main_v0 (by decide) (by decide))))), e]
  exact shapeCast_apply _ _ (ix2 0 p) (ix1 p) (by rw [Shape.rowMajor_val_one, Shape.rowMajor_val_two]; simp)

theorem entry2_bfx (c : Dev nD) (p : Fin 150) :
    (W5 m ρ c (Proc.devRef .tc main_v1) : S1x150.Idx → Elt Ideal .f32) (ix2 0 p) = (Pm m c).bfx p := by
  have e : W1 m ρ c (Proc.devRef .tc main_v1) = shapeCast S1x150 (W0 m ρ c (Proc.devRef .tc main_arg4)) shapeCasts_S150_S1x150 := by
    show StableHlo.after hostOps0 (W0 m ρ c) (Proc.devRef .tc main_v1) = _
    after_results <;> rfl
  rw [show W5 m ρ c (Proc.devRef .tc main_v1) = W1 m ρ c (Proc.devRef .tc main_v1) from ((W5_keep m ρ c main_v1 (by decide)).trans ((W4_keep m ρ c main_v1 (by decide) (by decide)).trans ((W3_keep m ρ c main_v1 (by decide)).trans (W2_keep m ρ c main_v1 (by decide) (by decide))))), e]
  exact shapeCast_apply _ _ (ix2 0 p) (ix1 p) (by rw [Shape.rowMajor_val_one, Shape.rowMajor_val_two]; simp)

theorem entry2_bux (c : Dev nD) (p : Fin 150) :
    (W5 m ρ c (Proc.devRef .tc main_v2) : S1x150.Idx → Elt Ideal .f32) (ix2 0 p) = (Pm m c).bux p := by
  have e : W1 m ρ c (Proc.devRef .tc main_v2) = shapeCast S1x150 (W0 m ρ c (Proc.devRef .tc main_arg6)) shapeCasts_S150_S1x150 := by
    show StableHlo.after hostOps0 (W0 m ρ c) (Proc.devRef .tc main_v2) = _
    after_results <;> rfl
  rw [show W5 m ρ c (Proc.devRef .tc main_v2) = W1 m ρ c (Proc.devRef .tc main_v2) from ((W5_keep m ρ c main_v2 (by decide)).trans ((W4_keep m ρ c main_v2 (by decide) (by decide)).trans ((W3_keep m ρ c main_v2 (by decide)).trans (W2_keep m ρ c main_v2 (by decide) (by decide))))), e]
  exact shapeCast_apply _ _ (ix2 0 p) (ix1 p) (by rw [Shape.rowMajor_val_one, Shape.rowMajor_val_two]; simp)

theorem entry2_box (c : Dev nD) (p : Fin 150) :
    (W5 m ρ c (Proc.devRef .tc main_v3) : S1x150.Idx → Elt Ideal .f32) (ix2 0 p) = (Pm m c).box p := by
  have e : W1 m ρ c (Proc.devRef .tc main_v3) = shapeCast S1x150 (W0 m ρ c (Proc.devRef .tc main_arg8)) shapeCasts_S150_S1x150 := by
    show StableHlo.after hostOps0 (W0 m ρ c) (Proc.devRef .tc main_v3) = _
    after_results <;> rfl
  rw [show W5 m ρ c (Proc.devRef .tc main_v3) = W1 m ρ c (Proc.devRef .tc main_v3) from ((W5_keep m ρ c main_v3 (by decide)).trans ((W4_keep m ρ c main_v3 (by decide) (by decide)).trans ((W3_keep m ρ c main_v3 (by decide)).trans (W2_keep m ρ c main_v3 (by decide) (by decide))))), e]
  exact shapeCast_apply _ _ (ix2 0 p) (ix1 p) (by rw [Shape.rowMajor_val_one, Shape.rowMajor_val_two]; simp)

theorem entry2_bih (c : Dev nD) (p : Fin 150) :
    (W5 m ρ c (Proc.devRef .tc main_v4) : S1x150.Idx → Elt Ideal .f32) (ix2 0 p) = (Pm m c).bih p := by
  have e : W1 m ρ c (Proc.devRef .tc main_v4) = shapeCast S1x150 (W0 m ρ c (Proc.devRef .tc main_arg10)) shapeCasts_S150_S1x150 := by
    show StableHlo.after hostOps0 (W0 m ρ c) (Proc.devRef .tc main_v4) = _
    after_results <;> rfl
  rw [show W5 m ρ c (Proc.devRef .tc main_v4) = W1 m ρ c (Proc.devRef .tc main_v4) from ((W5_keep m ρ c main_v4 (by decide)).trans ((W4_keep m ρ c main_v4 (by decide) (by decide)).trans ((W3_keep m ρ c main_v4 (by decide)).trans (W2_keep m ρ c main_v4 (by decide) (by decide))))), e]
  exact shapeCast_apply _ _ (ix2 0 p) (ix1 p) (by rw [Shape.rowMajor_val_one, Shape.rowMajor_val_two]; simp)

theorem entry2_bfh (c : Dev nD) (p : Fin 150) :
    (W5 m ρ c (Proc.devRef .tc main_v5) : S1x150.Idx → Elt Ideal .f32) (ix2 0 p) = (Pm m c).bfh p := by
  have e : W1 m ρ c (Proc.devRef .tc main_v5) = shapeCast S1x150 (W0 m ρ c (Proc.devRef .tc main_arg12)) shapeCasts_S150_S1x150 := by
    show StableHlo.after hostOps0 (W0 m ρ c) (Proc.devRef .tc main_v5) = _
    after_results <;> rfl
  rw [show W5 m ρ c (Proc.devRef .tc main_v5) = W1 m ρ c (Proc.devRef .tc main_v5) from ((W5_keep m ρ c main_v5 (by decide)).trans ((W4_keep m ρ c main_v5 (by decide) (by decide)).trans ((W3_keep m ρ c main_v5 (by decide)).trans (W2_keep m ρ c main_v5 (by decide) (by decide))))), e]
  exact shapeCast_apply _ _ (ix2 0 p) (ix1 p) (by rw [Shape.rowMajor_val_one, Shape.rowMajor_val_two]; simp)

theorem entry2_buh (c : Dev nD) (p : Fin 150) :
    (W5 m ρ c (Proc.devRef .tc main_v6) : S1x150.Idx → Elt Ideal .f32) (ix2 0 p) = (Pm m c).buh p := by
  have e : W1 m ρ c (Proc.devRef .tc main_v6) = shapeCast S1x150 (W0 m ρ c (Proc.devRef .tc main_arg14)) shapeCasts_S150_S1x150 := by
    show StableHlo.after hostOps0 (W0 m ρ c) (Proc.devRef .tc main_v6) = _
    after_results <;> rfl
  rw [show W5 m ρ c (Proc.devRef .tc main_v6) = W1 m ρ c (Proc.devRef .tc main_v6) from ((W5_keep m ρ c main_v6 (by decide)).trans ((W4_keep m ρ c main_v6 (by decide) (by decide)).trans ((W3_keep m ρ c main_v6 (by decide)).trans (W2_keep m ρ c main_v6 (by decide) (by decide))))), e]
  exact shapeCast_apply _ _ (ix2 0 p) (ix1 p) (by rw [Shape.rowMajor_val_one, Shape.rowMajor_val_two]; simp)

theorem entry2_boh (c : Dev nD) (p : Fin 150) :
    (W5 m ρ c (Proc.devRef .tc main_v7) : S1x150.Idx → Elt Ideal .f32) (ix2 0 p) = (Pm m c).boh p := by
  have e : W1 m ρ c (Proc.devRef .tc main_v7) = shapeCast S1x150 (W0 m ρ c (Proc.devRef .tc main_arg16)) shapeCasts_S150_S1x150 := by
    show StableHlo.after hostOps0 (W0 m ρ c) (Proc.devRef .tc main_v7) = _
    after_results <;> rfl
  rw [show W5 m ρ c (Proc.devRef .tc main_v7) = W1 m ρ c (Proc.devRef .tc main_v7) from ((W5_keep m ρ c main_v7 (by decide)).trans ((W4_keep m ρ c main_v7 (by decide) (by decide)).trans ((W3_keep m ρ c main_v7 (by decide)).trans (W2_keep m ρ c main_v7 (by decide) (by decide))))), e]
  exact shapeCast_apply _ _ (ix2 0 p) (ix1 p) (by rw [Shape.rowMajor_val_one, Shape.rowMajor_val_two]; simp)

/-- The hidden states of the level below, regrouped by parent, are region 1's output array at row 4r + k. -/
theorem entry2_ch (c : Dev nD) (r : Fin 4096) (k : Fin 4) (q : Fin 150) :
    (W5 m ρ c (Proc.devRef .tc main_v15) : S4096x4x150.Idx → Elt Ideal .f32) (ix3 r k q)
      = (W4 m ρ c (Proc.devRef .tc main_v13_0) : S16384x150.Idx → Elt Ideal .f32) (ix2 ⟨r.val * 4 + k.val, by have := r.isLt; have := k.isLt; omega⟩ q) := by
  have e : W5 m ρ c (Proc.devRef .tc main_v15)
      = shapeCast S4096x4x150 (W4 m ρ c (Proc.devRef .tc main_v13_0)) shapeCasts_S16384x150_S4096x4x150 := by
    show StableHlo.after hostOps2 (W4 m ρ c) (Proc.devRef .tc main_v15) = _
    after_results <;> rfl
  rw [e]
  exact TreeHost.Lib.shapeCast_mc_nkc_apply _ _ r k q _ rfl

/-- The memory cells of the level below, regrouped by parent, are region 1's output array at row 4r + k. -/
theorem entry2_cc (c : Dev nD) (r : Fin 4096) (k : Fin 4) (q : Fin 150) :
    (W5 m ρ c (Proc.devRef .tc main_v16) : S4096x4x150.Idx → Elt Ideal .f32) (ix3 r k q)
      = (W4 m ρ c (Proc.devRef .tc main_v13_1) : S16384x150.Idx → Elt Ideal .f32) (ix2 ⟨r.val * 4 + k.val, by have := r.isLt; have := k.isLt; omega⟩ q) := by
  have e : W5 m ρ c (Proc.devRef .tc main_v16)
      = shapeCast S4096x4x150 (W4 m ρ c (Proc.devRef .tc main_v13_1)) shapeCasts_S16384x150_S4096x4x150 := by
    show StableHlo.after hostOps2 (W4 m ρ c) (Proc.devRef .tc main_v16) = _
    after_results <;> rfl
  rw [e]
  exact TreeHost.Lib.shapeCast_mc_nkc_apply _ _ r k q _ rfl

/-! ## Region 3 -/

theorem entry3_x (c : Dev nD) (r : Fin 1024) (k : Fin 300) :
    (W7 m ρ c (Proc.devRef .tc main_v18) : S1024x300.Idx → Elt Ideal .f32) (ix2 r k)
      = Cert.TreeSpec.rows (Em m c) 86016 1024 (by norm_num) r k := by
  have e : W7 m ρ c (Proc.devRef .tc main_v18)
      = extractStridedSlice S1024x300 ![86016, 0] (W6 m ρ c (Proc.devRef .tc main_arg0)) slices_S87381x300_S1024x300_86016_0 := by
    show StableHlo.after hostOps3 (W6 m ρ c) (Proc.devRef .tc main_v18) = _
    after_results <;> rfl
  rw [e, show W6 m ρ c (Proc.devRef .tc main_arg0) = m ((c : Thread nD τ).loc main_arg0) from ((W6_keep m ρ c main_arg0 (by decide) (by decide)).trans ((W5_keep m ρ c main_arg0 (by decide)).trans ((W4_keep m ρ c main_arg0 (by decide) (by decide)).trans ((W3_keep m ρ c main_arg0 (by decide)).trans ((W2_keep m ρ c main_arg0 (by decide) (by decide)).trans (W1_keep m ρ c main_arg0 (by decide)))))))]
  exact extractStridedSlice_apply _ _ _ _ (ix2 ⟨86016 + r.val, by have := r.isLt; omega⟩ k) (fun a => by
    match a with
    | ⟨0, _⟩ => rfl
    | ⟨1, _⟩ => simp)

theorem entry3_Wix (c : Dev nD) (k : Fin 300) (p : Fin 150) :
    (W7 m ρ c (Proc.devRef .tc main_arg1) : S300x150.Idx → Elt Ideal .f32) (ix2 k p) = (Pm m c).Wix k p := by
  rw [show W7 m ρ c (Proc.devRef .tc main_arg1) = m ((c : Thread nD τ).loc main_arg1) from ((W7_keep m ρ c main_arg1 (by decide)).trans ((W6_keep m ρ c main_arg1 (by decide) (by decide)).trans ((W5_keep m ρ c main_arg1 (by decide)).trans ((W4_keep m ρ c main_arg1 (by decide) (by decide)).trans ((W3_keep m ρ c main_arg1 (by decide)).trans ((W2_keep m ρ c main_arg1 (by decide) (by decide)).trans (W1_keep m ρ c main_arg1 (by decide))))))))]
  rfl

theorem entry3_Wfx (c : Dev nD) (k : Fin 300) (p : Fin 150) :
    (W7 m ρ c (Proc.devRef .tc main_arg3) : S300x150.Idx → Elt Ideal .f32) (ix2 k p) = (Pm m c).Wfx k p := by
  rw [show W7 m ρ c (Proc.devRef .tc main_arg3) = m ((c : Thread nD τ).loc main_arg3) from ((W7_keep m ρ c main_arg3 (by decide)).trans ((W6_keep m ρ c main_arg3 (by decide) (by decide)).trans ((W5_keep m ρ c main_arg3 (by decide)).trans ((W4_keep m ρ c main_arg3 (by decide) (by decide)).trans ((W3_keep m ρ c main_arg3 (by decide)).trans ((W2_keep m ρ c main_arg3 (by decide) (by decide)).trans (W1_keep m ρ c main_arg3 (by decide))))))))]
  rfl

theorem entry3_Wux (c : Dev nD) (k : Fin 300) (p : Fin 150) :
    (W7 m ρ c (Proc.devRef .tc main_arg5) : S300x150.Idx → Elt Ideal .f32) (ix2 k p) = (Pm m c).Wux k p := by
  rw [show W7 m ρ c (Proc.devRef .tc main_arg5) = m ((c : Thread nD τ).loc main_arg5) from ((W7_keep m ρ c main_arg5 (by decide)).trans ((W6_keep m ρ c main_arg5 (by decide) (by decide)).trans ((W5_keep m ρ c main_arg5 (by decide)).trans ((W4_keep m ρ c main_arg5 (by decide) (by decide)).trans ((W3_keep m ρ c main_arg5 (by decide)).trans ((W2_keep m ρ c main_arg5 (by decide) (by decide)).trans (W1_keep m ρ c main_arg5 (by decide))))))))]
  rfl

theorem entry3_Wox (c : Dev nD) (k : Fin 300) (p : Fin 150) :
    (W7 m ρ c (Proc.devRef .tc main_arg7) : S300x150.Idx → Elt Ideal .f32) (ix2 k p) = (Pm m c).Wox k p := by
  rw [show W7 m ρ c (Proc.devRef .tc main_arg7) = m ((c : Thread nD τ).loc main_arg7) from ((W7_keep m ρ c main_arg7 (by decide)).trans ((W6_keep m ρ c main_arg7 (by decide) (by decide)).trans ((W5_keep m ρ c main_arg7 (by decide)).trans ((W4_keep m ρ c main_arg7 (by decide) (by decide)).trans ((W3_keep m ρ c main_arg7 (by decide)).trans ((W2_keep m ρ c main_arg7 (by decide) (by decide)).trans (W1_keep m ρ c main_arg7 (by decide))))))))]
  rfl

theorem entry3_Wih (c : Dev nD) (k : Fin 150) (p : Fin 150) :
    (W7 m ρ c (Proc.devRef .tc main_arg9) : S150x150.Idx → Elt Ideal .f32) (ix2 k p) = (Pm m c).Wih k p := by
  rw [show W7 m ρ c (Proc.devRef .tc main_arg9) = m ((c : Thread nD τ).loc main_arg9) from ((W7_keep m ρ c main_arg9 (by decide)).trans ((W6_keep m ρ c main_arg9 (by decide) (by decide)).trans ((W5_keep m ρ c main_arg9 (by decide)).trans ((W4_keep m ρ c main_arg9 (by decide) (by decide)).trans ((W3_keep m ρ c main_arg9 (by decide)).trans ((W2_keep m ρ c main_arg9 (by decide) (by decide)).trans (W1_keep m ρ c main_arg9 (by decide))))))))]
  rfl

theorem entry3_Wfh (c : Dev nD) (k : Fin 150) (p : Fin 150) :
    (W7 m ρ c (Proc.devRef .tc main_arg11) : S150x150.Idx → Elt Ideal .f32) (ix2 k p) = (Pm m c).Wfh k p := by
  rw [show W7 m ρ c (Proc.devRef .tc main_arg11) = m ((c : Thread nD τ).loc main_arg11) from ((W7_keep m ρ c main_arg11 (by decide)).trans ((W6_keep m ρ c main_arg11 (by decide) (by decide)).trans ((W5_keep m ρ c main_arg11 (by decide)).trans ((W4_keep m ρ c main_arg11 (by decide) (by decide)).trans ((W3_keep m ρ c main_arg11 (by decide)).trans ((W2_keep m ρ c main_arg11 (by decide) (by decide)).trans (W1_keep m ρ c main_arg11 (by decide))))))))]
  rfl

theorem entry3_Wuh (c : Dev nD) (k : Fin 150) (p : Fin 150) :
    (W7 m ρ c (Proc.devRef .tc main_arg13) : S150x150.Idx → Elt Ideal .f32) (ix2 k p) = (Pm m c).Wuh k p := by
  rw [show W7 m ρ c (Proc.devRef .tc main_arg13) = m ((c : Thread nD τ).loc main_arg13) from ((W7_keep m ρ c main_arg13 (by decide)).trans ((W6_keep m ρ c main_arg13 (by decide) (by decide)).trans ((W5_keep m ρ c main_arg13 (by decide)).trans ((W4_keep m ρ c main_arg13 (by decide) (by decide)).trans ((W3_keep m ρ c main_arg13 (by decide)).trans ((W2_keep m ρ c main_arg13 (by decide) (by decide)).trans (W1_keep m ρ c main_arg13 (by decide))))))))]
  rfl

theorem entry3_Woh (c : Dev nD) (k : Fin 150) (p : Fin 150) :
    (W7 m ρ c (Proc.devRef .tc main_arg15) : S150x150.Idx → Elt Ideal .f32) (ix2 k p) = (Pm m c).Woh k p := by
  rw [show W7 m ρ c (Proc.devRef .tc main_arg15) = m ((c : Thread nD τ).loc main_arg15) from ((W7_keep m ρ c main_arg15 (by decide)).trans ((W6_keep m ρ c main_arg15 (by decide) (by decide)).trans ((W5_keep m ρ c main_arg15 (by decide)).trans ((W4_keep m ρ c main_arg15 (by decide) (by decide)).trans ((W3_keep m ρ c main_arg15 (by decide)).trans ((W2_keep m ρ c main_arg15 (by decide) (by decide)).trans (W1_keep m ρ c main_arg15 (by decide))))))))]
  rfl

theorem entry3_bix (c : Dev nD) (p : Fin 150) :
    (W7 m ρ c (Proc.devRef .tc main_v0) : S1x150.Idx → Elt Ideal .f32) (ix2 0 p) = (Pm m c).bix p := by
  have e : W1 m ρ c (Proc.devRef .tc main_v0) = shapeCast S1x150 (W0 m ρ c (Proc.devRef .tc main_arg2)) shapeCasts_S150_S1x150 := by
    show StableHlo.after hostOps0 (W0 m ρ c) (Proc.devRef .tc main_v0) = _
    after_results <;> rfl
  rw [show W7 m ρ c (Proc.devRef .tc main_v0) = W1 m ρ c (Proc.devRef .tc main_v0) from ((W7_keep m ρ c main_v0 (by decide)).trans ((W6_keep m ρ c main_v0 (by decide) (by decide)).trans ((W5_keep m ρ c main_v0 (by decide)).trans ((W4_keep m ρ c main_v0 (by decide) (by decide)).trans ((W3_keep m ρ c main_v0 (by decide)).trans (W2_keep m ρ c main_v0 (by decide) (by decide))))))), e]
  exact shapeCast_apply _ _ (ix2 0 p) (ix1 p) (by rw [Shape.rowMajor_val_one, Shape.rowMajor_val_two]; simp)

theorem entry3_bfx (c : Dev nD) (p : Fin 150) :
    (W7 m ρ c (Proc.devRef .tc main_v1) : S1x150.Idx → Elt Ideal .f32) (ix2 0 p) = (Pm m c).bfx p := by
  have e : W1 m ρ c (Proc.devRef .tc main_v1) = shapeCast S1x150 (W0 m ρ c (Proc.devRef .tc main_arg4)) shapeCasts_S150_S1x150 := by
    show StableHlo.after hostOps0 (W0 m ρ c) (Proc.devRef .tc main_v1) = _
    after_results <;> rfl
  rw [show W7 m ρ c (Proc.devRef .tc main_v1) = W1 m ρ c (Proc.devRef .tc main_v1) from ((W7_keep m ρ c main_v1 (by decide)).trans ((W6_keep m ρ c main_v1 (by decide) (by decide)).trans ((W5_keep m ρ c main_v1 (by decide)).trans ((W4_keep m ρ c main_v1 (by decide) (by decide)).trans ((W3_keep m ρ c main_v1 (by decide)).trans (W2_keep m ρ c main_v1 (by decide) (by decide))))))), e]
  exact shapeCast_apply _ _ (ix2 0 p) (ix1 p) (by rw [Shape.rowMajor_val_one, Shape.rowMajor_val_two]; simp)

theorem entry3_bux (c : Dev nD) (p : Fin 150) :
    (W7 m ρ c (Proc.devRef .tc main_v2) : S1x150.Idx → Elt Ideal .f32) (ix2 0 p) = (Pm m c).bux p := by
  have e : W1 m ρ c (Proc.devRef .tc main_v2) = shapeCast S1x150 (W0 m ρ c (Proc.devRef .tc main_arg6)) shapeCasts_S150_S1x150 := by
    show StableHlo.after hostOps0 (W0 m ρ c) (Proc.devRef .tc main_v2) = _
    after_results <;> rfl
  rw [show W7 m ρ c (Proc.devRef .tc main_v2) = W1 m ρ c (Proc.devRef .tc main_v2) from ((W7_keep m ρ c main_v2 (by decide)).trans ((W6_keep m ρ c main_v2 (by decide) (by decide)).trans ((W5_keep m ρ c main_v2 (by decide)).trans ((W4_keep m ρ c main_v2 (by decide) (by decide)).trans ((W3_keep m ρ c main_v2 (by decide)).trans (W2_keep m ρ c main_v2 (by decide) (by decide))))))), e]
  exact shapeCast_apply _ _ (ix2 0 p) (ix1 p) (by rw [Shape.rowMajor_val_one, Shape.rowMajor_val_two]; simp)

theorem entry3_box (c : Dev nD) (p : Fin 150) :
    (W7 m ρ c (Proc.devRef .tc main_v3) : S1x150.Idx → Elt Ideal .f32) (ix2 0 p) = (Pm m c).box p := by
  have e : W1 m ρ c (Proc.devRef .tc main_v3) = shapeCast S1x150 (W0 m ρ c (Proc.devRef .tc main_arg8)) shapeCasts_S150_S1x150 := by
    show StableHlo.after hostOps0 (W0 m ρ c) (Proc.devRef .tc main_v3) = _
    after_results <;> rfl
  rw [show W7 m ρ c (Proc.devRef .tc main_v3) = W1 m ρ c (Proc.devRef .tc main_v3) from ((W7_keep m ρ c main_v3 (by decide)).trans ((W6_keep m ρ c main_v3 (by decide) (by decide)).trans ((W5_keep m ρ c main_v3 (by decide)).trans ((W4_keep m ρ c main_v3 (by decide) (by decide)).trans ((W3_keep m ρ c main_v3 (by decide)).trans (W2_keep m ρ c main_v3 (by decide) (by decide))))))), e]
  exact shapeCast_apply _ _ (ix2 0 p) (ix1 p) (by rw [Shape.rowMajor_val_one, Shape.rowMajor_val_two]; simp)

theorem entry3_bih (c : Dev nD) (p : Fin 150) :
    (W7 m ρ c (Proc.devRef .tc main_v4) : S1x150.Idx → Elt Ideal .f32) (ix2 0 p) = (Pm m c).bih p := by
  have e : W1 m ρ c (Proc.devRef .tc main_v4) = shapeCast S1x150 (W0 m ρ c (Proc.devRef .tc main_arg10)) shapeCasts_S150_S1x150 := by
    show StableHlo.after hostOps0 (W0 m ρ c) (Proc.devRef .tc main_v4) = _
    after_results <;> rfl
  rw [show W7 m ρ c (Proc.devRef .tc main_v4) = W1 m ρ c (Proc.devRef .tc main_v4) from ((W7_keep m ρ c main_v4 (by decide)).trans ((W6_keep m ρ c main_v4 (by decide) (by decide)).trans ((W5_keep m ρ c main_v4 (by decide)).trans ((W4_keep m ρ c main_v4 (by decide) (by decide)).trans ((W3_keep m ρ c main_v4 (by decide)).trans (W2_keep m ρ c main_v4 (by decide) (by decide))))))), e]
  exact shapeCast_apply _ _ (ix2 0 p) (ix1 p) (by rw [Shape.rowMajor_val_one, Shape.rowMajor_val_two]; simp)

theorem entry3_bfh (c : Dev nD) (p : Fin 150) :
    (W7 m ρ c (Proc.devRef .tc main_v5) : S1x150.Idx → Elt Ideal .f32) (ix2 0 p) = (Pm m c).bfh p := by
  have e : W1 m ρ c (Proc.devRef .tc main_v5) = shapeCast S1x150 (W0 m ρ c (Proc.devRef .tc main_arg12)) shapeCasts_S150_S1x150 := by
    show StableHlo.after hostOps0 (W0 m ρ c) (Proc.devRef .tc main_v5) = _
    after_results <;> rfl
  rw [show W7 m ρ c (Proc.devRef .tc main_v5) = W1 m ρ c (Proc.devRef .tc main_v5) from ((W7_keep m ρ c main_v5 (by decide)).trans ((W6_keep m ρ c main_v5 (by decide) (by decide)).trans ((W5_keep m ρ c main_v5 (by decide)).trans ((W4_keep m ρ c main_v5 (by decide) (by decide)).trans ((W3_keep m ρ c main_v5 (by decide)).trans (W2_keep m ρ c main_v5 (by decide) (by decide))))))), e]
  exact shapeCast_apply _ _ (ix2 0 p) (ix1 p) (by rw [Shape.rowMajor_val_one, Shape.rowMajor_val_two]; simp)

theorem entry3_buh (c : Dev nD) (p : Fin 150) :
    (W7 m ρ c (Proc.devRef .tc main_v6) : S1x150.Idx → Elt Ideal .f32) (ix2 0 p) = (Pm m c).buh p := by
  have e : W1 m ρ c (Proc.devRef .tc main_v6) = shapeCast S1x150 (W0 m ρ c (Proc.devRef .tc main_arg14)) shapeCasts_S150_S1x150 := by
    show StableHlo.after hostOps0 (W0 m ρ c) (Proc.devRef .tc main_v6) = _
    after_results <;> rfl
  rw [show W7 m ρ c (Proc.devRef .tc main_v6) = W1 m ρ c (Proc.devRef .tc main_v6) from ((W7_keep m ρ c main_v6 (by decide)).trans ((W6_keep m ρ c main_v6 (by decide) (by decide)).trans ((W5_keep m ρ c main_v6 (by decide)).trans ((W4_keep m ρ c main_v6 (by decide) (by decide)).trans ((W3_keep m ρ c main_v6 (by decide)).trans (W2_keep m ρ c main_v6 (by decide) (by decide))))))), e]
  exact shapeCast_apply _ _ (ix2 0 p) (ix1 p) (by rw [Shape.rowMajor_val_one, Shape.rowMajor_val_two]; simp)

theorem entry3_boh (c : Dev nD) (p : Fin 150) :
    (W7 m ρ c (Proc.devRef .tc main_v7) : S1x150.Idx → Elt Ideal .f32) (ix2 0 p) = (Pm m c).boh p := by
  have e : W1 m ρ c (Proc.devRef .tc main_v7) = shapeCast S1x150 (W0 m ρ c (Proc.devRef .tc main_arg16)) shapeCasts_S150_S1x150 := by
    show StableHlo.after hostOps0 (W0 m ρ c) (Proc.devRef .tc main_v7) = _
    after_results <;> rfl
  rw [show W7 m ρ c (Proc.devRef .tc main_v7) = W1 m ρ c (Proc.devRef .tc main_v7) from ((W7_keep m ρ c main_v7 (by decide)).trans ((W6_keep m ρ c main_v7 (by decide) (by decide)).trans ((W5_keep m ρ c main_v7 (by decide)).trans ((W4_keep m ρ c main_v7 (by decide) (by decide)).trans ((W3_keep m ρ c main_v7 (by decide)).trans (W2_keep m ρ c main_v7 (by decide) (by decide))))))), e]
  exact shapeCast_apply _ _ (ix2 0 p) (ix1 p) (by rw [Shape.rowMajor_val_one, Shape.rowMajor_val_two]; simp)

/-- The hidden states of the level below, regrouped by parent, are region 2's output array at row 4r + k. -/
theorem entry3_ch (c : Dev nD) (r : Fin 1024) (k : Fin 4) (q : Fin 150) :
    (W7 m ρ c (Proc.devRef .tc main_v19) : S1024x4x150.Idx → Elt Ideal .f32) (ix3 r k q)
      = (W6 m ρ c (Proc.devRef .tc main_v17_0) : S4096x150.Idx → Elt Ideal .f32) (ix2 ⟨r.val * 4 + k.val, by have := r.isLt; have := k.isLt; omega⟩ q) := by
  have e : W7 m ρ c (Proc.devRef .tc main_v19)
      = shapeCast S1024x4x150 (W6 m ρ c (Proc.devRef .tc main_v17_0)) shapeCasts_S4096x150_S1024x4x150 := by
    show StableHlo.after hostOps3 (W6 m ρ c) (Proc.devRef .tc main_v19) = _
    after_results <;> rfl
  rw [e]
  exact TreeHost.Lib.shapeCast_mc_nkc_apply _ _ r k q _ rfl

/-- The memory cells of the level below, regrouped by parent, are region 2's output array at row 4r + k. -/
theorem entry3_cc (c : Dev nD) (r : Fin 1024) (k : Fin 4) (q : Fin 150) :
    (W7 m ρ c (Proc.devRef .tc main_v20) : S1024x4x150.Idx → Elt Ideal .f32) (ix3 r k q)
      = (W6 m ρ c (Proc.devRef .tc main_v17_1) : S4096x150.Idx → Elt Ideal .f32) (ix2 ⟨r.val * 4 + k.val, by have := r.isLt; have := k.isLt; omega⟩ q) := by
  have e : W7 m ρ c (Proc.devRef .tc main_v20)
      = shapeCast S1024x4x150 (W6 m ρ c (Proc.devRef .tc main_v17_1)) shapeCasts_S4096x150_S1024x4x150 := by
    show StableHlo.after hostOps3 (W6 m ρ c) (Proc.devRef .tc main_v20) = _
    after_results <;> rfl
  rw [e]
  exact TreeHost.Lib.shapeCast_mc_nkc_apply _ _ r k q _ rfl

/-! ## Region 4 -/

theorem entry4_x (c : Dev nD) (r : Fin 256) (k : Fin 300) :
    (W9 m ρ c (Proc.devRef .tc main_v22) : S256x300.Idx → Elt Ideal .f32) (ix2 r k)
      = Cert.TreeSpec.rows (Em m c) 87040 256 (by norm_num) r k := by
  have e : W9 m ρ c (Proc.devRef .tc main_v22)
      = extractStridedSlice S256x300 ![87040, 0] (W8 m ρ c (Proc.devRef .tc main_arg0)) slices_S87381x300_S256x300_87040_0 := by
    show StableHlo.after hostOps4 (W8 m ρ c) (Proc.devRef .tc main_v22) = _
    after_results <;> rfl
  rw [e, show W8 m ρ c (Proc.devRef .tc main_arg0) = m ((c : Thread nD τ).loc main_arg0) from ((W8_keep m ρ c main_arg0 (by decide) (by decide)).trans ((W7_keep m ρ c main_arg0 (by decide)).trans ((W6_keep m ρ c main_arg0 (by decide) (by decide)).trans ((W5_keep m ρ c main_arg0 (by decide)).trans ((W4_keep m ρ c main_arg0 (by decide) (by decide)).trans ((W3_keep m ρ c main_arg0 (by decide)).trans ((W2_keep m ρ c main_arg0 (by decide) (by decide)).trans (W1_keep m ρ c main_arg0 (by decide)))))))))]
  exact extractStridedSlice_apply _ _ _ _ (ix2 ⟨87040 + r.val, by have := r.isLt; omega⟩ k) (fun a => by
    match a with
    | ⟨0, _⟩ => rfl
    | ⟨1, _⟩ => simp)

theorem entry4_Wix (c : Dev nD) (k : Fin 300) (p : Fin 150) :
    (W9 m ρ c (Proc.devRef .tc main_arg1) : S300x150.Idx → Elt Ideal .f32) (ix2 k p) = (Pm m c).Wix k p := by
  rw [show W9 m ρ c (Proc.devRef .tc main_arg1) = m ((c : Thread nD τ).loc main_arg1) from ((W9_keep m ρ c main_arg1 (by decide)).trans ((W8_keep m ρ c main_arg1 (by decide) (by decide)).trans ((W7_keep m ρ c main_arg1 (by decide)).trans ((W6_keep m ρ c main_arg1 (by decide) (by decide)).trans ((W5_keep m ρ c main_arg1 (by decide)).trans ((W4_keep m ρ c main_arg1 (by decide) (by decide)).trans ((W3_keep m ρ c main_arg1 (by decide)).trans ((W2_keep m ρ c main_arg1 (by decide) (by decide)).trans (W1_keep m ρ c main_arg1 (by decide))))))))))]
  rfl

theorem entry4_Wfx (c : Dev nD) (k : Fin 300) (p : Fin 150) :
    (W9 m ρ c (Proc.devRef .tc main_arg3) : S300x150.Idx → Elt Ideal .f32) (ix2 k p) = (Pm m c).Wfx k p := by
  rw [show W9 m ρ c (Proc.devRef .tc main_arg3) = m ((c : Thread nD τ).loc main_arg3) from ((W9_keep m ρ c main_arg3 (by decide)).trans ((W8_keep m ρ c main_arg3 (by decide) (by decide)).trans ((W7_keep m ρ c main_arg3 (by decide)).trans ((W6_keep m ρ c main_arg3 (by decide) (by decide)).trans ((W5_keep m ρ c main_arg3 (by decide)).trans ((W4_keep m ρ c main_arg3 (by decide) (by decide)).trans ((W3_keep m ρ c main_arg3 (by decide)).trans ((W2_keep m ρ c main_arg3 (by decide) (by decide)).trans (W1_keep m ρ c main_arg3 (by decide))))))))))]
  rfl

theorem entry4_Wux (c : Dev nD) (k : Fin 300) (p : Fin 150) :
    (W9 m ρ c (Proc.devRef .tc main_arg5) : S300x150.Idx → Elt Ideal .f32) (ix2 k p) = (Pm m c).Wux k p := by
  rw [show W9 m ρ c (Proc.devRef .tc main_arg5) = m ((c : Thread nD τ).loc main_arg5) from ((W9_keep m ρ c main_arg5 (by decide)).trans ((W8_keep m ρ c main_arg5 (by decide) (by decide)).trans ((W7_keep m ρ c main_arg5 (by decide)).trans ((W6_keep m ρ c main_arg5 (by decide) (by decide)).trans ((W5_keep m ρ c main_arg5 (by decide)).trans ((W4_keep m ρ c main_arg5 (by decide) (by decide)).trans ((W3_keep m ρ c main_arg5 (by decide)).trans ((W2_keep m ρ c main_arg5 (by decide) (by decide)).trans (W1_keep m ρ c main_arg5 (by decide))))))))))]
  rfl

theorem entry4_Wox (c : Dev nD) (k : Fin 300) (p : Fin 150) :
    (W9 m ρ c (Proc.devRef .tc main_arg7) : S300x150.Idx → Elt Ideal .f32) (ix2 k p) = (Pm m c).Wox k p := by
  rw [show W9 m ρ c (Proc.devRef .tc main_arg7) = m ((c : Thread nD τ).loc main_arg7) from ((W9_keep m ρ c main_arg7 (by decide)).trans ((W8_keep m ρ c main_arg7 (by decide) (by decide)).trans ((W7_keep m ρ c main_arg7 (by decide)).trans ((W6_keep m ρ c main_arg7 (by decide) (by decide)).trans ((W5_keep m ρ c main_arg7 (by decide)).trans ((W4_keep m ρ c main_arg7 (by decide) (by decide)).trans ((W3_keep m ρ c main_arg7 (by decide)).trans ((W2_keep m ρ c main_arg7 (by decide) (by decide)).trans (W1_keep m ρ c main_arg7 (by decide))))))))))]
  rfl

theorem entry4_Wih (c : Dev nD) (k : Fin 150) (p : Fin 150) :
    (W9 m ρ c (Proc.devRef .tc main_arg9) : S150x150.Idx → Elt Ideal .f32) (ix2 k p) = (Pm m c).Wih k p := by
  rw [show W9 m ρ c (Proc.devRef .tc main_arg9) = m ((c : Thread nD τ).loc main_arg9) from ((W9_keep m ρ c main_arg9 (by decide)).trans ((W8_keep m ρ c main_arg9 (by decide) (by decide)).trans ((W7_keep m ρ c main_arg9 (by decide)).trans ((W6_keep m ρ c main_arg9 (by decide) (by decide)).trans ((W5_keep m ρ c main_arg9 (by decide)).trans ((W4_keep m ρ c main_arg9 (by decide) (by decide)).trans ((W3_keep m ρ c main_arg9 (by decide)).trans ((W2_keep m ρ c main_arg9 (by decide) (by decide)).trans (W1_keep m ρ c main_arg9 (by decide))))))))))]
  rfl

theorem entry4_Wfh (c : Dev nD) (k : Fin 150) (p : Fin 150) :
    (W9 m ρ c (Proc.devRef .tc main_arg11) : S150x150.Idx → Elt Ideal .f32) (ix2 k p) = (Pm m c).Wfh k p := by
  rw [show W9 m ρ c (Proc.devRef .tc main_arg11) = m ((c : Thread nD τ).loc main_arg11) from ((W9_keep m ρ c main_arg11 (by decide)).trans ((W8_keep m ρ c main_arg11 (by decide) (by decide)).trans ((W7_keep m ρ c main_arg11 (by decide)).trans ((W6_keep m ρ c main_arg11 (by decide) (by decide)).trans ((W5_keep m ρ c main_arg11 (by decide)).trans ((W4_keep m ρ c main_arg11 (by decide) (by decide)).trans ((W3_keep m ρ c main_arg11 (by decide)).trans ((W2_keep m ρ c main_arg11 (by decide) (by decide)).trans (W1_keep m ρ c main_arg11 (by decide))))))))))]
  rfl

theorem entry4_Wuh (c : Dev nD) (k : Fin 150) (p : Fin 150) :
    (W9 m ρ c (Proc.devRef .tc main_arg13) : S150x150.Idx → Elt Ideal .f32) (ix2 k p) = (Pm m c).Wuh k p := by
  rw [show W9 m ρ c (Proc.devRef .tc main_arg13) = m ((c : Thread nD τ).loc main_arg13) from ((W9_keep m ρ c main_arg13 (by decide)).trans ((W8_keep m ρ c main_arg13 (by decide) (by decide)).trans ((W7_keep m ρ c main_arg13 (by decide)).trans ((W6_keep m ρ c main_arg13 (by decide) (by decide)).trans ((W5_keep m ρ c main_arg13 (by decide)).trans ((W4_keep m ρ c main_arg13 (by decide) (by decide)).trans ((W3_keep m ρ c main_arg13 (by decide)).trans ((W2_keep m ρ c main_arg13 (by decide) (by decide)).trans (W1_keep m ρ c main_arg13 (by decide))))))))))]
  rfl

theorem entry4_Woh (c : Dev nD) (k : Fin 150) (p : Fin 150) :
    (W9 m ρ c (Proc.devRef .tc main_arg15) : S150x150.Idx → Elt Ideal .f32) (ix2 k p) = (Pm m c).Woh k p := by
  rw [show W9 m ρ c (Proc.devRef .tc main_arg15) = m ((c : Thread nD τ).loc main_arg15) from ((W9_keep m ρ c main_arg15 (by decide)).trans ((W8_keep m ρ c main_arg15 (by decide) (by decide)).trans ((W7_keep m ρ c main_arg15 (by decide)).trans ((W6_keep m ρ c main_arg15 (by decide) (by decide)).trans ((W5_keep m ρ c main_arg15 (by decide)).trans ((W4_keep m ρ c main_arg15 (by decide) (by decide)).trans ((W3_keep m ρ c main_arg15 (by decide)).trans ((W2_keep m ρ c main_arg15 (by decide) (by decide)).trans (W1_keep m ρ c main_arg15 (by decide))))))))))]
  rfl

theorem entry4_bix (c : Dev nD) (p : Fin 150) :
    (W9 m ρ c (Proc.devRef .tc main_v0) : S1x150.Idx → Elt Ideal .f32) (ix2 0 p) = (Pm m c).bix p := by
  have e : W1 m ρ c (Proc.devRef .tc main_v0) = shapeCast S1x150 (W0 m ρ c (Proc.devRef .tc main_arg2)) shapeCasts_S150_S1x150 := by
    show StableHlo.after hostOps0 (W0 m ρ c) (Proc.devRef .tc main_v0) = _
    after_results <;> rfl
  rw [show W9 m ρ c (Proc.devRef .tc main_v0) = W1 m ρ c (Proc.devRef .tc main_v0) from ((W9_keep m ρ c main_v0 (by decide)).trans ((W8_keep m ρ c main_v0 (by decide) (by decide)).trans ((W7_keep m ρ c main_v0 (by decide)).trans ((W6_keep m ρ c main_v0 (by decide) (by decide)).trans ((W5_keep m ρ c main_v0 (by decide)).trans ((W4_keep m ρ c main_v0 (by decide) (by decide)).trans ((W3_keep m ρ c main_v0 (by decide)).trans (W2_keep m ρ c main_v0 (by decide) (by decide))))))))), e]
  exact shapeCast_apply _ _ (ix2 0 p) (ix1 p) (by rw [Shape.rowMajor_val_one, Shape.rowMajor_val_two]; simp)

theorem entry4_bfx (c : Dev nD) (p : Fin 150) :
    (W9 m ρ c (Proc.devRef .tc main_v1) : S1x150.Idx → Elt Ideal .f32) (ix2 0 p) = (Pm m c).bfx p := by
  have e : W1 m ρ c (Proc.devRef .tc main_v1) = shapeCast S1x150 (W0 m ρ c (Proc.devRef .tc main_arg4)) shapeCasts_S150_S1x150 := by
    show StableHlo.after hostOps0 (W0 m ρ c) (Proc.devRef .tc main_v1) = _
    after_results <;> rfl
  rw [show W9 m ρ c (Proc.devRef .tc main_v1) = W1 m ρ c (Proc.devRef .tc main_v1) from ((W9_keep m ρ c main_v1 (by decide)).trans ((W8_keep m ρ c main_v1 (by decide) (by decide)).trans ((W7_keep m ρ c main_v1 (by decide)).trans ((W6_keep m ρ c main_v1 (by decide) (by decide)).trans ((W5_keep m ρ c main_v1 (by decide)).trans ((W4_keep m ρ c main_v1 (by decide) (by decide)).trans ((W3_keep m ρ c main_v1 (by decide)).trans (W2_keep m ρ c main_v1 (by decide) (by decide))))))))), e]
  exact shapeCast_apply _ _ (ix2 0 p) (ix1 p) (by rw [Shape.rowMajor_val_one, Shape.rowMajor_val_two]; simp)

theorem entry4_bux (c : Dev nD) (p : Fin 150) :
    (W9 m ρ c (Proc.devRef .tc main_v2) : S1x150.Idx → Elt Ideal .f32) (ix2 0 p) = (Pm m c).bux p := by
  have e : W1 m ρ c (Proc.devRef .tc main_v2) = shapeCast S1x150 (W0 m ρ c (Proc.devRef .tc main_arg6)) shapeCasts_S150_S1x150 := by
    show StableHlo.after hostOps0 (W0 m ρ c) (Proc.devRef .tc main_v2) = _
    after_results <;> rfl
  rw [show W9 m ρ c (Proc.devRef .tc main_v2) = W1 m ρ c (Proc.devRef .tc main_v2) from ((W9_keep m ρ c main_v2 (by decide)).trans ((W8_keep m ρ c main_v2 (by decide) (by decide)).trans ((W7_keep m ρ c main_v2 (by decide)).trans ((W6_keep m ρ c main_v2 (by decide) (by decide)).trans ((W5_keep m ρ c main_v2 (by decide)).trans ((W4_keep m ρ c main_v2 (by decide) (by decide)).trans ((W3_keep m ρ c main_v2 (by decide)).trans (W2_keep m ρ c main_v2 (by decide) (by decide))))))))), e]
  exact shapeCast_apply _ _ (ix2 0 p) (ix1 p) (by rw [Shape.rowMajor_val_one, Shape.rowMajor_val_two]; simp)

theorem entry4_box (c : Dev nD) (p : Fin 150) :
    (W9 m ρ c (Proc.devRef .tc main_v3) : S1x150.Idx → Elt Ideal .f32) (ix2 0 p) = (Pm m c).box p := by
  have e : W1 m ρ c (Proc.devRef .tc main_v3) = shapeCast S1x150 (W0 m ρ c (Proc.devRef .tc main_arg8)) shapeCasts_S150_S1x150 := by
    show StableHlo.after hostOps0 (W0 m ρ c) (Proc.devRef .tc main_v3) = _
    after_results <;> rfl
  rw [show W9 m ρ c (Proc.devRef .tc main_v3) = W1 m ρ c (Proc.devRef .tc main_v3) from ((W9_keep m ρ c main_v3 (by decide)).trans ((W8_keep m ρ c main_v3 (by decide) (by decide)).trans ((W7_keep m ρ c main_v3 (by decide)).trans ((W6_keep m ρ c main_v3 (by decide) (by decide)).trans ((W5_keep m ρ c main_v3 (by decide)).trans ((W4_keep m ρ c main_v3 (by decide) (by decide)).trans ((W3_keep m ρ c main_v3 (by decide)).trans (W2_keep m ρ c main_v3 (by decide) (by decide))))))))), e]
  exact shapeCast_apply _ _ (ix2 0 p) (ix1 p) (by rw [Shape.rowMajor_val_one, Shape.rowMajor_val_two]; simp)

theorem entry4_bih (c : Dev nD) (p : Fin 150) :
    (W9 m ρ c (Proc.devRef .tc main_v4) : S1x150.Idx → Elt Ideal .f32) (ix2 0 p) = (Pm m c).bih p := by
  have e : W1 m ρ c (Proc.devRef .tc main_v4) = shapeCast S1x150 (W0 m ρ c (Proc.devRef .tc main_arg10)) shapeCasts_S150_S1x150 := by
    show StableHlo.after hostOps0 (W0 m ρ c) (Proc.devRef .tc main_v4) = _
    after_results <;> rfl
  rw [show W9 m ρ c (Proc.devRef .tc main_v4) = W1 m ρ c (Proc.devRef .tc main_v4) from ((W9_keep m ρ c main_v4 (by decide)).trans ((W8_keep m ρ c main_v4 (by decide) (by decide)).trans ((W7_keep m ρ c main_v4 (by decide)).trans ((W6_keep m ρ c main_v4 (by decide) (by decide)).trans ((W5_keep m ρ c main_v4 (by decide)).trans ((W4_keep m ρ c main_v4 (by decide) (by decide)).trans ((W3_keep m ρ c main_v4 (by decide)).trans (W2_keep m ρ c main_v4 (by decide) (by decide))))))))), e]
  exact shapeCast_apply _ _ (ix2 0 p) (ix1 p) (by rw [Shape.rowMajor_val_one, Shape.rowMajor_val_two]; simp)

theorem entry4_bfh (c : Dev nD) (p : Fin 150) :
    (W9 m ρ c (Proc.devRef .tc main_v5) : S1x150.Idx → Elt Ideal .f32) (ix2 0 p) = (Pm m c).bfh p := by
  have e : W1 m ρ c (Proc.devRef .tc main_v5) = shapeCast S1x150 (W0 m ρ c (Proc.devRef .tc main_arg12)) shapeCasts_S150_S1x150 := by
    show StableHlo.after hostOps0 (W0 m ρ c) (Proc.devRef .tc main_v5) = _
    after_results <;> rfl
  rw [show W9 m ρ c (Proc.devRef .tc main_v5) = W1 m ρ c (Proc.devRef .tc main_v5) from ((W9_keep m ρ c main_v5 (by decide)).trans ((W8_keep m ρ c main_v5 (by decide) (by decide)).trans ((W7_keep m ρ c main_v5 (by decide)).trans ((W6_keep m ρ c main_v5 (by decide) (by decide)).trans ((W5_keep m ρ c main_v5 (by decide)).trans ((W4_keep m ρ c main_v5 (by decide) (by decide)).trans ((W3_keep m ρ c main_v5 (by decide)).trans (W2_keep m ρ c main_v5 (by decide) (by decide))))))))), e]
  exact shapeCast_apply _ _ (ix2 0 p) (ix1 p) (by rw [Shape.rowMajor_val_one, Shape.rowMajor_val_two]; simp)

theorem entry4_buh (c : Dev nD) (p : Fin 150) :
    (W9 m ρ c (Proc.devRef .tc main_v6) : S1x150.Idx → Elt Ideal .f32) (ix2 0 p) = (Pm m c).buh p := by
  have e : W1 m ρ c (Proc.devRef .tc main_v6) = shapeCast S1x150 (W0 m ρ c (Proc.devRef .tc main_arg14)) shapeCasts_S150_S1x150 := by
    show StableHlo.after hostOps0 (W0 m ρ c) (Proc.devRef .tc main_v6) = _
    after_results <;> rfl
  rw [show W9 m ρ c (Proc.devRef .tc main_v6) = W1 m ρ c (Proc.devRef .tc main_v6) from ((W9_keep m ρ c main_v6 (by decide)).trans ((W8_keep m ρ c main_v6 (by decide) (by decide)).trans ((W7_keep m ρ c main_v6 (by decide)).trans ((W6_keep m ρ c main_v6 (by decide) (by decide)).trans ((W5_keep m ρ c main_v6 (by decide)).trans ((W4_keep m ρ c main_v6 (by decide) (by decide)).trans ((W3_keep m ρ c main_v6 (by decide)).trans (W2_keep m ρ c main_v6 (by decide) (by decide))))))))), e]
  exact shapeCast_apply _ _ (ix2 0 p) (ix1 p) (by rw [Shape.rowMajor_val_one, Shape.rowMajor_val_two]; simp)

theorem entry4_boh (c : Dev nD) (p : Fin 150) :
    (W9 m ρ c (Proc.devRef .tc main_v7) : S1x150.Idx → Elt Ideal .f32) (ix2 0 p) = (Pm m c).boh p := by
  have e : W1 m ρ c (Proc.devRef .tc main_v7) = shapeCast S1x150 (W0 m ρ c (Proc.devRef .tc main_arg16)) shapeCasts_S150_S1x150 := by
    show StableHlo.after hostOps0 (W0 m ρ c) (Proc.devRef .tc main_v7) = _
    after_results <;> rfl
  rw [show W9 m ρ c (Proc.devRef .tc main_v7) = W1 m ρ c (Proc.devRef .tc main_v7) from ((W9_keep m ρ c main_v7 (by decide)).trans ((W8_keep m ρ c main_v7 (by decide) (by decide)).trans ((W7_keep m ρ c main_v7 (by decide)).trans ((W6_keep m ρ c main_v7 (by decide) (by decide)).trans ((W5_keep m ρ c main_v7 (by decide)).trans ((W4_keep m ρ c main_v7 (by decide) (by decide)).trans ((W3_keep m ρ c main_v7 (by decide)).trans (W2_keep m ρ c main_v7 (by decide) (by decide))))))))), e]
  exact shapeCast_apply _ _ (ix2 0 p) (ix1 p) (by rw [Shape.rowMajor_val_one, Shape.rowMajor_val_two]; simp)

/-- The hidden states of the level below, regrouped by parent, are region 3's output array at row 4r + k. -/
theorem entry4_ch (c : Dev nD) (r : Fin 256) (k : Fin 4) (q : Fin 150) :
    (W9 m ρ c (Proc.devRef .tc main_v23) : S256x4x150.Idx → Elt Ideal .f32) (ix3 r k q)
      = (W8 m ρ c (Proc.devRef .tc main_v21_0) : S1024x150.Idx → Elt Ideal .f32) (ix2 ⟨r.val * 4 + k.val, by have := r.isLt; have := k.isLt; omega⟩ q) := by
  have e : W9 m ρ c (Proc.devRef .tc main_v23)
      = shapeCast S256x4x150 (W8 m ρ c (Proc.devRef .tc main_v21_0)) shapeCasts_S1024x150_S256x4x150 := by
    show StableHlo.after hostOps4 (W8 m ρ c) (Proc.devRef .tc main_v23) = _
    after_results <;> rfl
  rw [e]
  exact TreeHost.Lib.shapeCast_mc_nkc_apply _ _ r k q _ rfl

/-- The memory cells of the level below, regrouped by parent, are region 3's output array at row 4r + k. -/
theorem entry4_cc (c : Dev nD) (r : Fin 256) (k : Fin 4) (q : Fin 150) :
    (W9 m ρ c (Proc.devRef .tc main_v24) : S256x4x150.Idx → Elt Ideal .f32) (ix3 r k q)
      = (W8 m ρ c (Proc.devRef .tc main_v21_1) : S1024x150.Idx → Elt Ideal .f32) (ix2 ⟨r.val * 4 + k.val, by have := r.isLt; have := k.isLt; omega⟩ q) := by
  have e : W9 m ρ c (Proc.devRef .tc main_v24)
      = shapeCast S256x4x150 (W8 m ρ c (Proc.devRef .tc main_v21_1)) shapeCasts_S1024x150_S256x4x150 := by
    show StableHlo.after hostOps4 (W8 m ρ c) (Proc.devRef .tc main_v24) = _
    after_results <;> rfl
  rw [e]
  exact TreeHost.Lib.shapeCast_mc_nkc_apply _ _ r k q _ rfl

/-! ## Region 5 -/

theorem entry5_x (c : Dev nD) (r : Fin 64) (k : Fin 300) :
    (W11 m ρ c (Proc.devRef .tc main_v26) : S64x300.Idx → Elt Ideal .f32) (ix2 r k)
      = Cert.TreeSpec.rows (Em m c) 87296 64 (by norm_num) r k := by
  have e : W11 m ρ c (Proc.devRef .tc main_v26)
      = extractStridedSlice S64x300 ![87296, 0] (W10 m ρ c (Proc.devRef .tc main_arg0)) slices_S87381x300_S64x300_87296_0 := by
    show StableHlo.after hostOps5 (W10 m ρ c) (Proc.devRef .tc main_v26) = _
    after_results <;> rfl
  rw [e, show W10 m ρ c (Proc.devRef .tc main_arg0) = m ((c : Thread nD τ).loc main_arg0) from ((W10_keep m ρ c main_arg0 (by decide) (by decide)).trans ((W9_keep m ρ c main_arg0 (by decide)).trans ((W8_keep m ρ c main_arg0 (by decide) (by decide)).trans ((W7_keep m ρ c main_arg0 (by decide)).trans ((W6_keep m ρ c main_arg0 (by decide) (by decide)).trans ((W5_keep m ρ c main_arg0 (by decide)).trans ((W4_keep m ρ c main_arg0 (by decide) (by decide)).trans ((W3_keep m ρ c main_arg0 (by decide)).trans ((W2_keep m ρ c main_arg0 (by decide) (by decide)).trans (W1_keep m ρ c main_arg0 (by decide)))))))))))]
  exact extractStridedSlice_apply _ _ _ _ (ix2 ⟨87296 + r.val, by have := r.isLt; omega⟩ k) (fun a => by
    match a with
    | ⟨0, _⟩ => rfl
    | ⟨1, _⟩ => simp)

theorem entry5_Wix (c : Dev nD) (k : Fin 300) (p : Fin 150) :
    (W11 m ρ c (Proc.devRef .tc main_arg1) : S300x150.Idx → Elt Ideal .f32) (ix2 k p) = (Pm m c).Wix k p := by
  rw [show W11 m ρ c (Proc.devRef .tc main_arg1) = m ((c : Thread nD τ).loc main_arg1) from ((W11_keep m ρ c main_arg1 (by decide)).trans ((W10_keep m ρ c main_arg1 (by decide) (by decide)).trans ((W9_keep m ρ c main_arg1 (by decide)).trans ((W8_keep m ρ c main_arg1 (by decide) (by decide)).trans ((W7_keep m ρ c main_arg1 (by decide)).trans ((W6_keep m ρ c main_arg1 (by decide) (by decide)).trans ((W5_keep m ρ c main_arg1 (by decide)).trans ((W4_keep m ρ c main_arg1 (by decide) (by decide)).trans ((W3_keep m ρ c main_arg1 (by decide)).trans ((W2_keep m ρ c main_arg1 (by decide) (by decide)).trans (W1_keep m ρ c main_arg1 (by decide))))))))))))]
  rfl

theorem entry5_Wfx (c : Dev nD) (k : Fin 300) (p : Fin 150) :
    (W11 m ρ c (Proc.devRef .tc main_arg3) : S300x150.Idx → Elt Ideal .f32) (ix2 k p) = (Pm m c).Wfx k p := by
  rw [show W11 m ρ c (Proc.devRef .tc main_arg3) = m ((c : Thread nD τ).loc main_arg3) from ((W11_keep m ρ c main_arg3 (by decide)).trans ((W10_keep m ρ c main_arg3 (by decide) (by decide)).trans ((W9_keep m ρ c main_arg3 (by decide)).trans ((W8_keep m ρ c main_arg3 (by decide) (by decide)).trans ((W7_keep m ρ c main_arg3 (by decide)).trans ((W6_keep m ρ c main_arg3 (by decide) (by decide)).trans ((W5_keep m ρ c main_arg3 (by decide)).trans ((W4_keep m ρ c main_arg3 (by decide) (by decide)).trans ((W3_keep m ρ c main_arg3 (by decide)).trans ((W2_keep m ρ c main_arg3 (by decide) (by decide)).trans (W1_keep m ρ c main_arg3 (by decide))))))))))))]
  rfl

theorem entry5_Wux (c : Dev nD) (k : Fin 300) (p : Fin 150) :
    (W11 m ρ c (Proc.devRef .tc main_arg5) : S300x150.Idx → Elt Ideal .f32) (ix2 k p) = (Pm m c).Wux k p := by
  rw [show W11 m ρ c (Proc.devRef .tc main_arg5) = m ((c : Thread nD τ).loc main_arg5) from ((W11_keep m ρ c main_arg5 (by decide)).trans ((W10_keep m ρ c main_arg5 (by decide) (by decide)).trans ((W9_keep m ρ c main_arg5 (by decide)).trans ((W8_keep m ρ c main_arg5 (by decide) (by decide)).trans ((W7_keep m ρ c main_arg5 (by decide)).trans ((W6_keep m ρ c main_arg5 (by decide) (by decide)).trans ((W5_keep m ρ c main_arg5 (by decide)).trans ((W4_keep m ρ c main_arg5 (by decide) (by decide)).trans ((W3_keep m ρ c main_arg5 (by decide)).trans ((W2_keep m ρ c main_arg5 (by decide) (by decide)).trans (W1_keep m ρ c main_arg5 (by decide))))))))))))]
  rfl

theorem entry5_Wox (c : Dev nD) (k : Fin 300) (p : Fin 150) :
    (W11 m ρ c (Proc.devRef .tc main_arg7) : S300x150.Idx → Elt Ideal .f32) (ix2 k p) = (Pm m c).Wox k p := by
  rw [show W11 m ρ c (Proc.devRef .tc main_arg7) = m ((c : Thread nD τ).loc main_arg7) from ((W11_keep m ρ c main_arg7 (by decide)).trans ((W10_keep m ρ c main_arg7 (by decide) (by decide)).trans ((W9_keep m ρ c main_arg7 (by decide)).trans ((W8_keep m ρ c main_arg7 (by decide) (by decide)).trans ((W7_keep m ρ c main_arg7 (by decide)).trans ((W6_keep m ρ c main_arg7 (by decide) (by decide)).trans ((W5_keep m ρ c main_arg7 (by decide)).trans ((W4_keep m ρ c main_arg7 (by decide) (by decide)).trans ((W3_keep m ρ c main_arg7 (by decide)).trans ((W2_keep m ρ c main_arg7 (by decide) (by decide)).trans (W1_keep m ρ c main_arg7 (by decide))))))))))))]
  rfl

theorem entry5_Wih (c : Dev nD) (k : Fin 150) (p : Fin 150) :
    (W11 m ρ c (Proc.devRef .tc main_arg9) : S150x150.Idx → Elt Ideal .f32) (ix2 k p) = (Pm m c).Wih k p := by
  rw [show W11 m ρ c (Proc.devRef .tc main_arg9) = m ((c : Thread nD τ).loc main_arg9) from ((W11_keep m ρ c main_arg9 (by decide)).trans ((W10_keep m ρ c main_arg9 (by decide) (by decide)).trans ((W9_keep m ρ c main_arg9 (by decide)).trans ((W8_keep m ρ c main_arg9 (by decide) (by decide)).trans ((W7_keep m ρ c main_arg9 (by decide)).trans ((W6_keep m ρ c main_arg9 (by decide) (by decide)).trans ((W5_keep m ρ c main_arg9 (by decide)).trans ((W4_keep m ρ c main_arg9 (by decide) (by decide)).trans ((W3_keep m ρ c main_arg9 (by decide)).trans ((W2_keep m ρ c main_arg9 (by decide) (by decide)).trans (W1_keep m ρ c main_arg9 (by decide))))))))))))]
  rfl

theorem entry5_Wfh (c : Dev nD) (k : Fin 150) (p : Fin 150) :
    (W11 m ρ c (Proc.devRef .tc main_arg11) : S150x150.Idx → Elt Ideal .f32) (ix2 k p) = (Pm m c).Wfh k p := by
  rw [show W11 m ρ c (Proc.devRef .tc main_arg11) = m ((c : Thread nD τ).loc main_arg11) from ((W11_keep m ρ c main_arg11 (by decide)).trans ((W10_keep m ρ c main_arg11 (by decide) (by decide)).trans ((W9_keep m ρ c main_arg11 (by decide)).trans ((W8_keep m ρ c main_arg11 (by decide) (by decide)).trans ((W7_keep m ρ c main_arg11 (by decide)).trans ((W6_keep m ρ c main_arg11 (by decide) (by decide)).trans ((W5_keep m ρ c main_arg11 (by decide)).trans ((W4_keep m ρ c main_arg11 (by decide) (by decide)).trans ((W3_keep m ρ c main_arg11 (by decide)).trans ((W2_keep m ρ c main_arg11 (by decide) (by decide)).trans (W1_keep m ρ c main_arg11 (by decide))))))))))))]
  rfl

theorem entry5_Wuh (c : Dev nD) (k : Fin 150) (p : Fin 150) :
    (W11 m ρ c (Proc.devRef .tc main_arg13) : S150x150.Idx → Elt Ideal .f32) (ix2 k p) = (Pm m c).Wuh k p := by
  rw [show W11 m ρ c (Proc.devRef .tc main_arg13) = m ((c : Thread nD τ).loc main_arg13) from ((W11_keep m ρ c main_arg13 (by decide)).trans ((W10_keep m ρ c main_arg13 (by decide) (by decide)).trans ((W9_keep m ρ c main_arg13 (by decide)).trans ((W8_keep m ρ c main_arg13 (by decide) (by decide)).trans ((W7_keep m ρ c main_arg13 (by decide)).trans ((W6_keep m ρ c main_arg13 (by decide) (by decide)).trans ((W5_keep m ρ c main_arg13 (by decide)).trans ((W4_keep m ρ c main_arg13 (by decide) (by decide)).trans ((W3_keep m ρ c main_arg13 (by decide)).trans ((W2_keep m ρ c main_arg13 (by decide) (by decide)).trans (W1_keep m ρ c main_arg13 (by decide))))))))))))]
  rfl

theorem entry5_Woh (c : Dev nD) (k : Fin 150) (p : Fin 150) :
    (W11 m ρ c (Proc.devRef .tc main_arg15) : S150x150.Idx → Elt Ideal .f32) (ix2 k p) = (Pm m c).Woh k p := by
  rw [show W11 m ρ c (Proc.devRef .tc main_arg15) = m ((c : Thread nD τ).loc main_arg15) from ((W11_keep m ρ c main_arg15 (by decide)).trans ((W10_keep m ρ c main_arg15 (by decide) (by decide)).trans ((W9_keep m ρ c main_arg15 (by decide)).trans ((W8_keep m ρ c main_arg15 (by decide) (by decide)).trans ((W7_keep m ρ c main_arg15 (by decide)).trans ((W6_keep m ρ c main_arg15 (by decide) (by decide)).trans ((W5_keep m ρ c main_arg15 (by decide)).trans ((W4_keep m ρ c main_arg15 (by decide) (by decide)).trans ((W3_keep m ρ c main_arg15 (by decide)).trans ((W2_keep m ρ c main_arg15 (by decide) (by decide)).trans (W1_keep m ρ c main_arg15 (by decide))))))))))))]
  rfl

theorem entry5_bix (c : Dev nD) (p : Fin 150) :
    (W11 m ρ c (Proc.devRef .tc main_v0) : S1x150.Idx → Elt Ideal .f32) (ix2 0 p) = (Pm m c).bix p := by
  have e : W1 m ρ c (Proc.devRef .tc main_v0) = shapeCast S1x150 (W0 m ρ c (Proc.devRef .tc main_arg2)) shapeCasts_S150_S1x150 := by
    show StableHlo.after hostOps0 (W0 m ρ c) (Proc.devRef .tc main_v0) = _
    after_results <;> rfl
  rw [show W11 m ρ c (Proc.devRef .tc main_v0) = W1 m ρ c (Proc.devRef .tc main_v0) from ((W11_keep m ρ c main_v0 (by decide)).trans ((W10_keep m ρ c main_v0 (by decide) (by decide)).trans ((W9_keep m ρ c main_v0 (by decide)).trans ((W8_keep m ρ c main_v0 (by decide) (by decide)).trans ((W7_keep m ρ c main_v0 (by decide)).trans ((W6_keep m ρ c main_v0 (by decide) (by decide)).trans ((W5_keep m ρ c main_v0 (by decide)).trans ((W4_keep m ρ c main_v0 (by decide) (by decide)).trans ((W3_keep m ρ c main_v0 (by decide)).trans (W2_keep m ρ c main_v0 (by decide) (by decide))))))))))), e]
  exact shapeCast_apply _ _ (ix2 0 p) (ix1 p) (by rw [Shape.rowMajor_val_one, Shape.rowMajor_val_two]; simp)

theorem entry5_bfx (c : Dev nD) (p : Fin 150) :
    (W11 m ρ c (Proc.devRef .tc main_v1) : S1x150.Idx → Elt Ideal .f32) (ix2 0 p) = (Pm m c).bfx p := by
  have e : W1 m ρ c (Proc.devRef .tc main_v1) = shapeCast S1x150 (W0 m ρ c (Proc.devRef .tc main_arg4)) shapeCasts_S150_S1x150 := by
    show StableHlo.after hostOps0 (W0 m ρ c) (Proc.devRef .tc main_v1) = _
    after_results <;> rfl
  rw [show W11 m ρ c (Proc.devRef .tc main_v1) = W1 m ρ c (Proc.devRef .tc main_v1) from ((W11_keep m ρ c main_v1 (by decide)).trans ((W10_keep m ρ c main_v1 (by decide) (by decide)).trans ((W9_keep m ρ c main_v1 (by decide)).trans ((W8_keep m ρ c main_v1 (by decide) (by decide)).trans ((W7_keep m ρ c main_v1 (by decide)).trans ((W6_keep m ρ c main_v1 (by decide) (by decide)).trans ((W5_keep m ρ c main_v1 (by decide)).trans ((W4_keep m ρ c main_v1 (by decide) (by decide)).trans ((W3_keep m ρ c main_v1 (by decide)).trans (W2_keep m ρ c main_v1 (by decide) (by decide))))))))))), e]
  exact shapeCast_apply _ _ (ix2 0 p) (ix1 p) (by rw [Shape.rowMajor_val_one, Shape.rowMajor_val_two]; simp)

theorem entry5_bux (c : Dev nD) (p : Fin 150) :
    (W11 m ρ c (Proc.devRef .tc main_v2) : S1x150.Idx → Elt Ideal .f32) (ix2 0 p) = (Pm m c).bux p := by
  have e : W1 m ρ c (Proc.devRef .tc main_v2) = shapeCast S1x150 (W0 m ρ c (Proc.devRef .tc main_arg6)) shapeCasts_S150_S1x150 := by
    show StableHlo.after hostOps0 (W0 m ρ c) (Proc.devRef .tc main_v2) = _
    after_results <;> rfl
  rw [show W11 m ρ c (Proc.devRef .tc main_v2) = W1 m ρ c (Proc.devRef .tc main_v2) from ((W11_keep m ρ c main_v2 (by decide)).trans ((W10_keep m ρ c main_v2 (by decide) (by decide)).trans ((W9_keep m ρ c main_v2 (by decide)).trans ((W8_keep m ρ c main_v2 (by decide) (by decide)).trans ((W7_keep m ρ c main_v2 (by decide)).trans ((W6_keep m ρ c main_v2 (by decide) (by decide)).trans ((W5_keep m ρ c main_v2 (by decide)).trans ((W4_keep m ρ c main_v2 (by decide) (by decide)).trans ((W3_keep m ρ c main_v2 (by decide)).trans (W2_keep m ρ c main_v2 (by decide) (by decide))))))))))), e]
  exact shapeCast_apply _ _ (ix2 0 p) (ix1 p) (by rw [Shape.rowMajor_val_one, Shape.rowMajor_val_two]; simp)

theorem entry5_box (c : Dev nD) (p : Fin 150) :
    (W11 m ρ c (Proc.devRef .tc main_v3) : S1x150.Idx → Elt Ideal .f32) (ix2 0 p) = (Pm m c).box p := by
  have e : W1 m ρ c (Proc.devRef .tc main_v3) = shapeCast S1x150 (W0 m ρ c (Proc.devRef .tc main_arg8)) shapeCasts_S150_S1x150 := by
    show StableHlo.after hostOps0 (W0 m ρ c) (Proc.devRef .tc main_v3) = _
    after_results <;> rfl
  rw [show W11 m ρ c (Proc.devRef .tc main_v3) = W1 m ρ c (Proc.devRef .tc main_v3) from ((W11_keep m ρ c main_v3 (by decide)).trans ((W10_keep m ρ c main_v3 (by decide) (by decide)).trans ((W9_keep m ρ c main_v3 (by decide)).trans ((W8_keep m ρ c main_v3 (by decide) (by decide)).trans ((W7_keep m ρ c main_v3 (by decide)).trans ((W6_keep m ρ c main_v3 (by decide) (by decide)).trans ((W5_keep m ρ c main_v3 (by decide)).trans ((W4_keep m ρ c main_v3 (by decide) (by decide)).trans ((W3_keep m ρ c main_v3 (by decide)).trans (W2_keep m ρ c main_v3 (by decide) (by decide))))))))))), e]
  exact shapeCast_apply _ _ (ix2 0 p) (ix1 p) (by rw [Shape.rowMajor_val_one, Shape.rowMajor_val_two]; simp)

theorem entry5_bih (c : Dev nD) (p : Fin 150) :
    (W11 m ρ c (Proc.devRef .tc main_v4) : S1x150.Idx → Elt Ideal .f32) (ix2 0 p) = (Pm m c).bih p := by
  have e : W1 m ρ c (Proc.devRef .tc main_v4) = shapeCast S1x150 (W0 m ρ c (Proc.devRef .tc main_arg10)) shapeCasts_S150_S1x150 := by
    show StableHlo.after hostOps0 (W0 m ρ c) (Proc.devRef .tc main_v4) = _
    after_results <;> rfl
  rw [show W11 m ρ c (Proc.devRef .tc main_v4) = W1 m ρ c (Proc.devRef .tc main_v4) from ((W11_keep m ρ c main_v4 (by decide)).trans ((W10_keep m ρ c main_v4 (by decide) (by decide)).trans ((W9_keep m ρ c main_v4 (by decide)).trans ((W8_keep m ρ c main_v4 (by decide) (by decide)).trans ((W7_keep m ρ c main_v4 (by decide)).trans ((W6_keep m ρ c main_v4 (by decide) (by decide)).trans ((W5_keep m ρ c main_v4 (by decide)).trans ((W4_keep m ρ c main_v4 (by decide) (by decide)).trans ((W3_keep m ρ c main_v4 (by decide)).trans (W2_keep m ρ c main_v4 (by decide) (by decide))))))))))), e]
  exact shapeCast_apply _ _ (ix2 0 p) (ix1 p) (by rw [Shape.rowMajor_val_one, Shape.rowMajor_val_two]; simp)

theorem entry5_bfh (c : Dev nD) (p : Fin 150) :
    (W11 m ρ c (Proc.devRef .tc main_v5) : S1x150.Idx → Elt Ideal .f32) (ix2 0 p) = (Pm m c).bfh p := by
  have e : W1 m ρ c (Proc.devRef .tc main_v5) = shapeCast S1x150 (W0 m ρ c (Proc.devRef .tc main_arg12)) shapeCasts_S150_S1x150 := by
    show StableHlo.after hostOps0 (W0 m ρ c) (Proc.devRef .tc main_v5) = _
    after_results <;> rfl
  rw [show W11 m ρ c (Proc.devRef .tc main_v5) = W1 m ρ c (Proc.devRef .tc main_v5) from ((W11_keep m ρ c main_v5 (by decide)).trans ((W10_keep m ρ c main_v5 (by decide) (by decide)).trans ((W9_keep m ρ c main_v5 (by decide)).trans ((W8_keep m ρ c main_v5 (by decide) (by decide)).trans ((W7_keep m ρ c main_v5 (by decide)).trans ((W6_keep m ρ c main_v5 (by decide) (by decide)).trans ((W5_keep m ρ c main_v5 (by decide)).trans ((W4_keep m ρ c main_v5 (by decide) (by decide)).trans ((W3_keep m ρ c main_v5 (by decide)).trans (W2_keep m ρ c main_v5 (by decide) (by decide))))))))))), e]
  exact shapeCast_apply _ _ (ix2 0 p) (ix1 p) (by rw [Shape.rowMajor_val_one, Shape.rowMajor_val_two]; simp)

theorem entry5_buh (c : Dev nD) (p : Fin 150) :
    (W11 m ρ c (Proc.devRef .tc main_v6) : S1x150.Idx → Elt Ideal .f32) (ix2 0 p) = (Pm m c).buh p := by
  have e : W1 m ρ c (Proc.devRef .tc main_v6) = shapeCast S1x150 (W0 m ρ c (Proc.devRef .tc main_arg14)) shapeCasts_S150_S1x150 := by
    show StableHlo.after hostOps0 (W0 m ρ c) (Proc.devRef .tc main_v6) = _
    after_results <;> rfl
  rw [show W11 m ρ c (Proc.devRef .tc main_v6) = W1 m ρ c (Proc.devRef .tc main_v6) from ((W11_keep m ρ c main_v6 (by decide)).trans ((W10_keep m ρ c main_v6 (by decide) (by decide)).trans ((W9_keep m ρ c main_v6 (by decide)).trans ((W8_keep m ρ c main_v6 (by decide) (by decide)).trans ((W7_keep m ρ c main_v6 (by decide)).trans ((W6_keep m ρ c main_v6 (by decide) (by decide)).trans ((W5_keep m ρ c main_v6 (by decide)).trans ((W4_keep m ρ c main_v6 (by decide) (by decide)).trans ((W3_keep m ρ c main_v6 (by decide)).trans (W2_keep m ρ c main_v6 (by decide) (by decide))))))))))), e]
  exact shapeCast_apply _ _ (ix2 0 p) (ix1 p) (by rw [Shape.rowMajor_val_one, Shape.rowMajor_val_two]; simp)

theorem entry5_boh (c : Dev nD) (p : Fin 150) :
    (W11 m ρ c (Proc.devRef .tc main_v7) : S1x150.Idx → Elt Ideal .f32) (ix2 0 p) = (Pm m c).boh p := by
  have e : W1 m ρ c (Proc.devRef .tc main_v7) = shapeCast S1x150 (W0 m ρ c (Proc.devRef .tc main_arg16)) shapeCasts_S150_S1x150 := by
    show StableHlo.after hostOps0 (W0 m ρ c) (Proc.devRef .tc main_v7) = _
    after_results <;> rfl
  rw [show W11 m ρ c (Proc.devRef .tc main_v7) = W1 m ρ c (Proc.devRef .tc main_v7) from ((W11_keep m ρ c main_v7 (by decide)).trans ((W10_keep m ρ c main_v7 (by decide) (by decide)).trans ((W9_keep m ρ c main_v7 (by decide)).trans ((W8_keep m ρ c main_v7 (by decide) (by decide)).trans ((W7_keep m ρ c main_v7 (by decide)).trans ((W6_keep m ρ c main_v7 (by decide) (by decide)).trans ((W5_keep m ρ c main_v7 (by decide)).trans ((W4_keep m ρ c main_v7 (by decide) (by decide)).trans ((W3_keep m ρ c main_v7 (by decide)).trans (W2_keep m ρ c main_v7 (by decide) (by decide))))))))))), e]
  exact shapeCast_apply _ _ (ix2 0 p) (ix1 p) (by rw [Shape.rowMajor_val_one, Shape.rowMajor_val_two]; simp)

/-- The hidden states of the level below, regrouped by parent, are region 4's output array at row 4r + k. -/
theorem entry5_ch (c : Dev nD) (r : Fin 64) (k : Fin 4) (q : Fin 150) :
    (W11 m ρ c (Proc.devRef .tc main_v27) : S64x4x150.Idx → Elt Ideal .f32) (ix3 r k q)
      = (W10 m ρ c (Proc.devRef .tc main_v25_0) : S256x150.Idx → Elt Ideal .f32) (ix2 ⟨r.val * 4 + k.val, by have := r.isLt; have := k.isLt; omega⟩ q) := by
  have e : W11 m ρ c (Proc.devRef .tc main_v27)
      = shapeCast S64x4x150 (W10 m ρ c (Proc.devRef .tc main_v25_0)) shapeCasts_S256x150_S64x4x150 := by
    show StableHlo.after hostOps5 (W10 m ρ c) (Proc.devRef .tc main_v27) = _
    after_results <;> rfl
  rw [e]
  exact TreeHost.Lib.shapeCast_mc_nkc_apply _ _ r k q _ rfl

/-- The memory cells of the level below, regrouped by parent, are region 4's output array at row 4r + k. -/
theorem entry5_cc (c : Dev nD) (r : Fin 64) (k : Fin 4) (q : Fin 150) :
    (W11 m ρ c (Proc.devRef .tc main_v28) : S64x4x150.Idx → Elt Ideal .f32) (ix3 r k q)
      = (W10 m ρ c (Proc.devRef .tc main_v25_1) : S256x150.Idx → Elt Ideal .f32) (ix2 ⟨r.val * 4 + k.val, by have := r.isLt; have := k.isLt; omega⟩ q) := by
  have e : W11 m ρ c (Proc.devRef .tc main_v28)
      = shapeCast S64x4x150 (W10 m ρ c (Proc.devRef .tc main_v25_1)) shapeCasts_S256x150_S64x4x150 := by
    show StableHlo.after hostOps5 (W10 m ρ c) (Proc.devRef .tc main_v28) = _
    after_results <;> rfl
  rw [e]
  exact TreeHost.Lib.shapeCast_mc_nkc_apply _ _ r k q _ rfl

/-! ## Region 6 -/

theorem entry6_x (c : Dev nD) (r : Fin 16) (k : Fin 300) :
    (W13 m ρ c (Proc.devRef .tc main_v30) : S16x300.Idx → Elt Ideal .f32) (ix2 r k)
      = Cert.TreeSpec.rows (Em m c) 87360 16 (by norm_num) r k := by
  have e : W13 m ρ c (Proc.devRef .tc main_v30)
      = extractStridedSlice S16x300 ![87360, 0] (W12 m ρ c (Proc.devRef .tc main_arg0)) slices_S87381x300_S16x300_87360_0 := by
    show StableHlo.after hostOps6 (W12 m ρ c) (Proc.devRef .tc main_v30) = _
    after_results <;> rfl
  rw [e, show W12 m ρ c (Proc.devRef .tc main_arg0) = m ((c : Thread nD τ).loc main_arg0) from ((W12_keep m ρ c main_arg0 (by decide) (by decide)).trans ((W11_keep m ρ c main_arg0 (by decide)).trans ((W10_keep m ρ c main_arg0 (by decide) (by decide)).trans ((W9_keep m ρ c main_arg0 (by decide)).trans ((W8_keep m ρ c main_arg0 (by decide) (by decide)).trans ((W7_keep m ρ c main_arg0 (by decide)).trans ((W6_keep m ρ c main_arg0 (by decide) (by decide)).trans ((W5_keep m ρ c main_arg0 (by decide)).trans ((W4_keep m ρ c main_arg0 (by decide) (by decide)).trans ((W3_keep m ρ c main_arg0 (by decide)).trans ((W2_keep m ρ c main_arg0 (by decide) (by decide)).trans (W1_keep m ρ c main_arg0 (by decide)))))))))))))]
  exact extractStridedSlice_apply _ _ _ _ (ix2 ⟨87360 + r.val, by have := r.isLt; omega⟩ k) (fun a => by
    match a with
    | ⟨0, _⟩ => rfl
    | ⟨1, _⟩ => simp)

theorem entry6_Wix (c : Dev nD) (k : Fin 300) (p : Fin 150) :
    (W13 m ρ c (Proc.devRef .tc main_arg1) : S300x150.Idx → Elt Ideal .f32) (ix2 k p) = (Pm m c).Wix k p := by
  rw [show W13 m ρ c (Proc.devRef .tc main_arg1) = m ((c : Thread nD τ).loc main_arg1) from ((W13_keep m ρ c main_arg1 (by decide)).trans ((W12_keep m ρ c main_arg1 (by decide) (by decide)).trans ((W11_keep m ρ c main_arg1 (by decide)).trans ((W10_keep m ρ c main_arg1 (by decide) (by decide)).trans ((W9_keep m ρ c main_arg1 (by decide)).trans ((W8_keep m ρ c main_arg1 (by decide) (by decide)).trans ((W7_keep m ρ c main_arg1 (by decide)).trans ((W6_keep m ρ c main_arg1 (by decide) (by decide)).trans ((W5_keep m ρ c main_arg1 (by decide)).trans ((W4_keep m ρ c main_arg1 (by decide) (by decide)).trans ((W3_keep m ρ c main_arg1 (by decide)).trans ((W2_keep m ρ c main_arg1 (by decide) (by decide)).trans (W1_keep m ρ c main_arg1 (by decide))))))))))))))]
  rfl

theorem entry6_Wfx (c : Dev nD) (k : Fin 300) (p : Fin 150) :
    (W13 m ρ c (Proc.devRef .tc main_arg3) : S300x150.Idx → Elt Ideal .f32) (ix2 k p) = (Pm m c).Wfx k p := by
  rw [show W13 m ρ c (Proc.devRef .tc main_arg3) = m ((c : Thread nD τ).loc main_arg3) from ((W13_keep m ρ c main_arg3 (by decide)).trans ((W12_keep m ρ c main_arg3 (by decide) (by decide)).trans ((W11_keep m ρ c main_arg3 (by decide)).trans ((W10_keep m ρ c main_arg3 (by decide) (by decide)).trans ((W9_keep m ρ c main_arg3 (by decide)).trans ((W8_keep m ρ c main_arg3 (by decide) (by decide)).trans ((W7_keep m ρ c main_arg3 (by decide)).trans ((W6_keep m ρ c main_arg3 (by decide) (by decide)).trans ((W5_keep m ρ c main_arg3 (by decide)).trans ((W4_keep m ρ c main_arg3 (by decide) (by decide)).trans ((W3_keep m ρ c main_arg3 (by decide)).trans ((W2_keep m ρ c main_arg3 (by decide) (by decide)).trans (W1_keep m ρ c main_arg3 (by decide))))))))))))))]
  rfl

theorem entry6_Wux (c : Dev nD) (k : Fin 300) (p : Fin 150) :
    (W13 m ρ c (Proc.devRef .tc main_arg5) : S300x150.Idx → Elt Ideal .f32) (ix2 k p) = (Pm m c).Wux k p := by
  rw [show W13 m ρ c (Proc.devRef .tc main_arg5) = m ((c : Thread nD τ).loc main_arg5) from ((W13_keep m ρ c main_arg5 (by decide)).trans ((W12_keep m ρ c main_arg5 (by decide) (by decide)).trans ((W11_keep m ρ c main_arg5 (by decide)).trans ((W10_keep m ρ c main_arg5 (by decide) (by decide)).trans ((W9_keep m ρ c main_arg5 (by decide)).trans ((W8_keep m ρ c main_arg5 (by decide) (by decide)).trans ((W7_keep m ρ c main_arg5 (by decide)).trans ((W6_keep m ρ c main_arg5 (by decide) (by decide)).trans ((W5_keep m ρ c main_arg5 (by decide)).trans ((W4_keep m ρ c main_arg5 (by decide) (by decide)).trans ((W3_keep m ρ c main_arg5 (by decide)).trans ((W2_keep m ρ c main_arg5 (by decide) (by decide)).trans (W1_keep m ρ c main_arg5 (by decide))))))))))))))]
  rfl

theorem entry6_Wox (c : Dev nD) (k : Fin 300) (p : Fin 150) :
    (W13 m ρ c (Proc.devRef .tc main_arg7) : S300x150.Idx → Elt Ideal .f32) (ix2 k p) = (Pm m c).Wox k p := by
  rw [show W13 m ρ c (Proc.devRef .tc main_arg7) = m ((c : Thread nD τ).loc main_arg7) from ((W13_keep m ρ c main_arg7 (by decide)).trans ((W12_keep m ρ c main_arg7 (by decide) (by decide)).trans ((W11_keep m ρ c main_arg7 (by decide)).trans ((W10_keep m ρ c main_arg7 (by decide) (by decide)).trans ((W9_keep m ρ c main_arg7 (by decide)).trans ((W8_keep m ρ c main_arg7 (by decide) (by decide)).trans ((W7_keep m ρ c main_arg7 (by decide)).trans ((W6_keep m ρ c main_arg7 (by decide) (by decide)).trans ((W5_keep m ρ c main_arg7 (by decide)).trans ((W4_keep m ρ c main_arg7 (by decide) (by decide)).trans ((W3_keep m ρ c main_arg7 (by decide)).trans ((W2_keep m ρ c main_arg7 (by decide) (by decide)).trans (W1_keep m ρ c main_arg7 (by decide))))))))))))))]
  rfl

theorem entry6_Wih (c : Dev nD) (k : Fin 150) (p : Fin 150) :
    (W13 m ρ c (Proc.devRef .tc main_arg9) : S150x150.Idx → Elt Ideal .f32) (ix2 k p) = (Pm m c).Wih k p := by
  rw [show W13 m ρ c (Proc.devRef .tc main_arg9) = m ((c : Thread nD τ).loc main_arg9) from ((W13_keep m ρ c main_arg9 (by decide)).trans ((W12_keep m ρ c main_arg9 (by decide) (by decide)).trans ((W11_keep m ρ c main_arg9 (by decide)).trans ((W10_keep m ρ c main_arg9 (by decide) (by decide)).trans ((W9_keep m ρ c main_arg9 (by decide)).trans ((W8_keep m ρ c main_arg9 (by decide) (by decide)).trans ((W7_keep m ρ c main_arg9 (by decide)).trans ((W6_keep m ρ c main_arg9 (by decide) (by decide)).trans ((W5_keep m ρ c main_arg9 (by decide)).trans ((W4_keep m ρ c main_arg9 (by decide) (by decide)).trans ((W3_keep m ρ c main_arg9 (by decide)).trans ((W2_keep m ρ c main_arg9 (by decide) (by decide)).trans (W1_keep m ρ c main_arg9 (by decide))))))))))))))]
  rfl

theorem entry6_Wfh (c : Dev nD) (k : Fin 150) (p : Fin 150) :
    (W13 m ρ c (Proc.devRef .tc main_arg11) : S150x150.Idx → Elt Ideal .f32) (ix2 k p) = (Pm m c).Wfh k p := by
  rw [show W13 m ρ c (Proc.devRef .tc main_arg11) = m ((c : Thread nD τ).loc main_arg11) from ((W13_keep m ρ c main_arg11 (by decide)).trans ((W12_keep m ρ c main_arg11 (by decide) (by decide)).trans ((W11_keep m ρ c main_arg11 (by decide)).trans ((W10_keep m ρ c main_arg11 (by decide) (by decide)).trans ((W9_keep m ρ c main_arg11 (by decide)).trans ((W8_keep m ρ c main_arg11 (by decide) (by decide)).trans ((W7_keep m ρ c main_arg11 (by decide)).trans ((W6_keep m ρ c main_arg11 (by decide) (by decide)).trans ((W5_keep m ρ c main_arg11 (by decide)).trans ((W4_keep m ρ c main_arg11 (by decide) (by decide)).trans ((W3_keep m ρ c main_arg11 (by decide)).trans ((W2_keep m ρ c main_arg11 (by decide) (by decide)).trans (W1_keep m ρ c main_arg11 (by decide))))))))))))))]
  rfl

theorem entry6_Wuh (c : Dev nD) (k : Fin 150) (p : Fin 150) :
    (W13 m ρ c (Proc.devRef .tc main_arg13) : S150x150.Idx → Elt Ideal .f32) (ix2 k p) = (Pm m c).Wuh k p := by
  rw [show W13 m ρ c (Proc.devRef .tc main_arg13) = m ((c : Thread nD τ).loc main_arg13) from ((W13_keep m ρ c main_arg13 (by decide)).trans ((W12_keep m ρ c main_arg13 (by decide) (by decide)).trans ((W11_keep m ρ c main_arg13 (by decide)).trans ((W10_keep m ρ c main_arg13 (by decide) (by decide)).trans ((W9_keep m ρ c main_arg13 (by decide)).trans ((W8_keep m ρ c main_arg13 (by decide) (by decide)).trans ((W7_keep m ρ c main_arg13 (by decide)).trans ((W6_keep m ρ c main_arg13 (by decide) (by decide)).trans ((W5_keep m ρ c main_arg13 (by decide)).trans ((W4_keep m ρ c main_arg13 (by decide) (by decide)).trans ((W3_keep m ρ c main_arg13 (by decide)).trans ((W2_keep m ρ c main_arg13 (by decide) (by decide)).trans (W1_keep m ρ c main_arg13 (by decide))))))))))))))]
  rfl

theorem entry6_Woh (c : Dev nD) (k : Fin 150) (p : Fin 150) :
    (W13 m ρ c (Proc.devRef .tc main_arg15) : S150x150.Idx → Elt Ideal .f32) (ix2 k p) = (Pm m c).Woh k p := by
  rw [show W13 m ρ c (Proc.devRef .tc main_arg15) = m ((c : Thread nD τ).loc main_arg15) from ((W13_keep m ρ c main_arg15 (by decide)).trans ((W12_keep m ρ c main_arg15 (by decide) (by decide)).trans ((W11_keep m ρ c main_arg15 (by decide)).trans ((W10_keep m ρ c main_arg15 (by decide) (by decide)).trans ((W9_keep m ρ c main_arg15 (by decide)).trans ((W8_keep m ρ c main_arg15 (by decide) (by decide)).trans ((W7_keep m ρ c main_arg15 (by decide)).trans ((W6_keep m ρ c main_arg15 (by decide) (by decide)).trans ((W5_keep m ρ c main_arg15 (by decide)).trans ((W4_keep m ρ c main_arg15 (by decide) (by decide)).trans ((W3_keep m ρ c main_arg15 (by decide)).trans ((W2_keep m ρ c main_arg15 (by decide) (by decide)).trans (W1_keep m ρ c main_arg15 (by decide))))))))))))))]
  rfl

theorem entry6_bix (c : Dev nD) (p : Fin 150) :
    (W13 m ρ c (Proc.devRef .tc main_v0) : S1x150.Idx → Elt Ideal .f32) (ix2 0 p) = (Pm m c).bix p := by
  have e : W1 m ρ c (Proc.devRef .tc main_v0) = shapeCast S1x150 (W0 m ρ c (Proc.devRef .tc main_arg2)) shapeCasts_S150_S1x150 := by
    show StableHlo.after hostOps0 (W0 m ρ c) (Proc.devRef .tc main_v0) = _
    after_results <;> rfl
  rw [show W13 m ρ c (Proc.devRef .tc main_v0) = W1 m ρ c (Proc.devRef .tc main_v0) from ((W13_keep m ρ c main_v0 (by decide)).trans ((W12_keep m ρ c main_v0 (by decide) (by decide)).trans ((W11_keep m ρ c main_v0 (by decide)).trans ((W10_keep m ρ c main_v0 (by decide) (by decide)).trans ((W9_keep m ρ c main_v0 (by decide)).trans ((W8_keep m ρ c main_v0 (by decide) (by decide)).trans ((W7_keep m ρ c main_v0 (by decide)).trans ((W6_keep m ρ c main_v0 (by decide) (by decide)).trans ((W5_keep m ρ c main_v0 (by decide)).trans ((W4_keep m ρ c main_v0 (by decide) (by decide)).trans ((W3_keep m ρ c main_v0 (by decide)).trans (W2_keep m ρ c main_v0 (by decide) (by decide))))))))))))), e]
  exact shapeCast_apply _ _ (ix2 0 p) (ix1 p) (by rw [Shape.rowMajor_val_one, Shape.rowMajor_val_two]; simp)

theorem entry6_bfx (c : Dev nD) (p : Fin 150) :
    (W13 m ρ c (Proc.devRef .tc main_v1) : S1x150.Idx → Elt Ideal .f32) (ix2 0 p) = (Pm m c).bfx p := by
  have e : W1 m ρ c (Proc.devRef .tc main_v1) = shapeCast S1x150 (W0 m ρ c (Proc.devRef .tc main_arg4)) shapeCasts_S150_S1x150 := by
    show StableHlo.after hostOps0 (W0 m ρ c) (Proc.devRef .tc main_v1) = _
    after_results <;> rfl
  rw [show W13 m ρ c (Proc.devRef .tc main_v1) = W1 m ρ c (Proc.devRef .tc main_v1) from ((W13_keep m ρ c main_v1 (by decide)).trans ((W12_keep m ρ c main_v1 (by decide) (by decide)).trans ((W11_keep m ρ c main_v1 (by decide)).trans ((W10_keep m ρ c main_v1 (by decide) (by decide)).trans ((W9_keep m ρ c main_v1 (by decide)).trans ((W8_keep m ρ c main_v1 (by decide) (by decide)).trans ((W7_keep m ρ c main_v1 (by decide)).trans ((W6_keep m ρ c main_v1 (by decide) (by decide)).trans ((W5_keep m ρ c main_v1 (by decide)).trans ((W4_keep m ρ c main_v1 (by decide) (by decide)).trans ((W3_keep m ρ c main_v1 (by decide)).trans (W2_keep m ρ c main_v1 (by decide) (by decide))))))))))))), e]
  exact shapeCast_apply _ _ (ix2 0 p) (ix1 p) (by rw [Shape.rowMajor_val_one, Shape.rowMajor_val_two]; simp)

theorem entry6_bux (c : Dev nD) (p : Fin 150) :
    (W13 m ρ c (Proc.devRef .tc main_v2) : S1x150.Idx → Elt Ideal .f32) (ix2 0 p) = (Pm m c).bux p := by
  have e : W1 m ρ c (Proc.devRef .tc main_v2) = shapeCast S1x150 (W0 m ρ c (Proc.devRef .tc main_arg6)) shapeCasts_S150_S1x150 := by
    show StableHlo.after hostOps0 (W0 m ρ c) (Proc.devRef .tc main_v2) = _
    after_results <;> rfl
  rw [show W13 m ρ c (Proc.devRef .tc main_v2) = W1 m ρ c (Proc.devRef .tc main_v2) from ((W13_keep m ρ c main_v2 (by decide)).trans ((W12_keep m ρ c main_v2 (by decide) (by decide)).trans ((W11_keep m ρ c main_v2 (by decide)).trans ((W10_keep m ρ c main_v2 (by decide) (by decide)).trans ((W9_keep m ρ c main_v2 (by decide)).trans ((W8_keep m ρ c main_v2 (by decide) (by decide)).trans ((W7_keep m ρ c main_v2 (by decide)).trans ((W6_keep m ρ c main_v2 (by decide) (by decide)).trans ((W5_keep m ρ c main_v2 (by decide)).trans ((W4_keep m ρ c main_v2 (by decide) (by decide)).trans ((W3_keep m ρ c main_v2 (by decide)).trans (W2_keep m ρ c main_v2 (by decide) (by decide))))))))))))), e]
  exact shapeCast_apply _ _ (ix2 0 p) (ix1 p) (by rw [Shape.rowMajor_val_one, Shape.rowMajor_val_two]; simp)

theorem entry6_box (c : Dev nD) (p : Fin 150) :
    (W13 m ρ c (Proc.devRef .tc main_v3) : S1x150.Idx → Elt Ideal .f32) (ix2 0 p) = (Pm m c).box p := by
  have e : W1 m ρ c (Proc.devRef .tc main_v3) = shapeCast S1x150 (W0 m ρ c (Proc.devRef .tc main_arg8)) shapeCasts_S150_S1x150 := by
    show StableHlo.after hostOps0 (W0 m ρ c) (Proc.devRef .tc main_v3) = _
    after_results <;> rfl
  rw [show W13 m ρ c (Proc.devRef .tc main_v3) = W1 m ρ c (Proc.devRef .tc main_v3) from ((W13_keep m ρ c main_v3 (by decide)).trans ((W12_keep m ρ c main_v3 (by decide) (by decide)).trans ((W11_keep m ρ c main_v3 (by decide)).trans ((W10_keep m ρ c main_v3 (by decide) (by decide)).trans ((W9_keep m ρ c main_v3 (by decide)).trans ((W8_keep m ρ c main_v3 (by decide) (by decide)).trans ((W7_keep m ρ c main_v3 (by decide)).trans ((W6_keep m ρ c main_v3 (by decide) (by decide)).trans ((W5_keep m ρ c main_v3 (by decide)).trans ((W4_keep m ρ c main_v3 (by decide) (by decide)).trans ((W3_keep m ρ c main_v3 (by decide)).trans (W2_keep m ρ c main_v3 (by decide) (by decide))))))))))))), e]
  exact shapeCast_apply _ _ (ix2 0 p) (ix1 p) (by rw [Shape.rowMajor_val_one, Shape.rowMajor_val_two]; simp)

theorem entry6_bih (c : Dev nD) (p : Fin 150) :
    (W13 m ρ c (Proc.devRef .tc main_v4) : S1x150.Idx → Elt Ideal .f32) (ix2 0 p) = (Pm m c).bih p := by
  have e : W1 m ρ c (Proc.devRef .tc main_v4) = shapeCast S1x150 (W0 m ρ c (Proc.devRef .tc main_arg10)) shapeCasts_S150_S1x150 := by
    show StableHlo.after hostOps0 (W0 m ρ c) (Proc.devRef .tc main_v4) = _
    after_results <;> rfl
  rw [show W13 m ρ c (Proc.devRef .tc main_v4) = W1 m ρ c (Proc.devRef .tc main_v4) from ((W13_keep m ρ c main_v4 (by decide)).trans ((W12_keep m ρ c main_v4 (by decide) (by decide)).trans ((W11_keep m ρ c main_v4 (by decide)).trans ((W10_keep m ρ c main_v4 (by decide) (by decide)).trans ((W9_keep m ρ c main_v4 (by decide)).trans ((W8_keep m ρ c main_v4 (by decide) (by decide)).trans ((W7_keep m ρ c main_v4 (by decide)).trans ((W6_keep m ρ c main_v4 (by decide) (by decide)).trans ((W5_keep m ρ c main_v4 (by decide)).trans ((W4_keep m ρ c main_v4 (by decide) (by decide)).trans ((W3_keep m ρ c main_v4 (by decide)).trans (W2_keep m ρ c main_v4 (by decide) (by decide))))))))))))), e]
  exact shapeCast_apply _ _ (ix2 0 p) (ix1 p) (by rw [Shape.rowMajor_val_one, Shape.rowMajor_val_two]; simp)

theorem entry6_bfh (c : Dev nD) (p : Fin 150) :
    (W13 m ρ c (Proc.devRef .tc main_v5) : S1x150.Idx → Elt Ideal .f32) (ix2 0 p) = (Pm m c).bfh p := by
  have e : W1 m ρ c (Proc.devRef .tc main_v5) = shapeCast S1x150 (W0 m ρ c (Proc.devRef .tc main_arg12)) shapeCasts_S150_S1x150 := by
    show StableHlo.after hostOps0 (W0 m ρ c) (Proc.devRef .tc main_v5) = _
    after_results <;> rfl
  rw [show W13 m ρ c (Proc.devRef .tc main_v5) = W1 m ρ c (Proc.devRef .tc main_v5) from ((W13_keep m ρ c main_v5 (by decide)).trans ((W12_keep m ρ c main_v5 (by decide) (by decide)).trans ((W11_keep m ρ c main_v5 (by decide)).trans ((W10_keep m ρ c main_v5 (by decide) (by decide)).trans ((W9_keep m ρ c main_v5 (by decide)).trans ((W8_keep m ρ c main_v5 (by decide) (by decide)).trans ((W7_keep m ρ c main_v5 (by decide)).trans ((W6_keep m ρ c main_v5 (by decide) (by decide)).trans ((W5_keep m ρ c main_v5 (by decide)).trans ((W4_keep m ρ c main_v5 (by decide) (by decide)).trans ((W3_keep m ρ c main_v5 (by decide)).trans (W2_keep m ρ c main_v5 (by decide) (by decide))))))))))))), e]
  exact shapeCast_apply _ _ (ix2 0 p) (ix1 p) (by rw [Shape.rowMajor_val_one, Shape.rowMajor_val_two]; simp)

theorem entry6_buh (c : Dev nD) (p : Fin 150) :
    (W13 m ρ c (Proc.devRef .tc main_v6) : S1x150.Idx → Elt Ideal .f32) (ix2 0 p) = (Pm m c).buh p := by
  have e : W1 m ρ c (Proc.devRef .tc main_v6) = shapeCast S1x150 (W0 m ρ c (Proc.devRef .tc main_arg14)) shapeCasts_S150_S1x150 := by
    show StableHlo.after hostOps0 (W0 m ρ c) (Proc.devRef .tc main_v6) = _
    after_results <;> rfl
  rw [show W13 m ρ c (Proc.devRef .tc main_v6) = W1 m ρ c (Proc.devRef .tc main_v6) from ((W13_keep m ρ c main_v6 (by decide)).trans ((W12_keep m ρ c main_v6 (by decide) (by decide)).trans ((W11_keep m ρ c main_v6 (by decide)).trans ((W10_keep m ρ c main_v6 (by decide) (by decide)).trans ((W9_keep m ρ c main_v6 (by decide)).trans ((W8_keep m ρ c main_v6 (by decide) (by decide)).trans ((W7_keep m ρ c main_v6 (by decide)).trans ((W6_keep m ρ c main_v6 (by decide) (by decide)).trans ((W5_keep m ρ c main_v6 (by decide)).trans ((W4_keep m ρ c main_v6 (by decide) (by decide)).trans ((W3_keep m ρ c main_v6 (by decide)).trans (W2_keep m ρ c main_v6 (by decide) (by decide))))))))))))), e]
  exact shapeCast_apply _ _ (ix2 0 p) (ix1 p) (by rw [Shape.rowMajor_val_one, Shape.rowMajor_val_two]; simp)

theorem entry6_boh (c : Dev nD) (p : Fin 150) :
    (W13 m ρ c (Proc.devRef .tc main_v7) : S1x150.Idx → Elt Ideal .f32) (ix2 0 p) = (Pm m c).boh p := by
  have e : W1 m ρ c (Proc.devRef .tc main_v7) = shapeCast S1x150 (W0 m ρ c (Proc.devRef .tc main_arg16)) shapeCasts_S150_S1x150 := by
    show StableHlo.after hostOps0 (W0 m ρ c) (Proc.devRef .tc main_v7) = _
    after_results <;> rfl
  rw [show W13 m ρ c (Proc.devRef .tc main_v7) = W1 m ρ c (Proc.devRef .tc main_v7) from ((W13_keep m ρ c main_v7 (by decide)).trans ((W12_keep m ρ c main_v7 (by decide) (by decide)).trans ((W11_keep m ρ c main_v7 (by decide)).trans ((W10_keep m ρ c main_v7 (by decide) (by decide)).trans ((W9_keep m ρ c main_v7 (by decide)).trans ((W8_keep m ρ c main_v7 (by decide) (by decide)).trans ((W7_keep m ρ c main_v7 (by decide)).trans ((W6_keep m ρ c main_v7 (by decide) (by decide)).trans ((W5_keep m ρ c main_v7 (by decide)).trans ((W4_keep m ρ c main_v7 (by decide) (by decide)).trans ((W3_keep m ρ c main_v7 (by decide)).trans (W2_keep m ρ c main_v7 (by decide) (by decide))))))))))))), e]
  exact shapeCast_apply _ _ (ix2 0 p) (ix1 p) (by rw [Shape.rowMajor_val_one, Shape.rowMajor_val_two]; simp)

/-- The hidden states of the level below, regrouped by parent, are region 5's output array at row 4r + k. -/
theorem entry6_ch (c : Dev nD) (r : Fin 16) (k : Fin 4) (q : Fin 150) :
    (W13 m ρ c (Proc.devRef .tc main_v31) : S16x4x150.Idx → Elt Ideal .f32) (ix3 r k q)
      = (W12 m ρ c (Proc.devRef .tc main_v29_0) : S64x150.Idx → Elt Ideal .f32) (ix2 ⟨r.val * 4 + k.val, by have := r.isLt; have := k.isLt; omega⟩ q) := by
  have e : W13 m ρ c (Proc.devRef .tc main_v31)
      = shapeCast S16x4x150 (W12 m ρ c (Proc.devRef .tc main_v29_0)) shapeCasts_S64x150_S16x4x150 := by
    show StableHlo.after hostOps6 (W12 m ρ c) (Proc.devRef .tc main_v31) = _
    after_results <;> rfl
  rw [e]
  exact TreeHost.Lib.shapeCast_mc_nkc_apply _ _ r k q _ rfl

/-- The memory cells of the level below, regrouped by parent, are region 5's output array at row 4r + k. -/
theorem entry6_cc (c : Dev nD) (r : Fin 16) (k : Fin 4) (q : Fin 150) :
    (W13 m ρ c (Proc.devRef .tc main_v32) : S16x4x150.Idx → Elt Ideal .f32) (ix3 r k q)
      = (W12 m ρ c (Proc.devRef .tc main_v29_1) : S64x150.Idx → Elt Ideal .f32) (ix2 ⟨r.val * 4 + k.val, by have := r.isLt; have := k.isLt; omega⟩ q) := by
  have e : W13 m ρ c (Proc.devRef .tc main_v32)
      = shapeCast S16x4x150 (W12 m ρ c (Proc.devRef .tc main_v29_1)) shapeCasts_S64x150_S16x4x150 := by
    show StableHlo.after hostOps6 (W12 m ρ c) (Proc.devRef .tc main_v32) = _
    after_results <;> rfl
  rw [e]
  exact TreeHost.Lib.shapeCast_mc_nkc_apply _ _ r k q _ rfl

/-! ## Region 7 -/

theorem entry7_x (c : Dev nD) (r : Fin 4) (k : Fin 300) :
    (W15 m ρ c (Proc.devRef .tc main_v34) : S4x300.Idx → Elt Ideal .f32) (ix2 r k)
      = Cert.TreeSpec.rows (Em m c) 87376 4 (by norm_num) r k := by
  have e : W15 m ρ c (Proc.devRef .tc main_v34)
      = extractStridedSlice S4x300 ![87376, 0] (W14 m ρ c (Proc.devRef .tc main_arg0)) slices_S87381x300_S4x300_87376_0 := by
    show StableHlo.after hostOps7 (W14 m ρ c) (Proc.devRef .tc main_v34) = _
    after_results <;> rfl
  rw [e, show W14 m ρ c (Proc.devRef .tc main_arg0) = m ((c : Thread nD τ).loc main_arg0) from ((W14_keep m ρ c main_arg0 (by decide) (by decide)).trans ((W13_keep m ρ c main_arg0 (by decide)).trans ((W12_keep m ρ c main_arg0 (by decide) (by decide)).trans ((W11_keep m ρ c main_arg0 (by decide)).trans ((W10_keep m ρ c main_arg0 (by decide) (by decide)).trans ((W9_keep m ρ c main_arg0 (by decide)).trans ((W8_keep m ρ c main_arg0 (by decide) (by decide)).trans ((W7_keep m ρ c main_arg0 (by decide)).trans ((W6_keep m ρ c main_arg0 (by decide) (by decide)).trans ((W5_keep m ρ c main_arg0 (by decide)).trans ((W4_keep m ρ c main_arg0 (by decide) (by decide)).trans ((W3_keep m ρ c main_arg0 (by decide)).trans ((W2_keep m ρ c main_arg0 (by decide) (by decide)).trans (W1_keep m ρ c main_arg0 (by decide)))))))))))))))]
  exact extractStridedSlice_apply _ _ _ _ (ix2 ⟨87376 + r.val, by have := r.isLt; omega⟩ k) (fun a => by
    match a with
    | ⟨0, _⟩ => rfl
    | ⟨1, _⟩ => simp)

theorem entry7_Wix (c : Dev nD) (k : Fin 300) (p : Fin 150) :
    (W15 m ρ c (Proc.devRef .tc main_arg1) : S300x150.Idx → Elt Ideal .f32) (ix2 k p) = (Pm m c).Wix k p := by
  rw [show W15 m ρ c (Proc.devRef .tc main_arg1) = m ((c : Thread nD τ).loc main_arg1) from ((W15_keep m ρ c main_arg1 (by decide)).trans ((W14_keep m ρ c main_arg1 (by decide) (by decide)).trans ((W13_keep m ρ c main_arg1 (by decide)).trans ((W12_keep m ρ c main_arg1 (by decide) (by decide)).trans ((W11_keep m ρ c main_arg1 (by decide)).trans ((W10_keep m ρ c main_arg1 (by decide) (by decide)).trans ((W9_keep m ρ c main_arg1 (by decide)).trans ((W8_keep m ρ c main_arg1 (by decide) (by decide)).trans ((W7_keep m ρ c main_arg1 (by decide)).trans ((W6_keep m ρ c main_arg1 (by decide) (by decide)).trans ((W5_keep m ρ c main_arg1 (by decide)).trans ((W4_keep m ρ c main_arg1 (by decide) (by decide)).trans ((W3_keep m ρ c main_arg1 (by decide)).trans ((W2_keep m ρ c main_arg1 (by decide) (by decide)).trans (W1_keep m ρ c main_arg1 (by decide))))))))))))))))]
  rfl

theorem entry7_Wfx (c : Dev nD) (k : Fin 300) (p : Fin 150) :
    (W15 m ρ c (Proc.devRef .tc main_arg3) : S300x150.Idx → Elt Ideal .f32) (ix2 k p) = (Pm m c).Wfx k p := by
  rw [show W15 m ρ c (Proc.devRef .tc main_arg3) = m ((c : Thread nD τ).loc main_arg3) from ((W15_keep m ρ c main_arg3 (by decide)).trans ((W14_keep m ρ c main_arg3 (by decide) (by decide)).trans ((W13_keep m ρ c main_arg3 (by decide)).trans ((W12_keep m ρ c main_arg3 (by decide) (by decide)).trans ((W11_keep m ρ c main_arg3 (by decide)).trans ((W10_keep m ρ c main_arg3 (by decide) (by decide)).trans ((W9_keep m ρ c main_arg3 (by decide)).trans ((W8_keep m ρ c main_arg3 (by decide) (by decide)).trans ((W7_keep m ρ c main_arg3 (by decide)).trans ((W6_keep m ρ c main_arg3 (by decide) (by decide)).trans ((W5_keep m ρ c main_arg3 (by decide)).trans ((W4_keep m ρ c main_arg3 (by decide) (by decide)).trans ((W3_keep m ρ c main_arg3 (by decide)).trans ((W2_keep m ρ c main_arg3 (by decide) (by decide)).trans (W1_keep m ρ c main_arg3 (by decide))))))))))))))))]
  rfl

theorem entry7_Wux (c : Dev nD) (k : Fin 300) (p : Fin 150) :
    (W15 m ρ c (Proc.devRef .tc main_arg5) : S300x150.Idx → Elt Ideal .f32) (ix2 k p) = (Pm m c).Wux k p := by
  rw [show W15 m ρ c (Proc.devRef .tc main_arg5) = m ((c : Thread nD τ).loc main_arg5) from ((W15_keep m ρ c main_arg5 (by decide)).trans ((W14_keep m ρ c main_arg5 (by decide) (by decide)).trans ((W13_keep m ρ c main_arg5 (by decide)).trans ((W12_keep m ρ c main_arg5 (by decide) (by decide)).trans ((W11_keep m ρ c main_arg5 (by decide)).trans ((W10_keep m ρ c main_arg5 (by decide) (by decide)).trans ((W9_keep m ρ c main_arg5 (by decide)).trans ((W8_keep m ρ c main_arg5 (by decide) (by decide)).trans ((W7_keep m ρ c main_arg5 (by decide)).trans ((W6_keep m ρ c main_arg5 (by decide) (by decide)).trans ((W5_keep m ρ c main_arg5 (by decide)).trans ((W4_keep m ρ c main_arg5 (by decide) (by decide)).trans ((W3_keep m ρ c main_arg5 (by decide)).trans ((W2_keep m ρ c main_arg5 (by decide) (by decide)).trans (W1_keep m ρ c main_arg5 (by decide))))))))))))))))]
  rfl

theorem entry7_Wox (c : Dev nD) (k : Fin 300) (p : Fin 150) :
    (W15 m ρ c (Proc.devRef .tc main_arg7) : S300x150.Idx → Elt Ideal .f32) (ix2 k p) = (Pm m c).Wox k p := by
  rw [show W15 m ρ c (Proc.devRef .tc main_arg7) = m ((c : Thread nD τ).loc main_arg7) from ((W15_keep m ρ c main_arg7 (by decide)).trans ((W14_keep m ρ c main_arg7 (by decide) (by decide)).trans ((W13_keep m ρ c main_arg7 (by decide)).trans ((W12_keep m ρ c main_arg7 (by decide) (by decide)).trans ((W11_keep m ρ c main_arg7 (by decide)).trans ((W10_keep m ρ c main_arg7 (by decide) (by decide)).trans ((W9_keep m ρ c main_arg7 (by decide)).trans ((W8_keep m ρ c main_arg7 (by decide) (by decide)).trans ((W7_keep m ρ c main_arg7 (by decide)).trans ((W6_keep m ρ c main_arg7 (by decide) (by decide)).trans ((W5_keep m ρ c main_arg7 (by decide)).trans ((W4_keep m ρ c main_arg7 (by decide) (by decide)).trans ((W3_keep m ρ c main_arg7 (by decide)).trans ((W2_keep m ρ c main_arg7 (by decide) (by decide)).trans (W1_keep m ρ c main_arg7 (by decide))))))))))))))))]
  rfl

theorem entry7_Wih (c : Dev nD) (k : Fin 150) (p : Fin 150) :
    (W15 m ρ c (Proc.devRef .tc main_arg9) : S150x150.Idx → Elt Ideal .f32) (ix2 k p) = (Pm m c).Wih k p := by
  rw [show W15 m ρ c (Proc.devRef .tc main_arg9) = m ((c : Thread nD τ).loc main_arg9) from ((W15_keep m ρ c main_arg9 (by decide)).trans ((W14_keep m ρ c main_arg9 (by decide) (by decide)).trans ((W13_keep m ρ c main_arg9 (by decide)).trans ((W12_keep m ρ c main_arg9 (by decide) (by decide)).trans ((W11_keep m ρ c main_arg9 (by decide)).trans ((W10_keep m ρ c main_arg9 (by decide) (by decide)).trans ((W9_keep m ρ c main_arg9 (by decide)).trans ((W8_keep m ρ c main_arg9 (by decide) (by decide)).trans ((W7_keep m ρ c main_arg9 (by decide)).trans ((W6_keep m ρ c main_arg9 (by decide) (by decide)).trans ((W5_keep m ρ c main_arg9 (by decide)).trans ((W4_keep m ρ c main_arg9 (by decide) (by decide)).trans ((W3_keep m ρ c main_arg9 (by decide)).trans ((W2_keep m ρ c main_arg9 (by decide) (by decide)).trans (W1_keep m ρ c main_arg9 (by decide))))))))))))))))]
  rfl

theorem entry7_Wfh (c : Dev nD) (k : Fin 150) (p : Fin 150) :
    (W15 m ρ c (Proc.devRef .tc main_arg11) : S150x150.Idx → Elt Ideal .f32) (ix2 k p) = (Pm m c).Wfh k p := by
  rw [show W15 m ρ c (Proc.devRef .tc main_arg11) = m ((c : Thread nD τ).loc main_arg11) from ((W15_keep m ρ c main_arg11 (by decide)).trans ((W14_keep m ρ c main_arg11 (by decide) (by decide)).trans ((W13_keep m ρ c main_arg11 (by decide)).trans ((W12_keep m ρ c main_arg11 (by decide) (by decide)).trans ((W11_keep m ρ c main_arg11 (by decide)).trans ((W10_keep m ρ c main_arg11 (by decide) (by decide)).trans ((W9_keep m ρ c main_arg11 (by decide)).trans ((W8_keep m ρ c main_arg11 (by decide) (by decide)).trans ((W7_keep m ρ c main_arg11 (by decide)).trans ((W6_keep m ρ c main_arg11 (by decide) (by decide)).trans ((W5_keep m ρ c main_arg11 (by decide)).trans ((W4_keep m ρ c main_arg11 (by decide) (by decide)).trans ((W3_keep m ρ c main_arg11 (by decide)).trans ((W2_keep m ρ c main_arg11 (by decide) (by decide)).trans (W1_keep m ρ c main_arg11 (by decide))))))))))))))))]
  rfl

theorem entry7_Wuh (c : Dev nD) (k : Fin 150) (p : Fin 150) :
    (W15 m ρ c (Proc.devRef .tc main_arg13) : S150x150.Idx → Elt Ideal .f32) (ix2 k p) = (Pm m c).Wuh k p := by
  rw [show W15 m ρ c (Proc.devRef .tc main_arg13) = m ((c : Thread nD τ).loc main_arg13) from ((W15_keep m ρ c main_arg13 (by decide)).trans ((W14_keep m ρ c main_arg13 (by decide) (by decide)).trans ((W13_keep m ρ c main_arg13 (by decide)).trans ((W12_keep m ρ c main_arg13 (by decide) (by decide)).trans ((W11_keep m ρ c main_arg13 (by decide)).trans ((W10_keep m ρ c main_arg13 (by decide) (by decide)).trans ((W9_keep m ρ c main_arg13 (by decide)).trans ((W8_keep m ρ c main_arg13 (by decide) (by decide)).trans ((W7_keep m ρ c main_arg13 (by decide)).trans ((W6_keep m ρ c main_arg13 (by decide) (by decide)).trans ((W5_keep m ρ c main_arg13 (by decide)).trans ((W4_keep m ρ c main_arg13 (by decide) (by decide)).trans ((W3_keep m ρ c main_arg13 (by decide)).trans ((W2_keep m ρ c main_arg13 (by decide) (by decide)).trans (W1_keep m ρ c main_arg13 (by decide))))))))))))))))]
  rfl

theorem entry7_Woh (c : Dev nD) (k : Fin 150) (p : Fin 150) :
    (W15 m ρ c (Proc.devRef .tc main_arg15) : S150x150.Idx → Elt Ideal .f32) (ix2 k p) = (Pm m c).Woh k p := by
  rw [show W15 m ρ c (Proc.devRef .tc main_arg15) = m ((c : Thread nD τ).loc main_arg15) from ((W15_keep m ρ c main_arg15 (by decide)).trans ((W14_keep m ρ c main_arg15 (by decide) (by decide)).trans ((W13_keep m ρ c main_arg15 (by decide)).trans ((W12_keep m ρ c main_arg15 (by decide) (by decide)).trans ((W11_keep m ρ c main_arg15 (by decide)).trans ((W10_keep m ρ c main_arg15 (by decide) (by decide)).trans ((W9_keep m ρ c main_arg15 (by decide)).trans ((W8_keep m ρ c main_arg15 (by decide) (by decide)).trans ((W7_keep m ρ c main_arg15 (by decide)).trans ((W6_keep m ρ c main_arg15 (by decide) (by decide)).trans ((W5_keep m ρ c main_arg15 (by decide)).trans ((W4_keep m ρ c main_arg15 (by decide) (by decide)).trans ((W3_keep m ρ c main_arg15 (by decide)).trans ((W2_keep m ρ c main_arg15 (by decide) (by decide)).trans (W1_keep m ρ c main_arg15 (by decide))))))))))))))))]
  rfl

theorem entry7_bix (c : Dev nD) (p : Fin 150) :
    (W15 m ρ c (Proc.devRef .tc main_v0) : S1x150.Idx → Elt Ideal .f32) (ix2 0 p) = (Pm m c).bix p := by
  have e : W1 m ρ c (Proc.devRef .tc main_v0) = shapeCast S1x150 (W0 m ρ c (Proc.devRef .tc main_arg2)) shapeCasts_S150_S1x150 := by
    show StableHlo.after hostOps0 (W0 m ρ c) (Proc.devRef .tc main_v0) = _
    after_results <;> rfl
  rw [show W15 m ρ c (Proc.devRef .tc main_v0) = W1 m ρ c (Proc.devRef .tc main_v0) from ((W15_keep m ρ c main_v0 (by decide)).trans ((W14_keep m ρ c main_v0 (by decide) (by decide)).trans ((W13_keep m ρ c main_v0 (by decide)).trans ((W12_keep m ρ c main_v0 (by decide) (by decide)).trans ((W11_keep m ρ c main_v0 (by decide)).trans ((W10_keep m ρ c main_v0 (by decide) (by decide)).trans ((W9_keep m ρ c main_v0 (by decide)).trans ((W8_keep m ρ c main_v0 (by decide) (by decide)).trans ((W7_keep m ρ c main_v0 (by decide)).trans ((W6_keep m ρ c main_v0 (by decide) (by decide)).trans ((W5_keep m ρ c main_v0 (by decide)).trans ((W4_keep m ρ c main_v0 (by decide) (by decide)).trans ((W3_keep m ρ c main_v0 (by decide)).trans (W2_keep m ρ c main_v0 (by decide) (by decide))))))))))))))), e]
  exact shapeCast_apply _ _ (ix2 0 p) (ix1 p) (by rw [Shape.rowMajor_val_one, Shape.rowMajor_val_two]; simp)

theorem entry7_bfx (c : Dev nD) (p : Fin 150) :
    (W15 m ρ c (Proc.devRef .tc main_v1) : S1x150.Idx → Elt Ideal .f32) (ix2 0 p) = (Pm m c).bfx p := by
  have e : W1 m ρ c (Proc.devRef .tc main_v1) = shapeCast S1x150 (W0 m ρ c (Proc.devRef .tc main_arg4)) shapeCasts_S150_S1x150 := by
    show StableHlo.after hostOps0 (W0 m ρ c) (Proc.devRef .tc main_v1) = _
    after_results <;> rfl
  rw [show W15 m ρ c (Proc.devRef .tc main_v1) = W1 m ρ c (Proc.devRef .tc main_v1) from ((W15_keep m ρ c main_v1 (by decide)).trans ((W14_keep m ρ c main_v1 (by decide) (by decide)).trans ((W13_keep m ρ c main_v1 (by decide)).trans ((W12_keep m ρ c main_v1 (by decide) (by decide)).trans ((W11_keep m ρ c main_v1 (by decide)).trans ((W10_keep m ρ c main_v1 (by decide) (by decide)).trans ((W9_keep m ρ c main_v1 (by decide)).trans ((W8_keep m ρ c main_v1 (by decide) (by decide)).trans ((W7_keep m ρ c main_v1 (by decide)).trans ((W6_keep m ρ c main_v1 (by decide) (by decide)).trans ((W5_keep m ρ c main_v1 (by decide)).trans ((W4_keep m ρ c main_v1 (by decide) (by decide)).trans ((W3_keep m ρ c main_v1 (by decide)).trans (W2_keep m ρ c main_v1 (by decide) (by decide))))))))))))))), e]
  exact shapeCast_apply _ _ (ix2 0 p) (ix1 p) (by rw [Shape.rowMajor_val_one, Shape.rowMajor_val_two]; simp)

theorem entry7_bux (c : Dev nD) (p : Fin 150) :
    (W15 m ρ c (Proc.devRef .tc main_v2) : S1x150.Idx → Elt Ideal .f32) (ix2 0 p) = (Pm m c).bux p := by
  have e : W1 m ρ c (Proc.devRef .tc main_v2) = shapeCast S1x150 (W0 m ρ c (Proc.devRef .tc main_arg6)) shapeCasts_S150_S1x150 := by
    show StableHlo.after hostOps0 (W0 m ρ c) (Proc.devRef .tc main_v2) = _
    after_results <;> rfl
  rw [show W15 m ρ c (Proc.devRef .tc main_v2) = W1 m ρ c (Proc.devRef .tc main_v2) from ((W15_keep m ρ c main_v2 (by decide)).trans ((W14_keep m ρ c main_v2 (by decide) (by decide)).trans ((W13_keep m ρ c main_v2 (by decide)).trans ((W12_keep m ρ c main_v2 (by decide) (by decide)).trans ((W11_keep m ρ c main_v2 (by decide)).trans ((W10_keep m ρ c main_v2 (by decide) (by decide)).trans ((W9_keep m ρ c main_v2 (by decide)).trans ((W8_keep m ρ c main_v2 (by decide) (by decide)).trans ((W7_keep m ρ c main_v2 (by decide)).trans ((W6_keep m ρ c main_v2 (by decide) (by decide)).trans ((W5_keep m ρ c main_v2 (by decide)).trans ((W4_keep m ρ c main_v2 (by decide) (by decide)).trans ((W3_keep m ρ c main_v2 (by decide)).trans (W2_keep m ρ c main_v2 (by decide) (by decide))))))))))))))), e]
  exact shapeCast_apply _ _ (ix2 0 p) (ix1 p) (by rw [Shape.rowMajor_val_one, Shape.rowMajor_val_two]; simp)

theorem entry7_box (c : Dev nD) (p : Fin 150) :
    (W15 m ρ c (Proc.devRef .tc main_v3) : S1x150.Idx → Elt Ideal .f32) (ix2 0 p) = (Pm m c).box p := by
  have e : W1 m ρ c (Proc.devRef .tc main_v3) = shapeCast S1x150 (W0 m ρ c (Proc.devRef .tc main_arg8)) shapeCasts_S150_S1x150 := by
    show StableHlo.after hostOps0 (W0 m ρ c) (Proc.devRef .tc main_v3) = _
    after_results <;> rfl
  rw [show W15 m ρ c (Proc.devRef .tc main_v3) = W1 m ρ c (Proc.devRef .tc main_v3) from ((W15_keep m ρ c main_v3 (by decide)).trans ((W14_keep m ρ c main_v3 (by decide) (by decide)).trans ((W13_keep m ρ c main_v3 (by decide)).trans ((W12_keep m ρ c main_v3 (by decide) (by decide)).trans ((W11_keep m ρ c main_v3 (by decide)).trans ((W10_keep m ρ c main_v3 (by decide) (by decide)).trans ((W9_keep m ρ c main_v3 (by decide)).trans ((W8_keep m ρ c main_v3 (by decide) (by decide)).trans ((W7_keep m ρ c main_v3 (by decide)).trans ((W6_keep m ρ c main_v3 (by decide) (by decide)).trans ((W5_keep m ρ c main_v3 (by decide)).trans ((W4_keep m ρ c main_v3 (by decide) (by decide)).trans ((W3_keep m ρ c main_v3 (by decide)).trans (W2_keep m ρ c main_v3 (by decide) (by decide))))))))))))))), e]
  exact shapeCast_apply _ _ (ix2 0 p) (ix1 p) (by rw [Shape.rowMajor_val_one, Shape.rowMajor_val_two]; simp)

theorem entry7_bih (c : Dev nD) (p : Fin 150) :
    (W15 m ρ c (Proc.devRef .tc main_v4) : S1x150.Idx → Elt Ideal .f32) (ix2 0 p) = (Pm m c).bih p := by
  have e : W1 m ρ c (Proc.devRef .tc main_v4) = shapeCast S1x150 (W0 m ρ c (Proc.devRef .tc main_arg10)) shapeCasts_S150_S1x150 := by
    show StableHlo.after hostOps0 (W0 m ρ c) (Proc.devRef .tc main_v4) = _
    after_results <;> rfl
  rw [show W15 m ρ c (Proc.devRef .tc main_v4) = W1 m ρ c (Proc.devRef .tc main_v4) from ((W15_keep m ρ c main_v4 (by decide)).trans ((W14_keep m ρ c main_v4 (by decide) (by decide)).trans ((W13_keep m ρ c main_v4 (by decide)).trans ((W12_keep m ρ c main_v4 (by decide) (by decide)).trans ((W11_keep m ρ c main_v4 (by decide)).trans ((W10_keep m ρ c main_v4 (by decide) (by decide)).trans ((W9_keep m ρ c main_v4 (by decide)).trans ((W8_keep m ρ c main_v4 (by decide) (by decide)).trans ((W7_keep m ρ c main_v4 (by decide)).trans ((W6_keep m ρ c main_v4 (by decide) (by decide)).trans ((W5_keep m ρ c main_v4 (by decide)).trans ((W4_keep m ρ c main_v4 (by decide) (by decide)).trans ((W3_keep m ρ c main_v4 (by decide)).trans (W2_keep m ρ c main_v4 (by decide) (by decide))))))))))))))), e]
  exact shapeCast_apply _ _ (ix2 0 p) (ix1 p) (by rw [Shape.rowMajor_val_one, Shape.rowMajor_val_two]; simp)

theorem entry7_bfh (c : Dev nD) (p : Fin 150) :
    (W15 m ρ c (Proc.devRef .tc main_v5) : S1x150.Idx → Elt Ideal .f32) (ix2 0 p) = (Pm m c).bfh p := by
  have e : W1 m ρ c (Proc.devRef .tc main_v5) = shapeCast S1x150 (W0 m ρ c (Proc.devRef .tc main_arg12)) shapeCasts_S150_S1x150 := by
    show StableHlo.after hostOps0 (W0 m ρ c) (Proc.devRef .tc main_v5) = _
    after_results <;> rfl
  rw [show W15 m ρ c (Proc.devRef .tc main_v5) = W1 m ρ c (Proc.devRef .tc main_v5) from ((W15_keep m ρ c main_v5 (by decide)).trans ((W14_keep m ρ c main_v5 (by decide) (by decide)).trans ((W13_keep m ρ c main_v5 (by decide)).trans ((W12_keep m ρ c main_v5 (by decide) (by decide)).trans ((W11_keep m ρ c main_v5 (by decide)).trans ((W10_keep m ρ c main_v5 (by decide) (by decide)).trans ((W9_keep m ρ c main_v5 (by decide)).trans ((W8_keep m ρ c main_v5 (by decide) (by decide)).trans ((W7_keep m ρ c main_v5 (by decide)).trans ((W6_keep m ρ c main_v5 (by decide) (by decide)).trans ((W5_keep m ρ c main_v5 (by decide)).trans ((W4_keep m ρ c main_v5 (by decide) (by decide)).trans ((W3_keep m ρ c main_v5 (by decide)).trans (W2_keep m ρ c main_v5 (by decide) (by decide))))))))))))))), e]
  exact shapeCast_apply _ _ (ix2 0 p) (ix1 p) (by rw [Shape.rowMajor_val_one, Shape.rowMajor_val_two]; simp)

theorem entry7_buh (c : Dev nD) (p : Fin 150) :
    (W15 m ρ c (Proc.devRef .tc main_v6) : S1x150.Idx → Elt Ideal .f32) (ix2 0 p) = (Pm m c).buh p := by
  have e : W1 m ρ c (Proc.devRef .tc main_v6) = shapeCast S1x150 (W0 m ρ c (Proc.devRef .tc main_arg14)) shapeCasts_S150_S1x150 := by
    show StableHlo.after hostOps0 (W0 m ρ c) (Proc.devRef .tc main_v6) = _
    after_results <;> rfl
  rw [show W15 m ρ c (Proc.devRef .tc main_v6) = W1 m ρ c (Proc.devRef .tc main_v6) from ((W15_keep m ρ c main_v6 (by decide)).trans ((W14_keep m ρ c main_v6 (by decide) (by decide)).trans ((W13_keep m ρ c main_v6 (by decide)).trans ((W12_keep m ρ c main_v6 (by decide) (by decide)).trans ((W11_keep m ρ c main_v6 (by decide)).trans ((W10_keep m ρ c main_v6 (by decide) (by decide)).trans ((W9_keep m ρ c main_v6 (by decide)).trans ((W8_keep m ρ c main_v6 (by decide) (by decide)).trans ((W7_keep m ρ c main_v6 (by decide)).trans ((W6_keep m ρ c main_v6 (by decide) (by decide)).trans ((W5_keep m ρ c main_v6 (by decide)).trans ((W4_keep m ρ c main_v6 (by decide) (by decide)).trans ((W3_keep m ρ c main_v6 (by decide)).trans (W2_keep m ρ c main_v6 (by decide) (by decide))))))))))))))), e]
  exact shapeCast_apply _ _ (ix2 0 p) (ix1 p) (by rw [Shape.rowMajor_val_one, Shape.rowMajor_val_two]; simp)

theorem entry7_boh (c : Dev nD) (p : Fin 150) :
    (W15 m ρ c (Proc.devRef .tc main_v7) : S1x150.Idx → Elt Ideal .f32) (ix2 0 p) = (Pm m c).boh p := by
  have e : W1 m ρ c (Proc.devRef .tc main_v7) = shapeCast S1x150 (W0 m ρ c (Proc.devRef .tc main_arg16)) shapeCasts_S150_S1x150 := by
    show StableHlo.after hostOps0 (W0 m ρ c) (Proc.devRef .tc main_v7) = _
    after_results <;> rfl
  rw [show W15 m ρ c (Proc.devRef .tc main_v7) = W1 m ρ c (Proc.devRef .tc main_v7) from ((W15_keep m ρ c main_v7 (by decide)).trans ((W14_keep m ρ c main_v7 (by decide) (by decide)).trans ((W13_keep m ρ c main_v7 (by decide)).trans ((W12_keep m ρ c main_v7 (by decide) (by decide)).trans ((W11_keep m ρ c main_v7 (by decide)).trans ((W10_keep m ρ c main_v7 (by decide) (by decide)).trans ((W9_keep m ρ c main_v7 (by decide)).trans ((W8_keep m ρ c main_v7 (by decide) (by decide)).trans ((W7_keep m ρ c main_v7 (by decide)).trans ((W6_keep m ρ c main_v7 (by decide) (by decide)).trans ((W5_keep m ρ c main_v7 (by decide)).trans ((W4_keep m ρ c main_v7 (by decide) (by decide)).trans ((W3_keep m ρ c main_v7 (by decide)).trans (W2_keep m ρ c main_v7 (by decide) (by decide))))))))))))))), e]
  exact shapeCast_apply _ _ (ix2 0 p) (ix1 p) (by rw [Shape.rowMajor_val_one, Shape.rowMajor_val_two]; simp)

/-- The hidden states of the level below, regrouped by parent, are region 6's output array at row 4r + k. -/
theorem entry7_ch (c : Dev nD) (r : Fin 4) (k : Fin 4) (q : Fin 150) :
    (W15 m ρ c (Proc.devRef .tc main_v35) : S4x4x150.Idx → Elt Ideal .f32) (ix3 r k q)
      = (W14 m ρ c (Proc.devRef .tc main_v33_0) : S16x150.Idx → Elt Ideal .f32) (ix2 ⟨r.val * 4 + k.val, by have := r.isLt; have := k.isLt; omega⟩ q) := by
  have e : W15 m ρ c (Proc.devRef .tc main_v35)
      = shapeCast S4x4x150 (W14 m ρ c (Proc.devRef .tc main_v33_0)) shapeCasts_S16x150_S4x4x150 := by
    show StableHlo.after hostOps7 (W14 m ρ c) (Proc.devRef .tc main_v35) = _
    after_results <;> rfl
  rw [e]
  exact TreeHost.Lib.shapeCast_mc_nkc_apply _ _ r k q _ rfl

/-- The memory cells of the level below, regrouped by parent, are region 6's output array at row 4r + k. -/
theorem entry7_cc (c : Dev nD) (r : Fin 4) (k : Fin 4) (q : Fin 150) :
    (W15 m ρ c (Proc.devRef .tc main_v36) : S4x4x150.Idx → Elt Ideal .f32) (ix3 r k q)
      = (W14 m ρ c (Proc.devRef .tc main_v33_1) : S16x150.Idx → Elt Ideal .f32) (ix2 ⟨r.val * 4 + k.val, by have := r.isLt; have := k.isLt; omega⟩ q) := by
  have e : W15 m ρ c (Proc.devRef .tc main_v36)
      = shapeCast S4x4x150 (W14 m ρ c (Proc.devRef .tc main_v33_1)) shapeCasts_S16x150_S4x4x150 := by
    show StableHlo.after hostOps7 (W14 m ρ c) (Proc.devRef .tc main_v36) = _
    after_results <;> rfl
  rw [e]
  exact TreeHost.Lib.shapeCast_mc_nkc_apply _ _ r k q _ rfl

/-! ## Region 8 -/

theorem entry8_x (c : Dev nD) (r : Fin 1) (k : Fin 300) :
    (W17 m ρ c (Proc.devRef .tc main_v38) : S1x300.Idx → Elt Ideal .f32) (ix2 r k)
      = Cert.TreeSpec.rows (Em m c) 87380 1 (by norm_num) r k := by
  have e : W17 m ρ c (Proc.devRef .tc main_v38)
      = extractStridedSlice S1x300 ![87380, 0] (W16 m ρ c (Proc.devRef .tc main_arg0)) slices_S87381x300_S1x300_87380_0 := by
    show StableHlo.after hostOps8 (W16 m ρ c) (Proc.devRef .tc main_v38) = _
    after_results <;> rfl
  rw [e, show W16 m ρ c (Proc.devRef .tc main_arg0) = m ((c : Thread nD τ).loc main_arg0) from ((W16_keep m ρ c main_arg0 (by decide) (by decide)).trans ((W15_keep m ρ c main_arg0 (by decide)).trans ((W14_keep m ρ c main_arg0 (by decide) (by decide)).trans ((W13_keep m ρ c main_arg0 (by decide)).trans ((W12_keep m ρ c main_arg0 (by decide) (by decide)).trans ((W11_keep m ρ c main_arg0 (by decide)).trans ((W10_keep m ρ c main_arg0 (by decide) (by decide)).trans ((W9_keep m ρ c main_arg0 (by decide)).trans ((W8_keep m ρ c main_arg0 (by decide) (by decide)).trans ((W7_keep m ρ c main_arg0 (by decide)).trans ((W6_keep m ρ c main_arg0 (by decide) (by decide)).trans ((W5_keep m ρ c main_arg0 (by decide)).trans ((W4_keep m ρ c main_arg0 (by decide) (by decide)).trans ((W3_keep m ρ c main_arg0 (by decide)).trans ((W2_keep m ρ c main_arg0 (by decide) (by decide)).trans (W1_keep m ρ c main_arg0 (by decide)))))))))))))))))]
  exact extractStridedSlice_apply _ _ _ _ (ix2 ⟨87380 + r.val, by have := r.isLt; omega⟩ k) (fun a => by
    match a with
    | ⟨0, _⟩ => rfl
    | ⟨1, _⟩ => simp)

theorem entry8_Wix (c : Dev nD) (k : Fin 300) (p : Fin 150) :
    (W17 m ρ c (Proc.devRef .tc main_arg1) : S300x150.Idx → Elt Ideal .f32) (ix2 k p) = (Pm m c).Wix k p := by
  rw [show W17 m ρ c (Proc.devRef .tc main_arg1) = m ((c : Thread nD τ).loc main_arg1) from ((W17_keep m ρ c main_arg1 (by decide)).trans ((W16_keep m ρ c main_arg1 (by decide) (by decide)).trans ((W15_keep m ρ c main_arg1 (by decide)).trans ((W14_keep m ρ c main_arg1 (by decide) (by decide)).trans ((W13_keep m ρ c main_arg1 (by decide)).trans ((W12_keep m ρ c main_arg1 (by decide) (by decide)).trans ((W11_keep m ρ c main_arg1 (by decide)).trans ((W10_keep m ρ c main_arg1 (by decide) (by decide)).trans ((W9_keep m ρ c main_arg1 (by decide)).trans ((W8_keep m ρ c main_arg1 (by decide) (by decide)).trans ((W7_keep m ρ c main_arg1 (by decide)).trans ((W6_keep m ρ c main_arg1 (by decide) (by decide)).trans ((W5_keep m ρ c main_arg1 (by decide)).trans ((W4_keep m ρ c main_arg1 (by decide) (by decide)).trans ((W3_keep m ρ c main_arg1 (by decide)).trans ((W2_keep m ρ c main_arg1 (by decide) (by decide)).trans (W1_keep m ρ c main_arg1 (by decide))))))))))))))))))]
  rfl

theorem entry8_Wfx (c : Dev nD) (k : Fin 300) (p : Fin 150) :
    (W17 m ρ c (Proc.devRef .tc main_arg3) : S300x150.Idx → Elt Ideal .f32) (ix2 k p) = (Pm m c).Wfx k p := by
  rw [show W17 m ρ c (Proc.devRef .tc main_arg3) = m ((c : Thread nD τ).loc main_arg3) from ((W17_keep m ρ c main_arg3 (by decide)).trans ((W16_keep m ρ c main_arg3 (by decide) (by decide)).trans ((W15_keep m ρ c main_arg3 (by decide)).trans ((W14_keep m ρ c main_arg3 (by decide) (by decide)).trans ((W13_keep m ρ c main_arg3 (by decide)).trans ((W12_keep m ρ c main_arg3 (by decide) (by decide)).trans ((W11_keep m ρ c main_arg3 (by decide)).trans ((W10_keep m ρ c main_arg3 (by decide) (by decide)).trans ((W9_keep m ρ c main_arg3 (by decide)).trans ((W8_keep m ρ c main_arg3 (by decide) (by decide)).trans ((W7_keep m ρ c main_arg3 (by decide)).trans ((W6_keep m ρ c main_arg3 (by decide) (by decide)).trans ((W5_keep m ρ c main_arg3 (by decide)).trans ((W4_keep m ρ c main_arg3 (by decide) (by decide)).trans ((W3_keep m ρ c main_arg3 (by decide)).trans ((W2_keep m ρ c main_arg3 (by decide) (by decide)).trans (W1_keep m ρ c main_arg3 (by decide))))))))))))))))))]
  rfl

theorem entry8_Wux (c : Dev nD) (k : Fin 300) (p : Fin 150) :
    (W17 m ρ c (Proc.devRef .tc main_arg5) : S300x150.Idx → Elt Ideal .f32) (ix2 k p) = (Pm m c).Wux k p := by
  rw [show W17 m ρ c (Proc.devRef .tc main_arg5) = m ((c : Thread nD τ).loc main_arg5) from ((W17_keep m ρ c main_arg5 (by decide)).trans ((W16_keep m ρ c main_arg5 (by decide) (by decide)).trans ((W15_keep m ρ c main_arg5 (by decide)).trans ((W14_keep m ρ c main_arg5 (by decide) (by decide)).trans ((W13_keep m ρ c main_arg5 (by decide)).trans ((W12_keep m ρ c main_arg5 (by decide) (by decide)).trans ((W11_keep m ρ c main_arg5 (by decide)).trans ((W10_keep m ρ c main_arg5 (by decide) (by decide)).trans ((W9_keep m ρ c main_arg5 (by decide)).trans ((W8_keep m ρ c main_arg5 (by decide) (by decide)).trans ((W7_keep m ρ c main_arg5 (by decide)).trans ((W6_keep m ρ c main_arg5 (by decide) (by decide)).trans ((W5_keep m ρ c main_arg5 (by decide)).trans ((W4_keep m ρ c main_arg5 (by decide) (by decide)).trans ((W3_keep m ρ c main_arg5 (by decide)).trans ((W2_keep m ρ c main_arg5 (by decide) (by decide)).trans (W1_keep m ρ c main_arg5 (by decide))))))))))))))))))]
  rfl

theorem entry8_Wox (c : Dev nD) (k : Fin 300) (p : Fin 150) :
    (W17 m ρ c (Proc.devRef .tc main_arg7) : S300x150.Idx → Elt Ideal .f32) (ix2 k p) = (Pm m c).Wox k p := by
  rw [show W17 m ρ c (Proc.devRef .tc main_arg7) = m ((c : Thread nD τ).loc main_arg7) from ((W17_keep m ρ c main_arg7 (by decide)).trans ((W16_keep m ρ c main_arg7 (by decide) (by decide)).trans ((W15_keep m ρ c main_arg7 (by decide)).trans ((W14_keep m ρ c main_arg7 (by decide) (by decide)).trans ((W13_keep m ρ c main_arg7 (by decide)).trans ((W12_keep m ρ c main_arg7 (by decide) (by decide)).trans ((W11_keep m ρ c main_arg7 (by decide)).trans ((W10_keep m ρ c main_arg7 (by decide) (by decide)).trans ((W9_keep m ρ c main_arg7 (by decide)).trans ((W8_keep m ρ c main_arg7 (by decide) (by decide)).trans ((W7_keep m ρ c main_arg7 (by decide)).trans ((W6_keep m ρ c main_arg7 (by decide) (by decide)).trans ((W5_keep m ρ c main_arg7 (by decide)).trans ((W4_keep m ρ c main_arg7 (by decide) (by decide)).trans ((W3_keep m ρ c main_arg7 (by decide)).trans ((W2_keep m ρ c main_arg7 (by decide) (by decide)).trans (W1_keep m ρ c main_arg7 (by decide))))))))))))))))))]
  rfl

theorem entry8_Wih (c : Dev nD) (k : Fin 150) (p : Fin 150) :
    (W17 m ρ c (Proc.devRef .tc main_arg9) : S150x150.Idx → Elt Ideal .f32) (ix2 k p) = (Pm m c).Wih k p := by
  rw [show W17 m ρ c (Proc.devRef .tc main_arg9) = m ((c : Thread nD τ).loc main_arg9) from ((W17_keep m ρ c main_arg9 (by decide)).trans ((W16_keep m ρ c main_arg9 (by decide) (by decide)).trans ((W15_keep m ρ c main_arg9 (by decide)).trans ((W14_keep m ρ c main_arg9 (by decide) (by decide)).trans ((W13_keep m ρ c main_arg9 (by decide)).trans ((W12_keep m ρ c main_arg9 (by decide) (by decide)).trans ((W11_keep m ρ c main_arg9 (by decide)).trans ((W10_keep m ρ c main_arg9 (by decide) (by decide)).trans ((W9_keep m ρ c main_arg9 (by decide)).trans ((W8_keep m ρ c main_arg9 (by decide) (by decide)).trans ((W7_keep m ρ c main_arg9 (by decide)).trans ((W6_keep m ρ c main_arg9 (by decide) (by decide)).trans ((W5_keep m ρ c main_arg9 (by decide)).trans ((W4_keep m ρ c main_arg9 (by decide) (by decide)).trans ((W3_keep m ρ c main_arg9 (by decide)).trans ((W2_keep m ρ c main_arg9 (by decide) (by decide)).trans (W1_keep m ρ c main_arg9 (by decide))))))))))))))))))]
  rfl

theorem entry8_Wfh (c : Dev nD) (k : Fin 150) (p : Fin 150) :
    (W17 m ρ c (Proc.devRef .tc main_arg11) : S150x150.Idx → Elt Ideal .f32) (ix2 k p) = (Pm m c).Wfh k p := by
  rw [show W17 m ρ c (Proc.devRef .tc main_arg11) = m ((c : Thread nD τ).loc main_arg11) from ((W17_keep m ρ c main_arg11 (by decide)).trans ((W16_keep m ρ c main_arg11 (by decide) (by decide)).trans ((W15_keep m ρ c main_arg11 (by decide)).trans ((W14_keep m ρ c main_arg11 (by decide) (by decide)).trans ((W13_keep m ρ c main_arg11 (by decide)).trans ((W12_keep m ρ c main_arg11 (by decide) (by decide)).trans ((W11_keep m ρ c main_arg11 (by decide)).trans ((W10_keep m ρ c main_arg11 (by decide) (by decide)).trans ((W9_keep m ρ c main_arg11 (by decide)).trans ((W8_keep m ρ c main_arg11 (by decide) (by decide)).trans ((W7_keep m ρ c main_arg11 (by decide)).trans ((W6_keep m ρ c main_arg11 (by decide) (by decide)).trans ((W5_keep m ρ c main_arg11 (by decide)).trans ((W4_keep m ρ c main_arg11 (by decide) (by decide)).trans ((W3_keep m ρ c main_arg11 (by decide)).trans ((W2_keep m ρ c main_arg11 (by decide) (by decide)).trans (W1_keep m ρ c main_arg11 (by decide))))))))))))))))))]
  rfl

theorem entry8_Wuh (c : Dev nD) (k : Fin 150) (p : Fin 150) :
    (W17 m ρ c (Proc.devRef .tc main_arg13) : S150x150.Idx → Elt Ideal .f32) (ix2 k p) = (Pm m c).Wuh k p := by
  rw [show W17 m ρ c (Proc.devRef .tc main_arg13) = m ((c : Thread nD τ).loc main_arg13) from ((W17_keep m ρ c main_arg13 (by decide)).trans ((W16_keep m ρ c main_arg13 (by decide) (by decide)).trans ((W15_keep m ρ c main_arg13 (by decide)).trans ((W14_keep m ρ c main_arg13 (by decide) (by decide)).trans ((W13_keep m ρ c main_arg13 (by decide)).trans ((W12_keep m ρ c main_arg13 (by decide) (by decide)).trans ((W11_keep m ρ c main_arg13 (by decide)).trans ((W10_keep m ρ c main_arg13 (by decide) (by decide)).trans ((W9_keep m ρ c main_arg13 (by decide)).trans ((W8_keep m ρ c main_arg13 (by decide) (by decide)).trans ((W7_keep m ρ c main_arg13 (by decide)).trans ((W6_keep m ρ c main_arg13 (by decide) (by decide)).trans ((W5_keep m ρ c main_arg13 (by decide)).trans ((W4_keep m ρ c main_arg13 (by decide) (by decide)).trans ((W3_keep m ρ c main_arg13 (by decide)).trans ((W2_keep m ρ c main_arg13 (by decide) (by decide)).trans (W1_keep m ρ c main_arg13 (by decide))))))))))))))))))]
  rfl

theorem entry8_Woh (c : Dev nD) (k : Fin 150) (p : Fin 150) :
    (W17 m ρ c (Proc.devRef .tc main_arg15) : S150x150.Idx → Elt Ideal .f32) (ix2 k p) = (Pm m c).Woh k p := by
  rw [show W17 m ρ c (Proc.devRef .tc main_arg15) = m ((c : Thread nD τ).loc main_arg15) from ((W17_keep m ρ c main_arg15 (by decide)).trans ((W16_keep m ρ c main_arg15 (by decide) (by decide)).trans ((W15_keep m ρ c main_arg15 (by decide)).trans ((W14_keep m ρ c main_arg15 (by decide) (by decide)).trans ((W13_keep m ρ c main_arg15 (by decide)).trans ((W12_keep m ρ c main_arg15 (by decide) (by decide)).trans ((W11_keep m ρ c main_arg15 (by decide)).trans ((W10_keep m ρ c main_arg15 (by decide) (by decide)).trans ((W9_keep m ρ c main_arg15 (by decide)).trans ((W8_keep m ρ c main_arg15 (by decide) (by decide)).trans ((W7_keep m ρ c main_arg15 (by decide)).trans ((W6_keep m ρ c main_arg15 (by decide) (by decide)).trans ((W5_keep m ρ c main_arg15 (by decide)).trans ((W4_keep m ρ c main_arg15 (by decide) (by decide)).trans ((W3_keep m ρ c main_arg15 (by decide)).trans ((W2_keep m ρ c main_arg15 (by decide) (by decide)).trans (W1_keep m ρ c main_arg15 (by decide))))))))))))))))))]
  rfl

theorem entry8_bix (c : Dev nD) (p : Fin 150) :
    (W17 m ρ c (Proc.devRef .tc main_v0) : S1x150.Idx → Elt Ideal .f32) (ix2 0 p) = (Pm m c).bix p := by
  have e : W1 m ρ c (Proc.devRef .tc main_v0) = shapeCast S1x150 (W0 m ρ c (Proc.devRef .tc main_arg2)) shapeCasts_S150_S1x150 := by
    show StableHlo.after hostOps0 (W0 m ρ c) (Proc.devRef .tc main_v0) = _
    after_results <;> rfl
  rw [show W17 m ρ c (Proc.devRef .tc main_v0) = W1 m ρ c (Proc.devRef .tc main_v0) from ((W17_keep m ρ c main_v0 (by decide)).trans ((W16_keep m ρ c main_v0 (by decide) (by decide)).trans ((W15_keep m ρ c main_v0 (by decide)).trans ((W14_keep m ρ c main_v0 (by decide) (by decide)).trans ((W13_keep m ρ c main_v0 (by decide)).trans ((W12_keep m ρ c main_v0 (by decide) (by decide)).trans ((W11_keep m ρ c main_v0 (by decide)).trans ((W10_keep m ρ c main_v0 (by decide) (by decide)).trans ((W9_keep m ρ c main_v0 (by decide)).trans ((W8_keep m ρ c main_v0 (by decide) (by decide)).trans ((W7_keep m ρ c main_v0 (by decide)).trans ((W6_keep m ρ c main_v0 (by decide) (by decide)).trans ((W5_keep m ρ c main_v0 (by decide)).trans ((W4_keep m ρ c main_v0 (by decide) (by decide)).trans ((W3_keep m ρ c main_v0 (by decide)).trans (W2_keep m ρ c main_v0 (by decide) (by decide))))))))))))))))), e]
  exact shapeCast_apply _ _ (ix2 0 p) (ix1 p) (by rw [Shape.rowMajor_val_one, Shape.rowMajor_val_two]; simp)

theorem entry8_bfx (c : Dev nD) (p : Fin 150) :
    (W17 m ρ c (Proc.devRef .tc main_v1) : S1x150.Idx → Elt Ideal .f32) (ix2 0 p) = (Pm m c).bfx p := by
  have e : W1 m ρ c (Proc.devRef .tc main_v1) = shapeCast S1x150 (W0 m ρ c (Proc.devRef .tc main_arg4)) shapeCasts_S150_S1x150 := by
    show StableHlo.after hostOps0 (W0 m ρ c) (Proc.devRef .tc main_v1) = _
    after_results <;> rfl
  rw [show W17 m ρ c (Proc.devRef .tc main_v1) = W1 m ρ c (Proc.devRef .tc main_v1) from ((W17_keep m ρ c main_v1 (by decide)).trans ((W16_keep m ρ c main_v1 (by decide) (by decide)).trans ((W15_keep m ρ c main_v1 (by decide)).trans ((W14_keep m ρ c main_v1 (by decide) (by decide)).trans ((W13_keep m ρ c main_v1 (by decide)).trans ((W12_keep m ρ c main_v1 (by decide) (by decide)).trans ((W11_keep m ρ c main_v1 (by decide)).trans ((W10_keep m ρ c main_v1 (by decide) (by decide)).trans ((W9_keep m ρ c main_v1 (by decide)).trans ((W8_keep m ρ c main_v1 (by decide) (by decide)).trans ((W7_keep m ρ c main_v1 (by decide)).trans ((W6_keep m ρ c main_v1 (by decide) (by decide)).trans ((W5_keep m ρ c main_v1 (by decide)).trans ((W4_keep m ρ c main_v1 (by decide) (by decide)).trans ((W3_keep m ρ c main_v1 (by decide)).trans (W2_keep m ρ c main_v1 (by decide) (by decide))))))))))))))))), e]
  exact shapeCast_apply _ _ (ix2 0 p) (ix1 p) (by rw [Shape.rowMajor_val_one, Shape.rowMajor_val_two]; simp)

theorem entry8_bux (c : Dev nD) (p : Fin 150) :
    (W17 m ρ c (Proc.devRef .tc main_v2) : S1x150.Idx → Elt Ideal .f32) (ix2 0 p) = (Pm m c).bux p := by
  have e : W1 m ρ c (Proc.devRef .tc main_v2) = shapeCast S1x150 (W0 m ρ c (Proc.devRef .tc main_arg6)) shapeCasts_S150_S1x150 := by
    show StableHlo.after hostOps0 (W0 m ρ c) (Proc.devRef .tc main_v2) = _
    after_results <;> rfl
  rw [show W17 m ρ c (Proc.devRef .tc main_v2) = W1 m ρ c (Proc.devRef .tc main_v2) from ((W17_keep m ρ c main_v2 (by decide)).trans ((W16_keep m ρ c main_v2 (by decide) (by decide)).trans ((W15_keep m ρ c main_v2 (by decide)).trans ((W14_keep m ρ c main_v2 (by decide) (by decide)).trans ((W13_keep m ρ c main_v2 (by decide)).trans ((W12_keep m ρ c main_v2 (by decide) (by decide)).trans ((W11_keep m ρ c main_v2 (by decide)).trans ((W10_keep m ρ c main_v2 (by decide) (by decide)).trans ((W9_keep m ρ c main_v2 (by decide)).trans ((W8_keep m ρ c main_v2 (by decide) (by decide)).trans ((W7_keep m ρ c main_v2 (by decide)).trans ((W6_keep m ρ c main_v2 (by decide) (by decide)).trans ((W5_keep m ρ c main_v2 (by decide)).trans ((W4_keep m ρ c main_v2 (by decide) (by decide)).trans ((W3_keep m ρ c main_v2 (by decide)).trans (W2_keep m ρ c main_v2 (by decide) (by decide))))))))))))))))), e]
  exact shapeCast_apply _ _ (ix2 0 p) (ix1 p) (by rw [Shape.rowMajor_val_one, Shape.rowMajor_val_two]; simp)

theorem entry8_box (c : Dev nD) (p : Fin 150) :
    (W17 m ρ c (Proc.devRef .tc main_v3) : S1x150.Idx → Elt Ideal .f32) (ix2 0 p) = (Pm m c).box p := by
  have e : W1 m ρ c (Proc.devRef .tc main_v3) = shapeCast S1x150 (W0 m ρ c (Proc.devRef .tc main_arg8)) shapeCasts_S150_S1x150 := by
    show StableHlo.after hostOps0 (W0 m ρ c) (Proc.devRef .tc main_v3) = _
    after_results <;> rfl
  rw [show W17 m ρ c (Proc.devRef .tc main_v3) = W1 m ρ c (Proc.devRef .tc main_v3) from ((W17_keep m ρ c main_v3 (by decide)).trans ((W16_keep m ρ c main_v3 (by decide) (by decide)).trans ((W15_keep m ρ c main_v3 (by decide)).trans ((W14_keep m ρ c main_v3 (by decide) (by decide)).trans ((W13_keep m ρ c main_v3 (by decide)).trans ((W12_keep m ρ c main_v3 (by decide) (by decide)).trans ((W11_keep m ρ c main_v3 (by decide)).trans ((W10_keep m ρ c main_v3 (by decide) (by decide)).trans ((W9_keep m ρ c main_v3 (by decide)).trans ((W8_keep m ρ c main_v3 (by decide) (by decide)).trans ((W7_keep m ρ c main_v3 (by decide)).trans ((W6_keep m ρ c main_v3 (by decide) (by decide)).trans ((W5_keep m ρ c main_v3 (by decide)).trans ((W4_keep m ρ c main_v3 (by decide) (by decide)).trans ((W3_keep m ρ c main_v3 (by decide)).trans (W2_keep m ρ c main_v3 (by decide) (by decide))))))))))))))))), e]
  exact shapeCast_apply _ _ (ix2 0 p) (ix1 p) (by rw [Shape.rowMajor_val_one, Shape.rowMajor_val_two]; simp)

theorem entry8_bih (c : Dev nD) (p : Fin 150) :
    (W17 m ρ c (Proc.devRef .tc main_v4) : S1x150.Idx → Elt Ideal .f32) (ix2 0 p) = (Pm m c).bih p := by
  have e : W1 m ρ c (Proc.devRef .tc main_v4) = shapeCast S1x150 (W0 m ρ c (Proc.devRef .tc main_arg10)) shapeCasts_S150_S1x150 := by
    show StableHlo.after hostOps0 (W0 m ρ c) (Proc.devRef .tc main_v4) = _
    after_results <;> rfl
  rw [show W17 m ρ c (Proc.devRef .tc main_v4) = W1 m ρ c (Proc.devRef .tc main_v4) from ((W17_keep m ρ c main_v4 (by decide)).trans ((W16_keep m ρ c main_v4 (by decide) (by decide)).trans ((W15_keep m ρ c main_v4 (by decide)).trans ((W14_keep m ρ c main_v4 (by decide) (by decide)).trans ((W13_keep m ρ c main_v4 (by decide)).trans ((W12_keep m ρ c main_v4 (by decide) (by decide)).trans ((W11_keep m ρ c main_v4 (by decide)).trans ((W10_keep m ρ c main_v4 (by decide) (by decide)).trans ((W9_keep m ρ c main_v4 (by decide)).trans ((W8_keep m ρ c main_v4 (by decide) (by decide)).trans ((W7_keep m ρ c main_v4 (by decide)).trans ((W6_keep m ρ c main_v4 (by decide) (by decide)).trans ((W5_keep m ρ c main_v4 (by decide)).trans ((W4_keep m ρ c main_v4 (by decide) (by decide)).trans ((W3_keep m ρ c main_v4 (by decide)).trans (W2_keep m ρ c main_v4 (by decide) (by decide))))))))))))))))), e]
  exact shapeCast_apply _ _ (ix2 0 p) (ix1 p) (by rw [Shape.rowMajor_val_one, Shape.rowMajor_val_two]; simp)

theorem entry8_bfh (c : Dev nD) (p : Fin 150) :
    (W17 m ρ c (Proc.devRef .tc main_v5) : S1x150.Idx → Elt Ideal .f32) (ix2 0 p) = (Pm m c).bfh p := by
  have e : W1 m ρ c (Proc.devRef .tc main_v5) = shapeCast S1x150 (W0 m ρ c (Proc.devRef .tc main_arg12)) shapeCasts_S150_S1x150 := by
    show StableHlo.after hostOps0 (W0 m ρ c) (Proc.devRef .tc main_v5) = _
    after_results <;> rfl
  rw [show W17 m ρ c (Proc.devRef .tc main_v5) = W1 m ρ c (Proc.devRef .tc main_v5) from ((W17_keep m ρ c main_v5 (by decide)).trans ((W16_keep m ρ c main_v5 (by decide) (by decide)).trans ((W15_keep m ρ c main_v5 (by decide)).trans ((W14_keep m ρ c main_v5 (by decide) (by decide)).trans ((W13_keep m ρ c main_v5 (by decide)).trans ((W12_keep m ρ c main_v5 (by decide) (by decide)).trans ((W11_keep m ρ c main_v5 (by decide)).trans ((W10_keep m ρ c main_v5 (by decide) (by decide)).trans ((W9_keep m ρ c main_v5 (by decide)).trans ((W8_keep m ρ c main_v5 (by decide) (by decide)).trans ((W7_keep m ρ c main_v5 (by decide)).trans ((W6_keep m ρ c main_v5 (by decide) (by decide)).trans ((W5_keep m ρ c main_v5 (by decide)).trans ((W4_keep m ρ c main_v5 (by decide) (by decide)).trans ((W3_keep m ρ c main_v5 (by decide)).trans (W2_keep m ρ c main_v5 (by decide) (by decide))))))))))))))))), e]
  exact shapeCast_apply _ _ (ix2 0 p) (ix1 p) (by rw [Shape.rowMajor_val_one, Shape.rowMajor_val_two]; simp)

theorem entry8_buh (c : Dev nD) (p : Fin 150) :
    (W17 m ρ c (Proc.devRef .tc main_v6) : S1x150.Idx → Elt Ideal .f32) (ix2 0 p) = (Pm m c).buh p := by
  have e : W1 m ρ c (Proc.devRef .tc main_v6) = shapeCast S1x150 (W0 m ρ c (Proc.devRef .tc main_arg14)) shapeCasts_S150_S1x150 := by
    show StableHlo.after hostOps0 (W0 m ρ c) (Proc.devRef .tc main_v6) = _
    after_results <;> rfl
  rw [show W17 m ρ c (Proc.devRef .tc main_v6) = W1 m ρ c (Proc.devRef .tc main_v6) from ((W17_keep m ρ c main_v6 (by decide)).trans ((W16_keep m ρ c main_v6 (by decide) (by decide)).trans ((W15_keep m ρ c main_v6 (by decide)).trans ((W14_keep m ρ c main_v6 (by decide) (by decide)).trans ((W13_keep m ρ c main_v6 (by decide)).trans ((W12_keep m ρ c main_v6 (by decide) (by decide)).trans ((W11_keep m ρ c main_v6 (by decide)).trans ((W10_keep m ρ c main_v6 (by decide) (by decide)).trans ((W9_keep m ρ c main_v6 (by decide)).trans ((W8_keep m ρ c main_v6 (by decide) (by decide)).trans ((W7_keep m ρ c main_v6 (by decide)).trans ((W6_keep m ρ c main_v6 (by decide) (by decide)).trans ((W5_keep m ρ c main_v6 (by decide)).trans ((W4_keep m ρ c main_v6 (by decide) (by decide)).trans ((W3_keep m ρ c main_v6 (by decide)).trans (W2_keep m ρ c main_v6 (by decide) (by decide))))))))))))))))), e]
  exact shapeCast_apply _ _ (ix2 0 p) (ix1 p) (by rw [Shape.rowMajor_val_one, Shape.rowMajor_val_two]; simp)

theorem entry8_boh (c : Dev nD) (p : Fin 150) :
    (W17 m ρ c (Proc.devRef .tc main_v7) : S1x150.Idx → Elt Ideal .f32) (ix2 0 p) = (Pm m c).boh p := by
  have e : W1 m ρ c (Proc.devRef .tc main_v7) = shapeCast S1x150 (W0 m ρ c (Proc.devRef .tc main_arg16)) shapeCasts_S150_S1x150 := by
    show StableHlo.after hostOps0 (W0 m ρ c) (Proc.devRef .tc main_v7) = _
    after_results <;> rfl
  rw [show W17 m ρ c (Proc.devRef .tc main_v7) = W1 m ρ c (Proc.devRef .tc main_v7) from ((W17_keep m ρ c main_v7 (by decide)).trans ((W16_keep m ρ c main_v7 (by decide) (by decide)).trans ((W15_keep m ρ c main_v7 (by decide)).trans ((W14_keep m ρ c main_v7 (by decide) (by decide)).trans ((W13_keep m ρ c main_v7 (by decide)).trans ((W12_keep m ρ c main_v7 (by decide) (by decide)).trans ((W11_keep m ρ c main_v7 (by decide)).trans ((W10_keep m ρ c main_v7 (by decide) (by decide)).trans ((W9_keep m ρ c main_v7 (by decide)).trans ((W8_keep m ρ c main_v7 (by decide) (by decide)).trans ((W7_keep m ρ c main_v7 (by decide)).trans ((W6_keep m ρ c main_v7 (by decide) (by decide)).trans ((W5_keep m ρ c main_v7 (by decide)).trans ((W4_keep m ρ c main_v7 (by decide) (by decide)).trans ((W3_keep m ρ c main_v7 (by decide)).trans (W2_keep m ρ c main_v7 (by decide) (by decide))))))))))))))))), e]
  exact shapeCast_apply _ _ (ix2 0 p) (ix1 p) (by rw [Shape.rowMajor_val_one, Shape.rowMajor_val_two]; simp)

/-- The hidden states of the level below, regrouped by parent, are region 7's output array at row 4r + k. -/
theorem entry8_ch (c : Dev nD) (r : Fin 1) (k : Fin 4) (q : Fin 150) :
    (W17 m ρ c (Proc.devRef .tc main_v39) : S1x4x150.Idx → Elt Ideal .f32) (ix3 r k q)
      = (W16 m ρ c (Proc.devRef .tc main_v37_0) : S4x150.Idx → Elt Ideal .f32) (ix2 ⟨r.val * 4 + k.val, by have := r.isLt; have := k.isLt; omega⟩ q) := by
  have e : W17 m ρ c (Proc.devRef .tc main_v39)
      = shapeCast S1x4x150 (W16 m ρ c (Proc.devRef .tc main_v37_0)) shapeCasts_S4x150_S1x4x150 := by
    show StableHlo.after hostOps8 (W16 m ρ c) (Proc.devRef .tc main_v39) = _
    after_results <;> rfl
  rw [e]
  exact TreeHost.Lib.shapeCast_mc_nkc_apply _ _ r k q _ rfl

/-- The memory cells of the level below, regrouped by parent, are region 7's output array at row 4r + k. -/
theorem entry8_cc (c : Dev nD) (r : Fin 1) (k : Fin 4) (q : Fin 150) :
    (W17 m ρ c (Proc.devRef .tc main_v40) : S1x4x150.Idx → Elt Ideal .f32) (ix3 r k q)
      = (W16 m ρ c (Proc.devRef .tc main_v37_1) : S4x150.Idx → Elt Ideal .f32) (ix2 ⟨r.val * 4 + k.val, by have := r.isLt; have := k.isLt; omega⟩ q) := by
  have e : W17 m ρ c (Proc.devRef .tc main_v40)
      = shapeCast S1x4x150 (W16 m ρ c (Proc.devRef .tc main_v37_1)) shapeCasts_S4x150_S1x4x150 := by
    show StableHlo.after hostOps8 (W16 m ρ c) (Proc.devRef .tc main_v40) = _
    after_results <;> rfl
  rw [e]
  exact TreeHost.Lib.shapeCast_mc_nkc_apply _ _ r k q _ rfl

/-! ## The result -/

/-- The result array is the nine regions' hidden-state arrays laid end to end. -/
theorem result_eq (c : Dev nD) :
    W19 m ρ c (Proc.devRef .tc main_v42)
      = concatenate S87381x150 0 [⟨S65536x150, W2 m ρ c (Proc.devRef .tc main_v9_0)⟩, ⟨S16384x150, W4 m ρ c (Proc.devRef .tc main_v13_0)⟩, ⟨S4096x150, W6 m ρ c (Proc.devRef .tc main_v17_0)⟩, ⟨S1024x150, W8 m ρ c (Proc.devRef .tc main_v21_0)⟩, ⟨S256x150, W10 m ρ c (Proc.devRef .tc main_v25_0)⟩, ⟨S64x150, W12 m ρ c (Proc.devRef .tc main_v29_0)⟩, ⟨S16x150, W14 m ρ c (Proc.devRef .tc main_v33_0)⟩, ⟨S4x150, W16 m ρ c (Proc.devRef .tc main_v37_0)⟩, ⟨S1x150, W18 m ρ c (Proc.devRef .tc main_v41_0)⟩] concatenates_S65536x150_S16384x150_S4096x150_S1024x150_S256x150_S64x150_S16x150_S4x150_S1x150_S87381x150_d0 := by
  have e : W19 m ρ c (Proc.devRef .tc main_v42)
      = concatenate S87381x150 0 [⟨S65536x150, W18 m ρ c (Proc.devRef .tc main_v9_0)⟩, ⟨S16384x150, W18 m ρ c (Proc.devRef .tc main_v13_0)⟩, ⟨S4096x150, W18 m ρ c (Proc.devRef .tc main_v17_0)⟩, ⟨S1024x150, W18 m ρ c (Proc.devRef .tc main_v21_0)⟩, ⟨S256x150, W18 m ρ c (Proc.devRef .tc main_v25_0)⟩, ⟨S64x150, W18 m ρ c (Proc.devRef .tc main_v29_0)⟩, ⟨S16x150, W18 m ρ c (Proc.devRef .tc main_v33_0)⟩, ⟨S4x150, W18 m ρ c (Proc.devRef .tc main_v37_0)⟩, ⟨S1x150, W18 m ρ c (Proc.devRef .tc main_v41_0)⟩] concatenates_S65536x150_S16384x150_S4096x150_S1024x150_S256x150_S64x150_S16x150_S4x150_S1x150_S87381x150_d0 := by
    show StableHlo.after hostOps9 (W18 m ρ c) (Proc.devRef .tc main_v42) = _
    after_results <;> rfl
  rw [e, show W18 m ρ c (Proc.devRef .tc main_v9_0) = W2 m ρ c (Proc.devRef .tc main_v9_0) from ((W18_keep m ρ c main_v9_0 (by decide) (by decide)).trans ((W17_keep m ρ c main_v9_0 (by decide)).trans ((W16_keep m ρ c main_v9_0 (by decide) (by decide)).trans ((W15_keep m ρ c main_v9_0 (by decide)).trans ((W14_keep m ρ c main_v9_0 (by decide) (by decide)).trans ((W13_keep m ρ c main_v9_0 (by decide)).trans ((W12_keep m ρ c main_v9_0 (by decide) (by decide)).trans ((W11_keep m ρ c main_v9_0 (by decide)).trans ((W10_keep m ρ c main_v9_0 (by decide) (by decide)).trans ((W9_keep m ρ c main_v9_0 (by decide)).trans ((W8_keep m ρ c main_v9_0 (by decide) (by decide)).trans ((W7_keep m ρ c main_v9_0 (by decide)).trans ((W6_keep m ρ c main_v9_0 (by decide) (by decide)).trans ((W5_keep m ρ c main_v9_0 (by decide)).trans ((W4_keep m ρ c main_v9_0 (by decide) (by decide)).trans (W3_keep m ρ c main_v9_0 (by decide))))))))))))))))), show W18 m ρ c (Proc.devRef .tc main_v13_0) = W4 m ρ c (Proc.devRef .tc main_v13_0) from ((W18_keep m ρ c main_v13_0 (by decide) (by decide)).trans ((W17_keep m ρ c main_v13_0 (by decide)).trans ((W16_keep m ρ c main_v13_0 (by decide) (by decide)).trans ((W15_keep m ρ c main_v13_0 (by decide)).trans ((W14_keep m ρ c main_v13_0 (by decide) (by decide)).trans ((W13_keep m ρ c main_v13_0 (by decide)).trans ((W12_keep m ρ c main_v13_0 (by decide) (by decide)).trans ((W11_keep m ρ c main_v13_0 (by decide)).trans ((W10_keep m ρ c main_v13_0 (by decide) (by decide)).trans ((W9_keep m ρ c main_v13_0 (by decide)).trans ((W8_keep m ρ c main_v13_0 (by decide) (by decide)).trans ((W7_keep m ρ c main_v13_0 (by decide)).trans ((W6_keep m ρ c main_v13_0 (by decide) (by decide)).trans (W5_keep m ρ c main_v13_0 (by decide))))))))))))))), show W18 m ρ c (Proc.devRef .tc main_v17_0) = W6 m ρ c (Proc.devRef .tc main_v17_0) from ((W18_keep m ρ c main_v17_0 (by decide) (by decide)).trans ((W17_keep m ρ c main_v17_0 (by decide)).trans ((W16_keep m ρ c main_v17_0 (by decide) (by decide)).trans ((W15_keep m ρ c main_v17_0 (by decide)).trans ((W14_keep m ρ c main_v17_0 (by decide) (by decide)).trans ((W13_keep m ρ c main_v17_0 (by decide)).trans ((W12_keep m ρ c main_v17_0 (by decide) (by decide)).trans ((W11_keep m ρ c main_v17_0 (by decide)).trans ((W10_keep m ρ c main_v17_0 (by decide) (by decide)).trans ((W9_keep m ρ c main_v17_0 (by decide)).trans ((W8_keep m ρ c main_v17_0 (by decide) (by decide)).trans (W7_keep m ρ c main_v17_0 (by decide))))))))))))), show W18 m ρ c (Proc.devRef .tc main_v21_0) = W8 m ρ c (Proc.devRef .tc main_v21_0) from ((W18_keep m ρ c main_v21_0 (by decide) (by decide)).trans ((W17_keep m ρ c main_v21_0 (by decide)).trans ((W16_keep m ρ c main_v21_0 (by decide) (by decide)).trans ((W15_keep m ρ c main_v21_0 (by decide)).trans ((W14_keep m ρ c main_v21_0 (by decide) (by decide)).trans ((W13_keep m ρ c main_v21_0 (by decide)).trans ((W12_keep m ρ c main_v21_0 (by decide) (by decide)).trans ((W11_keep m ρ c main_v21_0 (by decide)).trans ((W10_keep m ρ c main_v21_0 (by decide) (by decide)).trans (W9_keep m ρ c main_v21_0 (by decide))))))))))), show W18 m ρ c (Proc.devRef .tc main_v25_0) = W10 m ρ c (Proc.devRef .tc main_v25_0) from ((W18_keep m ρ c main_v25_0 (by decide) (by decide)).trans ((W17_keep m ρ c main_v25_0 (by decide)).trans ((W16_keep m ρ c main_v25_0 (by decide) (by decide)).trans ((W15_keep m ρ c main_v25_0 (by decide)).trans ((W14_keep m ρ c main_v25_0 (by decide) (by decide)).trans ((W13_keep m ρ c main_v25_0 (by decide)).trans ((W12_keep m ρ c main_v25_0 (by decide) (by decide)).trans (W11_keep m ρ c main_v25_0 (by decide))))))))), show W18 m ρ c (Proc.devRef .tc main_v29_0) = W12 m ρ c (Proc.devRef .tc main_v29_0) from ((W18_keep m ρ c main_v29_0 (by decide) (by decide)).trans ((W17_keep m ρ c main_v29_0 (by decide)).trans ((W16_keep m ρ c main_v29_0 (by decide) (by decide)).trans ((W15_keep m ρ c main_v29_0 (by decide)).trans ((W14_keep m ρ c main_v29_0 (by decide) (by decide)).trans (W13_keep m ρ c main_v29_0 (by decide))))))), show W18 m ρ c (Proc.devRef .tc main_v33_0) = W14 m ρ c (Proc.devRef .tc main_v33_0) from ((W18_keep m ρ c main_v33_0 (by decide) (by decide)).trans ((W17_keep m ρ c main_v33_0 (by decide)).trans ((W16_keep m ρ c main_v33_0 (by decide) (by decide)).trans (W15_keep m ρ c main_v33_0 (by decide))))), show W18 m ρ c (Proc.devRef .tc main_v37_0) = W16 m ρ c (Proc.devRef .tc main_v37_0) from ((W18_keep m ρ c main_v37_0 (by decide) (by decide)).trans (W17_keep m ρ c main_v37_0 (by decide)))]

end Cert.KernelIdeal.Tree

end
-- ==== Proof.LibTreeOps.lean ====
/-
  A tile body of a child-sum tree recurrence, read at an entry, on the extended reals.

  A body that handles a tile of `n` nodes, each with `m` children of `K` numbers, meets the same few forms again and
  again:
    • a bias row `[1, c]` repeated down the tile's `n` rows (or, in a tile of one node, left as it is), or — through
      `[1, 1, c]` — over all `n × m` children;
    • an `[n, c]` matrix given a unit middle axis and repeated over the `m` children;
    • the sum over the `m` children (the middle axis of an `[n, m, c]` array);
    • a product of the tile (or of the children's sum) with a weight matrix, both operands first cast to a narrower
      float format — on the extended reals such a cast is the identity, and the matrix unit accumulating into zero is
      the textbook sum over the contracted axis;
    • the per-child product: the `[n, m, K]` children flattened to `[n·m, K]`, multiplied by a `[K, N]` matrix, and
      the result folded back to `[n, m, N]` — at `(r, k, p)` the sum over `j` of child `(r, k)`'s entry `j` times
      `W (j, p)`, because row `r·m + k` of the flattened array is child `k` of node `r`.
  Every extent is generic and every shape fact is a hypothesis. The last section reads a pointwise combination at an
  index from its operands at that index, so that a body's value at an entry is assembled term by term.
-/
import Idealize.ShloMosaic.PureOps.Ideal.Laws
import Idealize.ShloMosaic.Lib.ValueIdx
import Idealize.ShloMosaic.Lib.ValueLayout
import Idealize.ShloMosaic.Lib.Pipeline.Value
import proofs.«167239_j63453846831535_1_alg».proof.Proof.LibPlainDot

namespace Tree.Lib

open Idealize.ShloMosaic Idealize.ShloMosaic.ValueIdx

variable {n m c K N : ℕ}

/-! ## Bias rows and a matrix spread over the children -/

section Layout
variable {α : Type}

/-- A `[1, c]` row cast to its own shape and broadcast over `[n, c]` reads, at `(r, p)`, the row at `p`. -/
theorem biasRow_apply (v : (⟨2, ![1, c]⟩ : Shape).Idx → α) (h0 : (⟨2, ![1, c]⟩ : Shape).ShapeCasts ⟨2, ![1, c]⟩)
    (h1 : (⟨2, ![1, c]⟩ : Shape).Broadcasts ⟨2, ![n, c]⟩) (r : Fin n) (p : Fin c) :
    broadcastTo ⟨2, ![n, c]⟩ (shapeCast ⟨2, ![1, c]⟩ v h0) h1 (ix2 r p) = v (ix2 (0 : Fin 1) p) := by
  rw [shapeCast_self]
  exact broadcastTo_1b_ab_apply v h1 r p

/-- A `[1, c]` row cast to its own shape reads, at `(r, p)` — `r` the one row —, the row at `p`: what a bias row is
    in a tile of a single node, where no broadcast is printed. -/
theorem selfRow_apply (v : (⟨2, ![1, c]⟩ : Shape).Idx → α) (h0 : (⟨2, ![1, c]⟩ : Shape).ShapeCasts ⟨2, ![1, c]⟩)
    (r : Fin 1) (p : Fin c) : shapeCast ⟨2, ![1, c]⟩ v h0 (ix2 r p) = v (ix2 (0 : Fin 1) p) := by
  rw [shapeCast_self]
  exact congrArg (fun u => v (ix2 u p)) (Subsingleton.elim r 0)

/-- A `[1, 1, c]` array broadcast over `[n, m, c]` reads, at `(r, k, p)`, its one fibre at `p`. -/
theorem broadcastTo_11c_nmc_apply (v : (⟨3, ![1, 1, c]⟩ : Shape).Idx → α)
    (h : (⟨3, ![1, 1, c]⟩ : Shape).Broadcasts ⟨3, ![n, m, c]⟩) (r : Fin n) (k : Fin m) (p : Fin c) :
    broadcastTo ⟨3, ![n, m, c]⟩ v h (ix3 r k p) = v (ix3 (0 : Fin 1) (0 : Fin 1) p) := by
  refine broadcastTo_apply v h (ix3 r k p) (ix3 (0 : Fin 1) (0 : Fin 1) p) fun ax => ?_
  match ax with
  | ⟨0, _⟩ => rfl
  | ⟨1, _⟩ => rfl
  | ⟨2, _⟩ =>
    show p.val = if c = 1 then 0 else p.val
    split
    · have := p.isLt; omega
    · rfl

/-- A `[1, c]` row cast to its own shape, then to `[1, 1, c]`, and broadcast over `[n, m, c]` reads, at `(r, k, p)`,
    the row at `p`. -/
theorem biasRow3_apply (v : (⟨2, ![1, c]⟩ : Shape).Idx → α) (h0 : (⟨2, ![1, c]⟩ : Shape).ShapeCasts ⟨2, ![1, c]⟩)
    (h1 : (⟨2, ![1, c]⟩ : Shape).ShapeCasts ⟨3, ![1, 1, c]⟩) (h2 : (⟨3, ![1, 1, c]⟩ : Shape).Broadcasts ⟨3, ![n, m, c]⟩)
    (r : Fin n) (k : Fin m) (p : Fin c) :
    broadcastTo ⟨3, ![n, m, c]⟩ (shapeCast ⟨3, ![1, 1, c]⟩ (shapeCast ⟨2, ![1, c]⟩ v h0) h1) h2 (ix3 r k p)
      = v (ix2 (0 : Fin 1) p) := by
  rw [shapeCast_self]
  exact (broadcastTo_11c_nmc_apply _ h2 r k p).trans (shapeCast_ab_1ab_apply v h1 0 0 p)

/-- An `[n, c]` matrix cast to `[n, 1, c]` reads, at `(r, u, p)`, the matrix at `(r, p)`. -/
theorem shapeCast_nc_n1c_apply (v : (⟨2, ![n, c]⟩ : Shape).Idx → α) (h : (⟨2, ![n, c]⟩ : Shape).ShapeCasts ⟨3, ![n, 1, c]⟩)
    (r : Fin n) (u : Fin 1) (p : Fin c) : shapeCast ⟨3, ![n, 1, c]⟩ v h (ix3 r u p) = v (ix2 r p) :=
  shapeCast_apply v h _ _ (by
    have hu : u.val = 0 := by omega
    rw [Shape.rowMajor_val_three, Shape.rowMajor_val_two]
    show r.val * c + p.val = (r.val * 1 + u.val) * c + p.val
    rw [hu, Nat.mul_one, Nat.add_zero])

/-- An `[n, 1, c]` array broadcast along its middle axis over `[n, m, c]` reads, at `(r, k, p)`, the operand at
    `(r, 0, p)`. -/
theorem broadcastTo_n1c_nmc_apply (v : (⟨3, ![n, 1, c]⟩ : Shape).Idx → α)
    (h : (⟨3, ![n, 1, c]⟩ : Shape).Broadcasts ⟨3, ![n, m, c]⟩) (r : Fin n) (k : Fin m) (p : Fin c) :
    broadcastTo ⟨3, ![n, m, c]⟩ v h (ix3 r k p) = v (ix3 r (0 : Fin 1) p) := by
  refine broadcastTo_apply v h (ix3 r k p) (ix3 r (0 : Fin 1) p) fun ax => ?_
  match ax with
  | ⟨0, _⟩ =>
    show r.val = if n = 1 then 0 else r.val
    split
    · have := r.isLt; omega
    · rfl
  | ⟨1, _⟩ => rfl
  | ⟨2, _⟩ =>
    show p.val = if c = 1 then 0 else p.val
    split
    · have := p.isLt; omega
    · rfl

/-- An `[n, c]` matrix given a unit middle axis and repeated over the `m` children reads, at `(r, k, p)`, the matrix
    at `(r, p)`. -/
theorem spreadMiddle_apply (v : (⟨2, ![n, c]⟩ : Shape).Idx → α) (h1 : (⟨2, ![n, c]⟩ : Shape).ShapeCasts ⟨3, ![n, 1, c]⟩)
    (h2 : (⟨3, ![n, 1, c]⟩ : Shape).Broadcasts ⟨3, ![n, m, c]⟩) (r : Fin n) (k : Fin m) (p : Fin c) :
    broadcastTo ⟨3, ![n, m, c]⟩ (shapeCast ⟨3, ![n, 1, c]⟩ v h1) h2 (ix3 r k p) = v (ix2 r p) :=
  (broadcastTo_n1c_nmc_apply _ h2 r k p).trans (shapeCast_nc_n1c_apply v h1 r 0 p)

end Layout

/-! ## The sum over the children -/

/-- Over the middle axis of an `[n, m, c]` array: `(r, p)` with the middle coordinate `k` put back is `(r, k, p)`. -/
theorem lift_middle (h : Shape.Reduces ⟨3, ![n, m, c]⟩ [1] ⟨2, ![n, c]⟩) (r : Fin n) (p : Fin c) (k : Fin m) :
    h.lift (ix2 r p) k = ix3 r k p := by
  funext d
  apply Fin.ext
  match d with
  | ⟨0, _⟩ => rfl
  | ⟨1, _⟩ => rfl
  | ⟨2, _⟩ => rfl

/-- A `multi_reduction <add>` along the middle axis of an `[n, m, c]` array, at `(r, p)`: the sum over the `m`
    middle coordinates. -/
theorem sumMiddle_apply (v : FVec Ideal ⟨3, ![n, m, c]⟩ .f32) (h : Shape.Reduces ⟨3, ![n, m, c]⟩ [1] ⟨2, ![n, c]⟩)
    (hφ : FKind.Formats .f32) (hacc : (0x00000000#32 : BitVec 32) = FKind.add.neutral .f32 hφ) (r : Fin n) (p : Fin c) :
    multiReduction .add [1] ⟨2, ![n, c]⟩ v 0x00000000#32 h hφ hacc (ix2 r p) = ∑ k : Fin m, v (ix3 r k p) := by
  refine (Ideal.multiReduction_add_single v 0x00000000#32 h hφ hacc (ix2 r p)).trans ?_
  exact Finset.sum_congr rfl fun k _ => congrArg v (lift_middle h r p k)

/-! ## Products with a weight matrix -/

/-- The tile, cast to its own shape and then to a narrower format, against a weight matrix cast to that format, into
    the zero accumulator: at `(r, p)` the sum over the contracted axis of the tile's row `r` against column `p`. -/
theorem xW_apply {ψ : FTy} (x : FVec Ideal ⟨2, ![n, K]⟩ .f32) (W : FVec Ideal ⟨2, ![K, N]⟩ .f32)
    (hs : (⟨2, ![n, K]⟩ : Shape).ShapeCasts ⟨2, ![n, K]⟩) (hb : ψ.bits < FTy.bits .f32)
    (prec : Option ContractPrecision) (r : Fin n) (p : Fin N) :
    FloatOps.matmul (DotDims.plain n K N) prec (truncf ψ (shapeCast ⟨2, ![n, K]⟩ x hs) hb) (truncf ψ W hb)
        (constant ⟨2, ![n, N]⟩ .f32 0x00000000#32) (ix2 r p)
      = ∑ k : Fin K, x (ix2 r k) * W (ix2 k p) := by
  rw [shapeCast_self]
  exact Gcn.Lib.plain_matmul_zero_apply (truncf ψ x hb) (truncf ψ W hb) prec r p

/-- The children's sum (the children cast to their own shape, summed over the middle axis, cast to a narrower format)
    against a weight matrix: at `(r, p)` the sum over `j` of (the sum over the children of entry `j`) times `W (j, p)`. -/
theorem hsumW_apply {ψ : FTy} (ch : FVec Ideal ⟨3, ![n, m, K]⟩ .f32) (W : FVec Ideal ⟨2, ![K, N]⟩ .f32)
    (hs : (⟨3, ![n, m, K]⟩ : Shape).ShapeCasts ⟨3, ![n, m, K]⟩) (h : Shape.Reduces ⟨3, ![n, m, K]⟩ [1] ⟨2, ![n, K]⟩)
    (hφ : FKind.Formats .f32) (hacc : (0x00000000#32 : BitVec 32) = FKind.add.neutral .f32 hφ)
    (hb : ψ.bits < FTy.bits .f32) (prec : Option ContractPrecision) (r : Fin n) (p : Fin N) :
    FloatOps.matmul (DotDims.plain n K N) prec
        (truncf ψ (multiReduction .add [1] ⟨2, ![n, K]⟩ (shapeCast ⟨3, ![n, m, K]⟩ ch hs) 0x00000000#32 h hφ hacc) hb)
        (truncf ψ W hb) (constant ⟨2, ![n, N]⟩ .f32 0x00000000#32) (ix2 r p)
      = ∑ j : Fin K, (∑ k : Fin m, ch (ix3 r k j)) * W (ix2 j p) := by
  rw [shapeCast_self]
  refine (Gcn.Lib.plain_matmul_zero_apply _ _ prec r p).trans (Finset.sum_congr rfl fun j _ => ?_)
  exact congrArg (· * W (ix2 j p)) (sumMiddle_apply ch h hφ hacc r j)

/-- Row `r·m + k` of the flattened children is child `k` of node `r`. -/
theorem flat_lt (r : Fin n) (k : Fin m) : r.val * m + k.val < n * m := by
  have h1 : (r.val + 1) * m ≤ n * m := Nat.mul_le_mul_right m r.isLt
  have h2 : (r.val + 1) * m = r.val * m + m := Nat.succ_mul _ _
  have := k.isLt
  omega

/-- The per-child product: the `[n, m, K]` children flattened to `[M, K]`, `M = n·m`, cast to a narrower format,
    multiplied by the weight matrix into the zero accumulator, and folded back to `[n, m, N]`: at `(r, k, p)` the sum
    over `j` of child `(r, k)`'s entry `j` times `W (j, p)`. -/
theorem childW_apply {ψ : FTy} (M : ℕ) (hM : M = n * m) (ch : FVec Ideal ⟨3, ![n, m, K]⟩ .f32)
    (W : FVec Ideal ⟨2, ![K, N]⟩ .f32) (hs : (⟨3, ![n, m, K]⟩ : Shape).ShapeCasts ⟨3, ![n, m, K]⟩)
    (h1 : (⟨3, ![n, m, K]⟩ : Shape).ShapeCasts ⟨2, ![M, K]⟩) (h2 : (⟨2, ![M, N]⟩ : Shape).ShapeCasts ⟨3, ![n, m, N]⟩)
    (hb : ψ.bits < FTy.bits .f32) (prec : Option ContractPrecision) (r : Fin n) (k : Fin m) (p : Fin N) :
    shapeCast ⟨3, ![n, m, N]⟩
        (FloatOps.matmul (DotDims.plain M K N) prec
          (truncf ψ (shapeCast ⟨2, ![M, K]⟩ (shapeCast ⟨3, ![n, m, K]⟩ ch hs) h1) hb) (truncf ψ W hb)
          (constant ⟨2, ![M, N]⟩ .f32 0x00000000#32)) h2 (ix3 r k p)
      = ∑ j : Fin K, ch (ix3 r k j) * W (ix2 j p) := by
  subst hM
  rw [shapeCast_self]
  refine (shapeCast_apply _ h2 (ix3 r k p) (ix2 ⟨r.val * m + k.val, flat_lt r k⟩ p) ?_).trans ?_
  · rw [Shape.rowMajor_val_two, Shape.rowMajor_val_three]
    rfl
  refine (Gcn.Lib.plain_matmul_zero_apply _ _ prec _ p).trans (Finset.sum_congr rfl fun j _ => ?_)
  refine congrArg (· * W (ix2 j p)) ?_
  exact shapeCast_apply ch h1 (ix2 ⟨r.val * m + k.val, flat_lt r k⟩ j) (ix3 r k j) (by
    rw [Shape.rowMajor_val_two, Shape.rowMajor_val_three]
    rfl)

/-! ## A pointwise combination at an index, from its operands at that index -/

section Pointwise
variable {s : Shape} {φ : FTy}

/-- A sum at an index, from the summands there. -/
theorem addf_at {a b : FVec Ideal s φ} {i : s.Idx} {x y : EReal} (ha : a i = x) (hb : b i = y) :
    addf a b i = x + y := congrArg₂ (· + ·) ha hb

/-- A product at an index, from the factors there. -/
theorem mulf_at {a b : FVec Ideal s φ} {i : s.Idx} {x y : EReal} (ha : a i = x) (hb : b i = y) :
    mulf a b i = x * y := congrArg₂ (· * ·) ha hb

/-- The logistic function at an index, from its argument there. -/
theorem logistic_at {a : FVec Ideal s φ} {i : s.Idx} {x : EReal} (ha : a i = x) :
    logistic a i = Ideal.logistic x := congrArg Ideal.logistic ha

/-- The hyperbolic tangent at an index, from its argument there. -/
theorem tanh_at {a : FVec Ideal s φ} {i : s.Idx} {x : EReal} (ha : a i = x) :
    tanh a i = Ideal.tanh x := congrArg Ideal.tanh ha

end Pointwise

end Tree.Lib
-- ==== Proof.KerPay0.lean ====
/-
  The leaf level's two stored values at an entry, on the extended reals.

  A leaf tile holds 2048 input rows x (300 numbers each). The body forms three products of the tile with the
  300 x 150 matrices W_ix, W_ox, W_ux (both operands first cast to a narrower float format, which changes nothing on
  the extended reals), adds the bias rows, and stores
      c = σ((x · W_ix + b_ix) + b_ih) * tanh((x · W_ux + b_ux) + b_uh)        and        h = σ((x · W_ox + b_ox) + b_oh) * tanh c.
  Read at row r and coordinate p these are the leaf memory cell and hidden state of the recurrence, whatever the
  seven parameter arrays a leaf does not use.
-/
import proofs.«167239_j63453846831535_1_alg».proof.Proof.Gen.KernelIdeal.Skeleton
import proofs.«167239_j63453846831535_1_alg».proof.Proof.TreeSpecArr
import proofs.«167239_j63453846831535_1_alg».proof.Proof.LibTreeOps

noncomputable section

namespace Cert.KernelIdeal.Pay

open Idealize.ShloMosaic Idealize.ShloMosaic.ValueIdx Cert.TreeSpec

/-- The stored hidden state of a leaf tile, as a function of the ten loaded arrays. -/
def hTerm0 (v0 : Vec Ideal S2048x300 .f32) (v3 : Vec Ideal S300x150 .f32) (v6 v10 : Vec Ideal S1x150 .f32)
    (v15 : Vec Ideal S300x150 .f32) (v18 v22 : Vec Ideal S1x150 .f32) (v27 : Vec Ideal S300x150 .f32)
    (v30 v34 : Vec Ideal S1x150 .f32) : FVec Ideal S2048x150 .f32 :=
  Gen.k0_pay2 (Gen.k0_pay4 v0 v3 v6 v10) (Gen.k0_pay5 v0 v15 v18 v22) (Gen.k0_pay6 v0 v27 v30) (Gen.k0_pay7 v34)

/-- The stored memory cell of a leaf tile, as a function of the loaded arrays. -/
def cTerm0 (v0 : Vec Ideal S2048x300 .f32) (v3 : Vec Ideal S300x150 .f32) (v6 v10 : Vec Ideal S1x150 .f32)
    (v15 : Vec Ideal S300x150 .f32) (v18 v22 : Vec Ideal S1x150 .f32) (v27 : Vec Ideal S300x150 .f32)
    (v30 v34 : Vec Ideal S1x150 .f32) : FVec Ideal S2048x150 .f32 :=
  Gen.k0_pay1 (Gen.k0_pay4 v0 v3 v6 v10) (Gen.k0_pay6 v0 v27 v30) (Gen.k0_pay7 v34)

section
variable (v0 : Vec Ideal S2048x300 .f32) (v3 : Vec Ideal S300x150 .f32) (v6 v10 : Vec Ideal S1x150 .f32)
  (v15 : Vec Ideal S300x150 .f32) (v18 v22 : Vec Ideal S1x150 .f32) (v27 : Vec Ideal S300x150 .f32)
  (v30 v34 : Vec Ideal S1x150 .f32) (r : Fin 2048) (p : Fin 150)

/-- The input gate of leaf r at p: σ((x · W_ix + b_ix) + b_ih). -/
theorem leaf_gate_i : Gen.k0_pay4 v0 v3 v6 v10 (ix2 r p)
    = Ideal.logistic (lin (tile2 v0) (mat v3) r p + row v6 p + row v10 p) := by
  unfold Gen.k0_pay4 Gen.k0_pay3
  exact Tree.Lib.logistic_at (Tree.Lib.addf_at (Tree.Lib.addf_at (Tree.Lib.xW_apply v0 v3 _ _ none r p)
    (Tree.Lib.biasRow_apply v6 _ _ r p)) (Tree.Lib.biasRow_apply v10 _ _ r p))

/-- The output gate of leaf r at p: σ((x · W_ox + b_ox) + b_oh). -/
theorem leaf_gate_o : Gen.k0_pay5 v0 v15 v18 v22 (ix2 r p)
    = Ideal.logistic (lin (tile2 v0) (mat v15) r p + row v18 p + row v22 p) := by
  unfold Gen.k0_pay5 Gen.k0_pay3
  exact Tree.Lib.logistic_at (Tree.Lib.addf_at (Tree.Lib.addf_at (Tree.Lib.xW_apply v0 v15 _ _ none r p)
    (Tree.Lib.biasRow_apply v18 _ _ r p)) (Tree.Lib.biasRow_apply v22 _ _ r p))

/-- The input part of the update of leaf r at p: x · W_ux + b_ux. -/
theorem leaf_u : Gen.k0_pay6 v0 v27 v30 (ix2 r p) = lin (tile2 v0) (mat v27) r p + row v30 p := by
  unfold Gen.k0_pay6 Gen.k0_pay3
  exact Tree.Lib.addf_at (Tree.Lib.xW_apply v0 v27 _ _ none r p) (Tree.Lib.biasRow_apply v30 _ _ r p)

variable (wfx : (⟨2, ![300, 150]⟩ : Shape).Idx → EReal) (bfx : (⟨2, ![1, 150]⟩ : Shape).Idx → EReal)
  (wih wfh : (⟨2, ![150, 150]⟩ : Shape).Idx → EReal) (bfh : (⟨2, ![1, 150]⟩ : Shape).Idx → EReal)
  (wuh woh : (⟨2, ![150, 150]⟩ : Shape).Idx → EReal)

/-- The stored memory cell at (r, p) is the recurrence's leaf memory cell. -/
theorem cTerm0_apply : cTerm0 v0 v3 v6 v10 v15 v18 v22 v27 v30 v34 (ix2 r p)
    = leafC (paramsOfRows v3 v6 wfx bfx v27 v30 v15 v18 wih v10 wfh bfh wuh v34 woh v22) (tile2 v0) r p := by
  unfold cTerm0 Gen.k0_pay1 Gen.k0_pay7
  exact Tree.Lib.mulf_at (leaf_gate_i v0 v3 v6 v10 r p)
    (Tree.Lib.tanh_at (Tree.Lib.addf_at (leaf_u v0 v27 v30 r p) (Tree.Lib.biasRow_apply v34 _ _ r p)))

/-- The stored hidden state at (r, p) is the recurrence's leaf hidden state. -/
theorem hTerm0_apply : hTerm0 v0 v3 v6 v10 v15 v18 v22 v27 v30 v34 (ix2 r p)
    = leafH (paramsOfRows v3 v6 wfx bfx v27 v30 v15 v18 wih v10 wfh bfh wuh v34 woh v22) (tile2 v0) r p := by
  unfold hTerm0 Gen.k0_pay2
  exact Tree.Lib.mulf_at (leaf_gate_o v0 v15 v18 v22 r p)
    (Tree.Lib.tanh_at (cTerm0_apply v0 v3 v6 v10 v15 v18 v22 v27 v30 v34 r p wfx bfx wih wfh bfh wuh woh))

end

end Cert.KernelIdeal.Pay

end
-- ==== Proof.TreeLocal.lean ====
/-
  The recurrence at a node reads only that node: its input row, its four children, and the parameters' values.

  The memory cell and hidden state of node r at coordinate p are written from row r of the input matrix and rows r of
  the children's arrays alone, so two levels that agree on those rows (a tile of a level and the level itself, at the
  tile's row and the level's) give the same value; and parameters are determined by their sixteen fields. Also here:
  two functions of a pair of coordinates that agree at every pair are equal, and the spellings of a zero offset.
-/
import Idealize.ShloMosaic.Lib.ValueIdx
import proofs.«167239_j63453846831535_1_alg».proof.Proof.TreeSpec

noncomputable section

namespace Cert.TreeSpec

open Idealize.ShloMosaic Idealize.ShloMosaic.ValueIdx

/-- Parameters given field by field are the parameters whose fields those are. -/
theorem Params.eq_of_fields (P : Params)
    {a1 : Fin 300 → Fin 150 → EReal} {a2 : Fin 150 → EReal} {a3 : Fin 300 → Fin 150 → EReal} {a4 : Fin 150 → EReal}
    {a5 : Fin 300 → Fin 150 → EReal} {a6 : Fin 150 → EReal} {a7 : Fin 300 → Fin 150 → EReal} {a8 : Fin 150 → EReal}
    {a9 : Fin 150 → Fin 150 → EReal} {a10 : Fin 150 → EReal} {a11 : Fin 150 → Fin 150 → EReal} {a12 : Fin 150 → EReal}
    {a13 : Fin 150 → Fin 150 → EReal} {a14 : Fin 150 → EReal} {a15 : Fin 150 → Fin 150 → EReal} {a16 : Fin 150 → EReal}
    (h1 : a1 = P.Wix) (h2 : a2 = P.bix) (h3 : a3 = P.Wfx) (h4 : a4 = P.bfx) (h5 : a5 = P.Wux) (h6 : a6 = P.bux)
    (h7 : a7 = P.Wox) (h8 : a8 = P.box) (h9 : a9 = P.Wih) (h10 : a10 = P.bih) (h11 : a11 = P.Wfh) (h12 : a12 = P.bfh)
    (h13 : a13 = P.Wuh) (h14 : a14 = P.buh) (h15 : a15 = P.Woh) (h16 : a16 = P.boh) :
    (⟨a1, a2, a3, a4, a5, a6, a7, a8, a9, a10, a11, a12, a13, a14, a15, a16⟩ : Params) = P := by
  subst h1 h2 h3 h4 h5 h6 h7 h8 h9 h10 h11 h12 h13 h14 h15 h16
  rfl

variable {n n' : ℕ} {P P' : Params}

/-- A leaf's memory cell depends only on the leaf's input row. -/
theorem leafC_local (hP : P = P') {x : Fin n → Fin 300 → EReal} {x' : Fin n' → Fin 300 → EReal} {r : Fin n} {r' : Fin n'}
    (hx : x r = x' r') (p : Fin 150) : leafC P x r p = leafC P' x' r' p := by
  subst hP
  show leafC P (fun _ : Fin 1 => x r) 0 p = leafC P (fun _ : Fin 1 => x' r') 0 p
  rw [hx]

/-- A leaf's hidden state depends only on the leaf's input row. -/
theorem leafH_local (hP : P = P') {x : Fin n → Fin 300 → EReal} {x' : Fin n' → Fin 300 → EReal} {r : Fin n} {r' : Fin n'}
    (hx : x r = x' r') (p : Fin 150) : leafH P x r p = leafH P' x' r' p := by
  subst hP
  show leafH P (fun _ : Fin 1 => x r) 0 p = leafH P (fun _ : Fin 1 => x' r') 0 p
  rw [hx]

/-- An internal node's memory cell depends only on the node's input row and its four children. -/
theorem intC_local (hP : P = P') {x : Fin n → Fin 300 → EReal} {x' : Fin n' → Fin 300 → EReal}
    {ch cc : Fin n → Fin 4 → Fin 150 → EReal} {ch' cc' : Fin n' → Fin 4 → Fin 150 → EReal} {r : Fin n} {r' : Fin n'}
    (hx : x r = x' r') (hch : ch r = ch' r') (hcc : cc r = cc' r') (p : Fin 150) :
    intC P x ch cc r p = intC P' x' ch' cc' r' p := by
  subst hP
  show intC P (fun _ : Fin 1 => x r) (fun _ => ch r) (fun _ => cc r) 0 p
    = intC P (fun _ : Fin 1 => x' r') (fun _ => ch' r') (fun _ => cc' r') 0 p
  rw [hx, hch, hcc]

/-- An internal node's hidden state depends only on the node's input row and its four children. -/
theorem intH_local (hP : P = P') {x : Fin n → Fin 300 → EReal} {x' : Fin n' → Fin 300 → EReal}
    {ch cc : Fin n → Fin 4 → Fin 150 → EReal} {ch' cc' : Fin n' → Fin 4 → Fin 150 → EReal} {r : Fin n} {r' : Fin n'}
    (hx : x r = x' r') (hch : ch r = ch' r') (hcc : cc r = cc' r') (p : Fin 150) :
    intH P x ch cc r p = intH P' x' ch' cc' r' p := by
  subst hP
  show intH P (fun _ : Fin 1 => x r) (fun _ => ch r) (fun _ => cc r) 0 p
    = intH P (fun _ : Fin 1 => x' r') (fun _ => ch' r') (fun _ => cc' r') 0 p
  rw [hx, hch, hcc]

/-- Two functions of a pair of coordinates that agree at every pair are equal. -/
theorem forall_ix2 {n0 n1 : ℕ} {α : Type} {A B : (⟨2, ![n0, n1]⟩ : Shape).Idx → α}
    (h : ∀ (r : Fin n0) (p : Fin n1), A (ix2 r p) = B (ix2 r p)) : A = B :=
  funext fun y => by rw [eq_ix2 y]; exact h _ _

/-- The zero offset of a rank-2 rectangle, spelt as a literal vector. -/
theorem zero_off2 : (![0, 0] : Fin 2 → Nat) = fun _ => 0 := funext fun a => by fin_cases a <;> rfl

/-- The zero offset of a rank-3 rectangle, spelt as a literal vector. -/
theorem zero_off3 : (![0, 0, 0] : Fin 3 → Nat) = fun _ => 0 := funext fun a => by fin_cases a <;> rfl

end Cert.TreeSpec

end
-- ==== Proof.KerArr0.lean ====
/-
  The level of 65536 leaves: from the tiles the grid's points write back to the two whole arrays.

  The grid has 32 points; point t handles the tile of leaves 2048·t … 2048·t + 2047. Its input blocks are rows
  2048·t + r of the input matrix and the nine parameter arrays a leaf uses, whole (their index maps are constantly 0).
  A leaf's values read only the leaf's input row, so what the point writes at row r of its two output blocks is the
  recurrence's value at leaf 2048·t + r; the output blocks tile the two output arrays (leaf R lies in point R / 2048's
  block), so after the last point each array holds the level's values. The seven parameter arrays a leaf does not use
  do not enter: any parameters with the nine given fields give the same leaf values.
-/
import proofs.«167239_j63453846831535_1_alg».proof.Proof.KIRegion0
import proofs.«167239_j63453846831535_1_alg».proof.Proof.KerPay0
import proofs.«167239_j63453846831535_1_alg».proof.Proof.TreeSpecArr
import proofs.«167239_j63453846831535_1_alg».proof.Proof.TreeLocal
import Idealize.ShloMosaic.Lib.Pipeline.Value

set_option maxRecDepth 16384

noncomputable section

namespace Cert.KernelIdeal.Tree

open Cert.KernelIdeal Cert.KernelIdeal.Gen
open Idealize.ShloMosaic Idealize.ShloMosaic.TcCoe Idealize.ShloMosaic.ValueIdx
open Idealize.SL.Sem
open Idealize.ShloMosaic.Pipeline (Dat)
open Cert.TreeSpec

variable (V : (c : Dev nD) → (b : Ref sig .tc) → Buf (Elt Ideal) ((c : Thread nD τ).loc b)) (c : Dev nD)

/-! ## The index maps over the grid -/

theorem idx0_0 : ∀ t : Fin cfg0.N, win0_0.index t 0 = t.val ∧ win0_0.index t 1 = 0 :=
  (by decide +kernel : ∀ t : Fin grid0.N, win0_0.index t 0 = t.val ∧ win0_0.index t 1 = 0)
theorem idx0_1 : ∀ t : Fin cfg0.N, win0_1.index t 0 = 0 ∧ win0_1.index t 1 = 0 :=
  (by decide +kernel : ∀ t : Fin grid0.N, win0_1.index t 0 = 0 ∧ win0_1.index t 1 = 0)
theorem idx0_2 : ∀ t : Fin cfg0.N, win0_2.index t 0 = 0 ∧ win0_2.index t 1 = 0 :=
  (by decide +kernel : ∀ t : Fin grid0.N, win0_2.index t 0 = 0 ∧ win0_2.index t 1 = 0)
theorem idx0_3 : ∀ t : Fin cfg0.N, win0_3.index t 0 = 0 ∧ win0_3.index t 1 = 0 :=
  (by decide +kernel : ∀ t : Fin grid0.N, win0_3.index t 0 = 0 ∧ win0_3.index t 1 = 0)
theorem idx0_4 : ∀ t : Fin cfg0.N, win0_4.index t 0 = 0 ∧ win0_4.index t 1 = 0 :=
  (by decide +kernel : ∀ t : Fin grid0.N, win0_4.index t 0 = 0 ∧ win0_4.index t 1 = 0)
theorem idx0_5 : ∀ t : Fin cfg0.N, win0_5.index t 0 = 0 ∧ win0_5.index t 1 = 0 :=
  (by decide +kernel : ∀ t : Fin grid0.N, win0_5.index t 0 = 0 ∧ win0_5.index t 1 = 0)
theorem idx0_6 : ∀ t : Fin cfg0.N, win0_6.index t 0 = 0 ∧ win0_6.index t 1 = 0 :=
  (by decide +kernel : ∀ t : Fin grid0.N, win0_6.index t 0 = 0 ∧ win0_6.index t 1 = 0)
theorem idx0_7 : ∀ t : Fin cfg0.N, win0_7.index t 0 = 0 ∧ win0_7.index t 1 = 0 :=
  (by decide +kernel : ∀ t : Fin grid0.N, win0_7.index t 0 = 0 ∧ win0_7.index t 1 = 0)
theorem idx0_8 : ∀ t : Fin cfg0.N, win0_8.index t 0 = 0 ∧ win0_8.index t 1 = 0 :=
  (by decide +kernel : ∀ t : Fin grid0.N, win0_8.index t 0 = 0 ∧ win0_8.index t 1 = 0)
theorem idx0_9 : ∀ t : Fin cfg0.N, win0_9.index t 0 = 0 ∧ win0_9.index t 1 = 0 :=
  (by decide +kernel : ∀ t : Fin grid0.N, win0_9.index t 0 = 0 ∧ win0_9.index t 1 = 0)
theorem idx0_10 : ∀ t : Fin cfg0.N, win0_10.index t 0 = t.val ∧ win0_10.index t 1 = 0 :=
  (by decide +kernel : ∀ t : Fin grid0.N, win0_10.index t 0 = t.val ∧ win0_10.index t 1 = 0)
theorem idx0_11 : ∀ t : Fin cfg0.N, win0_11.index t 0 = t.val ∧ win0_11.index t 1 = 0 :=
  (by decide +kernel : ∀ t : Fin grid0.N, win0_11.index t 0 = t.val ∧ win0_11.index t 1 = 0)

/-! ## The input blocks as parts of their arrays -/

/-- Row r of the input tile at point t is row 2048·t + r of the input matrix. -/
theorem blk0_0 (t : Fin cfg0.N) (r : Fin 2048) (k : Fin 300) (R : Fin 65536) (hR : R.val = t.val * 2048 + r.val) :
    (iblk0 V c 0 t : S2048x300.Idx → EReal) (ix2 r k) = (V c (Pipeline.arrRef spec0 0) : (⟨2, ![65536, 300]⟩ : Shape).Idx → EReal) (ix2 R k) := by
  have hi := idx0_0 t
  unfold iblk0
  rw [View.read_apply]
  show V c (Pipeline.arrRef spec0 0) _ = V c (Pipeline.arrRef spec0 0) _
  congr 1
  funext a
  apply Fin.ext
  match a with
  | ⟨0, _⟩ => show win0_0.index t 0 * 2048 + 1 * r.val = R.val; rw [hi.1, hR]; omega
  | ⟨1, _⟩ => show win0_0.index t 1 * 300 + 1 * k.val = k.val; rw [hi.2]; omega

/-- Window 1's block at every point is its whole array. -/
theorem blk0_1 (t : Fin cfg0.N) (y : S300x150.Idx) :
    (iblk0 V c 1 t : S300x150.Idx → EReal) y = (V c (Pipeline.arrRef spec0 1) : S300x150.Idx → EReal) y := by
  have hi := idx0_1 t
  unfold iblk0
  rw [View.read_apply]
  show V c (Pipeline.arrRef spec0 1) _ = V c (Pipeline.arrRef spec0 1) _
  congr 1
  funext a
  apply Fin.ext
  match a with
  | ⟨0, _⟩ => show win0_1.index t 0 * 300 + 1 * (y 0).val = (y 0).val; rw [hi.1]; omega
  | ⟨1, _⟩ => show win0_1.index t 1 * 150 + 1 * (y 1).val = (y 1).val; rw [hi.2]; omega

/-- Window 2's block at every point is its whole array. -/
theorem blk0_2 (t : Fin cfg0.N) (y : S1x150.Idx) :
    (iblk0 V c 2 t : S1x150.Idx → EReal) y = (V c (Pipeline.arrRef spec0 2) : S1x150.Idx → EReal) y := by
  have hi := idx0_2 t
  unfold iblk0
  rw [View.read_apply]
  show V c (Pipeline.arrRef spec0 2) _ = V c (Pipeline.arrRef spec0 2) _
  congr 1
  funext a
  apply Fin.ext
  match a with
  | ⟨0, _⟩ => show win0_2.index t 0 * 1 + 1 * (y 0).val = (y 0).val; rw [hi.1]; omega
  | ⟨1, _⟩ => show win0_2.index t 1 * 150 + 1 * (y 1).val = (y 1).val; rw [hi.2]; omega

/-- Window 3's block at every point is its whole array. -/
theorem blk0_3 (t : Fin cfg0.N) (y : S300x150.Idx) :
    (iblk0 V c 3 t : S300x150.Idx → EReal) y = (V c (Pipeline.arrRef spec0 3) : S300x150.Idx → EReal) y := by
  have hi := idx0_3 t
  unfold iblk0
  rw [View.read_apply]
  show V c (Pipeline.arrRef spec0 3) _ = V c (Pipeline.arrRef spec0 3) _
  congr 1
  funext a
  apply Fin.ext
  match a with
  | ⟨0, _⟩ => show win0_3.index t 0 * 300 + 1 * (y 0).val = (y 0).val; rw [hi.1]; omega
  | ⟨1, _⟩ => show win0_3.index t 1 * 150 + 1 * (y 1).val = (y 1).val; rw [hi.2]; omega

/-- Window 4's block at every point is its whole array. -/
theorem blk0_4 (t : Fin cfg0.N) (y : S1x150.Idx) :
    (iblk0 V c 4 t : S1x150.Idx → EReal) y = (V c (Pipeline.arrRef spec0 4) : S1x150.Idx → EReal) y := by
  have hi := idx0_4 t
  unfold iblk0
  rw [View.read_apply]
  show V c (Pipeline.arrRef spec0 4) _ = V c (Pipeline.arrRef spec0 4) _
  congr 1
  funext a
  apply Fin.ext
  match a with
  | ⟨0, _⟩ => show win0_4.index t 0 * 1 + 1 * (y 0).val = (y 0).val; rw [hi.1]; omega
  | ⟨1, _⟩ => show win0_4.index t 1 * 150 + 1 * (y 1).val = (y 1).val; rw [hi.2]; omega

/-- Window 5's block at every point is its whole array. -/
theorem blk0_5 (t : Fin cfg0.N) (y : S300x150.Idx) :
    (iblk0 V c 5 t : S300x150.Idx → EReal) y = (V c (Pipeline.arrRef spec0 5) : S300x150.Idx → EReal) y := by
  have hi := idx0_5 t
  unfold iblk0
  rw [View.read_apply]
  show V c (Pipeline.arrRef spec0 5) _ = V c (Pipeline.arrRef spec0 5) _
  congr 1
  funext a
  apply Fin.ext
  match a with
  | ⟨0, _⟩ => show win0_5.index t 0 * 300 + 1 * (y 0).val = (y 0).val; rw [hi.1]; omega
  | ⟨1, _⟩ => show win0_5.index t 1 * 150 + 1 * (y 1).val = (y 1).val; rw [hi.2]; omega

/-- Window 6's block at every point is its whole array. -/
theorem blk0_6 (t : Fin cfg0.N) (y : S1x150.Idx) :
    (iblk0 V c 6 t : S1x150.Idx → EReal) y = (V c (Pipeline.arrRef spec0 6) : S1x150.Idx → EReal) y := by
  have hi := idx0_6 t
  unfold iblk0
  rw [View.read_apply]
  show V c (Pipeline.arrRef spec0 6) _ = V c (Pipeline.arrRef spec0 6) _
  congr 1
  funext a
  apply Fin.ext
  match a with
  | ⟨0, _⟩ => show win0_6.index t 0 * 1 + 1 * (y 0).val = (y 0).val; rw [hi.1]; omega
  | ⟨1, _⟩ => show win0_6.index t 1 * 150 + 1 * (y 1).val = (y 1).val; rw [hi.2]; omega

/-- Window 7's block at every point is its whole array. -/
theorem blk0_7 (t : Fin cfg0.N) (y : S1x150.Idx) :
    (iblk0 V c 7 t : S1x150.Idx → EReal) y = (V c (Pipeline.arrRef spec0 7) : S1x150.Idx → EReal) y := by
  have hi := idx0_7 t
  unfold iblk0
  rw [View.read_apply]
  show V c (Pipeline.arrRef spec0 7) _ = V c (Pipeline.arrRef spec0 7) _
  congr 1
  funext a
  apply Fin.ext
  match a with
  | ⟨0, _⟩ => show win0_7.index t 0 * 1 + 1 * (y 0).val = (y 0).val; rw [hi.1]; omega
  | ⟨1, _⟩ => show win0_7.index t 1 * 150 + 1 * (y 1).val = (y 1).val; rw [hi.2]; omega

/-- Window 8's block at every point is its whole array. -/
theorem blk0_8 (t : Fin cfg0.N) (y : S1x150.Idx) :
    (iblk0 V c 8 t : S1x150.Idx → EReal) y = (V c (Pipeline.arrRef spec0 8) : S1x150.Idx → EReal) y := by
  have hi := idx0_8 t
  unfold iblk0
  rw [View.read_apply]
  show V c (Pipeline.arrRef spec0 8) _ = V c (Pipeline.arrRef spec0 8) _
  congr 1
  funext a
  apply Fin.ext
  match a with
  | ⟨0, _⟩ => show win0_8.index t 0 * 1 + 1 * (y 0).val = (y 0).val; rw [hi.1]; omega
  | ⟨1, _⟩ => show win0_8.index t 1 * 150 + 1 * (y 1).val = (y 1).val; rw [hi.2]; omega

/-- Window 9's block at every point is its whole array. -/
theorem blk0_9 (t : Fin cfg0.N) (y : S1x150.Idx) :
    (iblk0 V c 9 t : S1x150.Idx → EReal) y = (V c (Pipeline.arrRef spec0 9) : S1x150.Idx → EReal) y := by
  have hi := idx0_9 t
  unfold iblk0
  rw [View.read_apply]
  show V c (Pipeline.arrRef spec0 9) _ = V c (Pipeline.arrRef spec0 9) _
  congr 1
  funext a
  apply Fin.ext
  match a with
  | ⟨0, _⟩ => show win0_9.index t 0 * 1 + 1 * (y 0).val = (y 0).val; rw [hi.1]; omega
  | ⟨1, _⟩ => show win0_9.index t 1 * 150 + 1 * (y 1).val = (y 1).val; rw [hi.2]; omega

/-! ## What the body leaves in the output blocks -/

/-- The hidden-state block after the body is the tile's stored hidden state, as a function of the input blocks. -/
theorem out0_10_eq (x0 : Vec Ideal S2048x300 .f32) (x1 : Vec Ideal S300x150 .f32) (x2 : Vec Ideal S1x150 .f32) (x3 : Vec Ideal S300x150 .f32) (x4 : Vec Ideal S1x150 .f32) (x5 : Vec Ideal S300x150 .f32) (x6 : Vec Ideal S1x150 .f32) (x7 : Vec Ideal S1x150 .f32) (x8 : Vec Ideal S1x150 .f32) (x9 : Vec Ideal S1x150 .f32) :
    out0_10 x0 x1 x2 x3 x4 x5 x6 x7 x8 x9 = Pay.hTerm0 x0 x1 x2 x7 x5 x6 x9 x3 x4 x8 := by
  unfold out0_10
  rw [View.canon_unit_zero zero_off2]
  simp only [View.ld_unit_zero (S := S2048x300) zero_off2, View.ld_unit_zero (S := S300x150) zero_off2, View.ld_unit_zero (S := S1x150) zero_off2]
  rfl

/-- The memory-cell block after the body is the tile's stored memory cell, as a function of the input blocks. -/
theorem out0_11_eq (x0 : Vec Ideal S2048x300 .f32) (x1 : Vec Ideal S300x150 .f32) (x2 : Vec Ideal S1x150 .f32) (x3 : Vec Ideal S300x150 .f32) (x4 : Vec Ideal S1x150 .f32) (x5 : Vec Ideal S300x150 .f32) (x6 : Vec Ideal S1x150 .f32) (x7 : Vec Ideal S1x150 .f32) (x8 : Vec Ideal S1x150 .f32) (x9 : Vec Ideal S1x150 .f32) :
    out0_11 x0 x1 x2 x3 x4 x5 x6 x7 x8 x9 = Pay.cTerm0 x0 x1 x2 x7 x5 x6 x9 x3 x4 x8 := by
  unfold out0_11
  rw [View.canon_unit_zero zero_off2]
  simp only [View.ld_unit_zero (S := S2048x300) zero_off2, View.ld_unit_zero (S := S300x150) zero_off2, View.ld_unit_zero (S := S1x150) zero_off2]
  rfl

section
variable (P : Params) (X : Fin 65536 → Fin 300 → EReal)

/-- The parameter blocks at any point, completed by the seven fields a leaf does not use, are the parameters. -/
theorem params0
    (h1 : ∀ k p, (V c (Pipeline.arrRef spec0 1) : S300x150.Idx → EReal) (ix2 k p) = P.Wix k p)
    (h2 : ∀ p, (V c (Pipeline.arrRef spec0 2) : S1x150.Idx → EReal) (ix2 0 p) = P.bix p)
    (h3 : ∀ k p, (V c (Pipeline.arrRef spec0 3) : S300x150.Idx → EReal) (ix2 k p) = P.Wux k p)
    (h4 : ∀ p, (V c (Pipeline.arrRef spec0 4) : S1x150.Idx → EReal) (ix2 0 p) = P.bux p)
    (h5 : ∀ k p, (V c (Pipeline.arrRef spec0 5) : S300x150.Idx → EReal) (ix2 k p) = P.Wox k p)
    (h6 : ∀ p, (V c (Pipeline.arrRef spec0 6) : S1x150.Idx → EReal) (ix2 0 p) = P.box p)
    (h7 : ∀ p, (V c (Pipeline.arrRef spec0 7) : S1x150.Idx → EReal) (ix2 0 p) = P.bih p)
    (h8 : ∀ p, (V c (Pipeline.arrRef spec0 8) : S1x150.Idx → EReal) (ix2 0 p) = P.buh p)
    (h9 : ∀ p, (V c (Pipeline.arrRef spec0 9) : S1x150.Idx → EReal) (ix2 0 p) = P.boh p)
    (t : Fin cfg0.N) :
    paramsOfRows (iblk0 V c 1 t) (iblk0 V c 2 t) (fun i : S300x150.Idx => P.Wfx (i 0) (i 1)) (fun i : S1x150.Idx => P.bfx (i 1))
      (iblk0 V c 3 t) (iblk0 V c 4 t) (iblk0 V c 5 t) (iblk0 V c 6 t) (fun i : S150x150.Idx => P.Wih (i 0) (i 1)) (iblk0 V c 7 t)
      (fun i : S150x150.Idx => P.Wfh (i 0) (i 1)) (fun i : S1x150.Idx => P.bfh (i 1))
      (fun i : S150x150.Idx => P.Wuh (i 0) (i 1)) (iblk0 V c 8 t) (fun i : S150x150.Idx => P.Woh (i 0) (i 1)) (iblk0 V c 9 t) = P :=
  Params.eq_of_fields P
    (funext fun k => funext fun p => (blk0_1 V c t (ix2 k p)).trans (h1 k p))
    (funext fun p => (blk0_2 V c t (ix2 0 p)).trans (h2 p))
    rfl rfl
    (funext fun k => funext fun p => (blk0_3 V c t (ix2 k p)).trans (h3 k p))
    (funext fun p => (blk0_4 V c t (ix2 0 p)).trans (h4 p))
    (funext fun k => funext fun p => (blk0_5 V c t (ix2 k p)).trans (h5 k p))
    (funext fun p => (blk0_6 V c t (ix2 0 p)).trans (h6 p))
    rfl
    (funext fun p => (blk0_7 V c t (ix2 0 p)).trans (h7 p))
    rfl rfl rfl
    (funext fun p => (blk0_8 V c t (ix2 0 p)).trans (h8 p))
    rfl
    (funext fun p => (blk0_9 V c t (ix2 0 p)).trans (h9 p))

/-- Row r of the hidden-state block at point t is the hidden state of leaf 2048·t + r. -/
theorem tile0_10
    (h0 : ∀ r k, (V c (Pipeline.arrRef spec0 0) : (⟨2, ![65536, 300]⟩ : Shape).Idx → EReal) (ix2 r k) = X r k)
    (h1 : ∀ k p, (V c (Pipeline.arrRef spec0 1) : S300x150.Idx → EReal) (ix2 k p) = P.Wix k p)
    (h2 : ∀ p, (V c (Pipeline.arrRef spec0 2) : S1x150.Idx → EReal) (ix2 0 p) = P.bix p)
    (h3 : ∀ k p, (V c (Pipeline.arrRef spec0 3) : S300x150.Idx → EReal) (ix2 k p) = P.Wux k p)
    (h4 : ∀ p, (V c (Pipeline.arrRef spec0 4) : S1x150.Idx → EReal) (ix2 0 p) = P.bux p)
    (h5 : ∀ k p, (V c (Pipeline.arrRef spec0 5) : S300x150.Idx → EReal) (ix2 k p) = P.Wox k p)
    (h6 : ∀ p, (V c (Pipeline.arrRef spec0 6) : S1x150.Idx → EReal) (ix2 0 p) = P.box p)
    (h7 : ∀ p, (V c (Pipeline.arrRef spec0 7) : S1x150.Idx → EReal) (ix2 0 p) = P.bih p)
    (h8 : ∀ p, (V c (Pipeline.arrRef spec0 8) : S1x150.Idx → EReal) (ix2 0 p) = P.buh p)
    (h9 : ∀ p, (V c (Pipeline.arrRef spec0 9) : S1x150.Idx → EReal) (ix2 0 p) = P.boh p)
    (t : Fin cfg0.N) (r : Fin 2048) (p : Fin 150) (R : Fin 65536) (hR : R.val = t.val * 2048 + r.val) :
    ((dat0 V c).after 10 t : S2048x150.Idx → EReal) (ix2 r p) = leafH P X R p := by
  rw [after0_10, out0_10_eq]
  refine (Pay.hTerm0_apply (iblk0 V c 0 t) (iblk0 V c 1 t) (iblk0 V c 2 t) (iblk0 V c 7 t) (iblk0 V c 5 t) (iblk0 V c 6 t) (iblk0 V c 9 t) (iblk0 V c 3 t) (iblk0 V c 4 t) (iblk0 V c 8 t) r p
    (fun i : S300x150.Idx => P.Wfx (i 0) (i 1)) (fun i : S1x150.Idx => P.bfx (i 1)) (fun i : S150x150.Idx => P.Wih (i 0) (i 1)) (fun i : S150x150.Idx => P.Wfh (i 0) (i 1)) (fun i : S1x150.Idx => P.bfh (i 1)) (fun i : S150x150.Idx => P.Wuh (i 0) (i 1)) (fun i : S150x150.Idx => P.Woh (i 0) (i 1))).trans ?_
  exact leafH_local (params0 V c P h1 h2 h3 h4 h5 h6 h7 h8 h9 t) (funext fun k => (blk0_0 V c t r k R hR).trans (h0 R k)) p

/-- Row r of the memory-cell block at point t is the memory cell of leaf 2048·t + r. -/
theorem tile0_11
    (h0 : ∀ r k, (V c (Pipeline.arrRef spec0 0) : (⟨2, ![65536, 300]⟩ : Shape).Idx → EReal) (ix2 r k) = X r k)
    (h1 : ∀ k p, (V c (Pipeline.arrRef spec0 1) : S300x150.Idx → EReal) (ix2 k p) = P.Wix k p)
    (h2 : ∀ p, (V c (Pipeline.arrRef spec0 2) : S1x150.Idx → EReal) (ix2 0 p) = P.bix p)
    (h3 : ∀ k p, (V c (Pipeline.arrRef spec0 3) : S300x150.Idx → EReal) (ix2 k p) = P.Wux k p)
    (h4 : ∀ p, (V c (Pipeline.arrRef spec0 4) : S1x150.Idx → EReal) (ix2 0 p) = P.bux p)
    (h5 : ∀ k p, (V c (Pipeline.arrRef spec0 5) : S300x150.Idx → EReal) (ix2 k p) = P.Wox k p)
    (h6 : ∀ p, (V c (Pipeline.arrRef spec0 6) : S1x150.Idx → EReal) (ix2 0 p) = P.box p)
    (h7 : ∀ p, (V c (Pipeline.arrRef spec0 7) : S1x150.Idx → EReal) (ix2 0 p) = P.bih p)
    (h8 : ∀ p, (V c (Pipeline.arrRef spec0 8) : S1x150.Idx → EReal) (ix2 0 p) = P.buh p)
    (h9 : ∀ p, (V c (Pipeline.arrRef spec0 9) : S1x150.Idx → EReal) (ix2 0 p) = P.boh p)
    (t : Fin cfg0.N) (r : Fin 2048) (p : Fin 150) (R : Fin 65536) (hR : R.val = t.val * 2048 + r.val) :
    ((dat0 V c).after 11 t : S2048x150.Idx → EReal) (ix2 r p) = leafC P X R p := by
  rw [after0_11, out0_11_eq]
  refine (Pay.cTerm0_apply (iblk0 V c 0 t) (iblk0 V c 1 t) (iblk0 V c 2 t) (iblk0 V c 7 t) (iblk0 V c 5 t) (iblk0 V c 6 t) (iblk0 V c 9 t) (iblk0 V c 3 t) (iblk0 V c 4 t) (iblk0 V c 8 t) r p
    (fun i : S300x150.Idx => P.Wfx (i 0) (i 1)) (fun i : S1x150.Idx => P.bfx (i 1)) (fun i : S150x150.Idx => P.Wih (i 0) (i 1)) (fun i : S150x150.Idx => P.Wfh (i 0) (i 1)) (fun i : S1x150.Idx => P.bfh (i 1)) (fun i : S150x150.Idx => P.Wuh (i 0) (i 1)) (fun i : S150x150.Idx => P.Woh (i 0) (i 1))).trans ?_
  exact leafC_local (params0 V c P h1 h2 h3 h4 h5 h6 h7 h8 h9 t) (funext fun k => (blk0_0 V c t r k R hR).trans (h0 R k)) p

/-- Entry (r, p) of window 10's block at point t sits at (2048·t + r, p) of its array. -/
theorem emb0_10 (t : Fin cfg0.N) (r : Fin 2048) (p : Fin 150) (hR : t.val * 2048 + r.val < 65536) :
    ((cfg0.win 10).blk t).view.emb (ix2 r p) = (ix2 ⟨t.val * 2048 + r.val, hR⟩ p : (⟨2, ![65536, 150]⟩ : Shape).Idx) := by
  have hi := idx0_10 t
  funext a
  apply Fin.ext
  match a with
  | ⟨0, _⟩ => show win0_10.index t 0 * 2048 + 1 * r.val = t.val * 2048 + r.val; rw [hi.1]; omega
  | ⟨1, _⟩ => show win0_10.index t 1 * 150 + 1 * p.val = p.val; rw [hi.2]; omega

/-- What point t writes back through window 10 is its block of the level's values. -/
theorem flushed0_10
    (h0 : ∀ r k, (V c (Pipeline.arrRef spec0 0) : (⟨2, ![65536, 300]⟩ : Shape).Idx → EReal) (ix2 r k) = X r k)
    (h1 : ∀ k p, (V c (Pipeline.arrRef spec0 1) : S300x150.Idx → EReal) (ix2 k p) = P.Wix k p)
    (h2 : ∀ p, (V c (Pipeline.arrRef spec0 2) : S1x150.Idx → EReal) (ix2 0 p) = P.bix p)
    (h3 : ∀ k p, (V c (Pipeline.arrRef spec0 3) : S300x150.Idx → EReal) (ix2 k p) = P.Wux k p)
    (h4 : ∀ p, (V c (Pipeline.arrRef spec0 4) : S1x150.Idx → EReal) (ix2 0 p) = P.bux p)
    (h5 : ∀ k p, (V c (Pipeline.arrRef spec0 5) : S300x150.Idx → EReal) (ix2 k p) = P.Wox k p)
    (h6 : ∀ p, (V c (Pipeline.arrRef spec0 6) : S1x150.Idx → EReal) (ix2 0 p) = P.box p)
    (h7 : ∀ p, (V c (Pipeline.arrRef spec0 7) : S1x150.Idx → EReal) (ix2 0 p) = P.bih p)
    (h8 : ∀ p, (V c (Pipeline.arrRef spec0 8) : S1x150.Idx → EReal) (ix2 0 p) = P.buh p)
    (h9 : ∀ p, (V c (Pipeline.arrRef spec0 9) : S1x150.Idx → EReal) (ix2 0 p) = P.boh p)
    (t : Fin cfg0.N) :
    (dat0 V c).flushed 10 t
      = ((cfg0.win 10).blk t).view.read (Elt Ideal) (fun i : (⟨2, ![65536, 150]⟩ : Shape).Idx => leafH P X (i 0) (i 1)) := by
  refine forall_ix2 (n0 := 2048) (n1 := 150) fun r p => ?_
  have ht : t.val < 32 := t.isLt
  have hR : t.val * 2048 + r.val < 65536 := by have := r.isLt; omega
  refine (tile0_10 V c P X h0 h1 h2 h3 h4 h5 h6 h7 h8 h9 t r p ⟨_, hR⟩ rfl).trans ?_
  rw [View.read_apply]
  show _ = (fun i : (⟨2, ![65536, 150]⟩ : Shape).Idx => leafH P X (i 0) (i 1)) (((cfg0.win 10).blk t).view.emb (ix2 r p))
  rw [emb0_10 t r p hR]

/-- Window 10's blocks cover its array: leaf R lies in the block of point R / 2048. -/
theorem covered0_10 (i : (⟨2, ![65536, 150]⟩ : Shape).Idx) :
    ∃ t : Fin cfg0.N, (cfg0.win 10).flush t = true ∧ i ∈ ((cfg0.win 10).blk t).view.set := by
  have h0 : (i 0 : Nat) < 65536 := (i 0).isLt
  have h1 : (i 1 : Nat) < 150 := (i 1).isLt
  have hlt : (i 0 : Nat) / 2048 < 32 := by omega
  refine ⟨⟨(i 0 : Nat) / 2048, hlt⟩, flush0_10 _, ?_⟩
  have hi := idx0_10 ⟨(i 0 : Nat) / 2048, hlt⟩
  show i ∈ ((View.whole (Pipeline.arrRef spec0 10)).slice (win0_10.rect ⟨(i 0 : Nat) / 2048, hlt⟩)).set
  rw [View.set_slice_whole, Rect.mem_set_unit]
  intro a
  match a with
  | ⟨0, _⟩ =>
    show win0_10.index ⟨(i 0 : Nat) / 2048, hlt⟩ 0 * 2048 ≤ (i 0 : Nat) ∧ (i 0 : Nat) < win0_10.index ⟨(i 0 : Nat) / 2048, hlt⟩ 0 * 2048 + 2048
    rw [hi.1]
    show (i 0 : Nat) / 2048 * 2048 ≤ (i 0 : Nat) ∧ (i 0 : Nat) < (i 0 : Nat) / 2048 * 2048 + 2048
    omega
  | ⟨1, _⟩ =>
    show win0_10.index ⟨(i 0 : Nat) / 2048, hlt⟩ 1 * 150 ≤ (i 1 : Nat) ∧ (i 1 : Nat) < win0_10.index ⟨(i 0 : Nat) / 2048, hlt⟩ 1 * 150 + 150
    rw [hi.2]
    omega

/-- Entry (r, p) of window 11's block at point t sits at (2048·t + r, p) of its array. -/
theorem emb0_11 (t : Fin cfg0.N) (r : Fin 2048) (p : Fin 150) (hR : t.val * 2048 + r.val < 65536) :
    ((cfg0.win 11).blk t).view.emb (ix2 r p) = (ix2 ⟨t.val * 2048 + r.val, hR⟩ p : (⟨2, ![65536, 150]⟩ : Shape).Idx) := by
  have hi := idx0_11 t
  funext a
  apply Fin.ext
  match a with
  | ⟨0, _⟩ => show win0_11.index t 0 * 2048 + 1 * r.val = t.val * 2048 + r.val; rw [hi.1]; omega
  | ⟨1, _⟩ => show win0_11.index t 1 * 150 + 1 * p.val = p.val; rw [hi.2]; omega

/-- What point t writes back through window 11 is its block of the level's values. -/
theorem flushed0_11
    (h0 : ∀ r k, (V c (Pipeline.arrRef spec0 0) : (⟨2, ![65536, 300]⟩ : Shape).Idx → EReal) (ix2 r k) = X r k)
    (h1 : ∀ k p, (V c (Pipeline.arrRef spec0 1) : S300x150.Idx → EReal) (ix2 k p) = P.Wix k p)
    (h2 : ∀ p, (V c (Pipeline.arrRef spec0 2) : S1x150.Idx → EReal) (ix2 0 p) = P.bix p)
    (h3 : ∀ k p, (V c (Pipeline.arrRef spec0 3) : S300x150.Idx → EReal) (ix2 k p) = P.Wux k p)
    (h4 : ∀ p, (V c (Pipeline.arrRef spec0 4) : S1x150.Idx → EReal) (ix2 0 p) = P.bux p)
    (h5 : ∀ k p, (V c (Pipeline.arrRef spec0 5) : S300x150.Idx → EReal) (ix2 k p) = P.Wox k p)
    (h6 : ∀ p, (V c (Pipeline.arrRef spec0 6) : S1x150.Idx → EReal) (ix2 0 p) = P.box p)
    (h7 : ∀ p, (V c (Pipeline.arrRef spec0 7) : S1x150.Idx → EReal) (ix2 0 p) = P.bih p)
    (h8 : ∀ p, (V c (Pipeline.arrRef spec0 8) : S1x150.Idx → EReal) (ix2 0 p) = P.buh p)
    (h9 : ∀ p, (V c (Pipeline.arrRef spec0 9) : S1x150.Idx → EReal) (ix2 0 p) = P.boh p)
    (t : Fin cfg0.N) :
    (dat0 V c).flushed 11 t
      = ((cfg0.win 11).blk t).view.read (Elt Ideal) (fun i : (⟨2, ![65536, 150]⟩ : Shape).Idx => leafC P X (i 0) (i 1)) := by
  refine forall_ix2 (n0 := 2048) (n1 := 150) fun r p => ?_
  have ht : t.val < 32 := t.isLt
  have hR : t.val * 2048 + r.val < 65536 := by have := r.isLt; omega
  refine (tile0_11 V c P X h0 h1 h2 h3 h4 h5 h6 h7 h8 h9 t r p ⟨_, hR⟩ rfl).trans ?_
  rw [View.read_apply]
  show _ = (fun i : (⟨2, ![65536, 150]⟩ : Shape).Idx => leafC P X (i 0) (i 1)) (((cfg0.win 11).blk t).view.emb (ix2 r p))
  rw [emb0_11 t r p hR]

/-- Window 11's blocks cover its array: leaf R lies in the block of point R / 2048. -/
theorem covered0_11 (i : (⟨2, ![65536, 150]⟩ : Shape).Idx) :
    ∃ t : Fin cfg0.N, (cfg0.win 11).flush t = true ∧ i ∈ ((cfg0.win 11).blk t).view.set := by
  have h0 : (i 0 : Nat) < 65536 := (i 0).isLt
  have h1 : (i 1 : Nat) < 150 := (i 1).isLt
  have hlt : (i 0 : Nat) / 2048 < 32 := by omega
  refine ⟨⟨(i 0 : Nat) / 2048, hlt⟩, flush0_11 _, ?_⟩
  have hi := idx0_11 ⟨(i 0 : Nat) / 2048, hlt⟩
  show i ∈ ((View.whole (Pipeline.arrRef spec0 11)).slice (win0_11.rect ⟨(i 0 : Nat) / 2048, hlt⟩)).set
  rw [View.set_slice_whole, Rect.mem_set_unit]
  intro a
  match a with
  | ⟨0, _⟩ =>
    show win0_11.index ⟨(i 0 : Nat) / 2048, hlt⟩ 0 * 2048 ≤ (i 0 : Nat) ∧ (i 0 : Nat) < win0_11.index ⟨(i 0 : Nat) / 2048, hlt⟩ 0 * 2048 + 2048
    rw [hi.1]
    show (i 0 : Nat) / 2048 * 2048 ≤ (i 0 : Nat) ∧ (i 0 : Nat) < (i 0 : Nat) / 2048 * 2048 + 2048
    omega
  | ⟨1, _⟩ =>
    show win0_11.index ⟨(i 0 : Nat) / 2048, hlt⟩ 1 * 150 ≤ (i 1 : Nat) ∧ (i 1 : Nat) < win0_11.index ⟨(i 0 : Nat) / 2048, hlt⟩ 1 * 150 + 150
    rw [hi.2]
    omega

/-- After the last point the two output arrays hold the leaves' hidden states and memory cells. -/
theorem arr0
    (h0 : ∀ r k, (V c (Pipeline.arrRef spec0 0) : (⟨2, ![65536, 300]⟩ : Shape).Idx → EReal) (ix2 r k) = X r k)
    (h1 : ∀ k p, (V c (Pipeline.arrRef spec0 1) : S300x150.Idx → EReal) (ix2 k p) = P.Wix k p)
    (h2 : ∀ p, (V c (Pipeline.arrRef spec0 2) : S1x150.Idx → EReal) (ix2 0 p) = P.bix p)
    (h3 : ∀ k p, (V c (Pipeline.arrRef spec0 3) : S300x150.Idx → EReal) (ix2 k p) = P.Wux k p)
    (h4 : ∀ p, (V c (Pipeline.arrRef spec0 4) : S1x150.Idx → EReal) (ix2 0 p) = P.bux p)
    (h5 : ∀ k p, (V c (Pipeline.arrRef spec0 5) : S300x150.Idx → EReal) (ix2 k p) = P.Wox k p)
    (h6 : ∀ p, (V c (Pipeline.arrRef spec0 6) : S1x150.Idx → EReal) (ix2 0 p) = P.box p)
    (h7 : ∀ p, (V c (Pipeline.arrRef spec0 7) : S1x150.Idx → EReal) (ix2 0 p) = P.bih p)
    (h8 : ∀ p, (V c (Pipeline.arrRef spec0 8) : S1x150.Idx → EReal) (ix2 0 p) = P.buh p)
    (h9 : ∀ p, (V c (Pipeline.arrRef spec0 9) : S1x150.Idx → EReal) (ix2 0 p) = P.boh p) :
    (∀ r p, ((dat0 V c).arrAt 10 cfg0.N : (⟨2, ![65536, 150]⟩ : Shape).Idx → EReal) (ix2 r p) = leafH P X r p)
      ∧ (∀ r p, ((dat0 V c).arrAt 11 cfg0.N : (⟨2, ![65536, 150]⟩ : Shape).Idx → EReal) (ix2 r p) = leafC P X r p) :=
  ⟨fun r p => congrFun ((dat0 V c).arrAt_eq_of_cover 10 (fun i : (⟨2, ![65536, 150]⟩ : Shape).Idx => leafH P X (i 0) (i 1))
      (fun t _ => flushed0_10 V c P X h0 h1 h2 h3 h4 h5 h6 h7 h8 h9 t) (covered0_10)) (ix2 r p),
   fun r p => congrFun ((dat0 V c).arrAt_eq_of_cover 11 (fun i : (⟨2, ![65536, 150]⟩ : Shape).Idx => leafC P X (i 0) (i 1))
      (fun t _ => flushed0_11 V c P X h0 h1 h2 h3 h4 h5 h6 h7 h8 h9 t) (covered0_11)) (ix2 r p)⟩

end

end Cert.KernelIdeal.Tree

end
-- ==== Proof.KerPay1.lean ====
/-
  The two stored values of a tile of 512 internal nodes at an entry, on the extended reals.

  The tile holds 512 input rows x (300 numbers each) and, for every node, its four children's hidden states and memory
  cells (150 numbers each). The body sums the children's hidden states, s = h_0 + h_1 + h_2 + h_3, forms the products of
  x with W_ix, W_fx, W_ox, W_ux and of s with W_ih, W_oh, W_uh, and one product per child of h_k with W_fh — every operand
  first cast to a narrower float format, which changes nothing on the extended reals — and stores
      c = σ(((x · W_ix + b_ix) + s · W_ih) + b_ih) * tanh(((x · W_ux + b_ux) + s · W_uh) + b_uh)
            + Σ_k σ((h_k · W_fh + b_fh) + (x · W_fx + b_fx)) * c_k          and          h = σ(((x · W_ox + b_ox) + s · W_oh) + b_oh) * tanh c.
  Read at node r and coordinate p these are the recurrence's memory cell and hidden state of an internal node.
-/
import proofs.«167239_j63453846831535_1_alg».proof.Proof.Gen.KernelIdeal.Skeleton
import proofs.«167239_j63453846831535_1_alg».proof.Proof.TreeSpecArr
import proofs.«167239_j63453846831535_1_alg».proof.Proof.LibTreeOps

noncomputable section

namespace Cert.KernelIdeal.Pay

open Idealize.ShloMosaic Idealize.ShloMosaic.ValueIdx Cert.TreeSpec

/-- The stored hidden state of the tile, as a function of the nineteen loaded arrays. -/
def hTerm1 (v0 : Vec Ideal S512x300 .f32) (v2 v4 : Vec Ideal S512x4x150 .f32) (v11 : Vec Ideal S150x150 .f32)
    (v15 : Vec Ideal S1x150 .f32) (v20 : Vec Ideal S300x150 .f32) (v23 : Vec Ideal S1x150 .f32)
    (v33 : Vec Ideal S300x150 .f32) (v36 : Vec Ideal S1x150 .f32) (v40 : Vec Ideal S150x150 .f32)
    (v44 : Vec Ideal S1x150 .f32) (v49 : Vec Ideal S300x150 .f32) (v52 : Vec Ideal S1x150 .f32)
    (v56 : Vec Ideal S150x150 .f32) (v60 : Vec Ideal S1x150 .f32) (v65 : Vec Ideal S300x150 .f32)
    (v68 : Vec Ideal S1x150 .f32) (v72 : Vec Ideal S150x150 .f32) (v76 : Vec Ideal S1x150 .f32) : FVec Ideal S512x150 .f32 :=
  Gen.k1_pay2 (Gen.k1_pay5 v2) (Gen.k1_pay6 v0 v2 v4 v11 v15 v20 v23)
    (Gen.k1_pay8 (Gen.k1_pay5 v2) (Gen.k1_pay7 v0 v33) v36 v40 v44)
    (Gen.k1_pay9 (Gen.k1_pay4 v0) (Gen.k1_pay5 v2) v49 v52 v56 v60) (Gen.k1_pay10 (Gen.k1_pay4 v0) v65 v68) v72 v76

/-- The stored memory cell of the tile, as a function of the loaded arrays. -/
def cTerm1 (v0 : Vec Ideal S512x300 .f32) (v2 v4 : Vec Ideal S512x4x150 .f32) (v11 : Vec Ideal S150x150 .f32)
    (v15 : Vec Ideal S1x150 .f32) (v20 : Vec Ideal S300x150 .f32) (v23 : Vec Ideal S1x150 .f32)
    (v33 : Vec Ideal S300x150 .f32) (v36 : Vec Ideal S1x150 .f32) (v40 : Vec Ideal S150x150 .f32)
    (v44 : Vec Ideal S1x150 .f32) (v49 : Vec Ideal S300x150 .f32) (v52 : Vec Ideal S1x150 .f32)
    (v56 : Vec Ideal S150x150 .f32) (v60 : Vec Ideal S1x150 .f32) (v65 : Vec Ideal S300x150 .f32)
    (v68 : Vec Ideal S1x150 .f32) (v72 : Vec Ideal S150x150 .f32) (v76 : Vec Ideal S1x150 .f32) : FVec Ideal S512x150 .f32 :=
  Gen.k1_pay1 (Gen.k1_pay5 v2) (Gen.k1_pay6 v0 v2 v4 v11 v15 v20 v23)
    (Gen.k1_pay8 (Gen.k1_pay5 v2) (Gen.k1_pay7 v0 v33) v36 v40 v44) (Gen.k1_pay10 (Gen.k1_pay4 v0) v65 v68) v72 v76

section
variable (v0 : Vec Ideal S512x300 .f32) (v2 v4 : Vec Ideal S512x4x150 .f32) (v11 : Vec Ideal S150x150 .f32)
    (v15 : Vec Ideal S1x150 .f32) (v20 : Vec Ideal S300x150 .f32) (v23 : Vec Ideal S1x150 .f32)
    (v33 : Vec Ideal S300x150 .f32) (v36 : Vec Ideal S1x150 .f32) (v40 : Vec Ideal S150x150 .f32)
    (v44 : Vec Ideal S1x150 .f32) (v49 : Vec Ideal S300x150 .f32) (v52 : Vec Ideal S1x150 .f32)
    (v56 : Vec Ideal S150x150 .f32) (v60 : Vec Ideal S1x150 .f32) (v65 : Vec Ideal S300x150 .f32)
    (v68 : Vec Ideal S1x150 .f32) (v72 : Vec Ideal S150x150 .f32) (v76 : Vec Ideal S1x150 .f32)
  (r : Fin 512) (p : Fin 150)

/-- The children's memory cells weighted by their forget gates, summed, at (r, p). -/
theorem forget_sum1 : Gen.k1_pay6 v0 v2 v4 v11 v15 v20 v23 (ix2 r p)
    = ∑ k : Fin 4, Ideal.logistic (((∑ j : Fin 150, tile3 v2 r k j * mat v11 j p) + row v15 p)
        + (lin (tile2 v0) (mat v20) r p + row v23 p)) * tile3 v4 r k p := by
  unfold Gen.k1_pay6 Gen.k1_pay3 Gen.k1_pay4
  refine (Tree.Lib.sumMiddle_apply _ _ _ _ r p).trans (Finset.sum_congr rfl fun k _ => ?_)
  refine Tree.Lib.mulf_at (Tree.Lib.logistic_at (Tree.Lib.addf_at (Tree.Lib.addf_at ?_ ?_) ?_)) ?_
  · exact Tree.Lib.childW_apply 2048 rfl v2 v11 _ _ _ _ none r k p
  · exact Tree.Lib.biasRow3_apply v15 _ _ _ r k p
  · exact (Tree.Lib.spreadMiddle_apply _ _ _ r k p).trans
      (Tree.Lib.addf_at (Tree.Lib.xW_apply v0 v20 _ _ none r p) (Tree.Lib.biasRow_apply v23 _ _ r p))
  · exact congrFun (shapeCast_self v4 _) (ix3 r k p)

/-- The input gate at (r, p): σ(((x · W_ix + b_ix) + s · W_ih) + b_ih). -/
theorem gate_i1 : Gen.k1_pay8 (Gen.k1_pay5 v2) (Gen.k1_pay7 v0 v33) v36 v40 v44 (ix2 r p)
    = Ideal.logistic (lin (tile2 v0) (mat v33) r p + row v36 p + lin (hsum (tile3 v2)) (mat v40) r p + row v44 p) := by
  unfold Gen.k1_pay8 Gen.k1_pay7 Gen.k1_pay5 Gen.k1_pay4 Gen.k1_pay3
  exact Tree.Lib.logistic_at (Tree.Lib.addf_at (Tree.Lib.addf_at (Tree.Lib.addf_at
    (Tree.Lib.xW_apply v0 v33 _ _ none r p) (Tree.Lib.biasRow_apply v36 _ _ r p))
    (Tree.Lib.hsumW_apply v2 v40 _ _ _ _ _ none r p)) (Tree.Lib.biasRow_apply v44 _ _ r p))

/-- The output gate at (r, p): σ(((x · W_ox + b_ox) + s · W_oh) + b_oh). -/
theorem gate_o1 : Gen.k1_pay9 (Gen.k1_pay4 v0) (Gen.k1_pay5 v2) v49 v52 v56 v60 (ix2 r p)
    = Ideal.logistic (lin (tile2 v0) (mat v49) r p + row v52 p + lin (hsum (tile3 v2)) (mat v56) r p + row v60 p) := by
  unfold Gen.k1_pay9 Gen.k1_pay5 Gen.k1_pay4 Gen.k1_pay3
  exact Tree.Lib.logistic_at (Tree.Lib.addf_at (Tree.Lib.addf_at (Tree.Lib.addf_at
    (Tree.Lib.xW_apply v0 v49 _ _ none r p) (Tree.Lib.biasRow_apply v52 _ _ r p))
    (Tree.Lib.hsumW_apply v2 v56 _ _ _ _ _ none r p)) (Tree.Lib.biasRow_apply v60 _ _ r p))

/-- The input part of the update at (r, p): x · W_ux + b_ux. -/
theorem update_x1 : Gen.k1_pay10 (Gen.k1_pay4 v0) v65 v68 (ix2 r p) = lin (tile2 v0) (mat v65) r p + row v68 p := by
  unfold Gen.k1_pay10 Gen.k1_pay4
  exact Tree.Lib.addf_at (Tree.Lib.xW_apply v0 v65 _ _ none r p) (Tree.Lib.biasRow_apply v68 _ _ r p)

/-- The stored memory cell at (r, p) is the recurrence's memory cell of an internal node. -/
theorem cTerm1_apply : cTerm1 v0 v2 v4 v11 v15 v20 v23 v33 v36 v40 v44 v49 v52 v56 v60 v65 v68 v72 v76 (ix2 r p)
    = intC (paramsOfRows v33 v36 v20 v23 v65 v68 v49 v52 v40 v44 v11 v15 v72 v76 v56 v60) (tile2 v0) (tile3 v2) (tile3 v4) r p := by
  unfold cTerm1 Gen.k1_pay1
  refine Tree.Lib.addf_at (Tree.Lib.mulf_at (gate_i1 v0 v2 v33 v36 v40 v44 r p)
    (Tree.Lib.tanh_at (Tree.Lib.addf_at (Tree.Lib.addf_at (update_x1 v0 v65 v68 r p) ?_)
      (Tree.Lib.biasRow_apply v76 _ _ r p)))) (forget_sum1 v0 v2 v4 v11 v15 v20 v23 r p)
  unfold Gen.k1_pay5 Gen.k1_pay3
  exact Tree.Lib.hsumW_apply v2 v72 _ _ _ _ _ none r p

/-- The stored hidden state at (r, p) is the recurrence's hidden state of an internal node. -/
theorem hTerm1_apply : hTerm1 v0 v2 v4 v11 v15 v20 v23 v33 v36 v40 v44 v49 v52 v56 v60 v65 v68 v72 v76 (ix2 r p)
    = intH (paramsOfRows v33 v36 v20 v23 v65 v68 v49 v52 v40 v44 v11 v15 v72 v76 v56 v60) (tile2 v0) (tile3 v2) (tile3 v4) r p := by
  unfold hTerm1 Gen.k1_pay2
  exact Tree.Lib.mulf_at (gate_o1 v0 v2 v49 v52 v56 v60 r p)
    (Tree.Lib.tanh_at (cTerm1_apply v0 v2 v4 v11 v15 v20 v23 v33 v36 v40 v44 v49 v52 v56 v60 v65 v68 v72 v76 r p))

end

end Cert.KernelIdeal.Pay

end
-- ==== Proof.KerArr1.lean ====
/-
  The level of 16384 internal nodes: from the tiles the grid's points write back to the two whole arrays.

  The grid has 32 points; point t handles the tile of nodes 512·t … 512·t + 511. Its input blocks are rows
  512·t + r of the input matrix and of the children's two arrays, and the sixteen parameter arrays whole (their
  index maps are constantly 0). The recurrence at a node reads only that node's rows, so what the point writes at row r
  of its two output blocks is the recurrence's value at node 512·t + r of the level; the output blocks tile the two
  output arrays (node R lies in point R / 512's block), so after the last point each array holds the level's values.
-/
import proofs.«167239_j63453846831535_1_alg».proof.Proof.KIRegion1
import proofs.«167239_j63453846831535_1_alg».proof.Proof.KerPay1
import proofs.«167239_j63453846831535_1_alg».proof.Proof.TreeSpecArr
import proofs.«167239_j63453846831535_1_alg».proof.Proof.TreeLocal
import Idealize.ShloMosaic.Lib.Pipeline.Value

set_option maxRecDepth 16384

noncomputable section

namespace Cert.KernelIdeal.Tree

open Cert.KernelIdeal Cert.KernelIdeal.Gen
open Idealize.ShloMosaic Idealize.ShloMosaic.TcCoe Idealize.ShloMosaic.ValueIdx
open Idealize.SL.Sem
open Idealize.ShloMosaic.Pipeline (Dat)
open Cert.TreeSpec

variable (V : (c : Dev nD) → (b : Ref sig .tc) → Buf (Elt Ideal) ((c : Thread nD τ).loc b)) (c : Dev nD)

/-! ## The index maps over the grid -/

theorem idx1_0 : ∀ t : Fin cfg1.N, win1_0.index t 0 = t.val ∧ win1_0.index t 1 = 0 :=
  (by decide +kernel : ∀ t : Fin grid1.N, win1_0.index t 0 = t.val ∧ win1_0.index t 1 = 0)
theorem idx1_1 : ∀ t : Fin cfg1.N, win1_1.index t 0 = t.val ∧ win1_1.index t 1 = 0 ∧ win1_1.index t 2 = 0 :=
  (by decide +kernel : ∀ t : Fin grid1.N, win1_1.index t 0 = t.val ∧ win1_1.index t 1 = 0 ∧ win1_1.index t 2 = 0)
theorem idx1_2 : ∀ t : Fin cfg1.N, win1_2.index t 0 = t.val ∧ win1_2.index t 1 = 0 ∧ win1_2.index t 2 = 0 :=
  (by decide +kernel : ∀ t : Fin grid1.N, win1_2.index t 0 = t.val ∧ win1_2.index t 1 = 0 ∧ win1_2.index t 2 = 0)
theorem idx1_3 : ∀ t : Fin cfg1.N, win1_3.index t 0 = 0 ∧ win1_3.index t 1 = 0 :=
  (by decide +kernel : ∀ t : Fin grid1.N, win1_3.index t 0 = 0 ∧ win1_3.index t 1 = 0)
theorem idx1_4 : ∀ t : Fin cfg1.N, win1_4.index t 0 = 0 ∧ win1_4.index t 1 = 0 :=
  (by decide +kernel : ∀ t : Fin grid1.N, win1_4.index t 0 = 0 ∧ win1_4.index t 1 = 0)
theorem idx1_5 : ∀ t : Fin cfg1.N, win1_5.index t 0 = 0 ∧ win1_5.index t 1 = 0 :=
  (by decide +kernel : ∀ t : Fin grid1.N, win1_5.index t 0 = 0 ∧ win1_5.index t 1 = 0)
theorem idx1_6 : ∀ t : Fin cfg1.N, win1_6.index t 0 = 0 ∧ win1_6.index t 1 = 0 :=
  (by decide +kernel : ∀ t : Fin grid1.N, win1_6.index t 0 = 0 ∧ win1_6.index t 1 = 0)
theorem idx1_7 : ∀ t : Fin cfg1.N, win1_7.index t 0 = 0 ∧ win1_7.index t 1 = 0 :=
  (by decide +kernel : ∀ t : Fin grid1.N, win1_7.index t 0 = 0 ∧ win1_7.index t 1 = 0)
theorem idx1_8 : ∀ t : Fin cfg1.N, win1_8.index t 0 = 0 ∧ win1_8.index t 1 = 0 :=
  (by decide +kernel : ∀ t : Fin grid1.N, win1_8.index t 0 = 0 ∧ win1_8.index t 1 = 0)
theorem idx1_9 : ∀ t : Fin cfg1.N, win1_9.index t 0 = 0 ∧ win1_9.index t 1 = 0 :=
  (by decide +kernel : ∀ t : Fin grid1.N, win1_9.index t 0 = 0 ∧ win1_9.index t 1 = 0)
theorem idx1_10 : ∀ t : Fin cfg1.N, win1_10.index t 0 = 0 ∧ win1_10.index t 1 = 0 :=
  (by decide +kernel : ∀ t : Fin grid1.N, win1_10.index t 0 = 0 ∧ win1_10.index t 1 = 0)
theorem idx1_11 : ∀ t : Fin cfg1.N, win1_11.index t 0 = 0 ∧ win1_11.index t 1 = 0 :=
  (by decide +kernel : ∀ t : Fin grid1.N, win1_11.index t 0 = 0 ∧ win1_11.index t 1 = 0)
theorem idx1_12 : ∀ t : Fin cfg1.N, win1_12.index t 0 = 0 ∧ win1_12.index t 1 = 0 :=
  (by decide +kernel : ∀ t : Fin grid1.N, win1_12.index t 0 = 0 ∧ win1_12.index t 1 = 0)
theorem idx1_13 : ∀ t : Fin cfg1.N, win1_13.index t 0 = 0 ∧ win1_13.index t 1 = 0 :=
  (by decide +kernel : ∀ t : Fin grid1.N, win1_13.index t 0 = 0 ∧ win1_13.index t 1 = 0)
theorem idx1_14 : ∀ t : Fin cfg1.N, win1_14.index t 0 = 0 ∧ win1_14.index t 1 = 0 :=
  (by decide +kernel : ∀ t : Fin grid1.N, win1_14.index t 0 = 0 ∧ win1_14.index t 1 = 0)
theorem idx1_15 : ∀ t : Fin cfg1.N, win1_15.index t 0 = 0 ∧ win1_15.index t 1 = 0 :=
  (by decide +kernel : ∀ t : Fin grid1.N, win1_15.index t 0 = 0 ∧ win1_15.index t 1 = 0)
theorem idx1_16 : ∀ t : Fin cfg1.N, win1_16.index t 0 = 0 ∧ win1_16.index t 1 = 0 :=
  (by decide +kernel : ∀ t : Fin grid1.N, win1_16.index t 0 = 0 ∧ win1_16.index t 1 = 0)
theorem idx1_17 : ∀ t : Fin cfg1.N, win1_17.index t 0 = 0 ∧ win1_17.index t 1 = 0 :=
  (by decide +kernel : ∀ t : Fin grid1.N, win1_17.index t 0 = 0 ∧ win1_17.index t 1 = 0)
theorem idx1_18 : ∀ t : Fin cfg1.N, win1_18.index t 0 = 0 ∧ win1_18.index t 1 = 0 :=
  (by decide +kernel : ∀ t : Fin grid1.N, win1_18.index t 0 = 0 ∧ win1_18.index t 1 = 0)
theorem idx1_19 : ∀ t : Fin cfg1.N, win1_19.index t 0 = t.val ∧ win1_19.index t 1 = 0 :=
  (by decide +kernel : ∀ t : Fin grid1.N, win1_19.index t 0 = t.val ∧ win1_19.index t 1 = 0)
theorem idx1_20 : ∀ t : Fin cfg1.N, win1_20.index t 0 = t.val ∧ win1_20.index t 1 = 0 :=
  (by decide +kernel : ∀ t : Fin grid1.N, win1_20.index t 0 = t.val ∧ win1_20.index t 1 = 0)

/-! ## The input blocks as parts of their arrays -/

/-- Row r of the input tile at point t is row 512·t + r of the input matrix. -/
theorem blk1_0 (t : Fin cfg1.N) (r : Fin 512) (k : Fin 300) (R : Fin 16384) (hR : R.val = t.val * 512 + r.val) :
    (iblk1 V c 0 t : S512x300.Idx → EReal) (ix2 r k) = (V c (Pipeline.arrRef spec1 0) : (⟨2, ![16384, 300]⟩ : Shape).Idx → EReal) (ix2 R k) := by
  have hi := idx1_0 t
  unfold iblk1
  rw [View.read_apply]
  show V c (Pipeline.arrRef spec1 0) _ = V c (Pipeline.arrRef spec1 0) _
  congr 1
  funext a
  apply Fin.ext
  match a with
  | ⟨0, _⟩ => show win1_0.index t 0 * 512 + 1 * r.val = R.val; rw [hi.1, hR]; omega
  | ⟨1, _⟩ => show win1_0.index t 1 * 300 + 1 * k.val = k.val; rw [hi.2]; omega

/-- The children of node r of the tile at point t are those of node 512·t + r of the level (window 1). -/
theorem blk1_1 (t : Fin cfg1.N) (r : Fin 512) (k : Fin 4) (j : Fin 150) (R : Fin 16384) (hR : R.val = t.val * 512 + r.val) :
    (iblk1 V c 1 t : S512x4x150.Idx → EReal) (ix3 r k j) = (V c (Pipeline.arrRef spec1 1) : (⟨3, ![16384, 4, 150]⟩ : Shape).Idx → EReal) (ix3 R k j) := by
  have hi := idx1_1 t
  unfold iblk1
  rw [View.read_apply]
  show V c (Pipeline.arrRef spec1 1) _ = V c (Pipeline.arrRef spec1 1) _
  congr 1
  funext a
  apply Fin.ext
  match a with
  | ⟨0, _⟩ => show win1_1.index t 0 * 512 + 1 * r.val = R.val; rw [hi.1, hR]; omega
  | ⟨1, _⟩ => show win1_1.index t 1 * 4 + 1 * k.val = k.val; rw [hi.2.1]; omega
  | ⟨2, _⟩ => show win1_1.index t 2 * 150 + 1 * j.val = j.val; rw [hi.2.2]; omega

/-- The children of node r of the tile at point t are those of node 512·t + r of the level (window 2). -/
theorem blk1_2 (t : Fin cfg1.N) (r : Fin 512) (k : Fin 4) (j : Fin 150) (R : Fin 16384) (hR : R.val = t.val * 512 + r.val) :
    (iblk1 V c 2 t : S512x4x150.Idx → EReal) (ix3 r k j) = (V c (Pipeline.arrRef spec1 2) : (⟨3, ![16384, 4, 150]⟩ : Shape).Idx → EReal) (ix3 R k j) := by
  have hi := idx1_2 t
  unfold iblk1
  rw [View.read_apply]
  show V c (Pipeline.arrRef spec1 2) _ = V c (Pipeline.arrRef spec1 2) _
  congr 1
  funext a
  apply Fin.ext
  match a with
  | ⟨0, _⟩ => show win1_2.index t 0 * 512 + 1 * r.val = R.val; rw [hi.1, hR]; omega
  | ⟨1, _⟩ => show win1_2.index t 1 * 4 + 1 * k.val = k.val; rw [hi.2.1]; omega
  | ⟨2, _⟩ => show win1_2.index t 2 * 150 + 1 * j.val = j.val; rw [hi.2.2]; omega

/-- Window 3's block at every point is its whole array. -/
theorem blk1_3 (t : Fin cfg1.N) (y : S300x150.Idx) :
    (iblk1 V c 3 t : S300x150.Idx → EReal) y = (V c (Pipeline.arrRef spec1 3) : S300x150.Idx → EReal) y := by
  have hi := idx1_3 t
  unfold iblk1
  rw [View.read_apply]
  show V c (Pipeline.arrRef spec1 3) _ = V c (Pipeline.arrRef spec1 3) _
  congr 1
  funext a
  apply Fin.ext
  match a with
  | ⟨0, _⟩ => show win1_3.index t 0 * 300 + 1 * (y 0).val = (y 0).val; rw [hi.1]; omega
  | ⟨1, _⟩ => show win1_3.index t 1 * 150 + 1 * (y 1).val = (y 1).val; rw [hi.2]; omega

/-- Window 4's block at every point is its whole array. -/
theorem blk1_4 (t : Fin cfg1.N) (y : S1x150.Idx) :
    (iblk1 V c 4 t : S1x150.Idx → EReal) y = (V c (Pipeline.arrRef spec1 4) : S1x150.Idx → EReal) y := by
  have hi := idx1_4 t
  unfold iblk1
  rw [View.read_apply]
  show V c (Pipeline.arrRef spec1 4) _ = V c (Pipeline.arrRef spec1 4) _
  congr 1
  funext a
  apply Fin.ext
  match a with
  | ⟨0, _⟩ => show win1_4.index t 0 * 1 + 1 * (y 0).val = (y 0).val; rw [hi.1]; omega
  | ⟨1, _⟩ => show win1_4.index t 1 * 150 + 1 * (y 1).val = (y 1).val; rw [hi.2]; omega

/-- Window 5's block at every point is its whole array. -/
theorem blk1_5 (t : Fin cfg1.N) (y : S300x150.Idx) :
    (iblk1 V c 5 t : S300x150.Idx → EReal) y = (V c (Pipeline.arrRef spec1 5) : S300x150.Idx → EReal) y := by
  have hi := idx1_5 t
  unfold iblk1
  rw [View.read_apply]
  show V c (Pipeline.arrRef spec1 5) _ = V c (Pipeline.arrRef spec1 5) _
  congr 1
  funext a
  apply Fin.ext
  match a with
  | ⟨0, _⟩ => show win1_5.index t 0 * 300 + 1 * (y 0).val = (y 0).val; rw [hi.1]; omega
  | ⟨1, _⟩ => show win1_5.index t 1 * 150 + 1 * (y 1).val = (y 1).val; rw [hi.2]; omega

/-- Window 6's block at every point is its whole array. -/
theorem blk1_6 (t : Fin cfg1.N) (y : S1x150.Idx) :
    (iblk1 V c 6 t : S1x150.Idx → EReal) y = (V c (Pipeline.arrRef spec1 6) : S1x150.Idx → EReal) y := by
  have hi := idx1_6 t
  unfold iblk1
  rw [View.read_apply]
  show V c (Pipeline.arrRef spec1 6) _ = V c (Pipeline.arrRef spec1 6) _
  congr 1
  funext a
  apply Fin.ext
  match a with
  | ⟨0, _⟩ => show win1_6.index t 0 * 1 + 1 * (y 0).val = (y 0).val; rw [hi.1]; omega
  | ⟨1, _⟩ => show win1_6.index t 1 * 150 + 1 * (y 1).val = (y 1).val; rw [hi.2]; omega

/-- Window 7's block at every point is its whole array. -/
theorem blk1_7 (t : Fin cfg1.N) (y : S300x150.Idx) :
    (iblk1 V c 7 t : S300x150.Idx → EReal) y = (V c (Pipeline.arrRef spec1 7) : S300x150.Idx → EReal) y := by
  have hi := idx1_7 t
  unfold iblk1
  rw [View.read_apply]
  show V c (Pipeline.arrRef spec1 7) _ = V c (Pipeline.arrRef spec1 7) _
  congr 1
  funext a
  apply Fin.ext
  match a with
  | ⟨0, _⟩ => show win1_7.index t 0 * 300 + 1 * (y 0).val = (y 0).val; rw [hi.1]; omega
  | ⟨1, _⟩ => show win1_7.index t 1 * 150 + 1 * (y 1).val = (y 1).val; rw [hi.2]; omega

/-- Window 8's block at every point is its whole array. -/
theorem blk1_8 (t : Fin cfg1.N) (y : S1x150.Idx) :
    (iblk1 V c 8 t : S1x150.Idx → EReal) y = (V c (Pipeline.arrRef spec1 8) : S1x150.Idx → EReal) y := by
  have hi := idx1_8 t
  unfold iblk1
  rw [View.read_apply]
  show V c (Pipeline.arrRef spec1 8) _ = V c (Pipeline.arrRef spec1 8) _
  congr 1
  funext a
  apply Fin.ext
  match a with
  | ⟨0, _⟩ => show win1_8.index t 0 * 1 + 1 * (y 0).val = (y 0).val; rw [hi.1]; omega
  | ⟨1, _⟩ => show win1_8.index t 1 * 150 + 1 * (y 1).val = (y 1).val; rw [hi.2]; omega

/-- Window 9's block at every point is its whole array. -/
theorem blk1_9 (t : Fin cfg1.N) (y : S300x150.Idx) :
    (iblk1 V c 9 t : S300x150.Idx → EReal) y = (V c (Pipeline.arrRef spec1 9) : S300x150.Idx → EReal) y := by
  have hi := idx1_9 t
  unfold iblk1
  rw [View.read_apply]
  show V c (Pipeline.arrRef spec1 9) _ = V c (Pipeline.arrRef spec1 9) _
  congr 1
  funext a
  apply Fin.ext
  match a with
  | ⟨0, _⟩ => show win1_9.index t 0 * 300 + 1 * (y 0).val = (y 0).val; rw [hi.1]; omega
  | ⟨1, _⟩ => show win1_9.index t 1 * 150 + 1 * (y 1).val = (y 1).val; rw [hi.2]; omega

/-- Window 10's block at every point is its whole array. -/
theorem blk1_10 (t : Fin cfg1.N) (y : S1x150.Idx) :
    (iblk1 V c 10 t : S1x150.Idx → EReal) y = (V c (Pipeline.arrRef spec1 10) : S1x150.Idx → EReal) y := by
  have hi := idx1_10 t
  unfold iblk1
  rw [View.read_apply]
  show V c (Pipeline.arrRef spec1 10) _ = V c (Pipeline.arrRef spec1 10) _
  congr 1
  funext a
  apply Fin.ext
  match a with
  | ⟨0, _⟩ => show win1_10.index t 0 * 1 + 1 * (y 0).val = (y 0).val; rw [hi.1]; omega
  | ⟨1, _⟩ => show win1_10.index t 1 * 150 + 1 * (y 1).val = (y 1).val; rw [hi.2]; omega

/-- Window 11's block at every point is its whole array. -/
theorem blk1_11 (t : Fin cfg1.N) (y : S150x150.Idx) :
    (iblk1 V c 11 t : S150x150.Idx → EReal) y = (V c (Pipeline.arrRef spec1 11) : S150x150.Idx → EReal) y := by
  have hi := idx1_11 t
  unfold iblk1
  rw [View.read_apply]
  show V c (Pipeline.arrRef spec1 11) _ = V c (Pipeline.arrRef spec1 11) _
  congr 1
  funext a
  apply Fin.ext
  match a with
  | ⟨0, _⟩ => show win1_11.index t 0 * 150 + 1 * (y 0).val = (y 0).val; rw [hi.1]; omega
  | ⟨1, _⟩ => show win1_11.index t 1 * 150 + 1 * (y 1).val = (y 1).val; rw [hi.2]; omega

/-- Window 12's block at every point is its whole array. -/
theorem blk1_12 (t : Fin cfg1.N) (y : S1x150.Idx) :
    (iblk1 V c 12 t : S1x150.Idx → EReal) y = (V c (Pipeline.arrRef spec1 12) : S1x150.Idx → EReal) y := by
  have hi := idx1_12 t
  unfold iblk1
  rw [View.read_apply]
  show V c (Pipeline.arrRef spec1 12) _ = V c (Pipeline.arrRef spec1 12) _
  congr 1
  funext a
  apply Fin.ext
  match a with
  | ⟨0, _⟩ => show win1_12.index t 0 * 1 + 1 * (y 0).val = (y 0).val; rw [hi.1]; omega
  | ⟨1, _⟩ => show win1_12.index t 1 * 150 + 1 * (y 1).val = (y 1).val; rw [hi.2]; omega

/-- Window 13's block at every point is its whole array. -/
theorem blk1_13 (t : Fin cfg1.N) (y : S150x150.Idx) :
    (iblk1 V c 13 t : S150x150.Idx → EReal) y = (V c (Pipeline.arrRef spec1 13) : S150x150.Idx → EReal) y := by
  have hi := idx1_13 t
  unfold iblk1
  rw [View.read_apply]
  show V c (Pipeline.arrRef spec1 13) _ = V c (Pipeline.arrRef spec1 13) _
  congr 1
  funext a
  apply Fin.ext
  match a with
  | ⟨0, _⟩ => show win1_13.index t 0 * 150 + 1 * (y 0).val = (y 0).val; rw [hi.1]; omega
  | ⟨1, _⟩ => show win1_13.index t 1 * 150 + 1 * (y 1).val = (y 1).val; rw [hi.2]; omega

/-- Window 14's block at every point is its whole array. -/
theorem blk1_14 (t : Fin cfg1.N) (y : S1x150.Idx) :
    (iblk1 V c 14 t : S1x150.Idx → EReal) y = (V c (Pipeline.arrRef spec1 14) : S1x150.Idx → EReal) y := by
  have hi := idx1_14 t
  unfold iblk1
  rw [View.read_apply]
  show V c (Pipeline.arrRef spec1 14) _ = V c (Pipeline.arrRef spec1 14) _
  congr 1
  funext a
  apply Fin.ext
  match a with
  | ⟨0, _⟩ => show win1_14.index t 0 * 1 + 1 * (y 0).val = (y 0).val; rw [hi.1]; omega
  | ⟨1, _⟩ => show win1_14.index t 1 * 150 + 1 * (y 1).val = (y 1).val; rw [hi.2]; omega

/-- Window 15's block at every point is its whole array. -/
theorem blk1_15 (t : Fin cfg1.N) (y : S150x150.Idx) :
    (iblk1 V c 15 t : S150x150.Idx → EReal) y = (V c (Pipeline.arrRef spec1 15) : S150x150.Idx → EReal) y := by
  have hi := idx1_15 t
  unfold iblk1
  rw [View.read_apply]
  show V c (Pipeline.arrRef spec1 15) _ = V c (Pipeline.arrRef spec1 15) _
  congr 1
  funext a
  apply Fin.ext
  match a with
  | ⟨0, _⟩ => show win1_15.index t 0 * 150 + 1 * (y 0).val = (y 0).val; rw [hi.1]; omega
  | ⟨1, _⟩ => show win1_15.index t 1 * 150 + 1 * (y 1).val = (y 1).val; rw [hi.2]; omega

/-- Window 16's block at every point is its whole array. -/
theorem blk1_16 (t : Fin cfg1.N) (y : S1x150.Idx) :
    (iblk1 V c 16 t : S1x150.Idx → EReal) y = (V c (Pipeline.arrRef spec1 16) : S1x150.Idx → EReal) y := by
  have hi := idx1_16 t
  unfold iblk1
  rw [View.read_apply]
  show V c (Pipeline.arrRef spec1 16) _ = V c (Pipeline.arrRef spec1 16) _
  congr 1
  funext a
  apply Fin.ext
  match a with
  | ⟨0, _⟩ => show win1_16.index t 0 * 1 + 1 * (y 0).val = (y 0).val; rw [hi.1]; omega
  | ⟨1, _⟩ => show win1_16.index t 1 * 150 + 1 * (y 1).val = (y 1).val; rw [hi.2]; omega

/-- Window 17's block at every point is its whole array. -/
theorem blk1_17 (t : Fin cfg1.N) (y : S150x150.Idx) :
    (iblk1 V c 17 t : S150x150.Idx → EReal) y = (V c (Pipeline.arrRef spec1 17) : S150x150.Idx → EReal) y := by
  have hi := idx1_17 t
  unfold iblk1
  rw [View.read_apply]
  show V c (Pipeline.arrRef spec1 17) _ = V c (Pipeline.arrRef spec1 17) _
  congr 1
  funext a
  apply Fin.ext
  match a with
  | ⟨0, _⟩ => show win1_17.index t 0 * 150 + 1 * (y 0).val = (y 0).val; rw [hi.1]; omega
  | ⟨1, _⟩ => show win1_17.index t 1 * 150 + 1 * (y 1).val = (y 1).val; rw [hi.2]; omega

/-- Window 18's block at every point is its whole array. -/
theorem blk1_18 (t : Fin cfg1.N) (y : S1x150.Idx) :
    (iblk1 V c 18 t : S1x150.Idx → EReal) y = (V c (Pipeline.arrRef spec1 18) : S1x150.Idx → EReal) y := by
  have hi := idx1_18 t
  unfold iblk1
  rw [View.read_apply]
  show V c (Pipeline.arrRef spec1 18) _ = V c (Pipeline.arrRef spec1 18) _
  congr 1
  funext a
  apply Fin.ext
  match a with
  | ⟨0, _⟩ => show win1_18.index t 0 * 1 + 1 * (y 0).val = (y 0).val; rw [hi.1]; omega
  | ⟨1, _⟩ => show win1_18.index t 1 * 150 + 1 * (y 1).val = (y 1).val; rw [hi.2]; omega

/-! ## What the body leaves in the output blocks -/

/-- The hidden-state block after the body is the tile's stored hidden state, as a function of the input blocks. -/
theorem out1_19_eq (x0 : Vec Ideal S512x300 .f32) (x1 : Vec Ideal S512x4x150 .f32) (x2 : Vec Ideal S512x4x150 .f32) (x3 : Vec Ideal S300x150 .f32) (x4 : Vec Ideal S1x150 .f32) (x5 : Vec Ideal S300x150 .f32) (x6 : Vec Ideal S1x150 .f32) (x7 : Vec Ideal S300x150 .f32) (x8 : Vec Ideal S1x150 .f32) (x9 : Vec Ideal S300x150 .f32) (x10 : Vec Ideal S1x150 .f32) (x11 : Vec Ideal S150x150 .f32) (x12 : Vec Ideal S1x150 .f32) (x13 : Vec Ideal S150x150 .f32) (x14 : Vec Ideal S1x150 .f32) (x15 : Vec Ideal S150x150 .f32) (x16 : Vec Ideal S1x150 .f32) (x17 : Vec Ideal S150x150 .f32) (x18 : Vec Ideal S1x150 .f32) :
    out1_19 x0 x1 x2 x3 x4 x5 x6 x7 x8 x9 x10 x11 x12 x13 x14 x15 x16 x17 x18 = Pay.hTerm1 x0 x1 x2 x13 x14 x5 x6 x3 x4 x11 x12 x9 x10 x17 x18 x7 x8 x15 x16 := by
  unfold out1_19
  rw [View.canon_unit_zero zero_off2]
  simp only [View.ld_unit_zero (S := S512x300) zero_off2, View.ld_unit_zero (S := S512x4x150) zero_off3, View.ld_unit_zero (S := S300x150) zero_off2, View.ld_unit_zero (S := S1x150) zero_off2, View.ld_unit_zero (S := S150x150) zero_off2]
  rfl

/-- The memory-cell block after the body is the tile's stored memory cell, as a function of the input blocks. -/
theorem out1_20_eq (x0 : Vec Ideal S512x300 .f32) (x1 : Vec Ideal S512x4x150 .f32) (x2 : Vec Ideal S512x4x150 .f32) (x3 : Vec Ideal S300x150 .f32) (x4 : Vec Ideal S1x150 .f32) (x5 : Vec Ideal S300x150 .f32) (x6 : Vec Ideal S1x150 .f32) (x7 : Vec Ideal S300x150 .f32) (x8 : Vec Ideal S1x150 .f32) (x9 : Vec Ideal S300x150 .f32) (x10 : Vec Ideal S1x150 .f32) (x11 : Vec Ideal S150x150 .f32) (x12 : Vec Ideal S1x150 .f32) (x13 : Vec Ideal S150x150 .f32) (x14 : Vec Ideal S1x150 .f32) (x15 : Vec Ideal S150x150 .f32) (x16 : Vec Ideal S1x150 .f32) (x17 : Vec Ideal S150x150 .f32) (x18 : Vec Ideal S1x150 .f32) :
    out1_20 x0 x1 x2 x3 x4 x5 x6 x7 x8 x9 x10 x11 x12 x13 x14 x15 x16 x17 x18 = Pay.cTerm1 x0 x1 x2 x13 x14 x5 x6 x3 x4 x11 x12 x9 x10 x17 x18 x7 x8 x15 x16 := by
  unfold out1_20
  rw [View.canon_unit_zero zero_off2]
  simp only [View.ld_unit_zero (S := S512x300) zero_off2, View.ld_unit_zero (S := S512x4x150) zero_off3, View.ld_unit_zero (S := S300x150) zero_off2, View.ld_unit_zero (S := S1x150) zero_off2, View.ld_unit_zero (S := S150x150) zero_off2]
  rfl

section
variable (P : Params) (X : Fin 16384 → Fin 300 → EReal) (CH CC : Fin 16384 → Fin 4 → Fin 150 → EReal)

/-- The parameter blocks at any point are the parameters. -/
theorem params1
    (h3 : ∀ k p, (V c (Pipeline.arrRef spec1 3) : S300x150.Idx → EReal) (ix2 k p) = P.Wix k p)
    (h4 : ∀ p, (V c (Pipeline.arrRef spec1 4) : S1x150.Idx → EReal) (ix2 0 p) = P.bix p)
    (h5 : ∀ k p, (V c (Pipeline.arrRef spec1 5) : S300x150.Idx → EReal) (ix2 k p) = P.Wfx k p)
    (h6 : ∀ p, (V c (Pipeline.arrRef spec1 6) : S1x150.Idx → EReal) (ix2 0 p) = P.bfx p)
    (h7 : ∀ k p, (V c (Pipeline.arrRef spec1 7) : S300x150.Idx → EReal) (ix2 k p) = P.Wux k p)
    (h8 : ∀ p, (V c (Pipeline.arrRef spec1 8) : S1x150.Idx → EReal) (ix2 0 p) = P.bux p)
    (h9 : ∀ k p, (V c (Pipeline.arrRef spec1 9) : S300x150.Idx → EReal) (ix2 k p) = P.Wox k p)
    (h10 : ∀ p, (V c (Pipeline.arrRef spec1 10) : S1x150.Idx → EReal) (ix2 0 p) = P.box p)
    (h11 : ∀ k p, (V c (Pipeline.arrRef spec1 11) : S150x150.Idx → EReal) (ix2 k p) = P.Wih k p)
    (h12 : ∀ p, (V c (Pipeline.arrRef spec1 12) : S1x150.Idx → EReal) (ix2 0 p) = P.bih p)
    (h13 : ∀ k p, (V c (Pipeline.arrRef spec1 13) : S150x150.Idx → EReal) (ix2 k p) = P.Wfh k p)
    (h14 : ∀ p, (V c (Pipeline.arrRef spec1 14) : S1x150.Idx → EReal) (ix2 0 p) = P.bfh p)
    (h15 : ∀ k p, (V c (Pipeline.arrRef spec1 15) : S150x150.Idx → EReal) (ix2 k p) = P.Wuh k p)
    (h16 : ∀ p, (V c (Pipeline.arrRef spec1 16) : S1x150.Idx → EReal) (ix2 0 p) = P.buh p)
    (h17 : ∀ k p, (V c (Pipeline.arrRef spec1 17) : S150x150.Idx → EReal) (ix2 k p) = P.Woh k p)
    (h18 : ∀ p, (V c (Pipeline.arrRef spec1 18) : S1x150.Idx → EReal) (ix2 0 p) = P.boh p)
    (t : Fin cfg1.N) :
    paramsOfRows (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) = P :=
  Params.eq_of_fields P
    (funext fun k => funext fun p => (blk1_3 V c t (ix2 k p)).trans (h3 k p))
    (funext fun p => (blk1_4 V c t (ix2 0 p)).trans (h4 p))
    (funext fun k => funext fun p => (blk1_5 V c t (ix2 k p)).trans (h5 k p))
    (funext fun p => (blk1_6 V c t (ix2 0 p)).trans (h6 p))
    (funext fun k => funext fun p => (blk1_7 V c t (ix2 k p)).trans (h7 k p))
    (funext fun p => (blk1_8 V c t (ix2 0 p)).trans (h8 p))
    (funext fun k => funext fun p => (blk1_9 V c t (ix2 k p)).trans (h9 k p))
    (funext fun p => (blk1_10 V c t (ix2 0 p)).trans (h10 p))
    (funext fun k => funext fun p => (blk1_11 V c t (ix2 k p)).trans (h11 k p))
    (funext fun p => (blk1_12 V c t (ix2 0 p)).trans (h12 p))
    (funext fun k => funext fun p => (blk1_13 V c t (ix2 k p)).trans (h13 k p))
    (funext fun p => (blk1_14 V c t (ix2 0 p)).trans (h14 p))
    (funext fun k => funext fun p => (blk1_15 V c t (ix2 k p)).trans (h15 k p))
    (funext fun p => (blk1_16 V c t (ix2 0 p)).trans (h16 p))
    (funext fun k => funext fun p => (blk1_17 V c t (ix2 k p)).trans (h17 k p))
    (funext fun p => (blk1_18 V c t (ix2 0 p)).trans (h18 p))

/-- Row r of the hidden-state block at point t is the hidden state of node 512·t + r. -/
theorem tile1_19
    (h0 : ∀ r k, (V c (Pipeline.arrRef spec1 0) : (⟨2, ![16384, 300]⟩ : Shape).Idx → EReal) (ix2 r k) = X r k)
    (h1 : ∀ r k j, (V c (Pipeline.arrRef spec1 1) : (⟨3, ![16384, 4, 150]⟩ : Shape).Idx → EReal) (ix3 r k j) = CH r k j)
    (h2 : ∀ r k j, (V c (Pipeline.arrRef spec1 2) : (⟨3, ![16384, 4, 150]⟩ : Shape).Idx → EReal) (ix3 r k j) = CC r k j)
    (h3 : ∀ k p, (V c (Pipeline.arrRef spec1 3) : S300x150.Idx → EReal) (ix2 k p) = P.Wix k p)
    (h4 : ∀ p, (V c (Pipeline.arrRef spec1 4) : S1x150.Idx → EReal) (ix2 0 p) = P.bix p)
    (h5 : ∀ k p, (V c (Pipeline.arrRef spec1 5) : S300x150.Idx → EReal) (ix2 k p) = P.Wfx k p)
    (h6 : ∀ p, (V c (Pipeline.arrRef spec1 6) : S1x150.Idx → EReal) (ix2 0 p) = P.bfx p)
    (h7 : ∀ k p, (V c (Pipeline.arrRef spec1 7) : S300x150.Idx → EReal) (ix2 k p) = P.Wux k p)
    (h8 : ∀ p, (V c (Pipeline.arrRef spec1 8) : S1x150.Idx → EReal) (ix2 0 p) = P.bux p)
    (h9 : ∀ k p, (V c (Pipeline.arrRef spec1 9) : S300x150.Idx → EReal) (ix2 k p) = P.Wox k p)
    (h10 : ∀ p, (V c (Pipeline.arrRef spec1 10) : S1x150.Idx → EReal) (ix2 0 p) = P.box p)
    (h11 : ∀ k p, (V c (Pipeline.arrRef spec1 11) : S150x150.Idx → EReal) (ix2 k p) = P.Wih k p)
    (h12 : ∀ p, (V c (Pipeline.arrRef spec1 12) : S1x150.Idx → EReal) (ix2 0 p) = P.bih p)
    (h13 : ∀ k p, (V c (Pipeline.arrRef spec1 13) : S150x150.Idx → EReal) (ix2 k p) = P.Wfh k p)
    (h14 : ∀ p, (V c (Pipeline.arrRef spec1 14) : S1x150.Idx → EReal) (ix2 0 p) = P.bfh p)
    (h15 : ∀ k p, (V c (Pipeline.arrRef spec1 15) : S150x150.Idx → EReal) (ix2 k p) = P.Wuh k p)
    (h16 : ∀ p, (V c (Pipeline.arrRef spec1 16) : S1x150.Idx → EReal) (ix2 0 p) = P.buh p)
    (h17 : ∀ k p, (V c (Pipeline.arrRef spec1 17) : S150x150.Idx → EReal) (ix2 k p) = P.Woh k p)
    (h18 : ∀ p, (V c (Pipeline.arrRef spec1 18) : S1x150.Idx → EReal) (ix2 0 p) = P.boh p)
    (t : Fin cfg1.N) (r : Fin 512) (p : Fin 150) (R : Fin 16384) (hR : R.val = t.val * 512 + r.val) :
    ((dat1 V c).after 19 t : S512x150.Idx → EReal) (ix2 r p) = intH P X CH CC R p := by
  rw [after1_19, out1_19_eq]
  refine (Pay.hTerm1_apply (iblk1 V c 0 t) (iblk1 V c 1 t) (iblk1 V c 2 t) (iblk1 V c 13 t) (iblk1 V c 14 t) (iblk1 V c 5 t) (iblk1 V c 6 t) (iblk1 V c 3 t) (iblk1 V c 4 t) (iblk1 V c 11 t) (iblk1 V c 12 t) (iblk1 V c 9 t) (iblk1 V c 10 t) (iblk1 V c 17 t) (iblk1 V c 18 t) (iblk1 V c 7 t) (iblk1 V c 8 t) (iblk1 V c 15 t) (iblk1 V c 16 t) r p).trans ?_
  exact intH_local (params1 V c P h3 h4 h5 h6 h7 h8 h9 h10 h11 h12 h13 h14 h15 h16 h17 h18 t)
    (funext fun k => (blk1_0 V c t r k R hR).trans (h0 R k))
    (funext fun k => funext fun j => (blk1_1 V c t r k j R hR).trans (h1 R k j))
    (funext fun k => funext fun j => (blk1_2 V c t r k j R hR).trans (h2 R k j)) p

/-- Row r of the memory-cell block at point t is the memory cell of node 512·t + r. -/
theorem tile1_20
    (h0 : ∀ r k, (V c (Pipeline.arrRef spec1 0) : (⟨2, ![16384, 300]⟩ : Shape).Idx → EReal) (ix2 r k) = X r k)
    (h1 : ∀ r k j, (V c (Pipeline.arrRef spec1 1) : (⟨3, ![16384, 4, 150]⟩ : Shape).Idx → EReal) (ix3 r k j) = CH r k j)
    (h2 : ∀ r k j, (V c (Pipeline.arrRef spec1 2) : (⟨3, ![16384, 4, 150]⟩ : Shape).Idx → EReal) (ix3 r k j) = CC r k j)
    (h3 : ∀ k p, (V c (Pipeline.arrRef spec1 3) : S300x150.Idx → EReal) (ix2 k p) = P.Wix k p)
    (h4 : ∀ p, (V c (Pipeline.arrRef spec1 4) : S1x150.Idx → EReal) (ix2 0 p) = P.bix p)
    (h5 : ∀ k p, (V c (Pipeline.arrRef spec1 5) : S300x150.Idx → EReal) (ix2 k p) = P.Wfx k p)
    (h6 : ∀ p, (V c (Pipeline.arrRef spec1 6) : S1x150.Idx → EReal) (ix2 0 p) = P.bfx p)
    (h7 : ∀ k p, (V c (Pipeline.arrRef spec1 7) : S300x150.Idx → EReal) (ix2 k p) = P.Wux k p)
    (h8 : ∀ p, (V c (Pipeline.arrRef spec1 8) : S1x150.Idx → EReal) (ix2 0 p) = P.bux p)
    (h9 : ∀ k p, (V c (Pipeline.arrRef spec1 9) : S300x150.Idx → EReal) (ix2 k p) = P.Wox k p)
    (h10 : ∀ p, (V c (Pipeline.arrRef spec1 10) : S1x150.Idx → EReal) (ix2 0 p) = P.box p)
    (h11 : ∀ k p, (V c (Pipeline.arrRef spec1 11) : S150x150.Idx → EReal) (ix2 k p) = P.Wih k p)
    (h12 : ∀ p, (V c (Pipeline.arrRef spec1 12) : S1x150.Idx → EReal) (ix2 0 p) = P.bih p)
    (h13 : ∀ k p, (V c (Pipeline.arrRef spec1 13) : S150x150.Idx → EReal) (ix2 k p) = P.Wfh k p)
    (h14 : ∀ p, (V c (Pipeline.arrRef spec1 14) : S1x150.Idx → EReal) (ix2 0 p) = P.bfh p)
    (h15 : ∀ k p, (V c (Pipeline.arrRef spec1 15) : S150x150.Idx → EReal) (ix2 k p) = P.Wuh k p)
    (h16 : ∀ p, (V c (Pipeline.arrRef spec1 16) : S1x150.Idx → EReal) (ix2 0 p) = P.buh p)
    (h17 : ∀ k p, (V c (Pipeline.arrRef spec1 17) : S150x150.Idx → EReal) (ix2 k p) = P.Woh k p)
    (h18 : ∀ p, (V c (Pipeline.arrRef spec1 18) : S1x150.Idx → EReal) (ix2 0 p) = P.boh p)
    (t : Fin cfg1.N) (r : Fin 512) (p : Fin 150) (R : Fin 16384) (hR : R.val = t.val * 512 + r.val) :
    ((dat1 V c).after 20 t : S512x150.Idx → EReal) (ix2 r p) = intC P X CH CC R p := by
  rw [after1_20, out1_20_eq]
  refine (Pay.cTerm1_apply (iblk1 V c 0 t) (iblk1 V c 1 t) (iblk1 V c 2 t) (iblk1 V c 13 t) (iblk1 V c 14 t) (iblk1 V c 5 t) (iblk1 V c 6 t) (iblk1 V c 3 t) (iblk1 V c 4 t) (iblk1 V c 11 t) (iblk1 V c 12 t) (iblk1 V c 9 t) (iblk1 V c 10 t) (iblk1 V c 17 t) (iblk1 V c 18 t) (iblk1 V c 7 t) (iblk1 V c 8 t) (iblk1 V c 15 t) (iblk1 V c 16 t) r p).trans ?_
  exact intC_local (params1 V c P h3 h4 h5 h6 h7 h8 h9 h10 h11 h12 h13 h14 h15 h16 h17 h18 t)
    (funext fun k => (blk1_0 V c t r k R hR).trans (h0 R k))
    (funext fun k => funext fun j => (blk1_1 V c t r k j R hR).trans (h1 R k j))
    (funext fun k => funext fun j => (blk1_2 V c t r k j R hR).trans (h2 R k j)) p

/-- Entry (r, p) of window 19's block at point t sits at (512·t + r, p) of its array. -/
theorem emb1_19 (t : Fin cfg1.N) (r : Fin 512) (p : Fin 150) (hR : t.val * 512 + r.val < 16384) :
    ((cfg1.win 19).blk t).view.emb (ix2 r p) = (ix2 ⟨t.val * 512 + r.val, hR⟩ p : (⟨2, ![16384, 150]⟩ : Shape).Idx) := by
  have hi := idx1_19 t
  funext a
  apply Fin.ext
  match a with
  | ⟨0, _⟩ => show win1_19.index t 0 * 512 + 1 * r.val = t.val * 512 + r.val; rw [hi.1]; omega
  | ⟨1, _⟩ => show win1_19.index t 1 * 150 + 1 * p.val = p.val; rw [hi.2]; omega

/-- What point t writes back through window 19 is its block of the level's values. -/
theorem flushed1_19
    (h0 : ∀ r k, (V c (Pipeline.arrRef spec1 0) : (⟨2, ![16384, 300]⟩ : Shape).Idx → EReal) (ix2 r k) = X r k)
    (h1 : ∀ r k j, (V c (Pipeline.arrRef spec1 1) : (⟨3, ![16384, 4, 150]⟩ : Shape).Idx → EReal) (ix3 r k j) = CH r k j)
    (h2 : ∀ r k j, (V c (Pipeline.arrRef spec1 2) : (⟨3, ![16384, 4, 150]⟩ : Shape).Idx → EReal) (ix3 r k j) = CC r k j)
    (h3 : ∀ k p, (V c (Pipeline.arrRef spec1 3) : S300x150.Idx → EReal) (ix2 k p) = P.Wix k p)
    (h4 : ∀ p, (V c (Pipeline.arrRef spec1 4) : S1x150.Idx → EReal) (ix2 0 p) = P.bix p)
    (h5 : ∀ k p, (V c (Pipeline.arrRef spec1 5) : S300x150.Idx → EReal) (ix2 k p) = P.Wfx k p)
    (h6 : ∀ p, (V c (Pipeline.arrRef spec1 6) : S1x150.Idx → EReal) (ix2 0 p) = P.bfx p)
    (h7 : ∀ k p, (V c (Pipeline.arrRef spec1 7) : S300x150.Idx → EReal) (ix2 k p) = P.Wux k p)
    (h8 : ∀ p, (V c (Pipeline.arrRef spec1 8) : S1x150.Idx → EReal) (ix2 0 p) = P.bux p)
    (h9 : ∀ k p, (V c (Pipeline.arrRef spec1 9) : S300x150.Idx → EReal) (ix2 k p) = P.Wox k p)
    (h10 : ∀ p, (V c (Pipeline.arrRef spec1 10) : S1x150.Idx → EReal) (ix2 0 p) = P.box p)
    (h11 : ∀ k p, (V c (Pipeline.arrRef spec1 11) : S150x150.Idx → EReal) (ix2 k p) = P.Wih k p)
    (h12 : ∀ p, (V c (Pipeline.arrRef spec1 12) : S1x150.Idx → EReal) (ix2 0 p) = P.bih p)
    (h13 : ∀ k p, (V c (Pipeline.arrRef spec1 13) : S150x150.Idx → EReal) (ix2 k p) = P.Wfh k p)
    (h14 : ∀ p, (V c (Pipeline.arrRef spec1 14) : S1x150.Idx → EReal) (ix2 0 p) = P.bfh p)
    (h15 : ∀ k p, (V c (Pipeline.arrRef spec1 15) : S150x150.Idx → EReal) (ix2 k p) = P.Wuh k p)
    (h16 : ∀ p, (V c (Pipeline.arrRef spec1 16) : S1x150.Idx → EReal) (ix2 0 p) = P.buh p)
    (h17 : ∀ k p, (V c (Pipeline.arrRef spec1 17) : S150x150.Idx → EReal) (ix2 k p) = P.Woh k p)
    (h18 : ∀ p, (V c (Pipeline.arrRef spec1 18) : S1x150.Idx → EReal) (ix2 0 p) = P.boh p)
    (t : Fin cfg1.N) :
    (dat1 V c).flushed 19 t
      = ((cfg1.win 19).blk t).view.read (Elt Ideal) (fun i : (⟨2, ![16384, 150]⟩ : Shape).Idx => intH P X CH CC (i 0) (i 1)) := by
  refine forall_ix2 (n0 := 512) (n1 := 150) fun r p => ?_
  have ht : t.val < 32 := t.isLt
  have hR : t.val * 512 + r.val < 16384 := by have := r.isLt; omega
  refine (tile1_19 V c P X CH CC h0 h1 h2 h3 h4 h5 h6 h7 h8 h9 h10 h11 h12 h13 h14 h15 h16 h17 h18 t r p ⟨_, hR⟩ rfl).trans ?_
  rw [View.read_apply]
  show _ = (fun i : (⟨2, ![16384, 150]⟩ : Shape).Idx => intH P X CH CC (i 0) (i 1)) (((cfg1.win 19).blk t).view.emb (ix2 r p))
  rw [emb1_19 t r p hR]

/-- Window 19's blocks cover its array: node R lies in the block of point R / 512. -/
theorem covered1_19 (i : (⟨2, ![16384, 150]⟩ : Shape).Idx) :
    ∃ t : Fin cfg1.N, (cfg1.win 19).flush t = true ∧ i ∈ ((cfg1.win 19).blk t).view.set := by
  have h0 : (i 0 : Nat) < 16384 := (i 0).isLt
  have h1 : (i 1 : Nat) < 150 := (i 1).isLt
  have hlt : (i 0 : Nat) / 512 < 32 := by omega
  refine ⟨⟨(i 0 : Nat) / 512, hlt⟩, flush1_19 _, ?_⟩
  have hi := idx1_19 ⟨(i 0 : Nat) / 512, hlt⟩
  show i ∈ ((View.whole (Pipeline.arrRef spec1 19)).slice (win1_19.rect ⟨(i 0 : Nat) / 512, hlt⟩)).set
  rw [View.set_slice_whole, Rect.mem_set_unit]
  intro a
  match a with
  | ⟨0, _⟩ =>
    show win1_19.index ⟨(i 0 : Nat) / 512, hlt⟩ 0 * 512 ≤ (i 0 : Nat) ∧ (i 0 : Nat) < win1_19.index ⟨(i 0 : Nat) / 512, hlt⟩ 0 * 512 + 512
    rw [hi.1]
    show (i 0 : Nat) / 512 * 512 ≤ (i 0 : Nat) ∧ (i 0 : Nat) < (i 0 : Nat) / 512 * 512 + 512
    omega
  | ⟨1, _⟩ =>
    show win1_19.index ⟨(i 0 : Nat) / 512, hlt⟩ 1 * 150 ≤ (i 1 : Nat) ∧ (i 1 : Nat) < win1_19.index ⟨(i 0 : Nat) / 512, hlt⟩ 1 * 150 + 150
    rw [hi.2]
    omega

/-- Entry (r, p) of window 20's block at point t sits at (512·t + r, p) of its array. -/
theorem emb1_20 (t : Fin cfg1.N) (r : Fin 512) (p : Fin 150) (hR : t.val * 512 + r.val < 16384) :
    ((cfg1.win 20).blk t).view.emb (ix2 r p) = (ix2 ⟨t.val * 512 + r.val, hR⟩ p : (⟨2, ![16384, 150]⟩ : Shape).Idx) := by
  have hi := idx1_20 t
  funext a
  apply Fin.ext
  match a with
  | ⟨0, _⟩ => show win1_20.index t 0 * 512 + 1 * r.val = t.val * 512 + r.val; rw [hi.1]; omega
  | ⟨1, _⟩ => show win1_20.index t 1 * 150 + 1 * p.val = p.val; rw [hi.2]; omega

/-- What point t writes back through window 20 is its block of the level's values. -/
theorem flushed1_20
    (h0 : ∀ r k, (V c (Pipeline.arrRef spec1 0) : (⟨2, ![16384, 300]⟩ : Shape).Idx → EReal) (ix2 r k) = X r k)
    (h1 : ∀ r k j, (V c (Pipeline.arrRef spec1 1) : (⟨3, ![16384, 4, 150]⟩ : Shape).Idx → EReal) (ix3 r k j) = CH r k j)
    (h2 : ∀ r k j, (V c (Pipeline.arrRef spec1 2) : (⟨3, ![16384, 4, 150]⟩ : Shape).Idx → EReal) (ix3 r k j) = CC r k j)
    (h3 : ∀ k p, (V c (Pipeline.arrRef spec1 3) : S300x150.Idx → EReal) (ix2 k p) = P.Wix k p)
    (h4 : ∀ p, (V c (Pipeline.arrRef spec1 4) : S1x150.Idx → EReal) (ix2 0 p) = P.bix p)
    (h5 : ∀ k p, (V c (Pipeline.arrRef spec1 5) : S300x150.Idx → EReal) (ix2 k p) = P.Wfx k p)
    (h6 : ∀ p, (V c (Pipeline.arrRef spec1 6) : S1x150.Idx → EReal) (ix2 0 p) = P.bfx p)
    (h7 : ∀ k p, (V c (Pipeline.arrRef spec1 7) : S300x150.Idx → EReal) (ix2 k p) = P.Wux k p)
    (h8 : ∀ p, (V c (Pipeline.arrRef spec1 8) : S1x150.Idx → EReal) (ix2 0 p) = P.bux p)
    (h9 : ∀ k p, (V c (Pipeline.arrRef spec1 9) : S300x150.Idx → EReal) (ix2 k p) = P.Wox k p)
    (h10 : ∀ p, (V c (Pipeline.arrRef spec1 10) : S1x150.Idx → EReal) (ix2 0 p) = P.box p)
    (h11 : ∀ k p, (V c (Pipeline.arrRef spec1 11) : S150x150.Idx → EReal) (ix2 k p) = P.Wih k p)
    (h12 : ∀ p, (V c (Pipeline.arrRef spec1 12) : S1x150.Idx → EReal) (ix2 0 p) = P.bih p)
    (h13 : ∀ k p, (V c (Pipeline.arrRef spec1 13) : S150x150.Idx → EReal) (ix2 k p) = P.Wfh k p)
    (h14 : ∀ p, (V c (Pipeline.arrRef spec1 14) : S1x150.Idx → EReal) (ix2 0 p) = P.bfh p)
    (h15 : ∀ k p, (V c (Pipeline.arrRef spec1 15) : S150x150.Idx → EReal) (ix2 k p) = P.Wuh k p)
    (h16 : ∀ p, (V c (Pipeline.arrRef spec1 16) : S1x150.Idx → EReal) (ix2 0 p) = P.buh p)
    (h17 : ∀ k p, (V c (Pipeline.arrRef spec1 17) : S150x150.Idx → EReal) (ix2 k p) = P.Woh k p)
    (h18 : ∀ p, (V c (Pipeline.arrRef spec1 18) : S1x150.Idx → EReal) (ix2 0 p) = P.boh p)
    (t : Fin cfg1.N) :
    (dat1 V c).flushed 20 t
      = ((cfg1.win 20).blk t).view.read (Elt Ideal) (fun i : (⟨2, ![16384, 150]⟩ : Shape).Idx => intC P X CH CC (i 0) (i 1)) := by
  refine forall_ix2 (n0 := 512) (n1 := 150) fun r p => ?_
  have ht : t.val < 32 := t.isLt
  have hR : t.val * 512 + r.val < 16384 := by have := r.isLt; omega
  refine (tile1_20 V c P X CH CC h0 h1 h2 h3 h4 h5 h6 h7 h8 h9 h10 h11 h12 h13 h14 h15 h16 h17 h18 t r p ⟨_, hR⟩ rfl).trans ?_
  rw [View.read_apply]
  show _ = (fun i : (⟨2, ![16384, 150]⟩ : Shape).Idx => intC P X CH CC (i 0) (i 1)) (((cfg1.win 20).blk t).view.emb (ix2 r p))
  rw [emb1_20 t r p hR]

/-- Window 20's blocks cover its array: node R lies in the block of point R / 512. -/
theorem covered1_20 (i : (⟨2, ![16384, 150]⟩ : Shape).Idx) :
    ∃ t : Fin cfg1.N, (cfg1.win 20).flush t = true ∧ i ∈ ((cfg1.win 20).blk t).view.set := by
  have h0 : (i 0 : Nat) < 16384 := (i 0).isLt
  have h1 : (i 1 : Nat) < 150 := (i 1).isLt
  have hlt : (i 0 : Nat) / 512 < 32 := by omega
  refine ⟨⟨(i 0 : Nat) / 512, hlt⟩, flush1_20 _, ?_⟩
  have hi := idx1_20 ⟨(i 0 : Nat) / 512, hlt⟩
  show i ∈ ((View.whole (Pipeline.arrRef spec1 20)).slice (win1_20.rect ⟨(i 0 : Nat) / 512, hlt⟩)).set
  rw [View.set_slice_whole, Rect.mem_set_unit]
  intro a
  match a with
  | ⟨0, _⟩ =>
    show win1_20.index ⟨(i 0 : Nat) / 512, hlt⟩ 0 * 512 ≤ (i 0 : Nat) ∧ (i 0 : Nat) < win1_20.index ⟨(i 0 : Nat) / 512, hlt⟩ 0 * 512 + 512
    rw [hi.1]
    show (i 0 : Nat) / 512 * 512 ≤ (i 0 : Nat) ∧ (i 0 : Nat) < (i 0 : Nat) / 512 * 512 + 512
    omega
  | ⟨1, _⟩ =>
    show win1_20.index ⟨(i 0 : Nat) / 512, hlt⟩ 1 * 150 ≤ (i 1 : Nat) ∧ (i 1 : Nat) < win1_20.index ⟨(i 0 : Nat) / 512, hlt⟩ 1 * 150 + 150
    rw [hi.2]
    omega

/-- After the last point the two output arrays hold the level's hidden states and memory cells. -/
theorem arr1
    (h0 : ∀ r k, (V c (Pipeline.arrRef spec1 0) : (⟨2, ![16384, 300]⟩ : Shape).Idx → EReal) (ix2 r k) = X r k)
    (h1 : ∀ r k j, (V c (Pipeline.arrRef spec1 1) : (⟨3, ![16384, 4, 150]⟩ : Shape).Idx → EReal) (ix3 r k j) = CH r k j)
    (h2 : ∀ r k j, (V c (Pipeline.arrRef spec1 2) : (⟨3, ![16384, 4, 150]⟩ : Shape).Idx → EReal) (ix3 r k j) = CC r k j)
    (h3 : ∀ k p, (V c (Pipeline.arrRef spec1 3) : S300x150.Idx → EReal) (ix2 k p) = P.Wix k p)
    (h4 : ∀ p, (V c (Pipeline.arrRef spec1 4) : S1x150.Idx → EReal) (ix2 0 p) = P.bix p)
    (h5 : ∀ k p, (V c (Pipeline.arrRef spec1 5) : S300x150.Idx → EReal) (ix2 k p) = P.Wfx k p)
    (h6 : ∀ p, (V c (Pipeline.arrRef spec1 6) : S1x150.Idx → EReal) (ix2 0 p) = P.bfx p)
    (h7 : ∀ k p, (V c (Pipeline.arrRef spec1 7) : S300x150.Idx → EReal) (ix2 k p) = P.Wux k p)
    (h8 : ∀ p, (V c (Pipeline.arrRef spec1 8) : S1x150.Idx → EReal) (ix2 0 p) = P.bux p)
    (h9 : ∀ k p, (V c (Pipeline.arrRef spec1 9) : S300x150.Idx → EReal) (ix2 k p) = P.Wox k p)
    (h10 : ∀ p, (V c (Pipeline.arrRef spec1 10) : S1x150.Idx → EReal) (ix2 0 p) = P.box p)
    (h11 : ∀ k p, (V c (Pipeline.arrRef spec1 11) : S150x150.Idx → EReal) (ix2 k p) = P.Wih k p)
    (h12 : ∀ p, (V c (Pipeline.arrRef spec1 12) : S1x150.Idx → EReal) (ix2 0 p) = P.bih p)
    (h13 : ∀ k p, (V c (Pipeline.arrRef spec1 13) : S150x150.Idx → EReal) (ix2 k p) = P.Wfh k p)
    (h14 : ∀ p, (V c (Pipeline.arrRef spec1 14) : S1x150.Idx → EReal) (ix2 0 p) = P.bfh p)
    (h15 : ∀ k p, (V c (Pipeline.arrRef spec1 15) : S150x150.Idx → EReal) (ix2 k p) = P.Wuh k p)
    (h16 : ∀ p, (V c (Pipeline.arrRef spec1 16) : S1x150.Idx → EReal) (ix2 0 p) = P.buh p)
    (h17 : ∀ k p, (V c (Pipeline.arrRef spec1 17) : S150x150.Idx → EReal) (ix2 k p) = P.Woh k p)
    (h18 : ∀ p, (V c (Pipeline.arrRef spec1 18) : S1x150.Idx → EReal) (ix2 0 p) = P.boh p) :
    (∀ r p, ((dat1 V c).arrAt 19 cfg1.N : (⟨2, ![16384, 150]⟩ : Shape).Idx → EReal) (ix2 r p) = intH P X CH CC r p)
      ∧ (∀ r p, ((dat1 V c).arrAt 20 cfg1.N : (⟨2, ![16384, 150]⟩ : Shape).Idx → EReal) (ix2 r p) = intC P X CH CC r p) :=
  ⟨fun r p => congrFun ((dat1 V c).arrAt_eq_of_cover 19 (fun i : (⟨2, ![16384, 150]⟩ : Shape).Idx => intH P X CH CC (i 0) (i 1))
      (fun t _ => flushed1_19 V c P X CH CC h0 h1 h2 h3 h4 h5 h6 h7 h8 h9 h10 h11 h12 h13 h14 h15 h16 h17 h18 t) (covered1_19)) (ix2 r p),
   fun r p => congrFun ((dat1 V c).arrAt_eq_of_cover 20 (fun i : (⟨2, ![16384, 150]⟩ : Shape).Idx => intC P X CH CC (i 0) (i 1))
      (fun t _ => flushed1_20 V c P X CH CC h0 h1 h2 h3 h4 h5 h6 h7 h8 h9 h10 h11 h12 h13 h14 h15 h16 h17 h18 t) (covered1_20)) (ix2 r p)⟩

end

end Cert.KernelIdeal.Tree

end
-- ==== Proof.KerPay2.lean ====
/-
  The two stored values of a tile of 512 internal nodes at an entry, on the extended reals.

  The tile holds 512 input rows x (300 numbers each) and, for every node, its four children's hidden states and memory
  cells (150 numbers each). The body sums the children's hidden states, s = h_0 + h_1 + h_2 + h_3, forms the products of
  x with W_ix, W_fx, W_ox, W_ux and of s with W_ih, W_oh, W_uh, and one product per child of h_k with W_fh — every operand
  first cast to a narrower float format, which changes nothing on the extended reals — and stores
      c = σ(((x · W_ix + b_ix) + s · W_ih) + b_ih) * tanh(((x · W_ux + b_ux) + s · W_uh) + b_uh)
            + Σ_k σ((h_k · W_fh + b_fh) + (x · W_fx + b_fx)) * c_k          and          h = σ(((x · W_ox + b_ox) + s · W_oh) + b_oh) * tanh c.
  Read at node r and coordinate p these are the recurrence's memory cell and hidden state of an internal node.
-/
import proofs.«167239_j63453846831535_1_alg».proof.Proof.Gen.KernelIdeal.Skeleton
import proofs.«167239_j63453846831535_1_alg».proof.Proof.TreeSpecArr
import proofs.«167239_j63453846831535_1_alg».proof.Proof.LibTreeOps

noncomputable section

namespace Cert.KernelIdeal.Pay

open Idealize.ShloMosaic Idealize.ShloMosaic.ValueIdx Cert.TreeSpec

/-- The stored hidden state of the tile, as a function of the nineteen loaded arrays. -/
def hTerm2 (v0 : Vec Ideal S512x300 .f32) (v2 v4 : Vec Ideal S512x4x150 .f32) (v11 : Vec Ideal S150x150 .f32)
    (v15 : Vec Ideal S1x150 .f32) (v20 : Vec Ideal S300x150 .f32) (v23 : Vec Ideal S1x150 .f32)
    (v33 : Vec Ideal S300x150 .f32) (v36 : Vec Ideal S1x150 .f32) (v40 : Vec Ideal S150x150 .f32)
    (v44 : Vec Ideal S1x150 .f32) (v49 : Vec Ideal S300x150 .f32) (v52 : Vec Ideal S1x150 .f32)
    (v56 : Vec Ideal S150x150 .f32) (v60 : Vec Ideal S1x150 .f32) (v65 : Vec Ideal S300x150 .f32)
    (v68 : Vec Ideal S1x150 .f32) (v72 : Vec Ideal S150x150 .f32) (v76 : Vec Ideal S1x150 .f32) : FVec Ideal S512x150 .f32 :=
  Gen.k2_pay2 (Gen.k2_pay5 v2) (Gen.k2_pay6 v0 v2 v4 v11 v15 v20 v23)
    (Gen.k2_pay8 (Gen.k2_pay5 v2) (Gen.k2_pay7 v0 v33) v36 v40 v44)
    (Gen.k2_pay9 (Gen.k2_pay4 v0) (Gen.k2_pay5 v2) v49 v52 v56 v60) (Gen.k2_pay10 (Gen.k2_pay4 v0) v65 v68) v72 v76

/-- The stored memory cell of the tile, as a function of the loaded arrays. -/
def cTerm2 (v0 : Vec Ideal S512x300 .f32) (v2 v4 : Vec Ideal S512x4x150 .f32) (v11 : Vec Ideal S150x150 .f32)
    (v15 : Vec Ideal S1x150 .f32) (v20 : Vec Ideal S300x150 .f32) (v23 : Vec Ideal S1x150 .f32)
    (v33 : Vec Ideal S300x150 .f32) (v36 : Vec Ideal S1x150 .f32) (v40 : Vec Ideal S150x150 .f32)
    (v44 : Vec Ideal S1x150 .f32) (v49 : Vec Ideal S300x150 .f32) (v52 : Vec Ideal S1x150 .f32)
    (v56 : Vec Ideal S150x150 .f32) (v60 : Vec Ideal S1x150 .f32) (v65 : Vec Ideal S300x150 .f32)
    (v68 : Vec Ideal S1x150 .f32) (v72 : Vec Ideal S150x150 .f32) (v76 : Vec Ideal S1x150 .f32) : FVec Ideal S512x150 .f32 :=
  Gen.k2_pay1 (Gen.k2_pay5 v2) (Gen.k2_pay6 v0 v2 v4 v11 v15 v20 v23)
    (Gen.k2_pay8 (Gen.k2_pay5 v2) (Gen.k2_pay7 v0 v33) v36 v40 v44) (Gen.k2_pay10 (Gen.k2_pay4 v0) v65 v68) v72 v76

section
variable (v0 : Vec Ideal S512x300 .f32) (v2 v4 : Vec Ideal S512x4x150 .f32) (v11 : Vec Ideal S150x150 .f32)
    (v15 : Vec Ideal S1x150 .f32) (v20 : Vec Ideal S300x150 .f32) (v23 : Vec Ideal S1x150 .f32)
    (v33 : Vec Ideal S300x150 .f32) (v36 : Vec Ideal S1x150 .f32) (v40 : Vec Ideal S150x150 .f32)
    (v44 : Vec Ideal S1x150 .f32) (v49 : Vec Ideal S300x150 .f32) (v52 : Vec Ideal S1x150 .f32)
    (v56 : Vec Ideal S150x150 .f32) (v60 : Vec Ideal S1x150 .f32) (v65 : Vec Ideal S300x150 .f32)
    (v68 : Vec Ideal S1x150 .f32) (v72 : Vec Ideal S150x150 .f32) (v76 : Vec Ideal S1x150 .f32)
  (r : Fin 512) (p : Fin 150)

/-- The children's memory cells weighted by their forget gates, summed, at (r, p). -/
theorem forget_sum2 : Gen.k2_pay6 v0 v2 v4 v11 v15 v20 v23 (ix2 r p)
    = ∑ k : Fin 4, Ideal.logistic (((∑ j : Fin 150, tile3 v2 r k j * mat v11 j p) + row v15 p)
        + (lin (tile2 v0) (mat v20) r p + row v23 p)) * tile3 v4 r k p := by
  unfold Gen.k2_pay6 Gen.k2_pay3 Gen.k2_pay4
  refine (Tree.Lib.sumMiddle_apply _ _ _ _ r p).trans (Finset.sum_congr rfl fun k _ => ?_)
  refine Tree.Lib.mulf_at (Tree.Lib.logistic_at (Tree.Lib.addf_at (Tree.Lib.addf_at ?_ ?_) ?_)) ?_
  · exact Tree.Lib.childW_apply 2048 rfl v2 v11 _ _ _ _ none r k p
  · exact Tree.Lib.biasRow3_apply v15 _ _ _ r k p
  · exact (Tree.Lib.spreadMiddle_apply _ _ _ r k p).trans
      (Tree.Lib.addf_at (Tree.Lib.xW_apply v0 v20 _ _ none r p) (Tree.Lib.biasRow_apply v23 _ _ r p))
  · exact congrFun (shapeCast_self v4 _) (ix3 r k p)

/-- The input gate at (r, p): σ(((x · W_ix + b_ix) + s · W_ih) + b_ih). -/
theorem gate_i2 : Gen.k2_pay8 (Gen.k2_pay5 v2) (Gen.k2_pay7 v0 v33) v36 v40 v44 (ix2 r p)
    = Ideal.logistic (lin (tile2 v0) (mat v33) r p + row v36 p + lin (hsum (tile3 v2)) (mat v40) r p + row v44 p) := by
  unfold Gen.k2_pay8 Gen.k2_pay7 Gen.k2_pay5 Gen.k2_pay4 Gen.k2_pay3
  exact Tree.Lib.logistic_at (Tree.Lib.addf_at (Tree.Lib.addf_at (Tree.Lib.addf_at
    (Tree.Lib.xW_apply v0 v33 _ _ none r p) (Tree.Lib.biasRow_apply v36 _ _ r p))
    (Tree.Lib.hsumW_apply v2 v40 _ _ _ _ _ none r p)) (Tree.Lib.biasRow_apply v44 _ _ r p))

/-- The output gate at (r, p): σ(((x · W_ox + b_ox) + s · W_oh) + b_oh). -/
theorem gate_o2 : Gen.k2_pay9 (Gen.k2_pay4 v0) (Gen.k2_pay5 v2) v49 v52 v56 v60 (ix2 r p)
    = Ideal.logistic (lin (tile2 v0) (mat v49) r p + row v52 p + lin (hsum (tile3 v2)) (mat v56) r p + row v60 p) := by
  unfold Gen.k2_pay9 Gen.k2_pay5 Gen.k2_pay4 Gen.k2_pay3
  exact Tree.Lib.logistic_at (Tree.Lib.addf_at (Tree.Lib.addf_at (Tree.Lib.addf_at
    (Tree.Lib.xW_apply v0 v49 _ _ none r p) (Tree.Lib.biasRow_apply v52 _ _ r p))
    (Tree.Lib.hsumW_apply v2 v56 _ _ _ _ _ none r p)) (Tree.Lib.biasRow_apply v60 _ _ r p))

/-- The input part of the update at (r, p): x · W_ux + b_ux. -/
theorem update_x2 : Gen.k2_pay10 (Gen.k2_pay4 v0) v65 v68 (ix2 r p) = lin (tile2 v0) (mat v65) r p + row v68 p := by
  unfold Gen.k2_pay10 Gen.k2_pay4
  exact Tree.Lib.addf_at (Tree.Lib.xW_apply v0 v65 _ _ none r p) (Tree.Lib.biasRow_apply v68 _ _ r p)

/-- The stored memory cell at (r, p) is the recurrence's memory cell of an internal node. -/
theorem cTerm2_apply : cTerm2 v0 v2 v4 v11 v15 v20 v23 v33 v36 v40 v44 v49 v52 v56 v60 v65 v68 v72 v76 (ix2 r p)
    = intC (paramsOfRows v33 v36 v20 v23 v65 v68 v49 v52 v40 v44 v11 v15 v72 v76 v56 v60) (tile2 v0) (tile3 v2) (tile3 v4) r p := by
  unfold cTerm2 Gen.k2_pay1
  refine Tree.Lib.addf_at (Tree.Lib.mulf_at (gate_i2 v0 v2 v33 v36 v40 v44 r p)
    (Tree.Lib.tanh_at (Tree.Lib.addf_at (Tree.Lib.addf_at (update_x2 v0 v65 v68 r p) ?_)
      (Tree.Lib.biasRow_apply v76 _ _ r p)))) (forget_sum2 v0 v2 v4 v11 v15 v20 v23 r p)
  unfold Gen.k2_pay5 Gen.k2_pay3
  exact Tree.Lib.hsumW_apply v2 v72 _ _ _ _ _ none r p

/-- The stored hidden state at (r, p) is the recurrence's hidden state of an internal node. -/
theorem hTerm2_apply : hTerm2 v0 v2 v4 v11 v15 v20 v23 v33 v36 v40 v44 v49 v52 v56 v60 v65 v68 v72 v76 (ix2 r p)
    = intH (paramsOfRows v33 v36 v20 v23 v65 v68 v49 v52 v40 v44 v11 v15 v72 v76 v56 v60) (tile2 v0) (tile3 v2) (tile3 v4) r p := by
  unfold hTerm2 Gen.k2_pay2
  exact Tree.Lib.mulf_at (gate_o2 v0 v2 v49 v52 v56 v60 r p)
    (Tree.Lib.tanh_at (cTerm2_apply v0 v2 v4 v11 v15 v20 v23 v33 v36 v40 v44 v49 v52 v56 v60 v65 v68 v72 v76 r p))

end

end Cert.KernelIdeal.Pay

end
-- ==== Proof.KerArr2.lean ====
/-
  The level of 4096 internal nodes: from the tiles the grid's points write back to the two whole arrays.

  The grid has 8 points; point t handles the tile of nodes 512·t … 512·t + 511. Its input blocks are rows
  512·t + r of the input matrix and of the children's two arrays, and the sixteen parameter arrays whole (their
  index maps are constantly 0). The recurrence at a node reads only that node's rows, so what the point writes at row r
  of its two output blocks is the recurrence's value at node 512·t + r of the level; the output blocks tile the two
  output arrays (node R lies in point R / 512's block), so after the last point each array holds the level's values.
-/
import proofs.«167239_j63453846831535_1_alg».proof.Proof.KIRegion2
import proofs.«167239_j63453846831535_1_alg».proof.Proof.KerPay2
import proofs.«167239_j63453846831535_1_alg».proof.Proof.TreeSpecArr
import proofs.«167239_j63453846831535_1_alg».proof.Proof.TreeLocal
import Idealize.ShloMosaic.Lib.Pipeline.Value

set_option maxRecDepth 16384

noncomputable section

namespace Cert.KernelIdeal.Tree

open Cert.KernelIdeal Cert.KernelIdeal.Gen
open Idealize.ShloMosaic Idealize.ShloMosaic.TcCoe Idealize.ShloMosaic.ValueIdx
open Idealize.SL.Sem
open Idealize.ShloMosaic.Pipeline (Dat)
open Cert.TreeSpec

variable (V : (c : Dev nD) → (b : Ref sig .tc) → Buf (Elt Ideal) ((c : Thread nD τ).loc b)) (c : Dev nD)

/-! ## The index maps over the grid -/

theorem idx2_0 : ∀ t : Fin cfg2.N, win2_0.index t 0 = t.val ∧ win2_0.index t 1 = 0 :=
  (by decide +kernel : ∀ t : Fin grid2.N, win2_0.index t 0 = t.val ∧ win2_0.index t 1 = 0)
theorem idx2_1 : ∀ t : Fin cfg2.N, win2_1.index t 0 = t.val ∧ win2_1.index t 1 = 0 ∧ win2_1.index t 2 = 0 :=
  (by decide +kernel : ∀ t : Fin grid2.N, win2_1.index t 0 = t.val ∧ win2_1.index t 1 = 0 ∧ win2_1.index t 2 = 0)
theorem idx2_2 : ∀ t : Fin cfg2.N, win2_2.index t 0 = t.val ∧ win2_2.index t 1 = 0 ∧ win2_2.index t 2 = 0 :=
  (by decide +kernel : ∀ t : Fin grid2.N, win2_2.index t 0 = t.val ∧ win2_2.index t 1 = 0 ∧ win2_2.index t 2 = 0)
theorem idx2_3 : ∀ t : Fin cfg2.N, win2_3.index t 0 = 0 ∧ win2_3.index t 1 = 0 :=
  (by decide +kernel : ∀ t : Fin grid2.N, win2_3.index t 0 = 0 ∧ win2_3.index t 1 = 0)
theorem idx2_4 : ∀ t : Fin cfg2.N, win2_4.index t 0 = 0 ∧ win2_4.index t 1 = 0 :=
  (by decide +kernel : ∀ t : Fin grid2.N, win2_4.index t 0 = 0 ∧ win2_4.index t 1 = 0)
theorem idx2_5 : ∀ t : Fin cfg2.N, win2_5.index t 0 = 0 ∧ win2_5.index t 1 = 0 :=
  (by decide +kernel : ∀ t : Fin grid2.N, win2_5.index t 0 = 0 ∧ win2_5.index t 1 = 0)
theorem idx2_6 : ∀ t : Fin cfg2.N, win2_6.index t 0 = 0 ∧ win2_6.index t 1 = 0 :=
  (by decide +kernel : ∀ t : Fin grid2.N, win2_6.index t 0 = 0 ∧ win2_6.index t 1 = 0)
theorem idx2_7 : ∀ t : Fin cfg2.N, win2_7.index t 0 = 0 ∧ win2_7.index t 1 = 0 :=
  (by decide +kernel : ∀ t : Fin grid2.N, win2_7.index t 0 = 0 ∧ win2_7.index t 1 = 0)
theorem idx2_8 : ∀ t : Fin cfg2.N, win2_8.index t 0 = 0 ∧ win2_8.index t 1 = 0 :=
  (by decide +kernel : ∀ t : Fin grid2.N, win2_8.index t 0 = 0 ∧ win2_8.index t 1 = 0)
theorem idx2_9 : ∀ t : Fin cfg2.N, win2_9.index t 0 = 0 ∧ win2_9.index t 1 = 0 :=
  (by decide +kernel : ∀ t : Fin grid2.N, win2_9.index t 0 = 0 ∧ win2_9.index t 1 = 0)
theorem idx2_10 : ∀ t : Fin cfg2.N, win2_10.index t 0 = 0 ∧ win2_10.index t 1 = 0 :=
  (by decide +kernel : ∀ t : Fin grid2.N, win2_10.index t 0 = 0 ∧ win2_10.index t 1 = 0)
theorem idx2_11 : ∀ t : Fin cfg2.N, win2_11.index t 0 = 0 ∧ win2_11.index t 1 = 0 :=
  (by decide +kernel : ∀ t : Fin grid2.N, win2_11.index t 0 = 0 ∧ win2_11.index t 1 = 0)
theorem idx2_12 : ∀ t : Fin cfg2.N, win2_12.index t 0 = 0 ∧ win2_12.index t 1 = 0 :=
  (by decide +kernel : ∀ t : Fin grid2.N, win2_12.index t 0 = 0 ∧ win2_12.index t 1 = 0)
theorem idx2_13 : ∀ t : Fin cfg2.N, win2_13.index t 0 = 0 ∧ win2_13.index t 1 = 0 :=
  (by decide +kernel : ∀ t : Fin grid2.N, win2_13.index t 0 = 0 ∧ win2_13.index t 1 = 0)
theorem idx2_14 : ∀ t : Fin cfg2.N, win2_14.index t 0 = 0 ∧ win2_14.index t 1 = 0 :=
  (by decide +kernel : ∀ t : Fin grid2.N, win2_14.index t 0 = 0 ∧ win2_14.index t 1 = 0)
theorem idx2_15 : ∀ t : Fin cfg2.N, win2_15.index t 0 = 0 ∧ win2_15.index t 1 = 0 :=
  (by decide +kernel : ∀ t : Fin grid2.N, win2_15.index t 0 = 0 ∧ win2_15.index t 1 = 0)
theorem idx2_16 : ∀ t : Fin cfg2.N, win2_16.index t 0 = 0 ∧ win2_16.index t 1 = 0 :=
  (by decide +kernel : ∀ t : Fin grid2.N, win2_16.index t 0 = 0 ∧ win2_16.index t 1 = 0)
theorem idx2_17 : ∀ t : Fin cfg2.N, win2_17.index t 0 = 0 ∧ win2_17.index t 1 = 0 :=
  (by decide +kernel : ∀ t : Fin grid2.N, win2_17.index t 0 = 0 ∧ win2_17.index t 1 = 0)
theorem idx2_18 : ∀ t : Fin cfg2.N, win2_18.index t 0 = 0 ∧ win2_18.index t 1 = 0 :=
  (by decide +kernel : ∀ t : Fin grid2.N, win2_18.index t 0 = 0 ∧ win2_18.index t 1 = 0)
theorem idx2_19 : ∀ t : Fin cfg2.N, win2_19.index t 0 = t.val ∧ win2_19.index t 1 = 0 :=
  (by decide +kernel : ∀ t : Fin grid2.N, win2_19.index t 0 = t.val ∧ win2_19.index t 1 = 0)
theorem idx2_20 : ∀ t : Fin cfg2.N, win2_20.index t 0 = t.val ∧ win2_20.index t 1 = 0 :=
  (by decide +kernel : ∀ t : Fin grid2.N, win2_20.index t 0 = t.val ∧ win2_20.index t 1 = 0)

/-! ## The input blocks as parts of their arrays -/

/-- Row r of the input tile at point t is row 512·t + r of the input matrix. -/
theorem blk2_0 (t : Fin cfg2.N) (r : Fin 512) (k : Fin 300) (R : Fin 4096) (hR : R.val = t.val * 512 + r.val) :
    (iblk2 V c 0 t : S512x300.Idx → EReal) (ix2 r k) = (V c (Pipeline.arrRef spec2 0) : (⟨2, ![4096, 300]⟩ : Shape).Idx → EReal) (ix2 R k) := by
  have hi := idx2_0 t
  unfold iblk2
  rw [View.read_apply]
  show V c (Pipeline.arrRef spec2 0) _ = V c (Pipeline.arrRef spec2 0) _
  congr 1
  funext a
  apply Fin.ext
  match a with
  | ⟨0, _⟩ => show win2_0.index t 0 * 512 + 1 * r.val = R.val; rw [hi.1, hR]; omega
  | ⟨1, _⟩ => show win2_0.index t 1 * 300 + 1 * k.val = k.val; rw [hi.2]; omega

/-- The children of node r of the tile at point t are those of node 512·t + r of the level (window 1). -/
theorem blk2_1 (t : Fin cfg2.N) (r : Fin 512) (k : Fin 4) (j : Fin 150) (R : Fin 4096) (hR : R.val = t.val * 512 + r.val) :
    (iblk2 V c 1 t : S512x4x150.Idx → EReal) (ix3 r k j) = (V c (Pipeline.arrRef spec2 1) : (⟨3, ![4096, 4, 150]⟩ : Shape).Idx → EReal) (ix3 R k j) := by
  have hi := idx2_1 t
  unfold iblk2
  rw [View.read_apply]
  show V c (Pipeline.arrRef spec2 1) _ = V c (Pipeline.arrRef spec2 1) _
  congr 1
  funext a
  apply Fin.ext
  match a with
  | ⟨0, _⟩ => show win2_1.index t 0 * 512 + 1 * r.val = R.val; rw [hi.1, hR]; omega
  | ⟨1, _⟩ => show win2_1.index t 1 * 4 + 1 * k.val = k.val; rw [hi.2.1]; omega
  | ⟨2, _⟩ => show win2_1.index t 2 * 150 + 1 * j.val = j.val; rw [hi.2.2]; omega

/-- The children of node r of the tile at point t are those of node 512·t + r of the level (window 2). -/
theorem blk2_2 (t : Fin cfg2.N) (r : Fin 512) (k : Fin 4) (j : Fin 150) (R : Fin 4096) (hR : R.val = t.val * 512 + r.val) :
    (iblk2 V c 2 t : S512x4x150.Idx → EReal) (ix3 r k j) = (V c (Pipeline.arrRef spec2 2) : (⟨3, ![4096, 4, 150]⟩ : Shape).Idx → EReal) (ix3 R k j) := by
  have hi := idx2_2 t
  unfold iblk2
  rw [View.read_apply]
  show V c (Pipeline.arrRef spec2 2) _ = V c (Pipeline.arrRef spec2 2) _
  congr 1
  funext a
  apply Fin.ext
  match a with
  | ⟨0, _⟩ => show win2_2.index t 0 * 512 + 1 * r.val = R.val; rw [hi.1, hR]; omega
  | ⟨1, _⟩ => show win2_2.index t 1 * 4 + 1 * k.val = k.val; rw [hi.2.1]; omega
  | ⟨2, _⟩ => show win2_2.index t 2 * 150 + 1 * j.val = j.val; rw [hi.2.2]; omega

/-- Window 3's block at every point is its whole array. -/
theorem blk2_3 (t : Fin cfg2.N) (y : S300x150.Idx) :
    (iblk2 V c 3 t : S300x150.Idx → EReal) y = (V c (Pipeline.arrRef spec2 3) : S300x150.Idx → EReal) y := by
  have hi := idx2_3 t
  unfold iblk2
  rw [View.read_apply]
  show V c (Pipeline.arrRef spec2 3) _ = V c (Pipeline.arrRef spec2 3) _
  congr 1
  funext a
  apply Fin.ext
  match a with
  | ⟨0, _⟩ => show win2_3.index t 0 * 300 + 1 * (y 0).val = (y 0).val; rw [hi.1]; omega
  | ⟨1, _⟩ => show win2_3.index t 1 * 150 + 1 * (y 1).val = (y 1).val; rw [hi.2]; omega

/-- Window 4's block at every point is its whole array. -/
theorem blk2_4 (t : Fin cfg2.N) (y : S1x150.Idx) :
    (iblk2 V c 4 t : S1x150.Idx → EReal) y = (V c (Pipeline.arrRef spec2 4) : S1x150.Idx → EReal) y := by
  have hi := idx2_4 t
  unfold iblk2
  rw [View.read_apply]
  show V c (Pipeline.arrRef spec2 4) _ = V c (Pipeline.arrRef spec2 4) _
  congr 1
  funext a
  apply Fin.ext
  match a with
  | ⟨0, _⟩ => show win2_4.index t 0 * 1 + 1 * (y 0).val = (y 0).val; rw [hi.1]; omega
  | ⟨1, _⟩ => show win2_4.index t 1 * 150 + 1 * (y 1).val = (y 1).val; rw [hi.2]; omega

/-- Window 5's block at every point is its whole array. -/
theorem blk2_5 (t : Fin cfg2.N) (y : S300x150.Idx) :
    (iblk2 V c 5 t : S300x150.Idx → EReal) y = (V c (Pipeline.arrRef spec2 5) : S300x150.Idx → EReal) y := by
  have hi := idx2_5 t
  unfold iblk2
  rw [View.read_apply]
  show V c (Pipeline.arrRef spec2 5) _ = V c (Pipeline.arrRef spec2 5) _
  congr 1
  funext a
  apply Fin.ext
  match a with
  | ⟨0, _⟩ => show win2_5.index t 0 * 300 + 1 * (y 0).val = (y 0).val; rw [hi.1]; omega
  | ⟨1, _⟩ => show win2_5.index t 1 * 150 + 1 * (y 1).val = (y 1).val; rw [hi.2]; omega

/-- Window 6's block at every point is its whole array. -/
theorem blk2_6 (t : Fin cfg2.N) (y : S1x150.Idx) :
    (iblk2 V c 6 t : S1x150.Idx → EReal) y = (V c (Pipeline.arrRef spec2 6) : S1x150.Idx → EReal) y := by
  have hi := idx2_6 t
  unfold iblk2
  rw [View.read_apply]
  show V c (Pipeline.arrRef spec2 6) _ = V c (Pipeline.arrRef spec2 6) _
  congr 1
  funext a
  apply Fin.ext
  match a with
  | ⟨0, _⟩ => show win2_6.index t 0 * 1 + 1 * (y 0).val = (y 0).val; rw [hi.1]; omega
  | ⟨1, _⟩ => show win2_6.index t 1 * 150 + 1 * (y 1).val = (y 1).val; rw [hi.2]; omega

/-- Window 7's block at every point is its whole array. -/
theorem blk2_7 (t : Fin cfg2.N) (y : S300x150.Idx) :
    (iblk2 V c 7 t : S300x150.Idx → EReal) y = (V c (Pipeline.arrRef spec2 7) : S300x150.Idx → EReal) y := by
  have hi := idx2_7 t
  unfold iblk2
  rw [View.read_apply]
  show V c (Pipeline.arrRef spec2 7) _ = V c (Pipeline.arrRef spec2 7) _
  congr 1
  funext a
  apply Fin.ext
  match a with
  | ⟨0, _⟩ => show win2_7.index t 0 * 300 + 1 * (y 0).val = (y 0).val; rw [hi.1]; omega
  | ⟨1, _⟩ => show win2_7.index t 1 * 150 + 1 * (y 1).val = (y 1).val; rw [hi.2]; omega

/-- Window 8's block at every point is its whole array. -/
theorem blk2_8 (t : Fin cfg2.N) (y : S1x150.Idx) :
    (iblk2 V c 8 t : S1x150.Idx → EReal) y = (V c (Pipeline.arrRef spec2 8) : S1x150.Idx → EReal) y := by
  have hi := idx2_8 t
  unfold iblk2
  rw [View.read_apply]
  show V c (Pipeline.arrRef spec2 8) _ = V c (Pipeline.arrRef spec2 8) _
  congr 1
  funext a
  apply Fin.ext
  match a with
  | ⟨0, _⟩ => show win2_8.index t 0 * 1 + 1 * (y 0).val = (y 0).val; rw [hi.1]; omega
  | ⟨1, _⟩ => show win2_8.index t 1 * 150 + 1 * (y 1).val = (y 1).val; rw [hi.2]; omega

/-- Window 9's block at every point is its whole array. -/
theorem blk2_9 (t : Fin cfg2.N) (y : S300x150.Idx) :
    (iblk2 V c 9 t : S300x150.Idx → EReal) y = (V c (Pipeline.arrRef spec2 9) : S300x150.Idx → EReal) y := by
  have hi := idx2_9 t
  unfold iblk2
  rw [View.read_apply]
  show V c (Pipeline.arrRef spec2 9) _ = V c (Pipeline.arrRef spec2 9) _
  congr 1
  funext a
  apply Fin.ext
  match a with
  | ⟨0, _⟩ => show win2_9.index t 0 * 300 + 1 * (y 0).val = (y 0).val; rw [hi.1]; omega
  | ⟨1, _⟩ => show win2_9.index t 1 * 150 + 1 * (y 1).val = (y 1).val; rw [hi.2]; omega

/-- Window 10's block at every point is its whole array. -/
theorem blk2_10 (t : Fin cfg2.N) (y : S1x150.Idx) :
    (iblk2 V c 10 t : S1x150.Idx → EReal) y = (V c (Pipeline.arrRef spec2 10) : S1x150.Idx → EReal) y := by
  have hi := idx2_10 t
  unfold iblk2
  rw [View.read_apply]
  show V c (Pipeline.arrRef spec2 10) _ = V c (Pipeline.arrRef spec2 10) _
  congr 1
  funext a
  apply Fin.ext
  match a with
  | ⟨0, _⟩ => show win2_10.index t 0 * 1 + 1 * (y 0).val = (y 0).val; rw [hi.1]; omega
  | ⟨1, _⟩ => show win2_10.index t 1 * 150 + 1 * (y 1).val = (y 1).val; rw [hi.2]; omega

/-- Window 11's block at every point is its whole array. -/
theorem blk2_11 (t : Fin cfg2.N) (y : S150x150.Idx) :
    (iblk2 V c 11 t : S150x150.Idx → EReal) y = (V c (Pipeline.arrRef spec2 11) : S150x150.Idx → EReal) y := by
  have hi := idx2_11 t
  unfold iblk2
  rw [View.read_apply]
  show V c (Pipeline.arrRef spec2 11) _ = V c (Pipeline.arrRef spec2 11) _
  congr 1
  funext a
  apply Fin.ext
  match a with
  | ⟨0, _⟩ => show win2_11.index t 0 * 150 + 1 * (y 0).val = (y 0).val; rw [hi.1]; omega
  | ⟨1, _⟩ => show win2_11.index t 1 * 150 + 1 * (y 1).val = (y 1).val; rw [hi.2]; omega

/-- Window 12's block at every point is its whole array. -/
theorem blk2_12 (t : Fin cfg2.N) (y : S1x150.Idx) :
    (iblk2 V c 12 t : S1x150.Idx → EReal) y = (V c (Pipeline.arrRef spec2 12) : S1x150.Idx → EReal) y := by
  have hi := idx2_12 t
  unfold iblk2
  rw [View.read_apply]
  show V c (Pipeline.arrRef spec2 12) _ = V c (Pipeline.arrRef spec2 12) _
  congr 1
  funext a
  apply Fin.ext
  match a with
  | ⟨0, _⟩ => show win2_12.index t 0 * 1 + 1 * (y 0).val = (y 0).val; rw [hi.1]; omega
  | ⟨1, _⟩ => show win2_12.index t 1 * 150 + 1 * (y 1).val = (y 1).val; rw [hi.2]; omega

/-- Window 13's block at every point is its whole array. -/
theorem blk2_13 (t : Fin cfg2.N) (y : S150x150.Idx) :
    (iblk2 V c 13 t : S150x150.Idx → EReal) y = (V c (Pipeline.arrRef spec2 13) : S150x150.Idx → EReal) y := by
  have hi := idx2_13 t
  unfold iblk2
  rw [View.read_apply]
  show V c (Pipeline.arrRef spec2 13) _ = V c (Pipeline.arrRef spec2 13) _
  congr 1
  funext a
  apply Fin.ext
  match a with
  | ⟨0, _⟩ => show win2_13.index t 0 * 150 + 1 * (y 0).val = (y 0).val; rw [hi.1]; omega
  | ⟨1, _⟩ => show win2_13.index t 1 * 150 + 1 * (y 1).val = (y 1).val; rw [hi.2]; omega

/-- Window 14's block at every point is its whole array. -/
theorem blk2_14 (t : Fin cfg2.N) (y : S1x150.Idx) :
    (iblk2 V c 14 t : S1x150.Idx → EReal) y = (V c (Pipeline.arrRef spec2 14) : S1x150.Idx → EReal) y := by
  have hi := idx2_14 t
  unfold iblk2
  rw [View.read_apply]
  show V c (Pipeline.arrRef spec2 14) _ = V c (Pipeline.arrRef spec2 14) _
  congr 1
  funext a
  apply Fin.ext
  match a with
  | ⟨0, _⟩ => show win2_14.index t 0 * 1 + 1 * (y 0).val = (y 0).val; rw [hi.1]; omega
  | ⟨1, _⟩ => show win2_14.index t 1 * 150 + 1 * (y 1).val = (y 1).val; rw [hi.2]; omega

/-- Window 15's block at every point is its whole array. -/
theorem blk2_15 (t : Fin cfg2.N) (y : S150x150.Idx) :
    (iblk2 V c 15 t : S150x150.Idx → EReal) y = (V c (Pipeline.arrRef spec2 15) : S150x150.Idx → EReal) y := by
  have hi := idx2_15 t
  unfold iblk2
  rw [View.read_apply]
  show V c (Pipeline.arrRef spec2 15) _ = V c (Pipeline.arrRef spec2 15) _
  congr 1
  funext a
  apply Fin.ext
  match a with
  | ⟨0, _⟩ => show win2_15.index t 0 * 150 + 1 * (y 0).val = (y 0).val; rw [hi.1]; omega
  | ⟨1, _⟩ => show win2_15.index t 1 * 150 + 1 * (y 1).val = (y 1).val; rw [hi.2]; omega

/-- Window 16's block at every point is its whole array. -/
theorem blk2_16 (t : Fin cfg2.N) (y : S1x150.Idx) :
    (iblk2 V c 16 t : S1x150.Idx → EReal) y = (V c (Pipeline.arrRef spec2 16) : S1x150.Idx → EReal) y := by
  have hi := idx2_16 t
  unfold iblk2
  rw [View.read_apply]
  show V c (Pipeline.arrRef spec2 16) _ = V c (Pipeline.arrRef spec2 16) _
  congr 1
  funext a
  apply Fin.ext
  match a with
  | ⟨0, _⟩ => show win2_16.index t 0 * 1 + 1 * (y 0).val = (y 0).val; rw [hi.1]; omega
  | ⟨1, _⟩ => show win2_16.index t 1 * 150 + 1 * (y 1).val = (y 1).val; rw [hi.2]; omega

/-- Window 17's block at every point is its whole array. -/
theorem blk2_17 (t : Fin cfg2.N) (y : S150x150.Idx) :
    (iblk2 V c 17 t : S150x150.Idx → EReal) y = (V c (Pipeline.arrRef spec2 17) : S150x150.Idx → EReal) y := by
  have hi := idx2_17 t
  unfold iblk2
  rw [View.read_apply]
  show V c (Pipeline.arrRef spec2 17) _ = V c (Pipeline.arrRef spec2 17) _
  congr 1
  funext a
  apply Fin.ext
  match a with
  | ⟨0, _⟩ => show win2_17.index t 0 * 150 + 1 * (y 0).val = (y 0).val; rw [hi.1]; omega
  | ⟨1, _⟩ => show win2_17.index t 1 * 150 + 1 * (y 1).val = (y 1).val; rw [hi.2]; omega

/-- Window 18's block at every point is its whole array. -/
theorem blk2_18 (t : Fin cfg2.N) (y : S1x150.Idx) :
    (iblk2 V c 18 t : S1x150.Idx → EReal) y = (V c (Pipeline.arrRef spec2 18) : S1x150.Idx → EReal) y := by
  have hi := idx2_18 t
  unfold iblk2
  rw [View.read_apply]
  show V c (Pipeline.arrRef spec2 18) _ = V c (Pipeline.arrRef spec2 18) _
  congr 1
  funext a
  apply Fin.ext
  match a with
  | ⟨0, _⟩ => show win2_18.index t 0 * 1 + 1 * (y 0).val = (y 0).val; rw [hi.1]; omega
  | ⟨1, _⟩ => show win2_18.index t 1 * 150 + 1 * (y 1).val = (y 1).val; rw [hi.2]; omega

/-! ## What the body leaves in the output blocks -/

/-- The hidden-state block after the body is the tile's stored hidden state, as a function of the input blocks. -/
theorem out2_19_eq (x0 : Vec Ideal S512x300 .f32) (x1 : Vec Ideal S512x4x150 .f32) (x2 : Vec Ideal S512x4x150 .f32) (x3 : Vec Ideal S300x150 .f32) (x4 : Vec Ideal S1x150 .f32) (x5 : Vec Ideal S300x150 .f32) (x6 : Vec Ideal S1x150 .f32) (x7 : Vec Ideal S300x150 .f32) (x8 : Vec Ideal S1x150 .f32) (x9 : Vec Ideal S300x150 .f32) (x10 : Vec Ideal S1x150 .f32) (x11 : Vec Ideal S150x150 .f32) (x12 : Vec Ideal S1x150 .f32) (x13 : Vec Ideal S150x150 .f32) (x14 : Vec Ideal S1x150 .f32) (x15 : Vec Ideal S150x150 .f32) (x16 : Vec Ideal S1x150 .f32) (x17 : Vec Ideal S150x150 .f32) (x18 : Vec Ideal S1x150 .f32) :
    out2_19 x0 x1 x2 x3 x4 x5 x6 x7 x8 x9 x10 x11 x12 x13 x14 x15 x16 x17 x18 = Pay.hTerm2 x0 x1 x2 x13 x14 x5 x6 x3 x4 x11 x12 x9 x10 x17 x18 x7 x8 x15 x16 := by
  unfold out2_19
  rw [View.canon_unit_zero zero_off2]
  simp only [View.ld_unit_zero (S := S512x300) zero_off2, View.ld_unit_zero (S := S512x4x150) zero_off3, View.ld_unit_zero (S := S300x150) zero_off2, View.ld_unit_zero (S := S1x150) zero_off2, View.ld_unit_zero (S := S150x150) zero_off2]
  rfl

/-- The memory-cell block after the body is the tile's stored memory cell, as a function of the input blocks. -/
theorem out2_20_eq (x0 : Vec Ideal S512x300 .f32) (x1 : Vec Ideal S512x4x150 .f32) (x2 : Vec Ideal S512x4x150 .f32) (x3 : Vec Ideal S300x150 .f32) (x4 : Vec Ideal S1x150 .f32) (x5 : Vec Ideal S300x150 .f32) (x6 : Vec Ideal S1x150 .f32) (x7 : Vec Ideal S300x150 .f32) (x8 : Vec Ideal S1x150 .f32) (x9 : Vec Ideal S300x150 .f32) (x10 : Vec Ideal S1x150 .f32) (x11 : Vec Ideal S150x150 .f32) (x12 : Vec Ideal S1x150 .f32) (x13 : Vec Ideal S150x150 .f32) (x14 : Vec Ideal S1x150 .f32) (x15 : Vec Ideal S150x150 .f32) (x16 : Vec Ideal S1x150 .f32) (x17 : Vec Ideal S150x150 .f32) (x18 : Vec Ideal S1x150 .f32) :
    out2_20 x0 x1 x2 x3 x4 x5 x6 x7 x8 x9 x10 x11 x12 x13 x14 x15 x16 x17 x18 = Pay.cTerm2 x0 x1 x2 x13 x14 x5 x6 x3 x4 x11 x12 x9 x10 x17 x18 x7 x8 x15 x16 := by
  unfold out2_20
  rw [View.canon_unit_zero zero_off2]
  simp only [View.ld_unit_zero (S := S512x300) zero_off2, View.ld_unit_zero (S := S512x4x150) zero_off3, View.ld_unit_zero (S := S300x150) zero_off2, View.ld_unit_zero (S := S1x150) zero_off2, View.ld_unit_zero (S := S150x150) zero_off2]
  rfl

section
variable (P : Params) (X : Fin 4096 → Fin 300 → EReal) (CH CC : Fin 4096 → Fin 4 → Fin 150 → EReal)

/-- The parameter blocks at any point are the parameters. -/
theorem params2
    (h3 : ∀ k p, (V c (Pipeline.arrRef spec2 3) : S300x150.Idx → EReal) (ix2 k p) = P.Wix k p)
    (h4 : ∀ p, (V c (Pipeline.arrRef spec2 4) : S1x150.Idx → EReal) (ix2 0 p) = P.bix p)
    (h5 : ∀ k p, (V c (Pipeline.arrRef spec2 5) : S300x150.Idx → EReal) (ix2 k p) = P.Wfx k p)
    (h6 : ∀ p, (V c (Pipeline.arrRef spec2 6) : S1x150.Idx → EReal) (ix2 0 p) = P.bfx p)
    (h7 : ∀ k p, (V c (Pipeline.arrRef spec2 7) : S300x150.Idx → EReal) (ix2 k p) = P.Wux k p)
    (h8 : ∀ p, (V c (Pipeline.arrRef spec2 8) : S1x150.Idx → EReal) (ix2 0 p) = P.bux p)
    (h9 : ∀ k p, (V c (Pipeline.arrRef spec2 9) : S300x150.Idx → EReal) (ix2 k p) = P.Wox k p)
    (h10 : ∀ p, (V c (Pipeline.arrRef spec2 10) : S1x150.Idx → EReal) (ix2 0 p) = P.box p)
    (h11 : ∀ k p, (V c (Pipeline.arrRef spec2 11) : S150x150.Idx → EReal) (ix2 k p) = P.Wih k p)
    (h12 : ∀ p, (V c (Pipeline.arrRef spec2 12) : S1x150.Idx → EReal) (ix2 0 p) = P.bih p)
    (h13 : ∀ k p, (V c (Pipeline.arrRef spec2 13) : S150x150.Idx → EReal) (ix2 k p) = P.Wfh k p)
    (h14 : ∀ p, (V c (Pipeline.arrRef spec2 14) : S1x150.Idx → EReal) (ix2 0 p) = P.bfh p)
    (h15 : ∀ k p, (V c (Pipeline.arrRef spec2 15) : S150x150.Idx → EReal) (ix2 k p) = P.Wuh k p)
    (h16 : ∀ p, (V c (Pipeline.arrRef spec2 16) : S1x150.Idx → EReal) (ix2 0 p) = P.buh p)
    (h17 : ∀ k p, (V c (Pipeline.arrRef spec2 17) : S150x150.Idx → EReal) (ix2 k p) = P.Woh k p)
    (h18 : ∀ p, (V c (Pipeline.arrRef spec2 18) : S1x150.Idx → EReal) (ix2 0 p) = P.boh p)
    (t : Fin cfg2.N) :
    paramsOfRows (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) = P :=
  Params.eq_of_fields P
    (funext fun k => funext fun p => (blk2_3 V c t (ix2 k p)).trans (h3 k p))
    (funext fun p => (blk2_4 V c t (ix2 0 p)).trans (h4 p))
    (funext fun k => funext fun p => (blk2_5 V c t (ix2 k p)).trans (h5 k p))
    (funext fun p => (blk2_6 V c t (ix2 0 p)).trans (h6 p))
    (funext fun k => funext fun p => (blk2_7 V c t (ix2 k p)).trans (h7 k p))
    (funext fun p => (blk2_8 V c t (ix2 0 p)).trans (h8 p))
    (funext fun k => funext fun p => (blk2_9 V c t (ix2 k p)).trans (h9 k p))
    (funext fun p => (blk2_10 V c t (ix2 0 p)).trans (h10 p))
    (funext fun k => funext fun p => (blk2_11 V c t (ix2 k p)).trans (h11 k p))
    (funext fun p => (blk2_12 V c t (ix2 0 p)).trans (h12 p))
    (funext fun k => funext fun p => (blk2_13 V c t (ix2 k p)).trans (h13 k p))
    (funext fun p => (blk2_14 V c t (ix2 0 p)).trans (h14 p))
    (funext fun k => funext fun p => (blk2_15 V c t (ix2 k p)).trans (h15 k p))
    (funext fun p => (blk2_16 V c t (ix2 0 p)).trans (h16 p))
    (funext fun k => funext fun p => (blk2_17 V c t (ix2 k p)).trans (h17 k p))
    (funext fun p => (blk2_18 V c t (ix2 0 p)).trans (h18 p))

/-- Row r of the hidden-state block at point t is the hidden state of node 512·t + r. -/
theorem tile2_19
    (h0 : ∀ r k, (V c (Pipeline.arrRef spec2 0) : (⟨2, ![4096, 300]⟩ : Shape).Idx → EReal) (ix2 r k) = X r k)
    (h1 : ∀ r k j, (V c (Pipeline.arrRef spec2 1) : (⟨3, ![4096, 4, 150]⟩ : Shape).Idx → EReal) (ix3 r k j) = CH r k j)
    (h2 : ∀ r k j, (V c (Pipeline.arrRef spec2 2) : (⟨3, ![4096, 4, 150]⟩ : Shape).Idx → EReal) (ix3 r k j) = CC r k j)
    (h3 : ∀ k p, (V c (Pipeline.arrRef spec2 3) : S300x150.Idx → EReal) (ix2 k p) = P.Wix k p)
    (h4 : ∀ p, (V c (Pipeline.arrRef spec2 4) : S1x150.Idx → EReal) (ix2 0 p) = P.bix p)
    (h5 : ∀ k p, (V c (Pipeline.arrRef spec2 5) : S300x150.Idx → EReal) (ix2 k p) = P.Wfx k p)
    (h6 : ∀ p, (V c (Pipeline.arrRef spec2 6) : S1x150.Idx → EReal) (ix2 0 p) = P.bfx p)
    (h7 : ∀ k p, (V c (Pipeline.arrRef spec2 7) : S300x150.Idx → EReal) (ix2 k p) = P.Wux k p)
    (h8 : ∀ p, (V c (Pipeline.arrRef spec2 8) : S1x150.Idx → EReal) (ix2 0 p) = P.bux p)
    (h9 : ∀ k p, (V c (Pipeline.arrRef spec2 9) : S300x150.Idx → EReal) (ix2 k p) = P.Wox k p)
    (h10 : ∀ p, (V c (Pipeline.arrRef spec2 10) : S1x150.Idx → EReal) (ix2 0 p) = P.box p)
    (h11 : ∀ k p, (V c (Pipeline.arrRef spec2 11) : S150x150.Idx → EReal) (ix2 k p) = P.Wih k p)
    (h12 : ∀ p, (V c (Pipeline.arrRef spec2 12) : S1x150.Idx → EReal) (ix2 0 p) = P.bih p)
    (h13 : ∀ k p, (V c (Pipeline.arrRef spec2 13) : S150x150.Idx → EReal) (ix2 k p) = P.Wfh k p)
    (h14 : ∀ p, (V c (Pipeline.arrRef spec2 14) : S1x150.Idx → EReal) (ix2 0 p) = P.bfh p)
    (h15 : ∀ k p, (V c (Pipeline.arrRef spec2 15) : S150x150.Idx → EReal) (ix2 k p) = P.Wuh k p)
    (h16 : ∀ p, (V c (Pipeline.arrRef spec2 16) : S1x150.Idx → EReal) (ix2 0 p) = P.buh p)
    (h17 : ∀ k p, (V c (Pipeline.arrRef spec2 17) : S150x150.Idx → EReal) (ix2 k p) = P.Woh k p)
    (h18 : ∀ p, (V c (Pipeline.arrRef spec2 18) : S1x150.Idx → EReal) (ix2 0 p) = P.boh p)
    (t : Fin cfg2.N) (r : Fin 512) (p : Fin 150) (R : Fin 4096) (hR : R.val = t.val * 512 + r.val) :
    ((dat2 V c).after 19 t : S512x150.Idx → EReal) (ix2 r p) = intH P X CH CC R p := by
  rw [after2_19, out2_19_eq]
  refine (Pay.hTerm2_apply (iblk2 V c 0 t) (iblk2 V c 1 t) (iblk2 V c 2 t) (iblk2 V c 13 t) (iblk2 V c 14 t) (iblk2 V c 5 t) (iblk2 V c 6 t) (iblk2 V c 3 t) (iblk2 V c 4 t) (iblk2 V c 11 t) (iblk2 V c 12 t) (iblk2 V c 9 t) (iblk2 V c 10 t) (iblk2 V c 17 t) (iblk2 V c 18 t) (iblk2 V c 7 t) (iblk2 V c 8 t) (iblk2 V c 15 t) (iblk2 V c 16 t) r p).trans ?_
  exact intH_local (params2 V c P h3 h4 h5 h6 h7 h8 h9 h10 h11 h12 h13 h14 h15 h16 h17 h18 t)
    (funext fun k => (blk2_0 V c t r k R hR).trans (h0 R k))
    (funext fun k => funext fun j => (blk2_1 V c t r k j R hR).trans (h1 R k j))
    (funext fun k => funext fun j => (blk2_2 V c t r k j R hR).trans (h2 R k j)) p

/-- Row r of the memory-cell block at point t is the memory cell of node 512·t + r. -/
theorem tile2_20
    (h0 : ∀ r k, (V c (Pipeline.arrRef spec2 0) : (⟨2, ![4096, 300]⟩ : Shape).Idx → EReal) (ix2 r k) = X r k)
    (h1 : ∀ r k j, (V c (Pipeline.arrRef spec2 1) : (⟨3, ![4096, 4, 150]⟩ : Shape).Idx → EReal) (ix3 r k j) = CH r k j)
    (h2 : ∀ r k j, (V c (Pipeline.arrRef spec2 2) : (⟨3, ![4096, 4, 150]⟩ : Shape).Idx → EReal) (ix3 r k j) = CC r k j)
    (h3 : ∀ k p, (V c (Pipeline.arrRef spec2 3) : S300x150.Idx → EReal) (ix2 k p) = P.Wix k p)
    (h4 : ∀ p, (V c (Pipeline.arrRef spec2 4) : S1x150.Idx → EReal) (ix2 0 p) = P.bix p)
    (h5 : ∀ k p, (V c (Pipeline.arrRef spec2 5) : S300x150.Idx → EReal) (ix2 k p) = P.Wfx k p)
    (h6 : ∀ p, (V c (Pipeline.arrRef spec2 6) : S1x150.Idx → EReal) (ix2 0 p) = P.bfx p)
    (h7 : ∀ k p, (V c (Pipeline.arrRef spec2 7) : S300x150.Idx → EReal) (ix2 k p) = P.Wux k p)
    (h8 : ∀ p, (V c (Pipeline.arrRef spec2 8) : S1x150.Idx → EReal) (ix2 0 p) = P.bux p)
    (h9 : ∀ k p, (V c (Pipeline.arrRef spec2 9) : S300x150.Idx → EReal) (ix2 k p) = P.Wox k p)
    (h10 : ∀ p, (V c (Pipeline.arrRef spec2 10) : S1x150.Idx → EReal) (ix2 0 p) = P.box p)
    (h11 : ∀ k p, (V c (Pipeline.arrRef spec2 11) : S150x150.Idx → EReal) (ix2 k p) = P.Wih k p)
    (h12 : ∀ p, (V c (Pipeline.arrRef spec2 12) : S1x150.Idx → EReal) (ix2 0 p) = P.bih p)
    (h13 : ∀ k p, (V c (Pipeline.arrRef spec2 13) : S150x150.Idx → EReal) (ix2 k p) = P.Wfh k p)
    (h14 : ∀ p, (V c (Pipeline.arrRef spec2 14) : S1x150.Idx → EReal) (ix2 0 p) = P.bfh p)
    (h15 : ∀ k p, (V c (Pipeline.arrRef spec2 15) : S150x150.Idx → EReal) (ix2 k p) = P.Wuh k p)
    (h16 : ∀ p, (V c (Pipeline.arrRef spec2 16) : S1x150.Idx → EReal) (ix2 0 p) = P.buh p)
    (h17 : ∀ k p, (V c (Pipeline.arrRef spec2 17) : S150x150.Idx → EReal) (ix2 k p) = P.Woh k p)
    (h18 : ∀ p, (V c (Pipeline.arrRef spec2 18) : S1x150.Idx → EReal) (ix2 0 p) = P.boh p)
    (t : Fin cfg2.N) (r : Fin 512) (p : Fin 150) (R : Fin 4096) (hR : R.val = t.val * 512 + r.val) :
    ((dat2 V c).after 20 t : S512x150.Idx → EReal) (ix2 r p) = intC P X CH CC R p := by
  rw [after2_20, out2_20_eq]
  refine (Pay.cTerm2_apply (iblk2 V c 0 t) (iblk2 V c 1 t) (iblk2 V c 2 t) (iblk2 V c 13 t) (iblk2 V c 14 t) (iblk2 V c 5 t) (iblk2 V c 6 t) (iblk2 V c 3 t) (iblk2 V c 4 t) (iblk2 V c 11 t) (iblk2 V c 12 t) (iblk2 V c 9 t) (iblk2 V c 10 t) (iblk2 V c 17 t) (iblk2 V c 18 t) (iblk2 V c 7 t) (iblk2 V c 8 t) (iblk2 V c 15 t) (iblk2 V c 16 t) r p).trans ?_
  exact intC_local (params2 V c P h3 h4 h5 h6 h7 h8 h9 h10 h11 h12 h13 h14 h15 h16 h17 h18 t)
    (funext fun k => (blk2_0 V c t r k R hR).trans (h0 R k))
    (funext fun k => funext fun j => (blk2_1 V c t r k j R hR).trans (h1 R k j))
    (funext fun k => funext fun j => (blk2_2 V c t r k j R hR).trans (h2 R k j)) p

/-- Entry (r, p) of window 19's block at point t sits at (512·t + r, p) of its array. -/
theorem emb2_19 (t : Fin cfg2.N) (r : Fin 512) (p : Fin 150) (hR : t.val * 512 + r.val < 4096) :
    ((cfg2.win 19).blk t).view.emb (ix2 r p) = (ix2 ⟨t.val * 512 + r.val, hR⟩ p : (⟨2, ![4096, 150]⟩ : Shape).Idx) := by
  have hi := idx2_19 t
  funext a
  apply Fin.ext
  match a with
  | ⟨0, _⟩ => show win2_19.index t 0 * 512 + 1 * r.val = t.val * 512 + r.val; rw [hi.1]; omega
  | ⟨1, _⟩ => show win2_19.index t 1 * 150 + 1 * p.val = p.val; rw [hi.2]; omega

/-- What point t writes back through window 19 is its block of the level's values. -/
theorem flushed2_19
    (h0 : ∀ r k, (V c (Pipeline.arrRef spec2 0) : (⟨2, ![4096, 300]⟩ : Shape).Idx → EReal) (ix2 r k) = X r k)
    (h1 : ∀ r k j, (V c (Pipeline.arrRef spec2 1) : (⟨3, ![4096, 4, 150]⟩ : Shape).Idx → EReal) (ix3 r k j) = CH r k j)
    (h2 : ∀ r k j, (V c (Pipeline.arrRef spec2 2) : (⟨3, ![4096, 4, 150]⟩ : Shape).Idx → EReal) (ix3 r k j) = CC r k j)
    (h3 : ∀ k p, (V c (Pipeline.arrRef spec2 3) : S300x150.Idx → EReal) (ix2 k p) = P.Wix k p)
    (h4 : ∀ p, (V c (Pipeline.arrRef spec2 4) : S1x150.Idx → EReal) (ix2 0 p) = P.bix p)
    (h5 : ∀ k p, (V c (Pipeline.arrRef spec2 5) : S300x150.Idx → EReal) (ix2 k p) = P.Wfx k p)
    (h6 : ∀ p, (V c (Pipeline.arrRef spec2 6) : S1x150.Idx → EReal) (ix2 0 p) = P.bfx p)
    (h7 : ∀ k p, (V c (Pipeline.arrRef spec2 7) : S300x150.Idx → EReal) (ix2 k p) = P.Wux k p)
    (h8 : ∀ p, (V c (Pipeline.arrRef spec2 8) : S1x150.Idx → EReal) (ix2 0 p) = P.bux p)
    (h9 : ∀ k p, (V c (Pipeline.arrRef spec2 9) : S300x150.Idx → EReal) (ix2 k p) = P.Wox k p)
    (h10 : ∀ p, (V c (Pipeline.arrRef spec2 10) : S1x150.Idx → EReal) (ix2 0 p) = P.box p)
    (h11 : ∀ k p, (V c (Pipeline.arrRef spec2 11) : S150x150.Idx → EReal) (ix2 k p) = P.Wih k p)
    (h12 : ∀ p, (V c (Pipeline.arrRef spec2 12) : S1x150.Idx → EReal) (ix2 0 p) = P.bih p)
    (h13 : ∀ k p, (V c (Pipeline.arrRef spec2 13) : S150x150.Idx → EReal) (ix2 k p) = P.Wfh k p)
    (h14 : ∀ p, (V c (Pipeline.arrRef spec2 14) : S1x150.Idx → EReal) (ix2 0 p) = P.bfh p)
    (h15 : ∀ k p, (V c (Pipeline.arrRef spec2 15) : S150x150.Idx → EReal) (ix2 k p) = P.Wuh k p)
    (h16 : ∀ p, (V c (Pipeline.arrRef spec2 16) : S1x150.Idx → EReal) (ix2 0 p) = P.buh p)
    (h17 : ∀ k p, (V c (Pipeline.arrRef spec2 17) : S150x150.Idx → EReal) (ix2 k p) = P.Woh k p)
    (h18 : ∀ p, (V c (Pipeline.arrRef spec2 18) : S1x150.Idx → EReal) (ix2 0 p) = P.boh p)
    (t : Fin cfg2.N) :
    (dat2 V c).flushed 19 t
      = ((cfg2.win 19).blk t).view.read (Elt Ideal) (fun i : (⟨2, ![4096, 150]⟩ : Shape).Idx => intH P X CH CC (i 0) (i 1)) := by
  refine forall_ix2 (n0 := 512) (n1 := 150) fun r p => ?_
  have ht : t.val < 8 := t.isLt
  have hR : t.val * 512 + r.val < 4096 := by have := r.isLt; omega
  refine (tile2_19 V c P X CH CC h0 h1 h2 h3 h4 h5 h6 h7 h8 h9 h10 h11 h12 h13 h14 h15 h16 h17 h18 t r p ⟨_, hR⟩ rfl).trans ?_
  rw [View.read_apply]
  show _ = (fun i : (⟨2, ![4096, 150]⟩ : Shape).Idx => intH P X CH CC (i 0) (i 1)) (((cfg2.win 19).blk t).view.emb (ix2 r p))
  rw [emb2_19 t r p hR]

/-- Window 19's blocks cover its array: node R lies in the block of point R / 512. -/
theorem covered2_19 (i : (⟨2, ![4096, 150]⟩ : Shape).Idx) :
    ∃ t : Fin cfg2.N, (cfg2.win 19).flush t = true ∧ i ∈ ((cfg2.win 19).blk t).view.set := by
  have h0 : (i 0 : Nat) < 4096 := (i 0).isLt
  have h1 : (i 1 : Nat) < 150 := (i 1).isLt
  have hlt : (i 0 : Nat) / 512 < 8 := by omega
  refine ⟨⟨(i 0 : Nat) / 512, hlt⟩, flush2_19 _, ?_⟩
  have hi := idx2_19 ⟨(i 0 : Nat) / 512, hlt⟩
  show i ∈ ((View.whole (Pipeline.arrRef spec2 19)).slice (win2_19.rect ⟨(i 0 : Nat) / 512, hlt⟩)).set
  rw [View.set_slice_whole, Rect.mem_set_unit]
  intro a
  match a with
  | ⟨0, _⟩ =>
    show win2_19.index ⟨(i 0 : Nat) / 512, hlt⟩ 0 * 512 ≤ (i 0 : Nat) ∧ (i 0 : Nat) < win2_19.index ⟨(i 0 : Nat) / 512, hlt⟩ 0 * 512 + 512
    rw [hi.1]
    show (i 0 : Nat) / 512 * 512 ≤ (i 0 : Nat) ∧ (i 0 : Nat) < (i 0 : Nat) / 512 * 512 + 512
    omega
  | ⟨1, _⟩ =>
    show win2_19.index ⟨(i 0 : Nat) / 512, hlt⟩ 1 * 150 ≤ (i 1 : Nat) ∧ (i 1 : Nat) < win2_19.index ⟨(i 0 : Nat) / 512, hlt⟩ 1 * 150 + 150
    rw [hi.2]
    omega

/-- Entry (r, p) of window 20's block at point t sits at (512·t + r, p) of its array. -/
theorem emb2_20 (t : Fin cfg2.N) (r : Fin 512) (p : Fin 150) (hR : t.val * 512 + r.val < 4096) :
    ((cfg2.win 20).blk t).view.emb (ix2 r p) = (ix2 ⟨t.val * 512 + r.val, hR⟩ p : (⟨2, ![4096, 150]⟩ : Shape).Idx) := by
  have hi := idx2_20 t
  funext a
  apply Fin.ext
  match a with
  | ⟨0, _⟩ => show win2_20.index t 0 * 512 + 1 * r.val = t.val * 512 + r.val; rw [hi.1]; omega
  | ⟨1, _⟩ => show win2_20.index t 1 * 150 + 1 * p.val = p.val; rw [hi.2]; omega

/-- What point t writes back through window 20 is its block of the level's values. -/
theorem flushed2_20
    (h0 : ∀ r k, (V c (Pipeline.arrRef spec2 0) : (⟨2, ![4096, 300]⟩ : Shape).Idx → EReal) (ix2 r k) = X r k)
    (h1 : ∀ r k j, (V c (Pipeline.arrRef spec2 1) : (⟨3, ![4096, 4, 150]⟩ : Shape).Idx → EReal) (ix3 r k j) = CH r k j)
    (h2 : ∀ r k j, (V c (Pipeline.arrRef spec2 2) : (⟨3, ![4096, 4, 150]⟩ : Shape).Idx → EReal) (ix3 r k j) = CC r k j)
    (h3 : ∀ k p, (V c (Pipeline.arrRef spec2 3) : S300x150.Idx → EReal) (ix2 k p) = P.Wix k p)
    (h4 : ∀ p, (V c (Pipeline.arrRef spec2 4) : S1x150.Idx → EReal) (ix2 0 p) = P.bix p)
    (h5 : ∀ k p, (V c (Pipeline.arrRef spec2 5) : S300x150.Idx → EReal) (ix2 k p) = P.Wfx k p)
    (h6 : ∀ p, (V c (Pipeline.arrRef spec2 6) : S1x150.Idx → EReal) (ix2 0 p) = P.bfx p)
    (h7 : ∀ k p, (V c (Pipeline.arrRef spec2 7) : S300x150.Idx → EReal) (ix2 k p) = P.Wux k p)
    (h8 : ∀ p, (V c (Pipeline.arrRef spec2 8) : S1x150.Idx → EReal) (ix2 0 p) = P.bux p)
    (h9 : ∀ k p, (V c (Pipeline.arrRef spec2 9) : S300x150.Idx → EReal) (ix2 k p) = P.Wox k p)
    (h10 : ∀ p, (V c (Pipeline.arrRef spec2 10) : S1x150.Idx → EReal) (ix2 0 p) = P.box p)
    (h11 : ∀ k p, (V c (Pipeline.arrRef spec2 11) : S150x150.Idx → EReal) (ix2 k p) = P.Wih k p)
    (h12 : ∀ p, (V c (Pipeline.arrRef spec2 12) : S1x150.Idx → EReal) (ix2 0 p) = P.bih p)
    (h13 : ∀ k p, (V c (Pipeline.arrRef spec2 13) : S150x150.Idx → EReal) (ix2 k p) = P.Wfh k p)
    (h14 : ∀ p, (V c (Pipeline.arrRef spec2 14) : S1x150.Idx → EReal) (ix2 0 p) = P.bfh p)
    (h15 : ∀ k p, (V c (Pipeline.arrRef spec2 15) : S150x150.Idx → EReal) (ix2 k p) = P.Wuh k p)
    (h16 : ∀ p, (V c (Pipeline.arrRef spec2 16) : S1x150.Idx → EReal) (ix2 0 p) = P.buh p)
    (h17 : ∀ k p, (V c (Pipeline.arrRef spec2 17) : S150x150.Idx → EReal) (ix2 k p) = P.Woh k p)
    (h18 : ∀ p, (V c (Pipeline.arrRef spec2 18) : S1x150.Idx → EReal) (ix2 0 p) = P.boh p)
    (t : Fin cfg2.N) :
    (dat2 V c).flushed 20 t
      = ((cfg2.win 20).blk t).view.read (Elt Ideal) (fun i : (⟨2, ![4096, 150]⟩ : Shape).Idx => intC P X CH CC (i 0) (i 1)) := by
  refine forall_ix2 (n0 := 512) (n1 := 150) fun r p => ?_
  have ht : t.val < 8 := t.isLt
  have hR : t.val * 512 + r.val < 4096 := by have := r.isLt; omega
  refine (tile2_20 V c P X CH CC h0 h1 h2 h3 h4 h5 h6 h7 h8 h9 h10 h11 h12 h13 h14 h15 h16 h17 h18 t r p ⟨_, hR⟩ rfl).trans ?_
  rw [View.read_apply]
  show _ = (fun i : (⟨2, ![4096, 150]⟩ : Shape).Idx => intC P X CH CC (i 0) (i 1)) (((cfg2.win 20).blk t).view.emb (ix2 r p))
  rw [emb2_20 t r p hR]

/-- Window 20's blocks cover its array: node R lies in the block of point R / 512. -/
theorem covered2_20 (i : (⟨2, ![4096, 150]⟩ : Shape).Idx) :
    ∃ t : Fin cfg2.N, (cfg2.win 20).flush t = true ∧ i ∈ ((cfg2.win 20).blk t).view.set := by
  have h0 : (i 0 : Nat) < 4096 := (i 0).isLt
  have h1 : (i 1 : Nat) < 150 := (i 1).isLt
  have hlt : (i 0 : Nat) / 512 < 8 := by omega
  refine ⟨⟨(i 0 : Nat) / 512, hlt⟩, flush2_20 _, ?_⟩
  have hi := idx2_20 ⟨(i 0 : Nat) / 512, hlt⟩
  show i ∈ ((View.whole (Pipeline.arrRef spec2 20)).slice (win2_20.rect ⟨(i 0 : Nat) / 512, hlt⟩)).set
  rw [View.set_slice_whole, Rect.mem_set_unit]
  intro a
  match a with
  | ⟨0, _⟩ =>
    show win2_20.index ⟨(i 0 : Nat) / 512, hlt⟩ 0 * 512 ≤ (i 0 : Nat) ∧ (i 0 : Nat) < win2_20.index ⟨(i 0 : Nat) / 512, hlt⟩ 0 * 512 + 512
    rw [hi.1]
    show (i 0 : Nat) / 512 * 512 ≤ (i 0 : Nat) ∧ (i 0 : Nat) < (i 0 : Nat) / 512 * 512 + 512
    omega
  | ⟨1, _⟩ =>
    show win2_20.index ⟨(i 0 : Nat) / 512, hlt⟩ 1 * 150 ≤ (i 1 : Nat) ∧ (i 1 : Nat) < win2_20.index ⟨(i 0 : Nat) / 512, hlt⟩ 1 * 150 + 150
    rw [hi.2]
    omega

/-- After the last point the two output arrays hold the level's hidden states and memory cells. -/
theorem arr2
    (h0 : ∀ r k, (V c (Pipeline.arrRef spec2 0) : (⟨2, ![4096, 300]⟩ : Shape).Idx → EReal) (ix2 r k) = X r k)
    (h1 : ∀ r k j, (V c (Pipeline.arrRef spec2 1) : (⟨3, ![4096, 4, 150]⟩ : Shape).Idx → EReal) (ix3 r k j) = CH r k j)
    (h2 : ∀ r k j, (V c (Pipeline.arrRef spec2 2) : (⟨3, ![4096, 4, 150]⟩ : Shape).Idx → EReal) (ix3 r k j) = CC r k j)
    (h3 : ∀ k p, (V c (Pipeline.arrRef spec2 3) : S300x150.Idx → EReal) (ix2 k p) = P.Wix k p)
    (h4 : ∀ p, (V c (Pipeline.arrRef spec2 4) : S1x150.Idx → EReal) (ix2 0 p) = P.bix p)
    (h5 : ∀ k p, (V c (Pipeline.arrRef spec2 5) : S300x150.Idx → EReal) (ix2 k p) = P.Wfx k p)
    (h6 : ∀ p, (V c (Pipeline.arrRef spec2 6) : S1x150.Idx → EReal) (ix2 0 p) = P.bfx p)
    (h7 : ∀ k p, (V c (Pipeline.arrRef spec2 7) : S300x150.Idx → EReal) (ix2 k p) = P.Wux k p)
    (h8 : ∀ p, (V c (Pipeline.arrRef spec2 8) : S1x150.Idx → EReal) (ix2 0 p) = P.bux p)
    (h9 : ∀ k p, (V c (Pipeline.arrRef spec2 9) : S300x150.Idx → EReal) (ix2 k p) = P.Wox k p)
    (h10 : ∀ p, (V c (Pipeline.arrRef spec2 10) : S1x150.Idx → EReal) (ix2 0 p) = P.box p)
    (h11 : ∀ k p, (V c (Pipeline.arrRef spec2 11) : S150x150.Idx → EReal) (ix2 k p) = P.Wih k p)
    (h12 : ∀ p, (V c (Pipeline.arrRef spec2 12) : S1x150.Idx → EReal) (ix2 0 p) = P.bih p)
    (h13 : ∀ k p, (V c (Pipeline.arrRef spec2 13) : S150x150.Idx → EReal) (ix2 k p) = P.Wfh k p)
    (h14 : ∀ p, (V c (Pipeline.arrRef spec2 14) : S1x150.Idx → EReal) (ix2 0 p) = P.bfh p)
    (h15 : ∀ k p, (V c (Pipeline.arrRef spec2 15) : S150x150.Idx → EReal) (ix2 k p) = P.Wuh k p)
    (h16 : ∀ p, (V c (Pipeline.arrRef spec2 16) : S1x150.Idx → EReal) (ix2 0 p) = P.buh p)
    (h17 : ∀ k p, (V c (Pipeline.arrRef spec2 17) : S150x150.Idx → EReal) (ix2 k p) = P.Woh k p)
    (h18 : ∀ p, (V c (Pipeline.arrRef spec2 18) : S1x150.Idx → EReal) (ix2 0 p) = P.boh p) :
    (∀ r p, ((dat2 V c).arrAt 19 cfg2.N : (⟨2, ![4096, 150]⟩ : Shape).Idx → EReal) (ix2 r p) = intH P X CH CC r p)
      ∧ (∀ r p, ((dat2 V c).arrAt 20 cfg2.N : (⟨2, ![4096, 150]⟩ : Shape).Idx → EReal) (ix2 r p) = intC P X CH CC r p) :=
  ⟨fun r p => congrFun ((dat2 V c).arrAt_eq_of_cover 19 (fun i : (⟨2, ![4096, 150]⟩ : Shape).Idx => intH P X CH CC (i 0) (i 1))
      (fun t _ => flushed2_19 V c P X CH CC h0 h1 h2 h3 h4 h5 h6 h7 h8 h9 h10 h11 h12 h13 h14 h15 h16 h17 h18 t) (covered2_19)) (ix2 r p),
   fun r p => congrFun ((dat2 V c).arrAt_eq_of_cover 20 (fun i : (⟨2, ![4096, 150]⟩ : Shape).Idx => intC P X CH CC (i 0) (i 1))
      (fun t _ => flushed2_20 V c P X CH CC h0 h1 h2 h3 h4 h5 h6 h7 h8 h9 h10 h11 h12 h13 h14 h15 h16 h17 h18 t) (covered2_20)) (ix2 r p)⟩

end

end Cert.KernelIdeal.Tree

end
-- ==== Proof.KerPay3.lean ====
/-
  The two stored values of a tile of 512 internal nodes at an entry, on the extended reals.

  The tile holds 512 input rows x (300 numbers each) and, for every node, its four children's hidden states and memory
  cells (150 numbers each). The body sums the children's hidden states, s = h_0 + h_1 + h_2 + h_3, forms the products of
  x with W_ix, W_fx, W_ox, W_ux and of s with W_ih, W_oh, W_uh, and one product per child of h_k with W_fh — every operand
  first cast to a narrower float format, which changes nothing on the extended reals — and stores
      c = σ(((x · W_ix + b_ix) + s · W_ih) + b_ih) * tanh(((x · W_ux + b_ux) + s · W_uh) + b_uh)
            + Σ_k σ((h_k · W_fh + b_fh) + (x · W_fx + b_fx)) * c_k          and          h = σ(((x · W_ox + b_ox) + s · W_oh) + b_oh) * tanh c.
  Read at node r and coordinate p these are the recurrence's memory cell and hidden state of an internal node.
-/
import proofs.«167239_j63453846831535_1_alg».proof.Proof.Gen.KernelIdeal.Skeleton
import proofs.«167239_j63453846831535_1_alg».proof.Proof.TreeSpecArr
import proofs.«167239_j63453846831535_1_alg».proof.Proof.LibTreeOps

noncomputable section

namespace Cert.KernelIdeal.Pay

open Idealize.ShloMosaic Idealize.ShloMosaic.ValueIdx Cert.TreeSpec

/-- The stored hidden state of the tile, as a function of the nineteen loaded arrays. -/
def hTerm3 (v0 : Vec Ideal S512x300 .f32) (v2 v4 : Vec Ideal S512x4x150 .f32) (v11 : Vec Ideal S150x150 .f32)
    (v15 : Vec Ideal S1x150 .f32) (v20 : Vec Ideal S300x150 .f32) (v23 : Vec Ideal S1x150 .f32)
    (v33 : Vec Ideal S300x150 .f32) (v36 : Vec Ideal S1x150 .f32) (v40 : Vec Ideal S150x150 .f32)
    (v44 : Vec Ideal S1x150 .f32) (v49 : Vec Ideal S300x150 .f32) (v52 : Vec Ideal S1x150 .f32)
    (v56 : Vec Ideal S150x150 .f32) (v60 : Vec Ideal S1x150 .f32) (v65 : Vec Ideal S300x150 .f32)
    (v68 : Vec Ideal S1x150 .f32) (v72 : Vec Ideal S150x150 .f32) (v76 : Vec Ideal S1x150 .f32) : FVec Ideal S512x150 .f32 :=
  Gen.k3_pay2 (Gen.k3_pay5 v2) (Gen.k3_pay6 v0 v2 v4 v11 v15 v20 v23)
    (Gen.k3_pay8 (Gen.k3_pay5 v2) (Gen.k3_pay7 v0 v33) v36 v40 v44)
    (Gen.k3_pay9 (Gen.k3_pay4 v0) (Gen.k3_pay5 v2) v49 v52 v56 v60) (Gen.k3_pay10 (Gen.k3_pay4 v0) v65 v68) v72 v76

/-- The stored memory cell of the tile, as a function of the loaded arrays. -/
def cTerm3 (v0 : Vec Ideal S512x300 .f32) (v2 v4 : Vec Ideal S512x4x150 .f32) (v11 : Vec Ideal S150x150 .f32)
    (v15 : Vec Ideal S1x150 .f32) (v20 : Vec Ideal S300x150 .f32) (v23 : Vec Ideal S1x150 .f32)
    (v33 : Vec Ideal S300x150 .f32) (v36 : Vec Ideal S1x150 .f32) (v40 : Vec Ideal S150x150 .f32)
    (v44 : Vec Ideal S1x150 .f32) (v49 : Vec Ideal S300x150 .f32) (v52 : Vec Ideal S1x150 .f32)
    (v56 : Vec Ideal S150x150 .f32) (v60 : Vec Ideal S1x150 .f32) (v65 : Vec Ideal S300x150 .f32)
    (v68 : Vec Ideal S1x150 .f32) (v72 : Vec Ideal S150x150 .f32) (v76 : Vec Ideal S1x150 .f32) : FVec Ideal S512x150 .f32 :=
  Gen.k3_pay1 (Gen.k3_pay5 v2) (Gen.k3_pay6 v0 v2 v4 v11 v15 v20 v23)
    (Gen.k3_pay8 (Gen.k3_pay5 v2) (Gen.k3_pay7 v0 v33) v36 v40 v44) (Gen.k3_pay10 (Gen.k3_pay4 v0) v65 v68) v72 v76

section
variable (v0 : Vec Ideal S512x300 .f32) (v2 v4 : Vec Ideal S512x4x150 .f32) (v11 : Vec Ideal S150x150 .f32)
    (v15 : Vec Ideal S1x150 .f32) (v20 : Vec Ideal S300x150 .f32) (v23 : Vec Ideal S1x150 .f32)
    (v33 : Vec Ideal S300x150 .f32) (v36 : Vec Ideal S1x150 .f32) (v40 : Vec Ideal S150x150 .f32)
    (v44 : Vec Ideal S1x150 .f32) (v49 : Vec Ideal S300x150 .f32) (v52 : Vec Ideal S1x150 .f32)
    (v56 : Vec Ideal S150x150 .f32) (v60 : Vec Ideal S1x150 .f32) (v65 : Vec Ideal S300x150 .f32)
    (v68 : Vec Ideal S1x150 .f32) (v72 : Vec Ideal S150x150 .f32) (v76 : Vec Ideal S1x150 .f32)
  (r : Fin 512) (p : Fin 150)

/-- The children's memory cells weighted by their forget gates, summed, at (r, p). -/
theorem forget_sum3 : Gen.k3_pay6 v0 v2 v4 v11 v15 v20 v23 (ix2 r p)
    = ∑ k : Fin 4, Ideal.logistic (((∑ j : Fin 150, tile3 v2 r k j * mat v11 j p) + row v15 p)
        + (lin (tile2 v0) (mat v20) r p + row v23 p)) * tile3 v4 r k p := by
  unfold Gen.k3_pay6 Gen.k3_pay3 Gen.k3_pay4
  refine (Tree.Lib.sumMiddle_apply _ _ _ _ r p).trans (Finset.sum_congr rfl fun k _ => ?_)
  refine Tree.Lib.mulf_at (Tree.Lib.logistic_at (Tree.Lib.addf_at (Tree.Lib.addf_at ?_ ?_) ?_)) ?_
  · exact Tree.Lib.childW_apply 2048 rfl v2 v11 _ _ _ _ none r k p
  · exact Tree.Lib.biasRow3_apply v15 _ _ _ r k p
  · exact (Tree.Lib.spreadMiddle_apply _ _ _ r k p).trans
      (Tree.Lib.addf_at (Tree.Lib.xW_apply v0 v20 _ _ none r p) (Tree.Lib.biasRow_apply v23 _ _ r p))
  · exact congrFun (shapeCast_self v4 _) (ix3 r k p)

/-- The input gate at (r, p): σ(((x · W_ix + b_ix) + s · W_ih) + b_ih). -/
theorem gate_i3 : Gen.k3_pay8 (Gen.k3_pay5 v2) (Gen.k3_pay7 v0 v33) v36 v40 v44 (ix2 r p)
    = Ideal.logistic (lin (tile2 v0) (mat v33) r p + row v36 p + lin (hsum (tile3 v2)) (mat v40) r p + row v44 p) := by
  unfold Gen.k3_pay8 Gen.k3_pay7 Gen.k3_pay5 Gen.k3_pay4 Gen.k3_pay3
  exact Tree.Lib.logistic_at (Tree.Lib.addf_at (Tree.Lib.addf_at (Tree.Lib.addf_at
    (Tree.Lib.xW_apply v0 v33 _ _ none r p) (Tree.Lib.biasRow_apply v36 _ _ r p))
    (Tree.Lib.hsumW_apply v2 v40 _ _ _ _ _ none r p)) (Tree.Lib.biasRow_apply v44 _ _ r p))

/-- The output gate at (r, p): σ(((x · W_ox + b_ox) + s · W_oh) + b_oh). -/
theorem gate_o3 : Gen.k3_pay9 (Gen.k3_pay4 v0) (Gen.k3_pay5 v2) v49 v52 v56 v60 (ix2 r p)
    = Ideal.logistic (lin (tile2 v0) (mat v49) r p + row v52 p + lin (hsum (tile3 v2)) (mat v56) r p + row v60 p) := by
  unfold Gen.k3_pay9 Gen.k3_pay5 Gen.k3_pay4 Gen.k3_pay3
  exact Tree.Lib.logistic_at (Tree.Lib.addf_at (Tree.Lib.addf_at (Tree.Lib.addf_at
    (Tree.Lib.xW_apply v0 v49 _ _ none r p) (Tree.Lib.biasRow_apply v52 _ _ r p))
    (Tree.Lib.hsumW_apply v2 v56 _ _ _ _ _ none r p)) (Tree.Lib.biasRow_apply v60 _ _ r p))

/-- The input part of the update at (r, p): x · W_ux + b_ux. -/
theorem update_x3 : Gen.k3_pay10 (Gen.k3_pay4 v0) v65 v68 (ix2 r p) = lin (tile2 v0) (mat v65) r p + row v68 p := by
  unfold Gen.k3_pay10 Gen.k3_pay4
  exact Tree.Lib.addf_at (Tree.Lib.xW_apply v0 v65 _ _ none r p) (Tree.Lib.biasRow_apply v68 _ _ r p)

/-- The stored memory cell at (r, p) is the recurrence's memory cell of an internal node. -/
theorem cTerm3_apply : cTerm3 v0 v2 v4 v11 v15 v20 v23 v33 v36 v40 v44 v49 v52 v56 v60 v65 v68 v72 v76 (ix2 r p)
    = intC (paramsOfRows v33 v36 v20 v23 v65 v68 v49 v52 v40 v44 v11 v15 v72 v76 v56 v60) (tile2 v0) (tile3 v2) (tile3 v4) r p := by
  unfold cTerm3 Gen.k3_pay1
  refine Tree.Lib.addf_at (Tree.Lib.mulf_at (gate_i3 v0 v2 v33 v36 v40 v44 r p)
    (Tree.Lib.tanh_at (Tree.Lib.addf_at (Tree.Lib.addf_at (update_x3 v0 v65 v68 r p) ?_)
      (Tree.Lib.biasRow_apply v76 _ _ r p)))) (forget_sum3 v0 v2 v4 v11 v15 v20 v23 r p)
  unfold Gen.k3_pay5 Gen.k3_pay3
  exact Tree.Lib.hsumW_apply v2 v72 _ _ _ _ _ none r p

/-- The stored hidden state at (r, p) is the recurrence's hidden state of an internal node. -/
theorem hTerm3_apply : hTerm3 v0 v2 v4 v11 v15 v20 v23 v33 v36 v40 v44 v49 v52 v56 v60 v65 v68 v72 v76 (ix2 r p)
    = intH (paramsOfRows v33 v36 v20 v23 v65 v68 v49 v52 v40 v44 v11 v15 v72 v76 v56 v60) (tile2 v0) (tile3 v2) (tile3 v4) r p := by
  unfold hTerm3 Gen.k3_pay2
  exact Tree.Lib.mulf_at (gate_o3 v0 v2 v49 v52 v56 v60 r p)
    (Tree.Lib.tanh_at (cTerm3_apply v0 v2 v4 v11 v15 v20 v23 v33 v36 v40 v44 v49 v52 v56 v60 v65 v68 v72 v76 r p))

end

end Cert.KernelIdeal.Pay

end
-- ==== Proof.KerArr3.lean ====
/-
  The level of 1024 internal nodes: from the tiles the grid's points write back to the two whole arrays.

  The grid has 2 points; point t handles the tile of nodes 512·t … 512·t + 511. Its input blocks are rows
  512·t + r of the input matrix and of the children's two arrays, and the sixteen parameter arrays whole (their
  index maps are constantly 0). The recurrence at a node reads only that node's rows, so what the point writes at row r
  of its two output blocks is the recurrence's value at node 512·t + r of the level; the output blocks tile the two
  output arrays (node R lies in point R / 512's block), so after the last point each array holds the level's values.
-/
import proofs.«167239_j63453846831535_1_alg».proof.Proof.KIRegion3
import proofs.«167239_j63453846831535_1_alg».proof.Proof.KerPay3
import proofs.«167239_j63453846831535_1_alg».proof.Proof.TreeSpecArr
import proofs.«167239_j63453846831535_1_alg».proof.Proof.TreeLocal
import Idealize.ShloMosaic.Lib.Pipeline.Value

set_option maxRecDepth 16384

noncomputable section

namespace Cert.KernelIdeal.Tree

open Cert.KernelIdeal Cert.KernelIdeal.Gen
open Idealize.ShloMosaic Idealize.ShloMosaic.TcCoe Idealize.ShloMosaic.ValueIdx
open Idealize.SL.Sem
open Idealize.ShloMosaic.Pipeline (Dat)
open Cert.TreeSpec

variable (V : (c : Dev nD) → (b : Ref sig .tc) → Buf (Elt Ideal) ((c : Thread nD τ).loc b)) (c : Dev nD)

/-! ## The index maps over the grid -/

theorem idx3_0 : ∀ t : Fin cfg3.N, win3_0.index t 0 = t.val ∧ win3_0.index t 1 = 0 :=
  (by decide +kernel : ∀ t : Fin grid3.N, win3_0.index t 0 = t.val ∧ win3_0.index t 1 = 0)
theorem idx3_1 : ∀ t : Fin cfg3.N, win3_1.index t 0 = t.val ∧ win3_1.index t 1 = 0 ∧ win3_1.index t 2 = 0 :=
  (by decide +kernel : ∀ t : Fin grid3.N, win3_1.index t 0 = t.val ∧ win3_1.index t 1 = 0 ∧ win3_1.index t 2 = 0)
theorem idx3_2 : ∀ t : Fin cfg3.N, win3_2.index t 0 = t.val ∧ win3_2.index t 1 = 0 ∧ win3_2.index t 2 = 0 :=
  (by decide +kernel : ∀ t : Fin grid3.N, win3_2.index t 0 = t.val ∧ win3_2.index t 1 = 0 ∧ win3_2.index t 2 = 0)
theorem idx3_3 : ∀ t : Fin cfg3.N, win3_3.index t 0 = 0 ∧ win3_3.index t 1 = 0 :=
  (by decide +kernel : ∀ t : Fin grid3.N, win3_3.index t 0 = 0 ∧ win3_3.index t 1 = 0)
theorem idx3_4 : ∀ t : Fin cfg3.N, win3_4.index t 0 = 0 ∧ win3_4.index t 1 = 0 :=
  (by decide +kernel : ∀ t : Fin grid3.N, win3_4.index t 0 = 0 ∧ win3_4.index t 1 = 0)
theorem idx3_5 : ∀ t : Fin cfg3.N, win3_5.index t 0 = 0 ∧ win3_5.index t 1 = 0 :=
  (by decide +kernel : ∀ t : Fin grid3.N, win3_5.index t 0 = 0 ∧ win3_5.index t 1 = 0)
theorem idx3_6 : ∀ t : Fin cfg3.N, win3_6.index t 0 = 0 ∧ win3_6.index t 1 = 0 :=
  (by decide +kernel : ∀ t : Fin grid3.N, win3_6.index t 0 = 0 ∧ win3_6.index t 1 = 0)
theorem idx3_7 : ∀ t : Fin cfg3.N, win3_7.index t 0 = 0 ∧ win3_7.index t 1 = 0 :=
  (by decide +kernel : ∀ t : Fin grid3.N, win3_7.index t 0 = 0 ∧ win3_7.index t 1 = 0)
theorem idx3_8 : ∀ t : Fin cfg3.N, win3_8.index t 0 = 0 ∧ win3_8.index t 1 = 0 :=
  (by decide +kernel : ∀ t : Fin grid3.N, win3_8.index t 0 = 0 ∧ win3_8.index t 1 = 0)
theorem idx3_9 : ∀ t : Fin cfg3.N, win3_9.index t 0 = 0 ∧ win3_9.index t 1 = 0 :=
  (by decide +kernel : ∀ t : Fin grid3.N, win3_9.index t 0 = 0 ∧ win3_9.index t 1 = 0)
theorem idx3_10 : ∀ t : Fin cfg3.N, win3_10.index t 0 = 0 ∧ win3_10.index t 1 = 0 :=
  (by decide +kernel : ∀ t : Fin grid3.N, win3_10.index t 0 = 0 ∧ win3_10.index t 1 = 0)
theorem idx3_11 : ∀ t : Fin cfg3.N, win3_11.index t 0 = 0 ∧ win3_11.index t 1 = 0 :=
  (by decide +kernel : ∀ t : Fin grid3.N, win3_11.index t 0 = 0 ∧ win3_11.index t 1 = 0)
theorem idx3_12 : ∀ t : Fin cfg3.N, win3_12.index t 0 = 0 ∧ win3_12.index t 1 = 0 :=
  (by decide +kernel : ∀ t : Fin grid3.N, win3_12.index t 0 = 0 ∧ win3_12.index t 1 = 0)
theorem idx3_13 : ∀ t : Fin cfg3.N, win3_13.index t 0 = 0 ∧ win3_13.index t 1 = 0 :=
  (by decide +kernel : ∀ t : Fin grid3.N, win3_13.index t 0 = 0 ∧ win3_13.index t 1 = 0)
theorem idx3_14 : ∀ t : Fin cfg3.N, win3_14.index t 0 = 0 ∧ win3_14.index t 1 = 0 :=
  (by decide +kernel : ∀ t : Fin grid3.N, win3_14.index t 0 = 0 ∧ win3_14.index t 1 = 0)
theorem idx3_15 : ∀ t : Fin cfg3.N, win3_15.index t 0 = 0 ∧ win3_15.index t 1 = 0 :=
  (by decide +kernel : ∀ t : Fin grid3.N, win3_15.index t 0 = 0 ∧ win3_15.index t 1 = 0)
theorem idx3_16 : ∀ t : Fin cfg3.N, win3_16.index t 0 = 0 ∧ win3_16.index t 1 = 0 :=
  (by decide +kernel : ∀ t : Fin grid3.N, win3_16.index t 0 = 0 ∧ win3_16.index t 1 = 0)
theorem idx3_17 : ∀ t : Fin cfg3.N, win3_17.index t 0 = 0 ∧ win3_17.index t 1 = 0 :=
  (by decide +kernel : ∀ t : Fin grid3.N, win3_17.index t 0 = 0 ∧ win3_17.index t 1 = 0)
theorem idx3_18 : ∀ t : Fin cfg3.N, win3_18.index t 0 = 0 ∧ win3_18.index t 1 = 0 :=
  (by decide +kernel : ∀ t : Fin grid3.N, win3_18.index t 0 = 0 ∧ win3_18.index t 1 = 0)
theorem idx3_19 : ∀ t : Fin cfg3.N, win3_19.index t 0 = t.val ∧ win3_19.index t 1 = 0 :=
  (by decide +kernel : ∀ t : Fin grid3.N, win3_19.index t 0 = t.val ∧ win3_19.index t 1 = 0)
theorem idx3_20 : ∀ t : Fin cfg3.N, win3_20.index t 0 = t.val ∧ win3_20.index t 1 = 0 :=
  (by decide +kernel : ∀ t : Fin grid3.N, win3_20.index t 0 = t.val ∧ win3_20.index t 1 = 0)

/-! ## The input blocks as parts of their arrays -/

/-- Row r of the input tile at point t is row 512·t + r of the input matrix. -/
theorem blk3_0 (t : Fin cfg3.N) (r : Fin 512) (k : Fin 300) (R : Fin 1024) (hR : R.val = t.val * 512 + r.val) :
    (iblk3 V c 0 t : S512x300.Idx → EReal) (ix2 r k) = (V c (Pipeline.arrRef spec3 0) : (⟨2, ![1024, 300]⟩ : Shape).Idx → EReal) (ix2 R k) := by
  have hi := idx3_0 t
  unfold iblk3
  rw [View.read_apply]
  show V c (Pipeline.arrRef spec3 0) _ = V c (Pipeline.arrRef spec3 0) _
  congr 1
  funext a
  apply Fin.ext
  match a with
  | ⟨0, _⟩ => show win3_0.index t 0 * 512 + 1 * r.val = R.val; rw [hi.1, hR]; omega
  | ⟨1, _⟩ => show win3_0.index t 1 * 300 + 1 * k.val = k.val; rw [hi.2]; omega

/-- The children of node r of the tile at point t are those of node 512·t + r of the level (window 1). -/
theorem blk3_1 (t : Fin cfg3.N) (r : Fin 512) (k : Fin 4) (j : Fin 150) (R : Fin 1024) (hR : R.val = t.val * 512 + r.val) :
    (iblk3 V c 1 t : S512x4x150.Idx → EReal) (ix3 r k j) = (V c (Pipeline.arrRef spec3 1) : (⟨3, ![1024, 4, 150]⟩ : Shape).Idx → EReal) (ix3 R k j) := by
  have hi := idx3_1 t
  unfold iblk3
  rw [View.read_apply]
  show V c (Pipeline.arrRef spec3 1) _ = V c (Pipeline.arrRef spec3 1) _
  congr 1
  funext a
  apply Fin.ext
  match a with
  | ⟨0, _⟩ => show win3_1.index t 0 * 512 + 1 * r.val = R.val; rw [hi.1, hR]; omega
  | ⟨1, _⟩ => show win3_1.index t 1 * 4 + 1 * k.val = k.val; rw [hi.2.1]; omega
  | ⟨2, _⟩ => show win3_1.index t 2 * 150 + 1 * j.val = j.val; rw [hi.2.2]; omega

/-- The children of node r of the tile at point t are those of node 512·t + r of the level (window 2). -/
theorem blk3_2 (t : Fin cfg3.N) (r : Fin 512) (k : Fin 4) (j : Fin 150) (R : Fin 1024) (hR : R.val = t.val * 512 + r.val) :
    (iblk3 V c 2 t : S512x4x150.Idx → EReal) (ix3 r k j) = (V c (Pipeline.arrRef spec3 2) : (⟨3, ![1024, 4, 150]⟩ : Shape).Idx → EReal) (ix3 R k j) := by
  have hi := idx3_2 t
  unfold iblk3
  rw [View.read_apply]
  show V c (Pipeline.arrRef spec3 2) _ = V c (Pipeline.arrRef spec3 2) _
  congr 1
  funext a
  apply Fin.ext
  match a with
  | ⟨0, _⟩ => show win3_2.index t 0 * 512 + 1 * r.val = R.val; rw [hi.1, hR]; omega
  | ⟨1, _⟩ => show win3_2.index t 1 * 4 + 1 * k.val = k.val; rw [hi.2.1]; omega
  | ⟨2, _⟩ => show win3_2.index t 2 * 150 + 1 * j.val = j.val; rw [hi.2.2]; omega

/-- Window 3's block at every point is its whole array. -/
theorem blk3_3 (t : Fin cfg3.N) (y : S300x150.Idx) :
    (iblk3 V c 3 t : S300x150.Idx → EReal) y = (V c (Pipeline.arrRef spec3 3) : S300x150.Idx → EReal) y := by
  have hi := idx3_3 t
  unfold iblk3
  rw [View.read_apply]
  show V c (Pipeline.arrRef spec3 3) _ = V c (Pipeline.arrRef spec3 3) _
  congr 1
  funext a
  apply Fin.ext
  match a with
  | ⟨0, _⟩ => show win3_3.index t 0 * 300 + 1 * (y 0).val = (y 0).val; rw [hi.1]; omega
  | ⟨1, _⟩ => show win3_3.index t 1 * 150 + 1 * (y 1).val = (y 1).val; rw [hi.2]; omega

/-- Window 4's block at every point is its whole array. -/
theorem blk3_4 (t : Fin cfg3.N) (y : S1x150.Idx) :
    (iblk3 V c 4 t : S1x150.Idx → EReal) y = (V c (Pipeline.arrRef spec3 4) : S1x150.Idx → EReal) y := by
  have hi := idx3_4 t
  unfold iblk3
  rw [View.read_apply]
  show V c (Pipeline.arrRef spec3 4) _ = V c (Pipeline.arrRef spec3 4) _
  congr 1
  funext a
  apply Fin.ext
  match a with
  | ⟨0, _⟩ => show win3_4.index t 0 * 1 + 1 * (y 0).val = (y 0).val; rw [hi.1]; omega
  | ⟨1, _⟩ => show win3_4.index t 1 * 150 + 1 * (y 1).val = (y 1).val; rw [hi.2]; omega

/-- Window 5's block at every point is its whole array. -/
theorem blk3_5 (t : Fin cfg3.N) (y : S300x150.Idx) :
    (iblk3 V c 5 t : S300x150.Idx → EReal) y = (V c (Pipeline.arrRef spec3 5) : S300x150.Idx → EReal) y := by
  have hi := idx3_5 t
  unfold iblk3
  rw [View.read_apply]
  show V c (Pipeline.arrRef spec3 5) _ = V c (Pipeline.arrRef spec3 5) _
  congr 1
  funext a
  apply Fin.ext
  match a with
  | ⟨0, _⟩ => show win3_5.index t 0 * 300 + 1 * (y 0).val = (y 0).val; rw [hi.1]; omega
  | ⟨1, _⟩ => show win3_5.index t 1 * 150 + 1 * (y 1).val = (y 1).val; rw [hi.2]; omega

/-- Window 6's block at every point is its whole array. -/
theorem blk3_6 (t : Fin cfg3.N) (y : S1x150.Idx) :
    (iblk3 V c 6 t : S1x150.Idx → EReal) y = (V c (Pipeline.arrRef spec3 6) : S1x150.Idx → EReal) y := by
  have hi := idx3_6 t
  unfold iblk3
  rw [View.read_apply]
  show V c (Pipeline.arrRef spec3 6) _ = V c (Pipeline.arrRef spec3 6) _
  congr 1
  funext a
  apply Fin.ext
  match a with
  | ⟨0, _⟩ => show win3_6.index t 0 * 1 + 1 * (y 0).val = (y 0).val; rw [hi.1]; omega
  | ⟨1, _⟩ => show win3_6.index t 1 * 150 + 1 * (y 1).val = (y 1).val; rw [hi.2]; omega

/-- Window 7's block at every point is its whole array. -/
theorem blk3_7 (t : Fin cfg3.N) (y : S300x150.Idx) :
    (iblk3 V c 7 t : S300x150.Idx → EReal) y = (V c (Pipeline.arrRef spec3 7) : S300x150.Idx → EReal) y := by
  have hi := idx3_7 t
  unfold iblk3
  rw [View.read_apply]
  show V c (Pipeline.arrRef spec3 7) _ = V c (Pipeline.arrRef spec3 7) _
  congr 1
  funext a
  apply Fin.ext
  match a with
  | ⟨0, _⟩ => show win3_7.index t 0 * 300 + 1 * (y 0).val = (y 0).val; rw [hi.1]; omega
  | ⟨1, _⟩ => show win3_7.index t 1 * 150 + 1 * (y 1).val = (y 1).val; rw [hi.2]; omega

/-- Window 8's block at every point is its whole array. -/
theorem blk3_8 (t : Fin cfg3.N) (y : S1x150.Idx) :
    (iblk3 V c 8 t : S1x150.Idx → EReal) y = (V c (Pipeline.arrRef spec3 8) : S1x150.Idx → EReal) y := by
  have hi := idx3_8 t
  unfold iblk3
  rw [View.read_apply]
  show V c (Pipeline.arrRef spec3 8) _ = V c (Pipeline.arrRef spec3 8) _
  congr 1
  funext a
  apply Fin.ext
  match a with
  | ⟨0, _⟩ => show win3_8.index t 0 * 1 + 1 * (y 0).val = (y 0).val; rw [hi.1]; omega
  | ⟨1, _⟩ => show win3_8.index t 1 * 150 + 1 * (y 1).val = (y 1).val; rw [hi.2]; omega

/-- Window 9's block at every point is its whole array. -/
theorem blk3_9 (t : Fin cfg3.N) (y : S300x150.Idx) :
    (iblk3 V c 9 t : S300x150.Idx → EReal) y = (V c (Pipeline.arrRef spec3 9) : S300x150.Idx → EReal) y := by
  have hi := idx3_9 t
  unfold iblk3
  rw [View.read_apply]
  show V c (Pipeline.arrRef spec3 9) _ = V c (Pipeline.arrRef spec3 9) _
  congr 1
  funext a
  apply Fin.ext
  match a with
  | ⟨0, _⟩ => show win3_9.index t 0 * 300 + 1 * (y 0).val = (y 0).val; rw [hi.1]; omega
  | ⟨1, _⟩ => show win3_9.index t 1 * 150 + 1 * (y 1).val = (y 1).val; rw [hi.2]; omega

/-- Window 10's block at every point is its whole array. -/
theorem blk3_10 (t : Fin cfg3.N) (y : S1x150.Idx) :
    (iblk3 V c 10 t : S1x150.Idx → EReal) y = (V c (Pipeline.arrRef spec3 10) : S1x150.Idx → EReal) y := by
  have hi := idx3_10 t
  unfold iblk3
  rw [View.read_apply]
  show V c (Pipeline.arrRef spec3 10) _ = V c (Pipeline.arrRef spec3 10) _
  congr 1
  funext a
  apply Fin.ext
  match a with
  | ⟨0, _⟩ => show win3_10.index t 0 * 1 + 1 * (y 0).val = (y 0).val; rw [hi.1]; omega
  | ⟨1, _⟩ => show win3_10.index t 1 * 150 + 1 * (y 1).val = (y 1).val; rw [hi.2]; omega

/-- Window 11's block at every point is its whole array. -/
theorem blk3_11 (t : Fin cfg3.N) (y : S150x150.Idx) :
    (iblk3 V c 11 t : S150x150.Idx → EReal) y = (V c (Pipeline.arrRef spec3 11) : S150x150.Idx → EReal) y := by
  have hi := idx3_11 t
  unfold iblk3
  rw [View.read_apply]
  show V c (Pipeline.arrRef spec3 11) _ = V c (Pipeline.arrRef spec3 11) _
  congr 1
  funext a
  apply Fin.ext
  match a with
  | ⟨0, _⟩ => show win3_11.index t 0 * 150 + 1 * (y 0).val = (y 0).val; rw [hi.1]; omega
  | ⟨1, _⟩ => show win3_11.index t 1 * 150 + 1 * (y 1).val = (y 1).val; rw [hi.2]; omega

/-- Window 12's block at every point is its whole array. -/
theorem blk3_12 (t : Fin cfg3.N) (y : S1x150.Idx) :
    (iblk3 V c 12 t : S1x150.Idx → EReal) y = (V c (Pipeline.arrRef spec3 12) : S1x150.Idx → EReal) y := by
  have hi := idx3_12 t
  unfold iblk3
  rw [View.read_apply]
  show V c (Pipeline.arrRef spec3 12) _ = V c (Pipeline.arrRef spec3 12) _
  congr 1
  funext a
  apply Fin.ext
  match a with
  | ⟨0, _⟩ => show win3_12.index t 0 * 1 + 1 * (y 0).val = (y 0).val; rw [hi.1]; omega
  | ⟨1, _⟩ => show win3_12.index t 1 * 150 + 1 * (y 1).val = (y 1).val; rw [hi.2]; omega

/-- Window 13's block at every point is its whole array. -/
theorem blk3_13 (t : Fin cfg3.N) (y : S150x150.Idx) :
    (iblk3 V c 13 t : S150x150.Idx → EReal) y = (V c (Pipeline.arrRef spec3 13) : S150x150.Idx → EReal) y := by
  have hi := idx3_13 t
  unfold iblk3
  rw [View.read_apply]
  show V c (Pipeline.arrRef spec3 13) _ = V c (Pipeline.arrRef spec3 13) _
  congr 1
  funext a
  apply Fin.ext
  match a with
  | ⟨0, _⟩ => show win3_13.index t 0 * 150 + 1 * (y 0).val = (y 0).val; rw [hi.1]; omega
  | ⟨1, _⟩ => show win3_13.index t 1 * 150 + 1 * (y 1).val = (y 1).val; rw [hi.2]; omega

/-- Window 14's block at every point is its whole array. -/
theorem blk3_14 (t : Fin cfg3.N) (y : S1x150.Idx) :
    (iblk3 V c 14 t : S1x150.Idx → EReal) y = (V c (Pipeline.arrRef spec3 14) : S1x150.Idx → EReal) y := by
  have hi := idx3_14 t
  unfold iblk3
  rw [View.read_apply]
  show V c (Pipeline.arrRef spec3 14) _ = V c (Pipeline.arrRef spec3 14) _
  congr 1
  funext a
  apply Fin.ext
  match a with
  | ⟨0, _⟩ => show win3_14.index t 0 * 1 + 1 * (y 0).val = (y 0).val; rw [hi.1]; omega
  | ⟨1, _⟩ => show win3_14.index t 1 * 150 + 1 * (y 1).val = (y 1).val; rw [hi.2]; omega

/-- Window 15's block at every point is its whole array. -/
theorem blk3_15 (t : Fin cfg3.N) (y : S150x150.Idx) :
    (iblk3 V c 15 t : S150x150.Idx → EReal) y = (V c (Pipeline.arrRef spec3 15) : S150x150.Idx → EReal) y := by
  have hi := idx3_15 t
  unfold iblk3
  rw [View.read_apply]
  show V c (Pipeline.arrRef spec3 15) _ = V c (Pipeline.arrRef spec3 15) _
  congr 1
  funext a
  apply Fin.ext
  match a with
  | ⟨0, _⟩ => show win3_15.index t 0 * 150 + 1 * (y 0).val = (y 0).val; rw [hi.1]; omega
  | ⟨1, _⟩ => show win3_15.index t 1 * 150 + 1 * (y 1).val = (y 1).val; rw [hi.2]; omega

/-- Window 16's block at every point is its whole array. -/
theorem blk3_16 (t : Fin cfg3.N) (y : S1x150.Idx) :
    (iblk3 V c 16 t : S1x150.Idx → EReal) y = (V c (Pipeline.arrRef spec3 16) : S1x150.Idx → EReal) y := by
  have hi := idx3_16 t
  unfold iblk3
  rw [View.read_apply]
  show V c (Pipeline.arrRef spec3 16) _ = V c (Pipeline.arrRef spec3 16) _
  congr 1
  funext a
  apply Fin.ext
  match a with
  | ⟨0, _⟩ => show win3_16.index t 0 * 1 + 1 * (y 0).val = (y 0).val; rw [hi.1]; omega
  | ⟨1, _⟩ => show win3_16.index t 1 * 150 + 1 * (y 1).val = (y 1).val; rw [hi.2]; omega

/-- Window 17's block at every point is its whole array. -/
theorem blk3_17 (t : Fin cfg3.N) (y : S150x150.Idx) :
    (iblk3 V c 17 t : S150x150.Idx → EReal) y = (V c (Pipeline.arrRef spec3 17) : S150x150.Idx → EReal) y := by
  have hi := idx3_17 t
  unfold iblk3
  rw [View.read_apply]
  show V c (Pipeline.arrRef spec3 17) _ = V c (Pipeline.arrRef spec3 17) _
  congr 1
  funext a
  apply Fin.ext
  match a with
  | ⟨0, _⟩ => show win3_17.index t 0 * 150 + 1 * (y 0).val = (y 0).val; rw [hi.1]; omega
  | ⟨1, _⟩ => show win3_17.index t 1 * 150 + 1 * (y 1).val = (y 1).val; rw [hi.2]; omega

/-- Window 18's block at every point is its whole array. -/
theorem blk3_18 (t : Fin cfg3.N) (y : S1x150.Idx) :
    (iblk3 V c 18 t : S1x150.Idx → EReal) y = (V c (Pipeline.arrRef spec3 18) : S1x150.Idx → EReal) y := by
  have hi := idx3_18 t
  unfold iblk3
  rw [View.read_apply]
  show V c (Pipeline.arrRef spec3 18) _ = V c (Pipeline.arrRef spec3 18) _
  congr 1
  funext a
  apply Fin.ext
  match a with
  | ⟨0, _⟩ => show win3_18.index t 0 * 1 + 1 * (y 0).val = (y 0).val; rw [hi.1]; omega
  | ⟨1, _⟩ => show win3_18.index t 1 * 150 + 1 * (y 1).val = (y 1).val; rw [hi.2]; omega

/-! ## What the body leaves in the output blocks -/

/-- The hidden-state block after the body is the tile's stored hidden state, as a function of the input blocks. -/
theorem out3_19_eq (x0 : Vec Ideal S512x300 .f32) (x1 : Vec Ideal S512x4x150 .f32) (x2 : Vec Ideal S512x4x150 .f32) (x3 : Vec Ideal S300x150 .f32) (x4 : Vec Ideal S1x150 .f32) (x5 : Vec Ideal S300x150 .f32) (x6 : Vec Ideal S1x150 .f32) (x7 : Vec Ideal S300x150 .f32) (x8 : Vec Ideal S1x150 .f32) (x9 : Vec Ideal S300x150 .f32) (x10 : Vec Ideal S1x150 .f32) (x11 : Vec Ideal S150x150 .f32) (x12 : Vec Ideal S1x150 .f32) (x13 : Vec Ideal S150x150 .f32) (x14 : Vec Ideal S1x150 .f32) (x15 : Vec Ideal S150x150 .f32) (x16 : Vec Ideal S1x150 .f32) (x17 : Vec Ideal S150x150 .f32) (x18 : Vec Ideal S1x150 .f32) :
    out3_19 x0 x1 x2 x3 x4 x5 x6 x7 x8 x9 x10 x11 x12 x13 x14 x15 x16 x17 x18 = Pay.hTerm3 x0 x1 x2 x13 x14 x5 x6 x3 x4 x11 x12 x9 x10 x17 x18 x7 x8 x15 x16 := by
  unfold out3_19
  rw [View.canon_unit_zero zero_off2]
  simp only [View.ld_unit_zero (S := S512x300) zero_off2, View.ld_unit_zero (S := S512x4x150) zero_off3, View.ld_unit_zero (S := S300x150) zero_off2, View.ld_unit_zero (S := S1x150) zero_off2, View.ld_unit_zero (S := S150x150) zero_off2]
  rfl

/-- The memory-cell block after the body is the tile's stored memory cell, as a function of the input blocks. -/
theorem out3_20_eq (x0 : Vec Ideal S512x300 .f32) (x1 : Vec Ideal S512x4x150 .f32) (x2 : Vec Ideal S512x4x150 .f32) (x3 : Vec Ideal S300x150 .f32) (x4 : Vec Ideal S1x150 .f32) (x5 : Vec Ideal S300x150 .f32) (x6 : Vec Ideal S1x150 .f32) (x7 : Vec Ideal S300x150 .f32) (x8 : Vec Ideal S1x150 .f32) (x9 : Vec Ideal S300x150 .f32) (x10 : Vec Ideal S1x150 .f32) (x11 : Vec Ideal S150x150 .f32) (x12 : Vec Ideal S1x150 .f32) (x13 : Vec Ideal S150x150 .f32) (x14 : Vec Ideal S1x150 .f32) (x15 : Vec Ideal S150x150 .f32) (x16 : Vec Ideal S1x150 .f32) (x17 : Vec Ideal S150x150 .f32) (x18 : Vec Ideal S1x150 .f32) :
    out3_20 x0 x1 x2 x3 x4 x5 x6 x7 x8 x9 x10 x11 x12 x13 x14 x15 x16 x17 x18 = Pay.cTerm3 x0 x1 x2 x13 x14 x5 x6 x3 x4 x11 x12 x9 x10 x17 x18 x7 x8 x15 x16 := by
  unfold out3_20
  rw [View.canon_unit_zero zero_off2]
  simp only [View.ld_unit_zero (S := S512x300) zero_off2, View.ld_unit_zero (S := S512x4x150) zero_off3, View.ld_unit_zero (S := S300x150) zero_off2, View.ld_unit_zero (S := S1x150) zero_off2, View.ld_unit_zero (S := S150x150) zero_off2]
  rfl

section
variable (P : Params) (X : Fin 1024 → Fin 300 → EReal) (CH CC : Fin 1024 → Fin 4 → Fin 150 → EReal)

/-- The parameter blocks at any point are the parameters. -/
theorem params3
    (h3 : ∀ k p, (V c (Pipeline.arrRef spec3 3) : S300x150.Idx → EReal) (ix2 k p) = P.Wix k p)
    (h4 : ∀ p, (V c (Pipeline.arrRef spec3 4) : S1x150.Idx → EReal) (ix2 0 p) = P.bix p)
    (h5 : ∀ k p, (V c (Pipeline.arrRef spec3 5) : S300x150.Idx → EReal) (ix2 k p) = P.Wfx k p)
    (h6 : ∀ p, (V c (Pipeline.arrRef spec3 6) : S1x150.Idx → EReal) (ix2 0 p) = P.bfx p)
    (h7 : ∀ k p, (V c (Pipeline.arrRef spec3 7) : S300x150.Idx → EReal) (ix2 k p) = P.Wux k p)
    (h8 : ∀ p, (V c (Pipeline.arrRef spec3 8) : S1x150.Idx → EReal) (ix2 0 p) = P.bux p)
    (h9 : ∀ k p, (V c (Pipeline.arrRef spec3 9) : S300x150.Idx → EReal) (ix2 k p) = P.Wox k p)
    (h10 : ∀ p, (V c (Pipeline.arrRef spec3 10) : S1x150.Idx → EReal) (ix2 0 p) = P.box p)
    (h11 : ∀ k p, (V c (Pipeline.arrRef spec3 11) : S150x150.Idx → EReal) (ix2 k p) = P.Wih k p)
    (h12 : ∀ p, (V c (Pipeline.arrRef spec3 12) : S1x150.Idx → EReal) (ix2 0 p) = P.bih p)
    (h13 : ∀ k p, (V c (Pipeline.arrRef spec3 13) : S150x150.Idx → EReal) (ix2 k p) = P.Wfh k p)
    (h14 : ∀ p, (V c (Pipeline.arrRef spec3 14) : S1x150.Idx → EReal) (ix2 0 p) = P.bfh p)
    (h15 : ∀ k p, (V c (Pipeline.arrRef spec3 15) : S150x150.Idx → EReal) (ix2 k p) = P.Wuh k p)
    (h16 : ∀ p, (V c (Pipeline.arrRef spec3 16) : S1x150.Idx → EReal) (ix2 0 p) = P.buh p)
    (h17 : ∀ k p, (V c (Pipeline.arrRef spec3 17) : S150x150.Idx → EReal) (ix2 k p) = P.Woh k p)
    (h18 : ∀ p, (V c (Pipeline.arrRef spec3 18) : S1x150.Idx → EReal) (ix2 0 p) = P.boh p)
    (t : Fin cfg3.N) :
    paramsOfRows (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) (iblk3 V c 17 t) (iblk3 V c 18 t) = P :=
  Params.eq_of_fields P
    (funext fun k => funext fun p => (blk3_3 V c t (ix2 k p)).trans (h3 k p))
    (funext fun p => (blk3_4 V c t (ix2 0 p)).trans (h4 p))
    (funext fun k => funext fun p => (blk3_5 V c t (ix2 k p)).trans (h5 k p))
    (funext fun p => (blk3_6 V c t (ix2 0 p)).trans (h6 p))
    (funext fun k => funext fun p => (blk3_7 V c t (ix2 k p)).trans (h7 k p))
    (funext fun p => (blk3_8 V c t (ix2 0 p)).trans (h8 p))
    (funext fun k => funext fun p => (blk3_9 V c t (ix2 k p)).trans (h9 k p))
    (funext fun p => (blk3_10 V c t (ix2 0 p)).trans (h10 p))
    (funext fun k => funext fun p => (blk3_11 V c t (ix2 k p)).trans (h11 k p))
    (funext fun p => (blk3_12 V c t (ix2 0 p)).trans (h12 p))
    (funext fun k => funext fun p => (blk3_13 V c t (ix2 k p)).trans (h13 k p))
    (funext fun p => (blk3_14 V c t (ix2 0 p)).trans (h14 p))
    (funext fun k => funext fun p => (blk3_15 V c t (ix2 k p)).trans (h15 k p))
    (funext fun p => (blk3_16 V c t (ix2 0 p)).trans (h16 p))
    (funext fun k => funext fun p => (blk3_17 V c t (ix2 k p)).trans (h17 k p))
    (funext fun p => (blk3_18 V c t (ix2 0 p)).trans (h18 p))

/-- Row r of the hidden-state block at point t is the hidden state of node 512·t + r. -/
theorem tile3_19
    (h0 : ∀ r k, (V c (Pipeline.arrRef spec3 0) : (⟨2, ![1024, 300]⟩ : Shape).Idx → EReal) (ix2 r k) = X r k)
    (h1 : ∀ r k j, (V c (Pipeline.arrRef spec3 1) : (⟨3, ![1024, 4, 150]⟩ : Shape).Idx → EReal) (ix3 r k j) = CH r k j)
    (h2 : ∀ r k j, (V c (Pipeline.arrRef spec3 2) : (⟨3, ![1024, 4, 150]⟩ : Shape).Idx → EReal) (ix3 r k j) = CC r k j)
    (h3 : ∀ k p, (V c (Pipeline.arrRef spec3 3) : S300x150.Idx → EReal) (ix2 k p) = P.Wix k p)
    (h4 : ∀ p, (V c (Pipeline.arrRef spec3 4) : S1x150.Idx → EReal) (ix2 0 p) = P.bix p)
    (h5 : ∀ k p, (V c (Pipeline.arrRef spec3 5) : S300x150.Idx → EReal) (ix2 k p) = P.Wfx k p)
    (h6 : ∀ p, (V c (Pipeline.arrRef spec3 6) : S1x150.Idx → EReal) (ix2 0 p) = P.bfx p)
    (h7 : ∀ k p, (V c (Pipeline.arrRef spec3 7) : S300x150.Idx → EReal) (ix2 k p) = P.Wux k p)
    (h8 : ∀ p, (V c (Pipeline.arrRef spec3 8) : S1x150.Idx → EReal) (ix2 0 p) = P.bux p)
    (h9 : ∀ k p, (V c (Pipeline.arrRef spec3 9) : S300x150.Idx → EReal) (ix2 k p) = P.Wox k p)
    (h10 : ∀ p, (V c (Pipeline.arrRef spec3 10) : S1x150.Idx → EReal) (ix2 0 p) = P.box p)
    (h11 : ∀ k p, (V c (Pipeline.arrRef spec3 11) : S150x150.Idx → EReal) (ix2 k p) = P.Wih k p)
    (h12 : ∀ p, (V c (Pipeline.arrRef spec3 12) : S1x150.Idx → EReal) (ix2 0 p) = P.bih p)
    (h13 : ∀ k p, (V c (Pipeline.arrRef spec3 13) : S150x150.Idx → EReal) (ix2 k p) = P.Wfh k p)
    (h14 : ∀ p, (V c (Pipeline.arrRef spec3 14) : S1x150.Idx → EReal) (ix2 0 p) = P.bfh p)
    (h15 : ∀ k p, (V c (Pipeline.arrRef spec3 15) : S150x150.Idx → EReal) (ix2 k p) = P.Wuh k p)
    (h16 : ∀ p, (V c (Pipeline.arrRef spec3 16) : S1x150.Idx → EReal) (ix2 0 p) = P.buh p)
    (h17 : ∀ k p, (V c (Pipeline.arrRef spec3 17) : S150x150.Idx → EReal) (ix2 k p) = P.Woh k p)
    (h18 : ∀ p, (V c (Pipeline.arrRef spec3 18) : S1x150.Idx → EReal) (ix2 0 p) = P.boh p)
    (t : Fin cfg3.N) (r : Fin 512) (p : Fin 150) (R : Fin 1024) (hR : R.val = t.val * 512 + r.val) :
    ((dat3 V c).after 19 t : S512x150.Idx → EReal) (ix2 r p) = intH P X CH CC R p := by
  rw [after3_19, out3_19_eq]
  refine (Pay.hTerm3_apply (iblk3 V c 0 t) (iblk3 V c 1 t) (iblk3 V c 2 t) (iblk3 V c 13 t) (iblk3 V c 14 t) (iblk3 V c 5 t) (iblk3 V c 6 t) (iblk3 V c 3 t) (iblk3 V c 4 t) (iblk3 V c 11 t) (iblk3 V c 12 t) (iblk3 V c 9 t) (iblk3 V c 10 t) (iblk3 V c 17 t) (iblk3 V c 18 t) (iblk3 V c 7 t) (iblk3 V c 8 t) (iblk3 V c 15 t) (iblk3 V c 16 t) r p).trans ?_
  exact intH_local (params3 V c P h3 h4 h5 h6 h7 h8 h9 h10 h11 h12 h13 h14 h15 h16 h17 h18 t)
    (funext fun k => (blk3_0 V c t r k R hR).trans (h0 R k))
    (funext fun k => funext fun j => (blk3_1 V c t r k j R hR).trans (h1 R k j))
    (funext fun k => funext fun j => (blk3_2 V c t r k j R hR).trans (h2 R k j)) p

/-- Row r of the memory-cell block at point t is the memory cell of node 512·t + r. -/
theorem tile3_20
    (h0 : ∀ r k, (V c (Pipeline.arrRef spec3 0) : (⟨2, ![1024, 300]⟩ : Shape).Idx → EReal) (ix2 r k) = X r k)
    (h1 : ∀ r k j, (V c (Pipeline.arrRef spec3 1) : (⟨3, ![1024, 4, 150]⟩ : Shape).Idx → EReal) (ix3 r k j) = CH r k j)
    (h2 : ∀ r k j, (V c (Pipeline.arrRef spec3 2) : (⟨3, ![1024, 4, 150]⟩ : Shape).Idx → EReal) (ix3 r k j) = CC r k j)
    (h3 : ∀ k p, (V c (Pipeline.arrRef spec3 3) : S300x150.Idx → EReal) (ix2 k p) = P.Wix k p)
    (h4 : ∀ p, (V c (Pipeline.arrRef spec3 4) : S1x150.Idx → EReal) (ix2 0 p) = P.bix p)
    (h5 : ∀ k p, (V c (Pipeline.arrRef spec3 5) : S300x150.Idx → EReal) (ix2 k p) = P.Wfx k p)
    (h6 : ∀ p, (V c (Pipeline.arrRef spec3 6) : S1x150.Idx → EReal) (ix2 0 p) = P.bfx p)
    (h7 : ∀ k p, (V c (Pipeline.arrRef spec3 7) : S300x150.Idx → EReal) (ix2 k p) = P.Wux k p)
    (h8 : ∀ p, (V c (Pipeline.arrRef spec3 8) : S1x150.Idx → EReal) (ix2 0 p) = P.bux p)
    (h9 : ∀ k p, (V c (Pipeline.arrRef spec3 9) : S300x150.Idx → EReal) (ix2 k p) = P.Wox k p)
    (h10 : ∀ p, (V c (Pipeline.arrRef spec3 10) : S1x150.Idx → EReal) (ix2 0 p) = P.box p)
    (h11 : ∀ k p, (V c (Pipeline.arrRef spec3 11) : S150x150.Idx → EReal) (ix2 k p) = P.Wih k p)
    (h12 : ∀ p, (V c (Pipeline.arrRef spec3 12) : S1x150.Idx → EReal) (ix2 0 p) = P.bih p)
    (h13 : ∀ k p, (V c (Pipeline.arrRef spec3 13) : S150x150.Idx → EReal) (ix2 k p) = P.Wfh k p)
    (h14 : ∀ p, (V c (Pipeline.arrRef spec3 14) : S1x150.Idx → EReal) (ix2 0 p) = P.bfh p)
    (h15 : ∀ k p, (V c (Pipeline.arrRef spec3 15) : S150x150.Idx → EReal) (ix2 k p) = P.Wuh k p)
    (h16 : ∀ p, (V c (Pipeline.arrRef spec3 16) : S1x150.Idx → EReal) (ix2 0 p) = P.buh p)
    (h17 : ∀ k p, (V c (Pipeline.arrRef spec3 17) : S150x150.Idx → EReal) (ix2 k p) = P.Woh k p)
    (h18 : ∀ p, (V c (Pipeline.arrRef spec3 18) : S1x150.Idx → EReal) (ix2 0 p) = P.boh p)
    (t : Fin cfg3.N) (r : Fin 512) (p : Fin 150) (R : Fin 1024) (hR : R.val = t.val * 512 + r.val) :
    ((dat3 V c).after 20 t : S512x150.Idx → EReal) (ix2 r p) = intC P X CH CC R p := by
  rw [after3_20, out3_20_eq]
  refine (Pay.cTerm3_apply (iblk3 V c 0 t) (iblk3 V c 1 t) (iblk3 V c 2 t) (iblk3 V c 13 t) (iblk3 V c 14 t) (iblk3 V c 5 t) (iblk3 V c 6 t) (iblk3 V c 3 t) (iblk3 V c 4 t) (iblk3 V c 11 t) (iblk3 V c 12 t) (iblk3 V c 9 t) (iblk3 V c 10 t) (iblk3 V c 17 t) (iblk3 V c 18 t) (iblk3 V c 7 t) (iblk3 V c 8 t) (iblk3 V c 15 t) (iblk3 V c 16 t) r p).trans ?_
  exact intC_local (params3 V c P h3 h4 h5 h6 h7 h8 h9 h10 h11 h12 h13 h14 h15 h16 h17 h18 t)
    (funext fun k => (blk3_0 V c t r k R hR).trans (h0 R k))
    (funext fun k => funext fun j => (blk3_1 V c t r k j R hR).trans (h1 R k j))
    (funext fun k => funext fun j => (blk3_2 V c t r k j R hR).trans (h2 R k j)) p

/-- Entry (r, p) of window 19's block at point t sits at (512·t + r, p) of its array. -/
theorem emb3_19 (t : Fin cfg3.N) (r : Fin 512) (p : Fin 150) (hR : t.val * 512 + r.val < 1024) :
    ((cfg3.win 19).blk t).view.emb (ix2 r p) = (ix2 ⟨t.val * 512 + r.val, hR⟩ p : (⟨2, ![1024, 150]⟩ : Shape).Idx) := by
  have hi := idx3_19 t
  funext a
  apply Fin.ext
  match a with
  | ⟨0, _⟩ => show win3_19.index t 0 * 512 + 1 * r.val = t.val * 512 + r.val; rw [hi.1]; omega
  | ⟨1, _⟩ => show win3_19.index t 1 * 150 + 1 * p.val = p.val; rw [hi.2]; omega

/-- What point t writes back through window 19 is its block of the level's values. -/
theorem flushed3_19
    (h0 : ∀ r k, (V c (Pipeline.arrRef spec3 0) : (⟨2, ![1024, 300]⟩ : Shape).Idx → EReal) (ix2 r k) = X r k)
    (h1 : ∀ r k j, (V c (Pipeline.arrRef spec3 1) : (⟨3, ![1024, 4, 150]⟩ : Shape).Idx → EReal) (ix3 r k j) = CH r k j)
    (h2 : ∀ r k j, (V c (Pipeline.arrRef spec3 2) : (⟨3, ![1024, 4, 150]⟩ : Shape).Idx → EReal) (ix3 r k j) = CC r k j)
    (h3 : ∀ k p, (V c (Pipeline.arrRef spec3 3) : S300x150.Idx → EReal) (ix2 k p) = P.Wix k p)
    (h4 : ∀ p, (V c (Pipeline.arrRef spec3 4) : S1x150.Idx → EReal) (ix2 0 p) = P.bix p)
    (h5 : ∀ k p, (V c (Pipeline.arrRef spec3 5) : S300x150.Idx → EReal) (ix2 k p) = P.Wfx k p)
    (h6 : ∀ p, (V c (Pipeline.arrRef spec3 6) : S1x150.Idx → EReal) (ix2 0 p) = P.bfx p)
    (h7 : ∀ k p, (V c (Pipeline.arrRef spec3 7) : S300x150.Idx → EReal) (ix2 k p) = P.Wux k p)
    (h8 : ∀ p, (V c (Pipeline.arrRef spec3 8) : S1x150.Idx → EReal) (ix2 0 p) = P.bux p)
    (h9 : ∀ k p, (V c (Pipeline.arrRef spec3 9) : S300x150.Idx → EReal) (ix2 k p) = P.Wox k p)
    (h10 : ∀ p, (V c (Pipeline.arrRef spec3 10) : S1x150.Idx → EReal) (ix2 0 p) = P.box p)
    (h11 : ∀ k p, (V c (Pipeline.arrRef spec3 11) : S150x150.Idx → EReal) (ix2 k p) = P.Wih k p)
    (h12 : ∀ p, (V c (Pipeline.arrRef spec3 12) : S1x150.Idx → EReal) (ix2 0 p) = P.bih p)
    (h13 : ∀ k p, (V c (Pipeline.arrRef spec3 13) : S150x150.Idx → EReal) (ix2 k p) = P.Wfh k p)
    (h14 : ∀ p, (V c (Pipeline.arrRef spec3 14) : S1x150.Idx → EReal) (ix2 0 p) = P.bfh p)
    (h15 : ∀ k p, (V c (Pipeline.arrRef spec3 15) : S150x150.Idx → EReal) (ix2 k p) = P.Wuh k p)
    (h16 : ∀ p, (V c (Pipeline.arrRef spec3 16) : S1x150.Idx → EReal) (ix2 0 p) = P.buh p)
    (h17 : ∀ k p, (V c (Pipeline.arrRef spec3 17) : S150x150.Idx → EReal) (ix2 k p) = P.Woh k p)
    (h18 : ∀ p, (V c (Pipeline.arrRef spec3 18) : S1x150.Idx → EReal) (ix2 0 p) = P.boh p)
    (t : Fin cfg3.N) :
    (dat3 V c).flushed 19 t
      = ((cfg3.win 19).blk t).view.read (Elt Ideal) (fun i : (⟨2, ![1024, 150]⟩ : Shape).Idx => intH P X CH CC (i 0) (i 1)) := by
  refine forall_ix2 (n0 := 512) (n1 := 150) fun r p => ?_
  have ht : t.val < 2 := t.isLt
  have hR : t.val * 512 + r.val < 1024 := by have := r.isLt; omega
  refine (tile3_19 V c P X CH CC h0 h1 h2 h3 h4 h5 h6 h7 h8 h9 h10 h11 h12 h13 h14 h15 h16 h17 h18 t r p ⟨_, hR⟩ rfl).trans ?_
  rw [View.read_apply]
  show _ = (fun i : (⟨2, ![1024, 150]⟩ : Shape).Idx => intH P X CH CC (i 0) (i 1)) (((cfg3.win 19).blk t).view.emb (ix2 r p))
  rw [emb3_19 t r p hR]

/-- Window 19's blocks cover its array: node R lies in the block of point R / 512. -/
theorem covered3_19 (i : (⟨2, ![1024, 150]⟩ : Shape).Idx) :
    ∃ t : Fin cfg3.N, (cfg3.win 19).flush t = true ∧ i ∈ ((cfg3.win 19).blk t).view.set := by
  have h0 : (i 0 : Nat) < 1024 := (i 0).isLt
  have h1 : (i 1 : Nat) < 150 := (i 1).isLt
  have hlt : (i 0 : Nat) / 512 < 2 := by omega
  refine ⟨⟨(i 0 : Nat) / 512, hlt⟩, flush3_19 _, ?_⟩
  have hi := idx3_19 ⟨(i 0 : Nat) / 512, hlt⟩
  show i ∈ ((View.whole (Pipeline.arrRef spec3 19)).slice (win3_19.rect ⟨(i 0 : Nat) / 512, hlt⟩)).set
  rw [View.set_slice_whole, Rect.mem_set_unit]
  intro a
  match a with
  | ⟨0, _⟩ =>
    show win3_19.index ⟨(i 0 : Nat) / 512, hlt⟩ 0 * 512 ≤ (i 0 : Nat) ∧ (i 0 : Nat) < win3_19.index ⟨(i 0 : Nat) / 512, hlt⟩ 0 * 512 + 512
    rw [hi.1]
    show (i 0 : Nat) / 512 * 512 ≤ (i 0 : Nat) ∧ (i 0 : Nat) < (i 0 : Nat) / 512 * 512 + 512
    omega
  | ⟨1, _⟩ =>
    show win3_19.index ⟨(i 0 : Nat) / 512, hlt⟩ 1 * 150 ≤ (i 1 : Nat) ∧ (i 1 : Nat) < win3_19.index ⟨(i 0 : Nat) / 512, hlt⟩ 1 * 150 + 150
    rw [hi.2]
    omega

/-- Entry (r, p) of window 20's block at point t sits at (512·t + r, p) of its array. -/
theorem emb3_20 (t : Fin cfg3.N) (r : Fin 512) (p : Fin 150) (hR : t.val * 512 + r.val < 1024) :
    ((cfg3.win 20).blk t).view.emb (ix2 r p) = (ix2 ⟨t.val * 512 + r.val, hR⟩ p : (⟨2, ![1024, 150]⟩ : Shape).Idx) := by
  have hi := idx3_20 t
  funext a
  apply Fin.ext
  match a with
  | ⟨0, _⟩ => show win3_20.index t 0 * 512 + 1 * r.val = t.val * 512 + r.val; rw [hi.1]; omega
  | ⟨1, _⟩ => show win3_20.index t 1 * 150 + 1 * p.val = p.val; rw [hi.2]; omega

/-- What point t writes back through window 20 is its block of the level's values. -/
theorem flushed3_20
    (h0 : ∀ r k, (V c (Pipeline.arrRef spec3 0) : (⟨2, ![1024, 300]⟩ : Shape).Idx → EReal) (ix2 r k) = X r k)
    (h1 : ∀ r k j, (V c (Pipeline.arrRef spec3 1) : (⟨3, ![1024, 4, 150]⟩ : Shape).Idx → EReal) (ix3 r k j) = CH r k j)
    (h2 : ∀ r k j, (V c (Pipeline.arrRef spec3 2) : (⟨3, ![1024, 4, 150]⟩ : Shape).Idx → EReal) (ix3 r k j) = CC r k j)
    (h3 : ∀ k p, (V c (Pipeline.arrRef spec3 3) : S300x150.Idx → EReal) (ix2 k p) = P.Wix k p)
    (h4 : ∀ p, (V c (Pipeline.arrRef spec3 4) : S1x150.Idx → EReal) (ix2 0 p) = P.bix p)
    (h5 : ∀ k p, (V c (Pipeline.arrRef spec3 5) : S300x150.Idx → EReal) (ix2 k p) = P.Wfx k p)
    (h6 : ∀ p, (V c (Pipeline.arrRef spec3 6) : S1x150.Idx → EReal) (ix2 0 p) = P.bfx p)
    (h7 : ∀ k p, (V c (Pipeline.arrRef spec3 7) : S300x150.Idx → EReal) (ix2 k p) = P.Wux k p)
    (h8 : ∀ p, (V c (Pipeline.arrRef spec3 8) : S1x150.Idx → EReal) (ix2 0 p) = P.bux p)
    (h9 : ∀ k p, (V c (Pipeline.arrRef spec3 9) : S300x150.Idx → EReal) (ix2 k p) = P.Wox k p)
    (h10 : ∀ p, (V c (Pipeline.arrRef spec3 10) : S1x150.Idx → EReal) (ix2 0 p) = P.box p)
    (h11 : ∀ k p, (V c (Pipeline.arrRef spec3 11) : S150x150.Idx → EReal) (ix2 k p) = P.Wih k p)
    (h12 : ∀ p, (V c (Pipeline.arrRef spec3 12) : S1x150.Idx → EReal) (ix2 0 p) = P.bih p)
    (h13 : ∀ k p, (V c (Pipeline.arrRef spec3 13) : S150x150.Idx → EReal) (ix2 k p) = P.Wfh k p)
    (h14 : ∀ p, (V c (Pipeline.arrRef spec3 14) : S1x150.Idx → EReal) (ix2 0 p) = P.bfh p)
    (h15 : ∀ k p, (V c (Pipeline.arrRef spec3 15) : S150x150.Idx → EReal) (ix2 k p) = P.Wuh k p)
    (h16 : ∀ p, (V c (Pipeline.arrRef spec3 16) : S1x150.Idx → EReal) (ix2 0 p) = P.buh p)
    (h17 : ∀ k p, (V c (Pipeline.arrRef spec3 17) : S150x150.Idx → EReal) (ix2 k p) = P.Woh k p)
    (h18 : ∀ p, (V c (Pipeline.arrRef spec3 18) : S1x150.Idx → EReal) (ix2 0 p) = P.boh p)
    (t : Fin cfg3.N) :
    (dat3 V c).flushed 20 t
      = ((cfg3.win 20).blk t).view.read (Elt Ideal) (fun i : (⟨2, ![1024, 150]⟩ : Shape).Idx => intC P X CH CC (i 0) (i 1)) := by
  refine forall_ix2 (n0 := 512) (n1 := 150) fun r p => ?_
  have ht : t.val < 2 := t.isLt
  have hR : t.val * 512 + r.val < 1024 := by have := r.isLt; omega
  refine (tile3_20 V c P X CH CC h0 h1 h2 h3 h4 h5 h6 h7 h8 h9 h10 h11 h12 h13 h14 h15 h16 h17 h18 t r p ⟨_, hR⟩ rfl).trans ?_
  rw [View.read_apply]
  show _ = (fun i : (⟨2, ![1024, 150]⟩ : Shape).Idx => intC P X CH CC (i 0) (i 1)) (((cfg3.win 20).blk t).view.emb (ix2 r p))
  rw [emb3_20 t r p hR]

/-- Window 20's blocks cover its array: node R lies in the block of point R / 512. -/
theorem covered3_20 (i : (⟨2, ![1024, 150]⟩ : Shape).Idx) :
    ∃ t : Fin cfg3.N, (cfg3.win 20).flush t = true ∧ i ∈ ((cfg3.win 20).blk t).view.set := by
  have h0 : (i 0 : Nat) < 1024 := (i 0).isLt
  have h1 : (i 1 : Nat) < 150 := (i 1).isLt
  have hlt : (i 0 : Nat) / 512 < 2 := by omega
  refine ⟨⟨(i 0 : Nat) / 512, hlt⟩, flush3_20 _, ?_⟩
  have hi := idx3_20 ⟨(i 0 : Nat) / 512, hlt⟩
  show i ∈ ((View.whole (Pipeline.arrRef spec3 20)).slice (win3_20.rect ⟨(i 0 : Nat) / 512, hlt⟩)).set
  rw [View.set_slice_whole, Rect.mem_set_unit]
  intro a
  match a with
  | ⟨0, _⟩ =>
    show win3_20.index ⟨(i 0 : Nat) / 512, hlt⟩ 0 * 512 ≤ (i 0 : Nat) ∧ (i 0 : Nat) < win3_20.index ⟨(i 0 : Nat) / 512, hlt⟩ 0 * 512 + 512
    rw [hi.1]
    show (i 0 : Nat) / 512 * 512 ≤ (i 0 : Nat) ∧ (i 0 : Nat) < (i 0 : Nat) / 512 * 512 + 512
    omega
  | ⟨1, _⟩ =>
    show win3_20.index ⟨(i 0 : Nat) / 512, hlt⟩ 1 * 150 ≤ (i 1 : Nat) ∧ (i 1 : Nat) < win3_20.index ⟨(i 0 : Nat) / 512, hlt⟩ 1 * 150 + 150
    rw [hi.2]
    omega

/-- After the last point the two output arrays hold the level's hidden states and memory cells. -/
theorem arr3
    (h0 : ∀ r k, (V c (Pipeline.arrRef spec3 0) : (⟨2, ![1024, 300]⟩ : Shape).Idx → EReal) (ix2 r k) = X r k)
    (h1 : ∀ r k j, (V c (Pipeline.arrRef spec3 1) : (⟨3, ![1024, 4, 150]⟩ : Shape).Idx → EReal) (ix3 r k j) = CH r k j)
    (h2 : ∀ r k j, (V c (Pipeline.arrRef spec3 2) : (⟨3, ![1024, 4, 150]⟩ : Shape).Idx → EReal) (ix3 r k j) = CC r k j)
    (h3 : ∀ k p, (V c (Pipeline.arrRef spec3 3) : S300x150.Idx → EReal) (ix2 k p) = P.Wix k p)
    (h4 : ∀ p, (V c (Pipeline.arrRef spec3 4) : S1x150.Idx → EReal) (ix2 0 p) = P.bix p)
    (h5 : ∀ k p, (V c (Pipeline.arrRef spec3 5) : S300x150.Idx → EReal) (ix2 k p) = P.Wfx k p)
    (h6 : ∀ p, (V c (Pipeline.arrRef spec3 6) : S1x150.Idx → EReal) (ix2 0 p) = P.bfx p)
    (h7 : ∀ k p, (V c (Pipeline.arrRef spec3 7) : S300x150.Idx → EReal) (ix2 k p) = P.Wux k p)
    (h8 : ∀ p, (V c (Pipeline.arrRef spec3 8) : S1x150.Idx → EReal) (ix2 0 p) = P.bux p)
    (h9 : ∀ k p, (V c (Pipeline.arrRef spec3 9) : S300x150.Idx → EReal) (ix2 k p) = P.Wox k p)
    (h10 : ∀ p, (V c (Pipeline.arrRef spec3 10) : S1x150.Idx → EReal) (ix2 0 p) = P.box p)
    (h11 : ∀ k p, (V c (Pipeline.arrRef spec3 11) : S150x150.Idx → EReal) (ix2 k p) = P.Wih k p)
    (h12 : ∀ p, (V c (Pipeline.arrRef spec3 12) : S1x150.Idx → EReal) (ix2 0 p) = P.bih p)
    (h13 : ∀ k p, (V c (Pipeline.arrRef spec3 13) : S150x150.Idx → EReal) (ix2 k p) = P.Wfh k p)
    (h14 : ∀ p, (V c (Pipeline.arrRef spec3 14) : S1x150.Idx → EReal) (ix2 0 p) = P.bfh p)
    (h15 : ∀ k p, (V c (Pipeline.arrRef spec3 15) : S150x150.Idx → EReal) (ix2 k p) = P.Wuh k p)
    (h16 : ∀ p, (V c (Pipeline.arrRef spec3 16) : S1x150.Idx → EReal) (ix2 0 p) = P.buh p)
    (h17 : ∀ k p, (V c (Pipeline.arrRef spec3 17) : S150x150.Idx → EReal) (ix2 k p) = P.Woh k p)
    (h18 : ∀ p, (V c (Pipeline.arrRef spec3 18) : S1x150.Idx → EReal) (ix2 0 p) = P.boh p) :
    (∀ r p, ((dat3 V c).arrAt 19 cfg3.N : (⟨2, ![1024, 150]⟩ : Shape).Idx → EReal) (ix2 r p) = intH P X CH CC r p)
      ∧ (∀ r p, ((dat3 V c).arrAt 20 cfg3.N : (⟨2, ![1024, 150]⟩ : Shape).Idx → EReal) (ix2 r p) = intC P X CH CC r p) :=
  ⟨fun r p => congrFun ((dat3 V c).arrAt_eq_of_cover 19 (fun i : (⟨2, ![1024, 150]⟩ : Shape).Idx => intH P X CH CC (i 0) (i 1))
      (fun t _ => flushed3_19 V c P X CH CC h0 h1 h2 h3 h4 h5 h6 h7 h8 h9 h10 h11 h12 h13 h14 h15 h16 h17 h18 t) (covered3_19)) (ix2 r p),
   fun r p => congrFun ((dat3 V c).arrAt_eq_of_cover 20 (fun i : (⟨2, ![1024, 150]⟩ : Shape).Idx => intC P X CH CC (i 0) (i 1))
      (fun t _ => flushed3_20 V c P X CH CC h0 h1 h2 h3 h4 h5 h6 h7 h8 h9 h10 h11 h12 h13 h14 h15 h16 h17 h18 t) (covered3_20)) (ix2 r p)⟩

end

end Cert.KernelIdeal.Tree

end
-- ==== Proof.KerPay4.lean ====
/-
  The two stored values of a tile of 256 internal nodes at an entry, on the extended reals.

  The tile holds 256 input rows x (300 numbers each) and, for every node, its four children's hidden states and memory
  cells (150 numbers each). The body sums the children's hidden states, s = h_0 + h_1 + h_2 + h_3, forms the products of
  x with W_ix, W_fx, W_ox, W_ux and of s with W_ih, W_oh, W_uh, and one product per child of h_k with W_fh — every operand
  first cast to a narrower float format, which changes nothing on the extended reals — and stores
      c = σ(((x · W_ix + b_ix) + s · W_ih) + b_ih) * tanh(((x · W_ux + b_ux) + s · W_uh) + b_uh)
            + Σ_k σ((h_k · W_fh + b_fh) + (x · W_fx + b_fx)) * c_k          and          h = σ(((x · W_ox + b_ox) + s · W_oh) + b_oh) * tanh c.
  Read at node r and coordinate p these are the recurrence's memory cell and hidden state of an internal node.
-/
import proofs.«167239_j63453846831535_1_alg».proof.Proof.Gen.KernelIdeal.Skeleton
import proofs.«167239_j63453846831535_1_alg».proof.Proof.TreeSpecArr
import proofs.«167239_j63453846831535_1_alg».proof.Proof.LibTreeOps

noncomputable section

namespace Cert.KernelIdeal.Pay

open Idealize.ShloMosaic Idealize.ShloMosaic.ValueIdx Cert.TreeSpec

/-- The stored hidden state of the tile, as a function of the nineteen loaded arrays. -/
def hTerm4 (v0 : Vec Ideal S256x300 .f32) (v2 v4 : Vec Ideal S256x4x150 .f32) (v11 : Vec Ideal S150x150 .f32)
    (v15 : Vec Ideal S1x150 .f32) (v20 : Vec Ideal S300x150 .f32) (v23 : Vec Ideal S1x150 .f32)
    (v33 : Vec Ideal S300x150 .f32) (v36 : Vec Ideal S1x150 .f32) (v40 : Vec Ideal S150x150 .f32)
    (v44 : Vec Ideal S1x150 .f32) (v49 : Vec Ideal S300x150 .f32) (v52 : Vec Ideal S1x150 .f32)
    (v56 : Vec Ideal S150x150 .f32) (v60 : Vec Ideal S1x150 .f32) (v65 : Vec Ideal S300x150 .f32)
    (v68 : Vec Ideal S1x150 .f32) (v72 : Vec Ideal S150x150 .f32) (v76 : Vec Ideal S1x150 .f32) : FVec Ideal S256x150 .f32 :=
  Gen.k4_pay2 (Gen.k4_pay5 v2) (Gen.k4_pay6 v0 v2 v4 v11 v15 v20 v23)
    (Gen.k4_pay8 (Gen.k4_pay5 v2) (Gen.k4_pay7 v0 v33) v36 v40 v44)
    (Gen.k4_pay9 (Gen.k4_pay4 v0) (Gen.k4_pay5 v2) v49 v52 v56 v60) (Gen.k4_pay10 (Gen.k4_pay4 v0) v65 v68) v72 v76

/-- The stored memory cell of the tile, as a function of the loaded arrays. -/
def cTerm4 (v0 : Vec Ideal S256x300 .f32) (v2 v4 : Vec Ideal S256x4x150 .f32) (v11 : Vec Ideal S150x150 .f32)
    (v15 : Vec Ideal S1x150 .f32) (v20 : Vec Ideal S300x150 .f32) (v23 : Vec Ideal S1x150 .f32)
    (v33 : Vec Ideal S300x150 .f32) (v36 : Vec Ideal S1x150 .f32) (v40 : Vec Ideal S150x150 .f32)
    (v44 : Vec Ideal S1x150 .f32) (v49 : Vec Ideal S300x150 .f32) (v52 : Vec Ideal S1x150 .f32)
    (v56 : Vec Ideal S150x150 .f32) (v60 : Vec Ideal S1x150 .f32) (v65 : Vec Ideal S300x150 .f32)
    (v68 : Vec Ideal S1x150 .f32) (v72 : Vec Ideal S150x150 .f32) (v76 : Vec Ideal S1x150 .f32) : FVec Ideal S256x150 .f32 :=
  Gen.k4_pay1 (Gen.k4_pay5 v2) (Gen.k4_pay6 v0 v2 v4 v11 v15 v20 v23)
    (Gen.k4_pay8 (Gen.k4_pay5 v2) (Gen.k4_pay7 v0 v33) v36 v40 v44) (Gen.k4_pay10 (Gen.k4_pay4 v0) v65 v68) v72 v76

section
variable (v0 : Vec Ideal S256x300 .f32) (v2 v4 : Vec Ideal S256x4x150 .f32) (v11 : Vec Ideal S150x150 .f32)
    (v15 : Vec Ideal S1x150 .f32) (v20 : Vec Ideal S300x150 .f32) (v23 : Vec Ideal S1x150 .f32)
    (v33 : Vec Ideal S300x150 .f32) (v36 : Vec Ideal S1x150 .f32) (v40 : Vec Ideal S150x150 .f32)
    (v44 : Vec Ideal S1x150 .f32) (v49 : Vec Ideal S300x150 .f32) (v52 : Vec Ideal S1x150 .f32)
    (v56 : Vec Ideal S150x150 .f32) (v60 : Vec Ideal S1x150 .f32) (v65 : Vec Ideal S300x150 .f32)
    (v68 : Vec Ideal S1x150 .f32) (v72 : Vec Ideal S150x150 .f32) (v76 : Vec Ideal S1x150 .f32)
  (r : Fin 256) (p : Fin 150)

/-- The children's memory cells weighted by their forget gates, summed, at (r, p). -/
theorem forget_sum4 : Gen.k4_pay6 v0 v2 v4 v11 v15 v20 v23 (ix2 r p)
    = ∑ k : Fin 4, Ideal.logistic (((∑ j : Fin 150, tile3 v2 r k j * mat v11 j p) + row v15 p)
        + (lin (tile2 v0) (mat v20) r p + row v23 p)) * tile3 v4 r k p := by
  unfold Gen.k4_pay6 Gen.k4_pay3 Gen.k4_pay4
  refine (Tree.Lib.sumMiddle_apply _ _ _ _ r p).trans (Finset.sum_congr rfl fun k _ => ?_)
  refine Tree.Lib.mulf_at (Tree.Lib.logistic_at (Tree.Lib.addf_at (Tree.Lib.addf_at ?_ ?_) ?_)) ?_
  · exact Tree.Lib.childW_apply 1024 rfl v2 v11 _ _ _ _ none r k p
  · exact Tree.Lib.biasRow3_apply v15 _ _ _ r k p
  · exact (Tree.Lib.spreadMiddle_apply _ _ _ r k p).trans
      (Tree.Lib.addf_at (Tree.Lib.xW_apply v0 v20 _ _ none r p) (Tree.Lib.biasRow_apply v23 _ _ r p))
  · exact congrFun (shapeCast_self v4 _) (ix3 r k p)

/-- The input gate at (r, p): σ(((x · W_ix + b_ix) + s · W_ih) + b_ih). -/
theorem gate_i4 : Gen.k4_pay8 (Gen.k4_pay5 v2) (Gen.k4_pay7 v0 v33) v36 v40 v44 (ix2 r p)
    = Ideal.logistic (lin (tile2 v0) (mat v33) r p + row v36 p + lin (hsum (tile3 v2)) (mat v40) r p + row v44 p) := by
  unfold Gen.k4_pay8 Gen.k4_pay7 Gen.k4_pay5 Gen.k4_pay4 Gen.k4_pay3
  exact Tree.Lib.logistic_at (Tree.Lib.addf_at (Tree.Lib.addf_at (Tree.Lib.addf_at
    (Tree.Lib.xW_apply v0 v33 _ _ none r p) (Tree.Lib.biasRow_apply v36 _ _ r p))
    (Tree.Lib.hsumW_apply v2 v40 _ _ _ _ _ none r p)) (Tree.Lib.biasRow_apply v44 _ _ r p))

/-- The output gate at (r, p): σ(((x · W_ox + b_ox) + s · W_oh) + b_oh). -/
theorem gate_o4 : Gen.k4_pay9 (Gen.k4_pay4 v0) (Gen.k4_pay5 v2) v49 v52 v56 v60 (ix2 r p)
    = Ideal.logistic (lin (tile2 v0) (mat v49) r p + row v52 p + lin (hsum (tile3 v2)) (mat v56) r p + row v60 p) := by
  unfold Gen.k4_pay9 Gen.k4_pay5 Gen.k4_pay4 Gen.k4_pay3
  exact Tree.Lib.logistic_at (Tree.Lib.addf_at (Tree.Lib.addf_at (Tree.Lib.addf_at
    (Tree.Lib.xW_apply v0 v49 _ _ none r p) (Tree.Lib.biasRow_apply v52 _ _ r p))
    (Tree.Lib.hsumW_apply v2 v56 _ _ _ _ _ none r p)) (Tree.Lib.biasRow_apply v60 _ _ r p))

/-- The input part of the update at (r, p): x · W_ux + b_ux. -/
theorem update_x4 : Gen.k4_pay10 (Gen.k4_pay4 v0) v65 v68 (ix2 r p) = lin (tile2 v0) (mat v65) r p + row v68 p := by
  unfold Gen.k4_pay10 Gen.k4_pay4
  exact Tree.Lib.addf_at (Tree.Lib.xW_apply v0 v65 _ _ none r p) (Tree.Lib.biasRow_apply v68 _ _ r p)

/-- The stored memory cell at (r, p) is the recurrence's memory cell of an internal node. -/
theorem cTerm4_apply : cTerm4 v0 v2 v4 v11 v15 v20 v23 v33 v36 v40 v44 v49 v52 v56 v60 v65 v68 v72 v76 (ix2 r p)
    = intC (paramsOfRows v33 v36 v20 v23 v65 v68 v49 v52 v40 v44 v11 v15 v72 v76 v56 v60) (tile2 v0) (tile3 v2) (tile3 v4) r p := by
  unfold cTerm4 Gen.k4_pay1
  refine Tree.Lib.addf_at (Tree.Lib.mulf_at (gate_i4 v0 v2 v33 v36 v40 v44 r p)
    (Tree.Lib.tanh_at (Tree.Lib.addf_at (Tree.Lib.addf_at (update_x4 v0 v65 v68 r p) ?_)
      (Tree.Lib.biasRow_apply v76 _ _ r p)))) (forget_sum4 v0 v2 v4 v11 v15 v20 v23 r p)
  unfold Gen.k4_pay5 Gen.k4_pay3
  exact Tree.Lib.hsumW_apply v2 v72 _ _ _ _ _ none r p

/-- The stored hidden state at (r, p) is the recurrence's hidden state of an internal node. -/
theorem hTerm4_apply : hTerm4 v0 v2 v4 v11 v15 v20 v23 v33 v36 v40 v44 v49 v52 v56 v60 v65 v68 v72 v76 (ix2 r p)
    = intH (paramsOfRows v33 v36 v20 v23 v65 v68 v49 v52 v40 v44 v11 v15 v72 v76 v56 v60) (tile2 v0) (tile3 v2) (tile3 v4) r p := by
  unfold hTerm4 Gen.k4_pay2
  exact Tree.Lib.mulf_at (gate_o4 v0 v2 v49 v52 v56 v60 r p)
    (Tree.Lib.tanh_at (cTerm4_apply v0 v2 v4 v11 v15 v20 v23 v33 v36 v40 v44 v49 v52 v56 v60 v65 v68 v72 v76 r p))

end

end Cert.KernelIdeal.Pay

end
-- ==== Proof.KerArr4.lean ====
/-
  The level of 256 internal nodes: from the tiles the grid's points write back to the two whole arrays.

  The grid has 1 point; point t handles the tile of nodes 256·t … 256·t + 255. Its input blocks are rows
  256·t + r of the input matrix and of the children's two arrays, and the sixteen parameter arrays whole (their
  index maps are constantly 0). The recurrence at a node reads only that node's rows, so what the point writes at row r
  of its two output blocks is the recurrence's value at node 256·t + r of the level; the output blocks tile the two
  output arrays (node R lies in point R / 256's block), so after the last point each array holds the level's values.
-/
import proofs.«167239_j63453846831535_1_alg».proof.Proof.KIRegion4
import proofs.«167239_j63453846831535_1_alg».proof.Proof.KerPay4
import proofs.«167239_j63453846831535_1_alg».proof.Proof.TreeSpecArr
import proofs.«167239_j63453846831535_1_alg».proof.Proof.TreeLocal
import Idealize.ShloMosaic.Lib.Pipeline.Value

set_option maxRecDepth 16384

noncomputable section

namespace Cert.KernelIdeal.Tree

open Cert.KernelIdeal Cert.KernelIdeal.Gen
open Idealize.ShloMosaic Idealize.ShloMosaic.TcCoe Idealize.ShloMosaic.ValueIdx
open Idealize.SL.Sem
open Idealize.ShloMosaic.Pipeline (Dat)
open Cert.TreeSpec

variable (V : (c : Dev nD) → (b : Ref sig .tc) → Buf (Elt Ideal) ((c : Thread nD τ).loc b)) (c : Dev nD)

/-! ## The index maps over the grid -/

theorem idx4_0 : ∀ t : Fin cfg4.N, win4_0.index t 0 = t.val ∧ win4_0.index t 1 = 0 :=
  (by decide +kernel : ∀ t : Fin grid4.N, win4_0.index t 0 = t.val ∧ win4_0.index t 1 = 0)
theorem idx4_1 : ∀ t : Fin cfg4.N, win4_1.index t 0 = t.val ∧ win4_1.index t 1 = 0 ∧ win4_1.index t 2 = 0 :=
  (by decide +kernel : ∀ t : Fin grid4.N, win4_1.index t 0 = t.val ∧ win4_1.index t 1 = 0 ∧ win4_1.index t 2 = 0)
theorem idx4_2 : ∀ t : Fin cfg4.N, win4_2.index t 0 = t.val ∧ win4_2.index t 1 = 0 ∧ win4_2.index t 2 = 0 :=
  (by decide +kernel : ∀ t : Fin grid4.N, win4_2.index t 0 = t.val ∧ win4_2.index t 1 = 0 ∧ win4_2.index t 2 = 0)
theorem idx4_3 : ∀ t : Fin cfg4.N, win4_3.index t 0 = 0 ∧ win4_3.index t 1 = 0 :=
  (by decide +kernel : ∀ t : Fin grid4.N, win4_3.index t 0 = 0 ∧ win4_3.index t 1 = 0)
theorem idx4_4 : ∀ t : Fin cfg4.N, win4_4.index t 0 = 0 ∧ win4_4.index t 1 = 0 :=
  (by decide +kernel : ∀ t : Fin grid4.N, win4_4.index t 0 = 0 ∧ win4_4.index t 1 = 0)
theorem idx4_5 : ∀ t : Fin cfg4.N, win4_5.index t 0 = 0 ∧ win4_5.index t 1 = 0 :=
  (by decide +kernel : ∀ t : Fin grid4.N, win4_5.index t 0 = 0 ∧ win4_5.index t 1 = 0)
theorem idx4_6 : ∀ t : Fin cfg4.N, win4_6.index t 0 = 0 ∧ win4_6.index t 1 = 0 :=
  (by decide +kernel : ∀ t : Fin grid4.N, win4_6.index t 0 = 0 ∧ win4_6.index t 1 = 0)
theorem idx4_7 : ∀ t : Fin cfg4.N, win4_7.index t 0 = 0 ∧ win4_7.index t 1 = 0 :=
  (by decide +kernel : ∀ t : Fin grid4.N, win4_7.index t 0 = 0 ∧ win4_7.index t 1 = 0)
theorem idx4_8 : ∀ t : Fin cfg4.N, win4_8.index t 0 = 0 ∧ win4_8.index t 1 = 0 :=
  (by decide +kernel : ∀ t : Fin grid4.N, win4_8.index t 0 = 0 ∧ win4_8.index t 1 = 0)
theorem idx4_9 : ∀ t : Fin cfg4.N, win4_9.index t 0 = 0 ∧ win4_9.index t 1 = 0 :=
  (by decide +kernel : ∀ t : Fin grid4.N, win4_9.index t 0 = 0 ∧ win4_9.index t 1 = 0)
theorem idx4_10 : ∀ t : Fin cfg4.N, win4_10.index t 0 = 0 ∧ win4_10.index t 1 = 0 :=
  (by decide +kernel : ∀ t : Fin grid4.N, win4_10.index t 0 = 0 ∧ win4_10.index t 1 = 0)
theorem idx4_11 : ∀ t : Fin cfg4.N, win4_11.index t 0 = 0 ∧ win4_11.index t 1 = 0 :=
  (by decide +kernel : ∀ t : Fin grid4.N, win4_11.index t 0 = 0 ∧ win4_11.index t 1 = 0)
theorem idx4_12 : ∀ t : Fin cfg4.N, win4_12.index t 0 = 0 ∧ win4_12.index t 1 = 0 :=
  (by decide +kernel : ∀ t : Fin grid4.N, win4_12.index t 0 = 0 ∧ win4_12.index t 1 = 0)
theorem idx4_13 : ∀ t : Fin cfg4.N, win4_13.index t 0 = 0 ∧ win4_13.index t 1 = 0 :=
  (by decide +kernel : ∀ t : Fin grid4.N, win4_13.index t 0 = 0 ∧ win4_13.index t 1 = 0)
theorem idx4_14 : ∀ t : Fin cfg4.N, win4_14.index t 0 = 0 ∧ win4_14.index t 1 = 0 :=
  (by decide +kernel : ∀ t : Fin grid4.N, win4_14.index t 0 = 0 ∧ win4_14.index t 1 = 0)
theorem idx4_15 : ∀ t : Fin cfg4.N, win4_15.index t 0 = 0 ∧ win4_15.index t 1 = 0 :=
  (by decide +kernel : ∀ t : Fin grid4.N, win4_15.index t 0 = 0 ∧ win4_15.index t 1 = 0)
theorem idx4_16 : ∀ t : Fin cfg4.N, win4_16.index t 0 = 0 ∧ win4_16.index t 1 = 0 :=
  (by decide +kernel : ∀ t : Fin grid4.N, win4_16.index t 0 = 0 ∧ win4_16.index t 1 = 0)
theorem idx4_17 : ∀ t : Fin cfg4.N, win4_17.index t 0 = 0 ∧ win4_17.index t 1 = 0 :=
  (by decide +kernel : ∀ t : Fin grid4.N, win4_17.index t 0 = 0 ∧ win4_17.index t 1 = 0)
theorem idx4_18 : ∀ t : Fin cfg4.N, win4_18.index t 0 = 0 ∧ win4_18.index t 1 = 0 :=
  (by decide +kernel : ∀ t : Fin grid4.N, win4_18.index t 0 = 0 ∧ win4_18.index t 1 = 0)
theorem idx4_19 : ∀ t : Fin cfg4.N, win4_19.index t 0 = t.val ∧ win4_19.index t 1 = 0 :=
  (by decide +kernel : ∀ t : Fin grid4.N, win4_19.index t 0 = t.val ∧ win4_19.index t 1 = 0)
theorem idx4_20 : ∀ t : Fin cfg4.N, win4_20.index t 0 = t.val ∧ win4_20.index t 1 = 0 :=
  (by decide +kernel : ∀ t : Fin grid4.N, win4_20.index t 0 = t.val ∧ win4_20.index t 1 = 0)

/-! ## The input blocks as parts of their arrays -/

/-- Row r of the input tile at point t is row 256·t + r of the input matrix. -/
theorem blk4_0 (t : Fin cfg4.N) (r : Fin 256) (k : Fin 300) (R : Fin 256) (hR : R.val = t.val * 256 + r.val) :
    (iblk4 V c 0 t : S256x300.Idx → EReal) (ix2 r k) = (V c (Pipeline.arrRef spec4 0) : (⟨2, ![256, 300]⟩ : Shape).Idx → EReal) (ix2 R k) := by
  have hi := idx4_0 t
  unfold iblk4
  rw [View.read_apply]
  show V c (Pipeline.arrRef spec4 0) _ = V c (Pipeline.arrRef spec4 0) _
  congr 1
  funext a
  apply Fin.ext
  match a with
  | ⟨0, _⟩ => show win4_0.index t 0 * 256 + 1 * r.val = R.val; rw [hi.1, hR]; omega
  | ⟨1, _⟩ => show win4_0.index t 1 * 300 + 1 * k.val = k.val; rw [hi.2]; omega

/-- The children of node r of the tile at point t are those of node 256·t + r of the level (window 1). -/
theorem blk4_1 (t : Fin cfg4.N) (r : Fin 256) (k : Fin 4) (j : Fin 150) (R : Fin 256) (hR : R.val = t.val * 256 + r.val) :
    (iblk4 V c 1 t : S256x4x150.Idx → EReal) (ix3 r k j) = (V c (Pipeline.arrRef spec4 1) : (⟨3, ![256, 4, 150]⟩ : Shape).Idx → EReal) (ix3 R k j) := by
  have hi := idx4_1 t
  unfold iblk4
  rw [View.read_apply]
  show V c (Pipeline.arrRef spec4 1) _ = V c (Pipeline.arrRef spec4 1) _
  congr 1
  funext a
  apply Fin.ext
  match a with
  | ⟨0, _⟩ => show win4_1.index t 0 * 256 + 1 * r.val = R.val; rw [hi.1, hR]; omega
  | ⟨1, _⟩ => show win4_1.index t 1 * 4 + 1 * k.val = k.val; rw [hi.2.1]; omega
  | ⟨2, _⟩ => show win4_1.index t 2 * 150 + 1 * j.val = j.val; rw [hi.2.2]; omega

/-- The children of node r of the tile at point t are those of node 256·t + r of the level (window 2). -/
theorem blk4_2 (t : Fin cfg4.N) (r : Fin 256) (k : Fin 4) (j : Fin 150) (R : Fin 256) (hR : R.val = t.val * 256 + r.val) :
    (iblk4 V c 2 t : S256x4x150.Idx → EReal) (ix3 r k j) = (V c (Pipeline.arrRef spec4 2) : (⟨3, ![256, 4, 150]⟩ : Shape).Idx → EReal) (ix3 R k j) := by
  have hi := idx4_2 t
  unfold iblk4
  rw [View.read_apply]
  show V c (Pipeline.arrRef spec4 2) _ = V c (Pipeline.arrRef spec4 2) _
  congr 1
  funext a
  apply Fin.ext
  match a with
  | ⟨0, _⟩ => show win4_2.index t 0 * 256 + 1 * r.val = R.val; rw [hi.1, hR]; omega
  | ⟨1, _⟩ => show win4_2.index t 1 * 4 + 1 * k.val = k.val; rw [hi.2.1]; omega
  | ⟨2, _⟩ => show win4_2.index t 2 * 150 + 1 * j.val = j.val; rw [hi.2.2]; omega

/-- Window 3's block at every point is its whole array. -/
theorem blk4_3 (t : Fin cfg4.N) (y : S300x150.Idx) :
    (iblk4 V c 3 t : S300x150.Idx → EReal) y = (V c (Pipeline.arrRef spec4 3) : S300x150.Idx → EReal) y := by
  have hi := idx4_3 t
  unfold iblk4
  rw [View.read_apply]
  show V c (Pipeline.arrRef spec4 3) _ = V c (Pipeline.arrRef spec4 3) _
  congr 1
  funext a
  apply Fin.ext
  match a with
  | ⟨0, _⟩ => show win4_3.index t 0 * 300 + 1 * (y 0).val = (y 0).val; rw [hi.1]; omega
  | ⟨1, _⟩ => show win4_3.index t 1 * 150 + 1 * (y 1).val = (y 1).val; rw [hi.2]; omega

/-- Window 4's block at every point is its whole array. -/
theorem blk4_4 (t : Fin cfg4.N) (y : S1x150.Idx) :
    (iblk4 V c 4 t : S1x150.Idx → EReal) y = (V c (Pipeline.arrRef spec4 4) : S1x150.Idx → EReal) y := by
  have hi := idx4_4 t
  unfold iblk4
  rw [View.read_apply]
  show V c (Pipeline.arrRef spec4 4) _ = V c (Pipeline.arrRef spec4 4) _
  congr 1
  funext a
  apply Fin.ext
  match a with
  | ⟨0, _⟩ => show win4_4.index t 0 * 1 + 1 * (y 0).val = (y 0).val; rw [hi.1]; omega
  | ⟨1, _⟩ => show win4_4.index t 1 * 150 + 1 * (y 1).val = (y 1).val; rw [hi.2]; omega

/-- Window 5's block at every point is its whole array. -/
theorem blk4_5 (t : Fin cfg4.N) (y : S300x150.Idx) :
    (iblk4 V c 5 t : S300x150.Idx → EReal) y = (V c (Pipeline.arrRef spec4 5) : S300x150.Idx → EReal) y := by
  have hi := idx4_5 t
  unfold iblk4
  rw [View.read_apply]
  show V c (Pipeline.arrRef spec4 5) _ = V c (Pipeline.arrRef spec4 5) _
  congr 1
  funext a
  apply Fin.ext
  match a with
  | ⟨0, _⟩ => show win4_5.index t 0 * 300 + 1 * (y 0).val = (y 0).val; rw [hi.1]; omega
  | ⟨1, _⟩ => show win4_5.index t 1 * 150 + 1 * (y 1).val = (y 1).val; rw [hi.2]; omega

/-- Window 6's block at every point is its whole array. -/
theorem blk4_6 (t : Fin cfg4.N) (y : S1x150.Idx) :
    (iblk4 V c 6 t : S1x150.Idx → EReal) y = (V c (Pipeline.arrRef spec4 6) : S1x150.Idx → EReal) y := by
  have hi := idx4_6 t
  unfold iblk4
  rw [View.read_apply]
  show V c (Pipeline.arrRef spec4 6) _ = V c (Pipeline.arrRef spec4 6) _
  congr 1
  funext a
  apply Fin.ext
  match a with
  | ⟨0, _⟩ => show win4_6.index t 0 * 1 + 1 * (y 0).val = (y 0).val; rw [hi.1]; omega
  | ⟨1, _⟩ => show win4_6.index t 1 * 150 + 1 * (y 1).val = (y 1).val; rw [hi.2]; omega

/-- Window 7's block at every point is its whole array. -/
theorem blk4_7 (t : Fin cfg4.N) (y : S300x150.Idx) :
    (iblk4 V c 7 t : S300x150.Idx → EReal) y = (V c (Pipeline.arrRef spec4 7) : S300x150.Idx → EReal) y := by
  have hi := idx4_7 t
  unfold iblk4
  rw [View.read_apply]
  show V c (Pipeline.arrRef spec4 7) _ = V c (Pipeline.arrRef spec4 7) _
  congr 1
  funext a
  apply Fin.ext
  match a with
  | ⟨0, _⟩ => show win4_7.index t 0 * 300 + 1 * (y 0).val = (y 0).val; rw [hi.1]; omega
  | ⟨1, _⟩ => show win4_7.index t 1 * 150 + 1 * (y 1).val = (y 1).val; rw [hi.2]; omega

/-- Window 8's block at every point is its whole array. -/
theorem blk4_8 (t : Fin cfg4.N) (y : S1x150.Idx) :
    (iblk4 V c 8 t : S1x150.Idx → EReal) y = (V c (Pipeline.arrRef spec4 8) : S1x150.Idx → EReal) y := by
  have hi := idx4_8 t
  unfold iblk4
  rw [View.read_apply]
  show V c (Pipeline.arrRef spec4 8) _ = V c (Pipeline.arrRef spec4 8) _
  congr 1
  funext a
  apply Fin.ext
  match a with
  | ⟨0, _⟩ => show win4_8.index t 0 * 1 + 1 * (y 0).val = (y 0).val; rw [hi.1]; omega
  | ⟨1, _⟩ => show win4_8.index t 1 * 150 + 1 * (y 1).val = (y 1).val; rw [hi.2]; omega

/-- Window 9's block at every point is its whole array. -/
theorem blk4_9 (t : Fin cfg4.N) (y : S300x150.Idx) :
    (iblk4 V c 9 t : S300x150.Idx → EReal) y = (V c (Pipeline.arrRef spec4 9) : S300x150.Idx → EReal) y := by
  have hi := idx4_9 t
  unfold iblk4
  rw [View.read_apply]
  show V c (Pipeline.arrRef spec4 9) _ = V c (Pipeline.arrRef spec4 9) _
  congr 1
  funext a
  apply Fin.ext
  match a with
  | ⟨0, _⟩ => show win4_9.index t 0 * 300 + 1 * (y 0).val = (y 0).val; rw [hi.1]; omega
  | ⟨1, _⟩ => show win4_9.index t 1 * 150 + 1 * (y 1).val = (y 1).val; rw [hi.2]; omega

/-- Window 10's block at every point is its whole array. -/
theorem blk4_10 (t : Fin cfg4.N) (y : S1x150.Idx) :
    (iblk4 V c 10 t : S1x150.Idx → EReal) y = (V c (Pipeline.arrRef spec4 10) : S1x150.Idx → EReal) y := by
  have hi := idx4_10 t
  unfold iblk4
  rw [View.read_apply]
  show V c (Pipeline.arrRef spec4 10) _ = V c (Pipeline.arrRef spec4 10) _
  congr 1
  funext a
  apply Fin.ext
  match a with
  | ⟨0, _⟩ => show win4_10.index t 0 * 1 + 1 * (y 0).val = (y 0).val; rw [hi.1]; omega
  | ⟨1, _⟩ => show win4_10.index t 1 * 150 + 1 * (y 1).val = (y 1).val; rw [hi.2]; omega

/-- Window 11's block at every point is its whole array. -/
theorem blk4_11 (t : Fin cfg4.N) (y : S150x150.Idx) :
    (iblk4 V c 11 t : S150x150.Idx → EReal) y = (V c (Pipeline.arrRef spec4 11) : S150x150.Idx → EReal) y := by
  have hi := idx4_11 t
  unfold iblk4
  rw [View.read_apply]
  show V c (Pipeline.arrRef spec4 11) _ = V c (Pipeline.arrRef spec4 11) _
  congr 1
  funext a
  apply Fin.ext
  match a with
  | ⟨0, _⟩ => show win4_11.index t 0 * 150 + 1 * (y 0).val = (y 0).val; rw [hi.1]; omega
  | ⟨1, _⟩ => show win4_11.index t 1 * 150 + 1 * (y 1).val = (y 1).val; rw [hi.2]; omega

/-- Window 12's block at every point is its whole array. -/
theorem blk4_12 (t : Fin cfg4.N) (y : S1x150.Idx) :
    (iblk4 V c 12 t : S1x150.Idx → EReal) y = (V c (Pipeline.arrRef spec4 12) : S1x150.Idx → EReal) y := by
  have hi := idx4_12 t
  unfold iblk4
  rw [View.read_apply]
  show V c (Pipeline.arrRef spec4 12) _ = V c (Pipeline.arrRef spec4 12) _
  congr 1
  funext a
  apply Fin.ext
  match a with
  | ⟨0, _⟩ => show win4_12.index t 0 * 1 + 1 * (y 0).val = (y 0).val; rw [hi.1]; omega
  | ⟨1, _⟩ => show win4_12.index t 1 * 150 + 1 * (y 1).val = (y 1).val; rw [hi.2]; omega

/-- Window 13's block at every point is its whole array. -/
theorem blk4_13 (t : Fin cfg4.N) (y : S150x150.Idx) :
    (iblk4 V c 13 t : S150x150.Idx → EReal) y = (V c (Pipeline.arrRef spec4 13) : S150x150.Idx → EReal) y := by
  have hi := idx4_13 t
  unfold iblk4
  rw [View.read_apply]
  show V c (Pipeline.arrRef spec4 13) _ = V c (Pipeline.arrRef spec4 13) _
  congr 1
  funext a
  apply Fin.ext
  match a with
  | ⟨0, _⟩ => show win4_13.index t 0 * 150 + 1 * (y 0).val = (y 0).val; rw [hi.1]; omega
  | ⟨1, _⟩ => show win4_13.index t 1 * 150 + 1 * (y 1).val = (y 1).val; rw [hi.2]; omega

/-- Window 14's block at every point is its whole array. -/
theorem blk4_14 (t : Fin cfg4.N) (y : S1x150.Idx) :
    (iblk4 V c 14 t : S1x150.Idx → EReal) y = (V c (Pipeline.arrRef spec4 14) : S1x150.Idx → EReal) y := by
  have hi := idx4_14 t
  unfold iblk4
  rw [View.read_apply]
  show V c (Pipeline.arrRef spec4 14) _ = V c (Pipeline.arrRef spec4 14) _
  congr 1
  funext a
  apply Fin.ext
  match a with
  | ⟨0, _⟩ => show win4_14.index t 0 * 1 + 1 * (y 0).val = (y 0).val; rw [hi.1]; omega
  | ⟨1, _⟩ => show win4_14.index t 1 * 150 + 1 * (y 1).val = (y 1).val; rw [hi.2]; omega

/-- Window 15's block at every point is its whole array. -/
theorem blk4_15 (t : Fin cfg4.N) (y : S150x150.Idx) :
    (iblk4 V c 15 t : S150x150.Idx → EReal) y = (V c (Pipeline.arrRef spec4 15) : S150x150.Idx → EReal) y := by
  have hi := idx4_15 t
  unfold iblk4
  rw [View.read_apply]
  show V c (Pipeline.arrRef spec4 15) _ = V c (Pipeline.arrRef spec4 15) _
  congr 1
  funext a
  apply Fin.ext
  match a with
  | ⟨0, _⟩ => show win4_15.index t 0 * 150 + 1 * (y 0).val = (y 0).val; rw [hi.1]; omega
  | ⟨1, _⟩ => show win4_15.index t 1 * 150 + 1 * (y 1).val = (y 1).val; rw [hi.2]; omega

/-- Window 16's block at every point is its whole array. -/
theorem blk4_16 (t : Fin cfg4.N) (y : S1x150.Idx) :
    (iblk4 V c 16 t : S1x150.Idx → EReal) y = (V c (Pipeline.arrRef spec4 16) : S1x150.Idx → EReal) y := by
  have hi := idx4_16 t
  unfold iblk4
  rw [View.read_apply]
  show V c (Pipeline.arrRef spec4 16) _ = V c (Pipeline.arrRef spec4 16) _
  congr 1
  funext a
  apply Fin.ext
  match a with
  | ⟨0, _⟩ => show win4_16.index t 0 * 1 + 1 * (y 0).val = (y 0).val; rw [hi.1]; omega
  | ⟨1, _⟩ => show win4_16.index t 1 * 150 + 1 * (y 1).val = (y 1).val; rw [hi.2]; omega

/-- Window 17's block at every point is its whole array. -/
theorem blk4_17 (t : Fin cfg4.N) (y : S150x150.Idx) :
    (iblk4 V c 17 t : S150x150.Idx → EReal) y = (V c (Pipeline.arrRef spec4 17) : S150x150.Idx → EReal) y := by
  have hi := idx4_17 t
  unfold iblk4
  rw [View.read_apply]
  show V c (Pipeline.arrRef spec4 17) _ = V c (Pipeline.arrRef spec4 17) _
  congr 1
  funext a
  apply Fin.ext
  match a with
  | ⟨0, _⟩ => show win4_17.index t 0 * 150 + 1 * (y 0).val = (y 0).val; rw [hi.1]; omega
  | ⟨1, _⟩ => show win4_17.index t 1 * 150 + 1 * (y 1).val = (y 1).val; rw [hi.2]; omega

/-- Window 18's block at every point is its whole array. -/
theorem blk4_18 (t : Fin cfg4.N) (y : S1x150.Idx) :
    (iblk4 V c 18 t : S1x150.Idx → EReal) y = (V c (Pipeline.arrRef spec4 18) : S1x150.Idx → EReal) y := by
  have hi := idx4_18 t
  unfold iblk4
  rw [View.read_apply]
  show V c (Pipeline.arrRef spec4 18) _ = V c (Pipeline.arrRef spec4 18) _
  congr 1
  funext a
  apply Fin.ext
  match a with
  | ⟨0, _⟩ => show win4_18.index t 0 * 1 + 1 * (y 0).val = (y 0).val; rw [hi.1]; omega
  | ⟨1, _⟩ => show win4_18.index t 1 * 150 + 1 * (y 1).val = (y 1).val; rw [hi.2]; omega

/-! ## What the body leaves in the output blocks -/

/-- The hidden-state block after the body is the tile's stored hidden state, as a function of the input blocks. -/
theorem out4_19_eq (x0 : Vec Ideal S256x300 .f32) (x1 : Vec Ideal S256x4x150 .f32) (x2 : Vec Ideal S256x4x150 .f32) (x3 : Vec Ideal S300x150 .f32) (x4 : Vec Ideal S1x150 .f32) (x5 : Vec Ideal S300x150 .f32) (x6 : Vec Ideal S1x150 .f32) (x7 : Vec Ideal S300x150 .f32) (x8 : Vec Ideal S1x150 .f32) (x9 : Vec Ideal S300x150 .f32) (x10 : Vec Ideal S1x150 .f32) (x11 : Vec Ideal S150x150 .f32) (x12 : Vec Ideal S1x150 .f32) (x13 : Vec Ideal S150x150 .f32) (x14 : Vec Ideal S1x150 .f32) (x15 : Vec Ideal S150x150 .f32) (x16 : Vec Ideal S1x150 .f32) (x17 : Vec Ideal S150x150 .f32) (x18 : Vec Ideal S1x150 .f32) :
    out4_19 x0 x1 x2 x3 x4 x5 x6 x7 x8 x9 x10 x11 x12 x13 x14 x15 x16 x17 x18 = Pay.hTerm4 x0 x1 x2 x13 x14 x5 x6 x3 x4 x11 x12 x9 x10 x17 x18 x7 x8 x15 x16 := by
  unfold out4_19
  rw [View.canon_unit_zero zero_off2]
  simp only [View.ld_unit_zero (S := S256x300) zero_off2, View.ld_unit_zero (S := S256x4x150) zero_off3, View.ld_unit_zero (S := S300x150) zero_off2, View.ld_unit_zero (S := S1x150) zero_off2, View.ld_unit_zero (S := S150x150) zero_off2]
  rfl

/-- The memory-cell block after the body is the tile's stored memory cell, as a function of the input blocks. -/
theorem out4_20_eq (x0 : Vec Ideal S256x300 .f32) (x1 : Vec Ideal S256x4x150 .f32) (x2 : Vec Ideal S256x4x150 .f32) (x3 : Vec Ideal S300x150 .f32) (x4 : Vec Ideal S1x150 .f32) (x5 : Vec Ideal S300x150 .f32) (x6 : Vec Ideal S1x150 .f32) (x7 : Vec Ideal S300x150 .f32) (x8 : Vec Ideal S1x150 .f32) (x9 : Vec Ideal S300x150 .f32) (x10 : Vec Ideal S1x150 .f32) (x11 : Vec Ideal S150x150 .f32) (x12 : Vec Ideal S1x150 .f32) (x13 : Vec Ideal S150x150 .f32) (x14 : Vec Ideal S1x150 .f32) (x15 : Vec Ideal S150x150 .f32) (x16 : Vec Ideal S1x150 .f32) (x17 : Vec Ideal S150x150 .f32) (x18 : Vec Ideal S1x150 .f32) :
    out4_20 x0 x1 x2 x3 x4 x5 x6 x7 x8 x9 x10 x11 x12 x13 x14 x15 x16 x17 x18 = Pay.cTerm4 x0 x1 x2 x13 x14 x5 x6 x3 x4 x11 x12 x9 x10 x17 x18 x7 x8 x15 x16 := by
  unfold out4_20
  rw [View.canon_unit_zero zero_off2]
  simp only [View.ld_unit_zero (S := S256x300) zero_off2, View.ld_unit_zero (S := S256x4x150) zero_off3, View.ld_unit_zero (S := S300x150) zero_off2, View.ld_unit_zero (S := S1x150) zero_off2, View.ld_unit_zero (S := S150x150) zero_off2]
  rfl

section
variable (P : Params) (X : Fin 256 → Fin 300 → EReal) (CH CC : Fin 256 → Fin 4 → Fin 150 → EReal)

/-- The parameter blocks at any point are the parameters. -/
theorem params4
    (h3 : ∀ k p, (V c (Pipeline.arrRef spec4 3) : S300x150.Idx → EReal) (ix2 k p) = P.Wix k p)
    (h4 : ∀ p, (V c (Pipeline.arrRef spec4 4) : S1x150.Idx → EReal) (ix2 0 p) = P.bix p)
    (h5 : ∀ k p, (V c (Pipeline.arrRef spec4 5) : S300x150.Idx → EReal) (ix2 k p) = P.Wfx k p)
    (h6 : ∀ p, (V c (Pipeline.arrRef spec4 6) : S1x150.Idx → EReal) (ix2 0 p) = P.bfx p)
    (h7 : ∀ k p, (V c (Pipeline.arrRef spec4 7) : S300x150.Idx → EReal) (ix2 k p) = P.Wux k p)
    (h8 : ∀ p, (V c (Pipeline.arrRef spec4 8) : S1x150.Idx → EReal) (ix2 0 p) = P.bux p)
    (h9 : ∀ k p, (V c (Pipeline.arrRef spec4 9) : S300x150.Idx → EReal) (ix2 k p) = P.Wox k p)
    (h10 : ∀ p, (V c (Pipeline.arrRef spec4 10) : S1x150.Idx → EReal) (ix2 0 p) = P.box p)
    (h11 : ∀ k p, (V c (Pipeline.arrRef spec4 11) : S150x150.Idx → EReal) (ix2 k p) = P.Wih k p)
    (h12 : ∀ p, (V c (Pipeline.arrRef spec4 12) : S1x150.Idx → EReal) (ix2 0 p) = P.bih p)
    (h13 : ∀ k p, (V c (Pipeline.arrRef spec4 13) : S150x150.Idx → EReal) (ix2 k p) = P.Wfh k p)
    (h14 : ∀ p, (V c (Pipeline.arrRef spec4 14) : S1x150.Idx → EReal) (ix2 0 p) = P.bfh p)
    (h15 : ∀ k p, (V c (Pipeline.arrRef spec4 15) : S150x150.Idx → EReal) (ix2 k p) = P.Wuh k p)
    (h16 : ∀ p, (V c (Pipeline.arrRef spec4 16) : S1x150.Idx → EReal) (ix2 0 p) = P.buh p)
    (h17 : ∀ k p, (V c (Pipeline.arrRef spec4 17) : S150x150.Idx → EReal) (ix2 k p) = P.Woh k p)
    (h18 : ∀ p, (V c (Pipeline.arrRef spec4 18) : S1x150.Idx → EReal) (ix2 0 p) = P.boh p)
    (t : Fin cfg4.N) :
    paramsOfRows (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t) (iblk4 V c 17 t) (iblk4 V c 18 t) = P :=
  Params.eq_of_fields P
    (funext fun k => funext fun p => (blk4_3 V c t (ix2 k p)).trans (h3 k p))
    (funext fun p => (blk4_4 V c t (ix2 0 p)).trans (h4 p))
    (funext fun k => funext fun p => (blk4_5 V c t (ix2 k p)).trans (h5 k p))
    (funext fun p => (blk4_6 V c t (ix2 0 p)).trans (h6 p))
    (funext fun k => funext fun p => (blk4_7 V c t (ix2 k p)).trans (h7 k p))
    (funext fun p => (blk4_8 V c t (ix2 0 p)).trans (h8 p))
    (funext fun k => funext fun p => (blk4_9 V c t (ix2 k p)).trans (h9 k p))
    (funext fun p => (blk4_10 V c t (ix2 0 p)).trans (h10 p))
    (funext fun k => funext fun p => (blk4_11 V c t (ix2 k p)).trans (h11 k p))
    (funext fun p => (blk4_12 V c t (ix2 0 p)).trans (h12 p))
    (funext fun k => funext fun p => (blk4_13 V c t (ix2 k p)).trans (h13 k p))
    (funext fun p => (blk4_14 V c t (ix2 0 p)).trans (h14 p))
    (funext fun k => funext fun p => (blk4_15 V c t (ix2 k p)).trans (h15 k p))
    (funext fun p => (blk4_16 V c t (ix2 0 p)).trans (h16 p))
    (funext fun k => funext fun p => (blk4_17 V c t (ix2 k p)).trans (h17 k p))
    (funext fun p => (blk4_18 V c t (ix2 0 p)).trans (h18 p))

/-- Row r of the hidden-state block at point t is the hidden state of node 256·t + r. -/
theorem tile4_19
    (h0 : ∀ r k, (V c (Pipeline.arrRef spec4 0) : (⟨2, ![256, 300]⟩ : Shape).Idx → EReal) (ix2 r k) = X r k)
    (h1 : ∀ r k j, (V c (Pipeline.arrRef spec4 1) : (⟨3, ![256, 4, 150]⟩ : Shape).Idx → EReal) (ix3 r k j) = CH r k j)
    (h2 : ∀ r k j, (V c (Pipeline.arrRef spec4 2) : (⟨3, ![256, 4, 150]⟩ : Shape).Idx → EReal) (ix3 r k j) = CC r k j)
    (h3 : ∀ k p, (V c (Pipeline.arrRef spec4 3) : S300x150.Idx → EReal) (ix2 k p) = P.Wix k p)
    (h4 : ∀ p, (V c (Pipeline.arrRef spec4 4) : S1x150.Idx → EReal) (ix2 0 p) = P.bix p)
    (h5 : ∀ k p, (V c (Pipeline.arrRef spec4 5) : S300x150.Idx → EReal) (ix2 k p) = P.Wfx k p)
    (h6 : ∀ p, (V c (Pipeline.arrRef spec4 6) : S1x150.Idx → EReal) (ix2 0 p) = P.bfx p)
    (h7 : ∀ k p, (V c (Pipeline.arrRef spec4 7) : S300x150.Idx → EReal) (ix2 k p) = P.Wux k p)
    (h8 : ∀ p, (V c (Pipeline.arrRef spec4 8) : S1x150.Idx → EReal) (ix2 0 p) = P.bux p)
    (h9 : ∀ k p, (V c (Pipeline.arrRef spec4 9) : S300x150.Idx → EReal) (ix2 k p) = P.Wox k p)
    (h10 : ∀ p, (V c (Pipeline.arrRef spec4 10) : S1x150.Idx → EReal) (ix2 0 p) = P.box p)
    (h11 : ∀ k p, (V c (Pipeline.arrRef spec4 11) : S150x150.Idx → EReal) (ix2 k p) = P.Wih k p)
    (h12 : ∀ p, (V c (Pipeline.arrRef spec4 12) : S1x150.Idx → EReal) (ix2 0 p) = P.bih p)
    (h13 : ∀ k p, (V c (Pipeline.arrRef spec4 13) : S150x150.Idx → EReal) (ix2 k p) = P.Wfh k p)
    (h14 : ∀ p, (V c (Pipeline.arrRef spec4 14) : S1x150.Idx → EReal) (ix2 0 p) = P.bfh p)
    (h15 : ∀ k p, (V c (Pipeline.arrRef spec4 15) : S150x150.Idx → EReal) (ix2 k p) = P.Wuh k p)
    (h16 : ∀ p, (V c (Pipeline.arrRef spec4 16) : S1x150.Idx → EReal) (ix2 0 p) = P.buh p)
    (h17 : ∀ k p, (V c (Pipeline.arrRef spec4 17) : S150x150.Idx → EReal) (ix2 k p) = P.Woh k p)
    (h18 : ∀ p, (V c (Pipeline.arrRef spec4 18) : S1x150.Idx → EReal) (ix2 0 p) = P.boh p)
    (t : Fin cfg4.N) (r : Fin 256) (p : Fin 150) (R : Fin 256) (hR : R.val = t.val * 256 + r.val) :
    ((dat4 V c).after 19 t : S256x150.Idx → EReal) (ix2 r p) = intH P X CH CC R p := by
  rw [after4_19, out4_19_eq]
  refine (Pay.hTerm4_apply (iblk4 V c 0 t) (iblk4 V c 1 t) (iblk4 V c 2 t) (iblk4 V c 13 t) (iblk4 V c 14 t) (iblk4 V c 5 t) (iblk4 V c 6 t) (iblk4 V c 3 t) (iblk4 V c 4 t) (iblk4 V c 11 t) (iblk4 V c 12 t) (iblk4 V c 9 t) (iblk4 V c 10 t) (iblk4 V c 17 t) (iblk4 V c 18 t) (iblk4 V c 7 t) (iblk4 V c 8 t) (iblk4 V c 15 t) (iblk4 V c 16 t) r p).trans ?_
  exact intH_local (params4 V c P h3 h4 h5 h6 h7 h8 h9 h10 h11 h12 h13 h14 h15 h16 h17 h18 t)
    (funext fun k => (blk4_0 V c t r k R hR).trans (h0 R k))
    (funext fun k => funext fun j => (blk4_1 V c t r k j R hR).trans (h1 R k j))
    (funext fun k => funext fun j => (blk4_2 V c t r k j R hR).trans (h2 R k j)) p

/-- Row r of the memory-cell block at point t is the memory cell of node 256·t + r. -/
theorem tile4_20
    (h0 : ∀ r k, (V c (Pipeline.arrRef spec4 0) : (⟨2, ![256, 300]⟩ : Shape).Idx → EReal) (ix2 r k) = X r k)
    (h1 : ∀ r k j, (V c (Pipeline.arrRef spec4 1) : (⟨3, ![256, 4, 150]⟩ : Shape).Idx → EReal) (ix3 r k j) = CH r k j)
    (h2 : ∀ r k j, (V c (Pipeline.arrRef spec4 2) : (⟨3, ![256, 4, 150]⟩ : Shape).Idx → EReal) (ix3 r k j) = CC r k j)
    (h3 : ∀ k p, (V c (Pipeline.arrRef spec4 3) : S300x150.Idx → EReal) (ix2 k p) = P.Wix k p)
    (h4 : ∀ p, (V c (Pipeline.arrRef spec4 4) : S1x150.Idx → EReal) (ix2 0 p) = P.bix p)
    (h5 : ∀ k p, (V c (Pipeline.arrRef spec4 5) : S300x150.Idx → EReal) (ix2 k p) = P.Wfx k p)
    (h6 : ∀ p, (V c (Pipeline.arrRef spec4 6) : S1x150.Idx → EReal) (ix2 0 p) = P.bfx p)
    (h7 : ∀ k p, (V c (Pipeline.arrRef spec4 7) : S300x150.Idx → EReal) (ix2 k p) = P.Wux k p)
    (h8 : ∀ p, (V c (Pipeline.arrRef spec4 8) : S1x150.Idx → EReal) (ix2 0 p) = P.bux p)
    (h9 : ∀ k p, (V c (Pipeline.arrRef spec4 9) : S300x150.Idx → EReal) (ix2 k p) = P.Wox k p)
    (h10 : ∀ p, (V c (Pipeline.arrRef spec4 10) : S1x150.Idx → EReal) (ix2 0 p) = P.box p)
    (h11 : ∀ k p, (V c (Pipeline.arrRef spec4 11) : S150x150.Idx → EReal) (ix2 k p) = P.Wih k p)
    (h12 : ∀ p, (V c (Pipeline.arrRef spec4 12) : S1x150.Idx → EReal) (ix2 0 p) = P.bih p)
    (h13 : ∀ k p, (V c (Pipeline.arrRef spec4 13) : S150x150.Idx → EReal) (ix2 k p) = P.Wfh k p)
    (h14 : ∀ p, (V c (Pipeline.arrRef spec4 14) : S1x150.Idx → EReal) (ix2 0 p) = P.bfh p)
    (h15 : ∀ k p, (V c (Pipeline.arrRef spec4 15) : S150x150.Idx → EReal) (ix2 k p) = P.Wuh k p)
    (h16 : ∀ p, (V c (Pipeline.arrRef spec4 16) : S1x150.Idx → EReal) (ix2 0 p) = P.buh p)
    (h17 : ∀ k p, (V c (Pipeline.arrRef spec4 17) : S150x150.Idx → EReal) (ix2 k p) = P.Woh k p)
    (h18 : ∀ p, (V c (Pipeline.arrRef spec4 18) : S1x150.Idx → EReal) (ix2 0 p) = P.boh p)
    (t : Fin cfg4.N) (r : Fin 256) (p : Fin 150) (R : Fin 256) (hR : R.val = t.val * 256 + r.val) :
    ((dat4 V c).after 20 t : S256x150.Idx → EReal) (ix2 r p) = intC P X CH CC R p := by
  rw [after4_20, out4_20_eq]
  refine (Pay.cTerm4_apply (iblk4 V c 0 t) (iblk4 V c 1 t) (iblk4 V c 2 t) (iblk4 V c 13 t) (iblk4 V c 14 t) (iblk4 V c 5 t) (iblk4 V c 6 t) (iblk4 V c 3 t) (iblk4 V c 4 t) (iblk4 V c 11 t) (iblk4 V c 12 t) (iblk4 V c 9 t) (iblk4 V c 10 t) (iblk4 V c 17 t) (iblk4 V c 18 t) (iblk4 V c 7 t) (iblk4 V c 8 t) (iblk4 V c 15 t) (iblk4 V c 16 t) r p).trans ?_
  exact intC_local (params4 V c P h3 h4 h5 h6 h7 h8 h9 h10 h11 h12 h13 h14 h15 h16 h17 h18 t)
    (funext fun k => (blk4_0 V c t r k R hR).trans (h0 R k))
    (funext fun k => funext fun j => (blk4_1 V c t r k j R hR).trans (h1 R k j))
    (funext fun k => funext fun j => (blk4_2 V c t r k j R hR).trans (h2 R k j)) p

/-- Entry (r, p) of window 19's block at point t sits at (256·t + r, p) of its array. -/
theorem emb4_19 (t : Fin cfg4.N) (r : Fin 256) (p : Fin 150) (hR : t.val * 256 + r.val < 256) :
    ((cfg4.win 19).blk t).view.emb (ix2 r p) = (ix2 ⟨t.val * 256 + r.val, hR⟩ p : (⟨2, ![256, 150]⟩ : Shape).Idx) := by
  have hi := idx4_19 t
  funext a
  apply Fin.ext
  match a with
  | ⟨0, _⟩ => show win4_19.index t 0 * 256 + 1 * r.val = t.val * 256 + r.val; rw [hi.1]; omega
  | ⟨1, _⟩ => show win4_19.index t 1 * 150 + 1 * p.val = p.val; rw [hi.2]; omega

/-- What point t writes back through window 19 is its block of the level's values. -/
theorem flushed4_19
    (h0 : ∀ r k, (V c (Pipeline.arrRef spec4 0) : (⟨2, ![256, 300]⟩ : Shape).Idx → EReal) (ix2 r k) = X r k)
    (h1 : ∀ r k j, (V c (Pipeline.arrRef spec4 1) : (⟨3, ![256, 4, 150]⟩ : Shape).Idx → EReal) (ix3 r k j) = CH r k j)
    (h2 : ∀ r k j, (V c (Pipeline.arrRef spec4 2) : (⟨3, ![256, 4, 150]⟩ : Shape).Idx → EReal) (ix3 r k j) = CC r k j)
    (h3 : ∀ k p, (V c (Pipeline.arrRef spec4 3) : S300x150.Idx → EReal) (ix2 k p) = P.Wix k p)
    (h4 : ∀ p, (V c (Pipeline.arrRef spec4 4) : S1x150.Idx → EReal) (ix2 0 p) = P.bix p)
    (h5 : ∀ k p, (V c (Pipeline.arrRef spec4 5) : S300x150.Idx → EReal) (ix2 k p) = P.Wfx k p)
    (h6 : ∀ p, (V c (Pipeline.arrRef spec4 6) : S1x150.Idx → EReal) (ix2 0 p) = P.bfx p)
    (h7 : ∀ k p, (V c (Pipeline.arrRef spec4 7) : S300x150.Idx → EReal) (ix2 k p) = P.Wux k p)
    (h8 : ∀ p, (V c (Pipeline.arrRef spec4 8) : S1x150.Idx → EReal) (ix2 0 p) = P.bux p)
    (h9 : ∀ k p, (V c (Pipeline.arrRef spec4 9) : S300x150.Idx → EReal) (ix2 k p) = P.Wox k p)
    (h10 : ∀ p, (V c (Pipeline.arrRef spec4 10) : S1x150.Idx → EReal) (ix2 0 p) = P.box p)
    (h11 : ∀ k p, (V c (Pipeline.arrRef spec4 11) : S150x150.Idx → EReal) (ix2 k p) = P.Wih k p)
    (h12 : ∀ p, (V c (Pipeline.arrRef spec4 12) : S1x150.Idx → EReal) (ix2 0 p) = P.bih p)
    (h13 : ∀ k p, (V c (Pipeline.arrRef spec4 13) : S150x150.Idx → EReal) (ix2 k p) = P.Wfh k p)
    (h14 : ∀ p, (V c (Pipeline.arrRef spec4 14) : S1x150.Idx → EReal) (ix2 0 p) = P.bfh p)
    (h15 : ∀ k p, (V c (Pipeline.arrRef spec4 15) : S150x150.Idx → EReal) (ix2 k p) = P.Wuh k p)
    (h16 : ∀ p, (V c (Pipeline.arrRef spec4 16) : S1x150.Idx → EReal) (ix2 0 p) = P.buh p)
    (h17 : ∀ k p, (V c (Pipeline.arrRef spec4 17) : S150x150.Idx → EReal) (ix2 k p) = P.Woh k p)
    (h18 : ∀ p, (V c (Pipeline.arrRef spec4 18) : S1x150.Idx → EReal) (ix2 0 p) = P.boh p)
    (t : Fin cfg4.N) :
    (dat4 V c).flushed 19 t
      = ((cfg4.win 19).blk t).view.read (Elt Ideal) (fun i : (⟨2, ![256, 150]⟩ : Shape).Idx => intH P X CH CC (i 0) (i 1)) := by
  refine forall_ix2 (n0 := 256) (n1 := 150) fun r p => ?_
  have ht : t.val < 1 := t.isLt
  have hR : t.val * 256 + r.val < 256 := by have := r.isLt; omega
  refine (tile4_19 V c P X CH CC h0 h1 h2 h3 h4 h5 h6 h7 h8 h9 h10 h11 h12 h13 h14 h15 h16 h17 h18 t r p ⟨_, hR⟩ rfl).trans ?_
  rw [View.read_apply]
  show _ = (fun i : (⟨2, ![256, 150]⟩ : Shape).Idx => intH P X CH CC (i 0) (i 1)) (((cfg4.win 19).blk t).view.emb (ix2 r p))
  rw [emb4_19 t r p hR]

/-- Window 19's blocks cover its array: node R lies in the block of point R / 256. -/
theorem covered4_19 (i : (⟨2, ![256, 150]⟩ : Shape).Idx) :
    ∃ t : Fin cfg4.N, (cfg4.win 19).flush t = true ∧ i ∈ ((cfg4.win 19).blk t).view.set := by
  have h0 : (i 0 : Nat) < 256 := (i 0).isLt
  have h1 : (i 1 : Nat) < 150 := (i 1).isLt
  have hlt : (i 0 : Nat) / 256 < 1 := by omega
  refine ⟨⟨(i 0 : Nat) / 256, hlt⟩, flush4_19 _, ?_⟩
  have hi := idx4_19 ⟨(i 0 : Nat) / 256, hlt⟩
  show i ∈ ((View.whole (Pipeline.arrRef spec4 19)).slice (win4_19.rect ⟨(i 0 : Nat) / 256, hlt⟩)).set
  rw [View.set_slice_whole, Rect.mem_set_unit]
  intro a
  match a with
  | ⟨0, _⟩ =>
    show win4_19.index ⟨(i 0 : Nat) / 256, hlt⟩ 0 * 256 ≤ (i 0 : Nat) ∧ (i 0 : Nat) < win4_19.index ⟨(i 0 : Nat) / 256, hlt⟩ 0 * 256 + 256
    rw [hi.1]
    show (i 0 : Nat) / 256 * 256 ≤ (i 0 : Nat) ∧ (i 0 : Nat) < (i 0 : Nat) / 256 * 256 + 256
    omega
  | ⟨1, _⟩ =>
    show win4_19.index ⟨(i 0 : Nat) / 256, hlt⟩ 1 * 150 ≤ (i 1 : Nat) ∧ (i 1 : Nat) < win4_19.index ⟨(i 0 : Nat) / 256, hlt⟩ 1 * 150 + 150
    rw [hi.2]
    omega

/-- Entry (r, p) of window 20's block at point t sits at (256·t + r, p) of its array. -/
theorem emb4_20 (t : Fin cfg4.N) (r : Fin 256) (p : Fin 150) (hR : t.val * 256 + r.val < 256) :
    ((cfg4.win 20).blk t).view.emb (ix2 r p) = (ix2 ⟨t.val * 256 + r.val, hR⟩ p : (⟨2, ![256, 150]⟩ : Shape).Idx) := by
  have hi := idx4_20 t
  funext a
  apply Fin.ext
  match a with
  | ⟨0, _⟩ => show win4_20.index t 0 * 256 + 1 * r.val = t.val * 256 + r.val; rw [hi.1]; omega
  | ⟨1, _⟩ => show win4_20.index t 1 * 150 + 1 * p.val = p.val; rw [hi.2]; omega

/-- What point t writes back through window 20 is its block of the level's values. -/
theorem flushed4_20
    (h0 : ∀ r k, (V c (Pipeline.arrRef spec4 0) : (⟨2, ![256, 300]⟩ : Shape).Idx → EReal) (ix2 r k) = X r k)
    (h1 : ∀ r k j, (V c (Pipeline.arrRef spec4 1) : (⟨3, ![256, 4, 150]⟩ : Shape).Idx → EReal) (ix3 r k j) = CH r k j)
    (h2 : ∀ r k j, (V c (Pipeline.arrRef spec4 2) : (⟨3, ![256, 4, 150]⟩ : Shape).Idx → EReal) (ix3 r k j) = CC r k j)
    (h3 : ∀ k p, (V c (Pipeline.arrRef spec4 3) : S300x150.Idx → EReal) (ix2 k p) = P.Wix k p)
    (h4 : ∀ p, (V c (Pipeline.arrRef spec4 4) : S1x150.Idx → EReal) (ix2 0 p) = P.bix p)
    (h5 : ∀ k p, (V c (Pipeline.arrRef spec4 5) : S300x150.Idx → EReal) (ix2 k p) = P.Wfx k p)
    (h6 : ∀ p, (V c (Pipeline.arrRef spec4 6) : S1x150.Idx → EReal) (ix2 0 p) = P.bfx p)
    (h7 : ∀ k p, (V c (Pipeline.arrRef spec4 7) : S300x150.Idx → EReal) (ix2 k p) = P.Wux k p)
    (h8 : ∀ p, (V c (Pipeline.arrRef spec4 8) : S1x150.Idx → EReal) (ix2 0 p) = P.bux p)
    (h9 : ∀ k p, (V c (Pipeline.arrRef spec4 9) : S300x150.Idx → EReal) (ix2 k p) = P.Wox k p)
    (h10 : ∀ p, (V c (Pipeline.arrRef spec4 10) : S1x150.Idx → EReal) (ix2 0 p) = P.box p)
    (h11 : ∀ k p, (V c (Pipeline.arrRef spec4 11) : S150x150.Idx → EReal) (ix2 k p) = P.Wih k p)
    (h12 : ∀ p, (V c (Pipeline.arrRef spec4 12) : S1x150.Idx → EReal) (ix2 0 p) = P.bih p)
    (h13 : ∀ k p, (V c (Pipeline.arrRef spec4 13) : S150x150.Idx → EReal) (ix2 k p) = P.Wfh k p)
    (h14 : ∀ p, (V c (Pipeline.arrRef spec4 14) : S1x150.Idx → EReal) (ix2 0 p) = P.bfh p)
    (h15 : ∀ k p, (V c (Pipeline.arrRef spec4 15) : S150x150.Idx → EReal) (ix2 k p) = P.Wuh k p)
    (h16 : ∀ p, (V c (Pipeline.arrRef spec4 16) : S1x150.Idx → EReal) (ix2 0 p) = P.buh p)
    (h17 : ∀ k p, (V c (Pipeline.arrRef spec4 17) : S150x150.Idx → EReal) (ix2 k p) = P.Woh k p)
    (h18 : ∀ p, (V c (Pipeline.arrRef spec4 18) : S1x150.Idx → EReal) (ix2 0 p) = P.boh p)
    (t : Fin cfg4.N) :
    (dat4 V c).flushed 20 t
      = ((cfg4.win 20).blk t).view.read (Elt Ideal) (fun i : (⟨2, ![256, 150]⟩ : Shape).Idx => intC P X CH CC (i 0) (i 1)) := by
  refine forall_ix2 (n0 := 256) (n1 := 150) fun r p => ?_
  have ht : t.val < 1 := t.isLt
  have hR : t.val * 256 + r.val < 256 := by have := r.isLt; omega
  refine (tile4_20 V c P X CH CC h0 h1 h2 h3 h4 h5 h6 h7 h8 h9 h10 h11 h12 h13 h14 h15 h16 h17 h18 t r p ⟨_, hR⟩ rfl).trans ?_
  rw [View.read_apply]
  show _ = (fun i : (⟨2, ![256, 150]⟩ : Shape).Idx => intC P X CH CC (i 0) (i 1)) (((cfg4.win 20).blk t).view.emb (ix2 r p))
  rw [emb4_20 t r p hR]

/-- Window 20's blocks cover its array: node R lies in the block of point R / 256. -/
theorem covered4_20 (i : (⟨2, ![256, 150]⟩ : Shape).Idx) :
    ∃ t : Fin cfg4.N, (cfg4.win 20).flush t = true ∧ i ∈ ((cfg4.win 20).blk t).view.set := by
  have h0 : (i 0 : Nat) < 256 := (i 0).isLt
  have h1 : (i 1 : Nat) < 150 := (i 1).isLt
  have hlt : (i 0 : Nat) / 256 < 1 := by omega
  refine ⟨⟨(i 0 : Nat) / 256, hlt⟩, flush4_20 _, ?_⟩
  have hi := idx4_20 ⟨(i 0 : Nat) / 256, hlt⟩
  show i ∈ ((View.whole (Pipeline.arrRef spec4 20)).slice (win4_20.rect ⟨(i 0 : Nat) / 256, hlt⟩)).set
  rw [View.set_slice_whole, Rect.mem_set_unit]
  intro a
  match a with
  | ⟨0, _⟩ =>
    show win4_20.index ⟨(i 0 : Nat) / 256, hlt⟩ 0 * 256 ≤ (i 0 : Nat) ∧ (i 0 : Nat) < win4_20.index ⟨(i 0 : Nat) / 256, hlt⟩ 0 * 256 + 256
    rw [hi.1]
    show (i 0 : Nat) / 256 * 256 ≤ (i 0 : Nat) ∧ (i 0 : Nat) < (i 0 : Nat) / 256 * 256 + 256
    omega
  | ⟨1, _⟩ =>
    show win4_20.index ⟨(i 0 : Nat) / 256, hlt⟩ 1 * 150 ≤ (i 1 : Nat) ∧ (i 1 : Nat) < win4_20.index ⟨(i 0 : Nat) / 256, hlt⟩ 1 * 150 + 150
    rw [hi.2]
    omega

/-- After the last point the two output arrays hold the level's hidden states and memory cells. -/
theorem arr4
    (h0 : ∀ r k, (V c (Pipeline.arrRef spec4 0) : (⟨2, ![256, 300]⟩ : Shape).Idx → EReal) (ix2 r k) = X r k)
    (h1 : ∀ r k j, (V c (Pipeline.arrRef spec4 1) : (⟨3, ![256, 4, 150]⟩ : Shape).Idx → EReal) (ix3 r k j) = CH r k j)
    (h2 : ∀ r k j, (V c (Pipeline.arrRef spec4 2) : (⟨3, ![256, 4, 150]⟩ : Shape).Idx → EReal) (ix3 r k j) = CC r k j)
    (h3 : ∀ k p, (V c (Pipeline.arrRef spec4 3) : S300x150.Idx → EReal) (ix2 k p) = P.Wix k p)
    (h4 : ∀ p, (V c (Pipeline.arrRef spec4 4) : S1x150.Idx → EReal) (ix2 0 p) = P.bix p)
    (h5 : ∀ k p, (V c (Pipeline.arrRef spec4 5) : S300x150.Idx → EReal) (ix2 k p) = P.Wfx k p)
    (h6 : ∀ p, (V c (Pipeline.arrRef spec4 6) : S1x150.Idx → EReal) (ix2 0 p) = P.bfx p)
    (h7 : ∀ k p, (V c (Pipeline.arrRef spec4 7) : S300x150.Idx → EReal) (ix2 k p) = P.Wux k p)
    (h8 : ∀ p, (V c (Pipeline.arrRef spec4 8) : S1x150.Idx → EReal) (ix2 0 p) = P.bux p)
    (h9 : ∀ k p, (V c (Pipeline.arrRef spec4 9) : S300x150.Idx → EReal) (ix2 k p) = P.Wox k p)
    (h10 : ∀ p, (V c (Pipeline.arrRef spec4 10) : S1x150.Idx → EReal) (ix2 0 p) = P.box p)
    (h11 : ∀ k p, (V c (Pipeline.arrRef spec4 11) : S150x150.Idx → EReal) (ix2 k p) = P.Wih k p)
    (h12 : ∀ p, (V c (Pipeline.arrRef spec4 12) : S1x150.Idx → EReal) (ix2 0 p) = P.bih p)
    (h13 : ∀ k p, (V c (Pipeline.arrRef spec4 13) : S150x150.Idx → EReal) (ix2 k p) = P.Wfh k p)
    (h14 : ∀ p, (V c (Pipeline.arrRef spec4 14) : S1x150.Idx → EReal) (ix2 0 p) = P.bfh p)
    (h15 : ∀ k p, (V c (Pipeline.arrRef spec4 15) : S150x150.Idx → EReal) (ix2 k p) = P.Wuh k p)
    (h16 : ∀ p, (V c (Pipeline.arrRef spec4 16) : S1x150.Idx → EReal) (ix2 0 p) = P.buh p)
    (h17 : ∀ k p, (V c (Pipeline.arrRef spec4 17) : S150x150.Idx → EReal) (ix2 k p) = P.Woh k p)
    (h18 : ∀ p, (V c (Pipeline.arrRef spec4 18) : S1x150.Idx → EReal) (ix2 0 p) = P.boh p) :
    (∀ r p, ((dat4 V c).arrAt 19 cfg4.N : (⟨2, ![256, 150]⟩ : Shape).Idx → EReal) (ix2 r p) = intH P X CH CC r p)
      ∧ (∀ r p, ((dat4 V c).arrAt 20 cfg4.N : (⟨2, ![256, 150]⟩ : Shape).Idx → EReal) (ix2 r p) = intC P X CH CC r p) :=
  ⟨fun r p => congrFun ((dat4 V c).arrAt_eq_of_cover 19 (fun i : (⟨2, ![256, 150]⟩ : Shape).Idx => intH P X CH CC (i 0) (i 1))
      (fun t _ => flushed4_19 V c P X CH CC h0 h1 h2 h3 h4 h5 h6 h7 h8 h9 h10 h11 h12 h13 h14 h15 h16 h17 h18 t) (covered4_19)) (ix2 r p),
   fun r p => congrFun ((dat4 V c).arrAt_eq_of_cover 20 (fun i : (⟨2, ![256, 150]⟩ : Shape).Idx => intC P X CH CC (i 0) (i 1))
      (fun t _ => flushed4_20 V c P X CH CC h0 h1 h2 h3 h4 h5 h6 h7 h8 h9 h10 h11 h12 h13 h14 h15 h16 h17 h18 t) (covered4_20)) (ix2 r p)⟩

end

end Cert.KernelIdeal.Tree

end
-- ==== Proof.KerPay5.lean ====
/-
  The two stored values of a tile of 64 internal nodes at an entry, on the extended reals.

  The tile holds 64 input rows x (300 numbers each) and, for every node, its four children's hidden states and memory
  cells (150 numbers each). The body sums the children's hidden states, s = h_0 + h_1 + h_2 + h_3, forms the products of
  x with W_ix, W_fx, W_ox, W_ux and of s with W_ih, W_oh, W_uh, and one product per child of h_k with W_fh — every operand
  first cast to a narrower float format, which changes nothing on the extended reals — and stores
      c = σ(((x · W_ix + b_ix) + s · W_ih) + b_ih) * tanh(((x · W_ux + b_ux) + s · W_uh) + b_uh)
            + Σ_k σ((h_k · W_fh + b_fh) + (x · W_fx + b_fx)) * c_k          and          h = σ(((x · W_ox + b_ox) + s · W_oh) + b_oh) * tanh c.
  Read at node r and coordinate p these are the recurrence's memory cell and hidden state of an internal node.
-/
import proofs.«167239_j63453846831535_1_alg».proof.Proof.Gen.KernelIdeal.Skeleton
import proofs.«167239_j63453846831535_1_alg».proof.Proof.TreeSpecArr
import proofs.«167239_j63453846831535_1_alg».proof.Proof.LibTreeOps

noncomputable section

namespace Cert.KernelIdeal.Pay

open Idealize.ShloMosaic Idealize.ShloMosaic.ValueIdx Cert.TreeSpec

/-- The stored hidden state of the tile, as a function of the nineteen loaded arrays. -/
def hTerm5 (v0 : Vec Ideal S64x300 .f32) (v2 v4 : Vec Ideal S64x4x150 .f32) (v11 : Vec Ideal S150x150 .f32)
    (v15 : Vec Ideal S1x150 .f32) (v20 : Vec Ideal S300x150 .f32) (v23 : Vec Ideal S1x150 .f32)
    (v33 : Vec Ideal S300x150 .f32) (v36 : Vec Ideal S1x150 .f32) (v40 : Vec Ideal S150x150 .f32)
    (v44 : Vec Ideal S1x150 .f32) (v49 : Vec Ideal S300x150 .f32) (v52 : Vec Ideal S1x150 .f32)
    (v56 : Vec Ideal S150x150 .f32) (v60 : Vec Ideal S1x150 .f32) (v65 : Vec Ideal S300x150 .f32)
    (v68 : Vec Ideal S1x150 .f32) (v72 : Vec Ideal S150x150 .f32) (v76 : Vec Ideal S1x150 .f32) : FVec Ideal S64x150 .f32 :=
  Gen.k5_pay2 (Gen.k5_pay5 v2) (Gen.k5_pay6 v0 v2 v4 v11 v15 v20 v23)
    (Gen.k5_pay8 (Gen.k5_pay5 v2) (Gen.k5_pay7 v0 v33) v36 v40 v44)
    (Gen.k5_pay9 (Gen.k5_pay4 v0) (Gen.k5_pay5 v2) v49 v52 v56 v60) (Gen.k5_pay10 (Gen.k5_pay4 v0) v65 v68) v72 v76

/-- The stored memory cell of the tile, as a function of the loaded arrays. -/
def cTerm5 (v0 : Vec Ideal S64x300 .f32) (v2 v4 : Vec Ideal S64x4x150 .f32) (v11 : Vec Ideal S150x150 .f32)
    (v15 : Vec Ideal S1x150 .f32) (v20 : Vec Ideal S300x150 .f32) (v23 : Vec Ideal S1x150 .f32)
    (v33 : Vec Ideal S300x150 .f32) (v36 : Vec Ideal S1x150 .f32) (v40 : Vec Ideal S150x150 .f32)
    (v44 : Vec Ideal S1x150 .f32) (v49 : Vec Ideal S300x150 .f32) (v52 : Vec Ideal S1x150 .f32)
    (v56 : Vec Ideal S150x150 .f32) (v60 : Vec Ideal S1x150 .f32) (v65 : Vec Ideal S300x150 .f32)
    (v68 : Vec Ideal S1x150 .f32) (v72 : Vec Ideal S150x150 .f32) (v76 : Vec Ideal S1x150 .f32) : FVec Ideal S64x150 .f32 :=
  Gen.k5_pay1 (Gen.k5_pay5 v2) (Gen.k5_pay6 v0 v2 v4 v11 v15 v20 v23)
    (Gen.k5_pay8 (Gen.k5_pay5 v2) (Gen.k5_pay7 v0 v33) v36 v40 v44) (Gen.k5_pay10 (Gen.k5_pay4 v0) v65 v68) v72 v76

section
variable (v0 : Vec Ideal S64x300 .f32) (v2 v4 : Vec Ideal S64x4x150 .f32) (v11 : Vec Ideal S150x150 .f32)
    (v15 : Vec Ideal S1x150 .f32) (v20 : Vec Ideal S300x150 .f32) (v23 : Vec Ideal S1x150 .f32)
    (v33 : Vec Ideal S300x150 .f32) (v36 : Vec Ideal S1x150 .f32) (v40 : Vec Ideal S150x150 .f32)
    (v44 : Vec Ideal S1x150 .f32) (v49 : Vec Ideal S300x150 .f32) (v52 : Vec Ideal S1x150 .f32)
    (v56 : Vec Ideal S150x150 .f32) (v60 : Vec Ideal S1x150 .f32) (v65 : Vec Ideal S300x150 .f32)
    (v68 : Vec Ideal S1x150 .f32) (v72 : Vec Ideal S150x150 .f32) (v76 : Vec Ideal S1x150 .f32)
  (r : Fin 64) (p : Fin 150)

/-- The children's memory cells weighted by their forget gates, summed, at (r, p). -/
theorem forget_sum5 : Gen.k5_pay6 v0 v2 v4 v11 v15 v20 v23 (ix2 r p)
    = ∑ k : Fin 4, Ideal.logistic (((∑ j : Fin 150, tile3 v2 r k j * mat v11 j p) + row v15 p)
        + (lin (tile2 v0) (mat v20) r p + row v23 p)) * tile3 v4 r k p := by
  unfold Gen.k5_pay6 Gen.k5_pay3 Gen.k5_pay4
  refine (Tree.Lib.sumMiddle_apply _ _ _ _ r p).trans (Finset.sum_congr rfl fun k _ => ?_)
  refine Tree.Lib.mulf_at (Tree.Lib.logistic_at (Tree.Lib.addf_at (Tree.Lib.addf_at ?_ ?_) ?_)) ?_
  · exact Tree.Lib.childW_apply 256 rfl v2 v11 _ _ _ _ none r k p
  · exact Tree.Lib.biasRow3_apply v15 _ _ _ r k p
  · exact (Tree.Lib.spreadMiddle_apply _ _ _ r k p).trans
      (Tree.Lib.addf_at (Tree.Lib.xW_apply v0 v20 _ _ none r p) (Tree.Lib.biasRow_apply v23 _ _ r p))
  · exact congrFun (shapeCast_self v4 _) (ix3 r k p)

/-- The input gate at (r, p): σ(((x · W_ix + b_ix) + s · W_ih) + b_ih). -/
theorem gate_i5 : Gen.k5_pay8 (Gen.k5_pay5 v2) (Gen.k5_pay7 v0 v33) v36 v40 v44 (ix2 r p)
    = Ideal.logistic (lin (tile2 v0) (mat v33) r p + row v36 p + lin (hsum (tile3 v2)) (mat v40) r p + row v44 p) := by
  unfold Gen.k5_pay8 Gen.k5_pay7 Gen.k5_pay5 Gen.k5_pay4 Gen.k5_pay3
  exact Tree.Lib.logistic_at (Tree.Lib.addf_at (Tree.Lib.addf_at (Tree.Lib.addf_at
    (Tree.Lib.xW_apply v0 v33 _ _ none r p) (Tree.Lib.biasRow_apply v36 _ _ r p))
    (Tree.Lib.hsumW_apply v2 v40 _ _ _ _ _ none r p)) (Tree.Lib.biasRow_apply v44 _ _ r p))

/-- The output gate at (r, p): σ(((x · W_ox + b_ox) + s · W_oh) + b_oh). -/
theorem gate_o5 : Gen.k5_pay9 (Gen.k5_pay4 v0) (Gen.k5_pay5 v2) v49 v52 v56 v60 (ix2 r p)
    = Ideal.logistic (lin (tile2 v0) (mat v49) r p + row v52 p + lin (hsum (tile3 v2)) (mat v56) r p + row v60 p) := by
  unfold Gen.k5_pay9 Gen.k5_pay5 Gen.k5_pay4 Gen.k5_pay3
  exact Tree.Lib.logistic_at (Tree.Lib.addf_at (Tree.Lib.addf_at (Tree.Lib.addf_at
    (Tree.Lib.xW_apply v0 v49 _ _ none r p) (Tree.Lib.biasRow_apply v52 _ _ r p))
    (Tree.Lib.hsumW_apply v2 v56 _ _ _ _ _ none r p)) (Tree.Lib.biasRow_apply v60 _ _ r p))

/-- The input part of the update at (r, p): x · W_ux + b_ux. -/
theorem update_x5 : Gen.k5_pay10 (Gen.k5_pay4 v0) v65 v68 (ix2 r p) = lin (tile2 v0) (mat v65) r p + row v68 p := by
  unfold Gen.k5_pay10 Gen.k5_pay4
  exact Tree.Lib.addf_at (Tree.Lib.xW_apply v0 v65 _ _ none r p) (Tree.Lib.biasRow_apply v68 _ _ r p)

/-- The stored memory cell at (r, p) is the recurrence's memory cell of an internal node. -/
theorem cTerm5_apply : cTerm5 v0 v2 v4 v11 v15 v20 v23 v33 v36 v40 v44 v49 v52 v56 v60 v65 v68 v72 v76 (ix2 r p)
    = intC (paramsOfRows v33 v36 v20 v23 v65 v68 v49 v52 v40 v44 v11 v15 v72 v76 v56 v60) (tile2 v0) (tile3 v2) (tile3 v4) r p := by
  unfold cTerm5 Gen.k5_pay1
  refine Tree.Lib.addf_at (Tree.Lib.mulf_at (gate_i5 v0 v2 v33 v36 v40 v44 r p)
    (Tree.Lib.tanh_at (Tree.Lib.addf_at (Tree.Lib.addf_at (update_x5 v0 v65 v68 r p) ?_)
      (Tree.Lib.biasRow_apply v76 _ _ r p)))) (forget_sum5 v0 v2 v4 v11 v15 v20 v23 r p)
  unfold Gen.k5_pay5 Gen.k5_pay3
  exact Tree.Lib.hsumW_apply v2 v72 _ _ _ _ _ none r p

/-- The stored hidden state at (r, p) is the recurrence's hidden state of an internal node. -/
theorem hTerm5_apply : hTerm5 v0 v2 v4 v11 v15 v20 v23 v33 v36 v40 v44 v49 v52 v56 v60 v65 v68 v72 v76 (ix2 r p)
    = intH (paramsOfRows v33 v36 v20 v23 v65 v68 v49 v52 v40 v44 v11 v15 v72 v76 v56 v60) (tile2 v0) (tile3 v2) (tile3 v4) r p := by
  unfold hTerm5 Gen.k5_pay2
  exact Tree.Lib.mulf_at (gate_o5 v0 v2 v49 v52 v56 v60 r p)
    (Tree.Lib.tanh_at (cTerm5_apply v0 v2 v4 v11 v15 v20 v23 v33 v36 v40 v44 v49 v52 v56 v60 v65 v68 v72 v76 r p))

end

end Cert.KernelIdeal.Pay

end
-- ==== Proof.KerArr5.lean ====
/-
  The level of 64 internal nodes: from the tiles the grid's points write back to the two whole arrays.

  The grid has 1 point; point t handles the tile of nodes 64·t … 64·t + 63. Its input blocks are rows
  64·t + r of the input matrix and of the children's two arrays, and the sixteen parameter arrays whole (their
  index maps are constantly 0). The recurrence at a node reads only that node's rows, so what the point writes at row r
  of its two output blocks is the recurrence's value at node 64·t + r of the level; the output blocks tile the two
  output arrays (node R lies in point R / 64's block), so after the last point each array holds the level's values.
-/
import proofs.«167239_j63453846831535_1_alg».proof.Proof.KIRegion5
import proofs.«167239_j63453846831535_1_alg».proof.Proof.KerPay5
import proofs.«167239_j63453846831535_1_alg».proof.Proof.TreeSpecArr
import proofs.«167239_j63453846831535_1_alg».proof.Proof.TreeLocal
import Idealize.ShloMosaic.Lib.Pipeline.Value

set_option maxRecDepth 16384

noncomputable section

namespace Cert.KernelIdeal.Tree

open Cert.KernelIdeal Cert.KernelIdeal.Gen
open Idealize.ShloMosaic Idealize.ShloMosaic.TcCoe Idealize.ShloMosaic.ValueIdx
open Idealize.SL.Sem
open Idealize.ShloMosaic.Pipeline (Dat)
open Cert.TreeSpec

variable (V : (c : Dev nD) → (b : Ref sig .tc) → Buf (Elt Ideal) ((c : Thread nD τ).loc b)) (c : Dev nD)

/-! ## The index maps over the grid -/

theorem idx5_0 : ∀ t : Fin cfg5.N, win5_0.index t 0 = t.val ∧ win5_0.index t 1 = 0 :=
  (by decide +kernel : ∀ t : Fin grid5.N, win5_0.index t 0 = t.val ∧ win5_0.index t 1 = 0)
theorem idx5_1 : ∀ t : Fin cfg5.N, win5_1.index t 0 = t.val ∧ win5_1.index t 1 = 0 ∧ win5_1.index t 2 = 0 :=
  (by decide +kernel : ∀ t : Fin grid5.N, win5_1.index t 0 = t.val ∧ win5_1.index t 1 = 0 ∧ win5_1.index t 2 = 0)
theorem idx5_2 : ∀ t : Fin cfg5.N, win5_2.index t 0 = t.val ∧ win5_2.index t 1 = 0 ∧ win5_2.index t 2 = 0 :=
  (by decide +kernel : ∀ t : Fin grid5.N, win5_2.index t 0 = t.val ∧ win5_2.index t 1 = 0 ∧ win5_2.index t 2 = 0)
theorem idx5_3 : ∀ t : Fin cfg5.N, win5_3.index t 0 = 0 ∧ win5_3.index t 1 = 0 :=
  (by decide +kernel : ∀ t : Fin grid5.N, win5_3.index t 0 = 0 ∧ win5_3.index t 1 = 0)
theorem idx5_4 : ∀ t : Fin cfg5.N, win5_4.index t 0 = 0 ∧ win5_4.index t 1 = 0 :=
  (by decide +kernel : ∀ t : Fin grid5.N, win5_4.index t 0 = 0 ∧ win5_4.index t 1 = 0)
theorem idx5_5 : ∀ t : Fin cfg5.N, win5_5.index t 0 = 0 ∧ win5_5.index t 1 = 0 :=
  (by decide +kernel : ∀ t : Fin grid5.N, win5_5.index t 0 = 0 ∧ win5_5.index t 1 = 0)
theorem idx5_6 : ∀ t : Fin cfg5.N, win5_6.index t 0 = 0 ∧ win5_6.index t 1 = 0 :=
  (by decide +kernel : ∀ t : Fin grid5.N, win5_6.index t 0 = 0 ∧ win5_6.index t 1 = 0)
theorem idx5_7 : ∀ t : Fin cfg5.N, win5_7.index t 0 = 0 ∧ win5_7.index t 1 = 0 :=
  (by decide +kernel : ∀ t : Fin grid5.N, win5_7.index t 0 = 0 ∧ win5_7.index t 1 = 0)
theorem idx5_8 : ∀ t : Fin cfg5.N, win5_8.index t 0 = 0 ∧ win5_8.index t 1 = 0 :=
  (by decide +kernel : ∀ t : Fin grid5.N, win5_8.index t 0 = 0 ∧ win5_8.index t 1 = 0)
theorem idx5_9 : ∀ t : Fin cfg5.N, win5_9.index t 0 = 0 ∧ win5_9.index t 1 = 0 :=
  (by decide +kernel : ∀ t : Fin grid5.N, win5_9.index t 0 = 0 ∧ win5_9.index t 1 = 0)
theorem idx5_10 : ∀ t : Fin cfg5.N, win5_10.index t 0 = 0 ∧ win5_10.index t 1 = 0 :=
  (by decide +kernel : ∀ t : Fin grid5.N, win5_10.index t 0 = 0 ∧ win5_10.index t 1 = 0)
theorem idx5_11 : ∀ t : Fin cfg5.N, win5_11.index t 0 = 0 ∧ win5_11.index t 1 = 0 :=
  (by decide +kernel : ∀ t : Fin grid5.N, win5_11.index t 0 = 0 ∧ win5_11.index t 1 = 0)
theorem idx5_12 : ∀ t : Fin cfg5.N, win5_12.index t 0 = 0 ∧ win5_12.index t 1 = 0 :=
  (by decide +kernel : ∀ t : Fin grid5.N, win5_12.index t 0 = 0 ∧ win5_12.index t 1 = 0)
theorem idx5_13 : ∀ t : Fin cfg5.N, win5_13.index t 0 = 0 ∧ win5_13.index t 1 = 0 :=
  (by decide +kernel : ∀ t : Fin grid5.N, win5_13.index t 0 = 0 ∧ win5_13.index t 1 = 0)
theorem idx5_14 : ∀ t : Fin cfg5.N, win5_14.index t 0 = 0 ∧ win5_14.index t 1 = 0 :=
  (by decide +kernel : ∀ t : Fin grid5.N, win5_14.index t 0 = 0 ∧ win5_14.index t 1 = 0)
theorem idx5_15 : ∀ t : Fin cfg5.N, win5_15.index t 0 = 0 ∧ win5_15.index t 1 = 0 :=
  (by decide +kernel : ∀ t : Fin grid5.N, win5_15.index t 0 = 0 ∧ win5_15.index t 1 = 0)
theorem idx5_16 : ∀ t : Fin cfg5.N, win5_16.index t 0 = 0 ∧ win5_16.index t 1 = 0 :=
  (by decide +kernel : ∀ t : Fin grid5.N, win5_16.index t 0 = 0 ∧ win5_16.index t 1 = 0)
theorem idx5_17 : ∀ t : Fin cfg5.N, win5_17.index t 0 = 0 ∧ win5_17.index t 1 = 0 :=
  (by decide +kernel : ∀ t : Fin grid5.N, win5_17.index t 0 = 0 ∧ win5_17.index t 1 = 0)
theorem idx5_18 : ∀ t : Fin cfg5.N, win5_18.index t 0 = 0 ∧ win5_18.index t 1 = 0 :=
  (by decide +kernel : ∀ t : Fin grid5.N, win5_18.index t 0 = 0 ∧ win5_18.index t 1 = 0)
theorem idx5_19 : ∀ t : Fin cfg5.N, win5_19.index t 0 = t.val ∧ win5_19.index t 1 = 0 :=
  (by decide +kernel : ∀ t : Fin grid5.N, win5_19.index t 0 = t.val ∧ win5_19.index t 1 = 0)
theorem idx5_20 : ∀ t : Fin cfg5.N, win5_20.index t 0 = t.val ∧ win5_20.index t 1 = 0 :=
  (by decide +kernel : ∀ t : Fin grid5.N, win5_20.index t 0 = t.val ∧ win5_20.index t 1 = 0)

/-! ## The input blocks as parts of their arrays -/

/-- Row r of the input tile at point t is row 64·t + r of the input matrix. -/
theorem blk5_0 (t : Fin cfg5.N) (r : Fin 64) (k : Fin 300) (R : Fin 64) (hR : R.val = t.val * 64 + r.val) :
    (iblk5 V c 0 t : S64x300.Idx → EReal) (ix2 r k) = (V c (Pipeline.arrRef spec5 0) : (⟨2, ![64, 300]⟩ : Shape).Idx → EReal) (ix2 R k) := by
  have hi := idx5_0 t
  unfold iblk5
  rw [View.read_apply]
  show V c (Pipeline.arrRef spec5 0) _ = V c (Pipeline.arrRef spec5 0) _
  congr 1
  funext a
  apply Fin.ext
  match a with
  | ⟨0, _⟩ => show win5_0.index t 0 * 64 + 1 * r.val = R.val; rw [hi.1, hR]; omega
  | ⟨1, _⟩ => show win5_0.index t 1 * 300 + 1 * k.val = k.val; rw [hi.2]; omega

/-- The children of node r of the tile at point t are those of node 64·t + r of the level (window 1). -/
theorem blk5_1 (t : Fin cfg5.N) (r : Fin 64) (k : Fin 4) (j : Fin 150) (R : Fin 64) (hR : R.val = t.val * 64 + r.val) :
    (iblk5 V c 1 t : S64x4x150.Idx → EReal) (ix3 r k j) = (V c (Pipeline.arrRef spec5 1) : (⟨3, ![64, 4, 150]⟩ : Shape).Idx → EReal) (ix3 R k j) := by
  have hi := idx5_1 t
  unfold iblk5
  rw [View.read_apply]
  show V c (Pipeline.arrRef spec5 1) _ = V c (Pipeline.arrRef spec5 1) _
  congr 1
  funext a
  apply Fin.ext
  match a with
  | ⟨0, _⟩ => show win5_1.index t 0 * 64 + 1 * r.val = R.val; rw [hi.1, hR]; omega
  | ⟨1, _⟩ => show win5_1.index t 1 * 4 + 1 * k.val = k.val; rw [hi.2.1]; omega
  | ⟨2, _⟩ => show win5_1.index t 2 * 150 + 1 * j.val = j.val; rw [hi.2.2]; omega

/-- The children of node r of the tile at point t are those of node 64·t + r of the level (window 2). -/
theorem blk5_2 (t : Fin cfg5.N) (r : Fin 64) (k : Fin 4) (j : Fin 150) (R : Fin 64) (hR : R.val = t.val * 64 + r.val) :
    (iblk5 V c 2 t : S64x4x150.Idx → EReal) (ix3 r k j) = (V c (Pipeline.arrRef spec5 2) : (⟨3, ![64, 4, 150]⟩ : Shape).Idx → EReal) (ix3 R k j) := by
  have hi := idx5_2 t
  unfold iblk5
  rw [View.read_apply]
  show V c (Pipeline.arrRef spec5 2) _ = V c (Pipeline.arrRef spec5 2) _
  congr 1
  funext a
  apply Fin.ext
  match a with
  | ⟨0, _⟩ => show win5_2.index t 0 * 64 + 1 * r.val = R.val; rw [hi.1, hR]; omega
  | ⟨1, _⟩ => show win5_2.index t 1 * 4 + 1 * k.val = k.val; rw [hi.2.1]; omega
  | ⟨2, _⟩ => show win5_2.index t 2 * 150 + 1 * j.val = j.val; rw [hi.2.2]; omega

/-- Window 3's block at every point is its whole array. -/
theorem blk5_3 (t : Fin cfg5.N) (y : S300x150.Idx) :
    (iblk5 V c 3 t : S300x150.Idx → EReal) y = (V c (Pipeline.arrRef spec5 3) : S300x150.Idx → EReal) y := by
  have hi := idx5_3 t
  unfold iblk5
  rw [View.read_apply]
  show V c (Pipeline.arrRef spec5 3) _ = V c (Pipeline.arrRef spec5 3) _
  congr 1
  funext a
  apply Fin.ext
  match a with
  | ⟨0, _⟩ => show win5_3.index t 0 * 300 + 1 * (y 0).val = (y 0).val; rw [hi.1]; omega
  | ⟨1, _⟩ => show win5_3.index t 1 * 150 + 1 * (y 1).val = (y 1).val; rw [hi.2]; omega

/-- Window 4's block at every point is its whole array. -/
theorem blk5_4 (t : Fin cfg5.N) (y : S1x150.Idx) :
    (iblk5 V c 4 t : S1x150.Idx → EReal) y = (V c (Pipeline.arrRef spec5 4) : S1x150.Idx → EReal) y := by
  have hi := idx5_4 t
  unfold iblk5
  rw [View.read_apply]
  show V c (Pipeline.arrRef spec5 4) _ = V c (Pipeline.arrRef spec5 4) _
  congr 1
  funext a
  apply Fin.ext
  match a with
  | ⟨0, _⟩ => show win5_4.index t 0 * 1 + 1 * (y 0).val = (y 0).val; rw [hi.1]; omega
  | ⟨1, _⟩ => show win5_4.index t 1 * 150 + 1 * (y 1).val = (y 1).val; rw [hi.2]; omega

/-- Window 5's block at every point is its whole array. -/
theorem blk5_5 (t : Fin cfg5.N) (y : S300x150.Idx) :
    (iblk5 V c 5 t : S300x150.Idx → EReal) y = (V c (Pipeline.arrRef spec5 5) : S300x150.Idx → EReal) y := by
  have hi := idx5_5 t
  unfold iblk5
  rw [View.read_apply]
  show V c (Pipeline.arrRef spec5 5) _ = V c (Pipeline.arrRef spec5 5) _
  congr 1
  funext a
  apply Fin.ext
  match a with
  | ⟨0, _⟩ => show win5_5.index t 0 * 300 + 1 * (y 0).val = (y 0).val; rw [hi.1]; omega
  | ⟨1, _⟩ => show win5_5.index t 1 * 150 + 1 * (y 1).val = (y 1).val; rw [hi.2]; omega

/-- Window 6's block at every point is its whole array. -/
theorem blk5_6 (t : Fin cfg5.N) (y : S1x150.Idx) :
    (iblk5 V c 6 t : S1x150.Idx → EReal) y = (V c (Pipeline.arrRef spec5 6) : S1x150.Idx → EReal) y := by
  have hi := idx5_6 t
  unfold iblk5
  rw [View.read_apply]
  show V c (Pipeline.arrRef spec5 6) _ = V c (Pipeline.arrRef spec5 6) _
  congr 1
  funext a
  apply Fin.ext
  match a with
  | ⟨0, _⟩ => show win5_6.index t 0 * 1 + 1 * (y 0).val = (y 0).val; rw [hi.1]; omega
  | ⟨1, _⟩ => show win5_6.index t 1 * 150 + 1 * (y 1).val = (y 1).val; rw [hi.2]; omega

/-- Window 7's block at every point is its whole array. -/
theorem blk5_7 (t : Fin cfg5.N) (y : S300x150.Idx) :
    (iblk5 V c 7 t : S300x150.Idx → EReal) y = (V c (Pipeline.arrRef spec5 7) : S300x150.Idx → EReal) y := by
  have hi := idx5_7 t
  unfold iblk5
  rw [View.read_apply]
  show V c (Pipeline.arrRef spec5 7) _ = V c (Pipeline.arrRef spec5 7) _
  congr 1
  funext a
  apply Fin.ext
  match a with
  | ⟨0, _⟩ => show win5_7.index t 0 * 300 + 1 * (y 0).val = (y 0).val; rw [hi.1]; omega
  | ⟨1, _⟩ => show win5_7.index t 1 * 150 + 1 * (y 1).val = (y 1).val; rw [hi.2]; omega

/-- Window 8's block at every point is its whole array. -/
theorem blk5_8 (t : Fin cfg5.N) (y : S1x150.Idx) :
    (iblk5 V c 8 t : S1x150.Idx → EReal) y = (V c (Pipeline.arrRef spec5 8) : S1x150.Idx → EReal) y := by
  have hi := idx5_8 t
  unfold iblk5
  rw [View.read_apply]
  show V c (Pipeline.arrRef spec5 8) _ = V c (Pipeline.arrRef spec5 8) _
  congr 1
  funext a
  apply Fin.ext
  match a with
  | ⟨0, _⟩ => show win5_8.index t 0 * 1 + 1 * (y 0).val = (y 0).val; rw [hi.1]; omega
  | ⟨1, _⟩ => show win5_8.index t 1 * 150 + 1 * (y 1).val = (y 1).val; rw [hi.2]; omega

/-- Window 9's block at every point is its whole array. -/
theorem blk5_9 (t : Fin cfg5.N) (y : S300x150.Idx) :
    (iblk5 V c 9 t : S300x150.Idx → EReal) y = (V c (Pipeline.arrRef spec5 9) : S300x150.Idx → EReal) y := by
  have hi := idx5_9 t
  unfold iblk5
  rw [View.read_apply]
  show V c (Pipeline.arrRef spec5 9) _ = V c (Pipeline.arrRef spec5 9) _
  congr 1
  funext a
  apply Fin.ext
  match a with
  | ⟨0, _⟩ => show win5_9.index t 0 * 300 + 1 * (y 0).val = (y 0).val; rw [hi.1]; omega
  | ⟨1, _⟩ => show win5_9.index t 1 * 150 + 1 * (y 1).val = (y 1).val; rw [hi.2]; omega

/-- Window 10's block at every point is its whole array. -/
theorem blk5_10 (t : Fin cfg5.N) (y : S1x150.Idx) :
    (iblk5 V c 10 t : S1x150.Idx → EReal) y = (V c (Pipeline.arrRef spec5 10) : S1x150.Idx → EReal) y := by
  have hi := idx5_10 t
  unfold iblk5
  rw [View.read_apply]
  show V c (Pipeline.arrRef spec5 10) _ = V c (Pipeline.arrRef spec5 10) _
  congr 1
  funext a
  apply Fin.ext
  match a with
  | ⟨0, _⟩ => show win5_10.index t 0 * 1 + 1 * (y 0).val = (y 0).val; rw [hi.1]; omega
  | ⟨1, _⟩ => show win5_10.index t 1 * 150 + 1 * (y 1).val = (y 1).val; rw [hi.2]; omega

/-- Window 11's block at every point is its whole array. -/
theorem blk5_11 (t : Fin cfg5.N) (y : S150x150.Idx) :
    (iblk5 V c 11 t : S150x150.Idx → EReal) y = (V c (Pipeline.arrRef spec5 11) : S150x150.Idx → EReal) y := by
  have hi := idx5_11 t
  unfold iblk5
  rw [View.read_apply]
  show V c (Pipeline.arrRef spec5 11) _ = V c (Pipeline.arrRef spec5 11) _
  congr 1
  funext a
  apply Fin.ext
  match a with
  | ⟨0, _⟩ => show win5_11.index t 0 * 150 + 1 * (y 0).val = (y 0).val; rw [hi.1]; omega
  | ⟨1, _⟩ => show win5_11.index t 1 * 150 + 1 * (y 1).val = (y 1).val; rw [hi.2]; omega

/-- Window 12's block at every point is its whole array. -/
theorem blk5_12 (t : Fin cfg5.N) (y : S1x150.Idx) :
    (iblk5 V c 12 t : S1x150.Idx → EReal) y = (V c (Pipeline.arrRef spec5 12) : S1x150.Idx → EReal) y := by
  have hi := idx5_12 t
  unfold iblk5
  rw [View.read_apply]
  show V c (Pipeline.arrRef spec5 12) _ = V c (Pipeline.arrRef spec5 12) _
  congr 1
  funext a
  apply Fin.ext
  match a with
  | ⟨0, _⟩ => show win5_12.index t 0 * 1 + 1 * (y 0).val = (y 0).val; rw [hi.1]; omega
  | ⟨1, _⟩ => show win5_12.index t 1 * 150 + 1 * (y 1).val = (y 1).val; rw [hi.2]; omega

/-- Window 13's block at every point is its whole array. -/
theorem blk5_13 (t : Fin cfg5.N) (y : S150x150.Idx) :
    (iblk5 V c 13 t : S150x150.Idx → EReal) y = (V c (Pipeline.arrRef spec5 13) : S150x150.Idx → EReal) y := by
  have hi := idx5_13 t
  unfold iblk5
  rw [View.read_apply]
  show V c (Pipeline.arrRef spec5 13) _ = V c (Pipeline.arrRef spec5 13) _
  congr 1
  funext a
  apply Fin.ext
  match a with
  | ⟨0, _⟩ => show win5_13.index t 0 * 150 + 1 * (y 0).val = (y 0).val; rw [hi.1]; omega
  | ⟨1, _⟩ => show win5_13.index t 1 * 150 + 1 * (y 1).val = (y 1).val; rw [hi.2]; omega

/-- Window 14's block at every point is its whole array. -/
theorem blk5_14 (t : Fin cfg5.N) (y : S1x150.Idx) :
    (iblk5 V c 14 t : S1x150.Idx → EReal) y = (V c (Pipeline.arrRef spec5 14) : S1x150.Idx → EReal) y := by
  have hi := idx5_14 t
  unfold iblk5
  rw [View.read_apply]
  show V c (Pipeline.arrRef spec5 14) _ = V c (Pipeline.arrRef spec5 14) _
  congr 1
  funext a
  apply Fin.ext
  match a with
  | ⟨0, _⟩ => show win5_14.index t 0 * 1 + 1 * (y 0).val = (y 0).val; rw [hi.1]; omega
  | ⟨1, _⟩ => show win5_14.index t 1 * 150 + 1 * (y 1).val = (y 1).val; rw [hi.2]; omega

/-- Window 15's block at every point is its whole array. -/
theorem blk5_15 (t : Fin cfg5.N) (y : S150x150.Idx) :
    (iblk5 V c 15 t : S150x150.Idx → EReal) y = (V c (Pipeline.arrRef spec5 15) : S150x150.Idx → EReal) y := by
  have hi := idx5_15 t
  unfold iblk5
  rw [View.read_apply]
  show V c (Pipeline.arrRef spec5 15) _ = V c (Pipeline.arrRef spec5 15) _
  congr 1
  funext a
  apply Fin.ext
  match a with
  | ⟨0, _⟩ => show win5_15.index t 0 * 150 + 1 * (y 0).val = (y 0).val; rw [hi.1]; omega
  | ⟨1, _⟩ => show win5_15.index t 1 * 150 + 1 * (y 1).val = (y 1).val; rw [hi.2]; omega

/-- Window 16's block at every point is its whole array. -/
theorem blk5_16 (t : Fin cfg5.N) (y : S1x150.Idx) :
    (iblk5 V c 16 t : S1x150.Idx → EReal) y = (V c (Pipeline.arrRef spec5 16) : S1x150.Idx → EReal) y := by
  have hi := idx5_16 t
  unfold iblk5
  rw [View.read_apply]
  show V c (Pipeline.arrRef spec5 16) _ = V c (Pipeline.arrRef spec5 16) _
  congr 1
  funext a
  apply Fin.ext
  match a with
  | ⟨0, _⟩ => show win5_16.index t 0 * 1 + 1 * (y 0).val = (y 0).val; rw [hi.1]; omega
  | ⟨1, _⟩ => show win5_16.index t 1 * 150 + 1 * (y 1).val = (y 1).val; rw [hi.2]; omega

/-- Window 17's block at every point is its whole array. -/
theorem blk5_17 (t : Fin cfg5.N) (y : S150x150.Idx) :
    (iblk5 V c 17 t : S150x150.Idx → EReal) y = (V c (Pipeline.arrRef spec5 17) : S150x150.Idx → EReal) y := by
  have hi := idx5_17 t
  unfold iblk5
  rw [View.read_apply]
  show V c (Pipeline.arrRef spec5 17) _ = V c (Pipeline.arrRef spec5 17) _
  congr 1
  funext a
  apply Fin.ext
  match a with
  | ⟨0, _⟩ => show win5_17.index t 0 * 150 + 1 * (y 0).val = (y 0).val; rw [hi.1]; omega
  | ⟨1, _⟩ => show win5_17.index t 1 * 150 + 1 * (y 1).val = (y 1).val; rw [hi.2]; omega

/-- Window 18's block at every point is its whole array. -/
theorem blk5_18 (t : Fin cfg5.N) (y : S1x150.Idx) :
    (iblk5 V c 18 t : S1x150.Idx → EReal) y = (V c (Pipeline.arrRef spec5 18) : S1x150.Idx → EReal) y := by
  have hi := idx5_18 t
  unfold iblk5
  rw [View.read_apply]
  show V c (Pipeline.arrRef spec5 18) _ = V c (Pipeline.arrRef spec5 18) _
  congr 1
  funext a
  apply Fin.ext
  match a with
  | ⟨0, _⟩ => show win5_18.index t 0 * 1 + 1 * (y 0).val = (y 0).val; rw [hi.1]; omega
  | ⟨1, _⟩ => show win5_18.index t 1 * 150 + 1 * (y 1).val = (y 1).val; rw [hi.2]; omega

/-! ## What the body leaves in the output blocks -/

/-- The hidden-state block after the body is the tile's stored hidden state, as a function of the input blocks. -/
theorem out5_19_eq (x0 : Vec Ideal S64x300 .f32) (x1 : Vec Ideal S64x4x150 .f32) (x2 : Vec Ideal S64x4x150 .f32) (x3 : Vec Ideal S300x150 .f32) (x4 : Vec Ideal S1x150 .f32) (x5 : Vec Ideal S300x150 .f32) (x6 : Vec Ideal S1x150 .f32) (x7 : Vec Ideal S300x150 .f32) (x8 : Vec Ideal S1x150 .f32) (x9 : Vec Ideal S300x150 .f32) (x10 : Vec Ideal S1x150 .f32) (x11 : Vec Ideal S150x150 .f32) (x12 : Vec Ideal S1x150 .f32) (x13 : Vec Ideal S150x150 .f32) (x14 : Vec Ideal S1x150 .f32) (x15 : Vec Ideal S150x150 .f32) (x16 : Vec Ideal S1x150 .f32) (x17 : Vec Ideal S150x150 .f32) (x18 : Vec Ideal S1x150 .f32) :
    out5_19 x0 x1 x2 x3 x4 x5 x6 x7 x8 x9 x10 x11 x12 x13 x14 x15 x16 x17 x18 = Pay.hTerm5 x0 x1 x2 x13 x14 x5 x6 x3 x4 x11 x12 x9 x10 x17 x18 x7 x8 x15 x16 := by
  unfold out5_19
  rw [View.canon_unit_zero zero_off2]
  simp only [View.ld_unit_zero (S := S64x300) zero_off2, View.ld_unit_zero (S := S64x4x150) zero_off3, View.ld_unit_zero (S := S300x150) zero_off2, View.ld_unit_zero (S := S1x150) zero_off2, View.ld_unit_zero (S := S150x150) zero_off2]
  rfl

/-- The memory-cell block after the body is the tile's stored memory cell, as a function of the input blocks. -/
theorem out5_20_eq (x0 : Vec Ideal S64x300 .f32) (x1 : Vec Ideal S64x4x150 .f32) (x2 : Vec Ideal S64x4x150 .f32) (x3 : Vec Ideal S300x150 .f32) (x4 : Vec Ideal S1x150 .f32) (x5 : Vec Ideal S300x150 .f32) (x6 : Vec Ideal S1x150 .f32) (x7 : Vec Ideal S300x150 .f32) (x8 : Vec Ideal S1x150 .f32) (x9 : Vec Ideal S300x150 .f32) (x10 : Vec Ideal S1x150 .f32) (x11 : Vec Ideal S150x150 .f32) (x12 : Vec Ideal S1x150 .f32) (x13 : Vec Ideal S150x150 .f32) (x14 : Vec Ideal S1x150 .f32) (x15 : Vec Ideal S150x150 .f32) (x16 : Vec Ideal S1x150 .f32) (x17 : Vec Ideal S150x150 .f32) (x18 : Vec Ideal S1x150 .f32) :
    out5_20 x0 x1 x2 x3 x4 x5 x6 x7 x8 x9 x10 x11 x12 x13 x14 x15 x16 x17 x18 = Pay.cTerm5 x0 x1 x2 x13 x14 x5 x6 x3 x4 x11 x12 x9 x10 x17 x18 x7 x8 x15 x16 := by
  unfold out5_20
  rw [View.canon_unit_zero zero_off2]
  simp only [View.ld_unit_zero (S := S64x300) zero_off2, View.ld_unit_zero (S := S64x4x150) zero_off3, View.ld_unit_zero (S := S300x150) zero_off2, View.ld_unit_zero (S := S1x150) zero_off2, View.ld_unit_zero (S := S150x150) zero_off2]
  rfl

section
variable (P : Params) (X : Fin 64 → Fin 300 → EReal) (CH CC : Fin 64 → Fin 4 → Fin 150 → EReal)

/-- The parameter blocks at any point are the parameters. -/
theorem params5
    (h3 : ∀ k p, (V c (Pipeline.arrRef spec5 3) : S300x150.Idx → EReal) (ix2 k p) = P.Wix k p)
    (h4 : ∀ p, (V c (Pipeline.arrRef spec5 4) : S1x150.Idx → EReal) (ix2 0 p) = P.bix p)
    (h5 : ∀ k p, (V c (Pipeline.arrRef spec5 5) : S300x150.Idx → EReal) (ix2 k p) = P.Wfx k p)
    (h6 : ∀ p, (V c (Pipeline.arrRef spec5 6) : S1x150.Idx → EReal) (ix2 0 p) = P.bfx p)
    (h7 : ∀ k p, (V c (Pipeline.arrRef spec5 7) : S300x150.Idx → EReal) (ix2 k p) = P.Wux k p)
    (h8 : ∀ p, (V c (Pipeline.arrRef spec5 8) : S1x150.Idx → EReal) (ix2 0 p) = P.bux p)
    (h9 : ∀ k p, (V c (Pipeline.arrRef spec5 9) : S300x150.Idx → EReal) (ix2 k p) = P.Wox k p)
    (h10 : ∀ p, (V c (Pipeline.arrRef spec5 10) : S1x150.Idx → EReal) (ix2 0 p) = P.box p)
    (h11 : ∀ k p, (V c (Pipeline.arrRef spec5 11) : S150x150.Idx → EReal) (ix2 k p) = P.Wih k p)
    (h12 : ∀ p, (V c (Pipeline.arrRef spec5 12) : S1x150.Idx → EReal) (ix2 0 p) = P.bih p)
    (h13 : ∀ k p, (V c (Pipeline.arrRef spec5 13) : S150x150.Idx → EReal) (ix2 k p) = P.Wfh k p)
    (h14 : ∀ p, (V c (Pipeline.arrRef spec5 14) : S1x150.Idx → EReal) (ix2 0 p) = P.bfh p)
    (h15 : ∀ k p, (V c (Pipeline.arrRef spec5 15) : S150x150.Idx → EReal) (ix2 k p) = P.Wuh k p)
    (h16 : ∀ p, (V c (Pipeline.arrRef spec5 16) : S1x150.Idx → EReal) (ix2 0 p) = P.buh p)
    (h17 : ∀ k p, (V c (Pipeline.arrRef spec5 17) : S150x150.Idx → EReal) (ix2 k p) = P.Woh k p)
    (h18 : ∀ p, (V c (Pipeline.arrRef spec5 18) : S1x150.Idx → EReal) (ix2 0 p) = P.boh p)
    (t : Fin cfg5.N) :
    paramsOfRows (iblk5 V c 3 t) (iblk5 V c 4 t) (iblk5 V c 5 t) (iblk5 V c 6 t) (iblk5 V c 7 t) (iblk5 V c 8 t) (iblk5 V c 9 t) (iblk5 V c 10 t) (iblk5 V c 11 t) (iblk5 V c 12 t) (iblk5 V c 13 t) (iblk5 V c 14 t) (iblk5 V c 15 t) (iblk5 V c 16 t) (iblk5 V c 17 t) (iblk5 V c 18 t) = P :=
  Params.eq_of_fields P
    (funext fun k => funext fun p => (blk5_3 V c t (ix2 k p)).trans (h3 k p))
    (funext fun p => (blk5_4 V c t (ix2 0 p)).trans (h4 p))
    (funext fun k => funext fun p => (blk5_5 V c t (ix2 k p)).trans (h5 k p))
    (funext fun p => (blk5_6 V c t (ix2 0 p)).trans (h6 p))
    (funext fun k => funext fun p => (blk5_7 V c t (ix2 k p)).trans (h7 k p))
    (funext fun p => (blk5_8 V c t (ix2 0 p)).trans (h8 p))
    (funext fun k => funext fun p => (blk5_9 V c t (ix2 k p)).trans (h9 k p))
    (funext fun p => (blk5_10 V c t (ix2 0 p)).trans (h10 p))
    (funext fun k => funext fun p => (blk5_11 V c t (ix2 k p)).trans (h11 k p))
    (funext fun p => (blk5_12 V c t (ix2 0 p)).trans (h12 p))
    (funext fun k => funext fun p => (blk5_13 V c t (ix2 k p)).trans (h13 k p))
    (funext fun p => (blk5_14 V c t (ix2 0 p)).trans (h14 p))
    (funext fun k => funext fun p => (blk5_15 V c t (ix2 k p)).trans (h15 k p))
    (funext fun p => (blk5_16 V c t (ix2 0 p)).trans (h16 p))
    (funext fun k => funext fun p => (blk5_17 V c t (ix2 k p)).trans (h17 k p))
    (funext fun p => (blk5_18 V c t (ix2 0 p)).trans (h18 p))

/-- Row r of the hidden-state block at point t is the hidden state of node 64·t + r. -/
theorem tile5_19
    (h0 : ∀ r k, (V c (Pipeline.arrRef spec5 0) : (⟨2, ![64, 300]⟩ : Shape).Idx → EReal) (ix2 r k) = X r k)
    (h1 : ∀ r k j, (V c (Pipeline.arrRef spec5 1) : (⟨3, ![64, 4, 150]⟩ : Shape).Idx → EReal) (ix3 r k j) = CH r k j)
    (h2 : ∀ r k j, (V c (Pipeline.arrRef spec5 2) : (⟨3, ![64, 4, 150]⟩ : Shape).Idx → EReal) (ix3 r k j) = CC r k j)
    (h3 : ∀ k p, (V c (Pipeline.arrRef spec5 3) : S300x150.Idx → EReal) (ix2 k p) = P.Wix k p)
    (h4 : ∀ p, (V c (Pipeline.arrRef spec5 4) : S1x150.Idx → EReal) (ix2 0 p) = P.bix p)
    (h5 : ∀ k p, (V c (Pipeline.arrRef spec5 5) : S300x150.Idx → EReal) (ix2 k p) = P.Wfx k p)
    (h6 : ∀ p, (V c (Pipeline.arrRef spec5 6) : S1x150.Idx → EReal) (ix2 0 p) = P.bfx p)
    (h7 : ∀ k p, (V c (Pipeline.arrRef spec5 7) : S300x150.Idx → EReal) (ix2 k p) = P.Wux k p)
    (h8 : ∀ p, (V c (Pipeline.arrRef spec5 8) : S1x150.Idx → EReal) (ix2 0 p) = P.bux p)
    (h9 : ∀ k p, (V c (Pipeline.arrRef spec5 9) : S300x150.Idx → EReal) (ix2 k p) = P.Wox k p)
    (h10 : ∀ p, (V c (Pipeline.arrRef spec5 10) : S1x150.Idx → EReal) (ix2 0 p) = P.box p)
    (h11 : ∀ k p, (V c (Pipeline.arrRef spec5 11) : S150x150.Idx → EReal) (ix2 k p) = P.Wih k p)
    (h12 : ∀ p, (V c (Pipeline.arrRef spec5 12) : S1x150.Idx → EReal) (ix2 0 p) = P.bih p)
    (h13 : ∀ k p, (V c (Pipeline.arrRef spec5 13) : S150x150.Idx → EReal) (ix2 k p) = P.Wfh k p)
    (h14 : ∀ p, (V c (Pipeline.arrRef spec5 14) : S1x150.Idx → EReal) (ix2 0 p) = P.bfh p)
    (h15 : ∀ k p, (V c (Pipeline.arrRef spec5 15) : S150x150.Idx → EReal) (ix2 k p) = P.Wuh k p)
    (h16 : ∀ p, (V c (Pipeline.arrRef spec5 16) : S1x150.Idx → EReal) (ix2 0 p) = P.buh p)
    (h17 : ∀ k p, (V c (Pipeline.arrRef spec5 17) : S150x150.Idx → EReal) (ix2 k p) = P.Woh k p)
    (h18 : ∀ p, (V c (Pipeline.arrRef spec5 18) : S1x150.Idx → EReal) (ix2 0 p) = P.boh p)
    (t : Fin cfg5.N) (r : Fin 64) (p : Fin 150) (R : Fin 64) (hR : R.val = t.val * 64 + r.val) :
    ((dat5 V c).after 19 t : S64x150.Idx → EReal) (ix2 r p) = intH P X CH CC R p := by
  rw [after5_19, out5_19_eq]
  refine (Pay.hTerm5_apply (iblk5 V c 0 t) (iblk5 V c 1 t) (iblk5 V c 2 t) (iblk5 V c 13 t) (iblk5 V c 14 t) (iblk5 V c 5 t) (iblk5 V c 6 t) (iblk5 V c 3 t) (iblk5 V c 4 t) (iblk5 V c 11 t) (iblk5 V c 12 t) (iblk5 V c 9 t) (iblk5 V c 10 t) (iblk5 V c 17 t) (iblk5 V c 18 t) (iblk5 V c 7 t) (iblk5 V c 8 t) (iblk5 V c 15 t) (iblk5 V c 16 t) r p).trans ?_
  exact intH_local (params5 V c P h3 h4 h5 h6 h7 h8 h9 h10 h11 h12 h13 h14 h15 h16 h17 h18 t)
    (funext fun k => (blk5_0 V c t r k R hR).trans (h0 R k))
    (funext fun k => funext fun j => (blk5_1 V c t r k j R hR).trans (h1 R k j))
    (funext fun k => funext fun j => (blk5_2 V c t r k j R hR).trans (h2 R k j)) p

/-- Row r of the memory-cell block at point t is the memory cell of node 64·t + r. -/
theorem tile5_20
    (h0 : ∀ r k, (V c (Pipeline.arrRef spec5 0) : (⟨2, ![64, 300]⟩ : Shape).Idx → EReal) (ix2 r k) = X r k)
    (h1 : ∀ r k j, (V c (Pipeline.arrRef spec5 1) : (⟨3, ![64, 4, 150]⟩ : Shape).Idx → EReal) (ix3 r k j) = CH r k j)
    (h2 : ∀ r k j, (V c (Pipeline.arrRef spec5 2) : (⟨3, ![64, 4, 150]⟩ : Shape).Idx → EReal) (ix3 r k j) = CC r k j)
    (h3 : ∀ k p, (V c (Pipeline.arrRef spec5 3) : S300x150.Idx → EReal) (ix2 k p) = P.Wix k p)
    (h4 : ∀ p, (V c (Pipeline.arrRef spec5 4) : S1x150.Idx → EReal) (ix2 0 p) = P.bix p)
    (h5 : ∀ k p, (V c (Pipeline.arrRef spec5 5) : S300x150.Idx → EReal) (ix2 k p) = P.Wfx k p)
    (h6 : ∀ p, (V c (Pipeline.arrRef spec5 6) : S1x150.Idx → EReal) (ix2 0 p) = P.bfx p)
    (h7 : ∀ k p, (V c (Pipeline.arrRef spec5 7) : S300x150.Idx → EReal) (ix2 k p) = P.Wux k p)
    (h8 : ∀ p, (V c (Pipeline.arrRef spec5 8) : S1x150.Idx → EReal) (ix2 0 p) = P.bux p)
    (h9 : ∀ k p, (V c (Pipeline.arrRef spec5 9) : S300x150.Idx → EReal) (ix2 k p) = P.Wox k p)
    (h10 : ∀ p, (V c (Pipeline.arrRef spec5 10) : S1x150.Idx → EReal) (ix2 0 p) = P.box p)
    (h11 : ∀ k p, (V c (Pipeline.arrRef spec5 11) : S150x150.Idx → EReal) (ix2 k p) = P.Wih k p)
    (h12 : ∀ p, (V c (Pipeline.arrRef spec5 12) : S1x150.Idx → EReal) (ix2 0 p) = P.bih p)
    (h13 : ∀ k p, (V c (Pipeline.arrRef spec5 13) : S150x150.Idx → EReal) (ix2 k p) = P.Wfh k p)
    (h14 : ∀ p, (V c (Pipeline.arrRef spec5 14) : S1x150.Idx → EReal) (ix2 0 p) = P.bfh p)
    (h15 : ∀ k p, (V c (Pipeline.arrRef spec5 15) : S150x150.Idx → EReal) (ix2 k p) = P.Wuh k p)
    (h16 : ∀ p, (V c (Pipeline.arrRef spec5 16) : S1x150.Idx → EReal) (ix2 0 p) = P.buh p)
    (h17 : ∀ k p, (V c (Pipeline.arrRef spec5 17) : S150x150.Idx → EReal) (ix2 k p) = P.Woh k p)
    (h18 : ∀ p, (V c (Pipeline.arrRef spec5 18) : S1x150.Idx → EReal) (ix2 0 p) = P.boh p)
    (t : Fin cfg5.N) (r : Fin 64) (p : Fin 150) (R : Fin 64) (hR : R.val = t.val * 64 + r.val) :
    ((dat5 V c).after 20 t : S64x150.Idx → EReal) (ix2 r p) = intC P X CH CC R p := by
  rw [after5_20, out5_20_eq]
  refine (Pay.cTerm5_apply (iblk5 V c 0 t) (iblk5 V c 1 t) (iblk5 V c 2 t) (iblk5 V c 13 t) (iblk5 V c 14 t) (iblk5 V c 5 t) (iblk5 V c 6 t) (iblk5 V c 3 t) (iblk5 V c 4 t) (iblk5 V c 11 t) (iblk5 V c 12 t) (iblk5 V c 9 t) (iblk5 V c 10 t) (iblk5 V c 17 t) (iblk5 V c 18 t) (iblk5 V c 7 t) (iblk5 V c 8 t) (iblk5 V c 15 t) (iblk5 V c 16 t) r p).trans ?_
  exact intC_local (params5 V c P h3 h4 h5 h6 h7 h8 h9 h10 h11 h12 h13 h14 h15 h16 h17 h18 t)
    (funext fun k => (blk5_0 V c t r k R hR).trans (h0 R k))
    (funext fun k => funext fun j => (blk5_1 V c t r k j R hR).trans (h1 R k j))
    (funext fun k => funext fun j => (blk5_2 V c t r k j R hR).trans (h2 R k j)) p

/-- Entry (r, p) of window 19's block at point t sits at (64·t + r, p) of its array. -/
theorem emb5_19 (t : Fin cfg5.N) (r : Fin 64) (p : Fin 150) (hR : t.val * 64 + r.val < 64) :
    ((cfg5.win 19).blk t).view.emb (ix2 r p) = (ix2 ⟨t.val * 64 + r.val, hR⟩ p : (⟨2, ![64, 150]⟩ : Shape).Idx) := by
  have hi := idx5_19 t
  funext a
  apply Fin.ext
  match a with
  | ⟨0, _⟩ => show win5_19.index t 0 * 64 + 1 * r.val = t.val * 64 + r.val; rw [hi.1]; omega
  | ⟨1, _⟩ => show win5_19.index t 1 * 150 + 1 * p.val = p.val; rw [hi.2]; omega

/-- What point t writes back through window 19 is its block of the level's values. -/
theorem flushed5_19
    (h0 : ∀ r k, (V c (Pipeline.arrRef spec5 0) : (⟨2, ![64, 300]⟩ : Shape).Idx → EReal) (ix2 r k) = X r k)
    (h1 : ∀ r k j, (V c (Pipeline.arrRef spec5 1) : (⟨3, ![64, 4, 150]⟩ : Shape).Idx → EReal) (ix3 r k j) = CH r k j)
    (h2 : ∀ r k j, (V c (Pipeline.arrRef spec5 2) : (⟨3, ![64, 4, 150]⟩ : Shape).Idx → EReal) (ix3 r k j) = CC r k j)
    (h3 : ∀ k p, (V c (Pipeline.arrRef spec5 3) : S300x150.Idx → EReal) (ix2 k p) = P.Wix k p)
    (h4 : ∀ p, (V c (Pipeline.arrRef spec5 4) : S1x150.Idx → EReal) (ix2 0 p) = P.bix p)
    (h5 : ∀ k p, (V c (Pipeline.arrRef spec5 5) : S300x150.Idx → EReal) (ix2 k p) = P.Wfx k p)
    (h6 : ∀ p, (V c (Pipeline.arrRef spec5 6) : S1x150.Idx → EReal) (ix2 0 p) = P.bfx p)
    (h7 : ∀ k p, (V c (Pipeline.arrRef spec5 7) : S300x150.Idx → EReal) (ix2 k p) = P.Wux k p)
    (h8 : ∀ p, (V c (Pipeline.arrRef spec5 8) : S1x150.Idx → EReal) (ix2 0 p) = P.bux p)
    (h9 : ∀ k p, (V c (Pipeline.arrRef spec5 9) : S300x150.Idx → EReal) (ix2 k p) = P.Wox k p)
    (h10 : ∀ p, (V c (Pipeline.arrRef spec5 10) : S1x150.Idx → EReal) (ix2 0 p) = P.box p)
    (h11 : ∀ k p, (V c (Pipeline.arrRef spec5 11) : S150x150.Idx → EReal) (ix2 k p) = P.Wih k p)
    (h12 : ∀ p, (V c (Pipeline.arrRef spec5 12) : S1x150.Idx → EReal) (ix2 0 p) = P.bih p)
    (h13 : ∀ k p, (V c (Pipeline.arrRef spec5 13) : S150x150.Idx → EReal) (ix2 k p) = P.Wfh k p)
    (h14 : ∀ p, (V c (Pipeline.arrRef spec5 14) : S1x150.Idx → EReal) (ix2 0 p) = P.bfh p)
    (h15 : ∀ k p, (V c (Pipeline.arrRef spec5 15) : S150x150.Idx → EReal) (ix2 k p) = P.Wuh k p)
    (h16 : ∀ p, (V c (Pipeline.arrRef spec5 16) : S1x150.Idx → EReal) (ix2 0 p) = P.buh p)
    (h17 : ∀ k p, (V c (Pipeline.arrRef spec5 17) : S150x150.Idx → EReal) (ix2 k p) = P.Woh k p)
    (h18 : ∀ p, (V c (Pipeline.arrRef spec5 18) : S1x150.Idx → EReal) (ix2 0 p) = P.boh p)
    (t : Fin cfg5.N) :
    (dat5 V c).flushed 19 t
      = ((cfg5.win 19).blk t).view.read (Elt Ideal) (fun i : (⟨2, ![64, 150]⟩ : Shape).Idx => intH P X CH CC (i 0) (i 1)) := by
  refine forall_ix2 (n0 := 64) (n1 := 150) fun r p => ?_
  have ht : t.val < 1 := t.isLt
  have hR : t.val * 64 + r.val < 64 := by have := r.isLt; omega
  refine (tile5_19 V c P X CH CC h0 h1 h2 h3 h4 h5 h6 h7 h8 h9 h10 h11 h12 h13 h14 h15 h16 h17 h18 t r p ⟨_, hR⟩ rfl).trans ?_
  rw [View.read_apply]
  show _ = (fun i : (⟨2, ![64, 150]⟩ : Shape).Idx => intH P X CH CC (i 0) (i 1)) (((cfg5.win 19).blk t).view.emb (ix2 r p))
  rw [emb5_19 t r p hR]

/-- Window 19's blocks cover its array: node R lies in the block of point R / 64. -/
theorem covered5_19 (i : (⟨2, ![64, 150]⟩ : Shape).Idx) :
    ∃ t : Fin cfg5.N, (cfg5.win 19).flush t = true ∧ i ∈ ((cfg5.win 19).blk t).view.set := by
  have h0 : (i 0 : Nat) < 64 := (i 0).isLt
  have h1 : (i 1 : Nat) < 150 := (i 1).isLt
  have hlt : (i 0 : Nat) / 64 < 1 := by omega
  refine ⟨⟨(i 0 : Nat) / 64, hlt⟩, flush5_19 _, ?_⟩
  have hi := idx5_19 ⟨(i 0 : Nat) / 64, hlt⟩
  show i ∈ ((View.whole (Pipeline.arrRef spec5 19)).slice (win5_19.rect ⟨(i 0 : Nat) / 64, hlt⟩)).set
  rw [View.set_slice_whole, Rect.mem_set_unit]
  intro a
  match a with
  | ⟨0, _⟩ =>
    show win5_19.index ⟨(i 0 : Nat) / 64, hlt⟩ 0 * 64 ≤ (i 0 : Nat) ∧ (i 0 : Nat) < win5_19.index ⟨(i 0 : Nat) / 64, hlt⟩ 0 * 64 + 64
    rw [hi.1]
    show (i 0 : Nat) / 64 * 64 ≤ (i 0 : Nat) ∧ (i 0 : Nat) < (i 0 : Nat) / 64 * 64 + 64
    omega
  | ⟨1, _⟩ =>
    show win5_19.index ⟨(i 0 : Nat) / 64, hlt⟩ 1 * 150 ≤ (i 1 : Nat) ∧ (i 1 : Nat) < win5_19.index ⟨(i 0 : Nat) / 64, hlt⟩ 1 * 150 + 150
    rw [hi.2]
    omega

/-- Entry (r, p) of window 20's block at point t sits at (64·t + r, p) of its array. -/
theorem emb5_20 (t : Fin cfg5.N) (r : Fin 64) (p : Fin 150) (hR : t.val * 64 + r.val < 64) :
    ((cfg5.win 20).blk t).view.emb (ix2 r p) = (ix2 ⟨t.val * 64 + r.val, hR⟩ p : (⟨2, ![64, 150]⟩ : Shape).Idx) := by
  have hi := idx5_20 t
  funext a
  apply Fin.ext
  match a with
  | ⟨0, _⟩ => show win5_20.index t 0 * 64 + 1 * r.val = t.val * 64 + r.val; rw [hi.1]; omega
  | ⟨1, _⟩ => show win5_20.index t 1 * 150 + 1 * p.val = p.val; rw [hi.2]; omega

/-- What point t writes back through window 20 is its block of the level's values. -/
theorem flushed5_20
    (h0 : ∀ r k, (V c (Pipeline.arrRef spec5 0) : (⟨2, ![64, 300]⟩ : Shape).Idx → EReal) (ix2 r k) = X r k)
    (h1 : ∀ r k j, (V c (Pipeline.arrRef spec5 1) : (⟨3, ![64, 4, 150]⟩ : Shape).Idx → EReal) (ix3 r k j) = CH r k j)
    (h2 : ∀ r k j, (V c (Pipeline.arrRef spec5 2) : (⟨3, ![64, 4, 150]⟩ : Shape).Idx → EReal) (ix3 r k j) = CC r k j)
    (h3 : ∀ k p, (V c (Pipeline.arrRef spec5 3) : S300x150.Idx → EReal) (ix2 k p) = P.Wix k p)
    (h4 : ∀ p, (V c (Pipeline.arrRef spec5 4) : S1x150.Idx → EReal) (ix2 0 p) = P.bix p)
    (h5 : ∀ k p, (V c (Pipeline.arrRef spec5 5) : S300x150.Idx → EReal) (ix2 k p) = P.Wfx k p)
    (h6 : ∀ p, (V c (Pipeline.arrRef spec5 6) : S1x150.Idx → EReal) (ix2 0 p) = P.bfx p)
    (h7 : ∀ k p, (V c (Pipeline.arrRef spec5 7) : S300x150.Idx → EReal) (ix2 k p) = P.Wux k p)
    (h8 : ∀ p, (V c (Pipeline.arrRef spec5 8) : S1x150.Idx → EReal) (ix2 0 p) = P.bux p)
    (h9 : ∀ k p, (V c (Pipeline.arrRef spec5 9) : S300x150.Idx → EReal) (ix2 k p) = P.Wox k p)
    (h10 : ∀ p, (V c (Pipeline.arrRef spec5 10) : S1x150.Idx → EReal) (ix2 0 p) = P.box p)
    (h11 : ∀ k p, (V c (Pipeline.arrRef spec5 11) : S150x150.Idx → EReal) (ix2 k p) = P.Wih k p)
    (h12 : ∀ p, (V c (Pipeline.arrRef spec5 12) : S1x150.Idx → EReal) (ix2 0 p) = P.bih p)
    (h13 : ∀ k p, (V c (Pipeline.arrRef spec5 13) : S150x150.Idx → EReal) (ix2 k p) = P.Wfh k p)
    (h14 : ∀ p, (V c (Pipeline.arrRef spec5 14) : S1x150.Idx → EReal) (ix2 0 p) = P.bfh p)
    (h15 : ∀ k p, (V c (Pipeline.arrRef spec5 15) : S150x150.Idx → EReal) (ix2 k p) = P.Wuh k p)
    (h16 : ∀ p, (V c (Pipeline.arrRef spec5 16) : S1x150.Idx → EReal) (ix2 0 p) = P.buh p)
    (h17 : ∀ k p, (V c (Pipeline.arrRef spec5 17) : S150x150.Idx → EReal) (ix2 k p) = P.Woh k p)
    (h18 : ∀ p, (V c (Pipeline.arrRef spec5 18) : S1x150.Idx → EReal) (ix2 0 p) = P.boh p)
    (t : Fin cfg5.N) :
    (dat5 V c).flushed 20 t
      = ((cfg5.win 20).blk t).view.read (Elt Ideal) (fun i : (⟨2, ![64, 150]⟩ : Shape).Idx => intC P X CH CC (i 0) (i 1)) := by
  refine forall_ix2 (n0 := 64) (n1 := 150) fun r p => ?_
  have ht : t.val < 1 := t.isLt
  have hR : t.val * 64 + r.val < 64 := by have := r.isLt; omega
  refine (tile5_20 V c P X CH CC h0 h1 h2 h3 h4 h5 h6 h7 h8 h9 h10 h11 h12 h13 h14 h15 h16 h17 h18 t r p ⟨_, hR⟩ rfl).trans ?_
  rw [View.read_apply]
  show _ = (fun i : (⟨2, ![64, 150]⟩ : Shape).Idx => intC P X CH CC (i 0) (i 1)) (((cfg5.win 20).blk t).view.emb (ix2 r p))
  rw [emb5_20 t r p hR]

/-- Window 20's blocks cover its array: node R lies in the block of point R / 64. -/
theorem covered5_20 (i : (⟨2, ![64, 150]⟩ : Shape).Idx) :
    ∃ t : Fin cfg5.N, (cfg5.win 20).flush t = true ∧ i ∈ ((cfg5.win 20).blk t).view.set := by
  have h0 : (i 0 : Nat) < 64 := (i 0).isLt
  have h1 : (i 1 : Nat) < 150 := (i 1).isLt
  have hlt : (i 0 : Nat) / 64 < 1 := by omega
  refine ⟨⟨(i 0 : Nat) / 64, hlt⟩, flush5_20 _, ?_⟩
  have hi := idx5_20 ⟨(i 0 : Nat) / 64, hlt⟩
  show i ∈ ((View.whole (Pipeline.arrRef spec5 20)).slice (win5_20.rect ⟨(i 0 : Nat) / 64, hlt⟩)).set
  rw [View.set_slice_whole, Rect.mem_set_unit]
  intro a
  match a with
  | ⟨0, _⟩ =>
    show win5_20.index ⟨(i 0 : Nat) / 64, hlt⟩ 0 * 64 ≤ (i 0 : Nat) ∧ (i 0 : Nat) < win5_20.index ⟨(i 0 : Nat) / 64, hlt⟩ 0 * 64 + 64
    rw [hi.1]
    show (i 0 : Nat) / 64 * 64 ≤ (i 0 : Nat) ∧ (i 0 : Nat) < (i 0 : Nat) / 64 * 64 + 64
    omega
  | ⟨1, _⟩ =>
    show win5_20.index ⟨(i 0 : Nat) / 64, hlt⟩ 1 * 150 ≤ (i 1 : Nat) ∧ (i 1 : Nat) < win5_20.index ⟨(i 0 : Nat) / 64, hlt⟩ 1 * 150 + 150
    rw [hi.2]
    omega

/-- After the last point the two output arrays hold the level's hidden states and memory cells. -/
theorem arr5
    (h0 : ∀ r k, (V c (Pipeline.arrRef spec5 0) : (⟨2, ![64, 300]⟩ : Shape).Idx → EReal) (ix2 r k) = X r k)
    (h1 : ∀ r k j, (V c (Pipeline.arrRef spec5 1) : (⟨3, ![64, 4, 150]⟩ : Shape).Idx → EReal) (ix3 r k j) = CH r k j)
    (h2 : ∀ r k j, (V c (Pipeline.arrRef spec5 2) : (⟨3, ![64, 4, 150]⟩ : Shape).Idx → EReal) (ix3 r k j) = CC r k j)
    (h3 : ∀ k p, (V c (Pipeline.arrRef spec5 3) : S300x150.Idx → EReal) (ix2 k p) = P.Wix k p)
    (h4 : ∀ p, (V c (Pipeline.arrRef spec5 4) : S1x150.Idx → EReal) (ix2 0 p) = P.bix p)
    (h5 : ∀ k p, (V c (Pipeline.arrRef spec5 5) : S300x150.Idx → EReal) (ix2 k p) = P.Wfx k p)
    (h6 : ∀ p, (V c (Pipeline.arrRef spec5 6) : S1x150.Idx → EReal) (ix2 0 p) = P.bfx p)
    (h7 : ∀ k p, (V c (Pipeline.arrRef spec5 7) : S300x150.Idx → EReal) (ix2 k p) = P.Wux k p)
    (h8 : ∀ p, (V c (Pipeline.arrRef spec5 8) : S1x150.Idx → EReal) (ix2 0 p) = P.bux p)
    (h9 : ∀ k p, (V c (Pipeline.arrRef spec5 9) : S300x150.Idx → EReal) (ix2 k p) = P.Wox k p)
    (h10 : ∀ p, (V c (Pipeline.arrRef spec5 10) : S1x150.Idx → EReal) (ix2 0 p) = P.box p)
    (h11 : ∀ k p, (V c (Pipeline.arrRef spec5 11) : S150x150.Idx → EReal) (ix2 k p) = P.Wih k p)
    (h12 : ∀ p, (V c (Pipeline.arrRef spec5 12) : S1x150.Idx → EReal) (ix2 0 p) = P.bih p)
    (h13 : ∀ k p, (V c (Pipeline.arrRef spec5 13) : S150x150.Idx → EReal) (ix2 k p) = P.Wfh k p)
    (h14 : ∀ p, (V c (Pipeline.arrRef spec5 14) : S1x150.Idx → EReal) (ix2 0 p) = P.bfh p)
    (h15 : ∀ k p, (V c (Pipeline.arrRef spec5 15) : S150x150.Idx → EReal) (ix2 k p) = P.Wuh k p)
    (h16 : ∀ p, (V c (Pipeline.arrRef spec5 16) : S1x150.Idx → EReal) (ix2 0 p) = P.buh p)
    (h17 : ∀ k p, (V c (Pipeline.arrRef spec5 17) : S150x150.Idx → EReal) (ix2 k p) = P.Woh k p)
    (h18 : ∀ p, (V c (Pipeline.arrRef spec5 18) : S1x150.Idx → EReal) (ix2 0 p) = P.boh p) :
    (∀ r p, ((dat5 V c).arrAt 19 cfg5.N : (⟨2, ![64, 150]⟩ : Shape).Idx → EReal) (ix2 r p) = intH P X CH CC r p)
      ∧ (∀ r p, ((dat5 V c).arrAt 20 cfg5.N : (⟨2, ![64, 150]⟩ : Shape).Idx → EReal) (ix2 r p) = intC P X CH CC r p) :=
  ⟨fun r p => congrFun ((dat5 V c).arrAt_eq_of_cover 19 (fun i : (⟨2, ![64, 150]⟩ : Shape).Idx => intH P X CH CC (i 0) (i 1))
      (fun t _ => flushed5_19 V c P X CH CC h0 h1 h2 h3 h4 h5 h6 h7 h8 h9 h10 h11 h12 h13 h14 h15 h16 h17 h18 t) (covered5_19)) (ix2 r p),
   fun r p => congrFun ((dat5 V c).arrAt_eq_of_cover 20 (fun i : (⟨2, ![64, 150]⟩ : Shape).Idx => intC P X CH CC (i 0) (i 1))
      (fun t _ => flushed5_20 V c P X CH CC h0 h1 h2 h3 h4 h5 h6 h7 h8 h9 h10 h11 h12 h13 h14 h15 h16 h17 h18 t) (covered5_20)) (ix2 r p)⟩

end

end Cert.KernelIdeal.Tree

end
-- ==== Proof.KerPay6.lean ====
/-
  The two stored values of a tile of 16 internal nodes at an entry, on the extended reals.

  The tile holds 16 input rows x (300 numbers each) and, for every node, its four children's hidden states and memory
  cells (150 numbers each). The body sums the children's hidden states, s = h_0 + h_1 + h_2 + h_3, forms the products of
  x with W_ix, W_fx, W_ox, W_ux and of s with W_ih, W_oh, W_uh, and one product per child of h_k with W_fh — every operand
  first cast to a narrower float format, which changes nothing on the extended reals — and stores
      c = σ(((x · W_ix + b_ix) + s · W_ih) + b_ih) * tanh(((x · W_ux + b_ux) + s · W_uh) + b_uh)
            + Σ_k σ((h_k · W_fh + b_fh) + (x · W_fx + b_fx)) * c_k          and          h = σ(((x · W_ox + b_ox) + s · W_oh) + b_oh) * tanh c.
  Read at node r and coordinate p these are the recurrence's memory cell and hidden state of an internal node.
-/
import proofs.«167239_j63453846831535_1_alg».proof.Proof.Gen.KernelIdeal.Skeleton
import proofs.«167239_j63453846831535_1_alg».proof.Proof.TreeSpecArr
import proofs.«167239_j63453846831535_1_alg».proof.Proof.LibTreeOps

noncomputable section

namespace Cert.KernelIdeal.Pay

open Idealize.ShloMosaic Idealize.ShloMosaic.ValueIdx Cert.TreeSpec

/-- The stored hidden state of the tile, as a function of the nineteen loaded arrays. -/
def hTerm6 (v0 : Vec Ideal S16x300 .f32) (v2 v4 : Vec Ideal S16x4x150 .f32) (v11 : Vec Ideal S150x150 .f32)
    (v15 : Vec Ideal S1x150 .f32) (v20 : Vec Ideal S300x150 .f32) (v23 : Vec Ideal S1x150 .f32)
    (v33 : Vec Ideal S300x150 .f32) (v36 : Vec Ideal S1x150 .f32) (v40 : Vec Ideal S150x150 .f32)
    (v44 : Vec Ideal S1x150 .f32) (v49 : Vec Ideal S300x150 .f32) (v52 : Vec Ideal S1x150 .f32)
    (v56 : Vec Ideal S150x150 .f32) (v60 : Vec Ideal S1x150 .f32) (v65 : Vec Ideal S300x150 .f32)
    (v68 : Vec Ideal S1x150 .f32) (v72 : Vec Ideal S150x150 .f32) (v76 : Vec Ideal S1x150 .f32) : FVec Ideal S16x150 .f32 :=
  Gen.k6_pay2 (Gen.k6_pay5 v2) (Gen.k6_pay6 v0 v2 v4 v11 v15 v20 v23)
    (Gen.k6_pay8 (Gen.k6_pay5 v2) (Gen.k6_pay7 v0 v33) v36 v40 v44)
    (Gen.k6_pay9 (Gen.k6_pay4 v0) (Gen.k6_pay5 v2) v49 v52 v56 v60) (Gen.k6_pay10 (Gen.k6_pay4 v0) v65 v68) v72 v76

/-- The stored memory cell of the tile, as a function of the loaded arrays. -/
def cTerm6 (v0 : Vec Ideal S16x300 .f32) (v2 v4 : Vec Ideal S16x4x150 .f32) (v11 : Vec Ideal S150x150 .f32)
    (v15 : Vec Ideal S1x150 .f32) (v20 : Vec Ideal S300x150 .f32) (v23 : Vec Ideal S1x150 .f32)
    (v33 : Vec Ideal S300x150 .f32) (v36 : Vec Ideal S1x150 .f32) (v40 : Vec Ideal S150x150 .f32)
    (v44 : Vec Ideal S1x150 .f32) (v49 : Vec Ideal S300x150 .f32) (v52 : Vec Ideal S1x150 .f32)
    (v56 : Vec Ideal S150x150 .f32) (v60 : Vec Ideal S1x150 .f32) (v65 : Vec Ideal S300x150 .f32)
    (v68 : Vec Ideal S1x150 .f32) (v72 : Vec Ideal S150x150 .f32) (v76 : Vec Ideal S1x150 .f32) : FVec Ideal S16x150 .f32 :=
  Gen.k6_pay1 (Gen.k6_pay5 v2) (Gen.k6_pay6 v0 v2 v4 v11 v15 v20 v23)
    (Gen.k6_pay8 (Gen.k6_pay5 v2) (Gen.k6_pay7 v0 v33) v36 v40 v44) (Gen.k6_pay10 (Gen.k6_pay4 v0) v65 v68) v72 v76

section
variable (v0 : Vec Ideal S16x300 .f32) (v2 v4 : Vec Ideal S16x4x150 .f32) (v11 : Vec Ideal S150x150 .f32)
    (v15 : Vec Ideal S1x150 .f32) (v20 : Vec Ideal S300x150 .f32) (v23 : Vec Ideal S1x150 .f32)
    (v33 : Vec Ideal S300x150 .f32) (v36 : Vec Ideal S1x150 .f32) (v40 : Vec Ideal S150x150 .f32)
    (v44 : Vec Ideal S1x150 .f32) (v49 : Vec Ideal S300x150 .f32) (v52 : Vec Ideal S1x150 .f32)
    (v56 : Vec Ideal S150x150 .f32) (v60 : Vec Ideal S1x150 .f32) (v65 : Vec Ideal S300x150 .f32)
    (v68 : Vec Ideal S1x150 .f32) (v72 : Vec Ideal S150x150 .f32) (v76 : Vec Ideal S1x150 .f32)
  (r : Fin 16) (p : Fin 150)

/-- The children's memory cells weighted by their forget gates, summed, at (r, p). -/
theorem forget_sum6 : Gen.k6_pay6 v0 v2 v4 v11 v15 v20 v23 (ix2 r p)
    = ∑ k : Fin 4, Ideal.logistic (((∑ j : Fin 150, tile3 v2 r k j * mat v11 j p) + row v15 p)
        + (lin (tile2 v0) (mat v20) r p + row v23 p)) * tile3 v4 r k p := by
  unfold Gen.k6_pay6 Gen.k6_pay3 Gen.k6_pay4
  refine (Tree.Lib.sumMiddle_apply _ _ _ _ r p).trans (Finset.sum_congr rfl fun k _ => ?_)
  refine Tree.Lib.mulf_at (Tree.Lib.logistic_at (Tree.Lib.addf_at (Tree.Lib.addf_at ?_ ?_) ?_)) ?_
  · exact Tree.Lib.childW_apply 64 rfl v2 v11 _ _ _ _ none r k p
  · exact Tree.Lib.biasRow3_apply v15 _ _ _ r k p
  · exact (Tree.Lib.spreadMiddle_apply _ _ _ r k p).trans
      (Tree.Lib.addf_at (Tree.Lib.xW_apply v0 v20 _ _ none r p) (Tree.Lib.biasRow_apply v23 _ _ r p))
  · exact congrFun (shapeCast_self v4 _) (ix3 r k p)

/-- The input gate at (r, p): σ(((x · W_ix + b_ix) + s · W_ih) + b_ih). -/
theorem gate_i6 : Gen.k6_pay8 (Gen.k6_pay5 v2) (Gen.k6_pay7 v0 v33) v36 v40 v44 (ix2 r p)
    = Ideal.logistic (lin (tile2 v0) (mat v33) r p + row v36 p + lin (hsum (tile3 v2)) (mat v40) r p + row v44 p) := by
  unfold Gen.k6_pay8 Gen.k6_pay7 Gen.k6_pay5 Gen.k6_pay4 Gen.k6_pay3
  exact Tree.Lib.logistic_at (Tree.Lib.addf_at (Tree.Lib.addf_at (Tree.Lib.addf_at
    (Tree.Lib.xW_apply v0 v33 _ _ none r p) (Tree.Lib.biasRow_apply v36 _ _ r p))
    (Tree.Lib.hsumW_apply v2 v40 _ _ _ _ _ none r p)) (Tree.Lib.biasRow_apply v44 _ _ r p))

/-- The output gate at (r, p): σ(((x · W_ox + b_ox) + s · W_oh) + b_oh). -/
theorem gate_o6 : Gen.k6_pay9 (Gen.k6_pay4 v0) (Gen.k6_pay5 v2) v49 v52 v56 v60 (ix2 r p)
    = Ideal.logistic (lin (tile2 v0) (mat v49) r p + row v52 p + lin (hsum (tile3 v2)) (mat v56) r p + row v60 p) := by
  unfold Gen.k6_pay9 Gen.k6_pay5 Gen.k6_pay4 Gen.k6_pay3
  exact Tree.Lib.logistic_at (Tree.Lib.addf_at (Tree.Lib.addf_at (Tree.Lib.addf_at
    (Tree.Lib.xW_apply v0 v49 _ _ none r p) (Tree.Lib.biasRow_apply v52 _ _ r p))
    (Tree.Lib.hsumW_apply v2 v56 _ _ _ _ _ none r p)) (Tree.Lib.biasRow_apply v60 _ _ r p))

/-- The input part of the update at (r, p): x · W_ux + b_ux. -/
theorem update_x6 : Gen.k6_pay10 (Gen.k6_pay4 v0) v65 v68 (ix2 r p) = lin (tile2 v0) (mat v65) r p + row v68 p := by
  unfold Gen.k6_pay10 Gen.k6_pay4
  exact Tree.Lib.addf_at (Tree.Lib.xW_apply v0 v65 _ _ none r p) (Tree.Lib.biasRow_apply v68 _ _ r p)

/-- The stored memory cell at (r, p) is the recurrence's memory cell of an internal node. -/
theorem cTerm6_apply : cTerm6 v0 v2 v4 v11 v15 v20 v23 v33 v36 v40 v44 v49 v52 v56 v60 v65 v68 v72 v76 (ix2 r p)
    = intC (paramsOfRows v33 v36 v20 v23 v65 v68 v49 v52 v40 v44 v11 v15 v72 v76 v56 v60) (tile2 v0) (tile3 v2) (tile3 v4) r p := by
  unfold cTerm6 Gen.k6_pay1
  refine Tree.Lib.addf_at (Tree.Lib.mulf_at (gate_i6 v0 v2 v33 v36 v40 v44 r p)
    (Tree.Lib.tanh_at (Tree.Lib.addf_at (Tree.Lib.addf_at (update_x6 v0 v65 v68 r p) ?_)
      (Tree.Lib.biasRow_apply v76 _ _ r p)))) (forget_sum6 v0 v2 v4 v11 v15 v20 v23 r p)
  unfold Gen.k6_pay5 Gen.k6_pay3
  exact Tree.Lib.hsumW_apply v2 v72 _ _ _ _ _ none r p

/-- The stored hidden state at (r, p) is the recurrence's hidden state of an internal node. -/
theorem hTerm6_apply : hTerm6 v0 v2 v4 v11 v15 v20 v23 v33 v36 v40 v44 v49 v52 v56 v60 v65 v68 v72 v76 (ix2 r p)
    = intH (paramsOfRows v33 v36 v20 v23 v65 v68 v49 v52 v40 v44 v11 v15 v72 v76 v56 v60) (tile2 v0) (tile3 v2) (tile3 v4) r p := by
  unfold hTerm6 Gen.k6_pay2
  exact Tree.Lib.mulf_at (gate_o6 v0 v2 v49 v52 v56 v60 r p)
    (Tree.Lib.tanh_at (cTerm6_apply v0 v2 v4 v11 v15 v20 v23 v33 v36 v40 v44 v49 v52 v56 v60 v65 v68 v72 v76 r p))

end

end Cert.KernelIdeal.Pay

end
-- ==== Proof.KerArr6.lean ====
/-
  The level of 16 internal nodes: from the tiles the grid's points write back to the two whole arrays.

  The grid has 1 point; point t handles the tile of nodes 16·t … 16·t + 15. Its input blocks are rows
  16·t + r of the input matrix and of the children's two arrays, and the sixteen parameter arrays whole (their
  index maps are constantly 0). The recurrence at a node reads only that node's rows, so what the point writes at row r
  of its two output blocks is the recurrence's value at node 16·t + r of the level; the output blocks tile the two
  output arrays (node R lies in point R / 16's block), so after the last point each array holds the level's values.
-/
import proofs.«167239_j63453846831535_1_alg».proof.Proof.KIRegion6
import proofs.«167239_j63453846831535_1_alg».proof.Proof.KerPay6
import proofs.«167239_j63453846831535_1_alg».proof.Proof.TreeSpecArr
import proofs.«167239_j63453846831535_1_alg».proof.Proof.TreeLocal
import Idealize.ShloMosaic.Lib.Pipeline.Value

set_option maxRecDepth 16384

noncomputable section

namespace Cert.KernelIdeal.Tree

open Cert.KernelIdeal Cert.KernelIdeal.Gen
open Idealize.ShloMosaic Idealize.ShloMosaic.TcCoe Idealize.ShloMosaic.ValueIdx
open Idealize.SL.Sem
open Idealize.ShloMosaic.Pipeline (Dat)
open Cert.TreeSpec

variable (V : (c : Dev nD) → (b : Ref sig .tc) → Buf (Elt Ideal) ((c : Thread nD τ).loc b)) (c : Dev nD)

/-! ## The index maps over the grid -/

theorem idx6_0 : ∀ t : Fin cfg6.N, win6_0.index t 0 = t.val ∧ win6_0.index t 1 = 0 :=
  (by decide +kernel : ∀ t : Fin grid6.N, win6_0.index t 0 = t.val ∧ win6_0.index t 1 = 0)
theorem idx6_1 : ∀ t : Fin cfg6.N, win6_1.index t 0 = t.val ∧ win6_1.index t 1 = 0 ∧ win6_1.index t 2 = 0 :=
  (by decide +kernel : ∀ t : Fin grid6.N, win6_1.index t 0 = t.val ∧ win6_1.index t 1 = 0 ∧ win6_1.index t 2 = 0)
theorem idx6_2 : ∀ t : Fin cfg6.N, win6_2.index t 0 = t.val ∧ win6_2.index t 1 = 0 ∧ win6_2.index t 2 = 0 :=
  (by decide +kernel : ∀ t : Fin grid6.N, win6_2.index t 0 = t.val ∧ win6_2.index t 1 = 0 ∧ win6_2.index t 2 = 0)
theorem idx6_3 : ∀ t : Fin cfg6.N, win6_3.index t 0 = 0 ∧ win6_3.index t 1 = 0 :=
  (by decide +kernel : ∀ t : Fin grid6.N, win6_3.index t 0 = 0 ∧ win6_3.index t 1 = 0)
theorem idx6_4 : ∀ t : Fin cfg6.N, win6_4.index t 0 = 0 ∧ win6_4.index t 1 = 0 :=
  (by decide +kernel : ∀ t : Fin grid6.N, win6_4.index t 0 = 0 ∧ win6_4.index t 1 = 0)
theorem idx6_5 : ∀ t : Fin cfg6.N, win6_5.index t 0 = 0 ∧ win6_5.index t 1 = 0 :=
  (by decide +kernel : ∀ t : Fin grid6.N, win6_5.index t 0 = 0 ∧ win6_5.index t 1 = 0)
theorem idx6_6 : ∀ t : Fin cfg6.N, win6_6.index t 0 = 0 ∧ win6_6.index t 1 = 0 :=
  (by decide +kernel : ∀ t : Fin grid6.N, win6_6.index t 0 = 0 ∧ win6_6.index t 1 = 0)
theorem idx6_7 : ∀ t : Fin cfg6.N, win6_7.index t 0 = 0 ∧ win6_7.index t 1 = 0 :=
  (by decide +kernel : ∀ t : Fin grid6.N, win6_7.index t 0 = 0 ∧ win6_7.index t 1 = 0)
theorem idx6_8 : ∀ t : Fin cfg6.N, win6_8.index t 0 = 0 ∧ win6_8.index t 1 = 0 :=
  (by decide +kernel : ∀ t : Fin grid6.N, win6_8.index t 0 = 0 ∧ win6_8.index t 1 = 0)
theorem idx6_9 : ∀ t : Fin cfg6.N, win6_9.index t 0 = 0 ∧ win6_9.index t 1 = 0 :=
  (by decide +kernel : ∀ t : Fin grid6.N, win6_9.index t 0 = 0 ∧ win6_9.index t 1 = 0)
theorem idx6_10 : ∀ t : Fin cfg6.N, win6_10.index t 0 = 0 ∧ win6_10.index t 1 = 0 :=
  (by decide +kernel : ∀ t : Fin grid6.N, win6_10.index t 0 = 0 ∧ win6_10.index t 1 = 0)
theorem idx6_11 : ∀ t : Fin cfg6.N, win6_11.index t 0 = 0 ∧ win6_11.index t 1 = 0 :=
  (by decide +kernel : ∀ t : Fin grid6.N, win6_11.index t 0 = 0 ∧ win6_11.index t 1 = 0)
theorem idx6_12 : ∀ t : Fin cfg6.N, win6_12.index t 0 = 0 ∧ win6_12.index t 1 = 0 :=
  (by decide +kernel : ∀ t : Fin grid6.N, win6_12.index t 0 = 0 ∧ win6_12.index t 1 = 0)
theorem idx6_13 : ∀ t : Fin cfg6.N, win6_13.index t 0 = 0 ∧ win6_13.index t 1 = 0 :=
  (by decide +kernel : ∀ t : Fin grid6.N, win6_13.index t 0 = 0 ∧ win6_13.index t 1 = 0)
theorem idx6_14 : ∀ t : Fin cfg6.N, win6_14.index t 0 = 0 ∧ win6_14.index t 1 = 0 :=
  (by decide +kernel : ∀ t : Fin grid6.N, win6_14.index t 0 = 0 ∧ win6_14.index t 1 = 0)
theorem idx6_15 : ∀ t : Fin cfg6.N, win6_15.index t 0 = 0 ∧ win6_15.index t 1 = 0 :=
  (by decide +kernel : ∀ t : Fin grid6.N, win6_15.index t 0 = 0 ∧ win6_15.index t 1 = 0)
theorem idx6_16 : ∀ t : Fin cfg6.N, win6_16.index t 0 = 0 ∧ win6_16.index t 1 = 0 :=
  (by decide +kernel : ∀ t : Fin grid6.N, win6_16.index t 0 = 0 ∧ win6_16.index t 1 = 0)
theorem idx6_17 : ∀ t : Fin cfg6.N, win6_17.index t 0 = 0 ∧ win6_17.index t 1 = 0 :=
  (by decide +kernel : ∀ t : Fin grid6.N, win6_17.index t 0 = 0 ∧ win6_17.index t 1 = 0)
theorem idx6_18 : ∀ t : Fin cfg6.N, win6_18.index t 0 = 0 ∧ win6_18.index t 1 = 0 :=
  (by decide +kernel : ∀ t : Fin grid6.N, win6_18.index t 0 = 0 ∧ win6_18.index t 1 = 0)
theorem idx6_19 : ∀ t : Fin cfg6.N, win6_19.index t 0 = t.val ∧ win6_19.index t 1 = 0 :=
  (by decide +kernel : ∀ t : Fin grid6.N, win6_19.index t 0 = t.val ∧ win6_19.index t 1 = 0)
theorem idx6_20 : ∀ t : Fin cfg6.N, win6_20.index t 0 = t.val ∧ win6_20.index t 1 = 0 :=
  (by decide +kernel : ∀ t : Fin grid6.N, win6_20.index t 0 = t.val ∧ win6_20.index t 1 = 0)

/-! ## The input blocks as parts of their arrays -/

/-- Row r of the input tile at point t is row 16·t + r of the input matrix. -/
theorem blk6_0 (t : Fin cfg6.N) (r : Fin 16) (k : Fin 300) (R : Fin 16) (hR : R.val = t.val * 16 + r.val) :
    (iblk6 V c 0 t : S16x300.Idx → EReal) (ix2 r k) = (V c (Pipeline.arrRef spec6 0) : (⟨2, ![16, 300]⟩ : Shape).Idx → EReal) (ix2 R k) := by
  have hi := idx6_0 t
  unfold iblk6
  rw [View.read_apply]
  show V c (Pipeline.arrRef spec6 0) _ = V c (Pipeline.arrRef spec6 0) _
  congr 1
  funext a
  apply Fin.ext
  match a with
  | ⟨0, _⟩ => show win6_0.index t 0 * 16 + 1 * r.val = R.val; rw [hi.1, hR]; omega
  | ⟨1, _⟩ => show win6_0.index t 1 * 300 + 1 * k.val = k.val; rw [hi.2]; omega

/-- The children of node r of the tile at point t are those of node 16·t + r of the level (window 1). -/
theorem blk6_1 (t : Fin cfg6.N) (r : Fin 16) (k : Fin 4) (j : Fin 150) (R : Fin 16) (hR : R.val = t.val * 16 + r.val) :
    (iblk6 V c 1 t : S16x4x150.Idx → EReal) (ix3 r k j) = (V c (Pipeline.arrRef spec6 1) : (⟨3, ![16, 4, 150]⟩ : Shape).Idx → EReal) (ix3 R k j) := by
  have hi := idx6_1 t
  unfold iblk6
  rw [View.read_apply]
  show V c (Pipeline.arrRef spec6 1) _ = V c (Pipeline.arrRef spec6 1) _
  congr 1
  funext a
  apply Fin.ext
  match a with
  | ⟨0, _⟩ => show win6_1.index t 0 * 16 + 1 * r.val = R.val; rw [hi.1, hR]; omega
  | ⟨1, _⟩ => show win6_1.index t 1 * 4 + 1 * k.val = k.val; rw [hi.2.1]; omega
  | ⟨2, _⟩ => show win6_1.index t 2 * 150 + 1 * j.val = j.val; rw [hi.2.2]; omega

/-- The children of node r of the tile at point t are those of node 16·t + r of the level (window 2). -/
theorem blk6_2 (t : Fin cfg6.N) (r : Fin 16) (k : Fin 4) (j : Fin 150) (R : Fin 16) (hR : R.val = t.val * 16 + r.val) :
    (iblk6 V c 2 t : S16x4x150.Idx → EReal) (ix3 r k j) = (V c (Pipeline.arrRef spec6 2) : (⟨3, ![16, 4, 150]⟩ : Shape).Idx → EReal) (ix3 R k j) := by
  have hi := idx6_2 t
  unfold iblk6
  rw [View.read_apply]
  show V c (Pipeline.arrRef spec6 2) _ = V c (Pipeline.arrRef spec6 2) _
  congr 1
  funext a
  apply Fin.ext
  match a with
  | ⟨0, _⟩ => show win6_2.index t 0 * 16 + 1 * r.val = R.val; rw [hi.1, hR]; omega
  | ⟨1, _⟩ => show win6_2.index t 1 * 4 + 1 * k.val = k.val; rw [hi.2.1]; omega
  | ⟨2, _⟩ => show win6_2.index t 2 * 150 + 1 * j.val = j.val; rw [hi.2.2]; omega

/-- Window 3's block at every point is its whole array. -/
theorem blk6_3 (t : Fin cfg6.N) (y : S300x150.Idx) :
    (iblk6 V c 3 t : S300x150.Idx → EReal) y = (V c (Pipeline.arrRef spec6 3) : S300x150.Idx → EReal) y := by
  have hi := idx6_3 t
  unfold iblk6
  rw [View.read_apply]
  show V c (Pipeline.arrRef spec6 3) _ = V c (Pipeline.arrRef spec6 3) _
  congr 1
  funext a
  apply Fin.ext
  match a with
  | ⟨0, _⟩ => show win6_3.index t 0 * 300 + 1 * (y 0).val = (y 0).val; rw [hi.1]; omega
  | ⟨1, _⟩ => show win6_3.index t 1 * 150 + 1 * (y 1).val = (y 1).val; rw [hi.2]; omega

/-- Window 4's block at every point is its whole array. -/
theorem blk6_4 (t : Fin cfg6.N) (y : S1x150.Idx) :
    (iblk6 V c 4 t : S1x150.Idx → EReal) y = (V c (Pipeline.arrRef spec6 4) : S1x150.Idx → EReal) y := by
  have hi := idx6_4 t
  unfold iblk6
  rw [View.read_apply]
  show V c (Pipeline.arrRef spec6 4) _ = V c (Pipeline.arrRef spec6 4) _
  congr 1
  funext a
  apply Fin.ext
  match a with
  | ⟨0, _⟩ => show win6_4.index t 0 * 1 + 1 * (y 0).val = (y 0).val; rw [hi.1]; omega
  | ⟨1, _⟩ => show win6_4.index t 1 * 150 + 1 * (y 1).val = (y 1).val; rw [hi.2]; omega

/-- Window 5's block at every point is its whole array. -/
theorem blk6_5 (t : Fin cfg6.N) (y : S300x150.Idx) :
    (iblk6 V c 5 t : S300x150.Idx → EReal) y = (V c (Pipeline.arrRef spec6 5) : S300x150.Idx → EReal) y := by
  have hi := idx6_5 t
  unfold iblk6
  rw [View.read_apply]
  show V c (Pipeline.arrRef spec6 5) _ = V c (Pipeline.arrRef spec6 5) _
  congr 1
  funext a
  apply Fin.ext
  match a with
  | ⟨0, _⟩ => show win6_5.index t 0 * 300 + 1 * (y 0).val = (y 0).val; rw [hi.1]; omega
  | ⟨1, _⟩ => show win6_5.index t 1 * 150 + 1 * (y 1).val = (y 1).val; rw [hi.2]; omega

/-- Window 6's block at every point is its whole array. -/
theorem blk6_6 (t : Fin cfg6.N) (y : S1x150.Idx) :
    (iblk6 V c 6 t : S1x150.Idx → EReal) y = (V c (Pipeline.arrRef spec6 6) : S1x150.Idx → EReal) y := by
  have hi := idx6_6 t
  unfold iblk6
  rw [View.read_apply]
  show V c (Pipeline.arrRef spec6 6) _ = V c (Pipeline.arrRef spec6 6) _
  congr 1
  funext a
  apply Fin.ext
  match a with
  | ⟨0, _⟩ => show win6_6.index t 0 * 1 + 1 * (y 0).val = (y 0).val; rw [hi.1]; omega
  | ⟨1, _⟩ => show win6_6.index t 1 * 150 + 1 * (y 1).val = (y 1).val; rw [hi.2]; omega

/-- Window 7's block at every point is its whole array. -/
theorem blk6_7 (t : Fin cfg6.N) (y : S300x150.Idx) :
    (iblk6 V c 7 t : S300x150.Idx → EReal) y = (V c (Pipeline.arrRef spec6 7) : S300x150.Idx → EReal) y := by
  have hi := idx6_7 t
  unfold iblk6
  rw [View.read_apply]
  show V c (Pipeline.arrRef spec6 7) _ = V c (Pipeline.arrRef spec6 7) _
  congr 1
  funext a
  apply Fin.ext
  match a with
  | ⟨0, _⟩ => show win6_7.index t 0 * 300 + 1 * (y 0).val = (y 0).val; rw [hi.1]; omega
  | ⟨1, _⟩ => show win6_7.index t 1 * 150 + 1 * (y 1).val = (y 1).val; rw [hi.2]; omega

/-- Window 8's block at every point is its whole array. -/
theorem blk6_8 (t : Fin cfg6.N) (y : S1x150.Idx) :
    (iblk6 V c 8 t : S1x150.Idx → EReal) y = (V c (Pipeline.arrRef spec6 8) : S1x150.Idx → EReal) y := by
  have hi := idx6_8 t
  unfold iblk6
  rw [View.read_apply]
  show V c (Pipeline.arrRef spec6 8) _ = V c (Pipeline.arrRef spec6 8) _
  congr 1
  funext a
  apply Fin.ext
  match a with
  | ⟨0, _⟩ => show win6_8.index t 0 * 1 + 1 * (y 0).val = (y 0).val; rw [hi.1]; omega
  | ⟨1, _⟩ => show win6_8.index t 1 * 150 + 1 * (y 1).val = (y 1).val; rw [hi.2]; omega

/-- Window 9's block at every point is its whole array. -/
theorem blk6_9 (t : Fin cfg6.N) (y : S300x150.Idx) :
    (iblk6 V c 9 t : S300x150.Idx → EReal) y = (V c (Pipeline.arrRef spec6 9) : S300x150.Idx → EReal) y := by
  have hi := idx6_9 t
  unfold iblk6
  rw [View.read_apply]
  show V c (Pipeline.arrRef spec6 9) _ = V c (Pipeline.arrRef spec6 9) _
  congr 1
  funext a
  apply Fin.ext
  match a with
  | ⟨0, _⟩ => show win6_9.index t 0 * 300 + 1 * (y 0).val = (y 0).val; rw [hi.1]; omega
  | ⟨1, _⟩ => show win6_9.index t 1 * 150 + 1 * (y 1).val = (y 1).val; rw [hi.2]; omega

/-- Window 10's block at every point is its whole array. -/
theorem blk6_10 (t : Fin cfg6.N) (y : S1x150.Idx) :
    (iblk6 V c 10 t : S1x150.Idx → EReal) y = (V c (Pipeline.arrRef spec6 10) : S1x150.Idx → EReal) y := by
  have hi := idx6_10 t
  unfold iblk6
  rw [View.read_apply]
  show V c (Pipeline.arrRef spec6 10) _ = V c (Pipeline.arrRef spec6 10) _
  congr 1
  funext a
  apply Fin.ext
  match a with
  | ⟨0, _⟩ => show win6_10.index t 0 * 1 + 1 * (y 0).val = (y 0).val; rw [hi.1]; omega
  | ⟨1, _⟩ => show win6_10.index t 1 * 150 + 1 * (y 1).val = (y 1).val; rw [hi.2]; omega

/-- Window 11's block at every point is its whole array. -/
theorem blk6_11 (t : Fin cfg6.N) (y : S150x150.Idx) :
    (iblk6 V c 11 t : S150x150.Idx → EReal) y = (V c (Pipeline.arrRef spec6 11) : S150x150.Idx → EReal) y := by
  have hi := idx6_11 t
  unfold iblk6
  rw [View.read_apply]
  show V c (Pipeline.arrRef spec6 11) _ = V c (Pipeline.arrRef spec6 11) _
  congr 1
  funext a
  apply Fin.ext
  match a with
  | ⟨0, _⟩ => show win6_11.index t 0 * 150 + 1 * (y 0).val = (y 0).val; rw [hi.1]; omega
  | ⟨1, _⟩ => show win6_11.index t 1 * 150 + 1 * (y 1).val = (y 1).val; rw [hi.2]; omega

/-- Window 12's block at every point is its whole array. -/
theorem blk6_12 (t : Fin cfg6.N) (y : S1x150.Idx) :
    (iblk6 V c 12 t : S1x150.Idx → EReal) y = (V c (Pipeline.arrRef spec6 12) : S1x150.Idx → EReal) y := by
  have hi := idx6_12 t
  unfold iblk6
  rw [View.read_apply]
  show V c (Pipeline.arrRef spec6 12) _ = V c (Pipeline.arrRef spec6 12) _
  congr 1
  funext a
  apply Fin.ext
  match a with
  | ⟨0, _⟩ => show win6_12.index t 0 * 1 + 1 * (y 0).val = (y 0).val; rw [hi.1]; omega
  | ⟨1, _⟩ => show win6_12.index t 1 * 150 + 1 * (y 1).val = (y 1).val; rw [hi.2]; omega

/-- Window 13's block at every point is its whole array. -/
theorem blk6_13 (t : Fin cfg6.N) (y : S150x150.Idx) :
    (iblk6 V c 13 t : S150x150.Idx → EReal) y = (V c (Pipeline.arrRef spec6 13) : S150x150.Idx → EReal) y := by
  have hi := idx6_13 t
  unfold iblk6
  rw [View.read_apply]
  show V c (Pipeline.arrRef spec6 13) _ = V c (Pipeline.arrRef spec6 13) _
  congr 1
  funext a
  apply Fin.ext
  match a with
  | ⟨0, _⟩ => show win6_13.index t 0 * 150 + 1 * (y 0).val = (y 0).val; rw [hi.1]; omega
  | ⟨1, _⟩ => show win6_13.index t 1 * 150 + 1 * (y 1).val = (y 1).val; rw [hi.2]; omega

/-- Window 14's block at every point is its whole array. -/
theorem blk6_14 (t : Fin cfg6.N) (y : S1x150.Idx) :
    (iblk6 V c 14 t : S1x150.Idx → EReal) y = (V c (Pipeline.arrRef spec6 14) : S1x150.Idx → EReal) y := by
  have hi := idx6_14 t
  unfold iblk6
  rw [View.read_apply]
  show V c (Pipeline.arrRef spec6 14) _ = V c (Pipeline.arrRef spec6 14) _
  congr 1
  funext a
  apply Fin.ext
  match a with
  | ⟨0, _⟩ => show win6_14.index t 0 * 1 + 1 * (y 0).val = (y 0).val; rw [hi.1]; omega
  | ⟨1, _⟩ => show win6_14.index t 1 * 150 + 1 * (y 1).val = (y 1).val; rw [hi.2]; omega

/-- Window 15's block at every point is its whole array. -/
theorem blk6_15 (t : Fin cfg6.N) (y : S150x150.Idx) :
    (iblk6 V c 15 t : S150x150.Idx → EReal) y = (V c (Pipeline.arrRef spec6 15) : S150x150.Idx → EReal) y := by
  have hi := idx6_15 t
  unfold iblk6
  rw [View.read_apply]
  show V c (Pipeline.arrRef spec6 15) _ = V c (Pipeline.arrRef spec6 15) _
  congr 1
  funext a
  apply Fin.ext
  match a with
  | ⟨0, _⟩ => show win6_15.index t 0 * 150 + 1 * (y 0).val = (y 0).val; rw [hi.1]; omega
  | ⟨1, _⟩ => show win6_15.index t 1 * 150 + 1 * (y 1).val = (y 1).val; rw [hi.2]; omega

/-- Window 16's block at every point is its whole array. -/
theorem blk6_16 (t : Fin cfg6.N) (y : S1x150.Idx) :
    (iblk6 V c 16 t : S1x150.Idx → EReal) y = (V c (Pipeline.arrRef spec6 16) : S1x150.Idx → EReal) y := by
  have hi := idx6_16 t
  unfold iblk6
  rw [View.read_apply]
  show V c (Pipeline.arrRef spec6 16) _ = V c (Pipeline.arrRef spec6 16) _
  congr 1
  funext a
  apply Fin.ext
  match a with
  | ⟨0, _⟩ => show win6_16.index t 0 * 1 + 1 * (y 0).val = (y 0).val; rw [hi.1]; omega
  | ⟨1, _⟩ => show win6_16.index t 1 * 150 + 1 * (y 1).val = (y 1).val; rw [hi.2]; omega

/-- Window 17's block at every point is its whole array. -/
theorem blk6_17 (t : Fin cfg6.N) (y : S150x150.Idx) :
    (iblk6 V c 17 t : S150x150.Idx → EReal) y = (V c (Pipeline.arrRef spec6 17) : S150x150.Idx → EReal) y := by
  have hi := idx6_17 t
  unfold iblk6
  rw [View.read_apply]
  show V c (Pipeline.arrRef spec6 17) _ = V c (Pipeline.arrRef spec6 17) _
  congr 1
  funext a
  apply Fin.ext
  match a with
  | ⟨0, _⟩ => show win6_17.index t 0 * 150 + 1 * (y 0).val = (y 0).val; rw [hi.1]; omega
  | ⟨1, _⟩ => show win6_17.index t 1 * 150 + 1 * (y 1).val = (y 1).val; rw [hi.2]; omega

/-- Window 18's block at every point is its whole array. -/
theorem blk6_18 (t : Fin cfg6.N) (y : S1x150.Idx) :
    (iblk6 V c 18 t : S1x150.Idx → EReal) y = (V c (Pipeline.arrRef spec6 18) : S1x150.Idx → EReal) y := by
  have hi := idx6_18 t
  unfold iblk6
  rw [View.read_apply]
  show V c (Pipeline.arrRef spec6 18) _ = V c (Pipeline.arrRef spec6 18) _
  congr 1
  funext a
  apply Fin.ext
  match a with
  | ⟨0, _⟩ => show win6_18.index t 0 * 1 + 1 * (y 0).val = (y 0).val; rw [hi.1]; omega
  | ⟨1, _⟩ => show win6_18.index t 1 * 150 + 1 * (y 1).val = (y 1).val; rw [hi.2]; omega

/-! ## What the body leaves in the output blocks -/

/-- The hidden-state block after the body is the tile's stored hidden state, as a function of the input blocks. -/
theorem out6_19_eq (x0 : Vec Ideal S16x300 .f32) (x1 : Vec Ideal S16x4x150 .f32) (x2 : Vec Ideal S16x4x150 .f32) (x3 : Vec Ideal S300x150 .f32) (x4 : Vec Ideal S1x150 .f32) (x5 : Vec Ideal S300x150 .f32) (x6 : Vec Ideal S1x150 .f32) (x7 : Vec Ideal S300x150 .f32) (x8 : Vec Ideal S1x150 .f32) (x9 : Vec Ideal S300x150 .f32) (x10 : Vec Ideal S1x150 .f32) (x11 : Vec Ideal S150x150 .f32) (x12 : Vec Ideal S1x150 .f32) (x13 : Vec Ideal S150x150 .f32) (x14 : Vec Ideal S1x150 .f32) (x15 : Vec Ideal S150x150 .f32) (x16 : Vec Ideal S1x150 .f32) (x17 : Vec Ideal S150x150 .f32) (x18 : Vec Ideal S1x150 .f32) :
    out6_19 x0 x1 x2 x3 x4 x5 x6 x7 x8 x9 x10 x11 x12 x13 x14 x15 x16 x17 x18 = Pay.hTerm6 x0 x1 x2 x13 x14 x5 x6 x3 x4 x11 x12 x9 x10 x17 x18 x7 x8 x15 x16 := by
  unfold out6_19
  rw [View.canon_unit_zero zero_off2]
  simp only [View.ld_unit_zero (S := S16x300) zero_off2, View.ld_unit_zero (S := S16x4x150) zero_off3, View.ld_unit_zero (S := S300x150) zero_off2, View.ld_unit_zero (S := S1x150) zero_off2, View.ld_unit_zero (S := S150x150) zero_off2]
  rfl

/-- The memory-cell block after the body is the tile's stored memory cell, as a function of the input blocks. -/
theorem out6_20_eq (x0 : Vec Ideal S16x300 .f32) (x1 : Vec Ideal S16x4x150 .f32) (x2 : Vec Ideal S16x4x150 .f32) (x3 : Vec Ideal S300x150 .f32) (x4 : Vec Ideal S1x150 .f32) (x5 : Vec Ideal S300x150 .f32) (x6 : Vec Ideal S1x150 .f32) (x7 : Vec Ideal S300x150 .f32) (x8 : Vec Ideal S1x150 .f32) (x9 : Vec Ideal S300x150 .f32) (x10 : Vec Ideal S1x150 .f32) (x11 : Vec Ideal S150x150 .f32) (x12 : Vec Ideal S1x150 .f32) (x13 : Vec Ideal S150x150 .f32) (x14 : Vec Ideal S1x150 .f32) (x15 : Vec Ideal S150x150 .f32) (x16 : Vec Ideal S1x150 .f32) (x17 : Vec Ideal S150x150 .f32) (x18 : Vec Ideal S1x150 .f32) :
    out6_20 x0 x1 x2 x3 x4 x5 x6 x7 x8 x9 x10 x11 x12 x13 x14 x15 x16 x17 x18 = Pay.cTerm6 x0 x1 x2 x13 x14 x5 x6 x3 x4 x11 x12 x9 x10 x17 x18 x7 x8 x15 x16 := by
  unfold out6_20
  rw [View.canon_unit_zero zero_off2]
  simp only [View.ld_unit_zero (S := S16x300) zero_off2, View.ld_unit_zero (S := S16x4x150) zero_off3, View.ld_unit_zero (S := S300x150) zero_off2, View.ld_unit_zero (S := S1x150) zero_off2, View.ld_unit_zero (S := S150x150) zero_off2]
  rfl

section
variable (P : Params) (X : Fin 16 → Fin 300 → EReal) (CH CC : Fin 16 → Fin 4 → Fin 150 → EReal)

/-- The parameter blocks at any point are the parameters. -/
theorem params6
    (h3 : ∀ k p, (V c (Pipeline.arrRef spec6 3) : S300x150.Idx → EReal) (ix2 k p) = P.Wix k p)
    (h4 : ∀ p, (V c (Pipeline.arrRef spec6 4) : S1x150.Idx → EReal) (ix2 0 p) = P.bix p)
    (h5 : ∀ k p, (V c (Pipeline.arrRef spec6 5) : S300x150.Idx → EReal) (ix2 k p) = P.Wfx k p)
    (h6 : ∀ p, (V c (Pipeline.arrRef spec6 6) : S1x150.Idx → EReal) (ix2 0 p) = P.bfx p)
    (h7 : ∀ k p, (V c (Pipeline.arrRef spec6 7) : S300x150.Idx → EReal) (ix2 k p) = P.Wux k p)
    (h8 : ∀ p, (V c (Pipeline.arrRef spec6 8) : S1x150.Idx → EReal) (ix2 0 p) = P.bux p)
    (h9 : ∀ k p, (V c (Pipeline.arrRef spec6 9) : S300x150.Idx → EReal) (ix2 k p) = P.Wox k p)
    (h10 : ∀ p, (V c (Pipeline.arrRef spec6 10) : S1x150.Idx → EReal) (ix2 0 p) = P.box p)
    (h11 : ∀ k p, (V c (Pipeline.arrRef spec6 11) : S150x150.Idx → EReal) (ix2 k p) = P.Wih k p)
    (h12 : ∀ p, (V c (Pipeline.arrRef spec6 12) : S1x150.Idx → EReal) (ix2 0 p) = P.bih p)
    (h13 : ∀ k p, (V c (Pipeline.arrRef spec6 13) : S150x150.Idx → EReal) (ix2 k p) = P.Wfh k p)
    (h14 : ∀ p, (V c (Pipeline.arrRef spec6 14) : S1x150.Idx → EReal) (ix2 0 p) = P.bfh p)
    (h15 : ∀ k p, (V c (Pipeline.arrRef spec6 15) : S150x150.Idx → EReal) (ix2 k p) = P.Wuh k p)
    (h16 : ∀ p, (V c (Pipeline.arrRef spec6 16) : S1x150.Idx → EReal) (ix2 0 p) = P.buh p)
    (h17 : ∀ k p, (V c (Pipeline.arrRef spec6 17) : S150x150.Idx → EReal) (ix2 k p) = P.Woh k p)
    (h18 : ∀ p, (V c (Pipeline.arrRef spec6 18) : S1x150.Idx → EReal) (ix2 0 p) = P.boh p)
    (t : Fin cfg6.N) :
    paramsOfRows (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t) (iblk6 V c 14 t) (iblk6 V c 15 t) (iblk6 V c 16 t) (iblk6 V c 17 t) (iblk6 V c 18 t) = P :=
  Params.eq_of_fields P
    (funext fun k => funext fun p => (blk6_3 V c t (ix2 k p)).trans (h3 k p))
    (funext fun p => (blk6_4 V c t (ix2 0 p)).trans (h4 p))
    (funext fun k => funext fun p => (blk6_5 V c t (ix2 k p)).trans (h5 k p))
    (funext fun p => (blk6_6 V c t (ix2 0 p)).trans (h6 p))
    (funext fun k => funext fun p => (blk6_7 V c t (ix2 k p)).trans (h7 k p))
    (funext fun p => (blk6_8 V c t (ix2 0 p)).trans (h8 p))
    (funext fun k => funext fun p => (blk6_9 V c t (ix2 k p)).trans (h9 k p))
    (funext fun p => (blk6_10 V c t (ix2 0 p)).trans (h10 p))
    (funext fun k => funext fun p => (blk6_11 V c t (ix2 k p)).trans (h11 k p))
    (funext fun p => (blk6_12 V c t (ix2 0 p)).trans (h12 p))
    (funext fun k => funext fun p => (blk6_13 V c t (ix2 k p)).trans (h13 k p))
    (funext fun p => (blk6_14 V c t (ix2 0 p)).trans (h14 p))
    (funext fun k => funext fun p => (blk6_15 V c t (ix2 k p)).trans (h15 k p))
    (funext fun p => (blk6_16 V c t (ix2 0 p)).trans (h16 p))
    (funext fun k => funext fun p => (blk6_17 V c t (ix2 k p)).trans (h17 k p))
    (funext fun p => (blk6_18 V c t (ix2 0 p)).trans (h18 p))

/-- Row r of the hidden-state block at point t is the hidden state of node 16·t + r. -/
theorem tile6_19
    (h0 : ∀ r k, (V c (Pipeline.arrRef spec6 0) : (⟨2, ![16, 300]⟩ : Shape).Idx → EReal) (ix2 r k) = X r k)
    (h1 : ∀ r k j, (V c (Pipeline.arrRef spec6 1) : (⟨3, ![16, 4, 150]⟩ : Shape).Idx → EReal) (ix3 r k j) = CH r k j)
    (h2 : ∀ r k j, (V c (Pipeline.arrRef spec6 2) : (⟨3, ![16, 4, 150]⟩ : Shape).Idx → EReal) (ix3 r k j) = CC r k j)
    (h3 : ∀ k p, (V c (Pipeline.arrRef spec6 3) : S300x150.Idx → EReal) (ix2 k p) = P.Wix k p)
    (h4 : ∀ p, (V c (Pipeline.arrRef spec6 4) : S1x150.Idx → EReal) (ix2 0 p) = P.bix p)
    (h5 : ∀ k p, (V c (Pipeline.arrRef spec6 5) : S300x150.Idx → EReal) (ix2 k p) = P.Wfx k p)
    (h6 : ∀ p, (V c (Pipeline.arrRef spec6 6) : S1x150.Idx → EReal) (ix2 0 p) = P.bfx p)
    (h7 : ∀ k p, (V c (Pipeline.arrRef spec6 7) : S300x150.Idx → EReal) (ix2 k p) = P.Wux k p)
    (h8 : ∀ p, (V c (Pipeline.arrRef spec6 8) : S1x150.Idx → EReal) (ix2 0 p) = P.bux p)
    (h9 : ∀ k p, (V c (Pipeline.arrRef spec6 9) : S300x150.Idx → EReal) (ix2 k p) = P.Wox k p)
    (h10 : ∀ p, (V c (Pipeline.arrRef spec6 10) : S1x150.Idx → EReal) (ix2 0 p) = P.box p)
    (h11 : ∀ k p, (V c (Pipeline.arrRef spec6 11) : S150x150.Idx → EReal) (ix2 k p) = P.Wih k p)
    (h12 : ∀ p, (V c (Pipeline.arrRef spec6 12) : S1x150.Idx → EReal) (ix2 0 p) = P.bih p)
    (h13 : ∀ k p, (V c (Pipeline.arrRef spec6 13) : S150x150.Idx → EReal) (ix2 k p) = P.Wfh k p)
    (h14 : ∀ p, (V c (Pipeline.arrRef spec6 14) : S1x150.Idx → EReal) (ix2 0 p) = P.bfh p)
    (h15 : ∀ k p, (V c (Pipeline.arrRef spec6 15) : S150x150.Idx → EReal) (ix2 k p) = P.Wuh k p)
    (h16 : ∀ p, (V c (Pipeline.arrRef spec6 16) : S1x150.Idx → EReal) (ix2 0 p) = P.buh p)
    (h17 : ∀ k p, (V c (Pipeline.arrRef spec6 17) : S150x150.Idx → EReal) (ix2 k p) = P.Woh k p)
    (h18 : ∀ p, (V c (Pipeline.arrRef spec6 18) : S1x150.Idx → EReal) (ix2 0 p) = P.boh p)
    (t : Fin cfg6.N) (r : Fin 16) (p : Fin 150) (R : Fin 16) (hR : R.val = t.val * 16 + r.val) :
    ((dat6 V c).after 19 t : S16x150.Idx → EReal) (ix2 r p) = intH P X CH CC R p := by
  rw [after6_19, out6_19_eq]
  refine (Pay.hTerm6_apply (iblk6 V c 0 t) (iblk6 V c 1 t) (iblk6 V c 2 t) (iblk6 V c 13 t) (iblk6 V c 14 t) (iblk6 V c 5 t) (iblk6 V c 6 t) (iblk6 V c 3 t) (iblk6 V c 4 t) (iblk6 V c 11 t) (iblk6 V c 12 t) (iblk6 V c 9 t) (iblk6 V c 10 t) (iblk6 V c 17 t) (iblk6 V c 18 t) (iblk6 V c 7 t) (iblk6 V c 8 t) (iblk6 V c 15 t) (iblk6 V c 16 t) r p).trans ?_
  exact intH_local (params6 V c P h3 h4 h5 h6 h7 h8 h9 h10 h11 h12 h13 h14 h15 h16 h17 h18 t)
    (funext fun k => (blk6_0 V c t r k R hR).trans (h0 R k))
    (funext fun k => funext fun j => (blk6_1 V c t r k j R hR).trans (h1 R k j))
    (funext fun k => funext fun j => (blk6_2 V c t r k j R hR).trans (h2 R k j)) p

/-- Row r of the memory-cell block at point t is the memory cell of node 16·t + r. -/
theorem tile6_20
    (h0 : ∀ r k, (V c (Pipeline.arrRef spec6 0) : (⟨2, ![16, 300]⟩ : Shape).Idx → EReal) (ix2 r k) = X r k)
    (h1 : ∀ r k j, (V c (Pipeline.arrRef spec6 1) : (⟨3, ![16, 4, 150]⟩ : Shape).Idx → EReal) (ix3 r k j) = CH r k j)
    (h2 : ∀ r k j, (V c (Pipeline.arrRef spec6 2) : (⟨3, ![16, 4, 150]⟩ : Shape).Idx → EReal) (ix3 r k j) = CC r k j)
    (h3 : ∀ k p, (V c (Pipeline.arrRef spec6 3) : S300x150.Idx → EReal) (ix2 k p) = P.Wix k p)
    (h4 : ∀ p, (V c (Pipeline.arrRef spec6 4) : S1x150.Idx → EReal) (ix2 0 p) = P.bix p)
    (h5 : ∀ k p, (V c (Pipeline.arrRef spec6 5) : S300x150.Idx → EReal) (ix2 k p) = P.Wfx k p)
    (h6 : ∀ p, (V c (Pipeline.arrRef spec6 6) : S1x150.Idx → EReal) (ix2 0 p) = P.bfx p)
    (h7 : ∀ k p, (V c (Pipeline.arrRef spec6 7) : S300x150.Idx → EReal) (ix2 k p) = P.Wux k p)
    (h8 : ∀ p, (V c (Pipeline.arrRef spec6 8) : S1x150.Idx → EReal) (ix2 0 p) = P.bux p)
    (h9 : ∀ k p, (V c (Pipeline.arrRef spec6 9) : S300x150.Idx → EReal) (ix2 k p) = P.Wox k p)
    (h10 : ∀ p, (V c (Pipeline.arrRef spec6 10) : S1x150.Idx → EReal) (ix2 0 p) = P.box p)
    (h11 : ∀ k p, (V c (Pipeline.arrRef spec6 11) : S150x150.Idx → EReal) (ix2 k p) = P.Wih k p)
    (h12 : ∀ p, (V c (Pipeline.arrRef spec6 12) : S1x150.Idx → EReal) (ix2 0 p) = P.bih p)
    (h13 : ∀ k p, (V c (Pipeline.arrRef spec6 13) : S150x150.Idx → EReal) (ix2 k p) = P.Wfh k p)
    (h14 : ∀ p, (V c (Pipeline.arrRef spec6 14) : S1x150.Idx → EReal) (ix2 0 p) = P.bfh p)
    (h15 : ∀ k p, (V c (Pipeline.arrRef spec6 15) : S150x150.Idx → EReal) (ix2 k p) = P.Wuh k p)
    (h16 : ∀ p, (V c (Pipeline.arrRef spec6 16) : S1x150.Idx → EReal) (ix2 0 p) = P.buh p)
    (h17 : ∀ k p, (V c (Pipeline.arrRef spec6 17) : S150x150.Idx → EReal) (ix2 k p) = P.Woh k p)
    (h18 : ∀ p, (V c (Pipeline.arrRef spec6 18) : S1x150.Idx → EReal) (ix2 0 p) = P.boh p)
    (t : Fin cfg6.N) (r : Fin 16) (p : Fin 150) (R : Fin 16) (hR : R.val = t.val * 16 + r.val) :
    ((dat6 V c).after 20 t : S16x150.Idx → EReal) (ix2 r p) = intC P X CH CC R p := by
  rw [after6_20, out6_20_eq]
  refine (Pay.cTerm6_apply (iblk6 V c 0 t) (iblk6 V c 1 t) (iblk6 V c 2 t) (iblk6 V c 13 t) (iblk6 V c 14 t) (iblk6 V c 5 t) (iblk6 V c 6 t) (iblk6 V c 3 t) (iblk6 V c 4 t) (iblk6 V c 11 t) (iblk6 V c 12 t) (iblk6 V c 9 t) (iblk6 V c 10 t) (iblk6 V c 17 t) (iblk6 V c 18 t) (iblk6 V c 7 t) (iblk6 V c 8 t) (iblk6 V c 15 t) (iblk6 V c 16 t) r p).trans ?_
  exact intC_local (params6 V c P h3 h4 h5 h6 h7 h8 h9 h10 h11 h12 h13 h14 h15 h16 h17 h18 t)
    (funext fun k => (blk6_0 V c t r k R hR).trans (h0 R k))
    (funext fun k => funext fun j => (blk6_1 V c t r k j R hR).trans (h1 R k j))
    (funext fun k => funext fun j => (blk6_2 V c t r k j R hR).trans (h2 R k j)) p

/-- Entry (r, p) of window 19's block at point t sits at (16·t + r, p) of its array. -/
theorem emb6_19 (t : Fin cfg6.N) (r : Fin 16) (p : Fin 150) (hR : t.val * 16 + r.val < 16) :
    ((cfg6.win 19).blk t).view.emb (ix2 r p) = (ix2 ⟨t.val * 16 + r.val, hR⟩ p : (⟨2, ![16, 150]⟩ : Shape).Idx) := by
  have hi := idx6_19 t
  funext a
  apply Fin.ext
  match a with
  | ⟨0, _⟩ => show win6_19.index t 0 * 16 + 1 * r.val = t.val * 16 + r.val; rw [hi.1]; omega
  | ⟨1, _⟩ => show win6_19.index t 1 * 150 + 1 * p.val = p.val; rw [hi.2]; omega

/-- What point t writes back through window 19 is its block of the level's values. -/
theorem flushed6_19
    (h0 : ∀ r k, (V c (Pipeline.arrRef spec6 0) : (⟨2, ![16, 300]⟩ : Shape).Idx → EReal) (ix2 r k) = X r k)
    (h1 : ∀ r k j, (V c (Pipeline.arrRef spec6 1) : (⟨3, ![16, 4, 150]⟩ : Shape).Idx → EReal) (ix3 r k j) = CH r k j)
    (h2 : ∀ r k j, (V c (Pipeline.arrRef spec6 2) : (⟨3, ![16, 4, 150]⟩ : Shape).Idx → EReal) (ix3 r k j) = CC r k j)
    (h3 : ∀ k p, (V c (Pipeline.arrRef spec6 3) : S300x150.Idx → EReal) (ix2 k p) = P.Wix k p)
    (h4 : ∀ p, (V c (Pipeline.arrRef spec6 4) : S1x150.Idx → EReal) (ix2 0 p) = P.bix p)
    (h5 : ∀ k p, (V c (Pipeline.arrRef spec6 5) : S300x150.Idx → EReal) (ix2 k p) = P.Wfx k p)
    (h6 : ∀ p, (V c (Pipeline.arrRef spec6 6) : S1x150.Idx → EReal) (ix2 0 p) = P.bfx p)
    (h7 : ∀ k p, (V c (Pipeline.arrRef spec6 7) : S300x150.Idx → EReal) (ix2 k p) = P.Wux k p)
    (h8 : ∀ p, (V c (Pipeline.arrRef spec6 8) : S1x150.Idx → EReal) (ix2 0 p) = P.bux p)
    (h9 : ∀ k p, (V c (Pipeline.arrRef spec6 9) : S300x150.Idx → EReal) (ix2 k p) = P.Wox k p)
    (h10 : ∀ p, (V c (Pipeline.arrRef spec6 10) : S1x150.Idx → EReal) (ix2 0 p) = P.box p)
    (h11 : ∀ k p, (V c (Pipeline.arrRef spec6 11) : S150x150.Idx → EReal) (ix2 k p) = P.Wih k p)
    (h12 : ∀ p, (V c (Pipeline.arrRef spec6 12) : S1x150.Idx → EReal) (ix2 0 p) = P.bih p)
    (h13 : ∀ k p, (V c (Pipeline.arrRef spec6 13) : S150x150.Idx → EReal) (ix2 k p) = P.Wfh k p)
    (h14 : ∀ p, (V c (Pipeline.arrRef spec6 14) : S1x150.Idx → EReal) (ix2 0 p) = P.bfh p)
    (h15 : ∀ k p, (V c (Pipeline.arrRef spec6 15) : S150x150.Idx → EReal) (ix2 k p) = P.Wuh k p)
    (h16 : ∀ p, (V c (Pipeline.arrRef spec6 16) : S1x150.Idx → EReal) (ix2 0 p) = P.buh p)
    (h17 : ∀ k p, (V c (Pipeline.arrRef spec6 17) : S150x150.Idx → EReal) (ix2 k p) = P.Woh k p)
    (h18 : ∀ p, (V c (Pipeline.arrRef spec6 18) : S1x150.Idx → EReal) (ix2 0 p) = P.boh p)
    (t : Fin cfg6.N) :
    (dat6 V c).flushed 19 t
      = ((cfg6.win 19).blk t).view.read (Elt Ideal) (fun i : (⟨2, ![16, 150]⟩ : Shape).Idx => intH P X CH CC (i 0) (i 1)) := by
  refine forall_ix2 (n0 := 16) (n1 := 150) fun r p => ?_
  have ht : t.val < 1 := t.isLt
  have hR : t.val * 16 + r.val < 16 := by have := r.isLt; omega
  refine (tile6_19 V c P X CH CC h0 h1 h2 h3 h4 h5 h6 h7 h8 h9 h10 h11 h12 h13 h14 h15 h16 h17 h18 t r p ⟨_, hR⟩ rfl).trans ?_
  rw [View.read_apply]
  show _ = (fun i : (⟨2, ![16, 150]⟩ : Shape).Idx => intH P X CH CC (i 0) (i 1)) (((cfg6.win 19).blk t).view.emb (ix2 r p))
  rw [emb6_19 t r p hR]

/-- Window 19's blocks cover its array: node R lies in the block of point R / 16. -/
theorem covered6_19 (i : (⟨2, ![16, 150]⟩ : Shape).Idx) :
    ∃ t : Fin cfg6.N, (cfg6.win 19).flush t = true ∧ i ∈ ((cfg6.win 19).blk t).view.set := by
  have h0 : (i 0 : Nat) < 16 := (i 0).isLt
  have h1 : (i 1 : Nat) < 150 := (i 1).isLt
  have hlt : (i 0 : Nat) / 16 < 1 := by omega
  refine ⟨⟨(i 0 : Nat) / 16, hlt⟩, flush6_19 _, ?_⟩
  have hi := idx6_19 ⟨(i 0 : Nat) / 16, hlt⟩
  show i ∈ ((View.whole (Pipeline.arrRef spec6 19)).slice (win6_19.rect ⟨(i 0 : Nat) / 16, hlt⟩)).set
  rw [View.set_slice_whole, Rect.mem_set_unit]
  intro a
  match a with
  | ⟨0, _⟩ =>
    show win6_19.index ⟨(i 0 : Nat) / 16, hlt⟩ 0 * 16 ≤ (i 0 : Nat) ∧ (i 0 : Nat) < win6_19.index ⟨(i 0 : Nat) / 16, hlt⟩ 0 * 16 + 16
    rw [hi.1]
    show (i 0 : Nat) / 16 * 16 ≤ (i 0 : Nat) ∧ (i 0 : Nat) < (i 0 : Nat) / 16 * 16 + 16
    omega
  | ⟨1, _⟩ =>
    show win6_19.index ⟨(i 0 : Nat) / 16, hlt⟩ 1 * 150 ≤ (i 1 : Nat) ∧ (i 1 : Nat) < win6_19.index ⟨(i 0 : Nat) / 16, hlt⟩ 1 * 150 + 150
    rw [hi.2]
    omega

/-- Entry (r, p) of window 20's block at point t sits at (16·t + r, p) of its array. -/
theorem emb6_20 (t : Fin cfg6.N) (r : Fin 16) (p : Fin 150) (hR : t.val * 16 + r.val < 16) :
    ((cfg6.win 20).blk t).view.emb (ix2 r p) = (ix2 ⟨t.val * 16 + r.val, hR⟩ p : (⟨2, ![16, 150]⟩ : Shape).Idx) := by
  have hi := idx6_20 t
  funext a
  apply Fin.ext
  match a with
  | ⟨0, _⟩ => show win6_20.index t 0 * 16 + 1 * r.val = t.val * 16 + r.val; rw [hi.1]; omega
  | ⟨1, _⟩ => show win6_20.index t 1 * 150 + 1 * p.val = p.val; rw [hi.2]; omega

/-- What point t writes back through window 20 is its block of the level's values. -/
theorem flushed6_20
    (h0 : ∀ r k, (V c (Pipeline.arrRef spec6 0) : (⟨2, ![16, 300]⟩ : Shape).Idx → EReal) (ix2 r k) = X r k)
    (h1 : ∀ r k j, (V c (Pipeline.arrRef spec6 1) : (⟨3, ![16, 4, 150]⟩ : Shape).Idx → EReal) (ix3 r k j) = CH r k j)
    (h2 : ∀ r k j, (V c (Pipeline.arrRef spec6 2) : (⟨3, ![16, 4, 150]⟩ : Shape).Idx → EReal) (ix3 r k j) = CC r k j)
    (h3 : ∀ k p, (V c (Pipeline.arrRef spec6 3) : S300x150.Idx → EReal) (ix2 k p) = P.Wix k p)
    (h4 : ∀ p, (V c (Pipeline.arrRef spec6 4) : S1x150.Idx → EReal) (ix2 0 p) = P.bix p)
    (h5 : ∀ k p, (V c (Pipeline.arrRef spec6 5) : S300x150.Idx → EReal) (ix2 k p) = P.Wfx k p)
    (h6 : ∀ p, (V c (Pipeline.arrRef spec6 6) : S1x150.Idx → EReal) (ix2 0 p) = P.bfx p)
    (h7 : ∀ k p, (V c (Pipeline.arrRef spec6 7) : S300x150.Idx → EReal) (ix2 k p) = P.Wux k p)
    (h8 : ∀ p, (V c (Pipeline.arrRef spec6 8) : S1x150.Idx → EReal) (ix2 0 p) = P.bux p)
    (h9 : ∀ k p, (V c (Pipeline.arrRef spec6 9) : S300x150.Idx → EReal) (ix2 k p) = P.Wox k p)
    (h10 : ∀ p, (V c (Pipeline.arrRef spec6 10) : S1x150.Idx → EReal) (ix2 0 p) = P.box p)
    (h11 : ∀ k p, (V c (Pipeline.arrRef spec6 11) : S150x150.Idx → EReal) (ix2 k p) = P.Wih k p)
    (h12 : ∀ p, (V c (Pipeline.arrRef spec6 12) : S1x150.Idx → EReal) (ix2 0 p) = P.bih p)
    (h13 : ∀ k p, (V c (Pipeline.arrRef spec6 13) : S150x150.Idx → EReal) (ix2 k p) = P.Wfh k p)
    (h14 : ∀ p, (V c (Pipeline.arrRef spec6 14) : S1x150.Idx → EReal) (ix2 0 p) = P.bfh p)
    (h15 : ∀ k p, (V c (Pipeline.arrRef spec6 15) : S150x150.Idx → EReal) (ix2 k p) = P.Wuh k p)
    (h16 : ∀ p, (V c (Pipeline.arrRef spec6 16) : S1x150.Idx → EReal) (ix2 0 p) = P.buh p)
    (h17 : ∀ k p, (V c (Pipeline.arrRef spec6 17) : S150x150.Idx → EReal) (ix2 k p) = P.Woh k p)
    (h18 : ∀ p, (V c (Pipeline.arrRef spec6 18) : S1x150.Idx → EReal) (ix2 0 p) = P.boh p)
    (t : Fin cfg6.N) :
    (dat6 V c).flushed 20 t
      = ((cfg6.win 20).blk t).view.read (Elt Ideal) (fun i : (⟨2, ![16, 150]⟩ : Shape).Idx => intC P X CH CC (i 0) (i 1)) := by
  refine forall_ix2 (n0 := 16) (n1 := 150) fun r p => ?_
  have ht : t.val < 1 := t.isLt
  have hR : t.val * 16 + r.val < 16 := by have := r.isLt; omega
  refine (tile6_20 V c P X CH CC h0 h1 h2 h3 h4 h5 h6 h7 h8 h9 h10 h11 h12 h13 h14 h15 h16 h17 h18 t r p ⟨_, hR⟩ rfl).trans ?_
  rw [View.read_apply]
  show _ = (fun i : (⟨2, ![16, 150]⟩ : Shape).Idx => intC P X CH CC (i 0) (i 1)) (((cfg6.win 20).blk t).view.emb (ix2 r p))
  rw [emb6_20 t r p hR]

/-- Window 20's blocks cover its array: node R lies in the block of point R / 16. -/
theorem covered6_20 (i : (⟨2, ![16, 150]⟩ : Shape).Idx) :
    ∃ t : Fin cfg6.N, (cfg6.win 20).flush t = true ∧ i ∈ ((cfg6.win 20).blk t).view.set := by
  have h0 : (i 0 : Nat) < 16 := (i 0).isLt
  have h1 : (i 1 : Nat) < 150 := (i 1).isLt
  have hlt : (i 0 : Nat) / 16 < 1 := by omega
  refine ⟨⟨(i 0 : Nat) / 16, hlt⟩, flush6_20 _, ?_⟩
  have hi := idx6_20 ⟨(i 0 : Nat) / 16, hlt⟩
  show i ∈ ((View.whole (Pipeline.arrRef spec6 20)).slice (win6_20.rect ⟨(i 0 : Nat) / 16, hlt⟩)).set
  rw [View.set_slice_whole, Rect.mem_set_unit]
  intro a
  match a with
  | ⟨0, _⟩ =>
    show win6_20.index ⟨(i 0 : Nat) / 16, hlt⟩ 0 * 16 ≤ (i 0 : Nat) ∧ (i 0 : Nat) < win6_20.index ⟨(i 0 : Nat) / 16, hlt⟩ 0 * 16 + 16
    rw [hi.1]
    show (i 0 : Nat) / 16 * 16 ≤ (i 0 : Nat) ∧ (i 0 : Nat) < (i 0 : Nat) / 16 * 16 + 16
    omega
  | ⟨1, _⟩ =>
    show win6_20.index ⟨(i 0 : Nat) / 16, hlt⟩ 1 * 150 ≤ (i 1 : Nat) ∧ (i 1 : Nat) < win6_20.index ⟨(i 0 : Nat) / 16, hlt⟩ 1 * 150 + 150
    rw [hi.2]
    omega

/-- After the last point the two output arrays hold the level's hidden states and memory cells. -/
theorem arr6
    (h0 : ∀ r k, (V c (Pipeline.arrRef spec6 0) : (⟨2, ![16, 300]⟩ : Shape).Idx → EReal) (ix2 r k) = X r k)
    (h1 : ∀ r k j, (V c (Pipeline.arrRef spec6 1) : (⟨3, ![16, 4, 150]⟩ : Shape).Idx → EReal) (ix3 r k j) = CH r k j)
    (h2 : ∀ r k j, (V c (Pipeline.arrRef spec6 2) : (⟨3, ![16, 4, 150]⟩ : Shape).Idx → EReal) (ix3 r k j) = CC r k j)
    (h3 : ∀ k p, (V c (Pipeline.arrRef spec6 3) : S300x150.Idx → EReal) (ix2 k p) = P.Wix k p)
    (h4 : ∀ p, (V c (Pipeline.arrRef spec6 4) : S1x150.Idx → EReal) (ix2 0 p) = P.bix p)
    (h5 : ∀ k p, (V c (Pipeline.arrRef spec6 5) : S300x150.Idx → EReal) (ix2 k p) = P.Wfx k p)
    (h6 : ∀ p, (V c (Pipeline.arrRef spec6 6) : S1x150.Idx → EReal) (ix2 0 p) = P.bfx p)
    (h7 : ∀ k p, (V c (Pipeline.arrRef spec6 7) : S300x150.Idx → EReal) (ix2 k p) = P.Wux k p)
    (h8 : ∀ p, (V c (Pipeline.arrRef spec6 8) : S1x150.Idx → EReal) (ix2 0 p) = P.bux p)
    (h9 : ∀ k p, (V c (Pipeline.arrRef spec6 9) : S300x150.Idx → EReal) (ix2 k p) = P.Wox k p)
    (h10 : ∀ p, (V c (Pipeline.arrRef spec6 10) : S1x150.Idx → EReal) (ix2 0 p) = P.box p)
    (h11 : ∀ k p, (V c (Pipeline.arrRef spec6 11) : S150x150.Idx → EReal) (ix2 k p) = P.Wih k p)
    (h12 : ∀ p, (V c (Pipeline.arrRef spec6 12) : S1x150.Idx → EReal) (ix2 0 p) = P.bih p)
    (h13 : ∀ k p, (V c (Pipeline.arrRef spec6 13) : S150x150.Idx → EReal) (ix2 k p) = P.Wfh k p)
    (h14 : ∀ p, (V c (Pipeline.arrRef spec6 14) : S1x150.Idx → EReal) (ix2 0 p) = P.bfh p)
    (h15 : ∀ k p, (V c (Pipeline.arrRef spec6 15) : S150x150.Idx → EReal) (ix2 k p) = P.Wuh k p)
    (h16 : ∀ p, (V c (Pipeline.arrRef spec6 16) : S1x150.Idx → EReal) (ix2 0 p) = P.buh p)
    (h17 : ∀ k p, (V c (Pipeline.arrRef spec6 17) : S150x150.Idx → EReal) (ix2 k p) = P.Woh k p)
    (h18 : ∀ p, (V c (Pipeline.arrRef spec6 18) : S1x150.Idx → EReal) (ix2 0 p) = P.boh p) :
    (∀ r p, ((dat6 V c).arrAt 19 cfg6.N : (⟨2, ![16, 150]⟩ : Shape).Idx → EReal) (ix2 r p) = intH P X CH CC r p)
      ∧ (∀ r p, ((dat6 V c).arrAt 20 cfg6.N : (⟨2, ![16, 150]⟩ : Shape).Idx → EReal) (ix2 r p) = intC P X CH CC r p) :=
  ⟨fun r p => congrFun ((dat6 V c).arrAt_eq_of_cover 19 (fun i : (⟨2, ![16, 150]⟩ : Shape).Idx => intH P X CH CC (i 0) (i 1))
      (fun t _ => flushed6_19 V c P X CH CC h0 h1 h2 h3 h4 h5 h6 h7 h8 h9 h10 h11 h12 h13 h14 h15 h16 h17 h18 t) (covered6_19)) (ix2 r p),
   fun r p => congrFun ((dat6 V c).arrAt_eq_of_cover 20 (fun i : (⟨2, ![16, 150]⟩ : Shape).Idx => intC P X CH CC (i 0) (i 1))
      (fun t _ => flushed6_20 V c P X CH CC h0 h1 h2 h3 h4 h5 h6 h7 h8 h9 h10 h11 h12 h13 h14 h15 h16 h17 h18 t) (covered6_20)) (ix2 r p)⟩

end

end Cert.KernelIdeal.Tree

end
-- ==== Proof.KerPay7.lean ====
/-
  The two stored values of a tile of 4 internal nodes at an entry, on the extended reals.

  The tile holds 4 input rows x (300 numbers each) and, for every node, its four children's hidden states and memory
  cells (150 numbers each). The body sums the children's hidden states, s = h_0 + h_1 + h_2 + h_3, forms the products of
  x with W_ix, W_fx, W_ox, W_ux and of s with W_ih, W_oh, W_uh, and one product per child of h_k with W_fh — every operand
  first cast to a narrower float format, which changes nothing on the extended reals — and stores
      c = σ(((x · W_ix + b_ix) + s · W_ih) + b_ih) * tanh(((x · W_ux + b_ux) + s · W_uh) + b_uh)
            + Σ_k σ((h_k · W_fh + b_fh) + (x · W_fx + b_fx)) * c_k          and          h = σ(((x · W_ox + b_ox) + s · W_oh) + b_oh) * tanh c.
  Read at node r and coordinate p these are the recurrence's memory cell and hidden state of an internal node.
-/
import proofs.«167239_j63453846831535_1_alg».proof.Proof.Gen.KernelIdeal.Skeleton
import proofs.«167239_j63453846831535_1_alg».proof.Proof.TreeSpecArr
import proofs.«167239_j63453846831535_1_alg».proof.Proof.LibTreeOps

noncomputable section

namespace Cert.KernelIdeal.Pay

open Idealize.ShloMosaic Idealize.ShloMosaic.ValueIdx Cert.TreeSpec

/-- The stored hidden state of the tile, as a function of the nineteen loaded arrays. -/
def hTerm7 (v0 : Vec Ideal S4x300 .f32) (v2 v4 : Vec Ideal S4x4x150 .f32) (v11 : Vec Ideal S150x150 .f32)
    (v15 : Vec Ideal S1x150 .f32) (v20 : Vec Ideal S300x150 .f32) (v23 : Vec Ideal S1x150 .f32)
    (v33 : Vec Ideal S300x150 .f32) (v36 : Vec Ideal S1x150 .f32) (v40 : Vec Ideal S150x150 .f32)
    (v44 : Vec Ideal S1x150 .f32) (v49 : Vec Ideal S300x150 .f32) (v52 : Vec Ideal S1x150 .f32)
    (v56 : Vec Ideal S150x150 .f32) (v60 : Vec Ideal S1x150 .f32) (v65 : Vec Ideal S300x150 .f32)
    (v68 : Vec Ideal S1x150 .f32) (v72 : Vec Ideal S150x150 .f32) (v76 : Vec Ideal S1x150 .f32) : FVec Ideal S4x150 .f32 :=
  Gen.k7_pay2 (Gen.k7_pay5 v2) (Gen.k7_pay6 v0 v2 v4 v11 v15 v20 v23)
    (Gen.k7_pay8 (Gen.k7_pay5 v2) (Gen.k7_pay7 v0 v33) v36 v40 v44)
    (Gen.k7_pay9 (Gen.k7_pay4 v0) (Gen.k7_pay5 v2) v49 v52 v56 v60) (Gen.k7_pay10 (Gen.k7_pay4 v0) v65 v68) v72 v76

/-- The stored memory cell of the tile, as a function of the loaded arrays. -/
def cTerm7 (v0 : Vec Ideal S4x300 .f32) (v2 v4 : Vec Ideal S4x4x150 .f32) (v11 : Vec Ideal S150x150 .f32)
    (v15 : Vec Ideal S1x150 .f32) (v20 : Vec Ideal S300x150 .f32) (v23 : Vec Ideal S1x150 .f32)
    (v33 : Vec Ideal S300x150 .f32) (v36 : Vec Ideal S1x150 .f32) (v40 : Vec Ideal S150x150 .f32)
    (v44 : Vec Ideal S1x150 .f32) (v49 : Vec Ideal S300x150 .f32) (v52 : Vec Ideal S1x150 .f32)
    (v56 : Vec Ideal S150x150 .f32) (v60 : Vec Ideal S1x150 .f32) (v65 : Vec Ideal S300x150 .f32)
    (v68 : Vec Ideal S1x150 .f32) (v72 : Vec Ideal S150x150 .f32) (v76 : Vec Ideal S1x150 .f32) : FVec Ideal S4x150 .f32 :=
  Gen.k7_pay1 (Gen.k7_pay5 v2) (Gen.k7_pay6 v0 v2 v4 v11 v15 v20 v23)
    (Gen.k7_pay8 (Gen.k7_pay5 v2) (Gen.k7_pay7 v0 v33) v36 v40 v44) (Gen.k7_pay10 (Gen.k7_pay4 v0) v65 v68) v72 v76

section
variable (v0 : Vec Ideal S4x300 .f32) (v2 v4 : Vec Ideal S4x4x150 .f32) (v11 : Vec Ideal S150x150 .f32)
    (v15 : Vec Ideal S1x150 .f32) (v20 : Vec Ideal S300x150 .f32) (v23 : Vec Ideal S1x150 .f32)
    (v33 : Vec Ideal S300x150 .f32) (v36 : Vec Ideal S1x150 .f32) (v40 : Vec Ideal S150x150 .f32)
    (v44 : Vec Ideal S1x150 .f32) (v49 : Vec Ideal S300x150 .f32) (v52 : Vec Ideal S1x150 .f32)
    (v56 : Vec Ideal S150x150 .f32) (v60 : Vec Ideal S1x150 .f32) (v65 : Vec Ideal S300x150 .f32)
    (v68 : Vec Ideal S1x150 .f32) (v72 : Vec Ideal S150x150 .f32) (v76 : Vec Ideal S1x150 .f32)
  (r : Fin 4) (p : Fin 150)

/-- The children's memory cells weighted by their forget gates, summed, at (r, p). -/
theorem forget_sum7 : Gen.k7_pay6 v0 v2 v4 v11 v15 v20 v23 (ix2 r p)
    = ∑ k : Fin 4, Ideal.logistic (((∑ j : Fin 150, tile3 v2 r k j * mat v11 j p) + row v15 p)
        + (lin (tile2 v0) (mat v20) r p + row v23 p)) * tile3 v4 r k p := by
  unfold Gen.k7_pay6 Gen.k7_pay3 Gen.k7_pay4
  refine (Tree.Lib.sumMiddle_apply _ _ _ _ r p).trans (Finset.sum_congr rfl fun k _ => ?_)
  refine Tree.Lib.mulf_at (Tree.Lib.logistic_at (Tree.Lib.addf_at (Tree.Lib.addf_at ?_ ?_) ?_)) ?_
  · exact Tree.Lib.childW_apply 16 rfl v2 v11 _ _ _ _ none r k p
  · exact Tree.Lib.biasRow3_apply v15 _ _ _ r k p
  · exact (Tree.Lib.spreadMiddle_apply _ _ _ r k p).trans
      (Tree.Lib.addf_at (Tree.Lib.xW_apply v0 v20 _ _ none r p) (Tree.Lib.biasRow_apply v23 _ _ r p))
  · exact congrFun (shapeCast_self v4 _) (ix3 r k p)

/-- The input gate at (r, p): σ(((x · W_ix + b_ix) + s · W_ih) + b_ih). -/
theorem gate_i7 : Gen.k7_pay8 (Gen.k7_pay5 v2) (Gen.k7_pay7 v0 v33) v36 v40 v44 (ix2 r p)
    = Ideal.logistic (lin (tile2 v0) (mat v33) r p + row v36 p + lin (hsum (tile3 v2)) (mat v40) r p + row v44 p) := by
  unfold Gen.k7_pay8 Gen.k7_pay7 Gen.k7_pay5 Gen.k7_pay4 Gen.k7_pay3
  exact Tree.Lib.logistic_at (Tree.Lib.addf_at (Tree.Lib.addf_at (Tree.Lib.addf_at
    (Tree.Lib.xW_apply v0 v33 _ _ none r p) (Tree.Lib.biasRow_apply v36 _ _ r p))
    (Tree.Lib.hsumW_apply v2 v40 _ _ _ _ _ none r p)) (Tree.Lib.biasRow_apply v44 _ _ r p))

/-- The output gate at (r, p): σ(((x · W_ox + b_ox) + s · W_oh) + b_oh). -/
theorem gate_o7 : Gen.k7_pay9 (Gen.k7_pay4 v0) (Gen.k7_pay5 v2) v49 v52 v56 v60 (ix2 r p)
    = Ideal.logistic (lin (tile2 v0) (mat v49) r p + row v52 p + lin (hsum (tile3 v2)) (mat v56) r p + row v60 p) := by
  unfold Gen.k7_pay9 Gen.k7_pay5 Gen.k7_pay4 Gen.k7_pay3
  exact Tree.Lib.logistic_at (Tree.Lib.addf_at (Tree.Lib.addf_at (Tree.Lib.addf_at
    (Tree.Lib.xW_apply v0 v49 _ _ none r p) (Tree.Lib.biasRow_apply v52 _ _ r p))
    (Tree.Lib.hsumW_apply v2 v56 _ _ _ _ _ none r p)) (Tree.Lib.biasRow_apply v60 _ _ r p))

/-- The input part of the update at (r, p): x · W_ux + b_ux. -/
theorem update_x7 : Gen.k7_pay10 (Gen.k7_pay4 v0) v65 v68 (ix2 r p) = lin (tile2 v0) (mat v65) r p + row v68 p := by
  unfold Gen.k7_pay10 Gen.k7_pay4
  exact Tree.Lib.addf_at (Tree.Lib.xW_apply v0 v65 _ _ none r p) (Tree.Lib.biasRow_apply v68 _ _ r p)

/-- The stored memory cell at (r, p) is the recurrence's memory cell of an internal node. -/
theorem cTerm7_apply : cTerm7 v0 v2 v4 v11 v15 v20 v23 v33 v36 v40 v44 v49 v52 v56 v60 v65 v68 v72 v76 (ix2 r p)
    = intC (paramsOfRows v33 v36 v20 v23 v65 v68 v49 v52 v40 v44 v11 v15 v72 v76 v56 v60) (tile2 v0) (tile3 v2) (tile3 v4) r p := by
  unfold cTerm7 Gen.k7_pay1
  refine Tree.Lib.addf_at (Tree.Lib.mulf_at (gate_i7 v0 v2 v33 v36 v40 v44 r p)
    (Tree.Lib.tanh_at (Tree.Lib.addf_at (Tree.Lib.addf_at (update_x7 v0 v65 v68 r p) ?_)
      (Tree.Lib.biasRow_apply v76 _ _ r p)))) (forget_sum7 v0 v2 v4 v11 v15 v20 v23 r p)
  unfold Gen.k7_pay5 Gen.k7_pay3
  exact Tree.Lib.hsumW_apply v2 v72 _ _ _ _ _ none r p

/-- The stored hidden state at (r, p) is the recurrence's hidden state of an internal node. -/
theorem hTerm7_apply : hTerm7 v0 v2 v4 v11 v15 v20 v23 v33 v36 v40 v44 v49 v52 v56 v60 v65 v68 v72 v76 (ix2 r p)
    = intH (paramsOfRows v33 v36 v20 v23 v65 v68 v49 v52 v40 v44 v11 v15 v72 v76 v56 v60) (tile2 v0) (tile3 v2) (tile3 v4) r p := by
  unfold hTerm7 Gen.k7_pay2
  exact Tree.Lib.mulf_at (gate_o7 v0 v2 v49 v52 v56 v60 r p)
    (Tree.Lib.tanh_at (cTerm7_apply v0 v2 v4 v11 v15 v20 v23 v33 v36 v40 v44 v49 v52 v56 v60 v65 v68 v72 v76 r p))

end

end Cert.KernelIdeal.Pay

end
-- ==== Proof.KerArr7.lean ====
/-
  The level of 4 internal nodes: from the tiles the grid's points write back to the two whole arrays.

  The grid has 1 point; point t handles the tile of nodes 4·t … 4·t + 3. Its input blocks are rows
  4·t + r of the input matrix and of the children's two arrays, and the sixteen parameter arrays whole (their
  index maps are constantly 0). The recurrence at a node reads only that node's rows, so what the point writes at row r
  of its two output blocks is the recurrence's value at node 4·t + r of the level; the output blocks tile the two
  output arrays (node R lies in point R / 4's block), so after the last point each array holds the level's values.
-/
import proofs.«167239_j63453846831535_1_alg».proof.Proof.KIRegion7
import proofs.«167239_j63453846831535_1_alg».proof.Proof.KerPay7
import proofs.«167239_j63453846831535_1_alg».proof.Proof.TreeSpecArr
import proofs.«167239_j63453846831535_1_alg».proof.Proof.TreeLocal
import Idealize.ShloMosaic.Lib.Pipeline.Value

set_option maxRecDepth 16384

noncomputable section

namespace Cert.KernelIdeal.Tree

open Cert.KernelIdeal Cert.KernelIdeal.Gen
open Idealize.ShloMosaic Idealize.ShloMosaic.TcCoe Idealize.ShloMosaic.ValueIdx
open Idealize.SL.Sem
open Idealize.ShloMosaic.Pipeline (Dat)
open Cert.TreeSpec

variable (V : (c : Dev nD) → (b : Ref sig .tc) → Buf (Elt Ideal) ((c : Thread nD τ).loc b)) (c : Dev nD)

/-! ## The index maps over the grid -/

theorem idx7_0 : ∀ t : Fin cfg7.N, win7_0.index t 0 = t.val ∧ win7_0.index t 1 = 0 :=
  (by decide +kernel : ∀ t : Fin grid7.N, win7_0.index t 0 = t.val ∧ win7_0.index t 1 = 0)
theorem idx7_1 : ∀ t : Fin cfg7.N, win7_1.index t 0 = t.val ∧ win7_1.index t 1 = 0 ∧ win7_1.index t 2 = 0 :=
  (by decide +kernel : ∀ t : Fin grid7.N, win7_1.index t 0 = t.val ∧ win7_1.index t 1 = 0 ∧ win7_1.index t 2 = 0)
theorem idx7_2 : ∀ t : Fin cfg7.N, win7_2.index t 0 = t.val ∧ win7_2.index t 1 = 0 ∧ win7_2.index t 2 = 0 :=
  (by decide +kernel : ∀ t : Fin grid7.N, win7_2.index t 0 = t.val ∧ win7_2.index t 1 = 0 ∧ win7_2.index t 2 = 0)
theorem idx7_3 : ∀ t : Fin cfg7.N, win7_3.index t 0 = 0 ∧ win7_3.index t 1 = 0 :=
  (by decide +kernel : ∀ t : Fin grid7.N, win7_3.index t 0 = 0 ∧ win7_3.index t 1 = 0)
theorem idx7_4 : ∀ t : Fin cfg7.N, win7_4.index t 0 = 0 ∧ win7_4.index t 1 = 0 :=
  (by decide +kernel : ∀ t : Fin grid7.N, win7_4.index t 0 = 0 ∧ win7_4.index t 1 = 0)
theorem idx7_5 : ∀ t : Fin cfg7.N, win7_5.index t 0 = 0 ∧ win7_5.index t 1 = 0 :=
  (by decide +kernel : ∀ t : Fin grid7.N, win7_5.index t 0 = 0 ∧ win7_5.index t 1 = 0)
theorem idx7_6 : ∀ t : Fin cfg7.N, win7_6.index t 0 = 0 ∧ win7_6.index t 1 = 0 :=
  (by decide +kernel : ∀ t : Fin grid7.N, win7_6.index t 0 = 0 ∧ win7_6.index t 1 = 0)
theorem idx7_7 : ∀ t : Fin cfg7.N, win7_7.index t 0 = 0 ∧ win7_7.index t 1 = 0 :=
  (by decide +kernel : ∀ t : Fin grid7.N, win7_7.index t 0 = 0 ∧ win7_7.index t 1 = 0)
theorem idx7_8 : ∀ t : Fin cfg7.N, win7_8.index t 0 = 0 ∧ win7_8.index t 1 = 0 :=
  (by decide +kernel : ∀ t : Fin grid7.N, win7_8.index t 0 = 0 ∧ win7_8.index t 1 = 0)
theorem idx7_9 : ∀ t : Fin cfg7.N, win7_9.index t 0 = 0 ∧ win7_9.index t 1 = 0 :=
  (by decide +kernel : ∀ t : Fin grid7.N, win7_9.index t 0 = 0 ∧ win7_9.index t 1 = 0)
theorem idx7_10 : ∀ t : Fin cfg7.N, win7_10.index t 0 = 0 ∧ win7_10.index t 1 = 0 :=
  (by decide +kernel : ∀ t : Fin grid7.N, win7_10.index t 0 = 0 ∧ win7_10.index t 1 = 0)
theorem idx7_11 : ∀ t : Fin cfg7.N, win7_11.index t 0 = 0 ∧ win7_11.index t 1 = 0 :=
  (by decide +kernel : ∀ t : Fin grid7.N, win7_11.index t 0 = 0 ∧ win7_11.index t 1 = 0)
theorem idx7_12 : ∀ t : Fin cfg7.N, win7_12.index t 0 = 0 ∧ win7_12.index t 1 = 0 :=
  (by decide +kernel : ∀ t : Fin grid7.N, win7_12.index t 0 = 0 ∧ win7_12.index t 1 = 0)
theorem idx7_13 : ∀ t : Fin cfg7.N, win7_13.index t 0 = 0 ∧ win7_13.index t 1 = 0 :=
  (by decide +kernel : ∀ t : Fin grid7.N, win7_13.index t 0 = 0 ∧ win7_13.index t 1 = 0)
theorem idx7_14 : ∀ t : Fin cfg7.N, win7_14.index t 0 = 0 ∧ win7_14.index t 1 = 0 :=
  (by decide +kernel : ∀ t : Fin grid7.N, win7_14.index t 0 = 0 ∧ win7_14.index t 1 = 0)
theorem idx7_15 : ∀ t : Fin cfg7.N, win7_15.index t 0 = 0 ∧ win7_15.index t 1 = 0 :=
  (by decide +kernel : ∀ t : Fin grid7.N, win7_15.index t 0 = 0 ∧ win7_15.index t 1 = 0)
theorem idx7_16 : ∀ t : Fin cfg7.N, win7_16.index t 0 = 0 ∧ win7_16.index t 1 = 0 :=
  (by decide +kernel : ∀ t : Fin grid7.N, win7_16.index t 0 = 0 ∧ win7_16.index t 1 = 0)
theorem idx7_17 : ∀ t : Fin cfg7.N, win7_17.index t 0 = 0 ∧ win7_17.index t 1 = 0 :=
  (by decide +kernel : ∀ t : Fin grid7.N, win7_17.index t 0 = 0 ∧ win7_17.index t 1 = 0)
theorem idx7_18 : ∀ t : Fin cfg7.N, win7_18.index t 0 = 0 ∧ win7_18.index t 1 = 0 :=
  (by decide +kernel : ∀ t : Fin grid7.N, win7_18.index t 0 = 0 ∧ win7_18.index t 1 = 0)
theorem idx7_19 : ∀ t : Fin cfg7.N, win7_19.index t 0 = t.val ∧ win7_19.index t 1 = 0 :=
  (by decide +kernel : ∀ t : Fin grid7.N, win7_19.index t 0 = t.val ∧ win7_19.index t 1 = 0)
theorem idx7_20 : ∀ t : Fin cfg7.N, win7_20.index t 0 = t.val ∧ win7_20.index t 1 = 0 :=
  (by decide +kernel : ∀ t : Fin grid7.N, win7_20.index t 0 = t.val ∧ win7_20.index t 1 = 0)

/-! ## The input blocks as parts of their arrays -/

/-- Row r of the input tile at point t is row 4·t + r of the input matrix. -/
theorem blk7_0 (t : Fin cfg7.N) (r : Fin 4) (k : Fin 300) (R : Fin 4) (hR : R.val = t.val * 4 + r.val) :
    (iblk7 V c 0 t : S4x300.Idx → EReal) (ix2 r k) = (V c (Pipeline.arrRef spec7 0) : (⟨2, ![4, 300]⟩ : Shape).Idx → EReal) (ix2 R k) := by
  have hi := idx7_0 t
  unfold iblk7
  rw [View.read_apply]
  show V c (Pipeline.arrRef spec7 0) _ = V c (Pipeline.arrRef spec7 0) _
  congr 1
  funext a
  apply Fin.ext
  match a with
  | ⟨0, _⟩ => show win7_0.index t 0 * 4 + 1 * r.val = R.val; rw [hi.1, hR]; omega
  | ⟨1, _⟩ => show win7_0.index t 1 * 300 + 1 * k.val = k.val; rw [hi.2]; omega

/-- The children of node r of the tile at point t are those of node 4·t + r of the level (window 1). -/
theorem blk7_1 (t : Fin cfg7.N) (r : Fin 4) (k : Fin 4) (j : Fin 150) (R : Fin 4) (hR : R.val = t.val * 4 + r.val) :
    (iblk7 V c 1 t : S4x4x150.Idx → EReal) (ix3 r k j) = (V c (Pipeline.arrRef spec7 1) : (⟨3, ![4, 4, 150]⟩ : Shape).Idx → EReal) (ix3 R k j) := by
  have hi := idx7_1 t
  unfold iblk7
  rw [View.read_apply]
  show V c (Pipeline.arrRef spec7 1) _ = V c (Pipeline.arrRef spec7 1) _
  congr 1
  funext a
  apply Fin.ext
  match a with
  | ⟨0, _⟩ => show win7_1.index t 0 * 4 + 1 * r.val = R.val; rw [hi.1, hR]; omega
  | ⟨1, _⟩ => show win7_1.index t 1 * 4 + 1 * k.val = k.val; rw [hi.2.1]; omega
  | ⟨2, _⟩ => show win7_1.index t 2 * 150 + 1 * j.val = j.val; rw [hi.2.2]; omega

/-- The children of node r of the tile at point t are those of node 4·t + r of the level (window 2). -/
theorem blk7_2 (t : Fin cfg7.N) (r : Fin 4) (k : Fin 4) (j : Fin 150) (R : Fin 4) (hR : R.val = t.val * 4 + r.val) :
    (iblk7 V c 2 t : S4x4x150.Idx → EReal) (ix3 r k j) = (V c (Pipeline.arrRef spec7 2) : (⟨3, ![4, 4, 150]⟩ : Shape).Idx → EReal) (ix3 R k j) := by
  have hi := idx7_2 t
  unfold iblk7
  rw [View.read_apply]
  show V c (Pipeline.arrRef spec7 2) _ = V c (Pipeline.arrRef spec7 2) _
  congr 1
  funext a
  apply Fin.ext
  match a with
  | ⟨0, _⟩ => show win7_2.index t 0 * 4 + 1 * r.val = R.val; rw [hi.1, hR]; omega
  | ⟨1, _⟩ => show win7_2.index t 1 * 4 + 1 * k.val = k.val; rw [hi.2.1]; omega
  | ⟨2, _⟩ => show win7_2.index t 2 * 150 + 1 * j.val = j.val; rw [hi.2.2]; omega

/-- Window 3's block at every point is its whole array. -/
theorem blk7_3 (t : Fin cfg7.N) (y : S300x150.Idx) :
    (iblk7 V c 3 t : S300x150.Idx → EReal) y = (V c (Pipeline.arrRef spec7 3) : S300x150.Idx → EReal) y := by
  have hi := idx7_3 t
  unfold iblk7
  rw [View.read_apply]
  show V c (Pipeline.arrRef spec7 3) _ = V c (Pipeline.arrRef spec7 3) _
  congr 1
  funext a
  apply Fin.ext
  match a with
  | ⟨0, _⟩ => show win7_3.index t 0 * 300 + 1 * (y 0).val = (y 0).val; rw [hi.1]; omega
  | ⟨1, _⟩ => show win7_3.index t 1 * 150 + 1 * (y 1).val = (y 1).val; rw [hi.2]; omega

/-- Window 4's block at every point is its whole array. -/
theorem blk7_4 (t : Fin cfg7.N) (y : S1x150.Idx) :
    (iblk7 V c 4 t : S1x150.Idx → EReal) y = (V c (Pipeline.arrRef spec7 4) : S1x150.Idx → EReal) y := by
  have hi := idx7_4 t
  unfold iblk7
  rw [View.read_apply]
  show V c (Pipeline.arrRef spec7 4) _ = V c (Pipeline.arrRef spec7 4) _
  congr 1
  funext a
  apply Fin.ext
  match a with
  | ⟨0, _⟩ => show win7_4.index t 0 * 1 + 1 * (y 0).val = (y 0).val; rw [hi.1]; omega
  | ⟨1, _⟩ => show win7_4.index t 1 * 150 + 1 * (y 1).val = (y 1).val; rw [hi.2]; omega

/-- Window 5's block at every point is its whole array. -/
theorem blk7_5 (t : Fin cfg7.N) (y : S300x150.Idx) :
    (iblk7 V c 5 t : S300x150.Idx → EReal) y = (V c (Pipeline.arrRef spec7 5) : S300x150.Idx → EReal) y := by
  have hi := idx7_5 t
  unfold iblk7
  rw [View.read_apply]
  show V c (Pipeline.arrRef spec7 5) _ = V c (Pipeline.arrRef spec7 5) _
  congr 1
  funext a
  apply Fin.ext
  match a with
  | ⟨0, _⟩ => show win7_5.index t 0 * 300 + 1 * (y 0).val = (y 0).val; rw [hi.1]; omega
  | ⟨1, _⟩ => show win7_5.index t 1 * 150 + 1 * (y 1).val = (y 1).val; rw [hi.2]; omega

/-- Window 6's block at every point is its whole array. -/
theorem blk7_6 (t : Fin cfg7.N) (y : S1x150.Idx) :
    (iblk7 V c 6 t : S1x150.Idx → EReal) y = (V c (Pipeline.arrRef spec7 6) : S1x150.Idx → EReal) y := by
  have hi := idx7_6 t
  unfold iblk7
  rw [View.read_apply]
  show V c (Pipeline.arrRef spec7 6) _ = V c (Pipeline.arrRef spec7 6) _
  congr 1
  funext a
  apply Fin.ext
  match a with
  | ⟨0, _⟩ => show win7_6.index t 0 * 1 + 1 * (y 0).val = (y 0).val; rw [hi.1]; omega
  | ⟨1, _⟩ => show win7_6.index t 1 * 150 + 1 * (y 1).val = (y 1).val; rw [hi.2]; omega

/-- Window 7's block at every point is its whole array. -/
theorem blk7_7 (t : Fin cfg7.N) (y : S300x150.Idx) :
    (iblk7 V c 7 t : S300x150.Idx → EReal) y = (V c (Pipeline.arrRef spec7 7) : S300x150.Idx → EReal) y := by
  have hi := idx7_7 t
  unfold iblk7
  rw [View.read_apply]
  show V c (Pipeline.arrRef spec7 7) _ = V c (Pipeline.arrRef spec7 7) _
  congr 1
  funext a
  apply Fin.ext
  match a with
  | ⟨0, _⟩ => show win7_7.index t 0 * 300 + 1 * (y 0).val = (y 0).val; rw [hi.1]; omega
  | ⟨1, _⟩ => show win7_7.index t 1 * 150 + 1 * (y 1).val = (y 1).val; rw [hi.2]; omega

/-- Window 8's block at every point is its whole array. -/
theorem blk7_8 (t : Fin cfg7.N) (y : S1x150.Idx) :
    (iblk7 V c 8 t : S1x150.Idx → EReal) y = (V c (Pipeline.arrRef spec7 8) : S1x150.Idx → EReal) y := by
  have hi := idx7_8 t
  unfold iblk7
  rw [View.read_apply]
  show V c (Pipeline.arrRef spec7 8) _ = V c (Pipeline.arrRef spec7 8) _
  congr 1
  funext a
  apply Fin.ext
  match a with
  | ⟨0, _⟩ => show win7_8.index t 0 * 1 + 1 * (y 0).val = (y 0).val; rw [hi.1]; omega
  | ⟨1, _⟩ => show win7_8.index t 1 * 150 + 1 * (y 1).val = (y 1).val; rw [hi.2]; omega

/-- Window 9's block at every point is its whole array. -/
theorem blk7_9 (t : Fin cfg7.N) (y : S300x150.Idx) :
    (iblk7 V c 9 t : S300x150.Idx → EReal) y = (V c (Pipeline.arrRef spec7 9) : S300x150.Idx → EReal) y := by
  have hi := idx7_9 t
  unfold iblk7
  rw [View.read_apply]
  show V c (Pipeline.arrRef spec7 9) _ = V c (Pipeline.arrRef spec7 9) _
  congr 1
  funext a
  apply Fin.ext
  match a with
  | ⟨0, _⟩ => show win7_9.index t 0 * 300 + 1 * (y 0).val = (y 0).val; rw [hi.1]; omega
  | ⟨1, _⟩ => show win7_9.index t 1 * 150 + 1 * (y 1).val = (y 1).val; rw [hi.2]; omega

/-- Window 10's block at every point is its whole array. -/
theorem blk7_10 (t : Fin cfg7.N) (y : S1x150.Idx) :
    (iblk7 V c 10 t : S1x150.Idx → EReal) y = (V c (Pipeline.arrRef spec7 10) : S1x150.Idx → EReal) y := by
  have hi := idx7_10 t
  unfold iblk7
  rw [View.read_apply]
  show V c (Pipeline.arrRef spec7 10) _ = V c (Pipeline.arrRef spec7 10) _
  congr 1
  funext a
  apply Fin.ext
  match a with
  | ⟨0, _⟩ => show win7_10.index t 0 * 1 + 1 * (y 0).val = (y 0).val; rw [hi.1]; omega
  | ⟨1, _⟩ => show win7_10.index t 1 * 150 + 1 * (y 1).val = (y 1).val; rw [hi.2]; omega

/-- Window 11's block at every point is its whole array. -/
theorem blk7_11 (t : Fin cfg7.N) (y : S150x150.Idx) :
    (iblk7 V c 11 t : S150x150.Idx → EReal) y = (V c (Pipeline.arrRef spec7 11) : S150x150.Idx → EReal) y := by
  have hi := idx7_11 t
  unfold iblk7
  rw [View.read_apply]
  show V c (Pipeline.arrRef spec7 11) _ = V c (Pipeline.arrRef spec7 11) _
  congr 1
  funext a
  apply Fin.ext
  match a with
  | ⟨0, _⟩ => show win7_11.index t 0 * 150 + 1 * (y 0).val = (y 0).val; rw [hi.1]; omega
  | ⟨1, _⟩ => show win7_11.index t 1 * 150 + 1 * (y 1).val = (y 1).val; rw [hi.2]; omega

/-- Window 12's block at every point is its whole array. -/
theorem blk7_12 (t : Fin cfg7.N) (y : S1x150.Idx) :
    (iblk7 V c 12 t : S1x150.Idx → EReal) y = (V c (Pipeline.arrRef spec7 12) : S1x150.Idx → EReal) y := by
  have hi := idx7_12 t
  unfold iblk7
  rw [View.read_apply]
  show V c (Pipeline.arrRef spec7 12) _ = V c (Pipeline.arrRef spec7 12) _
  congr 1
  funext a
  apply Fin.ext
  match a with
  | ⟨0, _⟩ => show win7_12.index t 0 * 1 + 1 * (y 0).val = (y 0).val; rw [hi.1]; omega
  | ⟨1, _⟩ => show win7_12.index t 1 * 150 + 1 * (y 1).val = (y 1).val; rw [hi.2]; omega

/-- Window 13's block at every point is its whole array. -/
theorem blk7_13 (t : Fin cfg7.N) (y : S150x150.Idx) :
    (iblk7 V c 13 t : S150x150.Idx → EReal) y = (V c (Pipeline.arrRef spec7 13) : S150x150.Idx → EReal) y := by
  have hi := idx7_13 t
  unfold iblk7
  rw [View.read_apply]
  show V c (Pipeline.arrRef spec7 13) _ = V c (Pipeline.arrRef spec7 13) _
  congr 1
  funext a
  apply Fin.ext
  match a with
  | ⟨0, _⟩ => show win7_13.index t 0 * 150 + 1 * (y 0).val = (y 0).val; rw [hi.1]; omega
  | ⟨1, _⟩ => show win7_13.index t 1 * 150 + 1 * (y 1).val = (y 1).val; rw [hi.2]; omega

/-- Window 14's block at every point is its whole array. -/
theorem blk7_14 (t : Fin cfg7.N) (y : S1x150.Idx) :
    (iblk7 V c 14 t : S1x150.Idx → EReal) y = (V c (Pipeline.arrRef spec7 14) : S1x150.Idx → EReal) y := by
  have hi := idx7_14 t
  unfold iblk7
  rw [View.read_apply]
  show V c (Pipeline.arrRef spec7 14) _ = V c (Pipeline.arrRef spec7 14) _
  congr 1
  funext a
  apply Fin.ext
  match a with
  | ⟨0, _⟩ => show win7_14.index t 0 * 1 + 1 * (y 0).val = (y 0).val; rw [hi.1]; omega
  | ⟨1, _⟩ => show win7_14.index t 1 * 150 + 1 * (y 1).val = (y 1).val; rw [hi.2]; omega

/-- Window 15's block at every point is its whole array. -/
theorem blk7_15 (t : Fin cfg7.N) (y : S150x150.Idx) :
    (iblk7 V c 15 t : S150x150.Idx → EReal) y = (V c (Pipeline.arrRef spec7 15) : S150x150.Idx → EReal) y := by
  have hi := idx7_15 t
  unfold iblk7
  rw [View.read_apply]
  show V c (Pipeline.arrRef spec7 15) _ = V c (Pipeline.arrRef spec7 15) _
  congr 1
  funext a
  apply Fin.ext
  match a with
  | ⟨0, _⟩ => show win7_15.index t 0 * 150 + 1 * (y 0).val = (y 0).val; rw [hi.1]; omega
  | ⟨1, _⟩ => show win7_15.index t 1 * 150 + 1 * (y 1).val = (y 1).val; rw [hi.2]; omega

/-- Window 16's block at every point is its whole array. -/
theorem blk7_16 (t : Fin cfg7.N) (y : S1x150.Idx) :
    (iblk7 V c 16 t : S1x150.Idx → EReal) y = (V c (Pipeline.arrRef spec7 16) : S1x150.Idx → EReal) y := by
  have hi := idx7_16 t
  unfold iblk7
  rw [View.read_apply]
  show V c (Pipeline.arrRef spec7 16) _ = V c (Pipeline.arrRef spec7 16) _
  congr 1
  funext a
  apply Fin.ext
  match a with
  | ⟨0, _⟩ => show win7_16.index t 0 * 1 + 1 * (y 0).val = (y 0).val; rw [hi.1]; omega
  | ⟨1, _⟩ => show win7_16.index t 1 * 150 + 1 * (y 1).val = (y 1).val; rw [hi.2]; omega

/-- Window 17's block at every point is its whole array. -/
theorem blk7_17 (t : Fin cfg7.N) (y : S150x150.Idx) :
    (iblk7 V c 17 t : S150x150.Idx → EReal) y = (V c (Pipeline.arrRef spec7 17) : S150x150.Idx → EReal) y := by
  have hi := idx7_17 t
  unfold iblk7
  rw [View.read_apply]
  show V c (Pipeline.arrRef spec7 17) _ = V c (Pipeline.arrRef spec7 17) _
  congr 1
  funext a
  apply Fin.ext
  match a with
  | ⟨0, _⟩ => show win7_17.index t 0 * 150 + 1 * (y 0).val = (y 0).val; rw [hi.1]; omega
  | ⟨1, _⟩ => show win7_17.index t 1 * 150 + 1 * (y 1).val = (y 1).val; rw [hi.2]; omega

/-- Window 18's block at every point is its whole array. -/
theorem blk7_18 (t : Fin cfg7.N) (y : S1x150.Idx) :
    (iblk7 V c 18 t : S1x150.Idx → EReal) y = (V c (Pipeline.arrRef spec7 18) : S1x150.Idx → EReal) y := by
  have hi := idx7_18 t
  unfold iblk7
  rw [View.read_apply]
  show V c (Pipeline.arrRef spec7 18) _ = V c (Pipeline.arrRef spec7 18) _
  congr 1
  funext a
  apply Fin.ext
  match a with
  | ⟨0, _⟩ => show win7_18.index t 0 * 1 + 1 * (y 0).val = (y 0).val; rw [hi.1]; omega
  | ⟨1, _⟩ => show win7_18.index t 1 * 150 + 1 * (y 1).val = (y 1).val; rw [hi.2]; omega

/-! ## What the body leaves in the output blocks -/

/-- The hidden-state block after the body is the tile's stored hidden state, as a function of the input blocks. -/
theorem out7_19_eq (x0 : Vec Ideal S4x300 .f32) (x1 : Vec Ideal S4x4x150 .f32) (x2 : Vec Ideal S4x4x150 .f32) (x3 : Vec Ideal S300x150 .f32) (x4 : Vec Ideal S1x150 .f32) (x5 : Vec Ideal S300x150 .f32) (x6 : Vec Ideal S1x150 .f32) (x7 : Vec Ideal S300x150 .f32) (x8 : Vec Ideal S1x150 .f32) (x9 : Vec Ideal S300x150 .f32) (x10 : Vec Ideal S1x150 .f32) (x11 : Vec Ideal S150x150 .f32) (x12 : Vec Ideal S1x150 .f32) (x13 : Vec Ideal S150x150 .f32) (x14 : Vec Ideal S1x150 .f32) (x15 : Vec Ideal S150x150 .f32) (x16 : Vec Ideal S1x150 .f32) (x17 : Vec Ideal S150x150 .f32) (x18 : Vec Ideal S1x150 .f32) :
    out7_19 x0 x1 x2 x3 x4 x5 x6 x7 x8 x9 x10 x11 x12 x13 x14 x15 x16 x17 x18 = Pay.hTerm7 x0 x1 x2 x13 x14 x5 x6 x3 x4 x11 x12 x9 x10 x17 x18 x7 x8 x15 x16 := by
  unfold out7_19
  rw [View.canon_unit_zero zero_off2]
  simp only [View.ld_unit_zero (S := S4x300) zero_off2, View.ld_unit_zero (S := S4x4x150) zero_off3, View.ld_unit_zero (S := S300x150) zero_off2, View.ld_unit_zero (S := S1x150) zero_off2, View.ld_unit_zero (S := S150x150) zero_off2]
  rfl

/-- The memory-cell block after the body is the tile's stored memory cell, as a function of the input blocks. -/
theorem out7_20_eq (x0 : Vec Ideal S4x300 .f32) (x1 : Vec Ideal S4x4x150 .f32) (x2 : Vec Ideal S4x4x150 .f32) (x3 : Vec Ideal S300x150 .f32) (x4 : Vec Ideal S1x150 .f32) (x5 : Vec Ideal S300x150 .f32) (x6 : Vec Ideal S1x150 .f32) (x7 : Vec Ideal S300x150 .f32) (x8 : Vec Ideal S1x150 .f32) (x9 : Vec Ideal S300x150 .f32) (x10 : Vec Ideal S1x150 .f32) (x11 : Vec Ideal S150x150 .f32) (x12 : Vec Ideal S1x150 .f32) (x13 : Vec Ideal S150x150 .f32) (x14 : Vec Ideal S1x150 .f32) (x15 : Vec Ideal S150x150 .f32) (x16 : Vec Ideal S1x150 .f32) (x17 : Vec Ideal S150x150 .f32) (x18 : Vec Ideal S1x150 .f32) :
    out7_20 x0 x1 x2 x3 x4 x5 x6 x7 x8 x9 x10 x11 x12 x13 x14 x15 x16 x17 x18 = Pay.cTerm7 x0 x1 x2 x13 x14 x5 x6 x3 x4 x11 x12 x9 x10 x17 x18 x7 x8 x15 x16 := by
  unfold out7_20
  rw [View.canon_unit_zero zero_off2]
  simp only [View.ld_unit_zero (S := S4x300) zero_off2, View.ld_unit_zero (S := S4x4x150) zero_off3, View.ld_unit_zero (S := S300x150) zero_off2, View.ld_unit_zero (S := S1x150) zero_off2, View.ld_unit_zero (S := S150x150) zero_off2]
  rfl

section
variable (P : Params) (X : Fin 4 → Fin 300 → EReal) (CH CC : Fin 4 → Fin 4 → Fin 150 → EReal)

/-- The parameter blocks at any point are the parameters. -/
theorem params7
    (h3 : ∀ k p, (V c (Pipeline.arrRef spec7 3) : S300x150.Idx → EReal) (ix2 k p) = P.Wix k p)
    (h4 : ∀ p, (V c (Pipeline.arrRef spec7 4) : S1x150.Idx → EReal) (ix2 0 p) = P.bix p)
    (h5 : ∀ k p, (V c (Pipeline.arrRef spec7 5) : S300x150.Idx → EReal) (ix2 k p) = P.Wfx k p)
    (h6 : ∀ p, (V c (Pipeline.arrRef spec7 6) : S1x150.Idx → EReal) (ix2 0 p) = P.bfx p)
    (h7 : ∀ k p, (V c (Pipeline.arrRef spec7 7) : S300x150.Idx → EReal) (ix2 k p) = P.Wux k p)
    (h8 : ∀ p, (V c (Pipeline.arrRef spec7 8) : S1x150.Idx → EReal) (ix2 0 p) = P.bux p)
    (h9 : ∀ k p, (V c (Pipeline.arrRef spec7 9) : S300x150.Idx → EReal) (ix2 k p) = P.Wox k p)
    (h10 : ∀ p, (V c (Pipeline.arrRef spec7 10) : S1x150.Idx → EReal) (ix2 0 p) = P.box p)
    (h11 : ∀ k p, (V c (Pipeline.arrRef spec7 11) : S150x150.Idx → EReal) (ix2 k p) = P.Wih k p)
    (h12 : ∀ p, (V c (Pipeline.arrRef spec7 12) : S1x150.Idx → EReal) (ix2 0 p) = P.bih p)
    (h13 : ∀ k p, (V c (Pipeline.arrRef spec7 13) : S150x150.Idx → EReal) (ix2 k p) = P.Wfh k p)
    (h14 : ∀ p, (V c (Pipeline.arrRef spec7 14) : S1x150.Idx → EReal) (ix2 0 p) = P.bfh p)
    (h15 : ∀ k p, (V c (Pipeline.arrRef spec7 15) : S150x150.Idx → EReal) (ix2 k p) = P.Wuh k p)
    (h16 : ∀ p, (V c (Pipeline.arrRef spec7 16) : S1x150.Idx → EReal) (ix2 0 p) = P.buh p)
    (h17 : ∀ k p, (V c (Pipeline.arrRef spec7 17) : S150x150.Idx → EReal) (ix2 k p) = P.Woh k p)
    (h18 : ∀ p, (V c (Pipeline.arrRef spec7 18) : S1x150.Idx → EReal) (ix2 0 p) = P.boh p)
    (t : Fin cfg7.N) :
    paramsOfRows (iblk7 V c 3 t) (iblk7 V c 4 t) (iblk7 V c 5 t) (iblk7 V c 6 t) (iblk7 V c 7 t) (iblk7 V c 8 t) (iblk7 V c 9 t) (iblk7 V c 10 t) (iblk7 V c 11 t) (iblk7 V c 12 t) (iblk7 V c 13 t) (iblk7 V c 14 t) (iblk7 V c 15 t) (iblk7 V c 16 t) (iblk7 V c 17 t) (iblk7 V c 18 t) = P :=
  Params.eq_of_fields P
    (funext fun k => funext fun p => (blk7_3 V c t (ix2 k p)).trans (h3 k p))
    (funext fun p => (blk7_4 V c t (ix2 0 p)).trans (h4 p))
    (funext fun k => funext fun p => (blk7_5 V c t (ix2 k p)).trans (h5 k p))
    (funext fun p => (blk7_6 V c t (ix2 0 p)).trans (h6 p))
    (funext fun k => funext fun p => (blk7_7 V c t (ix2 k p)).trans (h7 k p))
    (funext fun p => (blk7_8 V c t (ix2 0 p)).trans (h8 p))
    (funext fun k => funext fun p => (blk7_9 V c t (ix2 k p)).trans (h9 k p))
    (funext fun p => (blk7_10 V c t (ix2 0 p)).trans (h10 p))
    (funext fun k => funext fun p => (blk7_11 V c t (ix2 k p)).trans (h11 k p))
    (funext fun p => (blk7_12 V c t (ix2 0 p)).trans (h12 p))
    (funext fun k => funext fun p => (blk7_13 V c t (ix2 k p)).trans (h13 k p))
    (funext fun p => (blk7_14 V c t (ix2 0 p)).trans (h14 p))
    (funext fun k => funext fun p => (blk7_15 V c t (ix2 k p)).trans (h15 k p))
    (funext fun p => (blk7_16 V c t (ix2 0 p)).trans (h16 p))
    (funext fun k => funext fun p => (blk7_17 V c t (ix2 k p)).trans (h17 k p))
    (funext fun p => (blk7_18 V c t (ix2 0 p)).trans (h18 p))

/-- Row r of the hidden-state block at point t is the hidden state of node 4·t + r. -/
theorem tile7_19
    (h0 : ∀ r k, (V c (Pipeline.arrRef spec7 0) : (⟨2, ![4, 300]⟩ : Shape).Idx → EReal) (ix2 r k) = X r k)
    (h1 : ∀ r k j, (V c (Pipeline.arrRef spec7 1) : (⟨3, ![4, 4, 150]⟩ : Shape).Idx → EReal) (ix3 r k j) = CH r k j)
    (h2 : ∀ r k j, (V c (Pipeline.arrRef spec7 2) : (⟨3, ![4, 4, 150]⟩ : Shape).Idx → EReal) (ix3 r k j) = CC r k j)
    (h3 : ∀ k p, (V c (Pipeline.arrRef spec7 3) : S300x150.Idx → EReal) (ix2 k p) = P.Wix k p)
    (h4 : ∀ p, (V c (Pipeline.arrRef spec7 4) : S1x150.Idx → EReal) (ix2 0 p) = P.bix p)
    (h5 : ∀ k p, (V c (Pipeline.arrRef spec7 5) : S300x150.Idx → EReal) (ix2 k p) = P.Wfx k p)
    (h6 : ∀ p, (V c (Pipeline.arrRef spec7 6) : S1x150.Idx → EReal) (ix2 0 p) = P.bfx p)
    (h7 : ∀ k p, (V c (Pipeline.arrRef spec7 7) : S300x150.Idx → EReal) (ix2 k p) = P.Wux k p)
    (h8 : ∀ p, (V c (Pipeline.arrRef spec7 8) : S1x150.Idx → EReal) (ix2 0 p) = P.bux p)
    (h9 : ∀ k p, (V c (Pipeline.arrRef spec7 9) : S300x150.Idx → EReal) (ix2 k p) = P.Wox k p)
    (h10 : ∀ p, (V c (Pipeline.arrRef spec7 10) : S1x150.Idx → EReal) (ix2 0 p) = P.box p)
    (h11 : ∀ k p, (V c (Pipeline.arrRef spec7 11) : S150x150.Idx → EReal) (ix2 k p) = P.Wih k p)
    (h12 : ∀ p, (V c (Pipeline.arrRef spec7 12) : S1x150.Idx → EReal) (ix2 0 p) = P.bih p)
    (h13 : ∀ k p, (V c (Pipeline.arrRef spec7 13) : S150x150.Idx → EReal) (ix2 k p) = P.Wfh k p)
    (h14 : ∀ p, (V c (Pipeline.arrRef spec7 14) : S1x150.Idx → EReal) (ix2 0 p) = P.bfh p)
    (h15 : ∀ k p, (V c (Pipeline.arrRef spec7 15) : S150x150.Idx → EReal) (ix2 k p) = P.Wuh k p)
    (h16 : ∀ p, (V c (Pipeline.arrRef spec7 16) : S1x150.Idx → EReal) (ix2 0 p) = P.buh p)
    (h17 : ∀ k p, (V c (Pipeline.arrRef spec7 17) : S150x150.Idx → EReal) (ix2 k p) = P.Woh k p)
    (h18 : ∀ p, (V c (Pipeline.arrRef spec7 18) : S1x150.Idx → EReal) (ix2 0 p) = P.boh p)
    (t : Fin cfg7.N) (r : Fin 4) (p : Fin 150) (R : Fin 4) (hR : R.val = t.val * 4 + r.val) :
    ((dat7 V c).after 19 t : S4x150.Idx → EReal) (ix2 r p) = intH P X CH CC R p := by
  rw [after7_19, out7_19_eq]
  refine (Pay.hTerm7_apply (iblk7 V c 0 t) (iblk7 V c 1 t) (iblk7 V c 2 t) (iblk7 V c 13 t) (iblk7 V c 14 t) (iblk7 V c 5 t) (iblk7 V c 6 t) (iblk7 V c 3 t) (iblk7 V c 4 t) (iblk7 V c 11 t) (iblk7 V c 12 t) (iblk7 V c 9 t) (iblk7 V c 10 t) (iblk7 V c 17 t) (iblk7 V c 18 t) (iblk7 V c 7 t) (iblk7 V c 8 t) (iblk7 V c 15 t) (iblk7 V c 16 t) r p).trans ?_
  exact intH_local (params7 V c P h3 h4 h5 h6 h7 h8 h9 h10 h11 h12 h13 h14 h15 h16 h17 h18 t)
    (funext fun k => (blk7_0 V c t r k R hR).trans (h0 R k))
    (funext fun k => funext fun j => (blk7_1 V c t r k j R hR).trans (h1 R k j))
    (funext fun k => funext fun j => (blk7_2 V c t r k j R hR).trans (h2 R k j)) p

/-- Row r of the memory-cell block at point t is the memory cell of node 4·t + r. -/
theorem tile7_20
    (h0 : ∀ r k, (V c (Pipeline.arrRef spec7 0) : (⟨2, ![4, 300]⟩ : Shape).Idx → EReal) (ix2 r k) = X r k)
    (h1 : ∀ r k j, (V c (Pipeline.arrRef spec7 1) : (⟨3, ![4, 4, 150]⟩ : Shape).Idx → EReal) (ix3 r k j) = CH r k j)
    (h2 : ∀ r k j, (V c (Pipeline.arrRef spec7 2) : (⟨3, ![4, 4, 150]⟩ : Shape).Idx → EReal) (ix3 r k j) = CC r k j)
    (h3 : ∀ k p, (V c (Pipeline.arrRef spec7 3) : S300x150.Idx → EReal) (ix2 k p) = P.Wix k p)
    (h4 : ∀ p, (V c (Pipeline.arrRef spec7 4) : S1x150.Idx → EReal) (ix2 0 p) = P.bix p)
    (h5 : ∀ k p, (V c (Pipeline.arrRef spec7 5) : S300x150.Idx → EReal) (ix2 k p) = P.Wfx k p)
    (h6 : ∀ p, (V c (Pipeline.arrRef spec7 6) : S1x150.Idx → EReal) (ix2 0 p) = P.bfx p)
    (h7 : ∀ k p, (V c (Pipeline.arrRef spec7 7) : S300x150.Idx → EReal) (ix2 k p) = P.Wux k p)
    (h8 : ∀ p, (V c (Pipeline.arrRef spec7 8) : S1x150.Idx → EReal) (ix2 0 p) = P.bux p)
    (h9 : ∀ k p, (V c (Pipeline.arrRef spec7 9) : S300x150.Idx → EReal) (ix2 k p) = P.Wox k p)
    (h10 : ∀ p, (V c (Pipeline.arrRef spec7 10) : S1x150.Idx → EReal) (ix2 0 p) = P.box p)
    (h11 : ∀ k p, (V c (Pipeline.arrRef spec7 11) : S150x150.Idx → EReal) (ix2 k p) = P.Wih k p)
    (h12 : ∀ p, (V c (Pipeline.arrRef spec7 12) : S1x150.Idx → EReal) (ix2 0 p) = P.bih p)
    (h13 : ∀ k p, (V c (Pipeline.arrRef spec7 13) : S150x150.Idx → EReal) (ix2 k p) = P.Wfh k p)
    (h14 : ∀ p, (V c (Pipeline.arrRef spec7 14) : S1x150.Idx → EReal) (ix2 0 p) = P.bfh p)
    (h15 : ∀ k p, (V c (Pipeline.arrRef spec7 15) : S150x150.Idx → EReal) (ix2 k p) = P.Wuh k p)
    (h16 : ∀ p, (V c (Pipeline.arrRef spec7 16) : S1x150.Idx → EReal) (ix2 0 p) = P.buh p)
    (h17 : ∀ k p, (V c (Pipeline.arrRef spec7 17) : S150x150.Idx → EReal) (ix2 k p) = P.Woh k p)
    (h18 : ∀ p, (V c (Pipeline.arrRef spec7 18) : S1x150.Idx → EReal) (ix2 0 p) = P.boh p)
    (t : Fin cfg7.N) (r : Fin 4) (p : Fin 150) (R : Fin 4) (hR : R.val = t.val * 4 + r.val) :
    ((dat7 V c).after 20 t : S4x150.Idx → EReal) (ix2 r p) = intC P X CH CC R p := by
  rw [after7_20, out7_20_eq]
  refine (Pay.cTerm7_apply (iblk7 V c 0 t) (iblk7 V c 1 t) (iblk7 V c 2 t) (iblk7 V c 13 t) (iblk7 V c 14 t) (iblk7 V c 5 t) (iblk7 V c 6 t) (iblk7 V c 3 t) (iblk7 V c 4 t) (iblk7 V c 11 t) (iblk7 V c 12 t) (iblk7 V c 9 t) (iblk7 V c 10 t) (iblk7 V c 17 t) (iblk7 V c 18 t) (iblk7 V c 7 t) (iblk7 V c 8 t) (iblk7 V c 15 t) (iblk7 V c 16 t) r p).trans ?_
  exact intC_local (params7 V c P h3 h4 h5 h6 h7 h8 h9 h10 h11 h12 h13 h14 h15 h16 h17 h18 t)
    (funext fun k => (blk7_0 V c t r k R hR).trans (h0 R k))
    (funext fun k => funext fun j => (blk7_1 V c t r k j R hR).trans (h1 R k j))
    (funext fun k => funext fun j => (blk7_2 V c t r k j R hR).trans (h2 R k j)) p

/-- Entry (r, p) of window 19's block at point t sits at (4·t + r, p) of its array. -/
theorem emb7_19 (t : Fin cfg7.N) (r : Fin 4) (p : Fin 150) (hR : t.val * 4 + r.val < 4) :
    ((cfg7.win 19).blk t).view.emb (ix2 r p) = (ix2 ⟨t.val * 4 + r.val, hR⟩ p : (⟨2, ![4, 150]⟩ : Shape).Idx) := by
  have hi := idx7_19 t
  funext a
  apply Fin.ext
  match a with
  | ⟨0, _⟩ => show win7_19.index t 0 * 4 + 1 * r.val = t.val * 4 + r.val; rw [hi.1]; omega
  | ⟨1, _⟩ => show win7_19.index t 1 * 150 + 1 * p.val = p.val; rw [hi.2]; omega

/-- What point t writes back through window 19 is its block of the level's values. -/
theorem flushed7_19
    (h0 : ∀ r k, (V c (Pipeline.arrRef spec7 0) : (⟨2, ![4, 300]⟩ : Shape).Idx → EReal) (ix2 r k) = X r k)
    (h1 : ∀ r k j, (V c (Pipeline.arrRef spec7 1) : (⟨3, ![4, 4, 150]⟩ : Shape).Idx → EReal) (ix3 r k j) = CH r k j)
    (h2 : ∀ r k j, (V c (Pipeline.arrRef spec7 2) : (⟨3, ![4, 4, 150]⟩ : Shape).Idx → EReal) (ix3 r k j) = CC r k j)
    (h3 : ∀ k p, (V c (Pipeline.arrRef spec7 3) : S300x150.Idx → EReal) (ix2 k p) = P.Wix k p)
    (h4 : ∀ p, (V c (Pipeline.arrRef spec7 4) : S1x150.Idx → EReal) (ix2 0 p) = P.bix p)
    (h5 : ∀ k p, (V c (Pipeline.arrRef spec7 5) : S300x150.Idx → EReal) (ix2 k p) = P.Wfx k p)
    (h6 : ∀ p, (V c (Pipeline.arrRef spec7 6) : S1x150.Idx → EReal) (ix2 0 p) = P.bfx p)
    (h7 : ∀ k p, (V c (Pipeline.arrRef spec7 7) : S300x150.Idx → EReal) (ix2 k p) = P.Wux k p)
    (h8 : ∀ p, (V c (Pipeline.arrRef spec7 8) : S1x150.Idx → EReal) (ix2 0 p) = P.bux p)
    (h9 : ∀ k p, (V c (Pipeline.arrRef spec7 9) : S300x150.Idx → EReal) (ix2 k p) = P.Wox k p)
    (h10 : ∀ p, (V c (Pipeline.arrRef spec7 10) : S1x150.Idx → EReal) (ix2 0 p) = P.box p)
    (h11 : ∀ k p, (V c (Pipeline.arrRef spec7 11) : S150x150.Idx → EReal) (ix2 k p) = P.Wih k p)
    (h12 : ∀ p, (V c (Pipeline.arrRef spec7 12) : S1x150.Idx → EReal) (ix2 0 p) = P.bih p)
    (h13 : ∀ k p, (V c (Pipeline.arrRef spec7 13) : S150x150.Idx → EReal) (ix2 k p) = P.Wfh k p)
    (h14 : ∀ p, (V c (Pipeline.arrRef spec7 14) : S1x150.Idx → EReal) (ix2 0 p) = P.bfh p)
    (h15 : ∀ k p, (V c (Pipeline.arrRef spec7 15) : S150x150.Idx → EReal) (ix2 k p) = P.Wuh k p)
    (h16 : ∀ p, (V c (Pipeline.arrRef spec7 16) : S1x150.Idx → EReal) (ix2 0 p) = P.buh p)
    (h17 : ∀ k p, (V c (Pipeline.arrRef spec7 17) : S150x150.Idx → EReal) (ix2 k p) = P.Woh k p)
    (h18 : ∀ p, (V c (Pipeline.arrRef spec7 18) : S1x150.Idx → EReal) (ix2 0 p) = P.boh p)
    (t : Fin cfg7.N) :
    (dat7 V c).flushed 19 t
      = ((cfg7.win 19).blk t).view.read (Elt Ideal) (fun i : (⟨2, ![4, 150]⟩ : Shape).Idx => intH P X CH CC (i 0) (i 1)) := by
  refine forall_ix2 (n0 := 4) (n1 := 150) fun r p => ?_
  have ht : t.val < 1 := t.isLt
  have hR : t.val * 4 + r.val < 4 := by have := r.isLt; omega
  refine (tile7_19 V c P X CH CC h0 h1 h2 h3 h4 h5 h6 h7 h8 h9 h10 h11 h12 h13 h14 h15 h16 h17 h18 t r p ⟨_, hR⟩ rfl).trans ?_
  rw [View.read_apply]
  show _ = (fun i : (⟨2, ![4, 150]⟩ : Shape).Idx => intH P X CH CC (i 0) (i 1)) (((cfg7.win 19).blk t).view.emb (ix2 r p))
  rw [emb7_19 t r p hR]

/-- Window 19's blocks cover its array: node R lies in the block of point R / 4. -/
theorem covered7_19 (i : (⟨2, ![4, 150]⟩ : Shape).Idx) :
    ∃ t : Fin cfg7.N, (cfg7.win 19).flush t = true ∧ i ∈ ((cfg7.win 19).blk t).view.set := by
  have h0 : (i 0 : Nat) < 4 := (i 0).isLt
  have h1 : (i 1 : Nat) < 150 := (i 1).isLt
  have hlt : (i 0 : Nat) / 4 < 1 := by omega
  refine ⟨⟨(i 0 : Nat) / 4, hlt⟩, flush7_19 _, ?_⟩
  have hi := idx7_19 ⟨(i 0 : Nat) / 4, hlt⟩
  show i ∈ ((View.whole (Pipeline.arrRef spec7 19)).slice (win7_19.rect ⟨(i 0 : Nat) / 4, hlt⟩)).set
  rw [View.set_slice_whole, Rect.mem_set_unit]
  intro a
  match a with
  | ⟨0, _⟩ =>
    show win7_19.index ⟨(i 0 : Nat) / 4, hlt⟩ 0 * 4 ≤ (i 0 : Nat) ∧ (i 0 : Nat) < win7_19.index ⟨(i 0 : Nat) / 4, hlt⟩ 0 * 4 + 4
    rw [hi.1]
    show (i 0 : Nat) / 4 * 4 ≤ (i 0 : Nat) ∧ (i 0 : Nat) < (i 0 : Nat) / 4 * 4 + 4
    omega
  | ⟨1, _⟩ =>
    show win7_19.index ⟨(i 0 : Nat) / 4, hlt⟩ 1 * 150 ≤ (i 1 : Nat) ∧ (i 1 : Nat) < win7_19.index ⟨(i 0 : Nat) / 4, hlt⟩ 1 * 150 + 150
    rw [hi.2]
    omega

/-- Entry (r, p) of window 20's block at point t sits at (4·t + r, p) of its array. -/
theorem emb7_20 (t : Fin cfg7.N) (r : Fin 4) (p : Fin 150) (hR : t.val * 4 + r.val < 4) :
    ((cfg7.win 20).blk t).view.emb (ix2 r p) = (ix2 ⟨t.val * 4 + r.val, hR⟩ p : (⟨2, ![4, 150]⟩ : Shape).Idx) := by
  have hi := idx7_20 t
  funext a
  apply Fin.ext
  match a with
  | ⟨0, _⟩ => show win7_20.index t 0 * 4 + 1 * r.val = t.val * 4 + r.val; rw [hi.1]; omega
  | ⟨1, _⟩ => show win7_20.index t 1 * 150 + 1 * p.val = p.val; rw [hi.2]; omega

/-- What point t writes back through window 20 is its block of the level's values. -/
theorem flushed7_20
    (h0 : ∀ r k, (V c (Pipeline.arrRef spec7 0) : (⟨2, ![4, 300]⟩ : Shape).Idx → EReal) (ix2 r k) = X r k)
    (h1 : ∀ r k j, (V c (Pipeline.arrRef spec7 1) : (⟨3, ![4, 4, 150]⟩ : Shape).Idx → EReal) (ix3 r k j) = CH r k j)
    (h2 : ∀ r k j, (V c (Pipeline.arrRef spec7 2) : (⟨3, ![4, 4, 150]⟩ : Shape).Idx → EReal) (ix3 r k j) = CC r k j)
    (h3 : ∀ k p, (V c (Pipeline.arrRef spec7 3) : S300x150.Idx → EReal) (ix2 k p) = P.Wix k p)
    (h4 : ∀ p, (V c (Pipeline.arrRef spec7 4) : S1x150.Idx → EReal) (ix2 0 p) = P.bix p)
    (h5 : ∀ k p, (V c (Pipeline.arrRef spec7 5) : S300x150.Idx → EReal) (ix2 k p) = P.Wfx k p)
    (h6 : ∀ p, (V c (Pipeline.arrRef spec7 6) : S1x150.Idx → EReal) (ix2 0 p) = P.bfx p)
    (h7 : ∀ k p, (V c (Pipeline.arrRef spec7 7) : S300x150.Idx → EReal) (ix2 k p) = P.Wux k p)
    (h8 : ∀ p, (V c (Pipeline.arrRef spec7 8) : S1x150.Idx → EReal) (ix2 0 p) = P.bux p)
    (h9 : ∀ k p, (V c (Pipeline.arrRef spec7 9) : S300x150.Idx → EReal) (ix2 k p) = P.Wox k p)
    (h10 : ∀ p, (V c (Pipeline.arrRef spec7 10) : S1x150.Idx → EReal) (ix2 0 p) = P.box p)
    (h11 : ∀ k p, (V c (Pipeline.arrRef spec7 11) : S150x150.Idx → EReal) (ix2 k p) = P.Wih k p)
    (h12 : ∀ p, (V c (Pipeline.arrRef spec7 12) : S1x150.Idx → EReal) (ix2 0 p) = P.bih p)
    (h13 : ∀ k p, (V c (Pipeline.arrRef spec7 13) : S150x150.Idx → EReal) (ix2 k p) = P.Wfh k p)
    (h14 : ∀ p, (V c (Pipeline.arrRef spec7 14) : S1x150.Idx → EReal) (ix2 0 p) = P.bfh p)
    (h15 : ∀ k p, (V c (Pipeline.arrRef spec7 15) : S150x150.Idx → EReal) (ix2 k p) = P.Wuh k p)
    (h16 : ∀ p, (V c (Pipeline.arrRef spec7 16) : S1x150.Idx → EReal) (ix2 0 p) = P.buh p)
    (h17 : ∀ k p, (V c (Pipeline.arrRef spec7 17) : S150x150.Idx → EReal) (ix2 k p) = P.Woh k p)
    (h18 : ∀ p, (V c (Pipeline.arrRef spec7 18) : S1x150.Idx → EReal) (ix2 0 p) = P.boh p)
    (t : Fin cfg7.N) :
    (dat7 V c).flushed 20 t
      = ((cfg7.win 20).blk t).view.read (Elt Ideal) (fun i : (⟨2, ![4, 150]⟩ : Shape).Idx => intC P X CH CC (i 0) (i 1)) := by
  refine forall_ix2 (n0 := 4) (n1 := 150) fun r p => ?_
  have ht : t.val < 1 := t.isLt
  have hR : t.val * 4 + r.val < 4 := by have := r.isLt; omega
  refine (tile7_20 V c P X CH CC h0 h1 h2 h3 h4 h5 h6 h7 h8 h9 h10 h11 h12 h13 h14 h15 h16 h17 h18 t r p ⟨_, hR⟩ rfl).trans ?_
  rw [View.read_apply]
  show _ = (fun i : (⟨2, ![4, 150]⟩ : Shape).Idx => intC P X CH CC (i 0) (i 1)) (((cfg7.win 20).blk t).view.emb (ix2 r p))
  rw [emb7_20 t r p hR]

/-- Window 20's blocks cover its array: node R lies in the block of point R / 4. -/
theorem covered7_20 (i : (⟨2, ![4, 150]⟩ : Shape).Idx) :
    ∃ t : Fin cfg7.N, (cfg7.win 20).flush t = true ∧ i ∈ ((cfg7.win 20).blk t).view.set := by
  have h0 : (i 0 : Nat) < 4 := (i 0).isLt
  have h1 : (i 1 : Nat) < 150 := (i 1).isLt
  have hlt : (i 0 : Nat) / 4 < 1 := by omega
  refine ⟨⟨(i 0 : Nat) / 4, hlt⟩, flush7_20 _, ?_⟩
  have hi := idx7_20 ⟨(i 0 : Nat) / 4, hlt⟩
  show i ∈ ((View.whole (Pipeline.arrRef spec7 20)).slice (win7_20.rect ⟨(i 0 : Nat) / 4, hlt⟩)).set
  rw [View.set_slice_whole, Rect.mem_set_unit]
  intro a
  match a with
  | ⟨0, _⟩ =>
    show win7_20.index ⟨(i 0 : Nat) / 4, hlt⟩ 0 * 4 ≤ (i 0 : Nat) ∧ (i 0 : Nat) < win7_20.index ⟨(i 0 : Nat) / 4, hlt⟩ 0 * 4 + 4
    rw [hi.1]
    show (i 0 : Nat) / 4 * 4 ≤ (i 0 : Nat) ∧ (i 0 : Nat) < (i 0 : Nat) / 4 * 4 + 4
    omega
  | ⟨1, _⟩ =>
    show win7_20.index ⟨(i 0 : Nat) / 4, hlt⟩ 1 * 150 ≤ (i 1 : Nat) ∧ (i 1 : Nat) < win7_20.index ⟨(i 0 : Nat) / 4, hlt⟩ 1 * 150 + 150
    rw [hi.2]
    omega

/-- After the last point the two output arrays hold the level's hidden states and memory cells. -/
theorem arr7
    (h0 : ∀ r k, (V c (Pipeline.arrRef spec7 0) : (⟨2, ![4, 300]⟩ : Shape).Idx → EReal) (ix2 r k) = X r k)
    (h1 : ∀ r k j, (V c (Pipeline.arrRef spec7 1) : (⟨3, ![4, 4, 150]⟩ : Shape).Idx → EReal) (ix3 r k j) = CH r k j)
    (h2 : ∀ r k j, (V c (Pipeline.arrRef spec7 2) : (⟨3, ![4, 4, 150]⟩ : Shape).Idx → EReal) (ix3 r k j) = CC r k j)
    (h3 : ∀ k p, (V c (Pipeline.arrRef spec7 3) : S300x150.Idx → EReal) (ix2 k p) = P.Wix k p)
    (h4 : ∀ p, (V c (Pipeline.arrRef spec7 4) : S1x150.Idx → EReal) (ix2 0 p) = P.bix p)
    (h5 : ∀ k p, (V c (Pipeline.arrRef spec7 5) : S300x150.Idx → EReal) (ix2 k p) = P.Wfx k p)
    (h6 : ∀ p, (V c (Pipeline.arrRef spec7 6) : S1x150.Idx → EReal) (ix2 0 p) = P.bfx p)
    (h7 : ∀ k p, (V c (Pipeline.arrRef spec7 7) : S300x150.Idx → EReal) (ix2 k p) = P.Wux k p)
    (h8 : ∀ p, (V c (Pipeline.arrRef spec7 8) : S1x150.Idx → EReal) (ix2 0 p) = P.bux p)
    (h9 : ∀ k p, (V c (Pipeline.arrRef spec7 9) : S300x150.Idx → EReal) (ix2 k p) = P.Wox k p)
    (h10 : ∀ p, (V c (Pipeline.arrRef spec7 10) : S1x150.Idx → EReal) (ix2 0 p) = P.box p)
    (h11 : ∀ k p, (V c (Pipeline.arrRef spec7 11) : S150x150.Idx → EReal) (ix2 k p) = P.Wih k p)
    (h12 : ∀ p, (V c (Pipeline.arrRef spec7 12) : S1x150.Idx → EReal) (ix2 0 p) = P.bih p)
    (h13 : ∀ k p, (V c (Pipeline.arrRef spec7 13) : S150x150.Idx → EReal) (ix2 k p) = P.Wfh k p)
    (h14 : ∀ p, (V c (Pipeline.arrRef spec7 14) : S1x150.Idx → EReal) (ix2 0 p) = P.bfh p)
    (h15 : ∀ k p, (V c (Pipeline.arrRef spec7 15) : S150x150.Idx → EReal) (ix2 k p) = P.Wuh k p)
    (h16 : ∀ p, (V c (Pipeline.arrRef spec7 16) : S1x150.Idx → EReal) (ix2 0 p) = P.buh p)
    (h17 : ∀ k p, (V c (Pipeline.arrRef spec7 17) : S150x150.Idx → EReal) (ix2 k p) = P.Woh k p)
    (h18 : ∀ p, (V c (Pipeline.arrRef spec7 18) : S1x150.Idx → EReal) (ix2 0 p) = P.boh p) :
    (∀ r p, ((dat7 V c).arrAt 19 cfg7.N : (⟨2, ![4, 150]⟩ : Shape).Idx → EReal) (ix2 r p) = intH P X CH CC r p)
      ∧ (∀ r p, ((dat7 V c).arrAt 20 cfg7.N : (⟨2, ![4, 150]⟩ : Shape).Idx → EReal) (ix2 r p) = intC P X CH CC r p) :=
  ⟨fun r p => congrFun ((dat7 V c).arrAt_eq_of_cover 19 (fun i : (⟨2, ![4, 150]⟩ : Shape).Idx => intH P X CH CC (i 0) (i 1))
      (fun t _ => flushed7_19 V c P X CH CC h0 h1 h2 h3 h4 h5 h6 h7 h8 h9 h10 h11 h12 h13 h14 h15 h16 h17 h18 t) (covered7_19)) (ix2 r p),
   fun r p => congrFun ((dat7 V c).arrAt_eq_of_cover 20 (fun i : (⟨2, ![4, 150]⟩ : Shape).Idx => intC P X CH CC (i 0) (i 1))
      (fun t _ => flushed7_20 V c P X CH CC h0 h1 h2 h3 h4 h5 h6 h7 h8 h9 h10 h11 h12 h13 h14 h15 h16 h17 h18 t) (covered7_20)) (ix2 r p)⟩

end

end Cert.KernelIdeal.Tree

end
-- ==== Proof.KerPay8.lean ====
/-
  The two stored values of the root's tile — a single internal node — at an entry, on the extended reals.

  The tile holds one input row x (300 numbers) and the node's four children's hidden states and memory cells (150
  numbers each). With a single row the bias rows are added as they are, with no broadcast, and the product of the
  children's sum s = h_0 + h_1 + h_2 + h_3 with W_uh is added to x · W_ux + b_ux before the bias b_uh; otherwise the
  arithmetic is that of every internal level:
      c = σ(((x · W_ix + b_ix) + s · W_ih) + b_ih) * tanh(((x · W_ux + b_ux) + s · W_uh) + b_uh)
            + Σ_k σ((h_k · W_fh + b_fh) + (x · W_fx + b_fx)) * c_k          and          h = σ(((x · W_ox + b_ox) + s · W_oh) + b_oh) * tanh c.
  Read at the node r = 0 and coordinate p these are the recurrence's memory cell and hidden state of an internal node.
  The arrays are taken in the order of the other internal levels: x, the children's h and c, W_fh, b_fh, W_fx, b_fx,
  W_ix, b_ix, W_ih, b_ih, W_ox, b_ox, W_oh, b_oh, W_ux, b_ux, W_uh, b_uh.
-/
import proofs.«167239_j63453846831535_1_alg».proof.Proof.Gen.KernelIdeal.Skeleton
import proofs.«167239_j63453846831535_1_alg».proof.Proof.TreeSpecArr
import proofs.«167239_j63453846831535_1_alg».proof.Proof.LibTreeOps

noncomputable section

namespace Cert.KernelIdeal.Pay

open Idealize.ShloMosaic Idealize.ShloMosaic.ValueIdx Cert.TreeSpec

/-- The stored hidden state of the tile, as a function of the nineteen loaded arrays. -/
def hTerm8 (v0 : Vec Ideal S1x300 .f32) (v2 v4 : Vec Ideal S1x4x150 .f32) (v11 : Vec Ideal S150x150 .f32)
    (v15 : Vec Ideal S1x150 .f32) (v20 : Vec Ideal S300x150 .f32) (v23 : Vec Ideal S1x150 .f32)
    (v33 : Vec Ideal S300x150 .f32) (v36 : Vec Ideal S1x150 .f32) (v40 : Vec Ideal S150x150 .f32)
    (v44 : Vec Ideal S1x150 .f32) (v49 : Vec Ideal S300x150 .f32) (v52 : Vec Ideal S1x150 .f32)
    (v56 : Vec Ideal S150x150 .f32) (v60 : Vec Ideal S1x150 .f32) (v65 : Vec Ideal S300x150 .f32)
    (v68 : Vec Ideal S1x150 .f32) (v72 : Vec Ideal S150x150 .f32) (v76 : Vec Ideal S1x150 .f32) : FVec Ideal S1x150 .f32 :=
  Gen.k8_pay2 (Gen.k8_pay6 v0 v2 v4 v11 v15 v20 v23)
    (Gen.k8_pay8 (Gen.k8_pay5 v2) (Gen.k8_pay7 v0 v33) v36 v40 v44)
    (Gen.k8_pay9 (Gen.k8_pay4 v0) (Gen.k8_pay5 v2) v49 v52 v56 v60)
    (Gen.k8_pay10 (Gen.k8_pay4 v0) (Gen.k8_pay5 v2) v65 v68 v72) v76

/-- The stored memory cell of the tile, as a function of the loaded arrays. -/
def cTerm8 (v0 : Vec Ideal S1x300 .f32) (v2 v4 : Vec Ideal S1x4x150 .f32) (v11 : Vec Ideal S150x150 .f32)
    (v15 : Vec Ideal S1x150 .f32) (v20 : Vec Ideal S300x150 .f32) (v23 : Vec Ideal S1x150 .f32)
    (v33 : Vec Ideal S300x150 .f32) (v36 : Vec Ideal S1x150 .f32) (v40 : Vec Ideal S150x150 .f32)
    (v44 : Vec Ideal S1x150 .f32) (v49 : Vec Ideal S300x150 .f32) (v52 : Vec Ideal S1x150 .f32)
    (v56 : Vec Ideal S150x150 .f32) (v60 : Vec Ideal S1x150 .f32) (v65 : Vec Ideal S300x150 .f32)
    (v68 : Vec Ideal S1x150 .f32) (v72 : Vec Ideal S150x150 .f32) (v76 : Vec Ideal S1x150 .f32) : FVec Ideal S1x150 .f32 :=
  Gen.k8_pay1 (Gen.k8_pay6 v0 v2 v4 v11 v15 v20 v23)
    (Gen.k8_pay8 (Gen.k8_pay5 v2) (Gen.k8_pay7 v0 v33) v36 v40 v44)
    (Gen.k8_pay10 (Gen.k8_pay4 v0) (Gen.k8_pay5 v2) v65 v68 v72) v76

section
variable (v0 : Vec Ideal S1x300 .f32) (v2 v4 : Vec Ideal S1x4x150 .f32) (v11 : Vec Ideal S150x150 .f32)
    (v15 : Vec Ideal S1x150 .f32) (v20 : Vec Ideal S300x150 .f32) (v23 : Vec Ideal S1x150 .f32)
    (v33 : Vec Ideal S300x150 .f32) (v36 : Vec Ideal S1x150 .f32) (v40 : Vec Ideal S150x150 .f32)
    (v44 : Vec Ideal S1x150 .f32) (v49 : Vec Ideal S300x150 .f32) (v52 : Vec Ideal S1x150 .f32)
    (v56 : Vec Ideal S150x150 .f32) (v60 : Vec Ideal S1x150 .f32) (v65 : Vec Ideal S300x150 .f32)
    (v68 : Vec Ideal S1x150 .f32) (v72 : Vec Ideal S150x150 .f32) (v76 : Vec Ideal S1x150 .f32)
  (r : Fin 1) (p : Fin 150)

/-- The children's memory cells weighted by their forget gates, summed, at (r, p). -/
theorem forget_sum8 : Gen.k8_pay6 v0 v2 v4 v11 v15 v20 v23 (ix2 r p)
    = ∑ k : Fin 4, Ideal.logistic (((∑ j : Fin 150, tile3 v2 r k j * mat v11 j p) + row v15 p)
        + (lin (tile2 v0) (mat v20) r p + row v23 p)) * tile3 v4 r k p := by
  unfold Gen.k8_pay6 Gen.k8_pay3 Gen.k8_pay4
  refine (Tree.Lib.sumMiddle_apply _ _ _ _ r p).trans (Finset.sum_congr rfl fun k _ => ?_)
  refine Tree.Lib.mulf_at (Tree.Lib.logistic_at (Tree.Lib.addf_at (Tree.Lib.addf_at ?_ ?_) ?_)) ?_
  · exact Tree.Lib.childW_apply 4 rfl v2 v11 _ _ _ _ none r k p
  · exact Tree.Lib.biasRow3_apply v15 _ _ _ r k p
  · exact (Tree.Lib.spreadMiddle_apply _ _ _ r k p).trans
      (Tree.Lib.addf_at (Tree.Lib.xW_apply v0 v20 _ _ none r p) (Tree.Lib.selfRow_apply v23 _ r p))
  · exact congrFun (shapeCast_self v4 _) (ix3 r k p)

/-- The input gate at (r, p): σ(((x · W_ix + b_ix) + s · W_ih) + b_ih). -/
theorem gate_i8 : Gen.k8_pay8 (Gen.k8_pay5 v2) (Gen.k8_pay7 v0 v33) v36 v40 v44 (ix2 r p)
    = Ideal.logistic (lin (tile2 v0) (mat v33) r p + row v36 p + lin (hsum (tile3 v2)) (mat v40) r p + row v44 p) := by
  unfold Gen.k8_pay8 Gen.k8_pay7 Gen.k8_pay5 Gen.k8_pay4 Gen.k8_pay3
  exact Tree.Lib.logistic_at (Tree.Lib.addf_at (Tree.Lib.addf_at (Tree.Lib.addf_at
    (Tree.Lib.xW_apply v0 v33 _ _ none r p) (Tree.Lib.selfRow_apply v36 _ r p))
    (Tree.Lib.hsumW_apply v2 v40 _ _ _ _ _ none r p)) (Tree.Lib.selfRow_apply v44 _ r p))

/-- The output gate at (r, p): σ(((x · W_ox + b_ox) + s · W_oh) + b_oh). -/
theorem gate_o8 : Gen.k8_pay9 (Gen.k8_pay4 v0) (Gen.k8_pay5 v2) v49 v52 v56 v60 (ix2 r p)
    = Ideal.logistic (lin (tile2 v0) (mat v49) r p + row v52 p + lin (hsum (tile3 v2)) (mat v56) r p + row v60 p) := by
  unfold Gen.k8_pay9 Gen.k8_pay5 Gen.k8_pay4 Gen.k8_pay3
  exact Tree.Lib.logistic_at (Tree.Lib.addf_at (Tree.Lib.addf_at (Tree.Lib.addf_at
    (Tree.Lib.xW_apply v0 v49 _ _ none r p) (Tree.Lib.selfRow_apply v52 _ r p))
    (Tree.Lib.hsumW_apply v2 v56 _ _ _ _ _ none r p)) (Tree.Lib.selfRow_apply v60 _ r p))

/-- The update before its last bias at (r, p): (x · W_ux + b_ux) + s · W_uh. -/
theorem update_xs8 : Gen.k8_pay10 (Gen.k8_pay4 v0) (Gen.k8_pay5 v2) v65 v68 v72 (ix2 r p)
    = lin (tile2 v0) (mat v65) r p + row v68 p + lin (hsum (tile3 v2)) (mat v72) r p := by
  unfold Gen.k8_pay10 Gen.k8_pay5 Gen.k8_pay4 Gen.k8_pay3
  exact Tree.Lib.addf_at (Tree.Lib.addf_at (Tree.Lib.xW_apply v0 v65 _ _ none r p) (Tree.Lib.selfRow_apply v68 _ r p))
    (Tree.Lib.hsumW_apply v2 v72 _ _ _ _ _ none r p)

/-- The stored memory cell at (r, p) is the recurrence's memory cell of an internal node. -/
theorem cTerm8_apply : cTerm8 v0 v2 v4 v11 v15 v20 v23 v33 v36 v40 v44 v49 v52 v56 v60 v65 v68 v72 v76 (ix2 r p)
    = intC (paramsOfRows v33 v36 v20 v23 v65 v68 v49 v52 v40 v44 v11 v15 v72 v76 v56 v60) (tile2 v0) (tile3 v2) (tile3 v4) r p := by
  unfold cTerm8 Gen.k8_pay1
  exact Tree.Lib.addf_at (Tree.Lib.mulf_at (gate_i8 v0 v2 v33 v36 v40 v44 r p)
    (Tree.Lib.tanh_at (Tree.Lib.addf_at (update_xs8 v0 v2 v65 v68 v72 r p) (Tree.Lib.selfRow_apply v76 _ r p))))
    (forget_sum8 v0 v2 v4 v11 v15 v20 v23 r p)

/-- The stored hidden state at (r, p) is the recurrence's hidden state of an internal node. -/
theorem hTerm8_apply : hTerm8 v0 v2 v4 v11 v15 v20 v23 v33 v36 v40 v44 v49 v52 v56 v60 v65 v68 v72 v76 (ix2 r p)
    = intH (paramsOfRows v33 v36 v20 v23 v65 v68 v49 v52 v40 v44 v11 v15 v72 v76 v56 v60) (tile2 v0) (tile3 v2) (tile3 v4) r p := by
  unfold hTerm8 Gen.k8_pay2
  exact Tree.Lib.mulf_at (gate_o8 v0 v2 v49 v52 v56 v60 r p)
    (Tree.Lib.tanh_at (cTerm8_apply v0 v2 v4 v11 v15 v20 v23 v33 v36 v40 v44 v49 v52 v56 v60 v65 v68 v72 v76 r p))

end

end Cert.KernelIdeal.Pay

end
-- ==== Proof.KerArr8.lean ====
/-
  The level of 1 internal nodes: from the tiles the grid's points write back to the two whole arrays.

  The grid has 1 point; point t handles the tile of nodes 1·t … 1·t + 0. Its input blocks are rows
  1·t + r of the input matrix and of the children's two arrays, and the sixteen parameter arrays whole (their
  index maps are constantly 0). The recurrence at a node reads only that node's rows, so what the point writes at row r
  of its two output blocks is the recurrence's value at node 1·t + r of the level; the output blocks tile the two
  output arrays (node R lies in point R / 1's block), so after the last point each array holds the level's values.
-/
import proofs.«167239_j63453846831535_1_alg».proof.Proof.KIRegion8
import proofs.«167239_j63453846831535_1_alg».proof.Proof.KerPay8
import proofs.«167239_j63453846831535_1_alg».proof.Proof.TreeSpecArr
import proofs.«167239_j63453846831535_1_alg».proof.Proof.TreeLocal
import Idealize.ShloMosaic.Lib.Pipeline.Value

set_option maxRecDepth 16384

noncomputable section

namespace Cert.KernelIdeal.Tree

open Cert.KernelIdeal Cert.KernelIdeal.Gen
open Idealize.ShloMosaic Idealize.ShloMosaic.TcCoe Idealize.ShloMosaic.ValueIdx
open Idealize.SL.Sem
open Idealize.ShloMosaic.Pipeline (Dat)
open Cert.TreeSpec

variable (V : (c : Dev nD) → (b : Ref sig .tc) → Buf (Elt Ideal) ((c : Thread nD τ).loc b)) (c : Dev nD)

/-! ## The index maps over the grid -/

theorem idx8_0 : ∀ t : Fin cfg8.N, win8_0.index t 0 = t.val ∧ win8_0.index t 1 = 0 :=
  (by decide +kernel : ∀ t : Fin grid8.N, win8_0.index t 0 = t.val ∧ win8_0.index t 1 = 0)
theorem idx8_1 : ∀ t : Fin cfg8.N, win8_1.index t 0 = t.val ∧ win8_1.index t 1 = 0 ∧ win8_1.index t 2 = 0 :=
  (by decide +kernel : ∀ t : Fin grid8.N, win8_1.index t 0 = t.val ∧ win8_1.index t 1 = 0 ∧ win8_1.index t 2 = 0)
theorem idx8_2 : ∀ t : Fin cfg8.N, win8_2.index t 0 = t.val ∧ win8_2.index t 1 = 0 ∧ win8_2.index t 2 = 0 :=
  (by decide +kernel : ∀ t : Fin grid8.N, win8_2.index t 0 = t.val ∧ win8_2.index t 1 = 0 ∧ win8_2.index t 2 = 0)
theorem idx8_3 : ∀ t : Fin cfg8.N, win8_3.index t 0 = 0 ∧ win8_3.index t 1 = 0 :=
  (by decide +kernel : ∀ t : Fin grid8.N, win8_3.index t 0 = 0 ∧ win8_3.index t 1 = 0)
theorem idx8_4 : ∀ t : Fin cfg8.N, win8_4.index t 0 = 0 ∧ win8_4.index t 1 = 0 :=
  (by decide +kernel : ∀ t : Fin grid8.N, win8_4.index t 0 = 0 ∧ win8_4.index t 1 = 0)
theorem idx8_5 : ∀ t : Fin cfg8.N, win8_5.index t 0 = 0 ∧ win8_5.index t 1 = 0 :=
  (by decide +kernel : ∀ t : Fin grid8.N, win8_5.index t 0 = 0 ∧ win8_5.index t 1 = 0)
theorem idx8_6 : ∀ t : Fin cfg8.N, win8_6.index t 0 = 0 ∧ win8_6.index t 1 = 0 :=
  (by decide +kernel : ∀ t : Fin grid8.N, win8_6.index t 0 = 0 ∧ win8_6.index t 1 = 0)
theorem idx8_7 : ∀ t : Fin cfg8.N, win8_7.index t 0 = 0 ∧ win8_7.index t 1 = 0 :=
  (by decide +kernel : ∀ t : Fin grid8.N, win8_7.index t 0 = 0 ∧ win8_7.index t 1 = 0)
theorem idx8_8 : ∀ t : Fin cfg8.N, win8_8.index t 0 = 0 ∧ win8_8.index t 1 = 0 :=
  (by decide +kernel : ∀ t : Fin grid8.N, win8_8.index t 0 = 0 ∧ win8_8.index t 1 = 0)
theorem idx8_9 : ∀ t : Fin cfg8.N, win8_9.index t 0 = 0 ∧ win8_9.index t 1 = 0 :=
  (by decide +kernel : ∀ t : Fin grid8.N, win8_9.index t 0 = 0 ∧ win8_9.index t 1 = 0)
theorem idx8_10 : ∀ t : Fin cfg8.N, win8_10.index t 0 = 0 ∧ win8_10.index t 1 = 0 :=
  (by decide +kernel : ∀ t : Fin grid8.N, win8_10.index t 0 = 0 ∧ win8_10.index t 1 = 0)
theorem idx8_11 : ∀ t : Fin cfg8.N, win8_11.index t 0 = 0 ∧ win8_11.index t 1 = 0 :=
  (by decide +kernel : ∀ t : Fin grid8.N, win8_11.index t 0 = 0 ∧ win8_11.index t 1 = 0)
theorem idx8_12 : ∀ t : Fin cfg8.N, win8_12.index t 0 = 0 ∧ win8_12.index t 1 = 0 :=
  (by decide +kernel : ∀ t : Fin grid8.N, win8_12.index t 0 = 0 ∧ win8_12.index t 1 = 0)
theorem idx8_13 : ∀ t : Fin cfg8.N, win8_13.index t 0 = 0 ∧ win8_13.index t 1 = 0 :=
  (by decide +kernel : ∀ t : Fin grid8.N, win8_13.index t 0 = 0 ∧ win8_13.index t 1 = 0)
theorem idx8_14 : ∀ t : Fin cfg8.N, win8_14.index t 0 = 0 ∧ win8_14.index t 1 = 0 :=
  (by decide +kernel : ∀ t : Fin grid8.N, win8_14.index t 0 = 0 ∧ win8_14.index t 1 = 0)
theorem idx8_15 : ∀ t : Fin cfg8.N, win8_15.index t 0 = 0 ∧ win8_15.index t 1 = 0 :=
  (by decide +kernel : ∀ t : Fin grid8.N, win8_15.index t 0 = 0 ∧ win8_15.index t 1 = 0)
theorem idx8_16 : ∀ t : Fin cfg8.N, win8_16.index t 0 = 0 ∧ win8_16.index t 1 = 0 :=
  (by decide +kernel : ∀ t : Fin grid8.N, win8_16.index t 0 = 0 ∧ win8_16.index t 1 = 0)
theorem idx8_17 : ∀ t : Fin cfg8.N, win8_17.index t 0 = 0 ∧ win8_17.index t 1 = 0 :=
  (by decide +kernel : ∀ t : Fin grid8.N, win8_17.index t 0 = 0 ∧ win8_17.index t 1 = 0)
theorem idx8_18 : ∀ t : Fin cfg8.N, win8_18.index t 0 = 0 ∧ win8_18.index t 1 = 0 :=
  (by decide +kernel : ∀ t : Fin grid8.N, win8_18.index t 0 = 0 ∧ win8_18.index t 1 = 0)
theorem idx8_19 : ∀ t : Fin cfg8.N, win8_19.index t 0 = t.val ∧ win8_19.index t 1 = 0 :=
  (by decide +kernel : ∀ t : Fin grid8.N, win8_19.index t 0 = t.val ∧ win8_19.index t 1 = 0)
theorem idx8_20 : ∀ t : Fin cfg8.N, win8_20.index t 0 = t.val ∧ win8_20.index t 1 = 0 :=
  (by decide +kernel : ∀ t : Fin grid8.N, win8_20.index t 0 = t.val ∧ win8_20.index t 1 = 0)

/-! ## The input blocks as parts of their arrays -/

/-- Row r of the input tile at point t is row 1·t + r of the input matrix. -/
theorem blk8_0 (t : Fin cfg8.N) (r : Fin 1) (k : Fin 300) (R : Fin 1) (hR : R.val = t.val * 1 + r.val) :
    (iblk8 V c 0 t : S1x300.Idx → EReal) (ix2 r k) = (V c (Pipeline.arrRef spec8 0) : (⟨2, ![1, 300]⟩ : Shape).Idx → EReal) (ix2 R k) := by
  have hi := idx8_0 t
  unfold iblk8
  rw [View.read_apply]
  show V c (Pipeline.arrRef spec8 0) _ = V c (Pipeline.arrRef spec8 0) _
  congr 1
  funext a
  apply Fin.ext
  match a with
  | ⟨0, _⟩ => show win8_0.index t 0 * 1 + 1 * r.val = R.val; rw [hi.1, hR]; omega
  | ⟨1, _⟩ => show win8_0.index t 1 * 300 + 1 * k.val = k.val; rw [hi.2]; omega

/-- The children of node r of the tile at point t are those of node 1·t + r of the level (window 1). -/
theorem blk8_1 (t : Fin cfg8.N) (r : Fin 1) (k : Fin 4) (j : Fin 150) (R : Fin 1) (hR : R.val = t.val * 1 + r.val) :
    (iblk8 V c 1 t : S1x4x150.Idx → EReal) (ix3 r k j) = (V c (Pipeline.arrRef spec8 1) : (⟨3, ![1, 4, 150]⟩ : Shape).Idx → EReal) (ix3 R k j) := by
  have hi := idx8_1 t
  unfold iblk8
  rw [View.read_apply]
  show V c (Pipeline.arrRef spec8 1) _ = V c (Pipeline.arrRef spec8 1) _
  congr 1
  funext a
  apply Fin.ext
  match a with
  | ⟨0, _⟩ => show win8_1.index t 0 * 1 + 1 * r.val = R.val; rw [hi.1, hR]; omega
  | ⟨1, _⟩ => show win8_1.index t 1 * 4 + 1 * k.val = k.val; rw [hi.2.1]; omega
  | ⟨2, _⟩ => show win8_1.index t 2 * 150 + 1 * j.val = j.val; rw [hi.2.2]; omega

/-- The children of node r of the tile at point t are those of node 1·t + r of the level (window 2). -/
theorem blk8_2 (t : Fin cfg8.N) (r : Fin 1) (k : Fin 4) (j : Fin 150) (R : Fin 1) (hR : R.val = t.val * 1 + r.val) :
    (iblk8 V c 2 t : S1x4x150.Idx → EReal) (ix3 r k j) = (V c (Pipeline.arrRef spec8 2) : (⟨3, ![1, 4, 150]⟩ : Shape).Idx → EReal) (ix3 R k j) := by
  have hi := idx8_2 t
  unfold iblk8
  rw [View.read_apply]
  show V c (Pipeline.arrRef spec8 2) _ = V c (Pipeline.arrRef spec8 2) _
  congr 1
  funext a
  apply Fin.ext
  match a with
  | ⟨0, _⟩ => show win8_2.index t 0 * 1 + 1 * r.val = R.val; rw [hi.1, hR]; omega
  | ⟨1, _⟩ => show win8_2.index t 1 * 4 + 1 * k.val = k.val; rw [hi.2.1]; omega
  | ⟨2, _⟩ => show win8_2.index t 2 * 150 + 1 * j.val = j.val; rw [hi.2.2]; omega

/-- Window 3's block at every point is its whole array. -/
theorem blk8_3 (t : Fin cfg8.N) (y : S300x150.Idx) :
    (iblk8 V c 3 t : S300x150.Idx → EReal) y = (V c (Pipeline.arrRef spec8 3) : S300x150.Idx → EReal) y := by
  have hi := idx8_3 t
  unfold iblk8
  rw [View.read_apply]
  show V c (Pipeline.arrRef spec8 3) _ = V c (Pipeline.arrRef spec8 3) _
  congr 1
  funext a
  apply Fin.ext
  match a with
  | ⟨0, _⟩ => show win8_3.index t 0 * 300 + 1 * (y 0).val = (y 0).val; rw [hi.1]; omega
  | ⟨1, _⟩ => show win8_3.index t 1 * 150 + 1 * (y 1).val = (y 1).val; rw [hi.2]; omega

/-- Window 4's block at every point is its whole array. -/
theorem blk8_4 (t : Fin cfg8.N) (y : S1x150.Idx) :
    (iblk8 V c 4 t : S1x150.Idx → EReal) y = (V c (Pipeline.arrRef spec8 4) : S1x150.Idx → EReal) y := by
  have hi := idx8_4 t
  unfold iblk8
  rw [View.read_apply]
  show V c (Pipeline.arrRef spec8 4) _ = V c (Pipeline.arrRef spec8 4) _
  congr 1
  funext a
  apply Fin.ext
  match a with
  | ⟨0, _⟩ => show win8_4.index t 0 * 1 + 1 * (y 0).val = (y 0).val; rw [hi.1]; omega
  | ⟨1, _⟩ => show win8_4.index t 1 * 150 + 1 * (y 1).val = (y 1).val; rw [hi.2]; omega

/-- Window 5's block at every point is its whole array. -/
theorem blk8_5 (t : Fin cfg8.N) (y : S300x150.Idx) :
    (iblk8 V c 5 t : S300x150.Idx → EReal) y = (V c (Pipeline.arrRef spec8 5) : S300x150.Idx → EReal) y := by
  have hi := idx8_5 t
  unfold iblk8
  rw [View.read_apply]
  show V c (Pipeline.arrRef spec8 5) _ = V c (Pipeline.arrRef spec8 5) _
  congr 1
  funext a
  apply Fin.ext
  match a with
  | ⟨0, _⟩ => show win8_5.index t 0 * 300 + 1 * (y 0).val = (y 0).val; rw [hi.1]; omega
  | ⟨1, _⟩ => show win8_5.index t 1 * 150 + 1 * (y 1).val = (y 1).val; rw [hi.2]; omega

/-- Window 6's block at every point is its whole array. -/
theorem blk8_6 (t : Fin cfg8.N) (y : S1x150.Idx) :
    (iblk8 V c 6 t : S1x150.Idx → EReal) y = (V c (Pipeline.arrRef spec8 6) : S1x150.Idx → EReal) y := by
  have hi := idx8_6 t
  unfold iblk8
  rw [View.read_apply]
  show V c (Pipeline.arrRef spec8 6) _ = V c (Pipeline.arrRef spec8 6) _
  congr 1
  funext a
  apply Fin.ext
  match a with
  | ⟨0, _⟩ => show win8_6.index t 0 * 1 + 1 * (y 0).val = (y 0).val; rw [hi.1]; omega
  | ⟨1, _⟩ => show win8_6.index t 1 * 150 + 1 * (y 1).val = (y 1).val; rw [hi.2]; omega

/-- Window 7's block at every point is its whole array. -/
theorem blk8_7 (t : Fin cfg8.N) (y : S300x150.Idx) :
    (iblk8 V c 7 t : S300x150.Idx → EReal) y = (V c (Pipeline.arrRef spec8 7) : S300x150.Idx → EReal) y := by
  have hi := idx8_7 t
  unfold iblk8
  rw [View.read_apply]
  show V c (Pipeline.arrRef spec8 7) _ = V c (Pipeline.arrRef spec8 7) _
  congr 1
  funext a
  apply Fin.ext
  match a with
  | ⟨0, _⟩ => show win8_7.index t 0 * 300 + 1 * (y 0).val = (y 0).val; rw [hi.1]; omega
  | ⟨1, _⟩ => show win8_7.index t 1 * 150 + 1 * (y 1).val = (y 1).val; rw [hi.2]; omega

/-- Window 8's block at every point is its whole array. -/
theorem blk8_8 (t : Fin cfg8.N) (y : S1x150.Idx) :
    (iblk8 V c 8 t : S1x150.Idx → EReal) y = (V c (Pipeline.arrRef spec8 8) : S1x150.Idx → EReal) y := by
  have hi := idx8_8 t
  unfold iblk8
  rw [View.read_apply]
  show V c (Pipeline.arrRef spec8 8) _ = V c (Pipeline.arrRef spec8 8) _
  congr 1
  funext a
  apply Fin.ext
  match a with
  | ⟨0, _⟩ => show win8_8.index t 0 * 1 + 1 * (y 0).val = (y 0).val; rw [hi.1]; omega
  | ⟨1, _⟩ => show win8_8.index t 1 * 150 + 1 * (y 1).val = (y 1).val; rw [hi.2]; omega

/-- Window 9's block at every point is its whole array. -/
theorem blk8_9 (t : Fin cfg8.N) (y : S300x150.Idx) :
    (iblk8 V c 9 t : S300x150.Idx → EReal) y = (V c (Pipeline.arrRef spec8 9) : S300x150.Idx → EReal) y := by
  have hi := idx8_9 t
  unfold iblk8
  rw [View.read_apply]
  show V c (Pipeline.arrRef spec8 9) _ = V c (Pipeline.arrRef spec8 9) _
  congr 1
  funext a
  apply Fin.ext
  match a with
  | ⟨0, _⟩ => show win8_9.index t 0 * 300 + 1 * (y 0).val = (y 0).val; rw [hi.1]; omega
  | ⟨1, _⟩ => show win8_9.index t 1 * 150 + 1 * (y 1).val = (y 1).val; rw [hi.2]; omega

/-- Window 10's block at every point is its whole array. -/
theorem blk8_10 (t : Fin cfg8.N) (y : S1x150.Idx) :
    (iblk8 V c 10 t : S1x150.Idx → EReal) y = (V c (Pipeline.arrRef spec8 10) : S1x150.Idx → EReal) y := by
  have hi := idx8_10 t
  unfold iblk8
  rw [View.read_apply]
  show V c (Pipeline.arrRef spec8 10) _ = V c (Pipeline.arrRef spec8 10) _
  congr 1
  funext a
  apply Fin.ext
  match a with
  | ⟨0, _⟩ => show win8_10.index t 0 * 1 + 1 * (y 0).val = (y 0).val; rw [hi.1]; omega
  | ⟨1, _⟩ => show win8_10.index t 1 * 150 + 1 * (y 1).val = (y 1).val; rw [hi.2]; omega

/-- Window 11's block at every point is its whole array. -/
theorem blk8_11 (t : Fin cfg8.N) (y : S150x150.Idx) :
    (iblk8 V c 11 t : S150x150.Idx → EReal) y = (V c (Pipeline.arrRef spec8 11) : S150x150.Idx → EReal) y := by
  have hi := idx8_11 t
  unfold iblk8
  rw [View.read_apply]
  show V c (Pipeline.arrRef spec8 11) _ = V c (Pipeline.arrRef spec8 11) _
  congr 1
  funext a
  apply Fin.ext
  match a with
  | ⟨0, _⟩ => show win8_11.index t 0 * 150 + 1 * (y 0).val = (y 0).val; rw [hi.1]; omega
  | ⟨1, _⟩ => show win8_11.index t 1 * 150 + 1 * (y 1).val = (y 1).val; rw [hi.2]; omega

/-- Window 12's block at every point is its whole array. -/
theorem blk8_12 (t : Fin cfg8.N) (y : S1x150.Idx) :
    (iblk8 V c 12 t : S1x150.Idx → EReal) y = (V c (Pipeline.arrRef spec8 12) : S1x150.Idx → EReal) y := by
  have hi := idx8_12 t
  unfold iblk8
  rw [View.read_apply]
  show V c (Pipeline.arrRef spec8 12) _ = V c (Pipeline.arrRef spec8 12) _
  congr 1
  funext a
  apply Fin.ext
  match a with
  | ⟨0, _⟩ => show win8_12.index t 0 * 1 + 1 * (y 0).val = (y 0).val; rw [hi.1]; omega
  | ⟨1, _⟩ => show win8_12.index t 1 * 150 + 1 * (y 1).val = (y 1).val; rw [hi.2]; omega

/-- Window 13's block at every point is its whole array. -/
theorem blk8_13 (t : Fin cfg8.N) (y : S150x150.Idx) :
    (iblk8 V c 13 t : S150x150.Idx → EReal) y = (V c (Pipeline.arrRef spec8 13) : S150x150.Idx → EReal) y := by
  have hi := idx8_13 t
  unfold iblk8
  rw [View.read_apply]
  show V c (Pipeline.arrRef spec8 13) _ = V c (Pipeline.arrRef spec8 13) _
  congr 1
  funext a
  apply Fin.ext
  match a with
  | ⟨0, _⟩ => show win8_13.index t 0 * 150 + 1 * (y 0).val = (y 0).val; rw [hi.1]; omega
  | ⟨1, _⟩ => show win8_13.index t 1 * 150 + 1 * (y 1).val = (y 1).val; rw [hi.2]; omega

/-- Window 14's block at every point is its whole array. -/
theorem blk8_14 (t : Fin cfg8.N) (y : S1x150.Idx) :
    (iblk8 V c 14 t : S1x150.Idx → EReal) y = (V c (Pipeline.arrRef spec8 14) : S1x150.Idx → EReal) y := by
  have hi := idx8_14 t
  unfold iblk8
  rw [View.read_apply]
  show V c (Pipeline.arrRef spec8 14) _ = V c (Pipeline.arrRef spec8 14) _
  congr 1
  funext a
  apply Fin.ext
  match a with
  | ⟨0, _⟩ => show win8_14.index t 0 * 1 + 1 * (y 0).val = (y 0).val; rw [hi.1]; omega
  | ⟨1, _⟩ => show win8_14.index t 1 * 150 + 1 * (y 1).val = (y 1).val; rw [hi.2]; omega

/-- Window 15's block at every point is its whole array. -/
theorem blk8_15 (t : Fin cfg8.N) (y : S150x150.Idx) :
    (iblk8 V c 15 t : S150x150.Idx → EReal) y = (V c (Pipeline.arrRef spec8 15) : S150x150.Idx → EReal) y := by
  have hi := idx8_15 t
  unfold iblk8
  rw [View.read_apply]
  show V c (Pipeline.arrRef spec8 15) _ = V c (Pipeline.arrRef spec8 15) _
  congr 1
  funext a
  apply Fin.ext
  match a with
  | ⟨0, _⟩ => show win8_15.index t 0 * 150 + 1 * (y 0).val = (y 0).val; rw [hi.1]; omega
  | ⟨1, _⟩ => show win8_15.index t 1 * 150 + 1 * (y 1).val = (y 1).val; rw [hi.2]; omega

/-- Window 16's block at every point is its whole array. -/
theorem blk8_16 (t : Fin cfg8.N) (y : S1x150.Idx) :
    (iblk8 V c 16 t : S1x150.Idx → EReal) y = (V c (Pipeline.arrRef spec8 16) : S1x150.Idx → EReal) y := by
  have hi := idx8_16 t
  unfold iblk8
  rw [View.read_apply]
  show V c (Pipeline.arrRef spec8 16) _ = V c (Pipeline.arrRef spec8 16) _
  congr 1
  funext a
  apply Fin.ext
  match a with
  | ⟨0, _⟩ => show win8_16.index t 0 * 1 + 1 * (y 0).val = (y 0).val; rw [hi.1]; omega
  | ⟨1, _⟩ => show win8_16.index t 1 * 150 + 1 * (y 1).val = (y 1).val; rw [hi.2]; omega

/-- Window 17's block at every point is its whole array. -/
theorem blk8_17 (t : Fin cfg8.N) (y : S150x150.Idx) :
    (iblk8 V c 17 t : S150x150.Idx → EReal) y = (V c (Pipeline.arrRef spec8 17) : S150x150.Idx → EReal) y := by
  have hi := idx8_17 t
  unfold iblk8
  rw [View.read_apply]
  show V c (Pipeline.arrRef spec8 17) _ = V c (Pipeline.arrRef spec8 17) _
  congr 1
  funext a
  apply Fin.ext
  match a with
  | ⟨0, _⟩ => show win8_17.index t 0 * 150 + 1 * (y 0).val = (y 0).val; rw [hi.1]; omega
  | ⟨1, _⟩ => show win8_17.index t 1 * 150 + 1 * (y 1).val = (y 1).val; rw [hi.2]; omega

/-- Window 18's block at every point is its whole array. -/
theorem blk8_18 (t : Fin cfg8.N) (y : S1x150.Idx) :
    (iblk8 V c 18 t : S1x150.Idx → EReal) y = (V c (Pipeline.arrRef spec8 18) : S1x150.Idx → EReal) y := by
  have hi := idx8_18 t
  unfold iblk8
  rw [View.read_apply]
  show V c (Pipeline.arrRef spec8 18) _ = V c (Pipeline.arrRef spec8 18) _
  congr 1
  funext a
  apply Fin.ext
  match a with
  | ⟨0, _⟩ => show win8_18.index t 0 * 1 + 1 * (y 0).val = (y 0).val; rw [hi.1]; omega
  | ⟨1, _⟩ => show win8_18.index t 1 * 150 + 1 * (y 1).val = (y 1).val; rw [hi.2]; omega

/-! ## What the body leaves in the output blocks -/

/-- The hidden-state block after the body is the tile's stored hidden state, as a function of the input blocks. -/
theorem out8_19_eq (x0 : Vec Ideal S1x300 .f32) (x1 : Vec Ideal S1x4x150 .f32) (x2 : Vec Ideal S1x4x150 .f32) (x3 : Vec Ideal S300x150 .f32) (x4 : Vec Ideal S1x150 .f32) (x5 : Vec Ideal S300x150 .f32) (x6 : Vec Ideal S1x150 .f32) (x7 : Vec Ideal S300x150 .f32) (x8 : Vec Ideal S1x150 .f32) (x9 : Vec Ideal S300x150 .f32) (x10 : Vec Ideal S1x150 .f32) (x11 : Vec Ideal S150x150 .f32) (x12 : Vec Ideal S1x150 .f32) (x13 : Vec Ideal S150x150 .f32) (x14 : Vec Ideal S1x150 .f32) (x15 : Vec Ideal S150x150 .f32) (x16 : Vec Ideal S1x150 .f32) (x17 : Vec Ideal S150x150 .f32) (x18 : Vec Ideal S1x150 .f32) :
    out8_19 x0 x1 x2 x3 x4 x5 x6 x7 x8 x9 x10 x11 x12 x13 x14 x15 x16 x17 x18 = Pay.hTerm8 x0 x1 x2 x13 x14 x5 x6 x3 x4 x11 x12 x9 x10 x17 x18 x7 x8 x15 x16 := by
  unfold out8_19
  rw [View.canon_unit_zero zero_off2]
  simp only [View.ld_unit_zero (S := S1x300) zero_off2, View.ld_unit_zero (S := S1x4x150) zero_off3, View.ld_unit_zero (S := S300x150) zero_off2, View.ld_unit_zero (S := S1x150) zero_off2, View.ld_unit_zero (S := S150x150) zero_off2]
  rfl

/-- The memory-cell block after the body is the tile's stored memory cell, as a function of the input blocks. -/
theorem out8_20_eq (x0 : Vec Ideal S1x300 .f32) (x1 : Vec Ideal S1x4x150 .f32) (x2 : Vec Ideal S1x4x150 .f32) (x3 : Vec Ideal S300x150 .f32) (x4 : Vec Ideal S1x150 .f32) (x5 : Vec Ideal S300x150 .f32) (x6 : Vec Ideal S1x150 .f32) (x7 : Vec Ideal S300x150 .f32) (x8 : Vec Ideal S1x150 .f32) (x9 : Vec Ideal S300x150 .f32) (x10 : Vec Ideal S1x150 .f32) (x11 : Vec Ideal S150x150 .f32) (x12 : Vec Ideal S1x150 .f32) (x13 : Vec Ideal S150x150 .f32) (x14 : Vec Ideal S1x150 .f32) (x15 : Vec Ideal S150x150 .f32) (x16 : Vec Ideal S1x150 .f32) (x17 : Vec Ideal S150x150 .f32) (x18 : Vec Ideal S1x150 .f32) :
    out8_20 x0 x1 x2 x3 x4 x5 x6 x7 x8 x9 x10 x11 x12 x13 x14 x15 x16 x17 x18 = Pay.cTerm8 x0 x1 x2 x13 x14 x5 x6 x3 x4 x11 x12 x9 x10 x17 x18 x7 x8 x15 x16 := by
  unfold out8_20
  rw [View.canon_unit_zero zero_off2]
  simp only [View.ld_unit_zero (S := S1x300) zero_off2, View.ld_unit_zero (S := S1x4x150) zero_off3, View.ld_unit_zero (S := S300x150) zero_off2, View.ld_unit_zero (S := S1x150) zero_off2, View.ld_unit_zero (S := S150x150) zero_off2]
  rfl

section
variable (P : Params) (X : Fin 1 → Fin 300 → EReal) (CH CC : Fin 1 → Fin 4 → Fin 150 → EReal)

/-- The parameter blocks at any point are the parameters. -/
theorem params8
    (h3 : ∀ k p, (V c (Pipeline.arrRef spec8 3) : S300x150.Idx → EReal) (ix2 k p) = P.Wix k p)
    (h4 : ∀ p, (V c (Pipeline.arrRef spec8 4) : S1x150.Idx → EReal) (ix2 0 p) = P.bix p)
    (h5 : ∀ k p, (V c (Pipeline.arrRef spec8 5) : S300x150.Idx → EReal) (ix2 k p) = P.Wfx k p)
    (h6 : ∀ p, (V c (Pipeline.arrRef spec8 6) : S1x150.Idx → EReal) (ix2 0 p) = P.bfx p)
    (h7 : ∀ k p, (V c (Pipeline.arrRef spec8 7) : S300x150.Idx → EReal) (ix2 k p) = P.Wux k p)
    (h8 : ∀ p, (V c (Pipeline.arrRef spec8 8) : S1x150.Idx → EReal) (ix2 0 p) = P.bux p)
    (h9 : ∀ k p, (V c (Pipeline.arrRef spec8 9) : S300x150.Idx → EReal) (ix2 k p) = P.Wox k p)
    (h10 : ∀ p, (V c (Pipeline.arrRef spec8 10) : S1x150.Idx → EReal) (ix2 0 p) = P.box p)
    (h11 : ∀ k p, (V c (Pipeline.arrRef spec8 11) : S150x150.Idx → EReal) (ix2 k p) = P.Wih k p)
    (h12 : ∀ p, (V c (Pipeline.arrRef spec8 12) : S1x150.Idx → EReal) (ix2 0 p) = P.bih p)
    (h13 : ∀ k p, (V c (Pipeline.arrRef spec8 13) : S150x150.Idx → EReal) (ix2 k p) = P.Wfh k p)
    (h14 : ∀ p, (V c (Pipeline.arrRef spec8 14) : S1x150.Idx → EReal) (ix2 0 p) = P.bfh p)
    (h15 : ∀ k p, (V c (Pipeline.arrRef spec8 15) : S150x150.Idx → EReal) (ix2 k p) = P.Wuh k p)
    (h16 : ∀ p, (V c (Pipeline.arrRef spec8 16) : S1x150.Idx → EReal) (ix2 0 p) = P.buh p)
    (h17 : ∀ k p, (V c (Pipeline.arrRef spec8 17) : S150x150.Idx → EReal) (ix2 k p) = P.Woh k p)
    (h18 : ∀ p, (V c (Pipeline.arrRef spec8 18) : S1x150.Idx → EReal) (ix2 0 p) = P.boh p)
    (t : Fin cfg8.N) :
    paramsOfRows (iblk8 V c 3 t) (iblk8 V c 4 t) (iblk8 V c 5 t) (iblk8 V c 6 t) (iblk8 V c 7 t) (iblk8 V c 8 t) (iblk8 V c 9 t) (iblk8 V c 10 t) (iblk8 V c 11 t) (iblk8 V c 12 t) (iblk8 V c 13 t) (iblk8 V c 14 t) (iblk8 V c 15 t) (iblk8 V c 16 t) (iblk8 V c 17 t) (iblk8 V c 18 t) = P :=
  Params.eq_of_fields P
    (funext fun k => funext fun p => (blk8_3 V c t (ix2 k p)).trans (h3 k p))
    (funext fun p => (blk8_4 V c t (ix2 0 p)).trans (h4 p))
    (funext fun k => funext fun p => (blk8_5 V c t (ix2 k p)).trans (h5 k p))
    (funext fun p => (blk8_6 V c t (ix2 0 p)).trans (h6 p))
    (funext fun k => funext fun p => (blk8_7 V c t (ix2 k p)).trans (h7 k p))
    (funext fun p => (blk8_8 V c t (ix2 0 p)).trans (h8 p))
    (funext fun k => funext fun p => (blk8_9 V c t (ix2 k p)).trans (h9 k p))
    (funext fun p => (blk8_10 V c t (ix2 0 p)).trans (h10 p))
    (funext fun k => funext fun p => (blk8_11 V c t (ix2 k p)).trans (h11 k p))
    (funext fun p => (blk8_12 V c t (ix2 0 p)).trans (h12 p))
    (funext fun k => funext fun p => (blk8_13 V c t (ix2 k p)).trans (h13 k p))
    (funext fun p => (blk8_14 V c t (ix2 0 p)).trans (h14 p))
    (funext fun k => funext fun p => (blk8_15 V c t (ix2 k p)).trans (h15 k p))
    (funext fun p => (blk8_16 V c t (ix2 0 p)).trans (h16 p))
    (funext fun k => funext fun p => (blk8_17 V c t (ix2 k p)).trans (h17 k p))
    (funext fun p => (blk8_18 V c t (ix2 0 p)).trans (h18 p))

/-- Row r of the hidden-state block at point t is the hidden state of node 1·t + r. -/
theorem tile8_19
    (h0 : ∀ r k, (V c (Pipeline.arrRef spec8 0) : (⟨2, ![1, 300]⟩ : Shape).Idx → EReal) (ix2 r k) = X r k)
    (h1 : ∀ r k j, (V c (Pipeline.arrRef spec8 1) : (⟨3, ![1, 4, 150]⟩ : Shape).Idx → EReal) (ix3 r k j) = CH r k j)
    (h2 : ∀ r k j, (V c (Pipeline.arrRef spec8 2) : (⟨3, ![1, 4, 150]⟩ : Shape).Idx → EReal) (ix3 r k j) = CC r k j)
    (h3 : ∀ k p, (V c (Pipeline.arrRef spec8 3) : S300x150.Idx → EReal) (ix2 k p) = P.Wix k p)
    (h4 : ∀ p, (V c (Pipeline.arrRef spec8 4) : S1x150.Idx → EReal) (ix2 0 p) = P.bix p)
    (h5 : ∀ k p, (V c (Pipeline.arrRef spec8 5) : S300x150.Idx → EReal) (ix2 k p) = P.Wfx k p)
    (h6 : ∀ p, (V c (Pipeline.arrRef spec8 6) : S1x150.Idx → EReal) (ix2 0 p) = P.bfx p)
    (h7 : ∀ k p, (V c (Pipeline.arrRef spec8 7) : S300x150.Idx → EReal) (ix2 k p) = P.Wux k p)
    (h8 : ∀ p, (V c (Pipeline.arrRef spec8 8) : S1x150.Idx → EReal) (ix2 0 p) = P.bux p)
    (h9 : ∀ k p, (V c (Pipeline.arrRef spec8 9) : S300x150.Idx → EReal) (ix2 k p) = P.Wox k p)
    (h10 : ∀ p, (V c (Pipeline.arrRef spec8 10) : S1x150.Idx → EReal) (ix2 0 p) = P.box p)
    (h11 : ∀ k p, (V c (Pipeline.arrRef spec8 11) : S150x150.Idx → EReal) (ix2 k p) = P.Wih k p)
    (h12 : ∀ p, (V c (Pipeline.arrRef spec8 12) : S1x150.Idx → EReal) (ix2 0 p) = P.bih p)
    (h13 : ∀ k p, (V c (Pipeline.arrRef spec8 13) : S150x150.Idx → EReal) (ix2 k p) = P.Wfh k p)
    (h14 : ∀ p, (V c (Pipeline.arrRef spec8 14) : S1x150.Idx → EReal) (ix2 0 p) = P.bfh p)
    (h15 : ∀ k p, (V c (Pipeline.arrRef spec8 15) : S150x150.Idx → EReal) (ix2 k p) = P.Wuh k p)
    (h16 : ∀ p, (V c (Pipeline.arrRef spec8 16) : S1x150.Idx → EReal) (ix2 0 p) = P.buh p)
    (h17 : ∀ k p, (V c (Pipeline.arrRef spec8 17) : S150x150.Idx → EReal) (ix2 k p) = P.Woh k p)
    (h18 : ∀ p, (V c (Pipeline.arrRef spec8 18) : S1x150.Idx → EReal) (ix2 0 p) = P.boh p)
    (t : Fin cfg8.N) (r : Fin 1) (p : Fin 150) (R : Fin 1) (hR : R.val = t.val * 1 + r.val) :
    ((dat8 V c).after 19 t : S1x150.Idx → EReal) (ix2 r p) = intH P X CH CC R p := by
  rw [after8_19, out8_19_eq]
  refine (Pay.hTerm8_apply (iblk8 V c 0 t) (iblk8 V c 1 t) (iblk8 V c 2 t) (iblk8 V c 13 t) (iblk8 V c 14 t) (iblk8 V c 5 t) (iblk8 V c 6 t) (iblk8 V c 3 t) (iblk8 V c 4 t) (iblk8 V c 11 t) (iblk8 V c 12 t) (iblk8 V c 9 t) (iblk8 V c 10 t) (iblk8 V c 17 t) (iblk8 V c 18 t) (iblk8 V c 7 t) (iblk8 V c 8 t) (iblk8 V c 15 t) (iblk8 V c 16 t) r p).trans ?_
  exact intH_local (params8 V c P h3 h4 h5 h6 h7 h8 h9 h10 h11 h12 h13 h14 h15 h16 h17 h18 t)
    (funext fun k => (blk8_0 V c t r k R hR).trans (h0 R k))
    (funext fun k => funext fun j => (blk8_1 V c t r k j R hR).trans (h1 R k j))
    (funext fun k => funext fun j => (blk8_2 V c t r k j R hR).trans (h2 R k j)) p

/-- Row r of the memory-cell block at point t is the memory cell of node 1·t + r. -/
theorem tile8_20
    (h0 : ∀ r k, (V c (Pipeline.arrRef spec8 0) : (⟨2, ![1, 300]⟩ : Shape).Idx → EReal) (ix2 r k) = X r k)
    (h1 : ∀ r k j, (V c (Pipeline.arrRef spec8 1) : (⟨3, ![1, 4, 150]⟩ : Shape).Idx → EReal) (ix3 r k j) = CH r k j)
    (h2 : ∀ r k j, (V c (Pipeline.arrRef spec8 2) : (⟨3, ![1, 4, 150]⟩ : Shape).Idx → EReal) (ix3 r k j) = CC r k j)
    (h3 : ∀ k p, (V c (Pipeline.arrRef spec8 3) : S300x150.Idx → EReal) (ix2 k p) = P.Wix k p)
    (h4 : ∀ p, (V c (Pipeline.arrRef spec8 4) : S1x150.Idx → EReal) (ix2 0 p) = P.bix p)
    (h5 : ∀ k p, (V c (Pipeline.arrRef spec8 5) : S300x150.Idx → EReal) (ix2 k p) = P.Wfx k p)
    (h6 : ∀ p, (V c (Pipeline.arrRef spec8 6) : S1x150.Idx → EReal) (ix2 0 p) = P.bfx p)
    (h7 : ∀ k p, (V c (Pipeline.arrRef spec8 7) : S300x150.Idx → EReal) (ix2 k p) = P.Wux k p)
    (h8 : ∀ p, (V c (Pipeline.arrRef spec8 8) : S1x150.Idx → EReal) (ix2 0 p) = P.bux p)
    (h9 : ∀ k p, (V c (Pipeline.arrRef spec8 9) : S300x150.Idx → EReal) (ix2 k p) = P.Wox k p)
    (h10 : ∀ p, (V c (Pipeline.arrRef spec8 10) : S1x150.Idx → EReal) (ix2 0 p) = P.box p)
    (h11 : ∀ k p, (V c (Pipeline.arrRef spec8 11) : S150x150.Idx → EReal) (ix2 k p) = P.Wih k p)
    (h12 : ∀ p, (V c (Pipeline.arrRef spec8 12) : S1x150.Idx → EReal) (ix2 0 p) = P.bih p)
    (h13 : ∀ k p, (V c (Pipeline.arrRef spec8 13) : S150x150.Idx → EReal) (ix2 k p) = P.Wfh k p)
    (h14 : ∀ p, (V c (Pipeline.arrRef spec8 14) : S1x150.Idx → EReal) (ix2 0 p) = P.bfh p)
    (h15 : ∀ k p, (V c (Pipeline.arrRef spec8 15) : S150x150.Idx → EReal) (ix2 k p) = P.Wuh k p)
    (h16 : ∀ p, (V c (Pipeline.arrRef spec8 16) : S1x150.Idx → EReal) (ix2 0 p) = P.buh p)
    (h17 : ∀ k p, (V c (Pipeline.arrRef spec8 17) : S150x150.Idx → EReal) (ix2 k p) = P.Woh k p)
    (h18 : ∀ p, (V c (Pipeline.arrRef spec8 18) : S1x150.Idx → EReal) (ix2 0 p) = P.boh p)
    (t : Fin cfg8.N) (r : Fin 1) (p : Fin 150) (R : Fin 1) (hR : R.val = t.val * 1 + r.val) :
    ((dat8 V c).after 20 t : S1x150.Idx → EReal) (ix2 r p) = intC P X CH CC R p := by
  rw [after8_20, out8_20_eq]
  refine (Pay.cTerm8_apply (iblk8 V c 0 t) (iblk8 V c 1 t) (iblk8 V c 2 t) (iblk8 V c 13 t) (iblk8 V c 14 t) (iblk8 V c 5 t) (iblk8 V c 6 t) (iblk8 V c 3 t) (iblk8 V c 4 t) (iblk8 V c 11 t) (iblk8 V c 12 t) (iblk8 V c 9 t) (iblk8 V c 10 t) (iblk8 V c 17 t) (iblk8 V c 18 t) (iblk8 V c 7 t) (iblk8 V c 8 t) (iblk8 V c 15 t) (iblk8 V c 16 t) r p).trans ?_
  exact intC_local (params8 V c P h3 h4 h5 h6 h7 h8 h9 h10 h11 h12 h13 h14 h15 h16 h17 h18 t)
    (funext fun k => (blk8_0 V c t r k R hR).trans (h0 R k))
    (funext fun k => funext fun j => (blk8_1 V c t r k j R hR).trans (h1 R k j))
    (funext fun k => funext fun j => (blk8_2 V c t r k j R hR).trans (h2 R k j)) p

/-- Entry (r, p) of window 19's block at point t sits at (1·t + r, p) of its array. -/
theorem emb8_19 (t : Fin cfg8.N) (r : Fin 1) (p : Fin 150) (hR : t.val * 1 + r.val < 1) :
    ((cfg8.win 19).blk t).view.emb (ix2 r p) = (ix2 ⟨t.val * 1 + r.val, hR⟩ p : (⟨2, ![1, 150]⟩ : Shape).Idx) := by
  have hi := idx8_19 t
  funext a
  apply Fin.ext
  match a with
  | ⟨0, _⟩ => show win8_19.index t 0 * 1 + 1 * r.val = t.val * 1 + r.val; rw [hi.1]; omega
  | ⟨1, _⟩ => show win8_19.index t 1 * 150 + 1 * p.val = p.val; rw [hi.2]; omega

/-- What point t writes back through window 19 is its block of the level's values. -/
theorem flushed8_19
    (h0 : ∀ r k, (V c (Pipeline.arrRef spec8 0) : (⟨2, ![1, 300]⟩ : Shape).Idx → EReal) (ix2 r k) = X r k)
    (h1 : ∀ r k j, (V c (Pipeline.arrRef spec8 1) : (⟨3, ![1, 4, 150]⟩ : Shape).Idx → EReal) (ix3 r k j) = CH r k j)
    (h2 : ∀ r k j, (V c (Pipeline.arrRef spec8 2) : (⟨3, ![1, 4, 150]⟩ : Shape).Idx → EReal) (ix3 r k j) = CC r k j)
    (h3 : ∀ k p, (V c (Pipeline.arrRef spec8 3) : S300x150.Idx → EReal) (ix2 k p) = P.Wix k p)
    (h4 : ∀ p, (V c (Pipeline.arrRef spec8 4) : S1x150.Idx → EReal) (ix2 0 p) = P.bix p)
    (h5 : ∀ k p, (V c (Pipeline.arrRef spec8 5) : S300x150.Idx → EReal) (ix2 k p) = P.Wfx k p)
    (h6 : ∀ p, (V c (Pipeline.arrRef spec8 6) : S1x150.Idx → EReal) (ix2 0 p) = P.bfx p)
    (h7 : ∀ k p, (V c (Pipeline.arrRef spec8 7) : S300x150.Idx → EReal) (ix2 k p) = P.Wux k p)
    (h8 : ∀ p, (V c (Pipeline.arrRef spec8 8) : S1x150.Idx → EReal) (ix2 0 p) = P.bux p)
    (h9 : ∀ k p, (V c (Pipeline.arrRef spec8 9) : S300x150.Idx → EReal) (ix2 k p) = P.Wox k p)
    (h10 : ∀ p, (V c (Pipeline.arrRef spec8 10) : S1x150.Idx → EReal) (ix2 0 p) = P.box p)
    (h11 : ∀ k p, (V c (Pipeline.arrRef spec8 11) : S150x150.Idx → EReal) (ix2 k p) = P.Wih k p)
    (h12 : ∀ p, (V c (Pipeline.arrRef spec8 12) : S1x150.Idx → EReal) (ix2 0 p) = P.bih p)
    (h13 : ∀ k p, (V c (Pipeline.arrRef spec8 13) : S150x150.Idx → EReal) (ix2 k p) = P.Wfh k p)
    (h14 : ∀ p, (V c (Pipeline.arrRef spec8 14) : S1x150.Idx → EReal) (ix2 0 p) = P.bfh p)
    (h15 : ∀ k p, (V c (Pipeline.arrRef spec8 15) : S150x150.Idx → EReal) (ix2 k p) = P.Wuh k p)
    (h16 : ∀ p, (V c (Pipeline.arrRef spec8 16) : S1x150.Idx → EReal) (ix2 0 p) = P.buh p)
    (h17 : ∀ k p, (V c (Pipeline.arrRef spec8 17) : S150x150.Idx → EReal) (ix2 k p) = P.Woh k p)
    (h18 : ∀ p, (V c (Pipeline.arrRef spec8 18) : S1x150.Idx → EReal) (ix2 0 p) = P.boh p)
    (t : Fin cfg8.N) :
    (dat8 V c).flushed 19 t
      = ((cfg8.win 19).blk t).view.read (Elt Ideal) (fun i : (⟨2, ![1, 150]⟩ : Shape).Idx => intH P X CH CC (i 0) (i 1)) := by
  refine forall_ix2 (n0 := 1) (n1 := 150) fun r p => ?_
  have ht : t.val < 1 := t.isLt
  have hR : t.val * 1 + r.val < 1 := by have := r.isLt; omega
  refine (tile8_19 V c P X CH CC h0 h1 h2 h3 h4 h5 h6 h7 h8 h9 h10 h11 h12 h13 h14 h15 h16 h17 h18 t r p ⟨_, hR⟩ rfl).trans ?_
  rw [View.read_apply]
  show _ = (fun i : (⟨2, ![1, 150]⟩ : Shape).Idx => intH P X CH CC (i 0) (i 1)) (((cfg8.win 19).blk t).view.emb (ix2 r p))
  rw [emb8_19 t r p hR]

/-- Window 19's blocks cover its array: node R lies in the block of point R / 1. -/
theorem covered8_19 (i : (⟨2, ![1, 150]⟩ : Shape).Idx) :
    ∃ t : Fin cfg8.N, (cfg8.win 19).flush t = true ∧ i ∈ ((cfg8.win 19).blk t).view.set := by
  have h0 : (i 0 : Nat) < 1 := (i 0).isLt
  have h1 : (i 1 : Nat) < 150 := (i 1).isLt
  have hlt : (i 0 : Nat) / 1 < 1 := by omega
  refine ⟨⟨(i 0 : Nat) / 1, hlt⟩, flush8_19 _, ?_⟩
  have hi := idx8_19 ⟨(i 0 : Nat) / 1, hlt⟩
  show i ∈ ((View.whole (Pipeline.arrRef spec8 19)).slice (win8_19.rect ⟨(i 0 : Nat) / 1, hlt⟩)).set
  rw [View.set_slice_whole, Rect.mem_set_unit]
  intro a
  match a with
  | ⟨0, _⟩ =>
    show win8_19.index ⟨(i 0 : Nat) / 1, hlt⟩ 0 * 1 ≤ (i 0 : Nat) ∧ (i 0 : Nat) < win8_19.index ⟨(i 0 : Nat) / 1, hlt⟩ 0 * 1 + 1
    rw [hi.1]
    show (i 0 : Nat) / 1 * 1 ≤ (i 0 : Nat) ∧ (i 0 : Nat) < (i 0 : Nat) / 1 * 1 + 1
    omega
  | ⟨1, _⟩ =>
    show win8_19.index ⟨(i 0 : Nat) / 1, hlt⟩ 1 * 150 ≤ (i 1 : Nat) ∧ (i 1 : Nat) < win8_19.index ⟨(i 0 : Nat) / 1, hlt⟩ 1 * 150 + 150
    rw [hi.2]
    omega

/-- Entry (r, p) of window 20's block at point t sits at (1·t + r, p) of its array. -/
theorem emb8_20 (t : Fin cfg8.N) (r : Fin 1) (p : Fin 150) (hR : t.val * 1 + r.val < 1) :
    ((cfg8.win 20).blk t).view.emb (ix2 r p) = (ix2 ⟨t.val * 1 + r.val, hR⟩ p : (⟨2, ![1, 150]⟩ : Shape).Idx) := by
  have hi := idx8_20 t
  funext a
  apply Fin.ext
  match a with
  | ⟨0, _⟩ => show win8_20.index t 0 * 1 + 1 * r.val = t.val * 1 + r.val; rw [hi.1]; omega
  | ⟨1, _⟩ => show win8_20.index t 1 * 150 + 1 * p.val = p.val; rw [hi.2]; omega

/-- What point t writes back through window 20 is its block of the level's values. -/
theorem flushed8_20
    (h0 : ∀ r k, (V c (Pipeline.arrRef spec8 0) : (⟨2, ![1, 300]⟩ : Shape).Idx → EReal) (ix2 r k) = X r k)
    (h1 : ∀ r k j, (V c (Pipeline.arrRef spec8 1) : (⟨3, ![1, 4, 150]⟩ : Shape).Idx → EReal) (ix3 r k j) = CH r k j)
    (h2 : ∀ r k j, (V c (Pipeline.arrRef spec8 2) : (⟨3, ![1, 4, 150]⟩ : Shape).Idx → EReal) (ix3 r k j) = CC r k j)
    (h3 : ∀ k p, (V c (Pipeline.arrRef spec8 3) : S300x150.Idx → EReal) (ix2 k p) = P.Wix k p)
    (h4 : ∀ p, (V c (Pipeline.arrRef spec8 4) : S1x150.Idx → EReal) (ix2 0 p) = P.bix p)
    (h5 : ∀ k p, (V c (Pipeline.arrRef spec8 5) : S300x150.Idx → EReal) (ix2 k p) = P.Wfx k p)
    (h6 : ∀ p, (V c (Pipeline.arrRef spec8 6) : S1x150.Idx → EReal) (ix2 0 p) = P.bfx p)
    (h7 : ∀ k p, (V c (Pipeline.arrRef spec8 7) : S300x150.Idx → EReal) (ix2 k p) = P.Wux k p)
    (h8 : ∀ p, (V c (Pipeline.arrRef spec8 8) : S1x150.Idx → EReal) (ix2 0 p) = P.bux p)
    (h9 : ∀ k p, (V c (Pipeline.arrRef spec8 9) : S300x150.Idx → EReal) (ix2 k p) = P.Wox k p)
    (h10 : ∀ p, (V c (Pipeline.arrRef spec8 10) : S1x150.Idx → EReal) (ix2 0 p) = P.box p)
    (h11 : ∀ k p, (V c (Pipeline.arrRef spec8 11) : S150x150.Idx → EReal) (ix2 k p) = P.Wih k p)
    (h12 : ∀ p, (V c (Pipeline.arrRef spec8 12) : S1x150.Idx → EReal) (ix2 0 p) = P.bih p)
    (h13 : ∀ k p, (V c (Pipeline.arrRef spec8 13) : S150x150.Idx → EReal) (ix2 k p) = P.Wfh k p)
    (h14 : ∀ p, (V c (Pipeline.arrRef spec8 14) : S1x150.Idx → EReal) (ix2 0 p) = P.bfh p)
    (h15 : ∀ k p, (V c (Pipeline.arrRef spec8 15) : S150x150.Idx → EReal) (ix2 k p) = P.Wuh k p)
    (h16 : ∀ p, (V c (Pipeline.arrRef spec8 16) : S1x150.Idx → EReal) (ix2 0 p) = P.buh p)
    (h17 : ∀ k p, (V c (Pipeline.arrRef spec8 17) : S150x150.Idx → EReal) (ix2 k p) = P.Woh k p)
    (h18 : ∀ p, (V c (Pipeline.arrRef spec8 18) : S1x150.Idx → EReal) (ix2 0 p) = P.boh p)
    (t : Fin cfg8.N) :
    (dat8 V c).flushed 20 t
      = ((cfg8.win 20).blk t).view.read (Elt Ideal) (fun i : (⟨2, ![1, 150]⟩ : Shape).Idx => intC P X CH CC (i 0) (i 1)) := by
  refine forall_ix2 (n0 := 1) (n1 := 150) fun r p => ?_
  have ht : t.val < 1 := t.isLt
  have hR : t.val * 1 + r.val < 1 := by have := r.isLt; omega
  refine (tile8_20 V c P X CH CC h0 h1 h2 h3 h4 h5 h6 h7 h8 h9 h10 h11 h12 h13 h14 h15 h16 h17 h18 t r p ⟨_, hR⟩ rfl).trans ?_
  rw [View.read_apply]
  show _ = (fun i : (⟨2, ![1, 150]⟩ : Shape).Idx => intC P X CH CC (i 0) (i 1)) (((cfg8.win 20).blk t).view.emb (ix2 r p))
  rw [emb8_20 t r p hR]

/-- Window 20's blocks cover its array: node R lies in the block of point R / 1. -/
theorem covered8_20 (i : (⟨2, ![1, 150]⟩ : Shape).Idx) :
    ∃ t : Fin cfg8.N, (cfg8.win 20).flush t = true ∧ i ∈ ((cfg8.win 20).blk t).view.set := by
  have h0 : (i 0 : Nat) < 1 := (i 0).isLt
  have h1 : (i 1 : Nat) < 150 := (i 1).isLt
  have hlt : (i 0 : Nat) / 1 < 1 := by omega
  refine ⟨⟨(i 0 : Nat) / 1, hlt⟩, flush8_20 _, ?_⟩
  have hi := idx8_20 ⟨(i 0 : Nat) / 1, hlt⟩
  show i ∈ ((View.whole (Pipeline.arrRef spec8 20)).slice (win8_20.rect ⟨(i 0 : Nat) / 1, hlt⟩)).set
  rw [View.set_slice_whole, Rect.mem_set_unit]
  intro a
  match a with
  | ⟨0, _⟩ =>
    show win8_20.index ⟨(i 0 : Nat) / 1, hlt⟩ 0 * 1 ≤ (i 0 : Nat) ∧ (i 0 : Nat) < win8_20.index ⟨(i 0 : Nat) / 1, hlt⟩ 0 * 1 + 1
    rw [hi.1]
    show (i 0 : Nat) / 1 * 1 ≤ (i 0 : Nat) ∧ (i 0 : Nat) < (i 0 : Nat) / 1 * 1 + 1
    omega
  | ⟨1, _⟩ =>
    show win8_20.index ⟨(i 0 : Nat) / 1, hlt⟩ 1 * 150 ≤ (i 1 : Nat) ∧ (i 1 : Nat) < win8_20.index ⟨(i 0 : Nat) / 1, hlt⟩ 1 * 150 + 150
    rw [hi.2]
    omega

/-- After the last point the two output arrays hold the level's hidden states and memory cells. -/
theorem arr8
    (h0 : ∀ r k, (V c (Pipeline.arrRef spec8 0) : (⟨2, ![1, 300]⟩ : Shape).Idx → EReal) (ix2 r k) = X r k)
    (h1 : ∀ r k j, (V c (Pipeline.arrRef spec8 1) : (⟨3, ![1, 4, 150]⟩ : Shape).Idx → EReal) (ix3 r k j) = CH r k j)
    (h2 : ∀ r k j, (V c (Pipeline.arrRef spec8 2) : (⟨3, ![1, 4, 150]⟩ : Shape).Idx → EReal) (ix3 r k j) = CC r k j)
    (h3 : ∀ k p, (V c (Pipeline.arrRef spec8 3) : S300x150.Idx → EReal) (ix2 k p) = P.Wix k p)
    (h4 : ∀ p, (V c (Pipeline.arrRef spec8 4) : S1x150.Idx → EReal) (ix2 0 p) = P.bix p)
    (h5 : ∀ k p, (V c (Pipeline.arrRef spec8 5) : S300x150.Idx → EReal) (ix2 k p) = P.Wfx k p)
    (h6 : ∀ p, (V c (Pipeline.arrRef spec8 6) : S1x150.Idx → EReal) (ix2 0 p) = P.bfx p)
    (h7 : ∀ k p, (V c (Pipeline.arrRef spec8 7) : S300x150.Idx → EReal) (ix2 k p) = P.Wux k p)
    (h8 : ∀ p, (V c (Pipeline.arrRef spec8 8) : S1x150.Idx → EReal) (ix2 0 p) = P.bux p)
    (h9 : ∀ k p, (V c (Pipeline.arrRef spec8 9) : S300x150.Idx → EReal) (ix2 k p) = P.Wox k p)
    (h10 : ∀ p, (V c (Pipeline.arrRef spec8 10) : S1x150.Idx → EReal) (ix2 0 p) = P.box p)
    (h11 : ∀ k p, (V c (Pipeline.arrRef spec8 11) : S150x150.Idx → EReal) (ix2 k p) = P.Wih k p)
    (h12 : ∀ p, (V c (Pipeline.arrRef spec8 12) : S1x150.Idx → EReal) (ix2 0 p) = P.bih p)
    (h13 : ∀ k p, (V c (Pipeline.arrRef spec8 13) : S150x150.Idx → EReal) (ix2 k p) = P.Wfh k p)
    (h14 : ∀ p, (V c (Pipeline.arrRef spec8 14) : S1x150.Idx → EReal) (ix2 0 p) = P.bfh p)
    (h15 : ∀ k p, (V c (Pipeline.arrRef spec8 15) : S150x150.Idx → EReal) (ix2 k p) = P.Wuh k p)
    (h16 : ∀ p, (V c (Pipeline.arrRef spec8 16) : S1x150.Idx → EReal) (ix2 0 p) = P.buh p)
    (h17 : ∀ k p, (V c (Pipeline.arrRef spec8 17) : S150x150.Idx → EReal) (ix2 k p) = P.Woh k p)
    (h18 : ∀ p, (V c (Pipeline.arrRef spec8 18) : S1x150.Idx → EReal) (ix2 0 p) = P.boh p) :
    (∀ r p, ((dat8 V c).arrAt 19 cfg8.N : (⟨2, ![1, 150]⟩ : Shape).Idx → EReal) (ix2 r p) = intH P X CH CC r p)
      ∧ (∀ r p, ((dat8 V c).arrAt 20 cfg8.N : (⟨2, ![1, 150]⟩ : Shape).Idx → EReal) (ix2 r p) = intC P X CH CC r p) :=
  ⟨fun r p => congrFun ((dat8 V c).arrAt_eq_of_cover 19 (fun i : (⟨2, ![1, 150]⟩ : Shape).Idx => intH P X CH CC (i 0) (i 1))
      (fun t _ => flushed8_19 V c P X CH CC h0 h1 h2 h3 h4 h5 h6 h7 h8 h9 h10 h11 h12 h13 h14 h15 h16 h17 h18 t) (covered8_19)) (ix2 r p),
   fun r p => congrFun ((dat8 V c).arrAt_eq_of_cover 20 (fun i : (⟨2, ![1, 150]⟩ : Shape).Idx => intC P X CH CC (i 0) (i 1))
      (fun t _ => flushed8_20 V c P X CH CC h0 h1 h2 h3 h4 h5 h6 h7 h8 h9 h10 h11 h12 h13 h14 h15 h16 h17 h18 t) (covered8_20)) (ix2 r p)⟩

end

end Cert.KernelIdeal.Tree

end
-- ==== Proof.KIValue.lean ====
/-
  Level by level, the tiled program's two output arrays of region d hold the recurrence's hidden states and memory
  cells of level d. Region d's arrays are what its blocks wrote, a function of the region's input arrays alone; those
  are the level's rows of the input matrix, the parameters, and (above the leaves) the two arrays of region d-1
  regrouped by parent, which hold level d-1 by the step before.
-/
import proofs.«167239_j63453846831535_1_alg».proof.Proof.KIEntry
import proofs.«167239_j63453846831535_1_alg».proof.Proof.KerArr0
import proofs.«167239_j63453846831535_1_alg».proof.Proof.KerArr1
import proofs.«167239_j63453846831535_1_alg».proof.Proof.KerArr2
import proofs.«167239_j63453846831535_1_alg».proof.Proof.KerArr3
import proofs.«167239_j63453846831535_1_alg».proof.Proof.KerArr4
import proofs.«167239_j63453846831535_1_alg».proof.Proof.KerArr5
import proofs.«167239_j63453846831535_1_alg».proof.Proof.KerArr6
import proofs.«167239_j63453846831535_1_alg».proof.Proof.KerArr7
import proofs.«167239_j63453846831535_1_alg».proof.Proof.KerArr8

set_option maxRecDepth 16384

noncomputable section

namespace Cert.KernelIdeal.Tree

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- The leaves. -/
theorem lvl0 (c : Dev nD) :
    (∀ r p, (W2 m ρ c (Proc.devRef .tc main_v9_0) : S65536x150.Idx → Elt Ideal .f32) (ix2 r p) = (Cert.TreeSpec.level0 (Pm m c) (Em m c)).h r p)
      ∧ (∀ r p, (W2 m ρ c (Proc.devRef .tc main_v9_1) : S65536x150.Idx → Elt Ideal .f32) (ix2 r p) = (Cert.TreeSpec.level0 (Pm m c) (Em m c)).c r p) := by
  have h := arr0 (V1 m ρ) c (Pm m c) (Cert.TreeSpec.rows (Em m c) 0 65536 (by norm_num)) (entry0_x m ρ c) (entry0_Wix m ρ c) (entry0_bix m ρ c) (entry0_Wux m ρ c) (entry0_bux m ρ c) (entry0_Wox m ρ c) (entry0_box m ρ c) (entry0_bih m ρ c) (entry0_buh m ρ c) (entry0_boh m ρ c)
  refine ⟨fun r p => ?_, fun r p => ?_⟩
  · rw [show W2 m ρ c (Proc.devRef .tc main_v9_0) = (dat0 (V1 m ρ) c).arrAt 10 cfg0.N from W2_arr m ρ c 10]
    exact h.1 r p
  · rw [show W2 m ρ c (Proc.devRef .tc main_v9_1) = (dat0 (V1 m ρ) c).arrAt 11 cfg0.N from W2_arr m ρ c 11]
    exact h.2 r p

/-- Level 1, above level 0. -/
theorem lvl1 (c : Dev nD) :
    (∀ r p, (W4 m ρ c (Proc.devRef .tc main_v13_0) : S16384x150.Idx → Elt Ideal .f32) (ix2 r p) = (Cert.TreeSpec.level1 (Pm m c) (Em m c)).h r p)
      ∧ (∀ r p, (W4 m ρ c (Proc.devRef .tc main_v13_1) : S16384x150.Idx → Elt Ideal .f32) (ix2 r p) = (Cert.TreeSpec.level1 (Pm m c) (Em m c)).c r p) := by
  have h := arr1 (V3 m ρ) c (Pm m c) (Cert.TreeSpec.rows (Em m c) 65536 16384 (by norm_num))
    (Cert.TreeSpec.kids (by norm_num) (Cert.TreeSpec.level0 (Pm m c) (Em m c)).h) (Cert.TreeSpec.kids (by norm_num) (Cert.TreeSpec.level0 (Pm m c) (Em m c)).c)
    (entry1_x m ρ c)
    (fun r k q => ((entry1_ch m ρ c r k q).trans ((lvl0 m ρ c).1 _ q)).trans
      (congrArg (fun i => (Cert.TreeSpec.level0 (Pm m c) (Em m c)).h i q) (Fin.ext (by show r.val * 4 + k.val = 4 * r.val + k.val; omega))))
    (fun r k q => ((entry1_cc m ρ c r k q).trans ((lvl0 m ρ c).2 _ q)).trans
      (congrArg (fun i => (Cert.TreeSpec.level0 (Pm m c) (Em m c)).c i q) (Fin.ext (by show r.val * 4 + k.val = 4 * r.val + k.val; omega))))
    (entry1_Wix m ρ c) (entry1_bix m ρ c) (entry1_Wfx m ρ c) (entry1_bfx m ρ c) (entry1_Wux m ρ c) (entry1_bux m ρ c) (entry1_Wox m ρ c) (entry1_box m ρ c) (entry1_Wih m ρ c) (entry1_bih m ρ c) (entry1_Wfh m ρ c) (entry1_bfh m ρ c) (entry1_Wuh m ρ c) (entry1_buh m ρ c) (entry1_Woh m ρ c) (entry1_boh m ρ c)
  refine ⟨fun r p => ?_, fun r p => ?_⟩
  · rw [show W4 m ρ c (Proc.devRef .tc main_v13_0) = (dat1 (V3 m ρ) c).arrAt 19 cfg1.N from W4_arr m ρ c 19]
    exact h.1 r p
  · rw [show W4 m ρ c (Proc.devRef .tc main_v13_1) = (dat1 (V3 m ρ) c).arrAt 20 cfg1.N from W4_arr m ρ c 20]
    exact h.2 r p

/-- Level 2, above level 1. -/
theorem lvl2 (c : Dev nD) :
    (∀ r p, (W6 m ρ c (Proc.devRef .tc main_v17_0) : S4096x150.Idx → Elt Ideal .f32) (ix2 r p) = (Cert.TreeSpec.level2 (Pm m c) (Em m c)).h r p)
      ∧ (∀ r p, (W6 m ρ c (Proc.devRef .tc main_v17_1) : S4096x150.Idx → Elt Ideal .f32) (ix2 r p) = (Cert.TreeSpec.level2 (Pm m c) (Em m c)).c r p) := by
  have h := arr2 (V5 m ρ) c (Pm m c) (Cert.TreeSpec.rows (Em m c) 81920 4096 (by norm_num))
    (Cert.TreeSpec.kids (by norm_num) (Cert.TreeSpec.level1 (Pm m c) (Em m c)).h) (Cert.TreeSpec.kids (by norm_num) (Cert.TreeSpec.level1 (Pm m c) (Em m c)).c)
    (entry2_x m ρ c)
    (fun r k q => ((entry2_ch m ρ c r k q).trans ((lvl1 m ρ c).1 _ q)).trans
      (congrArg (fun i => (Cert.TreeSpec.level1 (Pm m c) (Em m c)).h i q) (Fin.ext (by show r.val * 4 + k.val = 4 * r.val + k.val; omega))))
    (fun r k q => ((entry2_cc m ρ c r k q).trans ((lvl1 m ρ c).2 _ q)).trans
      (congrArg (fun i => (Cert.TreeSpec.level1 (Pm m c) (Em m c)).c i q) (Fin.ext (by show r.val * 4 + k.val = 4 * r.val + k.val; omega))))
    (entry2_Wix m ρ c) (entry2_bix m ρ c) (entry2_Wfx m ρ c) (entry2_bfx m ρ c) (entry2_Wux m ρ c) (entry2_bux m ρ c) (entry2_Wox m ρ c) (entry2_box m ρ c) (entry2_Wih m ρ c) (entry2_bih m ρ c) (entry2_Wfh m ρ c) (entry2_bfh m ρ c) (entry2_Wuh m ρ c) (entry2_buh m ρ c) (entry2_Woh m ρ c) (entry2_boh m ρ c)
  refine ⟨fun r p => ?_, fun r p => ?_⟩
  · rw [show W6 m ρ c (Proc.devRef .tc main_v17_0) = (dat2 (V5 m ρ) c).arrAt 19 cfg2.N from W6_arr m ρ c 19]
    exact h.1 r p
  · rw [show W6 m ρ c (Proc.devRef .tc main_v17_1) = (dat2 (V5 m ρ) c).arrAt 20 cfg2.N from W6_arr m ρ c 20]
    exact h.2 r p

/-- Level 3, above level 2. -/
theorem lvl3 (c : Dev nD) :
    (∀ r p, (W8 m ρ c (Proc.devRef .tc main_v21_0) : S1024x150.Idx → Elt Ideal .f32) (ix2 r p) = (Cert.TreeSpec.level3 (Pm m c) (Em m c)).h r p)
      ∧ (∀ r p, (W8 m ρ c (Proc.devRef .tc main_v21_1) : S1024x150.Idx → Elt Ideal .f32) (ix2 r p) = (Cert.TreeSpec.level3 (Pm m c) (Em m c)).c r p) := by
  have h := arr3 (V7 m ρ) c (Pm m c) (Cert.TreeSpec.rows (Em m c) 86016 1024 (by norm_num))
    (Cert.TreeSpec.kids (by norm_num) (Cert.TreeSpec.level2 (Pm m c) (Em m c)).h) (Cert.TreeSpec.kids (by norm_num) (Cert.TreeSpec.level2 (Pm m c) (Em m c)).c)
    (entry3_x m ρ c)
    (fun r k q => ((entry3_ch m ρ c r k q).trans ((lvl2 m ρ c).1 _ q)).trans
      (congrArg (fun i => (Cert.TreeSpec.level2 (Pm m c) (Em m c)).h i q) (Fin.ext (by show r.val * 4 + k.val = 4 * r.val + k.val; omega))))
    (fun r k q => ((entry3_cc m ρ c r k q).trans ((lvl2 m ρ c).2 _ q)).trans
      (congrArg (fun i => (Cert.TreeSpec.level2 (Pm m c) (Em m c)).c i q) (Fin.ext (by show r.val * 4 + k.val = 4 * r.val + k.val; omega))))
    (entry3_Wix m ρ c) (entry3_bix m ρ c) (entry3_Wfx m ρ c) (entry3_bfx m ρ c) (entry3_Wux m ρ c) (entry3_bux m ρ c) (entry3_Wox m ρ c) (entry3_box m ρ c) (entry3_Wih m ρ c) (entry3_bih m ρ c) (entry3_Wfh m ρ c) (entry3_bfh m ρ c) (entry3_Wuh m ρ c) (entry3_buh m ρ c) (entry3_Woh m ρ c) (entry3_boh m ρ c)
  refine ⟨fun r p => ?_, fun r p => ?_⟩
  · rw [show W8 m ρ c (Proc.devRef .tc main_v21_0) = (dat3 (V7 m ρ) c).arrAt 19 cfg3.N from W8_arr m ρ c 19]
    exact h.1 r p
  · rw [show W8 m ρ c (Proc.devRef .tc main_v21_1) = (dat3 (V7 m ρ) c).arrAt 20 cfg3.N from W8_arr m ρ c 20]
    exact h.2 r p

/-- Level 4, above level 3. -/
theorem lvl4 (c : Dev nD) :
    (∀ r p, (W10 m ρ c (Proc.devRef .tc main_v25_0) : S256x150.Idx → Elt Ideal .f32) (ix2 r p) = (Cert.TreeSpec.level4 (Pm m c) (Em m c)).h r p)
      ∧ (∀ r p, (W10 m ρ c (Proc.devRef .tc main_v25_1) : S256x150.Idx → Elt Ideal .f32) (ix2 r p) = (Cert.TreeSpec.level4 (Pm m c) (Em m c)).c r p) := by
  have h := arr4 (V9 m ρ) c (Pm m c) (Cert.TreeSpec.rows (Em m c) 87040 256 (by norm_num))
    (Cert.TreeSpec.kids (by norm_num) (Cert.TreeSpec.level3 (Pm m c) (Em m c)).h) (Cert.TreeSpec.kids (by norm_num) (Cert.TreeSpec.level3 (Pm m c) (Em m c)).c)
    (entry4_x m ρ c)
    (fun r k q => ((entry4_ch m ρ c r k q).trans ((lvl3 m ρ c).1 _ q)).trans
      (congrArg (fun i => (Cert.TreeSpec.level3 (Pm m c) (Em m c)).h i q) (Fin.ext (by show r.val * 4 + k.val = 4 * r.val + k.val; omega))))
    (fun r k q => ((entry4_cc m ρ c r k q).trans ((lvl3 m ρ c).2 _ q)).trans
      (congrArg (fun i => (Cert.TreeSpec.level3 (Pm m c) (Em m c)).c i q) (Fin.ext (by show r.val * 4 + k.val = 4 * r.val + k.val; omega))))
    (entry4_Wix m ρ c) (entry4_bix m ρ c) (entry4_Wfx m ρ c) (entry4_bfx m ρ c) (entry4_Wux m ρ c) (entry4_bux m ρ c) (entry4_Wox m ρ c) (entry4_box m ρ c) (entry4_Wih m ρ c) (entry4_bih m ρ c) (entry4_Wfh m ρ c) (entry4_bfh m ρ c) (entry4_Wuh m ρ c) (entry4_buh m ρ c) (entry4_Woh m ρ c) (entry4_boh m ρ c)
  refine ⟨fun r p => ?_, fun r p => ?_⟩
  · rw [show W10 m ρ c (Proc.devRef .tc main_v25_0) = (dat4 (V9 m ρ) c).arrAt 19 cfg4.N from W10_arr m ρ c 19]
    exact h.1 r p
  · rw [show W10 m ρ c (Proc.devRef .tc main_v25_1) = (dat4 (V9 m ρ) c).arrAt 20 cfg4.N from W10_arr m ρ c 20]
    exact h.2 r p

/-- Level 5, above level 4. -/
theorem lvl5 (c : Dev nD) :
    (∀ r p, (W12 m ρ c (Proc.devRef .tc main_v29_0) : S64x150.Idx → Elt Ideal .f32) (ix2 r p) = (Cert.TreeSpec.level5 (Pm m c) (Em m c)).h r p)
      ∧ (∀ r p, (W12 m ρ c (Proc.devRef .tc main_v29_1) : S64x150.Idx → Elt Ideal .f32) (ix2 r p) = (Cert.TreeSpec.level5 (Pm m c) (Em m c)).c r p) := by
  have h := arr5 (V11 m ρ) c (Pm m c) (Cert.TreeSpec.rows (Em m c) 87296 64 (by norm_num))
    (Cert.TreeSpec.kids (by norm_num) (Cert.TreeSpec.level4 (Pm m c) (Em m c)).h) (Cert.TreeSpec.kids (by norm_num) (Cert.TreeSpec.level4 (Pm m c) (Em m c)).c)
    (entry5_x m ρ c)
    (fun r k q => ((entry5_ch m ρ c r k q).trans ((lvl4 m ρ c).1 _ q)).trans
      (congrArg (fun i => (Cert.TreeSpec.level4 (Pm m c) (Em m c)).h i q) (Fin.ext (by show r.val * 4 + k.val = 4 * r.val + k.val; omega))))
    (fun r k q => ((entry5_cc m ρ c r k q).trans ((lvl4 m ρ c).2 _ q)).trans
      (congrArg (fun i => (Cert.TreeSpec.level4 (Pm m c) (Em m c)).c i q) (Fin.ext (by show r.val * 4 + k.val = 4 * r.val + k.val; omega))))
    (entry5_Wix m ρ c) (entry5_bix m ρ c) (entry5_Wfx m ρ c) (entry5_bfx m ρ c) (entry5_Wux m ρ c) (entry5_bux m ρ c) (entry5_Wox m ρ c) (entry5_box m ρ c) (entry5_Wih m ρ c) (entry5_bih m ρ c) (entry5_Wfh m ρ c) (entry5_bfh m ρ c) (entry5_Wuh m ρ c) (entry5_buh m ρ c) (entry5_Woh m ρ c) (entry5_boh m ρ c)
  refine ⟨fun r p => ?_, fun r p => ?_⟩
  · rw [show W12 m ρ c (Proc.devRef .tc main_v29_0) = (dat5 (V11 m ρ) c).arrAt 19 cfg5.N from W12_arr m ρ c 19]
    exact h.1 r p
  · rw [show W12 m ρ c (Proc.devRef .tc main_v29_1) = (dat5 (V11 m ρ) c).arrAt 20 cfg5.N from W12_arr m ρ c 20]
    exact h.2 r p

/-- Level 6, above level 5. -/
theorem lvl6 (c : Dev nD) :
    (∀ r p, (W14 m ρ c (Proc.devRef .tc main_v33_0) : S16x150.Idx → Elt Ideal .f32) (ix2 r p) = (Cert.TreeSpec.level6 (Pm m c) (Em m c)).h r p)
      ∧ (∀ r p, (W14 m ρ c (Proc.devRef .tc main_v33_1) : S16x150.Idx → Elt Ideal .f32) (ix2 r p) = (Cert.TreeSpec.level6 (Pm m c) (Em m c)).c r p) := by
  have h := arr6 (V13 m ρ) c (Pm m c) (Cert.TreeSpec.rows (Em m c) 87360 16 (by norm_num))
    (Cert.TreeSpec.kids (by norm_num) (Cert.TreeSpec.level5 (Pm m c) (Em m c)).h) (Cert.TreeSpec.kids (by norm_num) (Cert.TreeSpec.level5 (Pm m c) (Em m c)).c)
    (entry6_x m ρ c)
    (fun r k q => ((entry6_ch m ρ c r k q).trans ((lvl5 m ρ c).1 _ q)).trans
      (congrArg (fun i => (Cert.TreeSpec.level5 (Pm m c) (Em m c)).h i q) (Fin.ext (by show r.val * 4 + k.val = 4 * r.val + k.val; omega))))
    (fun r k q => ((entry6_cc m ρ c r k q).trans ((lvl5 m ρ c).2 _ q)).trans
      (congrArg (fun i => (Cert.TreeSpec.level5 (Pm m c) (Em m c)).c i q) (Fin.ext (by show r.val * 4 + k.val = 4 * r.val + k.val; omega))))
    (entry6_Wix m ρ c) (entry6_bix m ρ c) (entry6_Wfx m ρ c) (entry6_bfx m ρ c) (entry6_Wux m ρ c) (entry6_bux m ρ c) (entry6_Wox m ρ c) (entry6_box m ρ c) (entry6_Wih m ρ c) (entry6_bih m ρ c) (entry6_Wfh m ρ c) (entry6_bfh m ρ c) (entry6_Wuh m ρ c) (entry6_buh m ρ c) (entry6_Woh m ρ c) (entry6_boh m ρ c)
  refine ⟨fun r p => ?_, fun r p => ?_⟩
  · rw [show W14 m ρ c (Proc.devRef .tc main_v33_0) = (dat6 (V13 m ρ) c).arrAt 19 cfg6.N from W14_arr m ρ c 19]
    exact h.1 r p
  · rw [show W14 m ρ c (Proc.devRef .tc main_v33_1) = (dat6 (V13 m ρ) c).arrAt 20 cfg6.N from W14_arr m ρ c 20]
    exact h.2 r p

/-- Level 7, above level 6. -/
theorem lvl7 (c : Dev nD) :
    (∀ r p, (W16 m ρ c (Proc.devRef .tc main_v37_0) : S4x150.Idx → Elt Ideal .f32) (ix2 r p) = (Cert.TreeSpec.level7 (Pm m c) (Em m c)).h r p)
      ∧ (∀ r p, (W16 m ρ c (Proc.devRef .tc main_v37_1) : S4x150.Idx → Elt Ideal .f32) (ix2 r p) = (Cert.TreeSpec.level7 (Pm m c) (Em m c)).c r p) := by
  have h := arr7 (V15 m ρ) c (Pm m c) (Cert.TreeSpec.rows (Em m c) 87376 4 (by norm_num))
    (Cert.TreeSpec.kids (by norm_num) (Cert.TreeSpec.level6 (Pm m c) (Em m c)).h) (Cert.TreeSpec.kids (by norm_num) (Cert.TreeSpec.level6 (Pm m c) (Em m c)).c)
    (entry7_x m ρ c)
    (fun r k q => ((entry7_ch m ρ c r k q).trans ((lvl6 m ρ c).1 _ q)).trans
      (congrArg (fun i => (Cert.TreeSpec.level6 (Pm m c) (Em m c)).h i q) (Fin.ext (by show r.val * 4 + k.val = 4 * r.val + k.val; omega))))
    (fun r k q => ((entry7_cc m ρ c r k q).trans ((lvl6 m ρ c).2 _ q)).trans
      (congrArg (fun i => (Cert.TreeSpec.level6 (Pm m c) (Em m c)).c i q) (Fin.ext (by show r.val * 4 + k.val = 4 * r.val + k.val; omega))))
    (entry7_Wix m ρ c) (entry7_bix m ρ c) (entry7_Wfx m ρ c) (entry7_bfx m ρ c) (entry7_Wux m ρ c) (entry7_bux m ρ c) (entry7_Wox m ρ c) (entry7_box m ρ c) (entry7_Wih m ρ c) (entry7_bih m ρ c) (entry7_Wfh m ρ c) (entry7_bfh m ρ c) (entry7_Wuh m ρ c) (entry7_buh m ρ c) (entry7_Woh m ρ c) (entry7_boh m ρ c)
  refine ⟨fun r p => ?_, fun r p => ?_⟩
  · rw [show W16 m ρ c (Proc.devRef .tc main_v37_0) = (dat7 (V15 m ρ) c).arrAt 19 cfg7.N from W16_arr m ρ c 19]
    exact h.1 r p
  · rw [show W16 m ρ c (Proc.devRef .tc main_v37_1) = (dat7 (V15 m ρ) c).arrAt 20 cfg7.N from W16_arr m ρ c 20]
    exact h.2 r p

/-- Level 8, above level 7. -/
theorem lvl8 (c : Dev nD) :
    (∀ r p, (W18 m ρ c (Proc.devRef .tc main_v41_0) : S1x150.Idx → Elt Ideal .f32) (ix2 r p) = (Cert.TreeSpec.level8 (Pm m c) (Em m c)).h r p)
      ∧ (∀ r p, (W18 m ρ c (Proc.devRef .tc main_v41_1) : S1x150.Idx → Elt Ideal .f32) (ix2 r p) = (Cert.TreeSpec.level8 (Pm m c) (Em m c)).c r p) := by
  have h := arr8 (V17 m ρ) c (Pm m c) (Cert.TreeSpec.rows (Em m c) 87380 1 (by norm_num))
    (Cert.TreeSpec.kids (by norm_num) (Cert.TreeSpec.level7 (Pm m c) (Em m c)).h) (Cert.TreeSpec.kids (by norm_num) (Cert.TreeSpec.level7 (Pm m c) (Em m c)).c)
    (entry8_x m ρ c)
    (fun r k q => ((entry8_ch m ρ c r k q).trans ((lvl7 m ρ c).1 _ q)).trans
      (congrArg (fun i => (Cert.TreeSpec.level7 (Pm m c) (Em m c)).h i q) (Fin.ext (by show r.val * 4 + k.val = 4 * r.val + k.val; omega))))
    (fun r k q => ((entry8_cc m ρ c r k q).trans ((lvl7 m ρ c).2 _ q)).trans
      (congrArg (fun i => (Cert.TreeSpec.level7 (Pm m c) (Em m c)).c i q) (Fin.ext (by show r.val * 4 + k.val = 4 * r.val + k.val; omega))))
    (entry8_Wix m ρ c) (entry8_bix m ρ c) (entry8_Wfx m ρ c) (entry8_bfx m ρ c) (entry8_Wux m ρ c) (entry8_bux m ρ c) (entry8_Wox m ρ c) (entry8_box m ρ c) (entry8_Wih m ρ c) (entry8_bih m ρ c) (entry8_Wfh m ρ c) (entry8_bfh m ρ c) (entry8_Wuh m ρ c) (entry8_buh m ρ c) (entry8_Woh m ρ c) (entry8_boh m ρ c)
  refine ⟨fun r p => ?_, fun r p => ?_⟩
  · rw [show W18 m ρ c (Proc.devRef .tc main_v41_0) = (dat8 (V17 m ρ) c).arrAt 19 cfg8.N from W18_arr m ρ c 19]
    exact h.1 r p
  · rw [show W18 m ρ c (Proc.devRef .tc main_v41_1) = (dat8 (V17 m ρ) c).arrAt 20 cfg8.N from W18_arr m ρ c 20]
    exact h.2 r p

end Cert.KernelIdeal.Tree

end
-- ==== Proof.RefBase.lean ====
/-
  The reference program's run, read level by level. (The statements that each level's hidden states are the
  recurrence's follow in the modules that import this one.)
-/
import proofs.«167239_j63453846831535_1_alg».proof.Proof.Gen.ReferenceIdeal.Run
import proofs.«167239_j63453846831535_1_alg».proof.Proof.TreeSpec
-- ==== Proof.RefParams.lean ====
/-
  The reference program's parameters and input matrix as the recurrence reads them: the sixteen weight and bias
  arrays in argument order (each bias a vector of 150 numbers), and the 87381 x 300 matrix of input rows.
-/
import proofs.«167239_j63453846831535_1_alg».proof.ReferenceIdeal
import Idealize.ShloMosaic.Lib.StableHlo.Run
import proofs.«167239_j63453846831535_1_alg».proof.Proof.TreeSpecArr

noncomputable section

namespace Cert.ReferenceIdeal.Levels

open Cert.ReferenceIdeal Idealize.ShloMosaic Idealize.ShloMosaic.TcCoe Idealize.SL.Sem Idealize.ShloMosaic.StableHlo

/-- The recurrence's parameters: the sixteen weight and bias arrays in argument order. -/
abbrev P (V : Valuation τ sig (Elt Ideal)) : Cert.TreeSpec.Params :=
  Cert.TreeSpec.paramsOfVecs (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16))

/-- The input matrix: one row of 300 numbers per node, leaves first. -/
abbrev E (V : Valuation τ sig (Elt Ideal)) : Fin 87381 → Fin 300 → EReal :=
  Cert.TreeSpec.embsOf (V (Proc.devRef .tc main_arg0))

end Cert.ReferenceIdeal.Levels

end
-- ==== Proof.RefNode.lean ====
/-
  One node of the child-sum recurrence as the reference program spells it on whole arrays, read at an entry.

  The reference computes a level on whole arrays: x · W + b for the four input products, the children's hidden
  states summed and multiplied by the three recurrent matrices, each child's forget gate from its own hidden state,
  and the gated children's cells summed. Read at an entry (r, p), and given what each operand array is at an entry
  (the tile of input rows, the children's states regrouped by parent, the bias rows repeated over the tile), the
  level's memory cell and hidden state are the recurrence's `intC` and `intH`; on a leaf level, where the children's
  sum is the zero matrix, they are `leafC` and `leafH` (0 * w = 0, a + 0 = a: the only algebra used).
  The way a bias is repeated over a tile differs between levels, so these statements take each operand array with
  its reading as a hypothesis. The last three lemmas read the operand arrays themselves: a tile of input rows cut
  out of the input matrix, the level below regrouped by parent, and the children's sum.
-/
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost
import proofs.«167239_j63453846831535_1_alg».proof.Proof.TreeSpecArr
import proofs.«167239_j63453846831535_1_alg».proof.Proof.LibPlainDot
import proofs.«167239_j63453846831535_1_alg».proof.Proof.LibHostRead
import proofs.«167239_j63453846831535_1_alg».proof.Proof.LibTreeHost
import proofs.«167239_j63453846831535_1_alg».proof.Proof.RefParams

noncomputable section

namespace Cert.ReferenceIdeal.Levels

open Idealize.ShloMosaic Idealize.ShloMosaic.ValueIdx Cert.TreeSpec

section Node
variable {n : ℕ}

/-- A tile of rows times a weight matrix, at an entry: the recurrence's `lin`. -/
theorem xW_apply {K : ℕ} (xs : FVec Ideal ⟨2, ![n, K]⟩ .f32) (w : FVec Ideal ⟨2, ![K, 150]⟩ .f32)
    (X : Fin n → Fin K → EReal) (hX : ∀ r k, xs (ix2 r k) = X r k) (r : Fin n) (p : Fin 150) :
    Host.dotGeneral (DotDims.plain n K 150) none xs w (ix2 r p) = lin X (mat w) r p := by
  refine (Gcn.Lib.plain_dotGeneral_apply xs w none .single r p).trans ?_
  show ∑ k : Fin K, xs (ix2 r k) * w (ix2 k p) = ∑ k : Fin K, X r k * w (ix2 k p)
  exact Finset.sum_congr rfl fun k _ => by rw [hX r k]

/-- One gate's argument on an internal level: ((x · W + b) + s · W' ) + b'. -/
theorem pre_apply (xs : FVec Ideal ⟨2, ![n, 300]⟩ .f32) (hs : FVec Ideal ⟨2, ![n, 150]⟩ .f32)
    (w : FVec Ideal ⟨2, ![300, 150]⟩ .f32) (wh : FVec Ideal ⟨2, ![150, 150]⟩ .f32)
    (B Bh : FVec Ideal ⟨2, ![n, 150]⟩ .f32) (b bh : FVec Ideal ⟨1, ![150]⟩ .f32)
    (X : Fin n → Fin 300 → EReal) (S : Fin n → Fin 150 → EReal)
    (hX : ∀ r k, xs (ix2 r k) = X r k) (hS : ∀ r k, hs (ix2 r k) = S r k)
    (hB : ∀ r p, B (ix2 r p) = vec b p) (hBh : ∀ r p, Bh (ix2 r p) = vec bh p) (r : Fin n) (p : Fin 150) :
    (addf (addf (addf (Host.dotGeneral (DotDims.plain n 300 150) none xs w) B) (Host.dotGeneral (DotDims.plain n 150 150) none hs wh)) Bh) (ix2 r p)
      = lin X (mat w) r p + vec b p + lin S (mat wh) r p + vec bh p := by
  show (Host.dotGeneral (DotDims.plain n 300 150) none xs w) (ix2 r p) + B (ix2 r p) + (Host.dotGeneral (DotDims.plain n 150 150) none hs wh) (ix2 r p) + Bh (ix2 r p) = _
  rw [xW_apply xs w X hX r p, xW_apply hs wh S hS r p, hB r p, hBh r p]

/-- The memory cell of an internal level at an entry. -/
theorem intC_apply (wix : FVec Ideal ⟨2, ![300, 150]⟩ .f32) (bix : FVec Ideal ⟨1, ![150]⟩ .f32)
    (wfx : FVec Ideal ⟨2, ![300, 150]⟩ .f32) (bfx : FVec Ideal ⟨1, ![150]⟩ .f32)
    (wux : FVec Ideal ⟨2, ![300, 150]⟩ .f32) (bux : FVec Ideal ⟨1, ![150]⟩ .f32)
    (wox : FVec Ideal ⟨2, ![300, 150]⟩ .f32) (box : FVec Ideal ⟨1, ![150]⟩ .f32)
    (wih : FVec Ideal ⟨2, ![150, 150]⟩ .f32) (bih : FVec Ideal ⟨1, ![150]⟩ .f32)
    (wfh : FVec Ideal ⟨2, ![150, 150]⟩ .f32) (bfh : FVec Ideal ⟨1, ![150]⟩ .f32)
    (wuh : FVec Ideal ⟨2, ![150, 150]⟩ .f32) (buh : FVec Ideal ⟨1, ![150]⟩ .f32)
    (woh : FVec Ideal ⟨2, ![150, 150]⟩ .f32) (boh : FVec Ideal ⟨1, ![150]⟩ .f32)
    (xs : FVec Ideal ⟨2, ![n, 300]⟩ .f32) (hs : FVec Ideal ⟨2, ![n, 150]⟩ .f32)
    (kh kc : FVec Ideal ⟨3, ![n, 4, 150]⟩ .f32)
    (Bix Bih Bux Buh : FVec Ideal ⟨2, ![n, 150]⟩ .f32) (Bfh3 FX3 : FVec Ideal ⟨3, ![n, 4, 150]⟩ .f32)
    (c2 : (⟨0, ![]⟩ : Shape).BroadcastsInDim ⟨2, ![n, 150]⟩ ![])
    (c3 : (⟨0, ![]⟩ : Shape).BroadcastsInDim ⟨3, ![n, 4, 150]⟩ ![])
    (wf3 : DotDims.WF ⟨3, ![n, 4, 150]⟩ ⟨2, ![150, 150]⟩ ⟨3, ![n, 4, 150]⟩ [2] [0] [0, 1] [1] [] [])
    (hred : Shape.ReducesTo ⟨3, ![n, 4, 150]⟩ [1] ⟨2, ![n, 150]⟩) (hu : 0 < (⟨0, ![]⟩ : Shape).numel)
    (X : Fin n → Fin 300 → EReal) (CH CC : Fin n → Fin 4 → Fin 150 → EReal)
    (hX : ∀ r k, xs (ix2 r k) = X r k) (hS : ∀ r k, hs (ix2 r k) = hsum CH r k)
    (hkh : ∀ r j q, kh (ix3 r j q) = CH r j q) (hkc : ∀ r j q, kc (ix3 r j q) = CC r j q)
    (hBix : ∀ r p, Bix (ix2 r p) = vec bix p) (hBih : ∀ r p, Bih (ix2 r p) = vec bih p)
    (hBux : ∀ r p, Bux (ix2 r p) = vec bux p) (hBuh : ∀ r p, Buh (ix2 r p) = vec buh p)
    (hBfh : ∀ r j p, Bfh3 (ix3 r j p) = vec bfh p)
    (hFX : ∀ r j p, FX3 (ix3 r j p) = lin X (mat wfx) r p + vec bfx p)
    (r : Fin n) (p : Fin 150) :
    (addf (mulf (Host.divf (broadcastInDim ⟨2, ![n, 150]⟩ ![] c2 (constant (F := Ideal) ⟨0, ![]⟩ .f32 0x3F800000#32)) (addf (broadcastInDim ⟨2, ![n, 150]⟩ ![] c2 (constant (F := Ideal) ⟨0, ![]⟩ .f32 0x3F800000#32)) (Host.exp (Host.negf (addf (addf (addf (Host.dotGeneral (DotDims.plain n 300 150) none xs wix) Bix) (Host.dotGeneral (DotDims.plain n 150 150) none hs wih)) Bih))))) (Host.tanh (addf (addf (addf (Host.dotGeneral (DotDims.plain n 300 150) none xs wux) Bux) (Host.dotGeneral (DotDims.plain n 150 150) none hs wuh)) Buh)))
        (Host.reduceAdd (mulf (Host.divf (broadcastInDim ⟨3, ![n, 4, 150]⟩ ![] c3 (constant (F := Ideal) ⟨0, ![]⟩ .f32 0x3F800000#32)) (addf (broadcastInDim ⟨3, ![n, 4, 150]⟩ ![] c3 (constant (F := Ideal) ⟨0, ![]⟩ .f32 0x3F800000#32)) (Host.exp (Host.negf (addf (addf (Host.dotGeneral (TreeHost.Lib.dotAKDxDP n 4 150 150 wf3) none kh wfh) Bfh3) FX3))))) kc)
          (constant ⟨0, ![]⟩ .f32 0x00000000#32) hred hu)) (ix2 r p)
      = intC (paramsOfVecs wix bix wfx bfx wux bux wox box wih bih wfh bfh wuh buh woh boh) X CH CC r p := by
  have hi := pre_apply xs hs wix wih Bix Bih bix bih X (hsum CH) hX hS hBix hBih r p
  have hu' := pre_apply xs hs wux wuh Bux Buh bux buh X (hsum CH) hX hS hBux hBuh r p
  refine congrArg₂ (· + ·) (congrArg₂ (· * ·) ?_ ?_) ?_
  · exact (TreeHost.Lib.hostLogistic_apply c2 _ (ix2 r p)).trans (congrArg Ideal.logistic hi)
  · exact congrArg Ideal.tanh hu'
  · refine (TreeHost.Lib.hostReduceAdd_abc_axis1_apply _ hred hu r p).trans ?_
    show _ = ∑ j : Fin 4, fgate (paramsOfVecs wix bix wfx bfx wux bux wox box wih bih wfh bfh wuh buh woh boh) X CH r j p * CC r j p
    refine Finset.sum_congr rfl fun j _ => ?_
    refine congrArg₂ (· * ·) ?_ (hkc r j p)
    refine (TreeHost.Lib.hostLogistic_apply c3 _ (ix3 r j p)).trans (congrArg Ideal.logistic ?_)
    refine congrArg₂ (· + ·) (congrArg₂ (· + ·) ?_ (hBfh r j p)) (hFX r j p)
    refine (TreeHost.Lib.dotAKDxDP_apply wf3 kh wfh none .single r j p).trans ?_
    exact Finset.sum_congr rfl fun d _ => by rw [hkh r j d]; rfl

/-- The hidden state of a level at an entry, given its memory cell there: o * tanh c. -/
theorem intH_apply (wix : FVec Ideal ⟨2, ![300, 150]⟩ .f32) (bix : FVec Ideal ⟨1, ![150]⟩ .f32)
    (wfx : FVec Ideal ⟨2, ![300, 150]⟩ .f32) (bfx : FVec Ideal ⟨1, ![150]⟩ .f32)
    (wux : FVec Ideal ⟨2, ![300, 150]⟩ .f32) (bux : FVec Ideal ⟨1, ![150]⟩ .f32)
    (wox : FVec Ideal ⟨2, ![300, 150]⟩ .f32) (box : FVec Ideal ⟨1, ![150]⟩ .f32)
    (wih : FVec Ideal ⟨2, ![150, 150]⟩ .f32) (bih : FVec Ideal ⟨1, ![150]⟩ .f32)
    (wfh : FVec Ideal ⟨2, ![150, 150]⟩ .f32) (bfh : FVec Ideal ⟨1, ![150]⟩ .f32)
    (wuh : FVec Ideal ⟨2, ![150, 150]⟩ .f32) (buh : FVec Ideal ⟨1, ![150]⟩ .f32)
    (woh : FVec Ideal ⟨2, ![150, 150]⟩ .f32) (boh : FVec Ideal ⟨1, ![150]⟩ .f32)
    (xs : FVec Ideal ⟨2, ![n, 300]⟩ .f32) (hs cv : FVec Ideal ⟨2, ![n, 150]⟩ .f32)
    (Box Boh : FVec Ideal ⟨2, ![n, 150]⟩ .f32)
    (c2 : (⟨0, ![]⟩ : Shape).BroadcastsInDim ⟨2, ![n, 150]⟩ ![])
    (X : Fin n → Fin 300 → EReal) (CH CC : Fin n → Fin 4 → Fin 150 → EReal)
    (hX : ∀ r k, xs (ix2 r k) = X r k) (hS : ∀ r k, hs (ix2 r k) = hsum CH r k)
    (hBox : ∀ r p, Box (ix2 r p) = vec box p) (hBoh : ∀ r p, Boh (ix2 r p) = vec boh p)
    (r : Fin n) (p : Fin 150)
    (hcv : cv (ix2 r p) = intC (paramsOfVecs wix bix wfx bfx wux bux wox box wih bih wfh bfh wuh buh woh boh) X CH CC r p) :
    (mulf (Host.divf (broadcastInDim ⟨2, ![n, 150]⟩ ![] c2 (constant (F := Ideal) ⟨0, ![]⟩ .f32 0x3F800000#32)) (addf (broadcastInDim ⟨2, ![n, 150]⟩ ![] c2 (constant (F := Ideal) ⟨0, ![]⟩ .f32 0x3F800000#32)) (Host.exp (Host.negf (addf (addf (addf (Host.dotGeneral (DotDims.plain n 300 150) none xs wox) Box) (Host.dotGeneral (DotDims.plain n 150 150) none hs woh)) Boh))))) (Host.tanh cv)) (ix2 r p)
      = intH (paramsOfVecs wix bix wfx bfx wux bux wox box wih bih wfh bfh wuh buh woh boh) X CH CC r p := by
  have ho := pre_apply xs hs wox woh Box Boh box boh X (hsum CH) hX hS hBox hBoh r p
  refine congrArg₂ (· * ·) ?_ (congrArg Ideal.tanh hcv)
  exact (TreeHost.Lib.hostLogistic_apply c2 _ (ix2 r p)).trans (congrArg Ideal.logistic ho)

/-- One gate's argument on a leaf level: the children's sum is the zero matrix, so its product vanishes. -/
theorem leafPre_apply (xs : FVec Ideal ⟨2, ![n, 300]⟩ .f32)
    (w : FVec Ideal ⟨2, ![300, 150]⟩ .f32) (wh : FVec Ideal ⟨2, ![150, 150]⟩ .f32)
    (B Bh : FVec Ideal ⟨2, ![n, 150]⟩ .f32) (b bh : FVec Ideal ⟨1, ![150]⟩ .f32)
    (c2 : (⟨0, ![]⟩ : Shape).BroadcastsInDim ⟨2, ![n, 150]⟩ ![])
    (X : Fin n → Fin 300 → EReal) (hX : ∀ r k, xs (ix2 r k) = X r k)
    (hB : ∀ r p, B (ix2 r p) = vec b p) (hBh : ∀ r p, Bh (ix2 r p) = vec bh p) (r : Fin n) (p : Fin 150) :
    (addf (addf (addf (Host.dotGeneral (DotDims.plain n 300 150) none xs w) B) (Host.dotGeneral (DotDims.plain n 150 150) none (broadcastInDim ⟨2, ![n, 150]⟩ ![] c2 (constant (F := Ideal) ⟨0, ![]⟩ .f32 0x00000000#32)) wh)) Bh) (ix2 r p)
      = lin X (mat w) r p + vec b p + vec bh p := by
  show (Host.dotGeneral (DotDims.plain n 300 150) none xs w) (ix2 r p) + B (ix2 r p) + (Host.dotGeneral (DotDims.plain n 150 150) none (broadcastInDim ⟨2, ![n, 150]⟩ ![] c2 (constant (F := Ideal) ⟨0, ![]⟩ .f32 0x00000000#32)) wh) (ix2 r p) + Bh (ix2 r p) = _
  have hz : (Host.dotGeneral (DotDims.plain n 150 150) none (broadcastInDim ⟨2, ![n, 150]⟩ ![] c2 (constant (F := Ideal) ⟨0, ![]⟩ .f32 0x00000000#32)) wh) (ix2 r p) = 0 := TreeHost.Lib.zero_dotGeneral_apply c2 wh none .single r p
  rw [xW_apply xs w X hX r p, hB r p, hBh r p, hz, add_zero]

/-- The memory cell of a leaf level at an entry. -/
theorem leafC_apply (wix : FVec Ideal ⟨2, ![300, 150]⟩ .f32) (bix : FVec Ideal ⟨1, ![150]⟩ .f32)
    (wfx : FVec Ideal ⟨2, ![300, 150]⟩ .f32) (bfx : FVec Ideal ⟨1, ![150]⟩ .f32)
    (wux : FVec Ideal ⟨2, ![300, 150]⟩ .f32) (bux : FVec Ideal ⟨1, ![150]⟩ .f32)
    (wox : FVec Ideal ⟨2, ![300, 150]⟩ .f32) (box : FVec Ideal ⟨1, ![150]⟩ .f32)
    (wih : FVec Ideal ⟨2, ![150, 150]⟩ .f32) (bih : FVec Ideal ⟨1, ![150]⟩ .f32)
    (wfh : FVec Ideal ⟨2, ![150, 150]⟩ .f32) (bfh : FVec Ideal ⟨1, ![150]⟩ .f32)
    (wuh : FVec Ideal ⟨2, ![150, 150]⟩ .f32) (buh : FVec Ideal ⟨1, ![150]⟩ .f32)
    (woh : FVec Ideal ⟨2, ![150, 150]⟩ .f32) (boh : FVec Ideal ⟨1, ![150]⟩ .f32)
    (xs : FVec Ideal ⟨2, ![n, 300]⟩ .f32) (Bix Bih Bux Buh : FVec Ideal ⟨2, ![n, 150]⟩ .f32)
    (c2 : (⟨0, ![]⟩ : Shape).BroadcastsInDim ⟨2, ![n, 150]⟩ ![])
    (X : Fin n → Fin 300 → EReal) (hX : ∀ r k, xs (ix2 r k) = X r k)
    (hBix : ∀ r p, Bix (ix2 r p) = vec bix p) (hBih : ∀ r p, Bih (ix2 r p) = vec bih p)
    (hBux : ∀ r p, Bux (ix2 r p) = vec bux p) (hBuh : ∀ r p, Buh (ix2 r p) = vec buh p)
    (r : Fin n) (p : Fin 150) :
    (addf (mulf (Host.divf (broadcastInDim ⟨2, ![n, 150]⟩ ![] c2 (constant (F := Ideal) ⟨0, ![]⟩ .f32 0x3F800000#32)) (addf (broadcastInDim ⟨2, ![n, 150]⟩ ![] c2 (constant (F := Ideal) ⟨0, ![]⟩ .f32 0x3F800000#32)) (Host.exp (Host.negf (addf (addf (addf (Host.dotGeneral (DotDims.plain n 300 150) none xs wix) Bix) (Host.dotGeneral (DotDims.plain n 150 150) none (broadcastInDim ⟨2, ![n, 150]⟩ ![] c2 (constant (F := Ideal) ⟨0, ![]⟩ .f32 0x00000000#32)) wih)) Bih))))) (Host.tanh (addf (addf (addf (Host.dotGeneral (DotDims.plain n 300 150) none xs wux) Bux) (Host.dotGeneral (DotDims.plain n 150 150) none (broadcastInDim ⟨2, ![n, 150]⟩ ![] c2 (constant (F := Ideal) ⟨0, ![]⟩ .f32 0x00000000#32)) wuh)) Buh)))
        (broadcastInDim ⟨2, ![n, 150]⟩ ![] c2 (constant (F := Ideal) ⟨0, ![]⟩ .f32 0x00000000#32))) (ix2 r p)
      = leafC (paramsOfVecs wix bix wfx bfx wux bux wox box wih bih wfh bfh wuh buh woh boh) X r p := by
  have hi := leafPre_apply xs wix wih Bix Bih bix bih c2 X hX hBix hBih r p
  have hu' := leafPre_apply xs wux wuh Bux Buh bux buh c2 X hX hBux hBuh r p
  show _ + (broadcastInDim ⟨2, ![n, 150]⟩ ![] c2 (constant (F := Ideal) ⟨0, ![]⟩ .f32 0x00000000#32)) (ix2 r p) = _
  rw [Hmu.Lib.bcast_const_apply, Ideal.ofBits_zero_f32, add_zero]
  refine congrArg₂ (· * ·) ?_ (congrArg Ideal.tanh hu')
  exact (TreeHost.Lib.hostLogistic_apply c2 _ (ix2 r p)).trans (congrArg Ideal.logistic hi)

/-- The hidden state of a leaf level at an entry, given its memory cell there. -/
theorem leafH_apply (wix : FVec Ideal ⟨2, ![300, 150]⟩ .f32) (bix : FVec Ideal ⟨1, ![150]⟩ .f32)
    (wfx : FVec Ideal ⟨2, ![300, 150]⟩ .f32) (bfx : FVec Ideal ⟨1, ![150]⟩ .f32)
    (wux : FVec Ideal ⟨2, ![300, 150]⟩ .f32) (bux : FVec Ideal ⟨1, ![150]⟩ .f32)
    (wox : FVec Ideal ⟨2, ![300, 150]⟩ .f32) (box : FVec Ideal ⟨1, ![150]⟩ .f32)
    (wih : FVec Ideal ⟨2, ![150, 150]⟩ .f32) (bih : FVec Ideal ⟨1, ![150]⟩ .f32)
    (wfh : FVec Ideal ⟨2, ![150, 150]⟩ .f32) (bfh : FVec Ideal ⟨1, ![150]⟩ .f32)
    (wuh : FVec Ideal ⟨2, ![150, 150]⟩ .f32) (buh : FVec Ideal ⟨1, ![150]⟩ .f32)
    (woh : FVec Ideal ⟨2, ![150, 150]⟩ .f32) (boh : FVec Ideal ⟨1, ![150]⟩ .f32)
    (xs : FVec Ideal ⟨2, ![n, 300]⟩ .f32) (cv : FVec Ideal ⟨2, ![n, 150]⟩ .f32)
    (Box Boh : FVec Ideal ⟨2, ![n, 150]⟩ .f32)
    (c2 : (⟨0, ![]⟩ : Shape).BroadcastsInDim ⟨2, ![n, 150]⟩ ![])
    (X : Fin n → Fin 300 → EReal) (hX : ∀ r k, xs (ix2 r k) = X r k)
    (hBox : ∀ r p, Box (ix2 r p) = vec box p) (hBoh : ∀ r p, Boh (ix2 r p) = vec boh p)
    (r : Fin n) (p : Fin 150)
    (hcv : cv (ix2 r p) = leafC (paramsOfVecs wix bix wfx bfx wux bux wox box wih bih wfh bfh wuh buh woh boh) X r p) :
    (mulf (Host.divf (broadcastInDim ⟨2, ![n, 150]⟩ ![] c2 (constant (F := Ideal) ⟨0, ![]⟩ .f32 0x3F800000#32)) (addf (broadcastInDim ⟨2, ![n, 150]⟩ ![] c2 (constant (F := Ideal) ⟨0, ![]⟩ .f32 0x3F800000#32)) (Host.exp (Host.negf (addf (addf (addf (Host.dotGeneral (DotDims.plain n 300 150) none xs wox) Box) (Host.dotGeneral (DotDims.plain n 150 150) none (broadcastInDim ⟨2, ![n, 150]⟩ ![] c2 (constant (F := Ideal) ⟨0, ![]⟩ .f32 0x00000000#32)) woh)) Boh))))) (Host.tanh cv)) (ix2 r p)
      = leafH (paramsOfVecs wix bix wfx bfx wux bux wox box wih bih wfh bfh wuh buh woh boh) X r p := by
  have ho := leafPre_apply xs wox woh Box Boh box boh c2 X hX hBox hBoh r p
  refine congrArg₂ (· * ·) ?_ (congrArg Ideal.tanh hcv)
  exact (TreeHost.Lib.hostLogistic_apply c2 _ (ix2 r p)).trans (congrArg Ideal.logistic ho)

end Node

/-- The input product x · W_fx + b_fx of a node repeated over its four children, at an entry. -/
theorem fx_apply {n : ℕ} (xs : FVec Ideal ⟨2, ![n, 300]⟩ .f32) (w : FVec Ideal ⟨2, ![300, 150]⟩ .f32)
    (B : FVec Ideal ⟨2, ![n, 150]⟩ .f32) (b : FVec Ideal ⟨1, ![150]⟩ .f32)
    (b5 : (⟨2, ![n, 150]⟩ : Shape).BroadcastsInDim ⟨3, ![n, 1, 150]⟩ (![0, 2] : Fin 2 → Fin 3))
    (b6 : (⟨3, ![n, 1, 150]⟩ : Shape).BroadcastsInDim ⟨3, ![n, 4, 150]⟩ (![0, 1, 2] : Fin 3 → Fin 3))
    (X : Fin n → Fin 300 → EReal) (hX : ∀ r k, xs (ix2 r k) = X r k) (hB : ∀ r p, B (ix2 r p) = vec b p)
    (r : Fin n) (j : Fin 4) (p : Fin 150) :
    broadcastInDim ⟨3, ![n, 4, 150]⟩ ![0, 1, 2] b6 (broadcastInDim ⟨3, ![n, 1, 150]⟩ ![0, 2] b5
        (addf (Host.dotGeneral (DotDims.plain n 300 150) none xs w) B)) (ix3 r j p)
      = lin X (mat w) r p + vec b p := by
  refine (Hmu.Lib.bcastMiddle_apply _ b5 b6 r j p).trans ?_
  show (Host.dotGeneral (DotDims.plain n 300 150) none xs w) (ix2 r p) + B (ix2 r p) = _
  rw [xW_apply xs w X hX r p, hB r p]

/-! ## The operand arrays of a level read at an entry -/

/-- Rows `off …` of the input matrix cut out as a tile: the recurrence's `rows`. -/
theorem rows_apply {n : ℕ} (off : ℕ) (hoff : off + n ≤ 87381) (e : FVec Ideal ⟨2, ![87381, 300]⟩ .f32)
    (hsl : (⟨2, ![87381, 300]⟩ : Shape).Slices ![off, 0] ⟨2, ![n, 300]⟩) (r : Fin n) (k : Fin 300) :
    extractStridedSlice ⟨2, ![n, 300]⟩ ![off, 0] e hsl (ix2 r k) = rows (embsOf e) off n hoff r k :=
  slice2_axis0_apply off e hsl r k ⟨off + r.val, by have := r.isLt; omega⟩ rfl

/-- The level below regrouped by parent: the recurrence's `kids`. -/
theorem kids_apply {n m : ℕ} (hm : m = 4 * n) (a : FVec Ideal ⟨2, ![m, 150]⟩ .f32)
    (hsc : (⟨2, ![m, 150]⟩ : Shape).ShapeCasts ⟨3, ![n, 4, 150]⟩) (A : Fin m → Fin 150 → EReal)
    (hA : ∀ i p, a (ix2 i p) = A i p) (r : Fin n) (j : Fin 4) (p : Fin 150) :
    shapeCast ⟨3, ![n, 4, 150]⟩ a hsc (ix3 r j p) = kids hm A r j p :=
  (TreeHost.Lib.shapeCast_mc_nkc_apply a hsc r j p
      ⟨4 * r.val + j.val, by have := r.isLt; have := j.isLt; omega⟩ (by show 4 * r.val + j.val = r.val * 4 + j.val; omega)).trans
    (hA _ p)

/-- The children's hidden states summed: the recurrence's `hsum`. -/
theorem hsum_apply {n : ℕ} (kh : FVec Ideal ⟨3, ![n, 4, 150]⟩ .f32)
    (hred : Shape.ReducesTo ⟨3, ![n, 4, 150]⟩ [1] ⟨2, ![n, 150]⟩) (hu : 0 < (⟨0, ![]⟩ : Shape).numel)
    (CH : Fin n → Fin 4 → Fin 150 → EReal) (hkh : ∀ r j q, kh (ix3 r j q) = CH r j q) (r : Fin n) (p : Fin 150) :
    Host.reduceAdd kh (constant ⟨0, ![]⟩ .f32 0x00000000#32) hred hu (ix2 r p) = hsum CH r p :=
  (TreeHost.Lib.hostReduceAdd_abc_axis1_apply kh hred hu r p).trans (Finset.sum_congr rfl fun j _ => hkh r j p)

end Cert.ReferenceIdeal.Levels

end
-- ==== Proof.RefLevel0.lean ====
/-
  The leaves. The reference's first level works on rows 0 … 65535 of the input matrix with the children's sum
  replaced by the zero matrix; at an entry its memory cells and hidden states are the recurrence's leaf level.
-/
import proofs.«167239_j63453846831535_1_alg».proof.Proof.RefBase
import proofs.«167239_j63453846831535_1_alg».proof.Proof.TreeSpecArr
import proofs.«167239_j63453846831535_1_alg».proof.Proof.LibPlainDot
import proofs.«167239_j63453846831535_1_alg».proof.Proof.LibHostRead
import proofs.«167239_j63453846831535_1_alg».proof.Proof.LibTreeHost
import proofs.«167239_j63453846831535_1_alg».proof.Proof.RefNode
import proofs.«167239_j63453846831535_1_alg».proof.Proof.RefParams

noncomputable section

namespace Cert.ReferenceIdeal.Levels

open Cert.ReferenceIdeal Cert.ReferenceIdeal.Gen Cert.ReferenceIdeal.Value Idealize.ShloMosaic Idealize.ShloMosaic.ValueIdx
  Idealize.ShloMosaic.TcCoe Idealize.SL.Sem Idealize.ShloMosaic.StableHlo Cert.TreeSpec

/-- The leaves' input rows are rows 0 … 65535 of the input matrix. -/
theorem x0_apply (V : Valuation τ sig (Elt Ideal)) (r : Fin 65536) (k : Fin 300) :
    res_main_v0 V (ix2 r k) = rows (E V) 0 65536 (by norm_num) r k :=
  rows_apply 0 (by norm_num) (V (Proc.devRef .tc main_arg0)) slices_S87381x300_S65536x300_0_0 r k

/-- The leaves' memory cells. -/
theorem level0_c (V : Valuation τ sig (Elt Ideal)) (r : Fin 65536) (p : Fin 150) :
    res_main_v44 V (ix2 r p) = (Cert.TreeSpec.level0 (P V) (E V)).c r p :=
  leafC_apply (n := 65536) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16))
    (res_main_v0 V) _ _ _ _ bcast_S_S65536x150 _ (x0_apply V)
    (fun r p => Hmu.Lib.bcastCols_apply (V (Proc.devRef .tc main_arg2)) bcast_S150_S1x150_1 bcast_S1x150_S65536x150_0_1 r p)
    (fun r p => Hmu.Lib.bcastCols_apply (V (Proc.devRef .tc main_arg10)) bcast_S150_S1x150_1 bcast_S1x150_S65536x150_0_1 r p)
    (fun r p => Hmu.Lib.bcastCols_apply (V (Proc.devRef .tc main_arg6)) bcast_S150_S1x150_1 bcast_S1x150_S65536x150_0_1 r p)
    (fun r p => Hmu.Lib.bcastCols_apply (V (Proc.devRef .tc main_arg14)) bcast_S150_S1x150_1 bcast_S1x150_S65536x150_0_1 r p)
    r p

/-- The leaves' hidden states. -/
theorem level0_h (V : Valuation τ sig (Elt Ideal)) (r : Fin 65536) (p : Fin 150) :
    res_main_v46 V (ix2 r p) = (Cert.TreeSpec.level0 (P V) (E V)).h r p :=
  leafH_apply (n := 65536) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16))
    (res_main_v0 V) (res_main_v44 V) _ _ bcast_S_S65536x150 _ (x0_apply V)
    (fun r p => Hmu.Lib.bcastCols_apply (V (Proc.devRef .tc main_arg8)) bcast_S150_S1x150_1 bcast_S1x150_S65536x150_0_1 r p)
    (fun r p => Hmu.Lib.bcastCols_apply (V (Proc.devRef .tc main_arg16)) bcast_S150_S1x150_1 bcast_S1x150_S65536x150_0_1 r p)
    r p (level0_c V r p)

end Cert.ReferenceIdeal.Levels

end
-- ==== Proof.RefLevel1.lean ====
/-
  Level 1 of the forest: the 16384 nodes on rows 65536 … 81919, each above four nodes of the level below (65536 nodes).
  Given that the level below's hidden states and memory cells are a level L of the recurrence, the reference's
  arrays of this level are, at an entry, the recurrence's level above L: the input rows are a slice of the input
  matrix, the children are the level below regrouped four by four in row-major order, and the rest is one node of
  the recurrence read at an entry.
-/
import proofs.«167239_j63453846831535_1_alg».proof.Proof.RefBase
import proofs.«167239_j63453846831535_1_alg».proof.Proof.TreeSpecArr
import proofs.«167239_j63453846831535_1_alg».proof.Proof.LibPlainDot
import proofs.«167239_j63453846831535_1_alg».proof.Proof.LibHostRead
import proofs.«167239_j63453846831535_1_alg».proof.Proof.LibTreeHost
import proofs.«167239_j63453846831535_1_alg».proof.Proof.RefNode
import proofs.«167239_j63453846831535_1_alg».proof.Proof.RefParams

noncomputable section

namespace Cert.ReferenceIdeal.Levels

open Cert.ReferenceIdeal Cert.ReferenceIdeal.Gen Cert.ReferenceIdeal.Value Idealize.ShloMosaic Idealize.ShloMosaic.ValueIdx
  Idealize.ShloMosaic.TcCoe Idealize.SL.Sem Idealize.ShloMosaic.StableHlo Cert.TreeSpec

/-- This level's input rows are rows 65536 … of the input matrix. -/
theorem x1_apply (V : Valuation τ sig (Elt Ideal)) (r : Fin 16384) (k : Fin 300) :
    res_main_v47 V (ix2 r k) = rows (E V) 65536 16384 (by norm_num) r k :=
  rows_apply 65536 (by norm_num) (V (Proc.devRef .tc main_arg0)) slices_S87381x300_S16384x300_65536_0 r k

/-- The children's hidden states: child j of node r is node 4r + j of the level below. -/
theorem kh1_apply (V : Valuation τ sig (Elt Ideal)) (L : Cert.TreeSpec.Level 65536) (hh : ∀ r p, res_main_v46 V (ix2 r p) = L.h r p)
    (r : Fin 16384) (j : Fin 4) (p : Fin 150) :
    res_main_v48 V (ix3 r j p) = kids (by norm_num : 65536 = 4 * 16384) L.h r j p :=
  kids_apply (by norm_num : 65536 = 4 * 16384) (res_main_v46 V) shapeCasts_S65536x150_S16384x4x150 L.h hh r j p

/-- The children's memory cells, likewise. -/
theorem kc1_apply (V : Valuation τ sig (Elt Ideal)) (L : Cert.TreeSpec.Level 65536) (hc : ∀ r p, res_main_v44 V (ix2 r p) = L.c r p)
    (r : Fin 16384) (j : Fin 4) (p : Fin 150) :
    shapeCast S16384x4x150 (res_main_v44 V) shapeCasts_S65536x150_S16384x4x150 (ix3 r j p) = kids (by norm_num : 65536 = 4 * 16384) L.c r j p :=
  kids_apply (by norm_num : 65536 = 4 * 16384) (res_main_v44 V) shapeCasts_S65536x150_S16384x4x150 L.c hc r j p

/-- The children's hidden states summed. -/
theorem hs1_apply (V : Valuation τ sig (Elt Ideal)) (L : Cert.TreeSpec.Level 65536) (hh : ∀ r p, res_main_v46 V (ix2 r p) = L.h r p)
    (r : Fin 16384) (p : Fin 150) :
    res_main_v50 V (ix2 r p) = hsum (kids (by norm_num : 65536 = 4 * 16384) L.h) r p :=
  hsum_apply (res_main_v48 V) reducesTo_S16384x4x150_S16384x150_d1 h_S_ _ (kh1_apply V L hh) r p

/-- This level's memory cells. -/
theorem level1_c (V : Valuation τ sig (Elt Ideal)) (L : Cert.TreeSpec.Level 65536) (hh : ∀ r p, res_main_v46 V (ix2 r p) = L.h r p)
    (hc : ∀ r p, res_main_v44 V (ix2 r p) = L.c r p) (r : Fin 16384) (p : Fin 150) :
    res_main_v111 V (ix2 r p) = (Cert.TreeSpec.above (P V) (E V) 16384 65536 (by norm_num) (by norm_num) L).c r p :=
  intC_apply (n := 16384) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16))
    (res_main_v47 V) (res_main_v50 V) (res_main_v48 V)
    (shapeCast S16384x4x150 (res_main_v44 V) shapeCasts_S65536x150_S16384x4x150)
    _ _ _ _ _ _ bcast_S_S16384x150 bcast_S_S16384x4x150 dot_S16384x4x150_S150x150_S16384x4x150_2_0_01_1_n_n_wf
    reducesTo_S16384x4x150_S16384x150_d1 h_S_
    _ _ _ (x1_apply V) (hs1_apply V L hh) (kh1_apply V L hh) (kc1_apply V L hc)
    (fun r p => Hmu.Lib.bcastCols_apply (V (Proc.devRef .tc main_arg2)) bcast_S150_S1x150_1 bcast_S1x150_S16384x150_0_1 r p)
    (fun r p => Hmu.Lib.bcastCols_apply (V (Proc.devRef .tc main_arg10)) bcast_S150_S1x150_1 bcast_S1x150_S16384x150_0_1 r p)
    (fun r p => Hmu.Lib.bcastCols_apply (V (Proc.devRef .tc main_arg6)) bcast_S150_S1x150_1 bcast_S1x150_S16384x150_0_1 r p)
    (fun r p => Hmu.Lib.bcastCols_apply (V (Proc.devRef .tc main_arg14)) bcast_S150_S1x150_1 bcast_S1x150_S16384x150_0_1 r p)
    (fun r j p => TreeHost.Lib.bcastLast_apply (V (Proc.devRef .tc main_arg12)) bcast_S150_S1x1x150_2 bcast_S1x1x150_S16384x4x150_0_1_2 r j p)
    (fun r j p => fx_apply (res_main_v47 V) (V (Proc.devRef .tc main_arg3)) _ (V (Proc.devRef .tc main_arg4))
      bcast_S16384x150_S16384x1x150_0_2 bcast_S16384x1x150_S16384x4x150_0_1_2 _ (x1_apply V)
      (fun r p => Hmu.Lib.bcastCols_apply (V (Proc.devRef .tc main_arg4)) bcast_S150_S1x150_1 bcast_S1x150_S16384x150_0_1 r p) r j p)
    r p

/-- This level's hidden states. -/
theorem level1_h (V : Valuation τ sig (Elt Ideal)) (L : Cert.TreeSpec.Level 65536) (hh : ∀ r p, res_main_v46 V (ix2 r p) = L.h r p)
    (hc : ∀ r p, res_main_v44 V (ix2 r p) = L.c r p) (r : Fin 16384) (p : Fin 150) :
    res_main_v113 V (ix2 r p) = (Cert.TreeSpec.above (P V) (E V) 16384 65536 (by norm_num) (by norm_num) L).h r p :=
  intH_apply (n := 16384) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16))
    (res_main_v47 V) (res_main_v50 V) (res_main_v111 V) _ _ bcast_S_S16384x150 _ _ _ (x1_apply V) (hs1_apply V L hh)
    (fun r p => Hmu.Lib.bcastCols_apply (V (Proc.devRef .tc main_arg8)) bcast_S150_S1x150_1 bcast_S1x150_S16384x150_0_1 r p)
    (fun r p => Hmu.Lib.bcastCols_apply (V (Proc.devRef .tc main_arg16)) bcast_S150_S1x150_1 bcast_S1x150_S16384x150_0_1 r p)
    r p (level1_c V L hh hc r p)

end Cert.ReferenceIdeal.Levels

end
-- ==== Proof.RefLevel2.lean ====
/-
  Level 2 of the forest: the 4096 nodes on rows 81920 … 86015, each above four nodes of the level below (16384 nodes).
  Given that the level below's hidden states and memory cells are a level L of the recurrence, the reference's
  arrays of this level are, at an entry, the recurrence's level above L: the input rows are a slice of the input
  matrix, the children are the level below regrouped four by four in row-major order, and the rest is one node of
  the recurrence read at an entry.
-/
import proofs.«167239_j63453846831535_1_alg».proof.Proof.RefBase
import proofs.«167239_j63453846831535_1_alg».proof.Proof.TreeSpecArr
import proofs.«167239_j63453846831535_1_alg».proof.Proof.LibPlainDot
import proofs.«167239_j63453846831535_1_alg».proof.Proof.LibHostRead
import proofs.«167239_j63453846831535_1_alg».proof.Proof.LibTreeHost
import proofs.«167239_j63453846831535_1_alg».proof.Proof.RefNode
import proofs.«167239_j63453846831535_1_alg».proof.Proof.RefParams

noncomputable section

namespace Cert.ReferenceIdeal.Levels

open Cert.ReferenceIdeal Cert.ReferenceIdeal.Gen Cert.ReferenceIdeal.Value Idealize.ShloMosaic Idealize.ShloMosaic.ValueIdx
  Idealize.ShloMosaic.TcCoe Idealize.SL.Sem Idealize.ShloMosaic.StableHlo Cert.TreeSpec

/-- This level's input rows are rows 81920 … of the input matrix. -/
theorem x2_apply (V : Valuation τ sig (Elt Ideal)) (r : Fin 4096) (k : Fin 300) :
    res_main_v114 V (ix2 r k) = rows (E V) 81920 4096 (by norm_num) r k :=
  rows_apply 81920 (by norm_num) (V (Proc.devRef .tc main_arg0)) slices_S87381x300_S4096x300_81920_0 r k

/-- The children's hidden states: child j of node r is node 4r + j of the level below. -/
theorem kh2_apply (V : Valuation τ sig (Elt Ideal)) (L : Cert.TreeSpec.Level 16384) (hh : ∀ r p, res_main_v113 V (ix2 r p) = L.h r p)
    (r : Fin 4096) (j : Fin 4) (p : Fin 150) :
    res_main_v115 V (ix3 r j p) = kids (by norm_num : 16384 = 4 * 4096) L.h r j p :=
  kids_apply (by norm_num : 16384 = 4 * 4096) (res_main_v113 V) shapeCasts_S16384x150_S4096x4x150 L.h hh r j p

/-- The children's memory cells, likewise. -/
theorem kc2_apply (V : Valuation τ sig (Elt Ideal)) (L : Cert.TreeSpec.Level 16384) (hc : ∀ r p, res_main_v111 V (ix2 r p) = L.c r p)
    (r : Fin 4096) (j : Fin 4) (p : Fin 150) :
    shapeCast S4096x4x150 (res_main_v111 V) shapeCasts_S16384x150_S4096x4x150 (ix3 r j p) = kids (by norm_num : 16384 = 4 * 4096) L.c r j p :=
  kids_apply (by norm_num : 16384 = 4 * 4096) (res_main_v111 V) shapeCasts_S16384x150_S4096x4x150 L.c hc r j p

/-- The children's hidden states summed. -/
theorem hs2_apply (V : Valuation τ sig (Elt Ideal)) (L : Cert.TreeSpec.Level 16384) (hh : ∀ r p, res_main_v113 V (ix2 r p) = L.h r p)
    (r : Fin 4096) (p : Fin 150) :
    res_main_v117 V (ix2 r p) = hsum (kids (by norm_num : 16384 = 4 * 4096) L.h) r p :=
  hsum_apply (res_main_v115 V) reducesTo_S4096x4x150_S4096x150_d1 h_S_ _ (kh2_apply V L hh) r p

/-- This level's memory cells. -/
theorem level2_c (V : Valuation τ sig (Elt Ideal)) (L : Cert.TreeSpec.Level 16384) (hh : ∀ r p, res_main_v113 V (ix2 r p) = L.h r p)
    (hc : ∀ r p, res_main_v111 V (ix2 r p) = L.c r p) (r : Fin 4096) (p : Fin 150) :
    res_main_v178 V (ix2 r p) = (Cert.TreeSpec.above (P V) (E V) 4096 81920 (by norm_num) (by norm_num) L).c r p :=
  intC_apply (n := 4096) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16))
    (res_main_v114 V) (res_main_v117 V) (res_main_v115 V)
    (shapeCast S4096x4x150 (res_main_v111 V) shapeCasts_S16384x150_S4096x4x150)
    _ _ _ _ _ _ bcast_S_S4096x150 bcast_S_S4096x4x150 dot_S4096x4x150_S150x150_S4096x4x150_2_0_01_1_n_n_wf
    reducesTo_S4096x4x150_S4096x150_d1 h_S_
    _ _ _ (x2_apply V) (hs2_apply V L hh) (kh2_apply V L hh) (kc2_apply V L hc)
    (fun r p => Hmu.Lib.bcastCols_apply (V (Proc.devRef .tc main_arg2)) bcast_S150_S1x150_1 bcast_S1x150_S4096x150_0_1 r p)
    (fun r p => Hmu.Lib.bcastCols_apply (V (Proc.devRef .tc main_arg10)) bcast_S150_S1x150_1 bcast_S1x150_S4096x150_0_1 r p)
    (fun r p => Hmu.Lib.bcastCols_apply (V (Proc.devRef .tc main_arg6)) bcast_S150_S1x150_1 bcast_S1x150_S4096x150_0_1 r p)
    (fun r p => Hmu.Lib.bcastCols_apply (V (Proc.devRef .tc main_arg14)) bcast_S150_S1x150_1 bcast_S1x150_S4096x150_0_1 r p)
    (fun r j p => TreeHost.Lib.bcastLast_apply (V (Proc.devRef .tc main_arg12)) bcast_S150_S1x1x150_2 bcast_S1x1x150_S4096x4x150_0_1_2 r j p)
    (fun r j p => fx_apply (res_main_v114 V) (V (Proc.devRef .tc main_arg3)) _ (V (Proc.devRef .tc main_arg4))
      bcast_S4096x150_S4096x1x150_0_2 bcast_S4096x1x150_S4096x4x150_0_1_2 _ (x2_apply V)
      (fun r p => Hmu.Lib.bcastCols_apply (V (Proc.devRef .tc main_arg4)) bcast_S150_S1x150_1 bcast_S1x150_S4096x150_0_1 r p) r j p)
    r p

/-- This level's hidden states. -/
theorem level2_h (V : Valuation τ sig (Elt Ideal)) (L : Cert.TreeSpec.Level 16384) (hh : ∀ r p, res_main_v113 V (ix2 r p) = L.h r p)
    (hc : ∀ r p, res_main_v111 V (ix2 r p) = L.c r p) (r : Fin 4096) (p : Fin 150) :
    res_main_v180 V (ix2 r p) = (Cert.TreeSpec.above (P V) (E V) 4096 81920 (by norm_num) (by norm_num) L).h r p :=
  intH_apply (n := 4096) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16))
    (res_main_v114 V) (res_main_v117 V) (res_main_v178 V) _ _ bcast_S_S4096x150 _ _ _ (x2_apply V) (hs2_apply V L hh)
    (fun r p => Hmu.Lib.bcastCols_apply (V (Proc.devRef .tc main_arg8)) bcast_S150_S1x150_1 bcast_S1x150_S4096x150_0_1 r p)
    (fun r p => Hmu.Lib.bcastCols_apply (V (Proc.devRef .tc main_arg16)) bcast_S150_S1x150_1 bcast_S1x150_S4096x150_0_1 r p)
    r p (level2_c V L hh hc r p)

end Cert.ReferenceIdeal.Levels

end
-- ==== Proof.RefLevel3.lean ====
/-
  Level 3 of the forest: the 1024 nodes on rows 86016 … 87039, each above four nodes of the level below (4096 nodes).
  Given that the level below's hidden states and memory cells are a level L of the recurrence, the reference's
  arrays of this level are, at an entry, the recurrence's level above L: the input rows are a slice of the input
  matrix, the children are the level below regrouped four by four in row-major order, and the rest is one node of
  the recurrence read at an entry.
-/
import proofs.«167239_j63453846831535_1_alg».proof.Proof.RefBase
import proofs.«167239_j63453846831535_1_alg».proof.Proof.TreeSpecArr
import proofs.«167239_j63453846831535_1_alg».proof.Proof.LibPlainDot
import proofs.«167239_j63453846831535_1_alg».proof.Proof.LibHostRead
import proofs.«167239_j63453846831535_1_alg».proof.Proof.LibTreeHost
import proofs.«167239_j63453846831535_1_alg».proof.Proof.RefNode
import proofs.«167239_j63453846831535_1_alg».proof.Proof.RefParams

noncomputable section

namespace Cert.ReferenceIdeal.Levels

open Cert.ReferenceIdeal Cert.ReferenceIdeal.Gen Cert.ReferenceIdeal.Value Idealize.ShloMosaic Idealize.ShloMosaic.ValueIdx
  Idealize.ShloMosaic.TcCoe Idealize.SL.Sem Idealize.ShloMosaic.StableHlo Cert.TreeSpec

/-- This level's input rows are rows 86016 … of the input matrix. -/
theorem x3_apply (V : Valuation τ sig (Elt Ideal)) (r : Fin 1024) (k : Fin 300) :
    res_main_v181 V (ix2 r k) = rows (E V) 86016 1024 (by norm_num) r k :=
  rows_apply 86016 (by norm_num) (V (Proc.devRef .tc main_arg0)) slices_S87381x300_S1024x300_86016_0 r k

/-- The children's hidden states: child j of node r is node 4r + j of the level below. -/
theorem kh3_apply (V : Valuation τ sig (Elt Ideal)) (L : Cert.TreeSpec.Level 4096) (hh : ∀ r p, res_main_v180 V (ix2 r p) = L.h r p)
    (r : Fin 1024) (j : Fin 4) (p : Fin 150) :
    res_main_v182 V (ix3 r j p) = kids (by norm_num : 4096 = 4 * 1024) L.h r j p :=
  kids_apply (by norm_num : 4096 = 4 * 1024) (res_main_v180 V) shapeCasts_S4096x150_S1024x4x150 L.h hh r j p

/-- The children's memory cells, likewise. -/
theorem kc3_apply (V : Valuation τ sig (Elt Ideal)) (L : Cert.TreeSpec.Level 4096) (hc : ∀ r p, res_main_v178 V (ix2 r p) = L.c r p)
    (r : Fin 1024) (j : Fin 4) (p : Fin 150) :
    shapeCast S1024x4x150 (res_main_v178 V) shapeCasts_S4096x150_S1024x4x150 (ix3 r j p) = kids (by norm_num : 4096 = 4 * 1024) L.c r j p :=
  kids_apply (by norm_num : 4096 = 4 * 1024) (res_main_v178 V) shapeCasts_S4096x150_S1024x4x150 L.c hc r j p

/-- The children's hidden states summed. -/
theorem hs3_apply (V : Valuation τ sig (Elt Ideal)) (L : Cert.TreeSpec.Level 4096) (hh : ∀ r p, res_main_v180 V (ix2 r p) = L.h r p)
    (r : Fin 1024) (p : Fin 150) :
    res_main_v184 V (ix2 r p) = hsum (kids (by norm_num : 4096 = 4 * 1024) L.h) r p :=
  hsum_apply (res_main_v182 V) reducesTo_S1024x4x150_S1024x150_d1 h_S_ _ (kh3_apply V L hh) r p

/-- This level's memory cells. -/
theorem level3_c (V : Valuation τ sig (Elt Ideal)) (L : Cert.TreeSpec.Level 4096) (hh : ∀ r p, res_main_v180 V (ix2 r p) = L.h r p)
    (hc : ∀ r p, res_main_v178 V (ix2 r p) = L.c r p) (r : Fin 1024) (p : Fin 150) :
    res_main_v245 V (ix2 r p) = (Cert.TreeSpec.above (P V) (E V) 1024 86016 (by norm_num) (by norm_num) L).c r p :=
  intC_apply (n := 1024) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16))
    (res_main_v181 V) (res_main_v184 V) (res_main_v182 V)
    (shapeCast S1024x4x150 (res_main_v178 V) shapeCasts_S4096x150_S1024x4x150)
    _ _ _ _ _ _ bcast_S_S1024x150 bcast_S_S1024x4x150 dot_S1024x4x150_S150x150_S1024x4x150_2_0_01_1_n_n_wf
    reducesTo_S1024x4x150_S1024x150_d1 h_S_
    _ _ _ (x3_apply V) (hs3_apply V L hh) (kh3_apply V L hh) (kc3_apply V L hc)
    (fun r p => Hmu.Lib.bcastCols_apply (V (Proc.devRef .tc main_arg2)) bcast_S150_S1x150_1 bcast_S1x150_S1024x150_0_1 r p)
    (fun r p => Hmu.Lib.bcastCols_apply (V (Proc.devRef .tc main_arg10)) bcast_S150_S1x150_1 bcast_S1x150_S1024x150_0_1 r p)
    (fun r p => Hmu.Lib.bcastCols_apply (V (Proc.devRef .tc main_arg6)) bcast_S150_S1x150_1 bcast_S1x150_S1024x150_0_1 r p)
    (fun r p => Hmu.Lib.bcastCols_apply (V (Proc.devRef .tc main_arg14)) bcast_S150_S1x150_1 bcast_S1x150_S1024x150_0_1 r p)
    (fun r j p => TreeHost.Lib.bcastLast_apply (V (Proc.devRef .tc main_arg12)) bcast_S150_S1x1x150_2 bcast_S1x1x150_S1024x4x150_0_1_2 r j p)
    (fun r j p => fx_apply (res_main_v181 V) (V (Proc.devRef .tc main_arg3)) _ (V (Proc.devRef .tc main_arg4))
      bcast_S1024x150_S1024x1x150_0_2 bcast_S1024x1x150_S1024x4x150_0_1_2 _ (x3_apply V)
      (fun r p => Hmu.Lib.bcastCols_apply (V (Proc.devRef .tc main_arg4)) bcast_S150_S1x150_1 bcast_S1x150_S1024x150_0_1 r p) r j p)
    r p

/-- This level's hidden states. -/
theorem level3_h (V : Valuation τ sig (Elt Ideal)) (L : Cert.TreeSpec.Level 4096) (hh : ∀ r p, res_main_v180 V (ix2 r p) = L.h r p)
    (hc : ∀ r p, res_main_v178 V (ix2 r p) = L.c r p) (r : Fin 1024) (p : Fin 150) :
    res_main_v247 V (ix2 r p) = (Cert.TreeSpec.above (P V) (E V) 1024 86016 (by norm_num) (by norm_num) L).h r p :=
  intH_apply (n := 1024) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16))
    (res_main_v181 V) (res_main_v184 V) (res_main_v245 V) _ _ bcast_S_S1024x150 _ _ _ (x3_apply V) (hs3_apply V L hh)
    (fun r p => Hmu.Lib.bcastCols_apply (V (Proc.devRef .tc main_arg8)) bcast_S150_S1x150_1 bcast_S1x150_S1024x150_0_1 r p)
    (fun r p => Hmu.Lib.bcastCols_apply (V (Proc.devRef .tc main_arg16)) bcast_S150_S1x150_1 bcast_S1x150_S1024x150_0_1 r p)
    r p (level3_c V L hh hc r p)

end Cert.ReferenceIdeal.Levels

end
-- ==== Proof.RefLevel4.lean ====
/-
  Level 4 of the forest: the 256 nodes on rows 87040 … 87295, each above four nodes of the level below (1024 nodes).
  Given that the level below's hidden states and memory cells are a level L of the recurrence, the reference's
  arrays of this level are, at an entry, the recurrence's level above L: the input rows are a slice of the input
  matrix, the children are the level below regrouped four by four in row-major order, and the rest is one node of
  the recurrence read at an entry.
-/
import proofs.«167239_j63453846831535_1_alg».proof.Proof.RefBase
import proofs.«167239_j63453846831535_1_alg».proof.Proof.TreeSpecArr
import proofs.«167239_j63453846831535_1_alg».proof.Proof.LibPlainDot
import proofs.«167239_j63453846831535_1_alg».proof.Proof.LibHostRead
import proofs.«167239_j63453846831535_1_alg».proof.Proof.LibTreeHost
import proofs.«167239_j63453846831535_1_alg».proof.Proof.RefNode
import proofs.«167239_j63453846831535_1_alg».proof.Proof.RefParams

noncomputable section

namespace Cert.ReferenceIdeal.Levels

open Cert.ReferenceIdeal Cert.ReferenceIdeal.Gen Cert.ReferenceIdeal.Value Idealize.ShloMosaic Idealize.ShloMosaic.ValueIdx
  Idealize.ShloMosaic.TcCoe Idealize.SL.Sem Idealize.ShloMosaic.StableHlo Cert.TreeSpec

/-- This level's input rows are rows 87040 … of the input matrix. -/
theorem x4_apply (V : Valuation τ sig (Elt Ideal)) (r : Fin 256) (k : Fin 300) :
    res_main_v248 V (ix2 r k) = rows (E V) 87040 256 (by norm_num) r k :=
  rows_apply 87040 (by norm_num) (V (Proc.devRef .tc main_arg0)) slices_S87381x300_S256x300_87040_0 r k

/-- The children's hidden states: child j of node r is node 4r + j of the level below. -/
theorem kh4_apply (V : Valuation τ sig (Elt Ideal)) (L : Cert.TreeSpec.Level 1024) (hh : ∀ r p, res_main_v247 V (ix2 r p) = L.h r p)
    (r : Fin 256) (j : Fin 4) (p : Fin 150) :
    res_main_v249 V (ix3 r j p) = kids (by norm_num : 1024 = 4 * 256) L.h r j p :=
  kids_apply (by norm_num : 1024 = 4 * 256) (res_main_v247 V) shapeCasts_S1024x150_S256x4x150 L.h hh r j p

/-- The children's memory cells, likewise. -/
theorem kc4_apply (V : Valuation τ sig (Elt Ideal)) (L : Cert.TreeSpec.Level 1024) (hc : ∀ r p, res_main_v245 V (ix2 r p) = L.c r p)
    (r : Fin 256) (j : Fin 4) (p : Fin 150) :
    shapeCast S256x4x150 (res_main_v245 V) shapeCasts_S1024x150_S256x4x150 (ix3 r j p) = kids (by norm_num : 1024 = 4 * 256) L.c r j p :=
  kids_apply (by norm_num : 1024 = 4 * 256) (res_main_v245 V) shapeCasts_S1024x150_S256x4x150 L.c hc r j p

/-- The children's hidden states summed. -/
theorem hs4_apply (V : Valuation τ sig (Elt Ideal)) (L : Cert.TreeSpec.Level 1024) (hh : ∀ r p, res_main_v247 V (ix2 r p) = L.h r p)
    (r : Fin 256) (p : Fin 150) :
    res_main_v251 V (ix2 r p) = hsum (kids (by norm_num : 1024 = 4 * 256) L.h) r p :=
  hsum_apply (res_main_v249 V) reducesTo_S256x4x150_S256x150_d1 h_S_ _ (kh4_apply V L hh) r p

/-- This level's memory cells. -/
theorem level4_c (V : Valuation τ sig (Elt Ideal)) (L : Cert.TreeSpec.Level 1024) (hh : ∀ r p, res_main_v247 V (ix2 r p) = L.h r p)
    (hc : ∀ r p, res_main_v245 V (ix2 r p) = L.c r p) (r : Fin 256) (p : Fin 150) :
    res_main_v312 V (ix2 r p) = (Cert.TreeSpec.above (P V) (E V) 256 87040 (by norm_num) (by norm_num) L).c r p :=
  intC_apply (n := 256) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16))
    (res_main_v248 V) (res_main_v251 V) (res_main_v249 V)
    (shapeCast S256x4x150 (res_main_v245 V) shapeCasts_S1024x150_S256x4x150)
    _ _ _ _ _ _ bcast_S_S256x150 bcast_S_S256x4x150 dot_S256x4x150_S150x150_S256x4x150_2_0_01_1_n_n_wf
    reducesTo_S256x4x150_S256x150_d1 h_S_
    _ _ _ (x4_apply V) (hs4_apply V L hh) (kh4_apply V L hh) (kc4_apply V L hc)
    (fun r p => Hmu.Lib.bcastCols_apply (V (Proc.devRef .tc main_arg2)) bcast_S150_S1x150_1 bcast_S1x150_S256x150_0_1 r p)
    (fun r p => Hmu.Lib.bcastCols_apply (V (Proc.devRef .tc main_arg10)) bcast_S150_S1x150_1 bcast_S1x150_S256x150_0_1 r p)
    (fun r p => Hmu.Lib.bcastCols_apply (V (Proc.devRef .tc main_arg6)) bcast_S150_S1x150_1 bcast_S1x150_S256x150_0_1 r p)
    (fun r p => Hmu.Lib.bcastCols_apply (V (Proc.devRef .tc main_arg14)) bcast_S150_S1x150_1 bcast_S1x150_S256x150_0_1 r p)
    (fun r j p => TreeHost.Lib.bcastLast_apply (V (Proc.devRef .tc main_arg12)) bcast_S150_S1x1x150_2 bcast_S1x1x150_S256x4x150_0_1_2 r j p)
    (fun r j p => fx_apply (res_main_v248 V) (V (Proc.devRef .tc main_arg3)) _ (V (Proc.devRef .tc main_arg4))
      bcast_S256x150_S256x1x150_0_2 bcast_S256x1x150_S256x4x150_0_1_2 _ (x4_apply V)
      (fun r p => Hmu.Lib.bcastCols_apply (V (Proc.devRef .tc main_arg4)) bcast_S150_S1x150_1 bcast_S1x150_S256x150_0_1 r p) r j p)
    r p

/-- This level's hidden states. -/
theorem level4_h (V : Valuation τ sig (Elt Ideal)) (L : Cert.TreeSpec.Level 1024) (hh : ∀ r p, res_main_v247 V (ix2 r p) = L.h r p)
    (hc : ∀ r p, res_main_v245 V (ix2 r p) = L.c r p) (r : Fin 256) (p : Fin 150) :
    res_main_v314 V (ix2 r p) = (Cert.TreeSpec.above (P V) (E V) 256 87040 (by norm_num) (by norm_num) L).h r p :=
  intH_apply (n := 256) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16))
    (res_main_v248 V) (res_main_v251 V) (res_main_v312 V) _ _ bcast_S_S256x150 _ _ _ (x4_apply V) (hs4_apply V L hh)
    (fun r p => Hmu.Lib.bcastCols_apply (V (Proc.devRef .tc main_arg8)) bcast_S150_S1x150_1 bcast_S1x150_S256x150_0_1 r p)
    (fun r p => Hmu.Lib.bcastCols_apply (V (Proc.devRef .tc main_arg16)) bcast_S150_S1x150_1 bcast_S1x150_S256x150_0_1 r p)
    r p (level4_c V L hh hc r p)

end Cert.ReferenceIdeal.Levels

end
-- ==== Proof.RefLevel5.lean ====
/-
  Level 5 of the forest: the 64 nodes on rows 87296 … 87359, each above four nodes of the level below (256 nodes).
  Given that the level below's hidden states and memory cells are a level L of the recurrence, the reference's
  arrays of this level are, at an entry, the recurrence's level above L: the input rows are a slice of the input
  matrix, the children are the level below regrouped four by four in row-major order, and the rest is one node of
  the recurrence read at an entry.
-/
import proofs.«167239_j63453846831535_1_alg».proof.Proof.RefBase
import proofs.«167239_j63453846831535_1_alg».proof.Proof.TreeSpecArr
import proofs.«167239_j63453846831535_1_alg».proof.Proof.LibPlainDot
import proofs.«167239_j63453846831535_1_alg».proof.Proof.LibHostRead
import proofs.«167239_j63453846831535_1_alg».proof.Proof.LibTreeHost
import proofs.«167239_j63453846831535_1_alg».proof.Proof.RefNode
import proofs.«167239_j63453846831535_1_alg».proof.Proof.RefParams

noncomputable section

namespace Cert.ReferenceIdeal.Levels

open Cert.ReferenceIdeal Cert.ReferenceIdeal.Gen Cert.ReferenceIdeal.Value Idealize.ShloMosaic Idealize.ShloMosaic.ValueIdx
  Idealize.ShloMosaic.TcCoe Idealize.SL.Sem Idealize.ShloMosaic.StableHlo Cert.TreeSpec

/-- This level's input rows are rows 87296 … of the input matrix. -/
theorem x5_apply (V : Valuation τ sig (Elt Ideal)) (r : Fin 64) (k : Fin 300) :
    res_main_v315 V (ix2 r k) = rows (E V) 87296 64 (by norm_num) r k :=
  rows_apply 87296 (by norm_num) (V (Proc.devRef .tc main_arg0)) slices_S87381x300_S64x300_87296_0 r k

/-- The children's hidden states: child j of node r is node 4r + j of the level below. -/
theorem kh5_apply (V : Valuation τ sig (Elt Ideal)) (L : Cert.TreeSpec.Level 256) (hh : ∀ r p, res_main_v314 V (ix2 r p) = L.h r p)
    (r : Fin 64) (j : Fin 4) (p : Fin 150) :
    res_main_v316 V (ix3 r j p) = kids (by norm_num : 256 = 4 * 64) L.h r j p :=
  kids_apply (by norm_num : 256 = 4 * 64) (res_main_v314 V) shapeCasts_S256x150_S64x4x150 L.h hh r j p

/-- The children's memory cells, likewise. -/
theorem kc5_apply (V : Valuation τ sig (Elt Ideal)) (L : Cert.TreeSpec.Level 256) (hc : ∀ r p, res_main_v312 V (ix2 r p) = L.c r p)
    (r : Fin 64) (j : Fin 4) (p : Fin 150) :
    shapeCast S64x4x150 (res_main_v312 V) shapeCasts_S256x150_S64x4x150 (ix3 r j p) = kids (by norm_num : 256 = 4 * 64) L.c r j p :=
  kids_apply (by norm_num : 256 = 4 * 64) (res_main_v312 V) shapeCasts_S256x150_S64x4x150 L.c hc r j p

/-- The children's hidden states summed. -/
theorem hs5_apply (V : Valuation τ sig (Elt Ideal)) (L : Cert.TreeSpec.Level 256) (hh : ∀ r p, res_main_v314 V (ix2 r p) = L.h r p)
    (r : Fin 64) (p : Fin 150) :
    res_main_v318 V (ix2 r p) = hsum (kids (by norm_num : 256 = 4 * 64) L.h) r p :=
  hsum_apply (res_main_v316 V) reducesTo_S64x4x150_S64x150_d1 h_S_ _ (kh5_apply V L hh) r p

/-- This level's memory cells. -/
theorem level5_c (V : Valuation τ sig (Elt Ideal)) (L : Cert.TreeSpec.Level 256) (hh : ∀ r p, res_main_v314 V (ix2 r p) = L.h r p)
    (hc : ∀ r p, res_main_v312 V (ix2 r p) = L.c r p) (r : Fin 64) (p : Fin 150) :
    res_main_v379 V (ix2 r p) = (Cert.TreeSpec.above (P V) (E V) 64 87296 (by norm_num) (by norm_num) L).c r p :=
  intC_apply (n := 64) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16))
    (res_main_v315 V) (res_main_v318 V) (res_main_v316 V)
    (shapeCast S64x4x150 (res_main_v312 V) shapeCasts_S256x150_S64x4x150)
    _ _ _ _ _ _ bcast_S_S64x150 bcast_S_S64x4x150 dot_S64x4x150_S150x150_S64x4x150_2_0_01_1_n_n_wf
    reducesTo_S64x4x150_S64x150_d1 h_S_
    _ _ _ (x5_apply V) (hs5_apply V L hh) (kh5_apply V L hh) (kc5_apply V L hc)
    (fun r p => Hmu.Lib.bcastCols_apply (V (Proc.devRef .tc main_arg2)) bcast_S150_S1x150_1 bcast_S1x150_S64x150_0_1 r p)
    (fun r p => Hmu.Lib.bcastCols_apply (V (Proc.devRef .tc main_arg10)) bcast_S150_S1x150_1 bcast_S1x150_S64x150_0_1 r p)
    (fun r p => Hmu.Lib.bcastCols_apply (V (Proc.devRef .tc main_arg6)) bcast_S150_S1x150_1 bcast_S1x150_S64x150_0_1 r p)
    (fun r p => Hmu.Lib.bcastCols_apply (V (Proc.devRef .tc main_arg14)) bcast_S150_S1x150_1 bcast_S1x150_S64x150_0_1 r p)
    (fun r j p => TreeHost.Lib.bcastLast_apply (V (Proc.devRef .tc main_arg12)) bcast_S150_S1x1x150_2 bcast_S1x1x150_S64x4x150_0_1_2 r j p)
    (fun r j p => fx_apply (res_main_v315 V) (V (Proc.devRef .tc main_arg3)) _ (V (Proc.devRef .tc main_arg4))
      bcast_S64x150_S64x1x150_0_2 bcast_S64x1x150_S64x4x150_0_1_2 _ (x5_apply V)
      (fun r p => Hmu.Lib.bcastCols_apply (V (Proc.devRef .tc main_arg4)) bcast_S150_S1x150_1 bcast_S1x150_S64x150_0_1 r p) r j p)
    r p

/-- This level's hidden states. -/
theorem level5_h (V : Valuation τ sig (Elt Ideal)) (L : Cert.TreeSpec.Level 256) (hh : ∀ r p, res_main_v314 V (ix2 r p) = L.h r p)
    (hc : ∀ r p, res_main_v312 V (ix2 r p) = L.c r p) (r : Fin 64) (p : Fin 150) :
    res_main_v381 V (ix2 r p) = (Cert.TreeSpec.above (P V) (E V) 64 87296 (by norm_num) (by norm_num) L).h r p :=
  intH_apply (n := 64) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16))
    (res_main_v315 V) (res_main_v318 V) (res_main_v379 V) _ _ bcast_S_S64x150 _ _ _ (x5_apply V) (hs5_apply V L hh)
    (fun r p => Hmu.Lib.bcastCols_apply (V (Proc.devRef .tc main_arg8)) bcast_S150_S1x150_1 bcast_S1x150_S64x150_0_1 r p)
    (fun r p => Hmu.Lib.bcastCols_apply (V (Proc.devRef .tc main_arg16)) bcast_S150_S1x150_1 bcast_S1x150_S64x150_0_1 r p)
    r p (level5_c V L hh hc r p)

end Cert.ReferenceIdeal.Levels

end
-- ==== Proof.RefLevel6.lean ====
/-
  Level 6 of the forest: the 16 nodes on rows 87360 … 87375, each above four nodes of the level below (64 nodes).
  Given that the level below's hidden states and memory cells are a level L of the recurrence, the reference's
  arrays of this level are, at an entry, the recurrence's level above L: the input rows are a slice of the input
  matrix, the children are the level below regrouped four by four in row-major order, and the rest is one node of
  the recurrence read at an entry.
-/
import proofs.«167239_j63453846831535_1_alg».proof.Proof.RefBase
import proofs.«167239_j63453846831535_1_alg».proof.Proof.TreeSpecArr
import proofs.«167239_j63453846831535_1_alg».proof.Proof.LibPlainDot
import proofs.«167239_j63453846831535_1_alg».proof.Proof.LibHostRead
import proofs.«167239_j63453846831535_1_alg».proof.Proof.LibTreeHost
import proofs.«167239_j63453846831535_1_alg».proof.Proof.RefNode
import proofs.«167239_j63453846831535_1_alg».proof.Proof.RefParams

noncomputable section

namespace Cert.ReferenceIdeal.Levels

open Cert.ReferenceIdeal Cert.ReferenceIdeal.Gen Cert.ReferenceIdeal.Value Idealize.ShloMosaic Idealize.ShloMosaic.ValueIdx
  Idealize.ShloMosaic.TcCoe Idealize.SL.Sem Idealize.ShloMosaic.StableHlo Cert.TreeSpec

/-- This level's input rows are rows 87360 … of the input matrix. -/
theorem x6_apply (V : Valuation τ sig (Elt Ideal)) (r : Fin 16) (k : Fin 300) :
    res_main_v382 V (ix2 r k) = rows (E V) 87360 16 (by norm_num) r k :=
  rows_apply 87360 (by norm_num) (V (Proc.devRef .tc main_arg0)) slices_S87381x300_S16x300_87360_0 r k

/-- The children's hidden states: child j of node r is node 4r + j of the level below. -/
theorem kh6_apply (V : Valuation τ sig (Elt Ideal)) (L : Cert.TreeSpec.Level 64) (hh : ∀ r p, res_main_v381 V (ix2 r p) = L.h r p)
    (r : Fin 16) (j : Fin 4) (p : Fin 150) :
    res_main_v383 V (ix3 r j p) = kids (by norm_num : 64 = 4 * 16) L.h r j p :=
  kids_apply (by norm_num : 64 = 4 * 16) (res_main_v381 V) shapeCasts_S64x150_S16x4x150 L.h hh r j p

/-- The children's memory cells, likewise. -/
theorem kc6_apply (V : Valuation τ sig (Elt Ideal)) (L : Cert.TreeSpec.Level 64) (hc : ∀ r p, res_main_v379 V (ix2 r p) = L.c r p)
    (r : Fin 16) (j : Fin 4) (p : Fin 150) :
    shapeCast S16x4x150 (res_main_v379 V) shapeCasts_S64x150_S16x4x150 (ix3 r j p) = kids (by norm_num : 64 = 4 * 16) L.c r j p :=
  kids_apply (by norm_num : 64 = 4 * 16) (res_main_v379 V) shapeCasts_S64x150_S16x4x150 L.c hc r j p

/-- The children's hidden states summed. -/
theorem hs6_apply (V : Valuation τ sig (Elt Ideal)) (L : Cert.TreeSpec.Level 64) (hh : ∀ r p, res_main_v381 V (ix2 r p) = L.h r p)
    (r : Fin 16) (p : Fin 150) :
    res_main_v385 V (ix2 r p) = hsum (kids (by norm_num : 64 = 4 * 16) L.h) r p :=
  hsum_apply (res_main_v383 V) reducesTo_S16x4x150_S16x150_d1 h_S_ _ (kh6_apply V L hh) r p

/-- This level's memory cells. -/
theorem level6_c (V : Valuation τ sig (Elt Ideal)) (L : Cert.TreeSpec.Level 64) (hh : ∀ r p, res_main_v381 V (ix2 r p) = L.h r p)
    (hc : ∀ r p, res_main_v379 V (ix2 r p) = L.c r p) (r : Fin 16) (p : Fin 150) :
    res_main_v446 V (ix2 r p) = (Cert.TreeSpec.above (P V) (E V) 16 87360 (by norm_num) (by norm_num) L).c r p :=
  intC_apply (n := 16) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16))
    (res_main_v382 V) (res_main_v385 V) (res_main_v383 V)
    (shapeCast S16x4x150 (res_main_v379 V) shapeCasts_S64x150_S16x4x150)
    _ _ _ _ _ _ bcast_S_S16x150 bcast_S_S16x4x150 dot_S16x4x150_S150x150_S16x4x150_2_0_01_1_n_n_wf
    reducesTo_S16x4x150_S16x150_d1 h_S_
    _ _ _ (x6_apply V) (hs6_apply V L hh) (kh6_apply V L hh) (kc6_apply V L hc)
    (fun r p => Hmu.Lib.bcastCols_apply (V (Proc.devRef .tc main_arg2)) bcast_S150_S1x150_1 bcast_S1x150_S16x150_0_1 r p)
    (fun r p => Hmu.Lib.bcastCols_apply (V (Proc.devRef .tc main_arg10)) bcast_S150_S1x150_1 bcast_S1x150_S16x150_0_1 r p)
    (fun r p => Hmu.Lib.bcastCols_apply (V (Proc.devRef .tc main_arg6)) bcast_S150_S1x150_1 bcast_S1x150_S16x150_0_1 r p)
    (fun r p => Hmu.Lib.bcastCols_apply (V (Proc.devRef .tc main_arg14)) bcast_S150_S1x150_1 bcast_S1x150_S16x150_0_1 r p)
    (fun r j p => TreeHost.Lib.bcastLast_apply (V (Proc.devRef .tc main_arg12)) bcast_S150_S1x1x150_2 bcast_S1x1x150_S16x4x150_0_1_2 r j p)
    (fun r j p => fx_apply (res_main_v382 V) (V (Proc.devRef .tc main_arg3)) _ (V (Proc.devRef .tc main_arg4))
      bcast_S16x150_S16x1x150_0_2 bcast_S16x1x150_S16x4x150_0_1_2 _ (x6_apply V)
      (fun r p => Hmu.Lib.bcastCols_apply (V (Proc.devRef .tc main_arg4)) bcast_S150_S1x150_1 bcast_S1x150_S16x150_0_1 r p) r j p)
    r p

/-- This level's hidden states. -/
theorem level6_h (V : Valuation τ sig (Elt Ideal)) (L : Cert.TreeSpec.Level 64) (hh : ∀ r p, res_main_v381 V (ix2 r p) = L.h r p)
    (hc : ∀ r p, res_main_v379 V (ix2 r p) = L.c r p) (r : Fin 16) (p : Fin 150) :
    res_main_v448 V (ix2 r p) = (Cert.TreeSpec.above (P V) (E V) 16 87360 (by norm_num) (by norm_num) L).h r p :=
  intH_apply (n := 16) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16))
    (res_main_v382 V) (res_main_v385 V) (res_main_v446 V) _ _ bcast_S_S16x150 _ _ _ (x6_apply V) (hs6_apply V L hh)
    (fun r p => Hmu.Lib.bcastCols_apply (V (Proc.devRef .tc main_arg8)) bcast_S150_S1x150_1 bcast_S1x150_S16x150_0_1 r p)
    (fun r p => Hmu.Lib.bcastCols_apply (V (Proc.devRef .tc main_arg16)) bcast_S150_S1x150_1 bcast_S1x150_S16x150_0_1 r p)
    r p (level6_c V L hh hc r p)

end Cert.ReferenceIdeal.Levels

end
-- ==== Proof.RefLevel7.lean ====
/-
  Level 7 of the forest: the 4 nodes on rows 87376 … 87379, each above four nodes of the level below (16 nodes).
  Given that the level below's hidden states and memory cells are a level L of the recurrence, the reference's
  arrays of this level are, at an entry, the recurrence's level above L: the input rows are a slice of the input
  matrix, the children are the level below regrouped four by four in row-major order, and the rest is one node of
  the recurrence read at an entry.
-/
import proofs.«167239_j63453846831535_1_alg».proof.Proof.RefBase
import proofs.«167239_j63453846831535_1_alg».proof.Proof.TreeSpecArr
import proofs.«167239_j63453846831535_1_alg».proof.Proof.LibPlainDot
import proofs.«167239_j63453846831535_1_alg».proof.Proof.LibHostRead
import proofs.«167239_j63453846831535_1_alg».proof.Proof.LibTreeHost
import proofs.«167239_j63453846831535_1_alg».proof.Proof.RefNode
import proofs.«167239_j63453846831535_1_alg».proof.Proof.RefParams

noncomputable section

namespace Cert.ReferenceIdeal.Levels

open Cert.ReferenceIdeal Cert.ReferenceIdeal.Gen Cert.ReferenceIdeal.Value Idealize.ShloMosaic Idealize.ShloMosaic.ValueIdx
  Idealize.ShloMosaic.TcCoe Idealize.SL.Sem Idealize.ShloMosaic.StableHlo Cert.TreeSpec

/-- This level's input rows are rows 87376 … of the input matrix. -/
theorem x7_apply (V : Valuation τ sig (Elt Ideal)) (r : Fin 4) (k : Fin 300) :
    res_main_v449 V (ix2 r k) = rows (E V) 87376 4 (by norm_num) r k :=
  rows_apply 87376 (by norm_num) (V (Proc.devRef .tc main_arg0)) slices_S87381x300_S4x300_87376_0 r k

/-- The children's hidden states: child j of node r is node 4r + j of the level below. -/
theorem kh7_apply (V : Valuation τ sig (Elt Ideal)) (L : Cert.TreeSpec.Level 16) (hh : ∀ r p, res_main_v448 V (ix2 r p) = L.h r p)
    (r : Fin 4) (j : Fin 4) (p : Fin 150) :
    res_main_v450 V (ix3 r j p) = kids (by norm_num : 16 = 4 * 4) L.h r j p :=
  kids_apply (by norm_num : 16 = 4 * 4) (res_main_v448 V) shapeCasts_S16x150_S4x4x150 L.h hh r j p

/-- The children's memory cells, likewise. -/
theorem kc7_apply (V : Valuation τ sig (Elt Ideal)) (L : Cert.TreeSpec.Level 16) (hc : ∀ r p, res_main_v446 V (ix2 r p) = L.c r p)
    (r : Fin 4) (j : Fin 4) (p : Fin 150) :
    shapeCast S4x4x150 (res_main_v446 V) shapeCasts_S16x150_S4x4x150 (ix3 r j p) = kids (by norm_num : 16 = 4 * 4) L.c r j p :=
  kids_apply (by norm_num : 16 = 4 * 4) (res_main_v446 V) shapeCasts_S16x150_S4x4x150 L.c hc r j p

/-- The children's hidden states summed. -/
theorem hs7_apply (V : Valuation τ sig (Elt Ideal)) (L : Cert.TreeSpec.Level 16) (hh : ∀ r p, res_main_v448 V (ix2 r p) = L.h r p)
    (r : Fin 4) (p : Fin 150) :
    res_main_v452 V (ix2 r p) = hsum (kids (by norm_num : 16 = 4 * 4) L.h) r p :=
  hsum_apply (res_main_v450 V) reducesTo_S4x4x150_S4x150_d1 h_S_ _ (kh7_apply V L hh) r p

/-- This level's memory cells. -/
theorem level7_c (V : Valuation τ sig (Elt Ideal)) (L : Cert.TreeSpec.Level 16) (hh : ∀ r p, res_main_v448 V (ix2 r p) = L.h r p)
    (hc : ∀ r p, res_main_v446 V (ix2 r p) = L.c r p) (r : Fin 4) (p : Fin 150) :
    res_main_v513 V (ix2 r p) = (Cert.TreeSpec.above (P V) (E V) 4 87376 (by norm_num) (by norm_num) L).c r p :=
  intC_apply (n := 4) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16))
    (res_main_v449 V) (res_main_v452 V) (res_main_v450 V)
    (shapeCast S4x4x150 (res_main_v446 V) shapeCasts_S16x150_S4x4x150)
    _ _ _ _ _ _ bcast_S_S4x150 bcast_S_S4x4x150 dot_S4x4x150_S150x150_S4x4x150_2_0_01_1_n_n_wf
    reducesTo_S4x4x150_S4x150_d1 h_S_
    _ _ _ (x7_apply V) (hs7_apply V L hh) (kh7_apply V L hh) (kc7_apply V L hc)
    (fun r p => Hmu.Lib.bcastCols_apply (V (Proc.devRef .tc main_arg2)) bcast_S150_S1x150_1 bcast_S1x150_S4x150_0_1 r p)
    (fun r p => Hmu.Lib.bcastCols_apply (V (Proc.devRef .tc main_arg10)) bcast_S150_S1x150_1 bcast_S1x150_S4x150_0_1 r p)
    (fun r p => Hmu.Lib.bcastCols_apply (V (Proc.devRef .tc main_arg6)) bcast_S150_S1x150_1 bcast_S1x150_S4x150_0_1 r p)
    (fun r p => Hmu.Lib.bcastCols_apply (V (Proc.devRef .tc main_arg14)) bcast_S150_S1x150_1 bcast_S1x150_S4x150_0_1 r p)
    (fun r j p => TreeHost.Lib.bcastLast_apply (V (Proc.devRef .tc main_arg12)) bcast_S150_S1x1x150_2 bcast_S1x1x150_S4x4x150_0_1_2 r j p)
    (fun r j p => fx_apply (res_main_v449 V) (V (Proc.devRef .tc main_arg3)) _ (V (Proc.devRef .tc main_arg4))
      bcast_S4x150_S4x1x150_0_2 bcast_S4x1x150_S4x4x150_0_1_2 _ (x7_apply V)
      (fun r p => Hmu.Lib.bcastCols_apply (V (Proc.devRef .tc main_arg4)) bcast_S150_S1x150_1 bcast_S1x150_S4x150_0_1 r p) r j p)
    r p

/-- This level's hidden states. -/
theorem level7_h (V : Valuation τ sig (Elt Ideal)) (L : Cert.TreeSpec.Level 16) (hh : ∀ r p, res_main_v448 V (ix2 r p) = L.h r p)
    (hc : ∀ r p, res_main_v446 V (ix2 r p) = L.c r p) (r : Fin 4) (p : Fin 150) :
    res_main_v515 V (ix2 r p) = (Cert.TreeSpec.above (P V) (E V) 4 87376 (by norm_num) (by norm_num) L).h r p :=
  intH_apply (n := 4) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16))
    (res_main_v449 V) (res_main_v452 V) (res_main_v513 V) _ _ bcast_S_S4x150 _ _ _ (x7_apply V) (hs7_apply V L hh)
    (fun r p => Hmu.Lib.bcastCols_apply (V (Proc.devRef .tc main_arg8)) bcast_S150_S1x150_1 bcast_S1x150_S4x150_0_1 r p)
    (fun r p => Hmu.Lib.bcastCols_apply (V (Proc.devRef .tc main_arg16)) bcast_S150_S1x150_1 bcast_S1x150_S4x150_0_1 r p)
    r p (level7_c V L hh hc r p)

end Cert.ReferenceIdeal.Levels

end
-- ==== Proof.RefLevel8.lean ====
/-
  Level 8 of the forest: the root, node 87380, each above four nodes of the level below (4 nodes).
  Given that the level below's hidden states and memory cells are a level L of the recurrence, the reference's
  arrays of this level are, at an entry, the recurrence's level above L: the input rows are a slice of the input
  matrix, the children are the level below regrouped four by four in row-major order, and the rest is one node of
  the recurrence read at an entry.
-/
import proofs.«167239_j63453846831535_1_alg».proof.Proof.RefBase
import proofs.«167239_j63453846831535_1_alg».proof.Proof.TreeSpecArr
import proofs.«167239_j63453846831535_1_alg».proof.Proof.LibPlainDot
import proofs.«167239_j63453846831535_1_alg».proof.Proof.LibHostRead
import proofs.«167239_j63453846831535_1_alg».proof.Proof.LibTreeHost
import proofs.«167239_j63453846831535_1_alg».proof.Proof.RefNode
import proofs.«167239_j63453846831535_1_alg».proof.Proof.RefParams

noncomputable section

namespace Cert.ReferenceIdeal.Levels

open Cert.ReferenceIdeal Cert.ReferenceIdeal.Gen Cert.ReferenceIdeal.Value Idealize.ShloMosaic Idealize.ShloMosaic.ValueIdx
  Idealize.ShloMosaic.TcCoe Idealize.SL.Sem Idealize.ShloMosaic.StableHlo Cert.TreeSpec

/-- The root's memory cell as one whole-array term: the reference's operations of the last level, composed. -/
abbrev c8 (V : Valuation τ sig (Elt Ideal)) : FVec Ideal S1x150 .f32 :=
  addf (mulf (Host.divf (broadcastInDim S1x150 ![] bcast_S_S1x150 (constant (F := Ideal) S_ .f32 0x3F800000#32)) (addf (broadcastInDim S1x150 ![] bcast_S_S1x150 (constant (F := Ideal) S_ .f32 0x3F800000#32)) (Host.exp (Host.negf (addf (addf (addf (Host.dotGeneral (F := Ideal) (φ₁ := .f32) (φ₂ := .f32) dot_S1x300_S300x150_S1x150_1_0_0_1_n_n none (res_main_v516 V) (V (Proc.devRef .tc main_arg1))) (broadcastInDim S1x150 ![1] bcast_S150_S1x150_1 (V (Proc.devRef .tc main_arg2)))) (Host.dotGeneral (F := Ideal) (φ₁ := .f32) (φ₂ := .f32) dot_S1x150_S150x150_S1x150_1_0_0_1_n_n none (res_main_v519 V) (V (Proc.devRef .tc main_arg9)))) (broadcastInDim S1x150 ![1] bcast_S150_S1x150_1 (V (Proc.devRef .tc main_arg10)))))))) (Host.tanh (addf (addf (addf (Host.dotGeneral (F := Ideal) (φ₁ := .f32) (φ₂ := .f32) dot_S1x300_S300x150_S1x150_1_0_0_1_n_n none (res_main_v516 V) (V (Proc.devRef .tc main_arg5))) (broadcastInDim S1x150 ![1] bcast_S150_S1x150_1 (V (Proc.devRef .tc main_arg6)))) (Host.dotGeneral (F := Ideal) (φ₁ := .f32) (φ₂ := .f32) dot_S1x150_S150x150_S1x150_1_0_0_1_n_n none (res_main_v519 V) (V (Proc.devRef .tc main_arg13)))) (broadcastInDim S1x150 ![1] bcast_S150_S1x150_1 (V (Proc.devRef .tc main_arg14)))))) (Host.reduceAdd (F := Ideal) (mulf (Host.divf (broadcastInDim S1x4x150 ![] bcast_S_S1x4x150 (constant (F := Ideal) S_ .f32 0x3F800000#32)) (addf (broadcastInDim S1x4x150 ![] bcast_S_S1x4x150 (constant (F := Ideal) S_ .f32 0x3F800000#32)) (Host.exp (Host.negf (addf (addf (Host.dotGeneral (F := Ideal) (φ₁ := .f32) (φ₂ := .f32) dot_S1x4x150_S150x150_S1x4x150_2_0_01_1_n_n none (res_main_v517 V) (V (Proc.devRef .tc main_arg11))) (broadcastInDim S1x4x150 ![0, 1, 2] bcast_S1x1x150_S1x4x150_0_1_2 (broadcastInDim S1x1x150 ![2] bcast_S150_S1x1x150_2 (V (Proc.devRef .tc main_arg12))))) (broadcastInDim S1x4x150 ![0, 1, 2] bcast_S1x1x150_S1x4x150_0_1_2 (broadcastInDim S1x1x150 ![0, 2] bcast_S1x150_S1x1x150_0_2 (addf (Host.dotGeneral (F := Ideal) (φ₁ := .f32) (φ₂ := .f32) dot_S1x300_S300x150_S1x150_1_0_0_1_n_n none (res_main_v516 V) (V (Proc.devRef .tc main_arg3))) (broadcastInDim S1x150 ![1] bcast_S150_S1x150_1 (V (Proc.devRef .tc main_arg4))))))))))) (shapeCast _ (res_main_v513 V) shapeCasts_S4x150_S1x4x150)) (constant (F := Ideal) S_ .f32 0x00000000#32) reducesTo_S1x4x150_S1x150_d1 h_S_)

/-- The root's hidden state as one whole-array term, o * tanh c: the last piece of the result. -/
abbrev h8 (V : Valuation τ sig (Elt Ideal)) : FVec Ideal S1x150 .f32 :=
  mulf (Host.divf (broadcastInDim S1x150 ![] bcast_S_S1x150 (constant (F := Ideal) S_ .f32 0x3F800000#32)) (addf (broadcastInDim S1x150 ![] bcast_S_S1x150 (constant (F := Ideal) S_ .f32 0x3F800000#32)) (Host.exp (Host.negf (addf (addf (addf (Host.dotGeneral (F := Ideal) (φ₁ := .f32) (φ₂ := .f32) dot_S1x300_S300x150_S1x150_1_0_0_1_n_n none (res_main_v516 V) (V (Proc.devRef .tc main_arg7))) (broadcastInDim S1x150 ![1] bcast_S150_S1x150_1 (V (Proc.devRef .tc main_arg8)))) (Host.dotGeneral (F := Ideal) (φ₁ := .f32) (φ₂ := .f32) dot_S1x150_S150x150_S1x150_1_0_0_1_n_n none (res_main_v519 V) (V (Proc.devRef .tc main_arg15)))) (broadcastInDim S1x150 ![1] bcast_S150_S1x150_1 (V (Proc.devRef .tc main_arg16)))))))) (Host.tanh (c8 V))

/-- This level's input rows are rows 87380 … of the input matrix. -/
theorem x8_apply (V : Valuation τ sig (Elt Ideal)) (r : Fin 1) (k : Fin 300) :
    res_main_v516 V (ix2 r k) = rows (E V) 87380 1 (by norm_num) r k :=
  rows_apply 87380 (by norm_num) (V (Proc.devRef .tc main_arg0)) slices_S87381x300_S1x300_87380_0 r k

/-- The children's hidden states: child j of node r is node 4r + j of the level below. -/
theorem kh8_apply (V : Valuation τ sig (Elt Ideal)) (L : Cert.TreeSpec.Level 4) (hh : ∀ r p, res_main_v515 V (ix2 r p) = L.h r p)
    (r : Fin 1) (j : Fin 4) (p : Fin 150) :
    res_main_v517 V (ix3 r j p) = kids (by norm_num : 4 = 4 * 1) L.h r j p :=
  kids_apply (by norm_num : 4 = 4 * 1) (res_main_v515 V) shapeCasts_S4x150_S1x4x150 L.h hh r j p

/-- The children's memory cells, likewise. -/
theorem kc8_apply (V : Valuation τ sig (Elt Ideal)) (L : Cert.TreeSpec.Level 4) (hc : ∀ r p, res_main_v513 V (ix2 r p) = L.c r p)
    (r : Fin 1) (j : Fin 4) (p : Fin 150) :
    shapeCast S1x4x150 (res_main_v513 V) shapeCasts_S4x150_S1x4x150 (ix3 r j p) = kids (by norm_num : 4 = 4 * 1) L.c r j p :=
  kids_apply (by norm_num : 4 = 4 * 1) (res_main_v513 V) shapeCasts_S4x150_S1x4x150 L.c hc r j p

/-- The children's hidden states summed. -/
theorem hs8_apply (V : Valuation τ sig (Elt Ideal)) (L : Cert.TreeSpec.Level 4) (hh : ∀ r p, res_main_v515 V (ix2 r p) = L.h r p)
    (r : Fin 1) (p : Fin 150) :
    res_main_v519 V (ix2 r p) = hsum (kids (by norm_num : 4 = 4 * 1) L.h) r p :=
  hsum_apply (res_main_v517 V) reducesTo_S1x4x150_S1x150_d1 h_S_ _ (kh8_apply V L hh) r p

/-- This level's memory cells. -/
theorem level8_c (V : Valuation τ sig (Elt Ideal)) (L : Cert.TreeSpec.Level 4) (hh : ∀ r p, res_main_v515 V (ix2 r p) = L.h r p)
    (hc : ∀ r p, res_main_v513 V (ix2 r p) = L.c r p) (r : Fin 1) (p : Fin 150) :
    c8 V (ix2 r p) = (Cert.TreeSpec.above (P V) (E V) 1 87380 (by norm_num) (by norm_num) L).c r p :=
  intC_apply (n := 1) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16))
    (res_main_v516 V) (res_main_v519 V) (res_main_v517 V)
    (shapeCast S1x4x150 (res_main_v513 V) shapeCasts_S4x150_S1x4x150)
    _ _ _ _ _ _ bcast_S_S1x150 bcast_S_S1x4x150 dot_S1x4x150_S150x150_S1x4x150_2_0_01_1_n_n_wf
    reducesTo_S1x4x150_S1x150_d1 h_S_
    _ _ _ (x8_apply V) (hs8_apply V L hh) (kh8_apply V L hh) (kc8_apply V L hc)
    (fun r p => Hmu.Lib.bcast_b_1b_apply (V (Proc.devRef .tc main_arg2)) bcast_S150_S1x150_1 r p)
    (fun r p => Hmu.Lib.bcast_b_1b_apply (V (Proc.devRef .tc main_arg10)) bcast_S150_S1x150_1 r p)
    (fun r p => Hmu.Lib.bcast_b_1b_apply (V (Proc.devRef .tc main_arg6)) bcast_S150_S1x150_1 r p)
    (fun r p => Hmu.Lib.bcast_b_1b_apply (V (Proc.devRef .tc main_arg14)) bcast_S150_S1x150_1 r p)
    (fun r j p => TreeHost.Lib.bcastLast_apply (V (Proc.devRef .tc main_arg12)) bcast_S150_S1x1x150_2 bcast_S1x1x150_S1x4x150_0_1_2 r j p)
    (fun r j p => fx_apply (res_main_v516 V) (V (Proc.devRef .tc main_arg3)) _ (V (Proc.devRef .tc main_arg4))
      bcast_S1x150_S1x1x150_0_2 bcast_S1x1x150_S1x4x150_0_1_2 _ (x8_apply V)
      (fun r p => Hmu.Lib.bcast_b_1b_apply (V (Proc.devRef .tc main_arg4)) bcast_S150_S1x150_1 r p) r j p)
    r p

/-- This level's hidden states. -/
theorem level8_h (V : Valuation τ sig (Elt Ideal)) (L : Cert.TreeSpec.Level 4) (hh : ∀ r p, res_main_v515 V (ix2 r p) = L.h r p)
    (hc : ∀ r p, res_main_v513 V (ix2 r p) = L.c r p) (r : Fin 1) (p : Fin 150) :
    h8 V (ix2 r p) = (Cert.TreeSpec.above (P V) (E V) 1 87380 (by norm_num) (by norm_num) L).h r p :=
  intH_apply (n := 1) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16))
    (res_main_v516 V) (res_main_v519 V) (c8 V) _ _ bcast_S_S1x150 _ _ _ (x8_apply V) (hs8_apply V L hh)
    (fun r p => Hmu.Lib.bcast_b_1b_apply (V (Proc.devRef .tc main_arg8)) bcast_S150_S1x150_1 r p)
    (fun r p => Hmu.Lib.bcast_b_1b_apply (V (Proc.devRef .tc main_arg16)) bcast_S150_S1x150_1 r p)
    r p (level8_c V L hh hc r p)

end Cert.ReferenceIdeal.Levels

end
-- ==== Proof.RefAll.lean ====
/-
  Level by level, the whole-array program's hidden states and memory cells are the recurrence's: each level from the
  one below, starting at the leaves.
-/
import proofs.«167239_j63453846831535_1_alg».proof.Proof.RefLevel0
import proofs.«167239_j63453846831535_1_alg».proof.Proof.RefLevel1
import proofs.«167239_j63453846831535_1_alg».proof.Proof.RefLevel2
import proofs.«167239_j63453846831535_1_alg».proof.Proof.RefLevel3
import proofs.«167239_j63453846831535_1_alg».proof.Proof.RefLevel4
import proofs.«167239_j63453846831535_1_alg».proof.Proof.RefLevel5
import proofs.«167239_j63453846831535_1_alg».proof.Proof.RefLevel6
import proofs.«167239_j63453846831535_1_alg».proof.Proof.RefLevel7
import proofs.«167239_j63453846831535_1_alg».proof.Proof.RefLevel8

set_option maxRecDepth 16384

noncomputable section

namespace Cert.ReferenceIdeal.Levels

open Cert.ReferenceIdeal Cert.ReferenceIdeal.Gen Cert.ReferenceIdeal.Value
open Idealize.ShloMosaic Idealize.ShloMosaic.TcCoe Idealize.SL.Sem Idealize.ShloMosaic.ValueIdx

variable (V : Valuation τ sig (Elt Ideal))

theorem all0 : (∀ r p, res_main_v46 V (ix2 r p) = (Cert.TreeSpec.level0 (P V) (E V)).h r p)
    ∧ (∀ r p, res_main_v44 V (ix2 r p) = (Cert.TreeSpec.level0 (P V) (E V)).c r p) :=
  ⟨level0_h V, level0_c V⟩

theorem all1 : (∀ r p, res_main_v113 V (ix2 r p) = (Cert.TreeSpec.level1 (P V) (E V)).h r p)
    ∧ (∀ r p, res_main_v111 V (ix2 r p) = (Cert.TreeSpec.level1 (P V) (E V)).c r p) :=
  ⟨level1_h V (Cert.TreeSpec.level0 (P V) (E V)) (all0 V).1 (all0 V).2,
   level1_c V (Cert.TreeSpec.level0 (P V) (E V)) (all0 V).1 (all0 V).2⟩

theorem all2 : (∀ r p, res_main_v180 V (ix2 r p) = (Cert.TreeSpec.level2 (P V) (E V)).h r p)
    ∧ (∀ r p, res_main_v178 V (ix2 r p) = (Cert.TreeSpec.level2 (P V) (E V)).c r p) :=
  ⟨level2_h V (Cert.TreeSpec.level1 (P V) (E V)) (all1 V).1 (all1 V).2,
   level2_c V (Cert.TreeSpec.level1 (P V) (E V)) (all1 V).1 (all1 V).2⟩

theorem all3 : (∀ r p, res_main_v247 V (ix2 r p) = (Cert.TreeSpec.level3 (P V) (E V)).h r p)
    ∧ (∀ r p, res_main_v245 V (ix2 r p) = (Cert.TreeSpec.level3 (P V) (E V)).c r p) :=
  ⟨level3_h V (Cert.TreeSpec.level2 (P V) (E V)) (all2 V).1 (all2 V).2,
   level3_c V (Cert.TreeSpec.level2 (P V) (E V)) (all2 V).1 (all2 V).2⟩

theorem all4 : (∀ r p, res_main_v314 V (ix2 r p) = (Cert.TreeSpec.level4 (P V) (E V)).h r p)
    ∧ (∀ r p, res_main_v312 V (ix2 r p) = (Cert.TreeSpec.level4 (P V) (E V)).c r p) :=
  ⟨level4_h V (Cert.TreeSpec.level3 (P V) (E V)) (all3 V).1 (all3 V).2,
   level4_c V (Cert.TreeSpec.level3 (P V) (E V)) (all3 V).1 (all3 V).2⟩

theorem all5 : (∀ r p, res_main_v381 V (ix2 r p) = (Cert.TreeSpec.level5 (P V) (E V)).h r p)
    ∧ (∀ r p, res_main_v379 V (ix2 r p) = (Cert.TreeSpec.level5 (P V) (E V)).c r p) :=
  ⟨level5_h V (Cert.TreeSpec.level4 (P V) (E V)) (all4 V).1 (all4 V).2,
   level5_c V (Cert.TreeSpec.level4 (P V) (E V)) (all4 V).1 (all4 V).2⟩

theorem all6 : (∀ r p, res_main_v448 V (ix2 r p) = (Cert.TreeSpec.level6 (P V) (E V)).h r p)
    ∧ (∀ r p, res_main_v446 V (ix2 r p) = (Cert.TreeSpec.level6 (P V) (E V)).c r p) :=
  ⟨level6_h V (Cert.TreeSpec.level5 (P V) (E V)) (all5 V).1 (all5 V).2,
   level6_c V (Cert.TreeSpec.level5 (P V) (E V)) (all5 V).1 (all5 V).2⟩

theorem all7 : (∀ r p, res_main_v515 V (ix2 r p) = (Cert.TreeSpec.level7 (P V) (E V)).h r p)
    ∧ (∀ r p, res_main_v513 V (ix2 r p) = (Cert.TreeSpec.level7 (P V) (E V)).c r p) :=
  ⟨level7_h V (Cert.TreeSpec.level6 (P V) (E V)) (all6 V).1 (all6 V).2,
   level7_c V (Cert.TreeSpec.level6 (P V) (E V)) (all6 V).1 (all6 V).2⟩

theorem all8 : (∀ r p, h8 V (ix2 r p) = (Cert.TreeSpec.level8 (P V) (E V)).h r p)
    ∧ (∀ r p, c8 V (ix2 r p) = (Cert.TreeSpec.level8 (P V) (E V)).c r p) :=
  ⟨level8_h V (Cert.TreeSpec.level7 (P V) (E V)) (all7 V).1 (all7 V).2,
   level8_c V (Cert.TreeSpec.level7 (P V) (E V)) (all7 V).1 (all7 V).2⟩

end Cert.ReferenceIdeal.Levels

end
-- ==== Proof.TreeSpecCongr.lean ====
/-
  The recurrence's parameters depend only on the sixteen arrays they are read from: equal arrays give equal parameters.
-/
import proofs.«167239_j63453846831535_1_alg».proof.Proof.TreeSpecArr

noncomputable section

namespace Cert.TreeSpec

open Idealize.ShloMosaic

theorem paramsOfVecs_congr {a1 b1 : (⟨2, ![300, 150]⟩ : Shape).Idx → EReal} {a2 b2 : (⟨1, ![150]⟩ : Shape).Idx → EReal} {a3 b3 : (⟨2, ![300, 150]⟩ : Shape).Idx → EReal} {a4 b4 : (⟨1, ![150]⟩ : Shape).Idx → EReal} {a5 b5 : (⟨2, ![300, 150]⟩ : Shape).Idx → EReal} {a6 b6 : (⟨1, ![150]⟩ : Shape).Idx → EReal} {a7 b7 : (⟨2, ![300, 150]⟩ : Shape).Idx → EReal} {a8 b8 : (⟨1, ![150]⟩ : Shape).Idx → EReal} {a9 b9 : (⟨2, ![150, 150]⟩ : Shape).Idx → EReal} {a10 b10 : (⟨1, ![150]⟩ : Shape).Idx → EReal} {a11 b11 : (⟨2, ![150, 150]⟩ : Shape).Idx → EReal} {a12 b12 : (⟨1, ![150]⟩ : Shape).Idx → EReal} {a13 b13 : (⟨2, ![150, 150]⟩ : Shape).Idx → EReal} {a14 b14 : (⟨1, ![150]⟩ : Shape).Idx → EReal} {a15 b15 : (⟨2, ![150, 150]⟩ : Shape).Idx → EReal} {a16 b16 : (⟨1, ![150]⟩ : Shape).Idx → EReal}
    (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) :
    paramsOfVecs a1 a2 a3 a4 a5 a6 a7 a8 a9 a10 a11 a12 a13 a14 a15 a16 = paramsOfVecs b1 b2 b3 b4 b5 b6 b7 b8 b9 b10 b11 b12 b13 b14 b15 b16 := by
  subst_vars; rfl

end Cert.TreeSpec

end
-- ==== Proof.TreeResult.lean ====
/-
  Nine arrays laid end to end along one axis depend only on the nine arrays.
-/
import Idealize.ShloMosaic.PureOps.ShapeOps
import Idealize.ShloMosaic.PureOps.Values

noncomputable section

namespace Cert.TreeSpec

open Idealize.ShloMosaic

theorem concat9_congr {α : Type} {t : Shape} {a : Fin t.rank} {s0 s1 s2 s3 s4 s5 s6 s7 s8 : Shape}
    {x0 y0 : s0.Idx → α} {x1 y1 : s1.Idx → α} {x2 y2 : s2.Idx → α} {x3 y3 : s3.Idx → α} {x4 y4 : s4.Idx → α} {x5 y5 : s5.Idx → α} {x6 y6 : s6.Idx → α} {x7 y7 : s7.Idx → α} {x8 y8 : s8.Idx → α}
    (h0 : x0 = y0) (h1 : x1 = y1) (h2 : x2 = y2) (h3 : x3 = y3) (h4 : x4 = y4) (h5 : x5 = y5) (h6 : x6 = y6) (h7 : x7 = y7) (h8 : x8 = y8)
    (hx : Shape.Concatenates (([⟨s0, x0⟩, ⟨s1, x1⟩, ⟨s2, x2⟩, ⟨s3, x3⟩, ⟨s4, x4⟩, ⟨s5, x5⟩, ⟨s6, x6⟩, ⟨s7, x7⟩, ⟨s8, x8⟩] : List ((s : Shape) × (s.Idx → α))).map (·.1)) t a)
    (hy : Shape.Concatenates (([⟨s0, y0⟩, ⟨s1, y1⟩, ⟨s2, y2⟩, ⟨s3, y3⟩, ⟨s4, y4⟩, ⟨s5, y5⟩, ⟨s6, y6⟩, ⟨s7, y7⟩, ⟨s8, y8⟩] : List ((s : Shape) × (s.Idx → α))).map (·.1)) t a) :
    concatenate t a [⟨s0, x0⟩, ⟨s1, x1⟩, ⟨s2, x2⟩, ⟨s3, x3⟩, ⟨s4, x4⟩, ⟨s5, x5⟩, ⟨s6, x6⟩, ⟨s7, x7⟩, ⟨s8, x8⟩] hx = concatenate t a [⟨s0, y0⟩, ⟨s1, y1⟩, ⟨s2, y2⟩, ⟨s3, y3⟩, ⟨s4, y4⟩, ⟨s5, y5⟩, ⟨s6, y6⟩, ⟨s7, y7⟩, ⟨s8, y8⟩] hy := by
  subst h0 h1 h2 h3 h4 h5 h6 h7 h8
  rfl

end Cert.TreeSpec

end
-- ==== Proof.lean ====
/-
  A child-sum recurrence over a complete 4-ary forest of nine levels, computed level by level from the leaves by one
  tiled kernel per level, against the same recurrence written with whole-array operations.

  Both programs terminate without a fault and leave their seventeen argument arrays unchanged: the tiled program by
  the pipeline's launch theorem for several regions, each region's body a pure function of the blocks it loads; the
  whole-array program because it is a list of host operations none of which writes an argument. On the extended reals
  the two end with equal results: level by level both hold, at node r and coordinate p, the recurrence's hidden state
  of that node (the same sums in the same order on both sides; at the leaves the whole-array program adds products with
  an all-zero matrix and an all-zero term, which are 0), and both lay the nine levels end to end in one array.
-/
import proofs.«167239_j63453846831535_1_alg».proof.Defs
import proofs.«167239_j63453846831535_1_alg».proof.Proof.Gen.Kernel
import proofs.«167239_j63453846831535_1_alg».proof.Proof.Gen.KernelIdeal
import proofs.«167239_j63453846831535_1_alg».proof.Proof.Gen.ReferenceIdeal
import proofs.«167239_j63453846831535_1_alg».proof.Proof.Gen.Pre_finite_inputs
import proofs.«167239_j63453846831535_1_alg».proof.Proof.Gen.ReferenceIdeal.Run
import proofs.«167239_j63453846831535_1_alg».proof.Proof.KBFrame
import proofs.«167239_j63453846831535_1_alg».proof.Proof.KIFrame
import proofs.«167239_j63453846831535_1_alg».proof.Proof.KIValue
import proofs.«167239_j63453846831535_1_alg».proof.Proof.RefAll
import proofs.«167239_j63453846831535_1_alg».proof.Proof.TreeSpecCongr
import proofs.«167239_j63453846831535_1_alg».proof.Proof.TreeResult
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

theorem frame_k : @Cert.frame_Kernel Cert.Kernel.Gen.facts Cert.Pre_finite_inputs.Gen.facts :=
  fun m ρ _ => Cert.Kernel.Tree.frame_all (F := Bits) m ρ

theorem frame_ki : @Cert.frame_KernelIdeal Cert.KernelIdeal.Gen.facts Cert.Pre_finite_inputs.Gen.facts :=
  fun m ρ _ => Cert.KernelIdeal.Tree.frame_all (F := Ideal) m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

theorem preserves : Cert.preserves_Kernel_KernelIdeal := trivial

/-- Both programs run, the arguments unchanged, and end with one result: the nine levels' hidden states, equal level
    by level because both are the recurrence of the same parameters and input matrix, laid end to end. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Tree.W19 m ρ c (Proc.devRef .tc Cert.KernelIdeal.main_v42), ?_, ?_⟩
  · exact (θ_run (Cert.KernelIdeal.defs (F := Ideal)) _ _).mono (fun r h c =>
      ⟨h c _ (Cert.KernelIdeal.Tree.mem_uc Cert.KernelIdeal.main_v42 (by decide)),
       (h c _ (Cert.KernelIdeal.Tree.mem_uc Cert.KernelIdeal.main_arg0 (by decide))).trans (Cert.KernelIdeal.Tree.W19_main_arg0 m ρ c),
       (h c _ (Cert.KernelIdeal.Tree.mem_uc Cert.KernelIdeal.main_arg1 (by decide))).trans (Cert.KernelIdeal.Tree.W19_main_arg1 m ρ c),
       (h c _ (Cert.KernelIdeal.Tree.mem_uc Cert.KernelIdeal.main_arg2 (by decide))).trans (Cert.KernelIdeal.Tree.W19_main_arg2 m ρ c),
       (h c _ (Cert.KernelIdeal.Tree.mem_uc Cert.KernelIdeal.main_arg3 (by decide))).trans (Cert.KernelIdeal.Tree.W19_main_arg3 m ρ c),
       (h c _ (Cert.KernelIdeal.Tree.mem_uc Cert.KernelIdeal.main_arg4 (by decide))).trans (Cert.KernelIdeal.Tree.W19_main_arg4 m ρ c),
       (h c _ (Cert.KernelIdeal.Tree.mem_uc Cert.KernelIdeal.main_arg5 (by decide))).trans (Cert.KernelIdeal.Tree.W19_main_arg5 m ρ c),
       (h c _ (Cert.KernelIdeal.Tree.mem_uc Cert.KernelIdeal.main_arg6 (by decide))).trans (Cert.KernelIdeal.Tree.W19_main_arg6 m ρ c),
       (h c _ (Cert.KernelIdeal.Tree.mem_uc Cert.KernelIdeal.main_arg7 (by decide))).trans (Cert.KernelIdeal.Tree.W19_main_arg7 m ρ c),
       (h c _ (Cert.KernelIdeal.Tree.mem_uc Cert.KernelIdeal.main_arg8 (by decide))).trans (Cert.KernelIdeal.Tree.W19_main_arg8 m ρ c),
       (h c _ (Cert.KernelIdeal.Tree.mem_uc Cert.KernelIdeal.main_arg9 (by decide))).trans (Cert.KernelIdeal.Tree.W19_main_arg9 m ρ c),
       (h c _ (Cert.KernelIdeal.Tree.mem_uc Cert.KernelIdeal.main_arg10 (by decide))).trans (Cert.KernelIdeal.Tree.W19_main_arg10 m ρ c),
       (h c _ (Cert.KernelIdeal.Tree.mem_uc Cert.KernelIdeal.main_arg11 (by decide))).trans (Cert.KernelIdeal.Tree.W19_main_arg11 m ρ c),
       (h c _ (Cert.KernelIdeal.Tree.mem_uc Cert.KernelIdeal.main_arg12 (by decide))).trans (Cert.KernelIdeal.Tree.W19_main_arg12 m ρ c),
       (h c _ (Cert.KernelIdeal.Tree.mem_uc Cert.KernelIdeal.main_arg13 (by decide))).trans (Cert.KernelIdeal.Tree.W19_main_arg13 m ρ c),
       (h c _ (Cert.KernelIdeal.Tree.mem_uc Cert.KernelIdeal.main_arg14 (by decide))).trans (Cert.KernelIdeal.Tree.W19_main_arg14 m ρ c),
       (h c _ (Cert.KernelIdeal.Tree.mem_uc Cert.KernelIdeal.main_arg15 (by decide))).trans (Cert.KernelIdeal.Tree.W19_main_arg15 m ρ c),
       (h c _ (Cert.KernelIdeal.Tree.mem_uc Cert.KernelIdeal.main_arg16 (by decide))).trans (Cert.KernelIdeal.Tree.W19_main_arg16 m ρ c)⟩)
      (Cert.KernelIdeal.Tree.run_all (F := Ideal) m ρ)
  · refine (θ_run (Cert.ReferenceIdeal.defs (F := Ideal)) _ _).mono (fun r h c => ⟨(h c).1.trans ?_, (h c).2⟩)
      (Cert.ReferenceIdeal.Value.run (F := Ideal) m' ρ')
    show _ = Cert.KernelIdeal.Tree.W19 m ρ c (Proc.devRef .tc Cert.KernelIdeal.main_v42)
    rw [Cert.KernelIdeal.Tree.result_eq m ρ c]
    have hP : Cert.ReferenceIdeal.Levels.P (launchContents m' c) = Cert.KernelIdeal.Tree.Pm m c :=
      Cert.TreeSpec.paramsOfVecs_congr (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2.1 (hagree c).2.2.2.2.2.2.2.2.2.2.2.2.2.2.1 (hagree c).2.2.2.2.2.2.2.2.2.2.2.2.2.2.2.1 (hagree c).2.2.2.2.2.2.2.2.2.2.2.2.2.2.2.2
    have hE : Cert.ReferenceIdeal.Levels.E (launchContents m' c) = Cert.KernelIdeal.Tree.Em m c := congrArg Cert.TreeSpec.embsOf (hagree c).1
    have e0 : (Cert.ReferenceIdeal.Value.res_main_v46 (F := Ideal) (launchContents m' c) : (⟨2, ![65536, 150]⟩ : Shape).Idx → EReal) = Cert.KernelIdeal.Tree.W2 m ρ c (Proc.devRef .tc Cert.KernelIdeal.main_v9_0) := by
      funext j
      obtain ⟨r, p, rfl⟩ : ∃ (r : Fin 65536) (p : Fin 150), j = ValueIdx.ix2 r p := ⟨j 0, j 1, ValueIdx.eq_ix2 j⟩
      rw [(Cert.ReferenceIdeal.Levels.all0 (launchContents m' c)).1 r p, hP, hE]
      exact ((Cert.KernelIdeal.Tree.lvl0 m ρ c).1 r p).symm
    have e1 : (Cert.ReferenceIdeal.Value.res_main_v113 (F := Ideal) (launchContents m' c) : (⟨2, ![16384, 150]⟩ : Shape).Idx → EReal) = Cert.KernelIdeal.Tree.W4 m ρ c (Proc.devRef .tc Cert.KernelIdeal.main_v13_0) := by
      funext j
      obtain ⟨r, p, rfl⟩ : ∃ (r : Fin 16384) (p : Fin 150), j = ValueIdx.ix2 r p := ⟨j 0, j 1, ValueIdx.eq_ix2 j⟩
      rw [(Cert.ReferenceIdeal.Levels.all1 (launchContents m' c)).1 r p, hP, hE]
      exact ((Cert.KernelIdeal.Tree.lvl1 m ρ c).1 r p).symm
    have e2 : (Cert.ReferenceIdeal.Value.res_main_v180 (F := Ideal) (launchContents m' c) : (⟨2, ![4096, 150]⟩ : Shape).Idx → EReal) = Cert.KernelIdeal.Tree.W6 m ρ c (Proc.devRef .tc Cert.KernelIdeal.main_v17_0) := by
      funext j
      obtain ⟨r, p, rfl⟩ : ∃ (r : Fin 4096) (p : Fin 150), j = ValueIdx.ix2 r p := ⟨j 0, j 1, ValueIdx.eq_ix2 j⟩
      rw [(Cert.ReferenceIdeal.Levels.all2 (launchContents m' c)).1 r p, hP, hE]
      exact ((Cert.KernelIdeal.Tree.lvl2 m ρ c).1 r p).symm
    have e3 : (Cert.ReferenceIdeal.Value.res_main_v247 (F := Ideal) (launchContents m' c) : (⟨2, ![1024, 150]⟩ : Shape).Idx → EReal) = Cert.KernelIdeal.Tree.W8 m ρ c (Proc.devRef .tc Cert.KernelIdeal.main_v21_0) := by
      funext j
      obtain ⟨r, p, rfl⟩ : ∃ (r : Fin 1024) (p : Fin 150), j = ValueIdx.ix2 r p := ⟨j 0, j 1, ValueIdx.eq_ix2 j⟩
      rw [(Cert.ReferenceIdeal.Levels.all3 (launchContents m' c)).1 r p, hP, hE]
      exact ((Cert.KernelIdeal.Tree.lvl3 m ρ c).1 r p).symm
    have e4 : (Cert.ReferenceIdeal.Value.res_main_v314 (F := Ideal) (launchContents m' c) : (⟨2, ![256, 150]⟩ : Shape).Idx → EReal) = Cert.KernelIdeal.Tree.W10 m ρ c (Proc.devRef .tc Cert.KernelIdeal.main_v25_0) := by
      funext j
      obtain ⟨r, p, rfl⟩ : ∃ (r : Fin 256) (p : Fin 150), j = ValueIdx.ix2 r p := ⟨j 0, j 1, ValueIdx.eq_ix2 j⟩
      rw [(Cert.ReferenceIdeal.Levels.all4 (launchContents m' c)).1 r p, hP, hE]
      exact ((Cert.KernelIdeal.Tree.lvl4 m ρ c).1 r p).symm
    have e5 : (Cert.ReferenceIdeal.Value.res_main_v381 (F := Ideal) (launchContents m' c) : (⟨2, ![64, 150]⟩ : Shape).Idx → EReal) = Cert.KernelIdeal.Tree.W12 m ρ c (Proc.devRef .tc Cert.KernelIdeal.main_v29_0) := by
      funext j
      obtain ⟨r, p, rfl⟩ : ∃ (r : Fin 64) (p : Fin 150), j = ValueIdx.ix2 r p := ⟨j 0, j 1, ValueIdx.eq_ix2 j⟩
      rw [(Cert.ReferenceIdeal.Levels.all5 (launchContents m' c)).1 r p, hP, hE]
      exact ((Cert.KernelIdeal.Tree.lvl5 m ρ c).1 r p).symm
    have e6 : (Cert.ReferenceIdeal.Value.res_main_v448 (F := Ideal) (launchContents m' c) : (⟨2, ![16, 150]⟩ : Shape).Idx → EReal) = Cert.KernelIdeal.Tree.W14 m ρ c (Proc.devRef .tc Cert.KernelIdeal.main_v33_0) := by
      funext j
      obtain ⟨r, p, rfl⟩ : ∃ (r : Fin 16) (p : Fin 150), j = ValueIdx.ix2 r p := ⟨j 0, j 1, ValueIdx.eq_ix2 j⟩
      rw [(Cert.ReferenceIdeal.Levels.all6 (launchContents m' c)).1 r p, hP, hE]
      exact ((Cert.KernelIdeal.Tree.lvl6 m ρ c).1 r p).symm
    have e7 : (Cert.ReferenceIdeal.Value.res_main_v515 (F := Ideal) (launchContents m' c) : (⟨2, ![4, 150]⟩ : Shape).Idx → EReal) = Cert.KernelIdeal.Tree.W16 m ρ c (Proc.devRef .tc Cert.KernelIdeal.main_v37_0) := by
      funext j
      obtain ⟨r, p, rfl⟩ : ∃ (r : Fin 4) (p : Fin 150), j = ValueIdx.ix2 r p := ⟨j 0, j 1, ValueIdx.eq_ix2 j⟩
      rw [(Cert.ReferenceIdeal.Levels.all7 (launchContents m' c)).1 r p, hP, hE]
      exact ((Cert.KernelIdeal.Tree.lvl7 m ρ c).1 r p).symm
    have e8 : (Cert.ReferenceIdeal.Levels.h8 (launchContents m' c) : (⟨2, ![1, 150]⟩ : Shape).Idx → EReal) = Cert.KernelIdeal.Tree.W18 m ρ c (Proc.devRef .tc Cert.KernelIdeal.main_v41_0) := by
      funext j
      obtain ⟨r, p, rfl⟩ : ∃ (r : Fin 1) (p : Fin 150), j = ValueIdx.ix2 r p := ⟨j 0, j 1, ValueIdx.eq_ix2 j⟩
      rw [(Cert.ReferenceIdeal.Levels.all8 (launchContents m' c)).1 r p, hP, hE]
      exact ((Cert.KernelIdeal.Tree.lvl8 m ρ c).1 r p).symm
    exact Cert.TreeSpec.concat9_congr e0 e1 e2 e3 e4 e5 e6 e7 e8 _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
